-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x64 : Shape := ⟨2, ![100000, 64]⟩
abbrev S1000x64 : Shape := ⟨2, ![1000, 64]⟩
abbrev S128x128 : Shape := ⟨2, ![128, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4096x200 : S_.BroadcastsInDim S4096x200 (![] : Fin 0 → Fin S4096x200.rank)
  reducesTo_S4096x200_S_d0_1 : S4096x200.ReducesTo [0, 1] S_

variable [Facts]

def fn_part1 {F : FTy → Type} [FloatOps F] (main_arg0 : IVec S4096x200 32) (main_arg1 : IVec S4096x200 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S4096x200 32 := broadcastInDim S4096x200 ![] bcast_S_S4096x200 main_c_6
  let main_v20 : IVec S4096x200 1 := cmpi .sge main_arg0 main_v19
  let main_c_7 : IVec S_ 32 := constantI S_ 32 99999#32
  let main_v21 : IVec S4096x200 32 := broadcastInDim S4096x200 ![] bcast_S_S4096x200 main_c_7
  let main_v22 : IVec S4096x200 1 := cmpi .sle main_arg0 main_v21
  let main_v23 : IVec S4096x200 1 := andi main_v20 main_v22
  let main_c_8 : IVec S_ 1 := constantI S_ 1 1#1
  let main_v24 : IVec S_ 1 := (fun x v => Host.reduce IntOp.andi x v reducesTo_S4096x200_S_d0_1 h_S_) main_v23 main_c_8
  let main_v25 : IVec S_ 1 := andi main_v18 main_v24
  let main_c_9 : IVec S_ 32 := constantI S_ 32 0#32
  let main_v26 : IVec S4096x200 32 := broadcastInDim S4096x200 ![] bcast_S_S4096x200 main_c_9
  let main_v27 : IVec S4096x200 1 := cmpi .sge main_arg1 main_v26
  let main_c_10 : IVec S_ 32 := constantI S_ 32 999#32
  let main_v28 : IVec S4096x200 32 := broadcastInDim S4096x200 ![] bcast_S_S4096x200 main_c_10
  let main_v29 : IVec S4096x200 1 := cmpi .sle main_arg1 main_v28
  let main_v30 : IVec S4096x200 1 := andi main_v27 main_v29
  let main_c_11 : IVec S_ 1 := constantI S_ 1 1#1
  let main_v31 : IVec S_ 1 := (fun x v => Host.reduce IntOp.andi x v reducesTo_S4096x200_S_d0_1 h_S_) main_v30 main_c_11
  let main_v32 : IVec S_ 1 := andi main_v25 main_v31
  main_v32

def fn {F : FTy → Type} [FloatOps F] (main_arg0 : IVec S4096x200 32) (main_arg1 : IVec S4096x200 32) (main_arg2 : FVec F S100000x64 .f32) (main_arg3 : FVec F S1000x64 .f32) (main_arg4 : FVec F S128x128 .f32) (main_arg5 : FVec F S128 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000x64 .f32 := Host.absf main_arg3
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_v13 main_v16
-- ==== Kernel.lean ====
abbrev S4096x200 : Shape := ⟨2, ![4096, 200]⟩
abbrev S100000x64 : Shape := ⟨2, ![100000, 64]⟩
abbrev S1000x64 : Shape := ⟨2, ![1000, 64]⟩
abbrev S128x128 : Shape := ⟨2, ![128, 128]⟩
abbrev S128 : Shape := ⟨1, ![128]⟩
abbrev S819200 : Shape := ⟨1, ![819200]⟩
abbrev S1x128 : Shape := ⟨2, ![1, 128]⟩
abbrev S100000x128 : Shape := ⟨2, ![100000, 128]⟩
abbrev S1000x128 : Shape := ⟨2, ![1000, 128]⟩
abbrev S2000x64 : Shape := ⟨2, ![2000, 64]⟩
abbrev S2000x128 : Shape := ⟨2, ![2000, 128]⟩
abbrev S128x64 : Shape := ⟨2, ![128, 64]⟩
abbrev S819200x128 : Shape := ⟨2, ![819200, 128]⟩
abbrev S2x512 : Shape := ⟨2, ![2, 512]⟩
abbrev S2x128x128 : Shape := ⟨3, ![2, 128, 128]⟩
abbrev S2 : Shape := ⟨1, ![2]⟩
abbrev S_ : Shape := ⟨0, ![]⟩
abbrev S1x512 : Shape := ⟨2, ![1, 512]⟩
abbrev S512 : Shape := ⟨1, ![512]⟩
abbrev S1x128x128 : Shape := ⟨3, ![1, 128, 128]⟩
abbrev S1 : Shape := ⟨1, ![1]⟩
abbrev S1x1x16 : Shape := ⟨3, ![1, 1, 16]⟩
abbrev S16 : Shape := ⟨1, ![16]⟩
abbrev S4096x200x128 : Shape := ⟨3, ![4096, 200, 128]⟩

abbrev nBuf : Table → Nat
  | .hbm => 13
  | .local .tc .vmem => 8
  | .shared => 1
  | .local .scVector .vmem => 5
  | _ => 0

abbrev bufTy : (tb : Table) → Fin (nBuf tb) → BufTy
  | .hbm, ⟨0, _⟩ => ⟨S4096x200, .i32⟩
  | .hbm, ⟨1, _⟩ => ⟨S4096x200, .i32⟩
  | .hbm, ⟨2, _⟩ => ⟨S100000x64, .f32⟩
  | .hbm, ⟨3, _⟩ => ⟨S1000x64, .f32⟩
  | .hbm, ⟨4, _⟩ => ⟨S128x128, .f32⟩
  | .hbm, ⟨5, _⟩ => ⟨S128, .f32⟩
  | .hbm, ⟨6, _⟩ => ⟨S819200, .i32⟩
  | .hbm, ⟨7, _⟩ => ⟨S819200, .i32⟩
  | .hbm, ⟨8, _⟩ => ⟨S1x128, .f32⟩
  | .hbm, ⟨9, _⟩ => ⟨S100000x128, .f32⟩
  | .hbm, ⟨10, _⟩ => ⟨S1000x128, .f32⟩
  | .hbm, ⟨11, _⟩ => ⟨S819200x128, .f32⟩
  | .hbm, ⟨12, _⟩ => ⟨S4096x200x128, .f32⟩
  | .local .tc .vmem, ⟨0, _⟩ => ⟨S2000x64, .f32⟩
  | .local .tc .vmem, ⟨1, _⟩ => ⟨S2000x64, .f32⟩
  | .local .tc .vmem, ⟨2, _⟩ => ⟨S1000x64, .f32⟩
  | .local .tc .vmem, ⟨3, _⟩ => ⟨S128x128, .f32⟩
  | .local .tc .vmem, ⟨4, _⟩ => ⟨S1x128, .f32⟩
  | .local .tc .vmem, ⟨5, _⟩ => ⟨S2000x128, .f32⟩
  | .local .tc .vmem, ⟨6, _⟩ => ⟨S2000x128, .f32⟩
  | .local .tc .vmem, ⟨7, _⟩ => ⟨S1000x128, .f32⟩
  | .shared, ⟨0, _⟩ => ⟨S1000x128, .f32⟩
  | .local .scVector .vmem, ⟨0, _⟩ => ⟨S2x512, .i32⟩
  | .local .scVector .vmem, ⟨1, _⟩ => ⟨S2x512, .i32⟩
  | .local .scVector .vmem, ⟨2, _⟩ => ⟨S2x128x128, .f32⟩
  | .local .scVector .vmem, ⟨3, _⟩ => ⟨S2x128x128, .f32⟩
  | .local .scVector .vmem, ⟨4, _⟩ => ⟨S2x128x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | _ => false

abbrev sig : RefSig :=
  ofTables nBuf rfl bufTy 5 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v3_0_scv : Ref sig .scVector := ⟨.hbm, 9, rfl⟩
abbrev main_v3_1_scv : Ref sig .scVector := ⟨.hbm, 10, rfl⟩
abbrev main_v0_scv : Ref sig .scVector := ⟨.hbm, 6, rfl⟩
abbrev main_v1_scv : Ref sig .scVector := ⟨.hbm, 7, rfl⟩
abbrev main_v4_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc1_scratch5 : Ref sig .scVector := ⟨.shared, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_5 : BitVec 32 := 0#32
  let v6 : BitVec 1 := Scalar.cmpi .ne v5 c0_i32_5
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c512_i32 : BitVec 32 := 512#32
  let v34 : BitVec 32 := Scalar.addi v2 c512_i32
  ![v34.toNat]
@[reducible] def k1_t1_loop : Scf.Loop 32 :=
  let c0_i32_43 : BitVec 32 := 0#32
  let c50_i32 : BitVec 32 := 50#32
  let v52 : BitVec 32 := Scalar.addi c0_i32_43 c50_i32
  let c1_i32_44 : BitVec 32 := 1#32
  ⟨c0_i32_43, v52, c1_i32_44⟩
def k1_off3 (k1_t1 : Fin k1_t1_loop.trips) : Fin 2 → Nat :=
  let c0_i32_43 : BitVec 32 := 0#32
  let c1_i32_44 : BitVec 32 := 1#32
  let arg17 : BitVec 32 := Scf.iv c0_i32_43 c1_i32_44 k1_t1
  let c2_i32_62 : BitVec 32 := 2#32
  let c0_i32_63 : BitVec 32 := 0#32
  let v69 : BitVec 1 := Scalar.cmpi .eq c2_i32_62 c0_i32_63
  let c1_i32_64 : BitVec 32 := 1#32
  let v70 : BitVec 32 := Scalar.select v69 c1_i32_64 c2_i32_62
  let v71 : BitVec 32 := Scalar.remsi arg17 v70
  let c0_i32_66 : BitVec 32 := 0#32
  let v73 : BitVec 1 := Scalar.cmpi .slt v71 c0_i32_66
  let c0_i32_67 : BitVec 32 := 0#32
  let v74 : BitVec 1 := Scalar.cmpi .slt v70 c0_i32_67
  let v75 : BitVec 1 := Scalar.xori v73 v74
  let c0_i32_65 : BitVec 32 := 0#32
  let v72 : BitVec 1 := Scalar.cmpi .ne v71 c0_i32_65
  let v76 : BitVec 1 := Scalar.andi v75 v72
  let v77 : BitVec 32 := Scalar.addi v71 v70
  let v78 : BitVec 32 := Scalar.select v76 v77 v71
  let c0_i32_74 : BitVec 32 := 0#32
  ![v78.toNat, 0]
def k1_cond2 (k1_t1 : Fin k1_t1_loop.trips) : BitVec 1 :=
  let c0_i32_43 : BitVec 32 := 0#32
  let c1_i32_44 : BitVec 32 := 1#32
  let arg17 : BitVec 32 := Scf.iv c0_i32_43 c1_i32_44 k1_t1
  let c4_i32 : BitVec 32 := 4#32
  let v80 : BitVec 32 := Scalar.muli arg17 c4_i32
  let c0_i32_69 : BitVec 32 := 0#32
  let v81 : BitVec 32 := Scalar.addi v80 c0_i32_69
  let c2_i32_84 : BitVec 32 := 2#32
  let v96 : BitVec 1 := Scalar.cmpi .sge v81 c2_i32_84
  let v97 : BitVec 32 := Scalar.extui v96
  let c0_i32_85 : BitVec 32 := 0#32
  let v98 : BitVec 1 := Scalar.cmpi .ne v97 c0_i32_85
  v98

def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_209 : BitVec 32 := 0#32
  ![v2.toNat, 0]
@[reducible] def k1_t2_loop : Scf.Loop 32 :=
  let c0_i32_87 : BitVec 32 := 0#32
  let c32_i32 : BitVec 32 := 32#32
  let v99 : BitVec 32 := Scalar.addi c0_i32_87 c32_i32
  let c1_i32_88 : BitVec 32 := 1#32
  ⟨c0_i32_87, v99, c1_i32_88⟩
def k1_off5 (k1_t2 : Fin k1_t2_loop.trips) (c0_i32_206 : BitVec 32) : Fin 3 → Nat :=
  let c0_i32_207 : BitVec 32 := 0#32
  let v222 : Index := Scalar.indexCast c0_i32_207
  let c0_i32_87 : BitVec 32 := 0#32
  let c1_i32_88 : BitVec 32 := 1#32
  let arg18 : BitVec 32 := Scf.iv c0_i32_87 c1_i32_88 k1_t2
  let c4_i32_205 : BitVec 32 := 4#32
  let v220 : BitVec 32 := Scalar.muli arg18 c4_i32_205
  let v221 : BitVec 32 := Scalar.addi v220 c0_i32_206
  let v223 : Index := Scalar.indexCast v221
  let c0_208 : Index := 0#32
  ![0, v223.toNat, 0]
def k1_off6 (k1_t2 : Fin k1_t2_loop.trips) (c0_i32_206 : BitVec 32) : Fin 3 → Nat :=
  let c0_i32_213 : BitVec 32 := 0#32
  let v236 : Index := Scalar.indexCast c0_i32_213
  let c0_i32_87 : BitVec 32 := 0#32
  let c1_i32_88 : BitVec 32 := 1#32
  let arg18 : BitVec 32 := Scf.iv c0_i32_87 c1_i32_88 k1_t2
  let c4_i32_205 : BitVec 32 := 4#32
  let v220 : BitVec 32 := Scalar.muli arg18 c4_i32_205
  let v221 : BitVec 32 := Scalar.addi v220 c0_i32_206
  let v237 : Index := Scalar.indexCast v221
  let c16 : Index := 16#32
  ![0, v237.toNat, 16]
def k1_off7 (k1_t2 : Fin k1_t2_loop.trips) (c0_i32_206 : BitVec 32) : Fin 3 → Nat :=
  let c0_i32_218 : BitVec 32 := 0#32
  let v250 : Index := Scalar.indexCast c0_i32_218
  let c0_i32_87 : BitVec 32 := 0#32
  let c1_i32_88 : BitVec 32 := 1#32
  let arg18 : BitVec 32 := Scf.iv c0_i32_87 c1_i32_88 k1_t2
  let c4_i32_205 : BitVec 32 := 4#32
  let v220 : BitVec 32 := Scalar.muli arg18 c4_i32_205
  let v221 : BitVec 32 := Scalar.addi v220 c0_i32_206
  let v251 : Index := Scalar.indexCast v221
  let c32 : Index := 32#32
  ![0, v251.toNat, 32]
def k1_off8 (k1_t2 : Fin k1_t2_loop.trips) (c0_i32_206 : BitVec 32) : Fin 3 → Nat :=
  let c0_i32_223 : BitVec 32 := 0#32
  let v264 : Index := Scalar.indexCast c0_i32_223
  let c0_i32_87 : BitVec 32 := 0#32
  let c1_i32_88 : BitVec 32 := 1#32
  let arg18 : BitVec 32 := Scf.iv c0_i32_87 c1_i32_88 k1_t2
  let c4_i32_205 : BitVec 32 := 4#32
  let v220 : BitVec 32 := Scalar.muli arg18 c4_i32_205
  let v221 : BitVec 32 := Scalar.addi v220 c0_i32_206
  let v265 : Index := Scalar.indexCast v221
  let c48 : Index := 48#32
  ![0, v265.toNat, 48]
def k1_off9 (k1_t2 : Fin k1_t2_loop.trips) (c0_i32_206 : BitVec 32) : Fin 3 → Nat :=
  let c0_i32_228 : BitVec 32 := 0#32
  let v278 : Index := Scalar.indexCast c0_i32_228
  let c0_i32_87 : BitVec 32 := 0#32
  let c1_i32_88 : BitVec 32 := 1#32
  let arg18 : BitVec 32 := Scf.iv c0_i32_87 c1_i32_88 k1_t2
  let c4_i32_205 : BitVec 32 := 4#32
  let v220 : BitVec 32 := Scalar.muli arg18 c4_i32_205
  let v221 : BitVec 32 := Scalar.addi v220 c0_i32_206
  let v279 : Index := Scalar.indexCast v221
  let c64 : Index := 64#32
  ![0, v279.toNat, 64]
def k1_off10 (k1_t2 : Fin k1_t2_loop.trips) (c0_i32_206 : BitVec 32) : Fin 3 → Nat :=
  let c0_i32_233 : BitVec 32 := 0#32
  let v292 : Index := Scalar.indexCast c0_i32_233
  let c0_i32_87 : BitVec 32 := 0#32
  let c1_i32_88 : BitVec 32 := 1#32
  let arg18 : BitVec 32 := Scf.iv c0_i32_87 c1_i32_88 k1_t2
  let c4_i32_205 : BitVec 32 := 4#32
  let v220 : BitVec 32 := Scalar.muli arg18 c4_i32_205
  let v221 : BitVec 32 := Scalar.addi v220 c0_i32_206
  let v293 : Index := Scalar.indexCast v221
  let c80 : Index := 80#32
  ![0, v293.toNat, 80]
def k1_off11 (k1_t2 : Fin k1_t2_loop.trips) (c0_i32_206 : BitVec 32) : Fin 3 → Nat :=
  let c0_i32_238 : BitVec 32 := 0#32
  let v306 : Index := Scalar.indexCast c0_i32_238
  let c0_i32_87 : BitVec 32 := 0#32
  let c1_i32_88 : BitVec 32 := 1#32
  let arg18 : BitVec 32 := Scf.iv c0_i32_87 c1_i32_88 k1_t2
  let c4_i32_205 : BitVec 32 := 4#32
  let v220 : BitVec 32 := Scalar.muli arg18 c4_i32_205
  let v221 : BitVec 32 := Scalar.addi v220 c0_i32_206
  let v307 : Index := Scalar.indexCast v221
  let c96 : Index := 96#32
  ![0, v307.toNat, 96]
def k1_off12 (k1_t2 : Fin k1_t2_loop.trips) (c0_i32_206 : BitVec 32) : Fin 3 → Nat :=
  let c0_i32_243 : BitVec 32 := 0#32
  let v320 : Index := Scalar.indexCast c0_i32_243
  let c0_i32_87 : BitVec 32 := 0#32
  let c1_i32_88 : BitVec 32 := 1#32
  let arg18 : BitVec 32 := Scf.iv c0_i32_87 c1_i32_88 k1_t2
  let c4_i32_205 : BitVec 32 := 4#32
  let v220 : BitVec 32 := Scalar.muli arg18 c4_i32_205
  let v221 : BitVec 32 := Scalar.addi v220 c0_i32_206
  let v321 : Index := Scalar.indexCast v221
  let c112 : Index := 112#32
  ![0, v321.toNat, 112]
def k1_off13 (i : grid1.Coords) (k1_t1 : Fin k1_t1_loop.trips) (c0_i32_69 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_43 : BitVec 32 := 0#32
  let c1_i32_44 : BitVec 32 := 1#32
  let arg17 : BitVec 32 := Scf.iv c0_i32_43 c1_i32_44 k1_t1
  let c4_i32 : BitVec 32 := 4#32
  let v80 : BitVec 32 := Scalar.muli arg17 c4_i32
  let v81 : BitVec 32 := Scalar.addi v80 c0_i32_69
  let c128_i32_90 : BitVec 32 := 128#32
  let v100 : BitVec 32 := Scalar.muli v81 c128_i32_90
  let v101 : BitVec 32 := Scalar.addi v2 v100
  let c0_i32_95 : BitVec 32 := 0#32
  ![v101.toNat, 0]
def k1_cond3 (k1_t1 : Fin k1_t1_loop.trips) : BitVec 1 :=
  let c0_i32_43 : BitVec 32 := 0#32
  let c1_i32_44 : BitVec 32 := 1#32
  let arg17 : BitVec 32 := Scf.iv c0_i32_43 c1_i32_44 k1_t1
  let c4_i32 : BitVec 32 := 4#32
  let v80 : BitVec 32 := Scalar.muli arg17 c4_i32
  let c0_i32_69 : BitVec 32 := 0#32
  let v81 : BitVec 32 := Scalar.addi v80 c0_i32_69
  let c2_i32_99 : BitVec 32 := 2#32
  let v110 : BitVec 32 := Scalar.addi v81 c2_i32_99
  let c200_i32 : BitVec 32 := 200#32
  let v111 : BitVec 1 := Scalar.cmpi .slt v110 c200_i32
  let v112 : BitVec 32 := Scalar.extui v111
  let c0_i32_100 : BitVec 32 := 0#32
  let v113 : BitVec 1 := Scalar.cmpi .ne v112 c0_i32_100
  v113

def k1_off14 (k1_t1 : Fin k1_t1_loop.trips) : Fin 2 → Nat :=
  let c0_i32_43 : BitVec 32 := 0#32
  let c1_i32_44 : BitVec 32 := 1#32
  let arg17 : BitVec 32 := Scf.iv c0_i32_43 c1_i32_44 k1_t1
  let c2_i32_62 : BitVec 32 := 2#32
  let c0_i32_63 : BitVec 32 := 0#32
  let v69 : BitVec 1 := Scalar.cmpi .eq c2_i32_62 c0_i32_63
  let c1_i32_64 : BitVec 32 := 1#32
  let v70 : BitVec 32 := Scalar.select v69 c1_i32_64 c2_i32_62
  let v71 : BitVec 32 := Scalar.remsi arg17 v70
  let c0_i32_66 : BitVec 32 := 0#32
  let v73 : BitVec 1 := Scalar.cmpi .slt v71 c0_i32_66
  let c0_i32_67 : BitVec 32 := 0#32
  let v74 : BitVec 1 := Scalar.cmpi .slt v70 c0_i32_67
  let v75 : BitVec 1 := Scalar.xori v73 v74
  let c0_i32_65 : BitVec 32 := 0#32
  let v72 : BitVec 1 := Scalar.cmpi .ne v71 c0_i32_65
  let v76 : BitVec 1 := Scalar.andi v75 v72
  let v77 : BitVec 32 := Scalar.addi v71 v70
  let v78 : BitVec 32 := Scalar.select v76 v77 v71
  let c256_i32_209 : BitVec 32 := 256#32
  ![v78.toNat, 256]
def k1_off15 (k1_t1 : Fin k1_t1_loop.trips) : Fin 2 → Nat :=
  let c0_i32_43 : BitVec 32 := 0#32
  let c1_i32_44 : BitVec 32 := 1#32
  let arg17 : BitVec 32 := Scf.iv c0_i32_43 c1_i32_44 k1_t1
  let c2_i32_62 : BitVec 32 := 2#32
  let c0_i32_63 : BitVec 32 := 0#32
  let v69 : BitVec 1 := Scalar.cmpi .eq c2_i32_62 c0_i32_63
  let c1_i32_64 : BitVec 32 := 1#32
  let v70 : BitVec 32 := Scalar.select v69 c1_i32_64 c2_i32_62
  let v71 : BitVec 32 := Scalar.remsi arg17 v70
  let c0_i32_66 : BitVec 32 := 0#32
  let v73 : BitVec 1 := Scalar.cmpi .slt v71 c0_i32_66
  let c0_i32_67 : BitVec 32 := 0#32
  let v74 : BitVec 1 := Scalar.cmpi .slt v70 c0_i32_67
  let v75 : BitVec 1 := Scalar.xori v73 v74
  let c0_i32_65 : BitVec 32 := 0#32
  let v72 : BitVec 1 := Scalar.cmpi .ne v71 c0_i32_65
  let v76 : BitVec 1 := Scalar.andi v75 v72
  let v77 : BitVec 32 := Scalar.addi v71 v70
  let v78 : BitVec 32 := Scalar.select v76 v77 v71
  let c128_i32_107 : BitVec 32 := 128#32
  ![v78.toNat, 128]
def k1_cond4 (k1_t1 : Fin k1_t1_loop.trips) : BitVec 1 :=
  let c0_i32_43 : BitVec 32 := 0#32
  let c1_i32_44 : BitVec 32 := 1#32
  let arg17 : BitVec 32 := Scf.iv c0_i32_43 c1_i32_44 k1_t1
  let c4_i32_101 : BitVec 32 := 4#32
  let v114 : BitVec 32 := Scalar.muli arg17 c4_i32_101
  let c1_i32_102 : BitVec 32 := 1#32
  let v115 : BitVec 32 := Scalar.addi v114 c1_i32_102
  let c2_i32_117 : BitVec 32 := 2#32
  let v130 : BitVec 1 := Scalar.cmpi .sge v115 c2_i32_117
  let v131 : BitVec 32 := Scalar.extui v130
  let c0_i32_118 : BitVec 32 := 0#32
  let v132 : BitVec 1 := Scalar.cmpi .ne v131 c0_i32_118
  v132

def k1_off16 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_209 : BitVec 32 := 0#32
  ![v2.toNat, 0]
@[reducible] def k1_t3_loop : Scf.Loop 32 :=
  let c0_i32_120 : BitVec 32 := 0#32
  let c32_i32_121 : BitVec 32 := 32#32
  let v133 : BitVec 32 := Scalar.addi c0_i32_120 c32_i32_121
  let c1_i32_122 : BitVec 32 := 1#32
  ⟨c0_i32_120, v133, c1_i32_122⟩
def k1_off17 (k1_t3 : Fin k1_t3_loop.trips) (c0_i32_206 : BitVec 32) : Fin 3 → Nat :=
  let c1_i32_207 : BitVec 32 := 1#32
  let v222 : Index := Scalar.indexCast c1_i32_207
  let c0_i32_120 : BitVec 32 := 0#32
  let c1_i32_122 : BitVec 32 := 1#32
  let arg18 : BitVec 32 := Scf.iv c0_i32_120 c1_i32_122 k1_t3
  let c4_i32_205 : BitVec 32 := 4#32
  let v220 : BitVec 32 := Scalar.muli arg18 c4_i32_205
  let v221 : BitVec 32 := Scalar.addi v220 c0_i32_206
  let v223 : Index := Scalar.indexCast v221
  let c0_208 : Index := 0#32
  ![1, v223.toNat, 0]
def k1_off18 (k1_t3 : Fin k1_t3_loop.trips) (c0_i32_206 : BitVec 32) : Fin 3 → Nat :=
  let c1_i32_213 : BitVec 32 := 1#32
  let v236 : Index := Scalar.indexCast c1_i32_213
  let c0_i32_120 : BitVec 32 := 0#32
  let c1_i32_122 : BitVec 32 := 1#32
  let arg18 : BitVec 32 := Scf.iv c0_i32_120 c1_i32_122 k1_t3
  let c4_i32_205 : BitVec 32 := 4#32
  let v220 : BitVec 32 := Scalar.muli arg18 c4_i32_205
  let v221 : BitVec 32 := Scalar.addi v220 c0_i32_206
  let v237 : Index := Scalar.indexCast v221
  let c16 : Index := 16#32
  ![1, v237.toNat, 16]
def k1_off19 (k1_t3 : Fin k1_t3_loop.trips) (c0_i32_206 : BitVec 32) : Fin 3 → Nat :=
  let c1_i32_218 : BitVec 32 := 1#32
  let v250 : Index := Scalar.indexCast c1_i32_218
  let c0_i32_120 : BitVec 32 := 0#32
  let c1_i32_122 : BitVec 32 := 1#32
  let arg18 : BitVec 32 := Scf.iv c0_i32_120 c1_i32_122 k1_t3
  let c4_i32_205 : BitVec 32 := 4#32
  let v220 : BitVec 32 := Scalar.muli arg18 c4_i32_205
  let v221 : BitVec 32 := Scalar.addi v220 c0_i32_206
  let v251 : Index := Scalar.indexCast v221
  let c32 : Index := 32#32
  ![1, v251.toNat, 32]
def k1_off20 (k1_t3 : Fin k1_t3_loop.trips) (c0_i32_206 : BitVec 32) : Fin 3 → Nat :=
  let c1_i32_223 : BitVec 32 := 1#32
  let v264 : Index := Scalar.indexCast c1_i32_223
  let c0_i32_120 : BitVec 32 := 0#32
  let c1_i32_122 : BitVec 32 := 1#32
  let arg18 : BitVec 32 := Scf.iv c0_i32_120 c1_i32_122 k1_t3
  let c4_i32_205 : BitVec 32 := 4#32
  let v220 : BitVec 32 := Scalar.muli arg18 c4_i32_205
  let v221 : BitVec 32 := Scalar.addi v220 c0_i32_206
  let v265 : Index := Scalar.indexCast v221
  let c48 : Index := 48#32
  ![1, v265.toNat, 48]
def k1_off21 (k1_t3 : Fin k1_t3_loop.trips) (c0_i32_206 : BitVec 32) : Fin 3 → Nat :=
  let c1_i32_228 : BitVec 32 := 1#32
  let v278 : Index := Scalar.indexCast c1_i32_228
  let c0_i32_120 : BitVec 32 := 0#32
  let c1_i32_122 : BitVec 32 := 1#32
  let arg18 : BitVec 32 := Scf.iv c0_i32_120 c1_i32_122 k1_t3
  let c4_i32_205 : BitVec 32 := 4#32
  let v220 : BitVec 32 := Scalar.muli arg18 c4_i32_205
  let v221 : BitVec 32 := Scalar.addi v220 c0_i32_206
  let v279 : Index := Scalar.indexCast v221
  let c64 : Index := 64#32
  ![1, v279.toNat, 64]
def k1_off22 (k1_t3 : Fin k1_t3_loop.trips) (c0_i32_206 : BitVec 32) : Fin 3 → Nat :=
  let c1_i32_233 : BitVec 32 := 1#32
  let v292 : Index := Scalar.indexCast c1_i32_233
  let c0_i32_120 : BitVec 32 := 0#32
  let c1_i32_122 : BitVec 32 := 1#32
  let arg18 : BitVec 32 := Scf.iv c0_i32_120 c1_i32_122 k1_t3
  let c4_i32_205 : BitVec 32 := 4#32
  let v220 : BitVec 32 := Scalar.muli arg18 c4_i32_205
  let v221 : BitVec 32 := Scalar.addi v220 c0_i32_206
  let v293 : Index := Scalar.indexCast v221
  let c80 : Index := 80#32
  ![1, v293.toNat, 80]
def k1_off23 (k1_t3 : Fin k1_t3_loop.trips) (c0_i32_206 : BitVec 32) : Fin 3 → Nat :=
  let c1_i32_238 : BitVec 32 := 1#32
  let v306 : Index := Scalar.indexCast c1_i32_238
  let c0_i32_120 : BitVec 32 := 0#32
  let c1_i32_122 : BitVec 32 := 1#32
  let arg18 : BitVec 32 := Scf.iv c0_i32_120 c1_i32_122 k1_t3
  let c4_i32_205 : BitVec 32 := 4#32
  let v220 : BitVec 32 := Scalar.muli arg18 c4_i32_205
  let v221 : BitVec 32 := Scalar.addi v220 c0_i32_206
  let v307 : Index := Scalar.indexCast v221
  let c96 : Index := 96#32
  ![1, v307.toNat, 96]
def k1_off24 (k1_t3 : Fin k1_t3_loop.trips) (c0_i32_206 : BitVec 32) : Fin 3 → Nat :=
  let c1_i32_243 : BitVec 32 := 1#32
  let v320 : Index := Scalar.indexCast c1_i32_243
  let c0_i32_120 : BitVec 32 := 0#32
  let c1_i32_122 : BitVec 32 := 1#32
  let arg18 : BitVec 32 := Scf.iv c0_i32_120 c1_i32_122 k1_t3
  let c4_i32_205 : BitVec 32 := 4#32
  let v220 : BitVec 32 := Scalar.muli arg18 c4_i32_205
  let v221 : BitVec 32 := Scalar.addi v220 c0_i32_206
  let v321 : Index := Scalar.indexCast v221
  let c112 : Index := 112#32
  ![1, v321.toNat, 112]
def k1_cond5 (k1_t1 : Fin k1_t1_loop.trips) : BitVec 1 :=
  let c0_i32_43 : BitVec 32 := 0#32
  let c1_i32_44 : BitVec 32 := 1#32
  let arg17 : BitVec 32 := Scf.iv c0_i32_43 c1_i32_44 k1_t1
  let c4_i32_101 : BitVec 32 := 4#32
  let v114 : BitVec 32 := Scalar.muli arg17 c4_i32_101
  let c1_i32_102 : BitVec 32 := 1#32
  let v115 : BitVec 32 := Scalar.addi v114 c1_i32_102
  let c2_i32_133 : BitVec 32 := 2#32
  let v144 : BitVec 32 := Scalar.addi v115 c2_i32_133
  let c200_i32_134 : BitVec 32 := 200#32
  let v145 : BitVec 1 := Scalar.cmpi .slt v144 c200_i32_134
  let v146 : BitVec 32 := Scalar.extui v145
  let c0_i32_135 : BitVec 32 := 0#32
  let v147 : BitVec 1 := Scalar.cmpi .ne v146 c0_i32_135
  v147

def k1_off25 (k1_t1 : Fin k1_t1_loop.trips) : Fin 2 → Nat :=
  let c0_i32_43 : BitVec 32 := 0#32
  let c1_i32_44 : BitVec 32 := 1#32
  let arg17 : BitVec 32 := Scf.iv c0_i32_43 c1_i32_44 k1_t1
  let c2_i32_62 : BitVec 32 := 2#32
  let c0_i32_63 : BitVec 32 := 0#32
  let v69 : BitVec 1 := Scalar.cmpi .eq c2_i32_62 c0_i32_63
  let c1_i32_64 : BitVec 32 := 1#32
  let v70 : BitVec 32 := Scalar.select v69 c1_i32_64 c2_i32_62
  let v71 : BitVec 32 := Scalar.remsi arg17 v70
  let c0_i32_66 : BitVec 32 := 0#32
  let v73 : BitVec 1 := Scalar.cmpi .slt v71 c0_i32_66
  let c0_i32_67 : BitVec 32 := 0#32
  let v74 : BitVec 1 := Scalar.cmpi .slt v70 c0_i32_67
  let v75 : BitVec 1 := Scalar.xori v73 v74
  let c0_i32_65 : BitVec 32 := 0#32
  let v72 : BitVec 1 := Scalar.cmpi .ne v71 c0_i32_65
  let v76 : BitVec 1 := Scalar.andi v75 v72
  let v77 : BitVec 32 := Scalar.addi v71 v70
  let v78 : BitVec 32 := Scalar.select v76 v77 v71
  let c384_i32_209 : BitVec 32 := 384#32
  ![v78.toNat, 384]
def k1_off26 (k1_t1 : Fin k1_t1_loop.trips) : Fin 2 → Nat :=
  let c0_i32_43 : BitVec 32 := 0#32
  let c1_i32_44 : BitVec 32 := 1#32
  let arg17 : BitVec 32 := Scf.iv c0_i32_43 c1_i32_44 k1_t1
  let c2_i32_62 : BitVec 32 := 2#32
  let c0_i32_63 : BitVec 32 := 0#32
  let v69 : BitVec 1 := Scalar.cmpi .eq c2_i32_62 c0_i32_63
  let c1_i32_64 : BitVec 32 := 1#32
  let v70 : BitVec 32 := Scalar.select v69 c1_i32_64 c2_i32_62
  let v71 : BitVec 32 := Scalar.remsi arg17 v70
  let c0_i32_66 : BitVec 32 := 0#32
  let v73 : BitVec 1 := Scalar.cmpi .slt v71 c0_i32_66
  let c0_i32_67 : BitVec 32 := 0#32
  let v74 : BitVec 1 := Scalar.cmpi .slt v70 c0_i32_67
  let v75 : BitVec 1 := Scalar.xori v73 v74
  let c0_i32_65 : BitVec 32 := 0#32
  let v72 : BitVec 1 := Scalar.cmpi .ne v71 c0_i32_65
  let v76 : BitVec 1 := Scalar.andi v75 v72
  let v77 : BitVec 32 := Scalar.addi v71 v70
  let v78 : BitVec 32 := Scalar.select v76 v77 v71
  let c256_i32 : BitVec 32 := 256#32
  ![v78.toNat, 256]
def k1_cond6 (k1_t1 : Fin k1_t1_loop.trips) : BitVec 1 :=
  let c0_i32_43 : BitVec 32 := 0#32
  let c1_i32_44 : BitVec 32 := 1#32
  let arg17 : BitVec 32 := Scf.iv c0_i32_43 c1_i32_44 k1_t1
  let c4_i32_136 : BitVec 32 := 4#32
  let v148 : BitVec 32 := Scalar.muli arg17 c4_i32_136
  let c2_i32_137 : BitVec 32 := 2#32
  let v149 : BitVec 32 := Scalar.addi v148 c2_i32_137
  let c2_i32_151 : BitVec 32 := 2#32
  let v164 : BitVec 1 := Scalar.cmpi .sge v149 c2_i32_151
  let v165 : BitVec 32 := Scalar.extui v164
  let c0_i32_152 : BitVec 32 := 0#32
  let v166 : BitVec 1 := Scalar.cmpi .ne v165 c0_i32_152
  v166

def k1_off27 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_209 : BitVec 32 := 0#32
  ![v2.toNat, 0]
@[reducible] def k1_t4_loop : Scf.Loop 32 :=
  let c0_i32_154 : BitVec 32 := 0#32
  let c32_i32_155 : BitVec 32 := 32#32
  let v167 : BitVec 32 := Scalar.addi c0_i32_154 c32_i32_155
  let c1_i32_156 : BitVec 32 := 1#32
  ⟨c0_i32_154, v167, c1_i32_156⟩
def k1_off28 (k1_t4 : Fin k1_t4_loop.trips) (c0_i32_206 : BitVec 32) : Fin 3 → Nat :=
  let c0_i32_207 : BitVec 32 := 0#32
  let v222 : Index := Scalar.indexCast c0_i32_207
  let c0_i32_154 : BitVec 32 := 0#32
  let c1_i32_156 : BitVec 32 := 1#32
  let arg18 : BitVec 32 := Scf.iv c0_i32_154 c1_i32_156 k1_t4
  let c4_i32_205 : BitVec 32 := 4#32
  let v220 : BitVec 32 := Scalar.muli arg18 c4_i32_205
  let v221 : BitVec 32 := Scalar.addi v220 c0_i32_206
  let v223 : Index := Scalar.indexCast v221
  let c0_208 : Index := 0#32
  ![0, v223.toNat, 0]
def k1_off29 (k1_t4 : Fin k1_t4_loop.trips) (c0_i32_206 : BitVec 32) : Fin 3 → Nat :=
  let c0_i32_213 : BitVec 32 := 0#32
  let v236 : Index := Scalar.indexCast c0_i32_213
  let c0_i32_154 : BitVec 32 := 0#32
  let c1_i32_156 : BitVec 32 := 1#32
  let arg18 : BitVec 32 := Scf.iv c0_i32_154 c1_i32_156 k1_t4
  let c4_i32_205 : BitVec 32 := 4#32
  let v220 : BitVec 32 := Scalar.muli arg18 c4_i32_205
  let v221 : BitVec 32 := Scalar.addi v220 c0_i32_206
  let v237 : Index := Scalar.indexCast v221
  let c16 : Index := 16#32
  ![0, v237.toNat, 16]
def k1_off30 (k1_t4 : Fin k1_t4_loop.trips) (c0_i32_206 : BitVec 32) : Fin 3 → Nat :=
  let c0_i32_218 : BitVec 32 := 0#32
  let v250 : Index := Scalar.indexCast c0_i32_218
  let c0_i32_154 : BitVec 32 := 0#32
  let c1_i32_156 : BitVec 32 := 1#32
  let arg18 : BitVec 32 := Scf.iv c0_i32_154 c1_i32_156 k1_t4
  let c4_i32_205 : BitVec 32 := 4#32
  let v220 : BitVec 32 := Scalar.muli arg18 c4_i32_205
  let v221 : BitVec 32 := Scalar.addi v220 c0_i32_206
  let v251 : Index := Scalar.indexCast v221
  let c32 : Index := 32#32
  ![0, v251.toNat, 32]
def k1_off31 (k1_t4 : Fin k1_t4_loop.trips) (c0_i32_206 : BitVec 32) : Fin 3 → Nat :=
  let c0_i32_223 : BitVec 32 := 0#32
  let v264 : Index := Scalar.indexCast c0_i32_223
  let c0_i32_154 : BitVec 32 := 0#32
  let c1_i32_156 : BitVec 32 := 1#32
  let arg18 : BitVec 32 := Scf.iv c0_i32_154 c1_i32_156 k1_t4
  let c4_i32_205 : BitVec 32 := 4#32
  let v220 : BitVec 32 := Scalar.muli arg18 c4_i32_205
  let v221 : BitVec 32 := Scalar.addi v220 c0_i32_206
  let v265 : Index := Scalar.indexCast v221
  let c48 : Index := 48#32
  ![0, v265.toNat, 48]
def k1_off32 (k1_t4 : Fin k1_t4_loop.trips) (c0_i32_206 : BitVec 32) : Fin 3 → Nat :=
  let c0_i32_228 : BitVec 32 := 0#32
  let v278 : Index := Scalar.indexCast c0_i32_228
  let c0_i32_154 : BitVec 32 := 0#32
  let c1_i32_156 : BitVec 32 := 1#32
  let arg18 : BitVec 32 := Scf.iv c0_i32_154 c1_i32_156 k1_t4
  let c4_i32_205 : BitVec 32 := 4#32
  let v220 : BitVec 32 := Scalar.muli arg18 c4_i32_205
  let v221 : BitVec 32 := Scalar.addi v220 c0_i32_206
  let v279 : Index := Scalar.indexCast v221
  let c64 : Index := 64#32
  ![0, v279.toNat, 64]
def k1_off33 (k1_t4 : Fin k1_t4_loop.trips) (c0_i32_206 : BitVec 32) : Fin 3 → Nat :=
  let c0_i32_233 : BitVec 32 := 0#32
  let v292 : Index := Scalar.indexCast c0_i32_233
  let c0_i32_154 : BitVec 32 := 0#32
  let c1_i32_156 : BitVec 32 := 1#32
  let arg18 : BitVec 32 := Scf.iv c0_i32_154 c1_i32_156 k1_t4
  let c4_i32_205 : BitVec 32 := 4#32
  let v220 : BitVec 32 := Scalar.muli arg18 c4_i32_205
  let v221 : BitVec 32 := Scalar.addi v220 c0_i32_206
  let v293 : Index := Scalar.indexCast v221
  let c80 : Index := 80#32
  ![0, v293.toNat, 80]
def k1_off34 (k1_t4 : Fin k1_t4_loop.trips) (c0_i32_206 : BitVec 32) : Fin 3 → Nat :=
  let c0_i32_238 : BitVec 32 := 0#32
  let v306 : Index := Scalar.indexCast c0_i32_238
  let c0_i32_154 : BitVec 32 := 0#32
  let c1_i32_156 : BitVec 32 := 1#32
  let arg18 : BitVec 32 := Scf.iv c0_i32_154 c1_i32_156 k1_t4
  let c4_i32_205 : BitVec 32 := 4#32
  let v220 : BitVec 32 := Scalar.muli arg18 c4_i32_205
  let v221 : BitVec 32 := Scalar.addi v220 c0_i32_206
  let v307 : Index := Scalar.indexCast v221
  let c96 : Index := 96#32
  ![0, v307.toNat, 96]
def k1_off35 (k1_t4 : Fin k1_t4_loop.trips) (c0_i32_206 : BitVec 32) : Fin 3 → Nat :=
  let c0_i32_243 : BitVec 32 := 0#32
  let v320 : Index := Scalar.indexCast c0_i32_243
  let c0_i32_154 : BitVec 32 := 0#32
  let c1_i32_156 : BitVec 32 := 1#32
  let arg18 : BitVec 32 := Scf.iv c0_i32_154 c1_i32_156 k1_t4
  let c4_i32_205 : BitVec 32 := 4#32
  let v220 : BitVec 32 := Scalar.muli arg18 c4_i32_205
  let v221 : BitVec 32 := Scalar.addi v220 c0_i32_206
  let v321 : Index := Scalar.indexCast v221
  let c112 : Index := 112#32
  ![0, v321.toNat, 112]
def k1_cond7 (k1_t1 : Fin k1_t1_loop.trips) : BitVec 1 :=
  let c0_i32_43 : BitVec 32 := 0#32
  let c1_i32_44 : BitVec 32 := 1#32
  let arg17 : BitVec 32 := Scf.iv c0_i32_43 c1_i32_44 k1_t1
  let c4_i32_136 : BitVec 32 := 4#32
  let v148 : BitVec 32 := Scalar.muli arg17 c4_i32_136
  let c2_i32_137 : BitVec 32 := 2#32
  let v149 : BitVec 32 := Scalar.addi v148 c2_i32_137
  let c2_i32_167 : BitVec 32 := 2#32
  let v178 : BitVec 32 := Scalar.addi v149 c2_i32_167
  let c200_i32_168 : BitVec 32 := 200#32
  let v179 : BitVec 1 := Scalar.cmpi .slt v178 c200_i32_168
  let v180 : BitVec 32 := Scalar.extui v179
  let c0_i32_169 : BitVec 32 := 0#32
  let v181 : BitVec 1 := Scalar.cmpi .ne v180 c0_i32_169
  v181

def k1_off36 (k1_t1 : Fin k1_t1_loop.trips) : Fin 2 → Nat :=
  let c1_i32_68 : BitVec 32 := 1#32
  let c0_i32_43 : BitVec 32 := 0#32
  let c1_i32_44 : BitVec 32 := 1#32
  let arg17 : BitVec 32 := Scf.iv c0_i32_43 c1_i32_44 k1_t1
  let c2_i32_62 : BitVec 32 := 2#32
  let c0_i32_63 : BitVec 32 := 0#32
  let v69 : BitVec 1 := Scalar.cmpi .eq c2_i32_62 c0_i32_63
  let c1_i32_64 : BitVec 32 := 1#32
  let v70 : BitVec 32 := Scalar.select v69 c1_i32_64 c2_i32_62
  let v71 : BitVec 32 := Scalar.remsi arg17 v70
  let c0_i32_66 : BitVec 32 := 0#32
  let v73 : BitVec 1 := Scalar.cmpi .slt v71 c0_i32_66
  let c0_i32_67 : BitVec 32 := 0#32
  let v74 : BitVec 1 := Scalar.cmpi .slt v70 c0_i32_67
  let v75 : BitVec 1 := Scalar.xori v73 v74
  let c0_i32_65 : BitVec 32 := 0#32
  let v72 : BitVec 1 := Scalar.cmpi .ne v71 c0_i32_65
  let v76 : BitVec 1 := Scalar.andi v75 v72
  let v77 : BitVec 32 := Scalar.addi v71 v70
  let v78 : BitVec 32 := Scalar.select v76 v77 v71
  let v79 : BitVec 32 := Scalar.subi c1_i32_68 v78
  let c0_i32_205 : BitVec 32 := 0#32
  ![v79.toNat, 0]
def k1_off37 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
def k1_off38 (k1_t1 : Fin k1_t1_loop.trips) : Fin 1 → Nat :=
  let c1_i32_68 : BitVec 32 := 1#32
  let c0_i32_43 : BitVec 32 := 0#32
  let c1_i32_44 : BitVec 32 := 1#32
  let arg17 : BitVec 32 := Scf.iv c0_i32_43 c1_i32_44 k1_t1
  let c2_i32_62 : BitVec 32 := 2#32
  let c0_i32_63 : BitVec 32 := 0#32
  let v69 : BitVec 1 := Scalar.cmpi .eq c2_i32_62 c0_i32_63
  let c1_i32_64 : BitVec 32 := 1#32
  let v70 : BitVec 32 := Scalar.select v69 c1_i32_64 c2_i32_62
  let v71 : BitVec 32 := Scalar.remsi arg17 v70
  let c0_i32_66 : BitVec 32 := 0#32
  let v73 : BitVec 1 := Scalar.cmpi .slt v71 c0_i32_66
  let c0_i32_67 : BitVec 32 := 0#32
  let v74 : BitVec 1 := Scalar.cmpi .slt v70 c0_i32_67
  let v75 : BitVec 1 := Scalar.xori v73 v74
  let c0_i32_65 : BitVec 32 := 0#32
  let v72 : BitVec 1 := Scalar.cmpi .ne v71 c0_i32_65
  let v76 : BitVec 1 := Scalar.andi v75 v72
  let v77 : BitVec 32 := Scalar.addi v71 v70
  let v78 : BitVec 32 := Scalar.select v76 v77 v71
  let v79 : BitVec 32 := Scalar.subi c1_i32_68 v78
  ![v79.toNat]
def k1_off39 (k1_t1 : Fin k1_t1_loop.trips) : Fin 2 → Nat :=
  let c1_i32_68 : BitVec 32 := 1#32
  let c0_i32_43 : BitVec 32 := 0#32
  let c1_i32_44 : BitVec 32 := 1#32
  let arg17 : BitVec 32 := Scf.iv c0_i32_43 c1_i32_44 k1_t1
  let c2_i32_62 : BitVec 32 := 2#32
  let c0_i32_63 : BitVec 32 := 0#32
  let v69 : BitVec 1 := Scalar.cmpi .eq c2_i32_62 c0_i32_63
  let c1_i32_64 : BitVec 32 := 1#32
  let v70 : BitVec 32 := Scalar.select v69 c1_i32_64 c2_i32_62
  let v71 : BitVec 32 := Scalar.remsi arg17 v70
  let c0_i32_66 : BitVec 32 := 0#32
  let v73 : BitVec 1 := Scalar.cmpi .slt v71 c0_i32_66
  let c0_i32_67 : BitVec 32 := 0#32
  let v74 : BitVec 1 := Scalar.cmpi .slt v70 c0_i32_67
  let v75 : BitVec 1 := Scalar.xori v73 v74
  let c0_i32_65 : BitVec 32 := 0#32
  let v72 : BitVec 1 := Scalar.cmpi .ne v71 c0_i32_65
  let v76 : BitVec 1 := Scalar.andi v75 v72
  let v77 : BitVec 32 := Scalar.addi v71 v70
  let v78 : BitVec 32 := Scalar.select v76 v77 v71
  let v79 : BitVec 32 := Scalar.subi c1_i32_68 v78
  let c0_i32_213 : BitVec 32 := 0#32
  ![v79.toNat, 0]
def k1_off40 (k1_t1 : Fin k1_t1_loop.trips) : Fin 2 → Nat :=
  let c0_i32_43 : BitVec 32 := 0#32
  let c1_i32_44 : BitVec 32 := 1#32
  let arg17 : BitVec 32 := Scf.iv c0_i32_43 c1_i32_44 k1_t1
  let c2_i32_62 : BitVec 32 := 2#32
  let c0_i32_63 : BitVec 32 := 0#32
  let v69 : BitVec 1 := Scalar.cmpi .eq c2_i32_62 c0_i32_63
  let c1_i32_64 : BitVec 32 := 1#32
  let v70 : BitVec 32 := Scalar.select v69 c1_i32_64 c2_i32_62
  let v71 : BitVec 32 := Scalar.remsi arg17 v70
  let c0_i32_66 : BitVec 32 := 0#32
  let v73 : BitVec 1 := Scalar.cmpi .slt v71 c0_i32_66
  let c0_i32_67 : BitVec 32 := 0#32
  let v74 : BitVec 1 := Scalar.cmpi .slt v70 c0_i32_67
  let v75 : BitVec 1 := Scalar.xori v73 v74
  let c0_i32_65 : BitVec 32 := 0#32
  let v72 : BitVec 1 := Scalar.cmpi .ne v71 c0_i32_65
  let v76 : BitVec 1 := Scalar.andi v75 v72
  let v77 : BitVec 32 := Scalar.addi v71 v70
  let v78 : BitVec 32 := Scalar.select v76 v77 v71
  let c384_i32 : BitVec 32 := 384#32
  ![v78.toNat, 384]
def k1_cond8 (k1_t1 : Fin k1_t1_loop.trips) : BitVec 1 :=
  let c0_i32_43 : BitVec 32 := 0#32
  let c1_i32_44 : BitVec 32 := 1#32
  let arg17 : BitVec 32 := Scf.iv c0_i32_43 c1_i32_44 k1_t1
  let c4_i32_170 : BitVec 32 := 4#32
  let v182 : BitVec 32 := Scalar.muli arg17 c4_i32_170
  let c3_i32 : BitVec 32 := 3#32
  let v183 : BitVec 32 := Scalar.addi v182 c3_i32
  let c2_i32_184 : BitVec 32 := 2#32
  let v198 : BitVec 1 := Scalar.cmpi .sge v183 c2_i32_184
  let v199 : BitVec 32 := Scalar.extui v198
  let c0_i32_185 : BitVec 32 := 0#32
  let v200 : BitVec 1 := Scalar.cmpi .ne v199 c0_i32_185
  v200

def k1_off41 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_209 : BitVec 32 := 0#32
  ![v2.toNat, 0]
def k1_cond9 (k1_t1 : Fin k1_t1_loop.trips) : BitVec 1 :=
  let c0_i32_43 : BitVec 32 := 0#32
  let c1_i32_44 : BitVec 32 := 1#32
  let arg17 : BitVec 32 := Scf.iv c0_i32_43 c1_i32_44 k1_t1
  let c4_i32_170 : BitVec 32 := 4#32
  let v182 : BitVec 32 := Scalar.muli arg17 c4_i32_170
  let c3_i32 : BitVec 32 := 3#32
  let v183 : BitVec 32 := Scalar.addi v182 c3_i32
  let c5_i32 : BitVec 32 := 5#32
  let v201 : BitVec 32 := Scalar.addi v183 c5_i32
  let c200_i32_186 : BitVec 32 := 200#32
  let v202 : BitVec 1 := Scalar.cmpi .slt v201 c200_i32_186
  let v203 : BitVec 32 := Scalar.extui v202
  let c0_i32_187 : BitVec 32 := 0#32
  let v204 : BitVec 1 := Scalar.cmpi .ne v203 c0_i32_187
  v204

def k1_off42 (k1_t1 : Fin k1_t1_loop.trips) : Fin 2 → Nat :=
  let c0_i32_43 : BitVec 32 := 0#32
  let c1_i32_44 : BitVec 32 := 1#32
  let arg17 : BitVec 32 := Scf.iv c0_i32_43 c1_i32_44 k1_t1
  let c2_i32_62 : BitVec 32 := 2#32
  let c0_i32_63 : BitVec 32 := 0#32
  let v69 : BitVec 1 := Scalar.cmpi .eq c2_i32_62 c0_i32_63
  let c1_i32_64 : BitVec 32 := 1#32
  let v70 : BitVec 32 := Scalar.select v69 c1_i32_64 c2_i32_62
  let v71 : BitVec 32 := Scalar.remsi arg17 v70
  let c0_i32_66 : BitVec 32 := 0#32
  let v73 : BitVec 1 := Scalar.cmpi .slt v71 c0_i32_66
  let c0_i32_67 : BitVec 32 := 0#32
  let v74 : BitVec 1 := Scalar.cmpi .slt v70 c0_i32_67
  let v75 : BitVec 1 := Scalar.xori v73 v74
  let c0_i32_65 : BitVec 32 := 0#32
  let v72 : BitVec 1 := Scalar.cmpi .ne v71 c0_i32_65
  let v76 : BitVec 1 := Scalar.andi v75 v72
  let v77 : BitVec 32 := Scalar.addi v71 v70
  let v78 : BitVec 32 := Scalar.select v76 v77 v71
  let c0_i32_208 : BitVec 32 := 0#32
  ![v78.toNat, 0]
def k1_off43 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_43 : BitVec 32 := 0#32
  let c1_i32_44 : BitVec 32 := 1#32
  let arg17 : BitVec 32 := Scf.iv c0_i32_43 c1_i32_44 k1_t1
  let c2_i32_205 : BitVec 32 := 2#32
  let v220 : BitVec 32 := Scalar.addi arg17 c2_i32_205
  let c4_i32_206 : BitVec 32 := 4#32
  let v221 : BitVec 32 := Scalar.muli v220 c4_i32_206
  let c128_i32_207 : BitVec 32 := 128#32
  let v222 : BitVec 32 := Scalar.muli v221 c128_i32_207
  let v223 : BitVec 32 := Scalar.addi v2 v222
  ![v223.toNat]
def k1_off44 (k1_t1 : Fin k1_t1_loop.trips) : Fin 1 → Nat :=
  let c0_i32_43 : BitVec 32 := 0#32
  let c1_i32_44 : BitVec 32 := 1#32
  let arg17 : BitVec 32 := Scf.iv c0_i32_43 c1_i32_44 k1_t1
  let c2_i32_62 : BitVec 32 := 2#32
  let c0_i32_63 : BitVec 32 := 0#32
  let v69 : BitVec 1 := Scalar.cmpi .eq c2_i32_62 c0_i32_63
  let c1_i32_64 : BitVec 32 := 1#32
  let v70 : BitVec 32 := Scalar.select v69 c1_i32_64 c2_i32_62
  let v71 : BitVec 32 := Scalar.remsi arg17 v70
  let c0_i32_66 : BitVec 32 := 0#32
  let v73 : BitVec 1 := Scalar.cmpi .slt v71 c0_i32_66
  let c0_i32_67 : BitVec 32 := 0#32
  let v74 : BitVec 1 := Scalar.cmpi .slt v70 c0_i32_67
  let v75 : BitVec 1 := Scalar.xori v73 v74
  let c0_i32_65 : BitVec 32 := 0#32
  let v72 : BitVec 1 := Scalar.cmpi .ne v71 c0_i32_65
  let v76 : BitVec 1 := Scalar.andi v75 v72
  let v77 : BitVec 32 := Scalar.addi v71 v70
  let v78 : BitVec 32 := Scalar.select v76 v77 v71
  ![v78.toNat]
@[reducible] def k1_t5_loop : Scf.Loop 32 :=
  let c0_i32_189 : BitVec 32 := 0#32
  let c32_i32_190 : BitVec 32 := 32#32
  let v205 : BitVec 32 := Scalar.addi c0_i32_189 c32_i32_190
  let c1_i32_191 : BitVec 32 := 1#32
  ⟨c0_i32_189, v205, c1_i32_191⟩
def k1_off45 (k1_t5 : Fin k1_t5_loop.trips) (c0_i32_206 : BitVec 32) : Fin 3 → Nat :=
  let c1_i32_207 : BitVec 32 := 1#32
  let v222 : Index := Scalar.indexCast c1_i32_207
  let c0_i32_189 : BitVec 32 := 0#32
  let c1_i32_191 : BitVec 32 := 1#32
  let arg18 : BitVec 32 := Scf.iv c0_i32_189 c1_i32_191 k1_t5
  let c4_i32_205 : BitVec 32 := 4#32
  let v220 : BitVec 32 := Scalar.muli arg18 c4_i32_205
  let v221 : BitVec 32 := Scalar.addi v220 c0_i32_206
  let v223 : Index := Scalar.indexCast v221
  let c0_208 : Index := 0#32
  ![1, v223.toNat, 0]
def k1_off46 (k1_t5 : Fin k1_t5_loop.trips) (c0_i32_206 : BitVec 32) : Fin 3 → Nat :=
  let c1_i32_213 : BitVec 32 := 1#32
  let v236 : Index := Scalar.indexCast c1_i32_213
  let c0_i32_189 : BitVec 32 := 0#32
  let c1_i32_191 : BitVec 32 := 1#32
  let arg18 : BitVec 32 := Scf.iv c0_i32_189 c1_i32_191 k1_t5
  let c4_i32_205 : BitVec 32 := 4#32
  let v220 : BitVec 32 := Scalar.muli arg18 c4_i32_205
  let v221 : BitVec 32 := Scalar.addi v220 c0_i32_206
  let v237 : Index := Scalar.indexCast v221
  let c16 : Index := 16#32
  ![1, v237.toNat, 16]
def k1_off47 (k1_t5 : Fin k1_t5_loop.trips) (c0_i32_206 : BitVec 32) : Fin 3 → Nat :=
  let c1_i32_218 : BitVec 32 := 1#32
  let v250 : Index := Scalar.indexCast c1_i32_218
  let c0_i32_189 : BitVec 32 := 0#32
  let c1_i32_191 : BitVec 32 := 1#32
  let arg18 : BitVec 32 := Scf.iv c0_i32_189 c1_i32_191 k1_t5
  let c4_i32_205 : BitVec 32 := 4#32
  let v220 : BitVec 32 := Scalar.muli arg18 c4_i32_205
  let v221 : BitVec 32 := Scalar.addi v220 c0_i32_206
  let v251 : Index := Scalar.indexCast v221
  let c32 : Index := 32#32
  ![1, v251.toNat, 32]
def k1_off48 (k1_t5 : Fin k1_t5_loop.trips) (c0_i32_206 : BitVec 32) : Fin 3 → Nat :=
  let c1_i32_223 : BitVec 32 := 1#32
  let v264 : Index := Scalar.indexCast c1_i32_223
  let c0_i32_189 : BitVec 32 := 0#32
  let c1_i32_191 : BitVec 32 := 1#32
  let arg18 : BitVec 32 := Scf.iv c0_i32_189 c1_i32_191 k1_t5
  let c4_i32_205 : BitVec 32 := 4#32
  let v220 : BitVec 32 := Scalar.muli arg18 c4_i32_205
  let v221 : BitVec 32 := Scalar.addi v220 c0_i32_206
  let v265 : Index := Scalar.indexCast v221
  let c48 : Index := 48#32
  ![1, v265.toNat, 48]
def k1_off49 (k1_t5 : Fin k1_t5_loop.trips) (c0_i32_206 : BitVec 32) : Fin 3 → Nat :=
  let c1_i32_228 : BitVec 32 := 1#32
  let v278 : Index := Scalar.indexCast c1_i32_228
  let c0_i32_189 : BitVec 32 := 0#32
  let c1_i32_191 : BitVec 32 := 1#32
  let arg18 : BitVec 32 := Scf.iv c0_i32_189 c1_i32_191 k1_t5
  let c4_i32_205 : BitVec 32 := 4#32
  let v220 : BitVec 32 := Scalar.muli arg18 c4_i32_205
  let v221 : BitVec 32 := Scalar.addi v220 c0_i32_206
  let v279 : Index := Scalar.indexCast v221
  let c64 : Index := 64#32
  ![1, v279.toNat, 64]
def k1_off50 (k1_t5 : Fin k1_t5_loop.trips) (c0_i32_206 : BitVec 32) : Fin 3 → Nat :=
  let c1_i32_233 : BitVec 32 := 1#32
  let v292 : Index := Scalar.indexCast c1_i32_233
  let c0_i32_189 : BitVec 32 := 0#32
  let c1_i32_191 : BitVec 32 := 1#32
  let arg18 : BitVec 32 := Scf.iv c0_i32_189 c1_i32_191 k1_t5
  let c4_i32_205 : BitVec 32 := 4#32
  let v220 : BitVec 32 := Scalar.muli arg18 c4_i32_205
  let v221 : BitVec 32 := Scalar.addi v220 c0_i32_206
  let v293 : Index := Scalar.indexCast v221
  let c80 : Index := 80#32
  ![1, v293.toNat, 80]
def k1_off51 (k1_t5 : Fin k1_t5_loop.trips) (c0_i32_206 : BitVec 32) : Fin 3 → Nat :=
  let c1_i32_238 : BitVec 32 := 1#32
  let v306 : Index := Scalar.indexCast c1_i32_238
  let c0_i32_189 : BitVec 32 := 0#32
  let c1_i32_191 : BitVec 32 := 1#32
  let arg18 : BitVec 32 := Scf.iv c0_i32_189 c1_i32_191 k1_t5
  let c4_i32_205 : BitVec 32 := 4#32
  let v220 : BitVec 32 := Scalar.muli arg18 c4_i32_205
  let v221 : BitVec 32 := Scalar.addi v220 c0_i32_206
  let v307 : Index := Scalar.indexCast v221
  let c96 : Index := 96#32
  ![1, v307.toNat, 96]
def k1_off52 (k1_t5 : Fin k1_t5_loop.trips) (c0_i32_206 : BitVec 32) : Fin 3 → Nat :=
  let c1_i32_243 : BitVec 32 := 1#32
  let v320 : Index := Scalar.indexCast c1_i32_243
  let c0_i32_189 : BitVec 32 := 0#32
  let c1_i32_191 : BitVec 32 := 1#32
  let arg18 : BitVec 32 := Scf.iv c0_i32_189 c1_i32_191 k1_t5
  let c4_i32_205 : BitVec 32 := 4#32
  let v220 : BitVec 32 := Scalar.muli arg18 c4_i32_205
  let v221 : BitVec 32 := Scalar.addi v220 c0_i32_206
  let v321 : Index := Scalar.indexCast v221
  let c112 : Index := 112#32
  ![1, v321.toNat, 112]
def k1_cond10 (k1_t1 : Fin k1_t1_loop.trips) : BitVec 1 :=
  let c0_i32_43 : BitVec 32 := 0#32
  let c1_i32_44 : BitVec 32 := 1#32
  let arg17 : BitVec 32 := Scf.iv c0_i32_43 c1_i32_44 k1_t1
  let c4_i32_170 : BitVec 32 := 4#32
  let v182 : BitVec 32 := Scalar.muli arg17 c4_i32_170
  let c3_i32 : BitVec 32 := 3#32
  let v183 : BitVec 32 := Scalar.addi v182 c3_i32
  let c2_i32_202 : BitVec 32 := 2#32
  let v216 : BitVec 32 := Scalar.addi v183 c2_i32_202
  let c200_i32_203 : BitVec 32 := 200#32
  let v217 : BitVec 1 := Scalar.cmpi .slt v216 c200_i32_203
  let v218 : BitVec 32 := Scalar.extui v217
  let c0_i32_204 : BitVec 32 := 0#32
  let v219 : BitVec 1 := Scalar.cmpi .ne v218 c0_i32_204
  v219

def k1_off53 (k1_t1 : Fin k1_t1_loop.trips) : Fin 2 → Nat :=
  let c1_i32_68 : BitVec 32 := 1#32
  let c0_i32_43 : BitVec 32 := 0#32
  let c1_i32_44 : BitVec 32 := 1#32
  let arg17 : BitVec 32 := Scf.iv c0_i32_43 c1_i32_44 k1_t1
  let c2_i32_62 : BitVec 32 := 2#32
  let c0_i32_63 : BitVec 32 := 0#32
  let v69 : BitVec 1 := Scalar.cmpi .eq c2_i32_62 c0_i32_63
  let c1_i32_64 : BitVec 32 := 1#32
  let v70 : BitVec 32 := Scalar.select v69 c1_i32_64 c2_i32_62
  let v71 : BitVec 32 := Scalar.remsi arg17 v70
  let c0_i32_66 : BitVec 32 := 0#32
  let v73 : BitVec 1 := Scalar.cmpi .slt v71 c0_i32_66
  let c0_i32_67 : BitVec 32 := 0#32
  let v74 : BitVec 1 := Scalar.cmpi .slt v70 c0_i32_67
  let v75 : BitVec 1 := Scalar.xori v73 v74
  let c0_i32_65 : BitVec 32 := 0#32
  let v72 : BitVec 1 := Scalar.cmpi .ne v71 c0_i32_65
  let v76 : BitVec 1 := Scalar.andi v75 v72
  let v77 : BitVec 32 := Scalar.addi v71 v70
  let v78 : BitVec 32 := Scalar.select v76 v77 v71
  let v79 : BitVec 32 := Scalar.subi c1_i32_68 v78
  let c128_i32_209 : BitVec 32 := 128#32
  ![v79.toNat, 128]
def k1_off54 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_50 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S819200 : S4096x200.ShapeCasts S819200
  shapeCasts_S128_S1x128 : S128.ShapeCasts S1x128
  inb_S128x128_S128x64_0_0 : ∀ a, (![0, 0] : Fin 2 → Nat) a + S128x64.size a ≤ S128x128.size a
  h_S128x64 : 0 < S128x64.numel
  inb_S2000x64_S2000x64_0_0 : ∀ a, (![0, 0] : Fin 2 → Nat) a + S2000x64.size a ≤ S2000x64.size a
  h_S2000x64 : 0 < S2000x64.numel
  inb_S2000x128_S2000x128_0_0 : ∀ a, (![0, 0] : Fin 2 → Nat) a + S2000x128.size a ≤ S2000x128.size a
  h_S2000x128 : 0 < S2000x128.numel
  inb_S128x128_S128x64_0_64 : ∀ a, (![0, 64] : Fin 2 → Nat) a + S128x64.size a ≤ S128x128.size a
  inb_S1000x64_S1000x64_0_0 : ∀ a, (![0, 0] : Fin 2 → Nat) a + S1000x64.size a ≤ S1000x64.size a
  h_S1000x64 : 0 < S1000x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  inb_S2x512_S1x512_0_0 : ∀ a, (![0, 0] : Fin 2 → Nat) a + S1x512.size a ≤ S2x512.size a
  squeezes_S1x512_S512 : S1x512.Squeezes S512
  inb_S2x128x128_S1x128x128_0_0_0 : ∀ a, (![0, 0, 0] : Fin 3 → Nat) a + S1x128x128.size a ≤ S2x128x128.size a
  squeezes_S1x128x128_S128x128 : S1x128x128.Squeezes S128x128
  inb_S2x512_S1x128_0_0 : ∀ a, (![0, 0] : Fin 2 → Nat) a + S1x128.size a ≤ S2x512.size a
  squeezes_S1x128_S128 : S1x128.Squeezes S128
  inb_S100000x128_S100000x128_0_0 : ∀ a, (![0, 0] : Fin 2 → Nat) a + S100000x128.size a ≤ S100000x128.size a
  inb_S2_S1_0 : ∀ a, (![0] : Fin 1 → Nat) a + S1.size a ≤ S2.size a
  squeezes_S1_S_ : S1.Squeezes S_
  gathers_S100000x128_S128x128 : S100000x128.Gathers 0 S128x128
  gathers_S1000x128_S128x128 : S1000x128.Gathers 0 S128x128
  inb_S2x128x128_S1x128x128_1_0_0 : ∀ a, (![1, 0, 0] : Fin 3 → Nat) a + S1x128x128.size a ≤ S2x128x128.size a
  inb_S2x512_S1x128_0_128 : ∀ a, (![0, 128] : Fin 2 → Nat) a + S1x128.size a ≤ S2x512.size a
  inb_S2_S1_1 : ∀ a, (![1] : Fin 1 → Nat) a + S1.size a ≤ S2.size a
  inb_S2x512_S1x512_1_0 : ∀ a, (![1, 0] : Fin 2 → Nat) a + S1x512.size a ≤ S2x512.size a
  h_S1x1x16 : 0 < S1x1x16.numel
  shapeCasts_S1x1x16_S16 : S1x1x16.ShapeCasts S16
  shapeCasts_S16_S1x1x16 : S16.ShapeCasts S1x1x16
  shapeCasts_S819200x128_S4096x200x128 : S819200x128.ShapeCasts S4096x200x128
  dot_S2000x64_S128x64_S2000x128_1_1_0_0_n_n_wf : DotDims.WF S2000x64 S128x64 S2000x128 [1] [1] [0] [0] [] []
  dot_S1000x64_S128x64_S1000x128_1_1_0_0_n_n_wf : DotDims.WF S1000x64 S128x64 S1000x128 [1] [1] [0] [0] [] []
  hcc1_scratch6 : 8 + S2.numel ≤ 19
  hcc1_scratch7 : 10 + S2.numel ≤ 19
  hcc1_scratch8 : 12 + S2.numel ≤ 19
  hcc1_scratch9 : 14 + S2.numel ≤ 19
  hcc1_scoped0 : 16 + S_.numel ≤ 19
  hcc1_scoped1 : 17 + S_.numel ≤ 19
  hcc1_scoped2 : 18 + S_.numel ≤ 19
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x64.size a ≤ S1000x64.size a
  hwx0_1 : ∀ i : grid0.Coords, EltTy.bits .f32 = 32 ∨ (Rect.block (s := S1000x64) S1000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S1000x128.size a
  hwx0_5 : ∀ i : grid0.Coords, EltTy.bits .f32 = 32 ∨ (Rect.block (s := S1000x128) S1000x128.size (cc0_transform_5 i) (hinb0_5 i)).WholeWords (EltTy.packing .f32)
  hcore1 : grid1.bound 0 ≤ τ.nSC
  hsub1 : grid1.bound 1 ≤ τ.nSub
  k1_off1_inb : ∀ i : grid1.Coords, ∀ a, (k1_off1 i) a + S512.size a ≤ S819200.size a
  k1_off2_inb : ∀ i : grid1.Coords, ∀ a, (k1_off2 i) a + S512.size a ≤ S819200.size a
  k1_t1_ok : k1_t1_loop.OK
  k1_off3_inb : ∀ k1_t1 : Fin k1_t1_loop.trips, ∀ a, (k1_off3 k1_t1) a + S1x128.size a ≤ S2x512.size a
  k1_off4_inb : ∀ (i : grid1.Coords) (k1_t1 : Fin k1_t1_loop.trips), ∀ (k1_h2 : k1_cond2 k1_t1 = 1#1), ∀ a, (k1_off4 i) a + S128x128.size a ≤ S819200x128.size a
  k1_t2_ok : k1_t2_loop.OK
  k1_off5_inb : ∀ k1_t2 : Fin k1_t2_loop.trips, ∀ (r : Fin 4), ∀ a, (k1_off5 k1_t2 (BitVec.ofNat 32 r.val)) a + S1x1x16.size a ≤ S2x128x128.size a
  k1_off6_inb : ∀ k1_t2 : Fin k1_t2_loop.trips, ∀ (r : Fin 4), ∀ a, (k1_off6 k1_t2 (BitVec.ofNat 32 r.val)) a + S1x1x16.size a ≤ S2x128x128.size a
  k1_off7_inb : ∀ k1_t2 : Fin k1_t2_loop.trips, ∀ (r : Fin 4), ∀ a, (k1_off7 k1_t2 (BitVec.ofNat 32 r.val)) a + S1x1x16.size a ≤ S2x128x128.size a
  k1_off8_inb : ∀ k1_t2 : Fin k1_t2_loop.trips, ∀ (r : Fin 4), ∀ a, (k1_off8 k1_t2 (BitVec.ofNat 32 r.val)) a + S1x1x16.size a ≤ S2x128x128.size a
  k1_off9_inb : ∀ k1_t2 : Fin k1_t2_loop.trips, ∀ (r : Fin 4), ∀ a, (k1_off9 k1_t2 (BitVec.ofNat 32 r.val)) a + S1x1x16.size a ≤ S2x128x128.size a
  k1_off10_inb : ∀ k1_t2 : Fin k1_t2_loop.trips, ∀ (r : Fin 4), ∀ a, (k1_off10 k1_t2 (BitVec.ofNat 32 r.val)) a + S1x1x16.size a ≤ S2x128x128.size a
  k1_off11_inb : ∀ k1_t2 : Fin k1_t2_loop.trips, ∀ (r : Fin 4), ∀ a, (k1_off11 k1_t2 (BitVec.ofNat 32 r.val)) a + S1x1x16.size a ≤ S2x128x128.size a
  k1_off12_inb : ∀ k1_t2 : Fin k1_t2_loop.trips, ∀ (r : Fin 4), ∀ a, (k1_off12 k1_t2 (BitVec.ofNat 32 r.val)) a + S1x1x16.size a ≤ S2x128x128.size a
  k1_off13_inb : ∀ (i : grid1.Coords) (k1_t1 : Fin k1_t1_loop.trips), ∀ (r : Fin 4), ∀ a, (k1_off13 i k1_t1 (BitVec.ofNat 32 r.val)) a + S128x128.size a ≤ S819200x128.size a
  k1_off14_inb : ∀ k1_t1 : Fin k1_t1_loop.trips, ∀ (k1_h3 : k1_cond3 k1_t1 = 1#1), ∀ a, (k1_off14 k1_t1) a + S1x128.size a ≤ S2x512.size a
  k1_off15_inb : ∀ k1_t1 : Fin k1_t1_loop.trips, ∀ a, (k1_off15 k1_t1) a + S1x128.size a ≤ S2x512.size a
  k1_off16_inb : ∀ (i : grid1.Coords) (k1_t1 : Fin k1_t1_loop.trips), ∀ (k1_h4 : k1_cond4 k1_t1 = 1#1), ∀ a, (k1_off16 i) a + S128x128.size a ≤ S819200x128.size a
  k1_t3_ok : k1_t3_loop.OK
  k1_off17_inb : ∀ k1_t3 : Fin k1_t3_loop.trips, ∀ (r : Fin 4), ∀ a, (k1_off17 k1_t3 (BitVec.ofNat 32 r.val)) a + S1x1x16.size a ≤ S2x128x128.size a
  k1_off18_inb : ∀ k1_t3 : Fin k1_t3_loop.trips, ∀ (r : Fin 4), ∀ a, (k1_off18 k1_t3 (BitVec.ofNat 32 r.val)) a + S1x1x16.size a ≤ S2x128x128.size a
  k1_off19_inb : ∀ k1_t3 : Fin k1_t3_loop.trips, ∀ (r : Fin 4), ∀ a, (k1_off19 k1_t3 (BitVec.ofNat 32 r.val)) a + S1x1x16.size a ≤ S2x128x128.size a
  k1_off20_inb : ∀ k1_t3 : Fin k1_t3_loop.trips, ∀ (r : Fin 4), ∀ a, (k1_off20 k1_t3 (BitVec.ofNat 32 r.val)) a + S1x1x16.size a ≤ S2x128x128.size a
  k1_off21_inb : ∀ k1_t3 : Fin k1_t3_loop.trips, ∀ (r : Fin 4), ∀ a, (k1_off21 k1_t3 (BitVec.ofNat 32 r.val)) a + S1x1x16.size a ≤ S2x128x128.size a
  k1_off22_inb : ∀ k1_t3 : Fin k1_t3_loop.trips, ∀ (r : Fin 4), ∀ a, (k1_off22 k1_t3 (BitVec.ofNat 32 r.val)) a + S1x1x16.size a ≤ S2x128x128.size a
  k1_off23_inb : ∀ k1_t3 : Fin k1_t3_loop.trips, ∀ (r : Fin 4), ∀ a, (k1_off23 k1_t3 (BitVec.ofNat 32 r.val)) a + S1x1x16.size a ≤ S2x128x128.size a
  k1_off24_inb : ∀ k1_t3 : Fin k1_t3_loop.trips, ∀ (r : Fin 4), ∀ a, (k1_off24 k1_t3 (BitVec.ofNat 32 r.val)) a + S1x1x16.size a ≤ S2x128x128.size a
  k1_off25_inb : ∀ k1_t1 : Fin k1_t1_loop.trips, ∀ (k1_h5 : k1_cond5 k1_t1 = 1#1), ∀ a, (k1_off25 k1_t1) a + S1x128.size a ≤ S2x512.size a
  k1_off26_inb : ∀ k1_t1 : Fin k1_t1_loop.trips, ∀ a, (k1_off26 k1_t1) a + S1x128.size a ≤ S2x512.size a
  k1_off27_inb : ∀ (i : grid1.Coords) (k1_t1 : Fin k1_t1_loop.trips), ∀ (k1_h6 : k1_cond6 k1_t1 = 1#1), ∀ a, (k1_off27 i) a + S128x128.size a ≤ S819200x128.size a
  k1_t4_ok : k1_t4_loop.OK
  k1_off28_inb : ∀ k1_t4 : Fin k1_t4_loop.trips, ∀ (r : Fin 4), ∀ a, (k1_off28 k1_t4 (BitVec.ofNat 32 r.val)) a + S1x1x16.size a ≤ S2x128x128.size a
  k1_off29_inb : ∀ k1_t4 : Fin k1_t4_loop.trips, ∀ (r : Fin 4), ∀ a, (k1_off29 k1_t4 (BitVec.ofNat 32 r.val)) a + S1x1x16.size a ≤ S2x128x128.size a
  k1_off30_inb : ∀ k1_t4 : Fin k1_t4_loop.trips, ∀ (r : Fin 4), ∀ a, (k1_off30 k1_t4 (BitVec.ofNat 32 r.val)) a + S1x1x16.size a ≤ S2x128x128.size a
  k1_off31_inb : ∀ k1_t4 : Fin k1_t4_loop.trips, ∀ (r : Fin 4), ∀ a, (k1_off31 k1_t4 (BitVec.ofNat 32 r.val)) a + S1x1x16.size a ≤ S2x128x128.size a
  k1_off32_inb : ∀ k1_t4 : Fin k1_t4_loop.trips, ∀ (r : Fin 4), ∀ a, (k1_off32 k1_t4 (BitVec.ofNat 32 r.val)) a + S1x1x16.size a ≤ S2x128x128.size a
  k1_off33_inb : ∀ k1_t4 : Fin k1_t4_loop.trips, ∀ (r : Fin 4), ∀ a, (k1_off33 k1_t4 (BitVec.ofNat 32 r.val)) a + S1x1x16.size a ≤ S2x128x128.size a
  k1_off34_inb : ∀ k1_t4 : Fin k1_t4_loop.trips, ∀ (r : Fin 4), ∀ a, (k1_off34 k1_t4 (BitVec.ofNat 32 r.val)) a + S1x1x16.size a ≤ S2x128x128.size a
  k1_off35_inb : ∀ k1_t4 : Fin k1_t4_loop.trips, ∀ (r : Fin 4), ∀ a, (k1_off35 k1_t4 (BitVec.ofNat 32 r.val)) a + S1x1x16.size a ≤ S2x128x128.size a
  k1_off36_inb : ∀ k1_t1 : Fin k1_t1_loop.trips, ∀ (k1_h7 : k1_cond7 k1_t1 = 1#1), ∀ a, (k1_off36 k1_t1) a + S1x512.size a ≤ S2x512.size a
  k1_off37_inb : ∀ (i : grid1.Coords) (k1_t1 : Fin k1_t1_loop.trips), ∀ (k1_h7 : k1_cond7 k1_t1 = 1#1), ∀ a, (k1_off37 i) a + S512.size a ≤ S819200.size a
  k1_off38_inb : ∀ k1_t1 : Fin k1_t1_loop.trips, ∀ (k1_h7 : k1_cond7 k1_t1 = 1#1), ∀ a, (k1_off38 k1_t1) a + S1.size a ≤ S2.size a
  k1_off39_inb : ∀ k1_t1 : Fin k1_t1_loop.trips, ∀ (k1_h7 : k1_cond7 k1_t1 = 1#1), ∀ a, (k1_off39 k1_t1) a + S1x128.size a ≤ S2x512.size a
  k1_off40_inb : ∀ k1_t1 : Fin k1_t1_loop.trips, ∀ a, (k1_off40 k1_t1) a + S1x128.size a ≤ S2x512.size a
  k1_off41_inb : ∀ (i : grid1.Coords) (k1_t1 : Fin k1_t1_loop.trips), ∀ (k1_h8 : k1_cond8 k1_t1 = 1#1), ∀ a, (k1_off41 i) a + S128x128.size a ≤ S819200x128.size a
  k1_off42_inb : ∀ k1_t1 : Fin k1_t1_loop.trips, ∀ (k1_h9 : k1_cond9 k1_t1 = 1#1), ∀ a, (k1_off42 k1_t1) a + S1x512.size a ≤ S2x512.size a
  k1_off43_inb : ∀ (i : grid1.Coords) (k1_t1 : Fin k1_t1_loop.trips), ∀ (k1_h9 : k1_cond9 k1_t1 = 1#1), ∀ a, (k1_off43 i k1_t1) a + S512.size a ≤ S819200.size a
  k1_off44_inb : ∀ k1_t1 : Fin k1_t1_loop.trips, ∀ (k1_h9 : k1_cond9 k1_t1 = 1#1), ∀ a, (k1_off44 k1_t1) a + S1.size a ≤ S2.size a
  k1_t5_ok : k1_t5_loop.OK
  k1_off45_inb : ∀ k1_t5 : Fin k1_t5_loop.trips, ∀ (r : Fin 4), ∀ a, (k1_off45 k1_t5 (BitVec.ofNat 32 r.val)) a + S1x1x16.size a ≤ S2x128x128.size a
  k1_off46_inb : ∀ k1_t5 : Fin k1_t5_loop.trips, ∀ (r : Fin 4), ∀ a, (k1_off46 k1_t5 (BitVec.ofNat 32 r.val)) a + S1x1x16.size a ≤ S2x128x128.size a
  k1_off47_inb : ∀ k1_t5 : Fin k1_t5_loop.trips, ∀ (r : Fin 4), ∀ a, (k1_off47 k1_t5 (BitVec.ofNat 32 r.val)) a + S1x1x16.size a ≤ S2x128x128.size a
  k1_off48_inb : ∀ k1_t5 : Fin k1_t5_loop.trips, ∀ (r : Fin 4), ∀ a, (k1_off48 k1_t5 (BitVec.ofNat 32 r.val)) a + S1x1x16.size a ≤ S2x128x128.size a
  k1_off49_inb : ∀ k1_t5 : Fin k1_t5_loop.trips, ∀ (r : Fin 4), ∀ a, (k1_off49 k1_t5 (BitVec.ofNat 32 r.val)) a + S1x1x16.size a ≤ S2x128x128.size a
  k1_off50_inb : ∀ k1_t5 : Fin k1_t5_loop.trips, ∀ (r : Fin 4), ∀ a, (k1_off50 k1_t5 (BitVec.ofNat 32 r.val)) a + S1x1x16.size a ≤ S2x128x128.size a
  k1_off51_inb : ∀ k1_t5 : Fin k1_t5_loop.trips, ∀ (r : Fin 4), ∀ a, (k1_off51 k1_t5 (BitVec.ofNat 32 r.val)) a + S1x1x16.size a ≤ S2x128x128.size a
  k1_off52_inb : ∀ k1_t5 : Fin k1_t5_loop.trips, ∀ (r : Fin 4), ∀ a, (k1_off52 k1_t5 (BitVec.ofNat 32 r.val)) a + S1x1x16.size a ≤ S2x128x128.size a
  k1_off53_inb : ∀ k1_t1 : Fin k1_t1_loop.trips, ∀ (k1_h10 : k1_cond10 k1_t1 = 1#1), ∀ a, (k1_off53 k1_t1) a + S1x128.size a ≤ S2x512.size a
  k1_off54_inb : ∀ i : grid1.Coords, ∀ a, (k1_off54 i) a + S128x128.size a ≤ S819200x128.size a

variable [Facts₀]

abbrev cc1_scratch6 : DmaSems sig S2 := SemArray.consecutive 8 S2 hcc1_scratch6
abbrev cc1_scratch7 : DmaSems sig S2 := SemArray.consecutive 10 S2 hcc1_scratch7
abbrev cc1_scratch8 : DmaSems sig S2 := SemArray.consecutive 12 S2 hcc1_scratch8
abbrev cc1_scratch9 : DmaSems sig S2 := SemArray.consecutive 14 S2 hcc1_scratch9
abbrev cc1_scoped0 : DmaSems sig S_ := SemArray.consecutive 16 S_ hcc1_scoped0
abbrev cc1_scoped1 : DmaSems sig S_ := SemArray.consecutive 17 S_ hcc1_scoped1
abbrev cc1_scoped2 : DmaSems sig S_ := SemArray.consecutive 18 S_ hcc1_scoped2
def dot_S2000x64_S128x64_S2000x128_1_1_0_0_n_n : DotDims S2000x64 S128x64 S2000x128 where
  lhsContracting := [1]
  rhsContracting := [1]
  lhsNonContracting := [0]
  rhsNonContracting := [0]
  lhsBatch := []
  rhsBatch := []
  wf := dot_S2000x64_S128x64_S2000x128_1_1_0_0_n_n_wf
def dot_S1000x64_S128x64_S1000x128_1_1_0_0_n_n : DotDims S1000x64 S128x64 S1000x128 where
  lhsContracting := [1]
  rhsContracting := [1]
  lhsNonContracting := [0]
  rhsNonContracting := [0]
  lhsBatch := []
  rhsBatch := []
  wf := dot_S1000x64_S128x64_S1000x128_1_1_0_0_n_n_wf

abbrev win0_0 : Pipeline.Window sig grid0 :=
  Pipeline.Window.ofSpec (Memref.whole main_arg2) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1000x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) | ⟨_ + 6, h⟩ => absurd h (Nat.not_lt.2 (Nat.le_add_left _ _))

class Facts : Prop extends Facts₀ where

variable [Facts]
-- ==== ReferenceIdeal.lean ====
abbrev S4096x200 : Shape := ⟨2, ![4096, 200]⟩
abbrev S100000x64 : Shape := ⟨2, ![100000, 64]⟩
abbrev S1000x64 : Shape := ⟨2, ![1000, 64]⟩
abbrev S128x128 : Shape := ⟨2, ![128, 128]⟩
abbrev S128 : Shape := ⟨1, ![128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩
abbrev S4096x200x128 : Shape := ⟨3, ![4096, 200, 128]⟩
abbrev S1x1x128 : Shape := ⟨3, ![1, 1, 128]⟩

abbrev nBuf : Space → Nat
  | .hbm => 58
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096x200, .i32⟩
  | .hbm, ⟨2, _⟩ => ⟨S100000x64, .f32⟩
  | .hbm, ⟨3, _⟩ => ⟨S1000x64, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S4096x200, .i32⟩
  | .hbm, ⟨8, _⟩ => ⟨S4096x200, .i1⟩
  | .hbm, ⟨9, _⟩ => ⟨S_, .i32⟩
  | .hbm, ⟨10, _⟩ => ⟨S4096x200, .i32⟩
  | .hbm, ⟨11, _⟩ => ⟨S4096x200, .i32⟩
  | .hbm, ⟨12, _⟩ => ⟨S4096x200, .i32⟩
  | .hbm, ⟨13, _⟩ => ⟨S4096x200x1, .i32⟩
  | .hbm, ⟨14, _⟩ => ⟨S1, .i32⟩
  | .hbm, ⟨15, _⟩ => ⟨S_, .i32⟩
  | .hbm, ⟨16, _⟩ => ⟨S4096x200x1, .i32⟩
  | .hbm, ⟨17, _⟩ => ⟨S4096x200x1, .i1⟩
  | .hbm, ⟨18, _⟩ => ⟨S1x1x1, .i32⟩
  | .hbm, ⟨19, _⟩ => ⟨S4096x200x1, .i32⟩
  | .hbm, ⟨20, _⟩ => ⟨S4096x200x1, .i1⟩
  | .hbm, ⟨21, _⟩ => ⟨S4096x200x1, .i1⟩
  | .hbm, ⟨22, _⟩ => ⟨S_, .i1⟩
  | .hbm, ⟨23, _⟩ => ⟨S4096x200, .i1⟩
  | .hbm, ⟨24, _⟩ => ⟨S4096x200x64, .f32⟩
  | .hbm, ⟨25, _⟩ => ⟨S4096x200x64, .i1⟩
  | .hbm, ⟨26, _⟩ => ⟨S_, .f32⟩
  | .hbm, ⟨27, _⟩ => ⟨S4096x200x64, .f32⟩
  | .hbm, ⟨28, _⟩ => ⟨S4096x200x64, .f32⟩
  | .hbm, ⟨29, _⟩ => ⟨S_, .i32⟩
  | .hbm, ⟨30, _⟩ => ⟨S4096x200, .i32⟩
  | .hbm, ⟨31, _⟩ => ⟨S4096x200, .i1⟩
  | .hbm, ⟨32, _⟩ => ⟨S_, .i32⟩
  | .hbm, ⟨33, _⟩ => ⟨S4096x200, .i32⟩
  | .hbm, ⟨34, _⟩ => ⟨S4096x200, .i32⟩
  | .hbm, ⟨35, _⟩ => ⟨S4096x200, .i32⟩
  | .hbm, ⟨36, _⟩ => ⟨S4096x200x1, .i32⟩
  | .hbm, ⟨37, _⟩ => ⟨S1, .i32⟩
  | .hbm, ⟨38, _⟩ => ⟨S_, .i32⟩
  | .hbm, ⟨39, _⟩ => ⟨S4096x200x1, .i32⟩
  | .hbm, ⟨40, _⟩ => ⟨S4096x200x1, .i1⟩
  | .hbm, ⟨41, _⟩ => ⟨S1x1x1, .i32⟩
  | .hbm, ⟨42, _⟩ => ⟨S4096x200x1, .i32⟩
  | .hbm, ⟨43, _⟩ => ⟨S4096x200x1, .i1⟩
  | .hbm, ⟨44, _⟩ => ⟨S4096x200x1, .i1⟩
  | .hbm, ⟨45, _⟩ => ⟨S_, .i1⟩
  | .hbm, ⟨46, _⟩ => ⟨S4096x200, .i1⟩
  | .hbm, ⟨47, _⟩ => ⟨S4096x200x64, .f32⟩
  | .hbm, ⟨48, _⟩ => ⟨S4096x200x64, .i1⟩
  | .hbm, ⟨49, _⟩ => ⟨S_, .f32⟩
  | .hbm, ⟨50, _⟩ => ⟨S4096x200x64, .f32⟩
  | .hbm, ⟨51, _⟩ => ⟨S4096x200x64, .f32⟩
  | .hbm, ⟨52, _⟩ => ⟨S4096x200x128, .f32⟩
  | .hbm, ⟨53, _⟩ => ⟨S128x128, .f32⟩
  | .hbm, ⟨54, _⟩ => ⟨S4096x200x128, .f32⟩
  | .hbm, ⟨55, _⟩ => ⟨S1x1x128, .f32⟩
  | .hbm, ⟨56, _⟩ => ⟨S4096x200x128, .f32⟩
  | .hbm, ⟨57, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  concatenates_S4096x200x64_S4096x200x64_S4096x200x128_d2 : Shape.Concatenates [S4096x200x64, S4096x200x64] S4096x200x128 2
  transposes_S128x128_S128x128_1_0 : S128x128.Transposes [1, 0] S128x128
  bcast_S128_S1x1x128_2 : S128.BroadcastsInDim S1x1x128 (![2] : Fin 1 → Fin S1x1x128.rank)
  bcast_S1x1x128_S4096x200x128_0_1_2 : S1x1x128.BroadcastsInDim S4096x200x128 (![0, 1, 2] : Fin 3 → Fin S4096x200x128.rank)
  gather_S100000x64_S4096x200x1_S4096x200x64_2_0_n_n_0_2_164_wf : GatherDims.WF S100000x64 S4096x200x1 S4096x200x64 [2] [0] [] [0] [] 2 ![1, 64]
  gather_S1000x64_S4096x200x1_S4096x200x64_2_0_n_n_0_2_164_wf : GatherDims.WF S1000x64 S4096x200x1 S4096x200x64 [2] [0] [] [0] [] 2 ![1, 64]
  dot_S4096x200x128_S128x128_S4096x200x128_2_0_01_1_n_n_wf : DotDims.WF S4096x200x128 S128x128 S4096x200x128 [2] [0] [0, 1] [1] [] []

variable [Facts₀]

def gather_S100000x64_S4096x200x1_S4096x200x64_2_0_n_n_0_2_164 : GatherDims S100000x64 S4096x200x1 S4096x200x64 where
  offsetDims := [2]
  collapsedSliceDims := [0]
  operandBatchingDims := []
  startIndicesBatchingDims := []
  startIndexMap := [0]
  indexVectorDim := 2
  sliceSizes := ![1, 64]
  wf := gather_S100000x64_S4096x200x1_S4096x200x64_2_0_n_n_0_2_164_wf
def gather_S1000x64_S4096x200x1_S4096x200x64_2_0_n_n_0_2_164 : GatherDims S1000x64 S4096x200x1 S4096x200x64 where
  offsetDims := [2]
  collapsedSliceDims := [0]
  operandBatchingDims := []
  startIndicesBatchingDims := []
  startIndexMap := [0]
  indexVectorDim := 2
  sliceSizes := ![1, 64]
  wf := gather_S1000x64_S4096x200x1_S4096x200x64_2_0_n_n_0_2_164_wf
def dot_S4096x200x128_S128x128_S4096x200x128_2_0_01_1_n_n : DotDims S4096x200x128 S128x128 S4096x200x128 where
  lhsContracting := [2]
  rhsContracting := [0]
  lhsNonContracting := [0, 1]
  rhsNonContracting := [1]
  lhsBatch := []
  rhsBatch := []
  wf := dot_S4096x200x128_S128x128_S4096x200x128_2_0_01_1_n_n_wf

class Facts : Prop extends Facts₀ where

variable [Facts]
-- ==== Proof.SetupIdeal.lean ====
/-
  The common vocabulary of the kernel program's run: the program as the SparseCore launch theorem sees it (one
  vector-subcore call on 2 SparseCores × 16 tiles beside one TensorCore pipeline of 50 grid points), and the ghost
  state the proof uses — the launch handshakes' rounds, the subcore barrier cells' rounds, the TensorCore pipeline's
  staging cells' rounds, and the transfers' counters.
-/
import proofs.«204385_g66649302499670_cont_9to1c4b_43_34_alg».proof.KernelIdeal
import proofs.«204385_g66649302499670_cont_9to1c4b_43_34_alg».proof.Proof.Gen.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The subcore barrier cells' rounds. -/
abbrev UB : Type := URounds (GSem nD τ sig) ℕ
/-- The TensorCore pipeline's staging cells' rounds. -/
abbrev UR : Type := URounds (GSem nD τ sig) Unit
abbrev UU : Type := UH × (UB × (UR × Counters))

/-- The logic's model. -/
abbrev MM (F : FTy → Type) : Type := MT nD τ sig (HIx 1) (Elt F) ℕ UU ℕ

abbrev EH : Emb UH (MM F) := embL
def EB : Emb UB (MM F) :=
  ((Emb.inl : Emb UB (UB × (UR × Counters))).trans (Emb.inr : Emb (UB × (UR × Counters)) UU)).trans
    (uEmb (nD := nD) (sig := sig) (Ix := HIx 1) (Val := Elt F) (Name := ℕ) (U := UU) (Lvl := ℕ)).toEmb
instance EB_landsIn : (EB : Emb UB (MM F)).LandsIn (upEmb : UEmb _ (MM F)) := by unfold EB; infer_instance
def ER : Emb UR (MM F) :=
  (((Emb.inl : Emb UR (UR × Counters)).trans (Emb.inr : Emb (UR × Counters) (UB × (UR × Counters)))).trans
      (Emb.inr : Emb (UB × (UR × Counters)) UU)).trans
    (uEmb (nD := nD) (sig := sig) (Ix := HIx 1) (Val := Elt F) (Name := ℕ) (U := UU) (Lvl := ℕ)).toEmb
instance ER_landsIn : (ER : Emb UR (MM F)).LandsIn (upEmb : UEmb _ (MM F)) := by unfold ER; infer_instance

end Cert.KernelIdeal.Run

end
-- ==== Proof.PayIdeal.lean ====
/-
  What the SparseCore call hands over and takes back. The call reads four arrays — the two transformed tables and
  the two flat id arrays — and writes the 819200 × 128 result; worker (core c, tile i) of the 2 × 16 mesh owns the
  25600 rows of slab 2·i + c. Each SparseCore receives a read share of every input and the slabs of its sixteen
  tiles; each tile a read share of every input and its slab; tile 0 of a SparseCore also the SparseCore's shared
  scratch, which it fills with the property table and hands, one read share per tile, across the subcore barrier.
  At the end every slab holds the looked-up sum `outVal`.
-/
import proofs.«204385_g66649302499670_cont_9to1c4b_43_34_alg».proof.Proof.SetupIdeal
import Idealize.ShloMosaic.Lib.ValueIdx
import Idealize.ShloMosaic.Lib.Transfers

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MM F

/-! ## The arrays -/

abbrev teLoc (d : Dev nD) : Loc nD τ sig := (SparseCore.T d).loc main_v3_0
abbrev tpLoc (d : Dev nD) : Loc nD τ sig := (SparseCore.T d).loc main_v3_1
abbrev eidLoc (d : Dev nD) : Loc nD τ sig := (SparseCore.T d).loc main_v0
abbrev pidLoc (d : Dev nD) : Loc nD τ sig := (SparseCore.T d).loc main_v1
abbrev outLoc (d : Dev nD) : Loc nD τ sig := (SparseCore.T d).loc main_v4
/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

theorem nSC_eq : τ.nSC = 2 := rfl
theorem nSub_eq : τ.nSub = 16 := rfl

/-- A 32-bit index word as a row number of a table of `N` rows (the word's value when it is in range). -/
def rowOf (N : Nat) (hN : 0 < N) (x : BitVec 32) : Fin N := ⟨x.toNat % N, Nat.mod_lt _ hN⟩

/-- The result: row `r`, channel `j` is the element row's entry plus the property row's, added as the instance adds. -/
def outVal [FloatOps F] (te : Vec F S100000x128 .f32) (tp : Vec F S1000x128 .f32) (eid pid : Vec F S819200 .i32) : Vec F S819200x128 .f32 :=
  fun i => FloatOps.addf (φ := .f32) (te (ix2 (rowOf 100000 (by decide) (eid (ix1 (i 0)))) (i 1)))
    (tp (ix2 (rowOf 1000 (by decide) (pid (ix1 (i 0)))) (i 1)))

/-! ## The slabs -/

theorem hdiv32 : 32 ∣ S819200x128.size 0 := ⟨25600, rfl⟩
/-- Slab `w`: rows [25600·w, 25600·(w+1)) of the result. -/
abbrev slabRect (w : Fin 32) : Rect S819200x128 := Rect.part (s := S819200x128) (a₀ := 0) hdiv32 w
abbrev slabSet (w : Fin 32) : Finset S819200x128.Idx := ((Memref.whole main_v4_scv : Memref sig Kind.scVector Space.hbm S819200x128 EltTy.f32).view.slice (slabRect w)).set
/-- The worker number of tile `i` of SparseCore `c`. -/
def wid (c : Fin 2) (i : Fin 16) : Fin 32 := ⟨2 * i.val + c.val, by omega⟩

/-! ## The barrier cells -/

variable [FloatOps F]

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- The values the call works with, per device: the transformed tables, the flat id arrays, the result's launch
    contents. (The shared scratch's buffer type is the property table's.) -/
structure Vals (F : FTy → Type) where
  te : (d : Dev nD) → Buf (Elt F) (teLoc d)
  tp : (d : Dev nD) → Buf (Elt F) (tpLoc d)
  eid : (d : Dev nD) → Buf (Elt F) (eidLoc d)
  pid : (d : Dev nD) → Buf (Elt F) (pidLoc d)
  out0 : (d : Dev nD) → Buf (Elt F) (outLoc d)

variable (A : Vals F)

/-- The property table as the shared scratch's contents. -/
abbrev shVal (d : Dev nD) (c : Fin τ.nSC) : Buf (Elt F) (shLoc d c) := A.tp d
/-- The result's final contents. -/
abbrev outFin (d : Dev nD) : Buf (Elt F) (outLoc d) := outVal (A.te d) (A.tp d) (A.eid d) (A.pid d)

/-- Tile `j`'s read share of its SparseCore's shared scratch, filled. -/
abbrev shTok (d : Dev nD) (c : Fin τ.nSC) (j : Fin 16) : sProp 𝕄 := shLoc d c ↦{shareTok fullShare 16 j} shVal A d c

/-- What a duty in tile `j`'s barrier round hands over: tile 0's, tile `j`'s read share of the filled shared scratch;
    the others', nothing. -/
def bPay (g : GSem nD τ sig) (n : ℕ) : sProp 𝕄 :=
  match g with
  | ((d, .scVector c j), _) => if n = 0 then shTok A d c (Fin.cast nSub_eq j) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay A g n
  amount_pos _ _ _ _ := Nat.one_pos

instance bRd_payload_storable (g : GSem nD τ sig) (r n : ℕ) : BI.Storable (upEmb : UEmb _ 𝕄) ((bRd A).payload g r n) := by
  show BI.Storable upEmb (bPay A g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd A).duties (bcell d c j) 0 = (Finset.univ : Finset (Fin τ.nSub)).image Fin.val := by
  simp [bRd, isBar]
theorem bRd_mem₀ (d : Dev nD) (c : Fin τ.nSC) (j i : Fin τ.nSub) : i.val ∈ (bRd A).duties (bcell d c j) 0 := by
  rw [bRd_duties₀]; exact Finset.mem_image_of_mem _ (Finset.mem_univ i)
theorem bRd_expect (d : Dev nD) (c : Fin τ.nSC) (j : Fin τ.nSub) : 0 + grid1.bound 1 = (bRd A).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its
    own position at the origin of round 0, its duty token in every tile's round 0, and the credit for the sixteen
    units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd A) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

/-- Read shares of the four inputs at share `q`. -/
abbrev reads (q : PosShare TreeShare) (d : Dev nD) : sProp 𝕄 :=
  iprop((teLoc d ↦{q} A.te d) ∗ (tpLoc d ↦{q} A.tp d) ∗ (eidLoc d ↦{q} A.eid d) ∗ (pidLoc d ↦{q} A.pid d))

abbrev slabPts (d : Dev nD) (w : Fin 32) (f : Buf (Elt F) (outLoc d)) : sProp 𝕄 := outLoc d ↦[slabSet w]{fullShare} f

/-- The SparseCore of the call's core number `c`. -/
abbrev coreOf (c : Fin ((K (F := F)).nCore 0)) : Fin τ.nSC := (K (F := F)).core 0 c
abbrev coreIx (c : Fin ((K (F := F)).nCore 0)) : Fin 2 := Fin.cast nCore_zero c
abbrev subIx (i : Fin ((K (F := F)).nSub 0)) : Fin 16 := Fin.cast nSub_zero i
/-- SparseCore `c`'s read share, and tile `i`'s of it. -/
abbrev qCore (c : Fin 2) : PosShare TreeShare := shareTok fullShare 2 c
abbrev qTile (c : Fin 2) (i : Fin 16) : PosShare TreeShare := shareTok (qCore c) 16 i

def P : (K (F := F)).Pay (nD := nD) (Val := Elt F) (Name := ℕ) (U := UU) where
  st := fun q d c => match q with
    | 0 => iprop(reads A (qCore (coreIx c)) d ∗ bigSep Finset.univ fun i : Fin 16 => slabPts d (wid (coreIx c) i) (A.out0 d))
  dn := fun q d c => match q with
    | 0 => iprop(reads A (qCore (coreIx c)) d ∗ bigSep Finset.univ fun i : Fin 16 => slabPts d (wid (coreIx c) i) (outFin A d))
  go := fun q d c i => match q with
    | 0 => iprop(reads A (qTile (coreIx c) (subIx i)) d ∗ slabPts d (wid (coreIx c) (subIx i)) (A.out0 d)
        ∗ (if (subIx i).val = 0 then iprop(∃ f, shLoc d (coreOf c) ↦{fullShare} f) else iprop(emp)))
  td := fun q d c i => match q with
    | 0 => iprop(reads A (qTile (coreIx c) (subIx i)) d ∗ slabPts d (wid (coreIx c) (subIx i)) (outFin A d)
        ∗ shTok A d (coreOf c) (subIx i)
        ∗ (if (subIx i).val = 0 then iprop(shLoc d (coreOf c) ↦{shareDrop fullShare 16} shVal A d (coreOf c)) else iprop(emp)))
  x := fun _ thr => match thr with
    | (d, .scVector c i) => bkit A d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P A).IsStorable where
  st q d c := match q with
    | 0 => by unfold P; dsimp only; infer_instance
  dn q d c := match q with
    | 0 => by unfold P; dsimp only; infer_instance
  go q d c i := match q with
    | 0 => by unfold P; dsimp only; split <;> infer_instance
  td q d c i := match q with
    | 0 => by unfold P; dsimp only; split <;> infer_instance

end Cert.KernelIdeal.Run

end
-- ==== Proof.VecSplitIdeal.lean ====
/-
  How a SparseCore's operands split among its sixteen tiles and how the tiles' results gather: each input's read share
  splits into sixteen read tokens (the remainder is kept aside and joined back), the sixteen slabs go one to a tile,
  and the SparseCore's shared scratch goes whole to tile 0 and comes back as sixteen read tokens and the remainder.
-/
import proofs.«204385_g66649302499670_cont_9to1c4b_43_34_alg».proof.Proof.PayIdeal

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MM F

variable (A : Vals F)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- Of sixteen conjuncts that are `X` at tile 0 and nothing elsewhere, only `X` is there. -/
theorem bigSep_at_zero (X : sProp 𝕄) :
    (bigSep Finset.univ fun i : Fin 16 => (if i.val = 0 then X else iprop(emp) : sProp 𝕄)) = iprop(X ∗ emp) := by
  rw [SparseCore.bigSep_erase' (Finset.mem_univ (0 : Fin 16))]
  congr 1
  rw [bigSep_congr (Ψ := fun _ => (iprop(emp) : sProp 𝕄)) fun i hi => by
    have : i.val ≠ 0 := fun h => (Finset.mem_erase.mp hi).1 (Fin.ext h)
    simp only [this, ↓reduceIte], bigSep_emp']

omit [FloatOps F] in
/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- Read shares of the four inputs split into sixteen tokens and the remainder, and join back. -/
theorem reads_split (q : PosShare TreeShare) (d : Dev nD) :
    reads A q d ⊢ iprop(reads A (shareDrop q 16) d ∗ bigSep Finset.univ fun i : Fin 16 => reads A (shareTok q 16 i) d) := by
  unfold reads
  simp only [bigSep_sep']
  iintro ⟨H1, H2, H3, H4⟩
  ihave H1 := (pointsTo_toks_split q 16) $$ H1
  ihave H2 := (pointsTo_toks_split q 16) $$ H2
  ihave H3 := (pointsTo_toks_split q 16) $$ H3
  ihave H4 := (pointsTo_toks_split q 16) $$ H4
  icases H1 with ⟨D1, T1⟩
  icases H2 with ⟨D2, T2⟩
  icases H3 with ⟨D3, T3⟩
  icases H4 with ⟨D4, T4⟩
  isplitl [D1 D2 D3 D4]
  · isplitl [D1]; · iexact D1
    isplitl [D2]; · iexact D2
    isplitl [D3]; · iexact D3
    iexact D4
  · isplitl [T1]; · iexact T1
    isplitl [T2]; · iexact T2
    isplitl [T3]; · iexact T3
    iexact T4

theorem reads_join (q : PosShare TreeShare) (d : Dev nD) :
    iprop(reads A (shareDrop q 16) d ∗ bigSep Finset.univ fun i : Fin 16 => reads A (shareTok q 16 i) d) ⊢ reads A q d := by
  unfold reads
  simp only [bigSep_sep']
  iintro ⟨⟨D1, D2, D3, D4⟩, T1, T2, T3, T4⟩
  isplitl [D1 T1]
  · iapply (pointsTo_toks_join q 16); isplitl [D1] <;> iassumption
  isplitl [D2 T2]
  · iapply (pointsTo_toks_join q 16); isplitl [D2] <;> iassumption
  isplitl [D3 T3]
  · iapply (pointsTo_toks_join q 16); isplitl [D3] <;> iassumption
  · iapply (pointsTo_toks_join q 16); isplitl [D4] <;> iassumption

/-- The split of the call's operands for SparseCore `c` into its tiles' and the gathering of their results. -/
theorem vecSplit : (K (F := F)).VecSplit (P A) 0 := by
  intro d c
  show iprop(iprop(reads A (qCore (coreIx c)) d ∗ bigSep Finset.univ fun i : Fin 16 => slabPts d (wid (coreIx c) i) (A.out0 d)) ∗ ownBufs (S d (coreOf c)))
    ⊢ |={Set.univ}=> iprop(
      (bigSep Finset.univ fun i : Fin ((K (F := F)).nSub 0) => iprop(reads A (qTile (coreIx c) (Fin.cast nSub_zero i)) d
        ∗ slabPts d (wid (coreIx c) (Fin.cast nSub_zero i)) (A.out0 d)
        ∗ (if (Fin.cast nSub_zero i).val = 0 then iprop(∃ f, shLoc d (coreOf c) ↦{fullShare} f) else iprop(emp))))
      ∗ ((bigSep Finset.univ fun i : Fin ((K (F := F)).nSub 0) => iprop(reads A (qTile (coreIx c) (Fin.cast nSub_zero i)) d
            ∗ slabPts d (wid (coreIx c) (Fin.cast nSub_zero i)) (outFin A d)
            ∗ shTok A d (coreOf c) (Fin.cast nSub_zero i)
            ∗ (if (Fin.cast nSub_zero i).val = 0 then iprop(shLoc d (coreOf c) ↦{shareDrop fullShare 16} shVal A d (coreOf c)) else iprop(emp))))
          -∗ iprop(iprop(reads A (qCore (coreIx c)) d ∗ bigSep Finset.univ fun i : Fin 16 => slabPts d (wid (coreIx c) i) (outFin A d)) ∗ ownBufs (S d (coreOf c)))))
  rw [bigSep_tasks (F := F) (fun i => iprop(reads A (qTile (coreIx c) i) d ∗ slabPts d (wid (coreIx c) i) (A.out0 d)
        ∗ (if i.val = 0 then iprop(∃ f, shLoc d (coreOf c) ↦{fullShare} f) else iprop(emp)))),
    bigSep_tasks (F := F) (fun i => iprop(reads A (qTile (coreIx c) i) d ∗ slabPts d (wid (coreIx c) i) (outFin A d)
        ∗ shTok A d (coreOf c) i
        ∗ (if i.val = 0 then iprop(shLoc d (coreOf c) ↦{shareDrop fullShare 16} shVal A d (coreOf c)) else iprop(emp)))),
    bigSep_sep' _ (fun i : Fin 16 => reads A (qTile (coreIx c) i) d) (fun i => iprop(slabPts d (wid (coreIx c) i) (A.out0 d)
        ∗ (if i.val = 0 then iprop(∃ f, shLoc d (coreOf c) ↦{fullShare} f) else iprop(emp)))),
    bigSep_sep' _ (fun i : Fin 16 => slabPts d (wid (coreIx c) i) (A.out0 d)) (fun i => (if i.val = 0 then iprop(∃ f, shLoc d (coreOf c) ↦{fullShare} f) else iprop(emp) : sProp 𝕄)),
    bigSep_sep' _ (fun i : Fin 16 => reads A (qTile (coreIx c) i) d) (fun i => iprop(slabPts d (wid (coreIx c) i) (outFin A d)
        ∗ shTok A d (coreOf c) i
        ∗ (if i.val = 0 then iprop(shLoc d (coreOf c) ↦{shareDrop fullShare 16} shVal A d (coreOf c)) else iprop(emp)))),
    bigSep_sep' _ (fun i : Fin 16 => slabPts d (wid (coreIx c) i) (outFin A d)) (fun i => iprop(shTok A d (coreOf c) i
        ∗ (if i.val = 0 then iprop(shLoc d (coreOf c) ↦{shareDrop fullShare 16} shVal A d (coreOf c)) else iprop(emp)))),
    bigSep_sep' _ (fun i : Fin 16 => shTok A d (coreOf c) i) (fun i => (if i.val = 0 then iprop(shLoc d (coreOf c) ↦{shareDrop fullShare 16} shVal A d (coreOf c)) else iprop(emp) : sProp 𝕄)),
    bigSep_at_zero, bigSep_at_zero, ownBufs_S]
  iintro ⟨⟨Hr, Hsl⟩, ⟨%fsh, Hsh⟩, Hrest⟩
  ihave Hr2 := (reads_split A (qCore (coreIx c)) d) $$ Hr
  icases Hr2 with ⟨Hdrop, Htoks⟩
  imodintro
  isplitl [Htoks Hsl Hsh]
  · isplitl [Htoks]; · iexact Htoks
    isplitl [Hsl]; · iexact Hsl
    isplitl [Hsh]; · iexists fsh; iexact Hsh
    iempintro
  iintro ⟨Htoks, Hsl, Hst, Hsd, -⟩
  isplitl [Hdrop Htoks Hsl]
  · isplitl [Hdrop Htoks]
    · iapply (reads_join A (qCore (coreIx c)) d); isplitl [Hdrop] <;> iassumption
    · iexact Hsl
  isplitl [Hst Hsd]
  · iexists shVal A d (coreOf c)
    iapply (pointsTo_toks_join fullShare 16); isplitl [Hsd] <;> iassumption
  · iexact Hrest

end Cert.KernelIdeal.Run

end
-- ==== Proof.CallSplitIdeal.lean ====
/-
  What the TensorCore hands the two SparseCores at the call and gets back: every input's full share splits into two
  read tokens and a remainder; the result splits into its 32 slabs, sixteen to each SparseCore (slab 2·i + c to tile
  i of SparseCore c), and the slabs join back into the whole result.
-/
import proofs.«204385_g66649302499670_cont_9to1c4b_43_34_alg».proof.Proof.VecSplitIdeal

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MM F

variable (A : Vals F)

/-- Read shares of the four inputs split into two tokens and the remainder, and join back. -/
theorem reads_split2 (q : PosShare TreeShare) (d : Dev nD) :
    reads A q d ⊢ iprop(reads A (shareDrop q 2) d ∗ bigSep Finset.univ fun i : Fin 2 => reads A (shareTok q 2 i) d) := by
  unfold reads
  simp only [bigSep_sep']
  iintro ⟨H1, H2, H3, H4⟩
  ihave H1 := (pointsTo_toks_split q 2) $$ H1
  ihave H2 := (pointsTo_toks_split q 2) $$ H2
  ihave H3 := (pointsTo_toks_split q 2) $$ H3
  ihave H4 := (pointsTo_toks_split q 2) $$ H4
  icases H1 with ⟨D1, T1⟩
  icases H2 with ⟨D2, T2⟩
  icases H3 with ⟨D3, T3⟩
  icases H4 with ⟨D4, T4⟩
  isplitl [D1 D2 D3 D4]
  · isplitl [D1]; · iexact D1
    isplitl [D2]; · iexact D2
    isplitl [D3]; · iexact D3
    iexact D4
  · isplitl [T1]; · iexact T1
    isplitl [T2]; · iexact T2
    isplitl [T3]; · iexact T3
    iexact T4

theorem reads_join2 (q : PosShare TreeShare) (d : Dev nD) :
    iprop(reads A (shareDrop q 2) d ∗ bigSep Finset.univ fun i : Fin 2 => reads A (shareTok q 2 i) d) ⊢ reads A q d := by
  unfold reads
  simp only [bigSep_sep']
  iintro ⟨⟨D1, D2, D3, D4⟩, T1, T2, T3, T4⟩
  isplitl [D1 T1]
  · iapply (pointsTo_toks_join q 2); isplitl [D1] <;> iassumption
  isplitl [D2 T2]
  · iapply (pointsTo_toks_join q 2); isplitl [D2] <;> iassumption
  isplitl [D3 T3]
  · iapply (pointsTo_toks_join q 2); isplitl [D3] <;> iassumption
  · iapply (pointsTo_toks_join q 2); isplitl [D4] <;> iassumption

/-! ## The slabs -/

omit [FloatOps F] in
theorem slabSet_eq (w : Fin 32) : slabSet w = (slabRect w).set := by
  show ((View.whole (main_v4_scv : Ref sig .scVector)).slice (slabRect w)).set = _
  rw [View.set_slice]; exact Finset.map_refl
omit [FloatOps F] in
theorem slabs_disjoint : ∀ i ∈ (Finset.univ : Finset (Fin 32)), ∀ j ∈ (Finset.univ : Finset (Fin 32)), i ≠ j → Disjoint (slabSet i) (slabSet j) :=
  fun i _ j _ h => by rw [slabSet_eq, slabSet_eq]; exact Rect.part_disjoint hdiv32 h
omit [FloatOps F] in
theorem slabs_cover : (Finset.univ : Finset (Fin 32)).biUnion slabSet = Finset.univ :=
  (Finset.biUnion_congr rfl fun i _ => slabSet_eq i).trans (Rect.biUnion_part hdiv32)

omit [FloatOps F] in
/-- The result whole is its 32 slabs. -/
theorem out_slabs (d : Dev nD) (f : Buf (Elt F) (outLoc d)) :
    (outLoc d ↦{fullShare} f : sProp 𝕄) = bigSep Finset.univ fun w : Fin 32 => slabPts d w f := by
  unfold slabPts
  rw [← pointsTo_biUnion Finset.univ (ℓ := outLoc d) slabSet slabs_disjoint, slabs_cover]; try rfl

/-- Worker numbers: (core, tile) ↦ 2·tile + core is a bijection onto the 32 slabs. -/
def widEquiv : Fin 2 × Fin 16 ≃ Fin 32 where
  toFun x := wid x.1 x.2
  invFun w := (⟨w.val % 2, Nat.mod_lt _ (by decide)⟩, ⟨w.val / 2, by have := w.isLt; omega⟩)
  left_inv x := by
    obtain ⟨c, i⟩ := x
    refine Prod.ext (Fin.ext ?_) (Fin.ext ?_)
    · show (2 * i.val + c.val) % 2 = c.val; have := c.isLt; omega
    · show (2 * i.val + c.val) / 2 = i.val; have := c.isLt; omega
  right_inv w := by
    refine Fin.ext ?_
    show 2 * (w.val / 2) + w.val % 2 = w.val; omega

omit [FloatOps F] in
/-- The 32 slabs, regrouped: sixteen per SparseCore. -/
theorem slabs_regroup (Φ : Fin 32 → sProp 𝕄) :
    (bigSep Finset.univ Φ) = bigSep Finset.univ fun c : Fin 2 => bigSep Finset.univ fun i : Fin 16 => Φ (wid c i) := by
  rw [bigSep_univ_equiv widEquiv Φ, bigSep_univ_prod]
  rfl

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- Before the call: the inputs whole and the result whole are the remainder of the inputs' shares and what each
    SparseCore is handed. -/
theorem call_pre (d : Dev nD) :
    iprop(reads A fullShare d ∗ (outLoc d ↦{fullShare} A.out0 d))
      ⊢ iprop(reads A (shareDrop fullShare 2) d ∗ bigSep Finset.univ fun c : Fin ((K (F := F)).nCore 0) => (P A).st 0 d c) := by
  show _ ⊢ iprop(_ ∗ bigSep Finset.univ fun c : Fin ((K (F := F)).nCore 0) =>
    iprop(reads A (qCore (Fin.cast nCore_zero c)) d ∗ bigSep Finset.univ fun i : Fin 16 => slabPts d (wid (Fin.cast nCore_zero c) i) (A.out0 d)))
  rw [bigSep_cores (F := F) (fun c => iprop(reads A (qCore c) d ∗ bigSep Finset.univ fun i : Fin 16 => slabPts d (wid c i) (A.out0 d))),
    bigSep_sep' _ (fun c : Fin 2 => reads A (qCore c) d) (fun c => bigSep Finset.univ fun i : Fin 16 => slabPts d (wid c i) (A.out0 d)),
    ← slabs_regroup (F := F) (fun w => slabPts d w (A.out0 d)), ← out_slabs]
  iintro ⟨Hr, Ho⟩
  ihave Hr2 := (reads_split2 A fullShare d) $$ Hr
  icases Hr2 with ⟨Hd, Ht⟩
  isplitl [Hd]; · iexact Hd
  isplitl [Ht]; · iexact Ht
  iexact Ho

/-- After the call: the remainder and what the SparseCores hand back are the inputs whole and the result whole at its
    final contents. -/
theorem call_post (d : Dev nD) :
    iprop(reads A (shareDrop fullShare 2) d ∗ bigSep Finset.univ fun c : Fin ((K (F := F)).nCore 0) => (P A).dn 0 d c)
      ⊢ iprop(reads A fullShare d ∗ (outLoc d ↦{fullShare} outFin A d)) := by
  show iprop(_ ∗ bigSep Finset.univ fun c : Fin ((K (F := F)).nCore 0) =>
    iprop(reads A (qCore (Fin.cast nCore_zero c)) d ∗ bigSep Finset.univ fun i : Fin 16 => slabPts d (wid (Fin.cast nCore_zero c) i) (outFin A d))) ⊢ _
  rw [bigSep_cores (F := F) (fun c => iprop(reads A (qCore c) d ∗ bigSep Finset.univ fun i : Fin 16 => slabPts d (wid c i) (outFin A d))),
    bigSep_sep' _ (fun c : Fin 2 => reads A (qCore c) d) (fun c => bigSep Finset.univ fun i : Fin 16 => slabPts d (wid c i) (outFin A d)),
    ← slabs_regroup (F := F) (fun w => slabPts d w (outFin A d)), ← out_slabs]
  iintro ⟨Hd, Ht, Ho⟩
  isplitl [Hd Ht]
  · iapply (reads_join2 A fullShare d); isplitl [Hd] <;> iassumption
  · iexact Ho

end Cert.KernelIdeal.Run

end
-- ==== Proof.HuIdeal.lean ====
/-
  The launch element of the ghost state: the handshake cells' rounds, the barrier cells' rounds with their
  invariants allocated for every tile at once and each tile dealt its kit, and the TensorCore pipeline's staging
  cells' rounds handed to @main.
-/
import proofs.«204385_g66649302499670_cont_9to1c4b_43_34_alg».proof.Proof.PayIdeal

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (A : Vals F)

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid1.bound 1) => (bcell x.1.1 x.1.2.1 (x.2.castLE hsub1), 0, x.1.2.2.val)
/-- The launch element: the handshakes' rounds, the barrier cells', the pipeline's staging cells' (`uR`). -/
def u₀ (uR : UR) : UU := (initOf (K (F := F)).hsCells (K (F := F)).hsToks, (initOf bCells bToks, (uR, 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) (r : UR) : (ownU ((a, (b, (r, 1))) : UU) : sProp 𝕄) ⊢ iprop(BI.own (EH a) ∗ BI.own (EB b) ∗ BI.own (ER r)) := by
  have h1 : (ownU ((a, (b, (r, 1))) : UU) : sProp 𝕄) ⊢ iprop(BI.own (EH a) ∗ ownU (((1 : UH), (b, (r, (1 : Counters)))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (r, (1 : Counters))))))
  have h2 : (ownU (((1 : UH), (b, (r, (1 : Counters)))) : UU) : sProp 𝕄) ⊢ iprop(BI.own (EB b) ∗ BI.own (ER r)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (Prod.mk_mem_op (URA.mem_one_op r) (URA.mem_op_one (1 : Counters))))))
  exact h1.trans (sep_mono_right h2)

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd A) g 0)
    ⊢ |={Set.univ}=> iprop(∃ κ : GSem nD τ sig → ℕ, bigSep bCells fun g => cellInv EB (bRd A) (κ g) g) := by
  refine (Rounds.bodies_intro EB (bRd A) bCells).trans ((inv_alloc_family bCells (Rounds.body EB (bRd A)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the tiles' barrier debts, regrouped: each tile the sixteen units of its own cell. -/
theorem creds_b : ((P A).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P A).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P A).oxFrom 0 (V d c i) = oxV d c := fun i => by
    rw [show (0 : ℕ) = (0 : Fin 1).val from rfl, (P A).oxFrom_step, (P A).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P A).x q (SparseCore.T d)) = iprop(emp) :=
  bigSep_univ_of_subsingleton (0 : Fin 1)
theorem Px_S (d : Dev nD) (c : Fin τ.nSC) : (bigSep Finset.univ fun q : Fin 1 => (P A).x q (S d c)) = iprop(emp) :=
  bigSep_univ_of_subsingleton (0 : Fin 1)
theorem Px_V (d : Dev nD) (c : Fin τ.nSC) (i : Fin τ.nSub) :
    (bigSep Finset.univ fun q : Fin 1 => (P A).x q (V d c i)) = bkit A d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd A) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One tile's kit out of those. -/
theorem kit_intro (dci : DCI) : iprop(shared A ∗ mine (F := F) dci) ⊢ (bkit A dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd A) (κ (bcell₃ x)) (bcell₃ x)) fun j _ =>
        sep_elim_left.trans (bigSep_elim (Φ := fun x : DCI => (cellInv EB (bRd A) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each tile its kit. -/
theorem kits_deal :
    iprop(shared A ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P A).x q thr : sProp 𝕄) := by
  rw [SparseCore.Cfg.bigSep_threads (fun thr : Thread nD τ => bigSep Finset.univ fun q : Fin 1 => (P A).x q thr)]
  simp only [Px_T, Px_S, Px_V, bigSep_emp']
  iintro ⟨#Hsh, Hat, Htok, Hcred⟩
  isplitr; · iempintro
  isplitr; · iempintro
  iapply (bigSep_mono_frame (R := shared A) (Φ := mine (F := F)) fun dci _ => kit_intro A dci)
  isplitr; · iexact Hsh
  unfold mine
  rw [bigSep_sep', bigSep_sep']
  isplitl [Hat]; · iexact Hat
  isplitl [Htok]; · iexact Htok
  iexact Hcred

/-- What @main's proof starts from: the pipeline's staging cells' launch element (the mesh has one device). -/
def G0 (uR : UR) (_ : Dev nD) : sProp 𝕄 := BI.own (ER uR)

theorem hu₀ (uR : UR) : iprop(ownU (u₀ (F := F) uR) ∗ (P A).oxCred ∗ (K (F := F)).freeSems0)
    ⊢ |={Set.univ}=> iprop(BI.own (EH (initOf (K (F := F)).hsCells (K (F := F)).hsToks)) ∗ (bigSep Finset.univ (G0 (F := F) uR))
        ∗ (bigSep Finset.univ fun thr : Thread nD τ => bigSep Finset.univ fun q : Fin 1 => (P A).x q thr) : sProp 𝕄) := by
  unfold u₀
  iintro ⟨Hu, Hcred, Hfree⟩
  ihave H := (ownU_split _ _ _) $$ Hu
  icases H with ⟨HH, HB, HR⟩
  imod (Rounds.fund EB (bRd A) bCells bToks) $$ HB with ⟨Hst, #Hr, Hat, Htok⟩
  ihave Hsems := (sems_b (F := F)) $$ Hfree
  imod (invs_b A) $$ [Hsems Hst] with ⟨%κ, #Hinv⟩
  · isplitl [Hsems] <;> iassumption
  ihave Hcred' := (creds_b A) $$ Hcred
  ihave Hinv' := (Entails.of_eq (bCells_eq (F := F) fun g => cellInv EB (bRd A) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HR]
  · rw [bigSep_univ_of_subsingleton (0 : Dev nD)]; unfold G0; iexact HR
  iapply (kits_deal A)
  isplitr
  · isplitl; · iexists κ; iexact Hinv'
    iexact Hr'
  isplitl [Hat']; · iexact Hat'
  isplitl [Htok']; · iexact Htok'
  iexact Hcred'

end Cert.KernelIdeal.Run

end
-- ==== Proof.LaunchIdeal.lean ====
/-
  The kernel program's run from the launch theorem of SparseCore programs: the tile's task, the split of a
  SparseCore's operands among its tiles, the launch element of the ghost state, @main on the TensorCore, and how
  the final memory reads the claim.
-/
import proofs.«204385_g66649302499670_cont_9to1c4b_43_34_alg».proof.Proof.PayIdeal

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop)
open Idealize.ShloMosaic.Tactic

variable {F : FTy → Type} [FloatOps F]

local notation "𝕄" => MM F

variable (m : (ℓ : Loc nD τ sig) → Buf (Elt F) ℓ) (ρ : Dev nD → PrngReg) (A : Vals F)

abbrev argLoc (d : Dev nD) (b : Ref sig .tc) : Loc nD τ sig := (SparseCore.T d).loc b

/-- What @main leaves: the six arguments at their launch contents and the result at `res d`. -/
def FIN (res : (d : Dev nD) → Buf (Elt F) (argLoc d main_v5)) (d : Dev nD) : sProp 𝕄 :=
  iprop((argLoc d main_v5 ↦{fullShare} res d) ∗ (argLoc d main_arg0 ↦{fullShare} m (argLoc d main_arg0))
    ∗ (argLoc d main_arg1 ↦{fullShare} m (argLoc d main_arg1)) ∗ (argLoc d main_arg2 ↦{fullShare} m (argLoc d main_arg2))
    ∗ (argLoc d main_arg3 ↦{fullShare} m (argLoc d main_arg3)) ∗ (argLoc d main_arg4 ↦{fullShare} m (argLoc d main_arg4))
    ∗ (argLoc d main_arg5 ↦{fullShare} m (argLoc d main_arg5)))

def fq (res : (d : Dev nD) → Buf (Elt F) (argLoc d main_v5)) (d : Dev nD) (s' : Phys nD τ sig (Elt F)) : Prop :=
  s'.mem.mem (argLoc d main_v5) = res d ∧ s'.mem.mem (argLoc d main_arg0) = m (argLoc d main_arg0)
    ∧ s'.mem.mem (argLoc d main_arg1) = m (argLoc d main_arg1) ∧ s'.mem.mem (argLoc d main_arg2) = m (argLoc d main_arg2)
    ∧ s'.mem.mem (argLoc d main_arg3) = m (argLoc d main_arg3) ∧ s'.mem.mem (argLoc d main_arg4) = m (argLoc d main_arg4)
    ∧ s'.mem.mem (argLoc d main_arg5) = m (argLoc d main_arg5)

omit [FloatOps F] in
theorem agree_full (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] in
theorem hfin (res : (d : Dev nD) → Buf (Elt F) (argLoc d main_v5)) (d : Dev nD) (s' : Phys nD τ sig (Elt F)) :
    iprop(FIN m res d ∗ SI s') ⊢ (⌜fq m res d s'⌝ : sProp 𝕄) := by
  unfold FIN
  iintro ⟨⟨H5, H0, H1, H2, H3, H4, H6⟩, HSI⟩
  icombine HSI H5 gives %h5
  icombine HSI H0 gives %h0
  icombine HSI H1 gives %h1
  icombine HSI H2 gives %h2
  icombine HSI H3 gives %h3
  icombine HSI H4 gives %h4
  icombine HSI H6 gives %h6
  ipureintro
  exact ⟨funext fun i => h5 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i),
    funext fun i => h6 i (Finset.mem_univ i)⟩

/-- The run's post: on every device the result at `res` and the six arguments unchanged. -/
def QC (res : (d : Dev nD) → Buf (Elt F) (argLoc d main_v5)) : PUnit × MemSt nD τ sig (Elt F) → Prop := fun r => ∀ c : Dev nD,
  r.2.mem (argLoc c main_v5) = res c ∧ r.2.mem (argLoc c main_arg0) = m (argLoc c main_arg0)
    ∧ r.2.mem (argLoc c main_arg1) = m (argLoc c main_arg1) ∧ r.2.mem (argLoc c main_arg2) = m (argLoc c main_arg2)
    ∧ r.2.mem (argLoc c main_arg3) = m (argLoc c main_arg3) ∧ r.2.mem (argLoc c main_arg4) = m (argLoc c main_arg4)
    ∧ r.2.mem (argLoc c main_arg5) = m (argLoc c main_arg5)

/-- The program's run from its five parts. -/
theorem run_of_parts [∀ e, Nonempty (Elt F e)] (res : (d : Dev nD) → Buf (Elt F) (argLoc d main_v5)) (u₀ : UU) (G : Dev nD → sProp 𝕄)
    (htile : (K (F := F)).TileObl (D (F := F)) 𝒱 (P A) v₀ 0)
    (hvec : (K (F := F)).VecSplit (P A) 0)
    (hu₀ : iprop(ownU u₀ ∗ (P A).oxCred ∗ (K (F := F)).freeSems0) ⊢ |={Set.univ}=> iprop(BI.own (EH (initOf (K (F := F)).hsCells (K (F := F)).hsToks)) ∗ bigSep Finset.univ G
      ∗ bigSep Finset.univ fun thr : Thread nD τ => bigSep Finset.univ fun q : Fin 1 => (P A).x q thr))
    (hmain : ∀ (κ : GSem nD τ sig → ℕ) (d : Dev nD),
      iprop((K (F := F)).ctx EH (P A) κ ∗ (K (F := F)).tcSt EH d 0 ∗ (K (F := F)).tcRes m ρ d ∗ G d)
        ⊢ wp frame (wpE ((K (F := F)).defs (D (F := F))) 𝒱 (SparseCore.T d) none) Set.univ (main d)
            fun _ => iprop((K (F := F)).tcSt EH d 1 ∗ FIN m res d)) :
    θ_run (Cert.KernelIdeal.defs (F := F)) (Cert.KernelIdeal.threads (F := F)) ⟨m, fun _ => 0, ρ⟩ (QC m res) :=
  SparseCore.Cfg.θ_run_sc (K := K (F := F)) (D := D (F := F)) (𝒱 := 𝒱) (EH := EH) (P := P A) facts v₀
    (fun q hq => match q with | 0 => nomatch hq)
    (fun q _ => match q with | 0 => htile)
    (fun q _ => match q with | 0 => hvec)
    m ρ main G (FIN m res) u₀ hu₀ hmain (fq m res) (hfin m res) (QC m res) (fun _ h => h)

end Cert.KernelIdeal.Run

end
-- ==== Proof.HmainIdeal.lean ====
/-
  @main on the TensorCore: three host reshapes, the TensorCore pipeline that transforms the two tables, the
  SparseCore call that looks the rows up and adds them, and the last reshape.
-/
import proofs.«204385_g66649302499670_cont_9to1c4b_43_34_alg».proof.Proof.CallSplitIdeal
import proofs.«204385_g66649302499670_cont_9to1c4b_43_34_alg».proof.Proof.HuIdeal
import proofs.«204385_g66649302499670_cont_9to1c4b_43_34_alg».proof.Proof.LaunchIdeal

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type} [FloatOps F]

local notation "𝕄" => MM F

/-- A host reshape of `x` into `y`, holding the two arrays: `y` ends at `x`'s elements in row-major order. -/
theorem reshape_step {Λ' : Labels} (defs' : Defs nD τ sig (Elt F) Λ') (𝒱' : Variants) (d : Dev nD) (bd : Option 𝒱'.V) (E : Set ℕ)
    (x y : Ref sig .tc) (hne : (Proc.devRef .tc x : DevRef τ sig) ≠ Proc.devRef .tc y)
    (he : x.ty.elt = y.ty.elt) (hn : x.ty.shape.ShapeCasts y.ty.shape)
    (hx : x.space ≠ .host ∧ (x : DevRef τ sig).isScoped = false) (hy : y.space ≠ .host ∧ (y : DevRef τ sig).isScoped = false)
    (V₀ : Valuation τ sig (Elt F)) (fx : Buf (Elt F) ((SparseCore.T d : Thread nD τ).loc x)) (fy : Buf (Elt F) ((SparseCore.T d : Thread nD τ).loc y))
    {α : Type} (k : ((b : (StableHlo.reshape (Val := Elt F) x y he hn hx hy).writes) → b.1.ty.Contents (Elt F)) → Prog (TpuEff nD τ sig (Elt F) Λ' .tc) α) (Q : α → sProp 𝕄) :
    iprop(boundary (SparseCore.T d) ∗ ((SparseCore.T d : Thread nD τ).loc x ↦{fullShare} fx) ∗ ((SparseCore.T d : Thread nD τ).loc y ↦{fullShare} fy)
      ∗ ((boundary (SparseCore.T d) ∗ ((SparseCore.T d : Thread nD τ).loc x ↦{fullShare} fx)
          ∗ ((SparseCore.T d : Thread nD τ).loc y ↦{fullShare} (fun i => he ▸ shapeCast y.ty.shape fx hn i)))
        -∗ ∀ a, wp frame (wpE defs' 𝒱' (SparseCore.T d) bd) E (k a) Q))
    ⊢ wp frame (wpE defs' 𝒱' (SparseCore.T d) bd) E (hlo rfl (StableHlo.reshape x y he hn hx hy) k) Q := by
  have hWx : Function.update (Function.update V₀ (x : DevRef τ sig) fx) (y : DevRef τ sig) fy (x : DevRef τ sig) = fx := by
    rw [Function.update_of_ne hne, Function.update_self]
  have hWy : Function.update (Function.update V₀ (x : DevRef τ sig) fx) (y : DevRef τ sig) fy (y : DevRef τ sig) = fy := Function.update_self _ _ _
  have hpre : (held (SparseCore.T d) {(x : DevRef τ sig), (y : DevRef τ sig)} (Function.update (Function.update V₀ (x : DevRef τ sig) fx) (y : DevRef τ sig) fy) : sProp 𝕄)
      = iprop(((SparseCore.T d : Thread nD τ).loc x ↦{fullShare} fx) ∗ ((SparseCore.T d : Thread nD τ).loc y ↦{fullShare} fy)) := by
    unfold held
    rw [SparseCore.bigSep_insert' (by simpa using hne), bigSep_singleton, hWx, hWy]
  have hpost : (held (SparseCore.T d) {(x : DevRef τ sig), (y : DevRef τ sig)}
        ((StableHlo.reshape (Val := Elt F) x y he hn hx hy).result (Function.update (Function.update V₀ (x : DevRef τ sig) fx) (y : DevRef τ sig) fy)) : sProp 𝕄)
      = iprop(((SparseCore.T d : Thread nD τ).loc x ↦{fullShare} fx)
          ∗ ((SparseCore.T d : Thread nD τ).loc y ↦{fullShare} (fun i => he ▸ shapeCast y.ty.shape fx hn i))) := by
    unfold held
    rw [SparseCore.bigSep_insert' (by simpa using hne), bigSep_singleton,
      (StableHlo.reshape (Val := Elt F) x y he hn hx hy).result_of_not_mem _ (b := (x : DevRef τ sig)) (by simpa using hne),
      StableHlo.reshape_result, hWx]
  iintro ⟨Hb, Hx, Hy, Hk⟩
  iapply (wp_hlo_within 𝒱' (SparseCore.T d) bd E (op := StableHlo.reshape (Val := Elt F) x y he hn hx hy) (S := {(x : DevRef τ sig), (y : DevRef τ sig)}) (Finset.Subset.refl _)
    (V := Function.update (Function.update V₀ (x : DevRef τ sig) fx) (y : DevRef τ sig) fy)) $$ [Hb Hx Hy]
  · isplitl [Hb]; · iexact Hb
    rw [hpre]; isplitl [Hx] <;> iassumption
  iintro ⟨Hb, Hheld⟩
  ihave Hh := (Entails.of_eq hpost) $$ Hheld
  icases Hh with ⟨Hx, Hy⟩
  ihave Hk' := Hk $$ [Hb Hx Hy]
  · isplitl [Hb]; · iexact Hb
    isplitl [Hx] <;> iassumption
  iapply Hk'

/-! ## @main's arrays -/

omit [FloatOps F] in
theorem unscopedBufs_eq (d : Dev nD) (W : (b : Ref sig .tc) → Buf (Elt F) ((d.tc : Thread nD τ).loc b)) :
    (unscopedBufs d W : sProp 𝕄) = iprop(
      (argLoc d main_arg0 ↦{fullShare} W main_arg0) ∗ (argLoc d main_arg1 ↦{fullShare} W main_arg1) ∗ (argLoc d main_arg2 ↦{fullShare} W main_arg2)
      ∗ (argLoc d main_arg3 ↦{fullShare} W main_arg3) ∗ (argLoc d main_arg4 ↦{fullShare} W main_arg4) ∗ (argLoc d main_arg5 ↦{fullShare} W main_arg5)
      ∗ (argLoc d main_v0 ↦{fullShare} W main_v0) ∗ (argLoc d main_v1 ↦{fullShare} W main_v1) ∗ (argLoc d main_v2 ↦{fullShare} W main_v2)
      ∗ (argLoc d main_v3_0 ↦{fullShare} W main_v3_0) ∗ (argLoc d main_v3_1 ↦{fullShare} W main_v3_1) ∗ (argLoc d main_v4 ↦{fullShare} W main_v4)
      ∗ (argLoc d main_v5 ↦{fullShare} W main_v5)) := by
  unfold unscopedBufs
  rw [show (Finset.univ.filter fun b : Ref sig .tc => ¬ b.isScoped)
      = {main_arg0, main_arg1, main_arg2, main_arg3, main_arg4, main_arg5, main_v0, main_v1, main_v2, main_v3_0, main_v3_1, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-! ## The values -/

/-- A host reshape's result: the source's elements in row-major order at the target's shape. -/
abbrev flatOf (d : Dev nD) (x y : Ref sig .tc) (he : x.ty.elt = y.ty.elt) (hn : x.ty.shape.ShapeCasts y.ty.shape)
    (fx : Buf (Elt F) ((SparseCore.T d : Thread nD τ).loc x)) : Buf (Elt F) ((SparseCore.T d : Thread nD τ).loc y) :=
  fun i => he ▸ shapeCast y.ty.shape fx hn i

section Main

variable (m : (ℓ : Loc nD τ sig) → Buf (Elt F) ℓ) (ρ : Dev nD → PrngReg)
variable (teV : Vec F S100000x64 .f32 → Vec F S128x128 .f32 → Vec F S100000x128 .f32)
variable (tpV : Vec F S1000x64 .f32 → Vec F S128x128 .f32 → Vec F S1x128 .f32 → Vec F S1000x128 .f32)

/-- The values the SparseCore call works with, from the launch memory. -/
def valsOf : Vals F where
  te d := teV (m (argLoc d main_arg2)) (m (argLoc d main_arg4))
  tp d := tpV (m (argLoc d main_arg3)) (m (argLoc d main_arg4)) (flatOf d main_arg5 main_v2 rfl shapeCasts_S128_S1x128 (m (argLoc d main_arg5)))
  eid d := flatOf d main_arg0 main_v0 rfl shapeCasts_S4096x200_S819200 (m (argLoc d main_arg0))
  pid d := flatOf d main_arg1 main_v1 rfl shapeCasts_S4096x200_S819200 (m (argLoc d main_arg1))
  out0 d := m (argLoc d main_v4)

/-- The program's result: the call's result at the result's shape. -/
def resOf (d : Dev nD) : Buf (Elt F) (argLoc d main_v5) :=
  flatOf d main_v4 main_v5 rfl shapeCasts_S819200x128_S4096x200x128 (outFin (valsOf m teV tpV) d)

/-- The TensorCore pipeline's rule, as @main uses it: from the funded staging cells, what the TensorCore owes and
    the six arrays, the call ends with the two results at the transformed tables. -/
def RegionRule (uR : UR) : Prop :=
  (∀ d : Dev nD, (BI.own (ER (F := F) uR) : sProp 𝕄) ⊢ iprop(|==> (Pipeline.cellsGhost (Pipeline.pin (pcfgs (F := F)) fun p => (cfgs p).toPCfg_adm) ER 0 d
      ∗ Pipeline.toksInit (Pipeline.pin (pcfgs (F := F)) fun p => (cfgs p).toPCfg_adm) ER 0 d)))
  ∧ ∀ (d : Dev nD) (O : CellTallies nD τ sig (HIx 1)) (_ : ∀ g, O g none = 0) (b : ℕ)
      (Vv : (r : Ref sig .tc) → Buf (Elt F) ((SparseCore.T d : Thread nD τ).loc r)),
    iprop(levAts (K (F := F)).L (K (F := F)).lev ∗ boundary (SparseCore.T d)
        ∗ Pipeline.cellsGhost (Pipeline.pin (pcfgs (F := F)) fun p => (cfgs p).toPCfg_adm) ER 0 d
        ∗ Pipeline.toksInit (Pipeline.pin (pcfgs (F := F)) fun p => (cfgs p).toPCfg_adm) ER 0 d
        ∗ (∃ W, ⌜(K (F := F)).WBelow (SparseCore.T d) W b⌝ ∗ owes (SparseCore.T d) O W)
        ∗ (argLoc d main_arg2 ↦{fullShare} Vv main_arg2) ∗ (argLoc d main_arg3 ↦{fullShare} Vv main_arg3) ∗ (argLoc d main_arg4 ↦{fullShare} Vv main_arg4)
        ∗ (argLoc d main_v2 ↦{fullShare} Vv main_v2) ∗ (argLoc d main_v3_0 ↦{fullShare} Vv main_v3_0) ∗ (argLoc d main_v3_1 ↦{fullShare} Vv main_v3_1))
      ⊢ wp frame (wpE ((K (F := F)).defs (D (F := F))) 𝒱 (SparseCore.T d) none) Set.univ (Prog.lift (.customCall (SparseCore.inner (Pipeline.entry 0)) ()))
          fun _ => iprop(boundary (SparseCore.T d) ∗ (∃ W, ⌜(K (F := F)).WBelow (SparseCore.T d) W b⌝ ∗ owes (SparseCore.T d) O W)
            ∗ (argLoc d main_arg2 ↦{fullShare} Vv main_arg2) ∗ (argLoc d main_arg3 ↦{fullShare} Vv main_arg3) ∗ (argLoc d main_arg4 ↦{fullShare} Vv main_arg4)
            ∗ (argLoc d main_v2 ↦{fullShare} Vv main_v2)
            ∗ (argLoc d main_v3_0 ↦{fullShare} teV (Vv main_arg2) (Vv main_arg4)) ∗ (argLoc d main_v3_1 ↦{fullShare} tpV (Vv main_arg3) (Vv main_arg4) (Vv main_v2)))

end Main

section Main2

variable (m : (ℓ : Loc nD τ sig) → Buf (Elt F) ℓ) (ρ : Dev nD → PrngReg)
variable (teV : Vec F S100000x64 .f32 → Vec F S128x128 .f32 → Vec F S100000x128 .f32)
variable (tpV : Vec F S1000x64 .f32 → Vec F S128x128 .f32 → Vec F S1x128 .f32 → Vec F S1000x128 .f32)

/-- The TensorCore's handshake state but what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

omit [FloatOps F] in
theorem tcSt_eq (d : Dev nD) (n : ℕ) :
    ((K (F := F)).tcSt EH d n : sProp 𝕄) = iprop((∃ W, ⌜(K (F := F)).WBelow (SparseCore.T d) W (8 * n)⌝ ∗ owes (SparseCore.T d) ((K (F := F)).Otc d n) W) ∗ tcRest (F := F) d n) := by
  unfold SparseCore.Cfg.tcSt tcRest; rfl

omit [FloatOps F] in
theorem Otc_none (d : Dev nD) (n : ℕ) (g : GSem nD τ sig) : (K (F := F)).Otc d n g none = 0 := by
  by_contra h
  have := (K (F := F)).lev_of_Otc_pos (d := d) (n := n) (g := g) (ι := none) (Nat.pos_of_ne_zero h)
  rw [SparseCore.Cfg.lev_none] at this
  omega

/-- The TensorCore's arrays as the pipeline's rule reads them: the launch contents, but the reshaped bias. -/
def Vreg (d : Dev nD) : (r : Ref sig .tc) → Buf (Elt F) ((SparseCore.T d : Thread nD τ).loc r) :=
  Function.update (fun r => m ((SparseCore.T d : Thread nD τ).loc r)) main_v2 (flatOf d main_arg5 main_v2 rfl shapeCasts_S128_S1x128 (m (argLoc d main_arg5)))

theorem hmain (uR : UR) (hreg : RegionRule (F := F) teV tpV uR) (κ : GSem nD τ sig → ℕ) (d : Dev nD) :
    iprop((K (F := F)).ctx EH (P (valsOf m teV tpV)) κ ∗ (K (F := F)).tcSt EH d 0 ∗ (K (F := F)).tcRes m ρ d ∗ G0 (F := F) uR d)
      ⊢ wp frame (wpE ((K (F := F)).defs (D (F := F))) 𝒱 (SparseCore.T d) none) Set.univ (main d)
          fun _ => iprop((K (F := F)).tcSt EH d 1 ∗ FIN m (resOf m teV tpV) d) := by
  have hV2 : Vreg m d main_arg2 = m (argLoc d main_arg2) := Function.update_of_ne (by decide) _ _
  have hV3 : Vreg m d main_arg3 = m (argLoc d main_arg3) := Function.update_of_ne (by decide) _ _
  have hV4 : Vreg m d main_arg4 = m (argLoc d main_arg4) := Function.update_of_ne (by decide) _ _
  have hVte : Vreg m d main_v3_0 = m (argLoc d main_v3_0) := Function.update_of_ne (by decide) _ _
  have hVtp : Vreg m d main_v3_1 = m (argLoc d main_v3_1) := Function.update_of_ne (by decide) _ _
  have hVb : Vreg m d main_v2 = flatOf d main_arg5 main_v2 rfl shapeCasts_S128_S1x128 (m (argLoc d main_arg5)) := Function.update_self _ _ _
  unfold SparseCore.Cfg.tcRes G0
  rw [unscopedBufs_eq, tcSt_eq]
  simp only [main, wp_bind, wp_pure]
  iintro ⟨#Hctx, ⟨HW, Hst⟩, ⟨Hb, ⟨H0, H1, H2, H3, H4, H5, Hv0, Hv1, Hv2, Hte, Htp, Hv4, Hv5⟩, -, -⟩, HG⟩
  -- the ids, flat
  iapply (reshape_step ((K (F := F)).defs (D (F := F))) 𝒱 d none Set.univ main_arg0 main_v0 (by decide) rfl shapeCasts_S4096x200_S819200 ⟨by decide, rfl⟩ ⟨by decide, rfl⟩ (fun b => m (d, b)) _ _ _ _)
  isplitl [Hb]; · iexact Hb
  isplitl [H0]; · iexact H0
  isplitl [Hv0]; · iexact Hv0
  iintro ⟨Hb, H0, Hv0⟩ %_
  rw [wp_ret]; imodintro
  iapply (reshape_step ((K (F := F)).defs (D (F := F))) 𝒱 d none Set.univ main_arg1 main_v1 (by decide) rfl shapeCasts_S4096x200_S819200 ⟨by decide, rfl⟩ ⟨by decide, rfl⟩ (fun b => m (d, b)) _ _ _ _)
  isplitl [Hb]; · iexact Hb
  isplitl [H1]; · iexact H1
  isplitl [Hv1]; · iexact Hv1
  iintro ⟨Hb, H1, Hv1⟩ %_
  rw [wp_ret]; imodintro
  -- the bias as a one-row matrix
  iapply (reshape_step ((K (F := F)).defs (D (F := F))) 𝒱 d none Set.univ main_arg5 main_v2 (by decide) rfl shapeCasts_S128_S1x128 ⟨by decide, rfl⟩ ⟨by decide, rfl⟩ (fun b => m (d, b)) _ _ _ _)
  isplitl [Hb]; · iexact Hb
  isplitl [H5]; · iexact H5
  isplitl [Hv2]; · iexact Hv2
  iintro ⟨Hb, H5, Hv2⟩ %_
  rw [wp_ret]; imodintro
  -- the TensorCore pipeline: the two transformed tables
  imod (hreg.1 d) $$ HG with ⟨Hcg, Htk⟩
  ihave Hlev := (SparseCore.Cfg.ctx_levAts κ) $$ Hctx
  have hr := hreg.2 d ((K (F := F)).Otc d 0) (Otc_none d 0) (8 * 0) (Vreg m d)
  rw [hV2, hV3, hV4, hVte, hVtp, hVb] at hr
  ihave Hwp := hr $$ [Hlev Hb Hcg Htk HW H2 H3 H4 Hv2 Hte Htp]
  · isplitl [Hlev]; · iexact Hlev
    isplitl [Hb]; · iexact Hb
    isplitl [Hcg]; · iexact Hcg
    isplitl [Htk]; · iexact Htk
    isplitl [HW]; · iexact HW
    isplitl [H2]; · iexact H2
    isplitl [H3]; · iexact H3
    isplitl [H4]; · iexact H4
    isplitl [Hv2]; · iexact Hv2
    isplitl [Hte]; · iexact Hte
    iexact Htp
  iapply (wp_wand_r frame (wpE ((K (F := F)).defs (D (F := F))) 𝒱 (SparseCore.T d) none) Set.univ)
  isplitl [Hwp]; · iexact Hwp
  iintro %_ ⟨Hb, HW, H2, H3, H4, Hv2, Hte, Htp⟩
  -- the SparseCore call
  ihave Hpre := (call_pre (valsOf m teV tpV) d) $$ [Hte Htp Hv0 Hv1 Hv4]
  · isplitl [Hte Htp Hv0 Hv1]
    · isplitl [Hte]; · iexact Hte
      isplitl [Htp]; · iexact Htp
      isplitl [Hv0]; · iexact Hv0
      iexact Hv1
    · iexact Hv4
  icases Hpre with ⟨Hdrop, Hcall⟩
  iapply ((K (F := F)).wp_run (D (F := F)) 𝒱 (EH := EH) (P := P (valsOf m teV tpV)) κ d 0)
  isplitr; · iexact Hctx
  isplitl [HW Hst]
  · rw [tcSt_eq]; isplitl [HW]; · iexact HW
    iexact Hst
  isplitl [Hcall]; · iexact Hcall
  iintro ⟨Hst, Hdn⟩
  ihave Hpost := (call_post (valsOf m teV tpV) d) $$ [Hdrop Hdn]
  · isplitl [Hdrop] <;> iassumption
  icases Hpost with ⟨⟨Hte, Htp, Hv0, Hv1⟩, Hv4⟩
  -- the result at its shape
  iapply (reshape_step ((K (F := F)).defs (D (F := F))) 𝒱 d none Set.univ main_v4 main_v5 (by decide) rfl shapeCasts_S819200x128_S4096x200x128 ⟨by decide, rfl⟩ ⟨by decide, rfl⟩ (fun b => m (d, b)) _ _ _ _)
  isplitl [Hb]; · iexact Hb
  isplitl [Hv4]; · iexact Hv4
  isplitl [Hv5]; · iexact Hv5
  iintro ⟨Hb, Hv4, Hv5⟩ %_
  rw [wp_ret]; imodintro; imodintro
  isplitl [Hst]; · iexact Hst
  unfold FIN
  isplitl [Hv5]; · iexact Hv5
  isplitl [H0]; · iexact H0
  isplitl [H1]; · iexact H1
  isplitl [H2]; · iexact H2
  isplitl [H3]; · iexact H3
  isplitl [H4]; · iexact H4
  iexact H5

end Main2

end Cert.KernelIdeal.Run

end
-- ==== Proof.TcDat.lean ====
/-
  The TensorCore call of the program: the values it computes and the proof data of its pipeline.

  The call runs one body over a grid of 50 points. Point `t` sees rows [2000 t, 2000 (t + 1)) of the element table, the
  whole property table, the whole 128 × 128 weight matrix and the bias row. It multiplies the element rows by the left
  half of the weight matrix (columns [0, 64)) and stores the 2000 × 128 product; at point 0 only it also multiplies the
  property table by the right half (columns [64, 128)), adds the bias row to every row, and stores the 1000 × 128
  result, which stays in its staging buffer until the last point writes it back.
-/
import proofs.«204385_g66649302499670_cont_9to1c4b_43_34_alg».proof.Proof.SetupIdeal
import proofs.«204385_g66649302499670_cont_9to1c4b_43_34_alg».proof.Proof.Gen.KernelIdeal.Launch
import proofs.«204385_g66649302499670_cont_9to1c4b_43_34_alg».proof.Proof.Gen.KernelIdeal.Skeleton
import proofs.«204385_g66649302499670_cont_9to1c4b_43_34_alg».proof.Proof.Gen.KernelIdeal.Points
import Idealize.ShloMosaic.Lib.Pipeline.FrameBody
import Idealize.ShloMosaic.Lib.Pipeline.TableIdle
import Idealize.ShloMosaic.Lib.Pipeline.Regions
import Idealize.ShloMosaic.Lib.ValueIdx
import Idealize.ShloMosaic.Lib.Tactic

set_option maxRecDepth 16384

noncomputable section

namespace Cert.KernelIdeal.Run.Tc

open Cert.KernelIdeal Cert.KernelIdeal.Gen Cert.KernelIdeal.Run
open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The values -/

/-- A rank-2 offset of zeros, however it is spelt. -/
theorem zero2 : (![0, 0] : Fin 2 → Nat) = fun _ => 0 := funext fun a => by fin_cases a <;> rfl

/-- The left half of the weight matrix: columns [0, 64), as the body's first load reads it. -/
def wLeft (w : Vec F S128x128 .f32) : Vec F S128x64 .f32 :=
  View.ld w (Rect.unit (s := S128x128) ![0, 0] S128x64.size inb_S128x128_S128x64_0_0)

/-- The right half: columns [64, 128), as the load under the condition reads it. -/
def wRight (w : Vec F S128x128 .f32) : Vec F S128x64 .f32 :=
  View.ld w (Rect.unit (s := S128x128) ![0, 64] S128x64.size inb_S128x128_S128x64_0_64)

/-- Rows [2000 t, 2000 (t + 1)) of the element table. -/
def eRows (etab : Vec F S100000x64 .f32) (t : Fin 50) : Vec F S2000x64 .f32 :=
  fun j => etab (ix2 (⟨2000 * t.val + (j 0).val, by have := idx2_lt0 j; have := t.isLt; omega⟩ : Fin 100000) (j 1))

/-- The transformed element table: row `i` is row `i % 2000` of the product of rows-block `i / 2000` of the element
    table with the left half of the weight matrix. -/
def teVal (etab : Vec F S100000x64 .f32) (w : Vec F S128x128 .f32) : Vec F S100000x128 .f32 :=
  fun i => k0_pay1 (wLeft w) (eRows etab ⟨(i 0).val / 2000, by have := idx2_lt0 i; omega⟩)
    (ix2 (⟨(i 0).val % 2000, Nat.mod_lt _ (by decide)⟩ : Fin 2000) (i 1))

/-- The transformed property table: the property table times the right half of the weight matrix, plus the bias row. -/
def tpVal (ptab : Vec F S1000x64 .f32) (w : Vec F S128x128 .f32) (b2 : Vec F S1x128 .f32) : Vec F S1000x128 .f32 :=
  k0_pay2 (wRight w) ptab b2

/-! ## The proof data -/

/-- No prefetched table. -/
abbrev adm : (p : Fin 1) → (pcfgs (F := F) p).Adm := fun p => (cfgs p).toPCfg_adm

/-- The condition under which the body computes the property half holds at the first point only. -/
theorem hcond : ∀ t : Fin cfg0.N, k0_cond1 (grid0.coords t) = 1#1 ↔ t.val = 0 :=
  (by decide +kernel : ∀ t : Fin grid0.N, k0_cond1 (grid0.coords t) = 1#1 ↔ t.val = 0)

/-- The first point. -/
abbrev t0 : Fin cfg0.N := ⟨0, by decide⟩

section Data

variable (d : Dev nD) (Vv : (r : Ref sig .tc) → Buf (Elt F) ((d : Thread nD τ).loc r))

/-- Window `w`'s block at point `t`, read off its array. -/
def blk (w : Fin cfg0.W) (t : Fin cfg0.N) : ((cfg0.win w).xblock (cfg0.grid.coords t)).Idx → Elt F (cfg0.win w).elt :=
  ((cfg0.win w).blk t).view.read (Elt F) (Vv (Pipeline.arrRef spec0 w))

/-- What the body stores into the first output's block at point `t`. -/
def out4 (t : Fin cfg0.N) : Vec F S2000x128 .f32 := k0_pay1 (wLeft (blk d Vv 2 t)) (blk d Vv 0 t)

/-- What the body stores into the second output's block, at the first point. -/
def out5 : Vec F S1000x128 .f32 := k0_pay2 (wRight (blk d Vv 2 t0)) (blk d Vv 1 t0) (blk d Vv 3 t0)

variable (O : CellTallies nD τ sig (HIx 1)) (b : ℕ)

/-- The proof data of the pipeline on device `d`: the arrays at their entry contents; after the body each input's
    buffer at its block and each output's at the stored product; no invariant of the body's own; the thread owes the
    same tallies throughout, and its recorded waits stay at levels at most `b`. -/
def tdat (_ : Fin 1) : Dat τ (Elt F) (HIx 1) ℕ UU ℕ cfg0 d where
  A w := Vv (Pipeline.arrRef spec0 w)
  after w t := match w with
    | ⟨0, _⟩ => blk d Vv 0 t
    | ⟨1, _⟩ => blk d Vv 1 t
    | ⟨2, _⟩ => blk d Vv 2 t
    | ⟨3, _⟩ => blk d Vv 3 t
    | ⟨4, _⟩ => out4 d Vv t
    | ⟨5, _⟩ => out5 d Vv
  Φ _ := BI.emp
  q _ := fullShare
  owed _ := O
  recorded _ := {p | (K (F := F)).lev ((d : Thread nD τ), p.1) p.2 ≤ b}

theorem A_eq (w : Fin cfg0.W) : (tdat d Vv O b 0).A w = Vv (Pipeline.arrRef spec0 w) := by dsimp only [tdat]
theorem after_0 (t : Fin cfg0.N) : (tdat d Vv O b 0).after 0 t = blk d Vv 0 t := by dsimp only [tdat]
theorem after_1 (t : Fin cfg0.N) : (tdat d Vv O b 0).after 1 t = blk d Vv 1 t := by dsimp only [tdat]
theorem after_2 (t : Fin cfg0.N) : (tdat d Vv O b 0).after 2 t = blk d Vv 2 t := by dsimp only [tdat]
theorem after_3 (t : Fin cfg0.N) : (tdat d Vv O b 0).after 3 t = blk d Vv 3 t := by dsimp only [tdat]
theorem after_4 (t : Fin cfg0.N) : (tdat d Vv O b 0).after 4 t = out4 d Vv t := by dsimp only [tdat]
theorem after_5 (t : Fin cfg0.N) : (tdat d Vv O b 0).after 5 t = out5 d Vv := by dsimp only [tdat]

/-- Each input's current staging buffer holds its block at every point, fetched there or not. -/
theorem before_0 (t : Fin cfg0.N) (x) : (tdat d Vv O b 0).before 0 t x = blk d Vv 0 t :=
  ((tdat d Vv O b 0).before_in_eq_fetched 0 rfl (fun _ => rfl) (fun _ _ _ => rfl)
    (fun t => by rw [after_0]; unfold Dat.blockOf blk; rw [A_eq]; try rfl) t x).trans
    (by unfold Dat.fetched Dat.blockOf blk; rw [A_eq]; try rfl)
theorem before_1 (t : Fin cfg0.N) (x) : (tdat d Vv O b 0).before 1 t x = blk d Vv 1 t :=
  ((tdat d Vv O b 0).before_in_eq_fetched 1 rfl (fun _ => rfl) (fun _ _ _ => rfl)
    (fun t => by rw [after_1]; unfold Dat.blockOf blk; rw [A_eq]; try rfl) t x).trans
    (by unfold Dat.fetched Dat.blockOf blk; rw [A_eq]; try rfl)
theorem before_2 (t : Fin cfg0.N) (x) : (tdat d Vv O b 0).before 2 t x = blk d Vv 2 t :=
  ((tdat d Vv O b 0).before_in_eq_fetched 2 rfl (fun _ => rfl) (fun _ _ _ => rfl)
    (fun t => by rw [after_2]; unfold Dat.blockOf blk; rw [A_eq]; try rfl) t x).trans
    (by unfold Dat.fetched Dat.blockOf blk; rw [A_eq]; try rfl)
theorem before_3 (t : Fin cfg0.N) (x) : (tdat d Vv O b 0).before 3 t x = blk d Vv 3 t :=
  ((tdat d Vv O b 0).before_in_eq_fetched 3 rfl (fun _ => rfl) (fun _ _ _ => rfl)
    (fun t => by rw [after_3]; unfold Dat.blockOf blk; rw [A_eq]; try rfl) t x).trans
    (by unfold Dat.fetched Dat.blockOf blk; rw [A_eq]; try rfl)

/-- The second output's staging buffer is fetched at no point. -/
theorem fetch_5 (t : Fin cfg0.N) : (cfg0.win 5).fetch t = false := (cfg0.win 5).fetch_out rfl t

/-- The body stores into the second output at the first point, -/
theorem idle_5_first (t : Fin cfg0.N) (ht : t.val = 0) : cfg0.idle 5 (cfg0.grid.coords t) = false := by
  show (!(k0_cond1 (grid0.coords t) == 1#1)) = false
  rw [(hcond t).mpr ht]; rfl

/-- and at no other. -/
theorem idle_5_later (t : Fin cfg0.N) (ht : t.val ≠ 0) : cfg0.idle 5 (cfg0.grid.coords t) = true := by
  show (!(k0_cond1 (grid0.coords t) == 1#1)) = true
  have h := (hcond t).not.mpr ht
  simpa using h

/-- The second output's block is written back at the last point only. -/
theorem flush_5_false (t : Fin cfg0.N) (ht : t.val ≠ 49) : (cfg0.win 5).flush t = false :=
  Bool.eq_false_iff.mpr fun h => by
    have h' := (flush0_5 t).mp h
    have hN : t.val < 50 := lt_of_lt_of_eq t.isLt N_0
    omega

/-- At the second point the second output's buffer holds what the first point stored: nothing wrote it back, and the
    window's blocks are whole. -/
theorem before_5_one (t1 : Fin cfg0.N) (h1 : t1.val = 1) (x) : (tdat d Vv O b 0).before 5 t1 x = out5 d Vv := by
  rw [(tdat d Vv O b 0).before_of_pos 5 t1 (by omega) (fetch_5 t1) x,
    flush_5_false ⟨t1.val - 1, Nat.lt_of_le_of_lt (Nat.sub_le _ _) t1.isLt⟩ (by show t1.val - 1 ≠ 49; omega), if_neg Bool.false_ne_true]
  unfold Dat.left
  rw [idle_5_first ⟨t1.val - 1, Nat.lt_of_le_of_lt (Nat.sub_le _ _) t1.isLt⟩ (by show t1.val - 1 = 0; omega)]
  unfold Dat.kept
  exact ((Pipeline.fill_of_clip_none (cfg := cfg0) (5 : Fin cfg0.W) _ (fun _ => rfl) x ((tdat d Vv O b 0).after 5 _) _).trans
    ((cfg0.win 5).fill_cut _ _)).trans (after_5 d Vv O b _)

/-- At every later point the second output's buffer still holds what the first point stored: the points between store
    nothing into it and do not write it back. -/
theorem before_5 (t : Fin cfg0.N) (ht : t.val ≠ 0) (x) : (tdat d Vv O b 0).before 5 t x = out5 d Vv := by
  have hN : t.val < 50 := lt_of_lt_of_eq t.isLt N_0
  rw [(tdat d Vv O b 0).before_idle_run 5 fetch_5 x (t.val - 1) t (Nat.sub_le _ _)
    (fun j h1 h2 => ⟨idle_5_later j (by omega), flush_5_false j (by omega)⟩)]
  exact before_5_one d Vv O b _ (by show t.val - (t.val - 1) = 1; omega) x

end Data

end Cert.KernelIdeal.Run.Tc

end
-- ==== Proof.TcBody.lean ====
/-
  The body of the TensorCore call, once, at a symbolic grid point.

  On whole staging buffers the body loads the left half of the weight block and the element block, and stores their
  product over the whole first output block; where its condition holds (the first grid point) it also loads the right
  half, the property block and the bias block, and stores the product plus the bias over the whole second output block.
  Elsewhere the second output's buffer is left as it was found: it still holds what the first point stored, which the
  last point writes back.
-/
import proofs.«204385_g66649302499670_cont_9to1c4b_43_34_alg».proof.Proof.TcDat
import Idealize.ShloMosaic.Lib.Pipeline.Value

set_option maxRecDepth 16384

noncomputable section

namespace Cert.KernelIdeal.Run.Tc

open Cert.KernelIdeal Cert.KernelIdeal.Gen Cert.KernelIdeal.Run
open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The body on any whole staging memrefs -/

/-- A load through the whole-buffer rectangle of a buffer whose contents read `X` reads `X`. -/
theorem readAt_whole {sh : Shape} {e : EltTy} (c : Thread nD τ) (m : Memref sig c.2.kind .vmem sh e) (hm : m.IsWhole)
    (X : sh.Idx → Elt F e) {off : Fin sh.rank → Nat} (h : off = fun _ => 0) (inb : ∀ a, off a + sh.size a ≤ sh.size a) :
    m.view.readAt (Elt F) (Rect.unit off sh.size inb).toLoadRect (hm.unread X) = X := by
  rw [View.readAt_eq_ld, hm.read_unread, View.ld_unit_zero h]

/-- One store through the whole-buffer rectangle leaves its payload, whatever the buffer held. -/
theorem read_store_whole {sh : Shape} {e : EltTy} (c : Thread nD τ) (m : Memref sig c.2.kind .vmem sh e)
    (f : m.view.ty.Contents (Elt F)) (Y : sh.Idx → Elt F e) {off : Fin sh.rank → Nat} (h : off = fun _ => 0)
    (inb : ∀ a, off a + sh.size a ≤ sh.size a) :
    m.view.read (Elt F) (m.view.writes (Elt F) f [⟨Rect.unit off sh.size inb, Y⟩]) = Y :=
  (View.read_writes_eq_canon _ _ _ fun y => ⟨_, List.mem_singleton_self _, View.mem_set_unit_zero h inb y⟩).trans
    (View.canon_unit_zero h inb Y)

/-- WHERE THE CONDITION HOLDS: from the four input blocks and the two output buffers at anything, the body leaves the
    inputs as they were, the first output at the element block times the left half of the weight block, the second at
    the property block times the right half plus the bias block. -/
theorem run_first (c : Dev nD) (i : grid0.Coords)
    (arg1 : Memref sig .tc .vmem S2000x64 .f32) (harg1 : arg1.IsWhole) (arg2 : Memref sig .tc .vmem S1000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole) (arg6 : Memref sig .tc .vmem S1000x128 .f32) (harg6 : arg6.IsWhole)
    (hc : k0_cond1 i = 1#1)
    (x1 : Vec F S2000x64 .f32) (x2 : Vec F S1000x64 .f32) (x3 : Vec F S128x128 .f32) (x4 : Vec F S1x128 .f32) (Q : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ y, owns (c : Thread nD τ) arg5 fullShare y) ∗ (∃ y, owns (c : Thread nD τ) arg6 fullShare y)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay1 (wLeft x3) x1)
            ∗ owns (c : Thread nD τ) arg6 fullShare (k0_pay2 (wRight x3) x2 x4)) -∗ Q ⟨⟩))
      ⊢ wp frame (wpE (defs₀ (F := F)) Variants.none c none) Set.univ
          (cc0__transform_body i arg1 harg1 arg2 harg2 arg3 harg3 arg4 harg4 arg5 harg5 arg6 harg6) Q := by
  simp only [cc0__transform_body_eq_skeleton]; unfold cc0__transform_body_skel
  unfold owns
  iintro ⟨⟨%f1, %hf1, H1⟩, ⟨%f2, %hf2, H2⟩, ⟨%f3, %hf3, H3⟩, ⟨%f4, %hf4, H4⟩, ⟨%y5, %f5, -, H5⟩, ⟨%y6, %f6, -, H6⟩, Hk⟩
  obtain rfl := harg1.eq_unread hf1
  obtain rfl := harg2.eq_unread hf2
  obtain rfl := harg3.eq_unread hf3
  obtain rfl := harg4.eq_unread hf4
  sl_exec (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    rw [read_store_whole (c : Thread nD τ) arg5 f5 _ zero2]
    rw [readAt_whole (c : Thread nD τ) arg1 harg1 x1 zero2, View.readAt_eq_ld, harg3.read_unread]; rfl
  · iexists _; isplitr; swap; · iexact H6
    ipureintro
    rw [read_store_whole (c : Thread nD τ) arg6 f6 _ zero2]
    rw [readAt_whole (c : Thread nD τ) arg2 harg2 x2 zero2, readAt_whole (c : Thread nD τ) arg4 harg4 x4 zero2, View.readAt_eq_ld, harg3.read_unread]; rfl

/-- WHERE IT FAILS: the body reads the weight block and the element block and stores their product over the first
    output; it touches nothing else. -/
theorem run_rest (c : Dev nD) (i : grid0.Coords)
    (arg1 : Memref sig .tc .vmem S2000x64 .f32) (harg1 : arg1.IsWhole) (arg2 : Memref sig .tc .vmem S1000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole) (arg6 : Memref sig .tc .vmem S1000x128 .f32) (harg6 : arg6.IsWhole)
    (hc : ¬ k0_cond1 i = 1#1)
    (x1 : Vec F S2000x64 .f32) (x3 : Vec F S128x128 .f32) (Q : PUnit → sProp 𝕄) :
    iprop(owns (c : Thread nD τ) arg1 fullShare x1 ∗ owns (c : Thread nD τ) arg3 fullShare x3 ∗ (∃ y, owns (c : Thread nD τ) arg5 fullShare y)
        ∗ (iprop(owns (c : Thread nD τ) arg1 fullShare x1 ∗ owns (c : Thread nD τ) arg3 fullShare x3
            ∗ owns (c : Thread nD τ) arg5 fullShare (k0_pay1 (wLeft x3) x1)) -∗ Q ⟨⟩))
      ⊢ wp frame (wpE (defs₀ (F := F)) Variants.none c none) Set.univ
          (cc0__transform_body i arg1 harg1 arg2 harg2 arg3 harg3 arg4 harg4 arg5 harg5 arg6 harg6) Q := by
  simp only [cc0__transform_body_eq_skeleton]; unfold cc0__transform_body_skel
  unfold owns
  iintro ⟨⟨%f1, %hf1, H1⟩, ⟨%f3, %hf3, H3⟩, ⟨%y5, %f5, -, H5⟩, Hk⟩
  obtain rfl := harg1.eq_unread hf1
  obtain rfl := harg3.eq_unread hf3
  sl_exec (disch := first | exact hc)
  sl_step
  iapply Hk
  isplitl [H1]
  · iexists _; isplitr; · ipureintro; exact hf1
    iexact H1
  isplitl [H3]
  · iexists _; isplitr; · ipureintro; exact hf3
    iexact H3
  iexists _; isplitr; swap; · iexact H5
  ipureintro
  rw [read_store_whole (c : Thread nD τ) arg5 f5 _ zero2]
  rw [readAt_whole (c : Thread nD τ) arg1 harg1 x1 zero2, View.readAt_eq_ld, harg3.read_unread]; rfl

/-! ## The body obligation, at a generic point -/

section Obligation

variable (d : Dev nD) (Vv : (r : Ref sig .tc) → Buf (Elt F) ((d : Thread nD τ).loc r)) (O : CellTallies nD τ sig (HIx 1)) (b : ℕ)

/-- Each window's current staging memref at point `t`, as the pipeline passes it to the body. -/
abbrev ms_0 (t : Fin cfg0.N) : Memref sig .tc .vmem S2000x64 .f32 := win0_0.stage (cfg0.slots t 0)
abbrev ms_1 (t : Fin cfg0.N) : Memref sig .tc .vmem S1000x64 .f32 := win0_1.stage (cfg0.slots t 1)
abbrev ms_2 (t : Fin cfg0.N) : Memref sig .tc .vmem S128x128 .f32 := win0_2.stage (cfg0.slots t 2)
abbrev ms_3 (t : Fin cfg0.N) : Memref sig .tc .vmem S1x128 .f32 := win0_3.stage (cfg0.slots t 3)
abbrev ms_4 (t : Fin cfg0.N) : Memref sig .tc .vmem S2000x128 .f32 := win0_4.stage (cfg0.slots t 4)
abbrev ms_5 (t : Fin cfg0.N) : Memref sig .tc .vmem S1000x128 .f32 := win0_5.stage (cfg0.slots t 5)

/-- What the body is called with at point `t`, the windows one by one, -/
def bodyPre (t : Fin cfg0.N) : sProp 𝕄 :=
  iprop((tdat d Vv O b 0).Φ t.castSucc ∗ (tdat d Vv O b 0).owesAt none t.castSucc
    ∗ (∃ x, owns (d : Thread nD τ) (ms_0 t) fullShare ((tdat d Vv O b 0).before 0 t x))
    ∗ (∃ x, owns (d : Thread nD τ) (ms_1 t) fullShare ((tdat d Vv O b 0).before 1 t x))
    ∗ (∃ x, owns (d : Thread nD τ) (ms_2 t) fullShare ((tdat d Vv O b 0).before 2 t x))
    ∗ (∃ x, owns (d : Thread nD τ) (ms_3 t) fullShare ((tdat d Vv O b 0).before 3 t x))
    ∗ (∃ x, owns (d : Thread nD τ) (ms_4 t) fullShare ((tdat d Vv O b 0).before 4 t x))
    ∗ (∃ x, owns (d : Thread nD τ) (ms_5 t) fullShare ((tdat d Vv O b 0).before 5 t x)))

/-- and what it returns: every buffer at what the proof data names; the second output's, where the body stores nothing
    into it and the point does not write it back, as it was found. -/
def bodyPost (t : Fin cfg0.N) : sProp 𝕄 :=
  iprop((tdat d Vv O b 0).Φ t.succ ∗ (tdat d Vv O b 0).owesAt none t.succ
    ∗ owns (d : Thread nD τ) (ms_0 t) fullShare ((tdat d Vv O b 0).after 0 t)
    ∗ owns (d : Thread nD τ) (ms_1 t) fullShare ((tdat d Vv O b 0).after 1 t)
    ∗ owns (d : Thread nD τ) (ms_2 t) fullShare ((tdat d Vv O b 0).after 2 t)
    ∗ owns (d : Thread nD τ) (ms_3 t) fullShare ((tdat d Vv O b 0).after 3 t)
    ∗ owns (d : Thread nD τ) (ms_4 t) fullShare ((tdat d Vv O b 0).after 4 t)
    ∗ (tdat d Vv O b 0).leavesExact 5 t)

/-- The second output's post where the body stores into it, -/
theorem leaves5_live (t : Fin cfg0.N) (hi : cfg0.idle 5 (cfg0.grid.coords t) = false) :
    (tdat d Vv O b 0).leavesExact 5 t = owns (d : Thread nD τ) ((cfg0.win 5).stage (cfg0.slots t 5)) fullShare ((tdat d Vv O b 0).after 5 t) := by
  unfold Dat.leavesExact; rw [hi]

/-- and where it does not but the point writes the block back. -/
theorem leaves5_last (t : Fin cfg0.N) (hi : cfg0.idle 5 (cfg0.grid.coords t) = true) (hf : (cfg0.win 5).flush t = true) :
    (tdat d Vv O b 0).leavesExact 5 t = owns (d : Thread nD τ) ((cfg0.win 5).stage (cfg0.slots t 5)) fullShare ((tdat d Vv O b 0).after 5 t) := by
  unfold Dat.leavesExact; rw [hi, hf]

set_option maxHeartbeats 800000 in
/-- The body at any point: the inputs' buffers hold their blocks; the condition holds at the first point only, where both
    products are stored; at a later point the second output's buffer holds what the first point stored and is not
    touched, which is what the last point hands to its write-back. The thread's debts pass through unread. -/
theorem sound_body (t : Fin cfg0.N) :
    bodyPre d Vv O b t ⊢ wp frame (wpE (defs₀ (F := F)) Variants.none (d : Thread nD τ) none) Set.univ (bodyAt0 t) (fun _ => bodyPost d Vv O b t) := by
  unfold bodyPre bodyPost bodyAt0
  simp only [before_0, before_1, before_2, before_3]
  rw [show (tdat d Vv O b 0).Φ t.succ = (tdat d Vv O b 0).Φ t.castSucc from rfl,
    show (tdat d Vv O b 0).owesAt none t.succ = (tdat d Vv O b 0).owesAt none t.castSucc from rfl,
    after_0, after_1, after_2, after_3, after_4]
  have hN : t.val < 50 := lt_of_lt_of_eq t.isLt N_0
  by_cases h0 : t.val = 0
  · -- the first point: both products
    obtain rfl : t = t0 := Fin.ext h0
    rw [leaves5_live d Vv O b t0 (idle_5_first t0 rfl), after_5]
    unfold out4 out5
    iintro ⟨HΦ, Ho, ⟨%y0, H0⟩, ⟨%y1, H1⟩, ⟨%y2, H2⟩, ⟨%y3, H3⟩, ⟨%y4, H4⟩, ⟨%y5, H5⟩⟩
    iapply (run_first d (grid0.coords t0) _ _ _ _ _ _ _ _ _ _ _ _ ((hcond t0).mpr rfl) (blk d Vv 0 t0) (blk d Vv 1 t0) (blk d Vv 2 t0) (blk d Vv 3 t0) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have hc : ¬ k0_cond1 (grid0.coords t) = 1#1 := fun h => h0 ((hcond t).mp h)
    by_cases h49 : t.val = 49
    · -- the last point: the second output's buffer, untouched since the first point, goes to the write-back
      rw [leaves5_last d Vv O b t (idle_5_later t h0) ((flush0_5 t).mpr (by omega)), after_5]
      simp only [before_5 d Vv O b t h0]
      unfold out4
      iintro ⟨HΦ, Ho, ⟨%y0, H0⟩, ⟨%y1, H1⟩, ⟨%y2, H2⟩, ⟨%y3, H3⟩, ⟨%y4, H4⟩, ⟨%y5, H5⟩⟩
      iapply (run_rest d (grid0.coords t) _ _ _ _ _ _ _ _ _ _ _ _ hc (blk d Vv 0 t) (blk d Vv 2 t) _)
      isplitl [H0]; · iexact H0
      isplitl [H2]; · iexact H2
      isplitl [H4]; · iexists _; iexact H4
      iintro ⟨H0, H2, H4⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · -- a point between: the second output's buffer is handed back as found
      rw [Dat.leavesExact_idle _ 5 t (idle_5_later t h0) (flush_5_false t h49)]
      unfold out4
      iintro ⟨HΦ, Ho, ⟨%y0, H0⟩, ⟨%y1, H1⟩, ⟨%y2, H2⟩, ⟨%y3, H3⟩, ⟨%y4, H4⟩, ⟨%y5, H5⟩⟩
      iapply (run_rest d (grid0.coords t) _ _ _ _ _ _ _ _ _ _ _ _ hc (blk d Vv 0 t) (blk d Vv 2 t) _)
      isplitl [H0]; · iexact H0
      isplitl [H2]; · iexact H2
      isplitl [H4]; · iexists _; iexact H4
      iintro ⟨H0, H2, H4⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation : BodyObligation (tdat d Vv O b 0) (defs₀ (F := F)) Variants.none none Set.univ := fun t => by
  rw [bigSep_W0, bigSep_W0]
  exact sound_body d Vv O b t

end Obligation

end Cert.KernelIdeal.Run.Tc

end
-- ==== Proof.TcValue.lean ====
/-
  From blocks to arrays: what the two result arrays of the TensorCore call hold after the run.

  The first result's block at point `t` is rows [2000 t, 2000 (t + 1)); these 50 blocks tile the array, and what point
  `t` writes back is those rows of the transformed element table. The second result has one block, the whole array,
  written back at the last point with what the first point stored. The four inputs are never written.
-/
import proofs.«204385_g66649302499670_cont_9to1c4b_43_34_alg».proof.Proof.TcDat
import Idealize.ShloMosaic.Lib.Pipeline.Value

set_option maxRecDepth 16384

noncomputable section

namespace Cert.KernelIdeal.Run.Tc

open Cert.KernelIdeal Cert.KernelIdeal.Gen Cert.KernelIdeal.Run
open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The values at an index -/

/-- Row `2000 t + r` of the transformed element table is row `r` of the product for rows-block `t`. -/
theorem teVal_at (etab : Vec F S100000x64 .f32) (w : Vec F S128x128 .f32) (t : Fin 50) (j : S2000x128.Idx) (i : S100000x128.Idx)
    (h0 : (i 0).val = 2000 * t.val + (j 0).val) (h1 : (i 1).val = (j 1).val) :
    teVal etab w i = k0_pay1 (wLeft w) (eRows etab t) j := by
  have hj : (j 0).val < 2000 := idx2_lt0 j
  have ht : t.val < 50 := t.isLt
  unfold teVal
  have e1 : (⟨(i 0).val / 2000, by have := idx2_lt0 i; omega⟩ : Fin 50) = t := Fin.ext (by show (i 0).val / 2000 = t.val; omega)
  have e2 : (ix2 (⟨(i 0).val % 2000, Nat.mod_lt _ (by decide)⟩ : Fin 2000) (i 1) : S2000x128.Idx) = j := by
    funext a
    match a with
    | ⟨0, _⟩ => exact Fin.ext (show (i 0).val % 2000 = (j 0).val by omega)
    | ⟨1, _⟩ => exact Fin.ext h1
  rw [e1, e2]

/-! ## The windows' blocks -/

/-- The printed index maps over the grid: the element table's and the first result's blocks move with the point, every
    other window stays on its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

section Blocks

variable (d : Dev nD) (Vv : (r : Ref sig .tc) → Buf (Elt F) ((d : Thread nD τ).loc r)) (O : CellTallies nD τ sig (HIx 1)) (b : ℕ)

/-- The element table's block at point `t` is its rows [2000 t, 2000 (t + 1)). -/
theorem blk0_eq (t : Fin cfg0.N) :
    (blk d Vv 0 t : Vec F S2000x64 .f32) = eRows (Vv main_arg2 : Vec F S100000x64 .f32) ⟨t.val, lt_of_lt_of_eq t.isLt N_0⟩ := by
  obtain ⟨e0, e1, -⟩ := idx_facts t
  funext j
  show Vv main_arg2 (((cfg0.win 0).blk t).view.emb j) = Vv main_arg2 _
  refine congrArg (Vv main_arg2) ?_
  funext a; apply Fin.ext
  match a with
  | ⟨0, _⟩ => show win0_0.index t (0 : Fin 2) * 2000 + 1 * (j 0).val = 2000 * t.val + (j 0).val; omega
  | ⟨1, _⟩ => show win0_0.index t (1 : Fin 2) * 64 + 1 * (j 1).val = (j 1).val; omega

/-- The property table's one block is the table. -/
theorem blk1_eq (t : Fin cfg0.N) : (blk d Vv 1 t : Vec F S1000x64 .f32) = (Vv main_arg3 : Vec F S1000x64 .f32) := by
  obtain ⟨-, -, e0, e1, -⟩ := idx_facts t
  funext j
  show Vv main_arg3 (((cfg0.win 1).blk t).view.emb j) = Vv main_arg3 j
  refine congrArg (Vv main_arg3) ?_
  funext a; apply Fin.ext
  match a with
  | ⟨0, _⟩ => show win0_1.index t (0 : Fin 2) * 1000 + 1 * (j 0).val = (j 0).val; omega
  | ⟨1, _⟩ => show win0_1.index t (1 : Fin 2) * 64 + 1 * (j 1).val = (j 1).val; omega

/-- The weight matrix's one block is the matrix. -/
theorem blk2_eq (t : Fin cfg0.N) : (blk d Vv 2 t : Vec F S128x128 .f32) = (Vv main_arg4 : Vec F S128x128 .f32) := by
  obtain ⟨-, -, -, -, e0, e1, -⟩ := idx_facts t
  funext j
  show Vv main_arg4 (((cfg0.win 2).blk t).view.emb j) = Vv main_arg4 j
  refine congrArg (Vv main_arg4) ?_
  funext a; apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- The bias row's one block is the row. -/
theorem blk3_eq (t : Fin cfg0.N) : (blk d Vv 3 t : Vec F S1x128 .f32) = (Vv main_v2 : Vec F S1x128 .f32) := by
  obtain ⟨-, -, -, -, -, -, e0, e1, -⟩ := idx_facts t
  funext j
  show Vv main_v2 (((cfg0.win 3).blk t).view.emb j) = Vv main_v2 j
  refine congrArg (Vv main_v2) ?_
  funext a; apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

/-! ## The first result -/

/-- WHAT POINT `t` WRITES BACK is block `t` of the transformed element table. -/
theorem flushed4_eq (t : Fin cfg0.N) :
    (tdat d Vv O b 0).flushed 4 t = ((cfg0.win 4).blk t).view.read (Elt F) (teVal (Vv main_arg2) (Vv main_arg4)) := by
  show (cfg0.win 4).cut (grid0.coords t) ((tdat d Vv O b 0).after 4 t) = _
  rw [after_4]
  unfold out4
  rw [blk2_eq, blk0_eq]
  obtain ⟨-, -, -, -, -, -, -, -, e0, e1, -⟩ := idx_facts t
  funext j
  refine (teVal_at (Vv main_arg2) (Vv main_arg4) ⟨t.val, lt_of_lt_of_eq t.isLt N_0⟩ j (((cfg0.win 4).blk t).view.emb j) ?_ ?_).symm
  · show win0_4.index t (0 : Fin 2) * 2000 + 1 * (j 0).val = 2000 * t.val + (j 0).val; omega
  · show win0_4.index t (1 : Fin 2) * 128 + 1 * (j 1).val = (j 1).val; omega

/-- An index of the first result is in point `t`'s block iff each coordinate is in the block's range on its axis. -/
theorem mem_blk4 (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v3_0).slice (win0_4.rect t)).set ↔ _
  rw [View.set_slice_whole, Rect.mem_set_unit]
  exact Iff.rfl

/-- Every row is in some point's block: row `r` in point `r / 2000`'s. -/
theorem cover4 (i : S100000x128.Idx) : ∃ t : Fin cfg0.N, (cfg0.win 4).flush t = true ∧ i ∈ ((cfg0.win 4).blk t).view.set := by
  have hi0 : (i 0).val < 100000 := idx2_lt0 i
  have hi1 : (i 1).val < 128 := idx2_lt1 i
  refine ⟨⟨(i 0).val / 2000, lt_of_lt_of_eq (by omega) N_0.symm⟩, flush0_4 _, ?_⟩
  obtain ⟨-, -, -, -, -, -, -, -, e0, e1, -⟩ := idx_facts ⟨(i 0).val / 2000, lt_of_lt_of_eq (by omega) N_0.symm⟩
  rw [mem_blk4]
  intro a
  match a with
  | ⟨0, _⟩ => show win0_4.index _ (0 : Fin 2) * 2000 ≤ (i 0).val ∧ (i 0).val < win0_4.index _ (0 : Fin 2) * 2000 + 2000; simp only at e0; omega
  | ⟨1, _⟩ => show win0_4.index _ (1 : Fin 2) * 128 ≤ (i 1).val ∧ (i 1).val < win0_4.index _ (1 : Fin 2) * 128 + 128; omega

/-- THE FIRST RESULT after the run: the transformed element table. -/
theorem final4 : (tdat d Vv O b 0).arrAt 4 cfg0.N = teVal (Vv main_arg2) (Vv main_arg4) :=
  (tdat d Vv O b 0).arrAt_eq_of_cover 4 (teVal (Vv main_arg2) (Vv main_arg4)) (fun t _ => flushed4_eq d Vv O b t) cover4

/-! ## The second result -/

/-- WHAT THE LAST POINT WRITES BACK is the transformed property table. -/
theorem flushed5_eq (t : Fin cfg0.N) :
    (tdat d Vv O b 0).flushed 5 t = ((cfg0.win 5).blk t).view.read (Elt F) (tpVal (Vv main_arg3) (Vv main_arg4) (Vv main_v2)) := by
  show (cfg0.win 5).cut (grid0.coords t) ((tdat d Vv O b 0).after 5 t) = _
  rw [after_5]
  unfold out5
  rw [blk2_eq, blk1_eq, blk3_eq]
  obtain ⟨-, -, -, -, -, -, -, -, -, -, e0, e1⟩ := idx_facts t
  funext j
  show tpVal (Vv main_arg3) (Vv main_arg4) (Vv main_v2) j = tpVal (Vv main_arg3) (Vv main_arg4) (Vv main_v2) (((cfg0.win 5).blk t).view.emb j)
  refine congrArg (tpVal (Vv main_arg3) (Vv main_arg4) (Vv main_v2)) ?_
  funext a; apply Fin.ext
  match a with
  | ⟨0, _⟩ => show (j 0).val = win0_5.index t (0 : Fin 2) * 1000 + 1 * (j 0).val; omega
  | ⟨1, _⟩ => show (j 1).val = win0_5.index t (1 : Fin 2) * 128 + 1 * (j 1).val; omega

theorem mem_blk5 (t : Fin cfg0.N) (i : S1000x128.Idx) :
    i ∈ ((cfg0.win 5).blk t).view.set ↔ ∀ a : Fin 2, win0_5.index t a * S1000x128.size a ≤ (i a).val ∧ (i a).val < win0_5.index t a * S1000x128.size a + S1000x128.size a := by
  show i ∈ ((View.whole main_v3_1).slice (win0_5.rect t)).set ↔ _
  rw [View.set_slice_whole, Rect.mem_set_unit]
  exact Iff.rfl

/-- The last point's block is the whole array. -/
theorem cover5 (i : S1000x128.Idx) : ∃ t : Fin cfg0.N, (cfg0.win 5).flush t = true ∧ i ∈ ((cfg0.win 5).blk t).view.set := by
  have hi0 : (i 0).val < 1000 := idx2_lt0 i
  have hi1 : (i 1).val < 128 := idx2_lt1 i
  refine ⟨⟨49, by decide⟩, (flush0_5 _).mpr rfl, ?_⟩
  obtain ⟨-, -, -, -, -, -, -, -, -, -, e0, e1⟩ := idx_facts ⟨49, by decide⟩
  rw [mem_blk5]
  intro a
  match a with
  | ⟨0, _⟩ => show win0_5.index _ (0 : Fin 2) * 1000 ≤ (i 0).val ∧ (i 0).val < win0_5.index _ (0 : Fin 2) * 1000 + 1000; omega
  | ⟨1, _⟩ => show win0_5.index _ (1 : Fin 2) * 128 ≤ (i 1).val ∧ (i 1).val < win0_5.index _ (1 : Fin 2) * 128 + 128; omega

/-- THE SECOND RESULT after the run: the transformed property table. -/
theorem final5 : (tdat d Vv O b 0).arrAt 5 cfg0.N = tpVal (Vv main_arg3) (Vv main_arg4) (Vv main_v2) :=
  (tdat d Vv O b 0).arrAt_eq_of_cover 5 (tpVal (Vv main_arg3) (Vv main_arg4) (Vv main_v2)) (fun t _ => flushed5_eq d Vv O b t) cover5

/-! ## The inputs -/

theorem final0 : (tdat d Vv O b 0).arrAt 0 cfg0.N = Vv main_arg2 := ((tdat d Vv O b 0).arrAt_in 0 rfl _).trans (A_eq d Vv O b 0)
theorem final1 : (tdat d Vv O b 0).arrAt 1 cfg0.N = Vv main_arg3 := ((tdat d Vv O b 0).arrAt_in 1 rfl _).trans (A_eq d Vv O b 1)
theorem final2 : (tdat d Vv O b 0).arrAt 2 cfg0.N = Vv main_arg4 := ((tdat d Vv O b 0).arrAt_in 2 rfl _).trans (A_eq d Vv O b 2)
theorem final3 : (tdat d Vv O b 0).arrAt 3 cfg0.N = Vv main_v2 := ((tdat d Vv O b 0).arrAt_in 3 rfl _).trans (A_eq d Vv O b 3)

end Blocks

end Cert.KernelIdeal.Run.Tc

end
-- ==== Proof.TcRegion.lean ====
/-
  The TensorCore call as one rule of the program's logic: entered with the six arrays of its windows held whole, it
  returns with the four inputs unchanged, the first result at the transformed element table and the second at the
  transformed property table.
-/
import proofs.«204385_g66649302499670_cont_9to1c4b_43_34_alg».proof.Proof.TcBody
import proofs.«204385_g66649302499670_cont_9to1c4b_43_34_alg».proof.Proof.TcValue
import Idealize.ShloMosaic.Lib.SparseCore.Threads

set_option maxRecDepth 16384

noncomputable section

namespace Cert.KernelIdeal.Run.Tc

open Cert.KernelIdeal Cert.KernelIdeal.Gen Cert.KernelIdeal.Run
open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The launch's share of the pipeline's ghost state -/

/-- The rounds element of the pipeline's staging cells and transfers. -/
def uR : UR := initOf (Pipeline.cells cfgs cellOf_inj) (Pipeline.launchToks cfgs cellOf_inj)

/-- From it, the one device's staging cells' ghost state and transfer tokens. -/
theorem fund (d : Dev nD) :
    BI.own (ER (F := F) uR) ⊢ iprop(|==> (Pipeline.cellsGhost (Pipeline.pin (pcfgs (F := F)) adm) ER 0 d
      ∗ Pipeline.toksInit (Pipeline.pin (pcfgs (F := F)) adm) ER 0 d)) := by
  have hg : (bigSep Finset.univ fun c : Dev nD => bigSep Finset.univ fun p : Fin 1 => Pipeline.cellsGhost (Pipeline.pin (pcfgs (F := F)) adm) ER p c)
      ⊢ (Pipeline.cellsGhost (Pipeline.pin (pcfgs (F := F)) adm) ER 0 d : sProp 𝕄) :=
    (bigSep_elim (Φ := fun c : Dev nD => bigSep Finset.univ fun p : Fin 1 => Pipeline.cellsGhost (Pipeline.pin (pcfgs (F := F)) adm) ER p c) (Finset.mem_univ d)).trans
      (bigSep_elim (Φ := fun p : Fin 1 => Pipeline.cellsGhost (Pipeline.pin (pcfgs (F := F)) adm) ER p d) (Finset.mem_univ (0 : Fin 1)))
  have ht : (bigSep Finset.univ fun c : Dev nD => bigSep Finset.univ fun p : Fin 1 => Pipeline.toksInit (Pipeline.pin (pcfgs (F := F)) adm) ER p c)
      ⊢ (Pipeline.toksInit (Pipeline.pin (pcfgs (F := F)) adm) ER 0 d : sProp 𝕄) :=
    (bigSep_elim (Φ := fun c : Dev nD => bigSep Finset.univ fun p : Fin 1 => Pipeline.toksInit (Pipeline.pin (pcfgs (F := F)) adm) ER p c) (Finset.mem_univ d)).trans
      (bigSep_elim (Φ := fun p : Fin 1 => Pipeline.toksInit (Pipeline.pin (pcfgs (F := F)) adm) ER p d) (Finset.mem_univ (0 : Fin 1)))
  refine (Pipeline.fund_ghost (Pipeline.pin (pcfgs (F := F)) adm) ER cellOf_inj).trans ?_
  iintro H
  imod H with ⟨Hg, Ht⟩
  imodintro
  isplitl [Hg]
  · iapply hg; iexact Hg
  · iapply ht; iexact Ht

/-! ## The region's record -/

section Record

variable (Vvs : (c : Dev nD) → (r : Ref sig .tc) → Buf (Elt F) ((c : Thread nD τ).loc r))
  (O : CellTallies nD τ sig (HIx 1)) (hO : ∀ g, O g none = 0) (b : ℕ)
  (lv : GSem nD τ sig → HIx 1 → ℕ) (hlv : (K (F := F)).Refines lv)

/-- The pipeline's proof data on every device. -/
abbrev pdats : (p : Fin 1) → (c : Dev nD) → Dat τ (Elt F) (HIx 1) ℕ UU ℕ (Pipeline.pin (pcfgs (F := F)) adm p) c :=
  fun p c => tdat c (Vvs c) O b p

/-- The thread's debts, its recorded waits at levels at most `b`. -/
abbrev owesB (c : Dev nD) : sProp 𝕄 := iprop(∃ W, ⌜(K (F := F)).WBelow (c : Thread nD τ) W b⌝ ∗ owes (c : Thread nD τ) O W)

/-- The six arrays of the windows, whole, at contents `G`. -/
abbrev arrs (c : Dev nD) (G : (w : Fin cfg0.W) → Buf (Elt F) ((c : Thread nD τ).loc (Pipeline.arrRef spec0 w))) : sProp 𝕄 :=
  bigSep Finset.univ fun w : Fin cfg0.W => (((c : Thread nD τ).loc (Pipeline.arrRef spec0 w)) ↦{fullShare} G w : sProp 𝕄)

set_option backward.isDefEq.respectTransparency.types false in
/-- THE REGION: entered with the arrays at their entry contents beside the thread's debts; nothing enters the body's
    invariant and nothing bypasses the region; left with the arrays at what the write-backs made of them. The pipeline's
    waits are at index `none`, below every unit the thread owes. -/
def reg : Pipeline.RegionSeg (pcfgs (F := F)) adm (pdats Vvs O b) none defs₀ 𝒱₀ (K (F := F)).L lv 0 where
  win := launch0.win.to₀
  block_pos := launch0.block_pos
  stage_whole := launch0.stage_whole
  K := PEmpty
  osem := fun k => k.elim
  ho := Pipeline.OwnSemFacts.none _
  hbody c := (body_obligation c (Vvs c) O b).loose
  hwaits c := Pipeline.cellsWaits_intro (Pipeline.pin (pcfgs (F := F)) adm) (pdats Vvs O b) none 0 c fun w s t =>
    (K (F := F)).mayWait_none _ hO lv hlv
  pre c := iprop(arrs c (fun w => Vvs c (Pipeline.arrRef spec0 w)) ∗ owesB O b c)
  post c := iprop(arrs c (fun w => ((pdats Vvs O b) 0 c).arrAt w cfg0.N) ∗ owesB O b c)
  X _ := BI.emp
  Y _ := BI.emp
  Z _ := BI.emp
  hentry c := by
    rw [Pipeline.arrays_eq (Pipeline.pin (pcfgs (F := F)) adm) (pdats Vvs O b) 0 c launch0.arr_whole (((pdats Vvs O b) 0 c).share_full fun _ => rfl)]
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show ((pdats Vvs O b) 0 c).Φ 0 = BI.emp from rfl]
    iintro -; iempintro
  hout c := by
    rw [show ((pdats Vvs O b) 0 c).Φ (Fin.last (Pipeline.pin (pcfgs (F := F)) adm 0).N) = BI.emp from rfl, Pipeline.ownSems0_none, scopedRest0_eq]
    iintro -
    isplitr; · iempintro
    isplitr <;> iempintro
  hexit c := by
    rw [Pipeline.arrays_eq (Pipeline.pin (pcfgs (F := F)) adm) (pdats Vvs O b) 0 c launch0.arr_whole (((pdats Vvs O b) 0 c).share_full fun _ => rfl)]
    iintro ⟨Ha, HO, -, -⟩
    imodintro
    isplitl [Ha]; · iexact Ha
    unfold Pipeline.Dat.owesAt Pipeline.owesWithin
    icases HO with ⟨%W, %hW, HO⟩
    iexists W; isplitr; swap; · iexact HO
    ipureintro
    intro p hp
    rcases hW hp with h | ⟨w, s, rfl⟩
    · exact h
    · exact Nat.zero_le _

end Record

/-! ## The call, on every device -/

section Core

variable (Vvs : (c : Dev nD) → (r : Ref sig .tc) → Buf (Elt F) ((c : Thread nD τ).loc r))
  (O : CellTallies nD τ sig (HIx 1)) (hO : ∀ g, O g none = 0) (b : ℕ)
  (lv : GSem nD τ sig → HIx 1 → ℕ) (hlv : (K (F := F)).Refines lv)

include hO hlv in
set_option backward.isDefEq.respectTransparency.types false in
/-- The call in the pipeline's own table of bodies: from the boundary, the level facts, the staging cells' ghost state, the
    thread's debts and the six arrays, to the boundary, the debts and the arrays as the write-backs left them. -/
theorem region_core (c : Dev nD) :
    iprop(levAts (K (F := F)).L lv ∗ boundary (c : Thread nD τ)
        ∗ Pipeline.cellsGhost (Pipeline.pin (pcfgs (F := F)) adm) ER 0 c ∗ Pipeline.toksInit (Pipeline.pin (pcfgs (F := F)) adm) ER 0 c
        ∗ owesB O b c ∗ arrs c (fun w => Vvs c (Pipeline.arrRef spec0 w)))
      ⊢ wp frame (wpE (D (F := F)) 𝒱 (c : Thread nD τ) none) Set.univ (Prog.lift (.customCall (Pipeline.entry 0) ()))
          fun _ => (iprop(boundary (c : Thread nD τ) ∗ owesB O b c ∗ arrs c (fun w => ((pdats Vvs O b) 0 c).arrAt w cfg0.N)) : sProp 𝕄) := by
  have h := Pipeline.RegionSeg.wp (pcfgs (F := F)) adm (pdats Vvs O b) none cellOf_inj ER defs₀ 𝒱₀ (K (F := F)).L lv (reg Vvs O hO b lv hlv) c none
    (fun _ h => nomatch h) (α := PUnit) (fun _ => Prog.ret PUnit.unit)
    (fun _ => (iprop(boundary (c : Thread nD τ) ∗ owesB O b c ∗ arrs c (fun w => ((pdats Vvs O b) 0 c).arrAt w cfg0.N)) : sProp 𝕄))
  rw [show (reg Vvs O hO b lv hlv).post c = iprop(arrs c (fun w => ((pdats Vvs O b) 0 c).arrAt w cfg0.N) ∗ owesB O b c) from rfl,
    show (reg Vvs O hO b lv hlv).pre c = iprop(arrs c (fun w => Vvs c (Pipeline.arrRef spec0 w)) ∗ owesB O b c) from rfl] at h
  show _ ⊢ wp frame (wpE (D (F := F)) 𝒱 (c : Thread nD τ) none) Set.univ (.op (.customCall (Pipeline.entry 0) ()) fun _ => Prog.ret PUnit.unit) _
  iintro ⟨#Hla, Hbd, Hg, Ht, HO, Ha⟩
  iapply h
  isplitr
  · iintro ⟨Hbd, Ha, HO⟩
    rw [wp_ret]; imodintro
    isplitl [Hbd]; · iexact Hbd
    isplitl [HO]; · iexact HO
    iexact Ha
  isplitl [Hbd]; · iexact Hbd
  isplitl [Ha HO]
  · isplitl [Ha]; · iexact Ha
    iexact HO
  isplitr; · iexact Hla
  isplitl [Hg]; · iexact Hg
  iexact Ht

end Core

/-! ## One device's arrays as a family over the devices

The mesh has one device; the library's record of a region speaks of every device at once. -/

instance devSubsingleton : Subsingleton (Dev nD) := inferInstanceAs (Subsingleton (Fin 1))

/-- Device `d`'s contents, read on any device (there is no other). -/
def famOf (d : Dev nD) (Vv : (r : Ref sig .tc) → Buf (Elt F) ((SparseCore.T d : Thread nD τ).loc r)) (c : Dev nD) (r : Ref sig .tc) :
    Buf (Elt F) ((c : Thread nD τ).loc r) :=
  @Eq.rec (Dev nD) d (fun c _ => Buf (Elt F) ((c : Thread nD τ).loc r)) (Vv r) c (Subsingleton.elim d c)

theorem famOf_self (d : Dev nD) (Vv : (r : Ref sig .tc) → Buf (Elt F) ((SparseCore.T d : Thread nD τ).loc r)) : famOf d Vv d = Vv := rfl

/-! ## The region -/

/-- THE CALL. -/
theorem region_wp (d : Dev nD) (O : CellTallies nD τ sig (HIx 1)) (hO : ∀ g, O g none = 0) (b : ℕ)
    (Vv : (r : Ref sig .tc) → Buf (Elt F) ((SparseCore.T d).loc r))
    (lv : GSem nD τ sig → HIx 1 → ℕ := (K (F := F)).lev) (hlv : (K (F := F)).Refines lv := by sl_refines_lev) :
    iprop(levAts (K (F := F)).L lv ∗ boundary (SparseCore.T d)
        ∗ Pipeline.cellsGhost (Pipeline.pin (pcfgs (F := F)) adm) ER 0 d ∗ Pipeline.toksInit (Pipeline.pin (pcfgs (F := F)) adm) ER 0 d
        ∗ (∃ W, ⌜(K (F := F)).WBelow (SparseCore.T d) W b⌝ ∗ owes (SparseCore.T d) O W)
        ∗ ((SparseCore.T d).loc main_arg2 ↦{fullShare} Vv main_arg2) ∗ ((SparseCore.T d).loc main_arg3 ↦{fullShare} Vv main_arg3) ∗ ((SparseCore.T d).loc main_arg4 ↦{fullShare} Vv main_arg4)
        ∗ ((SparseCore.T d).loc main_v2 ↦{fullShare} Vv main_v2) ∗ ((SparseCore.T d).loc main_v3_0 ↦{fullShare} Vv main_v3_0) ∗ ((SparseCore.T d).loc main_v3_1 ↦{fullShare} Vv main_v3_1))
      ⊢ wp frame (wpE ((K (F := F)).defs D) 𝒱 (SparseCore.T d) none) Set.univ (Prog.lift (.customCall (SparseCore.inner (Pipeline.entry 0)) ()))
          fun _ => (iprop(boundary (SparseCore.T d) ∗ (∃ W, ⌜(K (F := F)).WBelow (SparseCore.T d) W b⌝ ∗ owes (SparseCore.T d) O W)
            ∗ ((SparseCore.T d).loc main_arg2 ↦{fullShare} Vv main_arg2) ∗ ((SparseCore.T d).loc main_arg3 ↦{fullShare} Vv main_arg3) ∗ ((SparseCore.T d).loc main_arg4 ↦{fullShare} Vv main_arg4)
            ∗ ((SparseCore.T d).loc main_v2 ↦{fullShare} Vv main_v2)
            ∗ ((SparseCore.T d).loc main_v3_0 ↦{fullShare} teVal (Vv main_arg2) (Vv main_arg4))
            ∗ ((SparseCore.T d).loc main_v3_1 ↦{fullShare} tpVal (Vv main_arg3) (Vv main_arg4) (Vv main_v2))) : sProp 𝕄) := by
  have hcore := region_core (famOf d Vv) O hO b lv hlv d
  have hlift := (K (F := F)).wp_liftProg (D (F := F)) 𝒱 (SparseCore.T d) Set.univ none (Prog.lift (.customCall (Pipeline.entry 0) ()))
    (fun _ => (iprop(boundary (d : Thread nD τ) ∗ owesB O b d ∗ arrs d (fun w => (pdats (famOf d Vv) O b 0 d).arrAt w cfg0.N)) : sProp 𝕄))
  unfold arrs owesB at hcore hlift
  rw [bigSep_W0, bigSep_W0] at hcore
  rw [bigSep_W0] at hlift
  beta_reduce at hcore hlift
  rw [final0 d (famOf d Vv d) O b, final1 d (famOf d Vv d) O b, final2 d (famOf d Vv d) O b, final3 d (famOf d Vv d) O b,
    final4 d (famOf d Vv d) O b, final5 d (famOf d Vv d) O b, famOf_self] at hcore hlift
  refine (?_ : _ ⊢ _).trans ((hcore.trans hlift).trans (wp_mono frame _ Set.univ fun _ => (?_ : _ ⊢ _)))
  · iintro ⟨Hla, Hbd, Hg, Ht, HO, H0, H1, H2, H3, H4, H5⟩
    isplitl [Hla]; · iexact Hla
    isplitl [Hbd]; · iexact Hbd
    isplitl [Hg]; · iexact Hg
    isplitl [Ht]; · iexact Ht
    isplitl [HO]; · iexact HO
    isplitl [H0]; · iexact H0
    isplitl [H1]; · iexact H1
    isplitl [H2]; · iexact H2
    isplitl [H3]; · iexact H3
    isplitl [H4]; · iexact H4
    iexact H5
  · iintro ⟨Hbd, HO, H0, H1, H2, H3, H4, H5⟩
    isplitl [Hbd]; · iexact Hbd
    isplitl [HO]; · iexact HO
    isplitl [H0]; · iexact H0
    isplitl [H1]; · iexact H1
    isplitl [H2]; · iexact H2
    isplitl [H3]; · iexact H3
    isplitl [H4]; · iexact H4
    iexact H5

end Cert.KernelIdeal.Run.Tc

end
-- ==== Proof.RunIdeal.lean ====
/-
  The kernel program's run with its result named: on every device the result array ends at the looked-up sum of the
  two transformed tables' rows, reshaped, and the six arguments end unchanged — given the tile's task.
-/
import proofs.«204385_g66649302499670_cont_9to1c4b_43_34_alg».proof.Proof.HmainIdeal
import proofs.«204385_g66649302499670_cont_9to1c4b_43_34_alg».proof.Proof.TcRegion

noncomputable section

namespace Cert.KernelIdeal.Run

open Cert.KernelIdeal Cert.KernelIdeal.Gen

open Idealize.ShloMosaic Idealize.ShloMosaic.ValueIdx
open Idealize.SL Idealize.SL.BI Idealize.SL.Sem
open scoped Idealize.SL.BI

variable {F : FTy → Type} [FloatOps F]

variable (m : (ℓ : Loc nD τ sig) → Buf (Elt F) ℓ) (ρ : Dev nD → PrngReg)

/-- The values the SparseCore call works with: the TensorCore pipeline's two results and the flat ids. -/
abbrev vals : Vals F := valsOf m Tc.teVal Tc.tpVal
/-- The program's result. -/
abbrev result (d : Dev nD) : Buf (Elt F) (argLoc d main_v5) := resOf m Tc.teVal Tc.tpVal d

theorem regionRule : RegionRule (F := F) Tc.teVal Tc.tpVal Tc.uR :=
  ⟨fun d => Tc.fund d, fun d O hO b Vv => Tc.region_wp d O hO b Vv⟩

theorem run_main [∀ e, Nonempty (Elt F e)] (htile : (K (F := F)).TileObl (D (F := F)) 𝒱 (P (vals m)) v₀ 0) :
    θ_run (Cert.KernelIdeal.defs (F := F)) (Cert.KernelIdeal.threads (F := F)) ⟨m, fun _ => 0, ρ⟩ (QC m (result m)) :=
  run_of_parts m ρ (vals m) (result m) (u₀ Tc.uR) (G0 Tc.uR) htile (vecSplit (vals m)) (hu₀ (vals m) Tc.uR)
    (hmain m ρ Tc.teVal Tc.tpVal Tc.uR regionRule)

end Cert.KernelIdeal.Run

end
-- ==== Proof.RefOps.lean ====
/-
  Three operations of the reference's lookup, read without reference to the program.

  A lookup of table rows is a gather whose start index names a row and whose slice is the whole row: the result
  at (position, column) is the table at (row, column), the row being the start index read as a signed integer
  and clamped into the table. The lookup's fill mask is a conjunction over a unit axis: a reduction by `and`
  from the constant one is one wherever every operand bit is one. And a 32-bit word that, read signed, lies
  between zero and a bound below 2^31 is its unsigned value, which is then also at most the bound.
-/
import Idealize.ShloMosaic.PureOps.Ideal
import Idealize.ShloMosaic.PureOps.Reduce
import Idealize.ShloMosaic.Lib.ValueIdx
import Idealize.ShloMosaic.Lib.Affine

noncomputable section

namespace Cert.Proof.Ref

open Idealize.ShloMosaic Idealize.ShloMosaic.ValueIdx

/-! ## A gather of whole rows -/

section Rows
variable {α : Type}

/-- The dimension numbers of a row lookup: operand `[N, K]`, start indices `[R, C, 1]` naming a row each,
    slices of one whole row, result `[R, C, K]`. -/
abbrev rowDims (N R C K : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- The row lookup at position `(a, b)`, column `k`: the table at the start index `idx[a, b, 0]`, read signed and
    clamped into `[0, N − 1]`, and column `k`. -/
theorem gather_rows_apply {N R C K w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (a : Fin R) (b : Fin C) (k : Fin K) :
    Host.gather (rowDims N R C K wf) x idx (ix3 a b k)
      = x (ix2 (⟨min (idx (ix3 a b (0 : Fin 1))).toInt.toNat (N - 1), by omega⟩ : Fin N) k) := by
  unfold Host.gather
  refine congrArg x (funext fun ax => Fin.ext ?_)
  match ax with
  | ⟨0, _⟩ =>
    show (rowDims N R C K wf).start (ix3 a b k) idx 0 + (rowDims N R C K wf).batchCoord (ix3 a b k) 0
        + (rowDims N R C K wf).offCoord (ix3 a b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C K wf).startIndexMap from List.mem_singleton.mpr rfl)]
    have hsi : (rowDims N R C K wf).siIdx (ix3 a b k) ⟨List.idxOf (0 : Fin 2) (rowDims N R C K wf).startIndexMap,
        List.idxOf_lt_length_iff.2 (List.mem_singleton.mpr rfl)⟩ = ix3 a b (0 : Fin 1) := by
      funext c; refine Fin.ext ?_
      match c with
      | ⟨0, _⟩ => rfl
      | ⟨1, _⟩ => rfl
      | ⟨2, _⟩ => rfl
    rw [hsi]
    rfl
  | ⟨1, _⟩ =>
    show (rowDims N R C K wf).start (ix3 a b k) idx 1 + (rowDims N R C K wf).batchCoord (ix3 a b k) 1
        + (rowDims N R C K wf).offCoord (ix3 a b k) 1 = k.val
    have hs : (rowDims N R C K wf).start (ix3 a b k) idx 1 = 0 := by
      unfold GatherDims.start
      rw [dif_neg (show ¬ (1 : Fin 2) ∈ ([0] : List (Fin 2)) by decide)]
    have hk : (1 : Fin 2) ∈ (rowDims N R C K wf).sKept :=
      (GatherDims.mem_sKept _ _).mpr ⟨(show ¬ (1 : Fin 2) ∈ ([0] : List (Fin 2)) by decide), List.not_mem_nil⟩
    rw [hs, GatherDims.batchCoord_eq_zero _ _ _ List.not_mem_nil]
    simp only [Nat.zero_add]
    unfold GatherDims.offCoord
    rw [dif_pos hk]
    rfl

end Rows

/-! ## A contraction's operand indices off the contracted axis

On an axis of the left operand that is neither a batch nor a contracted axis, the operand index of a contraction reads
the result index at the axis's place among the result's axes (after the batch axes); likewise on the right, after the
left operand's free axes. -/

theorem lhsIdx_free_val {sl sr so : Shape} (d : DotDims sl sr so) (j : so.Idx) (k : d.contr.Idx) (a : Fin sl.rank)
    (hb : a ∉ d.lhsBatch) (hn : a ∈ d.lhsNonContracting) (p : Nat) (hp : p < so.rank)
    (e : d.lhsBatch.length + d.lhsNonContracting.idxOf a = p) : (d.lhsIdx j k a).val = (j ⟨p, hp⟩).val := by
  subst e
  unfold DotDims.lhsIdx
  rw [dif_neg hb, dif_pos hn]
  rfl

theorem rhsIdx_free_val {sl sr so : Shape} (d : DotDims sl sr so) (j : so.Idx) (k : d.contr.Idx) (a : Fin sr.rank)
    (hb : a ∉ d.rhsBatch) (hn : a ∈ d.rhsNonContracting) (p : Nat) (hp : p < so.rank)
    (e : d.lhsBatch.length + d.lhsNonContracting.length + d.rhsNonContracting.idxOf a = p) :
    (d.rhsIdx j k a).val = (j ⟨p, hp⟩).val := by
  subst e
  unfold DotDims.rhsIdx
  rw [dif_neg hb, dif_pos hn]
  rfl

/-! ## A conjunction that is one -/

/-- A left fold by `and` from one over bits that are all one is one. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A reduction by `and` from the constant one over an operand whose every bit is one is one everywhere. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x _ fun i _ => hx i

/-! ## An index word in range -/

theorem toInt_zero32 : (0#32 : BitVec 32).toInt = 0 := by decide
theorem toInt_99999 : (99999#32 : BitVec 32).toInt = 99999 := by decide
theorem toInt_999 : (999#32 : BitVec 32).toInt = 999 := by decide

/-- A 32-bit word whose signed reading lies in `[0, M]` has that reading as its unsigned value. -/
theorem toNat_of_range (x : BitVec 32) (M : Nat) (h0 : 0 ≤ x.toInt) (h1 : x.toInt ≤ (M : Int)) :
    x.toInt.toNat = x.toNat ∧ x.toNat ≤ M := by
  have hlt := x.isLt
  have hc := BitVec.toInt_eq_toNat_cond x
  split at hc <;> omega

/-- Such a word is not negative, so the lookup's normalisation keeps it. -/
theorem select_neg_keep (x N : BitVec 32) (h0 : 0 ≤ x.toInt) :
    Scalar.select (IntOp.cmpi .slt x 0#32) (IntOp.addi x N) x = x := by
  have hz : IntOp.cmpi .slt x 0#32 = 0#1 :=
    eq_zero_of_ne_one fun h => by
      have := IntOp.cmpi_slt.mp h
      rw [show (0#32 : BitVec 32).toInt = 0 from by decide] at this
      omega
  rw [hz, select_zero]

end Cert.Proof.Ref

end
-- ==== Proof.RefPre.lean ====
/-
  What the precondition says of the two index arrays.

  The input-domain predicate is a conjunction of seven whole-array tests: the four float arrays finite, and each
  index array between zero and its table's last row, read signed. It is stated as "the conjunction is the bit one";
  a conjunction of bits is one only if each is, and a whole-array test ("all") is one only if the bit at every
  position is. The two index tests therefore give, position by position, 0 ≤ id ≤ 99999 for the element indices
  and 0 ≤ id ≤ 999 for the property indices. The finiteness tests are not needed for the reference's value.
-/
import proofs.«204385_g66649302499670_cont_9to1c4b_43_34_alg».proof.Pre_input_domain
import Idealize.ShloMosaic.PureOps.Ideal
import Idealize.ShloMosaic.Lib.ReduceAll
import Idealize.ShloMosaic.Lib.ValueIdx
import proofs.«204385_g66649302499670_cont_9to1c4b_43_34_alg».proof.Proof.RefOps

noncomputable section

namespace Cert.Proof.Ref

open Idealize.ShloMosaic Idealize.ShloMosaic.ValueIdx
open Cert.Pre_input_domain

variable [Cert.Pre_input_domain.Facts]

/-- The scalar shape has one index. -/
instance subsingleton_scalar_idx : Subsingleton Cert.Pre_input_domain.S_.Idx := ⟨fun a b => funext fun d => d.elim0⟩

/-- Under the input-domain predicate, at any float instance, every element index lies in `[0, 99999]` and every
    property index in `[0, 999]`, read signed. -/
theorem ids_signed_range {F : FTy → Type} [FloatOps F] (eid pid : IVec S4096x200 32) (etab : FVec F S100000x64 .f32)
    (ptab : FVec F S1000x64 .f32) (w : FVec F S128x128 .f32) (b : FVec F S128 .f32)
    (h : Cert.Pre_input_domain.fn (F := F) eid pid etab ptab w b = fun _ => 1#1) :
    (∀ i, 0 ≤ (eid i).toInt ∧ (eid i).toInt ≤ 99999) ∧ (∀ i, 0 ≤ (pid i).toInt ∧ (pid i).toInt ≤ 999) := by
  have h0 := congrFun h ix0
  dsimp only [Cert.Pre_input_domain.fn, Cert.Pre_input_domain.fn_part1] at h0
  obtain ⟨h123, hP⟩ := IntOp.andi_eq_one.mp h0
  obtain ⟨-, hE⟩ := IntOp.andi_eq_one.mp h123
  refine ⟨fun i => ?_, fun i => ?_⟩
  · obtain ⟨hge, hle⟩ := IntOp.andi_eq_one.mp (Host.reduce_andi_all _ _ _ _ _ hE i)
    have h1 := IntOp.cmpi_sge.mp hge
    have h2 := IntOp.cmpi_sle.mp hle
    change (0#32 : BitVec 32).toInt ≤ (eid i).toInt at h1
    change (eid i).toInt ≤ (99999#32 : BitVec 32).toInt at h2
    rw [toInt_zero32] at h1
    rw [toInt_99999] at h2
    exact ⟨h1, h2⟩
  · obtain ⟨hge, hle⟩ := IntOp.andi_eq_one.mp (Host.reduce_andi_all _ _ _ _ _ hP i)
    have h1 := IntOp.cmpi_sge.mp hge
    have h2 := IntOp.cmpi_sle.mp hle
    change (0#32 : BitVec 32).toInt ≤ (pid i).toInt at h1
    change (pid i).toInt ≤ (999#32 : BitVec 32).toInt at h2
    rw [toInt_zero32] at h1
    rw [toInt_999] at h2
    exact ⟨h1, h2⟩

/-- The same as bounds on the words' unsigned values: each element index is a row number below 100000, each
    property index one below 1000. -/
theorem ids_in_range {F : FTy → Type} [FloatOps F] (a0 a1 : IVec S4096x200 32) (a2 : FVec F S100000x64 .f32)
    (a3 : FVec F S1000x64 .f32) (a4 : FVec F S128x128 .f32) (a5 : FVec F S128 .f32)
    (h : Cert.Pre_input_domain.fn (F := F) a0 a1 a2 a3 a4 a5 = (fun _ => 1#1)) :
    (∀ i, (a0 i).toNat < 100000) ∧ (∀ i, (a1 i).toNat < 1000) := by
  obtain ⟨hE, hP⟩ := ids_signed_range a0 a1 a2 a3 a4 a5 h
  refine ⟨fun i => ?_, fun i => ?_⟩
  · have := (toNat_of_range (a0 i) 99999 (hE i).1 (hE i).2).2
    omega
  · have := (toNat_of_range (a1 i) 999 (hP i).1 (hP i).2).2
    omega

end Cert.Proof.Ref

end
-- ==== Proof.FrameIdeal.lean ====
/-
  The kernel program's frame from its run: the run with the value dropped. The flat id arrays hold row numbers
  under the precondition, which is what the tile's task needs.
-/
import proofs.«204385_g66649302499670_cont_9to1c4b_43_34_alg».proof.Defs
import proofs.«204385_g66649302499670_cont_9to1c4b_43_34_alg».proof.Proof.RunIdeal
import proofs.«204385_g66649302499670_cont_9to1c4b_43_34_alg».proof.Proof.RefPre

noncomputable section

namespace Cert.Proof.KI

open Cert.KernelIdeal Cert.KernelIdeal.Gen Cert.KernelIdeal.Run

open Idealize.ShloMosaic Idealize.ShloMosaic.ValueIdx
open Idealize.SL Idealize.SL.BI Idealize.SL.Sem
open scoped Idealize.SL.BI

/-- The flat id arrays hold row numbers of their tables. -/
def IdsIn {F : FTy → Type} (A : Vals F) : Prop :=
  (∀ d (j : S819200.Idx), (A.eid d j).toNat < 100000) ∧ (∀ d (j : S819200.Idx), (A.pid d j).toNat < 1000)

/-- Under the precondition the flat id arrays hold row numbers: a flat entry is an entry of the id array. -/
theorem idsIn_of_pre {F : FTy → Type} [FloatOps F] [Cert.Pre_input_domain.Facts] (m : (ℓ : Loc nD τ sig) → Buf (Elt F) ℓ)
    (hpre : ∀ c : Dev nD, Cert.Pre_input_domain.fn (F := F) (m (argLoc c main_arg0)) (m (argLoc c main_arg1)) (m (argLoc c main_arg2))
      (m (argLoc c main_arg3)) (m (argLoc c main_arg4)) (m (argLoc c main_arg5)) = (fun _ => 1#1)) :
    IdsIn (vals m) := by
  refine ⟨fun d j => ?_, fun d j => ?_⟩
  · exact (Cert.Proof.Ref.ids_in_range (F := F) _ _ _ _ _ _ (hpre d)).1 _
  · exact (Cert.Proof.Ref.ids_in_range (F := F) _ _ _ _ _ _ (hpre d)).2 _

variable [hKI : Cert.KernelIdeal.Facts] [hPre : Cert.Pre_input_domain.Facts]

/-- The frame of the kernel program, given the tile's task. -/
theorem frame_of_tile
    (htile : ∀ m : (ℓ : Loc nD τ sig) → Buf (Elt Ideal) ℓ, IdsIn (vals m) → (K (F := Ideal)).TileObl (D (F := Ideal)) 𝒱 (P (vals m)) v₀ 0) :
    Cert.frame_KernelIdeal := fun m g hpre =>
  (θ_run Cert.KernelIdeal.defs _ _).mono (fun _ h c => (h c).2) (run_main (F := Ideal) m g (htile m (idsIn_of_pre m hpre)))

end Cert.Proof.KI

end
-- ==== Proof.Spec.lean ====
/-
  The specification of the result, as ONE function of the six argument arrays at the exact instance
  (floats are extended reals): a fused two-table embedding followed by a linear layer.

  For a position (b, n) and an output channel j, with e = element_ids[b, n] and p = property_ids[b, n]
  read as row numbers,

      out[b, n, j] = Σ_{k < 64} element_table[e, k] · W[j, k]
                     + ( Σ_{k < 64} property_table[p, k] · W[j, 64 + k] + bias[j] ).

  The first summand depends only on the element row and the second only on the property row, so each can be
  tabulated once per vocabulary row ("transformed tables") and the result is a sum of two looked-up rows.
  Against the textbook form — the two looked-up 64-vectors laid side by side into a 128-vector, multiplied with
  Wᵀ, plus the bias — the difference is the split of a sum over 128 terms into its two halves and one
  re-association of a sum of three extended reals; addition of extended reals is commutative and associative,
  so no finiteness is needed for it.
-/
import Idealize.ShloMosaic.PureOps.Ideal
import Idealize.ShloMosaic.Lib.ValueIdx

noncomputable section

open scoped BigOperators

namespace Cert.Spec

open Idealize.ShloMosaic Idealize.ShloMosaic.ValueIdx

/-- A 32-bit index word as a row number of a table of `N` rows (for a word in range it is the word's value). -/
def row (N : Nat) (hN : 0 < N) (x : BitVec 32) : Fin N := ⟨x.toNat % N, Nat.mod_lt _ hN⟩

theorem row_val_of_lt {N : Nat} (hN : 0 < N) {x : BitVec 32} (h : x.toNat < N) : (row N hN x).val = x.toNat :=
  Nat.mod_eq_of_lt h

/-- The transformed element table: row `v`, channel `j` is Σ_{k<64} element_table[v, k] · W[j, k]. -/
def te (etab : Vec Ideal ⟨2, ![100000, 64]⟩ .f32) (w : Vec Ideal ⟨2, ![128, 128]⟩ .f32)
    (v : Fin 100000) (j : Fin 128) : EReal :=
  ∑ k : Fin 64, etab (ix2 v k) * w (ix2 j (k.castLE (by decide)))

/-- The transformed property table with the bias folded in: row `v`, channel `j` is
    Σ_{k<64} property_table[v, k] · W[j, 64 + k] + bias[j]. -/
def tp (ptab : Vec Ideal ⟨2, ![1000, 64]⟩ .f32) (w : Vec Ideal ⟨2, ![128, 128]⟩ .f32) (b : Vec Ideal ⟨1, ![128]⟩ .f32)
    (v : Fin 1000) (j : Fin 128) : EReal :=
  (∑ k : Fin 64, ptab (ix2 v k) * w (ix2 j ⟨64 + k.val, by omega⟩)) + b (ix1 j)

/-- The result array: the element row's transformed entry plus the property row's. -/
def G (eid pid : Vec Ideal ⟨2, ![4096, 200]⟩ .i32) (etab : Vec Ideal ⟨2, ![100000, 64]⟩ .f32)
    (ptab : Vec Ideal ⟨2, ![1000, 64]⟩ .f32) (w : Vec Ideal ⟨2, ![128, 128]⟩ .f32) (b : Vec Ideal ⟨1, ![128]⟩ .f32) :
    Vec Ideal ⟨3, ![4096, 200, 128]⟩ .f32 :=
  fun i => te etab w (row 100000 (by decide) (eid (ix2 (i 0) (i 1)))) (i 2)
         + tp ptab w b (row 1000 (by decide) (pid (ix2 (i 0) (i 1)))) (i 2)

end Cert.Spec

end
-- ==== Proof.BridgeIdeal.lean ====
/-
  At the exact instance the program's result is the specification: the flat result reshaped to [4096, 200, 128] reads,
  at (b, n, j), row 200·b + n of the looked-up sum; the flat id arrays read there the ids at (b, n); the lane sum is the
  sum of extended reals; and the two transformed tables are the specification's.
-/
import proofs.«204385_g66649302499670_cont_9to1c4b_43_34_alg».proof.Proof.HmainIdeal
import proofs.«204385_g66649302499670_cont_9to1c4b_43_34_alg».proof.Proof.Spec
import Idealize.ShloMosaic.Lib.Pipeline.Value

noncomputable section

namespace Cert.KernelIdeal.Run

open Cert.KernelIdeal Cert.KernelIdeal.Gen

open Idealize.ShloMosaic Idealize.ShloMosaic.ValueIdx
open Idealize.SL.Sem

variable (m : (ℓ : Loc nD τ sig) → Buf (Elt Ideal) ℓ)
variable (teV : Vec Ideal S100000x64 .f32 → Vec Ideal S128x128 .f32 → Vec Ideal S100000x128 .f32)
variable (tpV : Vec Ideal S1000x64 .f32 → Vec Ideal S128x128 .f32 → Vec Ideal S1x128 .f32 → Vec Ideal S1000x128 .f32)

theorem resOf_eq_G (c : Dev nD)
    (hte : ∀ (etab : Vec Ideal S100000x64 .f32) (w : Vec Ideal S128x128 .f32) (v : Fin 100000) (j : Fin 128), teV etab w (ix2 v j) = Cert.Spec.te etab w v j)
    (htp : ∀ (ptab : Vec Ideal S1000x64 .f32) (w : Vec Ideal S128x128 .f32) (b : Vec Ideal S128 .f32) (v : Fin 1000) (j : Fin 128),
      tpV ptab w (shapeCast S1x128 b shapeCasts_S128_S1x128) (ix2 v j) = Cert.Spec.tp ptab w b v j) :
    resOf m teV tpV c = Cert.Spec.G (m (argLoc c main_arg0)) (m (argLoc c main_arg1)) (m (argLoc c main_arg2)) (m (argLoc c main_arg3))
      (m (argLoc c main_arg4)) (m (argLoc c main_arg5)) := by
  funext i
  obtain ⟨a, n, j, rfl⟩ : ∃ (a : Fin 4096) (n : Fin 200) (j : Fin 128), i = ix3 a n j := ⟨i 0, i 1, i 2, eq_ix3 i⟩
  have hr : a.val * 200 + n.val < 819200 := by have := a.isLt; have := n.isLt; omega
  have h1 : resOf m teV tpV c (ix3 a n j) = outFin (valsOf m teV tpV) c (ix2 ⟨a.val * 200 + n.val, hr⟩ j) := by
    unfold resOf
    exact shapeCast_apply (s := S819200x128) (t := S4096x200x128) (outFin (valsOf m teV tpV) c) shapeCasts_S819200x128_S4096x200x128 (ix3 a n j) (ix2 ⟨a.val * 200 + n.val, hr⟩ j) (by
      rw [Shape.rowMajor_val_three, Shape.rowMajor_val_two]
      show (a.val * 200 + n.val) * 128 + j.val = (a.val * 200 + n.val) * 128 + j.val
      rfl)
  have he : (valsOf m teV tpV).eid c (ix1 ⟨a.val * 200 + n.val, hr⟩) = m (argLoc c main_arg0) (ix2 a n) := by
    unfold valsOf
    exact shapeCast_apply (s := S4096x200) (t := S819200) (m (argLoc c main_arg0)) shapeCasts_S4096x200_S819200 (ix1 ⟨a.val * 200 + n.val, hr⟩) (ix2 a n) (by
      rw [Shape.rowMajor_val_two, Shape.rowMajor_val_one]
      show a.val * 200 + n.val = a.val * 200 + n.val
      rfl)
  have hp : (valsOf m teV tpV).pid c (ix1 ⟨a.val * 200 + n.val, hr⟩) = m (argLoc c main_arg1) (ix2 a n) := by
    unfold valsOf
    exact shapeCast_apply (s := S4096x200) (t := S819200) (m (argLoc c main_arg1)) shapeCasts_S4096x200_S819200 (ix1 ⟨a.val * 200 + n.val, hr⟩) (ix2 a n) (by
      rw [Shape.rowMajor_val_two, Shape.rowMajor_val_one]
      show a.val * 200 + n.val = a.val * 200 + n.val
      rfl)
  rw [h1]
  show FloatOps.addf (F := Ideal) (φ := .f32) ((valsOf m teV tpV).te c (ix2 (rowOf 100000 (by decide) ((valsOf m teV tpV).eid c (ix1 ⟨a.val * 200 + n.val, hr⟩))) j))
      ((valsOf m teV tpV).tp c (ix2 (rowOf 1000 (by decide) ((valsOf m teV tpV).pid c (ix1 ⟨a.val * 200 + n.val, hr⟩))) j))
    = Cert.Spec.te _ _ (Cert.Spec.row 100000 (by decide) (m (argLoc c main_arg0) (ix2 a n))) j
      + Cert.Spec.tp _ _ _ (Cert.Spec.row 1000 (by decide) (m (argLoc c main_arg1) (ix2 a n))) j
  rw [he, hp]
  show ((teV (m (argLoc c main_arg2)) (m (argLoc c main_arg4)) (ix2 (rowOf 100000 (by decide) (m (argLoc c main_arg0) (ix2 a n))) j) : EReal)
      + tpV (m (argLoc c main_arg3)) (m (argLoc c main_arg4)) (shapeCast S1x128 (m (argLoc c main_arg5)) shapeCasts_S128_S1x128)
          (ix2 (rowOf 1000 (by decide) (m (argLoc c main_arg1) (ix2 a n))) j)) = _
  rw [hte, htp]
  rfl

end Cert.KernelIdeal.Run

end
-- ==== Proof.RefRun.lean ====
/-
  The reference program as a straight line, and its run.

  The reference looks up a row of each table per position and applies a linear layer. Its lookup
  (`jnp.take`) is an outlined function that first normalises the index — a negative index has the
  table's height added (an outlined select) — then gathers the row, and replaces the row by a
  not-a-number fill wherever the normalised index falls outside the table. Unfolding the three
  outlined functions at their call sites turns @main into one chain of fifty-four tensor operations;
  this module lists that chain, shows @main equal to it, names what the chain leaves in the result
  buffer as one composed function `val` of the six argument arrays, and states the run: every fair
  execution terminates with the result buffer at `val` of the arguments and the arguments unchanged.
-/
import proofs.«204385_g66649302499670_cont_9to1c4b_43_34_alg».proof.ReferenceIdeal
import Idealize.ShloMosaic.Lib.StableHlo.Run

noncomputable section

namespace Cert.Proof.Ref

open Cert.ReferenceIdeal Cert.ReferenceIdeal.Facts₀ Idealize.ShloMosaic Idealize.ShloMosaic.TcCoe Idealize.SL.Sem
open Idealize.ShloMosaic.StableHlo

variable {F : FTy → Type} [FloatOps F] [Cert.ReferenceIdeal.Facts]

/-! ## The chain of operations -/

/-- @main's fifty-four operations in order: the element lookup's twenty-three (its outlined select among them,
    seventh), the property lookup's twenty-three, then the concatenation, the transpose of the weights, the
    contraction, the two broadcasts of the bias and the final sum. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg2) main_call0.v5 main_call0.v13 (fun x i => Host.gather gather_S100000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select,
    TRef.nullary main_call1.c (constantI S_ 32 0#32),
    TRef.unary main_call1.c main_call1.v0 (broadcastInDim S4096x200 ![] bcast_S_S4096x200),
    TRef.binary (.of main_arg1) main_call1.v0 main_call1.v1 (cmpi .slt),
    TRef.nullary main_call1.c_0 (constantI S_ 32 1000#32),
    TRef.unary main_call1.c_0 main_call1.v2 (broadcastInDim S4096x200 ![] bcast_S_S4096x200),
    TRef.binary (.of main_arg1) main_call1.v2 main_call1.v3 addi,
    TRef.ternary main_call1.v1 main_call1.v3 (.of main_arg1) main_call1.call0.v0 select,
    TRef.unary main_call1.call0.v0 main_call1.v5 (broadcastInDim S4096x200x1 ![0, 1] bcast_S4096x200_S4096x200x1_0_1),
    TRef.nullary main_call1.c_1 (constantI S1 32 999#32),
    TRef.nullary main_call1.c_2 (constantI S_ 32 0#32),
    TRef.unary main_call1.c_2 main_call1.v6 (broadcastInDim S4096x200x1 ![] bcast_S_S4096x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x200x1 ![0, 1, 2] bcast_S1x1x1_S4096x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x200x1_S4096x200_d2 h_S_),
    TRef.binary (.of main_arg3) main_call1.v5 main_call1.v13 (fun x i => Host.gather gather_S1000x64_S4096x200x1_S4096x200x64_2_0_n_n_0_2_164 x i),
    TRef.unary main_call1.v12 main_call1.v14 (broadcastInDim S4096x200x64 ![0, 1] bcast_S4096x200_S4096x200x64_0_1),
    TRef.nullary main_call1.cst (constant S_ .f32 0x7FC00000#32),
    TRef.unary main_call1.cst main_call1.v15 (broadcastInDim S4096x200x64 ![] bcast_S_S4096x200x64),
    TRef.ternary main_call1.v14 main_call1.v13 main_call1.v15 main_call1.v16 select,
    binary main_v0 main_v1 main_v2 ((fun a b => concatenate S4096x200x128 2 [⟨S4096x200x64, a⟩, ⟨S4096x200x64, b⟩] concatenates_S4096x200x64_S4096x200x64_S4096x200x128_d2) : (⟨S4096x200x64, .f32⟩ : BufTy).Contents (Elt F) → (⟨S4096x200x64, .f32⟩ : BufTy).Contents (Elt F) → (⟨S4096x200x128, .f32⟩ : BufTy).Contents (Elt F)),
    unary main_arg4 main_v3 ((transpose S128x128 [1, 0] · transposes_S128x128_S128x128_1_0) : (⟨S128x128, .f32⟩ : BufTy).Contents (Elt F) → (⟨S128x128, .f32⟩ : BufTy).Contents (Elt F)),
    binary main_v2 main_v3 main_v4 ((fun l r => Host.dotGeneral dot_S4096x200x128_S128x128_S4096x200x128_2_0_01_1_n_n none l r) : (⟨S4096x200x128, .f32⟩ : BufTy).Contents (Elt F) → (⟨S128x128, .f32⟩ : BufTy).Contents (Elt F) → (⟨S4096x200x128, .f32⟩ : BufTy).Contents (Elt F)),
    unary main_arg5 main_v5 (broadcastInDim S1x1x128 ![2] bcast_S128_S1x1x128_2 : (⟨S128, .f32⟩ : BufTy).Contents (Elt F) → (⟨S1x1x128, .f32⟩ : BufTy).Contents (Elt F)),
    unary main_v5 main_v6 (broadcastInDim S4096x200x128 ![0, 1, 2] bcast_S1x1x128_S4096x200x128_0_1_2 : (⟨S1x1x128, .f32⟩ : BufTy).Contents (Elt F) → (⟨S4096x200x128, .f32⟩ : BufTy).Contents (Elt F)),
    binary main_v4 main_v6 main_v7 (addf : (⟨S4096x200x128, .f32⟩ : BufTy).Contents (Elt F) → (⟨S4096x200x128, .f32⟩ : BufTy).Contents (Elt F) → (⟨S4096x200x128, .f32⟩ : BufTy).Contents (Elt F)) ]

-- fifty-four binds re-associated: the rewrite under the chain recurses once per statement
set_option maxRecDepth 2048 in
/-- @main is that chain: the outlined functions unfolded at their calls, sequencing re-associated. -/
theorem main_eq (c : Dev nD) : main (F := F) c = seq ops := by
  simp only [main, fn_take.body, fn_take_0.body, fn_where.body, seq, bind_assoc, pure_bind]

/-! ## What the chain computes -/

/-- The lookup's index normalisation, as a column of start indices: an index below zero has the table's
    height `N` added, any other is kept. -/
def normIdx (N : BitVec 32) (ids : IVec S4096x200 32) : IVec S4096x200x1 32 :=
  broadcastInDim S4096x200x1 ![0, 1] bcast_S4096x200_S4096x200x1_0_1
    (select (cmpi .slt ids (broadcastInDim S4096x200 ![] bcast_S_S4096x200 (constantI S_ 32 0#32)))
      (addi ids (broadcastInDim S4096x200 ![] bcast_S_S4096x200 (constantI S_ 32 N))) ids)

/-- The lookup's fill mask: one where the normalised index lies in `[0, hi]` (signed), per position. -/
def inRange (hi : BitVec 32) (idx : IVec S4096x200x1 32) : IVec S4096x200 1 :=
  Host.reduce IntOp.andi
    (andi (cmpi .sge idx (broadcastInDim S4096x200x1 ![] bcast_S_S4096x200x1 (constantI S_ 32 0#32)))
      (cmpi .sle idx (broadcastInDim S4096x200x1 ![0, 1, 2] bcast_S1x1x1_S4096x200x1_0_1_2
        (broadcastInDim S1x1x1 ![2] bcast_S1_S1x1x1_2 (constantI S1 32 hi)))))
    (constantI S_ 1 1#1) reducesTo_S4096x200x1_S4096x200_d2 h_S_

/-- The not-a-number fill of a lookup. -/
def fill : FVec F S4096x200x64 .f32 :=
  broadcastInDim S4096x200x64 ![] bcast_S_S4096x200x64 (constant S_ .f32 0x7FC00000#32)

/-- The element lookup: the gathered rows where the normalised index is inside the table, the fill elsewhere. -/
def takeE (etab : FVec F S100000x64 .f32) (ids : IVec S4096x200 32) : FVec F S4096x200x64 .f32 :=
  select (broadcastInDim S4096x200x64 ![0, 1] bcast_S4096x200_S4096x200x64_0_1 (inRange 99999#32 (normIdx 100000#32 ids)))
    (Host.gather gather_S100000x64_S4096x200x1_S4096x200x64_2_0_n_n_0_2_164 etab (normIdx 100000#32 ids)) fill

/-- The property lookup, likewise. -/
def takeP (ptab : FVec F S1000x64 .f32) (ids : IVec S4096x200 32) : FVec F S4096x200x64 .f32 :=
  select (broadcastInDim S4096x200x64 ![0, 1] bcast_S4096x200_S4096x200x64_0_1 (inRange 999#32 (normIdx 1000#32 ids)))
    (Host.gather gather_S1000x64_S4096x200x1_S4096x200x64_2_0_n_n_0_2_164 ptab (normIdx 1000#32 ids)) fill

/-- The result: the two looked-up rows side by side, contracted with the transposed weights, plus the bias
    broadcast over the positions. -/
def val (eid pid : IVec S4096x200 32) (etab : FVec F S100000x64 .f32) (ptab : FVec F S1000x64 .f32)
    (w : FVec F S128x128 .f32) (b : FVec F S128 .f32) : FVec F S4096x200x128 .f32 :=
  addf
    (Host.dotGeneral dot_S4096x200x128_S128x128_S4096x200x128_2_0_01_1_n_n none
      (concatenate S4096x200x128 2 [⟨S4096x200x64, takeE etab eid⟩, ⟨S4096x200x64, takeP ptab pid⟩]
        concatenates_S4096x200x64_S4096x200x64_S4096x200x128_d2)
      (transpose S128x128 [1, 0] w transposes_S128x128_S128x128_1_0))
    (broadcastInDim S4096x200x128 ![0, 1, 2] bcast_S1x1x128_S4096x200x128_0_1_2
      (broadcastInDim S1x1x128 ![2] bcast_S128_S1x1x128_2 b))

attribute [local irreducible] Host.reduce Host.gather concatenate transpose broadcastInDim in
set_option maxRecDepth 8192 in
set_option maxHeartbeats 800000 in
/-- The fold of the chain at the result buffer is `val` of the argument buffers: each operation's result lands
    in its own buffer and is read from there by the later ones, the typed references' casts being the identity
    at these literal references. The reductions, gathers and layout operations are kept folded
    meanwhile; the equation never looks inside them. -/
theorem v7_eq (V : Valuation τ sig (Elt F)) :
    after ops V (main_v7 : DevRef τ sig)
      = val (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [after_cons, after_nil]
  rfl

set_option maxRecDepth 8192 in
theorem arg0_eq (V : Valuation τ sig (Elt F)) : after ops V (main_arg0 : DevRef τ sig) = V (main_arg0 : DevRef τ sig) := by
  simp only [after_cons, after_nil]
  rfl
set_option maxRecDepth 8192 in
theorem arg1_eq (V : Valuation τ sig (Elt F)) : after ops V (main_arg1 : DevRef τ sig) = V (main_arg1 : DevRef τ sig) := by
  simp only [after_cons, after_nil]
  rfl
set_option maxRecDepth 8192 in
theorem arg2_eq (V : Valuation τ sig (Elt F)) : after ops V (main_arg2 : DevRef τ sig) = V (main_arg2 : DevRef τ sig) := by
  simp only [after_cons, after_nil]
  rfl
set_option maxRecDepth 8192 in
theorem arg3_eq (V : Valuation τ sig (Elt F)) : after ops V (main_arg3 : DevRef τ sig) = V (main_arg3 : DevRef τ sig) := by
  simp only [after_cons, after_nil]
  rfl
set_option maxRecDepth 8192 in
theorem arg4_eq (V : Valuation τ sig (Elt F)) : after ops V (main_arg4 : DevRef τ sig) = V (main_arg4 : DevRef τ sig) := by
  simp only [after_cons, after_nil]
  rfl
set_option maxRecDepth 8192 in
theorem arg5_eq (V : Valuation τ sig (Elt F)) : after ops V (main_arg5 : DevRef τ sig) = V (main_arg5 : DevRef τ sig) := by
  simp only [after_cons, after_nil]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., unary_bufs_sub ..,
    binary_bufs_sub .., unary_bufs_sub .., unary_bufs_sub .., binary_bufs_sub ..⟩

/-- On every device, for any float values, from any memory with zero counters: every weakly fair execution of
    @main terminates with the result buffer at `val` of the arguments' launch contents and the arguments unchanged. -/
theorem run_val (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v7)
        = val (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := F)) _ _).mono (fun _ h c => ⟨(h c main_v7).trans (v7_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.Proof.Ref

end
-- ==== Proof.RefAlg.lean ====
/-
  The one algebraic law between the two arrangements of the result.

  The reference lays the two looked-up 64-vectors side by side into a 128-vector `cat`, contracts it with a
  row of the weights and adds the bias: Σ_{k<128} cat k · w k + c. The specification adds two separate
  contractions over 64 terms, the bias folded into the second: Σ_{k<64} x k · w k + (Σ_{k<64} y k · w (64+k) + c).
  A sum over 128 terms is the sum of its two halves, and a sum of three terms may be re-associated; both hold in
  any commutative additive monoid, the extended reals among them, so no finiteness enters.
-/
import Idealize.ShloMosaic.PureOps.Ideal

open scoped BigOperators

namespace Cert.Proof.Ref

/-- A sum over 128 terms is the sum over the first 64 plus the sum over the last 64. -/
theorem sum_halves {M : Type*} [AddCommMonoid M] (f : Fin 128 → M) :
    ∑ k : Fin 128, f k
      = (∑ k : Fin 64, f (k.castLE (by decide))) + ∑ k : Fin 64, f ⟨64 + k.val, by omega⟩ := by
  rw [show (∑ k : Fin 128, f k) = ∑ k : Fin (64 + 64), f k from rfl, Fin.sum_univ_add]
  rfl

/-- The reference's arrangement equals the specification's: `cat` is `x` on the first 64 places and `y` on the
    last 64. -/
theorem fuse (x y : Fin 64 → EReal) (w cat : Fin 128 → EReal) (c : EReal)
    (hl : ∀ k : Fin 64, cat (k.castLE (by decide)) = x k)
    (hr : ∀ k : Fin 64, cat ⟨64 + k.val, by omega⟩ = y k) :
    (∑ k : Fin 128, cat k * w k) + c
      = (∑ k : Fin 64, x k * w (k.castLE (by decide))) + ((∑ k : Fin 64, y k * w ⟨64 + k.val, by omega⟩) + c) := by
  rw [sum_halves, add_assoc]
  simp only [hl, hr]

end Cert.Proof.Ref
-- ==== Proof.RefRead.lean ====
/-
  The reference's result, entry by entry, is the specification.

  Fix a position (a, b) and an output channel j. Under the index ranges the precondition gives:
  the normalised lookup index at (a, b) is the index itself (it is not negative, so nothing is added), the fill
  mask there is one (the index lies inside the table), and the gather reads the table's row numbered by the index
  (clamping changes nothing). So each lookup's entry (a, b, k) is its table at (row, k). The concatenation has the
  element row on places k < 64 and the property row on places 64 + k; the transposed weights at (k, j) are the
  weights at (j, k); the contraction at (a, b, j) is the sum over the 128 places of the products; the bias broadcast
  reads bias j. That is Σ_{k<128} cat k · W[j,k] + bias j, which the law of the algebra module turns into the
  specification's two sums of 64 terms.
-/
import proofs.«204385_g66649302499670_cont_9to1c4b_43_34_alg».proof.Proof.RefRun
import proofs.«204385_g66649302499670_cont_9to1c4b_43_34_alg».proof.Proof.RefOps
import proofs.«204385_g66649302499670_cont_9to1c4b_43_34_alg».proof.Proof.RefAlg
import proofs.«204385_g66649302499670_cont_9to1c4b_43_34_alg».proof.Proof.Spec
import Idealize.ShloMosaic.Lib.Pipeline.Value
import Idealize.ShloMosaic.Lib.ValueIdx
import Idealize.ShloMosaic.PureOps.Ideal.Laws

noncomputable section

open scoped BigOperators

namespace Cert.Proof.Ref

open Cert.ReferenceIdeal Cert.ReferenceIdeal.Facts₀ Idealize.ShloMosaic Idealize.ShloMosaic.ValueIdx

variable [Cert.ReferenceIdeal.Facts]

/-! ## The lookup -/

/-- A non-negative index is its own normalisation. -/
theorem normIdx_apply (N : BitVec 32) (ids : IVec S4096x200 32) (a : Fin 4096) (b : Fin 200) (z : Fin 1)
    (h0 : 0 ≤ (ids (ix2 a b)).toInt) : normIdx N ids (ix3 a b z) = ids (ix2 a b) := by
  unfold normIdx
  rw [broadcastInDim_apply _ _ _ (ix3 a b z) (ix2 a b)
    (fun ax => by match ax with | ⟨0, _⟩ => rfl | ⟨1, _⟩ => rfl)]
  exact select_neg_keep _ _ h0

/-- The fill mask is one wherever every normalised index lies in `[0, hi]`. -/
theorem inRange_eq_one (hi : BitVec 32) (idx : IVec S4096x200x1 32)
    (hidx : ∀ i, 0 ≤ (idx i).toInt ∧ (idx i).toInt ≤ hi.toInt) (j : S4096x200.Idx) : inRange hi idx j = 1#1 := by
  unfold inRange
  refine reduce_andi_ones _ _ _ _ j rfl fun i => ?_
  refine IntOp.andi_eq_one.mpr ⟨IntOp.cmpi_sge.mpr ?_, IntOp.cmpi_sle.mpr ?_⟩
  · show (0#32 : BitVec 32).toInt ≤ (idx i).toInt
    rw [toInt_zero32]; exact (hidx i).1
  · show (idx i).toInt ≤ hi.toInt
    exact (hidx i).2

/-- The normalised indices of an index array in `[0, M]` lie in `[0, M]`. -/
theorem normIdx_range (N : BitVec 32) (ids : IVec S4096x200 32) (M : Int)
    (hr : ∀ i, 0 ≤ (ids i).toInt ∧ (ids i).toInt ≤ M) (i : S4096x200x1.Idx) :
    0 ≤ (normIdx N ids i).toInt ∧ (normIdx N ids i).toInt ≤ M := by
  obtain ⟨p, q, z, rfl⟩ : ∃ (p : Fin 4096) (q : Fin 200) (z : Fin 1), i = ix3 p q z := ⟨i 0, i 1, i 2, eq_ix3 i⟩
  rw [normIdx_apply N ids p q z (hr _).1]
  exact hr _

/-- The element lookup at position `(a, b)`, column `k`: the element table at the index's row. -/
theorem takeE_apply (etab : FVec Ideal S100000x64 .f32) (ids : IVec S4096x200 32)
    (hr : ∀ i, 0 ≤ (ids i).toInt ∧ (ids i).toInt ≤ 99999) (a : Fin 4096) (b : Fin 200) (k : Fin 64) :
    takeE etab ids (ix3 a b k) = etab (ix2 (Cert.Spec.row 100000 (by decide) (ids (ix2 a b))) k) := by
  unfold takeE
  rw [select_apply]
  have hm : broadcastInDim S4096x200x64 ![0, 1] bcast_S4096x200_S4096x200x64_0_1
      (inRange 99999#32 (normIdx 100000#32 ids)) (ix3 a b k) = 1#1 := by
    rw [broadcastInDim_apply _ _ _ (ix3 a b k) (ix2 a b)
      (fun ax => by match ax with | ⟨0, _⟩ => rfl | ⟨1, _⟩ => rfl)]
    exact inRange_eq_one _ _ (fun i => by rw [toInt_99999]; exact normIdx_range _ ids 99999 hr i) _
  rw [hm, select_one]
  have hg : gather_S100000x64_S4096x200x1_S4096x200x64_2_0_n_n_0_2_164 = rowDims 100000 4096 200 64 gather_S100000x64_S4096x200x1_S4096x200x64_2_0_n_n_0_2_164_wf := rfl
  rw [hg, gather_rows_apply (by decide)]
  refine congrArg etab (congrArg (fun r => ix2 r k) (Fin.ext ?_))
  obtain ⟨h1, h2⟩ := toNat_of_range (ids (ix2 a b)) 99999 (hr _).1 (hr _).2
  show min (normIdx 100000#32 ids (ix3 a b (0 : Fin 1))).toInt.toNat (100000 - 1) = (ids (ix2 a b)).toNat % 100000
  rw [normIdx_apply _ _ _ _ _ (hr _).1, h1, Nat.mod_eq_of_lt (by omega)]
  omega

/-- The property lookup at position `(a, b)`, column `k`: the property table at the index's row. -/
theorem takeP_apply (ptab : FVec Ideal S1000x64 .f32) (ids : IVec S4096x200 32)
    (hr : ∀ i, 0 ≤ (ids i).toInt ∧ (ids i).toInt ≤ 999) (a : Fin 4096) (b : Fin 200) (k : Fin 64) :
    takeP ptab ids (ix3 a b k) = ptab (ix2 (Cert.Spec.row 1000 (by decide) (ids (ix2 a b))) k) := by
  unfold takeP
  rw [select_apply]
  have hm : broadcastInDim S4096x200x64 ![0, 1] bcast_S4096x200_S4096x200x64_0_1
      (inRange 999#32 (normIdx 1000#32 ids)) (ix3 a b k) = 1#1 := by
    rw [broadcastInDim_apply _ _ _ (ix3 a b k) (ix2 a b)
      (fun ax => by match ax with | ⟨0, _⟩ => rfl | ⟨1, _⟩ => rfl)]
    exact inRange_eq_one _ _ (fun i => by rw [toInt_999]; exact normIdx_range _ ids 999 hr i) _
  rw [hm, select_one]
  have hg : gather_S1000x64_S4096x200x1_S4096x200x64_2_0_n_n_0_2_164 = rowDims 1000 4096 200 64 gather_S1000x64_S4096x200x1_S4096x200x64_2_0_n_n_0_2_164_wf := rfl
  rw [hg, gather_rows_apply (by decide)]
  refine congrArg ptab (congrArg (fun r => ix2 r k) (Fin.ext ?_))
  obtain ⟨h1, h2⟩ := toNat_of_range (ids (ix2 a b)) 999 (hr _).1 (hr _).2
  show min (normIdx 1000#32 ids (ix3 a b (0 : Fin 1))).toInt.toNat (1000 - 1) = (ids (ix2 a b)).toNat % 1000
  rw [normIdx_apply _ _ _ _ _ (hr _).1, h1, Nat.mod_eq_of_lt (by omega)]
  omega

/-! ## The contraction -/

/-- The contraction at `(a, b, j)`: the sum over the 128 places `k` of the left operand at `(a, b, k)` times the
    right operand at `(k, j)`. -/
theorem dot_apply (l : FVec Ideal S4096x200x128 .f32) (r : FVec Ideal S128x128 .f32) (a : Fin 4096) (b : Fin 200)
    (j : Fin 128) :
    Host.dotGeneral dot_S4096x200x128_S128x128_S4096x200x128_2_0_01_1_n_n none l r (ix3 a b j) = ∑ k : Fin 128, l (ix3 a b k) * r (ix2 k j) := by
  simp only [Host.dotGeneral]
  rw [Ideal.dotGeneral_apply, ← Equiv.sum_comp (contrEquiv1 dot_S4096x200x128_S128x128_S4096x200x128_2_0_01_1_n_n 128 rfl rfl).symm]
  refine Finset.sum_congr rfl fun k _ => ?_
  have hk := contrEquiv1_symm_val dot_S4096x200x128_S128x128_S4096x200x128_2_0_01_1_n_n 128 rfl rfl k
  have el : dot_S4096x200x128_S128x128_S4096x200x128_2_0_01_1_n_n.lhsIdx (ix3 a b j) ((contrEquiv1 dot_S4096x200x128_S128x128_S4096x200x128_2_0_01_1_n_n 128 rfl rfl).symm k) = ix3 a b k :=
    funext fun ax => Fin.ext (by
      match ax with
      | ⟨0, _⟩ =>
        exact lhsIdx_free_val dot_S4096x200x128_S128x128_S4096x200x128_2_0_01_1_n_n _ _ 0 List.not_mem_nil
          (show (0 : Fin 3) ∈ ([0, 1] : List (Fin 3)) by decide) 0 (by decide) rfl
      | ⟨1, _⟩ =>
        exact lhsIdx_free_val dot_S4096x200x128_S128x128_S4096x200x128_2_0_01_1_n_n _ _ 1 List.not_mem_nil
          (show (1 : Fin 3) ∈ ([0, 1] : List (Fin 3)) by decide) 1 (by decide) rfl
      | ⟨2, _⟩ => exact (dot_S4096x200x128_S128x128_S4096x200x128_2_0_01_1_n_n.lhsIdx_val_of_single rfl _ _).trans hk)
  have er : dot_S4096x200x128_S128x128_S4096x200x128_2_0_01_1_n_n.rhsIdx (ix3 a b j) ((contrEquiv1 dot_S4096x200x128_S128x128_S4096x200x128_2_0_01_1_n_n 128 rfl rfl).symm k) = ix2 k j :=
    funext fun ax => Fin.ext (by
      match ax with
      | ⟨0, _⟩ => exact (dot_S4096x200x128_S128x128_S4096x200x128_2_0_01_1_n_n.rhsIdx_val_of_single rfl _ _).trans hk
      | ⟨1, _⟩ =>
        exact rhsIdx_free_val dot_S4096x200x128_S128x128_S4096x200x128_2_0_01_1_n_n _ _ 1 List.not_mem_nil
          (show (1 : Fin 2) ∈ ([1] : List (Fin 2)) by decide) 2 (by decide) rfl)
  rw [el, er]

/-! ## The result -/

/-- The reference's entry at `(a, b, j)` is the specification's. -/
theorem val_apply (eid pid : IVec S4096x200 32) (etab : FVec Ideal S100000x64 .f32) (ptab : FVec Ideal S1000x64 .f32)
    (w : FVec Ideal S128x128 .f32) (bias : FVec Ideal S128 .f32)
    (hE : ∀ i, 0 ≤ (eid i).toInt ∧ (eid i).toInt ≤ 99999) (hP : ∀ i, 0 ≤ (pid i).toInt ∧ (pid i).toInt ≤ 999)
    (a : Fin 4096) (b : Fin 200) (j : Fin 128) :
    val eid pid etab ptab w bias (ix3 a b j) = Cert.Spec.G eid pid etab ptab w bias (ix3 a b j) := by
  unfold val
  rw [addf_apply, dot_apply]
  have hb : broadcastInDim S4096x200x128 ![0, 1, 2] bcast_S1x1x128_S4096x200x128_0_1_2
      (broadcastInDim S1x1x128 ![2] bcast_S128_S1x1x128_2 bias) (ix3 a b j) = bias (ix1 j) := by
    rw [broadcastInDim_apply _ _ _ (ix3 a b j) (ix3 (0 : Fin 1) (0 : Fin 1) j)
        (fun ax => by match ax with | ⟨0, _⟩ => rfl | ⟨1, _⟩ => rfl | ⟨2, _⟩ => rfl),
      broadcastInDim_apply _ _ _ (ix3 (0 : Fin 1) (0 : Fin 1) j) (ix1 j)
        (fun ax => by match ax with | ⟨0, _⟩ => rfl)]
  have ht : ∀ k : Fin 128, transpose S128x128 [1, 0] w transposes_S128x128_S128x128_1_0 (ix2 k j) = w (ix2 j k) :=
    fun k => transpose_apply _ _ _ (ix2 k j) (ix2 j k)
      (fun ax => by match ax with | ⟨0, _⟩ => rfl | ⟨1, _⟩ => rfl)
  have hl : ∀ k : Fin 64,
      concatenate S4096x200x128 2 [⟨S4096x200x64, takeE etab eid⟩, ⟨S4096x200x64, takeP ptab pid⟩]
        concatenates_S4096x200x64_S4096x200x64_S4096x200x128_d2 (ix3 a b (k.castLE (by decide)))
      = etab (ix2 (Cert.Spec.row 100000 (by decide) (eid (ix2 a b))) k) := fun k => by
    refine (concatenate_pair_apply_left (t := S4096x200x128) (s₁ := S4096x200x64) (s₂ := S4096x200x64) 2
      (takeE etab eid) (takeP ptab pid) concatenates_S4096x200x64_S4096x200x64_S4096x200x128_d2
      (ix3 a b (k.castLE (by decide) : Fin 128)) rfl (ix3 a b k)
      (fun ax => by match ax with | ⟨0, _⟩ => rfl | ⟨1, _⟩ => rfl | ⟨2, _⟩ => rfl)).trans ?_
    exact takeE_apply etab eid hE a b k
  have hr : ∀ k : Fin 64,
      concatenate S4096x200x128 2 [⟨S4096x200x64, takeE etab eid⟩, ⟨S4096x200x64, takeP ptab pid⟩]
        concatenates_S4096x200x64_S4096x200x64_S4096x200x128_d2 (ix3 a b (⟨64 + k.val, by omega⟩ : Fin 128))
      = ptab (ix2 (Cert.Spec.row 1000 (by decide) (pid (ix2 a b))) k) := fun k => by
    refine (concatenate_pair_apply_right (t := S4096x200x128) (s₁ := S4096x200x64) (s₂ := S4096x200x64) 2
      (takeE etab eid) (takeP ptab pid) concatenates_S4096x200x64_S4096x200x64_S4096x200x128_d2
      (ix3 a b (⟨64 + k.val, by omega⟩ : Fin 128)) rfl rfl (ix3 a b k)
      (fun ax hne => by
        match ax with
        | ⟨0, _⟩ => rfl
        | ⟨1, _⟩ => rfl
        | ⟨2, _⟩ => exact absurd rfl hne)
      (by show k.val + 64 = 64 + k.val; omega)).trans ?_
    exact takeP_apply ptab pid hP a b k
  rw [hb]
  simp only [ht]
  exact fuse (fun k => etab (ix2 (Cert.Spec.row 100000 (by decide) (eid (ix2 a b))) k))
    (fun k => ptab (ix2 (Cert.Spec.row 1000 (by decide) (pid (ix2 a b))) k))
    (fun k => w (ix2 j k)) _ (bias (ix1 j)) hl hr

/-- The reference's result array is the specification. -/
theorem val_eq_G (eid pid : IVec S4096x200 32) (etab : FVec Ideal S100000x64 .f32) (ptab : FVec Ideal S1000x64 .f32)
    (w : FVec Ideal S128x128 .f32) (bias : FVec Ideal S128 .f32)
    (hE : ∀ i, 0 ≤ (eid i).toInt ∧ (eid i).toInt ≤ 99999) (hP : ∀ i, 0 ≤ (pid i).toInt ∧ (pid i).toInt ≤ 999) :
    val eid pid etab ptab w bias = Cert.Spec.G eid pid etab ptab w bias := by
  funext i
  obtain ⟨a, b, j, rfl⟩ : ∃ (a : Fin 4096) (b : Fin 200) (j : Fin 128), i = ix3 a b j := ⟨i 0, i 1, i 2, eq_ix3 i⟩
  exact val_apply eid pid etab ptab w bias hE hP a b j

end Cert.Proof.Ref

end
-- ==== Proof.RefG.lean ====
/-
  The reference's run with its result named as one function of the argument arrays, and its frame.

  The run of the reference's chain of operations ends with the result buffer at the chain's composed term of the
  arguments; under the precondition's index ranges that term is, entry by entry, the specification `Cert.Spec.G` —
  for each position and output channel, the element row's contraction with the first 64 weights of the channel
  plus the property row's contraction with the last 64 plus the bias. The frame is the same run with the value
  forgotten: it terminates, faults nowhere, and leaves the six arguments as they were; it needs no precondition.
-/
import proofs.«204385_g66649302499670_cont_9to1c4b_43_34_alg».proof.Defs
import proofs.«204385_g66649302499670_cont_9to1c4b_43_34_alg».proof.Proof.Spec
import proofs.«204385_g66649302499670_cont_9to1c4b_43_34_alg».proof.Proof.RefRun
import proofs.«204385_g66649302499670_cont_9to1c4b_43_34_alg».proof.Proof.RefRead
import proofs.«204385_g66649302499670_cont_9to1c4b_43_34_alg».proof.Proof.RefPre

noncomputable section

namespace Cert.Proof.Ref

open Idealize.ShloMosaic Idealize.SL.Sem

/-- Under the precondition, every weakly fair execution of the reference terminates with its result the
    specification of its six argument arrays, and the arguments unchanged. -/
theorem run_G [Cert.ReferenceIdeal.Facts] [Cert.Pre_input_domain.Facts]
    (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v7)
        = Cert.Spec.G (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run _ _ _).mono (fun r h c => by
      obtain ⟨hE, hP⟩ := ids_signed_range _ _ _ _ _ _ (hpre c)
      exact ⟨(h c).1.trans (val_eq_G _ _ _ _ _ _ hE hP), (h c).2⟩)
    (run_val (F := Ideal) m' g')

/-- The reference runs to the end, faults nowhere and leaves its arguments unchanged. -/
theorem frame [hReferenceIdeal : Cert.ReferenceIdeal.Facts] [hPre_input_domain : Cert.Pre_input_domain.Facts] :
    Cert.frame_ReferenceIdeal :=
  fun m g _ => (θ_run _ _ _).mono (fun _ h c => (h c).2) (run_val (F := Ideal) m g)

end Cert.Proof.Ref

end
-- ==== Proof.AlgebraicIdeal.lean ====
/-
  The idealized kernel program and the idealized reference end with equal results: both are the specification's
  function of the arguments.
-/
import proofs.«204385_g66649302499670_cont_9to1c4b_43_34_alg».proof.Proof.FrameIdeal
import proofs.«204385_g66649302499670_cont_9to1c4b_43_34_alg».proof.Proof.BridgeIdeal
import proofs.«204385_g66649302499670_cont_9to1c4b_43_34_alg».proof.Proof.RefG

noncomputable section

namespace Cert.Proof.KI

open Cert.KernelIdeal Cert.KernelIdeal.Gen Cert.KernelIdeal.Run

open Idealize.ShloMosaic Idealize.ShloMosaic.ValueIdx
open Idealize.SL Idealize.SL.BI Idealize.SL.Sem
open scoped Idealize.SL.BI

variable [hKI : Cert.KernelIdeal.Facts] [hRI : Cert.ReferenceIdeal.Facts] [hPre : Cert.Pre_input_domain.Facts]

theorem algebraic_of_tile
    (htile : ∀ m : (ℓ : Loc nD τ sig) → Buf (Elt Ideal) ℓ, IdsIn (vals m) → (K (F := Ideal)).TileObl (D (F := Ideal)) 𝒱 (P (vals m)) v₀ 0)
    (hte : ∀ (etab : Vec Ideal S100000x64 .f32) (w : Vec Ideal S128x128 .f32) (v : Fin 100000) (j : Fin 128), Tc.teVal etab w (ix2 v j) = Cert.Spec.te etab w v j)
    (htp : ∀ (ptab : Vec Ideal S1000x64 .f32) (w : Vec Ideal S128x128 .f32) (b : Vec Ideal S128 .f32) (v : Fin 1000) (j : Fin 128),
      Tc.tpVal ptab w (shapeCast S1x128 b shapeCasts_S128_S1x128) (ix2 v j) = Cert.Spec.tp ptab w b v j) :
    Cert.algebraic_KernelIdeal_ReferenceIdeal := by
  intro m g m' g' hpre hagree
  have hpre' : Cert.Pre_ReferenceIdeal m' := fun c => by
    rw [(hagree c).1, (hagree c).2.1, (hagree c).2.2.1, (hagree c).2.2.2.1, (hagree c).2.2.2.2.1, (hagree c).2.2.2.2.2]
    exact hpre c
  refine ⟨fun c => result m c, run_main (F := Ideal) m g (htile m (idsIn_of_pre m hpre)), ?_⟩
  refine (θ_run Cert.ReferenceIdeal.defs _ _).mono (fun r h c => ⟨(h c).1.trans ?_, (h c).2⟩) (Cert.Proof.Ref.run_G m' g' hpre')
  rw [(hagree c).1, (hagree c).2.1, (hagree c).2.2.1, (hagree c).2.2.2.1, (hagree c).2.2.2.2.1, (hagree c).2.2.2.2.2]
  exact (resOf_eq_G m Tc.teVal Tc.tpVal c hte htp).symm

end Cert.Proof.KI

end
-- ==== Proof.SetupBits.lean ====
/-
  The common vocabulary of the kernel program's run: the program as the SparseCore launch theorem sees it (one
  vector-subcore call on 2 SparseCores × 16 tiles beside one TensorCore pipeline of 50 grid points), and the ghost
  state the proof uses — the launch handshakes' rounds, the subcore barrier cells' rounds, the TensorCore pipeline's
  staging cells' rounds, and the transfers' counters.
-/
import proofs.«204385_g66649302499670_cont_9to1c4b_43_34_alg».proof.Kernel
import proofs.«204385_g66649302499670_cont_9to1c4b_43_34_alg».proof.Proof.Gen.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Kernel.Run

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The subcore barrier cells' rounds. -/
abbrev UB : Type := URounds (GSem nD τ sig) ℕ
/-- The TensorCore pipeline's staging cells' rounds. -/
abbrev UR : Type := URounds (GSem nD τ sig) Unit
abbrev UU : Type := UH × (UB × (UR × Counters))

/-- The logic's model. -/
abbrev MM (F : FTy → Type) : Type := MT nD τ sig (HIx 1) (Elt F) ℕ UU ℕ

abbrev EH : Emb UH (MM F) := embL
def EB : Emb UB (MM F) :=
  ((Emb.inl : Emb UB (UB × (UR × Counters))).trans (Emb.inr : Emb (UB × (UR × Counters)) UU)).trans
    (uEmb (nD := nD) (sig := sig) (Ix := HIx 1) (Val := Elt F) (Name := ℕ) (U := UU) (Lvl := ℕ)).toEmb
instance EB_landsIn : (EB : Emb UB (MM F)).LandsIn (upEmb : UEmb _ (MM F)) := by unfold EB; infer_instance
def ER : Emb UR (MM F) :=
  (((Emb.inl : Emb UR (UR × Counters)).trans (Emb.inr : Emb (UR × Counters) (UB × (UR × Counters)))).trans
      (Emb.inr : Emb (UB × (UR × Counters)) UU)).trans
    (uEmb (nD := nD) (sig := sig) (Ix := HIx 1) (Val := Elt F) (Name := ℕ) (U := UU) (Lvl := ℕ)).toEmb
instance ER_landsIn : (ER : Emb UR (MM F)).LandsIn (upEmb : UEmb _ (MM F)) := by unfold ER; infer_instance

end Cert.Kernel.Run

end
-- ==== Proof.PayBits.lean ====
/-
  What the SparseCore call hands over and takes back. The call reads four arrays — the two transformed tables and
  the two flat id arrays — and writes the 819200 × 128 result; worker (core c, tile i) of the 2 × 16 mesh owns the
  25600 rows of slab 2·i + c. Each SparseCore receives a read share of every input and the slabs of its sixteen
  tiles; each tile a read share of every input and its slab; tile 0 of a SparseCore also the SparseCore's shared
  scratch, which it fills with the property table and hands, one read share per tile, across the subcore barrier.
  At the end every slab holds the looked-up sum `outVal`.
-/
import proofs.«204385_g66649302499670_cont_9to1c4b_43_34_alg».proof.Proof.SetupBits
import Idealize.ShloMosaic.Lib.ValueIdx
import Idealize.ShloMosaic.Lib.Transfers

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MM F

/-! ## The arrays -/

abbrev teLoc (d : Dev nD) : Loc nD τ sig := (SparseCore.T d).loc main_v3_0
abbrev tpLoc (d : Dev nD) : Loc nD τ sig := (SparseCore.T d).loc main_v3_1
abbrev eidLoc (d : Dev nD) : Loc nD τ sig := (SparseCore.T d).loc main_v0
abbrev pidLoc (d : Dev nD) : Loc nD τ sig := (SparseCore.T d).loc main_v1
abbrev outLoc (d : Dev nD) : Loc nD τ sig := (SparseCore.T d).loc main_v4
/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

theorem nSC_eq : τ.nSC = 2 := rfl
theorem nSub_eq : τ.nSub = 16 := rfl

/-- A 32-bit index word as a row number of a table of `N` rows (the word's value when it is in range). -/
def rowOf (N : Nat) (hN : 0 < N) (x : BitVec 32) : Fin N := ⟨x.toNat % N, Nat.mod_lt _ hN⟩

/-- The result: row `r`, channel `j` is the element row's entry plus the property row's, added as the instance adds. -/
def outVal [FloatOps F] (te : Vec F S100000x128 .f32) (tp : Vec F S1000x128 .f32) (eid pid : Vec F S819200 .i32) : Vec F S819200x128 .f32 :=
  fun i => FloatOps.addf (φ := .f32) (te (ix2 (rowOf 100000 (by decide) (eid (ix1 (i 0)))) (i 1)))
    (tp (ix2 (rowOf 1000 (by decide) (pid (ix1 (i 0)))) (i 1)))

/-! ## The slabs -/

theorem hdiv32 : 32 ∣ S819200x128.size 0 := ⟨25600, rfl⟩
/-- Slab `w`: rows [25600·w, 25600·(w+1)) of the result. -/
abbrev slabRect (w : Fin 32) : Rect S819200x128 := Rect.part (s := S819200x128) (a₀ := 0) hdiv32 w
abbrev slabSet (w : Fin 32) : Finset S819200x128.Idx := ((Memref.whole main_v4_scv : Memref sig Kind.scVector Space.hbm S819200x128 EltTy.f32).view.slice (slabRect w)).set
/-- The worker number of tile `i` of SparseCore `c`. -/
def wid (c : Fin 2) (i : Fin 16) : Fin 32 := ⟨2 * i.val + c.val, by omega⟩

/-! ## The barrier cells -/

variable [FloatOps F]

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- The values the call works with, per device: the transformed tables, the flat id arrays, the result's launch
    contents. (The shared scratch's buffer type is the property table's.) -/
structure Vals (F : FTy → Type) where
  te : (d : Dev nD) → Buf (Elt F) (teLoc d)
  tp : (d : Dev nD) → Buf (Elt F) (tpLoc d)
  eid : (d : Dev nD) → Buf (Elt F) (eidLoc d)
  pid : (d : Dev nD) → Buf (Elt F) (pidLoc d)
  out0 : (d : Dev nD) → Buf (Elt F) (outLoc d)

variable (A : Vals F)

/-- The property table as the shared scratch's contents. -/
abbrev shVal (d : Dev nD) (c : Fin τ.nSC) : Buf (Elt F) (shLoc d c) := A.tp d
/-- The result's final contents. -/
abbrev outFin (d : Dev nD) : Buf (Elt F) (outLoc d) := outVal (A.te d) (A.tp d) (A.eid d) (A.pid d)

/-- Tile `j`'s read share of its SparseCore's shared scratch, filled. -/
abbrev shTok (d : Dev nD) (c : Fin τ.nSC) (j : Fin 16) : sProp 𝕄 := shLoc d c ↦{shareTok fullShare 16 j} shVal A d c

/-- What a duty in tile `j`'s barrier round hands over: tile 0's, tile `j`'s read share of the filled shared scratch;
    the others', nothing. -/
def bPay (g : GSem nD τ sig) (n : ℕ) : sProp 𝕄 :=
  match g with
  | ((d, .scVector c j), _) => if n = 0 then shTok A d c (Fin.cast nSub_eq j) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay A g n
  amount_pos _ _ _ _ := Nat.one_pos

instance bRd_payload_storable (g : GSem nD τ sig) (r n : ℕ) : BI.Storable (upEmb : UEmb _ 𝕄) ((bRd A).payload g r n) := by
  show BI.Storable upEmb (bPay A g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd A).duties (bcell d c j) 0 = (Finset.univ : Finset (Fin τ.nSub)).image Fin.val := by
  simp [bRd, isBar]
theorem bRd_mem₀ (d : Dev nD) (c : Fin τ.nSC) (j i : Fin τ.nSub) : i.val ∈ (bRd A).duties (bcell d c j) 0 := by
  rw [bRd_duties₀]; exact Finset.mem_image_of_mem _ (Finset.mem_univ i)
theorem bRd_expect (d : Dev nD) (c : Fin τ.nSC) (j : Fin τ.nSub) : 0 + grid1.bound 1 = (bRd A).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its
    own position at the origin of round 0, its duty token in every tile's round 0, and the credit for the sixteen
    units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd A) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

/-- Read shares of the four inputs at share `q`. -/
abbrev reads (q : PosShare TreeShare) (d : Dev nD) : sProp 𝕄 :=
  iprop((teLoc d ↦{q} A.te d) ∗ (tpLoc d ↦{q} A.tp d) ∗ (eidLoc d ↦{q} A.eid d) ∗ (pidLoc d ↦{q} A.pid d))

abbrev slabPts (d : Dev nD) (w : Fin 32) (f : Buf (Elt F) (outLoc d)) : sProp 𝕄 := outLoc d ↦[slabSet w]{fullShare} f

/-- The SparseCore of the call's core number `c`. -/
abbrev coreOf (c : Fin ((K (F := F)).nCore 0)) : Fin τ.nSC := (K (F := F)).core 0 c
abbrev coreIx (c : Fin ((K (F := F)).nCore 0)) : Fin 2 := Fin.cast nCore_zero c
abbrev subIx (i : Fin ((K (F := F)).nSub 0)) : Fin 16 := Fin.cast nSub_zero i
/-- SparseCore `c`'s read share, and tile `i`'s of it. -/
abbrev qCore (c : Fin 2) : PosShare TreeShare := shareTok fullShare 2 c
abbrev qTile (c : Fin 2) (i : Fin 16) : PosShare TreeShare := shareTok (qCore c) 16 i

def P : (K (F := F)).Pay (nD := nD) (Val := Elt F) (Name := ℕ) (U := UU) where
  st := fun q d c => match q with
    | 0 => iprop(reads A (qCore (coreIx c)) d ∗ bigSep Finset.univ fun i : Fin 16 => slabPts d (wid (coreIx c) i) (A.out0 d))
  dn := fun q d c => match q with
    | 0 => iprop(reads A (qCore (coreIx c)) d ∗ bigSep Finset.univ fun i : Fin 16 => slabPts d (wid (coreIx c) i) (outFin A d))
  go := fun q d c i => match q with
    | 0 => iprop(reads A (qTile (coreIx c) (subIx i)) d ∗ slabPts d (wid (coreIx c) (subIx i)) (A.out0 d)
        ∗ (if (subIx i).val = 0 then iprop(∃ f, shLoc d (coreOf c) ↦{fullShare} f) else iprop(emp)))
  td := fun q d c i => match q with
    | 0 => iprop(reads A (qTile (coreIx c) (subIx i)) d ∗ slabPts d (wid (coreIx c) (subIx i)) (outFin A d)
        ∗ shTok A d (coreOf c) (subIx i)
        ∗ (if (subIx i).val = 0 then iprop(shLoc d (coreOf c) ↦{shareDrop fullShare 16} shVal A d (coreOf c)) else iprop(emp)))
  x := fun _ thr => match thr with
    | (d, .scVector c i) => bkit A d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P A).IsStorable where
  st q d c := match q with
    | 0 => by unfold P; dsimp only; infer_instance
  dn q d c := match q with
    | 0 => by unfold P; dsimp only; infer_instance
  go q d c i := match q with
    | 0 => by unfold P; dsimp only; split <;> infer_instance
  td q d c i := match q with
    | 0 => by unfold P; dsimp only; split <;> infer_instance

end Cert.Kernel.Run

end
-- ==== Proof.VecSplitBits.lean ====
/-
  How a SparseCore's operands split among its sixteen tiles and how the tiles' results gather: each input's read share
  splits into sixteen read tokens (the remainder is kept aside and joined back), the sixteen slabs go one to a tile,
  and the SparseCore's shared scratch goes whole to tile 0 and comes back as sixteen read tokens and the remainder.
-/
import proofs.«204385_g66649302499670_cont_9to1c4b_43_34_alg».proof.Proof.PayBits

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MM F

variable (A : Vals F)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- Of sixteen conjuncts that are `X` at tile 0 and nothing elsewhere, only `X` is there. -/
theorem bigSep_at_zero (X : sProp 𝕄) :
    (bigSep Finset.univ fun i : Fin 16 => (if i.val = 0 then X else iprop(emp) : sProp 𝕄)) = iprop(X ∗ emp) := by
  rw [SparseCore.bigSep_erase' (Finset.mem_univ (0 : Fin 16))]
  congr 1
  rw [bigSep_congr (Ψ := fun _ => (iprop(emp) : sProp 𝕄)) fun i hi => by
    have : i.val ≠ 0 := fun h => (Finset.mem_erase.mp hi).1 (Fin.ext h)
    simp only [this, ↓reduceIte], bigSep_emp']

omit [FloatOps F] in
/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- Read shares of the four inputs split into sixteen tokens and the remainder, and join back. -/
theorem reads_split (q : PosShare TreeShare) (d : Dev nD) :
    reads A q d ⊢ iprop(reads A (shareDrop q 16) d ∗ bigSep Finset.univ fun i : Fin 16 => reads A (shareTok q 16 i) d) := by
  unfold reads
  simp only [bigSep_sep']
  iintro ⟨H1, H2, H3, H4⟩
  ihave H1 := (pointsTo_toks_split q 16) $$ H1
  ihave H2 := (pointsTo_toks_split q 16) $$ H2
  ihave H3 := (pointsTo_toks_split q 16) $$ H3
  ihave H4 := (pointsTo_toks_split q 16) $$ H4
  icases H1 with ⟨D1, T1⟩
  icases H2 with ⟨D2, T2⟩
  icases H3 with ⟨D3, T3⟩
  icases H4 with ⟨D4, T4⟩
  isplitl [D1 D2 D3 D4]
  · isplitl [D1]; · iexact D1
    isplitl [D2]; · iexact D2
    isplitl [D3]; · iexact D3
    iexact D4
  · isplitl [T1]; · iexact T1
    isplitl [T2]; · iexact T2
    isplitl [T3]; · iexact T3
    iexact T4

theorem reads_join (q : PosShare TreeShare) (d : Dev nD) :
    iprop(reads A (shareDrop q 16) d ∗ bigSep Finset.univ fun i : Fin 16 => reads A (shareTok q 16 i) d) ⊢ reads A q d := by
  unfold reads
  simp only [bigSep_sep']
  iintro ⟨⟨D1, D2, D3, D4⟩, T1, T2, T3, T4⟩
  isplitl [D1 T1]
  · iapply (pointsTo_toks_join q 16); isplitl [D1] <;> iassumption
  isplitl [D2 T2]
  · iapply (pointsTo_toks_join q 16); isplitl [D2] <;> iassumption
  isplitl [D3 T3]
  · iapply (pointsTo_toks_join q 16); isplitl [D3] <;> iassumption
  · iapply (pointsTo_toks_join q 16); isplitl [D4] <;> iassumption

/-- The split of the call's operands for SparseCore `c` into its tiles' and the gathering of their results. -/
theorem vecSplit : (K (F := F)).VecSplit (P A) 0 := by
  intro d c
  show iprop(iprop(reads A (qCore (coreIx c)) d ∗ bigSep Finset.univ fun i : Fin 16 => slabPts d (wid (coreIx c) i) (A.out0 d)) ∗ ownBufs (S d (coreOf c)))
    ⊢ |={Set.univ}=> iprop(
      (bigSep Finset.univ fun i : Fin ((K (F := F)).nSub 0) => iprop(reads A (qTile (coreIx c) (Fin.cast nSub_zero i)) d
        ∗ slabPts d (wid (coreIx c) (Fin.cast nSub_zero i)) (A.out0 d)
        ∗ (if (Fin.cast nSub_zero i).val = 0 then iprop(∃ f, shLoc d (coreOf c) ↦{fullShare} f) else iprop(emp))))
      ∗ ((bigSep Finset.univ fun i : Fin ((K (F := F)).nSub 0) => iprop(reads A (qTile (coreIx c) (Fin.cast nSub_zero i)) d
            ∗ slabPts d (wid (coreIx c) (Fin.cast nSub_zero i)) (outFin A d)
            ∗ shTok A d (coreOf c) (Fin.cast nSub_zero i)
            ∗ (if (Fin.cast nSub_zero i).val = 0 then iprop(shLoc d (coreOf c) ↦{shareDrop fullShare 16} shVal A d (coreOf c)) else iprop(emp))))
          -∗ iprop(iprop(reads A (qCore (coreIx c)) d ∗ bigSep Finset.univ fun i : Fin 16 => slabPts d (wid (coreIx c) i) (outFin A d)) ∗ ownBufs (S d (coreOf c)))))
  rw [bigSep_tasks (F := F) (fun i => iprop(reads A (qTile (coreIx c) i) d ∗ slabPts d (wid (coreIx c) i) (A.out0 d)
        ∗ (if i.val = 0 then iprop(∃ f, shLoc d (coreOf c) ↦{fullShare} f) else iprop(emp)))),
    bigSep_tasks (F := F) (fun i => iprop(reads A (qTile (coreIx c) i) d ∗ slabPts d (wid (coreIx c) i) (outFin A d)
        ∗ shTok A d (coreOf c) i
        ∗ (if i.val = 0 then iprop(shLoc d (coreOf c) ↦{shareDrop fullShare 16} shVal A d (coreOf c)) else iprop(emp)))),
    bigSep_sep' _ (fun i : Fin 16 => reads A (qTile (coreIx c) i) d) (fun i => iprop(slabPts d (wid (coreIx c) i) (A.out0 d)
        ∗ (if i.val = 0 then iprop(∃ f, shLoc d (coreOf c) ↦{fullShare} f) else iprop(emp)))),
    bigSep_sep' _ (fun i : Fin 16 => slabPts d (wid (coreIx c) i) (A.out0 d)) (fun i => (if i.val = 0 then iprop(∃ f, shLoc d (coreOf c) ↦{fullShare} f) else iprop(emp) : sProp 𝕄)),
    bigSep_sep' _ (fun i : Fin 16 => reads A (qTile (coreIx c) i) d) (fun i => iprop(slabPts d (wid (coreIx c) i) (outFin A d)
        ∗ shTok A d (coreOf c) i
        ∗ (if i.val = 0 then iprop(shLoc d (coreOf c) ↦{shareDrop fullShare 16} shVal A d (coreOf c)) else iprop(emp)))),
    bigSep_sep' _ (fun i : Fin 16 => slabPts d (wid (coreIx c) i) (outFin A d)) (fun i => iprop(shTok A d (coreOf c) i
        ∗ (if i.val = 0 then iprop(shLoc d (coreOf c) ↦{shareDrop fullShare 16} shVal A d (coreOf c)) else iprop(emp)))),
    bigSep_sep' _ (fun i : Fin 16 => shTok A d (coreOf c) i) (fun i => (if i.val = 0 then iprop(shLoc d (coreOf c) ↦{shareDrop fullShare 16} shVal A d (coreOf c)) else iprop(emp) : sProp 𝕄)),
    bigSep_at_zero, bigSep_at_zero, ownBufs_S]
  iintro ⟨⟨Hr, Hsl⟩, ⟨%fsh, Hsh⟩, Hrest⟩
  ihave Hr2 := (reads_split A (qCore (coreIx c)) d) $$ Hr
  icases Hr2 with ⟨Hdrop, Htoks⟩
  imodintro
  isplitl [Htoks Hsl Hsh]
  · isplitl [Htoks]; · iexact Htoks
    isplitl [Hsl]; · iexact Hsl
    isplitl [Hsh]; · iexists fsh; iexact Hsh
    iempintro
  iintro ⟨Htoks, Hsl, Hst, Hsd, -⟩
  isplitl [Hdrop Htoks Hsl]
  · isplitl [Hdrop Htoks]
    · iapply (reads_join A (qCore (coreIx c)) d); isplitl [Hdrop] <;> iassumption
    · iexact Hsl
  isplitl [Hst Hsd]
  · iexists shVal A d (coreOf c)
    iapply (pointsTo_toks_join fullShare 16); isplitl [Hsd] <;> iassumption
  · iexact Hrest

end Cert.Kernel.Run

end
-- ==== Proof.CallSplitBits.lean ====
/-
  What the TensorCore hands the two SparseCores at the call and gets back: every input's full share splits into two
  read tokens and a remainder; the result splits into its 32 slabs, sixteen to each SparseCore (slab 2·i + c to tile
  i of SparseCore c), and the slabs join back into the whole result.
-/
import proofs.«204385_g66649302499670_cont_9to1c4b_43_34_alg».proof.Proof.VecSplitBits

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MM F

variable (A : Vals F)

/-- Read shares of the four inputs split into two tokens and the remainder, and join back. -/
theorem reads_split2 (q : PosShare TreeShare) (d : Dev nD) :
    reads A q d ⊢ iprop(reads A (shareDrop q 2) d ∗ bigSep Finset.univ fun i : Fin 2 => reads A (shareTok q 2 i) d) := by
  unfold reads
  simp only [bigSep_sep']
  iintro ⟨H1, H2, H3, H4⟩
  ihave H1 := (pointsTo_toks_split q 2) $$ H1
  ihave H2 := (pointsTo_toks_split q 2) $$ H2
  ihave H3 := (pointsTo_toks_split q 2) $$ H3
  ihave H4 := (pointsTo_toks_split q 2) $$ H4
  icases H1 with ⟨D1, T1⟩
  icases H2 with ⟨D2, T2⟩
  icases H3 with ⟨D3, T3⟩
  icases H4 with ⟨D4, T4⟩
  isplitl [D1 D2 D3 D4]
  · isplitl [D1]; · iexact D1
    isplitl [D2]; · iexact D2
    isplitl [D3]; · iexact D3
    iexact D4
  · isplitl [T1]; · iexact T1
    isplitl [T2]; · iexact T2
    isplitl [T3]; · iexact T3
    iexact T4

theorem reads_join2 (q : PosShare TreeShare) (d : Dev nD) :
    iprop(reads A (shareDrop q 2) d ∗ bigSep Finset.univ fun i : Fin 2 => reads A (shareTok q 2 i) d) ⊢ reads A q d := by
  unfold reads
  simp only [bigSep_sep']
  iintro ⟨⟨D1, D2, D3, D4⟩, T1, T2, T3, T4⟩
  isplitl [D1 T1]
  · iapply (pointsTo_toks_join q 2); isplitl [D1] <;> iassumption
  isplitl [D2 T2]
  · iapply (pointsTo_toks_join q 2); isplitl [D2] <;> iassumption
  isplitl [D3 T3]
  · iapply (pointsTo_toks_join q 2); isplitl [D3] <;> iassumption
  · iapply (pointsTo_toks_join q 2); isplitl [D4] <;> iassumption

/-! ## The slabs -/

omit [FloatOps F] in
theorem slabSet_eq (w : Fin 32) : slabSet w = (slabRect w).set := by
  show ((View.whole (main_v4_scv : Ref sig .scVector)).slice (slabRect w)).set = _
  rw [View.set_slice]; exact Finset.map_refl
omit [FloatOps F] in
theorem slabs_disjoint : ∀ i ∈ (Finset.univ : Finset (Fin 32)), ∀ j ∈ (Finset.univ : Finset (Fin 32)), i ≠ j → Disjoint (slabSet i) (slabSet j) :=
  fun i _ j _ h => by rw [slabSet_eq, slabSet_eq]; exact Rect.part_disjoint hdiv32 h
omit [FloatOps F] in
theorem slabs_cover : (Finset.univ : Finset (Fin 32)).biUnion slabSet = Finset.univ :=
  (Finset.biUnion_congr rfl fun i _ => slabSet_eq i).trans (Rect.biUnion_part hdiv32)

omit [FloatOps F] in
/-- The result whole is its 32 slabs. -/
theorem out_slabs (d : Dev nD) (f : Buf (Elt F) (outLoc d)) :
    (outLoc d ↦{fullShare} f : sProp 𝕄) = bigSep Finset.univ fun w : Fin 32 => slabPts d w f := by
  unfold slabPts
  rw [← pointsTo_biUnion Finset.univ (ℓ := outLoc d) slabSet slabs_disjoint, slabs_cover]; try rfl

/-- Worker numbers: (core, tile) ↦ 2·tile + core is a bijection onto the 32 slabs. -/
def widEquiv : Fin 2 × Fin 16 ≃ Fin 32 where
  toFun x := wid x.1 x.2
  invFun w := (⟨w.val % 2, Nat.mod_lt _ (by decide)⟩, ⟨w.val / 2, by have := w.isLt; omega⟩)
  left_inv x := by
    obtain ⟨c, i⟩ := x
    refine Prod.ext (Fin.ext ?_) (Fin.ext ?_)
    · show (2 * i.val + c.val) % 2 = c.val; have := c.isLt; omega
    · show (2 * i.val + c.val) / 2 = i.val; have := c.isLt; omega
  right_inv w := by
    refine Fin.ext ?_
    show 2 * (w.val / 2) + w.val % 2 = w.val; omega

omit [FloatOps F] in
/-- The 32 slabs, regrouped: sixteen per SparseCore. -/
theorem slabs_regroup (Φ : Fin 32 → sProp 𝕄) :
    (bigSep Finset.univ Φ) = bigSep Finset.univ fun c : Fin 2 => bigSep Finset.univ fun i : Fin 16 => Φ (wid c i) := by
  rw [bigSep_univ_equiv widEquiv Φ, bigSep_univ_prod]
  rfl

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- Before the call: the inputs whole and the result whole are the remainder of the inputs' shares and what each
    SparseCore is handed. -/
theorem call_pre (d : Dev nD) :
    iprop(reads A fullShare d ∗ (outLoc d ↦{fullShare} A.out0 d))
      ⊢ iprop(reads A (shareDrop fullShare 2) d ∗ bigSep Finset.univ fun c : Fin ((K (F := F)).nCore 0) => (P A).st 0 d c) := by
  show _ ⊢ iprop(_ ∗ bigSep Finset.univ fun c : Fin ((K (F := F)).nCore 0) =>
    iprop(reads A (qCore (Fin.cast nCore_zero c)) d ∗ bigSep Finset.univ fun i : Fin 16 => slabPts d (wid (Fin.cast nCore_zero c) i) (A.out0 d)))
  rw [bigSep_cores (F := F) (fun c => iprop(reads A (qCore c) d ∗ bigSep Finset.univ fun i : Fin 16 => slabPts d (wid c i) (A.out0 d))),
    bigSep_sep' _ (fun c : Fin 2 => reads A (qCore c) d) (fun c => bigSep Finset.univ fun i : Fin 16 => slabPts d (wid c i) (A.out0 d)),
    ← slabs_regroup (F := F) (fun w => slabPts d w (A.out0 d)), ← out_slabs]
  iintro ⟨Hr, Ho⟩
  ihave Hr2 := (reads_split2 A fullShare d) $$ Hr
  icases Hr2 with ⟨Hd, Ht⟩
  isplitl [Hd]; · iexact Hd
  isplitl [Ht]; · iexact Ht
  iexact Ho

/-- After the call: the remainder and what the SparseCores hand back are the inputs whole and the result whole at its
    final contents. -/
theorem call_post (d : Dev nD) :
    iprop(reads A (shareDrop fullShare 2) d ∗ bigSep Finset.univ fun c : Fin ((K (F := F)).nCore 0) => (P A).dn 0 d c)
      ⊢ iprop(reads A fullShare d ∗ (outLoc d ↦{fullShare} outFin A d)) := by
  show iprop(_ ∗ bigSep Finset.univ fun c : Fin ((K (F := F)).nCore 0) =>
    iprop(reads A (qCore (Fin.cast nCore_zero c)) d ∗ bigSep Finset.univ fun i : Fin 16 => slabPts d (wid (Fin.cast nCore_zero c) i) (outFin A d))) ⊢ _
  rw [bigSep_cores (F := F) (fun c => iprop(reads A (qCore c) d ∗ bigSep Finset.univ fun i : Fin 16 => slabPts d (wid c i) (outFin A d))),
    bigSep_sep' _ (fun c : Fin 2 => reads A (qCore c) d) (fun c => bigSep Finset.univ fun i : Fin 16 => slabPts d (wid c i) (outFin A d)),
    ← slabs_regroup (F := F) (fun w => slabPts d w (outFin A d)), ← out_slabs]
  iintro ⟨Hd, Ht, Ho⟩
  isplitl [Hd Ht]
  · iapply (reads_join2 A fullShare d); isplitl [Hd] <;> iassumption
  · iexact Ho

end Cert.Kernel.Run

end
-- ==== Proof.HuBits.lean ====
/-
  The launch element of the ghost state: the handshake cells' rounds, the barrier cells' rounds with their
  invariants allocated for every tile at once and each tile dealt its kit, and the TensorCore pipeline's staging
  cells' rounds handed to @main.
-/
import proofs.«204385_g66649302499670_cont_9to1c4b_43_34_alg».proof.Proof.PayBits

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (A : Vals F)

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid1.bound 1) => (bcell x.1.1 x.1.2.1 (x.2.castLE hsub1), 0, x.1.2.2.val)
/-- The launch element: the handshakes' rounds, the barrier cells', the pipeline's staging cells' (`uR`). -/
def u₀ (uR : UR) : UU := (initOf (K (F := F)).hsCells (K (F := F)).hsToks, (initOf bCells bToks, (uR, 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) (r : UR) : (ownU ((a, (b, (r, 1))) : UU) : sProp 𝕄) ⊢ iprop(BI.own (EH a) ∗ BI.own (EB b) ∗ BI.own (ER r)) := by
  have h1 : (ownU ((a, (b, (r, 1))) : UU) : sProp 𝕄) ⊢ iprop(BI.own (EH a) ∗ ownU (((1 : UH), (b, (r, (1 : Counters)))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (r, (1 : Counters))))))
  have h2 : (ownU (((1 : UH), (b, (r, (1 : Counters)))) : UU) : sProp 𝕄) ⊢ iprop(BI.own (EB b) ∗ BI.own (ER r)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (Prod.mk_mem_op (URA.mem_one_op r) (URA.mem_op_one (1 : Counters))))))
  exact h1.trans (sep_mono_right h2)

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd A) g 0)
    ⊢ |={Set.univ}=> iprop(∃ κ : GSem nD τ sig → ℕ, bigSep bCells fun g => cellInv EB (bRd A) (κ g) g) := by
  refine (Rounds.bodies_intro EB (bRd A) bCells).trans ((inv_alloc_family bCells (Rounds.body EB (bRd A)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the tiles' barrier debts, regrouped: each tile the sixteen units of its own cell. -/
theorem creds_b : ((P A).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P A).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P A).oxFrom 0 (V d c i) = oxV d c := fun i => by
    rw [show (0 : ℕ) = (0 : Fin 1).val from rfl, (P A).oxFrom_step, (P A).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P A).x q (SparseCore.T d)) = iprop(emp) :=
  bigSep_univ_of_subsingleton (0 : Fin 1)
theorem Px_S (d : Dev nD) (c : Fin τ.nSC) : (bigSep Finset.univ fun q : Fin 1 => (P A).x q (S d c)) = iprop(emp) :=
  bigSep_univ_of_subsingleton (0 : Fin 1)
theorem Px_V (d : Dev nD) (c : Fin τ.nSC) (i : Fin τ.nSub) :
    (bigSep Finset.univ fun q : Fin 1 => (P A).x q (V d c i)) = bkit A d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd A) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One tile's kit out of those. -/
theorem kit_intro (dci : DCI) : iprop(shared A ∗ mine (F := F) dci) ⊢ (bkit A dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd A) (κ (bcell₃ x)) (bcell₃ x)) fun j _ =>
        sep_elim_left.trans (bigSep_elim (Φ := fun x : DCI => (cellInv EB (bRd A) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each tile its kit. -/
theorem kits_deal :
    iprop(shared A ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P A).x q thr : sProp 𝕄) := by
  rw [SparseCore.Cfg.bigSep_threads (fun thr : Thread nD τ => bigSep Finset.univ fun q : Fin 1 => (P A).x q thr)]
  simp only [Px_T, Px_S, Px_V, bigSep_emp']
  iintro ⟨#Hsh, Hat, Htok, Hcred⟩
  isplitr; · iempintro
  isplitr; · iempintro
  iapply (bigSep_mono_frame (R := shared A) (Φ := mine (F := F)) fun dci _ => kit_intro A dci)
  isplitr; · iexact Hsh
  unfold mine
  rw [bigSep_sep', bigSep_sep']
  isplitl [Hat]; · iexact Hat
  isplitl [Htok]; · iexact Htok
  iexact Hcred

/-- What @main's proof starts from: the pipeline's staging cells' launch element (the mesh has one device). -/
def G0 (uR : UR) (_ : Dev nD) : sProp 𝕄 := BI.own (ER uR)

theorem hu₀ (uR : UR) : iprop(ownU (u₀ (F := F) uR) ∗ (P A).oxCred ∗ (K (F := F)).freeSems0)
    ⊢ |={Set.univ}=> iprop(BI.own (EH (initOf (K (F := F)).hsCells (K (F := F)).hsToks)) ∗ (bigSep Finset.univ (G0 (F := F) uR))
        ∗ (bigSep Finset.univ fun thr : Thread nD τ => bigSep Finset.univ fun q : Fin 1 => (P A).x q thr) : sProp 𝕄) := by
  unfold u₀
  iintro ⟨Hu, Hcred, Hfree⟩
  ihave H := (ownU_split _ _ _) $$ Hu
  icases H with ⟨HH, HB, HR⟩
  imod (Rounds.fund EB (bRd A) bCells bToks) $$ HB with ⟨Hst, #Hr, Hat, Htok⟩
  ihave Hsems := (sems_b (F := F)) $$ Hfree
  imod (invs_b A) $$ [Hsems Hst] with ⟨%κ, #Hinv⟩
  · isplitl [Hsems] <;> iassumption
  ihave Hcred' := (creds_b A) $$ Hcred
  ihave Hinv' := (Entails.of_eq (bCells_eq (F := F) fun g => cellInv EB (bRd A) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HR]
  · rw [bigSep_univ_of_subsingleton (0 : Dev nD)]; unfold G0; iexact HR
  iapply (kits_deal A)
  isplitr
  · isplitl; · iexists κ; iexact Hinv'
    iexact Hr'
  isplitl [Hat']; · iexact Hat'
  isplitl [Htok']; · iexact Htok'
  iexact Hcred'

end Cert.Kernel.Run

end
-- ==== Proof.LaunchBits.lean ====
/-
  The kernel program's run from the launch theorem of SparseCore programs: the tile's task, the split of a
  SparseCore's operands among its tiles, the launch element of the ghost state, @main on the TensorCore, and how
  the final memory reads the claim.
-/
import proofs.«204385_g66649302499670_cont_9to1c4b_43_34_alg».proof.Proof.PayBits

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop)
open Idealize.ShloMosaic.Tactic

variable {F : FTy → Type} [FloatOps F]

local notation "𝕄" => MM F

variable (m : (ℓ : Loc nD τ sig) → Buf (Elt F) ℓ) (ρ : Dev nD → PrngReg) (A : Vals F)

abbrev argLoc (d : Dev nD) (b : Ref sig .tc) : Loc nD τ sig := (SparseCore.T d).loc b

/-- What @main leaves: the six arguments at their launch contents and the result at `res d`. -/
def FIN (res : (d : Dev nD) → Buf (Elt F) (argLoc d main_v5)) (d : Dev nD) : sProp 𝕄 :=
  iprop((argLoc d main_v5 ↦{fullShare} res d) ∗ (argLoc d main_arg0 ↦{fullShare} m (argLoc d main_arg0))
    ∗ (argLoc d main_arg1 ↦{fullShare} m (argLoc d main_arg1)) ∗ (argLoc d main_arg2 ↦{fullShare} m (argLoc d main_arg2))
    ∗ (argLoc d main_arg3 ↦{fullShare} m (argLoc d main_arg3)) ∗ (argLoc d main_arg4 ↦{fullShare} m (argLoc d main_arg4))
    ∗ (argLoc d main_arg5 ↦{fullShare} m (argLoc d main_arg5)))

def fq (res : (d : Dev nD) → Buf (Elt F) (argLoc d main_v5)) (d : Dev nD) (s' : Phys nD τ sig (Elt F)) : Prop :=
  s'.mem.mem (argLoc d main_v5) = res d ∧ s'.mem.mem (argLoc d main_arg0) = m (argLoc d main_arg0)
    ∧ s'.mem.mem (argLoc d main_arg1) = m (argLoc d main_arg1) ∧ s'.mem.mem (argLoc d main_arg2) = m (argLoc d main_arg2)
    ∧ s'.mem.mem (argLoc d main_arg3) = m (argLoc d main_arg3) ∧ s'.mem.mem (argLoc d main_arg4) = m (argLoc d main_arg4)
    ∧ s'.mem.mem (argLoc d main_arg5) = m (argLoc d main_arg5)

omit [FloatOps F] in
theorem agree_full (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] in
theorem hfin (res : (d : Dev nD) → Buf (Elt F) (argLoc d main_v5)) (d : Dev nD) (s' : Phys nD τ sig (Elt F)) :
    iprop(FIN m res d ∗ SI s') ⊢ (⌜fq m res d s'⌝ : sProp 𝕄) := by
  unfold FIN
  iintro ⟨⟨H5, H0, H1, H2, H3, H4, H6⟩, HSI⟩
  icombine HSI H5 gives %h5
  icombine HSI H0 gives %h0
  icombine HSI H1 gives %h1
  icombine HSI H2 gives %h2
  icombine HSI H3 gives %h3
  icombine HSI H4 gives %h4
  icombine HSI H6 gives %h6
  ipureintro
  exact ⟨funext fun i => h5 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i),
    funext fun i => h6 i (Finset.mem_univ i)⟩

/-- The run's post: on every device the result at `res` and the six arguments unchanged. -/
def QC (res : (d : Dev nD) → Buf (Elt F) (argLoc d main_v5)) : PUnit × MemSt nD τ sig (Elt F) → Prop := fun r => ∀ c : Dev nD,
  r.2.mem (argLoc c main_v5) = res c ∧ r.2.mem (argLoc c main_arg0) = m (argLoc c main_arg0)
    ∧ r.2.mem (argLoc c main_arg1) = m (argLoc c main_arg1) ∧ r.2.mem (argLoc c main_arg2) = m (argLoc c main_arg2)
    ∧ r.2.mem (argLoc c main_arg3) = m (argLoc c main_arg3) ∧ r.2.mem (argLoc c main_arg4) = m (argLoc c main_arg4)
    ∧ r.2.mem (argLoc c main_arg5) = m (argLoc c main_arg5)

/-- The program's run from its five parts. -/
theorem run_of_parts [∀ e, Nonempty (Elt F e)] (res : (d : Dev nD) → Buf (Elt F) (argLoc d main_v5)) (u₀ : UU) (G : Dev nD → sProp 𝕄)
    (htile : (K (F := F)).TileObl (D (F := F)) 𝒱 (P A) v₀ 0)
    (hvec : (K (F := F)).VecSplit (P A) 0)
    (hu₀ : iprop(ownU u₀ ∗ (P A).oxCred ∗ (K (F := F)).freeSems0) ⊢ |={Set.univ}=> iprop(BI.own (EH (initOf (K (F := F)).hsCells (K (F := F)).hsToks)) ∗ bigSep Finset.univ G
      ∗ bigSep Finset.univ fun thr : Thread nD τ => bigSep Finset.univ fun q : Fin 1 => (P A).x q thr))
    (hmain : ∀ (κ : GSem nD τ sig → ℕ) (d : Dev nD),
      iprop((K (F := F)).ctx EH (P A) κ ∗ (K (F := F)).tcSt EH d 0 ∗ (K (F := F)).tcRes m ρ d ∗ G d)
        ⊢ wp frame (wpE ((K (F := F)).defs (D (F := F))) 𝒱 (SparseCore.T d) none) Set.univ (main d)
            fun _ => iprop((K (F := F)).tcSt EH d 1 ∗ FIN m res d)) :
    θ_run (Cert.Kernel.defs (F := F)) (Cert.Kernel.threads (F := F)) ⟨m, fun _ => 0, ρ⟩ (QC m res) :=
  SparseCore.Cfg.θ_run_sc (K := K (F := F)) (D := D (F := F)) (𝒱 := 𝒱) (EH := EH) (P := P A) facts v₀
    (fun q hq => match q with | 0 => nomatch hq)
    (fun q _ => match q with | 0 => htile)
    (fun q _ => match q with | 0 => hvec)
    m ρ main G (FIN m res) u₀ hu₀ hmain (fq m res) (hfin m res) (QC m res) (fun _ h => h)

end Cert.Kernel.Run

end
-- ==== Proof.HmainBits.lean ====
/-
  @main on the TensorCore: three host reshapes, the TensorCore pipeline that transforms the two tables, the
  SparseCore call that looks the rows up and adds them, and the last reshape.
-/
import proofs.«204385_g66649302499670_cont_9to1c4b_43_34_alg».proof.Proof.CallSplitBits
import proofs.«204385_g66649302499670_cont_9to1c4b_43_34_alg».proof.Proof.HuBits
import proofs.«204385_g66649302499670_cont_9to1c4b_43_34_alg».proof.Proof.LaunchBits

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type} [FloatOps F]

local notation "𝕄" => MM F

/-- A host reshape of `x` into `y`, holding the two arrays: `y` ends at `x`'s elements in row-major order. -/
theorem reshape_step {Λ' : Labels} (defs' : Defs nD τ sig (Elt F) Λ') (𝒱' : Variants) (d : Dev nD) (bd : Option 𝒱'.V) (E : Set ℕ)
    (x y : Ref sig .tc) (hne : (Proc.devRef .tc x : DevRef τ sig) ≠ Proc.devRef .tc y)
    (he : x.ty.elt = y.ty.elt) (hn : x.ty.shape.ShapeCasts y.ty.shape)
    (hx : x.space ≠ .host ∧ (x : DevRef τ sig).isScoped = false) (hy : y.space ≠ .host ∧ (y : DevRef τ sig).isScoped = false)
    (V₀ : Valuation τ sig (Elt F)) (fx : Buf (Elt F) ((SparseCore.T d : Thread nD τ).loc x)) (fy : Buf (Elt F) ((SparseCore.T d : Thread nD τ).loc y))
    {α : Type} (k : ((b : (StableHlo.reshape (Val := Elt F) x y he hn hx hy).writes) → b.1.ty.Contents (Elt F)) → Prog (TpuEff nD τ sig (Elt F) Λ' .tc) α) (Q : α → sProp 𝕄) :
    iprop(boundary (SparseCore.T d) ∗ ((SparseCore.T d : Thread nD τ).loc x ↦{fullShare} fx) ∗ ((SparseCore.T d : Thread nD τ).loc y ↦{fullShare} fy)
      ∗ ((boundary (SparseCore.T d) ∗ ((SparseCore.T d : Thread nD τ).loc x ↦{fullShare} fx)
          ∗ ((SparseCore.T d : Thread nD τ).loc y ↦{fullShare} (fun i => he ▸ shapeCast y.ty.shape fx hn i)))
        -∗ ∀ a, wp frame (wpE defs' 𝒱' (SparseCore.T d) bd) E (k a) Q))
    ⊢ wp frame (wpE defs' 𝒱' (SparseCore.T d) bd) E (hlo rfl (StableHlo.reshape x y he hn hx hy) k) Q := by
  have hWx : Function.update (Function.update V₀ (x : DevRef τ sig) fx) (y : DevRef τ sig) fy (x : DevRef τ sig) = fx := by
    rw [Function.update_of_ne hne, Function.update_self]
  have hWy : Function.update (Function.update V₀ (x : DevRef τ sig) fx) (y : DevRef τ sig) fy (y : DevRef τ sig) = fy := Function.update_self _ _ _
  have hpre : (held (SparseCore.T d) {(x : DevRef τ sig), (y : DevRef τ sig)} (Function.update (Function.update V₀ (x : DevRef τ sig) fx) (y : DevRef τ sig) fy) : sProp 𝕄)
      = iprop(((SparseCore.T d : Thread nD τ).loc x ↦{fullShare} fx) ∗ ((SparseCore.T d : Thread nD τ).loc y ↦{fullShare} fy)) := by
    unfold held
    rw [SparseCore.bigSep_insert' (by simpa using hne), bigSep_singleton, hWx, hWy]
  have hpost : (held (SparseCore.T d) {(x : DevRef τ sig), (y : DevRef τ sig)}
        ((StableHlo.reshape (Val := Elt F) x y he hn hx hy).result (Function.update (Function.update V₀ (x : DevRef τ sig) fx) (y : DevRef τ sig) fy)) : sProp 𝕄)
      = iprop(((SparseCore.T d : Thread nD τ).loc x ↦{fullShare} fx)
          ∗ ((SparseCore.T d : Thread nD τ).loc y ↦{fullShare} (fun i => he ▸ shapeCast y.ty.shape fx hn i))) := by
    unfold held
    rw [SparseCore.bigSep_insert' (by simpa using hne), bigSep_singleton,
      (StableHlo.reshape (Val := Elt F) x y he hn hx hy).result_of_not_mem _ (b := (x : DevRef τ sig)) (by simpa using hne),
      StableHlo.reshape_result, hWx]
  iintro ⟨Hb, Hx, Hy, Hk⟩
  iapply (wp_hlo_within 𝒱' (SparseCore.T d) bd E (op := StableHlo.reshape (Val := Elt F) x y he hn hx hy) (S := {(x : DevRef τ sig), (y : DevRef τ sig)}) (Finset.Subset.refl _)
    (V := Function.update (Function.update V₀ (x : DevRef τ sig) fx) (y : DevRef τ sig) fy)) $$ [Hb Hx Hy]
  · isplitl [Hb]; · iexact Hb
    rw [hpre]; isplitl [Hx] <;> iassumption
  iintro ⟨Hb, Hheld⟩
  ihave Hh := (Entails.of_eq hpost) $$ Hheld
  icases Hh with ⟨Hx, Hy⟩
  ihave Hk' := Hk $$ [Hb Hx Hy]
  · isplitl [Hb]; · iexact Hb
    isplitl [Hx] <;> iassumption
  iapply Hk'

/-! ## @main's arrays -/

omit [FloatOps F] in
theorem unscopedBufs_eq (d : Dev nD) (W : (b : Ref sig .tc) → Buf (Elt F) ((d.tc : Thread nD τ).loc b)) :
    (unscopedBufs d W : sProp 𝕄) = iprop(
      (argLoc d main_arg0 ↦{fullShare} W main_arg0) ∗ (argLoc d main_arg1 ↦{fullShare} W main_arg1) ∗ (argLoc d main_arg2 ↦{fullShare} W main_arg2)
      ∗ (argLoc d main_arg3 ↦{fullShare} W main_arg3) ∗ (argLoc d main_arg4 ↦{fullShare} W main_arg4) ∗ (argLoc d main_arg5 ↦{fullShare} W main_arg5)
      ∗ (argLoc d main_v0 ↦{fullShare} W main_v0) ∗ (argLoc d main_v1 ↦{fullShare} W main_v1) ∗ (argLoc d main_v2 ↦{fullShare} W main_v2)
      ∗ (argLoc d main_v3_0 ↦{fullShare} W main_v3_0) ∗ (argLoc d main_v3_1 ↦{fullShare} W main_v3_1) ∗ (argLoc d main_v4 ↦{fullShare} W main_v4)
      ∗ (argLoc d main_v5 ↦{fullShare} W main_v5)) := by
  unfold unscopedBufs
  rw [show (Finset.univ.filter fun b : Ref sig .tc => ¬ b.isScoped)
      = {main_arg0, main_arg1, main_arg2, main_arg3, main_arg4, main_arg5, main_v0, main_v1, main_v2, main_v3_0, main_v3_1, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-! ## The values -/

/-- A host reshape's result: the source's elements in row-major order at the target's shape. -/
abbrev flatOf (d : Dev nD) (x y : Ref sig .tc) (he : x.ty.elt = y.ty.elt) (hn : x.ty.shape.ShapeCasts y.ty.shape)
    (fx : Buf (Elt F) ((SparseCore.T d : Thread nD τ).loc x)) : Buf (Elt F) ((SparseCore.T d : Thread nD τ).loc y) :=
  fun i => he ▸ shapeCast y.ty.shape fx hn i

section Main

variable (m : (ℓ : Loc nD τ sig) → Buf (Elt F) ℓ) (ρ : Dev nD → PrngReg)
variable (teV : Vec F S100000x64 .f32 → Vec F S128x128 .f32 → Vec F S100000x128 .f32)
variable (tpV : Vec F S1000x64 .f32 → Vec F S128x128 .f32 → Vec F S1x128 .f32 → Vec F S1000x128 .f32)

/-- The values the SparseCore call works with, from the launch memory. -/
def valsOf : Vals F where
  te d := teV (m (argLoc d main_arg2)) (m (argLoc d main_arg4))
  tp d := tpV (m (argLoc d main_arg3)) (m (argLoc d main_arg4)) (flatOf d main_arg5 main_v2 rfl shapeCasts_S128_S1x128 (m (argLoc d main_arg5)))
  eid d := flatOf d main_arg0 main_v0 rfl shapeCasts_S4096x200_S819200 (m (argLoc d main_arg0))
  pid d := flatOf d main_arg1 main_v1 rfl shapeCasts_S4096x200_S819200 (m (argLoc d main_arg1))
  out0 d := m (argLoc d main_v4)

/-- The program's result: the call's result at the result's shape. -/
def resOf (d : Dev nD) : Buf (Elt F) (argLoc d main_v5) :=
  flatOf d main_v4 main_v5 rfl shapeCasts_S819200x128_S4096x200x128 (outFin (valsOf m teV tpV) d)

/-- The TensorCore pipeline's rule, as @main uses it: from the funded staging cells, what the TensorCore owes and
    the six arrays, the call ends with the two results at the transformed tables. -/
def RegionRule (uR : UR) : Prop :=
  (∀ d : Dev nD, (BI.own (ER (F := F) uR) : sProp 𝕄) ⊢ iprop(|==> (Pipeline.cellsGhost (Pipeline.pin (pcfgs (F := F)) fun p => (cfgs p).toPCfg_adm) ER 0 d
      ∗ Pipeline.toksInit (Pipeline.pin (pcfgs (F := F)) fun p => (cfgs p).toPCfg_adm) ER 0 d)))
  ∧ ∀ (d : Dev nD) (O : CellTallies nD τ sig (HIx 1)) (_ : ∀ g, O g none = 0) (b : ℕ)
      (Vv : (r : Ref sig .tc) → Buf (Elt F) ((SparseCore.T d : Thread nD τ).loc r)),
    iprop(levAts (K (F := F)).L (K (F := F)).lev ∗ boundary (SparseCore.T d)
        ∗ Pipeline.cellsGhost (Pipeline.pin (pcfgs (F := F)) fun p => (cfgs p).toPCfg_adm) ER 0 d
        ∗ Pipeline.toksInit (Pipeline.pin (pcfgs (F := F)) fun p => (cfgs p).toPCfg_adm) ER 0 d
        ∗ (∃ W, ⌜(K (F := F)).WBelow (SparseCore.T d) W b⌝ ∗ owes (SparseCore.T d) O W)
        ∗ (argLoc d main_arg2 ↦{fullShare} Vv main_arg2) ∗ (argLoc d main_arg3 ↦{fullShare} Vv main_arg3) ∗ (argLoc d main_arg4 ↦{fullShare} Vv main_arg4)
        ∗ (argLoc d main_v2 ↦{fullShare} Vv main_v2) ∗ (argLoc d main_v3_0 ↦{fullShare} Vv main_v3_0) ∗ (argLoc d main_v3_1 ↦{fullShare} Vv main_v3_1))
      ⊢ wp frame (wpE ((K (F := F)).defs (D (F := F))) 𝒱 (SparseCore.T d) none) Set.univ (Prog.lift (.customCall (SparseCore.inner (Pipeline.entry 0)) ()))
          fun _ => iprop(boundary (SparseCore.T d) ∗ (∃ W, ⌜(K (F := F)).WBelow (SparseCore.T d) W b⌝ ∗ owes (SparseCore.T d) O W)
            ∗ (argLoc d main_arg2 ↦{fullShare} Vv main_arg2) ∗ (argLoc d main_arg3 ↦{fullShare} Vv main_arg3) ∗ (argLoc d main_arg4 ↦{fullShare} Vv main_arg4)
            ∗ (argLoc d main_v2 ↦{fullShare} Vv main_v2)
            ∗ (argLoc d main_v3_0 ↦{fullShare} teV (Vv main_arg2) (Vv main_arg4)) ∗ (argLoc d main_v3_1 ↦{fullShare} tpV (Vv main_arg3) (Vv main_arg4) (Vv main_v2)))

end Main

section Main2

variable (m : (ℓ : Loc nD τ sig) → Buf (Elt F) ℓ) (ρ : Dev nD → PrngReg)
variable (teV : Vec F S100000x64 .f32 → Vec F S128x128 .f32 → Vec F S100000x128 .f32)
variable (tpV : Vec F S1000x64 .f32 → Vec F S128x128 .f32 → Vec F S1x128 .f32 → Vec F S1000x128 .f32)

/-- The TensorCore's handshake state but what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

omit [FloatOps F] in
theorem tcSt_eq (d : Dev nD) (n : ℕ) :
    ((K (F := F)).tcSt EH d n : sProp 𝕄) = iprop((∃ W, ⌜(K (F := F)).WBelow (SparseCore.T d) W (8 * n)⌝ ∗ owes (SparseCore.T d) ((K (F := F)).Otc d n) W) ∗ tcRest (F := F) d n) := by
  unfold SparseCore.Cfg.tcSt tcRest; rfl

omit [FloatOps F] in
theorem Otc_none (d : Dev nD) (n : ℕ) (g : GSem nD τ sig) : (K (F := F)).Otc d n g none = 0 := by
  by_contra h
  have := (K (F := F)).lev_of_Otc_pos (d := d) (n := n) (g := g) (ι := none) (Nat.pos_of_ne_zero h)
  rw [SparseCore.Cfg.lev_none] at this
  omega

/-- The TensorCore's arrays as the pipeline's rule reads them: the launch contents, but the reshaped bias. -/
def Vreg (d : Dev nD) : (r : Ref sig .tc) → Buf (Elt F) ((SparseCore.T d : Thread nD τ).loc r) :=
  Function.update (fun r => m ((SparseCore.T d : Thread nD τ).loc r)) main_v2 (flatOf d main_arg5 main_v2 rfl shapeCasts_S128_S1x128 (m (argLoc d main_arg5)))

theorem hmain (uR : UR) (hreg : RegionRule (F := F) teV tpV uR) (κ : GSem nD τ sig → ℕ) (d : Dev nD) :
    iprop((K (F := F)).ctx EH (P (valsOf m teV tpV)) κ ∗ (K (F := F)).tcSt EH d 0 ∗ (K (F := F)).tcRes m ρ d ∗ G0 (F := F) uR d)
      ⊢ wp frame (wpE ((K (F := F)).defs (D (F := F))) 𝒱 (SparseCore.T d) none) Set.univ (main d)
          fun _ => iprop((K (F := F)).tcSt EH d 1 ∗ FIN m (resOf m teV tpV) d) := by
  have hV2 : Vreg m d main_arg2 = m (argLoc d main_arg2) := Function.update_of_ne (by decide) _ _
  have hV3 : Vreg m d main_arg3 = m (argLoc d main_arg3) := Function.update_of_ne (by decide) _ _
  have hV4 : Vreg m d main_arg4 = m (argLoc d main_arg4) := Function.update_of_ne (by decide) _ _
  have hVte : Vreg m d main_v3_0 = m (argLoc d main_v3_0) := Function.update_of_ne (by decide) _ _
  have hVtp : Vreg m d main_v3_1 = m (argLoc d main_v3_1) := Function.update_of_ne (by decide) _ _
  have hVb : Vreg m d main_v2 = flatOf d main_arg5 main_v2 rfl shapeCasts_S128_S1x128 (m (argLoc d main_arg5)) := Function.update_self _ _ _
  unfold SparseCore.Cfg.tcRes G0
  rw [unscopedBufs_eq, tcSt_eq]
  simp only [main, wp_bind, wp_pure]
  iintro ⟨#Hctx, ⟨HW, Hst⟩, ⟨Hb, ⟨H0, H1, H2, H3, H4, H5, Hv0, Hv1, Hv2, Hte, Htp, Hv4, Hv5⟩, -, -⟩, HG⟩
  -- the ids, flat
  iapply (reshape_step ((K (F := F)).defs (D (F := F))) 𝒱 d none Set.univ main_arg0 main_v0 (by decide) rfl shapeCasts_S4096x200_S819200 ⟨by decide, rfl⟩ ⟨by decide, rfl⟩ (fun b => m (d, b)) _ _ _ _)
  isplitl [Hb]; · iexact Hb
  isplitl [H0]; · iexact H0
  isplitl [Hv0]; · iexact Hv0
  iintro ⟨Hb, H0, Hv0⟩ %_
  rw [wp_ret]; imodintro
  iapply (reshape_step ((K (F := F)).defs (D (F := F))) 𝒱 d none Set.univ main_arg1 main_v1 (by decide) rfl shapeCasts_S4096x200_S819200 ⟨by decide, rfl⟩ ⟨by decide, rfl⟩ (fun b => m (d, b)) _ _ _ _)
  isplitl [Hb]; · iexact Hb
  isplitl [H1]; · iexact H1
  isplitl [Hv1]; · iexact Hv1
  iintro ⟨Hb, H1, Hv1⟩ %_
  rw [wp_ret]; imodintro
  -- the bias as a one-row matrix
  iapply (reshape_step ((K (F := F)).defs (D (F := F))) 𝒱 d none Set.univ main_arg5 main_v2 (by decide) rfl shapeCasts_S128_S1x128 ⟨by decide, rfl⟩ ⟨by decide, rfl⟩ (fun b => m (d, b)) _ _ _ _)
  isplitl [Hb]; · iexact Hb
  isplitl [H5]; · iexact H5
  isplitl [Hv2]; · iexact Hv2
  iintro ⟨Hb, H5, Hv2⟩ %_
  rw [wp_ret]; imodintro
  -- the TensorCore pipeline: the two transformed tables
  imod (hreg.1 d) $$ HG with ⟨Hcg, Htk⟩
  ihave Hlev := (SparseCore.Cfg.ctx_levAts κ) $$ Hctx
  have hr := hreg.2 d ((K (F := F)).Otc d 0) (Otc_none d 0) (8 * 0) (Vreg m d)
  rw [hV2, hV3, hV4, hVte, hVtp, hVb] at hr
  ihave Hwp := hr $$ [Hlev Hb Hcg Htk HW H2 H3 H4 Hv2 Hte Htp]
  · isplitl [Hlev]; · iexact Hlev
    isplitl [Hb]; · iexact Hb
    isplitl [Hcg]; · iexact Hcg
    isplitl [Htk]; · iexact Htk
    isplitl [HW]; · iexact HW
    isplitl [H2]; · iexact H2
    isplitl [H3]; · iexact H3
    isplitl [H4]; · iexact H4
    isplitl [Hv2]; · iexact Hv2
    isplitl [Hte]; · iexact Hte
    iexact Htp
  iapply (wp_wand_r frame (wpE ((K (F := F)).defs (D (F := F))) 𝒱 (SparseCore.T d) none) Set.univ)
  isplitl [Hwp]; · iexact Hwp
  iintro %_ ⟨Hb, HW, H2, H3, H4, Hv2, Hte, Htp⟩
  -- the SparseCore call
  ihave Hpre := (call_pre (valsOf m teV tpV) d) $$ [Hte Htp Hv0 Hv1 Hv4]
  · isplitl [Hte Htp Hv0 Hv1]
    · isplitl [Hte]; · iexact Hte
      isplitl [Htp]; · iexact Htp
      isplitl [Hv0]; · iexact Hv0
      iexact Hv1
    · iexact Hv4
  icases Hpre with ⟨Hdrop, Hcall⟩
  iapply ((K (F := F)).wp_run (D (F := F)) 𝒱 (EH := EH) (P := P (valsOf m teV tpV)) κ d 0)
  isplitr; · iexact Hctx
  isplitl [HW Hst]
  · rw [tcSt_eq]; isplitl [HW]; · iexact HW
    iexact Hst
  isplitl [Hcall]; · iexact Hcall
  iintro ⟨Hst, Hdn⟩
  ihave Hpost := (call_post (valsOf m teV tpV) d) $$ [Hdrop Hdn]
  · isplitl [Hdrop] <;> iassumption
  icases Hpost with ⟨⟨Hte, Htp, Hv0, Hv1⟩, Hv4⟩
  -- the result at its shape
  iapply (reshape_step ((K (F := F)).defs (D (F := F))) 𝒱 d none Set.univ main_v4 main_v5 (by decide) rfl shapeCasts_S819200x128_S4096x200x128 ⟨by decide, rfl⟩ ⟨by decide, rfl⟩ (fun b => m (d, b)) _ _ _ _)
  isplitl [Hb]; · iexact Hb
  isplitl [Hv4]; · iexact Hv4
  isplitl [Hv5]; · iexact Hv5
  iintro ⟨Hb, Hv4, Hv5⟩ %_
  rw [wp_ret]; imodintro; imodintro
  isplitl [Hst]; · iexact Hst
  unfold FIN
  isplitl [Hv5]; · iexact Hv5
  isplitl [H0]; · iexact H0
  isplitl [H1]; · iexact H1
  isplitl [H2]; · iexact H2
  isplitl [H3]; · iexact H3
  isplitl [H4]; · iexact H4
  iexact H5

end Main2

end Cert.Kernel.Run

end
-- ==== Proof.TcDatBits.lean ====
/-
  The TensorCore call of the program: the values it computes and the proof data of its pipeline.

  The call runs one body over a grid of 50 points. Point `t` sees rows [2000 t, 2000 (t + 1)) of the element table, the
  whole property table, the whole 128 × 128 weight matrix and the bias row. It multiplies the element rows by the left
  half of the weight matrix (columns [0, 64)) and stores the 2000 × 128 product; at point 0 only it also multiplies the
  property table by the right half (columns [64, 128)), adds the bias row to every row, and stores the 1000 × 128
  result, which stays in its staging buffer until the last point writes it back.
-/
import proofs.«204385_g66649302499670_cont_9to1c4b_43_34_alg».proof.Proof.SetupBits
import proofs.«204385_g66649302499670_cont_9to1c4b_43_34_alg».proof.Proof.Gen.Kernel.Launch
import proofs.«204385_g66649302499670_cont_9to1c4b_43_34_alg».proof.Proof.Gen.Kernel.Skeleton
import proofs.«204385_g66649302499670_cont_9to1c4b_43_34_alg».proof.Proof.Gen.Kernel.Points
import Idealize.ShloMosaic.Lib.Pipeline.FrameBody
import Idealize.ShloMosaic.Lib.Pipeline.TableIdle
import Idealize.ShloMosaic.Lib.Pipeline.Regions
import Idealize.ShloMosaic.Lib.ValueIdx
import Idealize.ShloMosaic.Lib.Tactic

set_option maxRecDepth 16384

noncomputable section

namespace Cert.Kernel.Run.Tc

open Cert.Kernel Cert.Kernel.Gen Cert.Kernel.Run
open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The values -/

/-- A rank-2 offset of zeros, however it is spelt. -/
theorem zero2 : (![0, 0] : Fin 2 → Nat) = fun _ => 0 := funext fun a => by fin_cases a <;> rfl

/-- The left half of the weight matrix: columns [0, 64), as the body's first load reads it. -/
def wLeft (w : Vec F S128x128 .f32) : Vec F S128x64 .f32 :=
  View.ld w (Rect.unit (s := S128x128) ![0, 0] S128x64.size inb_S128x128_S128x64_0_0)

/-- The right half: columns [64, 128), as the load under the condition reads it. -/
def wRight (w : Vec F S128x128 .f32) : Vec F S128x64 .f32 :=
  View.ld w (Rect.unit (s := S128x128) ![0, 64] S128x64.size inb_S128x128_S128x64_0_64)

/-- Rows [2000 t, 2000 (t + 1)) of the element table. -/
def eRows (etab : Vec F S100000x64 .f32) (t : Fin 50) : Vec F S2000x64 .f32 :=
  fun j => etab (ix2 (⟨2000 * t.val + (j 0).val, by have := idx2_lt0 j; have := t.isLt; omega⟩ : Fin 100000) (j 1))

/-- The transformed element table: row `i` is row `i % 2000` of the product of rows-block `i / 2000` of the element
    table with the left half of the weight matrix. -/
def teVal (etab : Vec F S100000x64 .f32) (w : Vec F S128x128 .f32) : Vec F S100000x128 .f32 :=
  fun i => k0_pay1 (wLeft w) (eRows etab ⟨(i 0).val / 2000, by have := idx2_lt0 i; omega⟩)
    (ix2 (⟨(i 0).val % 2000, Nat.mod_lt _ (by decide)⟩ : Fin 2000) (i 1))

/-- The transformed property table: the property table times the right half of the weight matrix, plus the bias row. -/
def tpVal (ptab : Vec F S1000x64 .f32) (w : Vec F S128x128 .f32) (b2 : Vec F S1x128 .f32) : Vec F S1000x128 .f32 :=
  k0_pay2 (wRight w) ptab b2

/-! ## The proof data -/

/-- No prefetched table. -/
abbrev adm : (p : Fin 1) → (pcfgs (F := F) p).Adm := fun p => (cfgs p).toPCfg_adm

/-- The condition under which the body computes the property half holds at the first point only. -/
theorem hcond : ∀ t : Fin cfg0.N, k0_cond1 (grid0.coords t) = 1#1 ↔ t.val = 0 :=
  (by decide +kernel : ∀ t : Fin grid0.N, k0_cond1 (grid0.coords t) = 1#1 ↔ t.val = 0)

/-- The first point. -/
abbrev t0 : Fin cfg0.N := ⟨0, by decide⟩

section Data

variable (d : Dev nD) (Vv : (r : Ref sig .tc) → Buf (Elt F) ((d : Thread nD τ).loc r))

/-- Window `w`'s block at point `t`, read off its array. -/
def blk (w : Fin cfg0.W) (t : Fin cfg0.N) : ((cfg0.win w).xblock (cfg0.grid.coords t)).Idx → Elt F (cfg0.win w).elt :=
  ((cfg0.win w).blk t).view.read (Elt F) (Vv (Pipeline.arrRef spec0 w))

/-- What the body stores into the first output's block at point `t`. -/
def out4 (t : Fin cfg0.N) : Vec F S2000x128 .f32 := k0_pay1 (wLeft (blk d Vv 2 t)) (blk d Vv 0 t)

/-- What the body stores into the second output's block, at the first point. -/
def out5 : Vec F S1000x128 .f32 := k0_pay2 (wRight (blk d Vv 2 t0)) (blk d Vv 1 t0) (blk d Vv 3 t0)

variable (O : CellTallies nD τ sig (HIx 1)) (b : ℕ)

/-- The proof data of the pipeline on device `d`: the arrays at their entry contents; after the body each input's
    buffer at its block and each output's at the stored product; no invariant of the body's own; the thread owes the
    same tallies throughout, and its recorded waits stay at levels at most `b`. -/
def tdat (_ : Fin 1) : Dat τ (Elt F) (HIx 1) ℕ UU ℕ cfg0 d where
  A w := Vv (Pipeline.arrRef spec0 w)
  after w t := match w with
    | ⟨0, _⟩ => blk d Vv 0 t
    | ⟨1, _⟩ => blk d Vv 1 t
    | ⟨2, _⟩ => blk d Vv 2 t
    | ⟨3, _⟩ => blk d Vv 3 t
    | ⟨4, _⟩ => out4 d Vv t
    | ⟨5, _⟩ => out5 d Vv
  Φ _ := BI.emp
  q _ := fullShare
  owed _ := O
  recorded _ := {p | (K (F := F)).lev ((d : Thread nD τ), p.1) p.2 ≤ b}

theorem A_eq (w : Fin cfg0.W) : (tdat d Vv O b 0).A w = Vv (Pipeline.arrRef spec0 w) := by dsimp only [tdat]
theorem after_0 (t : Fin cfg0.N) : (tdat d Vv O b 0).after 0 t = blk d Vv 0 t := by dsimp only [tdat]
theorem after_1 (t : Fin cfg0.N) : (tdat d Vv O b 0).after 1 t = blk d Vv 1 t := by dsimp only [tdat]
theorem after_2 (t : Fin cfg0.N) : (tdat d Vv O b 0).after 2 t = blk d Vv 2 t := by dsimp only [tdat]
theorem after_3 (t : Fin cfg0.N) : (tdat d Vv O b 0).after 3 t = blk d Vv 3 t := by dsimp only [tdat]
theorem after_4 (t : Fin cfg0.N) : (tdat d Vv O b 0).after 4 t = out4 d Vv t := by dsimp only [tdat]
theorem after_5 (t : Fin cfg0.N) : (tdat d Vv O b 0).after 5 t = out5 d Vv := by dsimp only [tdat]

/-- Each input's current staging buffer holds its block at every point, fetched there or not. -/
theorem before_0 (t : Fin cfg0.N) (x) : (tdat d Vv O b 0).before 0 t x = blk d Vv 0 t :=
  ((tdat d Vv O b 0).before_in_eq_fetched 0 rfl (fun _ => rfl) (fun _ _ _ => rfl)
    (fun t => by rw [after_0]; unfold Dat.blockOf blk; rw [A_eq]; try rfl) t x).trans
    (by unfold Dat.fetched Dat.blockOf blk; rw [A_eq]; try rfl)
theorem before_1 (t : Fin cfg0.N) (x) : (tdat d Vv O b 0).before 1 t x = blk d Vv 1 t :=
  ((tdat d Vv O b 0).before_in_eq_fetched 1 rfl (fun _ => rfl) (fun _ _ _ => rfl)
    (fun t => by rw [after_1]; unfold Dat.blockOf blk; rw [A_eq]; try rfl) t x).trans
    (by unfold Dat.fetched Dat.blockOf blk; rw [A_eq]; try rfl)
theorem before_2 (t : Fin cfg0.N) (x) : (tdat d Vv O b 0).before 2 t x = blk d Vv 2 t :=
  ((tdat d Vv O b 0).before_in_eq_fetched 2 rfl (fun _ => rfl) (fun _ _ _ => rfl)
    (fun t => by rw [after_2]; unfold Dat.blockOf blk; rw [A_eq]; try rfl) t x).trans
    (by unfold Dat.fetched Dat.blockOf blk; rw [A_eq]; try rfl)
theorem before_3 (t : Fin cfg0.N) (x) : (tdat d Vv O b 0).before 3 t x = blk d Vv 3 t :=
  ((tdat d Vv O b 0).before_in_eq_fetched 3 rfl (fun _ => rfl) (fun _ _ _ => rfl)
    (fun t => by rw [after_3]; unfold Dat.blockOf blk; rw [A_eq]; try rfl) t x).trans
    (by unfold Dat.fetched Dat.blockOf blk; rw [A_eq]; try rfl)

/-- The second output's staging buffer is fetched at no point. -/
theorem fetch_5 (t : Fin cfg0.N) : (cfg0.win 5).fetch t = false := (cfg0.win 5).fetch_out rfl t

/-- The body stores into the second output at the first point, -/
theorem idle_5_first (t : Fin cfg0.N) (ht : t.val = 0) : cfg0.idle 5 (cfg0.grid.coords t) = false := by
  show (!(k0_cond1 (grid0.coords t) == 1#1)) = false
  rw [(hcond t).mpr ht]; rfl

/-- and at no other. -/
theorem idle_5_later (t : Fin cfg0.N) (ht : t.val ≠ 0) : cfg0.idle 5 (cfg0.grid.coords t) = true := by
  show (!(k0_cond1 (grid0.coords t) == 1#1)) = true
  have h := (hcond t).not.mpr ht
  simpa using h

/-- The second output's block is written back at the last point only. -/
theorem flush_5_false (t : Fin cfg0.N) (ht : t.val ≠ 49) : (cfg0.win 5).flush t = false :=
  Bool.eq_false_iff.mpr fun h => by
    have h' := (flush0_5 t).mp h
    have hN : t.val < 50 := lt_of_lt_of_eq t.isLt N_0
    omega

/-- At the second point the second output's buffer holds what the first point stored: nothing wrote it back, and the
    window's blocks are whole. -/
theorem before_5_one (t1 : Fin cfg0.N) (h1 : t1.val = 1) (x) : (tdat d Vv O b 0).before 5 t1 x = out5 d Vv := by
  rw [(tdat d Vv O b 0).before_of_pos 5 t1 (by omega) (fetch_5 t1) x,
    flush_5_false ⟨t1.val - 1, Nat.lt_of_le_of_lt (Nat.sub_le _ _) t1.isLt⟩ (by show t1.val - 1 ≠ 49; omega), if_neg Bool.false_ne_true]
  unfold Dat.left
  rw [idle_5_first ⟨t1.val - 1, Nat.lt_of_le_of_lt (Nat.sub_le _ _) t1.isLt⟩ (by show t1.val - 1 = 0; omega)]
  unfold Dat.kept
  exact ((Pipeline.fill_of_clip_none (cfg := cfg0) (5 : Fin cfg0.W) _ (fun _ => rfl) x ((tdat d Vv O b 0).after 5 _) _).trans
    ((cfg0.win 5).fill_cut _ _)).trans (after_5 d Vv O b _)

/-- At every later point the second output's buffer still holds what the first point stored: the points between store
    nothing into it and do not write it back. -/
theorem before_5 (t : Fin cfg0.N) (ht : t.val ≠ 0) (x) : (tdat d Vv O b 0).before 5 t x = out5 d Vv := by
  have hN : t.val < 50 := lt_of_lt_of_eq t.isLt N_0
  rw [(tdat d Vv O b 0).before_idle_run 5 fetch_5 x (t.val - 1) t (Nat.sub_le _ _)
    (fun j h1 h2 => ⟨idle_5_later j (by omega), flush_5_false j (by omega)⟩)]
  exact before_5_one d Vv O b _ (by show t.val - (t.val - 1) = 1; omega) x

end Data

end Cert.Kernel.Run.Tc

end
-- ==== Proof.TcBodyBits.lean ====
/-
  The body of the TensorCore call, once, at a symbolic grid point.

  On whole staging buffers the body loads the left half of the weight block and the element block, and stores their
  product over the whole first output block; where its condition holds (the first grid point) it also loads the right
  half, the property block and the bias block, and stores the product plus the bias over the whole second output block.
  Elsewhere the second output's buffer is left as it was found: it still holds what the first point stored, which the
  last point writes back.
-/
import proofs.«204385_g66649302499670_cont_9to1c4b_43_34_alg».proof.Proof.TcDatBits
import Idealize.ShloMosaic.Lib.Pipeline.Value

set_option maxRecDepth 16384

noncomputable section

namespace Cert.Kernel.Run.Tc

open Cert.Kernel Cert.Kernel.Gen Cert.Kernel.Run
open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The body on any whole staging memrefs -/

/-- A load through the whole-buffer rectangle of a buffer whose contents read `X` reads `X`. -/
theorem readAt_whole {sh : Shape} {e : EltTy} (c : Thread nD τ) (m : Memref sig c.2.kind .vmem sh e) (hm : m.IsWhole)
    (X : sh.Idx → Elt F e) {off : Fin sh.rank → Nat} (h : off = fun _ => 0) (inb : ∀ a, off a + sh.size a ≤ sh.size a) :
    m.view.readAt (Elt F) (Rect.unit off sh.size inb).toLoadRect (hm.unread X) = X := by
  rw [View.readAt_eq_ld, hm.read_unread, View.ld_unit_zero h]

/-- One store through the whole-buffer rectangle leaves its payload, whatever the buffer held. -/
theorem read_store_whole {sh : Shape} {e : EltTy} (c : Thread nD τ) (m : Memref sig c.2.kind .vmem sh e)
    (f : m.view.ty.Contents (Elt F)) (Y : sh.Idx → Elt F e) {off : Fin sh.rank → Nat} (h : off = fun _ => 0)
    (inb : ∀ a, off a + sh.size a ≤ sh.size a) :
    m.view.read (Elt F) (m.view.writes (Elt F) f [⟨Rect.unit off sh.size inb, Y⟩]) = Y :=
  (View.read_writes_eq_canon _ _ _ fun y => ⟨_, List.mem_singleton_self _, View.mem_set_unit_zero h inb y⟩).trans
    (View.canon_unit_zero h inb Y)

/-- WHERE THE CONDITION HOLDS: from the four input blocks and the two output buffers at anything, the body leaves the
    inputs as they were, the first output at the element block times the left half of the weight block, the second at
    the property block times the right half plus the bias block. -/
theorem run_first (c : Dev nD) (i : grid0.Coords)
    (arg1 : Memref sig .tc .vmem S2000x64 .f32) (harg1 : arg1.IsWhole) (arg2 : Memref sig .tc .vmem S1000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole) (arg6 : Memref sig .tc .vmem S1000x128 .f32) (harg6 : arg6.IsWhole)
    (hc : k0_cond1 i = 1#1)
    (x1 : Vec F S2000x64 .f32) (x2 : Vec F S1000x64 .f32) (x3 : Vec F S128x128 .f32) (x4 : Vec F S1x128 .f32) (Q : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ y, owns (c : Thread nD τ) arg5 fullShare y) ∗ (∃ y, owns (c : Thread nD τ) arg6 fullShare y)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay1 (wLeft x3) x1)
            ∗ owns (c : Thread nD τ) arg6 fullShare (k0_pay2 (wRight x3) x2 x4)) -∗ Q ⟨⟩))
      ⊢ wp frame (wpE (defs₀ (F := F)) Variants.none c none) Set.univ
          (cc0__transform_body i arg1 harg1 arg2 harg2 arg3 harg3 arg4 harg4 arg5 harg5 arg6 harg6) Q := by
  simp only [cc0__transform_body_eq_skeleton]; unfold cc0__transform_body_skel
  unfold owns
  iintro ⟨⟨%f1, %hf1, H1⟩, ⟨%f2, %hf2, H2⟩, ⟨%f3, %hf3, H3⟩, ⟨%f4, %hf4, H4⟩, ⟨%y5, %f5, -, H5⟩, ⟨%y6, %f6, -, H6⟩, Hk⟩
  obtain rfl := harg1.eq_unread hf1
  obtain rfl := harg2.eq_unread hf2
  obtain rfl := harg3.eq_unread hf3
  obtain rfl := harg4.eq_unread hf4
  sl_exec (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    rw [read_store_whole (c : Thread nD τ) arg5 f5 _ zero2]
    rw [readAt_whole (c : Thread nD τ) arg1 harg1 x1 zero2, View.readAt_eq_ld, harg3.read_unread]; rfl
  · iexists _; isplitr; swap; · iexact H6
    ipureintro
    rw [read_store_whole (c : Thread nD τ) arg6 f6 _ zero2]
    rw [readAt_whole (c : Thread nD τ) arg2 harg2 x2 zero2, readAt_whole (c : Thread nD τ) arg4 harg4 x4 zero2, View.readAt_eq_ld, harg3.read_unread]; rfl

/-- WHERE IT FAILS: the body reads the weight block and the element block and stores their product over the first
    output; it touches nothing else. -/
theorem run_rest (c : Dev nD) (i : grid0.Coords)
    (arg1 : Memref sig .tc .vmem S2000x64 .f32) (harg1 : arg1.IsWhole) (arg2 : Memref sig .tc .vmem S1000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole) (arg6 : Memref sig .tc .vmem S1000x128 .f32) (harg6 : arg6.IsWhole)
    (hc : ¬ k0_cond1 i = 1#1)
    (x1 : Vec F S2000x64 .f32) (x3 : Vec F S128x128 .f32) (Q : PUnit → sProp 𝕄) :
    iprop(owns (c : Thread nD τ) arg1 fullShare x1 ∗ owns (c : Thread nD τ) arg3 fullShare x3 ∗ (∃ y, owns (c : Thread nD τ) arg5 fullShare y)
        ∗ (iprop(owns (c : Thread nD τ) arg1 fullShare x1 ∗ owns (c : Thread nD τ) arg3 fullShare x3
            ∗ owns (c : Thread nD τ) arg5 fullShare (k0_pay1 (wLeft x3) x1)) -∗ Q ⟨⟩))
      ⊢ wp frame (wpE (defs₀ (F := F)) Variants.none c none) Set.univ
          (cc0__transform_body i arg1 harg1 arg2 harg2 arg3 harg3 arg4 harg4 arg5 harg5 arg6 harg6) Q := by
  simp only [cc0__transform_body_eq_skeleton]; unfold cc0__transform_body_skel
  unfold owns
  iintro ⟨⟨%f1, %hf1, H1⟩, ⟨%f3, %hf3, H3⟩, ⟨%y5, %f5, -, H5⟩, Hk⟩
  obtain rfl := harg1.eq_unread hf1
  obtain rfl := harg3.eq_unread hf3
  sl_exec (disch := first | exact hc)
  sl_step
  iapply Hk
  isplitl [H1]
  · iexists _; isplitr; · ipureintro; exact hf1
    iexact H1
  isplitl [H3]
  · iexists _; isplitr; · ipureintro; exact hf3
    iexact H3
  iexists _; isplitr; swap; · iexact H5
  ipureintro
  rw [read_store_whole (c : Thread nD τ) arg5 f5 _ zero2]
  rw [readAt_whole (c : Thread nD τ) arg1 harg1 x1 zero2, View.readAt_eq_ld, harg3.read_unread]; rfl

/-! ## The body obligation, at a generic point -/

section Obligation

variable (d : Dev nD) (Vv : (r : Ref sig .tc) → Buf (Elt F) ((d : Thread nD τ).loc r)) (O : CellTallies nD τ sig (HIx 1)) (b : ℕ)

/-- Each window's current staging memref at point `t`, as the pipeline passes it to the body. -/
abbrev ms_0 (t : Fin cfg0.N) : Memref sig .tc .vmem S2000x64 .f32 := win0_0.stage (cfg0.slots t 0)
abbrev ms_1 (t : Fin cfg0.N) : Memref sig .tc .vmem S1000x64 .f32 := win0_1.stage (cfg0.slots t 1)
abbrev ms_2 (t : Fin cfg0.N) : Memref sig .tc .vmem S128x128 .f32 := win0_2.stage (cfg0.slots t 2)
abbrev ms_3 (t : Fin cfg0.N) : Memref sig .tc .vmem S1x128 .f32 := win0_3.stage (cfg0.slots t 3)
abbrev ms_4 (t : Fin cfg0.N) : Memref sig .tc .vmem S2000x128 .f32 := win0_4.stage (cfg0.slots t 4)
abbrev ms_5 (t : Fin cfg0.N) : Memref sig .tc .vmem S1000x128 .f32 := win0_5.stage (cfg0.slots t 5)

/-- What the body is called with at point `t`, the windows one by one, -/
def bodyPre (t : Fin cfg0.N) : sProp 𝕄 :=
  iprop((tdat d Vv O b 0).Φ t.castSucc ∗ (tdat d Vv O b 0).owesAt none t.castSucc
    ∗ (∃ x, owns (d : Thread nD τ) (ms_0 t) fullShare ((tdat d Vv O b 0).before 0 t x))
    ∗ (∃ x, owns (d : Thread nD τ) (ms_1 t) fullShare ((tdat d Vv O b 0).before 1 t x))
    ∗ (∃ x, owns (d : Thread nD τ) (ms_2 t) fullShare ((tdat d Vv O b 0).before 2 t x))
    ∗ (∃ x, owns (d : Thread nD τ) (ms_3 t) fullShare ((tdat d Vv O b 0).before 3 t x))
    ∗ (∃ x, owns (d : Thread nD τ) (ms_4 t) fullShare ((tdat d Vv O b 0).before 4 t x))
    ∗ (∃ x, owns (d : Thread nD τ) (ms_5 t) fullShare ((tdat d Vv O b 0).before 5 t x)))

/-- and what it returns: every buffer at what the proof data names; the second output's, where the body stores nothing
    into it and the point does not write it back, as it was found. -/
def bodyPost (t : Fin cfg0.N) : sProp 𝕄 :=
  iprop((tdat d Vv O b 0).Φ t.succ ∗ (tdat d Vv O b 0).owesAt none t.succ
    ∗ owns (d : Thread nD τ) (ms_0 t) fullShare ((tdat d Vv O b 0).after 0 t)
    ∗ owns (d : Thread nD τ) (ms_1 t) fullShare ((tdat d Vv O b 0).after 1 t)
    ∗ owns (d : Thread nD τ) (ms_2 t) fullShare ((tdat d Vv O b 0).after 2 t)
    ∗ owns (d : Thread nD τ) (ms_3 t) fullShare ((tdat d Vv O b 0).after 3 t)
    ∗ owns (d : Thread nD τ) (ms_4 t) fullShare ((tdat d Vv O b 0).after 4 t)
    ∗ (tdat d Vv O b 0).leavesExact 5 t)

/-- The second output's post where the body stores into it, -/
theorem leaves5_live (t : Fin cfg0.N) (hi : cfg0.idle 5 (cfg0.grid.coords t) = false) :
    (tdat d Vv O b 0).leavesExact 5 t = owns (d : Thread nD τ) ((cfg0.win 5).stage (cfg0.slots t 5)) fullShare ((tdat d Vv O b 0).after 5 t) := by
  unfold Dat.leavesExact; rw [hi]

/-- and where it does not but the point writes the block back. -/
theorem leaves5_last (t : Fin cfg0.N) (hi : cfg0.idle 5 (cfg0.grid.coords t) = true) (hf : (cfg0.win 5).flush t = true) :
    (tdat d Vv O b 0).leavesExact 5 t = owns (d : Thread nD τ) ((cfg0.win 5).stage (cfg0.slots t 5)) fullShare ((tdat d Vv O b 0).after 5 t) := by
  unfold Dat.leavesExact; rw [hi, hf]

set_option maxHeartbeats 800000 in
/-- The body at any point: the inputs' buffers hold their blocks; the condition holds at the first point only, where both
    products are stored; at a later point the second output's buffer holds what the first point stored and is not
    touched, which is what the last point hands to its write-back. The thread's debts pass through unread. -/
theorem sound_body (t : Fin cfg0.N) :
    bodyPre d Vv O b t ⊢ wp frame (wpE (defs₀ (F := F)) Variants.none (d : Thread nD τ) none) Set.univ (bodyAt0 t) (fun _ => bodyPost d Vv O b t) := by
  unfold bodyPre bodyPost bodyAt0
  simp only [before_0, before_1, before_2, before_3]
  rw [show (tdat d Vv O b 0).Φ t.succ = (tdat d Vv O b 0).Φ t.castSucc from rfl,
    show (tdat d Vv O b 0).owesAt none t.succ = (tdat d Vv O b 0).owesAt none t.castSucc from rfl,
    after_0, after_1, after_2, after_3, after_4]
  have hN : t.val < 50 := lt_of_lt_of_eq t.isLt N_0
  by_cases h0 : t.val = 0
  · -- the first point: both products
    obtain rfl : t = t0 := Fin.ext h0
    rw [leaves5_live d Vv O b t0 (idle_5_first t0 rfl), after_5]
    unfold out4 out5
    iintro ⟨HΦ, Ho, ⟨%y0, H0⟩, ⟨%y1, H1⟩, ⟨%y2, H2⟩, ⟨%y3, H3⟩, ⟨%y4, H4⟩, ⟨%y5, H5⟩⟩
    iapply (run_first d (grid0.coords t0) _ _ _ _ _ _ _ _ _ _ _ _ ((hcond t0).mpr rfl) (blk d Vv 0 t0) (blk d Vv 1 t0) (blk d Vv 2 t0) (blk d Vv 3 t0) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have hc : ¬ k0_cond1 (grid0.coords t) = 1#1 := fun h => h0 ((hcond t).mp h)
    by_cases h49 : t.val = 49
    · -- the last point: the second output's buffer, untouched since the first point, goes to the write-back
      rw [leaves5_last d Vv O b t (idle_5_later t h0) ((flush0_5 t).mpr (by omega)), after_5]
      simp only [before_5 d Vv O b t h0]
      unfold out4
      iintro ⟨HΦ, Ho, ⟨%y0, H0⟩, ⟨%y1, H1⟩, ⟨%y2, H2⟩, ⟨%y3, H3⟩, ⟨%y4, H4⟩, ⟨%y5, H5⟩⟩
      iapply (run_rest d (grid0.coords t) _ _ _ _ _ _ _ _ _ _ _ _ hc (blk d Vv 0 t) (blk d Vv 2 t) _)
      isplitl [H0]; · iexact H0
      isplitl [H2]; · iexact H2
      isplitl [H4]; · iexists _; iexact H4
      iintro ⟨H0, H2, H4⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · -- a point between: the second output's buffer is handed back as found
      rw [Dat.leavesExact_idle _ 5 t (idle_5_later t h0) (flush_5_false t h49)]
      unfold out4
      iintro ⟨HΦ, Ho, ⟨%y0, H0⟩, ⟨%y1, H1⟩, ⟨%y2, H2⟩, ⟨%y3, H3⟩, ⟨%y4, H4⟩, ⟨%y5, H5⟩⟩
      iapply (run_rest d (grid0.coords t) _ _ _ _ _ _ _ _ _ _ _ _ hc (blk d Vv 0 t) (blk d Vv 2 t) _)
      isplitl [H0]; · iexact H0
      isplitl [H2]; · iexact H2
      isplitl [H4]; · iexists _; iexact H4
      iintro ⟨H0, H2, H4⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation : BodyObligation (tdat d Vv O b 0) (defs₀ (F := F)) Variants.none none Set.univ := fun t => by
  rw [bigSep_W0, bigSep_W0]
  exact sound_body d Vv O b t

end Obligation

end Cert.Kernel.Run.Tc

end
-- ==== Proof.TcValueBits.lean ====
/-
  From blocks to arrays: what the two result arrays of the TensorCore call hold after the run.

  The first result's block at point `t` is rows [2000 t, 2000 (t + 1)); these 50 blocks tile the array, and what point
  `t` writes back is those rows of the transformed element table. The second result has one block, the whole array,
  written back at the last point with what the first point stored. The four inputs are never written.
-/
import proofs.«204385_g66649302499670_cont_9to1c4b_43_34_alg».proof.Proof.TcDatBits
import Idealize.ShloMosaic.Lib.Pipeline.Value

set_option maxRecDepth 16384

noncomputable section

namespace Cert.Kernel.Run.Tc

open Cert.Kernel Cert.Kernel.Gen Cert.Kernel.Run
open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The values at an index -/

/-- Row `2000 t + r` of the transformed element table is row `r` of the product for rows-block `t`. -/
theorem teVal_at (etab : Vec F S100000x64 .f32) (w : Vec F S128x128 .f32) (t : Fin 50) (j : S2000x128.Idx) (i : S100000x128.Idx)
    (h0 : (i 0).val = 2000 * t.val + (j 0).val) (h1 : (i 1).val = (j 1).val) :
    teVal etab w i = k0_pay1 (wLeft w) (eRows etab t) j := by
  have hj : (j 0).val < 2000 := idx2_lt0 j
  have ht : t.val < 50 := t.isLt
  unfold teVal
  have e1 : (⟨(i 0).val / 2000, by have := idx2_lt0 i; omega⟩ : Fin 50) = t := Fin.ext (by show (i 0).val / 2000 = t.val; omega)
  have e2 : (ix2 (⟨(i 0).val % 2000, Nat.mod_lt _ (by decide)⟩ : Fin 2000) (i 1) : S2000x128.Idx) = j := by
    funext a
    match a with
    | ⟨0, _⟩ => exact Fin.ext (show (i 0).val % 2000 = (j 0).val by omega)
    | ⟨1, _⟩ => exact Fin.ext h1
  rw [e1, e2]

/-! ## The windows' blocks -/

/-- The printed index maps over the grid: the element table's and the first result's blocks move with the point, every
    other window stays on its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

section Blocks

variable (d : Dev nD) (Vv : (r : Ref sig .tc) → Buf (Elt F) ((d : Thread nD τ).loc r)) (O : CellTallies nD τ sig (HIx 1)) (b : ℕ)

/-- The element table's block at point `t` is its rows [2000 t, 2000 (t + 1)). -/
theorem blk0_eq (t : Fin cfg0.N) :
    (blk d Vv 0 t : Vec F S2000x64 .f32) = eRows (Vv main_arg2 : Vec F S100000x64 .f32) ⟨t.val, lt_of_lt_of_eq t.isLt N_0⟩ := by
  obtain ⟨e0, e1, -⟩ := idx_facts t
  funext j
  show Vv main_arg2 (((cfg0.win 0).blk t).view.emb j) = Vv main_arg2 _
  refine congrArg (Vv main_arg2) ?_
  funext a; apply Fin.ext
  match a with
  | ⟨0, _⟩ => show win0_0.index t (0 : Fin 2) * 2000 + 1 * (j 0).val = 2000 * t.val + (j 0).val; omega
  | ⟨1, _⟩ => show win0_0.index t (1 : Fin 2) * 64 + 1 * (j 1).val = (j 1).val; omega

/-- The property table's one block is the table. -/
theorem blk1_eq (t : Fin cfg0.N) : (blk d Vv 1 t : Vec F S1000x64 .f32) = (Vv main_arg3 : Vec F S1000x64 .f32) := by
  obtain ⟨-, -, e0, e1, -⟩ := idx_facts t
  funext j
  show Vv main_arg3 (((cfg0.win 1).blk t).view.emb j) = Vv main_arg3 j
  refine congrArg (Vv main_arg3) ?_
  funext a; apply Fin.ext
  match a with
  | ⟨0, _⟩ => show win0_1.index t (0 : Fin 2) * 1000 + 1 * (j 0).val = (j 0).val; omega
  | ⟨1, _⟩ => show win0_1.index t (1 : Fin 2) * 64 + 1 * (j 1).val = (j 1).val; omega

/-- The weight matrix's one block is the matrix. -/
theorem blk2_eq (t : Fin cfg0.N) : (blk d Vv 2 t : Vec F S128x128 .f32) = (Vv main_arg4 : Vec F S128x128 .f32) := by
  obtain ⟨-, -, -, -, e0, e1, -⟩ := idx_facts t
  funext j
  show Vv main_arg4 (((cfg0.win 2).blk t).view.emb j) = Vv main_arg4 j
  refine congrArg (Vv main_arg4) ?_
  funext a; apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- The bias row's one block is the row. -/
theorem blk3_eq (t : Fin cfg0.N) : (blk d Vv 3 t : Vec F S1x128 .f32) = (Vv main_v2 : Vec F S1x128 .f32) := by
  obtain ⟨-, -, -, -, -, -, e0, e1, -⟩ := idx_facts t
  funext j
  show Vv main_v2 (((cfg0.win 3).blk t).view.emb j) = Vv main_v2 j
  refine congrArg (Vv main_v2) ?_
  funext a; apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

/-! ## The first result -/

/-- WHAT POINT `t` WRITES BACK is block `t` of the transformed element table. -/
theorem flushed4_eq (t : Fin cfg0.N) :
    (tdat d Vv O b 0).flushed 4 t = ((cfg0.win 4).blk t).view.read (Elt F) (teVal (Vv main_arg2) (Vv main_arg4)) := by
  show (cfg0.win 4).cut (grid0.coords t) ((tdat d Vv O b 0).after 4 t) = _
  rw [after_4]
  unfold out4
  rw [blk2_eq, blk0_eq]
  obtain ⟨-, -, -, -, -, -, -, -, e0, e1, -⟩ := idx_facts t
  funext j
  refine (teVal_at (Vv main_arg2) (Vv main_arg4) ⟨t.val, lt_of_lt_of_eq t.isLt N_0⟩ j (((cfg0.win 4).blk t).view.emb j) ?_ ?_).symm
  · show win0_4.index t (0 : Fin 2) * 2000 + 1 * (j 0).val = 2000 * t.val + (j 0).val; omega
  · show win0_4.index t (1 : Fin 2) * 128 + 1 * (j 1).val = (j 1).val; omega

/-- An index of the first result is in point `t`'s block iff each coordinate is in the block's range on its axis. -/
theorem mem_blk4 (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v3_0).slice (win0_4.rect t)).set ↔ _
  rw [View.set_slice_whole, Rect.mem_set_unit]
  exact Iff.rfl

/-- Every row is in some point's block: row `r` in point `r / 2000`'s. -/
theorem cover4 (i : S100000x128.Idx) : ∃ t : Fin cfg0.N, (cfg0.win 4).flush t = true ∧ i ∈ ((cfg0.win 4).blk t).view.set := by
  have hi0 : (i 0).val < 100000 := idx2_lt0 i
  have hi1 : (i 1).val < 128 := idx2_lt1 i
  refine ⟨⟨(i 0).val / 2000, lt_of_lt_of_eq (by omega) N_0.symm⟩, flush0_4 _, ?_⟩
  obtain ⟨-, -, -, -, -, -, -, -, e0, e1, -⟩ := idx_facts ⟨(i 0).val / 2000, lt_of_lt_of_eq (by omega) N_0.symm⟩
  rw [mem_blk4]
  intro a
  match a with
  | ⟨0, _⟩ => show win0_4.index _ (0 : Fin 2) * 2000 ≤ (i 0).val ∧ (i 0).val < win0_4.index _ (0 : Fin 2) * 2000 + 2000; simp only at e0; omega
  | ⟨1, _⟩ => show win0_4.index _ (1 : Fin 2) * 128 ≤ (i 1).val ∧ (i 1).val < win0_4.index _ (1 : Fin 2) * 128 + 128; omega

/-- THE FIRST RESULT after the run: the transformed element table. -/
theorem final4 : (tdat d Vv O b 0).arrAt 4 cfg0.N = teVal (Vv main_arg2) (Vv main_arg4) :=
  (tdat d Vv O b 0).arrAt_eq_of_cover 4 (teVal (Vv main_arg2) (Vv main_arg4)) (fun t _ => flushed4_eq d Vv O b t) cover4

/-! ## The second result -/

/-- WHAT THE LAST POINT WRITES BACK is the transformed property table. -/
theorem flushed5_eq (t : Fin cfg0.N) :
    (tdat d Vv O b 0).flushed 5 t = ((cfg0.win 5).blk t).view.read (Elt F) (tpVal (Vv main_arg3) (Vv main_arg4) (Vv main_v2)) := by
  show (cfg0.win 5).cut (grid0.coords t) ((tdat d Vv O b 0).after 5 t) = _
  rw [after_5]
  unfold out5
  rw [blk2_eq, blk1_eq, blk3_eq]
  obtain ⟨-, -, -, -, -, -, -, -, -, -, e0, e1⟩ := idx_facts t
  funext j
  show tpVal (Vv main_arg3) (Vv main_arg4) (Vv main_v2) j = tpVal (Vv main_arg3) (Vv main_arg4) (Vv main_v2) (((cfg0.win 5).blk t).view.emb j)
  refine congrArg (tpVal (Vv main_arg3) (Vv main_arg4) (Vv main_v2)) ?_
  funext a; apply Fin.ext
  match a with
  | ⟨0, _⟩ => show (j 0).val = win0_5.index t (0 : Fin 2) * 1000 + 1 * (j 0).val; omega
  | ⟨1, _⟩ => show (j 1).val = win0_5.index t (1 : Fin 2) * 128 + 1 * (j 1).val; omega

theorem mem_blk5 (t : Fin cfg0.N) (i : S1000x128.Idx) :
    i ∈ ((cfg0.win 5).blk t).view.set ↔ ∀ a : Fin 2, win0_5.index t a * S1000x128.size a ≤ (i a).val ∧ (i a).val < win0_5.index t a * S1000x128.size a + S1000x128.size a := by
  show i ∈ ((View.whole main_v3_1).slice (win0_5.rect t)).set ↔ _
  rw [View.set_slice_whole, Rect.mem_set_unit]
  exact Iff.rfl

/-- The last point's block is the whole array. -/
theorem cover5 (i : S1000x128.Idx) : ∃ t : Fin cfg0.N, (cfg0.win 5).flush t = true ∧ i ∈ ((cfg0.win 5).blk t).view.set := by
  have hi0 : (i 0).val < 1000 := idx2_lt0 i
  have hi1 : (i 1).val < 128 := idx2_lt1 i
  refine ⟨⟨49, by decide⟩, (flush0_5 _).mpr rfl, ?_⟩
  obtain ⟨-, -, -, -, -, -, -, -, -, -, e0, e1⟩ := idx_facts ⟨49, by decide⟩
  rw [mem_blk5]
  intro a
  match a with
  | ⟨0, _⟩ => show win0_5.index _ (0 : Fin 2) * 1000 ≤ (i 0).val ∧ (i 0).val < win0_5.index _ (0 : Fin 2) * 1000 + 1000; omega
  | ⟨1, _⟩ => show win0_5.index _ (1 : Fin 2) * 128 ≤ (i 1).val ∧ (i 1).val < win0_5.index _ (1 : Fin 2) * 128 + 128; omega

/-- THE SECOND RESULT after the run: the transformed property table. -/
theorem final5 : (tdat d Vv O b 0).arrAt 5 cfg0.N = tpVal (Vv main_arg3) (Vv main_arg4) (Vv main_v2) :=
  (tdat d Vv O b 0).arrAt_eq_of_cover 5 (tpVal (Vv main_arg3) (Vv main_arg4) (Vv main_v2)) (fun t _ => flushed5_eq d Vv O b t) cover5

/-! ## The inputs -/

theorem final0 : (tdat d Vv O b 0).arrAt 0 cfg0.N = Vv main_arg2 := ((tdat d Vv O b 0).arrAt_in 0 rfl _).trans (A_eq d Vv O b 0)
theorem final1 : (tdat d Vv O b 0).arrAt 1 cfg0.N = Vv main_arg3 := ((tdat d Vv O b 0).arrAt_in 1 rfl _).trans (A_eq d Vv O b 1)
theorem final2 : (tdat d Vv O b 0).arrAt 2 cfg0.N = Vv main_arg4 := ((tdat d Vv O b 0).arrAt_in 2 rfl _).trans (A_eq d Vv O b 2)
theorem final3 : (tdat d Vv O b 0).arrAt 3 cfg0.N = Vv main_v2 := ((tdat d Vv O b 0).arrAt_in 3 rfl _).trans (A_eq d Vv O b 3)

end Blocks

end Cert.Kernel.Run.Tc

end
-- ==== Proof.TcRegionBits.lean ====
/-
  The TensorCore call as one rule of the program's logic: entered with the six arrays of its windows held whole, it
  returns with the four inputs unchanged, the first result at the transformed element table and the second at the
  transformed property table.
-/
import proofs.«204385_g66649302499670_cont_9to1c4b_43_34_alg».proof.Proof.TcBodyBits
import proofs.«204385_g66649302499670_cont_9to1c4b_43_34_alg».proof.Proof.TcValueBits
import Idealize.ShloMosaic.Lib.SparseCore.Threads

set_option maxRecDepth 16384

noncomputable section

namespace Cert.Kernel.Run.Tc

open Cert.Kernel Cert.Kernel.Gen Cert.Kernel.Run
open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The launch's share of the pipeline's ghost state -/

/-- The rounds element of the pipeline's staging cells and transfers. -/
def uR : UR := initOf (Pipeline.cells cfgs cellOf_inj) (Pipeline.launchToks cfgs cellOf_inj)

/-- From it, the one device's staging cells' ghost state and transfer tokens. -/
theorem fund (d : Dev nD) :
    BI.own (ER (F := F) uR) ⊢ iprop(|==> (Pipeline.cellsGhost (Pipeline.pin (pcfgs (F := F)) adm) ER 0 d
      ∗ Pipeline.toksInit (Pipeline.pin (pcfgs (F := F)) adm) ER 0 d)) := by
  have hg : (bigSep Finset.univ fun c : Dev nD => bigSep Finset.univ fun p : Fin 1 => Pipeline.cellsGhost (Pipeline.pin (pcfgs (F := F)) adm) ER p c)
      ⊢ (Pipeline.cellsGhost (Pipeline.pin (pcfgs (F := F)) adm) ER 0 d : sProp 𝕄) :=
    (bigSep_elim (Φ := fun c : Dev nD => bigSep Finset.univ fun p : Fin 1 => Pipeline.cellsGhost (Pipeline.pin (pcfgs (F := F)) adm) ER p c) (Finset.mem_univ d)).trans
      (bigSep_elim (Φ := fun p : Fin 1 => Pipeline.cellsGhost (Pipeline.pin (pcfgs (F := F)) adm) ER p d) (Finset.mem_univ (0 : Fin 1)))
  have ht : (bigSep Finset.univ fun c : Dev nD => bigSep Finset.univ fun p : Fin 1 => Pipeline.toksInit (Pipeline.pin (pcfgs (F := F)) adm) ER p c)
      ⊢ (Pipeline.toksInit (Pipeline.pin (pcfgs (F := F)) adm) ER 0 d : sProp 𝕄) :=
    (bigSep_elim (Φ := fun c : Dev nD => bigSep Finset.univ fun p : Fin 1 => Pipeline.toksInit (Pipeline.pin (pcfgs (F := F)) adm) ER p c) (Finset.mem_univ d)).trans
      (bigSep_elim (Φ := fun p : Fin 1 => Pipeline.toksInit (Pipeline.pin (pcfgs (F := F)) adm) ER p d) (Finset.mem_univ (0 : Fin 1)))
  refine (Pipeline.fund_ghost (Pipeline.pin (pcfgs (F := F)) adm) ER cellOf_inj).trans ?_
  iintro H
  imod H with ⟨Hg, Ht⟩
  imodintro
  isplitl [Hg]
  · iapply hg; iexact Hg
  · iapply ht; iexact Ht

/-! ## The region's record -/

section Record

variable (Vvs : (c : Dev nD) → (r : Ref sig .tc) → Buf (Elt F) ((c : Thread nD τ).loc r))
  (O : CellTallies nD τ sig (HIx 1)) (hO : ∀ g, O g none = 0) (b : ℕ)
  (lv : GSem nD τ sig → HIx 1 → ℕ) (hlv : (K (F := F)).Refines lv)

/-- The pipeline's proof data on every device. -/
abbrev pdats : (p : Fin 1) → (c : Dev nD) → Dat τ (Elt F) (HIx 1) ℕ UU ℕ (Pipeline.pin (pcfgs (F := F)) adm p) c :=
  fun p c => tdat c (Vvs c) O b p

/-- The thread's debts, its recorded waits at levels at most `b`. -/
abbrev owesB (c : Dev nD) : sProp 𝕄 := iprop(∃ W, ⌜(K (F := F)).WBelow (c : Thread nD τ) W b⌝ ∗ owes (c : Thread nD τ) O W)

/-- The six arrays of the windows, whole, at contents `G`. -/
abbrev arrs (c : Dev nD) (G : (w : Fin cfg0.W) → Buf (Elt F) ((c : Thread nD τ).loc (Pipeline.arrRef spec0 w))) : sProp 𝕄 :=
  bigSep Finset.univ fun w : Fin cfg0.W => (((c : Thread nD τ).loc (Pipeline.arrRef spec0 w)) ↦{fullShare} G w : sProp 𝕄)

set_option backward.isDefEq.respectTransparency.types false in
/-- THE REGION: entered with the arrays at their entry contents beside the thread's debts; nothing enters the body's
    invariant and nothing bypasses the region; left with the arrays at what the write-backs made of them. The pipeline's
    waits are at index `none`, below every unit the thread owes. -/
def reg : Pipeline.RegionSeg (pcfgs (F := F)) adm (pdats Vvs O b) none defs₀ 𝒱₀ (K (F := F)).L lv 0 where
  win := launch0.win.to₀
  block_pos := launch0.block_pos
  stage_whole := launch0.stage_whole
  K := PEmpty
  osem := fun k => k.elim
  ho := Pipeline.OwnSemFacts.none _
  hbody c := (body_obligation c (Vvs c) O b).loose
  hwaits c := Pipeline.cellsWaits_intro (Pipeline.pin (pcfgs (F := F)) adm) (pdats Vvs O b) none 0 c fun w s t =>
    (K (F := F)).mayWait_none _ hO lv hlv
  pre c := iprop(arrs c (fun w => Vvs c (Pipeline.arrRef spec0 w)) ∗ owesB O b c)
  post c := iprop(arrs c (fun w => ((pdats Vvs O b) 0 c).arrAt w cfg0.N) ∗ owesB O b c)
  X _ := BI.emp
  Y _ := BI.emp
  Z _ := BI.emp
  hentry c := by
    rw [Pipeline.arrays_eq (Pipeline.pin (pcfgs (F := F)) adm) (pdats Vvs O b) 0 c launch0.arr_whole (((pdats Vvs O b) 0 c).share_full fun _ => rfl)]
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show ((pdats Vvs O b) 0 c).Φ 0 = BI.emp from rfl]
    iintro -; iempintro
  hout c := by
    rw [show ((pdats Vvs O b) 0 c).Φ (Fin.last (Pipeline.pin (pcfgs (F := F)) adm 0).N) = BI.emp from rfl, Pipeline.ownSems0_none, scopedRest0_eq]
    iintro -
    isplitr; · iempintro
    isplitr <;> iempintro
  hexit c := by
    rw [Pipeline.arrays_eq (Pipeline.pin (pcfgs (F := F)) adm) (pdats Vvs O b) 0 c launch0.arr_whole (((pdats Vvs O b) 0 c).share_full fun _ => rfl)]
    iintro ⟨Ha, HO, -, -⟩
    imodintro
    isplitl [Ha]; · iexact Ha
    unfold Pipeline.Dat.owesAt Pipeline.owesWithin
    icases HO with ⟨%W, %hW, HO⟩
    iexists W; isplitr; swap; · iexact HO
    ipureintro
    intro p hp
    rcases hW hp with h | ⟨w, s, rfl⟩
    · exact h
    · exact Nat.zero_le _

end Record

/-! ## The call, on every device -/

section Core

variable (Vvs : (c : Dev nD) → (r : Ref sig .tc) → Buf (Elt F) ((c : Thread nD τ).loc r))
  (O : CellTallies nD τ sig (HIx 1)) (hO : ∀ g, O g none = 0) (b : ℕ)
  (lv : GSem nD τ sig → HIx 1 → ℕ) (hlv : (K (F := F)).Refines lv)

include hO hlv in
set_option backward.isDefEq.respectTransparency.types false in
/-- The call in the pipeline's own table of bodies: from the boundary, the level facts, the staging cells' ghost state, the
    thread's debts and the six arrays, to the boundary, the debts and the arrays as the write-backs left them. -/
theorem region_core (c : Dev nD) :
    iprop(levAts (K (F := F)).L lv ∗ boundary (c : Thread nD τ)
        ∗ Pipeline.cellsGhost (Pipeline.pin (pcfgs (F := F)) adm) ER 0 c ∗ Pipeline.toksInit (Pipeline.pin (pcfgs (F := F)) adm) ER 0 c
        ∗ owesB O b c ∗ arrs c (fun w => Vvs c (Pipeline.arrRef spec0 w)))
      ⊢ wp frame (wpE (D (F := F)) 𝒱 (c : Thread nD τ) none) Set.univ (Prog.lift (.customCall (Pipeline.entry 0) ()))
          fun _ => (iprop(boundary (c : Thread nD τ) ∗ owesB O b c ∗ arrs c (fun w => ((pdats Vvs O b) 0 c).arrAt w cfg0.N)) : sProp 𝕄) := by
  have h := Pipeline.RegionSeg.wp (pcfgs (F := F)) adm (pdats Vvs O b) none cellOf_inj ER defs₀ 𝒱₀ (K (F := F)).L lv (reg Vvs O hO b lv hlv) c none
    (fun _ h => nomatch h) (α := PUnit) (fun _ => Prog.ret PUnit.unit)
    (fun _ => (iprop(boundary (c : Thread nD τ) ∗ owesB O b c ∗ arrs c (fun w => ((pdats Vvs O b) 0 c).arrAt w cfg0.N)) : sProp 𝕄))
  rw [show (reg Vvs O hO b lv hlv).post c = iprop(arrs c (fun w => ((pdats Vvs O b) 0 c).arrAt w cfg0.N) ∗ owesB O b c) from rfl,
    show (reg Vvs O hO b lv hlv).pre c = iprop(arrs c (fun w => Vvs c (Pipeline.arrRef spec0 w)) ∗ owesB O b c) from rfl] at h
  show _ ⊢ wp frame (wpE (D (F := F)) 𝒱 (c : Thread nD τ) none) Set.univ (.op (.customCall (Pipeline.entry 0) ()) fun _ => Prog.ret PUnit.unit) _
  iintro ⟨#Hla, Hbd, Hg, Ht, HO, Ha⟩
  iapply h
  isplitr
  · iintro ⟨Hbd, Ha, HO⟩
    rw [wp_ret]; imodintro
    isplitl [Hbd]; · iexact Hbd
    isplitl [HO]; · iexact HO
    iexact Ha
  isplitl [Hbd]; · iexact Hbd
  isplitl [Ha HO]
  · isplitl [Ha]; · iexact Ha
    iexact HO
  isplitr; · iexact Hla
  isplitl [Hg]; · iexact Hg
  iexact Ht

end Core

/-! ## One device's arrays as a family over the devices

The mesh has one device; the library's record of a region speaks of every device at once. -/

instance devSubsingleton : Subsingleton (Dev nD) := inferInstanceAs (Subsingleton (Fin 1))

/-- Device `d`'s contents, read on any device (there is no other). -/
def famOf (d : Dev nD) (Vv : (r : Ref sig .tc) → Buf (Elt F) ((SparseCore.T d : Thread nD τ).loc r)) (c : Dev nD) (r : Ref sig .tc) :
    Buf (Elt F) ((c : Thread nD τ).loc r) :=
  @Eq.rec (Dev nD) d (fun c _ => Buf (Elt F) ((c : Thread nD τ).loc r)) (Vv r) c (Subsingleton.elim d c)

theorem famOf_self (d : Dev nD) (Vv : (r : Ref sig .tc) → Buf (Elt F) ((SparseCore.T d : Thread nD τ).loc r)) : famOf d Vv d = Vv := rfl

/-! ## The region -/

/-- THE CALL. -/
theorem region_wp (d : Dev nD) (O : CellTallies nD τ sig (HIx 1)) (hO : ∀ g, O g none = 0) (b : ℕ)
    (Vv : (r : Ref sig .tc) → Buf (Elt F) ((SparseCore.T d).loc r))
    (lv : GSem nD τ sig → HIx 1 → ℕ := (K (F := F)).lev) (hlv : (K (F := F)).Refines lv := by sl_refines_lev) :
    iprop(levAts (K (F := F)).L lv ∗ boundary (SparseCore.T d)
        ∗ Pipeline.cellsGhost (Pipeline.pin (pcfgs (F := F)) adm) ER 0 d ∗ Pipeline.toksInit (Pipeline.pin (pcfgs (F := F)) adm) ER 0 d
        ∗ (∃ W, ⌜(K (F := F)).WBelow (SparseCore.T d) W b⌝ ∗ owes (SparseCore.T d) O W)
        ∗ ((SparseCore.T d).loc main_arg2 ↦{fullShare} Vv main_arg2) ∗ ((SparseCore.T d).loc main_arg3 ↦{fullShare} Vv main_arg3) ∗ ((SparseCore.T d).loc main_arg4 ↦{fullShare} Vv main_arg4)
        ∗ ((SparseCore.T d).loc main_v2 ↦{fullShare} Vv main_v2) ∗ ((SparseCore.T d).loc main_v3_0 ↦{fullShare} Vv main_v3_0) ∗ ((SparseCore.T d).loc main_v3_1 ↦{fullShare} Vv main_v3_1))
      ⊢ wp frame (wpE ((K (F := F)).defs D) 𝒱 (SparseCore.T d) none) Set.univ (Prog.lift (.customCall (SparseCore.inner (Pipeline.entry 0)) ()))
          fun _ => (iprop(boundary (SparseCore.T d) ∗ (∃ W, ⌜(K (F := F)).WBelow (SparseCore.T d) W b⌝ ∗ owes (SparseCore.T d) O W)
            ∗ ((SparseCore.T d).loc main_arg2 ↦{fullShare} Vv main_arg2) ∗ ((SparseCore.T d).loc main_arg3 ↦{fullShare} Vv main_arg3) ∗ ((SparseCore.T d).loc main_arg4 ↦{fullShare} Vv main_arg4)
            ∗ ((SparseCore.T d).loc main_v2 ↦{fullShare} Vv main_v2)
            ∗ ((SparseCore.T d).loc main_v3_0 ↦{fullShare} teVal (Vv main_arg2) (Vv main_arg4))
            ∗ ((SparseCore.T d).loc main_v3_1 ↦{fullShare} tpVal (Vv main_arg3) (Vv main_arg4) (Vv main_v2))) : sProp 𝕄) := by
  have hcore := region_core (famOf d Vv) O hO b lv hlv d
  have hlift := (K (F := F)).wp_liftProg (D (F := F)) 𝒱 (SparseCore.T d) Set.univ none (Prog.lift (.customCall (Pipeline.entry 0) ()))
    (fun _ => (iprop(boundary (d : Thread nD τ) ∗ owesB O b d ∗ arrs d (fun w => (pdats (famOf d Vv) O b 0 d).arrAt w cfg0.N)) : sProp 𝕄))
  unfold arrs owesB at hcore hlift
  rw [bigSep_W0, bigSep_W0] at hcore
  rw [bigSep_W0] at hlift
  beta_reduce at hcore hlift
  rw [final0 d (famOf d Vv d) O b, final1 d (famOf d Vv d) O b, final2 d (famOf d Vv d) O b, final3 d (famOf d Vv d) O b,
    final4 d (famOf d Vv d) O b, final5 d (famOf d Vv d) O b, famOf_self] at hcore hlift
  refine (?_ : _ ⊢ _).trans ((hcore.trans hlift).trans (wp_mono frame _ Set.univ fun _ => (?_ : _ ⊢ _)))
  · iintro ⟨Hla, Hbd, Hg, Ht, HO, H0, H1, H2, H3, H4, H5⟩
    isplitl [Hla]; · iexact Hla
    isplitl [Hbd]; · iexact Hbd
    isplitl [Hg]; · iexact Hg
    isplitl [Ht]; · iexact Ht
    isplitl [HO]; · iexact HO
    isplitl [H0]; · iexact H0
    isplitl [H1]; · iexact H1
    isplitl [H2]; · iexact H2
    isplitl [H3]; · iexact H3
    isplitl [H4]; · iexact H4
    iexact H5
  · iintro ⟨Hbd, HO, H0, H1, H2, H3, H4, H5⟩
    isplitl [Hbd]; · iexact Hbd
    isplitl [HO]; · iexact HO
    isplitl [H0]; · iexact H0
    isplitl [H1]; · iexact H1
    isplitl [H2]; · iexact H2
    isplitl [H3]; · iexact H3
    isplitl [H4]; · iexact H4
    iexact H5

end Cert.Kernel.Run.Tc

end
-- ==== Proof.RunBits.lean ====
/-
  The kernel program's run with its result named: on every device the result array ends at the looked-up sum of the
  two transformed tables' rows, reshaped, and the six arguments end unchanged — given the tile's task.
-/
import proofs.«204385_g66649302499670_cont_9to1c4b_43_34_alg».proof.Proof.HmainBits
import proofs.«204385_g66649302499670_cont_9to1c4b_43_34_alg».proof.Proof.TcRegionBits

noncomputable section

namespace Cert.Kernel.Run

open Cert.Kernel Cert.Kernel.Gen

open Idealize.ShloMosaic Idealize.ShloMosaic.ValueIdx
open Idealize.SL Idealize.SL.BI Idealize.SL.Sem
open scoped Idealize.SL.BI

variable {F : FTy → Type} [FloatOps F]

variable (m : (ℓ : Loc nD τ sig) → Buf (Elt F) ℓ) (ρ : Dev nD → PrngReg)

/-- The values the SparseCore call works with: the TensorCore pipeline's two results and the flat ids. -/
abbrev vals : Vals F := valsOf m Tc.teVal Tc.tpVal
/-- The program's result. -/
abbrev result (d : Dev nD) : Buf (Elt F) (argLoc d main_v5) := resOf m Tc.teVal Tc.tpVal d

theorem regionRule : RegionRule (F := F) Tc.teVal Tc.tpVal Tc.uR :=
  ⟨fun d => Tc.fund d, fun d O hO b Vv => Tc.region_wp d O hO b Vv⟩

theorem run_main [∀ e, Nonempty (Elt F e)] (htile : (K (F := F)).TileObl (D (F := F)) 𝒱 (P (vals m)) v₀ 0) :
    θ_run (Cert.Kernel.defs (F := F)) (Cert.Kernel.threads (F := F)) ⟨m, fun _ => 0, ρ⟩ (QC m (result m)) :=
  run_of_parts m ρ (vals m) (result m) (u₀ Tc.uR) (G0 Tc.uR) htile (vecSplit (vals m)) (hu₀ (vals m) Tc.uR)
    (hmain m ρ Tc.teVal Tc.tpVal Tc.uR regionRule)

end Cert.Kernel.Run

end
-- ==== Proof.FrameBits.lean ====
/-
  The kernel program's frame from its run: the run with the value dropped. The flat id arrays hold row numbers
  under the precondition, which is what the tile's task needs.
-/
import proofs.«204385_g66649302499670_cont_9to1c4b_43_34_alg».proof.Defs
import proofs.«204385_g66649302499670_cont_9to1c4b_43_34_alg».proof.Proof.RunBits
import proofs.«204385_g66649302499670_cont_9to1c4b_43_34_alg».proof.Proof.RefPre

noncomputable section

namespace Cert.Proof.KB

open Cert.Kernel Cert.Kernel.Gen Cert.Kernel.Run

open Idealize.ShloMosaic Idealize.ShloMosaic.ValueIdx
open Idealize.SL Idealize.SL.BI Idealize.SL.Sem
open scoped Idealize.SL.BI

/-- The flat id arrays hold row numbers of their tables. -/
def IdsIn {F : FTy → Type} (A : Vals F) : Prop :=
  (∀ d (j : S819200.Idx), (A.eid d j).toNat < 100000) ∧ (∀ d (j : S819200.Idx), (A.pid d j).toNat < 1000)

/-- Under the precondition the flat id arrays hold row numbers: a flat entry is an entry of the id array. -/
theorem idsIn_of_pre {F : FTy → Type} [FloatOps F] [Cert.Pre_input_domain.Facts] (m : (ℓ : Loc nD τ sig) → Buf (Elt F) ℓ)
    (hpre : ∀ c : Dev nD, Cert.Pre_input_domain.fn (F := F) (m (argLoc c main_arg0)) (m (argLoc c main_arg1)) (m (argLoc c main_arg2))
      (m (argLoc c main_arg3)) (m (argLoc c main_arg4)) (m (argLoc c main_arg5)) = (fun _ => 1#1)) :
    IdsIn (vals m) := by
  refine ⟨fun d j => ?_, fun d j => ?_⟩
  · exact (Cert.Proof.Ref.ids_in_range (F := F) _ _ _ _ _ _ (hpre d)).1 _
  · exact (Cert.Proof.Ref.ids_in_range (F := F) _ _ _ _ _ _ (hpre d)).2 _

variable [hKI : Cert.Kernel.Facts] [hPre : Cert.Pre_input_domain.Facts]

/-- The frame of the kernel program, given the tile's task. -/
theorem frame_of_tile
    (htile : ∀ m : (ℓ : Loc nD τ sig) → Buf (Elt Bits) ℓ, IdsIn (vals m) → (K (F := Bits)).TileObl (D (F := Bits)) 𝒱 (P (vals m)) v₀ 0) :
    Cert.frame_Kernel := fun m g hpre =>
  (θ_run Cert.Kernel.defs _ _).mono (fun _ h c => (h c).2) (run_main (F := Bits) m g (htile m (idsIn_of_pre m hpre)))

end Cert.Proof.KB

end
-- ==== Proof.ScViews.lean ====
/-
  The tile's view of the SparseCore kernel's operands: the place (core, tile) a grid coordinate names, the whole
  arrays and scratch buffers as the kernel is called with them, and the pieces of them its copies name — the id
  slots, the gather lists (a quarter of a slot), the row buffers' halves, the result's chunks — spelt as the program
  slices them, with the arithmetic of worker number, slab, chunk and row.
-/
import proofs.«204385_g66649302499670_cont_9to1c4b_43_34_alg».proof.Proof.PayIdeal
import proofs.«204385_g66649302499670_cont_9to1c4b_43_34_alg».proof.Proof.Gen.KernelIdeal.Skeleton
import Idealize.ShloMosaic.Lib.Batch

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

/-! ## The place -/

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The core and the tile as numbers below 2 and 16. -/
abbrev cL (L : grid1.Coords) : Fin 2 := Fin.cast bound_zero (L 0)
abbrev jL (L : grid1.Coords) : Fin 16 := Fin.cast bound_one (L 1)
/-- The thread. -/
abbrev thr (d : Dev nD) (L : grid1.Coords) : Thread nD τ := V d (cV L) (jV L)
/-- The worker's number, 2·tile + core, and its first row. -/
abbrev widL (L : grid1.Coords) : Fin 32 := wid (cL L) (jL L)
def baseRow (L : grid1.Coords) : ℕ := 25600 * (widL L).val

/-! ## The operands, as the kernel is called with them -/

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

/-- The kernel's call on the tile of coordinates `L`. -/
abbrev tileProg [FloatOps F] (L : grid1.Coords) : Prog (TpuEff nD τ sig (Elt F) Λ₀ (.scVector ((L 0).castLE hcore1) ((L 1).castLE hsub1))) PUnit :=
  cc1_k L teV (Memref.isWhole_whole _) tpV (Memref.isWhole_whole _) eidV (Memref.isWhole_whole _) pidV (Memref.isWhole_whole _)
    outV (Memref.isWhole_whole _) eixV (Memref.isWhole_whole _) pixV (Memref.isWhole_whole _) ebV (Memref.isWhole_whole _)
    pbV (Memref.isWhole_whole _) obV (Memref.isWhole_whole _) shV (Memref.isWhole_whole _)
    cc1_scratch6 cc1_scratch7 cc1_scratch8 cc1_scratch9 cc1_scoped0 cc1_scoped1 cc1_scoped2

/-! ## What the tile is handed and what it hands back -/

variable [FloatOps F] (A : Vals F)

/-- At entry: read shares of the four inputs, the worker's slab of the result as launched, and on tile 0 the
    SparseCore's shared scratch. -/
abbrev goRes (d : Dev nD) (L : grid1.Coords) : sProp 𝕄 :=
  iprop(reads A (qTile (cL L) (jL L)) d ∗ slabPts d (widL L) (A.out0 d)
    ∗ (if (jL L).val = 0 then iprop(∃ f, shLoc d (cV L) ↦{fullShare} f) else iprop(emp)))

/-- At exit: the read shares, the slab holding the looked-up sums, the tile's read share of the filled shared scratch,
    and on tile 0 what is left of the scratch after the sixteen shares. -/
abbrev tdRes (d : Dev nD) (L : grid1.Coords) : sProp 𝕄 :=
  iprop(reads A (qTile (cL L) (jL L)) d ∗ slabPts d (widL L) (outFin A d) ∗ shTok A d (cV L) (jL L)
    ∗ (if (jL L).val = 0 then iprop(shLoc d (cV L) ↦{shareDrop fullShare 16} shVal A d (cV L)) else iprop(emp)))

end Cert.KernelIdeal.Run.Sc

end
-- ==== Proof.ScProlog.lean ====
/-
  The tile's task up to its loop.
-/
import proofs.«204385_g66649302499670_cont_9to1c4b_43_34_alg».proof.Proof.ScViews

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F] (A : Vals F) (d : Dev nD) (L : grid1.Coords)

/-! ## The tile's own cells and buffers -/

abbrev cellOf (sm : DmaSem sig) : GSem nD τ sig := (V d (cV L) (jV L), .dma sm)

omit [FloatOps F] in
set_option maxHeartbeats 1000000 in
theorem ownSems0_V :
    (ownSems0 (V d (cV L) (jV L)) : sProp 𝕄)
      = iprop((semVal (cellOf d L 8) 0 ∗ semVal (cellOf d L 9) 0 ∗ semVal (cellOf d L 10) 0 ∗ semVal (cellOf d L 11) 0
          ∗ semVal (cellOf d L 12) 0 ∗ semVal (cellOf d L 13) 0 ∗ semVal (cellOf d L 14) 0 ∗ semVal (cellOf d L 15) 0
          ∗ semVal (cellOf d L 16) 0 ∗ semVal (cellOf d L 17) 0 ∗ semVal (cellOf d L 18) 0)
          ∗ bigSep (ownCells (V d (cV L) (jV L)) \ ({cellOf d L 8, cellOf d L 9, cellOf d L 10, cellOf d L 11, cellOf d L 12, cellOf d L 13,
              cellOf d L 14, cellOf d L 15, cellOf d L 16, cellOf d L 17, cellOf d L 18} : Finset (GSem nD τ sig))) fun g => semVal g 0) := by
  unfold SparseCore.Cfg.ownSems0
  have hsub : ({cellOf d L 8, cellOf d L 9, cellOf d L 10, cellOf d L 11, cellOf d L 12, cellOf d L 13,
      cellOf d L 14, cellOf d L 15, cellOf d L 16, cellOf d L 17, cellOf d L 18} : Finset (GSem nD τ sig)) ⊆ ownCells (V d (cV L) (jV L)) := by
    intro g hg
    simp only [Finset.mem_insert, Finset.mem_singleton] at hg
    rcases hg with rfl | rfl | rfl | rfl | rfl | rfl | rfl | rfl | rfl | rfl | rfl <;> exact mem_ownCells.mpr ⟨rfl, by show (SemLoc.dma _ : SemLoc sig).isScoped .scVector = true; decide⟩
  rw [SparseCore.bigSep_sdiff_split' hsub]
  have hne : ∀ a b : DmaSem sig, a ≠ b → cellOf d L a ≠ cellOf d L b := fun a b h e => h (by injection (Prod.ext_iff.mp e).2)
  rw [SparseCore.bigSep_insert' (by simp [hne]), SparseCore.bigSep_insert' (by simp [hne]), SparseCore.bigSep_insert' (by simp [hne]),
    SparseCore.bigSep_insert' (by simp [hne]), SparseCore.bigSep_insert' (by simp [hne]), SparseCore.bigSep_insert' (by simp [hne]),
    SparseCore.bigSep_insert' (by simp [hne]), SparseCore.bigSep_insert' (by simp [hne]), SparseCore.bigSep_insert' (by simp [hne]),
    SparseCore.bigSep_insert' (by simp [hne]), BI.bigSep_singleton]

abbrev bufLoc (b : Ref sig .scVector) : Loc nD τ sig := (V d (cV L) (jV L)).loc b
abbrev bufRef (b : Ref sig .scVector) : DevRef τ sig := (Proc.scVector (cV L) (jV L)).devRef b

omit [FloatOps F] in
set_option maxHeartbeats 1000000 in
/-- The five scratch buffers are among the tile's own: they, each at some contents, and the rest. -/
theorem ownBufs_V :
    (ownBufs (V d (cV L) (jV L)) : sProp 𝕄)
      = iprop(((∃ f, bufLoc d L cc1_scratch0 ↦{fullShare} f) ∗ (∃ f, bufLoc d L cc1_scratch1 ↦{fullShare} f) ∗ (∃ f, bufLoc d L cc1_scratch2 ↦{fullShare} f)
            ∗ (∃ f, bufLoc d L cc1_scratch3 ↦{fullShare} f) ∗ (∃ f, bufLoc d L cc1_scratch4 ↦{fullShare} f))
          ∗ bigSep (ownRefs (τ := τ) (.scVector (cV L) (jV L)) \ ({bufRef L cc1_scratch0, bufRef L cc1_scratch1, bufRef L cc1_scratch2, bufRef L cc1_scratch3,
              bufRef L cc1_scratch4} : Finset (DevRef τ sig))) fun b => iprop(∃ f, ((d, b) : Loc nD τ sig) ↦{fullShare} f)) := by
  unfold SparseCore.Cfg.ownBufs
  have hsub : ({bufRef L cc1_scratch0, bufRef L cc1_scratch1, bufRef L cc1_scratch2, bufRef L cc1_scratch3,
      bufRef L cc1_scratch4} : Finset (DevRef τ sig)) ⊆ ownRefs (τ := τ) (.scVector (cV L) (jV L)) := by
    intro g hg
    simp only [Finset.mem_insert, Finset.mem_singleton] at hg
    rcases hg with rfl | rfl | rfl | rfl | rfl <;> exact SparseCore.Cfg.mem_ownRefs_of_owner rfl
  rw [SparseCore.bigSep_sdiff_split' hsub]
  have hne : ∀ a b : Ref sig .scVector, a ≠ b → bufRef L a ≠ bufRef L b := fun a b h e => h (Proc.devRef_injective _ e)
  rw [SparseCore.bigSep_insert' (by simp [hne]), SparseCore.bigSep_insert' (by simp [hne]), SparseCore.bigSep_insert' (by simp [hne]),
    SparseCore.bigSep_insert' (by simp [hne]), BI.bigSep_singleton]

/-! ## The barrier's handover -/

/-- What tile `L 1` hands over at the barrier: tile 0 a read share of the filled shared scratch to every tile's round,
    the others nothing. -/
theorem pays_intro :
    (if (jL L).val = 0 then iprop(bigSep Finset.univ fun j : Fin 16 => shTok A d (cV L) j) else iprop(emp))
    ⊢ (bigSep Finset.univ fun j : Fin (grid1.bound 1) => (bRd A).payload (bcell d (cV L) (j.castLE hsub1)) 0 (jV L).val : sProp 𝕄) := by
  by_cases h0 : (jL L).val = 0
  · rw [if_pos h0]
    refine Entails.of_eq (bigSep_congr fun j _ => ?_)
    show _ = bPay A (bcell d (cV L) (j.castLE hsub1)) (jV L).val
    unfold bPay; dsimp only
    rw [if_pos (show (jV L).val = 0 from h0)]; rfl
  · rw [if_neg h0,
      show (bigSep Finset.univ fun j : Fin (grid1.bound 1) => (bRd A).payload (bcell d (cV L) (j.castLE hsub1)) 0 (jV L).val)
        = bigSep Finset.univ fun _ : Fin (grid1.bound 1) => (iprop(emp) : sProp 𝕄) from
        bigSep_congr fun j _ => if_neg (show ¬ (jV L).val = 0 from h0), bigSep_emp']

/-- What its own round collected: its read share of the filled shared scratch. -/
theorem pays_elim : (bigSep ((bRd A).duties (bcell d (cV L) (jV L)) 0 \ ∅) fun n => (bRd A).payload (bcell d (cV L) (jV L)) 0 n)
    ⊢ (shTok A d (cV L) (jL L) : sProp 𝕄) := by
  rw [Finset.sdiff_empty, bRd_duties₀]
  refine (bigSep_elim (i := 0) (Finset.mem_image.mpr ⟨(⟨0, by decide⟩ : Fin τ.nSub), Finset.mem_univ _, rfl⟩)).trans ?_
  show bPay A (bcell d (cV L) (jV L)) 0 ⊢ _
  unfold bPay; dsimp only
  rw [if_pos rfl]; exact BI.Entails.refl _

/-! ## The first part: staging, barrier, first ids -/

theorem cond1_pos (h : (L 1).val = 0) : Scalar.cmpi .ne (Scalar.extui (Scalar.cmpi .eq (BitVec.ofNat 32 (L 1).val) 0#32)) 0#32 = 1#1 := by
  rw [h]; decide
theorem cond1_neg (h : ¬ (L 1).val = 0) : ¬ Scalar.cmpi .ne (Scalar.extui (Scalar.cmpi .eq (BitVec.ofNat 32 (L 1).val) 0#32)) 0#32 = 1#1 := by
  generalize L 1 = x at h ⊢
  revert x; decide

/-- 512 ids out of a flat id array from `off` on, as a copy delivers them. -/
abbrev idsPay (M : Memref sig .scVector .hbm S819200 .i32) (fid : Buf (Elt F) (M.view.loc (thr d L))) (off : Fin 1 → ℕ)
    (h : ∀ a, off a + S512.size a ≤ S819200.size a) : S512.Idx → Elt F .i32 :=
  ReadAs.same.apply (View.read (Elt F) (M.slice (Rect.unit (s := S819200) off S512.size h) (fun _ => rfl)).view fid)

/-- Slot 0 of an id scratch as the 512-list the first copies fill. -/
abbrev slot0 (M : Memref sig .scVector .vmem S2x512 .i32) : Memref sig .scVector .vmem S512 .i32 :=
  (M.slice (Rect.unit (s := S2x512) ![0, 0] S1x512.size inb_S2x512_S1x512_0_0) (fun _ => rfl)).squeeze S512 squeezes_S1x512_S512

/-- What the first part leaves of the tile's resources it touches. -/
abbrev post50 (q : PosShare TreeShare) (O : CellTallies nD τ sig (HIx 1)) (W : Waits sig (HIx 1))
    (f7 : Buf (Elt F) ((eixV).view.loc (thr d L))) (f8 : Buf (Elt F) ((pixV).view.loc (thr d L))) : sProp 𝕄 :=
  iprop(((tpV).view.loc (thr d L) ↦{q} A.tp d) ∗ ((eidV).view.loc (thr d L) ↦{q} A.eid d) ∗ ((pidV).view.loc (thr d L) ↦{q} A.pid d)
    ∗ shTok A d (cV L) (jL L)
    ∗ (if (jL L).val = 0 then iprop(shLoc d (cV L) ↦{shareDrop fullShare 16} shVal A d (cV L)) else iprop(emp))
    ∗ ((eixV).view.loc (thr d L) ↦{fullShare} View.write (Elt F) (slot0 eixV).view f7 (idsPay d L eidV (A.eid d) (k1_off1 L) (k1_off1_inb L)) Finset.univ)
    ∗ ((pixV).view.loc (thr d L) ↦{fullShare} View.write (Elt F) (slot0 pixV).view f8 (idsPay d L pidV (A.pid d) (k1_off1 L) (k1_off1_inb L)) Finset.univ)
    ∗ semVal (cellOf d L 16) 0 ∗ semVal (cellOf d L 17) 0 ∗ semVal (cellOf d L 18) 0
    ∗ ∃ W', ⌜∀ p ∈ W', p ∈ W ∨ p.2 = none ∨ p.2 = some (0 : Fin 1)⌝ ∗ owes (thr d L) O W')

/-- The shared scratch after the staging copy holds the property table. -/
theorem sh_fill (fsh : Buf (Elt F) ((shV).view.loc (thr d L))) (pay : S1000x128.Idx → Elt F .f32)
    (hpay : pay = ReadAs.same.apply (View.read (Elt F) (tpV).view (A.tp d))) :
    ((shV).view.loc (thr d L) ↦{fullShare} View.write (Elt F) (shV).view fsh pay Finset.univ : sProp 𝕄)
      = (shLoc d (cV L) ↦{fullShare} shVal A d (cV L)) := by
  subst hpay
  rw [View.write_whole_univ]; simp only [Memref.view_whole, View.read_whole]; rfl

set_option maxHeartbeats 4000000 in
/-- Tile 0 stages the property table into the shared scratch; every tile meets the others at the barrier, tile 0 handing
    each a read share of the filled scratch; then the first 512 ids of each kind are fetched into slot 0. -/
theorem part50_run (hF : (K (F := F)).Facts) (q : PosShare TreeShare) (O : CellTallies nD τ sig (HIx 1)) (W : Waits sig (HIx 1))
    (hO : ∀ g, O g none = 0) (hOlev : ∀ g ι, 0 < O g ι → 8 * (0 : Fin 1).val + 6 ≤ (K (F := F)).lev g ι)
    (f7 : Buf (Elt F) ((eixV).view.loc (thr d L))) (f8 : Buf (Elt F) ((pixV).view.loc (thr d L))) :
    iprop(levAts (K (F := F)).L (K (F := F)).lev ∗ bkit A d (cV L) (jV L)
        ∗ ((tpV).view.loc (thr d L) ↦{q} A.tp d) ∗ ((eidV).view.loc (thr d L) ↦{q} A.eid d) ∗ ((pidV).view.loc (thr d L) ↦{q} A.pid d)
        ∗ (if (jL L).val = 0 then iprop(∃ f, shLoc d (cV L) ↦{fullShare} f) else iprop(emp))
        ∗ ((eixV).view.loc (thr d L) ↦{fullShare} f7) ∗ ((pixV).view.loc (thr d L) ↦{fullShare} f8)
        ∗ semVal (cellOf d L 16) 0 ∗ semVal (cellOf d L 17) 0 ∗ semVal (cellOf d L 18) 0
        ∗ owes (thr d L) (O + oxV d (cV L)) W)
      ⊢ wp frame (wpE (defs₀ (F := F)) 𝒱₀ (thr d L) none) Set.univ (k1_part50 (F := F) L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2)
          fun _ => post50 A d L q O W f7 f8 := by
  rw [k1_part50_eq_skeleton]; unfold k1_part50_skel
  unfold bkit post50
  have hO' : ∀ g, (O + oxV d (cV L)) g none = 0 := fun g => by rw [Pi.add_apply, Finsupp.add_apply, hO g, oxV_none]
  by_cases h0 : (L 1).val = 0
  · -- tile 0: the staging copy and its wait, then the sixteen shares dealt
    rw [if_pos (show (jL L).val = 0 from h0), if_pos (show (jL L).val = 0 from h0)]
    iintro ⟨#Hlv, ⟨⟨%κ, #Hinv⟩, Htoks, #Hrch, Hat, Hcred⟩, Htp, Heid, Hpid, Hsh0, Heix, Hpix, Hs16, Hs17, Hs18, HO⟩
    ihave Hmw1 := (show levAts (K (F := F)).L (K (F := F)).lev ⊢ Transfers.MayWaits (thr d L) (default : HIx 1) (O + oxV d (cV L)) from
      (K (F := F)).mayWaits_none (thr := thr d L) hO') $$ Hlv
    ihave Hmw2 := (show levAts (K (F := F)).L (K (F := F)).lev ⊢ Transfers.MayWaits (thr d L) (default : HIx 1) O from
      (K (F := F)).mayWaits_none (thr := thr d L) hO) $$ Hlv
    icases Hsh0 with ⟨%fsh, Hsh0⟩
    ihave Hsh1 := (Entails.of_eq (show (shLoc d (cV L) ↦{fullShare} fsh : sProp 𝕄) = ((shV).view.loc (thr d L) ↦{fullShare} fsh) from rfl)) $$ Hsh0
    sl_exec (disch := first | exact cond1_pos L h0)
    -- the filled scratch: the property table, dealt as sixteen read shares and the rest
    ihave Hsh2 := (Entails.of_eq (sh_fill (F := F) A d L fsh (part50_run.sl.dma0 A d) rfl)) $$ Hsh1
    ihave Hsh3 := (Transfers.pointsTo_toks_split (ℓ := shLoc d (cV L)) (S := Finset.univ) (f := shVal A d (cV L)) fullShare 16) $$ Hsh2
    icases Hsh3 with ⟨Hrest, Htks⟩
    ihave Hpays := (pays_intro (F := F) A d L) $$ [Htks]
    · rw [if_pos (show (jL L).val = 0 from h0)]; iexact Htks
    iapply (SparseCore.wp_subcoreBarrier 𝒱₀ none EB (bRd A) d (sc := cV L) (i := jV L) sc_bar0 (grid1.bound 1) hsub1 (L 1) rfl κ (fun _ => 0) (jV L).val
        (fun j => bRd_mem₀ A d _ _ _) (fun _ => rfl) (bRd_expect A d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := thr d L) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, -, -, Hgot⟩
    ihave Hsh := (pays_elim (F := F) A d L) $$ Hgot
    sl_exec
    sl_step
    isplitl [Htp]; · iexact Htp
    isplitl [Heid]; · iexact Heid
    isplitl [Hpid]; · iexact Hpid
    isplitl [Hsh]; · iexact Hsh
    isplitl [Hrest]; · iexact Hrest
    isplitl [Heix]; · iexact Heix
    isplitl [Hpix]; · iexact Hpix
    isplitl [Hs16]; · iexact Hs16
    isplitl [Hs17]; · iexact Hs17
    isplitl [Hs18]; · iexact Hs18
    iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inr (hp ▸ rfl))
    rcases Finset.mem_insert.mp hp with hp | hp; · exact .inr (.inl (hp ▸ rfl))
    exact .inl hp
  · rw [if_neg (show ¬ (jL L).val = 0 from h0), if_neg (show ¬ (jL L).val = 0 from h0)]
    iintro ⟨#Hlv, ⟨⟨%κ, #Hinv⟩, Htoks, #Hrch, Hat, Hcred⟩, Htp, Heid, Hpid, Hsh0, Heix, Hpix, Hs16, Hs17, Hs18, HO⟩
    ihave Hmw1 := (show levAts (K (F := F)).L (K (F := F)).lev ⊢ Transfers.MayWaits (thr d L) (default : HIx 1) (O + oxV d (cV L)) from
      (K (F := F)).mayWaits_none (thr := thr d L) hO') $$ Hlv
    ihave Hmw2 := (show levAts (K (F := F)).L (K (F := F)).lev ⊢ Transfers.MayWaits (thr d L) (default : HIx 1) O from
      (K (F := F)).mayWaits_none (thr := thr d L) hO) $$ Hlv
    sl_exec (disch := first | exact cond1_neg L h0)
    ihave Hpays := (pays_intro (F := F) A d L) $$ []
    · rw [if_neg (show ¬ (jL L).val = 0 from h0)]; iempintro
    iapply (SparseCore.wp_subcoreBarrier 𝒱₀ none EB (bRd A) d (sc := cV L) (i := jV L) sc_bar0 (grid1.bound 1) hsub1 (L 1) rfl κ (fun _ => 0) (jV L).val
        (fun j => bRd_mem₀ A d _ _ _) (fun _ => rfl) (bRd_expect A d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := thr d L) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, -, -, Hgot⟩
    ihave Hsh := (pays_elim (F := F) A d L) $$ Hgot
    sl_exec
    sl_step
    isplitl [Htp]; · iexact Htp
    isplitl [Heid]; · iexact Heid
    isplitl [Hpid]; · iexact Hpid
    isplitl [Hsh]; · iexact Hsh
    isplitr; · iempintro
    isplitl [Heix]; · iexact Heix
    isplitl [Hpix]; · iexact Hpix
    isplitl [Hs16]; · iexact Hs16
    isplitl [Hs17]; · iexact Hs17
    isplitl [Hs18]; · iexact Hs18
    iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inr (hp ▸ rfl))
    exact .inl hp

/-! ## The second part: the first two chunks' gathers -/

/-- The tables as the gathers name their source: the whole array as a slice of itself. -/
abbrev teSrc : Memref sig .scVector .hbm S100000x128 .f32 :=
  (teV).slice (Rect.unit (s := S100000x128) ![0, 0] S100000x128.size inb_S100000x128_S100000x128_0_0) (fun _ => rfl)
abbrev shSrc : Memref sig .scVector .shared S1000x128 .f32 :=
  (shV).slice (Rect.unit (s := S1000x128) ![0, 0] S1000x128.size inb_S1000x128_S1000x128_0_0) (fun _ => rfl)

/-- A gather's list: 128 ids of an id scratch from `off` on. -/
abbrev lst (M : Memref sig .scVector .vmem S2x512 .i32) (off : Fin 2 → ℕ) (h : ∀ a, off a + S1x128.size a ≤ S2x512.size a) : Memref sig .scVector .vmem S128 .i32 :=
  (M.slice (Rect.unit (s := S2x512) off S1x128.size h) (fun _ => rfl)).squeeze S128 squeezes_S1x128_S128

/-- Half `b` of a row buffer, as the gathers and copy-outs name it. -/
abbrev hlf0 (M : Memref sig .scVector .vmem S2x128x128 .f32) : Memref sig .scVector .vmem S128x128 .f32 :=
  (M.slice (Rect.unit (s := S2x128x128) ![0, 0, 0] S1x128x128.size inb_S2x128x128_S1x128x128_0_0_0) (fun _ => rfl)).squeeze S128x128 squeezes_S1x128x128_S128x128
abbrev hlf1 (M : Memref sig .scVector .vmem S2x128x128 .f32) : Memref sig .scVector .vmem S128x128 .f32 :=
  (M.slice (Rect.unit (s := S2x128x128) ![1, 0, 0] S1x128x128.size inb_S2x128x128_S1x128x128_1_0_0) (fun _ => rfl)).squeeze S128x128 squeezes_S1x128x128_S128x128

/-- A pending gather of 128 rows of the element table into half `H` of `ebufs` by the list `l` on cell `sm`: what its wait
    will hand back — the half written with the gathered rows, the list, the share of the table. -/
abbrev flightE (sm : DmaSem sig) (H : Memref sig .scVector .vmem S128x128 .f32) (l : Memref sig .scVector .vmem S128 .i32)
    (q : PosShare TreeShare) (fe : Buf (Elt F) (H.view.loc (thr d L))) (e : Buf (Elt F) (l.view.loc (thr d L)))
    (hin : ∀ x, (l.view.read (Elt F) e x).toNat < S100000x128.size gathers_S100000x128_S128x128.axis) : sProp 𝕄 :=
  Transfers.Flight countersEmb (thr d L) (SemLoc.dma sm) (default : HIx 1) 524288
    iprop(((H.view.loc (thr d L) ↦[H.view.set]{fullShare} View.write (Elt F) H.view fe
              (SparseCore.gatherPayload gathers_S100000x128_S128x128 ((teSrc).view.read (Elt F) (A.te d)) (SparseCore.rows (l.view.read (Elt F) e) rfl hin)) Finset.univ)
          ∗ (l.view.loc (thr d L) ↦[l.view.set]{fullShare} e))
        ∗ ((teSrc).view.loc (thr d L) ↦[(teSrc).view.set]{q} A.te d))

/-- The same out of the shared scratch (the property table) into half `H` of `pbufs`. -/
abbrev flightP (sm : DmaSem sig) (H : Memref sig .scVector .vmem S128x128 .f32) (l : Memref sig .scVector .vmem S128 .i32)
    (q : PosShare TreeShare) (fp : Buf (Elt F) (H.view.loc (thr d L))) (e : Buf (Elt F) (l.view.loc (thr d L)))
    (hin : ∀ x, (l.view.read (Elt F) e x).toNat < S1000x128.size gathers_S1000x128_S128x128.axis) : sProp 𝕄 :=
  Transfers.Flight countersEmb (thr d L) (SemLoc.dma sm) (default : HIx 1) 524288
    iprop(((H.view.loc (thr d L) ↦[H.view.set]{fullShare} View.write (Elt F) H.view fp
              (SparseCore.gatherPayload gathers_S1000x128_S128x128 ((shSrc).view.read (Elt F) (shVal A d (cV L))) (SparseCore.rows (l.view.read (Elt F) e) rfl hin)) Finset.univ)
          ∗ (l.view.loc (thr d L) ↦[l.view.set]{fullShare} e))
        ∗ ((shSrc).view.loc (thr d L) ↦[(shSrc).view.set]{q} shVal A d (cV L)))

/-- What is left in hand of a table's read share while its slice is lent to a gather. -/
abbrev teRest (q : PosShare TreeShare) : sProp 𝕄 := (teV).view.loc (thr d L) ↦[Finset.univ \ (teSrc).view.set]{q} A.te d
abbrev shRest (q : PosShare TreeShare) : sProp 𝕄 := (shV).view.loc (thr d L) ↦[Finset.univ \ (shSrc).view.set]{q} shVal A d (cV L)

set_option maxHeartbeats 4000000 in
/-- The gathers of chunks 0 and 1: rows of the element table by the first and second quarter of slot 0 of `eixb` into the
    halves of `ebufs`, rows of the shared scratch by those of `pixb` into the halves of `pbufs`, each on its own cell. -/
theorem part51_run (q1 q2 r1 r2 : PosShare TreeShare) (O : CellTallies nD τ sig (HIx 1)) (W : Waits sig (HIx 1)) (v2 : BitVec 32)
    (e0 : Buf (Elt F) ((eixV).view.loc (thr d L))) (p0 : Buf (Elt F) ((pixV).view.loc (thr d L)))
    (fe : Buf (Elt F) ((ebV).view.loc (thr d L))) (fp : Buf (Elt F) ((pbV).view.loc (thr d L)))
    (hinE0 : ∀ x, ((lst eixV ![0, 0] inb_S2x512_S1x128_0_0).view.read (Elt F) e0 x).toNat < S100000x128.size gathers_S100000x128_S128x128.axis)
    (hinE1 : ∀ x, ((lst eixV ![0, 128] inb_S2x512_S1x128_0_128).view.read (Elt F) e0 x).toNat < S100000x128.size gathers_S100000x128_S128x128.axis)
    (hinP0 : ∀ x, ((lst pixV ![0, 0] inb_S2x512_S1x128_0_0).view.read (Elt F) p0 x).toNat < S1000x128.size gathers_S1000x128_S128x128.axis)
    (hinP1 : ∀ x, ((lst pixV ![0, 128] inb_S2x512_S1x128_0_128).view.read (Elt F) p0 x).toNat < S1000x128.size gathers_S1000x128_S128x128.axis) :
    iprop(Transfers.MayWaits (thr d L) (default : HIx 1) O
        ∗ ((teV).view.loc (thr d L) ↦{q1} A.te d) ∗ ((teV).view.loc (thr d L) ↦{q2} A.te d)
        ∗ ((shV).view.loc (thr d L) ↦{r1} shVal A d (cV L)) ∗ ((shV).view.loc (thr d L) ↦{r2} shVal A d (cV L))
        ∗ ((eixV).view.loc (thr d L) ↦{fullShare} e0) ∗ ((pixV).view.loc (thr d L) ↦{fullShare} p0)
        ∗ ((ebV).view.loc (thr d L) ↦{fullShare} fe) ∗ ((pbV).view.loc (thr d L) ↦{fullShare} fp)
        ∗ semVal (cellOf d L 10) 0 ∗ semVal (cellOf d L 11) 0 ∗ semVal (cellOf d L 12) 0 ∗ semVal (cellOf d L 13) 0
        ∗ owes (thr d L) O W)
      ⊢ wp frame (wpE (defs₀ (F := F)) 𝒱₀ (thr d L) none) Set.univ (k1_part51 (F := F) L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2)
          fun _ => iprop(flightE A d L 10 (hlf0 ebV) (lst eixV ![0, 0] inb_S2x512_S1x128_0_0) q1 fe e0 hinE0
            ∗ flightP A d L 12 (hlf0 pbV) (lst pixV ![0, 0] inb_S2x512_S1x128_0_0) r1 fp p0 hinP0
            ∗ (∃ fe1, flightE A d L 11 (hlf1 ebV) (lst eixV ![0, 128] inb_S2x512_S1x128_0_128) q2 fe1 e0 hinE1)
            ∗ (∃ fp1, flightP A d L 13 (hlf1 pbV) (lst pixV ![0, 128] inb_S2x512_S1x128_0_128) r2 fp1 p0 hinP1)
            ∗ teRest A d L q1 ∗ teRest A d L q2 ∗ shRest A d L r1 ∗ shRest A d L r2
            ∗ ((eixV).view.loc (thr d L) ↦[(Finset.univ \ (lst eixV ![0, 0] inb_S2x512_S1x128_0_0).view.set) \ (lst eixV ![0, 128] inb_S2x512_S1x128_0_128).view.set]{fullShare} e0)
            ∗ ((pixV).view.loc (thr d L) ↦[(Finset.univ \ (lst pixV ![0, 0] inb_S2x512_S1x128_0_0).view.set) \ (lst pixV ![0, 128] inb_S2x512_S1x128_0_128).view.set]{fullShare} p0)
            ∗ (∃ f, (ebV).view.loc (thr d L) ↦[(Finset.univ \ (hlf0 ebV).view.set) \ (hlf1 ebV).view.set]{fullShare} f)
            ∗ (∃ f, (pbV).view.loc (thr d L) ↦[(Finset.univ \ (hlf0 pbV).view.set) \ (hlf1 pbV).view.set]{fullShare} f)
            ∗ owes (thr d L) O W) := by
  rw [k1_part51_eq_skeleton]; unfold k1_part51_skel
  iintro ⟨#Hmw, Hte1, Hte2, Hsh1, Hsh2, Heix, Hpix, Heb, Hpb, Hs10, Hs11, Hs12, Hs13, HO⟩
  sl_exec
  sl_step
  isplitl [Hs10]; · iexact Hs10
  isplitl [Hs12]; · iexact Hs12
  isplitl [Hs11]; · iexists _; iexact Hs11
  isplitl [Hs13]; · iexists _; iexact Hs13
  isplitl [Hte1]; · iexact Hte1
  isplitl [Hte2]; · iexact Hte2
  isplitl [Hsh1]; · iexact Hsh1
  isplitl [Hsh2]; · iexact Hsh2
  isplitl [Heix]; · iexact Heix
  isplitl [Hpix]; · iexact Hpix
  isplitl [Heb]; · iexists _; iexact Heb
  isplitl [Hpb]; · iexists _; iexact Hpb
  iexact HO

end Cert.KernelIdeal.Run.Sc

end
-- ==== Proof.ScIface.lean ====
/-
  What the tile's trip needs of the four inner loops (one per chunk of a trip): holding the three row buffers — the
  half the loop works on, the other half possibly lent to a transfer in flight —, the loop leaves the sum buffer's
  half at the lanewise sum of the two gathered halves and everything else as it was. Stated as propositions, for the
  module that proves them.
-/
import proofs.«204385_g66649302499670_cont_9to1c4b_43_34_alg».proof.Proof.ScViews

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F]

/-- Half `b` of a row buffer, as the gathers and copy-outs name it. -/
abbrev half0 (M : Memref sig .scVector .vmem S2x128x128 .f32) : Memref sig .scVector .vmem S128x128 .f32 :=
  (M.slice (Rect.unit (s := S2x128x128) ![0, 0, 0] S1x128x128.size inb_S2x128x128_S1x128x128_0_0_0) (fun _ => rfl)).squeeze S128x128 squeezes_S1x128x128_S128x128
abbrev half1 (M : Memref sig .scVector .vmem S2x128x128 .f32) : Memref sig .scVector .vmem S128x128 .f32 :=
  (M.slice (Rect.unit (s := S2x128x128) ![1, 0, 0] S1x128x128.size inb_S2x128x128_S1x128x128_1_0_0) (fun _ => rfl)).squeeze S128x128 squeezes_S1x128x128_S128x128

/-- The sum buffer after the loop on half `bb`: that half the lanewise sum, the rest unchanged. -/
def addHalf (bb : ℕ) (fe fp fo : S2x128x128.Idx → Elt F .f32) : S2x128x128.Idx → Elt F .f32 :=
  fun i => if (i 0).val = bb then FloatOps.addf (φ := .f32) (fe i) (fp i) else fo i

/-- The sets a row buffer may be held on when a loop runs: whole, or all but the OTHER half's window (lent to a flight). -/
def HeldOn (M : Memref sig .scVector .vmem S2x128x128 .f32) (d : Dev nD) (L : grid1.Coords)
    (other : Finset (Idx (M.view.loc (thr d L)))) (S : Finset (Idx (M.view.loc (thr d L)))) : Prop :=
  S = Finset.univ ∨ S = M.view.set \ other

section
variable (d : Dev nD) (L : grid1.Coords) (v2 : BitVec 32) (k1_t1 : Fin k1_t1_loop.trips)

/-- The rule for a loop `lp` working on half `bb` (the other half's windows `oe`, `op`, `oo`). -/
def AddLoopRule (bb : ℕ) (oe : Finset (Idx ((ebV).view.loc (thr d L)))) (op : Finset (Idx ((pbV).view.loc (thr d L)))) (oo : Finset (Idx ((obV).view.loc (thr d L))))
    (lp : Prog (TpuEff nD τ sig (Elt F) Λ₀ (.scVector ((L 0).castLE hcore1) ((L 1).castLE hsub1))) Unit) : Prop :=
  ∀ (Se : Finset (Idx ((ebV).view.loc (thr d L)))) (Sp : Finset (Idx ((pbV).view.loc (thr d L)))) (So : Finset (Idx ((obV).view.loc (thr d L))))
    (_ : HeldOn ebV d L oe Se) (_ : HeldOn pbV d L op Sp) (_ : HeldOn obV d L oo So)
    (fe : Buf (Elt F) ((ebV).view.loc (thr d L))) (fp : Buf (Elt F) ((pbV).view.loc (thr d L))) (fo : Buf (Elt F) ((obV).view.loc (thr d L)))
    {α : Type} (k : Unit → Prog (TpuEff nD τ sig (Elt F) Λ₀ (.scVector ((L 0).castLE hcore1) ((L 1).castLE hsub1))) α) (Q : α → sProp 𝕄),
    iprop(((ebV).view.loc (thr d L) ↦[Se]{fullShare} fe) ∗ ((pbV).view.loc (thr d L) ↦[Sp]{fullShare} fp) ∗ ((obV).view.loc (thr d L) ↦[So]{fullShare} fo)
        ∗ (iprop(((ebV).view.loc (thr d L) ↦[Se]{fullShare} fe) ∗ ((pbV).view.loc (thr d L) ↦[Sp]{fullShare} fp)
              ∗ ((obV).view.loc (thr d L) ↦[So]{fullShare} addHalf bb fe fp fo))
            -∗ wp frame (wpE (defs₀ (F := F)) 𝒱₀ (thr d L) none) Set.univ (k ()) Q))
      ⊢ wp frame (wpE (defs₀ (F := F)) 𝒱₀ (thr d L) none) Set.univ (lp >>= k) Q

/-- Chunk 0 of a trip (half 0), chunk 1 (half 1), chunk 2 (half 0), chunk 3 (half 1): the loops as the trip's parts call them. -/
def AddLoop_sub0 : Prop := ∀ arg17 v81 : BitVec 32, AddLoopRule (F := F) d L 0 (half1 ebV).view.set (half1 pbV).view.set (half1 obV).view.set
  (Scf.Loop.for k1_t2_loop k1_t2_ok ⟨⟩ (k1_t2_body L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2 k1_t1 arg17 v81))
def AddLoop_sub1 : Prop := ∀ arg17 v115 : BitVec 32, AddLoopRule (F := F) d L 1 (half0 ebV).view.set (half0 pbV).view.set (half0 obV).view.set
  (Scf.Loop.for k1_t3_loop k1_t3_ok ⟨⟩ (k1_t3_body L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2 k1_t1 arg17 v115))
def AddLoop_sub2 : Prop := ∀ v149 : BitVec 32, AddLoopRule (F := F) d L 0 (half1 ebV).view.set (half1 pbV).view.set (half1 obV).view.set
  (Scf.Loop.for k1_t4_loop k1_t4_ok ⟨⟩ (k1_t4_body L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2 k1_t1 v149))
def AddLoop_sub3 : Prop := ∀ (arg17 : BitVec 32) (v179 : BitVec 1), AddLoopRule (F := F) d L 1 (half0 ebV).view.set (half0 pbV).view.set (half0 obV).view.set
  (Scf.Loop.for k1_t5_loop k1_t5_ok ⟨⟩ (k1_t5_body L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2 k1_t1 arg17 v179))
end

end Cert.KernelIdeal.Run.Sc

end
-- ==== Proof.ScArith.lean ====
/-
  The trip's conditions and parity-dependent offsets in closed form: which waits and issues a trip makes, and which
  id slot, quarter and cell they name, as functions of the trip number.
-/
import proofs.«204385_g66649302499670_cont_9to1c4b_43_34_alg».proof.Proof.ScViews

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

theorem trips_eq : k1_t1_loop.trips = 50 := rfl

theorem cond2_iff : ∀ t : Fin k1_t1_loop.trips, k1_cond2 t = 1#1 ↔ 1 ≤ t.val := by decide +kernel
theorem cond3_true : ∀ t : Fin k1_t1_loop.trips, k1_cond3 t = 1#1 := by decide +kernel
theorem cond4_iff : ∀ t : Fin k1_t1_loop.trips, k1_cond4 t = 1#1 ↔ 1 ≤ t.val := by decide +kernel
theorem cond5_true : ∀ t : Fin k1_t1_loop.trips, k1_cond5 t = 1#1 := by decide +kernel
theorem cond6_true : ∀ t : Fin k1_t1_loop.trips, k1_cond6 t = 1#1 := by decide +kernel
theorem cond7_iff : ∀ t : Fin k1_t1_loop.trips, k1_cond7 t = 1#1 ↔ t.val < 49 := by decide +kernel
theorem cond8_true : ∀ t : Fin k1_t1_loop.trips, k1_cond8 t = 1#1 := by decide +kernel
theorem cond9_iff : ∀ t : Fin k1_t1_loop.trips, k1_cond9 t = 1#1 ↔ t.val < 48 := by decide +kernel
theorem cond10_iff : ∀ t : Fin k1_t1_loop.trips, k1_cond10 t = 1#1 ↔ t.val < 49 := by decide +kernel

theorem off14_eq : ∀ t : Fin k1_t1_loop.trips, k1_off14 t = ![t.val % 2, 256] := by decide +kernel
theorem off25_eq : ∀ t : Fin k1_t1_loop.trips, k1_off25 t = ![t.val % 2, 384] := by decide +kernel
theorem off36_eq : ∀ t : Fin k1_t1_loop.trips, k1_off36 t = ![(t.val + 1) % 2, 0] := by decide +kernel
theorem off38_eq : ∀ t : Fin k1_t1_loop.trips, k1_off38 t = ![(t.val + 1) % 2] := by decide +kernel
theorem off39_eq : ∀ t : Fin k1_t1_loop.trips, k1_off39 t = ![(t.val + 1) % 2, 0] := by decide +kernel
theorem off42_eq : ∀ t : Fin k1_t1_loop.trips, k1_off42 t = ![t.val % 2, 0] := by decide +kernel
theorem off44_eq : ∀ t : Fin k1_t1_loop.trips, k1_off44 t = ![t.val % 2] := by decide +kernel
theorem off53_eq : ∀ t : Fin k1_t1_loop.trips, k1_off53 t = ![(t.val + 1) % 2, 128] := by decide +kernel

end Cert.KernelIdeal.Run.Sc

end
-- ==== Proof.ScTrip.lean ====
/-
  The tile's loop: what the tile holds between two trips of its 50-trip loop (the invariant), and one trip.

  At the start of trip k the gathers of chunks 4k and 4k+1 are in flight (one per cell of esem / psem) into the halves
  of ebufs / pbufs, by the first two quarters of id slot k % 2; the next trip's 512 ids of both kinds are in flight
  into slot (k+1) % 2 as ONE batch of two copies on isem[(k+1) % 2] (trips 0–48); the copy-outs of chunks 4k-2 and
  4k-1 are in flight out of the halves of obufs on wsem[0] / wsem[1] (trips ≥ 1), their chunks of the result already
  counted as holding the looked-up sums; the chunks below 4k-2 hold them; those from 4k on are untouched.
-/
import proofs.«204385_g66649302499670_cont_9to1c4b_43_34_alg».proof.Proof.ScProlog
import proofs.«204385_g66649302499670_cont_9to1c4b_43_34_alg».proof.Proof.ScIface
import proofs.«204385_g66649302499670_cont_9to1c4b_43_34_alg».proof.Proof.ScArith

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F] (A : Vals F) (d : Dev nD) (L : grid1.Coords)

/-! ## Pieces named by a trip (every memref at literal offsets: a trip's parity chooses among them) -/

theorem linb_0_0 : ∀ a, (![0, 0] : Fin 2 → ℕ) a + S1x128.size a ≤ S2x512.size a := by decide
theorem linb_0_128 : ∀ a, (![0, 128] : Fin 2 → ℕ) a + S1x128.size a ≤ S2x512.size a := by decide
theorem linb_0_256 : ∀ a, (![0, 256] : Fin 2 → ℕ) a + S1x128.size a ≤ S2x512.size a := by decide
theorem linb_0_384 : ∀ a, (![0, 384] : Fin 2 → ℕ) a + S1x128.size a ≤ S2x512.size a := by decide
theorem linb_1_0 : ∀ a, (![1, 0] : Fin 2 → ℕ) a + S1x128.size a ≤ S2x512.size a := by decide
theorem linb_1_128 : ∀ a, (![1, 128] : Fin 2 → ℕ) a + S1x128.size a ≤ S2x512.size a := by decide
theorem linb_1_256 : ∀ a, (![1, 256] : Fin 2 → ℕ) a + S1x128.size a ≤ S2x512.size a := by decide
theorem linb_1_384 : ∀ a, (![1, 384] : Fin 2 → ℕ) a + S1x128.size a ≤ S2x512.size a := by decide

/-- Slot 1 of an id scratch as a 512-list (slot 0 is `slot0`). -/
abbrev slot1 (M : Memref sig .scVector .vmem S2x512 .i32) : Memref sig .scVector .vmem S512 .i32 :=
  (M.slice (Rect.unit (s := S2x512) ![1, 0] S1x512.size inb_S2x512_S1x512_1_0) (fun _ => rfl)).squeeze S512 squeezes_S1x512_S512

/-- Chunk `n` (128 rows) of the worker's slab of the result. -/
def chunkOff (n : ℕ) : Fin 2 → ℕ := ![51200 * (L 1).val + 25600 * (L 0).val + 128 * n, 0]
theorem chunkInb (n : ℕ) (hn : n < 200) : ∀ a, chunkOff L n a + S128x128.size a ≤ S819200x128.size a := by
  have h0 : (L 0).val < 2 := (L 0).isLt
  have h1 : (L 1).val < 16 := (L 1).isLt
  intro a; match a with
  | 0 => show 51200 * (L 1).val + 25600 * (L 0).val + 128 * n + 128 ≤ 819200; omega
  | 1 => show 0 + 128 ≤ 128; omega
abbrev chunkV (n : ℕ) (hn : n < 200) : Memref sig .scVector .hbm S128x128 .f32 :=
  (outV).slice (Rect.unit (s := S819200x128) (chunkOff L n) S128x128.size (chunkInb L n hn)) (fun _ => rfl)

/-- 512 ids of a flat id array from position `off` on. -/
def idsOff (k : ℕ) : Fin 1 → ℕ := ![51200 * (L 1).val + 25600 * (L 0).val + 512 * k]
theorem idsInb (k : ℕ) (hk : k < 50) : ∀ a, idsOff L k a + S512.size a ≤ S819200.size a := by
  have h0 : (L 0).val < 2 := (L 0).isLt
  have h1 : (L 1).val < 16 := (L 1).isLt
  intro a; match a with
  | 0 => show 51200 * (L 1).val + 25600 * (L 0).val + 512 * k + 512 ≤ 819200; omega
abbrev idsV (M : Memref sig .scVector .hbm S819200 .i32) (k : ℕ) (hk : k < 50) : Memref sig .scVector .hbm S512 .i32 :=
  M.slice (Rect.unit (s := S819200) (idsOff L k) S512.size (idsInb L k hk)) (fun _ => rfl)

/-! ## The invariant -/

/-- The four lists of a trip's first two chunks (slot 0) name rows of the tables. -/
def ListsOK0 (e : Buf (Elt F) ((eixV).view.loc (thr d L))) (p : Buf (Elt F) ((pixV).view.loc (thr d L))) : Prop :=
  (∀ x, ((lst eixV ![0, 0] linb_0_0).view.read (Elt F) e x).toNat < S100000x128.size gathers_S100000x128_S128x128.axis)
  ∧ (∀ x, ((lst eixV ![0, 128] linb_0_128).view.read (Elt F) e x).toNat < S100000x128.size gathers_S100000x128_S128x128.axis)
  ∧ (∀ x, ((lst pixV ![0, 0] linb_0_0).view.read (Elt F) p x).toNat < S1000x128.size gathers_S1000x128_S128x128.axis)
  ∧ (∀ x, ((lst pixV ![0, 128] linb_0_128).view.read (Elt F) p x).toNat < S1000x128.size gathers_S1000x128_S128x128.axis)

/-- Slot 0 of both id scratches holds trip `k`'s ids. -/
def SlotVals0 (e : Buf (Elt F) ((eixV).view.loc (thr d L))) (p : Buf (Elt F) ((pixV).view.loc (thr d L))) (k : ℕ) (hk : k < 50) : Prop :=
  (∀ x, (slot0 eixV).view.read (Elt F) e x = (idsV L eidV k hk).view.read (Elt F) (A.eid d) x)
  ∧ (∀ x, (slot0 pixV).view.read (Elt F) p x = (idsV L pidV k hk).view.read (Elt F) (A.pid d) x)

/-- The gathers of chunks 4k and 4k+1 in flight by the first two quarters of slot 0, and what is left in hand of
    what they borrow; after the last trip, everything back. -/
def gatherPart0 (q1 q2 r1 r2 : PosShare TreeShare) (k : ℕ) : sProp 𝕄 :=
  if hk : k < 50 then
    iprop(∃ (e : Buf (Elt F) ((eixV).view.loc (thr d L))) (p : Buf (Elt F) ((pixV).view.loc (thr d L)))
        (h : PLift (ListsOK0 d L e p)),
      ⌜SlotVals0 A d L e p k hk⌝
      ∗ (∃ fe, flightE A d L 10 (hlf0 ebV) (lst eixV ![0, 0] linb_0_0) q1 fe e h.down.1)
      ∗ (∃ fe, flightE A d L 11 (hlf1 ebV) (lst eixV ![0, 128] linb_0_128) q2 fe e h.down.2.1)
      ∗ (∃ fp, flightP A d L 12 (hlf0 pbV) (lst pixV ![0, 0] linb_0_0) r1 fp p h.down.2.2.1)
      ∗ (∃ fp, flightP A d L 13 (hlf1 pbV) (lst pixV ![0, 128] linb_0_128) r2 fp p h.down.2.2.2)
      ∗ teRest A d L q1 ∗ teRest A d L q2 ∗ shRest A d L r1 ∗ shRest A d L r2
      ∗ ((slot0 eixV).view.loc (thr d L)
            ↦[((slot0 eixV).view.set \ (lst eixV ![0, 0] linb_0_0).view.set) \ (lst eixV ![0, 128] linb_0_128).view.set]{fullShare} e)
      ∗ ((slot0 pixV).view.loc (thr d L)
            ↦[((slot0 pixV).view.set \ (lst pixV ![0, 0] linb_0_0).view.set) \ (lst pixV ![0, 128] linb_0_128).view.set]{fullShare} p)
      ∗ (∃ f, (ebV).view.loc (thr d L) ↦[(Finset.univ \ (hlf0 ebV).view.set) \ (hlf1 ebV).view.set]{fullShare} f)
      ∗ (∃ f, (pbV).view.loc (thr d L) ↦[(Finset.univ \ (hlf0 pbV).view.set) \ (hlf1 pbV).view.set]{fullShare} f))
  else
    iprop(((teV).view.loc (thr d L) ↦{q1} A.te d) ∗ ((teV).view.loc (thr d L) ↦{q2} A.te d)
      ∗ ((shV).view.loc (thr d L) ↦{r1} shVal A d (cV L)) ∗ ((shV).view.loc (thr d L) ↦{r2} shVal A d (cV L))
      ∗ (∃ e, (slot0 eixV).view.loc (thr d L) ↦[(slot0 eixV).view.set]{fullShare} e)
      ∗ (∃ p, (slot0 pixV).view.loc (thr d L) ↦[(slot0 pixV).view.set]{fullShare} p)
      ∗ (∃ f, (ebV).view.loc (thr d L) ↦{fullShare} f) ∗ (∃ f, (pbV).view.loc (thr d L) ↦{fullShare} f)
      ∗ semVal (cellOf d L 10) 0 ∗ semVal (cellOf d L 11) 0 ∗ semVal (cellOf d L 12) 0 ∗ semVal (cellOf d L 13) 0)

/-- The four lists of a trip's first two chunks (slot 1) name rows of the tables. -/
def ListsOK1 (e : Buf (Elt F) ((eixV).view.loc (thr d L))) (p : Buf (Elt F) ((pixV).view.loc (thr d L))) : Prop :=
  (∀ x, ((lst eixV ![1, 0] linb_1_0).view.read (Elt F) e x).toNat < S100000x128.size gathers_S100000x128_S128x128.axis)
  ∧ (∀ x, ((lst eixV ![1, 128] linb_1_128).view.read (Elt F) e x).toNat < S100000x128.size gathers_S100000x128_S128x128.axis)
  ∧ (∀ x, ((lst pixV ![1, 0] linb_1_0).view.read (Elt F) p x).toNat < S1000x128.size gathers_S1000x128_S128x128.axis)
  ∧ (∀ x, ((lst pixV ![1, 128] linb_1_128).view.read (Elt F) p x).toNat < S1000x128.size gathers_S1000x128_S128x128.axis)

/-- Slot 1 of both id scratches holds trip `k`'s ids. -/
def SlotVals1 (e : Buf (Elt F) ((eixV).view.loc (thr d L))) (p : Buf (Elt F) ((pixV).view.loc (thr d L))) (k : ℕ) (hk : k < 50) : Prop :=
  (∀ x, (slot1 eixV).view.read (Elt F) e x = (idsV L eidV k hk).view.read (Elt F) (A.eid d) x)
  ∧ (∀ x, (slot1 pixV).view.read (Elt F) p x = (idsV L pidV k hk).view.read (Elt F) (A.pid d) x)

/-- The gathers of chunks 4k and 4k+1 in flight by the first two quarters of slot 1, and what is left in hand of
    what they borrow; after the last trip, everything back. -/
def gatherPart1 (q1 q2 r1 r2 : PosShare TreeShare) (k : ℕ) : sProp 𝕄 :=
  if hk : k < 50 then
    iprop(∃ (e : Buf (Elt F) ((eixV).view.loc (thr d L))) (p : Buf (Elt F) ((pixV).view.loc (thr d L)))
        (h : PLift (ListsOK1 d L e p)),
      ⌜SlotVals1 A d L e p k hk⌝
      ∗ (∃ fe, flightE A d L 10 (hlf0 ebV) (lst eixV ![1, 0] linb_1_0) q1 fe e h.down.1)
      ∗ (∃ fe, flightE A d L 11 (hlf1 ebV) (lst eixV ![1, 128] linb_1_128) q2 fe e h.down.2.1)
      ∗ (∃ fp, flightP A d L 12 (hlf0 pbV) (lst pixV ![1, 0] linb_1_0) r1 fp p h.down.2.2.1)
      ∗ (∃ fp, flightP A d L 13 (hlf1 pbV) (lst pixV ![1, 128] linb_1_128) r2 fp p h.down.2.2.2)
      ∗ teRest A d L q1 ∗ teRest A d L q2 ∗ shRest A d L r1 ∗ shRest A d L r2
      ∗ ((slot1 eixV).view.loc (thr d L)
            ↦[((slot1 eixV).view.set \ (lst eixV ![1, 0] linb_1_0).view.set) \ (lst eixV ![1, 128] linb_1_128).view.set]{fullShare} e)
      ∗ ((slot1 pixV).view.loc (thr d L)
            ↦[((slot1 pixV).view.set \ (lst pixV ![1, 0] linb_1_0).view.set) \ (lst pixV ![1, 128] linb_1_128).view.set]{fullShare} p)
      ∗ (∃ f, (ebV).view.loc (thr d L) ↦[(Finset.univ \ (hlf0 ebV).view.set) \ (hlf1 ebV).view.set]{fullShare} f)
      ∗ (∃ f, (pbV).view.loc (thr d L) ↦[(Finset.univ \ (hlf0 pbV).view.set) \ (hlf1 pbV).view.set]{fullShare} f))
  else
    iprop(((teV).view.loc (thr d L) ↦{q1} A.te d) ∗ ((teV).view.loc (thr d L) ↦{q2} A.te d)
      ∗ ((shV).view.loc (thr d L) ↦{r1} shVal A d (cV L)) ∗ ((shV).view.loc (thr d L) ↦{r2} shVal A d (cV L))
      ∗ (∃ e, (slot1 eixV).view.loc (thr d L) ↦[(slot1 eixV).view.set]{fullShare} e)
      ∗ (∃ p, (slot1 pixV).view.loc (thr d L) ↦[(slot1 pixV).view.set]{fullShare} p)
      ∗ (∃ f, (ebV).view.loc (thr d L) ↦{fullShare} f) ∗ (∃ f, (pbV).view.loc (thr d L) ↦{fullShare} f)
      ∗ semVal (cellOf d L 10) 0 ∗ semVal (cellOf d L 11) 0 ∗ semVal (cellOf d L 12) 0 ∗ semVal (cellOf d L 13) 0)

/-- The batch of two id copies in flight into the 512-slots `SE`, `SP` of the two id scratches on cell `sm`, out of the
    512 ids at `off` of the two flat arrays; kept parametric in the offset's spelling (the printed offset functions and
    `idsOff` are equal, not syntactically so). -/
abbrev idsBatch (sm : DmaSem sig) (SE SP : Memref sig .scVector .vmem S512 .i32) (qi : PosShare TreeShare)
    (off : Fin 1 → ℕ) (h : ∀ a, off a + S512.size a ≤ S819200.size a)
    (e : Buf (Elt F) (SE.view.loc (thr d L))) (p : Buf (Elt F) (SP.view.loc (thr d L))) (pe pp : S512.Idx → Elt F .i32) : sProp 𝕄 :=
  Transfers.Batched countersEmb (thr d L) (SemLoc.dma sm) (default : HIx 1) 16384 2
    [iprop((SE.view.loc (thr d L) ↦[SE.view.set]{fullShare} SE.view.writes (Elt F) e [⟨Rect.whole S512, pe⟩])
        ∗ ((eidV).view.loc (thr d L) ↦[((eidV).slice (Rect.unit (s := S819200) off S512.size h) (fun _ => rfl)).view.set]{qi} A.eid d)),
     iprop((SP.view.loc (thr d L) ↦[SP.view.set]{fullShare} SP.view.writes (Elt F) p [⟨Rect.whole S512, pp⟩])
        ∗ ((pidV).view.loc (thr d L) ↦[((pidV).slice (Rect.unit (s := S819200) off S512.size h) (fun _ => rfl)).view.set]{qi} A.pid d))] 0

/-- What is left in hand of the id arrays' read shares meanwhile. -/
abbrev idsRest (qi : PosShare TreeShare) (off : Fin 1 → ℕ) (h : ∀ a, off a + S512.size a ≤ S819200.size a) : sProp 𝕄 :=
  iprop(((eidV).view.loc (thr d L) ↦[Finset.univ \ ((eidV).slice (Rect.unit (s := S819200) off S512.size h) (fun _ => rfl)).view.set]{qi} A.eid d)
    ∗ ((pidV).view.loc (thr d L) ↦[Finset.univ \ ((pidV).slice (Rect.unit (s := S819200) off S512.size h) (fun _ => rfl)).view.set]{qi} A.pid d))

/-- The 512 ids at `off` as a copy delivers them. -/
abbrev idsPayAt (M : Memref sig .scVector .hbm S819200 .i32) (fid : Buf (Elt F) (M.view.loc (thr d L)))
    (off : Fin 1 → ℕ) (h : ∀ a, off a + S512.size a ≤ S819200.size a) : S512.Idx → Elt F .i32 :=
  ReadAs.same.apply (View.read (Elt F) (M.slice (Rect.unit (s := S819200) off S512.size h) (fun _ => rfl)).view fid)

theorem idsBatch_congr (sm : DmaSem sig) (SE SP : Memref sig .scVector .vmem S512 .i32) (qi : PosShare TreeShare)
    {off off' : Fin 1 → ℕ} (eq : off = off') (h : ∀ a, off a + S512.size a ≤ S819200.size a) (h' : ∀ a, off' a + S512.size a ≤ S819200.size a)
    (e : Buf (Elt F) (SE.view.loc (thr d L))) (p : Buf (Elt F) (SP.view.loc (thr d L))) (pe pp : S512.Idx → Elt F .i32) :
    idsBatch A d L sm SE SP qi off h e p pe pp = idsBatch A d L sm SE SP qi off' h' e p pe pp := by subst eq; rfl
theorem idsRest_congr (qi : PosShare TreeShare) {off off' : Fin 1 → ℕ} (eq : off = off')
    (h : ∀ a, off a + S512.size a ≤ S819200.size a) (h' : ∀ a, off' a + S512.size a ≤ S819200.size a) :
    idsRest A d L qi off h = idsRest A d L qi off' h' := by subst eq; rfl
omit [FloatOps F] in
theorem idsPayAt_congr (M : Memref sig .scVector .hbm S819200 .i32) (fid : Buf (Elt F) (M.view.loc (thr d L))) {off off' : Fin 1 → ℕ} (eq : off = off')
    (h : ∀ a, off a + S512.size a ≤ S819200.size a) (h' : ∀ a, off' a + S512.size a ≤ S819200.size a) :
    idsPayAt d L M fid off h = idsPayAt d L M fid off' h' := by subst eq; rfl

/-- The next trip's ids in flight into slot 0, as one batch of two copies on cell isem[0]; isem[1] at rest.
    From trip 49 on nothing is in flight. -/
def idsPart0 (qi : PosShare TreeShare) (k : ℕ) : sProp 𝕄 :=
  if hk : k + 1 < 50 then
    iprop(∃ (e : Buf (Elt F) ((eixV).view.loc (thr d L))) (p : Buf (Elt F) ((pixV).view.loc (thr d L))),
      idsBatch A d L (8 : DmaSem sig) (slot0 eixV) (slot0 pixV) qi (idsOff L (k + 1)) (idsInb L (k + 1) hk) e p
          (idsPayAt d L eidV (A.eid d) (idsOff L (k + 1)) (idsInb L (k + 1) hk)) (idsPayAt d L pidV (A.pid d) (idsOff L (k + 1)) (idsInb L (k + 1) hk))
      ∗ idsRest A d L qi (idsOff L (k + 1)) (idsInb L (k + 1) hk)
      ∗ semVal (cellOf d L 9) 0)
  else
    iprop(((eidV).view.loc (thr d L) ↦{qi} A.eid d) ∗ ((pidV).view.loc (thr d L) ↦{qi} A.pid d)
      ∗ (∃ e, (slot0 eixV).view.loc (thr d L) ↦[(slot0 eixV).view.set]{fullShare} e)
      ∗ (∃ p, (slot0 pixV).view.loc (thr d L) ↦[(slot0 pixV).view.set]{fullShare} p)
      ∗ semVal (cellOf d L 8) 0 ∗ semVal (cellOf d L 9) 0)

/-- The next trip's ids in flight into slot 1, as one batch of two copies on cell isem[1]; isem[0] at rest.
    From trip 49 on nothing is in flight. -/
def idsPart1 (qi : PosShare TreeShare) (k : ℕ) : sProp 𝕄 :=
  if hk : k + 1 < 50 then
    iprop(∃ (e : Buf (Elt F) ((eixV).view.loc (thr d L))) (p : Buf (Elt F) ((pixV).view.loc (thr d L))),
      idsBatch A d L (9 : DmaSem sig) (slot1 eixV) (slot1 pixV) qi (idsOff L (k + 1)) (idsInb L (k + 1) hk) e p
          (idsPayAt d L eidV (A.eid d) (idsOff L (k + 1)) (idsInb L (k + 1) hk)) (idsPayAt d L pidV (A.pid d) (idsOff L (k + 1)) (idsInb L (k + 1) hk))
      ∗ idsRest A d L qi (idsOff L (k + 1)) (idsInb L (k + 1) hk)
      ∗ semVal (cellOf d L 8) 0)
  else
    iprop(((eidV).view.loc (thr d L) ↦{qi} A.eid d) ∗ ((pidV).view.loc (thr d L) ↦{qi} A.pid d)
      ∗ (∃ e, (slot1 eixV).view.loc (thr d L) ↦[(slot1 eixV).view.set]{fullShare} e)
      ∗ (∃ p, (slot1 pixV).view.loc (thr d L) ↦[(slot1 pixV).view.set]{fullShare} p)
      ∗ semVal (cellOf d L 8) 0 ∗ semVal (cellOf d L 9) 0)

/-- By the trip's parity: trip `k` gathers by slot `k % 2` while slot `(k + 1) % 2` is being filled. -/
def gatherPart (q1 q2 r1 r2 : PosShare TreeShare) (k : ℕ) : sProp 𝕄 :=
  if k % 2 = 0 then gatherPart0 A d L q1 q2 r1 r2 k else gatherPart1 A d L q1 q2 r1 r2 k
def idsPart (qi : PosShare TreeShare) (k : ℕ) : sProp 𝕄 :=
  if k % 2 = 0 then idsPart1 A d L qi k else idsPart0 A d L qi k

/-- A copy-out of half `H` of `obufs` to chunk `n` in flight on cell `sm`: its wait hands back the chunk holding the
    looked-up sums and the half. -/
abbrev flightO (sm : DmaSem sig) (H : Memref sig .scVector .vmem S128x128 .f32) (n : ℕ) (hn : n < 200)
    (fo : Buf (Elt F) (H.view.loc (thr d L))) : sProp 𝕄 :=
  Transfers.Flight countersEmb (thr d L) (SemLoc.dma sm) (default : HIx 1) 524288
    iprop(((chunkV L n hn).view.loc (thr d L) ↦[(chunkV L n hn).view.set]{fullShare} outFin A d)
        ∗ (H.view.loc (thr d L) ↦[H.view.set]{fullShare} fo))

/-- The result so far and the sum buffer. -/
def outPart (k : ℕ) : sProp 𝕄 :=
  iprop((bigSep (Finset.univ : Finset (Fin 200)) fun n =>
        if 4 * k ≤ n.val then iprop((chunkV L n.val n.isLt).view.loc (thr d L) ↦[(chunkV L n.val n.isLt).view.set]{fullShare} A.out0 d)
        else if n.val + 2 < 4 * k then iprop((chunkV L n.val n.isLt).view.loc (thr d L) ↦[(chunkV L n.val n.isLt).view.set]{fullShare} outFin A d)
        else iprop(emp))
    ∗ (if hk : 1 ≤ k ∧ k ≤ 50 then
        iprop((∃ fo, flightO A d L 14 (hlf0 obV) (4 * k - 2) (by have := hk.1; have := hk.2; omega) fo) ∗ (∃ fo, flightO A d L 15 (hlf1 obV) (4 * k - 1) (by have := hk.1; have := hk.2; omega) fo)
          ∗ (∃ f, (obV).view.loc (thr d L) ↦[(Finset.univ \ (hlf0 obV).view.set) \ (hlf1 obV).view.set]{fullShare} f))
      else iprop((∃ f, (obV).view.loc (thr d L) ↦{fullShare} f) ∗ semVal (cellOf d L 14) 0 ∗ semVal (cellOf d L 15) 0)))

variable (q1 q2 r1 r2 qi : PosShare TreeShare)

/-- What the tile holds between trips `k - 1` and `k`. -/
def inv (O : CellTallies nD τ sig (HIx 1)) (W : Waits sig (HIx 1)) (k : ℕ) (_ : PUnit) : sProp 𝕄 :=
  iprop(Transfers.MayWaits (thr d L) (default : HIx 1) O
    ∗ gatherPart A d L q1 q2 r1 r2 k ∗ idsPart A d L qi k ∗ outPart A d L k
    ∗ ∃ W', ⌜∀ p ∈ W', p ∈ W ∨ p.2 = none⌝ ∗ owes (thr d L) O W')

end Cert.KernelIdeal.Run.Sc

end
-- ==== Proof.ScFacts.lean ====
/-
  Pure facts the tile's trip needs.

  THE VALUE OF A CHUNK. A chunk is 128 consecutive rows of the result, from row `r0` on. The two gathers that serve it
  read rows of the transformed element table and of the transformed property table by two lists of 128 words, which
  hold the flat element ids and property ids of rows `r0 … r0 + 127`; the sum of the two gathered 128 × 128 blocks,
  lane by lane, is the result's rows `r0 … r0 + 127`.
-/
import proofs.«204385_g66649302499670_cont_9to1c4b_43_34_alg».proof.Proof.ScProlog
import proofs.«204385_g66649302499670_cont_9to1c4b_43_34_alg».proof.Proof.ScIface
import Idealize.ShloMosaic.Lib.Pipeline.Value

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## A gather along the leading axis, at an index -/

/-- Entry `k` of a rank-one list's rows is the list's word at `k`. -/
theorem rows_val (le : S128.Idx → Elt F .i32) {z : ℕ} (h : ∀ x, (le x).toNat < z) (k : Fin 128) :
    (SparseCore.rows (si := S128) le rfl h k).val = (le (ix1 k)).toNat := by
  unfold SparseCore.rows
  show (le _).toNat = (le (ix1 k)).toNat
  refine congrArg (fun x => (le x).toNat) ?_
  funext a; apply Fin.ext
  match a with
  | ⟨0, _⟩ =>
    have h1 := Shape.rowMajor_val_one (S128.rowMajor.symm (k.cast (rfl : 128 = S128.numel)))
    rw [Equiv.apply_symm_apply] at h1
    exact h1.symm

/-- A gather of rows of a two-axis table along its leading axis reads, at (x, j), the table at (row x, j). -/
theorem gather2_apply {z : ℕ} {e : EltTy} (hg : (⟨2, ![z, 128]⟩ : Shape).Gathers 0 S128x128) (g : (⟨2, ![z, 128]⟩ : Shape).Idx → Elt F e)
    (r : Fin 128 → Fin z) (y : S128x128.Idx) :
    SparseCore.gatherPayload hg g r y = g (ix2 (r (y 0)) (y 1)) := by
  unfold SparseCore.gatherPayload
  refine congrArg g ?_
  funext b; apply Fin.ext
  match b with
  | ⟨0, _⟩ => exact congrArg Fin.val (hg.idx_axis r y)
  | ⟨1, _⟩ => exact hg.idx_of_ne r y 1 (Nat.succ_ne_zero 0)

/-! ## The value of a chunk -/

variable [FloatOps F]

/-- THE CHUNK'S VALUE: with the two lists holding the flat ids of rows `r0 + x` and naming rows of the tables, the lanewise
    sum of the two gathered blocks is the result's rows from `r0` on. -/
theorem gather_sum_eq_outVal (te : Vec F S100000x128 .f32) (tp : Vec F S1000x128 .f32) (eid pid : Vec F S819200 .i32)
    (hgE : S100000x128.Gathers 0 S128x128) (hgP : S1000x128.Gathers 0 S128x128)
    (r0 : ℕ) (hr0 : r0 + 128 ≤ 819200) (le lp : S128.Idx → Elt F .i32)
    (hle : ∀ x : Fin 128, le (ix1 x) = eid (ix1 (⟨r0 + x.val, by omega⟩ : Fin 819200)))
    (hlp : ∀ x : Fin 128, lp (ix1 x) = pid (ix1 (⟨r0 + x.val, by omega⟩ : Fin 819200)))
    (hinE : ∀ x, (le x).toNat < S100000x128.size hgE.axis) (hinP : ∀ x, (lp x).toNat < S1000x128.size hgP.axis)
    (y : S128x128.Idx) :
    FloatOps.addf (φ := .f32) (SparseCore.gatherPayload hgE te (SparseCore.rows le rfl hinE) y)
        (SparseCore.gatherPayload hgP tp (SparseCore.rows lp rfl hinP) y)
      = outVal te tp eid pid (ix2 (⟨r0 + (y 0).val, by have := idx2_lt0 y; omega⟩ : Fin 819200) (y 1)) := by
  have hy : (y 0).val < 128 := idx2_lt0 y
  have e1 := gather2_apply (z := 100000) hgE te (SparseCore.rows le rfl hinE) y
  have e2 := gather2_apply (z := 1000) hgP tp (SparseCore.rows lp rfl hinP) y
  refine (congrArg₂ (FloatOps.addf (φ := .f32)) e1 e2).trans ?_
  unfold outVal
  have hE : (SparseCore.rows le rfl hinE (y 0) : Fin 100000) = rowOf 100000 (by decide) (eid (ix1 (⟨r0 + (y 0).val, by omega⟩ : Fin 819200))) := by
    apply Fin.ext
    have hlt := hinE (ix1 (y 0)); rw [hle (y 0)] at hlt
    refine (rows_val le hinE (y 0)).trans ?_
    rw [hle (y 0)]
    exact (Nat.mod_eq_of_lt hlt).symm
  have hP : (SparseCore.rows lp rfl hinP (y 0) : Fin 1000) = rowOf 1000 (by decide) (pid (ix1 (⟨r0 + (y 0).val, by omega⟩ : Fin 819200))) := by
    apply Fin.ext
    have hlt := hinP (ix1 (y 0)); rw [hlp (y 0)] at hlt
    refine (rows_val lp hinP (y 0)).trans ?_
    rw [hlp (y 0)]
    exact (Nat.mod_eq_of_lt hlt).symm
  refine congrArg₂ (FloatOps.addf (φ := .f32)) (congrArg te ?_) (congrArg tp ?_)
  · funext a
    match a with
    | ⟨0, _⟩ => exact hE
    | ⟨1, _⟩ => rfl
  · funext a
    match a with
    | ⟨0, _⟩ => exact hP
    | ⟨1, _⟩ => rfl

/-! ## A chunk of the result, and what its copy-out delivers -/

local notation "𝕄" => MM F

local notation "teV" => (Memref.whole Cert.KernelIdeal.main_v3_0_scv : Memref Cert.KernelIdeal.sig Kind.scVector Space.hbm Cert.KernelIdeal.S100000x128 EltTy.f32)
local notation "outV" => (Memref.whole Cert.KernelIdeal.main_v4_scv : Memref Cert.KernelIdeal.sig Kind.scVector Space.hbm Cert.KernelIdeal.S819200x128 EltTy.f32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable (A : Vals F) (d : Dev nD) (L : grid1.Coords)

/-- The first row of the worker's slab. -/
def base0 : ℕ := 51200 * (L 1).val + 25600 * (L 0).val

omit [FloatOps F] in
theorem base0_le : base0 L + 25600 ≤ 819200 := by
  have h0 : (L 0).val < 2 := (L 0).isLt
  have h1 : (L 1).val < 16 := (L 1).isLt
  unfold base0; omega

/-- Chunk `n` of the worker's slab: rows [base + 128 n, base + 128 (n + 1)) of the result, every lane. -/
def chkOff (n : ℕ) : Fin 2 → ℕ := ![51200 * (L 1).val + 25600 * (L 0).val + 128 * n, 0]
omit [FloatOps F] in
theorem chkInb (n : ℕ) (hn : n < 200) : ∀ a, chkOff L n a + S128x128.size a ≤ S819200x128.size a := by
  have h0 : (L 0).val < 2 := (L 0).isLt
  have h1 : (L 1).val < 16 := (L 1).isLt
  intro a; match a with
  | 0 => show 51200 * (L 1).val + 25600 * (L 0).val + 128 * n + 128 ≤ 819200; omega
  | 1 => show 0 + 128 ≤ 128; omega
abbrev chkV (n : ℕ) (hn : n < 200) : Memref sig .scVector .hbm S128x128 .f32 :=
  (outV).slice (Rect.unit (s := S819200x128) (chkOff L n) S128x128.size (chkInb L n hn)) (fun _ => rfl)

/-- The tables as the gathers' sources read them: whole. -/
theorem teSrc_read : (teSrc).view.read (Elt F) (A.te d) = A.te d := by
  funext y
  show A.te d _ = A.te d y
  refine congrArg (A.te d) ?_
  funext a; apply Fin.ext
  match a with
  | ⟨0, _⟩ => show 0 + 1 * (y 0).val = (y 0).val; omega
  | ⟨1, _⟩ => show 0 + 1 * (y 1).val = (y 1).val; omega

theorem shSrc_read : (shSrc).view.read (Elt F) (shVal A d (cV L)) = A.tp d := by
  funext y
  show A.tp d _ = A.tp d y
  refine congrArg (A.tp d) ?_
  funext a; apply Fin.ext
  match a with
  | ⟨0, _⟩ => show 0 + 1 * (y 0).val = (y 0).val; omega
  | ⟨1, _⟩ => show 0 + 1 * (y 1).val = (y 1).val; omega

/-- WHAT THE COPY-OUT OF CHUNK `n` DELIVERS: if the two gathered blocks `He`, `Hp` were gathered by lists holding the
    flat ids of the chunk's rows, the chunk written with their lanewise sum holds the result on the chunk's elements. -/
theorem chunk_written (n : ℕ) (hn : n < 200) (He Hp : S128x128.Idx → Elt F .f32) (le lp : S128.Idx → Elt F .i32)
    (hinE : ∀ x, (le x).toNat < S100000x128.size gathers_S100000x128_S128x128.axis)
    (hinP : ∀ x, (lp x).toNat < S1000x128.size gathers_S1000x128_S128x128.axis)
    (hHe : He = SparseCore.gatherPayload gathers_S100000x128_S128x128 ((teSrc).view.read (Elt F) (A.te d)) (SparseCore.rows le rfl hinE))
    (hHp : Hp = SparseCore.gatherPayload gathers_S1000x128_S128x128 ((shSrc).view.read (Elt F) (shVal A d (cV L))) (SparseCore.rows lp rfl hinP))
    (hle : ∀ x : Fin 128, le (ix1 x) = A.eid d (ix1 (⟨base0 L + 128 * n + x.val, by have := base0_le L; omega⟩ : Fin 819200)))
    (hlp : ∀ x : Fin 128, lp (ix1 x) = A.pid d (ix1 (⟨base0 L + 128 * n + x.val, by have := base0_le L; omega⟩ : Fin 819200)))
    (f : Buf (Elt F) ((chkV L n hn).view.loc (thr d L))) :
    ∀ i ∈ (chkV L n hn).view.set,
      View.write (Elt F) (chkV L n hn).view f (ReadAs.same.apply fun y => FloatOps.addf (φ := .f32) (He y) (Hp y)) Finset.univ i = outFin A d i := by
  intro i hi
  obtain ⟨y, rfl⟩ := View.exists_emb_of_mem_set _ hi
  have hb := base0_le L
  have hy : (y 0).val < 128 := idx2_lt0 y
  rw [View.write_emb_of_mem _ _ (Finset.mem_univ y)]
  subst hHe hHp
  rw [teSrc_read, shSrc_read]
  refine (gather_sum_eq_outVal (A.te d) (A.tp d) (A.eid d) (A.pid d) gathers_S100000x128_S128x128 gathers_S1000x128_S128x128
    (base0 L + 128 * n) (by omega) le lp hle hlp hinE hinP y).trans ?_
  show outFin A d _ = outFin A d _
  refine congrArg (outFin A d) ?_
  funext a; apply Fin.ext
  match a with
  | ⟨0, _⟩ => show base0 L + 128 * n + (y 0).val = 51200 * (L 1).val + 25600 * (L 0).val + 128 * n + 1 * (y 0).val; unfold base0; omega
  | ⟨1, _⟩ => show (y 1).val = 0 + 1 * (y 1).val; omega

/-! ## The sum buffer's half after an add loop -/

/-- Half 0 of the sum buffer after the loop on half 0: the lanewise sum of the halves 0 of the two gathered buffers. -/
theorem read_addHalf0 (fe fp fo : S2x128x128.Idx → Elt F .f32) :
    (hlf0 obV).view.read (Elt F) (addHalf 0 fe fp fo)
      = fun y => FloatOps.addf (φ := .f32) ((hlf0 ebV).view.read (Elt F) fe y) ((hlf0 pbV).view.read (Elt F) fp y) := by
  funext y
  show addHalf 0 fe fp fo _ = _
  unfold addHalf
  have h : ((hlf0 obV).view.emb y 0).val = 0 := by
    show 0 + 1 * (Fin.val (_ : Fin 1)) = 0
    omega
  rw [if_pos h]
  rfl

/-- Half 1 after the loop on half 1. -/
theorem read_addHalf1 (fe fp fo : S2x128x128.Idx → Elt F .f32) :
    (hlf1 obV).view.read (Elt F) (addHalf 1 fe fp fo)
      = fun y => FloatOps.addf (φ := .f32) ((hlf1 ebV).view.read (Elt F) fe y) ((hlf1 pbV).view.read (Elt F) fp y) := by
  funext y
  show addHalf 1 fe fp fo _ = _
  unfold addHalf
  have h : ((hlf1 obV).view.emb y 0).val = 1 := by
    show 1 + 1 * (Fin.val (_ : Fin 1)) = 1
    omega
  rw [if_pos h]
  rfl

end Cert.KernelIdeal.Run.Sc

end
-- ==== Proof.ScChunks.lean ====
/-
  The worker's slab of the result as its 200 chunks.

  Slab `w` is rows [25600 w, 25600 (w + 1)); chunk `n` of worker `w = 2·tile + core` is rows
  [25600 w + 128 n, 25600 w + 128 (n + 1)), every lane. The chunks are pairwise disjoint and their union is the slab, so
  holding the slab at some contents is holding each chunk at those contents.
-/
import proofs.«204385_g66649302499670_cont_9to1c4b_43_34_alg».proof.Proof.ScFacts
import proofs.«204385_g66649302499670_cont_9to1c4b_43_34_alg».proof.Proof.CallSplitIdeal

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable (L : grid1.Coords)

/-- The worker's first row is its slab's. -/
theorem base0_eq : base0 L = 25600 * (widL L).val := by
  show 51200 * (L 1).val + 25600 * (L 0).val = 25600 * (2 * (L 1).val + (L 0).val)
  omega

/-- A chunk's elements: the rows of the chunk, every lane. -/
theorem mem_chk (n : ℕ) (hn : n < 200) (i : S819200x128.Idx) :
    i ∈ (chkV L n hn).view.set ↔ base0 L + 128 * n ≤ (i 0).val ∧ (i 0).val < base0 L + 128 * n + 128 := by
  have hi1 : (i 1).val < 128 := idx2_lt1 i
  show i ∈ ((View.whole (main_v4_scv : Ref sig .scVector)).slice (Rect.unit (s := S819200x128) (chkOff L n) S128x128.size (chkInb L n hn))).set ↔ _
  rw [View.set_slice_whole, Rect.mem_set_unit]
  constructor
  · intro h
    have h0 : chkOff L n 0 ≤ (i 0).val ∧ (i 0).val < chkOff L n 0 + S128x128.size 0 := h 0
    exact h0
  · intro h a
    match a with
    | ⟨0, _⟩ => exact h
    | ⟨1, _⟩ => exact ⟨Nat.zero_le _, by show (i 1).val < 0 + 128; omega⟩

/-- The slab's elements: its rows, every lane. -/
theorem mem_slab (w : Fin 32) (i : S819200x128.Idx) :
    i ∈ slabSet w ↔ 25600 * w.val ≤ (i 0).val ∧ (i 0).val < 25600 * w.val + 25600 := by
  have hi1 : (i 1).val < 128 := idx2_lt1 i
  rw [slabSet_eq]
  show i ∈ (Rect.part (s := S819200x128) (a₀ := 0) hdiv32 w).set ↔ _
  unfold Rect.part
  rw [Rect.mem_set_unit]
  constructor
  · intro h
    have h0 := h 0
    simp only [Shape.partIx, Shape.partSize, if_true] at h0
    have e : S819200x128.size 0 / 32 = 25600 := rfl
    rw [e] at h0
    omega
  · intro h a
    match a with
    | ⟨0, _⟩ =>
      simp only [Shape.partIx, Shape.partSize]
      show w.val * (819200 / 32) ≤ (i 0).val ∧ (i 0).val < w.val * (819200 / 32) + 819200 / 32
      omega
    | ⟨1, _⟩ =>
      simp only [Shape.partIx, Shape.partSize]
      show 0 * 128 ≤ (i 1).val ∧ (i 1).val < 0 * 128 + 128
      omega

/-- Different chunks share no element. -/
theorem chk_disjoint : ∀ n ∈ (Finset.univ : Finset (Fin 200)), ∀ n' ∈ (Finset.univ : Finset (Fin 200)), n ≠ n' →
    Disjoint (chkV L n.val n.isLt).view.set (chkV L n'.val n'.isLt).view.set := by
  intro n _ n' _ hne
  rw [Finset.disjoint_left]
  intro i hi hi'
  rw [mem_chk] at hi hi'
  have : n.val ≠ n'.val := fun e => hne (Fin.ext e)
  omega

/-- The chunks make up the slab. -/
theorem chk_cover : (Finset.univ : Finset (Fin 200)).biUnion (fun n => (chkV L n.val n.isLt).view.set) = slabSet (widL L) := by
  ext i
  rw [mem_slab, ← base0_eq, Finset.mem_biUnion]
  constructor
  · rintro ⟨n, -, hn⟩
    have h := (mem_chk L n.val n.isLt i).mp hn
    have := n.isLt
    omega
  · intro h
    have hq : ((i 0).val - base0 L) / 128 < 200 := by omega
    refine ⟨⟨((i 0).val - base0 L) / 128, hq⟩, Finset.mem_univ _, (mem_chk L _ hq i).mpr ?_⟩
    omega

variable (d : Dev nD)

/-- THE SLAB AS ITS CHUNKS: holding the worker's slab at contents `f` is holding each of its 200 chunks at `f`. -/
theorem slab_chunks (f : Buf (Elt F) (outLoc d)) :
    (slabPts d (widL L) f : sProp 𝕄)
      = bigSep (Finset.univ : Finset (Fin 200)) fun n =>
          ((chkV L n.val n.isLt).view.loc (thr d L) ↦[(chkV L n.val n.isLt).view.set]{fullShare} f : sProp 𝕄) := by
  unfold slabPts
  rw [← chk_cover L]
  exact pointsTo_biUnion Finset.univ (ℓ := outLoc d) (fun n : Fin 200 => (chkV L n.val n.isLt).view.set) (chk_disjoint L)

end Cert.KernelIdeal.Run.Sc

end
-- ==== Proof.ScOutBook.lean ====
/-
  The result's 200 chunks through the tile's loop: which hold the launch contents, which the looked-up sums, and which
  are lent to a copy-out in flight, before trip k; taking the chunks a trip touches out of the family and putting them
  back.
-/
import proofs.«204385_g66649302499670_cont_9to1c4b_43_34_alg».proof.Proof.ScTrip
import proofs.«204385_g66649302499670_cont_9to1c4b_43_34_alg».proof.Proof.ScChunks

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

/-! ## A stretch of consecutive indices taken out of a family over the 200 chunks -/

section Split

variable {M : Type} [URA M]

/-- Index `a + j` for `j < m`. -/
def shiftEmb (a m : ℕ) (h : a + m ≤ 200) : Fin m ↪ Fin 200 :=
  ⟨fun j => ⟨a + j.val, by have := j.isLt; omega⟩, fun i j e => Fin.ext (by have := congrArg Fin.val e; simp only at this; omega)⟩

/-- The family is the part off the stretch [a, a + m) and the stretch, index by index. -/
theorem split_range (Φ : Fin 200 → sProp M) (a m : ℕ) (h : a + m ≤ 200) :
    bigSep Finset.univ Φ = iprop(bigSep (Finset.univ.filter fun n : Fin 200 => n.val < a ∨ a + m ≤ n.val) Φ
      ∗ bigSep (Finset.univ : Finset (Fin m)) fun j => Φ (shiftEmb a m h j)) := by
  rw [bigSep_filter_split Finset.univ (fun n : Fin 200 => n.val < a ∨ a + m ≤ n.val)]
  have e : (Finset.univ.filter fun n : Fin 200 => ¬ (n.val < a ∨ a + m ≤ n.val)) = Finset.univ.map (shiftEmb a m h) := by
    ext n
    simp only [Finset.mem_filter, Finset.mem_univ, true_and, Finset.mem_map]
    constructor
    · intro hn
      exact ⟨⟨n.val - a, by omega⟩, Fin.ext (by show a + (n.val - a) = n.val; omega)⟩
    · rintro ⟨j, rfl⟩
      have := j.isLt
      show ¬ (a + j.val < a ∨ a + m ≤ a + j.val)
      omega
  rw [e, BI.bigSep_map]
  rfl

/-- Four in a row. -/
theorem bigSep_fin4 (Ψ : Fin 4 → sProp M) : bigSep Finset.univ Ψ = iprop(Ψ 0 ∗ Ψ 1 ∗ Ψ 2 ∗ Ψ 3) :=
  bigSep_univ_eq_bigSepL [(0 : Fin 4), 1, 2, 3] (by decide) (by decide) Ψ
/-- Two in a row. -/
theorem bigSep_fin2 (Ψ : Fin 2 → sProp M) : bigSep Finset.univ Ψ = iprop(Ψ 0 ∗ Ψ 1) :=
  bigSep_univ_eq_bigSepL [(0 : Fin 2), 1] (by decide) (by decide) Ψ
/-- Six in a row. -/
theorem bigSep_fin6 (Ψ : Fin 6 → sProp M) : bigSep Finset.univ Ψ = iprop(Ψ 0 ∗ Ψ 1 ∗ Ψ 2 ∗ Ψ 3 ∗ Ψ 4 ∗ Ψ 5) :=
  bigSep_univ_eq_bigSepL [(0 : Fin 6), 1, 2, 3, 4, 5] (by decide) (by decide) Ψ

end Split

/-! ## The chunks before trip k -/

variable [FloatOps F] (A : Vals F) (d : Dev nD) (L : grid1.Coords)

/-- Chunk `n` held at contents `f`. -/
def chunkPt (n : ℕ) (hn : n < 200) (f : Buf (Elt F) (outLoc d)) : sProp 𝕄 :=
  (chunkV L n hn).view.loc (thr d L) ↦[(chunkV L n hn).view.set]{fullShare} f

omit [FloatOps F] in
theorem chunkPt_eq (n : ℕ) (hn : n < 200) (f : Buf (Elt F) (outLoc d)) :
    chunkPt d L n hn f = ((chunkV L n hn).view.loc (thr d L) ↦[(chunkV L n hn).view.set]{fullShare} f) := rfl

omit [FloatOps F] in
theorem chunkPt_congr {n n' : ℕ} (e : n = n') (hn : n < 200) (hn' : n' < 200) (f : Buf (Elt F) (outLoc d)) :
    chunkPt d L n hn f = chunkPt d L n' hn' f := by subst e; rfl

/-- What is held of chunk `n` before trip `k`: from 4k on the launch contents; below 4k - 2 the looked-up sums; the two
    between are lent to the copy-outs in flight. -/
def chunkAt (k : ℕ) (n : Fin 200) : sProp 𝕄 :=
  if 4 * k ≤ n.val then iprop((chunkV L n.val n.isLt).view.loc (thr d L) ↦[(chunkV L n.val n.isLt).view.set]{fullShare} A.out0 d)
  else if n.val + 2 < 4 * k then iprop((chunkV L n.val n.isLt).view.loc (thr d L) ↦[(chunkV L n.val n.isLt).view.set]{fullShare} outFin A d)
  else iprop(emp)

theorem chunkAt_hi (k : ℕ) (n : Fin 200) (h : 4 * k ≤ n.val) : chunkAt A d L k n = chunkPt d L n.val n.isLt (A.out0 d) := by
  unfold chunkAt chunkPt; rw [if_pos h]
theorem chunkAt_lo (k : ℕ) (n : Fin 200) (h : n.val + 2 < 4 * k) : chunkAt A d L k n = chunkPt d L n.val n.isLt (outFin A d) := by
  unfold chunkAt chunkPt; rw [if_neg (by omega), if_pos h]
theorem chunkAt_mid (k : ℕ) (n : Fin 200) (h1 : n.val < 4 * k) (h2 : 4 * k ≤ n.val + 2) : chunkAt A d L k n = iprop(emp) := by
  unfold chunkAt; rw [if_neg (by omega), if_neg (by omega)]

/-- The chunks a trip does not touch: those below 4k - 2 and those from 4k + 4 on. -/
def rest200 (k : ℕ) : sProp 𝕄 :=
  bigSep (Finset.univ.filter fun n : Fin 200 => n.val + 2 < 4 * k ∨ 4 * k + 4 ≤ n.val) (chunkAt A d L k)

/-- They are held the same way before the next trip. -/
theorem rest200_succ (k : ℕ) :
    rest200 A d L k = bigSep (Finset.univ.filter fun n : Fin 200 => n.val + 2 < 4 * k ∨ 4 * k + 4 ≤ n.val) (chunkAt A d L (k + 1)) := by
  unfold rest200
  refine bigSep_congr fun n hn => ?_
  rcases (Finset.mem_filter.mp hn).2 with h | h
  · rw [chunkAt_lo A d L k n h, chunkAt_lo A d L (k + 1) n (by omega)]
  · rw [chunkAt_hi A d L k n (by omega), chunkAt_hi A d L (k + 1) n (by omega)]

/-- OPENING, a trip past the first: the four chunks the trip fills come out at the launch contents (the two before them
    are in flight: nothing is held of them). -/
theorem chunks_open (k : ℕ) (hk1 : 1 ≤ k) (hc0 : 4 * k < 200) (hc1 : 4 * k + 1 < 200) (hc2 : 4 * k + 2 < 200) (hc3 : 4 * k + 3 < 200) :
    bigSep Finset.univ (chunkAt A d L k) = iprop(rest200 A d L k ∗ chunkPt d L (4 * k) hc0 (A.out0 d) ∗ chunkPt d L (4 * k + 1) hc1 (A.out0 d)
      ∗ chunkPt d L (4 * k + 2) hc2 (A.out0 d) ∗ chunkPt d L (4 * k + 3) hc3 (A.out0 d)) := by
  rw [split_range (chunkAt A d L k) (4 * k - 2) 6 (by omega), bigSep_fin6]
  have hset : (Finset.univ.filter fun n : Fin 200 => n.val < 4 * k - 2 ∨ 4 * k - 2 + 6 ≤ n.val)
      = Finset.univ.filter fun n : Fin 200 => n.val + 2 < 4 * k ∨ 4 * k + 4 ≤ n.val :=
    Finset.filter_congr fun n _ => by omega
  rw [hset]
  rw [chunkAt_mid A d L k (shiftEmb (4 * k - 2) 6 (by omega) 0) (by show 4 * k - 2 + 0 < 4 * k; omega) (by show 4 * k ≤ 4 * k - 2 + 0 + 2; omega),
    chunkAt_mid A d L k (shiftEmb (4 * k - 2) 6 (by omega) 1) (by show 4 * k - 2 + 1 < 4 * k; omega) (by show 4 * k ≤ 4 * k - 2 + 1 + 2; omega),
    chunkAt_hi A d L k (shiftEmb (4 * k - 2) 6 (by omega) 2) (by show 4 * k ≤ 4 * k - 2 + 2; omega),
    chunkAt_hi A d L k (shiftEmb (4 * k - 2) 6 (by omega) 3) (by show 4 * k ≤ 4 * k - 2 + 3; omega),
    chunkAt_hi A d L k (shiftEmb (4 * k - 2) 6 (by omega) 4) (by show 4 * k ≤ 4 * k - 2 + 4; omega),
    chunkAt_hi A d L k (shiftEmb (4 * k - 2) 6 (by omega) 5) (by show 4 * k ≤ 4 * k - 2 + 5; omega)]
  rw [chunkPt_congr d L (show (shiftEmb (4 * k - 2) 6 (by omega) 2).val = 4 * k by show 4 * k - 2 + 2 = 4 * k; omega) _ hc0,
    chunkPt_congr d L (show (shiftEmb (4 * k - 2) 6 (by omega) 3).val = 4 * k + 1 by show 4 * k - 2 + 3 = 4 * k + 1; omega) _ hc1,
    chunkPt_congr d L (show (shiftEmb (4 * k - 2) 6 (by omega) 4).val = 4 * k + 2 by show 4 * k - 2 + 4 = 4 * k + 2; omega) _ hc2,
    chunkPt_congr d L (show (shiftEmb (4 * k - 2) 6 (by omega) 5).val = 4 * k + 3 by show 4 * k - 2 + 5 = 4 * k + 3; omega) _ hc3]
  have he : ∀ P : sProp 𝕄, (iprop(emp ∗ P) : sProp 𝕄) = P := fun P => BI.equiv_iff.mp emp_sep
  rw [he, he]
  rfl

/-- CLOSING, a trip past the first: with the two chunks its drains handed back and the two it has filled and drained
    holding the looked-up sums (the two it filled last are lent to its copy-outs), the family before the next trip. -/
theorem chunks_close (k : ℕ) (hk1 : 1 ≤ k) (hm2 : 4 * k - 2 < 200) (hm1 : 4 * k - 1 < 200) (hc0 : 4 * k < 200) (hc1 : 4 * k + 1 < 200) (hc3 : 4 * k + 3 < 200) :
    bigSep Finset.univ (chunkAt A d L (k + 1)) = iprop(rest200 A d L k ∗ chunkPt d L (4 * k - 2) hm2 (outFin A d) ∗ chunkPt d L (4 * k - 1) hm1 (outFin A d)
      ∗ chunkPt d L (4 * k) hc0 (outFin A d) ∗ chunkPt d L (4 * k + 1) hc1 (outFin A d)) := by
  rw [split_range (chunkAt A d L (k + 1)) (4 * k - 2) 6 (by omega), bigSep_fin6]
  have hset : (Finset.univ.filter fun n : Fin 200 => n.val < 4 * k - 2 ∨ 4 * k - 2 + 6 ≤ n.val)
      = Finset.univ.filter fun n : Fin 200 => n.val + 2 < 4 * k ∨ 4 * k + 4 ≤ n.val :=
    Finset.filter_congr fun n _ => by omega
  rw [hset, ← rest200_succ]
  rw [chunkAt_lo A d L (k + 1) (shiftEmb (4 * k - 2) 6 (by omega) 0) (by show 4 * k - 2 + 0 + 2 < 4 * (k + 1); omega),
    chunkAt_lo A d L (k + 1) (shiftEmb (4 * k - 2) 6 (by omega) 1) (by show 4 * k - 2 + 1 + 2 < 4 * (k + 1); omega),
    chunkAt_lo A d L (k + 1) (shiftEmb (4 * k - 2) 6 (by omega) 2) (by show 4 * k - 2 + 2 + 2 < 4 * (k + 1); omega),
    chunkAt_lo A d L (k + 1) (shiftEmb (4 * k - 2) 6 (by omega) 3) (by show 4 * k - 2 + 3 + 2 < 4 * (k + 1); omega),
    chunkAt_mid A d L (k + 1) (shiftEmb (4 * k - 2) 6 (by omega) 4) (by show 4 * k - 2 + 4 < 4 * (k + 1); omega) (by show 4 * (k + 1) ≤ 4 * k - 2 + 4 + 2; omega),
    chunkAt_mid A d L (k + 1) (shiftEmb (4 * k - 2) 6 (by omega) 5) (by show 4 * k - 2 + 5 < 4 * (k + 1); omega) (by show 4 * (k + 1) ≤ 4 * k - 2 + 5 + 2; omega)]
  rw [chunkPt_congr d L (show (shiftEmb (4 * k - 2) 6 (by omega) 0).val = 4 * k - 2 by show 4 * k - 2 + 0 = 4 * k - 2; omega) _ hm2,
    chunkPt_congr d L (show (shiftEmb (4 * k - 2) 6 (by omega) 1).val = 4 * k - 1 by show 4 * k - 2 + 1 = 4 * k - 1; omega) _ hm1,
    chunkPt_congr d L (show (shiftEmb (4 * k - 2) 6 (by omega) 2).val = 4 * k by show 4 * k - 2 + 2 = 4 * k; omega) _ hc0,
    chunkPt_congr d L (show (shiftEmb (4 * k - 2) 6 (by omega) 3).val = 4 * k + 1 by show 4 * k - 2 + 3 = 4 * k + 1; omega) _ hc1]
  have he : ∀ P : sProp 𝕄, (iprop(P ∗ emp) : sProp 𝕄) = P := fun P => BI.equiv_iff.mp sep_emp
  rw [he, he]

/-- OPENING, the first trip: the first four chunks at the launch contents; nothing is in flight yet. -/
theorem chunks_open0 :
    bigSep Finset.univ (chunkAt A d L 0) = iprop(rest200 A d L 0 ∗ chunkPt d L 0 (by decide) (A.out0 d) ∗ chunkPt d L 1 (by decide) (A.out0 d)
      ∗ chunkPt d L 2 (by decide) (A.out0 d) ∗ chunkPt d L 3 (by decide) (A.out0 d)) := by
  rw [split_range (chunkAt A d L 0) 0 4 (by decide), bigSep_fin4]
  have hset : (Finset.univ.filter fun n : Fin 200 => n.val < 0 ∨ 0 + 4 ≤ n.val)
      = Finset.univ.filter fun n : Fin 200 => n.val + 2 < 4 * 0 ∨ 4 * 0 + 4 ≤ n.val :=
    Finset.filter_congr fun n _ => by omega
  rw [hset]
  rw [chunkAt_hi A d L 0 (shiftEmb 0 4 (by decide) 0) (Nat.zero_le _), chunkAt_hi A d L 0 (shiftEmb 0 4 (by decide) 1) (Nat.zero_le _),
    chunkAt_hi A d L 0 (shiftEmb 0 4 (by decide) 2) (Nat.zero_le _), chunkAt_hi A d L 0 (shiftEmb 0 4 (by decide) 3) (Nat.zero_le _)]
  rfl

/-- CLOSING, the first trip: the first two chunks hold the looked-up sums, the next two are lent to the copy-outs. -/
theorem chunks_close0 :
    bigSep Finset.univ (chunkAt A d L 1) = iprop(rest200 A d L 0 ∗ chunkPt d L 0 (by decide) (outFin A d) ∗ chunkPt d L 1 (by decide) (outFin A d)) := by
  rw [split_range (chunkAt A d L 1) 0 4 (by decide), bigSep_fin4]
  have hset : (Finset.univ.filter fun n : Fin 200 => n.val < 0 ∨ 0 + 4 ≤ n.val)
      = Finset.univ.filter fun n : Fin 200 => n.val + 2 < 4 * 0 ∨ 4 * 0 + 4 ≤ n.val :=
    Finset.filter_congr fun n _ => by omega
  rw [hset, ← rest200_succ]
  rw [chunkAt_lo A d L 1 (shiftEmb 0 4 (by decide) 0) (by decide), chunkAt_lo A d L 1 (shiftEmb 0 4 (by decide) 1) (by decide),
    chunkAt_mid A d L 1 (shiftEmb 0 4 (by decide) 2) (by decide) (by decide), chunkAt_mid A d L 1 (shiftEmb 0 4 (by decide) 3) (by decide) (by decide)]
  have he : ∀ P : sProp 𝕄, (iprop(P ∗ emp) : sProp 𝕄) = P := fun P => BI.equiv_iff.mp sep_emp
  rw [he, he]
  rfl

/-! ## The slab at the loop's two ends -/

/-- `outPart`'s first factor is the family. -/
theorem outPart_chunks (k : ℕ) :
    outPart A d L k = iprop(bigSep Finset.univ (chunkAt A d L k)
      ∗ (if hk : 1 ≤ k ∧ k ≤ 50 then
          iprop((∃ fo, flightO A d L 14 (hlf0 obV) (4 * k - 2) (by have := hk.1; have := hk.2; omega) fo) ∗ (∃ fo, flightO A d L 15 (hlf1 obV) (4 * k - 1) (by have := hk.1; have := hk.2; omega) fo)
            ∗ (∃ f, (obV).view.loc (thr d L) ↦[(Finset.univ \ (hlf0 obV).view.set) \ (hlf1 obV).view.set]{fullShare} f))
        else iprop((∃ f, (obV).view.loc (thr d L) ↦{fullShare} f) ∗ semVal (cellOf d L 14) 0 ∗ semVal (cellOf d L 15) 0))) := rfl

/-- ENTRY: the slab as launched is the family before trip 0. -/
theorem chunks_entry : (slabPts d (widL L) (A.out0 d) : sProp 𝕄) = bigSep Finset.univ (chunkAt A d L 0) := by
  rw [slab_chunks L d (A.out0 d)]
  refine bigSep_congr fun n _ => ?_
  rw [chunkAt_hi A d L 0 n (Nat.zero_le _)]
  rfl

/-- EXIT: the family after the last trip with its last two chunks handed back is the slab holding the looked-up sums. -/
theorem chunks_exit (h198 : 198 < 200) (h199 : 199 < 200) :
    iprop(bigSep Finset.univ (chunkAt A d L 50) ∗ chunkPt d L 198 h198 (outFin A d) ∗ chunkPt d L 199 h199 (outFin A d))
      = (slabPts d (widL L) (outFin A d) : sProp 𝕄) := by
  rw [slab_chunks L d (outFin A d), split_range (chunkAt A d L 50) 198 2 (by decide), bigSep_fin2,
    split_range (fun n : Fin 200 => ((chkV L n.val n.isLt).view.loc (thr d L) ↦[(chkV L n.val n.isLt).view.set]{fullShare} outFin A d : sProp 𝕄)) 198 2 (by decide), bigSep_fin2]
  rw [chunkAt_mid A d L 50 (shiftEmb 198 2 (by decide) 0) (by decide) (by decide), chunkAt_mid A d L 50 (shiftEmb 198 2 (by decide) 1) (by decide) (by decide)]
  have he : ∀ P : sProp 𝕄, (iprop(P ∗ emp) : sProp 𝕄) = P := fun P => BI.equiv_iff.mp sep_emp
  rw [he, he]
  have hst : bigSep (Finset.univ.filter fun n : Fin 200 => n.val < 198 ∨ 198 + 2 ≤ n.val) (chunkAt A d L 50)
      = bigSep (Finset.univ.filter fun n : Fin 200 => n.val < 198 ∨ 198 + 2 ≤ n.val)
          (fun n : Fin 200 => ((chkV L n.val n.isLt).view.loc (thr d L) ↦[(chkV L n.val n.isLt).view.set]{fullShare} outFin A d : sProp 𝕄)) := by
    refine bigSep_congr fun n hn => ?_
    have hlt := n.isLt
    rw [chunkAt_lo A d L 50 n (by rcases (Finset.mem_filter.mp hn).2 with h | h <;> omega)]
    rfl
  rw [hst]
  rfl

end Cert.KernelIdeal.Run.Sc

end
-- ==== Proof.ScLoop.lean ====
/-
  The tile's loop as a whole: the prefetch of the second 512 ids, the 50 trips by the invariant (a trip's proof is a
  hypothesis here), the loop's entry and exit states, the first of the two final waits.
-/
import proofs.«204385_g66649302499670_cont_9to1c4b_43_34_alg».proof.Proof.ScTrip
import proofs.«204385_g66649302499670_cont_9to1c4b_43_34_alg».proof.Proof.ScOutBook

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F] (A : Vals F)

section Part52
variable (d : Dev nD) (L : grid1.Coords) (q1 q2 r1 r2 qi : PosShare TreeShare)

omit [FloatOps F] in
theorem ids_slice_congr (M : Memref sig .scVector .hbm S819200 .i32) {off off' : Fin 1 → ℕ} (e : off = off')
    (h : ∀ a, off a + S512.size a ≤ S819200.size a) (h' : ∀ a, off' a + S512.size a ≤ S819200.size a) :
    M.slice (Rect.unit (s := S819200) off S512.size h) (fun _ => rfl) = M.slice (Rect.unit (s := S819200) off' S512.size h') (fun _ => rfl) := by
  subst e; rfl

omit [FloatOps F] in
theorem off2_eq : k1_off2 L = idsOff L 1 := by rw [k1_off2_eq]; unfold idsOff; rfl

/-- One trip of the loop keeps the invariant (proved in its own module; here as the hypothesis the loop rule takes, in the
    loop rule's own spelling of the trip). -/
def TripOK (O : CellTallies nD τ sig (HIx 1)) (W : Waits sig (HIx 1)) (v2 : BitVec 32) : Prop :=
  ∀ (k : Fin k1_t1_loop.trips) (acc : PUnit.{1}), inv A d L q1 q2 r1 r2 qi O W k.val acc
    ⊢ wp frame (wpE (defs₀ (F := F)) 𝒱₀ (thr d L) none) Set.univ (k1_t1_body (F := F) L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2 k acc)
        (inv A d L q1 q2 r1 r2 qi O W (k.val + 1))

/-- The same from the statement over a trip number below 50. -/
theorem TripOK.of_nat (O : CellTallies nD τ sig (HIx 1)) (W : Waits sig (HIx 1)) (v2 : BitVec 32)
    (h : ∀ (k : ℕ) (hk : k < 50), inv A d L q1 q2 r1 r2 qi O W k (PUnit.unit : PUnit.{1})
      ⊢ wp frame (wpE (defs₀ (F := F)) 𝒱₀ (thr d L) none) Set.univ (k1_t1_body (F := F) L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2 ⟨k, hk⟩ ())
          (fun _ => inv A d L q1 q2 r1 r2 qi O W (k + 1) (PUnit.unit : PUnit.{1}))) :
    TripOK A d L q1 q2 r1 r2 qi O W v2 := fun k acc => h k.val k.isLt

omit [FloatOps F] in
theorem trips_eq' : Scf.trips k1_t1_loop.lb k1_t1_loop.ub k1_t1_loop.st = 50 := rfl
omit [FloatOps F] in
theorem h1_50 : 1 < 50 := by omega
omit [FloatOps F] in
theorem h198 : 198 < 200 := by omega
omit [FloatOps F] in
theorem h199 : 199 < 200 := by omega
omit [FloatOps F] in
theorem hA50 : 4 * 50 - 2 < 200 := by omega
omit [FloatOps F] in
theorem hB50 : 4 * 50 - 1 < 200 := by omega

/-- The chunks of the result at trip `k`, apart from the two in flight (the first factor of `outPart`). -/
abbrev outChunks (k : ℕ) : sProp 𝕄 :=
  bigSep (Finset.univ : Finset (Fin 200)) fun n =>
    if 4 * k ≤ n.val then iprop((chunkV L n.val n.isLt).view.loc (thr d L) ↦[(chunkV L n.val n.isLt).view.set]{fullShare} A.out0 d)
    else if n.val + 2 < 4 * k then iprop((chunkV L n.val n.isLt).view.loc (thr d L) ↦[(chunkV L n.val n.isLt).view.set]{fullShare} outFin A d)
    else iprop(emp)

/-- The loop's entry: the prolog's flights, the prefetch batch just issued, nothing of the result written. -/
theorem inv_init (O : CellTallies nD τ sig (HIx 1)) (W : Waits sig (HIx 1))
    (e : Buf (Elt F) ((eixV).view.loc (thr d L))) (p : Buf (Elt F) ((pixV).view.loc (thr d L))) :
    iprop(Transfers.MayWaits (thr d L) (default : HIx 1) O ∗ gatherPart A d L q1 q2 r1 r2 0 ∗ outPart A d L 0
        ∗ idsBatch A d L (9 : DmaSem sig) (slot1 eixV) (slot1 pixV) qi (idsOff L 1) (idsInb L 1 h1_50) e p
            (idsPayAt d L eidV (A.eid d) (idsOff L 1) (idsInb L 1 h1_50)) (idsPayAt d L pidV (A.pid d) (idsOff L 1) (idsInb L 1 h1_50))
        ∗ idsRest A d L qi (idsOff L 1) (idsInb L 1 h1_50) ∗ semVal (cellOf d L 8) 0 ∗ owes (thr d L) O W)
      ⊢ inv A d L q1 q2 r1 r2 qi O W 0 (PUnit.unit : PUnit.{1}) := by
  unfold inv idsPart idsPart1
  rw [if_pos (show 0 % 2 = 0 from rfl), dif_pos (show 0 + 1 < 50 from h1_50)]
  iintro ⟨Hmw, HG, HOut, Hb, Hr, Hs8, HO⟩
  isplitl [Hmw]; · iexact Hmw
  isplitl [HG]; · iexact HG
  isplitl [Hb Hr Hs8]
  · iexists e, p
    isplitl [Hb]; · iexact Hb
    isplitl [Hr]; · iexact Hr
    iexact Hs8
  isplitl [HOut]; · iexact HOut
  iexists W; isplitr
  · ipureintro; exact fun p hp => .inl hp
  · iexact HO

omit [FloatOps F] in
theorem hAk (k : ℕ) (hk : 1 ≤ k ∧ k ≤ 50) : 4 * k - 2 < 200 := by have := hk.1; have := hk.2; omega
omit [FloatOps F] in
theorem hBk (k : ℕ) (hk : 1 ≤ k ∧ k ≤ 50) : 4 * k - 1 < 200 := by have := hk.1; have := hk.2; omega

/-- From the second trip on, the result's part of the invariant: the chunks, the two copy-outs in flight, the rest of the sum buffer. -/
theorem outPart_pos (k : ℕ) (hk : 1 ≤ k ∧ k ≤ 50) :
    outPart A d L k = iprop(bigSep (Finset.univ : Finset (Fin 200)) (chunkAt A d L k)
      ∗ ((∃ fo, flightO A d L 14 (hlf0 obV) (4 * k - 2) (hAk k hk) fo) ∗ (∃ fo, flightO A d L 15 (hlf1 obV) (4 * k - 1) (hBk k hk) fo)
        ∗ (∃ f, (obV).view.loc (thr d L) ↦[(Finset.univ \ (hlf0 obV).view.set) \ (hlf1 obV).view.set]{fullShare} f))) := by
  rw [outPart_chunks, dif_pos hk]

theorem flightO_congr (sm : DmaSem sig) (H : Memref sig .scVector .vmem S128x128 .f32) {n n' : ℕ} (e : n = n') (hn : n < 200) (hn' : n' < 200)
    (fo : Buf (Elt F) (H.view.loc (thr d L))) : flightO A d L sm H n hn fo = flightO A d L sm H n' hn' fo := by subst e; rfl

omit [FloatOps F] in
theorem hk50 : 1 ≤ 50 ∧ 50 ≤ 50 := ⟨by omega, by omega⟩

/-- The loop's exit: the last two copy-outs in flight, everything else back in hand. -/
theorem inv_exit (O : CellTallies nD τ sig (HIx 1)) (W : Waits sig (HIx 1)) :
    inv A d L q1 q2 r1 r2 qi O W 50 (PUnit.unit : PUnit.{1})
      ⊢ iprop(Transfers.MayWaits (thr d L) (default : HIx 1) O ∗ gatherPart A d L q1 q2 r1 r2 50 ∗ idsPart A d L qi 50
          ∗ (bigSep (Finset.univ : Finset (Fin 200)) (chunkAt A d L 50)
            ∗ ((∃ fo, flightO A d L 14 (hlf0 obV) (4 * 50 - 2) (hAk 50 hk50) fo) ∗ (∃ fo, flightO A d L 15 (hlf1 obV) (4 * 50 - 1) (hBk 50 hk50) fo)
              ∗ (∃ f, (obV).view.loc (thr d L) ↦[(Finset.univ \ (hlf0 obV).view.set) \ (hlf1 obV).view.set]{fullShare} f)))
          ∗ ∃ W', ⌜∀ p ∈ W', p ∈ W ∨ p.2 = none⌝ ∗ owes (thr d L) O W') := by
  unfold inv
  rw [outPart_pos A d L 50 hk50]

theorem inv_exit' (O : CellTallies nD τ sig (HIx 1)) (W : Waits sig (HIx 1)) (n : ℕ) (hn : n = 50) (acc : PUnit.{1}) :
    inv A d L q1 q2 r1 r2 qi O W n acc
      ⊢ iprop(Transfers.MayWaits (thr d L) (default : HIx 1) O ∗ gatherPart A d L q1 q2 r1 r2 50 ∗ idsPart A d L qi 50
          ∗ (bigSep (Finset.univ : Finset (Fin 200)) (chunkAt A d L 50)
            ∗ ((∃ fo, flightO A d L 14 (hlf0 obV) (4 * 50 - 2) (hAk 50 hk50) fo) ∗ (∃ fo, flightO A d L 15 (hlf1 obV) (4 * 50 - 1) (hBk 50 hk50) fo)
              ∗ (∃ f, (obV).view.loc (thr d L) ↦[(Finset.univ \ (hlf0 obV).view.set) \ (hlf1 obV).view.set]{fullShare} f)))
          ∗ ∃ W', ⌜∀ p ∈ W', p ∈ W ∨ p.2 = none⌝ ∗ owes (thr d L) O W') := by
  subst hn; exact inv_exit A d L q1 q2 r1 r2 qi O W

/-- What the wait at the loop's exit does not touch, the trip count kept a variable. -/
def exitRest (n : ℕ) (hn : 1 ≤ n ∧ n ≤ 50) : sProp 𝕄 :=
  iprop(gatherPart A d L q1 q2 r1 r2 n ∗ idsPart A d L qi n ∗ bigSep (Finset.univ : Finset (Fin 200)) (chunkAt A d L n)
    ∗ (∃ fo, flightO A d L 15 (hlf1 obV) (4 * n - 1) (hBk n hn) fo)
    ∗ (∃ f, (obV).view.loc (thr d L) ↦[(Finset.univ \ (hlf0 obV).view.set) \ (hlf1 obV).view.set]{fullShare} f))

/-- The invariant after the last trip, opened for the wait on the first copy-out cell. -/
theorem exit_open (O : CellTallies nD τ sig (HIx 1)) (W : Waits sig (HIx 1)) (n : ℕ) (hn : 1 ≤ n ∧ n ≤ 50) (acc : PUnit.{1}) :
    inv A d L q1 q2 r1 r2 qi O W n acc
      ⊢ iprop((∃ fo, flightO A d L 14 (hlf0 obV) (4 * n - 2) (hAk n hn) fo)
          ∗ (∃ W', ⌜∀ p ∈ W', p ∈ W ∨ p.2 = none⌝ ∗ owes (thr d L) O W')
          ∗ exitRest A d L q1 q2 r1 r2 qi n hn) := by
  unfold inv exitRest
  rw [outPart_pos A d L n hn]
  iintro ⟨-, HG, HI, ⟨HC, HF0, HF1, Hob⟩, HW⟩
  isplitl [HF0]; · iexact HF0
  isplitl [HW]; · iexact HW
  isplitl [HG]; · iexact HG
  isplitl [HI]; · iexact HI
  isplitl [HC]; · iexact HC
  isplitl [HF1]; · iexact HF1
  iexact Hob

/-- After the loop and the first final wait, the trip count kept a variable: chunk 4n-2 landed, its half of the sum buffer
    back, the cell at rest; everything else as the loop left it. -/
def after52K (O : CellTallies nD τ sig (HIx 1)) (W : Waits sig (HIx 1)) (n : ℕ) (hn : 1 ≤ n ∧ n ≤ 50) : sProp 𝕄 :=
  iprop(exitRest A d L q1 q2 r1 r2 qi n hn
    ∗ chunkPt d L (4 * n - 2) (hAk n hn) (outFin A d)
    ∗ (∃ fo, (hlf0 obV).view.loc (thr d L) ↦[(hlf0 obV).view.set]{fullShare} fo)
    ∗ semVal (cellOf d L 14) 0
    ∗ ∃ W', ⌜∀ p ∈ W', p ∈ W ∨ p.2 = none⌝ ∗ owes (thr d L) O W')

theorem after52K_cast (O : CellTallies nD τ sig (HIx 1)) (W : Waits sig (HIx 1)) (n : ℕ) (e : n = 50) (hn : 1 ≤ n ∧ n ≤ 50) :
    after52K A d L q1 q2 r1 r2 qi O W n hn ⊢ after52K A d L q1 q2 r1 r2 qi O W 50 hk50 := by
  subst e; exact BI.Entails.refl _

/-- The same with the trip count handed on as a variable known to be 50: what follows can keep it a variable. -/
def after52E (O : CellTallies nD τ sig (HIx 1)) (W : Waits sig (HIx 1)) : sProp 𝕄 :=
  iprop(∃ (n : ℕ) (hn : PLift (1 ≤ n ∧ n ≤ 50)), ⌜n = 50⌝ ∗ after52K A d L q1 q2 r1 r2 qi O W n hn.down)

set_option maxHeartbeats 300000 in
/-- The third part: the prefetch of the second 512 ids as one batch of two copies on isem[1], the loop by its invariant,
    the first of the two final waits. -/
theorem part52_run (O : CellTallies nD τ sig (HIx 1)) (W : Waits sig (HIx 1)) (v2 : BitVec 32)
    (htrip : TripOK A d L q1 q2 r1 r2 qi O W v2) :
    iprop(Transfers.MayWaits (thr d L) (default : HIx 1) O
        ∗ gatherPart A d L q1 q2 r1 r2 0 ∗ outPart A d L 0
        ∗ ((eidV).view.loc (thr d L) ↦{qi} A.eid d) ∗ ((pidV).view.loc (thr d L) ↦{qi} A.pid d)
        ∗ (∃ e, (slot1 eixV).view.loc (thr d L) ↦[(slot1 eixV).view.set]{fullShare} e)
        ∗ (∃ p, (slot1 pixV).view.loc (thr d L) ↦[(slot1 pixV).view.set]{fullShare} p)
        ∗ semVal (cellOf d L 8) 0 ∗ semVal (cellOf d L 9) 0
        ∗ owes (thr d L) O W)
      ⊢ wp frame (wpE (defs₀ (F := F)) 𝒱₀ (thr d L) none) Set.univ (k1_part52 (F := F) L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2)
          fun _ => after52E A d L q1 q2 r1 r2 qi O W := by
  rw [k1_part52_eq_skeleton]; unfold k1_part52_skel
  iintro ⟨#Hmw, HG, HOut, Heid, Hpid, ⟨%e1, Heix1⟩, ⟨%p1, Hpix1⟩, Hs8, Hs9, HO⟩
  have hB : Transfers.BatchOf (thr d L) (SemLoc.dma (9 : DmaSem sig)) 2 := trivial
  sl_exec
  ihave Hb := (Entails.of_eq (idsBatch_congr A d L (9 : DmaSem sig) (slot1 eixV) (slot1 pixV) qi (off2_eq L) (k1_off2_inb L) (idsInb L 1 h1_50) e1 p1
      (part52_run.sl.dma0 A d L) (part52_run.sl.dma1 A d L))) $$ [Hs9]
  · iexact Hs9
  ihave Hr := (Entails.of_eq (idsRest_congr A d L qi (off2_eq L) (k1_off2_inb L) (idsInb L 1 h1_50))) $$ [Heid Hpid]
  · isplitl [Heid]; · iexact Heid
    iexact Hpid
  ihave HI0 := (inv_init A d L q1 q2 r1 r2 qi O W e1 p1) $$ [Hmw HG HOut Hb Hr Hs8 HO]
  · isplitr; · iexact Hmw
    isplitl [HG]; · iexact HG
    isplitl [HOut]; · iexact HOut
    isplitl [Hb]
    · rw [← idsPayAt_congr d L eidV (A.eid d) (off2_eq L) (k1_off2_inb L) (idsInb L 1 h1_50), ← idsPayAt_congr d L pidV (A.pid d) (off2_eq L) (k1_off2_inb L) (idsInb L 1 h1_50)]
      iexact Hb
    isplitl [Hr]; · iexact Hr
    isplitl [Hs8]; · iexact Hs8
    iexact HO
  sl_for (inv A d L q1 q2 r1 r2 qi O W) $$ [HI0]
  case region =>
    intro k acc
    exact htrip k acc
  · iexact HI0
  iintro %u HI
  generalize hnn : Scf.trips k1_t1_loop.lb k1_t1_loop.ub k1_t1_loop.st = n
  have hn50 : n = 50 := hnn.symm.trans trips_eq'
  have hnk : 1 ≤ n ∧ n ≤ 50 := by omega
  ihave HI' := (exit_open A d L q1 q2 r1 r2 qi O W n hnk u) $$ HI
  icases HI' with ⟨⟨%fo0, HF0⟩, ⟨%W', %hW', HO⟩, HR⟩
  sl_exec
  sl_step
  unfold after52E
  iexists n, ⟨hnk⟩
  isplitr; · ipureintro; exact hn50
  unfold after52K
  isplitl [HR]; · iexact HR
  isplitl [HF0_dst]; · rw [chunkPt_eq]; iexact HF0_dst
  isplitl [HF0_src]; · iexists fo0; iexact HF0_src
  isplitl [HF0]; · iexact HF0
  iexists _
  isplitr; swap; · iexact HO
  ipureintro
  intro p hp
  rcases Finset.mem_insert.mp hp with rfl | hp
  · exact Or.inr rfl
  · exact hW' p hp

end Part52

end Cert.KernelIdeal.Run.Sc

end
-- ==== Proof.ScPrologFacts.lean ====
/-
  The id scratches as the tile's first part leaves them: slot 0 of each holds the 512 flat ids of the worker's first 512
  rows, so every quarter of it names rows of its table, and slot 0 reads as the id array's window at the worker's first row.
-/
import proofs.«204385_g66649302499670_cont_9to1c4b_43_34_alg».proof.Proof.ScProlog
import Idealize.ShloMosaic.Lib.ValueLayout

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)

/-! ## A list or a slot matched with its unsqueezed shape -/

/-- Position `x` of a 128-list is (0, x) of the 1 × 128 window it was squeezed from. -/
theorem reshape_128 (h : S128.numel = S1x128.numel) (x : Fin 128) : Shape.reshapeEquiv h (ix1 x) = ix2 (⟨0, Nat.one_pos⟩ : Fin 1) x :=
  Shape.reshapeEquiv_eq_of_rowMajor h (by
    rw [Shape.rowMajor_val_two, Shape.rowMajor_val_one]
    show 0 * 128 + x.val = x.val
    omega)

/-- Position `x` of a 512-list is (0, x) of the 1 × 512 window it was squeezed from. -/
theorem reshape_512 (h : S512.numel = S1x512.numel) (x : Fin 512) : Shape.reshapeEquiv h (ix1 x) = ix2 (⟨0, Nat.one_pos⟩ : Fin 1) x :=
  Shape.reshapeEquiv_eq_of_rowMajor h (by
    rw [Shape.rowMajor_val_two, Shape.rowMajor_val_one]
    show 0 * 512 + x.val = x.val
    omega)

variable [FloatOps F] (A : Vals F) (d : Dev nD) (L : grid1.Coords)

/-! ### The element ids' scratch -/

/-- Quarter `c / 128` of slot 0 reads slot 0 from position `c` on. -/
theorem lstE_eq_slot0 (c : ℕ) (hc : c + 128 ≤ 512) (h : ∀ a, (![0, c] : Fin 2 → ℕ) a + S1x128.size a ≤ S2x512.size a)
    (e : Buf (Elt F) ((eixV).view.loc (thr d L))) (x : Fin 128) :
    (lst eixV ![0, c] h).view.read (Elt F) e (ix1 x) = (slot0 eixV).view.read (Elt F) e (ix1 (⟨c + x.val, by omega⟩ : Fin 512)) := by
  show e _ = e _
  refine congrArg e ?_
  funext a; apply Fin.ext
  match a with
  | ⟨0, _⟩ =>
    show 0 + 1 * (Fin.val (_ : Fin 1)) = 0 + 1 * (Fin.val (_ : Fin 1))
    omega
  | ⟨1, _⟩ =>
    show c + 1 * (Fin.val ((Shape.reshapeEquiv _ (ix1 x) : S1x128.Idx) 1)) = 0 + 1 * (Fin.val ((Shape.reshapeEquiv _ (ix1 (⟨c + x.val, by omega⟩ : Fin 512)) : S1x512.Idx) 1))
    rw [reshape_128, reshape_512]
    show c + 1 * x.val = 0 + 1 * (c + x.val)
    omega

/-- What the prolog's copy leaves in slot 0: the 512 ids it fetched. -/
theorem prolog_slot0E (f0 : Buf (Elt F) ((eixV).view.loc (thr d L))) :
    (slot0 eixV).view.read (Elt F) (View.write (Elt F) (slot0 eixV).view f0 (idsPay d L eidV (A.eid d) (k1_off1 L) (k1_off1_inb L)) Finset.univ)
      = idsPay d L eidV (A.eid d) (k1_off1 L) (k1_off1_inb L) :=
  View.read_write_univ _ _

/-- Every entry of a quarter of slot 0 after the prolog names a row of the table. -/
theorem prolog_inE (hIds : ∀ j : S819200.Idx, (A.eid d j).toNat < 100000) (c : ℕ) (hc : c + 128 ≤ 512)
    (h : ∀ a, (![0, c] : Fin 2 → ℕ) a + S1x128.size a ≤ S2x512.size a) (f0 : Buf (Elt F) ((eixV).view.loc (thr d L))) (x : S128.Idx) :
    ((lst eixV ![0, c] h).view.read (Elt F) (View.write (Elt F) (slot0 eixV).view f0 (idsPay d L eidV (A.eid d) (k1_off1 L) (k1_off1_inb L)) Finset.univ) x).toNat < 100000 := by
  obtain ⟨k, rfl⟩ : ∃ k : Fin 128, x = ix1 k := ⟨x 0, eq_ix1 x⟩
  rw [lstE_eq_slot0 d L c hc h, prolog_slot0E]
  exact hIds _

/-- Slot 0 after the prolog holds the ids of the worker's first 512 rows: the same read as through any window of the id
    array that starts at the worker's first row. -/
theorem prolog_slotE_eq (off : Fin 1 → ℕ) (hoff : off 0 = 51200 * (L 1).val + 25600 * (L 0).val) (h : ∀ a, off a + S512.size a ≤ S819200.size a)
    (f0 : Buf (Elt F) ((eixV).view.loc (thr d L))) (x : S512.Idx) :
    (slot0 eixV).view.read (Elt F) (View.write (Elt F) (slot0 eixV).view f0 (idsPay d L eidV (A.eid d) (k1_off1 L) (k1_off1_inb L)) Finset.univ) x
      = ((eidV).slice (Rect.unit (s := S819200) off S512.size h) (fun _ => rfl)).view.read (Elt F) (A.eid d) x := by
  rw [prolog_slot0E]
  have e : k1_off1 L = off := by
    rw [k1_off1_eq]; funext a
    match a with
    | ⟨0, _⟩ => exact hoff.symm
  subst e
  rfl

/-! ### The property ids' scratch -/

/-- Quarter `c / 128` of slot 0 reads slot 0 from position `c` on. -/
theorem lstP_eq_slot0 (c : ℕ) (hc : c + 128 ≤ 512) (h : ∀ a, (![0, c] : Fin 2 → ℕ) a + S1x128.size a ≤ S2x512.size a)
    (e : Buf (Elt F) ((pixV).view.loc (thr d L))) (x : Fin 128) :
    (lst pixV ![0, c] h).view.read (Elt F) e (ix1 x) = (slot0 pixV).view.read (Elt F) e (ix1 (⟨c + x.val, by omega⟩ : Fin 512)) := by
  show e _ = e _
  refine congrArg e ?_
  funext a; apply Fin.ext
  match a with
  | ⟨0, _⟩ =>
    show 0 + 1 * (Fin.val (_ : Fin 1)) = 0 + 1 * (Fin.val (_ : Fin 1))
    omega
  | ⟨1, _⟩ =>
    show c + 1 * (Fin.val ((Shape.reshapeEquiv _ (ix1 x) : S1x128.Idx) 1)) = 0 + 1 * (Fin.val ((Shape.reshapeEquiv _ (ix1 (⟨c + x.val, by omega⟩ : Fin 512)) : S1x512.Idx) 1))
    rw [reshape_128, reshape_512]
    show c + 1 * x.val = 0 + 1 * (c + x.val)
    omega

/-- What the prolog's copy leaves in slot 0: the 512 ids it fetched. -/
theorem prolog_slot0P (f0 : Buf (Elt F) ((pixV).view.loc (thr d L))) :
    (slot0 pixV).view.read (Elt F) (View.write (Elt F) (slot0 pixV).view f0 (idsPay d L pidV (A.pid d) (k1_off1 L) (k1_off1_inb L)) Finset.univ)
      = idsPay d L pidV (A.pid d) (k1_off1 L) (k1_off1_inb L) :=
  View.read_write_univ _ _

/-- Every entry of a quarter of slot 0 after the prolog names a row of the table. -/
theorem prolog_inP (hIds : ∀ j : S819200.Idx, (A.pid d j).toNat < 1000) (c : ℕ) (hc : c + 128 ≤ 512)
    (h : ∀ a, (![0, c] : Fin 2 → ℕ) a + S1x128.size a ≤ S2x512.size a) (f0 : Buf (Elt F) ((pixV).view.loc (thr d L))) (x : S128.Idx) :
    ((lst pixV ![0, c] h).view.read (Elt F) (View.write (Elt F) (slot0 pixV).view f0 (idsPay d L pidV (A.pid d) (k1_off1 L) (k1_off1_inb L)) Finset.univ) x).toNat < 1000 := by
  obtain ⟨k, rfl⟩ : ∃ k : Fin 128, x = ix1 k := ⟨x 0, eq_ix1 x⟩
  rw [lstP_eq_slot0 d L c hc h, prolog_slot0P]
  exact hIds _

/-- Slot 0 after the prolog holds the ids of the worker's first 512 rows: the same read as through any window of the id
    array that starts at the worker's first row. -/
theorem prolog_slotP_eq (off : Fin 1 → ℕ) (hoff : off 0 = 51200 * (L 1).val + 25600 * (L 0).val) (h : ∀ a, off a + S512.size a ≤ S819200.size a)
    (f0 : Buf (Elt F) ((pixV).view.loc (thr d L))) (x : S512.Idx) :
    (slot0 pixV).view.read (Elt F) (View.write (Elt F) (slot0 pixV).view f0 (idsPay d L pidV (A.pid d) (k1_off1 L) (k1_off1_inb L)) Finset.univ) x
      = ((pidV).slice (Rect.unit (s := S819200) off S512.size h) (fun _ => rfl)).view.read (Elt F) (A.pid d) x := by
  rw [prolog_slot0P]
  have e : k1_off1 L = off := by
    rw [k1_off1_eq]; funext a
    match a with
    | ⟨0, _⟩ => exact hoff.symm
  subst e
  rfl

end Cert.KernelIdeal.Run.Sc

end
-- ==== Proof.ScJoin.lean ====
/-
  Putting a scratch back together: an id scratch is its two slots; a chunk buffer is its two halves and what is left
  of it. Each part held by its own elements at any contents, the whole is held at some contents (the piecewise one).
-/
import proofs.«204385_g66649302499670_cont_9to1c4b_43_34_alg».proof.Proof.ScTrip

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)

variable [FloatOps F] (d : Dev nD) (L : grid1.Coords)

/-! ## The two id slots of an id scratch are the scratch -/

abbrev slotR0 : Rect S2x512 := Rect.unit (s := S2x512) ![0, 0] S1x512.size inb_S2x512_S1x512_0_0
abbrev slotR1 : Rect S2x512 := Rect.unit (s := S2x512) ![1, 0] S1x512.size inb_S2x512_S1x512_1_0

omit [FloatOps F] in
theorem slot_sets (M : Memref sig .scVector .vmem S2x512 .i32) :
    (slot0 M).view.set = slotR0.set.map M.view.emb ∧ (slot1 M).view.set = slotR1.set.map M.view.emb := by
  constructor
  · rw [Memref.set_view_squeeze]; exact View.set_slice M.view slotR0
  · rw [Memref.set_view_squeeze]; exact View.set_slice M.view slotR1

omit [FloatOps F] in
theorem slotR_disjoint : Disjoint slotR0.set slotR1.set := by
  refine Finset.disjoint_left.mpr fun y h0 h1 => ?_
  rw [Rect.mem_set_unit] at h0 h1
  have a0 : 0 ≤ (y 0).val ∧ (y 0).val < 0 + 1 := h0 0
  have a1 : 1 ≤ (y 0).val ∧ (y 0).val < 1 + 1 := h1 0
  omega

omit [FloatOps F] in
theorem slotR_union : slotR0.set ∪ slotR1.set = Finset.univ := by
  ext y
  simp only [Finset.mem_union, Finset.mem_univ, iff_true, Rect.mem_set_unit]
  have hy : (y 0).val < 2 := (y 0).isLt
  have h1 : (y 1).val < 512 := (y 1).isLt
  by_cases h : (y 0).val = 0
  · left
    intro a
    match a with
    | ⟨0, _⟩ => show 0 ≤ (y 0).val ∧ (y 0).val < 0 + 1; omega
    | ⟨1, _⟩ => show 0 ≤ (y 1).val ∧ (y 1).val < 0 + 512; omega
  · right
    intro a
    match a with
    | ⟨0, _⟩ => show 1 ≤ (y 0).val ∧ (y 0).val < 1 + 1; omega
    | ⟨1, _⟩ => show 0 ≤ (y 1).val ∧ (y 1).val < 0 + 512; omega

omit [FloatOps F] in
theorem slot_disjoint (M : Memref sig .scVector .vmem S2x512 .i32) : Disjoint (slot0 M).view.set (slot1 M).view.set := by
  rw [(slot_sets M).1, (slot_sets M).2, Finset.disjoint_map]
  exact slotR_disjoint

omit [FloatOps F] in
theorem slot_union (M : Memref sig .scVector .vmem S2x512 .i32) : (slot0 M).view.set ∪ (slot1 M).view.set = M.view.set := by
  rw [(slot_sets M).1, (slot_sets M).2, ← Finset.map_union, slotR_union]
  rfl

/-- An id scratch held whole is its two slots held by their own elements, at the same contents. -/
theorem slots_split (M : Memref sig .scVector .vmem S2x512 .i32) (hM : M.IsWhole) (e : Buf (Elt F) (M.view.loc (thr d L))) :
    (M.view.loc (thr d L) ↦{fullShare} e : sProp 𝕄)
      ⊣⊢ iprop(((slot0 M).view.loc (thr d L) ↦[(slot0 M).view.set]{fullShare} e) ∗ ((slot1 M).view.loc (thr d L) ↦[(slot1 M).view.set]{fullShare} e)) := by
  have h : (M.view.loc (thr d L) ↦[(slot0 M).view.set ∪ (slot1 M).view.set]{fullShare} e : sProp 𝕄)
      ⊣⊢ iprop((M.view.loc (thr d L) ↦[(slot0 M).view.set]{fullShare} e) ∗ (M.view.loc (thr d L) ↦[(slot1 M).view.set]{fullShare} e)) :=
    pointsTo_union (slot_disjoint M)
  rw [slot_union M, hM.set_eq_univ] at h
  exact h

/-- Two slots held by their own elements at any contents are the scratch held whole at some contents. -/
theorem slots_join_ex (M : Memref sig .scVector .vmem S2x512 .i32) (hM : M.IsWhole) :
    (iprop((∃ e : Buf (Elt F) (M.view.loc (thr d L)), (slot0 M).view.loc (thr d L) ↦[(slot0 M).view.set]{fullShare} e)
        ∗ (∃ e : Buf (Elt F) (M.view.loc (thr d L)), (slot1 M).view.loc (thr d L) ↦[(slot1 M).view.set]{fullShare} e)) : sProp 𝕄)
      ⊢ iprop(∃ f : Buf (Elt F) (M.view.loc (thr d L)), M.view.loc (thr d L) ↦{fullShare} f) := by
  iintro ⟨⟨%e0, H0⟩, ⟨%e1, H1⟩⟩
  iexists ((slot1 M).view.set.piecewise e1 e0)
  have h : (iprop((M.view.loc (thr d L) ↦[(slot0 M).view.set]{fullShare} e0) ∗ (M.view.loc (thr d L) ↦[(slot1 M).view.set]{fullShare} e1)) : sProp 𝕄)
      ⊢ (M.view.loc (thr d L) ↦[(slot0 M).view.set ∪ (slot1 M).view.set]{fullShare} ((slot1 M).view.set.piecewise e1 e0)) :=
    pointsTo_join (slot_disjoint M)
  rw [slot_union M, hM.set_eq_univ] at h
  iapply h
  isplitl [H0]; · iexact H0
  iexact H1

/-! ## The two halves of a chunk buffer and the rest are the buffer -/

abbrev hlfR0 : Rect S2x128x128 := Rect.unit (s := S2x128x128) ![0, 0, 0] S1x128x128.size inb_S2x128x128_S1x128x128_0_0_0
abbrev hlfR1 : Rect S2x128x128 := Rect.unit (s := S2x128x128) ![1, 0, 0] S1x128x128.size inb_S2x128x128_S1x128x128_1_0_0

omit [FloatOps F] in
theorem hlf_sets (M : Memref sig .scVector .vmem S2x128x128 .f32) :
    (hlf0 M).view.set = hlfR0.set.map M.view.emb ∧ (hlf1 M).view.set = hlfR1.set.map M.view.emb := by
  constructor
  · rw [Memref.set_view_squeeze]; exact View.set_slice M.view hlfR0
  · rw [Memref.set_view_squeeze]; exact View.set_slice M.view hlfR1

omit [FloatOps F] in
theorem hlf_disjoint (M : Memref sig .scVector .vmem S2x128x128 .f32) : Disjoint (hlf0 M).view.set (hlf1 M).view.set := by
  rw [(hlf_sets M).1, (hlf_sets M).2, Finset.disjoint_map]
  refine Finset.disjoint_left.mpr fun y h0 h1 => ?_
  rw [Rect.mem_set_unit] at h0 h1
  have a0 : 0 ≤ (y 0).val ∧ (y 0).val < 0 + 1 := h0 0
  have a1 : 1 ≤ (y 0).val ∧ (y 0).val < 1 + 1 := h1 0
  omega

/-- A chunk buffer's rest and its two halves, each at any contents, are the buffer held whole at some contents. -/
theorem halves_join_ex (M : Memref sig .scVector .vmem S2x128x128 .f32) :
    (iprop((∃ f : Buf (Elt F) (M.view.loc (thr d L)), M.view.loc (thr d L) ↦[(Finset.univ \ (hlf0 M).view.set) \ (hlf1 M).view.set]{fullShare} f)
        ∗ (∃ f : Buf (Elt F) (M.view.loc (thr d L)), (hlf0 M).view.loc (thr d L) ↦[(hlf0 M).view.set]{fullShare} f)
        ∗ (∃ f : Buf (Elt F) (M.view.loc (thr d L)), (hlf1 M).view.loc (thr d L) ↦[(hlf1 M).view.set]{fullShare} f)) : sProp 𝕄)
      ⊢ iprop(∃ f : Buf (Elt F) (M.view.loc (thr d L)), M.view.loc (thr d L) ↦{fullShare} f) := by
  have h1sub : (hlf1 M).view.set ⊆ Finset.univ \ (hlf0 M).view.set := by
    intro y hy
    exact Finset.mem_sdiff.mpr ⟨Finset.mem_univ _, fun h0 => Finset.disjoint_left.mp (hlf_disjoint M) h0 hy⟩
  iintro ⟨⟨%fr, Hr⟩, ⟨%f0, H0⟩, ⟨%f1, H1⟩⟩
  have j1 : (iprop((M.view.loc (thr d L) ↦[(hlf1 M).view.set]{fullShare} f1) ∗ (M.view.loc (thr d L) ↦[(Finset.univ \ (hlf0 M).view.set) \ (hlf1 M).view.set]{fullShare} fr)) : sProp 𝕄)
      ⊢ (M.view.loc (thr d L) ↦[Finset.univ \ (hlf0 M).view.set]{fullShare} ((hlf1 M).view.set.piecewise f1 fr)) :=
    pointsTo_join_subset h1sub
  have j0 : (iprop((M.view.loc (thr d L) ↦[(hlf0 M).view.set]{fullShare} f0) ∗ (M.view.loc (thr d L) ↦[Finset.univ \ (hlf0 M).view.set]{fullShare} ((hlf1 M).view.set.piecewise f1 fr))) : sProp 𝕄)
      ⊢ (M.view.loc (thr d L) ↦[Finset.univ]{fullShare} ((hlf0 M).view.set.piecewise f0 ((hlf1 M).view.set.piecewise f1 fr))) :=
    pointsTo_join_subset (Finset.subset_univ _)
  iexists ((hlf0 M).view.set.piecewise f0 ((hlf1 M).view.set.piecewise f1 fr))
  iapply j0
  isplitl [H0]; · iexact H0
  iapply j1
  isplitl [H1]; · iexact H1
  iexact Hr

end Cert.KernelIdeal.Run.Sc
end
-- ==== Proof.ScSlots.lean ====
/-
  The two slots of an id scratch: each is everything but the other.
-/
import proofs.«204385_g66649302499670_cont_9to1c4b_43_34_alg».proof.Proof.ScTrip

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable (d : Dev nD) (L : grid1.Coords)

theorem mem_slot0_e (y : S2x512.Idx) : y ∈ (slot0 (Memref.whole cc1_scratch0 : Memref sig Kind.scVector Space.vmem S2x512 EltTy.i32)).view.set ↔ (y 0).val = 0 := by
  rw [Memref.set_view_squeeze]
  rw [show (((Memref.whole cc1_scratch0 : Memref sig Kind.scVector Space.vmem S2x512 EltTy.i32).slice (Rect.unit (s := S2x512) ![0, 0] S1x512.size inb_S2x512_S1x512_0_0) (fun _ => rfl)).view.set)
    = ((View.whole cc1_scratch0).slice (Rect.unit (s := S2x512) ![0, 0] S1x512.size inb_S2x512_S1x512_0_0)).set from rfl, View.set_slice_whole, Rect.mem_set_unit]
  constructor
  · intro h
    have h0 : 0 ≤ (y 0).val ∧ (y 0).val < 0 + 1 := h 0
    omega
  · intro h a
    match a with
    | 0 => show 0 ≤ (y 0).val ∧ (y 0).val < 0 + 1; omega
    | 1 => show 0 ≤ (y 1).val ∧ (y 1).val < 0 + 512; have := (y 1).isLt; exact ⟨Nat.zero_le _, by simpa using this⟩

theorem mem_slot1_e (y : S2x512.Idx) : y ∈ (slot1 (Memref.whole cc1_scratch0 : Memref sig Kind.scVector Space.vmem S2x512 EltTy.i32)).view.set ↔ (y 0).val = 1 := by
  rw [Memref.set_view_squeeze]
  rw [show (((Memref.whole cc1_scratch0 : Memref sig Kind.scVector Space.vmem S2x512 EltTy.i32).slice (Rect.unit (s := S2x512) ![1, 0] S1x512.size inb_S2x512_S1x512_1_0) (fun _ => rfl)).view.set)
    = ((View.whole cc1_scratch0).slice (Rect.unit (s := S2x512) ![1, 0] S1x512.size inb_S2x512_S1x512_1_0)).set from rfl, View.set_slice_whole, Rect.mem_set_unit]
  constructor
  · intro h
    have h0 : 1 ≤ (y 0).val ∧ (y 0).val < 1 + 1 := h 0
    omega
  · intro h a
    match a with
    | 0 => show 1 ≤ (y 0).val ∧ (y 0).val < 1 + 1; omega
    | 1 => show 0 ≤ (y 1).val ∧ (y 1).val < 0 + 512; have := (y 1).isLt; exact ⟨Nat.zero_le _, by simpa using this⟩

/-- Slot 0 is everything but slot 1. -/
theorem slot0_eq_compl_e : (slot0 (Memref.whole cc1_scratch0 : Memref sig Kind.scVector Space.vmem S2x512 EltTy.i32)).view.set = Finset.univ \ (slot1 (Memref.whole cc1_scratch0 : Memref sig Kind.scVector Space.vmem S2x512 EltTy.i32)).view.set := by
  ext (y : S2x512.Idx)
  have hy : (y 0).val < 2 := (y 0).isLt
  constructor
  · intro h
    refine Finset.mem_sdiff.mpr ⟨Finset.mem_univ _, fun ho => ?_⟩
    have h1 := (mem_slot0_e y).mp h
    have h2 := (mem_slot1_e y).mp ho
    omega
  · intro h
    have hno := (Finset.mem_sdiff.mp h).2
    refine (mem_slot0_e y).mpr ?_
    by_contra hne
    exact hno ((mem_slot1_e y).mpr (by omega))

/-- Slot 1 is everything but slot 0. -/
theorem slot1_eq_compl_e : (slot1 (Memref.whole cc1_scratch0 : Memref sig Kind.scVector Space.vmem S2x512 EltTy.i32)).view.set = Finset.univ \ (slot0 (Memref.whole cc1_scratch0 : Memref sig Kind.scVector Space.vmem S2x512 EltTy.i32)).view.set := by
  ext (y : S2x512.Idx)
  have hy : (y 0).val < 2 := (y 0).isLt
  constructor
  · intro h
    refine Finset.mem_sdiff.mpr ⟨Finset.mem_univ _, fun ho => ?_⟩
    have h1 := (mem_slot1_e y).mp h
    have h2 := (mem_slot0_e y).mp ho
    omega
  · intro h
    have hno := (Finset.mem_sdiff.mp h).2
    refine (mem_slot1_e y).mpr ?_
    by_contra hne
    exact hno ((mem_slot0_e y).mpr (by omega))

theorem mem_slot0_p (y : S2x512.Idx) : y ∈ (slot0 (Memref.whole cc1_scratch1 : Memref sig Kind.scVector Space.vmem S2x512 EltTy.i32)).view.set ↔ (y 0).val = 0 := by
  rw [Memref.set_view_squeeze]
  rw [show (((Memref.whole cc1_scratch1 : Memref sig Kind.scVector Space.vmem S2x512 EltTy.i32).slice (Rect.unit (s := S2x512) ![0, 0] S1x512.size inb_S2x512_S1x512_0_0) (fun _ => rfl)).view.set)
    = ((View.whole cc1_scratch1).slice (Rect.unit (s := S2x512) ![0, 0] S1x512.size inb_S2x512_S1x512_0_0)).set from rfl, View.set_slice_whole, Rect.mem_set_unit]
  constructor
  · intro h
    have h0 : 0 ≤ (y 0).val ∧ (y 0).val < 0 + 1 := h 0
    omega
  · intro h a
    match a with
    | 0 => show 0 ≤ (y 0).val ∧ (y 0).val < 0 + 1; omega
    | 1 => show 0 ≤ (y 1).val ∧ (y 1).val < 0 + 512; have := (y 1).isLt; exact ⟨Nat.zero_le _, by simpa using this⟩

theorem mem_slot1_p (y : S2x512.Idx) : y ∈ (slot1 (Memref.whole cc1_scratch1 : Memref sig Kind.scVector Space.vmem S2x512 EltTy.i32)).view.set ↔ (y 0).val = 1 := by
  rw [Memref.set_view_squeeze]
  rw [show (((Memref.whole cc1_scratch1 : Memref sig Kind.scVector Space.vmem S2x512 EltTy.i32).slice (Rect.unit (s := S2x512) ![1, 0] S1x512.size inb_S2x512_S1x512_1_0) (fun _ => rfl)).view.set)
    = ((View.whole cc1_scratch1).slice (Rect.unit (s := S2x512) ![1, 0] S1x512.size inb_S2x512_S1x512_1_0)).set from rfl, View.set_slice_whole, Rect.mem_set_unit]
  constructor
  · intro h
    have h0 : 1 ≤ (y 0).val ∧ (y 0).val < 1 + 1 := h 0
    omega
  · intro h a
    match a with
    | 0 => show 1 ≤ (y 0).val ∧ (y 0).val < 1 + 1; omega
    | 1 => show 0 ≤ (y 1).val ∧ (y 1).val < 0 + 512; have := (y 1).isLt; exact ⟨Nat.zero_le _, by simpa using this⟩

/-- Slot 0 is everything but slot 1. -/
theorem slot0_eq_compl_p : (slot0 (Memref.whole cc1_scratch1 : Memref sig Kind.scVector Space.vmem S2x512 EltTy.i32)).view.set = Finset.univ \ (slot1 (Memref.whole cc1_scratch1 : Memref sig Kind.scVector Space.vmem S2x512 EltTy.i32)).view.set := by
  ext (y : S2x512.Idx)
  have hy : (y 0).val < 2 := (y 0).isLt
  constructor
  · intro h
    refine Finset.mem_sdiff.mpr ⟨Finset.mem_univ _, fun ho => ?_⟩
    have h1 := (mem_slot0_p y).mp h
    have h2 := (mem_slot1_p y).mp ho
    omega
  · intro h
    have hno := (Finset.mem_sdiff.mp h).2
    refine (mem_slot0_p y).mpr ?_
    by_contra hne
    exact hno ((mem_slot1_p y).mpr (by omega))

/-- Slot 1 is everything but slot 0. -/
theorem slot1_eq_compl_p : (slot1 (Memref.whole cc1_scratch1 : Memref sig Kind.scVector Space.vmem S2x512 EltTy.i32)).view.set = Finset.univ \ (slot0 (Memref.whole cc1_scratch1 : Memref sig Kind.scVector Space.vmem S2x512 EltTy.i32)).view.set := by
  ext (y : S2x512.Idx)
  have hy : (y 0).val < 2 := (y 0).isLt
  constructor
  · intro h
    refine Finset.mem_sdiff.mpr ⟨Finset.mem_univ _, fun ho => ?_⟩
    have h1 := (mem_slot1_p y).mp h
    have h2 := (mem_slot0_p y).mp ho
    omega
  · intro h
    have hno := (Finset.mem_sdiff.mp h).2
    refine (mem_slot1_p y).mpr ?_
    by_contra hne
    exact hno ((mem_slot0_p y).mpr (by omega))

/-- Three pieces at the same contents are the whole they partition. -/
theorem assemble3 {ℓ : Loc nD τ sig} (X a b : Finset (Idx ℓ)) (f : Buf (Elt F) ℓ) (ha : a ⊆ X) (hb : b ⊆ X \ a) :
    iprop((ℓ ↦[(X \ a) \ b]{fullShare} f) ∗ (ℓ ↦[a]{fullShare} f) ∗ (ℓ ↦[b]{fullShare} f)) ⊢ (ℓ ↦[X]{fullShare} f : sProp 𝕄) := by
  iintro ⟨Hr, Ha, Hb⟩
  iapply (pointsTo_split_subset ha).2
  isplitl [Ha]; · iexact Ha
  iapply (pointsTo_split_subset hb).2
  isplitl [Hb]; · iexact Hb
  iexact Hr

theorem mem_lst_e_0_0 (y : S2x512.Idx) : y ∈ (lst (Memref.whole cc1_scratch0 : Memref sig Kind.scVector Space.vmem S2x512 EltTy.i32) ![0, 0] linb_0_0).view.set ↔ (y 0).val = 0 ∧ 0 ≤ (y 1).val ∧ (y 1).val < 0 + 128 := by
  rw [Memref.set_view_squeeze]
  rw [show (((Memref.whole cc1_scratch0 : Memref sig Kind.scVector Space.vmem S2x512 EltTy.i32).slice (Rect.unit (s := S2x512) ![0, 0] S1x128.size linb_0_0) (fun _ => rfl)).view.set)
    = ((View.whole cc1_scratch0).slice (Rect.unit (s := S2x512) ![0, 0] S1x128.size linb_0_0)).set from rfl, View.set_slice_whole, Rect.mem_set_unit]
  constructor
  · intro h
    have h0 : 0 ≤ (y 0).val ∧ (y 0).val < 0 + 1 := h 0
    have h1 : 0 ≤ (y 1).val ∧ (y 1).val < 0 + 128 := h 1
    omega
  · intro h a
    match a with
    | 0 => show 0 ≤ (y 0).val ∧ (y 0).val < 0 + 1; omega
    | 1 => show 0 ≤ (y 1).val ∧ (y 1).val < 0 + 128; omega

theorem mem_lst_e_0_128 (y : S2x512.Idx) : y ∈ (lst (Memref.whole cc1_scratch0 : Memref sig Kind.scVector Space.vmem S2x512 EltTy.i32) ![0, 128] linb_0_128).view.set ↔ (y 0).val = 0 ∧ 128 ≤ (y 1).val ∧ (y 1).val < 128 + 128 := by
  rw [Memref.set_view_squeeze]
  rw [show (((Memref.whole cc1_scratch0 : Memref sig Kind.scVector Space.vmem S2x512 EltTy.i32).slice (Rect.unit (s := S2x512) ![0, 128] S1x128.size linb_0_128) (fun _ => rfl)).view.set)
    = ((View.whole cc1_scratch0).slice (Rect.unit (s := S2x512) ![0, 128] S1x128.size linb_0_128)).set from rfl, View.set_slice_whole, Rect.mem_set_unit]
  constructor
  · intro h
    have h0 : 0 ≤ (y 0).val ∧ (y 0).val < 0 + 1 := h 0
    have h1 : 128 ≤ (y 1).val ∧ (y 1).val < 128 + 128 := h 1
    omega
  · intro h a
    match a with
    | 0 => show 0 ≤ (y 0).val ∧ (y 0).val < 0 + 1; omega
    | 1 => show 128 ≤ (y 1).val ∧ (y 1).val < 128 + 128; omega

theorem mem_lst_e_0_256 (y : S2x512.Idx) : y ∈ (lst (Memref.whole cc1_scratch0 : Memref sig Kind.scVector Space.vmem S2x512 EltTy.i32) ![0, 256] linb_0_256).view.set ↔ (y 0).val = 0 ∧ 256 ≤ (y 1).val ∧ (y 1).val < 256 + 128 := by
  rw [Memref.set_view_squeeze]
  rw [show (((Memref.whole cc1_scratch0 : Memref sig Kind.scVector Space.vmem S2x512 EltTy.i32).slice (Rect.unit (s := S2x512) ![0, 256] S1x128.size linb_0_256) (fun _ => rfl)).view.set)
    = ((View.whole cc1_scratch0).slice (Rect.unit (s := S2x512) ![0, 256] S1x128.size linb_0_256)).set from rfl, View.set_slice_whole, Rect.mem_set_unit]
  constructor
  · intro h
    have h0 : 0 ≤ (y 0).val ∧ (y 0).val < 0 + 1 := h 0
    have h1 : 256 ≤ (y 1).val ∧ (y 1).val < 256 + 128 := h 1
    omega
  · intro h a
    match a with
    | 0 => show 0 ≤ (y 0).val ∧ (y 0).val < 0 + 1; omega
    | 1 => show 256 ≤ (y 1).val ∧ (y 1).val < 256 + 128; omega

theorem mem_lst_e_0_384 (y : S2x512.Idx) : y ∈ (lst (Memref.whole cc1_scratch0 : Memref sig Kind.scVector Space.vmem S2x512 EltTy.i32) ![0, 384] linb_0_384).view.set ↔ (y 0).val = 0 ∧ 384 ≤ (y 1).val ∧ (y 1).val < 384 + 128 := by
  rw [Memref.set_view_squeeze]
  rw [show (((Memref.whole cc1_scratch0 : Memref sig Kind.scVector Space.vmem S2x512 EltTy.i32).slice (Rect.unit (s := S2x512) ![0, 384] S1x128.size linb_0_384) (fun _ => rfl)).view.set)
    = ((View.whole cc1_scratch0).slice (Rect.unit (s := S2x512) ![0, 384] S1x128.size linb_0_384)).set from rfl, View.set_slice_whole, Rect.mem_set_unit]
  constructor
  · intro h
    have h0 : 0 ≤ (y 0).val ∧ (y 0).val < 0 + 1 := h 0
    have h1 : 384 ≤ (y 1).val ∧ (y 1).val < 384 + 128 := h 1
    omega
  · intro h a
    match a with
    | 0 => show 0 ≤ (y 0).val ∧ (y 0).val < 0 + 1; omega
    | 1 => show 384 ≤ (y 1).val ∧ (y 1).val < 384 + 128; omega

theorem mem_lst_e_1_0 (y : S2x512.Idx) : y ∈ (lst (Memref.whole cc1_scratch0 : Memref sig Kind.scVector Space.vmem S2x512 EltTy.i32) ![1, 0] linb_1_0).view.set ↔ (y 0).val = 1 ∧ 0 ≤ (y 1).val ∧ (y 1).val < 0 + 128 := by
  rw [Memref.set_view_squeeze]
  rw [show (((Memref.whole cc1_scratch0 : Memref sig Kind.scVector Space.vmem S2x512 EltTy.i32).slice (Rect.unit (s := S2x512) ![1, 0] S1x128.size linb_1_0) (fun _ => rfl)).view.set)
    = ((View.whole cc1_scratch0).slice (Rect.unit (s := S2x512) ![1, 0] S1x128.size linb_1_0)).set from rfl, View.set_slice_whole, Rect.mem_set_unit]
  constructor
  · intro h
    have h0 : 1 ≤ (y 0).val ∧ (y 0).val < 1 + 1 := h 0
    have h1 : 0 ≤ (y 1).val ∧ (y 1).val < 0 + 128 := h 1
    omega
  · intro h a
    match a with
    | 0 => show 1 ≤ (y 0).val ∧ (y 0).val < 1 + 1; omega
    | 1 => show 0 ≤ (y 1).val ∧ (y 1).val < 0 + 128; omega

theorem mem_lst_e_1_128 (y : S2x512.Idx) : y ∈ (lst (Memref.whole cc1_scratch0 : Memref sig Kind.scVector Space.vmem S2x512 EltTy.i32) ![1, 128] linb_1_128).view.set ↔ (y 0).val = 1 ∧ 128 ≤ (y 1).val ∧ (y 1).val < 128 + 128 := by
  rw [Memref.set_view_squeeze]
  rw [show (((Memref.whole cc1_scratch0 : Memref sig Kind.scVector Space.vmem S2x512 EltTy.i32).slice (Rect.unit (s := S2x512) ![1, 128] S1x128.size linb_1_128) (fun _ => rfl)).view.set)
    = ((View.whole cc1_scratch0).slice (Rect.unit (s := S2x512) ![1, 128] S1x128.size linb_1_128)).set from rfl, View.set_slice_whole, Rect.mem_set_unit]
  constructor
  · intro h
    have h0 : 1 ≤ (y 0).val ∧ (y 0).val < 1 + 1 := h 0
    have h1 : 128 ≤ (y 1).val ∧ (y 1).val < 128 + 128 := h 1
    omega
  · intro h a
    match a with
    | 0 => show 1 ≤ (y 0).val ∧ (y 0).val < 1 + 1; omega
    | 1 => show 128 ≤ (y 1).val ∧ (y 1).val < 128 + 128; omega

theorem mem_lst_e_1_256 (y : S2x512.Idx) : y ∈ (lst (Memref.whole cc1_scratch0 : Memref sig Kind.scVector Space.vmem S2x512 EltTy.i32) ![1, 256] linb_1_256).view.set ↔ (y 0).val = 1 ∧ 256 ≤ (y 1).val ∧ (y 1).val < 256 + 128 := by
  rw [Memref.set_view_squeeze]
  rw [show (((Memref.whole cc1_scratch0 : Memref sig Kind.scVector Space.vmem S2x512 EltTy.i32).slice (Rect.unit (s := S2x512) ![1, 256] S1x128.size linb_1_256) (fun _ => rfl)).view.set)
    = ((View.whole cc1_scratch0).slice (Rect.unit (s := S2x512) ![1, 256] S1x128.size linb_1_256)).set from rfl, View.set_slice_whole, Rect.mem_set_unit]
  constructor
  · intro h
    have h0 : 1 ≤ (y 0).val ∧ (y 0).val < 1 + 1 := h 0
    have h1 : 256 ≤ (y 1).val ∧ (y 1).val < 256 + 128 := h 1
    omega
  · intro h a
    match a with
    | 0 => show 1 ≤ (y 0).val ∧ (y 0).val < 1 + 1; omega
    | 1 => show 256 ≤ (y 1).val ∧ (y 1).val < 256 + 128; omega

theorem mem_lst_e_1_384 (y : S2x512.Idx) : y ∈ (lst (Memref.whole cc1_scratch0 : Memref sig Kind.scVector Space.vmem S2x512 EltTy.i32) ![1, 384] linb_1_384).view.set ↔ (y 0).val = 1 ∧ 384 ≤ (y 1).val ∧ (y 1).val < 384 + 128 := by
  rw [Memref.set_view_squeeze]
  rw [show (((Memref.whole cc1_scratch0 : Memref sig Kind.scVector Space.vmem S2x512 EltTy.i32).slice (Rect.unit (s := S2x512) ![1, 384] S1x128.size linb_1_384) (fun _ => rfl)).view.set)
    = ((View.whole cc1_scratch0).slice (Rect.unit (s := S2x512) ![1, 384] S1x128.size linb_1_384)).set from rfl, View.set_slice_whole, Rect.mem_set_unit]
  constructor
  · intro h
    have h0 : 1 ≤ (y 0).val ∧ (y 0).val < 1 + 1 := h 0
    have h1 : 384 ≤ (y 1).val ∧ (y 1).val < 384 + 128 := h 1
    omega
  · intro h a
    match a with
    | 0 => show 1 ≤ (y 0).val ∧ (y 0).val < 1 + 1; omega
    | 1 => show 384 ≤ (y 1).val ∧ (y 1).val < 384 + 128; omega

/-- Slot 0 whole again: what was left in hand of it, its first quarter and its last, all at the same contents. -/
theorem slot0_assemble_e (f : Buf (Elt F) ((Memref.whole cc1_scratch0 : Memref sig Kind.scVector Space.vmem S2x512 EltTy.i32).view.loc (thr d L))) :
    iprop(((Memref.whole cc1_scratch0 : Memref sig Kind.scVector Space.vmem S2x512 EltTy.i32).view.loc (thr d L) ↦[((Finset.univ \ (slot1 (Memref.whole cc1_scratch0 : Memref sig Kind.scVector Space.vmem S2x512 EltTy.i32)).view.set) \ (lst (Memref.whole cc1_scratch0 : Memref sig Kind.scVector Space.vmem S2x512 EltTy.i32) ![0, 0] linb_0_0).view.set) \ (lst (Memref.whole cc1_scratch0 : Memref sig Kind.scVector Space.vmem S2x512 EltTy.i32) ![0, 384] linb_0_384).view.set]{fullShare} f)
        ∗ ((lst (Memref.whole cc1_scratch0 : Memref sig Kind.scVector Space.vmem S2x512 EltTy.i32) ![0, 0] linb_0_0).view.loc (thr d L) ↦[(lst (Memref.whole cc1_scratch0 : Memref sig Kind.scVector Space.vmem S2x512 EltTy.i32) ![0, 0] linb_0_0).view.set]{fullShare} f)
        ∗ ((Memref.whole cc1_scratch0 : Memref sig Kind.scVector Space.vmem S2x512 EltTy.i32).view.loc (thr d L) ↦[(lst (Memref.whole cc1_scratch0 : Memref sig Kind.scVector Space.vmem S2x512 EltTy.i32) ![0, 384] linb_0_384).view.set]{fullShare} f))
      ⊢ ((slot0 (Memref.whole cc1_scratch0 : Memref sig Kind.scVector Space.vmem S2x512 EltTy.i32)).view.loc (thr d L) ↦[(slot0 (Memref.whole cc1_scratch0 : Memref sig Kind.scVector Space.vmem S2x512 EltTy.i32)).view.set]{fullShare} f : sProp 𝕄) := by
  rw [slot0_eq_compl_e]
  refine assemble3 (F := F) (ℓ := (Memref.whole cc1_scratch0 : Memref sig Kind.scVector Space.vmem S2x512 EltTy.i32).view.loc (thr d L)) _ _ _ f ?_ ?_
  · intro y hy
    have h := (mem_lst_e_0_0 y).mp hy
    refine Finset.mem_sdiff.mpr ⟨Finset.mem_univ _, fun ho => ?_⟩
    have h2 := (mem_slot1_e y).mp ho
    omega
  · intro y hy
    have h := (mem_lst_e_0_384 y).mp hy
    refine Finset.mem_sdiff.mpr ⟨Finset.mem_sdiff.mpr ⟨Finset.mem_univ _, fun ho => ?_⟩, fun ho => ?_⟩
    · have h2 := (mem_slot1_e y).mp ho
      omega
    · have h2 := (mem_lst_e_0_0 y).mp ho
      omega

/-- Slot 1 whole again: what was left in hand of it, its first quarter and its last, all at the same contents. -/
theorem slot1_assemble_e (f : Buf (Elt F) ((Memref.whole cc1_scratch0 : Memref sig Kind.scVector Space.vmem S2x512 EltTy.i32).view.loc (thr d L))) :
    iprop(((Memref.whole cc1_scratch0 : Memref sig Kind.scVector Space.vmem S2x512 EltTy.i32).view.loc (thr d L) ↦[((Finset.univ \ (slot0 (Memref.whole cc1_scratch0 : Memref sig Kind.scVector Space.vmem S2x512 EltTy.i32)).view.set) \ (lst (Memref.whole cc1_scratch0 : Memref sig Kind.scVector Space.vmem S2x512 EltTy.i32) ![1, 0] linb_1_0).view.set) \ (lst (Memref.whole cc1_scratch0 : Memref sig Kind.scVector Space.vmem S2x512 EltTy.i32) ![1, 384] linb_1_384).view.set]{fullShare} f)
        ∗ ((lst (Memref.whole cc1_scratch0 : Memref sig Kind.scVector Space.vmem S2x512 EltTy.i32) ![1, 0] linb_1_0).view.loc (thr d L) ↦[(lst (Memref.whole cc1_scratch0 : Memref sig Kind.scVector Space.vmem S2x512 EltTy.i32) ![1, 0] linb_1_0).view.set]{fullShare} f)
        ∗ ((Memref.whole cc1_scratch0 : Memref sig Kind.scVector Space.vmem S2x512 EltTy.i32).view.loc (thr d L) ↦[(lst (Memref.whole cc1_scratch0 : Memref sig Kind.scVector Space.vmem S2x512 EltTy.i32) ![1, 384] linb_1_384).view.set]{fullShare} f))
      ⊢ ((slot1 (Memref.whole cc1_scratch0 : Memref sig Kind.scVector Space.vmem S2x512 EltTy.i32)).view.loc (thr d L) ↦[(slot1 (Memref.whole cc1_scratch0 : Memref sig Kind.scVector Space.vmem S2x512 EltTy.i32)).view.set]{fullShare} f : sProp 𝕄) := by
  rw [slot1_eq_compl_e]
  refine assemble3 (F := F) (ℓ := (Memref.whole cc1_scratch0 : Memref sig Kind.scVector Space.vmem S2x512 EltTy.i32).view.loc (thr d L)) _ _ _ f ?_ ?_
  · intro y hy
    have h := (mem_lst_e_1_0 y).mp hy
    refine Finset.mem_sdiff.mpr ⟨Finset.mem_univ _, fun ho => ?_⟩
    have h2 := (mem_slot0_e y).mp ho
    omega
  · intro y hy
    have h := (mem_lst_e_1_384 y).mp hy
    refine Finset.mem_sdiff.mpr ⟨Finset.mem_sdiff.mpr ⟨Finset.mem_univ _, fun ho => ?_⟩, fun ho => ?_⟩
    · have h2 := (mem_slot0_e y).mp ho
      omega
    · have h2 := (mem_lst_e_1_0 y).mp ho
      omega

theorem mem_lst_p_0_0 (y : S2x512.Idx) : y ∈ (lst (Memref.whole cc1_scratch1 : Memref sig Kind.scVector Space.vmem S2x512 EltTy.i32) ![0, 0] linb_0_0).view.set ↔ (y 0).val = 0 ∧ 0 ≤ (y 1).val ∧ (y 1).val < 0 + 128 := by
  rw [Memref.set_view_squeeze]
  rw [show (((Memref.whole cc1_scratch1 : Memref sig Kind.scVector Space.vmem S2x512 EltTy.i32).slice (Rect.unit (s := S2x512) ![0, 0] S1x128.size linb_0_0) (fun _ => rfl)).view.set)
    = ((View.whole cc1_scratch1).slice (Rect.unit (s := S2x512) ![0, 0] S1x128.size linb_0_0)).set from rfl, View.set_slice_whole, Rect.mem_set_unit]
  constructor
  · intro h
    have h0 : 0 ≤ (y 0).val ∧ (y 0).val < 0 + 1 := h 0
    have h1 : 0 ≤ (y 1).val ∧ (y 1).val < 0 + 128 := h 1
    omega
  · intro h a
    match a with
    | 0 => show 0 ≤ (y 0).val ∧ (y 0).val < 0 + 1; omega
    | 1 => show 0 ≤ (y 1).val ∧ (y 1).val < 0 + 128; omega

theorem mem_lst_p_0_128 (y : S2x512.Idx) : y ∈ (lst (Memref.whole cc1_scratch1 : Memref sig Kind.scVector Space.vmem S2x512 EltTy.i32) ![0, 128] linb_0_128).view.set ↔ (y 0).val = 0 ∧ 128 ≤ (y 1).val ∧ (y 1).val < 128 + 128 := by
  rw [Memref.set_view_squeeze]
  rw [show (((Memref.whole cc1_scratch1 : Memref sig Kind.scVector Space.vmem S2x512 EltTy.i32).slice (Rect.unit (s := S2x512) ![0, 128] S1x128.size linb_0_128) (fun _ => rfl)).view.set)
    = ((View.whole cc1_scratch1).slice (Rect.unit (s := S2x512) ![0, 128] S1x128.size linb_0_128)).set from rfl, View.set_slice_whole, Rect.mem_set_unit]
  constructor
  · intro h
    have h0 : 0 ≤ (y 0).val ∧ (y 0).val < 0 + 1 := h 0
    have h1 : 128 ≤ (y 1).val ∧ (y 1).val < 128 + 128 := h 1
    omega
  · intro h a
    match a with
    | 0 => show 0 ≤ (y 0).val ∧ (y 0).val < 0 + 1; omega
    | 1 => show 128 ≤ (y 1).val ∧ (y 1).val < 128 + 128; omega

theorem mem_lst_p_0_256 (y : S2x512.Idx) : y ∈ (lst (Memref.whole cc1_scratch1 : Memref sig Kind.scVector Space.vmem S2x512 EltTy.i32) ![0, 256] linb_0_256).view.set ↔ (y 0).val = 0 ∧ 256 ≤ (y 1).val ∧ (y 1).val < 256 + 128 := by
  rw [Memref.set_view_squeeze]
  rw [show (((Memref.whole cc1_scratch1 : Memref sig Kind.scVector Space.vmem S2x512 EltTy.i32).slice (Rect.unit (s := S2x512) ![0, 256] S1x128.size linb_0_256) (fun _ => rfl)).view.set)
    = ((View.whole cc1_scratch1).slice (Rect.unit (s := S2x512) ![0, 256] S1x128.size linb_0_256)).set from rfl, View.set_slice_whole, Rect.mem_set_unit]
  constructor
  · intro h
    have h0 : 0 ≤ (y 0).val ∧ (y 0).val < 0 + 1 := h 0
    have h1 : 256 ≤ (y 1).val ∧ (y 1).val < 256 + 128 := h 1
    omega
  · intro h a
    match a with
    | 0 => show 0 ≤ (y 0).val ∧ (y 0).val < 0 + 1; omega
    | 1 => show 256 ≤ (y 1).val ∧ (y 1).val < 256 + 128; omega

theorem mem_lst_p_0_384 (y : S2x512.Idx) : y ∈ (lst (Memref.whole cc1_scratch1 : Memref sig Kind.scVector Space.vmem S2x512 EltTy.i32) ![0, 384] linb_0_384).view.set ↔ (y 0).val = 0 ∧ 384 ≤ (y 1).val ∧ (y 1).val < 384 + 128 := by
  rw [Memref.set_view_squeeze]
  rw [show (((Memref.whole cc1_scratch1 : Memref sig Kind.scVector Space.vmem S2x512 EltTy.i32).slice (Rect.unit (s := S2x512) ![0, 384] S1x128.size linb_0_384) (fun _ => rfl)).view.set)
    = ((View.whole cc1_scratch1).slice (Rect.unit (s := S2x512) ![0, 384] S1x128.size linb_0_384)).set from rfl, View.set_slice_whole, Rect.mem_set_unit]
  constructor
  · intro h
    have h0 : 0 ≤ (y 0).val ∧ (y 0).val < 0 + 1 := h 0
    have h1 : 384 ≤ (y 1).val ∧ (y 1).val < 384 + 128 := h 1
    omega
  · intro h a
    match a with
    | 0 => show 0 ≤ (y 0).val ∧ (y 0).val < 0 + 1; omega
    | 1 => show 384 ≤ (y 1).val ∧ (y 1).val < 384 + 128; omega

theorem mem_lst_p_1_0 (y : S2x512.Idx) : y ∈ (lst (Memref.whole cc1_scratch1 : Memref sig Kind.scVector Space.vmem S2x512 EltTy.i32) ![1, 0] linb_1_0).view.set ↔ (y 0).val = 1 ∧ 0 ≤ (y 1).val ∧ (y 1).val < 0 + 128 := by
  rw [Memref.set_view_squeeze]
  rw [show (((Memref.whole cc1_scratch1 : Memref sig Kind.scVector Space.vmem S2x512 EltTy.i32).slice (Rect.unit (s := S2x512) ![1, 0] S1x128.size linb_1_0) (fun _ => rfl)).view.set)
    = ((View.whole cc1_scratch1).slice (Rect.unit (s := S2x512) ![1, 0] S1x128.size linb_1_0)).set from rfl, View.set_slice_whole, Rect.mem_set_unit]
  constructor
  · intro h
    have h0 : 1 ≤ (y 0).val ∧ (y 0).val < 1 + 1 := h 0
    have h1 : 0 ≤ (y 1).val ∧ (y 1).val < 0 + 128 := h 1
    omega
  · intro h a
    match a with
    | 0 => show 1 ≤ (y 0).val ∧ (y 0).val < 1 + 1; omega
    | 1 => show 0 ≤ (y 1).val ∧ (y 1).val < 0 + 128; omega

theorem mem_lst_p_1_128 (y : S2x512.Idx) : y ∈ (lst (Memref.whole cc1_scratch1 : Memref sig Kind.scVector Space.vmem S2x512 EltTy.i32) ![1, 128] linb_1_128).view.set ↔ (y 0).val = 1 ∧ 128 ≤ (y 1).val ∧ (y 1).val < 128 + 128 := by
  rw [Memref.set_view_squeeze]
  rw [show (((Memref.whole cc1_scratch1 : Memref sig Kind.scVector Space.vmem S2x512 EltTy.i32).slice (Rect.unit (s := S2x512) ![1, 128] S1x128.size linb_1_128) (fun _ => rfl)).view.set)
    = ((View.whole cc1_scratch1).slice (Rect.unit (s := S2x512) ![1, 128] S1x128.size linb_1_128)).set from rfl, View.set_slice_whole, Rect.mem_set_unit]
  constructor
  · intro h
    have h0 : 1 ≤ (y 0).val ∧ (y 0).val < 1 + 1 := h 0
    have h1 : 128 ≤ (y 1).val ∧ (y 1).val < 128 + 128 := h 1
    omega
  · intro h a
    match a with
    | 0 => show 1 ≤ (y 0).val ∧ (y 0).val < 1 + 1; omega
    | 1 => show 128 ≤ (y 1).val ∧ (y 1).val < 128 + 128; omega

theorem mem_lst_p_1_256 (y : S2x512.Idx) : y ∈ (lst (Memref.whole cc1_scratch1 : Memref sig Kind.scVector Space.vmem S2x512 EltTy.i32) ![1, 256] linb_1_256).view.set ↔ (y 0).val = 1 ∧ 256 ≤ (y 1).val ∧ (y 1).val < 256 + 128 := by
  rw [Memref.set_view_squeeze]
  rw [show (((Memref.whole cc1_scratch1 : Memref sig Kind.scVector Space.vmem S2x512 EltTy.i32).slice (Rect.unit (s := S2x512) ![1, 256] S1x128.size linb_1_256) (fun _ => rfl)).view.set)
    = ((View.whole cc1_scratch1).slice (Rect.unit (s := S2x512) ![1, 256] S1x128.size linb_1_256)).set from rfl, View.set_slice_whole, Rect.mem_set_unit]
  constructor
  · intro h
    have h0 : 1 ≤ (y 0).val ∧ (y 0).val < 1 + 1 := h 0
    have h1 : 256 ≤ (y 1).val ∧ (y 1).val < 256 + 128 := h 1
    omega
  · intro h a
    match a with
    | 0 => show 1 ≤ (y 0).val ∧ (y 0).val < 1 + 1; omega
    | 1 => show 256 ≤ (y 1).val ∧ (y 1).val < 256 + 128; omega

theorem mem_lst_p_1_384 (y : S2x512.Idx) : y ∈ (lst (Memref.whole cc1_scratch1 : Memref sig Kind.scVector Space.vmem S2x512 EltTy.i32) ![1, 384] linb_1_384).view.set ↔ (y 0).val = 1 ∧ 384 ≤ (y 1).val ∧ (y 1).val < 384 + 128 := by
  rw [Memref.set_view_squeeze]
  rw [show (((Memref.whole cc1_scratch1 : Memref sig Kind.scVector Space.vmem S2x512 EltTy.i32).slice (Rect.unit (s := S2x512) ![1, 384] S1x128.size linb_1_384) (fun _ => rfl)).view.set)
    = ((View.whole cc1_scratch1).slice (Rect.unit (s := S2x512) ![1, 384] S1x128.size linb_1_384)).set from rfl, View.set_slice_whole, Rect.mem_set_unit]
  constructor
  · intro h
    have h0 : 1 ≤ (y 0).val ∧ (y 0).val < 1 + 1 := h 0
    have h1 : 384 ≤ (y 1).val ∧ (y 1).val < 384 + 128 := h 1
    omega
  · intro h a
    match a with
    | 0 => show 1 ≤ (y 0).val ∧ (y 0).val < 1 + 1; omega
    | 1 => show 384 ≤ (y 1).val ∧ (y 1).val < 384 + 128; omega

/-- Slot 0 whole again: what was left in hand of it, its first quarter and its last, all at the same contents. -/
theorem slot0_assemble_p (f : Buf (Elt F) ((Memref.whole cc1_scratch1 : Memref sig Kind.scVector Space.vmem S2x512 EltTy.i32).view.loc (thr d L))) :
    iprop(((Memref.whole cc1_scratch1 : Memref sig Kind.scVector Space.vmem S2x512 EltTy.i32).view.loc (thr d L) ↦[((Finset.univ \ (slot1 (Memref.whole cc1_scratch1 : Memref sig Kind.scVector Space.vmem S2x512 EltTy.i32)).view.set) \ (lst (Memref.whole cc1_scratch1 : Memref sig Kind.scVector Space.vmem S2x512 EltTy.i32) ![0, 0] linb_0_0).view.set) \ (lst (Memref.whole cc1_scratch1 : Memref sig Kind.scVector Space.vmem S2x512 EltTy.i32) ![0, 384] linb_0_384).view.set]{fullShare} f)
        ∗ ((lst (Memref.whole cc1_scratch1 : Memref sig Kind.scVector Space.vmem S2x512 EltTy.i32) ![0, 0] linb_0_0).view.loc (thr d L) ↦[(lst (Memref.whole cc1_scratch1 : Memref sig Kind.scVector Space.vmem S2x512 EltTy.i32) ![0, 0] linb_0_0).view.set]{fullShare} f)
        ∗ ((Memref.whole cc1_scratch1 : Memref sig Kind.scVector Space.vmem S2x512 EltTy.i32).view.loc (thr d L) ↦[(lst (Memref.whole cc1_scratch1 : Memref sig Kind.scVector Space.vmem S2x512 EltTy.i32) ![0, 384] linb_0_384).view.set]{fullShare} f))
      ⊢ ((slot0 (Memref.whole cc1_scratch1 : Memref sig Kind.scVector Space.vmem S2x512 EltTy.i32)).view.loc (thr d L) ↦[(slot0 (Memref.whole cc1_scratch1 : Memref sig Kind.scVector Space.vmem S2x512 EltTy.i32)).view.set]{fullShare} f : sProp 𝕄) := by
  rw [slot0_eq_compl_p]
  refine assemble3 (F := F) (ℓ := (Memref.whole cc1_scratch1 : Memref sig Kind.scVector Space.vmem S2x512 EltTy.i32).view.loc (thr d L)) _ _ _ f ?_ ?_
  · intro y hy
    have h := (mem_lst_p_0_0 y).mp hy
    refine Finset.mem_sdiff.mpr ⟨Finset.mem_univ _, fun ho => ?_⟩
    have h2 := (mem_slot1_p y).mp ho
    omega
  · intro y hy
    have h := (mem_lst_p_0_384 y).mp hy
    refine Finset.mem_sdiff.mpr ⟨Finset.mem_sdiff.mpr ⟨Finset.mem_univ _, fun ho => ?_⟩, fun ho => ?_⟩
    · have h2 := (mem_slot1_p y).mp ho
      omega
    · have h2 := (mem_lst_p_0_0 y).mp ho
      omega

/-- Slot 1 whole again: what was left in hand of it, its first quarter and its last, all at the same contents. -/
theorem slot1_assemble_p (f : Buf (Elt F) ((Memref.whole cc1_scratch1 : Memref sig Kind.scVector Space.vmem S2x512 EltTy.i32).view.loc (thr d L))) :
    iprop(((Memref.whole cc1_scratch1 : Memref sig Kind.scVector Space.vmem S2x512 EltTy.i32).view.loc (thr d L) ↦[((Finset.univ \ (slot0 (Memref.whole cc1_scratch1 : Memref sig Kind.scVector Space.vmem S2x512 EltTy.i32)).view.set) \ (lst (Memref.whole cc1_scratch1 : Memref sig Kind.scVector Space.vmem S2x512 EltTy.i32) ![1, 0] linb_1_0).view.set) \ (lst (Memref.whole cc1_scratch1 : Memref sig Kind.scVector Space.vmem S2x512 EltTy.i32) ![1, 384] linb_1_384).view.set]{fullShare} f)
        ∗ ((lst (Memref.whole cc1_scratch1 : Memref sig Kind.scVector Space.vmem S2x512 EltTy.i32) ![1, 0] linb_1_0).view.loc (thr d L) ↦[(lst (Memref.whole cc1_scratch1 : Memref sig Kind.scVector Space.vmem S2x512 EltTy.i32) ![1, 0] linb_1_0).view.set]{fullShare} f)
        ∗ ((Memref.whole cc1_scratch1 : Memref sig Kind.scVector Space.vmem S2x512 EltTy.i32).view.loc (thr d L) ↦[(lst (Memref.whole cc1_scratch1 : Memref sig Kind.scVector Space.vmem S2x512 EltTy.i32) ![1, 384] linb_1_384).view.set]{fullShare} f))
      ⊢ ((slot1 (Memref.whole cc1_scratch1 : Memref sig Kind.scVector Space.vmem S2x512 EltTy.i32)).view.loc (thr d L) ↦[(slot1 (Memref.whole cc1_scratch1 : Memref sig Kind.scVector Space.vmem S2x512 EltTy.i32)).view.set]{fullShare} f : sProp 𝕄) := by
  rw [slot1_eq_compl_p]
  refine assemble3 (F := F) (ℓ := (Memref.whole cc1_scratch1 : Memref sig Kind.scVector Space.vmem S2x512 EltTy.i32).view.loc (thr d L)) _ _ _ f ?_ ?_
  · intro y hy
    have h := (mem_lst_p_1_0 y).mp hy
    refine Finset.mem_sdiff.mpr ⟨Finset.mem_univ _, fun ho => ?_⟩
    have h2 := (mem_slot0_p y).mp ho
    omega
  · intro y hy
    have h := (mem_lst_p_1_384 y).mp hy
    refine Finset.mem_sdiff.mpr ⟨Finset.mem_sdiff.mpr ⟨Finset.mem_univ _, fun ho => ?_⟩, fun ho => ?_⟩
    · have h2 := (mem_slot0_p y).mp ho
      omega
    · have h2 := (mem_lst_p_1_0 y).mp ho
      omega

end Cert.KernelIdeal.Run.Sc

end
-- ==== Proof.ScTile.lean ====
/-
  The tile's task: the body obligation of the SparseCore kernel at a symbolic tile, for all 32 at once, and its
  form as the launch theorem takes it.
-/
import proofs.«204385_g66649302499670_cont_9to1c4b_43_34_alg».proof.Proof.ScLoop
import proofs.«204385_g66649302499670_cont_9to1c4b_43_34_alg».proof.Proof.ScOutBook
import proofs.«204385_g66649302499670_cont_9to1c4b_43_34_alg».proof.Proof.ScPrologFacts
import proofs.«204385_g66649302499670_cont_9to1c4b_43_34_alg».proof.Proof.ScJoin
import proofs.«204385_g66649302499670_cont_9to1c4b_43_34_alg».proof.Proof.ScSlots

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F] (A : Vals F)

/-- The flat id arrays name rows of the tables. -/
def IdsOK : Prop := (∀ d (j : S819200.Idx), (A.eid d j).toNat < 100000) ∧ (∀ d (j : S819200.Idx), (A.pid d j).toNat < 1000)

section Body
variable (d : Dev nD) (L : grid1.Coords)

omit [FloatOps F] in
theorem h0_50 : 0 < 50 := by omega

/-- The gathers' part of the invariant at the loop's entry. -/
theorem gather_init (q1 q2 r1 r2 : PosShare TreeShare)
    (e : Buf (Elt F) ((eixV).view.loc (thr d L))) (p : Buf (Elt F) ((pixV).view.loc (thr d L)))
    (hL : ListsOK0 d L e p) (hS : SlotVals0 A d L e p 0 h0_50) :
    iprop((∃ fe, flightE A d L 10 (hlf0 ebV) (lst eixV ![0, 0] linb_0_0) q1 fe e hL.1)
        ∗ (∃ fe, flightE A d L 11 (hlf1 ebV) (lst eixV ![0, 128] linb_0_128) q2 fe e hL.2.1)
        ∗ (∃ fp, flightP A d L 12 (hlf0 pbV) (lst pixV ![0, 0] linb_0_0) r1 fp p hL.2.2.1)
        ∗ (∃ fp, flightP A d L 13 (hlf1 pbV) (lst pixV ![0, 128] linb_0_128) r2 fp p hL.2.2.2)
        ∗ teRest A d L q1 ∗ teRest A d L q2 ∗ shRest A d L r1 ∗ shRest A d L r2
        ∗ ((slot0 eixV).view.loc (thr d L) ↦[((slot0 eixV).view.set \ (lst eixV ![0, 0] linb_0_0).view.set) \ (lst eixV ![0, 128] linb_0_128).view.set]{fullShare} e)
        ∗ ((slot0 pixV).view.loc (thr d L) ↦[((slot0 pixV).view.set \ (lst pixV ![0, 0] linb_0_0).view.set) \ (lst pixV ![0, 128] linb_0_128).view.set]{fullShare} p)
        ∗ (∃ f, (ebV).view.loc (thr d L) ↦[(Finset.univ \ (hlf0 ebV).view.set) \ (hlf1 ebV).view.set]{fullShare} f)
        ∗ (∃ f, (pbV).view.loc (thr d L) ↦[(Finset.univ \ (hlf0 pbV).view.set) \ (hlf1 pbV).view.set]{fullShare} f))
      ⊢ gatherPart A d L q1 q2 r1 r2 0 := by
  unfold gatherPart gatherPart0
  rw [if_pos (show 0 % 2 = 0 from rfl), dif_pos h0_50]
  iintro H
  iexists e, p, ⟨hL⟩
  isplitr; · ipureintro; exact hS
  iexact H

omit [FloatOps F] in
/-- The id scratch's rest at the loop's entry, by slot: slot 0 minus the two lists in flight, slot 1 whole. -/
theorem eix_entry_split (e : Buf (Elt F) ((eixV).view.loc (thr d L))) :
    ((eixV).view.loc (thr d L) ↦[(Finset.univ \ (lst eixV ![0, 0] linb_0_0).view.set) \ (lst eixV ![0, 128] linb_0_128).view.set]{fullShare} e : sProp 𝕄)
      ⊢ iprop(((slot0 eixV).view.loc (thr d L) ↦[((slot0 eixV).view.set \ (lst eixV ![0, 0] linb_0_0).view.set) \ (lst eixV ![0, 128] linb_0_128).view.set]{fullShare} e)
          ∗ ((slot1 eixV).view.loc (thr d L) ↦[(slot1 eixV).view.set]{fullShare} e)) := by
  have hsub : (slot1 eixV).view.set ⊆ (Finset.univ \ (lst eixV ![0, 0] linb_0_0).view.set) \ (lst eixV ![0, 128] linb_0_128).view.set := by
    intro (y : S2x512.Idx) hy
    have h1 := (mem_slot1_e y).mp hy
    refine Finset.mem_sdiff.mpr ⟨Finset.mem_sdiff.mpr ⟨Finset.mem_univ _, fun h => ?_⟩, fun h => ?_⟩
    · have := (mem_lst_e_0_0 y).mp h; omega
    · have := (mem_lst_e_0_128 y).mp h; omega
  have hset : ((Finset.univ \ (lst eixV ![0, 0] linb_0_0).view.set) \ (lst eixV ![0, 128] linb_0_128).view.set) \ (slot1 eixV).view.set
      = ((slot0 eixV).view.set \ (lst eixV ![0, 0] linb_0_0).view.set) \ (lst eixV ![0, 128] linb_0_128).view.set := by
    ext (y : S2x512.Idx)
    have hy2 : (y 0).val < 2 := (y 0).isLt
    constructor
    · intro h
      obtain ⟨h12, hn1⟩ := Finset.mem_sdiff.mp h
      obtain ⟨h0, hn128⟩ := Finset.mem_sdiff.mp h12
      obtain ⟨_, hn0⟩ := Finset.mem_sdiff.mp h0
      refine Finset.mem_sdiff.mpr ⟨Finset.mem_sdiff.mpr ⟨(mem_slot0_e y).mpr ?_, hn0⟩, hn128⟩
      by_contra hne
      exact hn1 ((mem_slot1_e y).mpr (by omega))
    · intro h
      obtain ⟨h0, hn128⟩ := Finset.mem_sdiff.mp h
      obtain ⟨hs0, hn0⟩ := Finset.mem_sdiff.mp h0
      have hz := (mem_slot0_e y).mp hs0
      refine Finset.mem_sdiff.mpr ⟨Finset.mem_sdiff.mpr ⟨Finset.mem_sdiff.mpr ⟨Finset.mem_univ _, hn0⟩, hn128⟩, fun h1 => ?_⟩
      have := (mem_slot1_e y).mp h1
      omega
  refine (pointsTo_split_subset hsub).1.trans ?_
  rw [hset]
  exact BI.sep_comm

omit [FloatOps F] in
/-- The id scratch's rest at the loop's entry, by slot: slot 0 minus the two lists in flight, slot 1 whole. -/
theorem pix_entry_split (e : Buf (Elt F) ((pixV).view.loc (thr d L))) :
    ((pixV).view.loc (thr d L) ↦[(Finset.univ \ (lst pixV ![0, 0] linb_0_0).view.set) \ (lst pixV ![0, 128] linb_0_128).view.set]{fullShare} e : sProp 𝕄)
      ⊢ iprop(((slot0 pixV).view.loc (thr d L) ↦[((slot0 pixV).view.set \ (lst pixV ![0, 0] linb_0_0).view.set) \ (lst pixV ![0, 128] linb_0_128).view.set]{fullShare} e)
          ∗ ((slot1 pixV).view.loc (thr d L) ↦[(slot1 pixV).view.set]{fullShare} e)) := by
  have hsub : (slot1 pixV).view.set ⊆ (Finset.univ \ (lst pixV ![0, 0] linb_0_0).view.set) \ (lst pixV ![0, 128] linb_0_128).view.set := by
    intro (y : S2x512.Idx) hy
    have h1 := (mem_slot1_p y).mp hy
    refine Finset.mem_sdiff.mpr ⟨Finset.mem_sdiff.mpr ⟨Finset.mem_univ _, fun h => ?_⟩, fun h => ?_⟩
    · have := (mem_lst_p_0_0 y).mp h; omega
    · have := (mem_lst_p_0_128 y).mp h; omega
  have hset : ((Finset.univ \ (lst pixV ![0, 0] linb_0_0).view.set) \ (lst pixV ![0, 128] linb_0_128).view.set) \ (slot1 pixV).view.set
      = ((slot0 pixV).view.set \ (lst pixV ![0, 0] linb_0_0).view.set) \ (lst pixV ![0, 128] linb_0_128).view.set := by
    ext (y : S2x512.Idx)
    have hy2 : (y 0).val < 2 := (y 0).isLt
    constructor
    · intro h
      obtain ⟨h12, hn1⟩ := Finset.mem_sdiff.mp h
      obtain ⟨h0, hn128⟩ := Finset.mem_sdiff.mp h12
      obtain ⟨_, hn0⟩ := Finset.mem_sdiff.mp h0
      refine Finset.mem_sdiff.mpr ⟨Finset.mem_sdiff.mpr ⟨(mem_slot0_p y).mpr ?_, hn0⟩, hn128⟩
      by_contra hne
      exact hn1 ((mem_slot1_p y).mpr (by omega))
    · intro h
      obtain ⟨h0, hn128⟩ := Finset.mem_sdiff.mp h
      obtain ⟨hs0, hn0⟩ := Finset.mem_sdiff.mp h0
      have hz := (mem_slot0_p y).mp hs0
      refine Finset.mem_sdiff.mpr ⟨Finset.mem_sdiff.mpr ⟨Finset.mem_sdiff.mpr ⟨Finset.mem_univ _, hn0⟩, hn128⟩, fun h1 => ?_⟩
      have := (mem_slot1_p y).mp h1
      omega
  refine (pointsTo_split_subset hsub).1.trans ?_
  rw [hset]
  exact BI.sep_comm

/-- The result's part of the invariant at the loop's entry: the slab as its 200 chunks, nothing in flight. -/
theorem out_init :
    iprop(slabPts d (widL L) (A.out0 d) ∗ (∃ f, (obV).view.loc (thr d L) ↦{fullShare} f) ∗ semVal (cellOf d L 14) 0 ∗ semVal (cellOf d L 15) 0)
      ⊢ outPart A d L 0 := by
  rw [outPart_chunks, dif_neg (show ¬ (1 ≤ 0 ∧ 0 ≤ 50) by omega), chunks_entry]

end Body

set_option maxHeartbeats 4000000 in
/-- The task on vector subcore `(L 0, L 1)` of device `d`, given that a trip of the loop keeps the invariant. -/
theorem tile_body (hF : (K (F := F)).Facts) (hIds : IdsOK A) (d : Dev nD) (L : grid1.Coords)
    (htrip : ∀ (q1 q2 r1 r2 qi : PosShare TreeShare) (O' : CellTallies nD τ sig (HIx 1)) (W' : Waits sig (HIx 1)) (v2 : BitVec 32),
      TripOK A d L q1 q2 r1 r2 qi O' W' v2)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit A d (cV L) (jV L) ∗ goRes A d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ (tileProg (F := F) L)
          fun _ => iprop(tdRes A d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  show _ ⊢ wp _ _ _ (cc1_k (F := F) L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2) _
  rw [cc1_k_eq_skeleton]; unfold cc1_k_skel
  rw [wp_bind]
  rw [(K (F := F)).scopedBufs_V hF d (cV L) (jV L), SparseCore.Cfg.scopedSems0_V (Val := Elt F) d (cV L) (jV L), ownSems0_V, ownBufs_V]
  unfold goRes tdRes
  iintro ⟨#Hlv, Hkit, ⟨⟨Hte, Htp, Heid, Hpid⟩, Hslab, Hsh0⟩, ⟨⟨⟨%f7, Heix⟩, ⟨%f8, Hpix⟩, ⟨%fe, Heb⟩, ⟨%fp, Hpb⟩, ⟨%fo, Hob⟩⟩, Hbufs⟩, ⟨⟨Hs8, Hs9, Hs10, Hs11, Hs12, Hs13, Hs14, Hs15, Hs16, Hs17, Hs18⟩, Hsems⟩, HO⟩
  -- the first part: staging, barrier, first ids
  iapply (wp_wand_r frame _ Set.univ)
  isplitl [Hkit Htp Heid Hpid Hsh0 Heix Hpix Hs16 Hs17 Hs18 HO]
  · iapply (part50_run A d L hF (qTile (cL L) (jL L)) O W hO hOlev f7 f8)
    isplitr; · iexact Hlv
    isplitl [Hkit]; · iexact Hkit
    isplitl [Htp]; · iexact Htp
    isplitl [Heid]; · iexact Heid
    isplitl [Hpid]; · iexact Hpid
    isplitl [Hsh0]; · iexact Hsh0
    isplitl [Heix]; · iexact Heix
    isplitl [Hpix]; · iexact Hpix
    isplitl [Hs16]; · iexact Hs16
    isplitl [Hs17]; · iexact Hs17
    isplitl [Hs18]; · iexact Hs18
    iexact HO
  iintro %v2 H50
  icases H50 with ⟨Htp, Heid, Hpid, Hsh, Hshr, Heix, Hpix, Hs16, Hs17, Hs18, ⟨%W1, %hW1, HO⟩⟩
  -- the first ids name rows of the tables, and are trip 0's
  have hL : ListsOK0 d L (View.write (Elt F) (slot0 eixV).view f7 (idsPay d L eidV (A.eid d) (k1_off1 L) (k1_off1_inb L)) Finset.univ)
      (View.write (Elt F) (slot0 pixV).view f8 (idsPay d L pidV (A.pid d) (k1_off1 L) (k1_off1_inb L)) Finset.univ) :=
    ⟨prolog_inE A d L (hIds.1 d) 0 (by omega) linb_0_0 f7, prolog_inE A d L (hIds.1 d) 128 (by omega) linb_0_128 f7,
      prolog_inP A d L (hIds.2 d) 0 (by omega) linb_0_0 f8, prolog_inP A d L (hIds.2 d) 128 (by omega) linb_0_128 f8⟩
  have hS : SlotVals0 A d L (View.write (Elt F) (slot0 eixV).view f7 (idsPay d L eidV (A.eid d) (k1_off1 L) (k1_off1_inb L)) Finset.univ)
      (View.write (Elt F) (slot0 pixV).view f8 (idsPay d L pidV (A.pid d) (k1_off1 L) (k1_off1_inb L)) Finset.univ) 0 h0_50 :=
    ⟨prolog_slotE_eq A d L (idsOff L 0) (by show _ + 512 * 0 = _; omega) (idsInb L 0 h0_50) f7,
      prolog_slotP_eq A d L (idsOff L 0) (by show _ + 512 * 0 = _; omega) (idsInb L 0 h0_50) f8⟩
  ihave Hmw := (show levAts (K (F := F)).L (K (F := F)).lev ⊢ Transfers.MayWaits (thr d L) (default : HIx 1) O from
    (K (F := F)).mayWaits_none (thr := thr d L) hO) $$ Hlv
  -- the table shares halved: two gathers of each table are in flight at once
  ihave Hte2 := (pointsTo_share (ℓ := (teV).view.loc (thr d L)) (I := Finset.univ) (f := A.te d) (PosShare.mem_left_op_right (qTile (cL L) (jL L)))).1 $$ [Hte]
  · iexact Hte
  icases Hte2 with ⟨Hte1, Hte2⟩
  ihave Hsh2 := (pointsTo_share (ℓ := (shV).view.loc (thr d L)) (I := Finset.univ) (f := shVal A d (cV L)) (PosShare.mem_left_op_right (shareTok fullShare 16 (jL L)))).1 $$ [Hsh]
  · iexact Hsh
  icases Hsh2 with ⟨Hsh1, Hsh2⟩
  -- the second part: the gathers of chunks 0 and 1
  rw [wp_bind]
  iapply (wp_wand_r frame _ Set.univ)
  isplitl [Hte1 Hte2 Hsh1 Hsh2 Heix Hpix Heb Hpb Hs10 Hs11 Hs12 Hs13 HO]
  · iapply (part51_run A d L (qTile (cL L) (jL L)).left (qTile (cL L) (jL L)).right (shareTok fullShare 16 (jL L)).left (shareTok fullShare 16 (jL L)).right
        O W1 v2 _ _ fe fp hL.1 hL.2.1 hL.2.2.1 hL.2.2.2)
    isplitr; · iexact Hmw
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexact Heb
    isplitl [Hpb]; · iexact Hpb
    isplitl [Hs10]; · iexact Hs10
    isplitl [Hs11]; · iexact Hs11
    isplitl [Hs12]; · iexact Hs12
    isplitl [Hs13]; · iexact Hs13
    iexact HO
  iintro %_ H51
  icases H51 with ⟨HF10, HF12, ⟨%fe1, HF11⟩, ⟨%fp1, HF13⟩, Hter1, Hter2, Hshr1, Hshr2, Heixr, Hpixr, Hebr, Hpbr, HO⟩
  -- the id scratches' rests by slot: slot 0's to the gathers' part of the invariant, slot 1 whole to the prefetch
  ihave He := (eix_entry_split (F := F) d L _) $$ [Heixr]
  · iexact Heixr
  icases He with ⟨Heix0, Heix1⟩
  ihave Hp := (pix_entry_split (F := F) d L _) $$ [Hpixr]
  · iexact Hpixr
  icases Hp with ⟨Hpix0, Hpix1⟩
  ihave HG := (gather_init A d L (qTile (cL L) (jL L)).left (qTile (cL L) (jL L)).right (shareTok fullShare 16 (jL L)).left (shareTok fullShare 16 (jL L)).right _ _ hL hS) $$ [HF10 HF11 HF12 HF13 Hter1 Hter2 Hshr1 Hshr2 Heix0 Hpix0 Hebr Hpbr]
  · isplitl [HF10]; · iexists _; iexact HF10
    isplitl [HF11]; · iexists _; iexact HF11
    isplitl [HF12]; · iexists _; iexact HF12
    isplitl [HF13]; · iexists _; iexact HF13
    isplitl [Hter1]; · iexact Hter1
    isplitl [Hter2]; · iexact Hter2
    isplitl [Hshr1]; · iexact Hshr1
    isplitl [Hshr2]; · iexact Hshr2
    isplitl [Heix0]; · iexact Heix0
    isplitl [Hpix0]; · iexact Hpix0
    isplitl [Hebr]; · iexact Hebr
    iexact Hpbr
  ihave HOut := (out_init A d L) $$ [Hslab Hob Hs14 Hs15]
  · isplitl [Hslab]; · iexact Hslab
    isplitl [Hob]; · iexists _; iexact Hob
    isplitl [Hs14]; · iexact Hs14
    iexact Hs15
  -- the third part: the prefetch, the loop, the first final wait
  rw [wp_bind]
  iapply (wp_wand_r frame _ Set.univ)
  isplitl [HG HOut Heid Hpid Heix1 Hpix1 Hs8 Hs9 HO]
  · iapply (part52_run A d L (qTile (cL L) (jL L)).left (qTile (cL L) (jL L)).right (shareTok fullShare 16 (jL L)).left (shareTok fullShare 16 (jL L)).right (qTile (cL L) (jL L)) O W1 v2 (htrip _ _ _ _ _ _ _ _))
    isplitr; · iexact Hmw
    isplitl [HG]; · iexact HG
    isplitl [HOut]; · iexact HOut
    isplitl [Heid]; · iexact Heid
    isplitl [Hpid]; · iexact Hpid
    isplitl [Heix1]; · iexists _; iexact Heix1
    isplitl [Hpix1]; · iexists _; iexact Hpix1
    isplitl [Hs8]; · iexact Hs8
    isplitl [Hs9]; · iexact Hs9
    iexact HO
  iintro %_ H52
  -- what remains: the wait for chunk 199's copy-out; then the slab from its 200 chunks, the shares rejoined, the scratch
  -- buffers whole again and the eleven cells at zero
  unfold after52E
  icases H52 with ⟨%n, %hn, %hn50, H52⟩
  obtain ⟨hn⟩ := hn
  subst hn50
  unfold after52K exitRest gatherPart idsPart
  rw [if_pos (show 50 % 2 = 0 from rfl), if_pos (show 50 % 2 = 0 from rfl)]
  unfold gatherPart0 idsPart1
  rw [dif_neg (show ¬ 50 < 50 by omega), dif_neg (show ¬ 50 + 1 < 50 by omega)]
  icases H52 with ⟨⟨HG, HI, Hch, ⟨%fo1, HF15⟩, ⟨%fR, HobR⟩⟩, Hc198, ⟨%fo0, Hob0⟩, Hs14, ⟨%W2, %hW2, HO⟩⟩
  icases HG with ⟨Hte1, Hte2, Hsh1, Hsh2, Hex0, Hpx0, Heb, Hpb, Hs10, Hs11, Hs12, Hs13⟩
  icases HI with ⟨Heid, Hpid, Hex1, Hpx1, Hs8, Hs9⟩
  sl_exec
  sl_step
  have h198 : 198 < 200 := by decide
  have h199 : 199 < 200 := by decide
  -- the inputs' shares, the slab, the scratch's share
  isplitl [Hte1 Hte2 Htp Heid Hpid Hch Hc198 HF15_dst Hsh1 Hsh2 Hshr]
  · isplitl [Hte1 Hte2 Htp Heid Hpid]
    · unfold reads
      isplitl [Hte1 Hte2]
      · iapply (pointsTo_share (PosShare.mem_left_op_right _)).2; isplitl [Hte1] <;> iassumption
      isplitl [Htp]; · iexact Htp
      isplitl [Heid]; · iexact Heid
      iexact Hpid
    isplitl [Hch Hc198 HF15_dst]
    · iapply (Entails.of_eq (chunks_exit A d L h198 h199))
      isplitl [Hch]; · iexact Hch
      isplitl [Hc198]
      · iapply (Entails.of_eq (chunkPt_congr d L (show 4 * 50 - 2 = 198 from rfl) _ h198 (outFin A d))); iexact Hc198
      · ihave Hc199 := (Entails.of_eq (chunkPt_eq d L (4 * 50 - 1) _ (outFin A d)).symm) $$ HF15_dst
        iapply (Entails.of_eq (chunkPt_congr d L (show 4 * 50 - 1 = 199 from rfl) _ h199 (outFin A d))); iexact Hc199
    isplitl [Hsh1 Hsh2]
    · unfold shTok
      iapply (pointsTo_share (PosShare.mem_left_op_right _)).2
      isplitl [Hsh1]; · iexact Hsh1
      iexact Hsh2
    iexact Hshr
  -- the five scratch buffers whole
  isplitl [Hex0 Hex1 Hpx0 Hpx1 Heb Hpb Hob0 HF15_src HobR Hbufs]
  · isplitl [Hex0 Hex1 Hpx0 Hpx1 Heb Hpb Hob0 HF15_src HobR]
    · isplitl [Hex0 Hex1]
      · iapply (slots_join_ex (F := F) d L eixV (Memref.isWhole_whole _)); isplitl [Hex0] <;> iassumption
      isplitl [Hpx0 Hpx1]
      · iapply (slots_join_ex (F := F) d L pixV (Memref.isWhole_whole _)); isplitl [Hpx0] <;> iassumption
      isplitl [Heb]; · iexact Heb
      isplitl [Hpb]; · iexact Hpb
      iapply (halves_join_ex (F := F) d L obV)
      isplitl [HobR]; · iexists _; iexact HobR
      isplitl [Hob0]; · iexists _; iexact Hob0
      iexists _; iexact HF15_src
    iexact Hbufs
  -- the eleven cells
  isplitl [Hs8 Hs9 Hs10 Hs11 Hs12 Hs13 Hs14 HF15 Hs16 Hs17 Hs18 Hsems]
  · isplitl [Hs8 Hs9 Hs10 Hs11 Hs12 Hs13 Hs14 HF15 Hs16 Hs17 Hs18]
    · isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [HF15]; · iexact HF15
      isplitl [Hs16]; · iexact Hs16
      isplitl [Hs17]; · iexact Hs17
      iexact Hs18
    iexact Hsems
  iexists _; isplitr
  swap; · iexact HO
  ipureintro; intro p hp
  rcases Finset.mem_insert.mp hp with hp | hp
  · exact .inr (.inl (hp ▸ rfl))
  · rcases hW2 p hp with h | h
    · exact hW1 p h
    · exact .inr (.inl h)

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => tileProg (F := F) (coordsV c s)) ⟨⟩ c s := rfl

set_option maxRecDepth 16384 in
theorem tileObl (hF : (K (F := F)).Facts) (hIds : IdsOK A)
    (htrip : ∀ (d : Dev nD) (L : grid1.Coords) (q1 q2 r1 r2 qi : PosShare TreeShare) (O' : CellTallies nD τ sig (HIx 1)) (W' : Waits sig (HIx 1)) (v2 : BitVec 32),
      TripOK A d L q1 q2 r1 r2 qi O' W' v2) :
    (K (F := F)).TileObl (D (F := F)) 𝒱 (P A) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A hF hIds d (coordsV ⟨_, hci.1⟩ ⟨_, hci.2⟩) (htrip d _) O W hO hOlev

end Cert.KernelIdeal.Run.Sc

end
-- ==== Proof.ScViewsBits.lean ====
/-
  The tile's view of the SparseCore kernel's operands: the place (core, tile) a grid coordinate names, the whole
  arrays and scratch buffers as the kernel is called with them, and the pieces of them its copies name — the id
  slots, the gather lists (a quarter of a slot), the row buffers' halves, the result's chunks — spelt as the program
  slices them, with the arithmetic of worker number, slab, chunk and row.
-/
import proofs.«204385_g66649302499670_cont_9to1c4b_43_34_alg».proof.Proof.PayBits
import proofs.«204385_g66649302499670_cont_9to1c4b_43_34_alg».proof.Proof.Gen.Kernel.Skeleton
import Idealize.ShloMosaic.Lib.Batch

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

/-! ## The place -/

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The core and the tile as numbers below 2 and 16. -/
abbrev cL (L : grid1.Coords) : Fin 2 := Fin.cast bound_zero (L 0)
abbrev jL (L : grid1.Coords) : Fin 16 := Fin.cast bound_one (L 1)
/-- The thread. -/
abbrev thr (d : Dev nD) (L : grid1.Coords) : Thread nD τ := V d (cV L) (jV L)
/-- The worker's number, 2·tile + core, and its first row. -/
abbrev widL (L : grid1.Coords) : Fin 32 := wid (cL L) (jL L)
def baseRow (L : grid1.Coords) : ℕ := 25600 * (widL L).val

/-! ## The operands, as the kernel is called with them -/

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

/-- The kernel's call on the tile of coordinates `L`. -/
abbrev tileProg [FloatOps F] (L : grid1.Coords) : Prog (TpuEff nD τ sig (Elt F) Λ₀ (.scVector ((L 0).castLE hcore1) ((L 1).castLE hsub1))) PUnit :=
  cc1_k L teV (Memref.isWhole_whole _) tpV (Memref.isWhole_whole _) eidV (Memref.isWhole_whole _) pidV (Memref.isWhole_whole _)
    outV (Memref.isWhole_whole _) eixV (Memref.isWhole_whole _) pixV (Memref.isWhole_whole _) ebV (Memref.isWhole_whole _)
    pbV (Memref.isWhole_whole _) obV (Memref.isWhole_whole _) shV (Memref.isWhole_whole _)
    cc1_scratch6 cc1_scratch7 cc1_scratch8 cc1_scratch9 cc1_scoped0 cc1_scoped1 cc1_scoped2

/-! ## What the tile is handed and what it hands back -/

variable [FloatOps F] (A : Vals F)

/-- At entry: read shares of the four inputs, the worker's slab of the result as launched, and on tile 0 the
    SparseCore's shared scratch. -/
abbrev goRes (d : Dev nD) (L : grid1.Coords) : sProp 𝕄 :=
  iprop(reads A (qTile (cL L) (jL L)) d ∗ slabPts d (widL L) (A.out0 d)
    ∗ (if (jL L).val = 0 then iprop(∃ f, shLoc d (cV L) ↦{fullShare} f) else iprop(emp)))

/-- At exit: the read shares, the slab holding the looked-up sums, the tile's read share of the filled shared scratch,
    and on tile 0 what is left of the scratch after the sixteen shares. -/
abbrev tdRes (d : Dev nD) (L : grid1.Coords) : sProp 𝕄 :=
  iprop(reads A (qTile (cL L) (jL L)) d ∗ slabPts d (widL L) (outFin A d) ∗ shTok A d (cV L) (jL L)
    ∗ (if (jL L).val = 0 then iprop(shLoc d (cV L) ↦{shareDrop fullShare 16} shVal A d (cV L)) else iprop(emp)))

end Cert.Kernel.Run.Sc

end
-- ==== Proof.ScPrologBits.lean ====
/-
  The tile's task up to its loop.
-/
import proofs.«204385_g66649302499670_cont_9to1c4b_43_34_alg».proof.Proof.ScViewsBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F] (A : Vals F) (d : Dev nD) (L : grid1.Coords)

/-! ## The tile's own cells and buffers -/

abbrev cellOf (sm : DmaSem sig) : GSem nD τ sig := (V d (cV L) (jV L), .dma sm)

omit [FloatOps F] in
set_option maxHeartbeats 1000000 in
theorem ownSems0_V :
    (ownSems0 (V d (cV L) (jV L)) : sProp 𝕄)
      = iprop((semVal (cellOf d L 8) 0 ∗ semVal (cellOf d L 9) 0 ∗ semVal (cellOf d L 10) 0 ∗ semVal (cellOf d L 11) 0
          ∗ semVal (cellOf d L 12) 0 ∗ semVal (cellOf d L 13) 0 ∗ semVal (cellOf d L 14) 0 ∗ semVal (cellOf d L 15) 0
          ∗ semVal (cellOf d L 16) 0 ∗ semVal (cellOf d L 17) 0 ∗ semVal (cellOf d L 18) 0)
          ∗ bigSep (ownCells (V d (cV L) (jV L)) \ ({cellOf d L 8, cellOf d L 9, cellOf d L 10, cellOf d L 11, cellOf d L 12, cellOf d L 13,
              cellOf d L 14, cellOf d L 15, cellOf d L 16, cellOf d L 17, cellOf d L 18} : Finset (GSem nD τ sig))) fun g => semVal g 0) := by
  unfold SparseCore.Cfg.ownSems0
  have hsub : ({cellOf d L 8, cellOf d L 9, cellOf d L 10, cellOf d L 11, cellOf d L 12, cellOf d L 13,
      cellOf d L 14, cellOf d L 15, cellOf d L 16, cellOf d L 17, cellOf d L 18} : Finset (GSem nD τ sig)) ⊆ ownCells (V d (cV L) (jV L)) := by
    intro g hg
    simp only [Finset.mem_insert, Finset.mem_singleton] at hg
    rcases hg with rfl | rfl | rfl | rfl | rfl | rfl | rfl | rfl | rfl | rfl | rfl <;> exact mem_ownCells.mpr ⟨rfl, by show (SemLoc.dma _ : SemLoc sig).isScoped .scVector = true; decide⟩
  rw [SparseCore.bigSep_sdiff_split' hsub]
  have hne : ∀ a b : DmaSem sig, a ≠ b → cellOf d L a ≠ cellOf d L b := fun a b h e => h (by injection (Prod.ext_iff.mp e).2)
  rw [SparseCore.bigSep_insert' (by simp [hne]), SparseCore.bigSep_insert' (by simp [hne]), SparseCore.bigSep_insert' (by simp [hne]),
    SparseCore.bigSep_insert' (by simp [hne]), SparseCore.bigSep_insert' (by simp [hne]), SparseCore.bigSep_insert' (by simp [hne]),
    SparseCore.bigSep_insert' (by simp [hne]), SparseCore.bigSep_insert' (by simp [hne]), SparseCore.bigSep_insert' (by simp [hne]),
    SparseCore.bigSep_insert' (by simp [hne]), BI.bigSep_singleton]

abbrev bufLoc (b : Ref sig .scVector) : Loc nD τ sig := (V d (cV L) (jV L)).loc b
abbrev bufRef (b : Ref sig .scVector) : DevRef τ sig := (Proc.scVector (cV L) (jV L)).devRef b

omit [FloatOps F] in
set_option maxHeartbeats 1000000 in
/-- The five scratch buffers are among the tile's own: they, each at some contents, and the rest. -/
theorem ownBufs_V :
    (ownBufs (V d (cV L) (jV L)) : sProp 𝕄)
      = iprop(((∃ f, bufLoc d L cc1_scratch0 ↦{fullShare} f) ∗ (∃ f, bufLoc d L cc1_scratch1 ↦{fullShare} f) ∗ (∃ f, bufLoc d L cc1_scratch2 ↦{fullShare} f)
            ∗ (∃ f, bufLoc d L cc1_scratch3 ↦{fullShare} f) ∗ (∃ f, bufLoc d L cc1_scratch4 ↦{fullShare} f))
          ∗ bigSep (ownRefs (τ := τ) (.scVector (cV L) (jV L)) \ ({bufRef L cc1_scratch0, bufRef L cc1_scratch1, bufRef L cc1_scratch2, bufRef L cc1_scratch3,
              bufRef L cc1_scratch4} : Finset (DevRef τ sig))) fun b => iprop(∃ f, ((d, b) : Loc nD τ sig) ↦{fullShare} f)) := by
  unfold SparseCore.Cfg.ownBufs
  have hsub : ({bufRef L cc1_scratch0, bufRef L cc1_scratch1, bufRef L cc1_scratch2, bufRef L cc1_scratch3,
      bufRef L cc1_scratch4} : Finset (DevRef τ sig)) ⊆ ownRefs (τ := τ) (.scVector (cV L) (jV L)) := by
    intro g hg
    simp only [Finset.mem_insert, Finset.mem_singleton] at hg
    rcases hg with rfl | rfl | rfl | rfl | rfl <;> exact SparseCore.Cfg.mem_ownRefs_of_owner rfl
  rw [SparseCore.bigSep_sdiff_split' hsub]
  have hne : ∀ a b : Ref sig .scVector, a ≠ b → bufRef L a ≠ bufRef L b := fun a b h e => h (Proc.devRef_injective _ e)
  rw [SparseCore.bigSep_insert' (by simp [hne]), SparseCore.bigSep_insert' (by simp [hne]), SparseCore.bigSep_insert' (by simp [hne]),
    SparseCore.bigSep_insert' (by simp [hne]), BI.bigSep_singleton]

/-! ## The barrier's handover -/

/-- What tile `L 1` hands over at the barrier: tile 0 a read share of the filled shared scratch to every tile's round,
    the others nothing. -/
theorem pays_intro :
    (if (jL L).val = 0 then iprop(bigSep Finset.univ fun j : Fin 16 => shTok A d (cV L) j) else iprop(emp))
    ⊢ (bigSep Finset.univ fun j : Fin (grid1.bound 1) => (bRd A).payload (bcell d (cV L) (j.castLE hsub1)) 0 (jV L).val : sProp 𝕄) := by
  by_cases h0 : (jL L).val = 0
  · rw [if_pos h0]
    refine Entails.of_eq (bigSep_congr fun j _ => ?_)
    show _ = bPay A (bcell d (cV L) (j.castLE hsub1)) (jV L).val
    unfold bPay; dsimp only
    rw [if_pos (show (jV L).val = 0 from h0)]; rfl
  · rw [if_neg h0,
      show (bigSep Finset.univ fun j : Fin (grid1.bound 1) => (bRd A).payload (bcell d (cV L) (j.castLE hsub1)) 0 (jV L).val)
        = bigSep Finset.univ fun _ : Fin (grid1.bound 1) => (iprop(emp) : sProp 𝕄) from
        bigSep_congr fun j _ => if_neg (show ¬ (jV L).val = 0 from h0), bigSep_emp']

/-- What its own round collected: its read share of the filled shared scratch. -/
theorem pays_elim : (bigSep ((bRd A).duties (bcell d (cV L) (jV L)) 0 \ ∅) fun n => (bRd A).payload (bcell d (cV L) (jV L)) 0 n)
    ⊢ (shTok A d (cV L) (jL L) : sProp 𝕄) := by
  rw [Finset.sdiff_empty, bRd_duties₀]
  refine (bigSep_elim (i := 0) (Finset.mem_image.mpr ⟨(⟨0, by decide⟩ : Fin τ.nSub), Finset.mem_univ _, rfl⟩)).trans ?_
  show bPay A (bcell d (cV L) (jV L)) 0 ⊢ _
  unfold bPay; dsimp only
  rw [if_pos rfl]; exact BI.Entails.refl _

/-! ## The first part: staging, barrier, first ids -/

theorem cond1_pos (h : (L 1).val = 0) : Scalar.cmpi .ne (Scalar.extui (Scalar.cmpi .eq (BitVec.ofNat 32 (L 1).val) 0#32)) 0#32 = 1#1 := by
  rw [h]; decide
theorem cond1_neg (h : ¬ (L 1).val = 0) : ¬ Scalar.cmpi .ne (Scalar.extui (Scalar.cmpi .eq (BitVec.ofNat 32 (L 1).val) 0#32)) 0#32 = 1#1 := by
  generalize L 1 = x at h ⊢
  revert x; decide

/-- 512 ids out of a flat id array from `off` on, as a copy delivers them. -/
abbrev idsPay (M : Memref sig .scVector .hbm S819200 .i32) (fid : Buf (Elt F) (M.view.loc (thr d L))) (off : Fin 1 → ℕ)
    (h : ∀ a, off a + S512.size a ≤ S819200.size a) : S512.Idx → Elt F .i32 :=
  ReadAs.same.apply (View.read (Elt F) (M.slice (Rect.unit (s := S819200) off S512.size h) (fun _ => rfl)).view fid)

/-- Slot 0 of an id scratch as the 512-list the first copies fill. -/
abbrev slot0 (M : Memref sig .scVector .vmem S2x512 .i32) : Memref sig .scVector .vmem S512 .i32 :=
  (M.slice (Rect.unit (s := S2x512) ![0, 0] S1x512.size inb_S2x512_S1x512_0_0) (fun _ => rfl)).squeeze S512 squeezes_S1x512_S512

/-- What the first part leaves of the tile's resources it touches. -/
abbrev post50 (q : PosShare TreeShare) (O : CellTallies nD τ sig (HIx 1)) (W : Waits sig (HIx 1))
    (f7 : Buf (Elt F) ((eixV).view.loc (thr d L))) (f8 : Buf (Elt F) ((pixV).view.loc (thr d L))) : sProp 𝕄 :=
  iprop(((tpV).view.loc (thr d L) ↦{q} A.tp d) ∗ ((eidV).view.loc (thr d L) ↦{q} A.eid d) ∗ ((pidV).view.loc (thr d L) ↦{q} A.pid d)
    ∗ shTok A d (cV L) (jL L)
    ∗ (if (jL L).val = 0 then iprop(shLoc d (cV L) ↦{shareDrop fullShare 16} shVal A d (cV L)) else iprop(emp))
    ∗ ((eixV).view.loc (thr d L) ↦{fullShare} View.write (Elt F) (slot0 eixV).view f7 (idsPay d L eidV (A.eid d) (k1_off1 L) (k1_off1_inb L)) Finset.univ)
    ∗ ((pixV).view.loc (thr d L) ↦{fullShare} View.write (Elt F) (slot0 pixV).view f8 (idsPay d L pidV (A.pid d) (k1_off1 L) (k1_off1_inb L)) Finset.univ)
    ∗ semVal (cellOf d L 16) 0 ∗ semVal (cellOf d L 17) 0 ∗ semVal (cellOf d L 18) 0
    ∗ ∃ W', ⌜∀ p ∈ W', p ∈ W ∨ p.2 = none ∨ p.2 = some (0 : Fin 1)⌝ ∗ owes (thr d L) O W')

/-- The shared scratch after the staging copy holds the property table. -/
theorem sh_fill (fsh : Buf (Elt F) ((shV).view.loc (thr d L))) (pay : S1000x128.Idx → Elt F .f32)
    (hpay : pay = ReadAs.same.apply (View.read (Elt F) (tpV).view (A.tp d))) :
    ((shV).view.loc (thr d L) ↦{fullShare} View.write (Elt F) (shV).view fsh pay Finset.univ : sProp 𝕄)
      = (shLoc d (cV L) ↦{fullShare} shVal A d (cV L)) := by
  subst hpay
  rw [View.write_whole_univ]; simp only [Memref.view_whole, View.read_whole]; rfl

set_option maxHeartbeats 4000000 in
/-- Tile 0 stages the property table into the shared scratch; every tile meets the others at the barrier, tile 0 handing
    each a read share of the filled scratch; then the first 512 ids of each kind are fetched into slot 0. -/
theorem part50_run (hF : (K (F := F)).Facts) (q : PosShare TreeShare) (O : CellTallies nD τ sig (HIx 1)) (W : Waits sig (HIx 1))
    (hO : ∀ g, O g none = 0) (hOlev : ∀ g ι, 0 < O g ι → 8 * (0 : Fin 1).val + 6 ≤ (K (F := F)).lev g ι)
    (f7 : Buf (Elt F) ((eixV).view.loc (thr d L))) (f8 : Buf (Elt F) ((pixV).view.loc (thr d L))) :
    iprop(levAts (K (F := F)).L (K (F := F)).lev ∗ bkit A d (cV L) (jV L)
        ∗ ((tpV).view.loc (thr d L) ↦{q} A.tp d) ∗ ((eidV).view.loc (thr d L) ↦{q} A.eid d) ∗ ((pidV).view.loc (thr d L) ↦{q} A.pid d)
        ∗ (if (jL L).val = 0 then iprop(∃ f, shLoc d (cV L) ↦{fullShare} f) else iprop(emp))
        ∗ ((eixV).view.loc (thr d L) ↦{fullShare} f7) ∗ ((pixV).view.loc (thr d L) ↦{fullShare} f8)
        ∗ semVal (cellOf d L 16) 0 ∗ semVal (cellOf d L 17) 0 ∗ semVal (cellOf d L 18) 0
        ∗ owes (thr d L) (O + oxV d (cV L)) W)
      ⊢ wp frame (wpE (defs₀ (F := F)) 𝒱₀ (thr d L) none) Set.univ (k1_part50 (F := F) L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2)
          fun _ => post50 A d L q O W f7 f8 := by
  rw [k1_part50_eq_skeleton]; unfold k1_part50_skel
  unfold bkit post50
  have hO' : ∀ g, (O + oxV d (cV L)) g none = 0 := fun g => by rw [Pi.add_apply, Finsupp.add_apply, hO g, oxV_none]
  by_cases h0 : (L 1).val = 0
  · -- tile 0: the staging copy and its wait, then the sixteen shares dealt
    rw [if_pos (show (jL L).val = 0 from h0), if_pos (show (jL L).val = 0 from h0)]
    iintro ⟨#Hlv, ⟨⟨%κ, #Hinv⟩, Htoks, #Hrch, Hat, Hcred⟩, Htp, Heid, Hpid, Hsh0, Heix, Hpix, Hs16, Hs17, Hs18, HO⟩
    ihave Hmw1 := (show levAts (K (F := F)).L (K (F := F)).lev ⊢ Transfers.MayWaits (thr d L) (default : HIx 1) (O + oxV d (cV L)) from
      (K (F := F)).mayWaits_none (thr := thr d L) hO') $$ Hlv
    ihave Hmw2 := (show levAts (K (F := F)).L (K (F := F)).lev ⊢ Transfers.MayWaits (thr d L) (default : HIx 1) O from
      (K (F := F)).mayWaits_none (thr := thr d L) hO) $$ Hlv
    icases Hsh0 with ⟨%fsh, Hsh0⟩
    ihave Hsh1 := (Entails.of_eq (show (shLoc d (cV L) ↦{fullShare} fsh : sProp 𝕄) = ((shV).view.loc (thr d L) ↦{fullShare} fsh) from rfl)) $$ Hsh0
    sl_exec (disch := first | exact cond1_pos L h0)
    -- the filled scratch: the property table, dealt as sixteen read shares and the rest
    ihave Hsh2 := (Entails.of_eq (sh_fill (F := F) A d L fsh (part50_run.sl.dma0 A d) rfl)) $$ Hsh1
    ihave Hsh3 := (Transfers.pointsTo_toks_split (ℓ := shLoc d (cV L)) (S := Finset.univ) (f := shVal A d (cV L)) fullShare 16) $$ Hsh2
    icases Hsh3 with ⟨Hrest, Htks⟩
    ihave Hpays := (pays_intro (F := F) A d L) $$ [Htks]
    · rw [if_pos (show (jL L).val = 0 from h0)]; iexact Htks
    iapply (SparseCore.wp_subcoreBarrier 𝒱₀ none EB (bRd A) d (sc := cV L) (i := jV L) sc_bar0 (grid1.bound 1) hsub1 (L 1) rfl κ (fun _ => 0) (jV L).val
        (fun j => bRd_mem₀ A d _ _ _) (fun _ => rfl) (bRd_expect A d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := thr d L) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, -, -, Hgot⟩
    ihave Hsh := (pays_elim (F := F) A d L) $$ Hgot
    sl_exec
    sl_step
    isplitl [Htp]; · iexact Htp
    isplitl [Heid]; · iexact Heid
    isplitl [Hpid]; · iexact Hpid
    isplitl [Hsh]; · iexact Hsh
    isplitl [Hrest]; · iexact Hrest
    isplitl [Heix]; · iexact Heix
    isplitl [Hpix]; · iexact Hpix
    isplitl [Hs16]; · iexact Hs16
    isplitl [Hs17]; · iexact Hs17
    isplitl [Hs18]; · iexact Hs18
    iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inr (hp ▸ rfl))
    rcases Finset.mem_insert.mp hp with hp | hp; · exact .inr (.inl (hp ▸ rfl))
    exact .inl hp
  · rw [if_neg (show ¬ (jL L).val = 0 from h0), if_neg (show ¬ (jL L).val = 0 from h0)]
    iintro ⟨#Hlv, ⟨⟨%κ, #Hinv⟩, Htoks, #Hrch, Hat, Hcred⟩, Htp, Heid, Hpid, Hsh0, Heix, Hpix, Hs16, Hs17, Hs18, HO⟩
    ihave Hmw1 := (show levAts (K (F := F)).L (K (F := F)).lev ⊢ Transfers.MayWaits (thr d L) (default : HIx 1) (O + oxV d (cV L)) from
      (K (F := F)).mayWaits_none (thr := thr d L) hO') $$ Hlv
    ihave Hmw2 := (show levAts (K (F := F)).L (K (F := F)).lev ⊢ Transfers.MayWaits (thr d L) (default : HIx 1) O from
      (K (F := F)).mayWaits_none (thr := thr d L) hO) $$ Hlv
    sl_exec (disch := first | exact cond1_neg L h0)
    ihave Hpays := (pays_intro (F := F) A d L) $$ []
    · rw [if_neg (show ¬ (jL L).val = 0 from h0)]; iempintro
    iapply (SparseCore.wp_subcoreBarrier 𝒱₀ none EB (bRd A) d (sc := cV L) (i := jV L) sc_bar0 (grid1.bound 1) hsub1 (L 1) rfl κ (fun _ => 0) (jV L).val
        (fun j => bRd_mem₀ A d _ _ _) (fun _ => rfl) (bRd_expect A d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := thr d L) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, -, -, Hgot⟩
    ihave Hsh := (pays_elim (F := F) A d L) $$ Hgot
    sl_exec
    sl_step
    isplitl [Htp]; · iexact Htp
    isplitl [Heid]; · iexact Heid
    isplitl [Hpid]; · iexact Hpid
    isplitl [Hsh]; · iexact Hsh
    isplitr; · iempintro
    isplitl [Heix]; · iexact Heix
    isplitl [Hpix]; · iexact Hpix
    isplitl [Hs16]; · iexact Hs16
    isplitl [Hs17]; · iexact Hs17
    isplitl [Hs18]; · iexact Hs18
    iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inr (hp ▸ rfl))
    exact .inl hp

/-! ## The second part: the first two chunks' gathers -/

/-- The tables as the gathers name their source: the whole array as a slice of itself. -/
abbrev teSrc : Memref sig .scVector .hbm S100000x128 .f32 :=
  (teV).slice (Rect.unit (s := S100000x128) ![0, 0] S100000x128.size inb_S100000x128_S100000x128_0_0) (fun _ => rfl)
abbrev shSrc : Memref sig .scVector .shared S1000x128 .f32 :=
  (shV).slice (Rect.unit (s := S1000x128) ![0, 0] S1000x128.size inb_S1000x128_S1000x128_0_0) (fun _ => rfl)

/-- A gather's list: 128 ids of an id scratch from `off` on. -/
abbrev lst (M : Memref sig .scVector .vmem S2x512 .i32) (off : Fin 2 → ℕ) (h : ∀ a, off a + S1x128.size a ≤ S2x512.size a) : Memref sig .scVector .vmem S128 .i32 :=
  (M.slice (Rect.unit (s := S2x512) off S1x128.size h) (fun _ => rfl)).squeeze S128 squeezes_S1x128_S128

/-- Half `b` of a row buffer, as the gathers and copy-outs name it. -/
abbrev hlf0 (M : Memref sig .scVector .vmem S2x128x128 .f32) : Memref sig .scVector .vmem S128x128 .f32 :=
  (M.slice (Rect.unit (s := S2x128x128) ![0, 0, 0] S1x128x128.size inb_S2x128x128_S1x128x128_0_0_0) (fun _ => rfl)).squeeze S128x128 squeezes_S1x128x128_S128x128
abbrev hlf1 (M : Memref sig .scVector .vmem S2x128x128 .f32) : Memref sig .scVector .vmem S128x128 .f32 :=
  (M.slice (Rect.unit (s := S2x128x128) ![1, 0, 0] S1x128x128.size inb_S2x128x128_S1x128x128_1_0_0) (fun _ => rfl)).squeeze S128x128 squeezes_S1x128x128_S128x128

/-- A pending gather of 128 rows of the element table into half `H` of `ebufs` by the list `l` on cell `sm`: what its wait
    will hand back — the half written with the gathered rows, the list, the share of the table. -/
abbrev flightE (sm : DmaSem sig) (H : Memref sig .scVector .vmem S128x128 .f32) (l : Memref sig .scVector .vmem S128 .i32)
    (q : PosShare TreeShare) (fe : Buf (Elt F) (H.view.loc (thr d L))) (e : Buf (Elt F) (l.view.loc (thr d L)))
    (hin : ∀ x, (l.view.read (Elt F) e x).toNat < S100000x128.size gathers_S100000x128_S128x128.axis) : sProp 𝕄 :=
  Transfers.Flight countersEmb (thr d L) (SemLoc.dma sm) (default : HIx 1) 524288
    iprop(((H.view.loc (thr d L) ↦[H.view.set]{fullShare} View.write (Elt F) H.view fe
              (SparseCore.gatherPayload gathers_S100000x128_S128x128 ((teSrc).view.read (Elt F) (A.te d)) (SparseCore.rows (l.view.read (Elt F) e) rfl hin)) Finset.univ)
          ∗ (l.view.loc (thr d L) ↦[l.view.set]{fullShare} e))
        ∗ ((teSrc).view.loc (thr d L) ↦[(teSrc).view.set]{q} A.te d))

/-- The same out of the shared scratch (the property table) into half `H` of `pbufs`. -/
abbrev flightP (sm : DmaSem sig) (H : Memref sig .scVector .vmem S128x128 .f32) (l : Memref sig .scVector .vmem S128 .i32)
    (q : PosShare TreeShare) (fp : Buf (Elt F) (H.view.loc (thr d L))) (e : Buf (Elt F) (l.view.loc (thr d L)))
    (hin : ∀ x, (l.view.read (Elt F) e x).toNat < S1000x128.size gathers_S1000x128_S128x128.axis) : sProp 𝕄 :=
  Transfers.Flight countersEmb (thr d L) (SemLoc.dma sm) (default : HIx 1) 524288
    iprop(((H.view.loc (thr d L) ↦[H.view.set]{fullShare} View.write (Elt F) H.view fp
              (SparseCore.gatherPayload gathers_S1000x128_S128x128 ((shSrc).view.read (Elt F) (shVal A d (cV L))) (SparseCore.rows (l.view.read (Elt F) e) rfl hin)) Finset.univ)
          ∗ (l.view.loc (thr d L) ↦[l.view.set]{fullShare} e))
        ∗ ((shSrc).view.loc (thr d L) ↦[(shSrc).view.set]{q} shVal A d (cV L)))

/-- What is left in hand of a table's read share while its slice is lent to a gather. -/
abbrev teRest (q : PosShare TreeShare) : sProp 𝕄 := (teV).view.loc (thr d L) ↦[Finset.univ \ (teSrc).view.set]{q} A.te d
abbrev shRest (q : PosShare TreeShare) : sProp 𝕄 := (shV).view.loc (thr d L) ↦[Finset.univ \ (shSrc).view.set]{q} shVal A d (cV L)

set_option maxHeartbeats 4000000 in
/-- The gathers of chunks 0 and 1: rows of the element table by the first and second quarter of slot 0 of `eixb` into the
    halves of `ebufs`, rows of the shared scratch by those of `pixb` into the halves of `pbufs`, each on its own cell. -/
theorem part51_run (q1 q2 r1 r2 : PosShare TreeShare) (O : CellTallies nD τ sig (HIx 1)) (W : Waits sig (HIx 1)) (v2 : BitVec 32)
    (e0 : Buf (Elt F) ((eixV).view.loc (thr d L))) (p0 : Buf (Elt F) ((pixV).view.loc (thr d L)))
    (fe : Buf (Elt F) ((ebV).view.loc (thr d L))) (fp : Buf (Elt F) ((pbV).view.loc (thr d L)))
    (hinE0 : ∀ x, ((lst eixV ![0, 0] inb_S2x512_S1x128_0_0).view.read (Elt F) e0 x).toNat < S100000x128.size gathers_S100000x128_S128x128.axis)
    (hinE1 : ∀ x, ((lst eixV ![0, 128] inb_S2x512_S1x128_0_128).view.read (Elt F) e0 x).toNat < S100000x128.size gathers_S100000x128_S128x128.axis)
    (hinP0 : ∀ x, ((lst pixV ![0, 0] inb_S2x512_S1x128_0_0).view.read (Elt F) p0 x).toNat < S1000x128.size gathers_S1000x128_S128x128.axis)
    (hinP1 : ∀ x, ((lst pixV ![0, 128] inb_S2x512_S1x128_0_128).view.read (Elt F) p0 x).toNat < S1000x128.size gathers_S1000x128_S128x128.axis) :
    iprop(Transfers.MayWaits (thr d L) (default : HIx 1) O
        ∗ ((teV).view.loc (thr d L) ↦{q1} A.te d) ∗ ((teV).view.loc (thr d L) ↦{q2} A.te d)
        ∗ ((shV).view.loc (thr d L) ↦{r1} shVal A d (cV L)) ∗ ((shV).view.loc (thr d L) ↦{r2} shVal A d (cV L))
        ∗ ((eixV).view.loc (thr d L) ↦{fullShare} e0) ∗ ((pixV).view.loc (thr d L) ↦{fullShare} p0)
        ∗ ((ebV).view.loc (thr d L) ↦{fullShare} fe) ∗ ((pbV).view.loc (thr d L) ↦{fullShare} fp)
        ∗ semVal (cellOf d L 10) 0 ∗ semVal (cellOf d L 11) 0 ∗ semVal (cellOf d L 12) 0 ∗ semVal (cellOf d L 13) 0
        ∗ owes (thr d L) O W)
      ⊢ wp frame (wpE (defs₀ (F := F)) 𝒱₀ (thr d L) none) Set.univ (k1_part51 (F := F) L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2)
          fun _ => iprop(flightE A d L 10 (hlf0 ebV) (lst eixV ![0, 0] inb_S2x512_S1x128_0_0) q1 fe e0 hinE0
            ∗ flightP A d L 12 (hlf0 pbV) (lst pixV ![0, 0] inb_S2x512_S1x128_0_0) r1 fp p0 hinP0
            ∗ (∃ fe1, flightE A d L 11 (hlf1 ebV) (lst eixV ![0, 128] inb_S2x512_S1x128_0_128) q2 fe1 e0 hinE1)
            ∗ (∃ fp1, flightP A d L 13 (hlf1 pbV) (lst pixV ![0, 128] inb_S2x512_S1x128_0_128) r2 fp1 p0 hinP1)
            ∗ teRest A d L q1 ∗ teRest A d L q2 ∗ shRest A d L r1 ∗ shRest A d L r2
            ∗ ((eixV).view.loc (thr d L) ↦[(Finset.univ \ (lst eixV ![0, 0] inb_S2x512_S1x128_0_0).view.set) \ (lst eixV ![0, 128] inb_S2x512_S1x128_0_128).view.set]{fullShare} e0)
            ∗ ((pixV).view.loc (thr d L) ↦[(Finset.univ \ (lst pixV ![0, 0] inb_S2x512_S1x128_0_0).view.set) \ (lst pixV ![0, 128] inb_S2x512_S1x128_0_128).view.set]{fullShare} p0)
            ∗ (∃ f, (ebV).view.loc (thr d L) ↦[(Finset.univ \ (hlf0 ebV).view.set) \ (hlf1 ebV).view.set]{fullShare} f)
            ∗ (∃ f, (pbV).view.loc (thr d L) ↦[(Finset.univ \ (hlf0 pbV).view.set) \ (hlf1 pbV).view.set]{fullShare} f)
            ∗ owes (thr d L) O W) := by
  rw [k1_part51_eq_skeleton]; unfold k1_part51_skel
  iintro ⟨#Hmw, Hte1, Hte2, Hsh1, Hsh2, Heix, Hpix, Heb, Hpb, Hs10, Hs11, Hs12, Hs13, HO⟩
  sl_exec
  sl_step
  isplitl [Hs10]; · iexact Hs10
  isplitl [Hs12]; · iexact Hs12
  isplitl [Hs11]; · iexists _; iexact Hs11
  isplitl [Hs13]; · iexists _; iexact Hs13
  isplitl [Hte1]; · iexact Hte1
  isplitl [Hte2]; · iexact Hte2
  isplitl [Hsh1]; · iexact Hsh1
  isplitl [Hsh2]; · iexact Hsh2
  isplitl [Heix]; · iexact Heix
  isplitl [Hpix]; · iexact Hpix
  isplitl [Heb]; · iexists _; iexact Heb
  isplitl [Hpb]; · iexists _; iexact Hpb
  iexact HO

end Cert.Kernel.Run.Sc

end
-- ==== Proof.ScIfaceBits.lean ====
/-
  What the tile's trip needs of the four inner loops (one per chunk of a trip): holding the three row buffers — the
  half the loop works on, the other half possibly lent to a transfer in flight —, the loop leaves the sum buffer's
  half at the lanewise sum of the two gathered halves and everything else as it was. Stated as propositions, for the
  module that proves them.
-/
import proofs.«204385_g66649302499670_cont_9to1c4b_43_34_alg».proof.Proof.ScViewsBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F]

/-- Half `b` of a row buffer, as the gathers and copy-outs name it. -/
abbrev half0 (M : Memref sig .scVector .vmem S2x128x128 .f32) : Memref sig .scVector .vmem S128x128 .f32 :=
  (M.slice (Rect.unit (s := S2x128x128) ![0, 0, 0] S1x128x128.size inb_S2x128x128_S1x128x128_0_0_0) (fun _ => rfl)).squeeze S128x128 squeezes_S1x128x128_S128x128
abbrev half1 (M : Memref sig .scVector .vmem S2x128x128 .f32) : Memref sig .scVector .vmem S128x128 .f32 :=
  (M.slice (Rect.unit (s := S2x128x128) ![1, 0, 0] S1x128x128.size inb_S2x128x128_S1x128x128_1_0_0) (fun _ => rfl)).squeeze S128x128 squeezes_S1x128x128_S128x128

/-- The sum buffer after the loop on half `bb`: that half the lanewise sum, the rest unchanged. -/
def addHalf (bb : ℕ) (fe fp fo : S2x128x128.Idx → Elt F .f32) : S2x128x128.Idx → Elt F .f32 :=
  fun i => if (i 0).val = bb then FloatOps.addf (φ := .f32) (fe i) (fp i) else fo i

/-- The sets a row buffer may be held on when a loop runs: whole, or all but the OTHER half's window (lent to a flight). -/
def HeldOn (M : Memref sig .scVector .vmem S2x128x128 .f32) (d : Dev nD) (L : grid1.Coords)
    (other : Finset (Idx (M.view.loc (thr d L)))) (S : Finset (Idx (M.view.loc (thr d L)))) : Prop :=
  S = Finset.univ ∨ S = M.view.set \ other

section
variable (d : Dev nD) (L : grid1.Coords) (v2 : BitVec 32) (k1_t1 : Fin k1_t1_loop.trips)

/-- The rule for a loop `lp` working on half `bb` (the other half's windows `oe`, `op`, `oo`). -/
def AddLoopRule (bb : ℕ) (oe : Finset (Idx ((ebV).view.loc (thr d L)))) (op : Finset (Idx ((pbV).view.loc (thr d L)))) (oo : Finset (Idx ((obV).view.loc (thr d L))))
    (lp : Prog (TpuEff nD τ sig (Elt F) Λ₀ (.scVector ((L 0).castLE hcore1) ((L 1).castLE hsub1))) Unit) : Prop :=
  ∀ (Se : Finset (Idx ((ebV).view.loc (thr d L)))) (Sp : Finset (Idx ((pbV).view.loc (thr d L)))) (So : Finset (Idx ((obV).view.loc (thr d L))))
    (_ : HeldOn ebV d L oe Se) (_ : HeldOn pbV d L op Sp) (_ : HeldOn obV d L oo So)
    (fe : Buf (Elt F) ((ebV).view.loc (thr d L))) (fp : Buf (Elt F) ((pbV).view.loc (thr d L))) (fo : Buf (Elt F) ((obV).view.loc (thr d L)))
    {α : Type} (k : Unit → Prog (TpuEff nD τ sig (Elt F) Λ₀ (.scVector ((L 0).castLE hcore1) ((L 1).castLE hsub1))) α) (Q : α → sProp 𝕄),
    iprop(((ebV).view.loc (thr d L) ↦[Se]{fullShare} fe) ∗ ((pbV).view.loc (thr d L) ↦[Sp]{fullShare} fp) ∗ ((obV).view.loc (thr d L) ↦[So]{fullShare} fo)
        ∗ (iprop(((ebV).view.loc (thr d L) ↦[Se]{fullShare} fe) ∗ ((pbV).view.loc (thr d L) ↦[Sp]{fullShare} fp)
              ∗ ((obV).view.loc (thr d L) ↦[So]{fullShare} addHalf bb fe fp fo))
            -∗ wp frame (wpE (defs₀ (F := F)) 𝒱₀ (thr d L) none) Set.univ (k ()) Q))
      ⊢ wp frame (wpE (defs₀ (F := F)) 𝒱₀ (thr d L) none) Set.univ (lp >>= k) Q

/-- Chunk 0 of a trip (half 0), chunk 1 (half 1), chunk 2 (half 0), chunk 3 (half 1): the loops as the trip's parts call them. -/
def AddLoop_sub0 : Prop := ∀ arg17 v81 : BitVec 32, AddLoopRule (F := F) d L 0 (half1 ebV).view.set (half1 pbV).view.set (half1 obV).view.set
  (Scf.Loop.for k1_t2_loop k1_t2_ok ⟨⟩ (k1_t2_body L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2 k1_t1 arg17 v81))
def AddLoop_sub1 : Prop := ∀ arg17 v115 : BitVec 32, AddLoopRule (F := F) d L 1 (half0 ebV).view.set (half0 pbV).view.set (half0 obV).view.set
  (Scf.Loop.for k1_t3_loop k1_t3_ok ⟨⟩ (k1_t3_body L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2 k1_t1 arg17 v115))
def AddLoop_sub2 : Prop := ∀ v149 : BitVec 32, AddLoopRule (F := F) d L 0 (half1 ebV).view.set (half1 pbV).view.set (half1 obV).view.set
  (Scf.Loop.for k1_t4_loop k1_t4_ok ⟨⟩ (k1_t4_body L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2 k1_t1 v149))
def AddLoop_sub3 : Prop := ∀ (arg17 : BitVec 32) (v179 : BitVec 1), AddLoopRule (F := F) d L 1 (half0 ebV).view.set (half0 pbV).view.set (half0 obV).view.set
  (Scf.Loop.for k1_t5_loop k1_t5_ok ⟨⟩ (k1_t5_body L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2 k1_t1 arg17 v179))
end

end Cert.Kernel.Run.Sc

end
-- ==== Proof.ScArithBits.lean ====
/-
  The trip's conditions and parity-dependent offsets in closed form: which waits and issues a trip makes, and which
  id slot, quarter and cell they name, as functions of the trip number.
-/
import proofs.«204385_g66649302499670_cont_9to1c4b_43_34_alg».proof.Proof.ScViewsBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

theorem trips_eq : k1_t1_loop.trips = 50 := rfl

theorem cond2_iff : ∀ t : Fin k1_t1_loop.trips, k1_cond2 t = 1#1 ↔ 1 ≤ t.val := by decide +kernel
theorem cond3_true : ∀ t : Fin k1_t1_loop.trips, k1_cond3 t = 1#1 := by decide +kernel
theorem cond4_iff : ∀ t : Fin k1_t1_loop.trips, k1_cond4 t = 1#1 ↔ 1 ≤ t.val := by decide +kernel
theorem cond5_true : ∀ t : Fin k1_t1_loop.trips, k1_cond5 t = 1#1 := by decide +kernel
theorem cond6_true : ∀ t : Fin k1_t1_loop.trips, k1_cond6 t = 1#1 := by decide +kernel
theorem cond7_iff : ∀ t : Fin k1_t1_loop.trips, k1_cond7 t = 1#1 ↔ t.val < 49 := by decide +kernel
theorem cond8_true : ∀ t : Fin k1_t1_loop.trips, k1_cond8 t = 1#1 := by decide +kernel
theorem cond9_iff : ∀ t : Fin k1_t1_loop.trips, k1_cond9 t = 1#1 ↔ t.val < 48 := by decide +kernel
theorem cond10_iff : ∀ t : Fin k1_t1_loop.trips, k1_cond10 t = 1#1 ↔ t.val < 49 := by decide +kernel

theorem off14_eq : ∀ t : Fin k1_t1_loop.trips, k1_off14 t = ![t.val % 2, 256] := by decide +kernel
theorem off25_eq : ∀ t : Fin k1_t1_loop.trips, k1_off25 t = ![t.val % 2, 384] := by decide +kernel
theorem off36_eq : ∀ t : Fin k1_t1_loop.trips, k1_off36 t = ![(t.val + 1) % 2, 0] := by decide +kernel
theorem off38_eq : ∀ t : Fin k1_t1_loop.trips, k1_off38 t = ![(t.val + 1) % 2] := by decide +kernel
theorem off39_eq : ∀ t : Fin k1_t1_loop.trips, k1_off39 t = ![(t.val + 1) % 2, 0] := by decide +kernel
theorem off42_eq : ∀ t : Fin k1_t1_loop.trips, k1_off42 t = ![t.val % 2, 0] := by decide +kernel
theorem off44_eq : ∀ t : Fin k1_t1_loop.trips, k1_off44 t = ![t.val % 2] := by decide +kernel
theorem off53_eq : ∀ t : Fin k1_t1_loop.trips, k1_off53 t = ![(t.val + 1) % 2, 128] := by decide +kernel

end Cert.Kernel.Run.Sc

end
-- ==== Proof.ScTripBits.lean ====
/-
  The tile's loop: what the tile holds between two trips of its 50-trip loop (the invariant), and one trip.

  At the start of trip k the gathers of chunks 4k and 4k+1 are in flight (one per cell of esem / psem) into the halves
  of ebufs / pbufs, by the first two quarters of id slot k % 2; the next trip's 512 ids of both kinds are in flight
  into slot (k+1) % 2 as ONE batch of two copies on isem[(k+1) % 2] (trips 0–48); the copy-outs of chunks 4k-2 and
  4k-1 are in flight out of the halves of obufs on wsem[0] / wsem[1] (trips ≥ 1), their chunks of the result already
  counted as holding the looked-up sums; the chunks below 4k-2 hold them; those from 4k on are untouched.
-/
import proofs.«204385_g66649302499670_cont_9to1c4b_43_34_alg».proof.Proof.ScPrologBits
import proofs.«204385_g66649302499670_cont_9to1c4b_43_34_alg».proof.Proof.ScIfaceBits
import proofs.«204385_g66649302499670_cont_9to1c4b_43_34_alg».proof.Proof.ScArithBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F] (A : Vals F) (d : Dev nD) (L : grid1.Coords)

/-! ## Pieces named by a trip (every memref at literal offsets: a trip's parity chooses among them) -/

theorem linb_0_0 : ∀ a, (![0, 0] : Fin 2 → ℕ) a + S1x128.size a ≤ S2x512.size a := by decide
theorem linb_0_128 : ∀ a, (![0, 128] : Fin 2 → ℕ) a + S1x128.size a ≤ S2x512.size a := by decide
theorem linb_0_256 : ∀ a, (![0, 256] : Fin 2 → ℕ) a + S1x128.size a ≤ S2x512.size a := by decide
theorem linb_0_384 : ∀ a, (![0, 384] : Fin 2 → ℕ) a + S1x128.size a ≤ S2x512.size a := by decide
theorem linb_1_0 : ∀ a, (![1, 0] : Fin 2 → ℕ) a + S1x128.size a ≤ S2x512.size a := by decide
theorem linb_1_128 : ∀ a, (![1, 128] : Fin 2 → ℕ) a + S1x128.size a ≤ S2x512.size a := by decide
theorem linb_1_256 : ∀ a, (![1, 256] : Fin 2 → ℕ) a + S1x128.size a ≤ S2x512.size a := by decide
theorem linb_1_384 : ∀ a, (![1, 384] : Fin 2 → ℕ) a + S1x128.size a ≤ S2x512.size a := by decide

/-- Slot 1 of an id scratch as a 512-list (slot 0 is `slot0`). -/
abbrev slot1 (M : Memref sig .scVector .vmem S2x512 .i32) : Memref sig .scVector .vmem S512 .i32 :=
  (M.slice (Rect.unit (s := S2x512) ![1, 0] S1x512.size inb_S2x512_S1x512_1_0) (fun _ => rfl)).squeeze S512 squeezes_S1x512_S512

/-- Chunk `n` (128 rows) of the worker's slab of the result. -/
def chunkOff (n : ℕ) : Fin 2 → ℕ := ![51200 * (L 1).val + 25600 * (L 0).val + 128 * n, 0]
theorem chunkInb (n : ℕ) (hn : n < 200) : ∀ a, chunkOff L n a + S128x128.size a ≤ S819200x128.size a := by
  have h0 : (L 0).val < 2 := (L 0).isLt
  have h1 : (L 1).val < 16 := (L 1).isLt
  intro a; match a with
  | 0 => show 51200 * (L 1).val + 25600 * (L 0).val + 128 * n + 128 ≤ 819200; omega
  | 1 => show 0 + 128 ≤ 128; omega
abbrev chunkV (n : ℕ) (hn : n < 200) : Memref sig .scVector .hbm S128x128 .f32 :=
  (outV).slice (Rect.unit (s := S819200x128) (chunkOff L n) S128x128.size (chunkInb L n hn)) (fun _ => rfl)

/-- 512 ids of a flat id array from position `off` on. -/
def idsOff (k : ℕ) : Fin 1 → ℕ := ![51200 * (L 1).val + 25600 * (L 0).val + 512 * k]
theorem idsInb (k : ℕ) (hk : k < 50) : ∀ a, idsOff L k a + S512.size a ≤ S819200.size a := by
  have h0 : (L 0).val < 2 := (L 0).isLt
  have h1 : (L 1).val < 16 := (L 1).isLt
  intro a; match a with
  | 0 => show 51200 * (L 1).val + 25600 * (L 0).val + 512 * k + 512 ≤ 819200; omega
abbrev idsV (M : Memref sig .scVector .hbm S819200 .i32) (k : ℕ) (hk : k < 50) : Memref sig .scVector .hbm S512 .i32 :=
  M.slice (Rect.unit (s := S819200) (idsOff L k) S512.size (idsInb L k hk)) (fun _ => rfl)

/-! ## The invariant -/

/-- The four lists of a trip's first two chunks (slot 0) name rows of the tables. -/
def ListsOK0 (e : Buf (Elt F) ((eixV).view.loc (thr d L))) (p : Buf (Elt F) ((pixV).view.loc (thr d L))) : Prop :=
  (∀ x, ((lst eixV ![0, 0] linb_0_0).view.read (Elt F) e x).toNat < S100000x128.size gathers_S100000x128_S128x128.axis)
  ∧ (∀ x, ((lst eixV ![0, 128] linb_0_128).view.read (Elt F) e x).toNat < S100000x128.size gathers_S100000x128_S128x128.axis)
  ∧ (∀ x, ((lst pixV ![0, 0] linb_0_0).view.read (Elt F) p x).toNat < S1000x128.size gathers_S1000x128_S128x128.axis)
  ∧ (∀ x, ((lst pixV ![0, 128] linb_0_128).view.read (Elt F) p x).toNat < S1000x128.size gathers_S1000x128_S128x128.axis)

/-- Slot 0 of both id scratches holds trip `k`'s ids. -/
def SlotVals0 (e : Buf (Elt F) ((eixV).view.loc (thr d L))) (p : Buf (Elt F) ((pixV).view.loc (thr d L))) (k : ℕ) (hk : k < 50) : Prop :=
  (∀ x, (slot0 eixV).view.read (Elt F) e x = (idsV L eidV k hk).view.read (Elt F) (A.eid d) x)
  ∧ (∀ x, (slot0 pixV).view.read (Elt F) p x = (idsV L pidV k hk).view.read (Elt F) (A.pid d) x)

/-- The gathers of chunks 4k and 4k+1 in flight by the first two quarters of slot 0, and what is left in hand of
    what they borrow; after the last trip, everything back. -/
def gatherPart0 (q1 q2 r1 r2 : PosShare TreeShare) (k : ℕ) : sProp 𝕄 :=
  if hk : k < 50 then
    iprop(∃ (e : Buf (Elt F) ((eixV).view.loc (thr d L))) (p : Buf (Elt F) ((pixV).view.loc (thr d L)))
        (h : PLift (ListsOK0 d L e p)),
      ⌜SlotVals0 A d L e p k hk⌝
      ∗ (∃ fe, flightE A d L 10 (hlf0 ebV) (lst eixV ![0, 0] linb_0_0) q1 fe e h.down.1)
      ∗ (∃ fe, flightE A d L 11 (hlf1 ebV) (lst eixV ![0, 128] linb_0_128) q2 fe e h.down.2.1)
      ∗ (∃ fp, flightP A d L 12 (hlf0 pbV) (lst pixV ![0, 0] linb_0_0) r1 fp p h.down.2.2.1)
      ∗ (∃ fp, flightP A d L 13 (hlf1 pbV) (lst pixV ![0, 128] linb_0_128) r2 fp p h.down.2.2.2)
      ∗ teRest A d L q1 ∗ teRest A d L q2 ∗ shRest A d L r1 ∗ shRest A d L r2
      ∗ ((slot0 eixV).view.loc (thr d L)
            ↦[((slot0 eixV).view.set \ (lst eixV ![0, 0] linb_0_0).view.set) \ (lst eixV ![0, 128] linb_0_128).view.set]{fullShare} e)
      ∗ ((slot0 pixV).view.loc (thr d L)
            ↦[((slot0 pixV).view.set \ (lst pixV ![0, 0] linb_0_0).view.set) \ (lst pixV ![0, 128] linb_0_128).view.set]{fullShare} p)
      ∗ (∃ f, (ebV).view.loc (thr d L) ↦[(Finset.univ \ (hlf0 ebV).view.set) \ (hlf1 ebV).view.set]{fullShare} f)
      ∗ (∃ f, (pbV).view.loc (thr d L) ↦[(Finset.univ \ (hlf0 pbV).view.set) \ (hlf1 pbV).view.set]{fullShare} f))
  else
    iprop(((teV).view.loc (thr d L) ↦{q1} A.te d) ∗ ((teV).view.loc (thr d L) ↦{q2} A.te d)
      ∗ ((shV).view.loc (thr d L) ↦{r1} shVal A d (cV L)) ∗ ((shV).view.loc (thr d L) ↦{r2} shVal A d (cV L))
      ∗ (∃ e, (slot0 eixV).view.loc (thr d L) ↦[(slot0 eixV).view.set]{fullShare} e)
      ∗ (∃ p, (slot0 pixV).view.loc (thr d L) ↦[(slot0 pixV).view.set]{fullShare} p)
      ∗ (∃ f, (ebV).view.loc (thr d L) ↦{fullShare} f) ∗ (∃ f, (pbV).view.loc (thr d L) ↦{fullShare} f)
      ∗ semVal (cellOf d L 10) 0 ∗ semVal (cellOf d L 11) 0 ∗ semVal (cellOf d L 12) 0 ∗ semVal (cellOf d L 13) 0)

/-- The four lists of a trip's first two chunks (slot 1) name rows of the tables. -/
def ListsOK1 (e : Buf (Elt F) ((eixV).view.loc (thr d L))) (p : Buf (Elt F) ((pixV).view.loc (thr d L))) : Prop :=
  (∀ x, ((lst eixV ![1, 0] linb_1_0).view.read (Elt F) e x).toNat < S100000x128.size gathers_S100000x128_S128x128.axis)
  ∧ (∀ x, ((lst eixV ![1, 128] linb_1_128).view.read (Elt F) e x).toNat < S100000x128.size gathers_S100000x128_S128x128.axis)
  ∧ (∀ x, ((lst pixV ![1, 0] linb_1_0).view.read (Elt F) p x).toNat < S1000x128.size gathers_S1000x128_S128x128.axis)
  ∧ (∀ x, ((lst pixV ![1, 128] linb_1_128).view.read (Elt F) p x).toNat < S1000x128.size gathers_S1000x128_S128x128.axis)

/-- Slot 1 of both id scratches holds trip `k`'s ids. -/
def SlotVals1 (e : Buf (Elt F) ((eixV).view.loc (thr d L))) (p : Buf (Elt F) ((pixV).view.loc (thr d L))) (k : ℕ) (hk : k < 50) : Prop :=
  (∀ x, (slot1 eixV).view.read (Elt F) e x = (idsV L eidV k hk).view.read (Elt F) (A.eid d) x)
  ∧ (∀ x, (slot1 pixV).view.read (Elt F) p x = (idsV L pidV k hk).view.read (Elt F) (A.pid d) x)

/-- The gathers of chunks 4k and 4k+1 in flight by the first two quarters of slot 1, and what is left in hand of
    what they borrow; after the last trip, everything back. -/
def gatherPart1 (q1 q2 r1 r2 : PosShare TreeShare) (k : ℕ) : sProp 𝕄 :=
  if hk : k < 50 then
    iprop(∃ (e : Buf (Elt F) ((eixV).view.loc (thr d L))) (p : Buf (Elt F) ((pixV).view.loc (thr d L)))
        (h : PLift (ListsOK1 d L e p)),
      ⌜SlotVals1 A d L e p k hk⌝
      ∗ (∃ fe, flightE A d L 10 (hlf0 ebV) (lst eixV ![1, 0] linb_1_0) q1 fe e h.down.1)
      ∗ (∃ fe, flightE A d L 11 (hlf1 ebV) (lst eixV ![1, 128] linb_1_128) q2 fe e h.down.2.1)
      ∗ (∃ fp, flightP A d L 12 (hlf0 pbV) (lst pixV ![1, 0] linb_1_0) r1 fp p h.down.2.2.1)
      ∗ (∃ fp, flightP A d L 13 (hlf1 pbV) (lst pixV ![1, 128] linb_1_128) r2 fp p h.down.2.2.2)
      ∗ teRest A d L q1 ∗ teRest A d L q2 ∗ shRest A d L r1 ∗ shRest A d L r2
      ∗ ((slot1 eixV).view.loc (thr d L)
            ↦[((slot1 eixV).view.set \ (lst eixV ![1, 0] linb_1_0).view.set) \ (lst eixV ![1, 128] linb_1_128).view.set]{fullShare} e)
      ∗ ((slot1 pixV).view.loc (thr d L)
            ↦[((slot1 pixV).view.set \ (lst pixV ![1, 0] linb_1_0).view.set) \ (lst pixV ![1, 128] linb_1_128).view.set]{fullShare} p)
      ∗ (∃ f, (ebV).view.loc (thr d L) ↦[(Finset.univ \ (hlf0 ebV).view.set) \ (hlf1 ebV).view.set]{fullShare} f)
      ∗ (∃ f, (pbV).view.loc (thr d L) ↦[(Finset.univ \ (hlf0 pbV).view.set) \ (hlf1 pbV).view.set]{fullShare} f))
  else
    iprop(((teV).view.loc (thr d L) ↦{q1} A.te d) ∗ ((teV).view.loc (thr d L) ↦{q2} A.te d)
      ∗ ((shV).view.loc (thr d L) ↦{r1} shVal A d (cV L)) ∗ ((shV).view.loc (thr d L) ↦{r2} shVal A d (cV L))
      ∗ (∃ e, (slot1 eixV).view.loc (thr d L) ↦[(slot1 eixV).view.set]{fullShare} e)
      ∗ (∃ p, (slot1 pixV).view.loc (thr d L) ↦[(slot1 pixV).view.set]{fullShare} p)
      ∗ (∃ f, (ebV).view.loc (thr d L) ↦{fullShare} f) ∗ (∃ f, (pbV).view.loc (thr d L) ↦{fullShare} f)
      ∗ semVal (cellOf d L 10) 0 ∗ semVal (cellOf d L 11) 0 ∗ semVal (cellOf d L 12) 0 ∗ semVal (cellOf d L 13) 0)

/-- The batch of two id copies in flight into the 512-slots `SE`, `SP` of the two id scratches on cell `sm`, out of the
    512 ids at `off` of the two flat arrays; kept parametric in the offset's spelling (the printed offset functions and
    `idsOff` are equal, not syntactically so). -/
abbrev idsBatch (sm : DmaSem sig) (SE SP : Memref sig .scVector .vmem S512 .i32) (qi : PosShare TreeShare)
    (off : Fin 1 → ℕ) (h : ∀ a, off a + S512.size a ≤ S819200.size a)
    (e : Buf (Elt F) (SE.view.loc (thr d L))) (p : Buf (Elt F) (SP.view.loc (thr d L))) (pe pp : S512.Idx → Elt F .i32) : sProp 𝕄 :=
  Transfers.Batched countersEmb (thr d L) (SemLoc.dma sm) (default : HIx 1) 16384 2
    [iprop((SE.view.loc (thr d L) ↦[SE.view.set]{fullShare} SE.view.writes (Elt F) e [⟨Rect.whole S512, pe⟩])
        ∗ ((eidV).view.loc (thr d L) ↦[((eidV).slice (Rect.unit (s := S819200) off S512.size h) (fun _ => rfl)).view.set]{qi} A.eid d)),
     iprop((SP.view.loc (thr d L) ↦[SP.view.set]{fullShare} SP.view.writes (Elt F) p [⟨Rect.whole S512, pp⟩])
        ∗ ((pidV).view.loc (thr d L) ↦[((pidV).slice (Rect.unit (s := S819200) off S512.size h) (fun _ => rfl)).view.set]{qi} A.pid d))] 0

/-- What is left in hand of the id arrays' read shares meanwhile. -/
abbrev idsRest (qi : PosShare TreeShare) (off : Fin 1 → ℕ) (h : ∀ a, off a + S512.size a ≤ S819200.size a) : sProp 𝕄 :=
  iprop(((eidV).view.loc (thr d L) ↦[Finset.univ \ ((eidV).slice (Rect.unit (s := S819200) off S512.size h) (fun _ => rfl)).view.set]{qi} A.eid d)
    ∗ ((pidV).view.loc (thr d L) ↦[Finset.univ \ ((pidV).slice (Rect.unit (s := S819200) off S512.size h) (fun _ => rfl)).view.set]{qi} A.pid d))

/-- The 512 ids at `off` as a copy delivers them. -/
abbrev idsPayAt (M : Memref sig .scVector .hbm S819200 .i32) (fid : Buf (Elt F) (M.view.loc (thr d L)))
    (off : Fin 1 → ℕ) (h : ∀ a, off a + S512.size a ≤ S819200.size a) : S512.Idx → Elt F .i32 :=
  ReadAs.same.apply (View.read (Elt F) (M.slice (Rect.unit (s := S819200) off S512.size h) (fun _ => rfl)).view fid)

theorem idsBatch_congr (sm : DmaSem sig) (SE SP : Memref sig .scVector .vmem S512 .i32) (qi : PosShare TreeShare)
    {off off' : Fin 1 → ℕ} (eq : off = off') (h : ∀ a, off a + S512.size a ≤ S819200.size a) (h' : ∀ a, off' a + S512.size a ≤ S819200.size a)
    (e : Buf (Elt F) (SE.view.loc (thr d L))) (p : Buf (Elt F) (SP.view.loc (thr d L))) (pe pp : S512.Idx → Elt F .i32) :
    idsBatch A d L sm SE SP qi off h e p pe pp = idsBatch A d L sm SE SP qi off' h' e p pe pp := by subst eq; rfl
theorem idsRest_congr (qi : PosShare TreeShare) {off off' : Fin 1 → ℕ} (eq : off = off')
    (h : ∀ a, off a + S512.size a ≤ S819200.size a) (h' : ∀ a, off' a + S512.size a ≤ S819200.size a) :
    idsRest A d L qi off h = idsRest A d L qi off' h' := by subst eq; rfl
omit [FloatOps F] in
theorem idsPayAt_congr (M : Memref sig .scVector .hbm S819200 .i32) (fid : Buf (Elt F) (M.view.loc (thr d L))) {off off' : Fin 1 → ℕ} (eq : off = off')
    (h : ∀ a, off a + S512.size a ≤ S819200.size a) (h' : ∀ a, off' a + S512.size a ≤ S819200.size a) :
    idsPayAt d L M fid off h = idsPayAt d L M fid off' h' := by subst eq; rfl

/-- The next trip's ids in flight into slot 0, as one batch of two copies on cell isem[0]; isem[1] at rest.
    From trip 49 on nothing is in flight. -/
def idsPart0 (qi : PosShare TreeShare) (k : ℕ) : sProp 𝕄 :=
  if hk : k + 1 < 50 then
    iprop(∃ (e : Buf (Elt F) ((eixV).view.loc (thr d L))) (p : Buf (Elt F) ((pixV).view.loc (thr d L))),
      idsBatch A d L (8 : DmaSem sig) (slot0 eixV) (slot0 pixV) qi (idsOff L (k + 1)) (idsInb L (k + 1) hk) e p
          (idsPayAt d L eidV (A.eid d) (idsOff L (k + 1)) (idsInb L (k + 1) hk)) (idsPayAt d L pidV (A.pid d) (idsOff L (k + 1)) (idsInb L (k + 1) hk))
      ∗ idsRest A d L qi (idsOff L (k + 1)) (idsInb L (k + 1) hk)
      ∗ semVal (cellOf d L 9) 0)
  else
    iprop(((eidV).view.loc (thr d L) ↦{qi} A.eid d) ∗ ((pidV).view.loc (thr d L) ↦{qi} A.pid d)
      ∗ (∃ e, (slot0 eixV).view.loc (thr d L) ↦[(slot0 eixV).view.set]{fullShare} e)
      ∗ (∃ p, (slot0 pixV).view.loc (thr d L) ↦[(slot0 pixV).view.set]{fullShare} p)
      ∗ semVal (cellOf d L 8) 0 ∗ semVal (cellOf d L 9) 0)

/-- The next trip's ids in flight into slot 1, as one batch of two copies on cell isem[1]; isem[0] at rest.
    From trip 49 on nothing is in flight. -/
def idsPart1 (qi : PosShare TreeShare) (k : ℕ) : sProp 𝕄 :=
  if hk : k + 1 < 50 then
    iprop(∃ (e : Buf (Elt F) ((eixV).view.loc (thr d L))) (p : Buf (Elt F) ((pixV).view.loc (thr d L))),
      idsBatch A d L (9 : DmaSem sig) (slot1 eixV) (slot1 pixV) qi (idsOff L (k + 1)) (idsInb L (k + 1) hk) e p
          (idsPayAt d L eidV (A.eid d) (idsOff L (k + 1)) (idsInb L (k + 1) hk)) (idsPayAt d L pidV (A.pid d) (idsOff L (k + 1)) (idsInb L (k + 1) hk))
      ∗ idsRest A d L qi (idsOff L (k + 1)) (idsInb L (k + 1) hk)
      ∗ semVal (cellOf d L 8) 0)
  else
    iprop(((eidV).view.loc (thr d L) ↦{qi} A.eid d) ∗ ((pidV).view.loc (thr d L) ↦{qi} A.pid d)
      ∗ (∃ e, (slot1 eixV).view.loc (thr d L) ↦[(slot1 eixV).view.set]{fullShare} e)
      ∗ (∃ p, (slot1 pixV).view.loc (thr d L) ↦[(slot1 pixV).view.set]{fullShare} p)
      ∗ semVal (cellOf d L 8) 0 ∗ semVal (cellOf d L 9) 0)

/-- By the trip's parity: trip `k` gathers by slot `k % 2` while slot `(k + 1) % 2` is being filled. -/
def gatherPart (q1 q2 r1 r2 : PosShare TreeShare) (k : ℕ) : sProp 𝕄 :=
  if k % 2 = 0 then gatherPart0 A d L q1 q2 r1 r2 k else gatherPart1 A d L q1 q2 r1 r2 k
def idsPart (qi : PosShare TreeShare) (k : ℕ) : sProp 𝕄 :=
  if k % 2 = 0 then idsPart1 A d L qi k else idsPart0 A d L qi k

/-- A copy-out of half `H` of `obufs` to chunk `n` in flight on cell `sm`: its wait hands back the chunk holding the
    looked-up sums and the half. -/
abbrev flightO (sm : DmaSem sig) (H : Memref sig .scVector .vmem S128x128 .f32) (n : ℕ) (hn : n < 200)
    (fo : Buf (Elt F) (H.view.loc (thr d L))) : sProp 𝕄 :=
  Transfers.Flight countersEmb (thr d L) (SemLoc.dma sm) (default : HIx 1) 524288
    iprop(((chunkV L n hn).view.loc (thr d L) ↦[(chunkV L n hn).view.set]{fullShare} outFin A d)
        ∗ (H.view.loc (thr d L) ↦[H.view.set]{fullShare} fo))

/-- The result so far and the sum buffer. -/
def outPart (k : ℕ) : sProp 𝕄 :=
  iprop((bigSep (Finset.univ : Finset (Fin 200)) fun n =>
        if 4 * k ≤ n.val then iprop((chunkV L n.val n.isLt).view.loc (thr d L) ↦[(chunkV L n.val n.isLt).view.set]{fullShare} A.out0 d)
        else if n.val + 2 < 4 * k then iprop((chunkV L n.val n.isLt).view.loc (thr d L) ↦[(chunkV L n.val n.isLt).view.set]{fullShare} outFin A d)
        else iprop(emp))
    ∗ (if hk : 1 ≤ k ∧ k ≤ 50 then
        iprop((∃ fo, flightO A d L 14 (hlf0 obV) (4 * k - 2) (by have := hk.1; have := hk.2; omega) fo) ∗ (∃ fo, flightO A d L 15 (hlf1 obV) (4 * k - 1) (by have := hk.1; have := hk.2; omega) fo)
          ∗ (∃ f, (obV).view.loc (thr d L) ↦[(Finset.univ \ (hlf0 obV).view.set) \ (hlf1 obV).view.set]{fullShare} f))
      else iprop((∃ f, (obV).view.loc (thr d L) ↦{fullShare} f) ∗ semVal (cellOf d L 14) 0 ∗ semVal (cellOf d L 15) 0)))

variable (q1 q2 r1 r2 qi : PosShare TreeShare)

/-- What the tile holds between trips `k - 1` and `k`. -/
def inv (O : CellTallies nD τ sig (HIx 1)) (W : Waits sig (HIx 1)) (k : ℕ) (_ : PUnit) : sProp 𝕄 :=
  iprop(Transfers.MayWaits (thr d L) (default : HIx 1) O
    ∗ gatherPart A d L q1 q2 r1 r2 k ∗ idsPart A d L qi k ∗ outPart A d L k
    ∗ ∃ W', ⌜∀ p ∈ W', p ∈ W ∨ p.2 = none⌝ ∗ owes (thr d L) O W')

end Cert.Kernel.Run.Sc

end
-- ==== Proof.ScFactsBits.lean ====
/-
  Pure facts the tile's trip needs.

  THE VALUE OF A CHUNK. A chunk is 128 consecutive rows of the result, from row `r0` on. The two gathers that serve it
  read rows of the transformed element table and of the transformed property table by two lists of 128 words, which
  hold the flat element ids and property ids of rows `r0 … r0 + 127`; the sum of the two gathered 128 × 128 blocks,
  lane by lane, is the result's rows `r0 … r0 + 127`.
-/
import proofs.«204385_g66649302499670_cont_9to1c4b_43_34_alg».proof.Proof.ScPrologBits
import proofs.«204385_g66649302499670_cont_9to1c4b_43_34_alg».proof.Proof.ScIfaceBits
import Idealize.ShloMosaic.Lib.Pipeline.Value

noncomputable section

namespace Cert.Kernel.Run.Sc

open Cert.Kernel Cert.Kernel.Gen Cert.Kernel.Run

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## A gather along the leading axis, at an index -/

/-- Entry `k` of a rank-one list's rows is the list's word at `k`. -/
theorem rows_val (le : S128.Idx → Elt F .i32) {z : ℕ} (h : ∀ x, (le x).toNat < z) (k : Fin 128) :
    (SparseCore.rows (si := S128) le rfl h k).val = (le (ix1 k)).toNat := by
  unfold SparseCore.rows
  show (le _).toNat = (le (ix1 k)).toNat
  refine congrArg (fun x => (le x).toNat) ?_
  funext a; apply Fin.ext
  match a with
  | ⟨0, _⟩ =>
    have h1 := Shape.rowMajor_val_one (S128.rowMajor.symm (k.cast (rfl : 128 = S128.numel)))
    rw [Equiv.apply_symm_apply] at h1
    exact h1.symm

/-- A gather of rows of a two-axis table along its leading axis reads, at (x, j), the table at (row x, j). -/
theorem gather2_apply {z : ℕ} {e : EltTy} (hg : (⟨2, ![z, 128]⟩ : Shape).Gathers 0 S128x128) (g : (⟨2, ![z, 128]⟩ : Shape).Idx → Elt F e)
    (r : Fin 128 → Fin z) (y : S128x128.Idx) :
    SparseCore.gatherPayload hg g r y = g (ix2 (r (y 0)) (y 1)) := by
  unfold SparseCore.gatherPayload
  refine congrArg g ?_
  funext b; apply Fin.ext
  match b with
  | ⟨0, _⟩ => exact congrArg Fin.val (hg.idx_axis r y)
  | ⟨1, _⟩ => exact hg.idx_of_ne r y 1 (Nat.succ_ne_zero 0)

/-! ## The value of a chunk -/

variable [FloatOps F]

/-- THE CHUNK'S VALUE: with the two lists holding the flat ids of rows `r0 + x` and naming rows of the tables, the lanewise
    sum of the two gathered blocks is the result's rows from `r0` on. -/
theorem gather_sum_eq_outVal (te : Vec F S100000x128 .f32) (tp : Vec F S1000x128 .f32) (eid pid : Vec F S819200 .i32)
    (hgE : S100000x128.Gathers 0 S128x128) (hgP : S1000x128.Gathers 0 S128x128)
    (r0 : ℕ) (hr0 : r0 + 128 ≤ 819200) (le lp : S128.Idx → Elt F .i32)
    (hle : ∀ x : Fin 128, le (ix1 x) = eid (ix1 (⟨r0 + x.val, by omega⟩ : Fin 819200)))
    (hlp : ∀ x : Fin 128, lp (ix1 x) = pid (ix1 (⟨r0 + x.val, by omega⟩ : Fin 819200)))
    (hinE : ∀ x, (le x).toNat < S100000x128.size hgE.axis) (hinP : ∀ x, (lp x).toNat < S1000x128.size hgP.axis)
    (y : S128x128.Idx) :
    FloatOps.addf (φ := .f32) (SparseCore.gatherPayload hgE te (SparseCore.rows le rfl hinE) y)
        (SparseCore.gatherPayload hgP tp (SparseCore.rows lp rfl hinP) y)
      = outVal te tp eid pid (ix2 (⟨r0 + (y 0).val, by have := idx2_lt0 y; omega⟩ : Fin 819200) (y 1)) := by
  have hy : (y 0).val < 128 := idx2_lt0 y
  have e1 := gather2_apply (z := 100000) hgE te (SparseCore.rows le rfl hinE) y
  have e2 := gather2_apply (z := 1000) hgP tp (SparseCore.rows lp rfl hinP) y
  refine (congrArg₂ (FloatOps.addf (φ := .f32)) e1 e2).trans ?_
  unfold outVal
  have hE : (SparseCore.rows le rfl hinE (y 0) : Fin 100000) = rowOf 100000 (by decide) (eid (ix1 (⟨r0 + (y 0).val, by omega⟩ : Fin 819200))) := by
    apply Fin.ext
    have hlt := hinE (ix1 (y 0)); rw [hle (y 0)] at hlt
    refine (rows_val le hinE (y 0)).trans ?_
    rw [hle (y 0)]
    exact (Nat.mod_eq_of_lt hlt).symm
  have hP : (SparseCore.rows lp rfl hinP (y 0) : Fin 1000) = rowOf 1000 (by decide) (pid (ix1 (⟨r0 + (y 0).val, by omega⟩ : Fin 819200))) := by
    apply Fin.ext
    have hlt := hinP (ix1 (y 0)); rw [hlp (y 0)] at hlt
    refine (rows_val lp hinP (y 0)).trans ?_
    rw [hlp (y 0)]
    exact (Nat.mod_eq_of_lt hlt).symm
  refine congrArg₂ (FloatOps.addf (φ := .f32)) (congrArg te ?_) (congrArg tp ?_)
  · funext a
    match a with
    | ⟨0, _⟩ => exact hE
    | ⟨1, _⟩ => rfl
  · funext a
    match a with
    | ⟨0, _⟩ => exact hP
    | ⟨1, _⟩ => rfl

/-! ## A chunk of the result, and what its copy-out delivers -/

local notation "𝕄" => MM F

local notation "teV" => (Memref.whole Cert.Kernel.main_v3_0_scv : Memref Cert.Kernel.sig Kind.scVector Space.hbm Cert.Kernel.S100000x128 EltTy.f32)
local notation "outV" => (Memref.whole Cert.Kernel.main_v4_scv : Memref Cert.Kernel.sig Kind.scVector Space.hbm Cert.Kernel.S819200x128 EltTy.f32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable (A : Vals F) (d : Dev nD) (L : grid1.Coords)

/-- The first row of the worker's slab. -/
def base0 : ℕ := 51200 * (L 1).val + 25600 * (L 0).val

omit [FloatOps F] in
theorem base0_le : base0 L + 25600 ≤ 819200 := by
  have h0 : (L 0).val < 2 := (L 0).isLt
  have h1 : (L 1).val < 16 := (L 1).isLt
  unfold base0; omega

/-- Chunk `n` of the worker's slab: rows [base + 128 n, base + 128 (n + 1)) of the result, every lane. -/
def chkOff (n : ℕ) : Fin 2 → ℕ := ![51200 * (L 1).val + 25600 * (L 0).val + 128 * n, 0]
omit [FloatOps F] in
theorem chkInb (n : ℕ) (hn : n < 200) : ∀ a, chkOff L n a + S128x128.size a ≤ S819200x128.size a := by
  have h0 : (L 0).val < 2 := (L 0).isLt
  have h1 : (L 1).val < 16 := (L 1).isLt
  intro a; match a with
  | 0 => show 51200 * (L 1).val + 25600 * (L 0).val + 128 * n + 128 ≤ 819200; omega
  | 1 => show 0 + 128 ≤ 128; omega
abbrev chkV (n : ℕ) (hn : n < 200) : Memref sig .scVector .hbm S128x128 .f32 :=
  (outV).slice (Rect.unit (s := S819200x128) (chkOff L n) S128x128.size (chkInb L n hn)) (fun _ => rfl)

/-- The tables as the gathers' sources read them: whole. -/
theorem teSrc_read : (teSrc).view.read (Elt F) (A.te d) = A.te d := by
  funext y
  show A.te d _ = A.te d y
  refine congrArg (A.te d) ?_
  funext a; apply Fin.ext
  match a with
  | ⟨0, _⟩ => show 0 + 1 * (y 0).val = (y 0).val; omega
  | ⟨1, _⟩ => show 0 + 1 * (y 1).val = (y 1).val; omega

theorem shSrc_read : (shSrc).view.read (Elt F) (shVal A d (cV L)) = A.tp d := by
  funext y
  show A.tp d _ = A.tp d y
  refine congrArg (A.tp d) ?_
  funext a; apply Fin.ext
  match a with
  | ⟨0, _⟩ => show 0 + 1 * (y 0).val = (y 0).val; omega
  | ⟨1, _⟩ => show 0 + 1 * (y 1).val = (y 1).val; omega

/-- WHAT THE COPY-OUT OF CHUNK `n` DELIVERS: if the two gathered blocks `He`, `Hp` were gathered by lists holding the
    flat ids of the chunk's rows, the chunk written with their lanewise sum holds the result on the chunk's elements. -/
theorem chunk_written (n : ℕ) (hn : n < 200) (He Hp : S128x128.Idx → Elt F .f32) (le lp : S128.Idx → Elt F .i32)
    (hinE : ∀ x, (le x).toNat < S100000x128.size gathers_S100000x128_S128x128.axis)
    (hinP : ∀ x, (lp x).toNat < S1000x128.size gathers_S1000x128_S128x128.axis)
    (hHe : He = SparseCore.gatherPayload gathers_S100000x128_S128x128 ((teSrc).view.read (Elt F) (A.te d)) (SparseCore.rows le rfl hinE))
    (hHp : Hp = SparseCore.gatherPayload gathers_S1000x128_S128x128 ((shSrc).view.read (Elt F) (shVal A d (cV L))) (SparseCore.rows lp rfl hinP))
    (hle : ∀ x : Fin 128, le (ix1 x) = A.eid d (ix1 (⟨base0 L + 128 * n + x.val, by have := base0_le L; omega⟩ : Fin 819200)))
    (hlp : ∀ x : Fin 128, lp (ix1 x) = A.pid d (ix1 (⟨base0 L + 128 * n + x.val, by have := base0_le L; omega⟩ : Fin 819200)))
    (f : Buf (Elt F) ((chkV L n hn).view.loc (thr d L))) :
    ∀ i ∈ (chkV L n hn).view.set,
      View.write (Elt F) (chkV L n hn).view f (ReadAs.same.apply fun y => FloatOps.addf (φ := .f32) (He y) (Hp y)) Finset.univ i = outFin A d i := by
  intro i hi
  obtain ⟨y, rfl⟩ := View.exists_emb_of_mem_set _ hi
  have hb := base0_le L
  have hy : (y 0).val < 128 := idx2_lt0 y
  rw [View.write_emb_of_mem _ _ (Finset.mem_univ y)]
  subst hHe hHp
  rw [teSrc_read, shSrc_read]
  refine (gather_sum_eq_outVal (A.te d) (A.tp d) (A.eid d) (A.pid d) gathers_S100000x128_S128x128 gathers_S1000x128_S128x128
    (base0 L + 128 * n) (by omega) le lp hle hlp hinE hinP y).trans ?_
  show outFin A d _ = outFin A d _
  refine congrArg (outFin A d) ?_
  funext a; apply Fin.ext
  match a with
  | ⟨0, _⟩ => show base0 L + 128 * n + (y 0).val = 51200 * (L 1).val + 25600 * (L 0).val + 128 * n + 1 * (y 0).val; unfold base0; omega
  | ⟨1, _⟩ => show (y 1).val = 0 + 1 * (y 1).val; omega

/-! ## The sum buffer's half after an add loop -/

/-- Half 0 of the sum buffer after the loop on half 0: the lanewise sum of the halves 0 of the two gathered buffers. -/
theorem read_addHalf0 (fe fp fo : S2x128x128.Idx → Elt F .f32) :
    (hlf0 obV).view.read (Elt F) (addHalf 0 fe fp fo)
      = fun y => FloatOps.addf (φ := .f32) ((hlf0 ebV).view.read (Elt F) fe y) ((hlf0 pbV).view.read (Elt F) fp y) := by
  funext y
  show addHalf 0 fe fp fo _ = _
  unfold addHalf
  have h : ((hlf0 obV).view.emb y 0).val = 0 := by
    show 0 + 1 * (Fin.val (_ : Fin 1)) = 0
    omega
  rw [if_pos h]
  rfl

/-- Half 1 after the loop on half 1. -/
theorem read_addHalf1 (fe fp fo : S2x128x128.Idx → Elt F .f32) :
    (hlf1 obV).view.read (Elt F) (addHalf 1 fe fp fo)
      = fun y => FloatOps.addf (φ := .f32) ((hlf1 ebV).view.read (Elt F) fe y) ((hlf1 pbV).view.read (Elt F) fp y) := by
  funext y
  show addHalf 1 fe fp fo _ = _
  unfold addHalf
  have h : ((hlf1 obV).view.emb y 0).val = 1 := by
    show 1 + 1 * (Fin.val (_ : Fin 1)) = 1
    omega
  rw [if_pos h]
  rfl

end Cert.Kernel.Run.Sc

end
-- ==== Proof.ScChunksBits.lean ====
/-
  The worker's slab of the result as its 200 chunks.

  Slab `w` is rows [25600 w, 25600 (w + 1)); chunk `n` of worker `w = 2·tile + core` is rows
  [25600 w + 128 n, 25600 w + 128 (n + 1)), every lane. The chunks are pairwise disjoint and their union is the slab, so
  holding the slab at some contents is holding each chunk at those contents.
-/
import proofs.«204385_g66649302499670_cont_9to1c4b_43_34_alg».proof.Proof.ScFactsBits
import proofs.«204385_g66649302499670_cont_9to1c4b_43_34_alg».proof.Proof.CallSplitBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable (L : grid1.Coords)

/-- The worker's first row is its slab's. -/
theorem base0_eq : base0 L = 25600 * (widL L).val := by
  show 51200 * (L 1).val + 25600 * (L 0).val = 25600 * (2 * (L 1).val + (L 0).val)
  omega

/-- A chunk's elements: the rows of the chunk, every lane. -/
theorem mem_chk (n : ℕ) (hn : n < 200) (i : S819200x128.Idx) :
    i ∈ (chkV L n hn).view.set ↔ base0 L + 128 * n ≤ (i 0).val ∧ (i 0).val < base0 L + 128 * n + 128 := by
  have hi1 : (i 1).val < 128 := idx2_lt1 i
  show i ∈ ((View.whole (main_v4_scv : Ref sig .scVector)).slice (Rect.unit (s := S819200x128) (chkOff L n) S128x128.size (chkInb L n hn))).set ↔ _
  rw [View.set_slice_whole, Rect.mem_set_unit]
  constructor
  · intro h
    have h0 : chkOff L n 0 ≤ (i 0).val ∧ (i 0).val < chkOff L n 0 + S128x128.size 0 := h 0
    exact h0
  · intro h a
    match a with
    | ⟨0, _⟩ => exact h
    | ⟨1, _⟩ => exact ⟨Nat.zero_le _, by show (i 1).val < 0 + 128; omega⟩

/-- The slab's elements: its rows, every lane. -/
theorem mem_slab (w : Fin 32) (i : S819200x128.Idx) :
    i ∈ slabSet w ↔ 25600 * w.val ≤ (i 0).val ∧ (i 0).val < 25600 * w.val + 25600 := by
  have hi1 : (i 1).val < 128 := idx2_lt1 i
  rw [slabSet_eq]
  show i ∈ (Rect.part (s := S819200x128) (a₀ := 0) hdiv32 w).set ↔ _
  unfold Rect.part
  rw [Rect.mem_set_unit]
  constructor
  · intro h
    have h0 := h 0
    simp only [Shape.partIx, Shape.partSize, if_true] at h0
    have e : S819200x128.size 0 / 32 = 25600 := rfl
    rw [e] at h0
    omega
  · intro h a
    match a with
    | ⟨0, _⟩ =>
      simp only [Shape.partIx, Shape.partSize]
      show w.val * (819200 / 32) ≤ (i 0).val ∧ (i 0).val < w.val * (819200 / 32) + 819200 / 32
      omega
    | ⟨1, _⟩ =>
      simp only [Shape.partIx, Shape.partSize]
      show 0 * 128 ≤ (i 1).val ∧ (i 1).val < 0 * 128 + 128
      omega

/-- Different chunks share no element. -/
theorem chk_disjoint : ∀ n ∈ (Finset.univ : Finset (Fin 200)), ∀ n' ∈ (Finset.univ : Finset (Fin 200)), n ≠ n' →
    Disjoint (chkV L n.val n.isLt).view.set (chkV L n'.val n'.isLt).view.set := by
  intro n _ n' _ hne
  rw [Finset.disjoint_left]
  intro i hi hi'
  rw [mem_chk] at hi hi'
  have : n.val ≠ n'.val := fun e => hne (Fin.ext e)
  omega

/-- The chunks make up the slab. -/
theorem chk_cover : (Finset.univ : Finset (Fin 200)).biUnion (fun n => (chkV L n.val n.isLt).view.set) = slabSet (widL L) := by
  ext i
  rw [mem_slab, ← base0_eq, Finset.mem_biUnion]
  constructor
  · rintro ⟨n, -, hn⟩
    have h := (mem_chk L n.val n.isLt i).mp hn
    have := n.isLt
    omega
  · intro h
    have hq : ((i 0).val - base0 L) / 128 < 200 := by omega
    refine ⟨⟨((i 0).val - base0 L) / 128, hq⟩, Finset.mem_univ _, (mem_chk L _ hq i).mpr ?_⟩
    omega

variable (d : Dev nD)

/-- THE SLAB AS ITS CHUNKS: holding the worker's slab at contents `f` is holding each of its 200 chunks at `f`. -/
theorem slab_chunks (f : Buf (Elt F) (outLoc d)) :
    (slabPts d (widL L) f : sProp 𝕄)
      = bigSep (Finset.univ : Finset (Fin 200)) fun n =>
          ((chkV L n.val n.isLt).view.loc (thr d L) ↦[(chkV L n.val n.isLt).view.set]{fullShare} f : sProp 𝕄) := by
  unfold slabPts
  rw [← chk_cover L]
  exact pointsTo_biUnion Finset.univ (ℓ := outLoc d) (fun n : Fin 200 => (chkV L n.val n.isLt).view.set) (chk_disjoint L)

end Cert.Kernel.Run.Sc

end
-- ==== Proof.ScOutBookBits.lean ====
/-
  The result's 200 chunks through the tile's loop: which hold the launch contents, which the looked-up sums, and which
  are lent to a copy-out in flight, before trip k; taking the chunks a trip touches out of the family and putting them
  back.
-/
import proofs.«204385_g66649302499670_cont_9to1c4b_43_34_alg».proof.Proof.ScTripBits
import proofs.«204385_g66649302499670_cont_9to1c4b_43_34_alg».proof.Proof.ScChunksBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

/-! ## A stretch of consecutive indices taken out of a family over the 200 chunks -/

section Split

variable {M : Type} [URA M]

/-- Index `a + j` for `j < m`. -/
def shiftEmb (a m : ℕ) (h : a + m ≤ 200) : Fin m ↪ Fin 200 :=
  ⟨fun j => ⟨a + j.val, by have := j.isLt; omega⟩, fun i j e => Fin.ext (by have := congrArg Fin.val e; simp only at this; omega)⟩

/-- The family is the part off the stretch [a, a + m) and the stretch, index by index. -/
theorem split_range (Φ : Fin 200 → sProp M) (a m : ℕ) (h : a + m ≤ 200) :
    bigSep Finset.univ Φ = iprop(bigSep (Finset.univ.filter fun n : Fin 200 => n.val < a ∨ a + m ≤ n.val) Φ
      ∗ bigSep (Finset.univ : Finset (Fin m)) fun j => Φ (shiftEmb a m h j)) := by
  rw [bigSep_filter_split Finset.univ (fun n : Fin 200 => n.val < a ∨ a + m ≤ n.val)]
  have e : (Finset.univ.filter fun n : Fin 200 => ¬ (n.val < a ∨ a + m ≤ n.val)) = Finset.univ.map (shiftEmb a m h) := by
    ext n
    simp only [Finset.mem_filter, Finset.mem_univ, true_and, Finset.mem_map]
    constructor
    · intro hn
      exact ⟨⟨n.val - a, by omega⟩, Fin.ext (by show a + (n.val - a) = n.val; omega)⟩
    · rintro ⟨j, rfl⟩
      have := j.isLt
      show ¬ (a + j.val < a ∨ a + m ≤ a + j.val)
      omega
  rw [e, BI.bigSep_map]
  rfl

/-- Four in a row. -/
theorem bigSep_fin4 (Ψ : Fin 4 → sProp M) : bigSep Finset.univ Ψ = iprop(Ψ 0 ∗ Ψ 1 ∗ Ψ 2 ∗ Ψ 3) :=
  bigSep_univ_eq_bigSepL [(0 : Fin 4), 1, 2, 3] (by decide) (by decide) Ψ
/-- Two in a row. -/
theorem bigSep_fin2 (Ψ : Fin 2 → sProp M) : bigSep Finset.univ Ψ = iprop(Ψ 0 ∗ Ψ 1) :=
  bigSep_univ_eq_bigSepL [(0 : Fin 2), 1] (by decide) (by decide) Ψ
/-- Six in a row. -/
theorem bigSep_fin6 (Ψ : Fin 6 → sProp M) : bigSep Finset.univ Ψ = iprop(Ψ 0 ∗ Ψ 1 ∗ Ψ 2 ∗ Ψ 3 ∗ Ψ 4 ∗ Ψ 5) :=
  bigSep_univ_eq_bigSepL [(0 : Fin 6), 1, 2, 3, 4, 5] (by decide) (by decide) Ψ

end Split

/-! ## The chunks before trip k -/

variable [FloatOps F] (A : Vals F) (d : Dev nD) (L : grid1.Coords)

/-- Chunk `n` held at contents `f`. -/
def chunkPt (n : ℕ) (hn : n < 200) (f : Buf (Elt F) (outLoc d)) : sProp 𝕄 :=
  (chunkV L n hn).view.loc (thr d L) ↦[(chunkV L n hn).view.set]{fullShare} f

omit [FloatOps F] in
theorem chunkPt_eq (n : ℕ) (hn : n < 200) (f : Buf (Elt F) (outLoc d)) :
    chunkPt d L n hn f = ((chunkV L n hn).view.loc (thr d L) ↦[(chunkV L n hn).view.set]{fullShare} f) := rfl

omit [FloatOps F] in
theorem chunkPt_congr {n n' : ℕ} (e : n = n') (hn : n < 200) (hn' : n' < 200) (f : Buf (Elt F) (outLoc d)) :
    chunkPt d L n hn f = chunkPt d L n' hn' f := by subst e; rfl

/-- What is held of chunk `n` before trip `k`: from 4k on the launch contents; below 4k - 2 the looked-up sums; the two
    between are lent to the copy-outs in flight. -/
def chunkAt (k : ℕ) (n : Fin 200) : sProp 𝕄 :=
  if 4 * k ≤ n.val then iprop((chunkV L n.val n.isLt).view.loc (thr d L) ↦[(chunkV L n.val n.isLt).view.set]{fullShare} A.out0 d)
  else if n.val + 2 < 4 * k then iprop((chunkV L n.val n.isLt).view.loc (thr d L) ↦[(chunkV L n.val n.isLt).view.set]{fullShare} outFin A d)
  else iprop(emp)

theorem chunkAt_hi (k : ℕ) (n : Fin 200) (h : 4 * k ≤ n.val) : chunkAt A d L k n = chunkPt d L n.val n.isLt (A.out0 d) := by
  unfold chunkAt chunkPt; rw [if_pos h]
theorem chunkAt_lo (k : ℕ) (n : Fin 200) (h : n.val + 2 < 4 * k) : chunkAt A d L k n = chunkPt d L n.val n.isLt (outFin A d) := by
  unfold chunkAt chunkPt; rw [if_neg (by omega), if_pos h]
theorem chunkAt_mid (k : ℕ) (n : Fin 200) (h1 : n.val < 4 * k) (h2 : 4 * k ≤ n.val + 2) : chunkAt A d L k n = iprop(emp) := by
  unfold chunkAt; rw [if_neg (by omega), if_neg (by omega)]

/-- The chunks a trip does not touch: those below 4k - 2 and those from 4k + 4 on. -/
def rest200 (k : ℕ) : sProp 𝕄 :=
  bigSep (Finset.univ.filter fun n : Fin 200 => n.val + 2 < 4 * k ∨ 4 * k + 4 ≤ n.val) (chunkAt A d L k)

/-- They are held the same way before the next trip. -/
theorem rest200_succ (k : ℕ) :
    rest200 A d L k = bigSep (Finset.univ.filter fun n : Fin 200 => n.val + 2 < 4 * k ∨ 4 * k + 4 ≤ n.val) (chunkAt A d L (k + 1)) := by
  unfold rest200
  refine bigSep_congr fun n hn => ?_
  rcases (Finset.mem_filter.mp hn).2 with h | h
  · rw [chunkAt_lo A d L k n h, chunkAt_lo A d L (k + 1) n (by omega)]
  · rw [chunkAt_hi A d L k n (by omega), chunkAt_hi A d L (k + 1) n (by omega)]

/-- OPENING, a trip past the first: the four chunks the trip fills come out at the launch contents (the two before them
    are in flight: nothing is held of them). -/
theorem chunks_open (k : ℕ) (hk1 : 1 ≤ k) (hc0 : 4 * k < 200) (hc1 : 4 * k + 1 < 200) (hc2 : 4 * k + 2 < 200) (hc3 : 4 * k + 3 < 200) :
    bigSep Finset.univ (chunkAt A d L k) = iprop(rest200 A d L k ∗ chunkPt d L (4 * k) hc0 (A.out0 d) ∗ chunkPt d L (4 * k + 1) hc1 (A.out0 d)
      ∗ chunkPt d L (4 * k + 2) hc2 (A.out0 d) ∗ chunkPt d L (4 * k + 3) hc3 (A.out0 d)) := by
  rw [split_range (chunkAt A d L k) (4 * k - 2) 6 (by omega), bigSep_fin6]
  have hset : (Finset.univ.filter fun n : Fin 200 => n.val < 4 * k - 2 ∨ 4 * k - 2 + 6 ≤ n.val)
      = Finset.univ.filter fun n : Fin 200 => n.val + 2 < 4 * k ∨ 4 * k + 4 ≤ n.val :=
    Finset.filter_congr fun n _ => by omega
  rw [hset]
  rw [chunkAt_mid A d L k (shiftEmb (4 * k - 2) 6 (by omega) 0) (by show 4 * k - 2 + 0 < 4 * k; omega) (by show 4 * k ≤ 4 * k - 2 + 0 + 2; omega),
    chunkAt_mid A d L k (shiftEmb (4 * k - 2) 6 (by omega) 1) (by show 4 * k - 2 + 1 < 4 * k; omega) (by show 4 * k ≤ 4 * k - 2 + 1 + 2; omega),
    chunkAt_hi A d L k (shiftEmb (4 * k - 2) 6 (by omega) 2) (by show 4 * k ≤ 4 * k - 2 + 2; omega),
    chunkAt_hi A d L k (shiftEmb (4 * k - 2) 6 (by omega) 3) (by show 4 * k ≤ 4 * k - 2 + 3; omega),
    chunkAt_hi A d L k (shiftEmb (4 * k - 2) 6 (by omega) 4) (by show 4 * k ≤ 4 * k - 2 + 4; omega),
    chunkAt_hi A d L k (shiftEmb (4 * k - 2) 6 (by omega) 5) (by show 4 * k ≤ 4 * k - 2 + 5; omega)]
  rw [chunkPt_congr d L (show (shiftEmb (4 * k - 2) 6 (by omega) 2).val = 4 * k by show 4 * k - 2 + 2 = 4 * k; omega) _ hc0,
    chunkPt_congr d L (show (shiftEmb (4 * k - 2) 6 (by omega) 3).val = 4 * k + 1 by show 4 * k - 2 + 3 = 4 * k + 1; omega) _ hc1,
    chunkPt_congr d L (show (shiftEmb (4 * k - 2) 6 (by omega) 4).val = 4 * k + 2 by show 4 * k - 2 + 4 = 4 * k + 2; omega) _ hc2,
    chunkPt_congr d L (show (shiftEmb (4 * k - 2) 6 (by omega) 5).val = 4 * k + 3 by show 4 * k - 2 + 5 = 4 * k + 3; omega) _ hc3]
  have he : ∀ P : sProp 𝕄, (iprop(emp ∗ P) : sProp 𝕄) = P := fun P => BI.equiv_iff.mp emp_sep
  rw [he, he]
  rfl

/-- CLOSING, a trip past the first: with the two chunks its drains handed back and the two it has filled and drained
    holding the looked-up sums (the two it filled last are lent to its copy-outs), the family before the next trip. -/
theorem chunks_close (k : ℕ) (hk1 : 1 ≤ k) (hm2 : 4 * k - 2 < 200) (hm1 : 4 * k - 1 < 200) (hc0 : 4 * k < 200) (hc1 : 4 * k + 1 < 200) (hc3 : 4 * k + 3 < 200) :
    bigSep Finset.univ (chunkAt A d L (k + 1)) = iprop(rest200 A d L k ∗ chunkPt d L (4 * k - 2) hm2 (outFin A d) ∗ chunkPt d L (4 * k - 1) hm1 (outFin A d)
      ∗ chunkPt d L (4 * k) hc0 (outFin A d) ∗ chunkPt d L (4 * k + 1) hc1 (outFin A d)) := by
  rw [split_range (chunkAt A d L (k + 1)) (4 * k - 2) 6 (by omega), bigSep_fin6]
  have hset : (Finset.univ.filter fun n : Fin 200 => n.val < 4 * k - 2 ∨ 4 * k - 2 + 6 ≤ n.val)
      = Finset.univ.filter fun n : Fin 200 => n.val + 2 < 4 * k ∨ 4 * k + 4 ≤ n.val :=
    Finset.filter_congr fun n _ => by omega
  rw [hset, ← rest200_succ]
  rw [chunkAt_lo A d L (k + 1) (shiftEmb (4 * k - 2) 6 (by omega) 0) (by show 4 * k - 2 + 0 + 2 < 4 * (k + 1); omega),
    chunkAt_lo A d L (k + 1) (shiftEmb (4 * k - 2) 6 (by omega) 1) (by show 4 * k - 2 + 1 + 2 < 4 * (k + 1); omega),
    chunkAt_lo A d L (k + 1) (shiftEmb (4 * k - 2) 6 (by omega) 2) (by show 4 * k - 2 + 2 + 2 < 4 * (k + 1); omega),
    chunkAt_lo A d L (k + 1) (shiftEmb (4 * k - 2) 6 (by omega) 3) (by show 4 * k - 2 + 3 + 2 < 4 * (k + 1); omega),
    chunkAt_mid A d L (k + 1) (shiftEmb (4 * k - 2) 6 (by omega) 4) (by show 4 * k - 2 + 4 < 4 * (k + 1); omega) (by show 4 * (k + 1) ≤ 4 * k - 2 + 4 + 2; omega),
    chunkAt_mid A d L (k + 1) (shiftEmb (4 * k - 2) 6 (by omega) 5) (by show 4 * k - 2 + 5 < 4 * (k + 1); omega) (by show 4 * (k + 1) ≤ 4 * k - 2 + 5 + 2; omega)]
  rw [chunkPt_congr d L (show (shiftEmb (4 * k - 2) 6 (by omega) 0).val = 4 * k - 2 by show 4 * k - 2 + 0 = 4 * k - 2; omega) _ hm2,
    chunkPt_congr d L (show (shiftEmb (4 * k - 2) 6 (by omega) 1).val = 4 * k - 1 by show 4 * k - 2 + 1 = 4 * k - 1; omega) _ hm1,
    chunkPt_congr d L (show (shiftEmb (4 * k - 2) 6 (by omega) 2).val = 4 * k by show 4 * k - 2 + 2 = 4 * k; omega) _ hc0,
    chunkPt_congr d L (show (shiftEmb (4 * k - 2) 6 (by omega) 3).val = 4 * k + 1 by show 4 * k - 2 + 3 = 4 * k + 1; omega) _ hc1]
  have he : ∀ P : sProp 𝕄, (iprop(P ∗ emp) : sProp 𝕄) = P := fun P => BI.equiv_iff.mp sep_emp
  rw [he, he]

/-- OPENING, the first trip: the first four chunks at the launch contents; nothing is in flight yet. -/
theorem chunks_open0 :
    bigSep Finset.univ (chunkAt A d L 0) = iprop(rest200 A d L 0 ∗ chunkPt d L 0 (by decide) (A.out0 d) ∗ chunkPt d L 1 (by decide) (A.out0 d)
      ∗ chunkPt d L 2 (by decide) (A.out0 d) ∗ chunkPt d L 3 (by decide) (A.out0 d)) := by
  rw [split_range (chunkAt A d L 0) 0 4 (by decide), bigSep_fin4]
  have hset : (Finset.univ.filter fun n : Fin 200 => n.val < 0 ∨ 0 + 4 ≤ n.val)
      = Finset.univ.filter fun n : Fin 200 => n.val + 2 < 4 * 0 ∨ 4 * 0 + 4 ≤ n.val :=
    Finset.filter_congr fun n _ => by omega
  rw [hset]
  rw [chunkAt_hi A d L 0 (shiftEmb 0 4 (by decide) 0) (Nat.zero_le _), chunkAt_hi A d L 0 (shiftEmb 0 4 (by decide) 1) (Nat.zero_le _),
    chunkAt_hi A d L 0 (shiftEmb 0 4 (by decide) 2) (Nat.zero_le _), chunkAt_hi A d L 0 (shiftEmb 0 4 (by decide) 3) (Nat.zero_le _)]
  rfl

/-- CLOSING, the first trip: the first two chunks hold the looked-up sums, the next two are lent to the copy-outs. -/
theorem chunks_close0 :
    bigSep Finset.univ (chunkAt A d L 1) = iprop(rest200 A d L 0 ∗ chunkPt d L 0 (by decide) (outFin A d) ∗ chunkPt d L 1 (by decide) (outFin A d)) := by
  rw [split_range (chunkAt A d L 1) 0 4 (by decide), bigSep_fin4]
  have hset : (Finset.univ.filter fun n : Fin 200 => n.val < 0 ∨ 0 + 4 ≤ n.val)
      = Finset.univ.filter fun n : Fin 200 => n.val + 2 < 4 * 0 ∨ 4 * 0 + 4 ≤ n.val :=
    Finset.filter_congr fun n _ => by omega
  rw [hset, ← rest200_succ]
  rw [chunkAt_lo A d L 1 (shiftEmb 0 4 (by decide) 0) (by decide), chunkAt_lo A d L 1 (shiftEmb 0 4 (by decide) 1) (by decide),
    chunkAt_mid A d L 1 (shiftEmb 0 4 (by decide) 2) (by decide) (by decide), chunkAt_mid A d L 1 (shiftEmb 0 4 (by decide) 3) (by decide) (by decide)]
  have he : ∀ P : sProp 𝕄, (iprop(P ∗ emp) : sProp 𝕄) = P := fun P => BI.equiv_iff.mp sep_emp
  rw [he, he]
  rfl

/-! ## The slab at the loop's two ends -/

/-- `outPart`'s first factor is the family. -/
theorem outPart_chunks (k : ℕ) :
    outPart A d L k = iprop(bigSep Finset.univ (chunkAt A d L k)
      ∗ (if hk : 1 ≤ k ∧ k ≤ 50 then
          iprop((∃ fo, flightO A d L 14 (hlf0 obV) (4 * k - 2) (by have := hk.1; have := hk.2; omega) fo) ∗ (∃ fo, flightO A d L 15 (hlf1 obV) (4 * k - 1) (by have := hk.1; have := hk.2; omega) fo)
            ∗ (∃ f, (obV).view.loc (thr d L) ↦[(Finset.univ \ (hlf0 obV).view.set) \ (hlf1 obV).view.set]{fullShare} f))
        else iprop((∃ f, (obV).view.loc (thr d L) ↦{fullShare} f) ∗ semVal (cellOf d L 14) 0 ∗ semVal (cellOf d L 15) 0))) := rfl

/-- ENTRY: the slab as launched is the family before trip 0. -/
theorem chunks_entry : (slabPts d (widL L) (A.out0 d) : sProp 𝕄) = bigSep Finset.univ (chunkAt A d L 0) := by
  rw [slab_chunks L d (A.out0 d)]
  refine bigSep_congr fun n _ => ?_
  rw [chunkAt_hi A d L 0 n (Nat.zero_le _)]
  rfl

/-- EXIT: the family after the last trip with its last two chunks handed back is the slab holding the looked-up sums. -/
theorem chunks_exit (h198 : 198 < 200) (h199 : 199 < 200) :
    iprop(bigSep Finset.univ (chunkAt A d L 50) ∗ chunkPt d L 198 h198 (outFin A d) ∗ chunkPt d L 199 h199 (outFin A d))
      = (slabPts d (widL L) (outFin A d) : sProp 𝕄) := by
  rw [slab_chunks L d (outFin A d), split_range (chunkAt A d L 50) 198 2 (by decide), bigSep_fin2,
    split_range (fun n : Fin 200 => ((chkV L n.val n.isLt).view.loc (thr d L) ↦[(chkV L n.val n.isLt).view.set]{fullShare} outFin A d : sProp 𝕄)) 198 2 (by decide), bigSep_fin2]
  rw [chunkAt_mid A d L 50 (shiftEmb 198 2 (by decide) 0) (by decide) (by decide), chunkAt_mid A d L 50 (shiftEmb 198 2 (by decide) 1) (by decide) (by decide)]
  have he : ∀ P : sProp 𝕄, (iprop(P ∗ emp) : sProp 𝕄) = P := fun P => BI.equiv_iff.mp sep_emp
  rw [he, he]
  have hst : bigSep (Finset.univ.filter fun n : Fin 200 => n.val < 198 ∨ 198 + 2 ≤ n.val) (chunkAt A d L 50)
      = bigSep (Finset.univ.filter fun n : Fin 200 => n.val < 198 ∨ 198 + 2 ≤ n.val)
          (fun n : Fin 200 => ((chkV L n.val n.isLt).view.loc (thr d L) ↦[(chkV L n.val n.isLt).view.set]{fullShare} outFin A d : sProp 𝕄)) := by
    refine bigSep_congr fun n hn => ?_
    have hlt := n.isLt
    rw [chunkAt_lo A d L 50 n (by rcases (Finset.mem_filter.mp hn).2 with h | h <;> omega)]
    rfl
  rw [hst]
  rfl

end Cert.Kernel.Run.Sc

end
-- ==== Proof.ScLoopBits.lean ====
/-
  The tile's loop as a whole: the prefetch of the second 512 ids, the 50 trips by the invariant (a trip's proof is a
  hypothesis here), the loop's entry and exit states, the first of the two final waits.
-/
import proofs.«204385_g66649302499670_cont_9to1c4b_43_34_alg».proof.Proof.ScTripBits
import proofs.«204385_g66649302499670_cont_9to1c4b_43_34_alg».proof.Proof.ScOutBookBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F] (A : Vals F)

section Part52
variable (d : Dev nD) (L : grid1.Coords) (q1 q2 r1 r2 qi : PosShare TreeShare)

omit [FloatOps F] in
theorem ids_slice_congr (M : Memref sig .scVector .hbm S819200 .i32) {off off' : Fin 1 → ℕ} (e : off = off')
    (h : ∀ a, off a + S512.size a ≤ S819200.size a) (h' : ∀ a, off' a + S512.size a ≤ S819200.size a) :
    M.slice (Rect.unit (s := S819200) off S512.size h) (fun _ => rfl) = M.slice (Rect.unit (s := S819200) off' S512.size h') (fun _ => rfl) := by
  subst e; rfl

omit [FloatOps F] in
theorem off2_eq : k1_off2 L = idsOff L 1 := by rw [k1_off2_eq]; unfold idsOff; rfl

/-- One trip of the loop keeps the invariant (proved in its own module; here as the hypothesis the loop rule takes, in the
    loop rule's own spelling of the trip). -/
def TripOK (O : CellTallies nD τ sig (HIx 1)) (W : Waits sig (HIx 1)) (v2 : BitVec 32) : Prop :=
  ∀ (k : Fin k1_t1_loop.trips) (acc : PUnit.{1}), inv A d L q1 q2 r1 r2 qi O W k.val acc
    ⊢ wp frame (wpE (defs₀ (F := F)) 𝒱₀ (thr d L) none) Set.univ (k1_t1_body (F := F) L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2 k acc)
        (inv A d L q1 q2 r1 r2 qi O W (k.val + 1))

/-- The same from the statement over a trip number below 50. -/
theorem TripOK.of_nat (O : CellTallies nD τ sig (HIx 1)) (W : Waits sig (HIx 1)) (v2 : BitVec 32)
    (h : ∀ (k : ℕ) (hk : k < 50), inv A d L q1 q2 r1 r2 qi O W k (PUnit.unit : PUnit.{1})
      ⊢ wp frame (wpE (defs₀ (F := F)) 𝒱₀ (thr d L) none) Set.univ (k1_t1_body (F := F) L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2 ⟨k, hk⟩ ())
          (fun _ => inv A d L q1 q2 r1 r2 qi O W (k + 1) (PUnit.unit : PUnit.{1}))) :
    TripOK A d L q1 q2 r1 r2 qi O W v2 := fun k acc => h k.val k.isLt

omit [FloatOps F] in
theorem trips_eq' : Scf.trips k1_t1_loop.lb k1_t1_loop.ub k1_t1_loop.st = 50 := rfl
omit [FloatOps F] in
theorem h1_50 : 1 < 50 := by omega
omit [FloatOps F] in
theorem h198 : 198 < 200 := by omega
omit [FloatOps F] in
theorem h199 : 199 < 200 := by omega
omit [FloatOps F] in
theorem hA50 : 4 * 50 - 2 < 200 := by omega
omit [FloatOps F] in
theorem hB50 : 4 * 50 - 1 < 200 := by omega

/-- The chunks of the result at trip `k`, apart from the two in flight (the first factor of `outPart`). -/
abbrev outChunks (k : ℕ) : sProp 𝕄 :=
  bigSep (Finset.univ : Finset (Fin 200)) fun n =>
    if 4 * k ≤ n.val then iprop((chunkV L n.val n.isLt).view.loc (thr d L) ↦[(chunkV L n.val n.isLt).view.set]{fullShare} A.out0 d)
    else if n.val + 2 < 4 * k then iprop((chunkV L n.val n.isLt).view.loc (thr d L) ↦[(chunkV L n.val n.isLt).view.set]{fullShare} outFin A d)
    else iprop(emp)

/-- The loop's entry: the prolog's flights, the prefetch batch just issued, nothing of the result written. -/
theorem inv_init (O : CellTallies nD τ sig (HIx 1)) (W : Waits sig (HIx 1))
    (e : Buf (Elt F) ((eixV).view.loc (thr d L))) (p : Buf (Elt F) ((pixV).view.loc (thr d L))) :
    iprop(Transfers.MayWaits (thr d L) (default : HIx 1) O ∗ gatherPart A d L q1 q2 r1 r2 0 ∗ outPart A d L 0
        ∗ idsBatch A d L (9 : DmaSem sig) (slot1 eixV) (slot1 pixV) qi (idsOff L 1) (idsInb L 1 h1_50) e p
            (idsPayAt d L eidV (A.eid d) (idsOff L 1) (idsInb L 1 h1_50)) (idsPayAt d L pidV (A.pid d) (idsOff L 1) (idsInb L 1 h1_50))
        ∗ idsRest A d L qi (idsOff L 1) (idsInb L 1 h1_50) ∗ semVal (cellOf d L 8) 0 ∗ owes (thr d L) O W)
      ⊢ inv A d L q1 q2 r1 r2 qi O W 0 (PUnit.unit : PUnit.{1}) := by
  unfold inv idsPart idsPart1
  rw [if_pos (show 0 % 2 = 0 from rfl), dif_pos (show 0 + 1 < 50 from h1_50)]
  iintro ⟨Hmw, HG, HOut, Hb, Hr, Hs8, HO⟩
  isplitl [Hmw]; · iexact Hmw
  isplitl [HG]; · iexact HG
  isplitl [Hb Hr Hs8]
  · iexists e, p
    isplitl [Hb]; · iexact Hb
    isplitl [Hr]; · iexact Hr
    iexact Hs8
  isplitl [HOut]; · iexact HOut
  iexists W; isplitr
  · ipureintro; exact fun p hp => .inl hp
  · iexact HO

omit [FloatOps F] in
theorem hAk (k : ℕ) (hk : 1 ≤ k ∧ k ≤ 50) : 4 * k - 2 < 200 := by have := hk.1; have := hk.2; omega
omit [FloatOps F] in
theorem hBk (k : ℕ) (hk : 1 ≤ k ∧ k ≤ 50) : 4 * k - 1 < 200 := by have := hk.1; have := hk.2; omega

/-- From the second trip on, the result's part of the invariant: the chunks, the two copy-outs in flight, the rest of the sum buffer. -/
theorem outPart_pos (k : ℕ) (hk : 1 ≤ k ∧ k ≤ 50) :
    outPart A d L k = iprop(bigSep (Finset.univ : Finset (Fin 200)) (chunkAt A d L k)
      ∗ ((∃ fo, flightO A d L 14 (hlf0 obV) (4 * k - 2) (hAk k hk) fo) ∗ (∃ fo, flightO A d L 15 (hlf1 obV) (4 * k - 1) (hBk k hk) fo)
        ∗ (∃ f, (obV).view.loc (thr d L) ↦[(Finset.univ \ (hlf0 obV).view.set) \ (hlf1 obV).view.set]{fullShare} f))) := by
  rw [outPart_chunks, dif_pos hk]

theorem flightO_congr (sm : DmaSem sig) (H : Memref sig .scVector .vmem S128x128 .f32) {n n' : ℕ} (e : n = n') (hn : n < 200) (hn' : n' < 200)
    (fo : Buf (Elt F) (H.view.loc (thr d L))) : flightO A d L sm H n hn fo = flightO A d L sm H n' hn' fo := by subst e; rfl

omit [FloatOps F] in
theorem hk50 : 1 ≤ 50 ∧ 50 ≤ 50 := ⟨by omega, by omega⟩

/-- The loop's exit: the last two copy-outs in flight, everything else back in hand. -/
theorem inv_exit (O : CellTallies nD τ sig (HIx 1)) (W : Waits sig (HIx 1)) :
    inv A d L q1 q2 r1 r2 qi O W 50 (PUnit.unit : PUnit.{1})
      ⊢ iprop(Transfers.MayWaits (thr d L) (default : HIx 1) O ∗ gatherPart A d L q1 q2 r1 r2 50 ∗ idsPart A d L qi 50
          ∗ (bigSep (Finset.univ : Finset (Fin 200)) (chunkAt A d L 50)
            ∗ ((∃ fo, flightO A d L 14 (hlf0 obV) (4 * 50 - 2) (hAk 50 hk50) fo) ∗ (∃ fo, flightO A d L 15 (hlf1 obV) (4 * 50 - 1) (hBk 50 hk50) fo)
              ∗ (∃ f, (obV).view.loc (thr d L) ↦[(Finset.univ \ (hlf0 obV).view.set) \ (hlf1 obV).view.set]{fullShare} f)))
          ∗ ∃ W', ⌜∀ p ∈ W', p ∈ W ∨ p.2 = none⌝ ∗ owes (thr d L) O W') := by
  unfold inv
  rw [outPart_pos A d L 50 hk50]

theorem inv_exit' (O : CellTallies nD τ sig (HIx 1)) (W : Waits sig (HIx 1)) (n : ℕ) (hn : n = 50) (acc : PUnit.{1}) :
    inv A d L q1 q2 r1 r2 qi O W n acc
      ⊢ iprop(Transfers.MayWaits (thr d L) (default : HIx 1) O ∗ gatherPart A d L q1 q2 r1 r2 50 ∗ idsPart A d L qi 50
          ∗ (bigSep (Finset.univ : Finset (Fin 200)) (chunkAt A d L 50)
            ∗ ((∃ fo, flightO A d L 14 (hlf0 obV) (4 * 50 - 2) (hAk 50 hk50) fo) ∗ (∃ fo, flightO A d L 15 (hlf1 obV) (4 * 50 - 1) (hBk 50 hk50) fo)
              ∗ (∃ f, (obV).view.loc (thr d L) ↦[(Finset.univ \ (hlf0 obV).view.set) \ (hlf1 obV).view.set]{fullShare} f)))
          ∗ ∃ W', ⌜∀ p ∈ W', p ∈ W ∨ p.2 = none⌝ ∗ owes (thr d L) O W') := by
  subst hn; exact inv_exit A d L q1 q2 r1 r2 qi O W

/-- What the wait at the loop's exit does not touch, the trip count kept a variable. -/
def exitRest (n : ℕ) (hn : 1 ≤ n ∧ n ≤ 50) : sProp 𝕄 :=
  iprop(gatherPart A d L q1 q2 r1 r2 n ∗ idsPart A d L qi n ∗ bigSep (Finset.univ : Finset (Fin 200)) (chunkAt A d L n)
    ∗ (∃ fo, flightO A d L 15 (hlf1 obV) (4 * n - 1) (hBk n hn) fo)
    ∗ (∃ f, (obV).view.loc (thr d L) ↦[(Finset.univ \ (hlf0 obV).view.set) \ (hlf1 obV).view.set]{fullShare} f))

/-- The invariant after the last trip, opened for the wait on the first copy-out cell. -/
theorem exit_open (O : CellTallies nD τ sig (HIx 1)) (W : Waits sig (HIx 1)) (n : ℕ) (hn : 1 ≤ n ∧ n ≤ 50) (acc : PUnit.{1}) :
    inv A d L q1 q2 r1 r2 qi O W n acc
      ⊢ iprop((∃ fo, flightO A d L 14 (hlf0 obV) (4 * n - 2) (hAk n hn) fo)
          ∗ (∃ W', ⌜∀ p ∈ W', p ∈ W ∨ p.2 = none⌝ ∗ owes (thr d L) O W')
          ∗ exitRest A d L q1 q2 r1 r2 qi n hn) := by
  unfold inv exitRest
  rw [outPart_pos A d L n hn]
  iintro ⟨-, HG, HI, ⟨HC, HF0, HF1, Hob⟩, HW⟩
  isplitl [HF0]; · iexact HF0
  isplitl [HW]; · iexact HW
  isplitl [HG]; · iexact HG
  isplitl [HI]; · iexact HI
  isplitl [HC]; · iexact HC
  isplitl [HF1]; · iexact HF1
  iexact Hob

/-- After the loop and the first final wait, the trip count kept a variable: chunk 4n-2 landed, its half of the sum buffer
    back, the cell at rest; everything else as the loop left it. -/
def after52K (O : CellTallies nD τ sig (HIx 1)) (W : Waits sig (HIx 1)) (n : ℕ) (hn : 1 ≤ n ∧ n ≤ 50) : sProp 𝕄 :=
  iprop(exitRest A d L q1 q2 r1 r2 qi n hn
    ∗ chunkPt d L (4 * n - 2) (hAk n hn) (outFin A d)
    ∗ (∃ fo, (hlf0 obV).view.loc (thr d L) ↦[(hlf0 obV).view.set]{fullShare} fo)
    ∗ semVal (cellOf d L 14) 0
    ∗ ∃ W', ⌜∀ p ∈ W', p ∈ W ∨ p.2 = none⌝ ∗ owes (thr d L) O W')

theorem after52K_cast (O : CellTallies nD τ sig (HIx 1)) (W : Waits sig (HIx 1)) (n : ℕ) (e : n = 50) (hn : 1 ≤ n ∧ n ≤ 50) :
    after52K A d L q1 q2 r1 r2 qi O W n hn ⊢ after52K A d L q1 q2 r1 r2 qi O W 50 hk50 := by
  subst e; exact BI.Entails.refl _

/-- The same with the trip count handed on as a variable known to be 50: what follows can keep it a variable. -/
def after52E (O : CellTallies nD τ sig (HIx 1)) (W : Waits sig (HIx 1)) : sProp 𝕄 :=
  iprop(∃ (n : ℕ) (hn : PLift (1 ≤ n ∧ n ≤ 50)), ⌜n = 50⌝ ∗ after52K A d L q1 q2 r1 r2 qi O W n hn.down)

set_option maxHeartbeats 300000 in
/-- The third part: the prefetch of the second 512 ids as one batch of two copies on isem[1], the loop by its invariant,
    the first of the two final waits. -/
theorem part52_run (O : CellTallies nD τ sig (HIx 1)) (W : Waits sig (HIx 1)) (v2 : BitVec 32)
    (htrip : TripOK A d L q1 q2 r1 r2 qi O W v2) :
    iprop(Transfers.MayWaits (thr d L) (default : HIx 1) O
        ∗ gatherPart A d L q1 q2 r1 r2 0 ∗ outPart A d L 0
        ∗ ((eidV).view.loc (thr d L) ↦{qi} A.eid d) ∗ ((pidV).view.loc (thr d L) ↦{qi} A.pid d)
        ∗ (∃ e, (slot1 eixV).view.loc (thr d L) ↦[(slot1 eixV).view.set]{fullShare} e)
        ∗ (∃ p, (slot1 pixV).view.loc (thr d L) ↦[(slot1 pixV).view.set]{fullShare} p)
        ∗ semVal (cellOf d L 8) 0 ∗ semVal (cellOf d L 9) 0
        ∗ owes (thr d L) O W)
      ⊢ wp frame (wpE (defs₀ (F := F)) 𝒱₀ (thr d L) none) Set.univ (k1_part52 (F := F) L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2 v2)
          fun _ => after52E A d L q1 q2 r1 r2 qi O W := by
  rw [k1_part52_eq_skeleton]; unfold k1_part52_skel
  iintro ⟨#Hmw, HG, HOut, Heid, Hpid, ⟨%e1, Heix1⟩, ⟨%p1, Hpix1⟩, Hs8, Hs9, HO⟩
  have hB : Transfers.BatchOf (thr d L) (SemLoc.dma (9 : DmaSem sig)) 2 := trivial
  sl_exec
  ihave Hb := (Entails.of_eq (idsBatch_congr A d L (9 : DmaSem sig) (slot1 eixV) (slot1 pixV) qi (off2_eq L) (k1_off2_inb L) (idsInb L 1 h1_50) e1 p1
      (part52_run.sl.dma0 A d L) (part52_run.sl.dma1 A d L))) $$ [Hs9]
  · iexact Hs9
  ihave Hr := (Entails.of_eq (idsRest_congr A d L qi (off2_eq L) (k1_off2_inb L) (idsInb L 1 h1_50))) $$ [Heid Hpid]
  · isplitl [Heid]; · iexact Heid
    iexact Hpid
  ihave HI0 := (inv_init A d L q1 q2 r1 r2 qi O W e1 p1) $$ [Hmw HG HOut Hb Hr Hs8 HO]
  · isplitr; · iexact Hmw
    isplitl [HG]; · iexact HG
    isplitl [HOut]; · iexact HOut
    isplitl [Hb]
    · rw [← idsPayAt_congr d L eidV (A.eid d) (off2_eq L) (k1_off2_inb L) (idsInb L 1 h1_50), ← idsPayAt_congr d L pidV (A.pid d) (off2_eq L) (k1_off2_inb L) (idsInb L 1 h1_50)]
      iexact Hb
    isplitl [Hr]; · iexact Hr
    isplitl [Hs8]; · iexact Hs8
    iexact HO
  sl_for (inv A d L q1 q2 r1 r2 qi O W) $$ [HI0]
  case region =>
    intro k acc
    exact htrip k acc
  · iexact HI0
  iintro %u HI
  generalize hnn : Scf.trips k1_t1_loop.lb k1_t1_loop.ub k1_t1_loop.st = n
  have hn50 : n = 50 := hnn.symm.trans trips_eq'
  have hnk : 1 ≤ n ∧ n ≤ 50 := by omega
  ihave HI' := (exit_open A d L q1 q2 r1 r2 qi O W n hnk u) $$ HI
  icases HI' with ⟨⟨%fo0, HF0⟩, ⟨%W', %hW', HO⟩, HR⟩
  sl_exec
  sl_step
  unfold after52E
  iexists n, ⟨hnk⟩
  isplitr; · ipureintro; exact hn50
  unfold after52K
  isplitl [HR]; · iexact HR
  isplitl [HF0_dst]; · rw [chunkPt_eq]; iexact HF0_dst
  isplitl [HF0_src]; · iexists fo0; iexact HF0_src
  isplitl [HF0]; · iexact HF0
  iexists _
  isplitr; swap; · iexact HO
  ipureintro
  intro p hp
  rcases Finset.mem_insert.mp hp with rfl | hp
  · exact Or.inr rfl
  · exact hW' p hp

end Part52

end Cert.Kernel.Run.Sc

end
-- ==== Proof.ScPrologFactsBits.lean ====
/-
  The id scratches as the tile's first part leaves them: slot 0 of each holds the 512 flat ids of the worker's first 512
  rows, so every quarter of it names rows of its table, and slot 0 reads as the id array's window at the worker's first row.
-/
import proofs.«204385_g66649302499670_cont_9to1c4b_43_34_alg».proof.Proof.ScPrologBits
import Idealize.ShloMosaic.Lib.ValueLayout

noncomputable section

namespace Cert.Kernel.Run.Sc

open Cert.Kernel Cert.Kernel.Gen Cert.Kernel.Run

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)

/-! ## A list or a slot matched with its unsqueezed shape -/

/-- Position `x` of a 128-list is (0, x) of the 1 × 128 window it was squeezed from. -/
theorem reshape_128 (h : S128.numel = S1x128.numel) (x : Fin 128) : Shape.reshapeEquiv h (ix1 x) = ix2 (⟨0, Nat.one_pos⟩ : Fin 1) x :=
  Shape.reshapeEquiv_eq_of_rowMajor h (by
    rw [Shape.rowMajor_val_two, Shape.rowMajor_val_one]
    show 0 * 128 + x.val = x.val
    omega)

/-- Position `x` of a 512-list is (0, x) of the 1 × 512 window it was squeezed from. -/
theorem reshape_512 (h : S512.numel = S1x512.numel) (x : Fin 512) : Shape.reshapeEquiv h (ix1 x) = ix2 (⟨0, Nat.one_pos⟩ : Fin 1) x :=
  Shape.reshapeEquiv_eq_of_rowMajor h (by
    rw [Shape.rowMajor_val_two, Shape.rowMajor_val_one]
    show 0 * 512 + x.val = x.val
    omega)

variable [FloatOps F] (A : Vals F) (d : Dev nD) (L : grid1.Coords)

/-! ### The element ids' scratch -/

/-- Quarter `c / 128` of slot 0 reads slot 0 from position `c` on. -/
theorem lstE_eq_slot0 (c : ℕ) (hc : c + 128 ≤ 512) (h : ∀ a, (![0, c] : Fin 2 → ℕ) a + S1x128.size a ≤ S2x512.size a)
    (e : Buf (Elt F) ((eixV).view.loc (thr d L))) (x : Fin 128) :
    (lst eixV ![0, c] h).view.read (Elt F) e (ix1 x) = (slot0 eixV).view.read (Elt F) e (ix1 (⟨c + x.val, by omega⟩ : Fin 512)) := by
  show e _ = e _
  refine congrArg e ?_
  funext a; apply Fin.ext
  match a with
  | ⟨0, _⟩ =>
    show 0 + 1 * (Fin.val (_ : Fin 1)) = 0 + 1 * (Fin.val (_ : Fin 1))
    omega
  | ⟨1, _⟩ =>
    show c + 1 * (Fin.val ((Shape.reshapeEquiv _ (ix1 x) : S1x128.Idx) 1)) = 0 + 1 * (Fin.val ((Shape.reshapeEquiv _ (ix1 (⟨c + x.val, by omega⟩ : Fin 512)) : S1x512.Idx) 1))
    rw [reshape_128, reshape_512]
    show c + 1 * x.val = 0 + 1 * (c + x.val)
    omega

/-- What the prolog's copy leaves in slot 0: the 512 ids it fetched. -/
theorem prolog_slot0E (f0 : Buf (Elt F) ((eixV).view.loc (thr d L))) :
    (slot0 eixV).view.read (Elt F) (View.write (Elt F) (slot0 eixV).view f0 (idsPay d L eidV (A.eid d) (k1_off1 L) (k1_off1_inb L)) Finset.univ)
      = idsPay d L eidV (A.eid d) (k1_off1 L) (k1_off1_inb L) :=
  View.read_write_univ _ _

/-- Every entry of a quarter of slot 0 after the prolog names a row of the table. -/
theorem prolog_inE (hIds : ∀ j : S819200.Idx, (A.eid d j).toNat < 100000) (c : ℕ) (hc : c + 128 ≤ 512)
    (h : ∀ a, (![0, c] : Fin 2 → ℕ) a + S1x128.size a ≤ S2x512.size a) (f0 : Buf (Elt F) ((eixV).view.loc (thr d L))) (x : S128.Idx) :
    ((lst eixV ![0, c] h).view.read (Elt F) (View.write (Elt F) (slot0 eixV).view f0 (idsPay d L eidV (A.eid d) (k1_off1 L) (k1_off1_inb L)) Finset.univ) x).toNat < 100000 := by
  obtain ⟨k, rfl⟩ : ∃ k : Fin 128, x = ix1 k := ⟨x 0, eq_ix1 x⟩
  rw [lstE_eq_slot0 d L c hc h, prolog_slot0E]
  exact hIds _

/-- Slot 0 after the prolog holds the ids of the worker's first 512 rows: the same read as through any window of the id
    array that starts at the worker's first row. -/
theorem prolog_slotE_eq (off : Fin 1 → ℕ) (hoff : off 0 = 51200 * (L 1).val + 25600 * (L 0).val) (h : ∀ a, off a + S512.size a ≤ S819200.size a)
    (f0 : Buf (Elt F) ((eixV).view.loc (thr d L))) (x : S512.Idx) :
    (slot0 eixV).view.read (Elt F) (View.write (Elt F) (slot0 eixV).view f0 (idsPay d L eidV (A.eid d) (k1_off1 L) (k1_off1_inb L)) Finset.univ) x
      = ((eidV).slice (Rect.unit (s := S819200) off S512.size h) (fun _ => rfl)).view.read (Elt F) (A.eid d) x := by
  rw [prolog_slot0E]
  have e : k1_off1 L = off := by
    rw [k1_off1_eq]; funext a
    match a with
    | ⟨0, _⟩ => exact hoff.symm
  subst e
  rfl

/-! ### The property ids' scratch -/

/-- Quarter `c / 128` of slot 0 reads slot 0 from position `c` on. -/
theorem lstP_eq_slot0 (c : ℕ) (hc : c + 128 ≤ 512) (h : ∀ a, (![0, c] : Fin 2 → ℕ) a + S1x128.size a ≤ S2x512.size a)
    (e : Buf (Elt F) ((pixV).view.loc (thr d L))) (x : Fin 128) :
    (lst pixV ![0, c] h).view.read (Elt F) e (ix1 x) = (slot0 pixV).view.read (Elt F) e (ix1 (⟨c + x.val, by omega⟩ : Fin 512)) := by
  show e _ = e _
  refine congrArg e ?_
  funext a; apply Fin.ext
  match a with
  | ⟨0, _⟩ =>
    show 0 + 1 * (Fin.val (_ : Fin 1)) = 0 + 1 * (Fin.val (_ : Fin 1))
    omega
  | ⟨1, _⟩ =>
    show c + 1 * (Fin.val ((Shape.reshapeEquiv _ (ix1 x) : S1x128.Idx) 1)) = 0 + 1 * (Fin.val ((Shape.reshapeEquiv _ (ix1 (⟨c + x.val, by omega⟩ : Fin 512)) : S1x512.Idx) 1))
    rw [reshape_128, reshape_512]
    show c + 1 * x.val = 0 + 1 * (c + x.val)
    omega

/-- What the prolog's copy leaves in slot 0: the 512 ids it fetched. -/
theorem prolog_slot0P (f0 : Buf (Elt F) ((pixV).view.loc (thr d L))) :
    (slot0 pixV).view.read (Elt F) (View.write (Elt F) (slot0 pixV).view f0 (idsPay d L pidV (A.pid d) (k1_off1 L) (k1_off1_inb L)) Finset.univ)
      = idsPay d L pidV (A.pid d) (k1_off1 L) (k1_off1_inb L) :=
  View.read_write_univ _ _

/-- Every entry of a quarter of slot 0 after the prolog names a row of the table. -/
theorem prolog_inP (hIds : ∀ j : S819200.Idx, (A.pid d j).toNat < 1000) (c : ℕ) (hc : c + 128 ≤ 512)
    (h : ∀ a, (![0, c] : Fin 2 → ℕ) a + S1x128.size a ≤ S2x512.size a) (f0 : Buf (Elt F) ((pixV).view.loc (thr d L))) (x : S128.Idx) :
    ((lst pixV ![0, c] h).view.read (Elt F) (View.write (Elt F) (slot0 pixV).view f0 (idsPay d L pidV (A.pid d) (k1_off1 L) (k1_off1_inb L)) Finset.univ) x).toNat < 1000 := by
  obtain ⟨k, rfl⟩ : ∃ k : Fin 128, x = ix1 k := ⟨x 0, eq_ix1 x⟩
  rw [lstP_eq_slot0 d L c hc h, prolog_slot0P]
  exact hIds _

/-- Slot 0 after the prolog holds the ids of the worker's first 512 rows: the same read as through any window of the id
    array that starts at the worker's first row. -/
theorem prolog_slotP_eq (off : Fin 1 → ℕ) (hoff : off 0 = 51200 * (L 1).val + 25600 * (L 0).val) (h : ∀ a, off a + S512.size a ≤ S819200.size a)
    (f0 : Buf (Elt F) ((pixV).view.loc (thr d L))) (x : S512.Idx) :
    (slot0 pixV).view.read (Elt F) (View.write (Elt F) (slot0 pixV).view f0 (idsPay d L pidV (A.pid d) (k1_off1 L) (k1_off1_inb L)) Finset.univ) x
      = ((pidV).slice (Rect.unit (s := S819200) off S512.size h) (fun _ => rfl)).view.read (Elt F) (A.pid d) x := by
  rw [prolog_slot0P]
  have e : k1_off1 L = off := by
    rw [k1_off1_eq]; funext a
    match a with
    | ⟨0, _⟩ => exact hoff.symm
  subst e
  rfl

end Cert.Kernel.Run.Sc

end
-- ==== Proof.ScJoinBits.lean ====
/-
  Putting a scratch back together: an id scratch is its two slots; a chunk buffer is its two halves and what is left
  of it. Each part held by its own elements at any contents, the whole is held at some contents (the piecewise one).
-/
import proofs.«204385_g66649302499670_cont_9to1c4b_43_34_alg».proof.Proof.ScTripBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)

variable [FloatOps F] (d : Dev nD) (L : grid1.Coords)

/-! ## The two id slots of an id scratch are the scratch -/

abbrev slotR0 : Rect S2x512 := Rect.unit (s := S2x512) ![0, 0] S1x512.size inb_S2x512_S1x512_0_0
abbrev slotR1 : Rect S2x512 := Rect.unit (s := S2x512) ![1, 0] S1x512.size inb_S2x512_S1x512_1_0

omit [FloatOps F] in
theorem slot_sets (M : Memref sig .scVector .vmem S2x512 .i32) :
    (slot0 M).view.set = slotR0.set.map M.view.emb ∧ (slot1 M).view.set = slotR1.set.map M.view.emb := by
  constructor
  · rw [Memref.set_view_squeeze]; exact View.set_slice M.view slotR0
  · rw [Memref.set_view_squeeze]; exact View.set_slice M.view slotR1

omit [FloatOps F] in
theorem slotR_disjoint : Disjoint slotR0.set slotR1.set := by
  refine Finset.disjoint_left.mpr fun y h0 h1 => ?_
  rw [Rect.mem_set_unit] at h0 h1
  have a0 : 0 ≤ (y 0).val ∧ (y 0).val < 0 + 1 := h0 0
  have a1 : 1 ≤ (y 0).val ∧ (y 0).val < 1 + 1 := h1 0
  omega

omit [FloatOps F] in
theorem slotR_union : slotR0.set ∪ slotR1.set = Finset.univ := by
  ext y
  simp only [Finset.mem_union, Finset.mem_univ, iff_true, Rect.mem_set_unit]
  have hy : (y 0).val < 2 := (y 0).isLt
  have h1 : (y 1).val < 512 := (y 1).isLt
  by_cases h : (y 0).val = 0
  · left
    intro a
    match a with
    | ⟨0, _⟩ => show 0 ≤ (y 0).val ∧ (y 0).val < 0 + 1; omega
    | ⟨1, _⟩ => show 0 ≤ (y 1).val ∧ (y 1).val < 0 + 512; omega
  · right
    intro a
    match a with
    | ⟨0, _⟩ => show 1 ≤ (y 0).val ∧ (y 0).val < 1 + 1; omega
    | ⟨1, _⟩ => show 0 ≤ (y 1).val ∧ (y 1).val < 0 + 512; omega

omit [FloatOps F] in
theorem slot_disjoint (M : Memref sig .scVector .vmem S2x512 .i32) : Disjoint (slot0 M).view.set (slot1 M).view.set := by
  rw [(slot_sets M).1, (slot_sets M).2, Finset.disjoint_map]
  exact slotR_disjoint

omit [FloatOps F] in
theorem slot_union (M : Memref sig .scVector .vmem S2x512 .i32) : (slot0 M).view.set ∪ (slot1 M).view.set = M.view.set := by
  rw [(slot_sets M).1, (slot_sets M).2, ← Finset.map_union, slotR_union]
  rfl

/-- An id scratch held whole is its two slots held by their own elements, at the same contents. -/
theorem slots_split (M : Memref sig .scVector .vmem S2x512 .i32) (hM : M.IsWhole) (e : Buf (Elt F) (M.view.loc (thr d L))) :
    (M.view.loc (thr d L) ↦{fullShare} e : sProp 𝕄)
      ⊣⊢ iprop(((slot0 M).view.loc (thr d L) ↦[(slot0 M).view.set]{fullShare} e) ∗ ((slot1 M).view.loc (thr d L) ↦[(slot1 M).view.set]{fullShare} e)) := by
  have h : (M.view.loc (thr d L) ↦[(slot0 M).view.set ∪ (slot1 M).view.set]{fullShare} e : sProp 𝕄)
      ⊣⊢ iprop((M.view.loc (thr d L) ↦[(slot0 M).view.set]{fullShare} e) ∗ (M.view.loc (thr d L) ↦[(slot1 M).view.set]{fullShare} e)) :=
    pointsTo_union (slot_disjoint M)
  rw [slot_union M, hM.set_eq_univ] at h
  exact h

/-- Two slots held by their own elements at any contents are the scratch held whole at some contents. -/
theorem slots_join_ex (M : Memref sig .scVector .vmem S2x512 .i32) (hM : M.IsWhole) :
    (iprop((∃ e : Buf (Elt F) (M.view.loc (thr d L)), (slot0 M).view.loc (thr d L) ↦[(slot0 M).view.set]{fullShare} e)
        ∗ (∃ e : Buf (Elt F) (M.view.loc (thr d L)), (slot1 M).view.loc (thr d L) ↦[(slot1 M).view.set]{fullShare} e)) : sProp 𝕄)
      ⊢ iprop(∃ f : Buf (Elt F) (M.view.loc (thr d L)), M.view.loc (thr d L) ↦{fullShare} f) := by
  iintro ⟨⟨%e0, H0⟩, ⟨%e1, H1⟩⟩
  iexists ((slot1 M).view.set.piecewise e1 e0)
  have h : (iprop((M.view.loc (thr d L) ↦[(slot0 M).view.set]{fullShare} e0) ∗ (M.view.loc (thr d L) ↦[(slot1 M).view.set]{fullShare} e1)) : sProp 𝕄)
      ⊢ (M.view.loc (thr d L) ↦[(slot0 M).view.set ∪ (slot1 M).view.set]{fullShare} ((slot1 M).view.set.piecewise e1 e0)) :=
    pointsTo_join (slot_disjoint M)
  rw [slot_union M, hM.set_eq_univ] at h
  iapply h
  isplitl [H0]; · iexact H0
  iexact H1

/-! ## The two halves of a chunk buffer and the rest are the buffer -/

abbrev hlfR0 : Rect S2x128x128 := Rect.unit (s := S2x128x128) ![0, 0, 0] S1x128x128.size inb_S2x128x128_S1x128x128_0_0_0
abbrev hlfR1 : Rect S2x128x128 := Rect.unit (s := S2x128x128) ![1, 0, 0] S1x128x128.size inb_S2x128x128_S1x128x128_1_0_0

omit [FloatOps F] in
theorem hlf_sets (M : Memref sig .scVector .vmem S2x128x128 .f32) :
    (hlf0 M).view.set = hlfR0.set.map M.view.emb ∧ (hlf1 M).view.set = hlfR1.set.map M.view.emb := by
  constructor
  · rw [Memref.set_view_squeeze]; exact View.set_slice M.view hlfR0
  · rw [Memref.set_view_squeeze]; exact View.set_slice M.view hlfR1

omit [FloatOps F] in
theorem hlf_disjoint (M : Memref sig .scVector .vmem S2x128x128 .f32) : Disjoint (hlf0 M).view.set (hlf1 M).view.set := by
  rw [(hlf_sets M).1, (hlf_sets M).2, Finset.disjoint_map]
  refine Finset.disjoint_left.mpr fun y h0 h1 => ?_
  rw [Rect.mem_set_unit] at h0 h1
  have a0 : 0 ≤ (y 0).val ∧ (y 0).val < 0 + 1 := h0 0
  have a1 : 1 ≤ (y 0).val ∧ (y 0).val < 1 + 1 := h1 0
  omega

/-- A chunk buffer's rest and its two halves, each at any contents, are the buffer held whole at some contents. -/
theorem halves_join_ex (M : Memref sig .scVector .vmem S2x128x128 .f32) :
    (iprop((∃ f : Buf (Elt F) (M.view.loc (thr d L)), M.view.loc (thr d L) ↦[(Finset.univ \ (hlf0 M).view.set) \ (hlf1 M).view.set]{fullShare} f)
        ∗ (∃ f : Buf (Elt F) (M.view.loc (thr d L)), (hlf0 M).view.loc (thr d L) ↦[(hlf0 M).view.set]{fullShare} f)
        ∗ (∃ f : Buf (Elt F) (M.view.loc (thr d L)), (hlf1 M).view.loc (thr d L) ↦[(hlf1 M).view.set]{fullShare} f)) : sProp 𝕄)
      ⊢ iprop(∃ f : Buf (Elt F) (M.view.loc (thr d L)), M.view.loc (thr d L) ↦{fullShare} f) := by
  have h1sub : (hlf1 M).view.set ⊆ Finset.univ \ (hlf0 M).view.set := by
    intro y hy
    exact Finset.mem_sdiff.mpr ⟨Finset.mem_univ _, fun h0 => Finset.disjoint_left.mp (hlf_disjoint M) h0 hy⟩
  iintro ⟨⟨%fr, Hr⟩, ⟨%f0, H0⟩, ⟨%f1, H1⟩⟩
  have j1 : (iprop((M.view.loc (thr d L) ↦[(hlf1 M).view.set]{fullShare} f1) ∗ (M.view.loc (thr d L) ↦[(Finset.univ \ (hlf0 M).view.set) \ (hlf1 M).view.set]{fullShare} fr)) : sProp 𝕄)
      ⊢ (M.view.loc (thr d L) ↦[Finset.univ \ (hlf0 M).view.set]{fullShare} ((hlf1 M).view.set.piecewise f1 fr)) :=
    pointsTo_join_subset h1sub
  have j0 : (iprop((M.view.loc (thr d L) ↦[(hlf0 M).view.set]{fullShare} f0) ∗ (M.view.loc (thr d L) ↦[Finset.univ \ (hlf0 M).view.set]{fullShare} ((hlf1 M).view.set.piecewise f1 fr))) : sProp 𝕄)
      ⊢ (M.view.loc (thr d L) ↦[Finset.univ]{fullShare} ((hlf0 M).view.set.piecewise f0 ((hlf1 M).view.set.piecewise f1 fr))) :=
    pointsTo_join_subset (Finset.subset_univ _)
  iexists ((hlf0 M).view.set.piecewise f0 ((hlf1 M).view.set.piecewise f1 fr))
  iapply j0
  isplitl [H0]; · iexact H0
  iapply j1
  isplitl [H1]; · iexact H1
  iexact Hr

end Cert.Kernel.Run.Sc
end
-- ==== Proof.ScSlotsBits.lean ====
/-
  The two slots of an id scratch: each is everything but the other.
-/
import proofs.«204385_g66649302499670_cont_9to1c4b_43_34_alg».proof.Proof.ScTripBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable (d : Dev nD) (L : grid1.Coords)

theorem mem_slot0_e (y : S2x512.Idx) : y ∈ (slot0 (Memref.whole cc1_scratch0 : Memref sig Kind.scVector Space.vmem S2x512 EltTy.i32)).view.set ↔ (y 0).val = 0 := by
  rw [Memref.set_view_squeeze]
  rw [show (((Memref.whole cc1_scratch0 : Memref sig Kind.scVector Space.vmem S2x512 EltTy.i32).slice (Rect.unit (s := S2x512) ![0, 0] S1x512.size inb_S2x512_S1x512_0_0) (fun _ => rfl)).view.set)
    = ((View.whole cc1_scratch0).slice (Rect.unit (s := S2x512) ![0, 0] S1x512.size inb_S2x512_S1x512_0_0)).set from rfl, View.set_slice_whole, Rect.mem_set_unit]
  constructor
  · intro h
    have h0 : 0 ≤ (y 0).val ∧ (y 0).val < 0 + 1 := h 0
    omega
  · intro h a
    match a with
    | 0 => show 0 ≤ (y 0).val ∧ (y 0).val < 0 + 1; omega
    | 1 => show 0 ≤ (y 1).val ∧ (y 1).val < 0 + 512; have := (y 1).isLt; exact ⟨Nat.zero_le _, by simpa using this⟩

theorem mem_slot1_e (y : S2x512.Idx) : y ∈ (slot1 (Memref.whole cc1_scratch0 : Memref sig Kind.scVector Space.vmem S2x512 EltTy.i32)).view.set ↔ (y 0).val = 1 := by
  rw [Memref.set_view_squeeze]
  rw [show (((Memref.whole cc1_scratch0 : Memref sig Kind.scVector Space.vmem S2x512 EltTy.i32).slice (Rect.unit (s := S2x512) ![1, 0] S1x512.size inb_S2x512_S1x512_1_0) (fun _ => rfl)).view.set)
    = ((View.whole cc1_scratch0).slice (Rect.unit (s := S2x512) ![1, 0] S1x512.size inb_S2x512_S1x512_1_0)).set from rfl, View.set_slice_whole, Rect.mem_set_unit]
  constructor
  · intro h
    have h0 : 1 ≤ (y 0).val ∧ (y 0).val < 1 + 1 := h 0
    omega
  · intro h a
    match a with
    | 0 => show 1 ≤ (y 0).val ∧ (y 0).val < 1 + 1; omega
    | 1 => show 0 ≤ (y 1).val ∧ (y 1).val < 0 + 512; have := (y 1).isLt; exact ⟨Nat.zero_le _, by simpa using this⟩

/-- Slot 0 is everything but slot 1. -/
theorem slot0_eq_compl_e : (slot0 (Memref.whole cc1_scratch0 : Memref sig Kind.scVector Space.vmem S2x512 EltTy.i32)).view.set = Finset.univ \ (slot1 (Memref.whole cc1_scratch0 : Memref sig Kind.scVector Space.vmem S2x512 EltTy.i32)).view.set := by
  ext (y : S2x512.Idx)
  have hy : (y 0).val < 2 := (y 0).isLt
  constructor
  · intro h
    refine Finset.mem_sdiff.mpr ⟨Finset.mem_univ _, fun ho => ?_⟩
    have h1 := (mem_slot0_e y).mp h
    have h2 := (mem_slot1_e y).mp ho
    omega
  · intro h
    have hno := (Finset.mem_sdiff.mp h).2
    refine (mem_slot0_e y).mpr ?_
    by_contra hne
    exact hno ((mem_slot1_e y).mpr (by omega))

/-- Slot 1 is everything but slot 0. -/
theorem slot1_eq_compl_e : (slot1 (Memref.whole cc1_scratch0 : Memref sig Kind.scVector Space.vmem S2x512 EltTy.i32)).view.set = Finset.univ \ (slot0 (Memref.whole cc1_scratch0 : Memref sig Kind.scVector Space.vmem S2x512 EltTy.i32)).view.set := by
  ext (y : S2x512.Idx)
  have hy : (y 0).val < 2 := (y 0).isLt
  constructor
  · intro h
    refine Finset.mem_sdiff.mpr ⟨Finset.mem_univ _, fun ho => ?_⟩
    have h1 := (mem_slot1_e y).mp h
    have h2 := (mem_slot0_e y).mp ho
    omega
  · intro h
    have hno := (Finset.mem_sdiff.mp h).2
    refine (mem_slot1_e y).mpr ?_
    by_contra hne
    exact hno ((mem_slot0_e y).mpr (by omega))

theorem mem_slot0_p (y : S2x512.Idx) : y ∈ (slot0 (Memref.whole cc1_scratch1 : Memref sig Kind.scVector Space.vmem S2x512 EltTy.i32)).view.set ↔ (y 0).val = 0 := by
  rw [Memref.set_view_squeeze]
  rw [show (((Memref.whole cc1_scratch1 : Memref sig Kind.scVector Space.vmem S2x512 EltTy.i32).slice (Rect.unit (s := S2x512) ![0, 0] S1x512.size inb_S2x512_S1x512_0_0) (fun _ => rfl)).view.set)
    = ((View.whole cc1_scratch1).slice (Rect.unit (s := S2x512) ![0, 0] S1x512.size inb_S2x512_S1x512_0_0)).set from rfl, View.set_slice_whole, Rect.mem_set_unit]
  constructor
  · intro h
    have h0 : 0 ≤ (y 0).val ∧ (y 0).val < 0 + 1 := h 0
    omega
  · intro h a
    match a with
    | 0 => show 0 ≤ (y 0).val ∧ (y 0).val < 0 + 1; omega
    | 1 => show 0 ≤ (y 1).val ∧ (y 1).val < 0 + 512; have := (y 1).isLt; exact ⟨Nat.zero_le _, by simpa using this⟩

theorem mem_slot1_p (y : S2x512.Idx) : y ∈ (slot1 (Memref.whole cc1_scratch1 : Memref sig Kind.scVector Space.vmem S2x512 EltTy.i32)).view.set ↔ (y 0).val = 1 := by
  rw [Memref.set_view_squeeze]
  rw [show (((Memref.whole cc1_scratch1 : Memref sig Kind.scVector Space.vmem S2x512 EltTy.i32).slice (Rect.unit (s := S2x512) ![1, 0] S1x512.size inb_S2x512_S1x512_1_0) (fun _ => rfl)).view.set)
    = ((View.whole cc1_scratch1).slice (Rect.unit (s := S2x512) ![1, 0] S1x512.size inb_S2x512_S1x512_1_0)).set from rfl, View.set_slice_whole, Rect.mem_set_unit]
  constructor
  · intro h
    have h0 : 1 ≤ (y 0).val ∧ (y 0).val < 1 + 1 := h 0
    omega
  · intro h a
    match a with
    | 0 => show 1 ≤ (y 0).val ∧ (y 0).val < 1 + 1; omega
    | 1 => show 0 ≤ (y 1).val ∧ (y 1).val < 0 + 512; have := (y 1).isLt; exact ⟨Nat.zero_le _, by simpa using this⟩

/-- Slot 0 is everything but slot 1. -/
theorem slot0_eq_compl_p : (slot0 (Memref.whole cc1_scratch1 : Memref sig Kind.scVector Space.vmem S2x512 EltTy.i32)).view.set = Finset.univ \ (slot1 (Memref.whole cc1_scratch1 : Memref sig Kind.scVector Space.vmem S2x512 EltTy.i32)).view.set := by
  ext (y : S2x512.Idx)
  have hy : (y 0).val < 2 := (y 0).isLt
  constructor
  · intro h
    refine Finset.mem_sdiff.mpr ⟨Finset.mem_univ _, fun ho => ?_⟩
    have h1 := (mem_slot0_p y).mp h
    have h2 := (mem_slot1_p y).mp ho
    omega
  · intro h
    have hno := (Finset.mem_sdiff.mp h).2
    refine (mem_slot0_p y).mpr ?_
    by_contra hne
    exact hno ((mem_slot1_p y).mpr (by omega))

/-- Slot 1 is everything but slot 0. -/
theorem slot1_eq_compl_p : (slot1 (Memref.whole cc1_scratch1 : Memref sig Kind.scVector Space.vmem S2x512 EltTy.i32)).view.set = Finset.univ \ (slot0 (Memref.whole cc1_scratch1 : Memref sig Kind.scVector Space.vmem S2x512 EltTy.i32)).view.set := by
  ext (y : S2x512.Idx)
  have hy : (y 0).val < 2 := (y 0).isLt
  constructor
  · intro h
    refine Finset.mem_sdiff.mpr ⟨Finset.mem_univ _, fun ho => ?_⟩
    have h1 := (mem_slot1_p y).mp h
    have h2 := (mem_slot0_p y).mp ho
    omega
  · intro h
    have hno := (Finset.mem_sdiff.mp h).2
    refine (mem_slot1_p y).mpr ?_
    by_contra hne
    exact hno ((mem_slot0_p y).mpr (by omega))

/-- Three pieces at the same contents are the whole they partition. -/
theorem assemble3 {ℓ : Loc nD τ sig} (X a b : Finset (Idx ℓ)) (f : Buf (Elt F) ℓ) (ha : a ⊆ X) (hb : b ⊆ X \ a) :
    iprop((ℓ ↦[(X \ a) \ b]{fullShare} f) ∗ (ℓ ↦[a]{fullShare} f) ∗ (ℓ ↦[b]{fullShare} f)) ⊢ (ℓ ↦[X]{fullShare} f : sProp 𝕄) := by
  iintro ⟨Hr, Ha, Hb⟩
  iapply (pointsTo_split_subset ha).2
  isplitl [Ha]; · iexact Ha
  iapply (pointsTo_split_subset hb).2
  isplitl [Hb]; · iexact Hb
  iexact Hr

theorem mem_lst_e_0_0 (y : S2x512.Idx) : y ∈ (lst (Memref.whole cc1_scratch0 : Memref sig Kind.scVector Space.vmem S2x512 EltTy.i32) ![0, 0] linb_0_0).view.set ↔ (y 0).val = 0 ∧ 0 ≤ (y 1).val ∧ (y 1).val < 0 + 128 := by
  rw [Memref.set_view_squeeze]
  rw [show (((Memref.whole cc1_scratch0 : Memref sig Kind.scVector Space.vmem S2x512 EltTy.i32).slice (Rect.unit (s := S2x512) ![0, 0] S1x128.size linb_0_0) (fun _ => rfl)).view.set)
    = ((View.whole cc1_scratch0).slice (Rect.unit (s := S2x512) ![0, 0] S1x128.size linb_0_0)).set from rfl, View.set_slice_whole, Rect.mem_set_unit]
  constructor
  · intro h
    have h0 : 0 ≤ (y 0).val ∧ (y 0).val < 0 + 1 := h 0
    have h1 : 0 ≤ (y 1).val ∧ (y 1).val < 0 + 128 := h 1
    omega
  · intro h a
    match a with
    | 0 => show 0 ≤ (y 0).val ∧ (y 0).val < 0 + 1; omega
    | 1 => show 0 ≤ (y 1).val ∧ (y 1).val < 0 + 128; omega

theorem mem_lst_e_0_128 (y : S2x512.Idx) : y ∈ (lst (Memref.whole cc1_scratch0 : Memref sig Kind.scVector Space.vmem S2x512 EltTy.i32) ![0, 128] linb_0_128).view.set ↔ (y 0).val = 0 ∧ 128 ≤ (y 1).val ∧ (y 1).val < 128 + 128 := by
  rw [Memref.set_view_squeeze]
  rw [show (((Memref.whole cc1_scratch0 : Memref sig Kind.scVector Space.vmem S2x512 EltTy.i32).slice (Rect.unit (s := S2x512) ![0, 128] S1x128.size linb_0_128) (fun _ => rfl)).view.set)
    = ((View.whole cc1_scratch0).slice (Rect.unit (s := S2x512) ![0, 128] S1x128.size linb_0_128)).set from rfl, View.set_slice_whole, Rect.mem_set_unit]
  constructor
  · intro h
    have h0 : 0 ≤ (y 0).val ∧ (y 0).val < 0 + 1 := h 0
    have h1 : 128 ≤ (y 1).val ∧ (y 1).val < 128 + 128 := h 1
    omega
  · intro h a
    match a with
    | 0 => show 0 ≤ (y 0).val ∧ (y 0).val < 0 + 1; omega
    | 1 => show 128 ≤ (y 1).val ∧ (y 1).val < 128 + 128; omega

theorem mem_lst_e_0_256 (y : S2x512.Idx) : y ∈ (lst (Memref.whole cc1_scratch0 : Memref sig Kind.scVector Space.vmem S2x512 EltTy.i32) ![0, 256] linb_0_256).view.set ↔ (y 0).val = 0 ∧ 256 ≤ (y 1).val ∧ (y 1).val < 256 + 128 := by
  rw [Memref.set_view_squeeze]
  rw [show (((Memref.whole cc1_scratch0 : Memref sig Kind.scVector Space.vmem S2x512 EltTy.i32).slice (Rect.unit (s := S2x512) ![0, 256] S1x128.size linb_0_256) (fun _ => rfl)).view.set)
    = ((View.whole cc1_scratch0).slice (Rect.unit (s := S2x512) ![0, 256] S1x128.size linb_0_256)).set from rfl, View.set_slice_whole, Rect.mem_set_unit]
  constructor
  · intro h
    have h0 : 0 ≤ (y 0).val ∧ (y 0).val < 0 + 1 := h 0
    have h1 : 256 ≤ (y 1).val ∧ (y 1).val < 256 + 128 := h 1
    omega
  · intro h a
    match a with
    | 0 => show 0 ≤ (y 0).val ∧ (y 0).val < 0 + 1; omega
    | 1 => show 256 ≤ (y 1).val ∧ (y 1).val < 256 + 128; omega

theorem mem_lst_e_0_384 (y : S2x512.Idx) : y ∈ (lst (Memref.whole cc1_scratch0 : Memref sig Kind.scVector Space.vmem S2x512 EltTy.i32) ![0, 384] linb_0_384).view.set ↔ (y 0).val = 0 ∧ 384 ≤ (y 1).val ∧ (y 1).val < 384 + 128 := by
  rw [Memref.set_view_squeeze]
  rw [show (((Memref.whole cc1_scratch0 : Memref sig Kind.scVector Space.vmem S2x512 EltTy.i32).slice (Rect.unit (s := S2x512) ![0, 384] S1x128.size linb_0_384) (fun _ => rfl)).view.set)
    = ((View.whole cc1_scratch0).slice (Rect.unit (s := S2x512) ![0, 384] S1x128.size linb_0_384)).set from rfl, View.set_slice_whole, Rect.mem_set_unit]
  constructor
  · intro h
    have h0 : 0 ≤ (y 0).val ∧ (y 0).val < 0 + 1 := h 0
    have h1 : 384 ≤ (y 1).val ∧ (y 1).val < 384 + 128 := h 1
    omega
  · intro h a
    match a with
    | 0 => show 0 ≤ (y 0).val ∧ (y 0).val < 0 + 1; omega
    | 1 => show 384 ≤ (y 1).val ∧ (y 1).val < 384 + 128; omega

theorem mem_lst_e_1_0 (y : S2x512.Idx) : y ∈ (lst (Memref.whole cc1_scratch0 : Memref sig Kind.scVector Space.vmem S2x512 EltTy.i32) ![1, 0] linb_1_0).view.set ↔ (y 0).val = 1 ∧ 0 ≤ (y 1).val ∧ (y 1).val < 0 + 128 := by
  rw [Memref.set_view_squeeze]
  rw [show (((Memref.whole cc1_scratch0 : Memref sig Kind.scVector Space.vmem S2x512 EltTy.i32).slice (Rect.unit (s := S2x512) ![1, 0] S1x128.size linb_1_0) (fun _ => rfl)).view.set)
    = ((View.whole cc1_scratch0).slice (Rect.unit (s := S2x512) ![1, 0] S1x128.size linb_1_0)).set from rfl, View.set_slice_whole, Rect.mem_set_unit]
  constructor
  · intro h
    have h0 : 1 ≤ (y 0).val ∧ (y 0).val < 1 + 1 := h 0
    have h1 : 0 ≤ (y 1).val ∧ (y 1).val < 0 + 128 := h 1
    omega
  · intro h a
    match a with
    | 0 => show 1 ≤ (y 0).val ∧ (y 0).val < 1 + 1; omega
    | 1 => show 0 ≤ (y 1).val ∧ (y 1).val < 0 + 128; omega

theorem mem_lst_e_1_128 (y : S2x512.Idx) : y ∈ (lst (Memref.whole cc1_scratch0 : Memref sig Kind.scVector Space.vmem S2x512 EltTy.i32) ![1, 128] linb_1_128).view.set ↔ (y 0).val = 1 ∧ 128 ≤ (y 1).val ∧ (y 1).val < 128 + 128 := by
  rw [Memref.set_view_squeeze]
  rw [show (((Memref.whole cc1_scratch0 : Memref sig Kind.scVector Space.vmem S2x512 EltTy.i32).slice (Rect.unit (s := S2x512) ![1, 128] S1x128.size linb_1_128) (fun _ => rfl)).view.set)
    = ((View.whole cc1_scratch0).slice (Rect.unit (s := S2x512) ![1, 128] S1x128.size linb_1_128)).set from rfl, View.set_slice_whole, Rect.mem_set_unit]
  constructor
  · intro h
    have h0 : 1 ≤ (y 0).val ∧ (y 0).val < 1 + 1 := h 0
    have h1 : 128 ≤ (y 1).val ∧ (y 1).val < 128 + 128 := h 1
    omega
  · intro h a
    match a with
    | 0 => show 1 ≤ (y 0).val ∧ (y 0).val < 1 + 1; omega
    | 1 => show 128 ≤ (y 1).val ∧ (y 1).val < 128 + 128; omega

theorem mem_lst_e_1_256 (y : S2x512.Idx) : y ∈ (lst (Memref.whole cc1_scratch0 : Memref sig Kind.scVector Space.vmem S2x512 EltTy.i32) ![1, 256] linb_1_256).view.set ↔ (y 0).val = 1 ∧ 256 ≤ (y 1).val ∧ (y 1).val < 256 + 128 := by
  rw [Memref.set_view_squeeze]
  rw [show (((Memref.whole cc1_scratch0 : Memref sig Kind.scVector Space.vmem S2x512 EltTy.i32).slice (Rect.unit (s := S2x512) ![1, 256] S1x128.size linb_1_256) (fun _ => rfl)).view.set)
    = ((View.whole cc1_scratch0).slice (Rect.unit (s := S2x512) ![1, 256] S1x128.size linb_1_256)).set from rfl, View.set_slice_whole, Rect.mem_set_unit]
  constructor
  · intro h
    have h0 : 1 ≤ (y 0).val ∧ (y 0).val < 1 + 1 := h 0
    have h1 : 256 ≤ (y 1).val ∧ (y 1).val < 256 + 128 := h 1
    omega
  · intro h a
    match a with
    | 0 => show 1 ≤ (y 0).val ∧ (y 0).val < 1 + 1; omega
    | 1 => show 256 ≤ (y 1).val ∧ (y 1).val < 256 + 128; omega

theorem mem_lst_e_1_384 (y : S2x512.Idx) : y ∈ (lst (Memref.whole cc1_scratch0 : Memref sig Kind.scVector Space.vmem S2x512 EltTy.i32) ![1, 384] linb_1_384).view.set ↔ (y 0).val = 1 ∧ 384 ≤ (y 1).val ∧ (y 1).val < 384 + 128 := by
  rw [Memref.set_view_squeeze]
  rw [show (((Memref.whole cc1_scratch0 : Memref sig Kind.scVector Space.vmem S2x512 EltTy.i32).slice (Rect.unit (s := S2x512) ![1, 384] S1x128.size linb_1_384) (fun _ => rfl)).view.set)
    = ((View.whole cc1_scratch0).slice (Rect.unit (s := S2x512) ![1, 384] S1x128.size linb_1_384)).set from rfl, View.set_slice_whole, Rect.mem_set_unit]
  constructor
  · intro h
    have h0 : 1 ≤ (y 0).val ∧ (y 0).val < 1 + 1 := h 0
    have h1 : 384 ≤ (y 1).val ∧ (y 1).val < 384 + 128 := h 1
    omega
  · intro h a
    match a with
    | 0 => show 1 ≤ (y 0).val ∧ (y 0).val < 1 + 1; omega
    | 1 => show 384 ≤ (y 1).val ∧ (y 1).val < 384 + 128; omega

/-- Slot 0 whole again: what was left in hand of it, its first quarter and its last, all at the same contents. -/
theorem slot0_assemble_e (f : Buf (Elt F) ((Memref.whole cc1_scratch0 : Memref sig Kind.scVector Space.vmem S2x512 EltTy.i32).view.loc (thr d L))) :
    iprop(((Memref.whole cc1_scratch0 : Memref sig Kind.scVector Space.vmem S2x512 EltTy.i32).view.loc (thr d L) ↦[((Finset.univ \ (slot1 (Memref.whole cc1_scratch0 : Memref sig Kind.scVector Space.vmem S2x512 EltTy.i32)).view.set) \ (lst (Memref.whole cc1_scratch0 : Memref sig Kind.scVector Space.vmem S2x512 EltTy.i32) ![0, 0] linb_0_0).view.set) \ (lst (Memref.whole cc1_scratch0 : Memref sig Kind.scVector Space.vmem S2x512 EltTy.i32) ![0, 384] linb_0_384).view.set]{fullShare} f)
        ∗ ((lst (Memref.whole cc1_scratch0 : Memref sig Kind.scVector Space.vmem S2x512 EltTy.i32) ![0, 0] linb_0_0).view.loc (thr d L) ↦[(lst (Memref.whole cc1_scratch0 : Memref sig Kind.scVector Space.vmem S2x512 EltTy.i32) ![0, 0] linb_0_0).view.set]{fullShare} f)
        ∗ ((Memref.whole cc1_scratch0 : Memref sig Kind.scVector Space.vmem S2x512 EltTy.i32).view.loc (thr d L) ↦[(lst (Memref.whole cc1_scratch0 : Memref sig Kind.scVector Space.vmem S2x512 EltTy.i32) ![0, 384] linb_0_384).view.set]{fullShare} f))
      ⊢ ((slot0 (Memref.whole cc1_scratch0 : Memref sig Kind.scVector Space.vmem S2x512 EltTy.i32)).view.loc (thr d L) ↦[(slot0 (Memref.whole cc1_scratch0 : Memref sig Kind.scVector Space.vmem S2x512 EltTy.i32)).view.set]{fullShare} f : sProp 𝕄) := by
  rw [slot0_eq_compl_e]
  refine assemble3 (F := F) (ℓ := (Memref.whole cc1_scratch0 : Memref sig Kind.scVector Space.vmem S2x512 EltTy.i32).view.loc (thr d L)) _ _ _ f ?_ ?_
  · intro y hy
    have h := (mem_lst_e_0_0 y).mp hy
    refine Finset.mem_sdiff.mpr ⟨Finset.mem_univ _, fun ho => ?_⟩
    have h2 := (mem_slot1_e y).mp ho
    omega
  · intro y hy
    have h := (mem_lst_e_0_384 y).mp hy
    refine Finset.mem_sdiff.mpr ⟨Finset.mem_sdiff.mpr ⟨Finset.mem_univ _, fun ho => ?_⟩, fun ho => ?_⟩
    · have h2 := (mem_slot1_e y).mp ho
      omega
    · have h2 := (mem_lst_e_0_0 y).mp ho
      omega

/-- Slot 1 whole again: what was left in hand of it, its first quarter and its last, all at the same contents. -/
theorem slot1_assemble_e (f : Buf (Elt F) ((Memref.whole cc1_scratch0 : Memref sig Kind.scVector Space.vmem S2x512 EltTy.i32).view.loc (thr d L))) :
    iprop(((Memref.whole cc1_scratch0 : Memref sig Kind.scVector Space.vmem S2x512 EltTy.i32).view.loc (thr d L) ↦[((Finset.univ \ (slot0 (Memref.whole cc1_scratch0 : Memref sig Kind.scVector Space.vmem S2x512 EltTy.i32)).view.set) \ (lst (Memref.whole cc1_scratch0 : Memref sig Kind.scVector Space.vmem S2x512 EltTy.i32) ![1, 0] linb_1_0).view.set) \ (lst (Memref.whole cc1_scratch0 : Memref sig Kind.scVector Space.vmem S2x512 EltTy.i32) ![1, 384] linb_1_384).view.set]{fullShare} f)
        ∗ ((lst (Memref.whole cc1_scratch0 : Memref sig Kind.scVector Space.vmem S2x512 EltTy.i32) ![1, 0] linb_1_0).view.loc (thr d L) ↦[(lst (Memref.whole cc1_scratch0 : Memref sig Kind.scVector Space.vmem S2x512 EltTy.i32) ![1, 0] linb_1_0).view.set]{fullShare} f)
        ∗ ((Memref.whole cc1_scratch0 : Memref sig Kind.scVector Space.vmem S2x512 EltTy.i32).view.loc (thr d L) ↦[(lst (Memref.whole cc1_scratch0 : Memref sig Kind.scVector Space.vmem S2x512 EltTy.i32) ![1, 384] linb_1_384).view.set]{fullShare} f))
      ⊢ ((slot1 (Memref.whole cc1_scratch0 : Memref sig Kind.scVector Space.vmem S2x512 EltTy.i32)).view.loc (thr d L) ↦[(slot1 (Memref.whole cc1_scratch0 : Memref sig Kind.scVector Space.vmem S2x512 EltTy.i32)).view.set]{fullShare} f : sProp 𝕄) := by
  rw [slot1_eq_compl_e]
  refine assemble3 (F := F) (ℓ := (Memref.whole cc1_scratch0 : Memref sig Kind.scVector Space.vmem S2x512 EltTy.i32).view.loc (thr d L)) _ _ _ f ?_ ?_
  · intro y hy
    have h := (mem_lst_e_1_0 y).mp hy
    refine Finset.mem_sdiff.mpr ⟨Finset.mem_univ _, fun ho => ?_⟩
    have h2 := (mem_slot0_e y).mp ho
    omega
  · intro y hy
    have h := (mem_lst_e_1_384 y).mp hy
    refine Finset.mem_sdiff.mpr ⟨Finset.mem_sdiff.mpr ⟨Finset.mem_univ _, fun ho => ?_⟩, fun ho => ?_⟩
    · have h2 := (mem_slot0_e y).mp ho
      omega
    · have h2 := (mem_lst_e_1_0 y).mp ho
      omega

theorem mem_lst_p_0_0 (y : S2x512.Idx) : y ∈ (lst (Memref.whole cc1_scratch1 : Memref sig Kind.scVector Space.vmem S2x512 EltTy.i32) ![0, 0] linb_0_0).view.set ↔ (y 0).val = 0 ∧ 0 ≤ (y 1).val ∧ (y 1).val < 0 + 128 := by
  rw [Memref.set_view_squeeze]
  rw [show (((Memref.whole cc1_scratch1 : Memref sig Kind.scVector Space.vmem S2x512 EltTy.i32).slice (Rect.unit (s := S2x512) ![0, 0] S1x128.size linb_0_0) (fun _ => rfl)).view.set)
    = ((View.whole cc1_scratch1).slice (Rect.unit (s := S2x512) ![0, 0] S1x128.size linb_0_0)).set from rfl, View.set_slice_whole, Rect.mem_set_unit]
  constructor
  · intro h
    have h0 : 0 ≤ (y 0).val ∧ (y 0).val < 0 + 1 := h 0
    have h1 : 0 ≤ (y 1).val ∧ (y 1).val < 0 + 128 := h 1
    omega
  · intro h a
    match a with
    | 0 => show 0 ≤ (y 0).val ∧ (y 0).val < 0 + 1; omega
    | 1 => show 0 ≤ (y 1).val ∧ (y 1).val < 0 + 128; omega

theorem mem_lst_p_0_128 (y : S2x512.Idx) : y ∈ (lst (Memref.whole cc1_scratch1 : Memref sig Kind.scVector Space.vmem S2x512 EltTy.i32) ![0, 128] linb_0_128).view.set ↔ (y 0).val = 0 ∧ 128 ≤ (y 1).val ∧ (y 1).val < 128 + 128 := by
  rw [Memref.set_view_squeeze]
  rw [show (((Memref.whole cc1_scratch1 : Memref sig Kind.scVector Space.vmem S2x512 EltTy.i32).slice (Rect.unit (s := S2x512) ![0, 128] S1x128.size linb_0_128) (fun _ => rfl)).view.set)
    = ((View.whole cc1_scratch1).slice (Rect.unit (s := S2x512) ![0, 128] S1x128.size linb_0_128)).set from rfl, View.set_slice_whole, Rect.mem_set_unit]
  constructor
  · intro h
    have h0 : 0 ≤ (y 0).val ∧ (y 0).val < 0 + 1 := h 0
    have h1 : 128 ≤ (y 1).val ∧ (y 1).val < 128 + 128 := h 1
    omega
  · intro h a
    match a with
    | 0 => show 0 ≤ (y 0).val ∧ (y 0).val < 0 + 1; omega
    | 1 => show 128 ≤ (y 1).val ∧ (y 1).val < 128 + 128; omega

theorem mem_lst_p_0_256 (y : S2x512.Idx) : y ∈ (lst (Memref.whole cc1_scratch1 : Memref sig Kind.scVector Space.vmem S2x512 EltTy.i32) ![0, 256] linb_0_256).view.set ↔ (y 0).val = 0 ∧ 256 ≤ (y 1).val ∧ (y 1).val < 256 + 128 := by
  rw [Memref.set_view_squeeze]
  rw [show (((Memref.whole cc1_scratch1 : Memref sig Kind.scVector Space.vmem S2x512 EltTy.i32).slice (Rect.unit (s := S2x512) ![0, 256] S1x128.size linb_0_256) (fun _ => rfl)).view.set)
    = ((View.whole cc1_scratch1).slice (Rect.unit (s := S2x512) ![0, 256] S1x128.size linb_0_256)).set from rfl, View.set_slice_whole, Rect.mem_set_unit]
  constructor
  · intro h
    have h0 : 0 ≤ (y 0).val ∧ (y 0).val < 0 + 1 := h 0
    have h1 : 256 ≤ (y 1).val ∧ (y 1).val < 256 + 128 := h 1
    omega
  · intro h a
    match a with
    | 0 => show 0 ≤ (y 0).val ∧ (y 0).val < 0 + 1; omega
    | 1 => show 256 ≤ (y 1).val ∧ (y 1).val < 256 + 128; omega

theorem mem_lst_p_0_384 (y : S2x512.Idx) : y ∈ (lst (Memref.whole cc1_scratch1 : Memref sig Kind.scVector Space.vmem S2x512 EltTy.i32) ![0, 384] linb_0_384).view.set ↔ (y 0).val = 0 ∧ 384 ≤ (y 1).val ∧ (y 1).val < 384 + 128 := by
  rw [Memref.set_view_squeeze]
  rw [show (((Memref.whole cc1_scratch1 : Memref sig Kind.scVector Space.vmem S2x512 EltTy.i32).slice (Rect.unit (s := S2x512) ![0, 384] S1x128.size linb_0_384) (fun _ => rfl)).view.set)
    = ((View.whole cc1_scratch1).slice (Rect.unit (s := S2x512) ![0, 384] S1x128.size linb_0_384)).set from rfl, View.set_slice_whole, Rect.mem_set_unit]
  constructor
  · intro h
    have h0 : 0 ≤ (y 0).val ∧ (y 0).val < 0 + 1 := h 0
    have h1 : 384 ≤ (y 1).val ∧ (y 1).val < 384 + 128 := h 1
    omega
  · intro h a
    match a with
    | 0 => show 0 ≤ (y 0).val ∧ (y 0).val < 0 + 1; omega
    | 1 => show 384 ≤ (y 1).val ∧ (y 1).val < 384 + 128; omega

theorem mem_lst_p_1_0 (y : S2x512.Idx) : y ∈ (lst (Memref.whole cc1_scratch1 : Memref sig Kind.scVector Space.vmem S2x512 EltTy.i32) ![1, 0] linb_1_0).view.set ↔ (y 0).val = 1 ∧ 0 ≤ (y 1).val ∧ (y 1).val < 0 + 128 := by
  rw [Memref.set_view_squeeze]
  rw [show (((Memref.whole cc1_scratch1 : Memref sig Kind.scVector Space.vmem S2x512 EltTy.i32).slice (Rect.unit (s := S2x512) ![1, 0] S1x128.size linb_1_0) (fun _ => rfl)).view.set)
    = ((View.whole cc1_scratch1).slice (Rect.unit (s := S2x512) ![1, 0] S1x128.size linb_1_0)).set from rfl, View.set_slice_whole, Rect.mem_set_unit]
  constructor
  · intro h
    have h0 : 1 ≤ (y 0).val ∧ (y 0).val < 1 + 1 := h 0
    have h1 : 0 ≤ (y 1).val ∧ (y 1).val < 0 + 128 := h 1
    omega
  · intro h a
    match a with
    | 0 => show 1 ≤ (y 0).val ∧ (y 0).val < 1 + 1; omega
    | 1 => show 0 ≤ (y 1).val ∧ (y 1).val < 0 + 128; omega

theorem mem_lst_p_1_128 (y : S2x512.Idx) : y ∈ (lst (Memref.whole cc1_scratch1 : Memref sig Kind.scVector Space.vmem S2x512 EltTy.i32) ![1, 128] linb_1_128).view.set ↔ (y 0).val = 1 ∧ 128 ≤ (y 1).val ∧ (y 1).val < 128 + 128 := by
  rw [Memref.set_view_squeeze]
  rw [show (((Memref.whole cc1_scratch1 : Memref sig Kind.scVector Space.vmem S2x512 EltTy.i32).slice (Rect.unit (s := S2x512) ![1, 128] S1x128.size linb_1_128) (fun _ => rfl)).view.set)
    = ((View.whole cc1_scratch1).slice (Rect.unit (s := S2x512) ![1, 128] S1x128.size linb_1_128)).set from rfl, View.set_slice_whole, Rect.mem_set_unit]
  constructor
  · intro h
    have h0 : 1 ≤ (y 0).val ∧ (y 0).val < 1 + 1 := h 0
    have h1 : 128 ≤ (y 1).val ∧ (y 1).val < 128 + 128 := h 1
    omega
  · intro h a
    match a with
    | 0 => show 1 ≤ (y 0).val ∧ (y 0).val < 1 + 1; omega
    | 1 => show 128 ≤ (y 1).val ∧ (y 1).val < 128 + 128; omega

theorem mem_lst_p_1_256 (y : S2x512.Idx) : y ∈ (lst (Memref.whole cc1_scratch1 : Memref sig Kind.scVector Space.vmem S2x512 EltTy.i32) ![1, 256] linb_1_256).view.set ↔ (y 0).val = 1 ∧ 256 ≤ (y 1).val ∧ (y 1).val < 256 + 128 := by
  rw [Memref.set_view_squeeze]
  rw [show (((Memref.whole cc1_scratch1 : Memref sig Kind.scVector Space.vmem S2x512 EltTy.i32).slice (Rect.unit (s := S2x512) ![1, 256] S1x128.size linb_1_256) (fun _ => rfl)).view.set)
    = ((View.whole cc1_scratch1).slice (Rect.unit (s := S2x512) ![1, 256] S1x128.size linb_1_256)).set from rfl, View.set_slice_whole, Rect.mem_set_unit]
  constructor
  · intro h
    have h0 : 1 ≤ (y 0).val ∧ (y 0).val < 1 + 1 := h 0
    have h1 : 256 ≤ (y 1).val ∧ (y 1).val < 256 + 128 := h 1
    omega
  · intro h a
    match a with
    | 0 => show 1 ≤ (y 0).val ∧ (y 0).val < 1 + 1; omega
    | 1 => show 256 ≤ (y 1).val ∧ (y 1).val < 256 + 128; omega

theorem mem_lst_p_1_384 (y : S2x512.Idx) : y ∈ (lst (Memref.whole cc1_scratch1 : Memref sig Kind.scVector Space.vmem S2x512 EltTy.i32) ![1, 384] linb_1_384).view.set ↔ (y 0).val = 1 ∧ 384 ≤ (y 1).val ∧ (y 1).val < 384 + 128 := by
  rw [Memref.set_view_squeeze]
  rw [show (((Memref.whole cc1_scratch1 : Memref sig Kind.scVector Space.vmem S2x512 EltTy.i32).slice (Rect.unit (s := S2x512) ![1, 384] S1x128.size linb_1_384) (fun _ => rfl)).view.set)
    = ((View.whole cc1_scratch1).slice (Rect.unit (s := S2x512) ![1, 384] S1x128.size linb_1_384)).set from rfl, View.set_slice_whole, Rect.mem_set_unit]
  constructor
  · intro h
    have h0 : 1 ≤ (y 0).val ∧ (y 0).val < 1 + 1 := h 0
    have h1 : 384 ≤ (y 1).val ∧ (y 1).val < 384 + 128 := h 1
    omega
  · intro h a
    match a with
    | 0 => show 1 ≤ (y 0).val ∧ (y 0).val < 1 + 1; omega
    | 1 => show 384 ≤ (y 1).val ∧ (y 1).val < 384 + 128; omega

/-- Slot 0 whole again: what was left in hand of it, its first quarter and its last, all at the same contents. -/
theorem slot0_assemble_p (f : Buf (Elt F) ((Memref.whole cc1_scratch1 : Memref sig Kind.scVector Space.vmem S2x512 EltTy.i32).view.loc (thr d L))) :
    iprop(((Memref.whole cc1_scratch1 : Memref sig Kind.scVector Space.vmem S2x512 EltTy.i32).view.loc (thr d L) ↦[((Finset.univ \ (slot1 (Memref.whole cc1_scratch1 : Memref sig Kind.scVector Space.vmem S2x512 EltTy.i32)).view.set) \ (lst (Memref.whole cc1_scratch1 : Memref sig Kind.scVector Space.vmem S2x512 EltTy.i32) ![0, 0] linb_0_0).view.set) \ (lst (Memref.whole cc1_scratch1 : Memref sig Kind.scVector Space.vmem S2x512 EltTy.i32) ![0, 384] linb_0_384).view.set]{fullShare} f)
        ∗ ((lst (Memref.whole cc1_scratch1 : Memref sig Kind.scVector Space.vmem S2x512 EltTy.i32) ![0, 0] linb_0_0).view.loc (thr d L) ↦[(lst (Memref.whole cc1_scratch1 : Memref sig Kind.scVector Space.vmem S2x512 EltTy.i32) ![0, 0] linb_0_0).view.set]{fullShare} f)
        ∗ ((Memref.whole cc1_scratch1 : Memref sig Kind.scVector Space.vmem S2x512 EltTy.i32).view.loc (thr d L) ↦[(lst (Memref.whole cc1_scratch1 : Memref sig Kind.scVector Space.vmem S2x512 EltTy.i32) ![0, 384] linb_0_384).view.set]{fullShare} f))
      ⊢ ((slot0 (Memref.whole cc1_scratch1 : Memref sig Kind.scVector Space.vmem S2x512 EltTy.i32)).view.loc (thr d L) ↦[(slot0 (Memref.whole cc1_scratch1 : Memref sig Kind.scVector Space.vmem S2x512 EltTy.i32)).view.set]{fullShare} f : sProp 𝕄) := by
  rw [slot0_eq_compl_p]
  refine assemble3 (F := F) (ℓ := (Memref.whole cc1_scratch1 : Memref sig Kind.scVector Space.vmem S2x512 EltTy.i32).view.loc (thr d L)) _ _ _ f ?_ ?_
  · intro y hy
    have h := (mem_lst_p_0_0 y).mp hy
    refine Finset.mem_sdiff.mpr ⟨Finset.mem_univ _, fun ho => ?_⟩
    have h2 := (mem_slot1_p y).mp ho
    omega
  · intro y hy
    have h := (mem_lst_p_0_384 y).mp hy
    refine Finset.mem_sdiff.mpr ⟨Finset.mem_sdiff.mpr ⟨Finset.mem_univ _, fun ho => ?_⟩, fun ho => ?_⟩
    · have h2 := (mem_slot1_p y).mp ho
      omega
    · have h2 := (mem_lst_p_0_0 y).mp ho
      omega

/-- Slot 1 whole again: what was left in hand of it, its first quarter and its last, all at the same contents. -/
theorem slot1_assemble_p (f : Buf (Elt F) ((Memref.whole cc1_scratch1 : Memref sig Kind.scVector Space.vmem S2x512 EltTy.i32).view.loc (thr d L))) :
    iprop(((Memref.whole cc1_scratch1 : Memref sig Kind.scVector Space.vmem S2x512 EltTy.i32).view.loc (thr d L) ↦[((Finset.univ \ (slot0 (Memref.whole cc1_scratch1 : Memref sig Kind.scVector Space.vmem S2x512 EltTy.i32)).view.set) \ (lst (Memref.whole cc1_scratch1 : Memref sig Kind.scVector Space.vmem S2x512 EltTy.i32) ![1, 0] linb_1_0).view.set) \ (lst (Memref.whole cc1_scratch1 : Memref sig Kind.scVector Space.vmem S2x512 EltTy.i32) ![1, 384] linb_1_384).view.set]{fullShare} f)
        ∗ ((lst (Memref.whole cc1_scratch1 : Memref sig Kind.scVector Space.vmem S2x512 EltTy.i32) ![1, 0] linb_1_0).view.loc (thr d L) ↦[(lst (Memref.whole cc1_scratch1 : Memref sig Kind.scVector Space.vmem S2x512 EltTy.i32) ![1, 0] linb_1_0).view.set]{fullShare} f)
        ∗ ((Memref.whole cc1_scratch1 : Memref sig Kind.scVector Space.vmem S2x512 EltTy.i32).view.loc (thr d L) ↦[(lst (Memref.whole cc1_scratch1 : Memref sig Kind.scVector Space.vmem S2x512 EltTy.i32) ![1, 384] linb_1_384).view.set]{fullShare} f))
      ⊢ ((slot1 (Memref.whole cc1_scratch1 : Memref sig Kind.scVector Space.vmem S2x512 EltTy.i32)).view.loc (thr d L) ↦[(slot1 (Memref.whole cc1_scratch1 : Memref sig Kind.scVector Space.vmem S2x512 EltTy.i32)).view.set]{fullShare} f : sProp 𝕄) := by
  rw [slot1_eq_compl_p]
  refine assemble3 (F := F) (ℓ := (Memref.whole cc1_scratch1 : Memref sig Kind.scVector Space.vmem S2x512 EltTy.i32).view.loc (thr d L)) _ _ _ f ?_ ?_
  · intro y hy
    have h := (mem_lst_p_1_0 y).mp hy
    refine Finset.mem_sdiff.mpr ⟨Finset.mem_univ _, fun ho => ?_⟩
    have h2 := (mem_slot0_p y).mp ho
    omega
  · intro y hy
    have h := (mem_lst_p_1_384 y).mp hy
    refine Finset.mem_sdiff.mpr ⟨Finset.mem_sdiff.mpr ⟨Finset.mem_univ _, fun ho => ?_⟩, fun ho => ?_⟩
    · have h2 := (mem_slot0_p y).mp ho
      omega
    · have h2 := (mem_lst_p_1_0 y).mp ho
      omega

end Cert.Kernel.Run.Sc

end
-- ==== Proof.ScTileBits.lean ====
/-
  The tile's task: the body obligation of the SparseCore kernel at a symbolic tile, for all 32 at once, and its
  form as the launch theorem takes it.
-/
import proofs.«204385_g66649302499670_cont_9to1c4b_43_34_alg».proof.Proof.ScLoopBits
import proofs.«204385_g66649302499670_cont_9to1c4b_43_34_alg».proof.Proof.ScOutBookBits
import proofs.«204385_g66649302499670_cont_9to1c4b_43_34_alg».proof.Proof.ScPrologFactsBits
import proofs.«204385_g66649302499670_cont_9to1c4b_43_34_alg».proof.Proof.ScJoinBits
import proofs.«204385_g66649302499670_cont_9to1c4b_43_34_alg».proof.Proof.ScSlotsBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F] (A : Vals F)

/-- The flat id arrays name rows of the tables. -/
def IdsOK : Prop := (∀ d (j : S819200.Idx), (A.eid d j).toNat < 100000) ∧ (∀ d (j : S819200.Idx), (A.pid d j).toNat < 1000)

section Body
variable (d : Dev nD) (L : grid1.Coords)

omit [FloatOps F] in
theorem h0_50 : 0 < 50 := by omega

/-- The gathers' part of the invariant at the loop's entry. -/
theorem gather_init (q1 q2 r1 r2 : PosShare TreeShare)
    (e : Buf (Elt F) ((eixV).view.loc (thr d L))) (p : Buf (Elt F) ((pixV).view.loc (thr d L)))
    (hL : ListsOK0 d L e p) (hS : SlotVals0 A d L e p 0 h0_50) :
    iprop((∃ fe, flightE A d L 10 (hlf0 ebV) (lst eixV ![0, 0] linb_0_0) q1 fe e hL.1)
        ∗ (∃ fe, flightE A d L 11 (hlf1 ebV) (lst eixV ![0, 128] linb_0_128) q2 fe e hL.2.1)
        ∗ (∃ fp, flightP A d L 12 (hlf0 pbV) (lst pixV ![0, 0] linb_0_0) r1 fp p hL.2.2.1)
        ∗ (∃ fp, flightP A d L 13 (hlf1 pbV) (lst pixV ![0, 128] linb_0_128) r2 fp p hL.2.2.2)
        ∗ teRest A d L q1 ∗ teRest A d L q2 ∗ shRest A d L r1 ∗ shRest A d L r2
        ∗ ((slot0 eixV).view.loc (thr d L) ↦[((slot0 eixV).view.set \ (lst eixV ![0, 0] linb_0_0).view.set) \ (lst eixV ![0, 128] linb_0_128).view.set]{fullShare} e)
        ∗ ((slot0 pixV).view.loc (thr d L) ↦[((slot0 pixV).view.set \ (lst pixV ![0, 0] linb_0_0).view.set) \ (lst pixV ![0, 128] linb_0_128).view.set]{fullShare} p)
        ∗ (∃ f, (ebV).view.loc (thr d L) ↦[(Finset.univ \ (hlf0 ebV).view.set) \ (hlf1 ebV).view.set]{fullShare} f)
        ∗ (∃ f, (pbV).view.loc (thr d L) ↦[(Finset.univ \ (hlf0 pbV).view.set) \ (hlf1 pbV).view.set]{fullShare} f))
      ⊢ gatherPart A d L q1 q2 r1 r2 0 := by
  unfold gatherPart gatherPart0
  rw [if_pos (show 0 % 2 = 0 from rfl), dif_pos h0_50]
  iintro H
  iexists e, p, ⟨hL⟩
  isplitr; · ipureintro; exact hS
  iexact H

omit [FloatOps F] in
/-- The id scratch's rest at the loop's entry, by slot: slot 0 minus the two lists in flight, slot 1 whole. -/
theorem eix_entry_split (e : Buf (Elt F) ((eixV).view.loc (thr d L))) :
    ((eixV).view.loc (thr d L) ↦[(Finset.univ \ (lst eixV ![0, 0] linb_0_0).view.set) \ (lst eixV ![0, 128] linb_0_128).view.set]{fullShare} e : sProp 𝕄)
      ⊢ iprop(((slot0 eixV).view.loc (thr d L) ↦[((slot0 eixV).view.set \ (lst eixV ![0, 0] linb_0_0).view.set) \ (lst eixV ![0, 128] linb_0_128).view.set]{fullShare} e)
          ∗ ((slot1 eixV).view.loc (thr d L) ↦[(slot1 eixV).view.set]{fullShare} e)) := by
  have hsub : (slot1 eixV).view.set ⊆ (Finset.univ \ (lst eixV ![0, 0] linb_0_0).view.set) \ (lst eixV ![0, 128] linb_0_128).view.set := by
    intro (y : S2x512.Idx) hy
    have h1 := (mem_slot1_e y).mp hy
    refine Finset.mem_sdiff.mpr ⟨Finset.mem_sdiff.mpr ⟨Finset.mem_univ _, fun h => ?_⟩, fun h => ?_⟩
    · have := (mem_lst_e_0_0 y).mp h; omega
    · have := (mem_lst_e_0_128 y).mp h; omega
  have hset : ((Finset.univ \ (lst eixV ![0, 0] linb_0_0).view.set) \ (lst eixV ![0, 128] linb_0_128).view.set) \ (slot1 eixV).view.set
      = ((slot0 eixV).view.set \ (lst eixV ![0, 0] linb_0_0).view.set) \ (lst eixV ![0, 128] linb_0_128).view.set := by
    ext (y : S2x512.Idx)
    have hy2 : (y 0).val < 2 := (y 0).isLt
    constructor
    · intro h
      obtain ⟨h12, hn1⟩ := Finset.mem_sdiff.mp h
      obtain ⟨h0, hn128⟩ := Finset.mem_sdiff.mp h12
      obtain ⟨_, hn0⟩ := Finset.mem_sdiff.mp h0
      refine Finset.mem_sdiff.mpr ⟨Finset.mem_sdiff.mpr ⟨(mem_slot0_e y).mpr ?_, hn0⟩, hn128⟩
      by_contra hne
      exact hn1 ((mem_slot1_e y).mpr (by omega))
    · intro h
      obtain ⟨h0, hn128⟩ := Finset.mem_sdiff.mp h
      obtain ⟨hs0, hn0⟩ := Finset.mem_sdiff.mp h0
      have hz := (mem_slot0_e y).mp hs0
      refine Finset.mem_sdiff.mpr ⟨Finset.mem_sdiff.mpr ⟨Finset.mem_sdiff.mpr ⟨Finset.mem_univ _, hn0⟩, hn128⟩, fun h1 => ?_⟩
      have := (mem_slot1_e y).mp h1
      omega
  refine (pointsTo_split_subset hsub).1.trans ?_
  rw [hset]
  exact BI.sep_comm

omit [FloatOps F] in
/-- The id scratch's rest at the loop's entry, by slot: slot 0 minus the two lists in flight, slot 1 whole. -/
theorem pix_entry_split (e : Buf (Elt F) ((pixV).view.loc (thr d L))) :
    ((pixV).view.loc (thr d L) ↦[(Finset.univ \ (lst pixV ![0, 0] linb_0_0).view.set) \ (lst pixV ![0, 128] linb_0_128).view.set]{fullShare} e : sProp 𝕄)
      ⊢ iprop(((slot0 pixV).view.loc (thr d L) ↦[((slot0 pixV).view.set \ (lst pixV ![0, 0] linb_0_0).view.set) \ (lst pixV ![0, 128] linb_0_128).view.set]{fullShare} e)
          ∗ ((slot1 pixV).view.loc (thr d L) ↦[(slot1 pixV).view.set]{fullShare} e)) := by
  have hsub : (slot1 pixV).view.set ⊆ (Finset.univ \ (lst pixV ![0, 0] linb_0_0).view.set) \ (lst pixV ![0, 128] linb_0_128).view.set := by
    intro (y : S2x512.Idx) hy
    have h1 := (mem_slot1_p y).mp hy
    refine Finset.mem_sdiff.mpr ⟨Finset.mem_sdiff.mpr ⟨Finset.mem_univ _, fun h => ?_⟩, fun h => ?_⟩
    · have := (mem_lst_p_0_0 y).mp h; omega
    · have := (mem_lst_p_0_128 y).mp h; omega
  have hset : ((Finset.univ \ (lst pixV ![0, 0] linb_0_0).view.set) \ (lst pixV ![0, 128] linb_0_128).view.set) \ (slot1 pixV).view.set
      = ((slot0 pixV).view.set \ (lst pixV ![0, 0] linb_0_0).view.set) \ (lst pixV ![0, 128] linb_0_128).view.set := by
    ext (y : S2x512.Idx)
    have hy2 : (y 0).val < 2 := (y 0).isLt
    constructor
    · intro h
      obtain ⟨h12, hn1⟩ := Finset.mem_sdiff.mp h
      obtain ⟨h0, hn128⟩ := Finset.mem_sdiff.mp h12
      obtain ⟨_, hn0⟩ := Finset.mem_sdiff.mp h0
      refine Finset.mem_sdiff.mpr ⟨Finset.mem_sdiff.mpr ⟨(mem_slot0_p y).mpr ?_, hn0⟩, hn128⟩
      by_contra hne
      exact hn1 ((mem_slot1_p y).mpr (by omega))
    · intro h
      obtain ⟨h0, hn128⟩ := Finset.mem_sdiff.mp h
      obtain ⟨hs0, hn0⟩ := Finset.mem_sdiff.mp h0
      have hz := (mem_slot0_p y).mp hs0
      refine Finset.mem_sdiff.mpr ⟨Finset.mem_sdiff.mpr ⟨Finset.mem_sdiff.mpr ⟨Finset.mem_univ _, hn0⟩, hn128⟩, fun h1 => ?_⟩
      have := (mem_slot1_p y).mp h1
      omega
  refine (pointsTo_split_subset hsub).1.trans ?_
  rw [hset]
  exact BI.sep_comm

/-- The result's part of the invariant at the loop's entry: the slab as its 200 chunks, nothing in flight. -/
theorem out_init :
    iprop(slabPts d (widL L) (A.out0 d) ∗ (∃ f, (obV).view.loc (thr d L) ↦{fullShare} f) ∗ semVal (cellOf d L 14) 0 ∗ semVal (cellOf d L 15) 0)
      ⊢ outPart A d L 0 := by
  rw [outPart_chunks, dif_neg (show ¬ (1 ≤ 0 ∧ 0 ≤ 50) by omega), chunks_entry]

end Body

set_option maxHeartbeats 4000000 in
/-- The task on vector subcore `(L 0, L 1)` of device `d`, given that a trip of the loop keeps the invariant. -/
theorem tile_body (hF : (K (F := F)).Facts) (hIds : IdsOK A) (d : Dev nD) (L : grid1.Coords)
    (htrip : ∀ (q1 q2 r1 r2 qi : PosShare TreeShare) (O' : CellTallies nD τ sig (HIx 1)) (W' : Waits sig (HIx 1)) (v2 : BitVec 32),
      TripOK A d L q1 q2 r1 r2 qi O' W' v2)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit A d (cV L) (jV L) ∗ goRes A d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ (tileProg (F := F) L)
          fun _ => iprop(tdRes A d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  show _ ⊢ wp _ _ _ (cc1_k (F := F) L teV (Memref.isWhole_whole _) tpV (Memref.isWhole_whole _) eidV (Memref.isWhole_whole _) pidV (Memref.isWhole_whole _) outV (Memref.isWhole_whole _) eixV (Memref.isWhole_whole _) pixV (Memref.isWhole_whole _) ebV (Memref.isWhole_whole _) pbV (Memref.isWhole_whole _) obV (Memref.isWhole_whole _) shV (Memref.isWhole_whole _) cc1_scratch6 cc1_scratch7 cc1_scratch8 cc1_scratch9 cc1_scoped0 cc1_scoped1 cc1_scoped2) _
  rw [cc1_k_eq_skeleton]; unfold cc1_k_skel
  rw [wp_bind]
  rw [(K (F := F)).scopedBufs_V hF d (cV L) (jV L), SparseCore.Cfg.scopedSems0_V (Val := Elt F) d (cV L) (jV L), ownSems0_V, ownBufs_V]
  unfold goRes tdRes
  iintro ⟨#Hlv, Hkit, ⟨⟨Hte, Htp, Heid, Hpid⟩, Hslab, Hsh0⟩, ⟨⟨⟨%f7, Heix⟩, ⟨%f8, Hpix⟩, ⟨%fe, Heb⟩, ⟨%fp, Hpb⟩, ⟨%fo, Hob⟩⟩, Hbufs⟩, ⟨⟨Hs8, Hs9, Hs10, Hs11, Hs12, Hs13, Hs14, Hs15, Hs16, Hs17, Hs18⟩, Hsems⟩, HO⟩
  -- the first part: staging, barrier, first ids
  iapply (wp_wand_r frame _ Set.univ)
  isplitl [Hkit Htp Heid Hpid Hsh0 Heix Hpix Hs16 Hs17 Hs18 HO]
  · iapply (part50_run A d L hF (qTile (cL L) (jL L)) O W hO hOlev f7 f8)
    isplitr; · iexact Hlv
    isplitl [Hkit]; · iexact Hkit
    isplitl [Htp]; · iexact Htp
    isplitl [Heid]; · iexact Heid
    isplitl [Hpid]; · iexact Hpid
    isplitl [Hsh0]; · iexact Hsh0
    isplitl [Heix]; · iexact Heix
    isplitl [Hpix]; · iexact Hpix
    isplitl [Hs16]; · iexact Hs16
    isplitl [Hs17]; · iexact Hs17
    isplitl [Hs18]; · iexact Hs18
    iexact HO
  iintro %v2 H50
  icases H50 with ⟨Htp, Heid, Hpid, Hsh, Hshr, Heix, Hpix, Hs16, Hs17, Hs18, ⟨%W1, %hW1, HO⟩⟩
  -- the first ids name rows of the tables, and are trip 0's
  have hL : ListsOK0 d L (View.write (Elt F) (slot0 eixV).view f7 (idsPay d L eidV (A.eid d) (k1_off1 L) (k1_off1_inb L)) Finset.univ)
      (View.write (Elt F) (slot0 pixV).view f8 (idsPay d L pidV (A.pid d) (k1_off1 L) (k1_off1_inb L)) Finset.univ) :=
    ⟨prolog_inE A d L (hIds.1 d) 0 (by omega) linb_0_0 f7, prolog_inE A d L (hIds.1 d) 128 (by omega) linb_0_128 f7,
      prolog_inP A d L (hIds.2 d) 0 (by omega) linb_0_0 f8, prolog_inP A d L (hIds.2 d) 128 (by omega) linb_0_128 f8⟩
  have hS : SlotVals0 A d L (View.write (Elt F) (slot0 eixV).view f7 (idsPay d L eidV (A.eid d) (k1_off1 L) (k1_off1_inb L)) Finset.univ)
      (View.write (Elt F) (slot0 pixV).view f8 (idsPay d L pidV (A.pid d) (k1_off1 L) (k1_off1_inb L)) Finset.univ) 0 h0_50 :=
    ⟨prolog_slotE_eq A d L (idsOff L 0) (by show _ + 512 * 0 = _; omega) (idsInb L 0 h0_50) f7,
      prolog_slotP_eq A d L (idsOff L 0) (by show _ + 512 * 0 = _; omega) (idsInb L 0 h0_50) f8⟩
  ihave Hmw := (show levAts (K (F := F)).L (K (F := F)).lev ⊢ Transfers.MayWaits (thr d L) (default : HIx 1) O from
    (K (F := F)).mayWaits_none (thr := thr d L) hO) $$ Hlv
  -- the table shares halved: two gathers of each table are in flight at once
  ihave Hte2 := (pointsTo_share (ℓ := (teV).view.loc (thr d L)) (I := Finset.univ) (f := A.te d) (PosShare.mem_left_op_right (qTile (cL L) (jL L)))).1 $$ [Hte]
  · iexact Hte
  icases Hte2 with ⟨Hte1, Hte2⟩
  ihave Hsh2 := (pointsTo_share (ℓ := (shV).view.loc (thr d L)) (I := Finset.univ) (f := shVal A d (cV L)) (PosShare.mem_left_op_right (shareTok fullShare 16 (jL L)))).1 $$ [Hsh]
  · iexact Hsh
  icases Hsh2 with ⟨Hsh1, Hsh2⟩
  -- the second part: the gathers of chunks 0 and 1
  rw [wp_bind]
  iapply (wp_wand_r frame _ Set.univ)
  isplitl [Hte1 Hte2 Hsh1 Hsh2 Heix Hpix Heb Hpb Hs10 Hs11 Hs12 Hs13 HO]
  · iapply (part51_run A d L (qTile (cL L) (jL L)).left (qTile (cL L) (jL L)).right (shareTok fullShare 16 (jL L)).left (shareTok fullShare 16 (jL L)).right
        O W1 v2 _ _ fe fp hL.1 hL.2.1 hL.2.2.1 hL.2.2.2)
    isplitr; · iexact Hmw
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexact Heb
    isplitl [Hpb]; · iexact Hpb
    isplitl [Hs10]; · iexact Hs10
    isplitl [Hs11]; · iexact Hs11
    isplitl [Hs12]; · iexact Hs12
    isplitl [Hs13]; · iexact Hs13
    iexact HO
  iintro %_ H51
  icases H51 with ⟨HF10, HF12, ⟨%fe1, HF11⟩, ⟨%fp1, HF13⟩, Hter1, Hter2, Hshr1, Hshr2, Heixr, Hpixr, Hebr, Hpbr, HO⟩
  -- the id scratches' rests by slot: slot 0's to the gathers' part of the invariant, slot 1 whole to the prefetch
  ihave He := (eix_entry_split (F := F) d L _) $$ [Heixr]
  · iexact Heixr
  icases He with ⟨Heix0, Heix1⟩
  ihave Hp := (pix_entry_split (F := F) d L _) $$ [Hpixr]
  · iexact Hpixr
  icases Hp with ⟨Hpix0, Hpix1⟩
  ihave HG := (gather_init A d L (qTile (cL L) (jL L)).left (qTile (cL L) (jL L)).right (shareTok fullShare 16 (jL L)).left (shareTok fullShare 16 (jL L)).right _ _ hL hS) $$ [HF10 HF11 HF12 HF13 Hter1 Hter2 Hshr1 Hshr2 Heix0 Hpix0 Hebr Hpbr]
  · isplitl [HF10]; · iexists _; iexact HF10
    isplitl [HF11]; · iexists _; iexact HF11
    isplitl [HF12]; · iexists _; iexact HF12
    isplitl [HF13]; · iexists _; iexact HF13
    isplitl [Hter1]; · iexact Hter1
    isplitl [Hter2]; · iexact Hter2
    isplitl [Hshr1]; · iexact Hshr1
    isplitl [Hshr2]; · iexact Hshr2
    isplitl [Heix0]; · iexact Heix0
    isplitl [Hpix0]; · iexact Hpix0
    isplitl [Hebr]; · iexact Hebr
    iexact Hpbr
  ihave HOut := (out_init A d L) $$ [Hslab Hob Hs14 Hs15]
  · isplitl [Hslab]; · iexact Hslab
    isplitl [Hob]; · iexists _; iexact Hob
    isplitl [Hs14]; · iexact Hs14
    iexact Hs15
  -- the third part: the prefetch, the loop, the first final wait
  rw [wp_bind]
  iapply (wp_wand_r frame _ Set.univ)
  isplitl [HG HOut Heid Hpid Heix1 Hpix1 Hs8 Hs9 HO]
  · iapply (part52_run A d L (qTile (cL L) (jL L)).left (qTile (cL L) (jL L)).right (shareTok fullShare 16 (jL L)).left (shareTok fullShare 16 (jL L)).right (qTile (cL L) (jL L)) O W1 v2 (htrip _ _ _ _ _ _ _ _))
    isplitr; · iexact Hmw
    isplitl [HG]; · iexact HG
    isplitl [HOut]; · iexact HOut
    isplitl [Heid]; · iexact Heid
    isplitl [Hpid]; · iexact Hpid
    isplitl [Heix1]; · iexists _; iexact Heix1
    isplitl [Hpix1]; · iexists _; iexact Hpix1
    isplitl [Hs8]; · iexact Hs8
    isplitl [Hs9]; · iexact Hs9
    iexact HO
  iintro %_ H52
  -- what remains: the wait for chunk 199's copy-out; then the slab from its 200 chunks, the shares rejoined, the scratch
  -- buffers whole again and the eleven cells at zero
  unfold after52E
  icases H52 with ⟨%n, %hn, %hn50, H52⟩
  obtain ⟨hn⟩ := hn
  subst hn50
  unfold after52K exitRest gatherPart idsPart
  rw [if_pos (show 50 % 2 = 0 from rfl), if_pos (show 50 % 2 = 0 from rfl)]
  unfold gatherPart0 idsPart1
  rw [dif_neg (show ¬ 50 < 50 by omega), dif_neg (show ¬ 50 + 1 < 50 by omega)]
  icases H52 with ⟨⟨HG, HI, Hch, ⟨%fo1, HF15⟩, ⟨%fR, HobR⟩⟩, Hc198, ⟨%fo0, Hob0⟩, Hs14, ⟨%W2, %hW2, HO⟩⟩
  icases HG with ⟨Hte1, Hte2, Hsh1, Hsh2, Hex0, Hpx0, Heb, Hpb, Hs10, Hs11, Hs12, Hs13⟩
  icases HI with ⟨Heid, Hpid, Hex1, Hpx1, Hs8, Hs9⟩
  sl_exec
  sl_step
  have h198 : 198 < 200 := by decide
  have h199 : 199 < 200 := by decide
  -- the inputs' shares, the slab, the scratch's share
  isplitl [Hte1 Hte2 Htp Heid Hpid Hch Hc198 HF15_dst Hsh1 Hsh2 Hshr]
  · isplitl [Hte1 Hte2 Htp Heid Hpid]
    · unfold reads
      isplitl [Hte1 Hte2]
      · iapply (pointsTo_share (PosShare.mem_left_op_right _)).2; isplitl [Hte1] <;> iassumption
      isplitl [Htp]; · iexact Htp
      isplitl [Heid]; · iexact Heid
      iexact Hpid
    isplitl [Hch Hc198 HF15_dst]
    · iapply (Entails.of_eq (chunks_exit A d L h198 h199))
      isplitl [Hch]; · iexact Hch
      isplitl [Hc198]
      · iapply (Entails.of_eq (chunkPt_congr d L (show 4 * 50 - 2 = 198 from rfl) _ h198 (outFin A d))); iexact Hc198
      · ihave Hc199 := (Entails.of_eq (chunkPt_eq d L (4 * 50 - 1) _ (outFin A d)).symm) $$ HF15_dst
        iapply (Entails.of_eq (chunkPt_congr d L (show 4 * 50 - 1 = 199 from rfl) _ h199 (outFin A d))); iexact Hc199
    isplitl [Hsh1 Hsh2]
    · unfold shTok
      iapply (pointsTo_share (PosShare.mem_left_op_right _)).2
      isplitl [Hsh1]; · iexact Hsh1
      iexact Hsh2
    iexact Hshr
  -- the five scratch buffers whole
  isplitl [Hex0 Hex1 Hpx0 Hpx1 Heb Hpb Hob0 HF15_src HobR Hbufs]
  · isplitl [Hex0 Hex1 Hpx0 Hpx1 Heb Hpb Hob0 HF15_src HobR]
    · isplitl [Hex0 Hex1]
      · iapply (slots_join_ex (F := F) d L eixV (Memref.isWhole_whole _)); isplitl [Hex0] <;> iassumption
      isplitl [Hpx0 Hpx1]
      · iapply (slots_join_ex (F := F) d L pixV (Memref.isWhole_whole _)); isplitl [Hpx0] <;> iassumption
      isplitl [Heb]; · iexact Heb
      isplitl [Hpb]; · iexact Hpb
      iapply (halves_join_ex (F := F) d L obV)
      isplitl [HobR]; · iexists _; iexact HobR
      isplitl [Hob0]; · iexists _; iexact Hob0
      iexists _; iexact HF15_src
    iexact Hbufs
  -- the eleven cells
  isplitl [Hs8 Hs9 Hs10 Hs11 Hs12 Hs13 Hs14 HF15 Hs16 Hs17 Hs18 Hsems]
  · isplitl [Hs8 Hs9 Hs10 Hs11 Hs12 Hs13 Hs14 HF15 Hs16 Hs17 Hs18]
    · isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [HF15]; · iexact HF15
      isplitl [Hs16]; · iexact Hs16
      isplitl [Hs17]; · iexact Hs17
      iexact Hs18
    iexact Hsems
  iexists _; isplitr
  swap; · iexact HO
  ipureintro; intro p hp
  rcases Finset.mem_insert.mp hp with hp | hp
  · exact .inr (.inl (hp ▸ rfl))
  · rcases hW2 p hp with h | h
    · exact hW1 p h
    · exact .inr (.inl h)

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => tileProg (F := F) (coordsV c s)) ⟨⟩ c s := rfl

set_option maxRecDepth 16384 in
theorem tileObl (hF : (K (F := F)).Facts) (hIds : IdsOK A)
    (htrip : ∀ (d : Dev nD) (L : grid1.Coords) (q1 q2 r1 r2 qi : PosShare TreeShare) (O' : CellTallies nD τ sig (HIx 1)) (W' : Waits sig (HIx 1)) (v2 : BitVec 32),
      TripOK A d L q1 q2 r1 r2 qi O' W' v2) :
    (K (F := F)).TileObl (D (F := F)) 𝒱 (P A) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A hF hIds d (coordsV ⟨_, hci.1⟩ ⟨_, hci.2⟩) (htrip d _) O W hO hOlev

end Cert.Kernel.Run.Sc

end
-- ==== Proof.AddSpec.lean ====
/-
  The inner add loops of the tile kernel: vocabulary and the arithmetic of one trip.

  A trip of an add loop stores, for four rows `4k … 4k+3` of one half `bb` of the output chunk buffer and the eight
  16-lane slices of each, the lane sum of the same slice of the two input chunk buffers. This module names the element
  sum, the contents "rows below `n` of half `bb` hold the sum, everything else is as before", and proves that thirty-two
  unmasked writes whose rectangles are the trip's slots and whose payloads are the slot's sums take the contents at
  `4k` rows to the contents at `4(k+1)` rows.
-/
import proofs.«204385_g66649302499670_cont_9to1c4b_43_34_alg».proof.Proof.SetupIdeal
import Idealize.ShloMosaic.Lib.Writes
import Idealize.ShloMosaic.Lib.Pipeline.Value

noncomputable section

namespace Cert.KernelIdeal.Run.Add

open Cert.KernelIdeal Cert.KernelIdeal.Gen
open Idealize.ShloMosaic
open Idealize.ShloMosaic.SparseCore (S V T)
open Idealize.SL Idealize.SL.RA Idealize.SL.BI
open scoped Idealize.SL.BI

variable {F : FTy → Type} [FloatOps F]

/-! ## The buffers and the thread -/

/-- The tile at grid coordinates `i` of device `d`. -/
abbrev thr (d : Dev nD) (i : grid1.Coords) : Thread nD τ := V d ((i 0).castLE hcore1) ((i 1).castLE hsub1)

/-- The three chunk buffers of a tile: the gathered element rows, the gathered property rows, the sums. -/
abbrev A9 : Memref sig .scVector .vmem S2x128x128 .f32 := Memref.whole cc1_scratch2
abbrev A10 : Memref sig .scVector .vmem S2x128x128 .f32 := Memref.whole cc1_scratch3
abbrev A11 : Memref sig .scVector .vmem S2x128x128 .f32 := Memref.whole cc1_scratch4

/-- Half 0 and half 1 of a chunk buffer, as the program slices them for a transfer. -/
abbrev win0 (A : Memref sig .scVector .vmem S2x128x128 .f32) : Memref sig .scVector .vmem S128x128 .f32 :=
  (A.slice (Rect.unit (s := S2x128x128) ![0, 0, 0] S1x128x128.size inb_S2x128x128_S1x128x128_0_0_0) (fun _ => rfl)).squeeze S128x128 squeezes_S1x128x128_S128x128
abbrev win1 (A : Memref sig .scVector .vmem S2x128x128 .f32) : Memref sig .scVector .vmem S128x128 .f32 :=
  (A.slice (Rect.unit (s := S2x128x128) ![1, 0, 0] S1x128x128.size inb_S2x128x128_S1x128x128_1_0_0) (fun _ => rfl)).squeeze S128x128 squeezes_S1x128x128_S128x128

/-! ## The sums -/

/-- The sum of two elements as the lane add computes it. -/
def addE (a b : Elt F .f32) : Elt F .f32 := FloatOps.addf (F := F) (φ := .f32) a b

theorem addf_apply {s : Shape} (x y : FVec F s .f32) (j : s.Idx) : addf x y j = addE (x j) (y j) := rfl

/-- Rows below `n` of half `bb` hold the sum; every other element is `fo`'s. -/
def sumRows (fe fp fo : Vec F S2x128x128 .f32) (bb n : ℕ) : Vec F S2x128x128 .f32 :=
  fun y => if (y 0).val = bb ∧ (y 1).val < n then addE (fe y) (fp y) else fo y

/-- Half `bb` holds the sum; the other half is `fo`'s. -/
def sumHalf (fe fp fo : Vec F S2x128x128 .f32) (bb : ℕ) : Vec F S2x128x128 .f32 :=
  fun y => if (y 0).val = bb then addE (fe y) (fp y) else fo y

theorem sumRows_zero (fe fp fo : Vec F S2x128x128 .f32) (bb : ℕ) : sumRows fe fp fo bb 0 = fo := by
  funext y; simp [sumRows]

theorem sumRows_full (fe fp fo : Vec F S2x128x128 .f32) (bb : ℕ) : sumRows fe fp fo bb 128 = sumHalf fe fp fo bb := by
  funext y
  have h1 : (y 1).val < 128 := (y 1).isLt
  simp [sumRows, sumHalf, h1]

/-! ## One slot's payload -/

open Lean Elab Tactic Meta in
/-- Unfold, in the goal, the printed payload functions (`k1_payN`) to their bodies. -/
elab "unfold_pays" : tactic => do
  let g ← getMainGoal
  let isPay (n : Name) : Bool := match n with | .str _ last => last.startsWith "k1_pay" | _ => false
  let mut t ← instantiateMVars (← g.getType)
  for _ in [0:4] do
    let t' ← Meta.deltaExpand t isPay
    if t' == t then break
    t := t'
  replaceMainGoal [← g.replaceTargetDefEq t]

/-- The lane add between the two shape casts reads, lane by lane, the element sum. -/
theorem cast_add_cast (ve vp : Vec F S1x1x16 .f32) (h1 : S1x1x16.ShapeCasts S16) (h2 : S16.ShapeCasts S1x1x16) (x : S1x1x16.Idx) :
    shapeCast S1x1x16 (addf (φ := .f32) (shapeCast S16 ve h1) (shapeCast S16 vp h1)) h2 x = addE (ve x) (vp x) := by
  have e : ∀ v : Vec F S1x1x16 .f32, shapeCast S1x1x16 (shapeCast S16 v h1) h2 = v := fun v => shapeCast_shapeCast v h1 h2
  show addE (shapeCast S1x1x16 (shapeCast S16 ve h1) h2 x) (shapeCast S1x1x16 (shapeCast S16 vp h1) h2 x) = _
  rw [e ve, e vp]

/-! ## One trip's thirty-two writes -/

/-- Slot `m` of trip `k` on half `bb`: row `4k + m / 8`, lanes `16 (m % 8) … 16 (m % 8) + 15`, unit strides. -/
structure IsSlot (bb k m : ℕ) (R : Rect S2x128x128) : Prop where
  off : R.off = ![bb, 4 * k + m / 8, 16 * (m % 8)]
  size : R.size = S1x1x16.size
  stride : ∀ a, R.stride a = 1

theorem mem_slot {bb k m : ℕ} {R : Rect S2x128x128} (h : IsSlot bb k m R) (y : S2x128x128.Idx) :
    y ∈ R.set ↔ (y 0).val = bb ∧ (y 1).val = 4 * k + m / 8 ∧ 16 * (m % 8) ≤ (y 2).val ∧ (y 2).val < 16 * (m % 8) + 16 := by
  obtain ⟨ho, hs, ht⟩ := h
  rw [LoadRect.mem_set]
  constructor
  · intro hh
    obtain ⟨j0, hj0, e0⟩ := hh 0
    obtain ⟨j1, hj1, e1⟩ := hh 1
    obtain ⟨j2, hj2, e2⟩ := hh 2
    rw [hs] at hj0 hj1 hj2
    rw [ho, ht] at e0 e1 e2
    have hj0' : j0 < 1 := hj0
    have hj1' : j1 < 1 := hj1
    have hj2' : j2 < 16 := hj2
    have e0' : (y 0).val = bb + 1 * j0 := e0
    have e1' : (y 1).val = 4 * k + m / 8 + 1 * j1 := e1
    have e2' : (y 2).val = 16 * (m % 8) + 1 * j2 := e2
    omega
  · rintro ⟨h0, h1, h2, h3⟩ a
    rw [hs, ho, ht]
    fin_cases a
    · exact ⟨0, (by decide : 0 < 1), (by omega : (y 0).val = bb + 1 * 0)⟩
    · exact ⟨0, (by decide : 0 < 1), (by omega : (y 1).val = 4 * k + m / 8 + 1 * 0)⟩
    · exact ⟨(y 2).val - 16 * (m % 8), (by omega : (y 2).val - 16 * (m % 8) < 16),
        (by omega : (y 2).val = 16 * (m % 8) + 1 * ((y 2).val - 16 * (m % 8)))⟩

/-- Thirty-two unmasked writes through the output chunk buffer, the `n`-th (the last write first) through slot `31 - n`
    of trip `k` with that slot's sums as payload, take "rows below `4k` of half `bb` hold the sum" to "rows below
    `4 (k + 1)`". -/
theorem writes_trip (bb k : ℕ) (fe fp fo : Vec F S2x128x128 .f32)
    (L : List (View.Piece (Elt F) S2x128x128 .f32))
    (hlen : L.length = 32)
    (hpos : ∀ n, n < 32 → ∃ p, L[n]? = some p ∧ IsSlot bb k (31 - n) p.1 ∧
        ∀ x, p.2 x = addE (fe (p.1.emb x)) (fp (p.1.emb x))) :
    A11.view.writes (Elt F) (sumRows fe fp fo bb (4 * k)) L = sumRows fe fp fo bb (4 * (k + 1)) := by
  have hmem : ∀ p ∈ L, ∃ n, n < 32 ∧ L[n]? = some p := by
    intro p hp
    obtain ⟨n, hn, rfl⟩ := List.mem_iff_getElem.mp hp
    exact ⟨n, hlen ▸ hn, List.getElem?_eq_getElem hn⟩
  have hG : ∀ p ∈ L, ∀ x : p.1.shape.Idx, p.2 x = (fun y => addE (fe y) (fp y)) (p.1.emb x) := by
    intro p hp x
    obtain ⟨n, hn, hp'⟩ := hmem p hp
    obtain ⟨q, hq, -, hgood⟩ := hpos n hn
    rw [hp'] at hq; cases hq
    exact hgood x
  have hcov : ∀ y : S2x128x128.Idx,
      (∃ p ∈ L, y ∈ p.1.set) ↔ ((y 0).val = bb ∧ 4 * k ≤ (y 1).val ∧ (y 1).val < 4 * k + 4) := by
    intro y; constructor
    · rintro ⟨p, hp, hy⟩
      obtain ⟨n, hn, hp'⟩ := hmem p hp
      obtain ⟨q, hq, hslot, -⟩ := hpos n hn
      rw [hp'] at hq; cases hq
      have := (mem_slot hslot y).mp hy
      omega
    · rintro ⟨h0, h1, h2⟩
      have h3 : (y 2).val < 128 := (y 2).isLt
      obtain ⟨p, hp, hslot, -⟩ := hpos (31 - (8 * ((y 1).val - 4 * k) + (y 2).val / 16)) (by omega)
      refine ⟨p, List.mem_of_getElem? hp, (mem_slot hslot y).mpr ?_⟩
      have e : 31 - (31 - (8 * ((y 1).val - 4 * k) + (y 2).val / 16)) = 8 * ((y 1).val - 4 * k) + (y 2).val / 16 := by omega
      rw [e]; omega
  funext y
  show A11.view.read (Elt F) (A11.view.writes (Elt F) (sumRows fe fp fo bb (4 * k)) L) y = _
  by_cases hy : (y 0).val = bb ∧ 4 * k ≤ (y 1).val ∧ (y 1).val < 4 * k + 4
  · rw [View.read_writes_apply_of_pieces A11.view _ (fun y => addE (fe y) (fp y)) L hG y ((hcov y).mpr hy)]
    have : (y 0).val = bb ∧ (y 1).val < 4 * (k + 1) := by omega
    simp only [sumRows, this, and_self, if_true]
  · rw [View.read_writes_apply_of_forall_not_mem A11.view _ y L (fun p hp hm => hy ((hcov y).mp ⟨p, hp, hm⟩))]
    show sumRows fe fp fo bb (4 * k) y = _
    have : ((y 0).val = bb ∧ (y 1).val < 4 * (k + 1)) ↔ ((y 0).val = bb ∧ (y 1).val < 4 * k) := by omega
    simp only [sumRows, this]

end Cert.KernelIdeal.Run.Add

end
-- ==== Proof.AddTrip0.lean ====
/-
  The add loop of chunk 0 of a trip of the tile kernel (`k1_t2`, working on half 0 of the chunk buffers).

  One trip `k` of the loop loads, for rows `4k … 4k+3` and each of the eight 16-lane slices of a row, the slice of the
  element-row buffer and of the property-row buffer, adds them lane by lane and stores the sum into the same slice of the
  output buffer: thirty-two writes, slot `8 r + j` (row `4k + r`, lanes `16 j …`) the `(8 r + j)`-th. Held: the three
  buffers less the other half's window. The trip takes "rows below `4k` of the half hold the sum" to "rows below
  `4 (k + 1)`"; thirty-two trips take the output buffer's half to the sum of the two input halves.
-/
import proofs.«204385_g66649302499670_cont_9to1c4b_43_34_alg».proof.Proof.AddSpec
import proofs.«204385_g66649302499670_cont_9to1c4b_43_34_alg».proof.Proof.Gen.KernelIdeal.Skeleton
import Mathlib.Tactic.IntervalCases

noncomputable section

namespace Cert.KernelIdeal.Run.Add

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (i : grid1.Coords)

set_option maxRecDepth 4096 in
/-- One trip of the loop `k1_t2`, as the run leaves it: the two input buffers untouched, the output buffer after
    thirty-two writes whose rectangles are the trip's slots and whose payloads are the slots' sums. -/
theorem trip_t2_raw (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (arg17 : BitVec 32) (v81 : BitVec 32)
    (k : Fin k1_t2_loop.trips)
    (fe : Buf (Elt F) (A9.view.loc (thr d i))) (fp : Buf (Elt F) (A10.view.loc (thr d i))) (g : Buf (Elt F) (A11.view.loc (thr d i))) :
    (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} g)) : sProp 𝕄)
      ⊢ wp frame (wpE (defs₀ (F := F)) 𝒱₀ (thr d i) none) Set.univ
          (k1_t2_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v81 k ⟨⟩)
          (fun _ => iprop((A9.view.loc (thr d i) ↦[A9.view.set \ (win1 A9).view.set]{fullShare} fe)
            ∗ (A10.view.loc (thr d i) ↦[A10.view.set \ (win1 A10).view.set]{fullShare} fp)
            ∗ ∃ L : List (View.Piece (Elt F) S2x128x128 .f32),
                (A11.view.loc (thr d i) ↦[A11.view.set \ (win1 A11).view.set]{fullShare} A11.view.writes (Elt F) g L)
                ∗ ⌜L.length = 32 ∧ ∀ n, n < 32 → ∃ p, L[n]? = some p ∧ IsSlot 0 k.val (31 - n) p.1 ∧
                    ∀ x, p.2 x = addE (F := F) (fe (p.1.emb x)) (fp (p.1.emb x))⌝)) := by
  unfold k1_t2_body
  iintro ⟨He, Hp, Ho⟩
  sl_exec
  sl_step
  isplitl [He]; · iexact He
  isplitl [Hp]; · iexact Hp
  iexists _
  isplitl [Ho]; · iexact Ho
  ipureintro
  refine ⟨rfl, ?_⟩
  sl_unfold_run_names
  unfold_pays
  intro n hn
  interval_cases n <;>
    (refine ⟨_, rfl, ⟨?_, rfl, fun _ => rfl⟩,
        fun x => (cast_add_cast _ _ shapeCasts_S1x1x16_S16 shapeCasts_S16_S1x1x16 x).trans rfl⟩
     dsimp only [Rect.off_unit]
     exact ClosedOff.eq.trans rfl)

/-- The loop `k1_t2` on half 0: holding the three chunk buffers less the other half's window, it leaves the output
    buffer's half at the lanewise sum of the two input buffers' halves and everything else as it was. -/
theorem loop_t2 (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (arg17 : BitVec 32) (v81 : BitVec 32)
    (fe : Buf (Elt F) (A9.view.loc (thr d i))) (fp : Buf (Elt F) (A10.view.loc (thr d i))) (fo : Buf (Elt F) (A11.view.loc (thr d i))) :
    (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} fo)) : sProp 𝕄)
      ⊢ wp frame (wpE (defs₀ (F := F)) 𝒱₀ (thr d i) none) Set.univ
          (Scf.Loop.for k1_t2_loop k1_t2_ok ⟨⟩ (k1_t2_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v81))
          (fun _ => iprop((A9.view.loc (thr d i) ↦[A9.view.set \ (win1 A9).view.set]{fullShare} fe)
            ∗ (A10.view.loc (thr d i) ↦[A10.view.set \ (win1 A10).view.set]{fullShare} fp)
            ∗ (A11.view.loc (thr d i) ↦[A11.view.set \ (win1 A11).view.set]{fullShare} sumHalf fe fp fo 0))) := by
  have htr : k1_t2_loop.trips = 32 := by decide
  have e0 : sumRows fe fp fo 0 (4 * 0) = fo := sumRows_zero fe fp fo 0
  have e1 : sumRows fe fp fo 0 (4 * k1_t2_loop.trips) = sumHalf fe fp fo 0 := by
    rw [htr]; exact sumRows_full fe fp fo 0
  have hbody : ∀ (k : Fin k1_t2_loop.trips) (acc : Unit),
      (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} sumRows fe fp fo 0 (4 * k.val))) : sProp 𝕄)
      ⊢ wp frame (wpE (defs₀ (F := F)) 𝒱₀ (thr d i) none) Set.univ
          (k1_t2_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v81 k acc)
          (fun _ => iprop((A9.view.loc (thr d i) ↦[A9.view.set \ (win1 A9).view.set]{fullShare} fe)
            ∗ (A10.view.loc (thr d i) ↦[A10.view.set \ (win1 A10).view.set]{fullShare} fp)
            ∗ (A11.view.loc (thr d i) ↦[A11.view.set \ (win1 A11).view.set]{fullShare} sumRows fe fp fo 0 (4 * (k.val + 1))))) := by
    intro k acc
    refine (trip_t2_raw d i arg2 harg2 arg3 harg3 arg4 harg4 arg5 harg5 arg6 harg6 arg7 harg7 arg8 harg8 arg12 harg12 arg13 arg14 arg15 arg16 v69_r0 v69_r1 v69_r2 v2 k1_t1 arg17 v81 k fe fp (sumRows fe fp fo 0 (4 * k.val))).trans
      (wp_mono _ _ _ fun _ => ?_)
    iintro ⟨He, Hp, %L, Ho, %hL⟩
    isplitl [He]; · iexact He
    isplitl [Hp]; · iexact Hp
    irw [← writes_trip (F := F) 0 k.val fe fp fo L hL.1 hL.2]
    iexact Ho
  refine BIBase.Entails.trans ?_ (Scf.wp_for frame (wpE (defs₀ (F := F)) 𝒱₀ (thr d i) none) Set.univ
    k1_t2_loop.lb k1_t2_loop.ub k1_t2_loop.st k1_t2_ok ⟨⟩ (k1_t2_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v81)
    (fun n (_ : Unit) => (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} sumRows fe fp fo 0 (4 * n))) : sProp 𝕄))
    hbody)
  iintro ⟨He, Hp, Ho⟩
  isplitl [He Hp Ho]
  · isplitl [He]; · iexact He
    isplitl [Hp]; · iexact Hp
    irw [e0]; iexact Ho
  · iintro %acc ⟨He, Hp, Ho⟩
    isplitl [He]; · iexact He
    isplitl [Hp]; · iexact Hp
    irw [← e1]; iexact Ho

end Cert.KernelIdeal.Run.Add
end
-- ==== Proof.AddTrip1.lean ====
/-
  The add loop of chunk 1 of a trip of the tile kernel (`k1_t3`, working on half 1 of the chunk buffers).

  One trip `k` of the loop loads, for rows `4k … 4k+3` and each of the eight 16-lane slices of a row, the slice of the
  element-row buffer and of the property-row buffer, adds them lane by lane and stores the sum into the same slice of the
  output buffer: thirty-two writes, slot `8 r + j` (row `4k + r`, lanes `16 j …`) the `(8 r + j)`-th. Held: the three
  buffers less the other half's window. The trip takes "rows below `4k` of the half hold the sum" to "rows below
  `4 (k + 1)`"; thirty-two trips take the output buffer's half to the sum of the two input halves.
-/
import proofs.«204385_g66649302499670_cont_9to1c4b_43_34_alg».proof.Proof.AddSpec
import proofs.«204385_g66649302499670_cont_9to1c4b_43_34_alg».proof.Proof.Gen.KernelIdeal.Skeleton
import Mathlib.Tactic.IntervalCases

noncomputable section

namespace Cert.KernelIdeal.Run.Add

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (i : grid1.Coords)

set_option maxRecDepth 4096 in
/-- One trip of the loop `k1_t3`, as the run leaves it: the two input buffers untouched, the output buffer after
    thirty-two writes whose rectangles are the trip's slots and whose payloads are the slots' sums. -/
theorem trip_t3_raw (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (arg17 : BitVec 32) (v115 : BitVec 32)
    (k : Fin k1_t3_loop.trips)
    (fe : Buf (Elt F) (A9.view.loc (thr d i))) (fp : Buf (Elt F) (A10.view.loc (thr d i))) (g : Buf (Elt F) (A11.view.loc (thr d i))) :
    (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} g)) : sProp 𝕄)
      ⊢ wp frame (wpE (defs₀ (F := F)) 𝒱₀ (thr d i) none) Set.univ
          (k1_t3_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v115 k ⟨⟩)
          (fun _ => iprop((A9.view.loc (thr d i) ↦[A9.view.set \ (win0 A9).view.set]{fullShare} fe)
            ∗ (A10.view.loc (thr d i) ↦[A10.view.set \ (win0 A10).view.set]{fullShare} fp)
            ∗ ∃ L : List (View.Piece (Elt F) S2x128x128 .f32),
                (A11.view.loc (thr d i) ↦[A11.view.set \ (win0 A11).view.set]{fullShare} A11.view.writes (Elt F) g L)
                ∗ ⌜L.length = 32 ∧ ∀ n, n < 32 → ∃ p, L[n]? = some p ∧ IsSlot 1 k.val (31 - n) p.1 ∧
                    ∀ x, p.2 x = addE (F := F) (fe (p.1.emb x)) (fp (p.1.emb x))⌝)) := by
  unfold k1_t3_body
  iintro ⟨He, Hp, Ho⟩
  sl_exec
  sl_step
  isplitl [He]; · iexact He
  isplitl [Hp]; · iexact Hp
  iexists _
  isplitl [Ho]; · iexact Ho
  ipureintro
  refine ⟨rfl, ?_⟩
  sl_unfold_run_names
  unfold_pays
  intro n hn
  interval_cases n <;>
    (refine ⟨_, rfl, ⟨?_, rfl, fun _ => rfl⟩,
        fun x => (cast_add_cast _ _ shapeCasts_S1x1x16_S16 shapeCasts_S16_S1x1x16 x).trans rfl⟩
     dsimp only [Rect.off_unit]
     exact ClosedOff.eq.trans rfl)

/-- The loop `k1_t3` on half 1: holding the three chunk buffers less the other half's window, it leaves the output
    buffer's half at the lanewise sum of the two input buffers' halves and everything else as it was. -/
theorem loop_t3 (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (arg17 : BitVec 32) (v115 : BitVec 32)
    (fe : Buf (Elt F) (A9.view.loc (thr d i))) (fp : Buf (Elt F) (A10.view.loc (thr d i))) (fo : Buf (Elt F) (A11.view.loc (thr d i))) :
    (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} fo)) : sProp 𝕄)
      ⊢ wp frame (wpE (defs₀ (F := F)) 𝒱₀ (thr d i) none) Set.univ
          (Scf.Loop.for k1_t3_loop k1_t3_ok ⟨⟩ (k1_t3_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v115))
          (fun _ => iprop((A9.view.loc (thr d i) ↦[A9.view.set \ (win0 A9).view.set]{fullShare} fe)
            ∗ (A10.view.loc (thr d i) ↦[A10.view.set \ (win0 A10).view.set]{fullShare} fp)
            ∗ (A11.view.loc (thr d i) ↦[A11.view.set \ (win0 A11).view.set]{fullShare} sumHalf fe fp fo 1))) := by
  have htr : k1_t3_loop.trips = 32 := by decide
  have e0 : sumRows fe fp fo 1 (4 * 0) = fo := sumRows_zero fe fp fo 1
  have e1 : sumRows fe fp fo 1 (4 * k1_t3_loop.trips) = sumHalf fe fp fo 1 := by
    rw [htr]; exact sumRows_full fe fp fo 1
  have hbody : ∀ (k : Fin k1_t3_loop.trips) (acc : Unit),
      (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} sumRows fe fp fo 1 (4 * k.val))) : sProp 𝕄)
      ⊢ wp frame (wpE (defs₀ (F := F)) 𝒱₀ (thr d i) none) Set.univ
          (k1_t3_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v115 k acc)
          (fun _ => iprop((A9.view.loc (thr d i) ↦[A9.view.set \ (win0 A9).view.set]{fullShare} fe)
            ∗ (A10.view.loc (thr d i) ↦[A10.view.set \ (win0 A10).view.set]{fullShare} fp)
            ∗ (A11.view.loc (thr d i) ↦[A11.view.set \ (win0 A11).view.set]{fullShare} sumRows fe fp fo 1 (4 * (k.val + 1))))) := by
    intro k acc
    refine (trip_t3_raw d i arg2 harg2 arg3 harg3 arg4 harg4 arg5 harg5 arg6 harg6 arg7 harg7 arg8 harg8 arg12 harg12 arg13 arg14 arg15 arg16 v69_r0 v69_r1 v69_r2 v2 k1_t1 arg17 v115 k fe fp (sumRows fe fp fo 1 (4 * k.val))).trans
      (wp_mono _ _ _ fun _ => ?_)
    iintro ⟨He, Hp, %L, Ho, %hL⟩
    isplitl [He]; · iexact He
    isplitl [Hp]; · iexact Hp
    irw [← writes_trip (F := F) 1 k.val fe fp fo L hL.1 hL.2]
    iexact Ho
  refine BIBase.Entails.trans ?_ (Scf.wp_for frame (wpE (defs₀ (F := F)) 𝒱₀ (thr d i) none) Set.univ
    k1_t3_loop.lb k1_t3_loop.ub k1_t3_loop.st k1_t3_ok ⟨⟩ (k1_t3_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v115)
    (fun n (_ : Unit) => (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} sumRows fe fp fo 1 (4 * n))) : sProp 𝕄))
    hbody)
  iintro ⟨He, Hp, Ho⟩
  isplitl [He Hp Ho]
  · isplitl [He]; · iexact He
    isplitl [Hp]; · iexact Hp
    irw [e0]; iexact Ho
  · iintro %acc ⟨He, Hp, Ho⟩
    isplitl [He]; · iexact He
    isplitl [Hp]; · iexact Hp
    irw [← e1]; iexact Ho

end Cert.KernelIdeal.Run.Add
end
-- ==== Proof.AddTrip2.lean ====
/-
  The add loop of chunk 2 of a trip of the tile kernel (`k1_t4`, working on half 0 of the chunk buffers).

  One trip `k` of the loop loads, for rows `4k … 4k+3` and each of the eight 16-lane slices of a row, the slice of the
  element-row buffer and of the property-row buffer, adds them lane by lane and stores the sum into the same slice of the
  output buffer: thirty-two writes, slot `8 r + j` (row `4k + r`, lanes `16 j …`) the `(8 r + j)`-th. Held: the three
  buffers less the other half's window. The trip takes "rows below `4k` of the half hold the sum" to "rows below
  `4 (k + 1)`"; thirty-two trips take the output buffer's half to the sum of the two input halves.
-/
import proofs.«204385_g66649302499670_cont_9to1c4b_43_34_alg».proof.Proof.AddSpec
import proofs.«204385_g66649302499670_cont_9to1c4b_43_34_alg».proof.Proof.Gen.KernelIdeal.Skeleton
import Mathlib.Tactic.IntervalCases

noncomputable section

namespace Cert.KernelIdeal.Run.Add

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (i : grid1.Coords)

set_option maxRecDepth 4096 in
/-- One trip of the loop `k1_t4`, as the run leaves it: the two input buffers untouched, the output buffer after
    thirty-two writes whose rectangles are the trip's slots and whose payloads are the slots' sums. -/
theorem trip_t4_raw (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (v149 : BitVec 32)
    (k : Fin k1_t4_loop.trips)
    (fe : Buf (Elt F) (A9.view.loc (thr d i))) (fp : Buf (Elt F) (A10.view.loc (thr d i))) (g : Buf (Elt F) (A11.view.loc (thr d i))) :
    (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} g)) : sProp 𝕄)
      ⊢ wp frame (wpE (defs₀ (F := F)) 𝒱₀ (thr d i) none) Set.univ
          (k1_t4_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 v149 k ⟨⟩)
          (fun _ => iprop((A9.view.loc (thr d i) ↦[A9.view.set \ (win1 A9).view.set]{fullShare} fe)
            ∗ (A10.view.loc (thr d i) ↦[A10.view.set \ (win1 A10).view.set]{fullShare} fp)
            ∗ ∃ L : List (View.Piece (Elt F) S2x128x128 .f32),
                (A11.view.loc (thr d i) ↦[A11.view.set \ (win1 A11).view.set]{fullShare} A11.view.writes (Elt F) g L)
                ∗ ⌜L.length = 32 ∧ ∀ n, n < 32 → ∃ p, L[n]? = some p ∧ IsSlot 0 k.val (31 - n) p.1 ∧
                    ∀ x, p.2 x = addE (F := F) (fe (p.1.emb x)) (fp (p.1.emb x))⌝)) := by
  unfold k1_t4_body
  iintro ⟨He, Hp, Ho⟩
  sl_exec
  sl_step
  isplitl [He]; · iexact He
  isplitl [Hp]; · iexact Hp
  iexists _
  isplitl [Ho]; · iexact Ho
  ipureintro
  refine ⟨rfl, ?_⟩
  sl_unfold_run_names
  unfold_pays
  intro n hn
  interval_cases n <;>
    (refine ⟨_, rfl, ⟨?_, rfl, fun _ => rfl⟩,
        fun x => (cast_add_cast _ _ shapeCasts_S1x1x16_S16 shapeCasts_S16_S1x1x16 x).trans rfl⟩
     dsimp only [Rect.off_unit]
     exact ClosedOff.eq.trans rfl)

/-- The loop `k1_t4` on half 0: holding the three chunk buffers less the other half's window, it leaves the output
    buffer's half at the lanewise sum of the two input buffers' halves and everything else as it was. -/
theorem loop_t4 (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (v149 : BitVec 32)
    (fe : Buf (Elt F) (A9.view.loc (thr d i))) (fp : Buf (Elt F) (A10.view.loc (thr d i))) (fo : Buf (Elt F) (A11.view.loc (thr d i))) :
    (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} fo)) : sProp 𝕄)
      ⊢ wp frame (wpE (defs₀ (F := F)) 𝒱₀ (thr d i) none) Set.univ
          (Scf.Loop.for k1_t4_loop k1_t4_ok ⟨⟩ (k1_t4_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 v149))
          (fun _ => iprop((A9.view.loc (thr d i) ↦[A9.view.set \ (win1 A9).view.set]{fullShare} fe)
            ∗ (A10.view.loc (thr d i) ↦[A10.view.set \ (win1 A10).view.set]{fullShare} fp)
            ∗ (A11.view.loc (thr d i) ↦[A11.view.set \ (win1 A11).view.set]{fullShare} sumHalf fe fp fo 0))) := by
  have htr : k1_t4_loop.trips = 32 := by decide
  have e0 : sumRows fe fp fo 0 (4 * 0) = fo := sumRows_zero fe fp fo 0
  have e1 : sumRows fe fp fo 0 (4 * k1_t4_loop.trips) = sumHalf fe fp fo 0 := by
    rw [htr]; exact sumRows_full fe fp fo 0
  have hbody : ∀ (k : Fin k1_t4_loop.trips) (acc : Unit),
      (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} sumRows fe fp fo 0 (4 * k.val))) : sProp 𝕄)
      ⊢ wp frame (wpE (defs₀ (F := F)) 𝒱₀ (thr d i) none) Set.univ
          (k1_t4_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 v149 k acc)
          (fun _ => iprop((A9.view.loc (thr d i) ↦[A9.view.set \ (win1 A9).view.set]{fullShare} fe)
            ∗ (A10.view.loc (thr d i) ↦[A10.view.set \ (win1 A10).view.set]{fullShare} fp)
            ∗ (A11.view.loc (thr d i) ↦[A11.view.set \ (win1 A11).view.set]{fullShare} sumRows fe fp fo 0 (4 * (k.val + 1))))) := by
    intro k acc
    refine (trip_t4_raw d i arg2 harg2 arg3 harg3 arg4 harg4 arg5 harg5 arg6 harg6 arg7 harg7 arg8 harg8 arg12 harg12 arg13 arg14 arg15 arg16 v69_r0 v69_r1 v69_r2 v2 k1_t1 v149 k fe fp (sumRows fe fp fo 0 (4 * k.val))).trans
      (wp_mono _ _ _ fun _ => ?_)
    iintro ⟨He, Hp, %L, Ho, %hL⟩
    isplitl [He]; · iexact He
    isplitl [Hp]; · iexact Hp
    irw [← writes_trip (F := F) 0 k.val fe fp fo L hL.1 hL.2]
    iexact Ho
  refine BIBase.Entails.trans ?_ (Scf.wp_for frame (wpE (defs₀ (F := F)) 𝒱₀ (thr d i) none) Set.univ
    k1_t4_loop.lb k1_t4_loop.ub k1_t4_loop.st k1_t4_ok ⟨⟩ (k1_t4_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 v149)
    (fun n (_ : Unit) => (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} sumRows fe fp fo 0 (4 * n))) : sProp 𝕄))
    hbody)
  iintro ⟨He, Hp, Ho⟩
  isplitl [He Hp Ho]
  · isplitl [He]; · iexact He
    isplitl [Hp]; · iexact Hp
    irw [e0]; iexact Ho
  · iintro %acc ⟨He, Hp, Ho⟩
    isplitl [He]; · iexact He
    isplitl [Hp]; · iexact Hp
    irw [← e1]; iexact Ho

end Cert.KernelIdeal.Run.Add
end
-- ==== Proof.AddTrip3.lean ====
/-
  The add loop of chunk 3 of a trip of the tile kernel (`k1_t5`, working on half 1 of the chunk buffers).

  One trip `k` of the loop loads, for rows `4k … 4k+3` and each of the eight 16-lane slices of a row, the slice of the
  element-row buffer and of the property-row buffer, adds them lane by lane and stores the sum into the same slice of the
  output buffer: thirty-two writes, slot `8 r + j` (row `4k + r`, lanes `16 j …`) the `(8 r + j)`-th. Held: the three
  buffers less the other half's window. The trip takes "rows below `4k` of the half hold the sum" to "rows below
  `4 (k + 1)`"; thirty-two trips take the output buffer's half to the sum of the two input halves.
-/
import proofs.«204385_g66649302499670_cont_9to1c4b_43_34_alg».proof.Proof.AddSpec
import proofs.«204385_g66649302499670_cont_9to1c4b_43_34_alg».proof.Proof.Gen.KernelIdeal.Skeleton
import Mathlib.Tactic.IntervalCases

noncomputable section

namespace Cert.KernelIdeal.Run.Add

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (i : grid1.Coords)

set_option maxRecDepth 4096 in
/-- One trip of the loop `k1_t5`, as the run leaves it: the two input buffers untouched, the output buffer after
    thirty-two writes whose rectangles are the trip's slots and whose payloads are the slots' sums. -/
theorem trip_t5_raw (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (arg17 : BitVec 32) (v179 : BitVec 1)
    (k : Fin k1_t5_loop.trips)
    (fe : Buf (Elt F) (A9.view.loc (thr d i))) (fp : Buf (Elt F) (A10.view.loc (thr d i))) (g : Buf (Elt F) (A11.view.loc (thr d i))) :
    (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} g)) : sProp 𝕄)
      ⊢ wp frame (wpE (defs₀ (F := F)) 𝒱₀ (thr d i) none) Set.univ
          (k1_t5_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v179 k ⟨⟩)
          (fun _ => iprop((A9.view.loc (thr d i) ↦[A9.view.set \ (win0 A9).view.set]{fullShare} fe)
            ∗ (A10.view.loc (thr d i) ↦[A10.view.set \ (win0 A10).view.set]{fullShare} fp)
            ∗ ∃ L : List (View.Piece (Elt F) S2x128x128 .f32),
                (A11.view.loc (thr d i) ↦[A11.view.set \ (win0 A11).view.set]{fullShare} A11.view.writes (Elt F) g L)
                ∗ ⌜L.length = 32 ∧ ∀ n, n < 32 → ∃ p, L[n]? = some p ∧ IsSlot 1 k.val (31 - n) p.1 ∧
                    ∀ x, p.2 x = addE (F := F) (fe (p.1.emb x)) (fp (p.1.emb x))⌝)) := by
  unfold k1_t5_body
  iintro ⟨He, Hp, Ho⟩
  sl_exec
  sl_step
  isplitl [He]; · iexact He
  isplitl [Hp]; · iexact Hp
  iexists _
  isplitl [Ho]; · iexact Ho
  ipureintro
  refine ⟨rfl, ?_⟩
  sl_unfold_run_names
  unfold_pays
  intro n hn
  interval_cases n <;>
    (refine ⟨_, rfl, ⟨?_, rfl, fun _ => rfl⟩,
        fun x => (cast_add_cast _ _ shapeCasts_S1x1x16_S16 shapeCasts_S16_S1x1x16 x).trans rfl⟩
     dsimp only [Rect.off_unit]
     exact ClosedOff.eq.trans rfl)

/-- The loop `k1_t5` on half 1: holding the three chunk buffers less the other half's window, it leaves the output
    buffer's half at the lanewise sum of the two input buffers' halves and everything else as it was. -/
theorem loop_t5 (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (arg17 : BitVec 32) (v179 : BitVec 1)
    (fe : Buf (Elt F) (A9.view.loc (thr d i))) (fp : Buf (Elt F) (A10.view.loc (thr d i))) (fo : Buf (Elt F) (A11.view.loc (thr d i))) :
    (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} fo)) : sProp 𝕄)
      ⊢ wp frame (wpE (defs₀ (F := F)) 𝒱₀ (thr d i) none) Set.univ
          (Scf.Loop.for k1_t5_loop k1_t5_ok ⟨⟩ (k1_t5_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v179))
          (fun _ => iprop((A9.view.loc (thr d i) ↦[A9.view.set \ (win0 A9).view.set]{fullShare} fe)
            ∗ (A10.view.loc (thr d i) ↦[A10.view.set \ (win0 A10).view.set]{fullShare} fp)
            ∗ (A11.view.loc (thr d i) ↦[A11.view.set \ (win0 A11).view.set]{fullShare} sumHalf fe fp fo 1))) := by
  have htr : k1_t5_loop.trips = 32 := by decide
  have e0 : sumRows fe fp fo 1 (4 * 0) = fo := sumRows_zero fe fp fo 1
  have e1 : sumRows fe fp fo 1 (4 * k1_t5_loop.trips) = sumHalf fe fp fo 1 := by
    rw [htr]; exact sumRows_full fe fp fo 1
  have hbody : ∀ (k : Fin k1_t5_loop.trips) (acc : Unit),
      (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} sumRows fe fp fo 1 (4 * k.val))) : sProp 𝕄)
      ⊢ wp frame (wpE (defs₀ (F := F)) 𝒱₀ (thr d i) none) Set.univ
          (k1_t5_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v179 k acc)
          (fun _ => iprop((A9.view.loc (thr d i) ↦[A9.view.set \ (win0 A9).view.set]{fullShare} fe)
            ∗ (A10.view.loc (thr d i) ↦[A10.view.set \ (win0 A10).view.set]{fullShare} fp)
            ∗ (A11.view.loc (thr d i) ↦[A11.view.set \ (win0 A11).view.set]{fullShare} sumRows fe fp fo 1 (4 * (k.val + 1))))) := by
    intro k acc
    refine (trip_t5_raw d i arg2 harg2 arg3 harg3 arg4 harg4 arg5 harg5 arg6 harg6 arg7 harg7 arg8 harg8 arg12 harg12 arg13 arg14 arg15 arg16 v69_r0 v69_r1 v69_r2 v2 k1_t1 arg17 v179 k fe fp (sumRows fe fp fo 1 (4 * k.val))).trans
      (wp_mono _ _ _ fun _ => ?_)
    iintro ⟨He, Hp, %L, Ho, %hL⟩
    isplitl [He]; · iexact He
    isplitl [Hp]; · iexact Hp
    irw [← writes_trip (F := F) 1 k.val fe fp fo L hL.1 hL.2]
    iexact Ho
  refine BIBase.Entails.trans ?_ (Scf.wp_for frame (wpE (defs₀ (F := F)) 𝒱₀ (thr d i) none) Set.univ
    k1_t5_loop.lb k1_t5_loop.ub k1_t5_loop.st k1_t5_ok ⟨⟩ (k1_t5_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v179)
    (fun n (_ : Unit) => (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} sumRows fe fp fo 1 (4 * n))) : sProp 𝕄))
    hbody)
  iintro ⟨He, Hp, Ho⟩
  isplitl [He Hp Ho]
  · isplitl [He]; · iexact He
    isplitl [Hp]; · iexact Hp
    irw [e0]; iexact Ho
  · iintro %acc ⟨He, Hp, Ho⟩
    isplitl [He]; · iexact He
    isplitl [Hp]; · iexact Hp
    irw [← e1]; iexact Ho

end Cert.KernelIdeal.Run.Add
end
-- ==== Proof.AddLoop.lean ====
/-
  The four inner add loops of the tile kernel's trip, in the form the trip's proof cites them: holding the three chunk
  buffers — each whole, or less the other half's window (lent to a transfer in flight) —, the loop on half `bb` leaves
  the output buffer's half at the lanewise sum of the two gathered halves and everything else as it was, and the
  program goes on from there.

  Each rule is the loop's rule on the buffers less the other half's window: a buffer held whole is split into that part
  and the window's elements, which the loop does not touch and which hold, after the loop, what they held before (the
  sum differs from the old contents only on half `bb`).
-/
import proofs.«204385_g66649302499670_cont_9to1c4b_43_34_alg».proof.Proof.ScIface
import proofs.«204385_g66649302499670_cont_9to1c4b_43_34_alg».proof.Proof.AddTrip0
import proofs.«204385_g66649302499670_cont_9to1c4b_43_34_alg».proof.Proof.AddTrip1
import proofs.«204385_g66649302499670_cont_9to1c4b_43_34_alg».proof.Proof.AddTrip2
import proofs.«204385_g66649302499670_cont_9to1c4b_43_34_alg».proof.Proof.AddTrip3

noncomputable section

namespace Cert.KernelIdeal.Run.Add

open Cert.KernelIdeal Cert.KernelIdeal.Gen Cert.KernelIdeal.Run
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "shV" => (Memref.whole Cert.KernelIdeal.cc1_scratch5 : Memref Cert.KernelIdeal.sig Kind.scVector Space.shared Cert.KernelIdeal.S1000x128 EltTy.f32)

/-! ## Holding more than the loop needs -/

/-- Either admitted holding contains the buffer less the other half's window. -/
theorem heldOn_sub {M : Memref sig .scVector .vmem S2x128x128 .f32} {d : Dev nD} {L : grid1.Coords}
    {other S : Finset (Idx (M.view.loc (Sc.thr d L)))} (h : Sc.HeldOn M d L other S) : M.view.set \ other ⊆ S := by
  rcases h with rfl | rfl
  · exact Finset.subset_univ _
  · exact Finset.Subset.refl _

theorem split_held {ℓ : Loc nD τ sig} {R S : Finset (Idx ℓ)} (h : R ⊆ S) (f : Buf (Elt F) ℓ) :
    (ℓ ↦[S]{fullShare} f : sProp 𝕄) ⊢ iprop((ℓ ↦[R]{fullShare} f) ∗ (ℓ ↦[S \ R]{fullShare} f)) :=
  (pointsTo_split_subset h).1

/-- The part the loop worked on at its new contents and the rest at the old ones are the whole holding at the new
    contents, when the new contents differ from the old only on the part. -/
theorem join_held {ℓ : Loc nD τ sig} {R S : Finset (Idx ℓ)} (h : R ⊆ S) (f g : Buf (Elt F) ℓ) (hfg : ∀ j ∈ S \ R, f j = g j) :
    (iprop((ℓ ↦[R]{fullShare} g) ∗ (ℓ ↦[S \ R]{fullShare} f)) : sProp 𝕄) ⊢ (ℓ ↦[S]{fullShare} g) := by
  rw [pointsTo_congr hfg]
  exact (pointsTo_split_subset h).2

/-- An element of half 0's window is in half 0; of half 1's window, in half 1. -/
theorem zero_of_mem_win0 (y : S2x128x128.Idx) (h : y ∈ (win0 A11).view.set) : (y 0).val = 0 := by
  rw [Memref.set_view_squeeze] at h
  have h' : y ∈ ((View.whole cc1_scratch4).slice (Rect.unit (s := S2x128x128) ![0, 0, 0] S1x128x128.size inb_S2x128x128_S1x128x128_0_0_0)).set := h
  rw [View.set_slice_whole, Rect.mem_set_unit] at h'
  have h0 : 0 ≤ (y 0).val ∧ (y 0).val < 0 + 1 := h' 0
  omega
theorem one_of_mem_win1 (y : S2x128x128.Idx) (h : y ∈ (win1 A11).view.set) : (y 0).val = 1 := by
  rw [Memref.set_view_squeeze] at h
  have h' : y ∈ ((View.whole cc1_scratch4).slice (Rect.unit (s := S2x128x128) ![1, 0, 0] S1x128x128.size inb_S2x128x128_S1x128x128_1_0_0)).set := h
  rw [View.set_slice_whole, Rect.mem_set_unit] at h'
  have h0 : 1 ≤ (y 0).val ∧ (y 0).val < 1 + 1 := h' 0
  omega

/-- Off the buffer less half 1's window, the sum on half 0 is the old contents; and likewise with the halves exchanged. -/
theorem sum0_off (d : Dev nD) (L : grid1.Coords) (fe fp fo : Vec F S2x128x128 .f32) (So : Finset (Idx (A11.view.loc (thr d L))))
    (j : S2x128x128.Idx) (hj : j ∈ So \ (A11.view.set \ (win1 A11).view.set)) : fo j = Sc.addHalf 0 fe fp fo j := by
  have hj2 := (Finset.mem_sdiff.mp hj).2
  have hw : j ∈ (win1 A11).view.set := by
    by_contra hn
    exact hj2 (Finset.mem_sdiff.mpr ⟨by rw [Memref.IsWhole.set_eq_univ (Memref.isWhole_whole cc1_scratch4)]; exact Finset.mem_univ _, hn⟩)
  have h1 := one_of_mem_win1 j hw
  show fo j = if (j 0).val = 0 then _ else fo j
  rw [if_neg (by omega)]
theorem sum1_off (d : Dev nD) (L : grid1.Coords) (fe fp fo : Vec F S2x128x128 .f32) (So : Finset (Idx (A11.view.loc (thr d L))))
    (j : S2x128x128.Idx) (hj : j ∈ So \ (A11.view.set \ (win0 A11).view.set)) : fo j = Sc.addHalf 1 fe fp fo j := by
  have hj2 := (Finset.mem_sdiff.mp hj).2
  have hw : j ∈ (win0 A11).view.set := by
    by_contra hn
    exact hj2 (Finset.mem_sdiff.mpr ⟨by rw [Memref.IsWhole.set_eq_univ (Memref.isWhole_whole cc1_scratch4)]; exact Finset.mem_univ _, hn⟩)
  have h1 := zero_of_mem_win0 j hw
  show fo j = if (j 0).val = 1 then _ else fo j
  rw [if_neg (by omega)]

theorem sumHalf_eq (fe fp fo : Vec F S2x128x128 .f32) (bb : ℕ) : sumHalf fe fp fo bb = Sc.addHalf bb fe fp fo := rfl

/-! ## The four rules -/

theorem addLoop_sub0 (d : Dev nD) (L : grid1.Coords) (v2 : BitVec 32) (k1_t1 : Fin k1_t1_loop.trips) :
    Sc.AddLoop_sub0 (F := F) d L v2 k1_t1 := by
  intro arg17 v81 Se Sp So hSe hSp hSo fe fp fo α k Q
  have hse := heldOn_sub hSe
  have hsp := heldOn_sub hSp
  have hso := heldOn_sub hSo
  rw [wp_bind]
  iintro ⟨He, Hp, Ho, Hk⟩
  ihave He' := (split_held (F := F) hse fe) $$ He
  icases He' with ⟨He1, He2⟩
  ihave Hp' := (split_held (F := F) hsp fp) $$ Hp
  icases Hp' with ⟨Hp1, Hp2⟩
  ihave Ho' := (split_held (F := F) hso fo) $$ Ho
  icases Ho' with ⟨Ho1, Ho2⟩
  iapply (wp_wand_r frame (wpE (defs₀ (F := F)) 𝒱₀ (thr d L) none) Set.univ
    (Q := fun _ => iprop((A9.view.loc (thr d L) ↦[A9.view.set \ (win1 A9).view.set]{fullShare} fe)
            ∗ (A10.view.loc (thr d L) ↦[A10.view.set \ (win1 A10).view.set]{fullShare} fp)
            ∗ (A11.view.loc (thr d L) ↦[A11.view.set \ (win1 A11).view.set]{fullShare} sumHalf fe fp fo 0))))
  isplitl [He1 Hp1 Ho1]
  · iapply (loop_t2 d L teV (Memref.isWhole_whole _) tpV (Memref.isWhole_whole _) eidV (Memref.isWhole_whole _) pidV (Memref.isWhole_whole _) outV (Memref.isWhole_whole _) eixV (Memref.isWhole_whole _) pixV (Memref.isWhole_whole _) shV (Memref.isWhole_whole _) cc1_scratch6 cc1_scratch7 cc1_scratch8 cc1_scratch9 cc1_scoped0 cc1_scoped1 cc1_scoped2 v2 k1_t1 arg17 v81 fe fp fo)
    isplitl [He1]; · iexact He1
    isplitl [Hp1]; · iexact Hp1
    iexact Ho1
  · iintro %a ⟨He1, Hp1, Ho1⟩
    iapply Hk
    isplitl [He1 He2]
    · iapply (join_held (F := F) hse fe fe (fun _ _ => rfl))
      isplitl [He1]; · iexact He1
      iexact He2
    isplitl [Hp1 Hp2]
    · iapply (join_held (F := F) hsp fp fp (fun _ _ => rfl))
      isplitl [Hp1]; · iexact Hp1
      iexact Hp2
    · iapply (join_held (F := F) hso fo (Sc.addHalf 0 fe fp fo) (sum0_off d L fe fp fo So))
      isplitl [Ho1]
      · rw [← sumHalf_eq]; iexact Ho1
      iexact Ho2

theorem addLoop_sub1 (d : Dev nD) (L : grid1.Coords) (v2 : BitVec 32) (k1_t1 : Fin k1_t1_loop.trips) :
    Sc.AddLoop_sub1 (F := F) d L v2 k1_t1 := by
  intro arg17 v115 Se Sp So hSe hSp hSo fe fp fo α k Q
  have hse := heldOn_sub hSe
  have hsp := heldOn_sub hSp
  have hso := heldOn_sub hSo
  rw [wp_bind]
  iintro ⟨He, Hp, Ho, Hk⟩
  ihave He' := (split_held (F := F) hse fe) $$ He
  icases He' with ⟨He1, He2⟩
  ihave Hp' := (split_held (F := F) hsp fp) $$ Hp
  icases Hp' with ⟨Hp1, Hp2⟩
  ihave Ho' := (split_held (F := F) hso fo) $$ Ho
  icases Ho' with ⟨Ho1, Ho2⟩
  iapply (wp_wand_r frame (wpE (defs₀ (F := F)) 𝒱₀ (thr d L) none) Set.univ
    (Q := fun _ => iprop((A9.view.loc (thr d L) ↦[A9.view.set \ (win0 A9).view.set]{fullShare} fe)
            ∗ (A10.view.loc (thr d L) ↦[A10.view.set \ (win0 A10).view.set]{fullShare} fp)
            ∗ (A11.view.loc (thr d L) ↦[A11.view.set \ (win0 A11).view.set]{fullShare} sumHalf fe fp fo 1))))
  isplitl [He1 Hp1 Ho1]
  · iapply (loop_t3 d L teV (Memref.isWhole_whole _) tpV (Memref.isWhole_whole _) eidV (Memref.isWhole_whole _) pidV (Memref.isWhole_whole _) outV (Memref.isWhole_whole _) eixV (Memref.isWhole_whole _) pixV (Memref.isWhole_whole _) shV (Memref.isWhole_whole _) cc1_scratch6 cc1_scratch7 cc1_scratch8 cc1_scratch9 cc1_scoped0 cc1_scoped1 cc1_scoped2 v2 k1_t1 arg17 v115 fe fp fo)
    isplitl [He1]; · iexact He1
    isplitl [Hp1]; · iexact Hp1
    iexact Ho1
  · iintro %a ⟨He1, Hp1, Ho1⟩
    iapply Hk
    isplitl [He1 He2]
    · iapply (join_held (F := F) hse fe fe (fun _ _ => rfl))
      isplitl [He1]; · iexact He1
      iexact He2
    isplitl [Hp1 Hp2]
    · iapply (join_held (F := F) hsp fp fp (fun _ _ => rfl))
      isplitl [Hp1]; · iexact Hp1
      iexact Hp2
    · iapply (join_held (F := F) hso fo (Sc.addHalf 1 fe fp fo) (sum1_off d L fe fp fo So))
      isplitl [Ho1]
      · rw [← sumHalf_eq]; iexact Ho1
      iexact Ho2

theorem addLoop_sub2 (d : Dev nD) (L : grid1.Coords) (v2 : BitVec 32) (k1_t1 : Fin k1_t1_loop.trips) :
    Sc.AddLoop_sub2 (F := F) d L v2 k1_t1 := by
  intro v149 Se Sp So hSe hSp hSo fe fp fo α k Q
  have hse := heldOn_sub hSe
  have hsp := heldOn_sub hSp
  have hso := heldOn_sub hSo
  rw [wp_bind]
  iintro ⟨He, Hp, Ho, Hk⟩
  ihave He' := (split_held (F := F) hse fe) $$ He
  icases He' with ⟨He1, He2⟩
  ihave Hp' := (split_held (F := F) hsp fp) $$ Hp
  icases Hp' with ⟨Hp1, Hp2⟩
  ihave Ho' := (split_held (F := F) hso fo) $$ Ho
  icases Ho' with ⟨Ho1, Ho2⟩
  iapply (wp_wand_r frame (wpE (defs₀ (F := F)) 𝒱₀ (thr d L) none) Set.univ
    (Q := fun _ => iprop((A9.view.loc (thr d L) ↦[A9.view.set \ (win1 A9).view.set]{fullShare} fe)
            ∗ (A10.view.loc (thr d L) ↦[A10.view.set \ (win1 A10).view.set]{fullShare} fp)
            ∗ (A11.view.loc (thr d L) ↦[A11.view.set \ (win1 A11).view.set]{fullShare} sumHalf fe fp fo 0))))
  isplitl [He1 Hp1 Ho1]
  · iapply (loop_t4 d L teV (Memref.isWhole_whole _) tpV (Memref.isWhole_whole _) eidV (Memref.isWhole_whole _) pidV (Memref.isWhole_whole _) outV (Memref.isWhole_whole _) eixV (Memref.isWhole_whole _) pixV (Memref.isWhole_whole _) shV (Memref.isWhole_whole _) cc1_scratch6 cc1_scratch7 cc1_scratch8 cc1_scratch9 cc1_scoped0 cc1_scoped1 cc1_scoped2 v2 k1_t1 v149 fe fp fo)
    isplitl [He1]; · iexact He1
    isplitl [Hp1]; · iexact Hp1
    iexact Ho1
  · iintro %a ⟨He1, Hp1, Ho1⟩
    iapply Hk
    isplitl [He1 He2]
    · iapply (join_held (F := F) hse fe fe (fun _ _ => rfl))
      isplitl [He1]; · iexact He1
      iexact He2
    isplitl [Hp1 Hp2]
    · iapply (join_held (F := F) hsp fp fp (fun _ _ => rfl))
      isplitl [Hp1]; · iexact Hp1
      iexact Hp2
    · iapply (join_held (F := F) hso fo (Sc.addHalf 0 fe fp fo) (sum0_off d L fe fp fo So))
      isplitl [Ho1]
      · rw [← sumHalf_eq]; iexact Ho1
      iexact Ho2

theorem addLoop_sub3 (d : Dev nD) (L : grid1.Coords) (v2 : BitVec 32) (k1_t1 : Fin k1_t1_loop.trips) :
    Sc.AddLoop_sub3 (F := F) d L v2 k1_t1 := by
  intro arg17 v179 Se Sp So hSe hSp hSo fe fp fo α k Q
  have hse := heldOn_sub hSe
  have hsp := heldOn_sub hSp
  have hso := heldOn_sub hSo
  rw [wp_bind]
  iintro ⟨He, Hp, Ho, Hk⟩
  ihave He' := (split_held (F := F) hse fe) $$ He
  icases He' with ⟨He1, He2⟩
  ihave Hp' := (split_held (F := F) hsp fp) $$ Hp
  icases Hp' with ⟨Hp1, Hp2⟩
  ihave Ho' := (split_held (F := F) hso fo) $$ Ho
  icases Ho' with ⟨Ho1, Ho2⟩
  iapply (wp_wand_r frame (wpE (defs₀ (F := F)) 𝒱₀ (thr d L) none) Set.univ
    (Q := fun _ => iprop((A9.view.loc (thr d L) ↦[A9.view.set \ (win0 A9).view.set]{fullShare} fe)
            ∗ (A10.view.loc (thr d L) ↦[A10.view.set \ (win0 A10).view.set]{fullShare} fp)
            ∗ (A11.view.loc (thr d L) ↦[A11.view.set \ (win0 A11).view.set]{fullShare} sumHalf fe fp fo 1))))
  isplitl [He1 Hp1 Ho1]
  · iapply (loop_t5 d L teV (Memref.isWhole_whole _) tpV (Memref.isWhole_whole _) eidV (Memref.isWhole_whole _) pidV (Memref.isWhole_whole _) outV (Memref.isWhole_whole _) eixV (Memref.isWhole_whole _) pixV (Memref.isWhole_whole _) shV (Memref.isWhole_whole _) cc1_scratch6 cc1_scratch7 cc1_scratch8 cc1_scratch9 cc1_scoped0 cc1_scoped1 cc1_scoped2 v2 k1_t1 arg17 v179 fe fp fo)
    isplitl [He1]; · iexact He1
    isplitl [Hp1]; · iexact Hp1
    iexact Ho1
  · iintro %a ⟨He1, Hp1, Ho1⟩
    iapply Hk
    isplitl [He1 He2]
    · iapply (join_held (F := F) hse fe fe (fun _ _ => rfl))
      isplitl [He1]; · iexact He1
      iexact He2
    isplitl [Hp1 Hp2]
    · iapply (join_held (F := F) hsp fp fp (fun _ _ => rfl))
      isplitl [Hp1]; · iexact Hp1
      iexact Hp2
    · iapply (join_held (F := F) hso fo (Sc.addHalf 1 fe fp fo) (sum1_off d L fe fp fo So))
      isplitl [Ho1]
      · rw [← sumHalf_eq]; iexact Ho1
      iexact Ho2

end Cert.KernelIdeal.Run.Add

end
-- ==== Proof.ScHalves.lean ====
/-
  Joining the halves of a row buffer: a half handed back by a flight and what was left in hand of the buffer are the
  buffer held on all but the other half's window, at the piecewise contents.
-/
import proofs.«204385_g66649302499670_cont_9to1c4b_43_34_alg».proof.Proof.ScTrip

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable (d : Dev nD) (L : grid1.Coords)

theorem mem_h0_e (y : S2x128x128.Idx) : y ∈ (hlf0 (Memref.whole cc1_scratch2 : Memref sig Kind.scVector Space.vmem S2x128x128 EltTy.f32)).view.set ↔ (y 0).val = 0 := by
  rw [Memref.set_view_squeeze]
  rw [show (((Memref.whole cc1_scratch2 : Memref sig Kind.scVector Space.vmem S2x128x128 EltTy.f32).slice (Rect.unit (s := S2x128x128) ![0, 0, 0] S1x128x128.size inb_S2x128x128_S1x128x128_0_0_0) (fun _ => rfl)).view.set)
    = ((View.whole cc1_scratch2).slice (Rect.unit (s := S2x128x128) ![0, 0, 0] S1x128x128.size inb_S2x128x128_S1x128x128_0_0_0)).set from rfl, View.set_slice_whole, Rect.mem_set_unit]
  constructor
  · intro h
    have h0 : 0 ≤ (y 0).val ∧ (y 0).val < 0 + 1 := h 0
    omega
  · intro h a
    match a with
    | 0 => show 0 ≤ (y 0).val ∧ (y 0).val < 0 + 1; omega
    | 1 => show 0 ≤ (y 1).val ∧ (y 1).val < 0 + 128; have := (y 1).isLt; exact ⟨Nat.zero_le _, by simpa using this⟩
    | 2 => show 0 ≤ (y 2).val ∧ (y 2).val < 0 + 128; have := (y 2).isLt; exact ⟨Nat.zero_le _, by simpa using this⟩

theorem mem_h1_e (y : S2x128x128.Idx) : y ∈ (hlf1 (Memref.whole cc1_scratch2 : Memref sig Kind.scVector Space.vmem S2x128x128 EltTy.f32)).view.set ↔ (y 0).val = 1 := by
  rw [Memref.set_view_squeeze]
  rw [show (((Memref.whole cc1_scratch2 : Memref sig Kind.scVector Space.vmem S2x128x128 EltTy.f32).slice (Rect.unit (s := S2x128x128) ![1, 0, 0] S1x128x128.size inb_S2x128x128_S1x128x128_1_0_0) (fun _ => rfl)).view.set)
    = ((View.whole cc1_scratch2).slice (Rect.unit (s := S2x128x128) ![1, 0, 0] S1x128x128.size inb_S2x128x128_S1x128x128_1_0_0)).set from rfl, View.set_slice_whole, Rect.mem_set_unit]
  constructor
  · intro h
    have h0 : 1 ≤ (y 0).val ∧ (y 0).val < 1 + 1 := h 0
    omega
  · intro h a
    match a with
    | 0 => show 1 ≤ (y 0).val ∧ (y 0).val < 1 + 1; omega
    | 1 => show 0 ≤ (y 1).val ∧ (y 1).val < 0 + 128; have := (y 1).isLt; exact ⟨Nat.zero_le _, by simpa using this⟩
    | 2 => show 0 ≤ (y 2).val ∧ (y 2).val < 0 + 128; have := (y 2).isLt; exact ⟨Nat.zero_le _, by simpa using this⟩

theorem union0_e : ((Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set) ∪ ((hlf0 (Memref.whole cc1_scratch2 : Memref sig Kind.scVector Space.vmem S2x128x128 EltTy.f32)).view.set) = (Memref.whole cc1_scratch2 : Memref sig Kind.scVector Space.vmem S2x128x128 EltTy.f32).view.set \ (hlf1 (Memref.whole cc1_scratch2 : Memref sig Kind.scVector Space.vmem S2x128x128 EltTy.f32)).view.set := by
  ext y
  constructor
  · intro hy
    rcases Finset.mem_union.mp hy with h | h
    · exact Finset.mem_sdiff.mpr ⟨by rw [Memref.IsWhole.set_eq_univ (Memref.isWhole_whole cc1_scratch2)]; exact Finset.mem_univ _,
        (Finset.mem_sdiff.mp h).2⟩
    · refine Finset.mem_sdiff.mpr ⟨by rw [Memref.IsWhole.set_eq_univ (Memref.isWhole_whole cc1_scratch2)]; exact Finset.mem_univ _, fun ho => ?_⟩
      have h1 := (mem_h0_e y).mp h
      have h2 := (mem_h1_e y).mp ho
      omega
  · intro hy
    have hno := (Finset.mem_sdiff.mp hy).2
    by_cases hh : y ∈ (hlf0 (Memref.whole cc1_scratch2 : Memref sig Kind.scVector Space.vmem S2x128x128 EltTy.f32)).view.set
    · exact Finset.mem_union_right _ hh
    · exact Finset.mem_union_left _ (Finset.mem_sdiff.mpr ⟨Finset.mem_sdiff.mpr ⟨Finset.mem_univ _, hh⟩, hno⟩)

/-- Half 0 handed back and what was left in hand: the buffer on all but half 1's window. -/
theorem join0_e (fR : Buf (Elt F) ((Memref.whole cc1_scratch2 : Memref sig Kind.scVector Space.vmem S2x128x128 EltTy.f32).view.loc (thr d L))) (f : Buf (Elt F) ((hlf0 (Memref.whole cc1_scratch2 : Memref sig Kind.scVector Space.vmem S2x128x128 EltTy.f32)).view.loc (thr d L))) :
    iprop(((Memref.whole cc1_scratch2 : Memref sig Kind.scVector Space.vmem S2x128x128 EltTy.f32).view.loc (thr d L) ↦[(Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set]{fullShare} fR)
        ∗ ((hlf0 (Memref.whole cc1_scratch2 : Memref sig Kind.scVector Space.vmem S2x128x128 EltTy.f32)).view.loc (thr d L) ↦[(hlf0 (Memref.whole cc1_scratch2 : Memref sig Kind.scVector Space.vmem S2x128x128 EltTy.f32)).view.set]{fullShare} f))
      ⊢ ((Memref.whole cc1_scratch2 : Memref sig Kind.scVector Space.vmem S2x128x128 EltTy.f32).view.loc (thr d L) ↦[(Memref.whole cc1_scratch2 : Memref sig Kind.scVector Space.vmem S2x128x128 EltTy.f32).view.set \ (hlf1 (Memref.whole cc1_scratch2 : Memref sig Kind.scVector Space.vmem S2x128x128 EltTy.f32)).view.set]{fullShare} ((hlf0 (Memref.whole cc1_scratch2 : Memref sig Kind.scVector Space.vmem S2x128x128 EltTy.f32)).view.set.piecewise f fR) : sProp 𝕄) := by
  have hd : Disjoint ((Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set) ((hlf0 (Memref.whole cc1_scratch2 : Memref sig Kind.scVector Space.vmem S2x128x128 EltTy.f32)).view.set) := by
    rw [Finset.disjoint_left]; intro y hy hy2
    exact (Finset.mem_sdiff.mp (Finset.mem_sdiff.mp hy).1).2 hy2
  rw [← union0_e]
  exact pointsTo_join hd

theorem union1_e : ((Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set) ∪ ((hlf1 (Memref.whole cc1_scratch2 : Memref sig Kind.scVector Space.vmem S2x128x128 EltTy.f32)).view.set) = (Memref.whole cc1_scratch2 : Memref sig Kind.scVector Space.vmem S2x128x128 EltTy.f32).view.set \ (hlf0 (Memref.whole cc1_scratch2 : Memref sig Kind.scVector Space.vmem S2x128x128 EltTy.f32)).view.set := by
  ext y
  constructor
  · intro hy
    rcases Finset.mem_union.mp hy with h | h
    · exact Finset.mem_sdiff.mpr ⟨by rw [Memref.IsWhole.set_eq_univ (Memref.isWhole_whole cc1_scratch2)]; exact Finset.mem_univ _,
        (Finset.mem_sdiff.mp (Finset.mem_sdiff.mp h).1).2⟩
    · refine Finset.mem_sdiff.mpr ⟨by rw [Memref.IsWhole.set_eq_univ (Memref.isWhole_whole cc1_scratch2)]; exact Finset.mem_univ _, fun ho => ?_⟩
      have h1 := (mem_h1_e y).mp h
      have h2 := (mem_h0_e y).mp ho
      omega
  · intro hy
    have hno := (Finset.mem_sdiff.mp hy).2
    by_cases hh : y ∈ (hlf1 (Memref.whole cc1_scratch2 : Memref sig Kind.scVector Space.vmem S2x128x128 EltTy.f32)).view.set
    · exact Finset.mem_union_right _ hh
    · exact Finset.mem_union_left _ (Finset.mem_sdiff.mpr ⟨Finset.mem_sdiff.mpr ⟨Finset.mem_univ _, hno⟩, hh⟩)

/-- Half 1 handed back and what was left in hand: the buffer on all but half 0's window. -/
theorem join1_e (fR : Buf (Elt F) ((Memref.whole cc1_scratch2 : Memref sig Kind.scVector Space.vmem S2x128x128 EltTy.f32).view.loc (thr d L))) (f : Buf (Elt F) ((hlf1 (Memref.whole cc1_scratch2 : Memref sig Kind.scVector Space.vmem S2x128x128 EltTy.f32)).view.loc (thr d L))) :
    iprop(((Memref.whole cc1_scratch2 : Memref sig Kind.scVector Space.vmem S2x128x128 EltTy.f32).view.loc (thr d L) ↦[(Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set]{fullShare} fR)
        ∗ ((hlf1 (Memref.whole cc1_scratch2 : Memref sig Kind.scVector Space.vmem S2x128x128 EltTy.f32)).view.loc (thr d L) ↦[(hlf1 (Memref.whole cc1_scratch2 : Memref sig Kind.scVector Space.vmem S2x128x128 EltTy.f32)).view.set]{fullShare} f))
      ⊢ ((Memref.whole cc1_scratch2 : Memref sig Kind.scVector Space.vmem S2x128x128 EltTy.f32).view.loc (thr d L) ↦[(Memref.whole cc1_scratch2 : Memref sig Kind.scVector Space.vmem S2x128x128 EltTy.f32).view.set \ (hlf0 (Memref.whole cc1_scratch2 : Memref sig Kind.scVector Space.vmem S2x128x128 EltTy.f32)).view.set]{fullShare} ((hlf1 (Memref.whole cc1_scratch2 : Memref sig Kind.scVector Space.vmem S2x128x128 EltTy.f32)).view.set.piecewise f fR) : sProp 𝕄) := by
  have hd : Disjoint ((Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set) ((hlf1 (Memref.whole cc1_scratch2 : Memref sig Kind.scVector Space.vmem S2x128x128 EltTy.f32)).view.set) := by
    rw [Finset.disjoint_left]; intro y hy hy2
    exact (Finset.mem_sdiff.mp hy).2 hy2
  rw [← union1_e]
  exact pointsTo_join hd

theorem mem_h0_p (y : S2x128x128.Idx) : y ∈ (hlf0 (Memref.whole cc1_scratch3 : Memref sig Kind.scVector Space.vmem S2x128x128 EltTy.f32)).view.set ↔ (y 0).val = 0 := by
  rw [Memref.set_view_squeeze]
  rw [show (((Memref.whole cc1_scratch3 : Memref sig Kind.scVector Space.vmem S2x128x128 EltTy.f32).slice (Rect.unit (s := S2x128x128) ![0, 0, 0] S1x128x128.size inb_S2x128x128_S1x128x128_0_0_0) (fun _ => rfl)).view.set)
    = ((View.whole cc1_scratch3).slice (Rect.unit (s := S2x128x128) ![0, 0, 0] S1x128x128.size inb_S2x128x128_S1x128x128_0_0_0)).set from rfl, View.set_slice_whole, Rect.mem_set_unit]
  constructor
  · intro h
    have h0 : 0 ≤ (y 0).val ∧ (y 0).val < 0 + 1 := h 0
    omega
  · intro h a
    match a with
    | 0 => show 0 ≤ (y 0).val ∧ (y 0).val < 0 + 1; omega
    | 1 => show 0 ≤ (y 1).val ∧ (y 1).val < 0 + 128; have := (y 1).isLt; exact ⟨Nat.zero_le _, by simpa using this⟩
    | 2 => show 0 ≤ (y 2).val ∧ (y 2).val < 0 + 128; have := (y 2).isLt; exact ⟨Nat.zero_le _, by simpa using this⟩

theorem mem_h1_p (y : S2x128x128.Idx) : y ∈ (hlf1 (Memref.whole cc1_scratch3 : Memref sig Kind.scVector Space.vmem S2x128x128 EltTy.f32)).view.set ↔ (y 0).val = 1 := by
  rw [Memref.set_view_squeeze]
  rw [show (((Memref.whole cc1_scratch3 : Memref sig Kind.scVector Space.vmem S2x128x128 EltTy.f32).slice (Rect.unit (s := S2x128x128) ![1, 0, 0] S1x128x128.size inb_S2x128x128_S1x128x128_1_0_0) (fun _ => rfl)).view.set)
    = ((View.whole cc1_scratch3).slice (Rect.unit (s := S2x128x128) ![1, 0, 0] S1x128x128.size inb_S2x128x128_S1x128x128_1_0_0)).set from rfl, View.set_slice_whole, Rect.mem_set_unit]
  constructor
  · intro h
    have h0 : 1 ≤ (y 0).val ∧ (y 0).val < 1 + 1 := h 0
    omega
  · intro h a
    match a with
    | 0 => show 1 ≤ (y 0).val ∧ (y 0).val < 1 + 1; omega
    | 1 => show 0 ≤ (y 1).val ∧ (y 1).val < 0 + 128; have := (y 1).isLt; exact ⟨Nat.zero_le _, by simpa using this⟩
    | 2 => show 0 ≤ (y 2).val ∧ (y 2).val < 0 + 128; have := (y 2).isLt; exact ⟨Nat.zero_le _, by simpa using this⟩

theorem union0_p : ((Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set) ∪ ((hlf0 (Memref.whole cc1_scratch3 : Memref sig Kind.scVector Space.vmem S2x128x128 EltTy.f32)).view.set) = (Memref.whole cc1_scratch3 : Memref sig Kind.scVector Space.vmem S2x128x128 EltTy.f32).view.set \ (hlf1 (Memref.whole cc1_scratch3 : Memref sig Kind.scVector Space.vmem S2x128x128 EltTy.f32)).view.set := by
  ext y
  constructor
  · intro hy
    rcases Finset.mem_union.mp hy with h | h
    · exact Finset.mem_sdiff.mpr ⟨by rw [Memref.IsWhole.set_eq_univ (Memref.isWhole_whole cc1_scratch3)]; exact Finset.mem_univ _,
        (Finset.mem_sdiff.mp h).2⟩
    · refine Finset.mem_sdiff.mpr ⟨by rw [Memref.IsWhole.set_eq_univ (Memref.isWhole_whole cc1_scratch3)]; exact Finset.mem_univ _, fun ho => ?_⟩
      have h1 := (mem_h0_p y).mp h
      have h2 := (mem_h1_p y).mp ho
      omega
  · intro hy
    have hno := (Finset.mem_sdiff.mp hy).2
    by_cases hh : y ∈ (hlf0 (Memref.whole cc1_scratch3 : Memref sig Kind.scVector Space.vmem S2x128x128 EltTy.f32)).view.set
    · exact Finset.mem_union_right _ hh
    · exact Finset.mem_union_left _ (Finset.mem_sdiff.mpr ⟨Finset.mem_sdiff.mpr ⟨Finset.mem_univ _, hh⟩, hno⟩)

/-- Half 0 handed back and what was left in hand: the buffer on all but half 1's window. -/
theorem join0_p (fR : Buf (Elt F) ((Memref.whole cc1_scratch3 : Memref sig Kind.scVector Space.vmem S2x128x128 EltTy.f32).view.loc (thr d L))) (f : Buf (Elt F) ((hlf0 (Memref.whole cc1_scratch3 : Memref sig Kind.scVector Space.vmem S2x128x128 EltTy.f32)).view.loc (thr d L))) :
    iprop(((Memref.whole cc1_scratch3 : Memref sig Kind.scVector Space.vmem S2x128x128 EltTy.f32).view.loc (thr d L) ↦[(Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set]{fullShare} fR)
        ∗ ((hlf0 (Memref.whole cc1_scratch3 : Memref sig Kind.scVector Space.vmem S2x128x128 EltTy.f32)).view.loc (thr d L) ↦[(hlf0 (Memref.whole cc1_scratch3 : Memref sig Kind.scVector Space.vmem S2x128x128 EltTy.f32)).view.set]{fullShare} f))
      ⊢ ((Memref.whole cc1_scratch3 : Memref sig Kind.scVector Space.vmem S2x128x128 EltTy.f32).view.loc (thr d L) ↦[(Memref.whole cc1_scratch3 : Memref sig Kind.scVector Space.vmem S2x128x128 EltTy.f32).view.set \ (hlf1 (Memref.whole cc1_scratch3 : Memref sig Kind.scVector Space.vmem S2x128x128 EltTy.f32)).view.set]{fullShare} ((hlf0 (Memref.whole cc1_scratch3 : Memref sig Kind.scVector Space.vmem S2x128x128 EltTy.f32)).view.set.piecewise f fR) : sProp 𝕄) := by
  have hd : Disjoint ((Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set) ((hlf0 (Memref.whole cc1_scratch3 : Memref sig Kind.scVector Space.vmem S2x128x128 EltTy.f32)).view.set) := by
    rw [Finset.disjoint_left]; intro y hy hy2
    exact (Finset.mem_sdiff.mp (Finset.mem_sdiff.mp hy).1).2 hy2
  rw [← union0_p]
  exact pointsTo_join hd

theorem union1_p : ((Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set) ∪ ((hlf1 (Memref.whole cc1_scratch3 : Memref sig Kind.scVector Space.vmem S2x128x128 EltTy.f32)).view.set) = (Memref.whole cc1_scratch3 : Memref sig Kind.scVector Space.vmem S2x128x128 EltTy.f32).view.set \ (hlf0 (Memref.whole cc1_scratch3 : Memref sig Kind.scVector Space.vmem S2x128x128 EltTy.f32)).view.set := by
  ext y
  constructor
  · intro hy
    rcases Finset.mem_union.mp hy with h | h
    · exact Finset.mem_sdiff.mpr ⟨by rw [Memref.IsWhole.set_eq_univ (Memref.isWhole_whole cc1_scratch3)]; exact Finset.mem_univ _,
        (Finset.mem_sdiff.mp (Finset.mem_sdiff.mp h).1).2⟩
    · refine Finset.mem_sdiff.mpr ⟨by rw [Memref.IsWhole.set_eq_univ (Memref.isWhole_whole cc1_scratch3)]; exact Finset.mem_univ _, fun ho => ?_⟩
      have h1 := (mem_h1_p y).mp h
      have h2 := (mem_h0_p y).mp ho
      omega
  · intro hy
    have hno := (Finset.mem_sdiff.mp hy).2
    by_cases hh : y ∈ (hlf1 (Memref.whole cc1_scratch3 : Memref sig Kind.scVector Space.vmem S2x128x128 EltTy.f32)).view.set
    · exact Finset.mem_union_right _ hh
    · exact Finset.mem_union_left _ (Finset.mem_sdiff.mpr ⟨Finset.mem_sdiff.mpr ⟨Finset.mem_univ _, hno⟩, hh⟩)

/-- Half 1 handed back and what was left in hand: the buffer on all but half 0's window. -/
theorem join1_p (fR : Buf (Elt F) ((Memref.whole cc1_scratch3 : Memref sig Kind.scVector Space.vmem S2x128x128 EltTy.f32).view.loc (thr d L))) (f : Buf (Elt F) ((hlf1 (Memref.whole cc1_scratch3 : Memref sig Kind.scVector Space.vmem S2x128x128 EltTy.f32)).view.loc (thr d L))) :
    iprop(((Memref.whole cc1_scratch3 : Memref sig Kind.scVector Space.vmem S2x128x128 EltTy.f32).view.loc (thr d L) ↦[(Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set]{fullShare} fR)
        ∗ ((hlf1 (Memref.whole cc1_scratch3 : Memref sig Kind.scVector Space.vmem S2x128x128 EltTy.f32)).view.loc (thr d L) ↦[(hlf1 (Memref.whole cc1_scratch3 : Memref sig Kind.scVector Space.vmem S2x128x128 EltTy.f32)).view.set]{fullShare} f))
      ⊢ ((Memref.whole cc1_scratch3 : Memref sig Kind.scVector Space.vmem S2x128x128 EltTy.f32).view.loc (thr d L) ↦[(Memref.whole cc1_scratch3 : Memref sig Kind.scVector Space.vmem S2x128x128 EltTy.f32).view.set \ (hlf0 (Memref.whole cc1_scratch3 : Memref sig Kind.scVector Space.vmem S2x128x128 EltTy.f32)).view.set]{fullShare} ((hlf1 (Memref.whole cc1_scratch3 : Memref sig Kind.scVector Space.vmem S2x128x128 EltTy.f32)).view.set.piecewise f fR) : sProp 𝕄) := by
  have hd : Disjoint ((Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set) ((hlf1 (Memref.whole cc1_scratch3 : Memref sig Kind.scVector Space.vmem S2x128x128 EltTy.f32)).view.set) := by
    rw [Finset.disjoint_left]; intro y hy hy2
    exact (Finset.mem_sdiff.mp hy).2 hy2
  rw [← union1_p]
  exact pointsTo_join hd

theorem mem_h0_o (y : S2x128x128.Idx) : y ∈ (hlf0 (Memref.whole cc1_scratch4 : Memref sig Kind.scVector Space.vmem S2x128x128 EltTy.f32)).view.set ↔ (y 0).val = 0 := by
  rw [Memref.set_view_squeeze]
  rw [show (((Memref.whole cc1_scratch4 : Memref sig Kind.scVector Space.vmem S2x128x128 EltTy.f32).slice (Rect.unit (s := S2x128x128) ![0, 0, 0] S1x128x128.size inb_S2x128x128_S1x128x128_0_0_0) (fun _ => rfl)).view.set)
    = ((View.whole cc1_scratch4).slice (Rect.unit (s := S2x128x128) ![0, 0, 0] S1x128x128.size inb_S2x128x128_S1x128x128_0_0_0)).set from rfl, View.set_slice_whole, Rect.mem_set_unit]
  constructor
  · intro h
    have h0 : 0 ≤ (y 0).val ∧ (y 0).val < 0 + 1 := h 0
    omega
  · intro h a
    match a with
    | 0 => show 0 ≤ (y 0).val ∧ (y 0).val < 0 + 1; omega
    | 1 => show 0 ≤ (y 1).val ∧ (y 1).val < 0 + 128; have := (y 1).isLt; exact ⟨Nat.zero_le _, by simpa using this⟩
    | 2 => show 0 ≤ (y 2).val ∧ (y 2).val < 0 + 128; have := (y 2).isLt; exact ⟨Nat.zero_le _, by simpa using this⟩

theorem mem_h1_o (y : S2x128x128.Idx) : y ∈ (hlf1 (Memref.whole cc1_scratch4 : Memref sig Kind.scVector Space.vmem S2x128x128 EltTy.f32)).view.set ↔ (y 0).val = 1 := by
  rw [Memref.set_view_squeeze]
  rw [show (((Memref.whole cc1_scratch4 : Memref sig Kind.scVector Space.vmem S2x128x128 EltTy.f32).slice (Rect.unit (s := S2x128x128) ![1, 0, 0] S1x128x128.size inb_S2x128x128_S1x128x128_1_0_0) (fun _ => rfl)).view.set)
    = ((View.whole cc1_scratch4).slice (Rect.unit (s := S2x128x128) ![1, 0, 0] S1x128x128.size inb_S2x128x128_S1x128x128_1_0_0)).set from rfl, View.set_slice_whole, Rect.mem_set_unit]
  constructor
  · intro h
    have h0 : 1 ≤ (y 0).val ∧ (y 0).val < 1 + 1 := h 0
    omega
  · intro h a
    match a with
    | 0 => show 1 ≤ (y 0).val ∧ (y 0).val < 1 + 1; omega
    | 1 => show 0 ≤ (y 1).val ∧ (y 1).val < 0 + 128; have := (y 1).isLt; exact ⟨Nat.zero_le _, by simpa using this⟩
    | 2 => show 0 ≤ (y 2).val ∧ (y 2).val < 0 + 128; have := (y 2).isLt; exact ⟨Nat.zero_le _, by simpa using this⟩

theorem union0_o : ((Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set) ∪ ((hlf0 (Memref.whole cc1_scratch4 : Memref sig Kind.scVector Space.vmem S2x128x128 EltTy.f32)).view.set) = (Memref.whole cc1_scratch4 : Memref sig Kind.scVector Space.vmem S2x128x128 EltTy.f32).view.set \ (hlf1 (Memref.whole cc1_scratch4 : Memref sig Kind.scVector Space.vmem S2x128x128 EltTy.f32)).view.set := by
  ext y
  constructor
  · intro hy
    rcases Finset.mem_union.mp hy with h | h
    · exact Finset.mem_sdiff.mpr ⟨by rw [Memref.IsWhole.set_eq_univ (Memref.isWhole_whole cc1_scratch4)]; exact Finset.mem_univ _,
        (Finset.mem_sdiff.mp h).2⟩
    · refine Finset.mem_sdiff.mpr ⟨by rw [Memref.IsWhole.set_eq_univ (Memref.isWhole_whole cc1_scratch4)]; exact Finset.mem_univ _, fun ho => ?_⟩
      have h1 := (mem_h0_o y).mp h
      have h2 := (mem_h1_o y).mp ho
      omega
  · intro hy
    have hno := (Finset.mem_sdiff.mp hy).2
    by_cases hh : y ∈ (hlf0 (Memref.whole cc1_scratch4 : Memref sig Kind.scVector Space.vmem S2x128x128 EltTy.f32)).view.set
    · exact Finset.mem_union_right _ hh
    · exact Finset.mem_union_left _ (Finset.mem_sdiff.mpr ⟨Finset.mem_sdiff.mpr ⟨Finset.mem_univ _, hh⟩, hno⟩)

/-- Half 0 handed back and what was left in hand: the buffer on all but half 1's window. -/
theorem join0_o (fR : Buf (Elt F) ((Memref.whole cc1_scratch4 : Memref sig Kind.scVector Space.vmem S2x128x128 EltTy.f32).view.loc (thr d L))) (f : Buf (Elt F) ((hlf0 (Memref.whole cc1_scratch4 : Memref sig Kind.scVector Space.vmem S2x128x128 EltTy.f32)).view.loc (thr d L))) :
    iprop(((Memref.whole cc1_scratch4 : Memref sig Kind.scVector Space.vmem S2x128x128 EltTy.f32).view.loc (thr d L) ↦[(Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set]{fullShare} fR)
        ∗ ((hlf0 (Memref.whole cc1_scratch4 : Memref sig Kind.scVector Space.vmem S2x128x128 EltTy.f32)).view.loc (thr d L) ↦[(hlf0 (Memref.whole cc1_scratch4 : Memref sig Kind.scVector Space.vmem S2x128x128 EltTy.f32)).view.set]{fullShare} f))
      ⊢ ((Memref.whole cc1_scratch4 : Memref sig Kind.scVector Space.vmem S2x128x128 EltTy.f32).view.loc (thr d L) ↦[(Memref.whole cc1_scratch4 : Memref sig Kind.scVector Space.vmem S2x128x128 EltTy.f32).view.set \ (hlf1 (Memref.whole cc1_scratch4 : Memref sig Kind.scVector Space.vmem S2x128x128 EltTy.f32)).view.set]{fullShare} ((hlf0 (Memref.whole cc1_scratch4 : Memref sig Kind.scVector Space.vmem S2x128x128 EltTy.f32)).view.set.piecewise f fR) : sProp 𝕄) := by
  have hd : Disjoint ((Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set) ((hlf0 (Memref.whole cc1_scratch4 : Memref sig Kind.scVector Space.vmem S2x128x128 EltTy.f32)).view.set) := by
    rw [Finset.disjoint_left]; intro y hy hy2
    exact (Finset.mem_sdiff.mp (Finset.mem_sdiff.mp hy).1).2 hy2
  rw [← union0_o]
  exact pointsTo_join hd

theorem union1_o : ((Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set) ∪ ((hlf1 (Memref.whole cc1_scratch4 : Memref sig Kind.scVector Space.vmem S2x128x128 EltTy.f32)).view.set) = (Memref.whole cc1_scratch4 : Memref sig Kind.scVector Space.vmem S2x128x128 EltTy.f32).view.set \ (hlf0 (Memref.whole cc1_scratch4 : Memref sig Kind.scVector Space.vmem S2x128x128 EltTy.f32)).view.set := by
  ext y
  constructor
  · intro hy
    rcases Finset.mem_union.mp hy with h | h
    · exact Finset.mem_sdiff.mpr ⟨by rw [Memref.IsWhole.set_eq_univ (Memref.isWhole_whole cc1_scratch4)]; exact Finset.mem_univ _,
        (Finset.mem_sdiff.mp (Finset.mem_sdiff.mp h).1).2⟩
    · refine Finset.mem_sdiff.mpr ⟨by rw [Memref.IsWhole.set_eq_univ (Memref.isWhole_whole cc1_scratch4)]; exact Finset.mem_univ _, fun ho => ?_⟩
      have h1 := (mem_h1_o y).mp h
      have h2 := (mem_h0_o y).mp ho
      omega
  · intro hy
    have hno := (Finset.mem_sdiff.mp hy).2
    by_cases hh : y ∈ (hlf1 (Memref.whole cc1_scratch4 : Memref sig Kind.scVector Space.vmem S2x128x128 EltTy.f32)).view.set
    · exact Finset.mem_union_right _ hh
    · exact Finset.mem_union_left _ (Finset.mem_sdiff.mpr ⟨Finset.mem_sdiff.mpr ⟨Finset.mem_univ _, hno⟩, hh⟩)

/-- Half 1 handed back and what was left in hand: the buffer on all but half 0's window. -/
theorem join1_o (fR : Buf (Elt F) ((Memref.whole cc1_scratch4 : Memref sig Kind.scVector Space.vmem S2x128x128 EltTy.f32).view.loc (thr d L))) (f : Buf (Elt F) ((hlf1 (Memref.whole cc1_scratch4 : Memref sig Kind.scVector Space.vmem S2x128x128 EltTy.f32)).view.loc (thr d L))) :
    iprop(((Memref.whole cc1_scratch4 : Memref sig Kind.scVector Space.vmem S2x128x128 EltTy.f32).view.loc (thr d L) ↦[(Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set]{fullShare} fR)
        ∗ ((hlf1 (Memref.whole cc1_scratch4 : Memref sig Kind.scVector Space.vmem S2x128x128 EltTy.f32)).view.loc (thr d L) ↦[(hlf1 (Memref.whole cc1_scratch4 : Memref sig Kind.scVector Space.vmem S2x128x128 EltTy.f32)).view.set]{fullShare} f))
      ⊢ ((Memref.whole cc1_scratch4 : Memref sig Kind.scVector Space.vmem S2x128x128 EltTy.f32).view.loc (thr d L) ↦[(Memref.whole cc1_scratch4 : Memref sig Kind.scVector Space.vmem S2x128x128 EltTy.f32).view.set \ (hlf0 (Memref.whole cc1_scratch4 : Memref sig Kind.scVector Space.vmem S2x128x128 EltTy.f32)).view.set]{fullShare} ((hlf1 (Memref.whole cc1_scratch4 : Memref sig Kind.scVector Space.vmem S2x128x128 EltTy.f32)).view.set.piecewise f fR) : sProp 𝕄) := by
  have hd : Disjoint ((Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set) ((hlf1 (Memref.whole cc1_scratch4 : Memref sig Kind.scVector Space.vmem S2x128x128 EltTy.f32)).view.set) := by
    rw [Finset.disjoint_left]; intro y hy hy2
    exact (Finset.mem_sdiff.mp hy).2 hy2
  rw [← union1_o]
  exact pointsTo_join hd

theorem restA_e : ((Memref.whole cc1_scratch2 : Memref sig Kind.scVector Space.vmem S2x128x128 EltTy.f32).view.set \ (hlf1 (Memref.whole cc1_scratch2 : Memref sig Kind.scVector Space.vmem S2x128x128 EltTy.f32)).view.set) \ (hlf0 (Memref.whole cc1_scratch2 : Memref sig Kind.scVector Space.vmem S2x128x128 EltTy.f32)).view.set = (Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set := by
  rw [Memref.IsWhole.set_eq_univ (Memref.isWhole_whole cc1_scratch2)]
  exact sdiff_right_comm _ _ _
theorem restB_e : ((Memref.whole cc1_scratch2 : Memref sig Kind.scVector Space.vmem S2x128x128 EltTy.f32).view.set \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set = (Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set := by
  rw [Memref.IsWhole.set_eq_univ (Memref.isWhole_whole cc1_scratch2)]

/-- The same with what was left in hand spelt on any set equal to the rest. -/
theorem join0_e_of {S : Finset (Idx ((Memref.whole cc1_scratch2 : Memref sig Kind.scVector Space.vmem S2x128x128 EltTy.f32).view.loc (thr d L)))} (hS : S = (Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set)
    (fR : Buf (Elt F) ((Memref.whole cc1_scratch2 : Memref sig Kind.scVector Space.vmem S2x128x128 EltTy.f32).view.loc (thr d L))) (f : Buf (Elt F) ((hlf0 (Memref.whole cc1_scratch2 : Memref sig Kind.scVector Space.vmem S2x128x128 EltTy.f32)).view.loc (thr d L))) :
    iprop(((Memref.whole cc1_scratch2 : Memref sig Kind.scVector Space.vmem S2x128x128 EltTy.f32).view.loc (thr d L) ↦[S]{fullShare} fR) ∗ ((hlf0 (Memref.whole cc1_scratch2 : Memref sig Kind.scVector Space.vmem S2x128x128 EltTy.f32)).view.loc (thr d L) ↦[(hlf0 (Memref.whole cc1_scratch2 : Memref sig Kind.scVector Space.vmem S2x128x128 EltTy.f32)).view.set]{fullShare} f))
      ⊢ ((Memref.whole cc1_scratch2 : Memref sig Kind.scVector Space.vmem S2x128x128 EltTy.f32).view.loc (thr d L) ↦[(Memref.whole cc1_scratch2 : Memref sig Kind.scVector Space.vmem S2x128x128 EltTy.f32).view.set \ (hlf1 (Memref.whole cc1_scratch2 : Memref sig Kind.scVector Space.vmem S2x128x128 EltTy.f32)).view.set]{fullShare} ((hlf0 (Memref.whole cc1_scratch2 : Memref sig Kind.scVector Space.vmem S2x128x128 EltTy.f32)).view.set.piecewise f fR) : sProp 𝕄) := by
  subst hS; exact join0_e d L fR f
theorem join1_e_of {S : Finset (Idx ((Memref.whole cc1_scratch2 : Memref sig Kind.scVector Space.vmem S2x128x128 EltTy.f32).view.loc (thr d L)))} (hS : S = (Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set)
    (fR : Buf (Elt F) ((Memref.whole cc1_scratch2 : Memref sig Kind.scVector Space.vmem S2x128x128 EltTy.f32).view.loc (thr d L))) (f : Buf (Elt F) ((hlf1 (Memref.whole cc1_scratch2 : Memref sig Kind.scVector Space.vmem S2x128x128 EltTy.f32)).view.loc (thr d L))) :
    iprop(((Memref.whole cc1_scratch2 : Memref sig Kind.scVector Space.vmem S2x128x128 EltTy.f32).view.loc (thr d L) ↦[S]{fullShare} fR) ∗ ((hlf1 (Memref.whole cc1_scratch2 : Memref sig Kind.scVector Space.vmem S2x128x128 EltTy.f32)).view.loc (thr d L) ↦[(hlf1 (Memref.whole cc1_scratch2 : Memref sig Kind.scVector Space.vmem S2x128x128 EltTy.f32)).view.set]{fullShare} f))
      ⊢ ((Memref.whole cc1_scratch2 : Memref sig Kind.scVector Space.vmem S2x128x128 EltTy.f32).view.loc (thr d L) ↦[(Memref.whole cc1_scratch2 : Memref sig Kind.scVector Space.vmem S2x128x128 EltTy.f32).view.set \ (hlf0 (Memref.whole cc1_scratch2 : Memref sig Kind.scVector Space.vmem S2x128x128 EltTy.f32)).view.set]{fullShare} ((hlf1 (Memref.whole cc1_scratch2 : Memref sig Kind.scVector Space.vmem S2x128x128 EltTy.f32)).view.set.piecewise f fR) : sProp 𝕄) := by
  subst hS; exact join1_e d L fR f

theorem restA_p : ((Memref.whole cc1_scratch3 : Memref sig Kind.scVector Space.vmem S2x128x128 EltTy.f32).view.set \ (hlf1 (Memref.whole cc1_scratch3 : Memref sig Kind.scVector Space.vmem S2x128x128 EltTy.f32)).view.set) \ (hlf0 (Memref.whole cc1_scratch3 : Memref sig Kind.scVector Space.vmem S2x128x128 EltTy.f32)).view.set = (Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set := by
  rw [Memref.IsWhole.set_eq_univ (Memref.isWhole_whole cc1_scratch3)]
  exact sdiff_right_comm _ _ _
theorem restB_p : ((Memref.whole cc1_scratch3 : Memref sig Kind.scVector Space.vmem S2x128x128 EltTy.f32).view.set \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set = (Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set := by
  rw [Memref.IsWhole.set_eq_univ (Memref.isWhole_whole cc1_scratch3)]

/-- The same with what was left in hand spelt on any set equal to the rest. -/
theorem join0_p_of {S : Finset (Idx ((Memref.whole cc1_scratch3 : Memref sig Kind.scVector Space.vmem S2x128x128 EltTy.f32).view.loc (thr d L)))} (hS : S = (Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set)
    (fR : Buf (Elt F) ((Memref.whole cc1_scratch3 : Memref sig Kind.scVector Space.vmem S2x128x128 EltTy.f32).view.loc (thr d L))) (f : Buf (Elt F) ((hlf0 (Memref.whole cc1_scratch3 : Memref sig Kind.scVector Space.vmem S2x128x128 EltTy.f32)).view.loc (thr d L))) :
    iprop(((Memref.whole cc1_scratch3 : Memref sig Kind.scVector Space.vmem S2x128x128 EltTy.f32).view.loc (thr d L) ↦[S]{fullShare} fR) ∗ ((hlf0 (Memref.whole cc1_scratch3 : Memref sig Kind.scVector Space.vmem S2x128x128 EltTy.f32)).view.loc (thr d L) ↦[(hlf0 (Memref.whole cc1_scratch3 : Memref sig Kind.scVector Space.vmem S2x128x128 EltTy.f32)).view.set]{fullShare} f))
      ⊢ ((Memref.whole cc1_scratch3 : Memref sig Kind.scVector Space.vmem S2x128x128 EltTy.f32).view.loc (thr d L) ↦[(Memref.whole cc1_scratch3 : Memref sig Kind.scVector Space.vmem S2x128x128 EltTy.f32).view.set \ (hlf1 (Memref.whole cc1_scratch3 : Memref sig Kind.scVector Space.vmem S2x128x128 EltTy.f32)).view.set]{fullShare} ((hlf0 (Memref.whole cc1_scratch3 : Memref sig Kind.scVector Space.vmem S2x128x128 EltTy.f32)).view.set.piecewise f fR) : sProp 𝕄) := by
  subst hS; exact join0_p d L fR f
theorem join1_p_of {S : Finset (Idx ((Memref.whole cc1_scratch3 : Memref sig Kind.scVector Space.vmem S2x128x128 EltTy.f32).view.loc (thr d L)))} (hS : S = (Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set)
    (fR : Buf (Elt F) ((Memref.whole cc1_scratch3 : Memref sig Kind.scVector Space.vmem S2x128x128 EltTy.f32).view.loc (thr d L))) (f : Buf (Elt F) ((hlf1 (Memref.whole cc1_scratch3 : Memref sig Kind.scVector Space.vmem S2x128x128 EltTy.f32)).view.loc (thr d L))) :
    iprop(((Memref.whole cc1_scratch3 : Memref sig Kind.scVector Space.vmem S2x128x128 EltTy.f32).view.loc (thr d L) ↦[S]{fullShare} fR) ∗ ((hlf1 (Memref.whole cc1_scratch3 : Memref sig Kind.scVector Space.vmem S2x128x128 EltTy.f32)).view.loc (thr d L) ↦[(hlf1 (Memref.whole cc1_scratch3 : Memref sig Kind.scVector Space.vmem S2x128x128 EltTy.f32)).view.set]{fullShare} f))
      ⊢ ((Memref.whole cc1_scratch3 : Memref sig Kind.scVector Space.vmem S2x128x128 EltTy.f32).view.loc (thr d L) ↦[(Memref.whole cc1_scratch3 : Memref sig Kind.scVector Space.vmem S2x128x128 EltTy.f32).view.set \ (hlf0 (Memref.whole cc1_scratch3 : Memref sig Kind.scVector Space.vmem S2x128x128 EltTy.f32)).view.set]{fullShare} ((hlf1 (Memref.whole cc1_scratch3 : Memref sig Kind.scVector Space.vmem S2x128x128 EltTy.f32)).view.set.piecewise f fR) : sProp 𝕄) := by
  subst hS; exact join1_p d L fR f

theorem restA_o : ((Memref.whole cc1_scratch4 : Memref sig Kind.scVector Space.vmem S2x128x128 EltTy.f32).view.set \ (hlf1 (Memref.whole cc1_scratch4 : Memref sig Kind.scVector Space.vmem S2x128x128 EltTy.f32)).view.set) \ (hlf0 (Memref.whole cc1_scratch4 : Memref sig Kind.scVector Space.vmem S2x128x128 EltTy.f32)).view.set = (Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set := by
  rw [Memref.IsWhole.set_eq_univ (Memref.isWhole_whole cc1_scratch4)]
  exact sdiff_right_comm _ _ _
theorem restB_o : ((Memref.whole cc1_scratch4 : Memref sig Kind.scVector Space.vmem S2x128x128 EltTy.f32).view.set \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set = (Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set := by
  rw [Memref.IsWhole.set_eq_univ (Memref.isWhole_whole cc1_scratch4)]

/-- The same with what was left in hand spelt on any set equal to the rest. -/
theorem join0_o_of {S : Finset (Idx ((Memref.whole cc1_scratch4 : Memref sig Kind.scVector Space.vmem S2x128x128 EltTy.f32).view.loc (thr d L)))} (hS : S = (Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set)
    (fR : Buf (Elt F) ((Memref.whole cc1_scratch4 : Memref sig Kind.scVector Space.vmem S2x128x128 EltTy.f32).view.loc (thr d L))) (f : Buf (Elt F) ((hlf0 (Memref.whole cc1_scratch4 : Memref sig Kind.scVector Space.vmem S2x128x128 EltTy.f32)).view.loc (thr d L))) :
    iprop(((Memref.whole cc1_scratch4 : Memref sig Kind.scVector Space.vmem S2x128x128 EltTy.f32).view.loc (thr d L) ↦[S]{fullShare} fR) ∗ ((hlf0 (Memref.whole cc1_scratch4 : Memref sig Kind.scVector Space.vmem S2x128x128 EltTy.f32)).view.loc (thr d L) ↦[(hlf0 (Memref.whole cc1_scratch4 : Memref sig Kind.scVector Space.vmem S2x128x128 EltTy.f32)).view.set]{fullShare} f))
      ⊢ ((Memref.whole cc1_scratch4 : Memref sig Kind.scVector Space.vmem S2x128x128 EltTy.f32).view.loc (thr d L) ↦[(Memref.whole cc1_scratch4 : Memref sig Kind.scVector Space.vmem S2x128x128 EltTy.f32).view.set \ (hlf1 (Memref.whole cc1_scratch4 : Memref sig Kind.scVector Space.vmem S2x128x128 EltTy.f32)).view.set]{fullShare} ((hlf0 (Memref.whole cc1_scratch4 : Memref sig Kind.scVector Space.vmem S2x128x128 EltTy.f32)).view.set.piecewise f fR) : sProp 𝕄) := by
  subst hS; exact join0_o d L fR f
theorem join1_o_of {S : Finset (Idx ((Memref.whole cc1_scratch4 : Memref sig Kind.scVector Space.vmem S2x128x128 EltTy.f32).view.loc (thr d L)))} (hS : S = (Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set)
    (fR : Buf (Elt F) ((Memref.whole cc1_scratch4 : Memref sig Kind.scVector Space.vmem S2x128x128 EltTy.f32).view.loc (thr d L))) (f : Buf (Elt F) ((hlf1 (Memref.whole cc1_scratch4 : Memref sig Kind.scVector Space.vmem S2x128x128 EltTy.f32)).view.loc (thr d L))) :
    iprop(((Memref.whole cc1_scratch4 : Memref sig Kind.scVector Space.vmem S2x128x128 EltTy.f32).view.loc (thr d L) ↦[S]{fullShare} fR) ∗ ((hlf1 (Memref.whole cc1_scratch4 : Memref sig Kind.scVector Space.vmem S2x128x128 EltTy.f32)).view.loc (thr d L) ↦[(hlf1 (Memref.whole cc1_scratch4 : Memref sig Kind.scVector Space.vmem S2x128x128 EltTy.f32)).view.set]{fullShare} f))
      ⊢ ((Memref.whole cc1_scratch4 : Memref sig Kind.scVector Space.vmem S2x128x128 EltTy.f32).view.loc (thr d L) ↦[(Memref.whole cc1_scratch4 : Memref sig Kind.scVector Space.vmem S2x128x128 EltTy.f32).view.set \ (hlf0 (Memref.whole cc1_scratch4 : Memref sig Kind.scVector Space.vmem S2x128x128 EltTy.f32)).view.set]{fullShare} ((hlf1 (Memref.whole cc1_scratch4 : Memref sig Kind.scVector Space.vmem S2x128x128 EltTy.f32)).view.set.piecewise f fR) : sProp 𝕄) := by
  subst hS; exact join1_o d L fR f

end Cert.KernelIdeal.Run.Sc

end
-- ==== Proof.ScBook.lean ====
/-
  The tile's bookkeeping of ids: which words of the id scratches a gather's list reads, that they are the flat ids of the
  chunk the gather serves (so they name rows of the tables when all flat ids do), and that a slot written whole with the
  next trip's ids holds the next trip's ids.

  An id scratch is 2 × 512 words: slot `s` is row `s`; quarter `q` of a slot is its columns `128 q … 128 q + 127`, the
  list of the gather of chunk `4k + q` when the slot holds trip `k`'s 512 ids, which are the flat ids at positions
  `base + 512 k …` of the worker's rows (`base = 51200 · tile + 25600 · core`).
-/
import proofs.«204385_g66649302499670_cont_9to1c4b_43_34_alg».proof.Proof.ScTrip
import proofs.«204385_g66649302499670_cont_9to1c4b_43_34_alg».proof.Proof.ScFacts
import Idealize.ShloMosaic.Lib.ValueLayout

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)

variable [FloatOps F] (A : Vals F) (d : Dev nD) (L : grid1.Coords)

/-! ## Reading a list, a slot, a window of ids: which word of the buffer -/

theorem sc_1x128 : S1x128.ShapeCasts S128 := by decide
theorem sc_1x512 : S1x512.ShapeCasts S512 := by decide

omit [FloatOps F] in
theorem lst_row_lt (off : Fin 2 → ℕ) (h : ∀ a, off a + S1x128.size a ≤ S2x512.size a) : off 0 < 2 := by
  have h0 : off 0 + 1 ≤ 2 := h 0
  omega
omit [FloatOps F] in
theorem lst_col_lt (off : Fin 2 → ℕ) (h : ∀ a, off a + S1x128.size a ≤ S2x512.size a) (i : Fin 128) : off 1 + i.val < 512 := by
  have h1 : off 1 + 128 ≤ 512 := h 1
  omega
omit [FloatOps F] in
theorem slot_row_lt (off : Fin 2 → ℕ) (h : ∀ a, off a + S1x512.size a ≤ S2x512.size a) : off 0 < 2 := by
  have h0 : off 0 + 1 ≤ 2 := h 0
  omega
omit [FloatOps F] in
theorem slot_col_lt (off : Fin 2 → ℕ) (h : ∀ a, off a + S1x512.size a ≤ S2x512.size a) (j : Fin 512) : off 1 + j.val < 512 := by
  have h1 : off 1 + 512 ≤ 512 := h 1
  omega
omit [FloatOps F] in
theorem win_lt (off : Fin 1 → ℕ) (h : ∀ a, off a + S512.size a ≤ S819200.size a) (j : Fin 512) : off 0 + j.val < 819200 := by
  have h0 : off 0 + 512 ≤ 819200 := h 0
  omega

/-- A 128-list at offsets `off` of the element-id scratch reads, at `i`, the scratch's word at row `off 0`, column
    `off 1 + i`. -/
theorem rd_lst_e (off : Fin 2 → ℕ) (h : ∀ a, off a + S1x128.size a ≤ S2x512.size a)
    (e : Buf (Elt F) ((eixV).view.loc (thr d L))) (i : Fin 128) :
    (lst eixV off h).view.read (Elt F) e (ix1 i)
      = e (ix2 (⟨off 0, lst_row_lt off h⟩ : Fin 2) (⟨off 1 + i.val, lst_col_lt off h i⟩ : Fin 512)) := by
  show shapeCast S128 ((eixV).view.readAt (Elt F) (Rect.unit (s := S2x512) off S1x128.size h).toLoadRect e) sc_1x128 (ix1 i) = _
  rw [shapeCast_1a_a_apply]
  show e ((Rect.unit (s := S2x512) off S1x128.size h).emb (ix2 (0 : Fin 1) i)) = _
  congr 1
  funext a
  match a with
  | ⟨0, _⟩ => exact Fin.ext (show off 0 + 1 * 0 = off 0 by omega)
  | ⟨1, _⟩ => exact Fin.ext (show off 1 + 1 * i.val = off 1 + i.val by omega)

/-- The same for the property-id scratch. -/
theorem rd_lst_p (off : Fin 2 → ℕ) (h : ∀ a, off a + S1x128.size a ≤ S2x512.size a)
    (p : Buf (Elt F) ((pixV).view.loc (thr d L))) (i : Fin 128) :
    (lst pixV off h).view.read (Elt F) p (ix1 i)
      = p (ix2 (⟨off 0, lst_row_lt off h⟩ : Fin 2) (⟨off 1 + i.val, lst_col_lt off h i⟩ : Fin 512)) := by
  show shapeCast S128 ((pixV).view.readAt (Elt F) (Rect.unit (s := S2x512) off S1x128.size h).toLoadRect p) sc_1x128 (ix1 i) = _
  rw [shapeCast_1a_a_apply]
  show p ((Rect.unit (s := S2x512) off S1x128.size h).emb (ix2 (0 : Fin 1) i)) = _
  congr 1
  funext a
  match a with
  | ⟨0, _⟩ => exact Fin.ext (show off 0 + 1 * 0 = off 0 by omega)
  | ⟨1, _⟩ => exact Fin.ext (show off 1 + 1 * i.val = off 1 + i.val by omega)

/-- A 512-slot at offsets `off` of the element-id scratch reads, at `j`, the word at row `off 0`, column `off 1 + j`. -/
theorem rd_slot_e (off : Fin 2 → ℕ) (h : ∀ a, off a + S1x512.size a ≤ S2x512.size a)
    (e : Buf (Elt F) ((eixV).view.loc (thr d L))) (j : Fin 512) :
    (((eixV).slice (Rect.unit (s := S2x512) off S1x512.size h) (fun _ => rfl)).squeeze S512 squeezes_S1x512_S512).view.read (Elt F) e (ix1 j)
      = e (ix2 (⟨off 0, slot_row_lt off h⟩ : Fin 2) (⟨off 1 + j.val, slot_col_lt off h j⟩ : Fin 512)) := by
  show shapeCast S512 ((eixV).view.readAt (Elt F) (Rect.unit (s := S2x512) off S1x512.size h).toLoadRect e) sc_1x512 (ix1 j) = _
  rw [shapeCast_1a_a_apply]
  show e ((Rect.unit (s := S2x512) off S1x512.size h).emb (ix2 (0 : Fin 1) j)) = _
  congr 1
  funext a
  match a with
  | ⟨0, _⟩ => exact Fin.ext (show off 0 + 1 * 0 = off 0 by omega)
  | ⟨1, _⟩ => exact Fin.ext (show off 1 + 1 * j.val = off 1 + j.val by omega)

theorem rd_slot_p (off : Fin 2 → ℕ) (h : ∀ a, off a + S1x512.size a ≤ S2x512.size a)
    (p : Buf (Elt F) ((pixV).view.loc (thr d L))) (j : Fin 512) :
    (((pixV).slice (Rect.unit (s := S2x512) off S1x512.size h) (fun _ => rfl)).squeeze S512 squeezes_S1x512_S512).view.read (Elt F) p (ix1 j)
      = p (ix2 (⟨off 0, slot_row_lt off h⟩ : Fin 2) (⟨off 1 + j.val, slot_col_lt off h j⟩ : Fin 512)) := by
  show shapeCast S512 ((pixV).view.readAt (Elt F) (Rect.unit (s := S2x512) off S1x512.size h).toLoadRect p) sc_1x512 (ix1 j) = _
  rw [shapeCast_1a_a_apply]
  show p ((Rect.unit (s := S2x512) off S1x512.size h).emb (ix2 (0 : Fin 1) j)) = _
  congr 1
  funext a
  match a with
  | ⟨0, _⟩ => exact Fin.ext (show off 0 + 1 * 0 = off 0 by omega)
  | ⟨1, _⟩ => exact Fin.ext (show off 1 + 1 * j.val = off 1 + j.val by omega)

/-- A 512-window at `off` of a flat id array reads, at `j`, the array's word at `off 0 + j`. -/
theorem rd_win_e (off : Fin 1 → ℕ) (h : ∀ a, off a + S512.size a ≤ S819200.size a)
    (f : Buf (Elt F) ((eidV).view.loc (thr d L))) (j : Fin 512) :
    ((eidV).slice (Rect.unit (s := S819200) off S512.size h) (fun _ => rfl)).view.read (Elt F) f (ix1 j)
      = f (ix1 (⟨off 0 + j.val, win_lt off h j⟩ : Fin 819200)) := by
  show f ((Rect.unit (s := S819200) off S512.size h).emb (ix1 j)) = _
  congr 1
  funext a
  match a with
  | ⟨0, _⟩ => exact Fin.ext (show off 0 + 1 * j.val = off 0 + j.val by omega)

theorem rd_win_p (off : Fin 1 → ℕ) (h : ∀ a, off a + S512.size a ≤ S819200.size a)
    (f : Buf (Elt F) ((pidV).view.loc (thr d L))) (j : Fin 512) :
    ((pidV).slice (Rect.unit (s := S819200) off S512.size h) (fun _ => rfl)).view.read (Elt F) f (ix1 j)
      = f (ix1 (⟨off 0 + j.val, win_lt off h j⟩ : Fin 819200)) := by
  show f ((Rect.unit (s := S819200) off S512.size h).emb (ix1 j)) = _
  congr 1
  funext a
  match a with
  | ⟨0, _⟩ => exact Fin.ext (show off 0 + 1 * j.val = off 0 + j.val by omega)

/-! ## What a quarter of an id slot holds -/

omit [FloatOps F] in
theorem flat_lt (k q : ℕ) (hk : k < 50) (hq : q < 4) (x : Fin 128) : base0 L + 128 * (4 * k + q) + x.val < 819200 := by
  have := base0_le L
  omega

/-- If a 512-slot of the element-id scratch holds trip `k`'s ids, its quarter `q` (a 128-list at column `128 q` of the
    same row) holds the flat element ids of chunk `4k + q` of the worker's rows. -/
theorem lst_ids_e (off : Fin 2 → ℕ) (h : ∀ a, off a + S1x128.size a ≤ S2x512.size a)
    (offs : Fin 2 → ℕ) (hs : ∀ a, offs a + S1x512.size a ≤ S2x512.size a)
    (e : Buf (Elt F) ((eixV).view.loc (thr d L))) (k : ℕ) (hk : k < 50)
    (hslot : ∀ x, (((eixV).slice (Rect.unit (s := S2x512) offs S1x512.size hs) (fun _ => rfl)).squeeze S512 squeezes_S1x512_S512).view.read (Elt F) e x
      = (idsV L eidV k hk).view.read (Elt F) (A.eid d) x)
    (hrow : off 0 = offs 0) (hcol : offs 1 = 0) (q : ℕ) (hq : q < 4) (hoff : off 1 = 128 * q) (x : Fin 128) :
    (lst eixV off h).view.read (Elt F) e (ix1 x)
      = A.eid d (ix1 (⟨base0 L + 128 * (4 * k + q) + x.val, flat_lt L k q hk hq x⟩ : Fin 819200)) := by
  have hj : 128 * q + x.val < 512 := by omega
  rw [rd_lst_e]
  have e1 := rd_slot_e d L offs hs e ⟨128 * q + x.val, hj⟩
  rw [hslot, rd_win_e d L] at e1
  refine Eq.trans ?_ (e1.symm.trans ?_)
  · congr 1
    funext a
    match a with
    | ⟨0, _⟩ => exact Fin.ext (show off 0 = offs 0 from hrow)
    | ⟨1, _⟩ => exact Fin.ext (show off 1 + x.val = offs 1 + (128 * q + x.val) by omega)
  · congr 1
    funext a
    match a with
    | ⟨0, _⟩ =>
      refine Fin.ext ?_
      show idsOff L k 0 + (128 * q + x.val) = base0 L + 128 * (4 * k + q) + x.val
      have : idsOff L k 0 = 51200 * (L 1).val + 25600 * (L 0).val + 512 * k := rfl
      rw [this]; unfold base0; omega

theorem lst_ids_p (off : Fin 2 → ℕ) (h : ∀ a, off a + S1x128.size a ≤ S2x512.size a)
    (offs : Fin 2 → ℕ) (hs : ∀ a, offs a + S1x512.size a ≤ S2x512.size a)
    (p : Buf (Elt F) ((pixV).view.loc (thr d L))) (k : ℕ) (hk : k < 50)
    (hslot : ∀ x, (((pixV).slice (Rect.unit (s := S2x512) offs S1x512.size hs) (fun _ => rfl)).squeeze S512 squeezes_S1x512_S512).view.read (Elt F) p x
      = (idsV L pidV k hk).view.read (Elt F) (A.pid d) x)
    (hrow : off 0 = offs 0) (hcol : offs 1 = 0) (q : ℕ) (hq : q < 4) (hoff : off 1 = 128 * q) (x : Fin 128) :
    (lst pixV off h).view.read (Elt F) p (ix1 x)
      = A.pid d (ix1 (⟨base0 L + 128 * (4 * k + q) + x.val, flat_lt L k q hk hq x⟩ : Fin 819200)) := by
  have hj : 128 * q + x.val < 512 := by omega
  rw [rd_lst_p]
  have e1 := rd_slot_p d L offs hs p ⟨128 * q + x.val, hj⟩
  rw [hslot, rd_win_p d L] at e1
  refine Eq.trans ?_ (e1.symm.trans ?_)
  · congr 1
    funext a
    match a with
    | ⟨0, _⟩ => exact Fin.ext (show off 0 = offs 0 from hrow)
    | ⟨1, _⟩ => exact Fin.ext (show off 1 + x.val = offs 1 + (128 * q + x.val) by omega)
  · congr 1
    funext a
    match a with
    | ⟨0, _⟩ =>
      refine Fin.ext ?_
      show idsOff L k 0 + (128 * q + x.val) = base0 L + 128 * (4 * k + q) + x.val
      have : idsOff L k 0 = 51200 * (L 1).val + 25600 * (L 0).val + 512 * k := rfl
      rw [this]; unfold base0; omega

/-- Hence its words name rows of the element table (a gather's in-range fact) when all flat ids do. -/
theorem lst_in_e (hIds : ∀ j : S819200.Idx, (A.eid d j).toNat < 100000) (off : Fin 2 → ℕ) (h : ∀ a, off a + S1x128.size a ≤ S2x512.size a)
    (offs : Fin 2 → ℕ) (hs : ∀ a, offs a + S1x512.size a ≤ S2x512.size a)
    (e : Buf (Elt F) ((eixV).view.loc (thr d L))) (k : ℕ) (hk : k < 50)
    (hslot : ∀ x, (((eixV).slice (Rect.unit (s := S2x512) offs S1x512.size hs) (fun _ => rfl)).squeeze S512 squeezes_S1x512_S512).view.read (Elt F) e x
      = (idsV L eidV k hk).view.read (Elt F) (A.eid d) x)
    (hrow : off 0 = offs 0) (hcol : offs 1 = 0) (q : ℕ) (hq : q < 4) (hoff : off 1 = 128 * q) :
    ∀ x, ((lst eixV off h).view.read (Elt F) e x).toNat < S100000x128.size gathers_S100000x128_S128x128.axis := by
  intro x
  obtain ⟨i, rfl⟩ : ∃ i : Fin 128, x = ix1 i := ⟨x 0, eq_ix1 x⟩
  rw [lst_ids_e A d L off h offs hs e k hk hslot hrow hcol q hq hoff i]
  exact hIds _

theorem lst_in_p (hIds : ∀ j : S819200.Idx, (A.pid d j).toNat < 1000) (off : Fin 2 → ℕ) (h : ∀ a, off a + S1x128.size a ≤ S2x512.size a)
    (offs : Fin 2 → ℕ) (hs : ∀ a, offs a + S1x512.size a ≤ S2x512.size a)
    (p : Buf (Elt F) ((pixV).view.loc (thr d L))) (k : ℕ) (hk : k < 50)
    (hslot : ∀ x, (((pixV).slice (Rect.unit (s := S2x512) offs S1x512.size hs) (fun _ => rfl)).squeeze S512 squeezes_S1x512_S512).view.read (Elt F) p x
      = (idsV L pidV k hk).view.read (Elt F) (A.pid d) x)
    (hrow : off 0 = offs 0) (hcol : offs 1 = 0) (q : ℕ) (hq : q < 4) (hoff : off 1 = 128 * q) :
    ∀ x, ((lst pixV off h).view.read (Elt F) p x).toNat < S1000x128.size gathers_S1000x128_S128x128.axis := by
  intro x
  obtain ⟨i, rfl⟩ : ∃ i : Fin 128, x = ix1 i := ⟨x 0, eq_ix1 x⟩
  rw [lst_ids_p A d L off h offs hs p k hk hslot hrow hcol q hq hoff i]
  exact hIds _

/-! ## A slot after the id batch has landed -/

/-- After an unmasked write of `w` through the whole of a 512-view, the view reads `w`. -/
theorem read_after_whole {sig' : RefSig} {κ : Kind} {sp : Space} (v : View sig' κ sp S512 .i32) (f : v.ty.Contents (Elt F))
    (w : S512.Idx → Elt F .i32) (x : S512.Idx) :
    v.read (Elt F) (v.writes (Elt F) f [⟨Rect.whole S512, w⟩]) x = w x := by
  have h := View.read_writes_cons_emb v f (Rect.whole S512) w [] x
  rwa [Rect.emb_whole_apply] at h

/-- Slot 0 of both id scratches, written whole with the next trip's ids, holds the next trip's ids; and slot 1. -/
theorem slotVals0_after (e : Buf (Elt F) ((eixV).view.loc (thr d L))) (p : Buf (Elt F) ((pixV).view.loc (thr d L)))
    (k : ℕ) (hk : k + 1 < 50) (pe pp : S512.Idx → Elt F .i32)
    (hp : pe = ReadAs.same.apply ((idsV L eidV (k + 1) hk).view.read (Elt F) (A.eid d)) ∧ pp = ReadAs.same.apply ((idsV L pidV (k + 1) hk).view.read (Elt F) (A.pid d))) :
    SlotVals0 A d L ((slot0 eixV).view.writes (Elt F) e [⟨Rect.whole S512, pe⟩]) ((slot0 pixV).view.writes (Elt F) p [⟨Rect.whole S512, pp⟩]) (k + 1) hk := by
  refine ⟨fun x => ?_, fun x => ?_⟩
  · exact (read_after_whole (slot0 eixV).view e pe x).trans (congrFun hp.1 x)
  · exact (read_after_whole (slot0 pixV).view p pp x).trans (congrFun hp.2 x)
theorem slotVals1_after (e : Buf (Elt F) ((eixV).view.loc (thr d L))) (p : Buf (Elt F) ((pixV).view.loc (thr d L)))
    (k : ℕ) (hk : k + 1 < 50) (pe pp : S512.Idx → Elt F .i32)
    (hp : pe = ReadAs.same.apply ((idsV L eidV (k + 1) hk).view.read (Elt F) (A.eid d)) ∧ pp = ReadAs.same.apply ((idsV L pidV (k + 1) hk).view.read (Elt F) (A.pid d))) :
    SlotVals1 A d L ((slot1 eixV).view.writes (Elt F) e [⟨Rect.whole S512, pe⟩]) ((slot1 pixV).view.writes (Elt F) p [⟨Rect.whole S512, pp⟩]) (k + 1) hk := by
  refine ⟨fun x => ?_, fun x => ?_⟩
  · exact (read_after_whole (slot1 eixV).view e pe x).trans (congrFun hp.1 x)
  · exact (read_after_whole (slot1 pixV).view p pp x).trans (congrFun hp.2 x)

/-- A slot that holds trip `k`'s ids gives the in-range facts of its first two quarters' lists. -/
theorem listsOK0_of_slotVals (hE : ∀ j : S819200.Idx, (A.eid d j).toNat < 100000) (hP : ∀ j : S819200.Idx, (A.pid d j).toNat < 1000)
    (e : Buf (Elt F) ((eixV).view.loc (thr d L))) (p : Buf (Elt F) ((pixV).view.loc (thr d L))) (k : ℕ) (hk : k < 50)
    (hv : SlotVals0 A d L e p k hk) : ListsOK0 d L e p :=
  ⟨lst_in_e A d L hE ![0, 0] linb_0_0 ![0, 0] inb_S2x512_S1x512_0_0 e k hk hv.1 rfl rfl 0 (by omega) rfl,
   lst_in_e A d L hE ![0, 128] linb_0_128 ![0, 0] inb_S2x512_S1x512_0_0 e k hk hv.1 rfl rfl 1 (by omega) rfl,
   lst_in_p A d L hP ![0, 0] linb_0_0 ![0, 0] inb_S2x512_S1x512_0_0 p k hk hv.2 rfl rfl 0 (by omega) rfl,
   lst_in_p A d L hP ![0, 128] linb_0_128 ![0, 0] inb_S2x512_S1x512_0_0 p k hk hv.2 rfl rfl 1 (by omega) rfl⟩
theorem listsOK1_of_slotVals (hE : ∀ j : S819200.Idx, (A.eid d j).toNat < 100000) (hP : ∀ j : S819200.Idx, (A.pid d j).toNat < 1000)
    (e : Buf (Elt F) ((eixV).view.loc (thr d L))) (p : Buf (Elt F) ((pixV).view.loc (thr d L))) (k : ℕ) (hk : k < 50)
    (hv : SlotVals1 A d L e p k hk) : ListsOK1 d L e p :=
  ⟨lst_in_e A d L hE ![1, 0] linb_1_0 ![1, 0] inb_S2x512_S1x512_1_0 e k hk hv.1 rfl rfl 0 (by omega) rfl,
   lst_in_e A d L hE ![1, 128] linb_1_128 ![1, 0] inb_S2x512_S1x512_1_0 e k hk hv.1 rfl rfl 1 (by omega) rfl,
   lst_in_p A d L hP ![1, 0] linb_1_0 ![1, 0] inb_S2x512_S1x512_1_0 p k hk hv.2 rfl rfl 0 (by omega) rfl,
   lst_in_p A d L hP ![1, 128] linb_1_128 ![1, 0] inb_S2x512_S1x512_1_0 p k hk hv.2 rfl rfl 1 (by omega) rfl⟩

/-! ## The eight quarters, by name

For slot `s` and quarter `q` (column `128 q`): the quarter's words are the flat ids of chunk `4k + q`, and they name rows
of the tables. Instances of the four lemmas above. -/

theorem ids_e_0_0 (e : Buf (Elt F) ((eixV).view.loc (thr d L))) (p : Buf (Elt F) ((pixV).view.loc (thr d L))) (k : ℕ) (hk : k < 50)
    (hv : SlotVals0 A d L e p k hk) (x : Fin 128) :
    (lst eixV ![0, 0] linb_0_0).view.read (Elt F) e (ix1 x)
      = A.eid d (ix1 (⟨base0 L + 128 * (4 * k + 0) + x.val, flat_lt L k 0 hk (by omega) x⟩ : Fin 819200)) :=
  lst_ids_e A d L ![0, 0] linb_0_0 ![0, 0] inb_S2x512_S1x512_0_0 e k hk hv.1 rfl rfl 0 (by omega) rfl x
theorem ids_p_0_0 (e : Buf (Elt F) ((eixV).view.loc (thr d L))) (p : Buf (Elt F) ((pixV).view.loc (thr d L))) (k : ℕ) (hk : k < 50)
    (hv : SlotVals0 A d L e p k hk) (x : Fin 128) :
    (lst pixV ![0, 0] linb_0_0).view.read (Elt F) p (ix1 x)
      = A.pid d (ix1 (⟨base0 L + 128 * (4 * k + 0) + x.val, flat_lt L k 0 hk (by omega) x⟩ : Fin 819200)) :=
  lst_ids_p A d L ![0, 0] linb_0_0 ![0, 0] inb_S2x512_S1x512_0_0 p k hk hv.2 rfl rfl 0 (by omega) rfl x
theorem hin_e_0_0 (hE : ∀ j : S819200.Idx, (A.eid d j).toNat < 100000)
    (e : Buf (Elt F) ((eixV).view.loc (thr d L))) (p : Buf (Elt F) ((pixV).view.loc (thr d L))) (k : ℕ) (hk : k < 50)
    (hv : SlotVals0 A d L e p k hk) :
    ∀ x, ((lst eixV ![0, 0] linb_0_0).view.read (Elt F) e x).toNat < S100000x128.size gathers_S100000x128_S128x128.axis :=
  lst_in_e A d L hE ![0, 0] linb_0_0 ![0, 0] inb_S2x512_S1x512_0_0 e k hk hv.1 rfl rfl 0 (by omega) rfl
theorem hin_p_0_0 (hP : ∀ j : S819200.Idx, (A.pid d j).toNat < 1000)
    (e : Buf (Elt F) ((eixV).view.loc (thr d L))) (p : Buf (Elt F) ((pixV).view.loc (thr d L))) (k : ℕ) (hk : k < 50)
    (hv : SlotVals0 A d L e p k hk) :
    ∀ x, ((lst pixV ![0, 0] linb_0_0).view.read (Elt F) p x).toNat < S1000x128.size gathers_S1000x128_S128x128.axis :=
  lst_in_p A d L hP ![0, 0] linb_0_0 ![0, 0] inb_S2x512_S1x512_0_0 p k hk hv.2 rfl rfl 0 (by omega) rfl

theorem ids_e_0_128 (e : Buf (Elt F) ((eixV).view.loc (thr d L))) (p : Buf (Elt F) ((pixV).view.loc (thr d L))) (k : ℕ) (hk : k < 50)
    (hv : SlotVals0 A d L e p k hk) (x : Fin 128) :
    (lst eixV ![0, 128] linb_0_128).view.read (Elt F) e (ix1 x)
      = A.eid d (ix1 (⟨base0 L + 128 * (4 * k + 1) + x.val, flat_lt L k 1 hk (by omega) x⟩ : Fin 819200)) :=
  lst_ids_e A d L ![0, 128] linb_0_128 ![0, 0] inb_S2x512_S1x512_0_0 e k hk hv.1 rfl rfl 1 (by omega) rfl x
theorem ids_p_0_128 (e : Buf (Elt F) ((eixV).view.loc (thr d L))) (p : Buf (Elt F) ((pixV).view.loc (thr d L))) (k : ℕ) (hk : k < 50)
    (hv : SlotVals0 A d L e p k hk) (x : Fin 128) :
    (lst pixV ![0, 128] linb_0_128).view.read (Elt F) p (ix1 x)
      = A.pid d (ix1 (⟨base0 L + 128 * (4 * k + 1) + x.val, flat_lt L k 1 hk (by omega) x⟩ : Fin 819200)) :=
  lst_ids_p A d L ![0, 128] linb_0_128 ![0, 0] inb_S2x512_S1x512_0_0 p k hk hv.2 rfl rfl 1 (by omega) rfl x
theorem hin_e_0_128 (hE : ∀ j : S819200.Idx, (A.eid d j).toNat < 100000)
    (e : Buf (Elt F) ((eixV).view.loc (thr d L))) (p : Buf (Elt F) ((pixV).view.loc (thr d L))) (k : ℕ) (hk : k < 50)
    (hv : SlotVals0 A d L e p k hk) :
    ∀ x, ((lst eixV ![0, 128] linb_0_128).view.read (Elt F) e x).toNat < S100000x128.size gathers_S100000x128_S128x128.axis :=
  lst_in_e A d L hE ![0, 128] linb_0_128 ![0, 0] inb_S2x512_S1x512_0_0 e k hk hv.1 rfl rfl 1 (by omega) rfl
theorem hin_p_0_128 (hP : ∀ j : S819200.Idx, (A.pid d j).toNat < 1000)
    (e : Buf (Elt F) ((eixV).view.loc (thr d L))) (p : Buf (Elt F) ((pixV).view.loc (thr d L))) (k : ℕ) (hk : k < 50)
    (hv : SlotVals0 A d L e p k hk) :
    ∀ x, ((lst pixV ![0, 128] linb_0_128).view.read (Elt F) p x).toNat < S1000x128.size gathers_S1000x128_S128x128.axis :=
  lst_in_p A d L hP ![0, 128] linb_0_128 ![0, 0] inb_S2x512_S1x512_0_0 p k hk hv.2 rfl rfl 1 (by omega) rfl

theorem ids_e_0_256 (e : Buf (Elt F) ((eixV).view.loc (thr d L))) (p : Buf (Elt F) ((pixV).view.loc (thr d L))) (k : ℕ) (hk : k < 50)
    (hv : SlotVals0 A d L e p k hk) (x : Fin 128) :
    (lst eixV ![0, 256] linb_0_256).view.read (Elt F) e (ix1 x)
      = A.eid d (ix1 (⟨base0 L + 128 * (4 * k + 2) + x.val, flat_lt L k 2 hk (by omega) x⟩ : Fin 819200)) :=
  lst_ids_e A d L ![0, 256] linb_0_256 ![0, 0] inb_S2x512_S1x512_0_0 e k hk hv.1 rfl rfl 2 (by omega) rfl x
theorem ids_p_0_256 (e : Buf (Elt F) ((eixV).view.loc (thr d L))) (p : Buf (Elt F) ((pixV).view.loc (thr d L))) (k : ℕ) (hk : k < 50)
    (hv : SlotVals0 A d L e p k hk) (x : Fin 128) :
    (lst pixV ![0, 256] linb_0_256).view.read (Elt F) p (ix1 x)
      = A.pid d (ix1 (⟨base0 L + 128 * (4 * k + 2) + x.val, flat_lt L k 2 hk (by omega) x⟩ : Fin 819200)) :=
  lst_ids_p A d L ![0, 256] linb_0_256 ![0, 0] inb_S2x512_S1x512_0_0 p k hk hv.2 rfl rfl 2 (by omega) rfl x
theorem hin_e_0_256 (hE : ∀ j : S819200.Idx, (A.eid d j).toNat < 100000)
    (e : Buf (Elt F) ((eixV).view.loc (thr d L))) (p : Buf (Elt F) ((pixV).view.loc (thr d L))) (k : ℕ) (hk : k < 50)
    (hv : SlotVals0 A d L e p k hk) :
    ∀ x, ((lst eixV ![0, 256] linb_0_256).view.read (Elt F) e x).toNat < S100000x128.size gathers_S100000x128_S128x128.axis :=
  lst_in_e A d L hE ![0, 256] linb_0_256 ![0, 0] inb_S2x512_S1x512_0_0 e k hk hv.1 rfl rfl 2 (by omega) rfl
theorem hin_p_0_256 (hP : ∀ j : S819200.Idx, (A.pid d j).toNat < 1000)
    (e : Buf (Elt F) ((eixV).view.loc (thr d L))) (p : Buf (Elt F) ((pixV).view.loc (thr d L))) (k : ℕ) (hk : k < 50)
    (hv : SlotVals0 A d L e p k hk) :
    ∀ x, ((lst pixV ![0, 256] linb_0_256).view.read (Elt F) p x).toNat < S1000x128.size gathers_S1000x128_S128x128.axis :=
  lst_in_p A d L hP ![0, 256] linb_0_256 ![0, 0] inb_S2x512_S1x512_0_0 p k hk hv.2 rfl rfl 2 (by omega) rfl

theorem ids_e_0_384 (e : Buf (Elt F) ((eixV).view.loc (thr d L))) (p : Buf (Elt F) ((pixV).view.loc (thr d L))) (k : ℕ) (hk : k < 50)
    (hv : SlotVals0 A d L e p k hk) (x : Fin 128) :
    (lst eixV ![0, 384] linb_0_384).view.read (Elt F) e (ix1 x)
      = A.eid d (ix1 (⟨base0 L + 128 * (4 * k + 3) + x.val, flat_lt L k 3 hk (by omega) x⟩ : Fin 819200)) :=
  lst_ids_e A d L ![0, 384] linb_0_384 ![0, 0] inb_S2x512_S1x512_0_0 e k hk hv.1 rfl rfl 3 (by omega) rfl x
theorem ids_p_0_384 (e : Buf (Elt F) ((eixV).view.loc (thr d L))) (p : Buf (Elt F) ((pixV).view.loc (thr d L))) (k : ℕ) (hk : k < 50)
    (hv : SlotVals0 A d L e p k hk) (x : Fin 128) :
    (lst pixV ![0, 384] linb_0_384).view.read (Elt F) p (ix1 x)
      = A.pid d (ix1 (⟨base0 L + 128 * (4 * k + 3) + x.val, flat_lt L k 3 hk (by omega) x⟩ : Fin 819200)) :=
  lst_ids_p A d L ![0, 384] linb_0_384 ![0, 0] inb_S2x512_S1x512_0_0 p k hk hv.2 rfl rfl 3 (by omega) rfl x
theorem hin_e_0_384 (hE : ∀ j : S819200.Idx, (A.eid d j).toNat < 100000)
    (e : Buf (Elt F) ((eixV).view.loc (thr d L))) (p : Buf (Elt F) ((pixV).view.loc (thr d L))) (k : ℕ) (hk : k < 50)
    (hv : SlotVals0 A d L e p k hk) :
    ∀ x, ((lst eixV ![0, 384] linb_0_384).view.read (Elt F) e x).toNat < S100000x128.size gathers_S100000x128_S128x128.axis :=
  lst_in_e A d L hE ![0, 384] linb_0_384 ![0, 0] inb_S2x512_S1x512_0_0 e k hk hv.1 rfl rfl 3 (by omega) rfl
theorem hin_p_0_384 (hP : ∀ j : S819200.Idx, (A.pid d j).toNat < 1000)
    (e : Buf (Elt F) ((eixV).view.loc (thr d L))) (p : Buf (Elt F) ((pixV).view.loc (thr d L))) (k : ℕ) (hk : k < 50)
    (hv : SlotVals0 A d L e p k hk) :
    ∀ x, ((lst pixV ![0, 384] linb_0_384).view.read (Elt F) p x).toNat < S1000x128.size gathers_S1000x128_S128x128.axis :=
  lst_in_p A d L hP ![0, 384] linb_0_384 ![0, 0] inb_S2x512_S1x512_0_0 p k hk hv.2 rfl rfl 3 (by omega) rfl

theorem ids_e_1_0 (e : Buf (Elt F) ((eixV).view.loc (thr d L))) (p : Buf (Elt F) ((pixV).view.loc (thr d L))) (k : ℕ) (hk : k < 50)
    (hv : SlotVals1 A d L e p k hk) (x : Fin 128) :
    (lst eixV ![1, 0] linb_1_0).view.read (Elt F) e (ix1 x)
      = A.eid d (ix1 (⟨base0 L + 128 * (4 * k + 0) + x.val, flat_lt L k 0 hk (by omega) x⟩ : Fin 819200)) :=
  lst_ids_e A d L ![1, 0] linb_1_0 ![1, 0] inb_S2x512_S1x512_1_0 e k hk hv.1 rfl rfl 0 (by omega) rfl x
theorem ids_p_1_0 (e : Buf (Elt F) ((eixV).view.loc (thr d L))) (p : Buf (Elt F) ((pixV).view.loc (thr d L))) (k : ℕ) (hk : k < 50)
    (hv : SlotVals1 A d L e p k hk) (x : Fin 128) :
    (lst pixV ![1, 0] linb_1_0).view.read (Elt F) p (ix1 x)
      = A.pid d (ix1 (⟨base0 L + 128 * (4 * k + 0) + x.val, flat_lt L k 0 hk (by omega) x⟩ : Fin 819200)) :=
  lst_ids_p A d L ![1, 0] linb_1_0 ![1, 0] inb_S2x512_S1x512_1_0 p k hk hv.2 rfl rfl 0 (by omega) rfl x
theorem hin_e_1_0 (hE : ∀ j : S819200.Idx, (A.eid d j).toNat < 100000)
    (e : Buf (Elt F) ((eixV).view.loc (thr d L))) (p : Buf (Elt F) ((pixV).view.loc (thr d L))) (k : ℕ) (hk : k < 50)
    (hv : SlotVals1 A d L e p k hk) :
    ∀ x, ((lst eixV ![1, 0] linb_1_0).view.read (Elt F) e x).toNat < S100000x128.size gathers_S100000x128_S128x128.axis :=
  lst_in_e A d L hE ![1, 0] linb_1_0 ![1, 0] inb_S2x512_S1x512_1_0 e k hk hv.1 rfl rfl 0 (by omega) rfl
theorem hin_p_1_0 (hP : ∀ j : S819200.Idx, (A.pid d j).toNat < 1000)
    (e : Buf (Elt F) ((eixV).view.loc (thr d L))) (p : Buf (Elt F) ((pixV).view.loc (thr d L))) (k : ℕ) (hk : k < 50)
    (hv : SlotVals1 A d L e p k hk) :
    ∀ x, ((lst pixV ![1, 0] linb_1_0).view.read (Elt F) p x).toNat < S1000x128.size gathers_S1000x128_S128x128.axis :=
  lst_in_p A d L hP ![1, 0] linb_1_0 ![1, 0] inb_S2x512_S1x512_1_0 p k hk hv.2 rfl rfl 0 (by omega) rfl

theorem ids_e_1_128 (e : Buf (Elt F) ((eixV).view.loc (thr d L))) (p : Buf (Elt F) ((pixV).view.loc (thr d L))) (k : ℕ) (hk : k < 50)
    (hv : SlotVals1 A d L e p k hk) (x : Fin 128) :
    (lst eixV ![1, 128] linb_1_128).view.read (Elt F) e (ix1 x)
      = A.eid d (ix1 (⟨base0 L + 128 * (4 * k + 1) + x.val, flat_lt L k 1 hk (by omega) x⟩ : Fin 819200)) :=
  lst_ids_e A d L ![1, 128] linb_1_128 ![1, 0] inb_S2x512_S1x512_1_0 e k hk hv.1 rfl rfl 1 (by omega) rfl x
theorem ids_p_1_128 (e : Buf (Elt F) ((eixV).view.loc (thr d L))) (p : Buf (Elt F) ((pixV).view.loc (thr d L))) (k : ℕ) (hk : k < 50)
    (hv : SlotVals1 A d L e p k hk) (x : Fin 128) :
    (lst pixV ![1, 128] linb_1_128).view.read (Elt F) p (ix1 x)
      = A.pid d (ix1 (⟨base0 L + 128 * (4 * k + 1) + x.val, flat_lt L k 1 hk (by omega) x⟩ : Fin 819200)) :=
  lst_ids_p A d L ![1, 128] linb_1_128 ![1, 0] inb_S2x512_S1x512_1_0 p k hk hv.2 rfl rfl 1 (by omega) rfl x
theorem hin_e_1_128 (hE : ∀ j : S819200.Idx, (A.eid d j).toNat < 100000)
    (e : Buf (Elt F) ((eixV).view.loc (thr d L))) (p : Buf (Elt F) ((pixV).view.loc (thr d L))) (k : ℕ) (hk : k < 50)
    (hv : SlotVals1 A d L e p k hk) :
    ∀ x, ((lst eixV ![1, 128] linb_1_128).view.read (Elt F) e x).toNat < S100000x128.size gathers_S100000x128_S128x128.axis :=
  lst_in_e A d L hE ![1, 128] linb_1_128 ![1, 0] inb_S2x512_S1x512_1_0 e k hk hv.1 rfl rfl 1 (by omega) rfl
theorem hin_p_1_128 (hP : ∀ j : S819200.Idx, (A.pid d j).toNat < 1000)
    (e : Buf (Elt F) ((eixV).view.loc (thr d L))) (p : Buf (Elt F) ((pixV).view.loc (thr d L))) (k : ℕ) (hk : k < 50)
    (hv : SlotVals1 A d L e p k hk) :
    ∀ x, ((lst pixV ![1, 128] linb_1_128).view.read (Elt F) p x).toNat < S1000x128.size gathers_S1000x128_S128x128.axis :=
  lst_in_p A d L hP ![1, 128] linb_1_128 ![1, 0] inb_S2x512_S1x512_1_0 p k hk hv.2 rfl rfl 1 (by omega) rfl

theorem ids_e_1_256 (e : Buf (Elt F) ((eixV).view.loc (thr d L))) (p : Buf (Elt F) ((pixV).view.loc (thr d L))) (k : ℕ) (hk : k < 50)
    (hv : SlotVals1 A d L e p k hk) (x : Fin 128) :
    (lst eixV ![1, 256] linb_1_256).view.read (Elt F) e (ix1 x)
      = A.eid d (ix1 (⟨base0 L + 128 * (4 * k + 2) + x.val, flat_lt L k 2 hk (by omega) x⟩ : Fin 819200)) :=
  lst_ids_e A d L ![1, 256] linb_1_256 ![1, 0] inb_S2x512_S1x512_1_0 e k hk hv.1 rfl rfl 2 (by omega) rfl x
theorem ids_p_1_256 (e : Buf (Elt F) ((eixV).view.loc (thr d L))) (p : Buf (Elt F) ((pixV).view.loc (thr d L))) (k : ℕ) (hk : k < 50)
    (hv : SlotVals1 A d L e p k hk) (x : Fin 128) :
    (lst pixV ![1, 256] linb_1_256).view.read (Elt F) p (ix1 x)
      = A.pid d (ix1 (⟨base0 L + 128 * (4 * k + 2) + x.val, flat_lt L k 2 hk (by omega) x⟩ : Fin 819200)) :=
  lst_ids_p A d L ![1, 256] linb_1_256 ![1, 0] inb_S2x512_S1x512_1_0 p k hk hv.2 rfl rfl 2 (by omega) rfl x
theorem hin_e_1_256 (hE : ∀ j : S819200.Idx, (A.eid d j).toNat < 100000)
    (e : Buf (Elt F) ((eixV).view.loc (thr d L))) (p : Buf (Elt F) ((pixV).view.loc (thr d L))) (k : ℕ) (hk : k < 50)
    (hv : SlotVals1 A d L e p k hk) :
    ∀ x, ((lst eixV ![1, 256] linb_1_256).view.read (Elt F) e x).toNat < S100000x128.size gathers_S100000x128_S128x128.axis :=
  lst_in_e A d L hE ![1, 256] linb_1_256 ![1, 0] inb_S2x512_S1x512_1_0 e k hk hv.1 rfl rfl 2 (by omega) rfl
theorem hin_p_1_256 (hP : ∀ j : S819200.Idx, (A.pid d j).toNat < 1000)
    (e : Buf (Elt F) ((eixV).view.loc (thr d L))) (p : Buf (Elt F) ((pixV).view.loc (thr d L))) (k : ℕ) (hk : k < 50)
    (hv : SlotVals1 A d L e p k hk) :
    ∀ x, ((lst pixV ![1, 256] linb_1_256).view.read (Elt F) p x).toNat < S1000x128.size gathers_S1000x128_S128x128.axis :=
  lst_in_p A d L hP ![1, 256] linb_1_256 ![1, 0] inb_S2x512_S1x512_1_0 p k hk hv.2 rfl rfl 2 (by omega) rfl

theorem ids_e_1_384 (e : Buf (Elt F) ((eixV).view.loc (thr d L))) (p : Buf (Elt F) ((pixV).view.loc (thr d L))) (k : ℕ) (hk : k < 50)
    (hv : SlotVals1 A d L e p k hk) (x : Fin 128) :
    (lst eixV ![1, 384] linb_1_384).view.read (Elt F) e (ix1 x)
      = A.eid d (ix1 (⟨base0 L + 128 * (4 * k + 3) + x.val, flat_lt L k 3 hk (by omega) x⟩ : Fin 819200)) :=
  lst_ids_e A d L ![1, 384] linb_1_384 ![1, 0] inb_S2x512_S1x512_1_0 e k hk hv.1 rfl rfl 3 (by omega) rfl x
theorem ids_p_1_384 (e : Buf (Elt F) ((eixV).view.loc (thr d L))) (p : Buf (Elt F) ((pixV).view.loc (thr d L))) (k : ℕ) (hk : k < 50)
    (hv : SlotVals1 A d L e p k hk) (x : Fin 128) :
    (lst pixV ![1, 384] linb_1_384).view.read (Elt F) p (ix1 x)
      = A.pid d (ix1 (⟨base0 L + 128 * (4 * k + 3) + x.val, flat_lt L k 3 hk (by omega) x⟩ : Fin 819200)) :=
  lst_ids_p A d L ![1, 384] linb_1_384 ![1, 0] inb_S2x512_S1x512_1_0 p k hk hv.2 rfl rfl 3 (by omega) rfl x
theorem hin_e_1_384 (hE : ∀ j : S819200.Idx, (A.eid d j).toNat < 100000)
    (e : Buf (Elt F) ((eixV).view.loc (thr d L))) (p : Buf (Elt F) ((pixV).view.loc (thr d L))) (k : ℕ) (hk : k < 50)
    (hv : SlotVals1 A d L e p k hk) :
    ∀ x, ((lst eixV ![1, 384] linb_1_384).view.read (Elt F) e x).toNat < S100000x128.size gathers_S100000x128_S128x128.axis :=
  lst_in_e A d L hE ![1, 384] linb_1_384 ![1, 0] inb_S2x512_S1x512_1_0 e k hk hv.1 rfl rfl 3 (by omega) rfl
theorem hin_p_1_384 (hP : ∀ j : S819200.Idx, (A.pid d j).toNat < 1000)
    (e : Buf (Elt F) ((eixV).view.loc (thr d L))) (p : Buf (Elt F) ((pixV).view.loc (thr d L))) (k : ℕ) (hk : k < 50)
    (hv : SlotVals1 A d L e p k hk) :
    ∀ x, ((lst pixV ![1, 384] linb_1_384).view.read (Elt F) p x).toNat < S1000x128.size gathers_S1000x128_S128x128.axis :=
  lst_in_p A d L hP ![1, 384] linb_1_384 ![1, 0] inb_S2x512_S1x512_1_0 p k hk hv.2 rfl rfl 3 (by omega) rfl

end Cert.KernelIdeal.Run.Sc
end
-- ==== Proof.ScTripFold.lean ====
/-
  A trip's two ends: the invariant before a trip opened into the flat list of pieces the trip's run starts from, and the
  pieces it ends with closed into the invariant before the next trip. An even trip k (1 ≤ k < 48) gathers by slot 0 of the
  id scratches while slot 1 is being filled on cell 9; the next trip gathers by slot 1 while slot 0 is being filled on cell 8.
-/
import proofs.«204385_g66649302499670_cont_9to1c4b_43_34_alg».proof.Proof.ScTrip
import proofs.«204385_g66649302499670_cont_9to1c4b_43_34_alg».proof.Proof.ScOutBook

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F] (A : Vals F) (d : Dev nD) (L : grid1.Coords)

variable (q1 q2 r1 r2 qi : PosShare TreeShare)

/-! ## An even trip, 1 ≤ k < 48 -/

/-- What an even trip's run starts from: the gathers of chunks 4k, 4k+1 in flight by slot 0; the next ids in flight into
    slot 1 on cell 9; the copy-outs of chunks 4k-2, 4k-1 in flight; chunks 4k … 4k+3 at the launch contents; the rest. -/
def evenPre (O : CellTallies nD τ sig (HIx 1)) (k : ℕ) (hk1' : k + 1 < 50)
    (hc0 : 4 * k < 200) (hc1 : 4 * k + 1 < 200) (hc2 : 4 * k + 2 < 200) (hc3 : 4 * k + 3 < 200) (hcm2 : 4 * k - 2 < 200) (hcm1 : 4 * k - 1 < 200)
    (e : Buf (Elt F) ((eixV).view.loc (thr d L))) (p : Buf (Elt F) ((pixV).view.loc (thr d L)))
    (e' : Buf (Elt F) ((eixV).view.loc (thr d L))) (p' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK0 d L e p) (W' : Waits sig (HIx 1)) : sProp 𝕄 :=
  iprop(Transfers.MayWaits (thr d L) (default : HIx 1) O
    ∗ flightE A d L 10 (hlf0 ebV) (lst eixV ![0, 0] linb_0_0) q1 fe0 e hL.1
    ∗ flightE A d L 11 (hlf1 ebV) (lst eixV ![0, 128] linb_0_128) q2 fe1 e hL.2.1
    ∗ flightP A d L 12 (hlf0 pbV) (lst pixV ![0, 0] linb_0_0) r1 fp0 p hL.2.2.1
    ∗ flightP A d L 13 (hlf1 pbV) (lst pixV ![0, 128] linb_0_128) r2 fp1 p hL.2.2.2
    ∗ teRest A d L q1 ∗ teRest A d L q2 ∗ shRest A d L r1 ∗ shRest A d L r2
    ∗ ((slot0 eixV).view.loc (thr d L)
          ↦[((slot0 eixV).view.set \ (lst eixV ![0, 0] linb_0_0).view.set) \ (lst eixV ![0, 128] linb_0_128).view.set]{fullShare} e)
    ∗ ((slot0 pixV).view.loc (thr d L)
          ↦[((slot0 pixV).view.set \ (lst pixV ![0, 0] linb_0_0).view.set) \ (lst pixV ![0, 128] linb_0_128).view.set]{fullShare} p)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ idsBatch A d L (9 : DmaSem sig) (slot1 eixV) (slot1 pixV) qi (idsOff L (k + 1)) (idsInb L (k + 1) hk1') e' p'
        (idsPayAt d L eidV (A.eid d) (idsOff L (k + 1)) (idsInb L (k + 1) hk1')) (idsPayAt d L pidV (A.pid d) (idsOff L (k + 1)) (idsInb L (k + 1) hk1'))
    ∗ idsRest A d L qi (idsOff L (k + 1)) (idsInb L (k + 1) hk1')
    ∗ semVal (cellOf d L 8) 0
    ∗ chunkPt d L (4 * k) hc0 (A.out0 d) ∗ chunkPt d L (4 * k + 1) hc1 (A.out0 d)
    ∗ chunkPt d L (4 * k + 2) hc2 (A.out0 d) ∗ chunkPt d L (4 * k + 3) hc3 (A.out0 d)
    ∗ flightO A d L 14 (hlf0 obV) (4 * k - 2) hcm2 fo0
    ∗ flightO A d L 15 (hlf1 obV) (4 * k - 1) hcm1 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- OPENING an even trip. -/
theorem open_even (O : CellTallies nD τ sig (HIx 1)) (W : Waits sig (HIx 1)) (k : ℕ) (hk0 : k % 2 = 0) (hk1 : 1 ≤ k) (hk50 : k < 50) (hk1' : k + 1 < 50)
    (hc0 : 4 * k < 200) (hc1 : 4 * k + 1 < 200) (hc2 : 4 * k + 2 < 200) (hc3 : 4 * k + 3 < 200) (hcm2 : 4 * k - 2 < 200) (hcm1 : 4 * k - 1 < 200) :
    inv A d L q1 q2 r1 r2 qi O W k PUnit.unit
      ⊢ iprop(∃ (e : Buf (Elt F) ((eixV).view.loc (thr d L))) (p : Buf (Elt F) ((pixV).view.loc (thr d L)))
          (e' : Buf (Elt F) ((eixV).view.loc (thr d L))) (p' : Buf (Elt F) ((pixV).view.loc (thr d L)))
          (fe0 : Buf (Elt F) ((hlf0 ebV).view.loc (thr d L))) (fe1 : Buf (Elt F) ((hlf1 ebV).view.loc (thr d L)))
          (fp0 : Buf (Elt F) ((hlf0 pbV).view.loc (thr d L))) (fp1 : Buf (Elt F) ((hlf1 pbV).view.loc (thr d L)))
          (fo0 : Buf (Elt F) ((hlf0 obV).view.loc (thr d L))) (fo1 : Buf (Elt F) ((hlf1 obV).view.loc (thr d L)))
          (feR : Buf (Elt F) ((ebV).view.loc (thr d L))) (fpR : Buf (Elt F) ((pbV).view.loc (thr d L))) (foR : Buf (Elt F) ((obV).view.loc (thr d L)))
          (hL : PLift (ListsOK0 d L e p)) (W' : Waits sig (HIx 1)),
          ⌜SlotVals0 A d L e p k hk50 ∧ ∀ x ∈ W', x ∈ W ∨ x.2 = none⌝
          ∗ evenPre A d L q1 q2 r1 r2 qi O k hk1' hc0 hc1 hc2 hc3 hcm2 hcm1 e p e' p' fe0 fe1 fp0 fp1 fo0 fo1 feR fpR foR hL.down W') := by
  unfold inv gatherPart idsPart
  rw [if_pos hk0, if_pos hk0]
  unfold gatherPart0 idsPart1
  rw [dif_pos hk50, dif_pos hk1', outPart_chunks, dif_pos ⟨hk1, by omega⟩, chunks_open A d L k hk1 hc0 hc1 hc2 hc3]
  unfold evenPre
  iintro ⟨#Hmw, ⟨%e, %p, %hL, %hSV, ⟨%fe0, HE0⟩, ⟨%fe1, HE1⟩, ⟨%fp0, HP0⟩, ⟨%fp1, HP1⟩, Hte1, Hte2, Hsh1, Hsh2, Heix, Hpix, ⟨%feR, Heb⟩, ⟨%fpR, Hpb⟩⟩,
    ⟨%e', %p', Hbat, Hrest, Hs8⟩, ⟨⟨Hr200, Hc0, Hc1, Hc2, Hc3⟩, ⟨%fo0, HO0⟩, ⟨%fo1, HO1⟩, ⟨%foR, Hob⟩⟩, ⟨%W', %hW', HO⟩⟩
  iexists e, p, e', p', fe0, fe1, fp0, fp1, fo0, fo1, feR, fpR, foR, hL, W'
  isplitr; · ipureintro; exact ⟨hSV, hW'⟩
  isplitr; · iexact Hmw
  isplitl [HE0]; · iexact HE0
  isplitl [HE1]; · iexact HE1
  isplitl [HP0]; · iexact HP0
  isplitl [HP1]; · iexact HP1
  isplitl [Hte1]; · iexact Hte1
  isplitl [Hte2]; · iexact Hte2
  isplitl [Hsh1]; · iexact Hsh1
  isplitl [Hsh2]; · iexact Hsh2
  isplitl [Heix]; · iexact Heix
  isplitl [Hpix]; · iexact Hpix
  isplitl [Heb]; · iexact Heb
  isplitl [Hpb]; · iexact Hpb
  isplitl [Hbat]; · iexact Hbat
  isplitl [Hrest]; · iexact Hrest
  isplitl [Hs8]; · iexact Hs8
  isplitl [Hc0]; · iexact Hc0
  isplitl [Hc1]; · iexact Hc1
  isplitl [Hc2]; · iexact Hc2
  isplitl [Hc3]; · iexact Hc3
  isplitl [HO0]; · iexact HO0
  isplitl [HO1]; · iexact HO1
  isplitl [Hob]; · iexact Hob
  isplitl [Hr200]; · iexact Hr200
  iexact HO

/-- A copy-out in flight named by an equal chunk number. -/
theorem exFlightO_congr (sm : DmaSem sig) (H : Memref sig .scVector .vmem S128x128 .f32) {n n' : ℕ} (e : n = n') (hn : n < 200) (hn' : n' < 200) :
    (iprop(∃ fo, flightO A d L sm H n hn fo) : sProp 𝕄) = iprop(∃ fo, flightO A d L sm H n' hn' fo) := by subst e; rfl

/-- What an even trip's run ends with: the gathers of chunks 4k+4, 4k+5 in flight by slot 1; the ids after next in flight
    into slot 0 on cell 8; chunks 4k-2 … 4k+1 holding the looked-up sums; the copy-outs of chunks 4k+2, 4k+3 in flight. -/
def evenPost (O : CellTallies nD τ sig (HIx 1)) (k : ℕ) (hk2' : k + 1 + 1 < 50)
    (hc0 : 4 * k < 200) (hc1 : 4 * k + 1 < 200) (hc2 : 4 * k + 2 < 200) (hc3 : 4 * k + 3 < 200) (hcm2 : 4 * k - 2 < 200) (hcm1 : 4 * k - 1 < 200)
    (e1 : Buf (Elt F) ((eixV).view.loc (thr d L))) (p1 : Buf (Elt F) ((pixV).view.loc (thr d L)))
    (e'' : Buf (Elt F) ((eixV).view.loc (thr d L))) (p'' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK1 d L e1 p1) (W' : Waits sig (HIx 1)) : sProp 𝕄 :=
  iprop(Transfers.MayWaits (thr d L) (default : HIx 1) O
    ∗ flightE A d L 10 (hlf0 ebV) (lst eixV ![1, 0] linb_1_0) q1 fe0 e1 hL.1
    ∗ flightE A d L 11 (hlf1 ebV) (lst eixV ![1, 128] linb_1_128) q2 fe1 e1 hL.2.1
    ∗ flightP A d L 12 (hlf0 pbV) (lst pixV ![1, 0] linb_1_0) r1 fp0 p1 hL.2.2.1
    ∗ flightP A d L 13 (hlf1 pbV) (lst pixV ![1, 128] linb_1_128) r2 fp1 p1 hL.2.2.2
    ∗ teRest A d L q1 ∗ teRest A d L q2 ∗ shRest A d L r1 ∗ shRest A d L r2
    ∗ ((slot1 eixV).view.loc (thr d L)
          ↦[((slot1 eixV).view.set \ (lst eixV ![1, 0] linb_1_0).view.set) \ (lst eixV ![1, 128] linb_1_128).view.set]{fullShare} e1)
    ∗ ((slot1 pixV).view.loc (thr d L)
          ↦[((slot1 pixV).view.set \ (lst pixV ![1, 0] linb_1_0).view.set) \ (lst pixV ![1, 128] linb_1_128).view.set]{fullShare} p1)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ idsBatch A d L (8 : DmaSem sig) (slot0 eixV) (slot0 pixV) qi (idsOff L (k + 1 + 1)) (idsInb L (k + 1 + 1) hk2') e'' p''
        (idsPayAt d L eidV (A.eid d) (idsOff L (k + 1 + 1)) (idsInb L (k + 1 + 1) hk2')) (idsPayAt d L pidV (A.pid d) (idsOff L (k + 1 + 1)) (idsInb L (k + 1 + 1) hk2'))
    ∗ idsRest A d L qi (idsOff L (k + 1 + 1)) (idsInb L (k + 1 + 1) hk2')
    ∗ semVal (cellOf d L 9) 0
    ∗ chunkPt d L (4 * k - 2) hcm2 (outFin A d) ∗ chunkPt d L (4 * k - 1) hcm1 (outFin A d)
    ∗ chunkPt d L (4 * k) hc0 (outFin A d) ∗ chunkPt d L (4 * k + 1) hc1 (outFin A d)
    ∗ flightO A d L 14 (hlf0 obV) (4 * k + 2) hc2 fo0
    ∗ flightO A d L 15 (hlf1 obV) (4 * k + 3) hc3 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- CLOSING an even trip. -/
theorem close_even (O : CellTallies nD τ sig (HIx 1)) (W : Waits sig (HIx 1)) (k : ℕ) (hk0 : k % 2 = 0) (hk1 : 1 ≤ k) (hk50 : k + 1 < 50) (hk2' : k + 1 + 1 < 50)
    (hc0 : 4 * k < 200) (hc1 : 4 * k + 1 < 200) (hc2 : 4 * k + 2 < 200) (hc3 : 4 * k + 3 < 200) (hcm2 : 4 * k - 2 < 200) (hcm1 : 4 * k - 1 < 200)
    (e1 : Buf (Elt F) ((eixV).view.loc (thr d L))) (p1 : Buf (Elt F) ((pixV).view.loc (thr d L)))
    (e'' : Buf (Elt F) ((eixV).view.loc (thr d L))) (p'' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK1 d L e1 p1) (hSV : SlotVals1 A d L e1 p1 (k + 1) hk50) (W' : Waits sig (HIx 1)) (hW' : ∀ x ∈ W', x ∈ W ∨ x.2 = none) :
    evenPost A d L q1 q2 r1 r2 qi O k hk2' hc0 hc1 hc2 hc3 hcm2 hcm1 e1 p1 e'' p'' fe0 fe1 fp0 fp1 fo0 fo1 feR fpR foR hL W'
      ⊢ inv A d L q1 q2 r1 r2 qi O W (k + 1) PUnit.unit := by
  unfold inv gatherPart idsPart
  rw [if_neg (show ¬ (k + 1) % 2 = 0 by omega), if_neg (show ¬ (k + 1) % 2 = 0 by omega)]
  unfold gatherPart1 idsPart0
  rw [dif_pos hk50, dif_pos hk2', outPart_chunks, dif_pos (⟨by omega, by omega⟩ : 1 ≤ k + 1 ∧ k + 1 ≤ 50),
    chunks_close A d L k hk1 hcm2 hcm1 hc0 hc1 hc3,
    exFlightO_congr A d L 14 (hlf0 obV) (show 4 * (k + 1) - 2 = 4 * k + 2 by omega) _ hc2,
    exFlightO_congr A d L 15 (hlf1 obV) (show 4 * (k + 1) - 1 = 4 * k + 3 by omega) _ hc3]
  unfold evenPost
  iintro ⟨#Hmw, HE0, HE1, HP0, HP1, Hte1, Hte2, Hsh1, Hsh2, Heix, Hpix, Heb, Hpb, Hbat, Hrest, Hs9, Hm2, Hm1, Hc0, Hc1, HO0, HO1, Hob, Hr200, HO⟩
  isplitr; · iexact Hmw
  isplitl [HE0 HE1 HP0 HP1 Hte1 Hte2 Hsh1 Hsh2 Heix Hpix Heb Hpb]
  · iexists e1, p1, ⟨hL⟩
    isplitr; · ipureintro; exact hSV
    isplitl [HE0]; · iexists fe0; iexact HE0
    isplitl [HE1]; · iexists fe1; iexact HE1
    isplitl [HP0]; · iexists fp0; iexact HP0
    isplitl [HP1]; · iexists fp1; iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexists feR; iexact Heb
    iexists fpR; iexact Hpb
  isplitl [Hbat Hrest Hs9]
  · iexists e'', p''
    isplitl [Hbat]; · iexact Hbat
    isplitl [Hrest]; · iexact Hrest
    iexact Hs9
  isplitl [Hm2 Hm1 Hc0 Hc1 HO0 HO1 Hob Hr200]
  · isplitl [Hm2 Hm1 Hc0 Hc1 Hr200]
    · isplitl [Hr200]; · iexact Hr200
      isplitl [Hm2]; · iexact Hm2
      isplitl [Hm1]; · iexact Hm1
      isplitl [Hc0]; · iexact Hc0
      iexact Hc1
    isplitl [HO0]; · iexists fo0; iexact HO0
    isplitl [HO1]; · iexists fo1; iexact HO1
    iexists foR; iexact Hob
  iexists W'
  isplitr; · ipureintro; exact hW'
  iexact HO

end Cert.KernelIdeal.Run.Sc

end
-- ==== Proof.ScClose.lean ====
/-
  Closing a trip, the value side: what a run leaves of a copy-out — the chunk window written whole with the lanewise sums
  of a half of the sum buffer — is the chunk holding the looked-up sums, when the two gathered halves hold the rows
  gathered by lists of the chunk's flat ids.
-/
import proofs.«204385_g66649302499670_cont_9to1c4b_43_34_alg».proof.Proof.ScFacts
import proofs.«204385_g66649302499670_cont_9to1c4b_43_34_alg».proof.Proof.ScOutBook
import Idealize.ShloMosaic.Lib.Pipeline.Value
import Idealize.ShloMosaic.Lib.Exec.Geometry

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F] (A : Vals F) (d : Dev nD) (L : grid1.Coords)

/-- `chunk_written` at the loop's own spelling of a chunk. -/
theorem chunk_written' (n : ℕ) (hn : n < 200) (He Hp : S128x128.Idx → Elt F .f32) (le lp : S128.Idx → Elt F .i32)
    (hinE : ∀ x, (le x).toNat < S100000x128.size gathers_S100000x128_S128x128.axis)
    (hinP : ∀ x, (lp x).toNat < S1000x128.size gathers_S1000x128_S128x128.axis)
    (hHe : He = SparseCore.gatherPayload gathers_S100000x128_S128x128 ((teSrc).view.read (Elt F) (A.te d)) (SparseCore.rows le rfl hinE))
    (hHp : Hp = SparseCore.gatherPayload gathers_S1000x128_S128x128 ((shSrc).view.read (Elt F) (shVal A d (cV L))) (SparseCore.rows lp rfl hinP))
    (hle : ∀ x : Fin 128, le (ix1 x) = A.eid d (ix1 (⟨base0 L + 128 * n + x.val, by have := base0_le L; omega⟩ : Fin 819200)))
    (hlp : ∀ x : Fin 128, lp (ix1 x) = A.pid d (ix1 (⟨base0 L + 128 * n + x.val, by have := base0_le L; omega⟩ : Fin 819200)))
    (f : Buf (Elt F) ((chunkV L n hn).view.loc (thr d L))) :
    ∀ i ∈ (chunkV L n hn).view.set,
      View.write (Elt F) (chunkV L n hn).view f (ReadAs.same.apply fun y => FloatOps.addf (φ := .f32) (He y) (Hp y)) Finset.univ i = outFin A d i := by
  intro i hi
  obtain ⟨y, rfl⟩ := View.exists_emb_of_mem_set _ hi
  have hb := base0_le L
  have hy : (y 0).val < 128 := idx2_lt0 y
  rw [View.write_emb_of_mem _ _ (Finset.mem_univ y)]
  subst hHe hHp
  rw [teSrc_read, shSrc_read]
  refine (gather_sum_eq_outVal (A.te d) (A.tp d) (A.eid d) (A.pid d) gathers_S100000x128_S128x128 gathers_S1000x128_S128x128
    (base0 L + 128 * n) (by omega) le lp hle hlp hinE hinP y).trans ?_
  show outFin A d _ = outFin A d _
  refine congrArg (outFin A d) ?_
  funext a; apply Fin.ext
  match a with
  | ⟨0, _⟩ => show base0 L + 128 * n + (y 0).val = 51200 * (L 1).val + 25600 * (L 0).val + 128 * n + 1 * (y 0).val; unfold base0; omega
  | ⟨1, _⟩ => show (y 1).val = 0 + 1 * (y 1).val; omega

/-! ### A chunk out of half 0 of the sum buffer -/

/-- THE DELIVERED CHUNK, half 0: a chunk window written whole (over any base contents) with the lanewise sums of half 0,
    when that half of the two gathered buffers holds the rows gathered by lists of the chunk's flat ids, is the chunk
    holding the looked-up sums. -/
theorem chunk_delivered0 (n : ℕ) (hn : n < 200) (off : Fin 2 → ℕ) (hoff : ∀ a, off a + S128x128.size a ≤ S819200x128.size a) (eoff : off = chunkOff L n)
    (BASE : Buf (Elt F) (((outV).slice (Rect.unit (s := S819200x128) off S128x128.size hoff) (fun _ => rfl)).view.loc (thr d L)))
    (PAY : S128x128.Idx → Elt F .f32) (FE FP FO : S2x128x128.Idx → Elt F .f32) (le lp : S128.Idx → Elt F .i32)
    (hinE : ∀ x, (le x).toNat < S100000x128.size gathers_S100000x128_S128x128.axis)
    (hinP : ∀ x, (lp x).toNat < S1000x128.size gathers_S1000x128_S128x128.axis)
    (hPAY : PAY = ReadAs.same.apply ((hlf0 obV).view.read (Elt F) (addHalf 0 FE FP FO)))
    (hFE : (hlf0 ebV).view.read (Elt F) FE
      = SparseCore.gatherPayload gathers_S100000x128_S128x128 ((teSrc).view.read (Elt F) (A.te d)) (SparseCore.rows le rfl hinE))
    (hFP : (hlf0 pbV).view.read (Elt F) FP
      = SparseCore.gatherPayload gathers_S1000x128_S128x128 ((shSrc).view.read (Elt F) (shVal A d (cV L))) (SparseCore.rows lp rfl hinP))
    (hle : ∀ x : Fin 128, le (ix1 x) = A.eid d (ix1 (⟨base0 L + 128 * n + x.val, by have := base0_le L; omega⟩ : Fin 819200)))
    (hlp : ∀ x : Fin 128, lp (ix1 x) = A.pid d (ix1 (⟨base0 L + 128 * n + x.val, by have := base0_le L; omega⟩ : Fin 819200))) :
    ((((outV).slice (Rect.unit (s := S819200x128) off S128x128.size hoff) (fun _ => rfl)).view.loc (thr d L)
        ↦[((outV).slice (Rect.unit (s := S819200x128) off S128x128.size hoff) (fun _ => rfl)).view.set]{fullShare}
          ((outV).slice (Rect.unit (s := S819200x128) off S128x128.size hoff) (fun _ => rfl)).view.writes (Elt F) BASE
            [⟨Rect.whole (Rect.unit (s := S819200x128) off S128x128.size hoff).shape, PAY⟩]) : sProp 𝕄)
      = chunkPt d L n hn (outFin A d) := by
  subst eoff
  have eh : hoff = chunkInb L n hn := rfl
  subst eh
  subst hPAY
  unfold chunkPt
  refine pointsTo_congr fun i hi => ?_
  refine (congrFun (View.write_univ_eq_writes_whole (chunkV L n hn).view BASE [] _).symm i).trans ?_
  rw [View.writes_nil, read_addHalf0]
  exact chunk_written' A d L n hn ((hlf0 ebV).view.read (Elt F) FE) ((hlf0 pbV).view.read (Elt F) FP) le lp hinE hinP hFE hFP hle hlp BASE i hi

/-- THE COPY-OUT IN FLIGHT, half 0: as a run leaves it — the chunk window written whole with the sums, half 0 of the
    sum buffer lent — it is the flight that hands back the chunk holding the looked-up sums and the half. -/
theorem flight_delivered0 (sm : DmaSem sig) (n : ℕ) (hn : n < 200) (off : Fin 2 → ℕ) (hoff : ∀ a, off a + S128x128.size a ≤ S819200x128.size a) (eoff : off = chunkOff L n)
    (BASE : Buf (Elt F) (((outV).slice (Rect.unit (s := S819200x128) off S128x128.size hoff) (fun _ => rfl)).view.loc (thr d L)))
    (PAY : S128x128.Idx → Elt F .f32) (FE FP FO : S2x128x128.Idx → Elt F .f32) (le lp : S128.Idx → Elt F .i32)
    (hinE : ∀ x, (le x).toNat < S100000x128.size gathers_S100000x128_S128x128.axis)
    (hinP : ∀ x, (lp x).toNat < S1000x128.size gathers_S1000x128_S128x128.axis)
    (hPAY : PAY = ReadAs.same.apply ((hlf0 obV).view.read (Elt F) (addHalf 0 FE FP FO)))
    (hFE : (hlf0 ebV).view.read (Elt F) FE
      = SparseCore.gatherPayload gathers_S100000x128_S128x128 ((teSrc).view.read (Elt F) (A.te d)) (SparseCore.rows le rfl hinE))
    (hFP : (hlf0 pbV).view.read (Elt F) FP
      = SparseCore.gatherPayload gathers_S1000x128_S128x128 ((shSrc).view.read (Elt F) (shVal A d (cV L))) (SparseCore.rows lp rfl hinP))
    (hle : ∀ x : Fin 128, le (ix1 x) = A.eid d (ix1 (⟨base0 L + 128 * n + x.val, by have := base0_le L; omega⟩ : Fin 819200)))
    (hlp : ∀ x : Fin 128, lp (ix1 x) = A.pid d (ix1 (⟨base0 L + 128 * n + x.val, by have := base0_le L; omega⟩ : Fin 819200))) :
    (Transfers.Flight countersEmb (thr d L) (SemLoc.dma sm) (default : HIx 1) 524288
        iprop(((((outV).slice (Rect.unit (s := S819200x128) off S128x128.size hoff) (fun _ => rfl)).view.loc (thr d L)
            ↦[((outV).slice (Rect.unit (s := S819200x128) off S128x128.size hoff) (fun _ => rfl)).view.set]{fullShare}
              ((outV).slice (Rect.unit (s := S819200x128) off S128x128.size hoff) (fun _ => rfl)).view.writes (Elt F) BASE
                [⟨Rect.whole (Rect.unit (s := S819200x128) off S128x128.size hoff).shape, PAY⟩]))
          ∗ ((obV).view.loc (thr d L) ↦[(hlf0 obV).view.set]{fullShare} addHalf 0 FE FP FO)) : sProp 𝕄)
      = flightO A d L sm (hlf0 obV) n hn (addHalf 0 FE FP FO) := by
  rw [chunk_delivered0 A d L n hn off hoff eoff BASE PAY FE FP FO le lp hinE hinP hPAY hFE hFP hle hlp]
  rfl

/-- Half 0 of a buffer that holds `W` on that half reads as `W` does. -/
theorem read_piecewise_hlf0 (M : Memref sig .scVector .vmem S2x128x128 .f32) (W R : Buf (Elt F) (M.view.loc (thr d L))) :
    (hlf0 M).view.read (Elt F) ((hlf0 M).view.set.piecewise W R) = (hlf0 M).view.read (Elt F) W := by
  funext y
  rw [View.read_apply, View.read_apply, Finset.piecewise_eq_of_mem _ _ _ ((hlf0 M).view.emb_mem_set y)]

/-- Half 0 written whole reads the payload. -/
theorem read_write_hlf0 (M : Memref sig .scVector .vmem S2x128x128 .f32) (X : Buf (Elt F) (M.view.loc (thr d L))) (pay : S128x128.Idx → Elt F .f32) :
    (hlf0 M).view.read (Elt F) (View.write (Elt F) (hlf0 M).view X pay Finset.univ) = pay :=
  View.read_write_univ _ _

/-! ### A chunk out of half 1 of the sum buffer -/

/-- THE DELIVERED CHUNK, half 1: a chunk window written whole (over any base contents) with the lanewise sums of half 1,
    when that half of the two gathered buffers holds the rows gathered by lists of the chunk's flat ids, is the chunk
    holding the looked-up sums. -/
theorem chunk_delivered1 (n : ℕ) (hn : n < 200) (off : Fin 2 → ℕ) (hoff : ∀ a, off a + S128x128.size a ≤ S819200x128.size a) (eoff : off = chunkOff L n)
    (BASE : Buf (Elt F) (((outV).slice (Rect.unit (s := S819200x128) off S128x128.size hoff) (fun _ => rfl)).view.loc (thr d L)))
    (PAY : S128x128.Idx → Elt F .f32) (FE FP FO : S2x128x128.Idx → Elt F .f32) (le lp : S128.Idx → Elt F .i32)
    (hinE : ∀ x, (le x).toNat < S100000x128.size gathers_S100000x128_S128x128.axis)
    (hinP : ∀ x, (lp x).toNat < S1000x128.size gathers_S1000x128_S128x128.axis)
    (hPAY : PAY = ReadAs.same.apply ((hlf1 obV).view.read (Elt F) (addHalf 1 FE FP FO)))
    (hFE : (hlf1 ebV).view.read (Elt F) FE
      = SparseCore.gatherPayload gathers_S100000x128_S128x128 ((teSrc).view.read (Elt F) (A.te d)) (SparseCore.rows le rfl hinE))
    (hFP : (hlf1 pbV).view.read (Elt F) FP
      = SparseCore.gatherPayload gathers_S1000x128_S128x128 ((shSrc).view.read (Elt F) (shVal A d (cV L))) (SparseCore.rows lp rfl hinP))
    (hle : ∀ x : Fin 128, le (ix1 x) = A.eid d (ix1 (⟨base0 L + 128 * n + x.val, by have := base0_le L; omega⟩ : Fin 819200)))
    (hlp : ∀ x : Fin 128, lp (ix1 x) = A.pid d (ix1 (⟨base0 L + 128 * n + x.val, by have := base0_le L; omega⟩ : Fin 819200))) :
    ((((outV).slice (Rect.unit (s := S819200x128) off S128x128.size hoff) (fun _ => rfl)).view.loc (thr d L)
        ↦[((outV).slice (Rect.unit (s := S819200x128) off S128x128.size hoff) (fun _ => rfl)).view.set]{fullShare}
          ((outV).slice (Rect.unit (s := S819200x128) off S128x128.size hoff) (fun _ => rfl)).view.writes (Elt F) BASE
            [⟨Rect.whole (Rect.unit (s := S819200x128) off S128x128.size hoff).shape, PAY⟩]) : sProp 𝕄)
      = chunkPt d L n hn (outFin A d) := by
  subst eoff
  have eh : hoff = chunkInb L n hn := rfl
  subst eh
  subst hPAY
  unfold chunkPt
  refine pointsTo_congr fun i hi => ?_
  refine (congrFun (View.write_univ_eq_writes_whole (chunkV L n hn).view BASE [] _).symm i).trans ?_
  rw [View.writes_nil, read_addHalf1]
  exact chunk_written' A d L n hn ((hlf1 ebV).view.read (Elt F) FE) ((hlf1 pbV).view.read (Elt F) FP) le lp hinE hinP hFE hFP hle hlp BASE i hi

/-- THE COPY-OUT IN FLIGHT, half 1: as a run leaves it — the chunk window written whole with the sums, half 1 of the
    sum buffer lent — it is the flight that hands back the chunk holding the looked-up sums and the half. -/
theorem flight_delivered1 (sm : DmaSem sig) (n : ℕ) (hn : n < 200) (off : Fin 2 → ℕ) (hoff : ∀ a, off a + S128x128.size a ≤ S819200x128.size a) (eoff : off = chunkOff L n)
    (BASE : Buf (Elt F) (((outV).slice (Rect.unit (s := S819200x128) off S128x128.size hoff) (fun _ => rfl)).view.loc (thr d L)))
    (PAY : S128x128.Idx → Elt F .f32) (FE FP FO : S2x128x128.Idx → Elt F .f32) (le lp : S128.Idx → Elt F .i32)
    (hinE : ∀ x, (le x).toNat < S100000x128.size gathers_S100000x128_S128x128.axis)
    (hinP : ∀ x, (lp x).toNat < S1000x128.size gathers_S1000x128_S128x128.axis)
    (hPAY : PAY = ReadAs.same.apply ((hlf1 obV).view.read (Elt F) (addHalf 1 FE FP FO)))
    (hFE : (hlf1 ebV).view.read (Elt F) FE
      = SparseCore.gatherPayload gathers_S100000x128_S128x128 ((teSrc).view.read (Elt F) (A.te d)) (SparseCore.rows le rfl hinE))
    (hFP : (hlf1 pbV).view.read (Elt F) FP
      = SparseCore.gatherPayload gathers_S1000x128_S128x128 ((shSrc).view.read (Elt F) (shVal A d (cV L))) (SparseCore.rows lp rfl hinP))
    (hle : ∀ x : Fin 128, le (ix1 x) = A.eid d (ix1 (⟨base0 L + 128 * n + x.val, by have := base0_le L; omega⟩ : Fin 819200)))
    (hlp : ∀ x : Fin 128, lp (ix1 x) = A.pid d (ix1 (⟨base0 L + 128 * n + x.val, by have := base0_le L; omega⟩ : Fin 819200))) :
    (Transfers.Flight countersEmb (thr d L) (SemLoc.dma sm) (default : HIx 1) 524288
        iprop(((((outV).slice (Rect.unit (s := S819200x128) off S128x128.size hoff) (fun _ => rfl)).view.loc (thr d L)
            ↦[((outV).slice (Rect.unit (s := S819200x128) off S128x128.size hoff) (fun _ => rfl)).view.set]{fullShare}
              ((outV).slice (Rect.unit (s := S819200x128) off S128x128.size hoff) (fun _ => rfl)).view.writes (Elt F) BASE
                [⟨Rect.whole (Rect.unit (s := S819200x128) off S128x128.size hoff).shape, PAY⟩]))
          ∗ ((obV).view.loc (thr d L) ↦[(hlf1 obV).view.set]{fullShare} addHalf 1 FE FP FO)) : sProp 𝕄)
      = flightO A d L sm (hlf1 obV) n hn (addHalf 1 FE FP FO) := by
  rw [chunk_delivered1 A d L n hn off hoff eoff BASE PAY FE FP FO le lp hinE hinP hPAY hFE hFP hle hlp]
  rfl

/-- Half 1 of a buffer that holds `W` on that half reads as `W` does. -/
theorem read_piecewise_hlf1 (M : Memref sig .scVector .vmem S2x128x128 .f32) (W R : Buf (Elt F) (M.view.loc (thr d L))) :
    (hlf1 M).view.read (Elt F) ((hlf1 M).view.set.piecewise W R) = (hlf1 M).view.read (Elt F) W := by
  funext y
  rw [View.read_apply, View.read_apply, Finset.piecewise_eq_of_mem _ _ _ ((hlf1 M).view.emb_mem_set y)]

/-- Half 1 written whole reads the payload. -/
theorem read_write_hlf1 (M : Memref sig .scVector .vmem S2x128x128 .f32) (X : Buf (Elt F) (M.view.loc (thr d L))) (pay : S128x128.Idx → Elt F .f32) :
    (hlf1 M).view.read (Elt F) (View.write (Elt F) (hlf1 M).view X pay Finset.univ) = pay :=
  View.read_write_univ _ _

end Cert.KernelIdeal.Run.Sc

end
-- ==== Proof.ScTripEven.lean ====
/-
  The tile's loop: what the tile holds between two trips of its 50-trip loop (the invariant), and one trip.

  At the start of trip k the gathers of chunks 4k and 4k+1 are in flight (one per cell of esem / psem) into the halves
  of ebufs / pbufs, by the first two quarters of id slot k % 2; the next trip's 512 ids of both kinds are in flight
  into slot (k+1) % 2 as ONE batch of two copies on isem[(k+1) % 2] (trips 0–48); the copy-outs of chunks 4k-2 and
  4k-1 are in flight out of the halves of obufs on wsem[0] / wsem[1] (trips ≥ 1), their chunks of the result already
  counted as holding the looked-up sums; the chunks below 4k-2 hold them; those from 4k on are untouched.
-/
import proofs.«204385_g66649302499670_cont_9to1c4b_43_34_alg».proof.Proof.ScTrip
import proofs.«204385_g66649302499670_cont_9to1c4b_43_34_alg».proof.Proof.AddLoop
import proofs.«204385_g66649302499670_cont_9to1c4b_43_34_alg».proof.Proof.ScHalves
import proofs.«204385_g66649302499670_cont_9to1c4b_43_34_alg».proof.Proof.ScSlots
import proofs.«204385_g66649302499670_cont_9to1c4b_43_34_alg».proof.Proof.ScBook
import proofs.«204385_g66649302499670_cont_9to1c4b_43_34_alg».proof.Proof.ScTripFold
import proofs.«204385_g66649302499670_cont_9to1c4b_43_34_alg».proof.Proof.ScClose

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F] (A : Vals F) (d : Dev nD) (L : grid1.Coords)

variable [FloatOps F] (A : Vals F) (d : Dev nD) (L : grid1.Coords)

/-- A 128-row window of the result at offset `off`, held whole. -/
abbrev chunkWin (off : Fin 2 → ℕ) (h : ∀ a, off a + S128x128.size a ≤ S819200x128.size a) (f : Buf (Elt F) ((outV).view.loc (thr d L))) : sProp 𝕄 :=
  ((outV).slice (Rect.unit (s := S819200x128) off S128x128.size h) (fun _ => rfl)).view.loc (thr d L)
    ↦[((outV).slice (Rect.unit (s := S819200x128) off S128x128.size h) (fun _ => rfl)).view.set]{fullShare} f

omit [FloatOps F] in
/-- A slot of an id scratch at offset `off`, as the program names it. -/
abbrev slotAt (M : Memref sig .scVector .vmem S2x512 .i32) (off : Fin 2 → ℕ) (h : ∀ a, off a + S1x512.size a ≤ S2x512.size a) : Memref sig .scVector .vmem S512 .i32 :=
  (M.slice (Rect.unit (s := S2x512) off S1x512.size h) (fun _ => rfl)).squeeze S512 squeezes_S1x512_S512
omit [FloatOps F] in
theorem slotPts_congr (M : Memref sig .scVector .vmem S2x512 .i32) {off off' : Fin 2 → ℕ} (e : off = off')
    (h : ∀ a, off a + S1x512.size a ≤ S2x512.size a) (h' : ∀ a, off' a + S1x512.size a ≤ S2x512.size a) (f : Buf (Elt F) (M.view.loc (thr d L))) :
    (((slotAt M off h).view.loc (thr d L) ↦[(slotAt M off h).view.set]{fullShare} f : sProp 𝕄))
      = ((slotAt M off' h').view.loc (thr d L) ↦[(slotAt M off' h').view.set]{fullShare} f) := by subst e; rfl

omit [FloatOps F] in
/-- A list's elements do not depend on how its offset is spelt. -/
theorem lst_set_congr (M : Memref sig .scVector .vmem S2x512 .i32) {off off' : Fin 2 → ℕ} (h : off = off')
    (hi : ∀ a, off a + S1x128.size a ≤ S2x512.size a) (hi' : ∀ a, off' a + S1x128.size a ≤ S2x512.size a) :
    (lst M off hi).view.set = (lst M off' hi').view.set := by subst h; rfl

omit [FloatOps F] in
/-- A list's contents do not depend on how its offset is spelt. -/
theorem lst_read_congr (M : Memref sig .scVector .vmem S2x512 .i32) {off off' : Fin 2 → ℕ} (h : off = off')
    (hi : ∀ a, off a + S1x128.size a ≤ S2x512.size a) (hi' : ∀ a, off' a + S1x128.size a ≤ S2x512.size a)
    (e : Buf (Elt F) (M.view.loc (thr d L))) (x : S128.Idx) :
    (lst M off hi).view.read (Elt F) e x = (lst M off' hi').view.read (Elt F) e x := by subst h; rfl

omit [FloatOps F] in
theorem respell_e_0_0 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 0] linb_0_0).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_e_0_128 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 128] linb_0_128).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_e_0_256 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 256] linb_0_256).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_e_0_384 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 384] linb_0_384).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_e_1_0 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 0] linb_1_0).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_e_1_128 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 128] linb_1_128).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_e_1_256 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 256] linb_1_256).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_e_1_384 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 384] linb_1_384).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_p_0_0 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 0] linb_0_0).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem respell_p_0_128 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 128] linb_0_128).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem respell_p_0_256 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 256] linb_0_256).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem respell_p_0_384 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 384] linb_0_384).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem respell_p_1_0 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 0] linb_1_0).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem respell_p_1_128 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 128] linb_1_128).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem respell_p_1_256 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 256] linb_1_256).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem respell_p_1_384 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 384] linb_1_384).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
/-- A resource put aside: held, but not looked at. -/
def Aside (P : sProp 𝕄) : sProp 𝕄 := P
omit [FloatOps F] in
theorem aside_intro (P : sProp 𝕄) : P ⊢ Aside P := BI.Entails.refl _
omit [FloatOps F] in
theorem aside_elim (P : sProp 𝕄) : Aside P ⊢ P := BI.Entails.refl _

/-- The cell of the id semaphores at offset `off`, as the program names it. -/
abbrev isemAt (off : Fin 1 → ℕ) (h : ∀ a, off a + S1.size a ≤ S2.size a) : DmaSem sig :=
  ((SemArray.slice cc1_scratch6 (Rect.unit (s := S2) off S1.size h)).squeeze S_ squeezes_S1_S_).sem
theorem isemAt_congr {off off' : Fin 1 → ℕ} (e : off = off') (h : ∀ a, off a + S1.size a ≤ S2.size a) (h' : ∀ a, off' a + S1.size a ≤ S2.size a) :
    isemAt off h = isemAt off' h' := by subst e; rfl
theorem isemAt_one : isemAt ![1] inb_S2_S1_1 = (9 : DmaSem sig) := by decide
theorem isemAt_zero : isemAt ![0] inb_S2_S1_0 = (8 : DmaSem sig) := by decide

/-- A gather's flight does not depend on how its list's offset is spelt. -/
theorem ev_flightE_off (sm : DmaSem sig) (H : Memref sig .scVector .vmem S128x128 .f32) {off off' : Fin 2 → ℕ} (h : off = off')
    (hi : ∀ a, off a + S1x128.size a ≤ S2x512.size a) (hi' : ∀ a, off' a + S1x128.size a ≤ S2x512.size a) (q : PosShare TreeShare)
    (fe : Buf (Elt F) (H.view.loc (thr d L))) (e : Buf (Elt F) ((eixV).view.loc (thr d L)))
    (hin : ∀ x, ((lst eixV off hi).view.read (Elt F) e x).toNat < S100000x128.size gathers_S100000x128_S128x128.axis)
    (hin' : ∀ x, ((lst eixV off' hi').view.read (Elt F) e x).toNat < S100000x128.size gathers_S100000x128_S128x128.axis) :
    flightE A d L sm H (lst eixV off hi) q fe e hin ⊢ flightE A d L sm H (lst eixV off' hi') q fe e hin' := by
  subst h; exact BI.Entails.refl _
theorem ev_flightP_off (sm : DmaSem sig) (H : Memref sig .scVector .vmem S128x128 .f32) {off off' : Fin 2 → ℕ} (h : off = off')
    (hi : ∀ a, off a + S1x128.size a ≤ S2x512.size a) (hi' : ∀ a, off' a + S1x128.size a ≤ S2x512.size a) (q : PosShare TreeShare)
    (fp : Buf (Elt F) (H.view.loc (thr d L))) (p : Buf (Elt F) ((pixV).view.loc (thr d L)))
    (hin : ∀ x, ((lst pixV off hi).view.read (Elt F) p x).toNat < S1000x128.size gathers_S1000x128_S128x128.axis)
    (hin' : ∀ x, ((lst pixV off' hi').view.read (Elt F) p x).toNat < S1000x128.size gathers_S1000x128_S128x128.axis) :
    flightP A d L sm H (lst pixV off hi) q fp p hin ⊢ flightP A d L sm H (lst pixV off' hi') q fp p hin' := by
  subst h; exact BI.Entails.refl _

/-- The id batch does not depend on how its cell, its slot and its window are spelt. -/
theorem ev_batch_congr (qi : PosShare TreeShare) {sm sm' : DmaSem sig} (hsm : sm = sm') {offS offS' : Fin 2 → ℕ} (hS : offS = offS')
    (hiS : ∀ a, offS a + S1x512.size a ≤ S2x512.size a) (hiS' : ∀ a, offS' a + S1x512.size a ≤ S2x512.size a)
    {off off' : Fin 1 → ℕ} (ho : off = off') (hi : ∀ a, off a + S512.size a ≤ S819200.size a) (hi' : ∀ a, off' a + S512.size a ≤ S819200.size a)
    (e : Buf (Elt F) ((eixV).view.loc (thr d L))) (p : Buf (Elt F) ((pixV).view.loc (thr d L))) (pe pp : S512.Idx → Elt F .i32) :
    idsBatch A d L sm (slotAt eixV offS hiS) (slotAt pixV offS hiS) qi off hi e p pe pp
      = idsBatch A d L sm' (slotAt eixV offS' hiS') (slotAt pixV offS' hiS') qi off' hi' e p pe pp := by
  subst hsm hS ho; rfl

omit [FloatOps F] in
theorem ev_W_ins {W S : Waits sig (HIx 1)} (x0 : SemLoc sig × HIx 1) (h0 : x0.2 = none) (h : ∀ x ∈ S, x ∈ W ∨ x.2 = none) :
    ∀ x ∈ insert x0 S, x ∈ W ∨ x.2 = none := by
  intro x hx
  rcases Finset.mem_insert.mp hx with rfl | hx
  · exact Or.inr h0
  · exact h x hx

omit [FloatOps F] in
theorem ev_off43 (k : Fin k1_t1_loop.trips) : k1_off43 L k = idsOff L (k.val + 1 + 1) := by
  rw [k1_off43_eq]; unfold idsOff
  refine funext fun a => ?_
  match a with
  | 0 => show 51200 * (L 1).val + 25600 * (L 0).val + 512 * k.val + 1024 = 51200 * (L 1).val + 25600 * (L 0).val + 512 * (k.val + 1 + 1); omega

omit [FloatOps F] in
theorem ev_off13 (k : Fin k1_t1_loop.trips) (r : Fin 4) : k1_off13 L k (BitVec.ofNat 32 r.val) = chunkOff L (4 * k.val + r.val) := by
  rw [k1_off13_eq]; unfold chunkOff
  refine funext fun a => ?_
  match a with
  | 0 => show 51200 * (L 1).val + 25600 * (L 0).val + 512 * k.val + 128 * r.val = 51200 * (L 1).val + 25600 * (L 0).val + 128 * (4 * k.val + r.val); omega
  | 1 => rfl

variable (q1 q2 r1 r2 qi : PosShare TreeShare)

set_option maxHeartbeats 4000000 in
theorem trip_even_core (v2 : BitVec 32) (k : Fin k1_t1_loop.trips) (hk0 : k.val % 2 = 0) (hk1 : 1 ≤ k.val) (hk48 : k.val < 48)
    (hk1' : k.val + 1 < 50)
    (hcm2 : 4 * k.val - 2 < 200) (hcm1 : 4 * k.val - 1 < 200)
    (O : CellTallies nD τ sig (HIx 1)) (W W0 : Waits sig (HIx 1)) (hW0 : ∀ x ∈ W0, x ∈ W ∨ x.2 = none)
    (e : Buf (Elt F) ((eixV).view.loc (thr d L))) (p : Buf (Elt F) ((pixV).view.loc (thr d L)))
    (e' : Buf (Elt F) ((eixV).view.loc (thr d L))) (p' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK0 d L e p) (hSV0 : SlotVals0 A d L e p k.val k.isLt)
    (hE : ∀ j, (A.eid d j).toNat < 100000) (hP : ∀ j, (A.pid d j).toNat < 1000)
    (hk2' : k.val + 1 + 1 < 50) (hc0 : 4 * k.val < 200) (hc1 : 4 * k.val + 1 < 200) (hc2 : 4 * k.val + 2 < 200) (hc3 : 4 * k.val + 3 < 200) :
    iprop(Transfers.MayWaits (thr d L) (default : HIx 1) O
        ∗ flightE A d L 10 (hlf0 ebV) (lst eixV ![0, 0] linb_0_0) q1 fe0 e hL.1
        ∗ flightE A d L 11 (hlf1 ebV) (lst eixV ![0, 128] linb_0_128) q2 fe1 e hL.2.1
        ∗ flightP A d L 12 (hlf0 pbV) (lst pixV ![0, 0] linb_0_0) r1 fp0 p hL.2.2.1
        ∗ flightP A d L 13 (hlf1 pbV) (lst pixV ![0, 128] linb_0_128) r2 fp1 p hL.2.2.2
        ∗ teRest A d L q1 ∗ teRest A d L q2 ∗ shRest A d L r1 ∗ shRest A d L r2
        ∗ ((slot0 eixV).view.loc (thr d L)
              ↦[((slot0 eixV).view.set \ (lst eixV ![0, 0] linb_0_0).view.set) \ (lst eixV ![0, 128] linb_0_128).view.set]{fullShare} e)
        ∗ ((slot0 pixV).view.loc (thr d L)
              ↦[((slot0 pixV).view.set \ (lst pixV ![0, 0] linb_0_0).view.set) \ (lst pixV ![0, 128] linb_0_128).view.set]{fullShare} p)
        ∗ ((ebV).view.loc (thr d L) ↦[(Finset.univ \ (hlf0 ebV).view.set) \ (hlf1 ebV).view.set]{fullShare} feR)
        ∗ ((pbV).view.loc (thr d L) ↦[(Finset.univ \ (hlf0 pbV).view.set) \ (hlf1 pbV).view.set]{fullShare} fpR)
        ∗ idsBatch A d L (9 : DmaSem sig) (slot1 eixV) (slot1 pixV) qi (idsOff L (k.val + 1)) (idsInb L (k.val + 1) hk1') e' p'
            (idsPayAt d L eidV (A.eid d) (idsOff L (k.val + 1)) (idsInb L (k.val + 1) hk1')) (idsPayAt d L pidV (A.pid d) (idsOff L (k.val + 1)) (idsInb L (k.val + 1) hk1'))
        ∗ idsRest A d L qi (idsOff L (k.val + 1)) (idsInb L (k.val + 1) hk1')
        ∗ semVal (cellOf d L 8) 0
        ∗ chunkWin d L (k1_off13 L k 0#32) (k1_off13_inb L k 0) (A.out0 d)
        ∗ chunkWin d L (k1_off13 L k 1#32) (k1_off13_inb L k 1) (A.out0 d)
        ∗ chunkWin d L (k1_off13 L k 2#32) (k1_off13_inb L k 2) (A.out0 d)
        ∗ chunkWin d L (k1_off13 L k 3#32) (k1_off13_inb L k 3) (A.out0 d)
        ∗ flightO A d L 14 (hlf0 obV) (4 * k.val - 2) hcm2 fo0
        ∗ flightO A d L 15 (hlf1 obV) (4 * k.val - 1) hcm1 fo1
        ∗ ((obV).view.loc (thr d L) ↦[(Finset.univ \ (hlf0 obV).view.set) \ (hlf1 obV).view.set]{fullShare} foR)
        ∗ owes (thr d L) O W0)
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 k ())
            (fun _ => iprop(rest200 A d L k.val -∗ inv A d L q1 q2 r1 r2 qi O W (k.val + 1) PUnit.unit)) := by
  have hE2 := hin_e_0_256 A d L hE e p k.val k.isLt hSV0
  have hE3 := hin_e_0_384 A d L hE e p k.val k.isLt hSV0
  have hP2 := hin_p_0_256 A d L hP e p k.val k.isLt hSV0
  have hP3 := hin_p_0_384 A d L hP e p k.val k.isLt hSV0
  have hcond2 : k1_cond2 k = 1#1 := (cond2_iff k).mpr hk1
  have hcond9 : k1_cond9 k = 1#1 := (cond9_iff k).mpr hk48
  have hcond3 := cond3_true k
  have hcond4 : k1_cond4 k = 1#1 := (cond4_iff k).mpr hk1
  have hcond5 := cond5_true k
  have hcond6 := cond6_true k
  have hcond7 : k1_cond7 k = 1#1 := (cond7_iff k).mpr (by omega)
  have hcond8 := cond8_true k
  have hcond10 : k1_cond10 k = 1#1 := (cond10_iff k).mpr (by omega)
  have e14 : k1_off14 k = ![0, 256] := by rw [off14_eq, hk0]
  have e25 : k1_off25 k = ![0, 384] := by rw [off25_eq, hk0]
  have hk0' : (k.val + 1) % 2 = 1 := by omega
  have e36 : k1_off36 k = ![1, 0] := by rw [off36_eq, hk0']
  have e38 : k1_off38 k = ![1] := by rw [off38_eq, hk0']
  have e39 : k1_off39 k = ![1, 0] := by rw [off39_eq, hk0']
  have e42 : k1_off42 k = ![0, 0] := by rw [off42_eq, hk0]
  have e44 : k1_off44 k = ![0] := by rw [off44_eq, hk0]
  have e53 : k1_off53 k = ![1, 128] := by rw [off53_eq, hk0']
  letI : ClosedOff (k1_off14 k) := ⟨![0, 256], e14⟩
  letI : ClosedOff (k1_off25 k) := ⟨![0, 384], e25⟩
  letI : ClosedOff (k1_off36 k) := ⟨![1, 0], e36⟩
  letI : ClosedOff (k1_off38 k) := ⟨![1], e38⟩
  letI : ClosedOff (k1_off39 k) := ⟨![1, 0], e39⟩
  letI : ClosedOff (k1_off42 k) := ⟨![0, 0], e42⟩
  letI : ClosedOff (k1_off44 k) := ⟨![0], e44⟩
  letI : ClosedOff (k1_off53 k) := ⟨![1, 128], e53⟩
  have hinE2 : ∀ x, ((lst eixV (k1_off14 k) (k1_off14_inb k hcond3)).view.read (Elt F) e x).toNat < S100000x128.size gathers_S100000x128_S128x128.axis :=
    fun x => by rw [lst_read_congr d L eixV e14 _ linb_0_256]; exact hE2 x
  have hinP2 : ∀ x, ((lst pixV (k1_off14 k) (k1_off14_inb k hcond3)).view.read (Elt F) p x).toNat < S1000x128.size gathers_S1000x128_S128x128.axis :=
    fun x => by rw [lst_read_congr d L pixV e14 _ linb_0_256]; exact hP2 x
  have hinE3 : ∀ x, ((lst eixV (k1_off25 k) (k1_off25_inb k hcond5)).view.read (Elt F) e x).toNat < S100000x128.size gathers_S100000x128_S128x128.axis :=
    fun x => by rw [lst_read_congr d L eixV e25 _ linb_0_384]; exact hE3 x
  have hinP3 : ∀ x, ((lst pixV (k1_off25 k) (k1_off25_inb k hcond5)).view.read (Elt F) p x).toNat < S1000x128.size gathers_S1000x128_S128x128.axis :=
    fun x => by rw [lst_read_congr d L pixV e25 _ linb_0_384]; exact hP3 x
  have hs44 : isemAt (k1_off44 k) (k1_off44_inb k hcond9) = (8 : DmaSem sig) := (isemAt_congr e44 _ inb_S2_S1_0).trans isemAt_zero
  have hbo : Transfers.BatchOf (thr d L) (SemLoc.dma (isemAt (k1_off44 k) (k1_off44_inb k hcond9))) 2 := trivial
  unfold k1_t1_body
  unfold idsBatch idsRest
  iintro ⟨#Hmw, HE0, HE1, HP0, HP1, Hte1, Hte2, Hsh1, Hsh2, Heix, Hpix, Heb, Hpb, Hbat, ⟨Heidr, Hpidr⟩, Hs8, Hc0, Hc1, Hc2, Hc3, HO0, HO1, Hob, HO⟩
  sl_exec_parts
  -- the first chunk's sums
  ihave Heb2 := (join0_e (F := F) d L _ _) $$ [Heb HE0_dst]
  · isplitl [Heb] <;> iassumption
  ihave Hpb2 := (join0_p (F := F) d L _ _) $$ [Hpb HP0_dst]
  · isplitl [Hpb] <;> iassumption
  ihave Hob2 := (join0_o (F := F) d L _ _) $$ [Hob HO0_src]
  · isplitl [Hob] <;> iassumption
  iapply (Add.addLoop_sub0 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Heix2 := (Entails.of_eq (show (((slot0 eixV).view.loc (thr d L)
        ↦[((slot0 eixV).view.set \ (lst eixV ![0, 0] linb_0_0).view.set) \ (lst eixV ![0, 128] linb_0_128).view.set]{fullShare} e : sProp 𝕄))
      = ((eixV).view.loc (thr d L)
        ↦[((Finset.univ \ (slot1 eixV).view.set) \ (lst eixV ![0, 0] linb_0_0).view.set) \ (lst eixV ![0, 128] linb_0_128).view.set]{fullShare} e) from by
          rw [slot0_eq_compl_e])) $$ Heix
  ihave Hpix2 := (Entails.of_eq (show (((slot0 pixV).view.loc (thr d L)
        ↦[((slot0 pixV).view.set \ (lst pixV ![0, 0] linb_0_0).view.set) \ (lst pixV ![0, 128] linb_0_128).view.set]{fullShare} p : sProp 𝕄))
      = ((pixV).view.loc (thr d L)
        ↦[((Finset.univ \ (slot1 pixV).view.set) \ (lst pixV ![0, 0] linb_0_0).view.set) \ (lst pixV ![0, 128] linb_0_128).view.set]{fullShare} p) from by
          rw [slot0_eq_compl_p])) $$ Hpix
  sl_exec_parts
  -- the second chunk's sums
  ihave Heb2 := (join1_e_of (F := F) d L restA_e _ _) $$ [Heb HE1_dst]
  · isplitl [Heb] <;> iassumption
  ihave Hpb2 := (join1_p_of (F := F) d L restA_p _ _) $$ [Hpb HP1_dst]
  · isplitl [Hpb] <;> iassumption
  ihave Hob2 := (join1_o_of (F := F) d L restA_o _ _) $$ [Hob HO1_src]
  · isplitl [Hob] <;> iassumption
  iapply (Add.addLoop_sub1 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Heix3 := (Entails.of_eq (respell_e_0_128 (F := F) d L e)) $$ Heix2
  ihave Hpix3 := (Entails.of_eq (respell_p_0_128 (F := F) d L p)) $$ Hpix2
  sl_exec_parts
  -- the third chunk's sums
  ihave Heb2 := (join0_e_of (F := F) d L restB_e _ _) $$ [Heb Heb_2]
  · isplitl [Heb] <;> iassumption
  ihave Hpb2 := (join0_p_of (F := F) d L restB_p _ _) $$ [Hpb Hpb_2]
  · isplitl [Hpb] <;> iassumption
  ihave Hob2 := (join0_o_of (F := F) d L restB_o _ _) $$ [Hob Hob_2]
  · isplitl [Hob] <;> iassumption
  iapply (Add.addLoop_sub2 (F := F) d L v2 k _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  -- slot 0's leftovers put aside; the id batch's cell in the program's spelling
  ihave HeixA := (aside_intro (F := F) _) $$ Heix3
  ihave HpixA := (aside_intro (F := F) _) $$ Hpix3
  have hs38 : isemAt (k1_off38 k) (k1_off38_inb k hcond7) = (9 : DmaSem sig) := (isemAt_congr e38 _ inb_S2_S1_1).trans isemAt_one
  have hSV1 : SlotVals1 A d L
      ((slot1 eixV).view.writes (Elt F) e' [⟨Rect.whole S512, idsPayAt d L eidV (A.eid d) (idsOff L (k.val + 1)) (idsInb L (k.val + 1) hk1')⟩])
      ((slot1 pixV).view.writes (Elt F) p' [⟨Rect.whole S512, idsPayAt d L pidV (A.pid d) (idsOff L (k.val + 1)) (idsInb L (k.val + 1) hk1')⟩])
      (k.val + 1) hk1' := slotVals1_after A d L e' p' k.val hk1' _ _ ⟨rfl, rfl⟩
  have hinE10 : ∀ x, ((lst eixV (k1_off39 k) (k1_off39_inb k hcond7)).view.read (Elt F)
      ((slot1 eixV).view.writes (Elt F) e' [⟨Rect.whole S512, idsPayAt d L eidV (A.eid d) (idsOff L (k.val + 1)) (idsInb L (k.val + 1) hk1')⟩]) x).toNat
        < S100000x128.size gathers_S100000x128_S128x128.axis :=
    fun x => by rw [lst_read_congr d L eixV e39 _ linb_1_0]; exact hin_e_1_0 A d L hE _ _ (k.val + 1) hk1' hSV1 x
  have hinP10 : ∀ x, ((lst pixV (k1_off39 k) (k1_off39_inb k hcond7)).view.read (Elt F)
      ((slot1 pixV).view.writes (Elt F) p' [⟨Rect.whole S512, idsPayAt d L pidV (A.pid d) (idsOff L (k.val + 1)) (idsInb L (k.val + 1) hk1')⟩]) x).toNat
        < S1000x128.size gathers_S1000x128_S128x128.axis :=
    fun x => by rw [lst_read_congr d L pixV e39 _ linb_1_0]; exact hin_p_1_0 A d L hP _ _ (k.val + 1) hk1' hSV1 x
  have hinE11 : ∀ x, ((lst eixV (k1_off53 k) (k1_off53_inb k hcond10)).view.read (Elt F)
      ((slot1 eixV).view.writes (Elt F) e' [⟨Rect.whole S512, idsPayAt d L eidV (A.eid d) (idsOff L (k.val + 1)) (idsInb L (k.val + 1) hk1')⟩]) x).toNat
        < S100000x128.size gathers_S100000x128_S128x128.axis :=
    fun x => by rw [lst_read_congr d L eixV e53 _ linb_1_128]; exact hin_e_1_128 A d L hE _ _ (k.val + 1) hk1' hSV1 x
  have hinP11 : ∀ x, ((lst pixV (k1_off53 k) (k1_off53_inb k hcond10)).view.read (Elt F)
      ((slot1 pixV).view.writes (Elt F) p' [⟨Rect.whole S512, idsPayAt d L pidV (A.pid d) (idsOff L (k.val + 1)) (idsInb L (k.val + 1) hk1')⟩]) x).toNat
        < S1000x128.size gathers_S1000x128_S128x128.axis :=
    fun x => by rw [lst_read_congr d L pixV e53 _ linb_1_128]; exact hin_p_1_128 A d L hP _ _ (k.val + 1) hk1' hSV1 x
  ihave Hbat2 := (Entails.of_eq (show (Transfers.Batched countersEmb (thr d L) (SemLoc.dma (9 : DmaSem sig)) (default : HIx 1) 16384 2 _ 0 : sProp 𝕄)
      = Transfers.Batched countersEmb (thr d L) (SemLoc.dma (isemAt (k1_off38 k) (k1_off38_inb k hcond7))) (default : HIx 1) 16384 2 _ 0 from by rw [hs38])) $$ Hbat
  sl_exec_parts
  -- slot 1 as delivered, seen as the id scratch less slot 0
  ihave Heix4 := (Entails.of_eq (show (((slot1 eixV).view.loc (thr d L) ↦[(slot1 eixV).view.set]{fullShare} _ : sProp 𝕄))
      = ((eixV).view.loc (thr d L) ↦[Finset.univ \ (slot0 eixV).view.set]{fullShare} _) from by rw [slot1_eq_compl_e])) $$ Hbat2_dst0
  ihave Hpix4 := (Entails.of_eq (show (((slot1 pixV).view.loc (thr d L) ↦[(slot1 pixV).view.set]{fullShare} _ : sProp 𝕄))
      = ((pixV).view.loc (thr d L) ↦[Finset.univ \ (slot0 pixV).view.set]{fullShare} _) from by rw [slot1_eq_compl_p])) $$ Hbat2_dst1
  sl_exec_parts
  -- slot 0 whole again for the next ids; slot 1's holdings put aside meanwhile
  ihave HeixU := (aside_elim (F := F) _) $$ HeixA
  ihave HeixU2 := (Entails.of_eq (show (((eixV).view.loc (thr d L) ↦[((Finset.univ \ (slot1 eixV).view.set) \ (lst eixV ![0, 0] linb_0_0).view.set) \ (lst eixV (k1_off25 k) (k1_off25_inb k hcond5)).view.set]{fullShare} e : sProp 𝕄))
      = ((eixV).view.loc (thr d L) ↦[((Finset.univ \ (slot1 eixV).view.set) \ (lst eixV ![0, 0] linb_0_0).view.set) \ (lst eixV ![0, 384] linb_0_384).view.set]{fullShare} e) from by
        rw [lst_set_congr eixV e25 _ linb_0_384])) $$ HeixU
  ihave Heix3L := (Entails.of_eq (show (((eixV).view.loc (thr d L) ↦[(lst eixV (k1_off25 k) (k1_off25_inb k hcond5)).view.set]{fullShare} e : sProp 𝕄))
      = ((eixV).view.loc (thr d L) ↦[(lst eixV ![0, 384] linb_0_384).view.set]{fullShare} e) from by
        rw [lst_set_congr eixV e25 _ linb_0_384])) $$ Heix3
  ihave Hslot0e := (slot0_assemble_e (F := F) d L e) $$ [HeixU2 HE0_dst_and Heix3L]
  · isplitl [HeixU2]; · iexact HeixU2
    isplitl [HE0_dst_and]; · iexact HE0_dst_and
    iexact Heix3L
  ihave HpixU := (aside_elim (F := F) _) $$ HpixA
  ihave HpixU2 := (Entails.of_eq (show (((pixV).view.loc (thr d L) ↦[((Finset.univ \ (slot1 pixV).view.set) \ (lst pixV ![0, 0] linb_0_0).view.set) \ (lst pixV (k1_off25 k) (k1_off25_inb k hcond5)).view.set]{fullShare} p : sProp 𝕄))
      = ((pixV).view.loc (thr d L) ↦[((Finset.univ \ (slot1 pixV).view.set) \ (lst pixV ![0, 0] linb_0_0).view.set) \ (lst pixV ![0, 384] linb_0_384).view.set]{fullShare} p) from by
        rw [lst_set_congr pixV e25 _ linb_0_384])) $$ HpixU
  ihave Hpix3L := (Entails.of_eq (show (((pixV).view.loc (thr d L) ↦[(lst pixV (k1_off25 k) (k1_off25_inb k hcond5)).view.set]{fullShare} p : sProp 𝕄))
      = ((pixV).view.loc (thr d L) ↦[(lst pixV ![0, 384] linb_0_384).view.set]{fullShare} p) from by
        rw [lst_set_congr pixV e25 _ linb_0_384])) $$ Hpix3
  ihave Hslot0p := (slot0_assemble_p (F := F) d L p) $$ [HpixU2 HP0_dst_and Hpix3L]
  · isplitl [HpixU2]; · iexact HpixU2
    isplitl [HP0_dst_and]; · iexact HP0_dst_and
    iexact Hpix3L
  ihave Hslot0e' := (Entails.of_eq (slotPts_congr (F := F) d L eixV e42.symm inb_S2x512_S1x512_0_0 (k1_off42_inb k hcond9) e)) $$ Hslot0e
  ihave Hslot0p' := (Entails.of_eq (slotPts_congr (F := F) d L pixV e42.symm inb_S2x512_S1x512_0_0 (k1_off42_inb k hcond9) p)) $$ Hslot0p
  ihave Heix4A := (aside_intro (F := F) _) $$ Heix4
  ihave Hpix4A := (aside_intro (F := F) _) $$ Hpix4
  ihave Hs8' := (Entails.of_eq (show ((semVal (cellOf d L 8) 0 : sProp 𝕄)) = semVal (thr d L, SemLoc.dma (isemAt (k1_off44 k) (k1_off44_inb k hcond9))) 0 from by rw [hs44])) $$ Hs8
  sl_exec_parts
  -- the fourth chunk's sums
  ihave Heix4 := (aside_elim (F := F) _) $$ Heix4A
  ihave Hpix4 := (aside_elim (F := F) _) $$ Hpix4A
  ihave Heb2 := (join1_e_of (F := F) d L restA_e _ _) $$ [Heb Heb_2]
  · isplitl [Heb] <;> iassumption
  ihave Hpb2 := (join1_p_of (F := F) d L restA_p _ _) $$ [Hpb Hpb_2]
  · isplitl [Hpb] <;> iassumption
  ihave Hob2 := (join1_o_of (F := F) d L restA_o _ _) $$ [Hob Hob_2]
  · isplitl [Hob] <;> iassumption
  iapply (Add.addLoop_sub3 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  sl_exec_parts
  -- the trip's end: the pieces are the next trip's
  sl_step
  iintro Hrest
  have hL1 := listsOK1_of_slotVals A d L hE hP _ _ (k.val + 1) hk1' hSV1
  iapply (close_even A d L q1 q2 r1 r2 qi O W k.val hk0 hk1 hk1' hk2' hc0 hc1 hc2 hc3 hcm2 hcm1 _ _ e p _ _ _ _ _ _ _ _ _ hL1 hSV1 _ ?hW)
  swap
  unfold evenPost
  isplitr; · iexact Hmw
  isplitl [HE0]
  · iapply (ev_flightE_off A d L 10 (hlf0 ebV) e39 (k1_off39_inb k hcond7) linb_1_0 q1 _ _ hinE10 hL1.1); iexact HE0
  isplitl [HE1]
  · iapply (ev_flightE_off A d L 11 (hlf1 ebV) e53 (k1_off53_inb k hcond10) linb_1_128 q2 _ _ hinE11 hL1.2.1); iexact HE1
  isplitl [HP0]
  · iapply (ev_flightP_off A d L 12 (hlf0 pbV) e39 (k1_off39_inb k hcond7) linb_1_0 r1 _ _ hinP10 hL1.2.2.1); iexact HP0
  isplitl [HP1]
  · iapply (ev_flightP_off A d L 13 (hlf1 pbV) e53 (k1_off53_inb k hcond10) linb_1_128 r2 _ _ hinP11 hL1.2.2.2); iexact HP1
  isplitl [Hte1]; · iexact Hte1
  isplitl [Hte2]; · iexact Hte2
  isplitl [Hsh1]; · iexact Hsh1
  isplitl [Hsh2]; · iexact Hsh2
  isplitl [Heix4]
  · rw [slot1_eq_compl_e, ← lst_set_congr eixV e39 (k1_off39_inb k hcond7) linb_1_0, ← lst_set_congr eixV e53 (k1_off53_inb k hcond10) linb_1_128]
    iexact Heix4
  isplitl [Hpix4]
  · rw [slot1_eq_compl_p, ← lst_set_congr pixV e39 (k1_off39_inb k hcond7) linb_1_0, ← lst_set_congr pixV e53 (k1_off53_inb k hcond10) linb_1_128]
    iexact Hpix4
  isplitl [Heb]; · rw [← restB_e]; iexact Heb
  isplitl [Hpb]; · rw [← restB_p]; iexact Hpb
  isplitl [Hs8']
  · rw [← idsPayAt_congr d L eidV (A.eid d) (ev_off43 L k) (k1_off43_inb L k hcond9) (idsInb L (k.val + 1 + 1) hk2'),
      ← idsPayAt_congr d L pidV (A.pid d) (ev_off43 L k) (k1_off43_inb L k hcond9) (idsInb L (k.val + 1 + 1) hk2'),
      ← ev_batch_congr A d L qi hs44 e42 (k1_off42_inb k hcond9) inb_S2x512_S1x512_0_0 (ev_off43 L k) (k1_off43_inb L k hcond9) (idsInb L (k.val + 1 + 1) hk2')]
    iexact Hs8'
  isplitl [Heidr Hpidr]
  · rw [← idsRest_congr A d L qi (ev_off43 L k) (k1_off43_inb L k hcond9) (idsInb L (k.val + 1 + 1) hk2')]
    unfold idsRest
    isplitl [Heidr]; · iexact Heidr
    iexact Hpidr
  isplitl [Hbat2]
  · iapply (Entails.of_eq (show (semVal (thr d L, SemLoc.dma (isemAt (k1_off38 k) (k1_off38_inb k hcond7))) 0 : sProp 𝕄) = semVal (cellOf d L 9) 0 from by rw [hs38]))
    iexact Hbat2
  isplitl [HO0_dst]; · rw [chunkPt_eq]; iexact HO0_dst
  isplitl [HO1_dst]; · rw [chunkPt_eq]; iexact HO1_dst
  isplitl [Hc0]
  · iapply (Entails.of_eq (chunk_delivered0 A d L (4 * k.val) hc0 (k1_off13 L k 0#32) (k1_off13_inb L k 0) (ev_off13 L k 0) _ _ _ _ _
        ((lst eixV ![0, 0] linb_0_0).view.read (Elt F) e) ((lst pixV ![0, 0] linb_0_0).view.read (Elt F) p) hL.1 hL.2.2.1 rfl
        ((read_piecewise_hlf0 d L ebV _ _).trans (read_write_hlf0 d L ebV _ _)) ((read_piecewise_hlf0 d L pbV _ _).trans (read_write_hlf0 d L pbV _ _))
        (ids_e_0_0 A d L e p k.val k.isLt hSV0) (ids_p_0_0 A d L e p k.val k.isLt hSV0)))
    iexact Hc0
  isplitl [Hc1]
  · iapply (Entails.of_eq (chunk_delivered1 A d L (4 * k.val + 1) hc1 (k1_off13 L k 1#32) (k1_off13_inb L k 1) (ev_off13 L k 1) _ _ _ _ _
        ((lst eixV ![0, 128] linb_0_128).view.read (Elt F) e) ((lst pixV ![0, 128] linb_0_128).view.read (Elt F) p) hL.2.1 hL.2.2.2 rfl
        ((read_piecewise_hlf1 d L ebV _ _).trans (read_write_hlf1 d L ebV _ _)) ((read_piecewise_hlf1 d L pbV _ _).trans (read_write_hlf1 d L pbV _ _))
        (ids_e_0_128 A d L e p k.val k.isLt hSV0) (ids_p_0_128 A d L e p k.val k.isLt hSV0)))
    iexact Hc1
  isplitl [HO0]
  · iapply (Entails.of_eq (flight_delivered0 A d L 14 (4 * k.val + 2) hc2 (k1_off13 L k 2#32) (k1_off13_inb L k 2) (ev_off13 L k 2) _ _ _ _ _
        ((lst eixV (k1_off14 k) (k1_off14_inb k hcond3)).view.read (Elt F) e) ((lst pixV (k1_off14 k) (k1_off14_inb k hcond3)).view.read (Elt F) p) hinE2 hinP2 rfl
        ((read_piecewise_hlf0 d L ebV _ _).trans (read_write_hlf0 d L ebV _ _)) ((read_piecewise_hlf0 d L pbV _ _).trans (read_write_hlf0 d L pbV _ _))
        (fun x => by rw [lst_read_congr d L eixV e14 _ linb_0_256]; exact ids_e_0_256 A d L e p k.val k.isLt hSV0 x)
        (fun x => by rw [lst_read_congr d L pixV e14 _ linb_0_256]; exact ids_p_0_256 A d L e p k.val k.isLt hSV0 x)))
    iexact HO0
  isplitl [HO1]
  · iapply (Entails.of_eq (flight_delivered1 A d L 15 (4 * k.val + 3) hc3 (k1_off13 L k 3#32) (k1_off13_inb L k 3) (ev_off13 L k 3) _ _ _ _ _
        ((lst eixV (k1_off25 k) (k1_off25_inb k hcond5)).view.read (Elt F) e) ((lst pixV (k1_off25 k) (k1_off25_inb k hcond5)).view.read (Elt F) p) hinE3 hinP3 rfl
        ((read_piecewise_hlf1 d L ebV _ _).trans (read_write_hlf1 d L ebV _ _)) ((read_piecewise_hlf1 d L pbV _ _).trans (read_write_hlf1 d L pbV _ _))
        (fun x => by rw [lst_read_congr d L eixV e25 _ linb_0_384]; exact ids_e_0_384 A d L e p k.val k.isLt hSV0 x)
        (fun x => by rw [lst_read_congr d L pixV e25 _ linb_0_384]; exact ids_p_0_384 A d L e p k.val k.isLt hSV0 x)))
    iexact HO1
  isplitl [Hob]; · rw [← restB_o]; iexact Hob
  isplitl [Hrest]; · iexact Hrest
  iexact HO
  case hW => repeat (first | exact hW0 | refine ev_W_ins _ rfl ?_)

omit [FloatOps F] in
/-- A chunk window of the result held whole: through the program's offset or as chunk `n`. -/
theorem ev_chunk_congr (n : ℕ) (hn : n < 200) (off : Fin 2 → ℕ) (hoff : ∀ a, off a + S128x128.size a ≤ S819200x128.size a)
    (eoff : off = chunkOff L n) (f : Buf (Elt F) ((outV).view.loc (thr d L))) :
    chunkPt d L n hn f = chunkWin d L off hoff f := by
  subst eoff; rfl

set_option maxHeartbeats 4000000 in
/-- An even trip 2 ≤ k ≤ 46 of the tile's loop. -/
theorem trip_even (hE : ∀ j, (A.eid d j).toNat < 100000) (hP : ∀ j, (A.pid d j).toNat < 1000) (v2 : BitVec 32)
    (O : CellTallies nD τ sig (HIx 1)) (W : Waits sig (HIx 1))
    (k : ℕ) (hk : k < 50) (hk0 : k % 2 = 0) (hk1 : 1 ≤ k) (hk48 : k < 48) :
    inv A d L q1 q2 r1 r2 qi O W k PUnit.unit
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 ⟨k, hk⟩ ())
          (fun _ => inv A d L q1 q2 r1 r2 qi O W (k + 1) PUnit.unit) := by
  have hk1' : k + 1 < 50 := by omega
  have hk2' : k + 1 + 1 < 50 := by omega
  have hc0 : 4 * k < 200 := by omega
  have hc1 : 4 * k + 1 < 200 := by omega
  have hc2 : 4 * k + 2 < 200 := by omega
  have hc3 : 4 * k + 3 < 200 := by omega
  have hcm2 : 4 * k - 2 < 200 := by omega
  have hcm1 : 4 * k - 1 < 200 := by omega
  refine (open_even A d L q1 q2 r1 r2 qi O W k hk0 hk1 hk hk1' hc0 hc1 hc2 hc3 hcm2 hcm1).trans ?_
  iintro ⟨%e, %p, %e', %p', %fe0, %fe1, %fp0, %fp1, %fo0, %fo1, %feR, %fpR, %foR, %hL, %W', %hpure, Hpre⟩
  unfold evenPre
  icases Hpre with ⟨Hmw, HE0, HE1, HP0, HP1, Hte1, Hte2, Hsh1, Hsh2, Heix, Hpix, Heb, Hpb, Hbat, Hidr, Hs8, Hc0, Hc1, Hc2, Hc3, HO0, HO1, Hob, Hrest, HO⟩
  iapply (wp_wand_r frame (wpE (defs₀ (F := F)) 𝒱₀ (thr d L) none) Set.univ)
  isplitr [Hrest]
  · iapply (trip_even_core A d L q1 q2 r1 r2 qi v2 ⟨k, hk⟩ hk0 hk1 hk48 hk1' hcm2 hcm1 O W W' hpure.2 e p e' p' fe0 fe1 fp0 fp1 fo0 fo1 feR fpR foR hL.down hpure.1 hE hP hk2' hc0 hc1 hc2 hc3)
    isplitl [Hmw]; · iexact Hmw
    isplitl [HE0]; · iexact HE0
    isplitl [HE1]; · iexact HE1
    isplitl [HP0]; · iexact HP0
    isplitl [HP1]; · iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexact Heb
    isplitl [Hpb]; · iexact Hpb
    isplitl [Hbat]; · iexact Hbat
    isplitl [Hidr]; · iexact Hidr
    isplitl [Hs8]; · iexact Hs8
    isplitl [Hc0]
    · iapply (Entails.of_eq (ev_chunk_congr d L (4 * k) hc0 (k1_off13 L ⟨k, hk⟩ 0#32) (k1_off13_inb L ⟨k, hk⟩ 0) (ev_off13 L ⟨k, hk⟩ 0) _)); iexact Hc0
    isplitl [Hc1]
    · iapply (Entails.of_eq (ev_chunk_congr d L (4 * k + 1) hc1 (k1_off13 L ⟨k, hk⟩ 1#32) (k1_off13_inb L ⟨k, hk⟩ 1) (ev_off13 L ⟨k, hk⟩ 1) _)); iexact Hc1
    isplitl [Hc2]
    · iapply (Entails.of_eq (ev_chunk_congr d L (4 * k + 2) hc2 (k1_off13 L ⟨k, hk⟩ 2#32) (k1_off13_inb L ⟨k, hk⟩ 2) (ev_off13 L ⟨k, hk⟩ 2) _)); iexact Hc2
    isplitl [Hc3]
    · iapply (Entails.of_eq (ev_chunk_congr d L (4 * k + 3) hc3 (k1_off13 L ⟨k, hk⟩ 3#32) (k1_off13_inb L ⟨k, hk⟩ 3) (ev_off13 L ⟨k, hk⟩ 3) _)); iexact Hc3
    isplitl [HO0]; · iexact HO0
    isplitl [HO1]; · iexact HO1
    isplitl [Hob]; · iexact Hob
    iexact HO
  · iintro %_ Hw
    iapply Hw
    iexact Hrest

end Cert.KernelIdeal.Run.Sc

end
-- ==== Proof.ScTripFoldEdge.lean ====
/-
  The two ends of the loop's edge trips: the first (nothing in flight out of the sum buffer yet), the last even one (it
  fetches no further ids) and the last (it starts no further gathers).
-/
import proofs.«204385_g66649302499670_cont_9to1c4b_43_34_alg».proof.Proof.ScTripFold

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F] (A : Vals F) (d : Dev nD) (L : grid1.Coords)

variable (q1 q2 r1 r2 qi : PosShare TreeShare)

/-! ## The first trip -/

/-- What the first trip's run starts from: as an even trip's, with nothing in flight out of the sum buffer yet. -/
def zeroPre (O : CellTallies nD τ sig (HIx 1)) (h01 : 0 + 1 < 50) (h0 : 0 < 200) (h1 : 1 < 200) (h2 : 2 < 200) (h3 : 3 < 200) (e : Buf (Elt F) ((eixV).view.loc (thr d L))) (p : Buf (Elt F) ((pixV).view.loc (thr d L))) (e' : Buf (Elt F) ((eixV).view.loc (thr d L))) (p' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (feR : Buf (Elt F) ((ebV).view.loc (thr d L))) (fpR : Buf (Elt F) ((pbV).view.loc (thr d L))) (foW : Buf (Elt F) ((obV).view.loc (thr d L))) (hL : ListsOK0 d L e p) (W' : Waits sig (HIx 1)) : sProp 𝕄 :=
  iprop(Transfers.MayWaits (thr d L) (default : HIx 1) O
    ∗ flightE A d L 10 (hlf0 ebV) (lst eixV ![0, 0] linb_0_0) q1 fe0 e hL.1
    ∗ flightE A d L 11 (hlf1 ebV) (lst eixV ![0, 128] linb_0_128) q2 fe1 e hL.2.1
    ∗ flightP A d L 12 (hlf0 pbV) (lst pixV ![0, 0] linb_0_0) r1 fp0 p hL.2.2.1
    ∗ flightP A d L 13 (hlf1 pbV) (lst pixV ![0, 128] linb_0_128) r2 fp1 p hL.2.2.2
    ∗ teRest A d L q1
    ∗ teRest A d L q2
    ∗ shRest A d L r1
    ∗ shRest A d L r2
    ∗ ((slot0 eixV).view.loc (thr d L) ↦[((slot0 eixV).view.set \ (lst eixV ![0, 0] linb_0_0).view.set) \ (lst eixV ![0, 128] linb_0_128).view.set]{fullShare} e)
    ∗ ((slot0 pixV).view.loc (thr d L) ↦[((slot0 pixV).view.set \ (lst pixV ![0, 0] linb_0_0).view.set) \ (lst pixV ![0, 128] linb_0_128).view.set]{fullShare} p)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ idsBatch A d L (9 : DmaSem sig) (slot1 eixV) (slot1 pixV) qi (idsOff L (0 + 1)) (idsInb L (0 + 1) h01) e' p'
        (idsPayAt d L eidV (A.eid d) (idsOff L (0 + 1)) (idsInb L (0 + 1) h01)) (idsPayAt d L pidV (A.pid d) (idsOff L (0 + 1)) (idsInb L (0 + 1) h01))
    ∗ idsRest A d L qi (idsOff L (0 + 1)) (idsInb L (0 + 1) h01)
    ∗ semVal (cellOf d L 8) 0
    ∗ chunkPt d L 0 h0 (A.out0 d)
    ∗ chunkPt d L 1 h1 (A.out0 d)
    ∗ chunkPt d L 2 h2 (A.out0 d)
    ∗ chunkPt d L 3 h3 (A.out0 d)
    ∗ ((obV).view.loc (thr d L) ↦{fullShare} foW)
    ∗ semVal (cellOf d L 14) 0
    ∗ semVal (cellOf d L 15) 0
    ∗ rest200 A d L 0
    ∗ owes (thr d L) O W')

set_option maxHeartbeats 1000000 in
/-- OPENING the first trip. -/
theorem open_zero (O : CellTallies nD τ sig (HIx 1)) (W : Waits sig (HIx 1)) (h050 : 0 < 50) (h01 : 0 + 1 < 50) (h0 : 0 < 200) (h1 : 1 < 200) (h2 : 2 < 200) (h3 : 3 < 200) :
    inv A d L q1 q2 r1 r2 qi O W 0 PUnit.unit
      ⊢ iprop(∃ (e : Buf (Elt F) ((eixV).view.loc (thr d L))) (p : Buf (Elt F) ((pixV).view.loc (thr d L))) (e' : Buf (Elt F) ((eixV).view.loc (thr d L))) (p' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (feR : Buf (Elt F) ((ebV).view.loc (thr d L))) (fpR : Buf (Elt F) ((pbV).view.loc (thr d L))) (foW : Buf (Elt F) ((obV).view.loc (thr d L)))
          (hL : PLift (ListsOK0 d L e p)) (W' : Waits sig (HIx 1)),
          ⌜SlotVals0 A d L e p 0 h050 ∧ ∀ x ∈ W', x ∈ W ∨ x.2 = none⌝
          ∗ zeroPre A d L q1 q2 r1 r2 qi O h01 h0 h1 h2 h3 e p e' p' fe0 fe1 fp0 fp1 feR fpR foW hL.down W') := by
  unfold inv gatherPart idsPart
  rw [if_pos (show (0 : ℕ) % 2 = 0 from rfl), if_pos (show (0 : ℕ) % 2 = 0 from rfl)]
  unfold gatherPart0 idsPart1
  rw [dif_pos h050, dif_pos h01, outPart_chunks, dif_neg (show ¬ (1 ≤ 0 ∧ 0 ≤ 50) by decide), chunks_open0]
  unfold zeroPre
  iintro ⟨#Hmw, ⟨%e, %p, %hL, %hSV, ⟨%fe0, HE0⟩, ⟨%fe1, HE1⟩, ⟨%fp0, HP0⟩, ⟨%fp1, HP1⟩, Hte1, Hte2, Hsh1, Hsh2, Heix, Hpix, ⟨%feR, Heb⟩, ⟨%fpR, Hpb⟩⟩,
    ⟨%e', %p', Hbat, Hrest, Hsid⟩, ⟨⟨Hr200, Hc0, Hc1, Hc2, Hc3⟩, ⟨%foW, Hob⟩, Hs14, Hs15⟩, ⟨%W', %hW', HO⟩⟩
  iexists e, p, e', p', fe0, fe1, fp0, fp1, feR, fpR, foW, hL, W'
  isplitr; · ipureintro; exact ⟨hSV, hW'⟩
  isplitr; · iexact Hmw
  isplitl [HE0]; · iexact HE0
  isplitl [HE1]; · iexact HE1
  isplitl [HP0]; · iexact HP0
  isplitl [HP1]; · iexact HP1
  isplitl [Hte1]; · iexact Hte1
  isplitl [Hte2]; · iexact Hte2
  isplitl [Hsh1]; · iexact Hsh1
  isplitl [Hsh2]; · iexact Hsh2
  isplitl [Heix]; · iexact Heix
  isplitl [Hpix]; · iexact Hpix
  isplitl [Heb]; · iexact Heb
  isplitl [Hpb]; · iexact Hpb
  isplitl [Hbat]; · iexact Hbat
  isplitl [Hrest]; · iexact Hrest
  isplitl [Hsid]; · iexact Hsid
  isplitl [Hc0]; · iexact Hc0
  isplitl [Hc1]; · iexact Hc1
  isplitl [Hc2]; · iexact Hc2
  isplitl [Hc3]; · iexact Hc3
  isplitl [Hob]; · iexact Hob
  isplitl [Hs14]; · iexact Hs14
  isplitl [Hs15]; · iexact Hs15
  isplitl [Hr200]; · iexact Hr200
  iexact HO

/-- What the first trip's run ends with: as an even trip's, without the two chunks a later trip's drains hand back. -/
def zeroPost (O : CellTallies nD τ sig (HIx 1)) (h02 : 0 + 1 + 1 < 50) (h0 : 0 < 200) (h1 : 1 < 200) (h2 : 2 < 200) (h3 : 3 < 200) (e1 : Buf (Elt F) ((eixV).view.loc (thr d L))) (p1 : Buf (Elt F) ((pixV).view.loc (thr d L))) (e'' : Buf (Elt F) ((eixV).view.loc (thr d L))) (p'' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L))) (hL : ListsOK1 d L e1 p1) (W' : Waits sig (HIx 1)) : sProp 𝕄 :=
  iprop(Transfers.MayWaits (thr d L) (default : HIx 1) O
    ∗ flightE A d L 10 (hlf0 ebV) (lst eixV ![1, 0] linb_1_0) q1 fe0 e1 hL.1
    ∗ flightE A d L 11 (hlf1 ebV) (lst eixV ![1, 128] linb_1_128) q2 fe1 e1 hL.2.1
    ∗ flightP A d L 12 (hlf0 pbV) (lst pixV ![1, 0] linb_1_0) r1 fp0 p1 hL.2.2.1
    ∗ flightP A d L 13 (hlf1 pbV) (lst pixV ![1, 128] linb_1_128) r2 fp1 p1 hL.2.2.2
    ∗ teRest A d L q1
    ∗ teRest A d L q2
    ∗ shRest A d L r1
    ∗ shRest A d L r2
    ∗ ((slot1 eixV).view.loc (thr d L) ↦[((slot1 eixV).view.set \ (lst eixV ![1, 0] linb_1_0).view.set) \ (lst eixV ![1, 128] linb_1_128).view.set]{fullShare} e1)
    ∗ ((slot1 pixV).view.loc (thr d L) ↦[((slot1 pixV).view.set \ (lst pixV ![1, 0] linb_1_0).view.set) \ (lst pixV ![1, 128] linb_1_128).view.set]{fullShare} p1)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ idsBatch A d L (8 : DmaSem sig) (slot0 eixV) (slot0 pixV) qi (idsOff L (0 + 1 + 1)) (idsInb L (0 + 1 + 1) h02) e'' p''
        (idsPayAt d L eidV (A.eid d) (idsOff L (0 + 1 + 1)) (idsInb L (0 + 1 + 1) h02)) (idsPayAt d L pidV (A.pid d) (idsOff L (0 + 1 + 1)) (idsInb L (0 + 1 + 1) h02))
    ∗ idsRest A d L qi (idsOff L (0 + 1 + 1)) (idsInb L (0 + 1 + 1) h02)
    ∗ semVal (cellOf d L 9) 0
    ∗ chunkPt d L 0 h0 (outFin A d)
    ∗ chunkPt d L 1 h1 (outFin A d)
    ∗ flightO A d L 14 (hlf0 obV) 2 h2 fo0
    ∗ flightO A d L 15 (hlf1 obV) 3 h3 fo1
    ∗ ((obV).view.loc (thr d L) ↦[(Finset.univ \ (hlf0 obV).view.set) \ (hlf1 obV).view.set]{fullShare} foR)
    ∗ rest200 A d L 0
    ∗ owes (thr d L) O W')

set_option maxHeartbeats 1000000 in
/-- CLOSING the first trip. -/
theorem close_zero (O : CellTallies nD τ sig (HIx 1)) (W : Waits sig (HIx 1)) (h150 : 1 < 50) (h02 : 0 + 1 + 1 < 50) (h0 : 0 < 200) (h1 : 1 < 200) (h2 : 2 < 200) (h3 : 3 < 200)
    (e1 : Buf (Elt F) ((eixV).view.loc (thr d L))) (p1 : Buf (Elt F) ((pixV).view.loc (thr d L))) (e'' : Buf (Elt F) ((eixV).view.loc (thr d L))) (p'' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L)))
    (hL : ListsOK1 d L e1 p1) (hSV : SlotVals1 A d L e1 p1 1 h150) (W' : Waits sig (HIx 1)) (hW' : ∀ x ∈ W', x ∈ W ∨ x.2 = none) :
    zeroPost A d L q1 q2 r1 r2 qi O h02 h0 h1 h2 h3 e1 p1 e'' p'' fe0 fe1 fp0 fp1 fo0 fo1 feR fpR foR hL W'
      ⊢ inv A d L q1 q2 r1 r2 qi O W 1 PUnit.unit := by
  unfold inv gatherPart idsPart
  rw [if_neg (show ¬ (1 : ℕ) % 2 = 0 by decide), if_neg (show ¬ (1 : ℕ) % 2 = 0 by decide)]
  unfold gatherPart1 idsPart0
  rw [dif_pos h150, dif_pos (show 1 + 1 < 50 from h02), outPart_chunks, dif_pos (show 1 ≤ 1 ∧ 1 ≤ 50 by decide), chunks_close0]
  unfold zeroPost
  iintro ⟨#Hmw, HE0, HE1, HP0, HP1, Hte1, Hte2, Hsh1, Hsh2, Heix, Hpix, Heb, Hpb, Hbat, Hrest, Hsid, Hc0, Hc1, HO0, HO1, Hob, Hr200, HO⟩
  isplitr; · iexact Hmw
  isplitl [HE0 HE1 HP0 HP1 Hte1 Hte2 Hsh1 Hsh2 Heix Hpix Heb Hpb]
  · iexists e1, p1, ⟨hL⟩
    isplitr; · ipureintro; exact hSV
    isplitl [HE0]; · iexists fe0; iexact HE0
    isplitl [HE1]; · iexists fe1; iexact HE1
    isplitl [HP0]; · iexists fp0; iexact HP0
    isplitl [HP1]; · iexists fp1; iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexists feR; iexact Heb
    iexists fpR; iexact Hpb
  isplitl [Hbat Hrest Hsid]
  · iexists e'', p''
    isplitl [Hbat]; · iexact Hbat
    isplitl [Hrest]; · iexact Hrest
    iexact Hsid
  isplitl [Hc0 Hc1 HO0 HO1 Hob Hr200]
  · isplitl [Hc0 Hc1 Hr200]
    · isplitl [Hr200]; · iexact Hr200
      isplitl [Hc0]; · iexact Hc0
      iexact Hc1
    isplitl [HO0]; · iexists fo0; iexact HO0
    isplitl [HO1]; · iexists fo1; iexact HO1
    iexists foR; iexact Hob
  iexists W'
  isplitr; · ipureintro; exact hW'
  iexact HO

/-! ## The last even trip: no further ids are fetched -/

/-- What the last even trip's run ends with: as an even trip's, with both id arrays' shares whole, slot 0 of the id
    scratches whole and both id cells at rest. -/
def lastEvenPost (O : CellTallies nD τ sig (HIx 1)) (k : ℕ) (hc0 : 4 * k < 200) (hc1 : 4 * k + 1 < 200) (hc2 : 4 * k + 2 < 200) (hc3 : 4 * k + 3 < 200) (hcm2 : 4 * k - 2 < 200) (hcm1 : 4 * k - 1 < 200)
    (e1 : Buf (Elt F) ((eixV).view.loc (thr d L))) (p1 : Buf (Elt F) ((pixV).view.loc (thr d L))) (e'' : Buf (Elt F) ((eixV).view.loc (thr d L))) (p'' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L))) (hL : ListsOK1 d L e1 p1) (W' : Waits sig (HIx 1)) : sProp 𝕄 :=
  iprop(Transfers.MayWaits (thr d L) (default : HIx 1) O
    ∗ flightE A d L 10 (hlf0 ebV) (lst eixV ![1, 0] linb_1_0) q1 fe0 e1 hL.1
    ∗ flightE A d L 11 (hlf1 ebV) (lst eixV ![1, 128] linb_1_128) q2 fe1 e1 hL.2.1
    ∗ flightP A d L 12 (hlf0 pbV) (lst pixV ![1, 0] linb_1_0) r1 fp0 p1 hL.2.2.1
    ∗ flightP A d L 13 (hlf1 pbV) (lst pixV ![1, 128] linb_1_128) r2 fp1 p1 hL.2.2.2
    ∗ teRest A d L q1
    ∗ teRest A d L q2
    ∗ shRest A d L r1
    ∗ shRest A d L r2
    ∗ ((slot1 eixV).view.loc (thr d L) ↦[((slot1 eixV).view.set \ (lst eixV ![1, 0] linb_1_0).view.set) \ (lst eixV ![1, 128] linb_1_128).view.set]{fullShare} e1)
    ∗ ((slot1 pixV).view.loc (thr d L) ↦[((slot1 pixV).view.set \ (lst pixV ![1, 0] linb_1_0).view.set) \ (lst pixV ![1, 128] linb_1_128).view.set]{fullShare} p1)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ ((eidV).view.loc (thr d L) ↦{qi} A.eid d)
    ∗ ((pidV).view.loc (thr d L) ↦{qi} A.pid d)
    ∗ ((slot0 eixV).view.loc (thr d L) ↦[(slot0 eixV).view.set]{fullShare} e'')
    ∗ ((slot0 pixV).view.loc (thr d L) ↦[(slot0 pixV).view.set]{fullShare} p'')
    ∗ semVal (cellOf d L 8) 0
    ∗ semVal (cellOf d L 9) 0
    ∗ chunkPt d L (4 * k - 2) hcm2 (outFin A d)
    ∗ chunkPt d L (4 * k - 1) hcm1 (outFin A d)
    ∗ chunkPt d L (4 * k) hc0 (outFin A d)
    ∗ chunkPt d L (4 * k + 1) hc1 (outFin A d)
    ∗ flightO A d L 14 (hlf0 obV) (4 * k + 2) hc2 fo0
    ∗ flightO A d L 15 (hlf1 obV) (4 * k + 3) hc3 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- CLOSING the last even trip. -/
theorem close_lastEven (O : CellTallies nD τ sig (HIx 1)) (W : Waits sig (HIx 1)) (k : ℕ) (hk0 : k % 2 = 0) (hk1 : 1 ≤ k) (hk50 : k + 1 < 50) (hlast : ¬ k + 1 + 1 < 50) (hc0 : 4 * k < 200) (hc1 : 4 * k + 1 < 200) (hc2 : 4 * k + 2 < 200) (hc3 : 4 * k + 3 < 200) (hcm2 : 4 * k - 2 < 200) (hcm1 : 4 * k - 1 < 200)
    (e1 : Buf (Elt F) ((eixV).view.loc (thr d L))) (p1 : Buf (Elt F) ((pixV).view.loc (thr d L))) (e'' : Buf (Elt F) ((eixV).view.loc (thr d L))) (p'' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L))) (hL : ListsOK1 d L e1 p1) (hSV : SlotVals1 A d L e1 p1 (k + 1) hk50) (W' : Waits sig (HIx 1)) (hW' : ∀ x ∈ W', x ∈ W ∨ x.2 = none) :
    lastEvenPost A d L q1 q2 r1 r2 qi O k hc0 hc1 hc2 hc3 hcm2 hcm1 e1 p1 e'' p'' fe0 fe1 fp0 fp1 fo0 fo1 feR fpR foR hL W'
      ⊢ inv A d L q1 q2 r1 r2 qi O W (k + 1) PUnit.unit := by
  unfold inv gatherPart idsPart
  rw [if_neg (show ¬ (k + 1) % 2 = 0 by omega), if_neg (show ¬ (k + 1) % 2 = 0 by omega)]
  unfold gatherPart1 idsPart0
  rw [dif_pos hk50, dif_neg hlast, outPart_chunks, dif_pos (⟨by omega, by omega⟩ : 1 ≤ k + 1 ∧ k + 1 ≤ 50),
    chunks_close A d L k hk1 hcm2 hcm1 hc0 hc1 hc3,
    exFlightO_congr A d L 14 (hlf0 obV) (show 4 * (k + 1) - 2 = 4 * k + 2 by omega) _ hc2,
    exFlightO_congr A d L 15 (hlf1 obV) (show 4 * (k + 1) - 1 = 4 * k + 3 by omega) _ hc3]
  unfold lastEvenPost
  iintro ⟨#Hmw, HE0, HE1, HP0, HP1, Hte1, Hte2, Hsh1, Hsh2, Heix, Hpix, Heb, Hpb, Heid, Hpid, Hs2x, Hs2p, Hs8, Hs9, Hm2, Hm1, Hc0, Hc1, HO0, HO1, Hob, Hr200, HO⟩
  isplitr; · iexact Hmw
  isplitl [HE0 HE1 HP0 HP1 Hte1 Hte2 Hsh1 Hsh2 Heix Hpix Heb Hpb]
  · iexists e1, p1, ⟨hL⟩
    isplitr; · ipureintro; exact hSV
    isplitl [HE0]; · iexists fe0; iexact HE0
    isplitl [HE1]; · iexists fe1; iexact HE1
    isplitl [HP0]; · iexists fp0; iexact HP0
    isplitl [HP1]; · iexists fp1; iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexists feR; iexact Heb
    iexists fpR; iexact Hpb
  isplitl [Heid Hpid Hs2x Hs2p Hs8 Hs9]
  · isplitl [Heid]; · iexact Heid
    isplitl [Hpid]; · iexact Hpid
    isplitl [Hs2x]; · iexists e''; iexact Hs2x
    isplitl [Hs2p]; · iexists p''; iexact Hs2p
    isplitl [Hs8]; · iexact Hs8
    iexact Hs9
  isplitl [Hm2 Hm1 Hc0 Hc1 HO0 HO1 Hob Hr200]
  · isplitl [Hm2 Hm1 Hc0 Hc1 Hr200]
    · isplitl [Hr200]; · iexact Hr200
      isplitl [Hm2]; · iexact Hm2
      isplitl [Hm1]; · iexact Hm1
      isplitl [Hc0]; · iexact Hc0
      iexact Hc1
    isplitl [HO0]; · iexists fo0; iexact HO0
    isplitl [HO1]; · iexists fo1; iexact HO1
    iexists foR; iexact Hob
  iexists W'
  isplitr; · ipureintro; exact hW'
  iexact HO

/-! ## The last trip: no further ids to wait for, no further gathers -/

/-- What the last trip's run starts from: as an odd trip's, with both id arrays' shares whole, slot 0 of the id scratches
    whole and both id cells at rest. -/
def lastOddPre (O : CellTallies nD τ sig (HIx 1)) (k : ℕ) (hc0 : 4 * k < 200) (hc1 : 4 * k + 1 < 200) (hc2 : 4 * k + 2 < 200) (hc3 : 4 * k + 3 < 200) (hcm2 : 4 * k - 2 < 200) (hcm1 : 4 * k - 1 < 200)
    (e : Buf (Elt F) ((eixV).view.loc (thr d L))) (p : Buf (Elt F) ((pixV).view.loc (thr d L))) (e' : Buf (Elt F) ((eixV).view.loc (thr d L))) (p' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L))) (hL : ListsOK1 d L e p) (W' : Waits sig (HIx 1)) : sProp 𝕄 :=
  iprop(Transfers.MayWaits (thr d L) (default : HIx 1) O
    ∗ flightE A d L 10 (hlf0 ebV) (lst eixV ![1, 0] linb_1_0) q1 fe0 e hL.1
    ∗ flightE A d L 11 (hlf1 ebV) (lst eixV ![1, 128] linb_1_128) q2 fe1 e hL.2.1
    ∗ flightP A d L 12 (hlf0 pbV) (lst pixV ![1, 0] linb_1_0) r1 fp0 p hL.2.2.1
    ∗ flightP A d L 13 (hlf1 pbV) (lst pixV ![1, 128] linb_1_128) r2 fp1 p hL.2.2.2
    ∗ teRest A d L q1
    ∗ teRest A d L q2
    ∗ shRest A d L r1
    ∗ shRest A d L r2
    ∗ ((slot1 eixV).view.loc (thr d L) ↦[((slot1 eixV).view.set \ (lst eixV ![1, 0] linb_1_0).view.set) \ (lst eixV ![1, 128] linb_1_128).view.set]{fullShare} e)
    ∗ ((slot1 pixV).view.loc (thr d L) ↦[((slot1 pixV).view.set \ (lst pixV ![1, 0] linb_1_0).view.set) \ (lst pixV ![1, 128] linb_1_128).view.set]{fullShare} p)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ ((eidV).view.loc (thr d L) ↦{qi} A.eid d)
    ∗ ((pidV).view.loc (thr d L) ↦{qi} A.pid d)
    ∗ ((slot0 eixV).view.loc (thr d L) ↦[(slot0 eixV).view.set]{fullShare} e')
    ∗ ((slot0 pixV).view.loc (thr d L) ↦[(slot0 pixV).view.set]{fullShare} p')
    ∗ semVal (cellOf d L 8) 0
    ∗ semVal (cellOf d L 9) 0
    ∗ chunkPt d L (4 * k) hc0 (A.out0 d)
    ∗ chunkPt d L (4 * k + 1) hc1 (A.out0 d)
    ∗ chunkPt d L (4 * k + 2) hc2 (A.out0 d)
    ∗ chunkPt d L (4 * k + 3) hc3 (A.out0 d)
    ∗ flightO A d L 14 (hlf0 obV) (4 * k - 2) hcm2 fo0
    ∗ flightO A d L 15 (hlf1 obV) (4 * k - 1) hcm1 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- OPENING the last trip. -/
theorem open_lastOdd (O : CellTallies nD τ sig (HIx 1)) (W : Waits sig (HIx 1)) (k : ℕ) (hk0 : k % 2 = 1) (hk1 : 1 ≤ k) (hk50 : k < 50) (hlast : ¬ k + 1 < 50) (hc0 : 4 * k < 200) (hc1 : 4 * k + 1 < 200) (hc2 : 4 * k + 2 < 200) (hc3 : 4 * k + 3 < 200) (hcm2 : 4 * k - 2 < 200) (hcm1 : 4 * k - 1 < 200) :
    inv A d L q1 q2 r1 r2 qi O W k PUnit.unit
      ⊢ iprop(∃ (e : Buf (Elt F) ((eixV).view.loc (thr d L))) (p : Buf (Elt F) ((pixV).view.loc (thr d L))) (e' : Buf (Elt F) ((eixV).view.loc (thr d L))) (p' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L)))
          (hL : PLift (ListsOK1 d L e p)) (W' : Waits sig (HIx 1)),
          ⌜SlotVals1 A d L e p k hk50 ∧ ∀ x ∈ W', x ∈ W ∨ x.2 = none⌝
          ∗ lastOddPre A d L q1 q2 r1 r2 qi O k hc0 hc1 hc2 hc3 hcm2 hcm1 e p e' p' fe0 fe1 fp0 fp1 fo0 fo1 feR fpR foR hL.down W') := by
  unfold inv gatherPart idsPart
  rw [if_neg (show ¬ k % 2 = 0 by omega), if_neg (show ¬ k % 2 = 0 by omega)]
  unfold gatherPart1 idsPart0
  rw [dif_pos hk50, dif_neg hlast, outPart_chunks, dif_pos (⟨hk1, by omega⟩ : 1 ≤ k ∧ k ≤ 50), chunks_open A d L k hk1 hc0 hc1 hc2 hc3]
  unfold lastOddPre
  iintro ⟨#Hmw, ⟨%e, %p, %hL, %hSV, ⟨%fe0, HE0⟩, ⟨%fe1, HE1⟩, ⟨%fp0, HP0⟩, ⟨%fp1, HP1⟩, Hte1, Hte2, Hsh1, Hsh2, Heix, Hpix, ⟨%feR, Heb⟩, ⟨%fpR, Hpb⟩⟩,
    ⟨Heid, Hpid, ⟨%e', Hs2x⟩, ⟨%p', Hs2p⟩, Hs8, Hs9⟩, ⟨⟨Hr200, Hc0, Hc1, Hc2, Hc3⟩, ⟨%fo0, HO0⟩, ⟨%fo1, HO1⟩, ⟨%foR, Hob⟩⟩, ⟨%W', %hW', HO⟩⟩
  iexists e, p, e', p', fe0, fe1, fp0, fp1, fo0, fo1, feR, fpR, foR, hL, W'
  isplitr; · ipureintro; exact ⟨hSV, hW'⟩
  isplitr; · iexact Hmw
  isplitl [HE0]; · iexact HE0
  isplitl [HE1]; · iexact HE1
  isplitl [HP0]; · iexact HP0
  isplitl [HP1]; · iexact HP1
  isplitl [Hte1]; · iexact Hte1
  isplitl [Hte2]; · iexact Hte2
  isplitl [Hsh1]; · iexact Hsh1
  isplitl [Hsh2]; · iexact Hsh2
  isplitl [Heix]; · iexact Heix
  isplitl [Hpix]; · iexact Hpix
  isplitl [Heb]; · iexact Heb
  isplitl [Hpb]; · iexact Hpb
  isplitl [Heid]; · iexact Heid
  isplitl [Hpid]; · iexact Hpid
  isplitl [Hs2x]; · iexact Hs2x
  isplitl [Hs2p]; · iexact Hs2p
  isplitl [Hs8]; · iexact Hs8
  isplitl [Hs9]; · iexact Hs9
  isplitl [Hc0]; · iexact Hc0
  isplitl [Hc1]; · iexact Hc1
  isplitl [Hc2]; · iexact Hc2
  isplitl [Hc3]; · iexact Hc3
  isplitl [HO0]; · iexact HO0
  isplitl [HO1]; · iexact HO1
  isplitl [Hob]; · iexact Hob
  isplitl [Hr200]; · iexact Hr200
  iexact HO

/-- What the last trip's run ends with: nothing in flight but the last two copy-outs; the tables' shares, the id arrays'
    shares, the id scratches' slots and the two gathered buffers whole; every gather and id cell at rest. -/
def lastOddPost (O : CellTallies nD τ sig (HIx 1)) (k : ℕ) (hc0 : 4 * k < 200) (hc1 : 4 * k + 1 < 200) (hc2 : 4 * k + 2 < 200) (hc3 : 4 * k + 3 < 200) (hcm2 : 4 * k - 2 < 200) (hcm1 : 4 * k - 1 < 200)
    (e0 : Buf (Elt F) ((eixV).view.loc (thr d L))) (p0 : Buf (Elt F) ((pixV).view.loc (thr d L))) (e1 : Buf (Elt F) ((eixV).view.loc (thr d L))) (p1 : Buf (Elt F) ((pixV).view.loc (thr d L))) (feW : Buf (Elt F) ((ebV).view.loc (thr d L))) (fpW : Buf (Elt F) ((pbV).view.loc (thr d L))) (fo0 : Buf (Elt F) ((hlf0 obV).view.loc (thr d L))) (fo1 : Buf (Elt F) ((hlf1 obV).view.loc (thr d L))) (foR : Buf (Elt F) ((obV).view.loc (thr d L))) (W' : Waits sig (HIx 1)) : sProp 𝕄 :=
  iprop(Transfers.MayWaits (thr d L) (default : HIx 1) O
    ∗ ((teV).view.loc (thr d L) ↦{q1} A.te d)
    ∗ ((teV).view.loc (thr d L) ↦{q2} A.te d)
    ∗ ((shV).view.loc (thr d L) ↦{r1} shVal A d (cV L))
    ∗ ((shV).view.loc (thr d L) ↦{r2} shVal A d (cV L))
    ∗ ((slot0 eixV).view.loc (thr d L) ↦[(slot0 eixV).view.set]{fullShare} e0)
    ∗ ((slot0 pixV).view.loc (thr d L) ↦[(slot0 pixV).view.set]{fullShare} p0)
    ∗ ((ebV).view.loc (thr d L) ↦{fullShare} feW)
    ∗ ((pbV).view.loc (thr d L) ↦{fullShare} fpW)
    ∗ semVal (cellOf d L 10) 0
    ∗ semVal (cellOf d L 11) 0
    ∗ semVal (cellOf d L 12) 0
    ∗ semVal (cellOf d L 13) 0
    ∗ ((eidV).view.loc (thr d L) ↦{qi} A.eid d)
    ∗ ((pidV).view.loc (thr d L) ↦{qi} A.pid d)
    ∗ ((slot1 eixV).view.loc (thr d L) ↦[(slot1 eixV).view.set]{fullShare} e1)
    ∗ ((slot1 pixV).view.loc (thr d L) ↦[(slot1 pixV).view.set]{fullShare} p1)
    ∗ semVal (cellOf d L 8) 0
    ∗ semVal (cellOf d L 9) 0
    ∗ chunkPt d L (4 * k - 2) hcm2 (outFin A d)
    ∗ chunkPt d L (4 * k - 1) hcm1 (outFin A d)
    ∗ chunkPt d L (4 * k) hc0 (outFin A d)
    ∗ chunkPt d L (4 * k + 1) hc1 (outFin A d)
    ∗ flightO A d L 14 (hlf0 obV) (4 * k + 2) hc2 fo0
    ∗ flightO A d L 15 (hlf1 obV) (4 * k + 3) hc3 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- CLOSING the last trip. -/
theorem close_lastOdd (O : CellTallies nD τ sig (HIx 1)) (W : Waits sig (HIx 1)) (k : ℕ) (hk0 : k % 2 = 1) (hk1 : 1 ≤ k) (hk50 : k < 50) (hlast : ¬ k + 1 < 50) (hc0 : 4 * k < 200) (hc1 : 4 * k + 1 < 200) (hc2 : 4 * k + 2 < 200) (hc3 : 4 * k + 3 < 200) (hcm2 : 4 * k - 2 < 200) (hcm1 : 4 * k - 1 < 200)
    (e0 : Buf (Elt F) ((eixV).view.loc (thr d L))) (p0 : Buf (Elt F) ((pixV).view.loc (thr d L))) (e1 : Buf (Elt F) ((eixV).view.loc (thr d L))) (p1 : Buf (Elt F) ((pixV).view.loc (thr d L))) (feW : Buf (Elt F) ((ebV).view.loc (thr d L))) (fpW : Buf (Elt F) ((pbV).view.loc (thr d L))) (fo0 : Buf (Elt F) ((hlf0 obV).view.loc (thr d L))) (fo1 : Buf (Elt F) ((hlf1 obV).view.loc (thr d L))) (foR : Buf (Elt F) ((obV).view.loc (thr d L))) (W' : Waits sig (HIx 1)) (hW' : ∀ x ∈ W', x ∈ W ∨ x.2 = none) :
    lastOddPost A d L q1 q2 r1 r2 qi O k hc0 hc1 hc2 hc3 hcm2 hcm1 e0 p0 e1 p1 feW fpW fo0 fo1 foR W'
      ⊢ inv A d L q1 q2 r1 r2 qi O W (k + 1) PUnit.unit := by
  unfold inv gatherPart idsPart
  rw [if_pos (show (k + 1) % 2 = 0 by omega), if_pos (show (k + 1) % 2 = 0 by omega)]
  unfold gatherPart0 idsPart1
  rw [dif_neg hlast, dif_neg (show ¬ k + 1 + 1 < 50 by omega), outPart_chunks, dif_pos (⟨by omega, by omega⟩ : 1 ≤ k + 1 ∧ k + 1 ≤ 50),
    chunks_close A d L k hk1 hcm2 hcm1 hc0 hc1 hc3,
    exFlightO_congr A d L 14 (hlf0 obV) (show 4 * (k + 1) - 2 = 4 * k + 2 by omega) _ hc2,
    exFlightO_congr A d L 15 (hlf1 obV) (show 4 * (k + 1) - 1 = 4 * k + 3 by omega) _ hc3]
  unfold lastOddPost
  iintro ⟨#Hmw, Hte1, Hte2, Hsh1, Hsh2, Hsx, Hsp, Hebw, Hpbw, Hs10, Hs11, Hs12, Hs13, Heid, Hpid, Hs2x, Hs2p, Hs8, Hs9, Hm2, Hm1, Hc0, Hc1, HO0, HO1, Hob, Hr200, HO⟩
  isplitr; · iexact Hmw
  isplitl [Hte1 Hte2 Hsh1 Hsh2 Hsx Hsp Hebw Hpbw Hs10 Hs11 Hs12 Hs13]
  · isplitl [Hte1]; · iexact Hte1
    isplitl [Hte2]; · iexact Hte2
    isplitl [Hsh1]; · iexact Hsh1
    isplitl [Hsh2]; · iexact Hsh2
    isplitl [Hsx]; · iexists e0; iexact Hsx
    isplitl [Hsp]; · iexists p0; iexact Hsp
    isplitl [Hebw]; · iexists feW; iexact Hebw
    isplitl [Hpbw]; · iexists fpW; iexact Hpbw
    isplitl [Hs10]; · iexact Hs10
    isplitl [Hs11]; · iexact Hs11
    isplitl [Hs12]; · iexact Hs12
    iexact Hs13
  isplitl [Heid Hpid Hs2x Hs2p Hs8 Hs9]
  · isplitl [Heid]; · iexact Heid
    isplitl [Hpid]; · iexact Hpid
    isplitl [Hs2x]; · iexists e1; iexact Hs2x
    isplitl [Hs2p]; · iexists p1; iexact Hs2p
    isplitl [Hs8]; · iexact Hs8
    iexact Hs9
  isplitl [Hm2 Hm1 Hc0 Hc1 HO0 HO1 Hob Hr200]
  · isplitl [Hm2 Hm1 Hc0 Hc1 Hr200]
    · isplitl [Hr200]; · iexact Hr200
      isplitl [Hm2]; · iexact Hm2
      isplitl [Hm1]; · iexact Hm1
      isplitl [Hc0]; · iexact Hc0
      iexact Hc1
    isplitl [HO0]; · iexists fo0; iexact HO0
    isplitl [HO1]; · iexists fo1; iexact HO1
    iexists foR; iexact Hob
  iexists W'
  isplitr; · ipureintro; exact hW'
  iexact HO

end Cert.KernelIdeal.Run.Sc

end
-- ==== Proof.ScTripEvenLast.lean ====
/-
  The tile's loop: what the tile holds between two trips of its 50-trip loop (the invariant), and one trip.

  At the start of trip k the gathers of chunks 4k and 4k+1 are in flight (one per cell of esem / psem) into the halves
  of ebufs / pbufs, by the first two quarters of id slot k % 2; the next trip's 512 ids of both kinds are in flight
  into slot (k+1) % 2 as ONE batch of two copies on isem[(k+1) % 2] (trips 0–48); the copy-outs of chunks 4k-2 and
  4k-1 are in flight out of the halves of obufs on wsem[0] / wsem[1] (trips ≥ 1), their chunks of the result already
  counted as holding the looked-up sums; the chunks below 4k-2 hold them; those from 4k on are untouched.
-/
import proofs.«204385_g66649302499670_cont_9to1c4b_43_34_alg».proof.Proof.ScTrip
import proofs.«204385_g66649302499670_cont_9to1c4b_43_34_alg».proof.Proof.AddLoop
import proofs.«204385_g66649302499670_cont_9to1c4b_43_34_alg».proof.Proof.ScHalves
import proofs.«204385_g66649302499670_cont_9to1c4b_43_34_alg».proof.Proof.ScSlots
import proofs.«204385_g66649302499670_cont_9to1c4b_43_34_alg».proof.Proof.ScBook
import proofs.«204385_g66649302499670_cont_9to1c4b_43_34_alg».proof.Proof.ScTripFold
import proofs.«204385_g66649302499670_cont_9to1c4b_43_34_alg».proof.Proof.ScClose
import proofs.«204385_g66649302499670_cont_9to1c4b_43_34_alg».proof.Proof.ScTripFoldEdge

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F] (A : Vals F) (d : Dev nD) (L : grid1.Coords)

variable [FloatOps F] (A : Vals F) (d : Dev nD) (L : grid1.Coords)

/-- A 128-row window of the result at offset `off`, held whole. -/
abbrev lchunkWin (off : Fin 2 → ℕ) (h : ∀ a, off a + S128x128.size a ≤ S819200x128.size a) (f : Buf (Elt F) ((outV).view.loc (thr d L))) : sProp 𝕄 :=
  ((outV).slice (Rect.unit (s := S819200x128) off S128x128.size h) (fun _ => rfl)).view.loc (thr d L)
    ↦[((outV).slice (Rect.unit (s := S819200x128) off S128x128.size h) (fun _ => rfl)).view.set]{fullShare} f

omit [FloatOps F] in
/-- A slot of an id scratch at offset `off`, as the program names it. -/
abbrev lslotAt (M : Memref sig .scVector .vmem S2x512 .i32) (off : Fin 2 → ℕ) (h : ∀ a, off a + S1x512.size a ≤ S2x512.size a) : Memref sig .scVector .vmem S512 .i32 :=
  (M.slice (Rect.unit (s := S2x512) off S1x512.size h) (fun _ => rfl)).squeeze S512 squeezes_S1x512_S512
omit [FloatOps F] in
theorem lslotPts_congr (M : Memref sig .scVector .vmem S2x512 .i32) {off off' : Fin 2 → ℕ} (e : off = off')
    (h : ∀ a, off a + S1x512.size a ≤ S2x512.size a) (h' : ∀ a, off' a + S1x512.size a ≤ S2x512.size a) (f : Buf (Elt F) (M.view.loc (thr d L))) :
    (((lslotAt M off h).view.loc (thr d L) ↦[(lslotAt M off h).view.set]{fullShare} f : sProp 𝕄))
      = ((lslotAt M off' h').view.loc (thr d L) ↦[(lslotAt M off' h').view.set]{fullShare} f) := by subst e; rfl

omit [FloatOps F] in
/-- A list's elements do not depend on how its offset is spelt. -/
theorem llst_set_congr (M : Memref sig .scVector .vmem S2x512 .i32) {off off' : Fin 2 → ℕ} (h : off = off')
    (hi : ∀ a, off a + S1x128.size a ≤ S2x512.size a) (hi' : ∀ a, off' a + S1x128.size a ≤ S2x512.size a) :
    (lst M off hi).view.set = (lst M off' hi').view.set := by subst h; rfl

omit [FloatOps F] in
/-- A list's contents do not depend on how its offset is spelt. -/
theorem llst_read_congr (M : Memref sig .scVector .vmem S2x512 .i32) {off off' : Fin 2 → ℕ} (h : off = off')
    (hi : ∀ a, off a + S1x128.size a ≤ S2x512.size a) (hi' : ∀ a, off' a + S1x128.size a ≤ S2x512.size a)
    (e : Buf (Elt F) (M.view.loc (thr d L))) (x : S128.Idx) :
    (lst M off hi).view.read (Elt F) e x = (lst M off' hi').view.read (Elt F) e x := by subst h; rfl

omit [FloatOps F] in
theorem lrespell_e_0_0 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 0] linb_0_0).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_e_0_128 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 128] linb_0_128).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_e_0_256 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 256] linb_0_256).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_e_0_384 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 384] linb_0_384).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_e_1_0 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 0] linb_1_0).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_e_1_128 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 128] linb_1_128).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_e_1_256 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 256] linb_1_256).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_e_1_384 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 384] linb_1_384).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_p_0_0 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 0] linb_0_0).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem lrespell_p_0_128 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 128] linb_0_128).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem lrespell_p_0_256 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 256] linb_0_256).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem lrespell_p_0_384 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 384] linb_0_384).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem lrespell_p_1_0 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 0] linb_1_0).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem lrespell_p_1_128 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 128] linb_1_128).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem lrespell_p_1_256 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 256] linb_1_256).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem lrespell_p_1_384 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 384] linb_1_384).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
/-- A resource put aside: held, but not looked at. -/
def AsideL (P : sProp 𝕄) : sProp 𝕄 := P
omit [FloatOps F] in
theorem asideL_intro (P : sProp 𝕄) : P ⊢ AsideL P := BI.Entails.refl _
omit [FloatOps F] in
theorem asideL_elim (P : sProp 𝕄) : AsideL P ⊢ P := BI.Entails.refl _

/-- The cell of the id semaphores at offset `off`, as the program names it. -/
abbrev lisemAt (off : Fin 1 → ℕ) (h : ∀ a, off a + S1.size a ≤ S2.size a) : DmaSem sig :=
  ((SemArray.slice cc1_scratch6 (Rect.unit (s := S2) off S1.size h)).squeeze S_ squeezes_S1_S_).sem
theorem lisemAt_congr {off off' : Fin 1 → ℕ} (e : off = off') (h : ∀ a, off a + S1.size a ≤ S2.size a) (h' : ∀ a, off' a + S1.size a ≤ S2.size a) :
    lisemAt off h = lisemAt off' h' := by subst e; rfl
theorem lisemAt_one : lisemAt ![1] inb_S2_S1_1 = (9 : DmaSem sig) := by decide
theorem lisemAt_zero : lisemAt ![0] inb_S2_S1_0 = (8 : DmaSem sig) := by decide

/-- A gather's flight does not depend on how its list's offset is spelt. -/
theorem evl_flightE_off (sm : DmaSem sig) (H : Memref sig .scVector .vmem S128x128 .f32) {off off' : Fin 2 → ℕ} (h : off = off')
    (hi : ∀ a, off a + S1x128.size a ≤ S2x512.size a) (hi' : ∀ a, off' a + S1x128.size a ≤ S2x512.size a) (q : PosShare TreeShare)
    (fe : Buf (Elt F) (H.view.loc (thr d L))) (e : Buf (Elt F) ((eixV).view.loc (thr d L)))
    (hin : ∀ x, ((lst eixV off hi).view.read (Elt F) e x).toNat < S100000x128.size gathers_S100000x128_S128x128.axis)
    (hin' : ∀ x, ((lst eixV off' hi').view.read (Elt F) e x).toNat < S100000x128.size gathers_S100000x128_S128x128.axis) :
    flightE A d L sm H (lst eixV off hi) q fe e hin ⊢ flightE A d L sm H (lst eixV off' hi') q fe e hin' := by
  subst h; exact BI.Entails.refl _
theorem evl_flightP_off (sm : DmaSem sig) (H : Memref sig .scVector .vmem S128x128 .f32) {off off' : Fin 2 → ℕ} (h : off = off')
    (hi : ∀ a, off a + S1x128.size a ≤ S2x512.size a) (hi' : ∀ a, off' a + S1x128.size a ≤ S2x512.size a) (q : PosShare TreeShare)
    (fp : Buf (Elt F) (H.view.loc (thr d L))) (p : Buf (Elt F) ((pixV).view.loc (thr d L)))
    (hin : ∀ x, ((lst pixV off hi).view.read (Elt F) p x).toNat < S1000x128.size gathers_S1000x128_S128x128.axis)
    (hin' : ∀ x, ((lst pixV off' hi').view.read (Elt F) p x).toNat < S1000x128.size gathers_S1000x128_S128x128.axis) :
    flightP A d L sm H (lst pixV off hi) q fp p hin ⊢ flightP A d L sm H (lst pixV off' hi') q fp p hin' := by
  subst h; exact BI.Entails.refl _

/-- The id batch does not depend on how its cell, its slot and its window are spelt. -/
theorem evl_batch_congr (qi : PosShare TreeShare) {sm sm' : DmaSem sig} (hsm : sm = sm') {offS offS' : Fin 2 → ℕ} (hS : offS = offS')
    (hiS : ∀ a, offS a + S1x512.size a ≤ S2x512.size a) (hiS' : ∀ a, offS' a + S1x512.size a ≤ S2x512.size a)
    {off off' : Fin 1 → ℕ} (ho : off = off') (hi : ∀ a, off a + S512.size a ≤ S819200.size a) (hi' : ∀ a, off' a + S512.size a ≤ S819200.size a)
    (e : Buf (Elt F) ((eixV).view.loc (thr d L))) (p : Buf (Elt F) ((pixV).view.loc (thr d L))) (pe pp : S512.Idx → Elt F .i32) :
    idsBatch A d L sm (lslotAt eixV offS hiS) (lslotAt pixV offS hiS) qi off hi e p pe pp
      = idsBatch A d L sm' (lslotAt eixV offS' hiS') (lslotAt pixV offS' hiS') qi off' hi' e p pe pp := by
  subst hsm hS ho; rfl

omit [FloatOps F] in
theorem evl_W_ins {W S : Waits sig (HIx 1)} (x0 : SemLoc sig × HIx 1) (h0 : x0.2 = none) (h : ∀ x ∈ S, x ∈ W ∨ x.2 = none) :
    ∀ x ∈ insert x0 S, x ∈ W ∨ x.2 = none := by
  intro x hx
  rcases Finset.mem_insert.mp hx with rfl | hx
  · exact Or.inr h0
  · exact h x hx

omit [FloatOps F] in
theorem evl_off43 (k : Fin k1_t1_loop.trips) : k1_off43 L k = idsOff L (k.val + 1 + 1) := by
  rw [k1_off43_eq]; unfold idsOff
  refine funext fun a => ?_
  match a with
  | 0 => show 51200 * (L 1).val + 25600 * (L 0).val + 512 * k.val + 1024 = 51200 * (L 1).val + 25600 * (L 0).val + 512 * (k.val + 1 + 1); omega

omit [FloatOps F] in
theorem evl_off13 (k : Fin k1_t1_loop.trips) (r : Fin 4) : k1_off13 L k (BitVec.ofNat 32 r.val) = chunkOff L (4 * k.val + r.val) := by
  rw [k1_off13_eq]; unfold chunkOff
  refine funext fun a => ?_
  match a with
  | 0 => show 51200 * (L 1).val + 25600 * (L 0).val + 512 * k.val + 128 * r.val = 51200 * (L 1).val + 25600 * (L 0).val + 128 * (4 * k.val + r.val); omega
  | 1 => rfl

variable (q1 q2 r1 r2 qi : PosShare TreeShare)

set_option maxHeartbeats 4000000 in
theorem trip_even_last_core (v2 : BitVec 32) (k : Fin k1_t1_loop.trips) (hk0 : k.val % 2 = 0) (hk1 : 1 ≤ k.val) (hk48 : k.val = 48)
    (hk1' : k.val + 1 < 50)
    (hcm2 : 4 * k.val - 2 < 200) (hcm1 : 4 * k.val - 1 < 200)
    (O : CellTallies nD τ sig (HIx 1)) (W W0 : Waits sig (HIx 1)) (hW0 : ∀ x ∈ W0, x ∈ W ∨ x.2 = none)
    (e : Buf (Elt F) ((eixV).view.loc (thr d L))) (p : Buf (Elt F) ((pixV).view.loc (thr d L)))
    (e' : Buf (Elt F) ((eixV).view.loc (thr d L))) (p' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK0 d L e p) (hSV0 : SlotVals0 A d L e p k.val k.isLt)
    (hE : ∀ j, (A.eid d j).toNat < 100000) (hP : ∀ j, (A.pid d j).toNat < 1000)
    (hlast : ¬ k.val + 1 + 1 < 50) (hc0 : 4 * k.val < 200) (hc1 : 4 * k.val + 1 < 200) (hc2 : 4 * k.val + 2 < 200) (hc3 : 4 * k.val + 3 < 200) :
    iprop(Transfers.MayWaits (thr d L) (default : HIx 1) O
        ∗ flightE A d L 10 (hlf0 ebV) (lst eixV ![0, 0] linb_0_0) q1 fe0 e hL.1
        ∗ flightE A d L 11 (hlf1 ebV) (lst eixV ![0, 128] linb_0_128) q2 fe1 e hL.2.1
        ∗ flightP A d L 12 (hlf0 pbV) (lst pixV ![0, 0] linb_0_0) r1 fp0 p hL.2.2.1
        ∗ flightP A d L 13 (hlf1 pbV) (lst pixV ![0, 128] linb_0_128) r2 fp1 p hL.2.2.2
        ∗ teRest A d L q1 ∗ teRest A d L q2 ∗ shRest A d L r1 ∗ shRest A d L r2
        ∗ ((slot0 eixV).view.loc (thr d L)
              ↦[((slot0 eixV).view.set \ (lst eixV ![0, 0] linb_0_0).view.set) \ (lst eixV ![0, 128] linb_0_128).view.set]{fullShare} e)
        ∗ ((slot0 pixV).view.loc (thr d L)
              ↦[((slot0 pixV).view.set \ (lst pixV ![0, 0] linb_0_0).view.set) \ (lst pixV ![0, 128] linb_0_128).view.set]{fullShare} p)
        ∗ ((ebV).view.loc (thr d L) ↦[(Finset.univ \ (hlf0 ebV).view.set) \ (hlf1 ebV).view.set]{fullShare} feR)
        ∗ ((pbV).view.loc (thr d L) ↦[(Finset.univ \ (hlf0 pbV).view.set) \ (hlf1 pbV).view.set]{fullShare} fpR)
        ∗ idsBatch A d L (9 : DmaSem sig) (slot1 eixV) (slot1 pixV) qi (idsOff L (k.val + 1)) (idsInb L (k.val + 1) hk1') e' p'
            (idsPayAt d L eidV (A.eid d) (idsOff L (k.val + 1)) (idsInb L (k.val + 1) hk1')) (idsPayAt d L pidV (A.pid d) (idsOff L (k.val + 1)) (idsInb L (k.val + 1) hk1'))
        ∗ idsRest A d L qi (idsOff L (k.val + 1)) (idsInb L (k.val + 1) hk1')
        ∗ semVal (cellOf d L 8) 0
        ∗ lchunkWin d L (k1_off13 L k 0#32) (k1_off13_inb L k 0) (A.out0 d)
        ∗ lchunkWin d L (k1_off13 L k 1#32) (k1_off13_inb L k 1) (A.out0 d)
        ∗ lchunkWin d L (k1_off13 L k 2#32) (k1_off13_inb L k 2) (A.out0 d)
        ∗ lchunkWin d L (k1_off13 L k 3#32) (k1_off13_inb L k 3) (A.out0 d)
        ∗ flightO A d L 14 (hlf0 obV) (4 * k.val - 2) hcm2 fo0
        ∗ flightO A d L 15 (hlf1 obV) (4 * k.val - 1) hcm1 fo1
        ∗ ((obV).view.loc (thr d L) ↦[(Finset.univ \ (hlf0 obV).view.set) \ (hlf1 obV).view.set]{fullShare} foR)
        ∗ owes (thr d L) O W0)
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 k ())
            (fun _ => iprop(rest200 A d L k.val -∗ inv A d L q1 q2 r1 r2 qi O W (k.val + 1) PUnit.unit)) := by
  have hE2 := hin_e_0_256 A d L hE e p k.val k.isLt hSV0
  have hE3 := hin_e_0_384 A d L hE e p k.val k.isLt hSV0
  have hP2 := hin_p_0_256 A d L hP e p k.val k.isLt hSV0
  have hP3 := hin_p_0_384 A d L hP e p k.val k.isLt hSV0
  have hcond2 : k1_cond2 k = 1#1 := (cond2_iff k).mpr hk1
  have hcond9 : ¬ k1_cond9 k = 1#1 := fun h => by have := (cond9_iff k).mp h; omega
  have hcond3 := cond3_true k
  have hcond4 : k1_cond4 k = 1#1 := (cond4_iff k).mpr hk1
  have hcond5 := cond5_true k
  have hcond6 := cond6_true k
  have hcond7 : k1_cond7 k = 1#1 := (cond7_iff k).mpr (by omega)
  have hcond8 := cond8_true k
  have hcond10 : k1_cond10 k = 1#1 := (cond10_iff k).mpr (by omega)
  have e14 : k1_off14 k = ![0, 256] := by rw [off14_eq, hk0]
  have e25 : k1_off25 k = ![0, 384] := by rw [off25_eq, hk0]
  have hk0' : (k.val + 1) % 2 = 1 := by omega
  have e36 : k1_off36 k = ![1, 0] := by rw [off36_eq, hk0']
  have e38 : k1_off38 k = ![1] := by rw [off38_eq, hk0']
  have e39 : k1_off39 k = ![1, 0] := by rw [off39_eq, hk0']
  have e42 : k1_off42 k = ![0, 0] := by rw [off42_eq, hk0]
  have e44 : k1_off44 k = ![0] := by rw [off44_eq, hk0]
  have e53 : k1_off53 k = ![1, 128] := by rw [off53_eq, hk0']
  letI : ClosedOff (k1_off14 k) := ⟨![0, 256], e14⟩
  letI : ClosedOff (k1_off25 k) := ⟨![0, 384], e25⟩
  letI : ClosedOff (k1_off36 k) := ⟨![1, 0], e36⟩
  letI : ClosedOff (k1_off38 k) := ⟨![1], e38⟩
  letI : ClosedOff (k1_off39 k) := ⟨![1, 0], e39⟩
  letI : ClosedOff (k1_off42 k) := ⟨![0, 0], e42⟩
  letI : ClosedOff (k1_off44 k) := ⟨![0], e44⟩
  letI : ClosedOff (k1_off53 k) := ⟨![1, 128], e53⟩
  have hinE2 : ∀ x, ((lst eixV (k1_off14 k) (k1_off14_inb k hcond3)).view.read (Elt F) e x).toNat < S100000x128.size gathers_S100000x128_S128x128.axis :=
    fun x => by rw [llst_read_congr d L eixV e14 _ linb_0_256]; exact hE2 x
  have hinP2 : ∀ x, ((lst pixV (k1_off14 k) (k1_off14_inb k hcond3)).view.read (Elt F) p x).toNat < S1000x128.size gathers_S1000x128_S128x128.axis :=
    fun x => by rw [llst_read_congr d L pixV e14 _ linb_0_256]; exact hP2 x
  have hinE3 : ∀ x, ((lst eixV (k1_off25 k) (k1_off25_inb k hcond5)).view.read (Elt F) e x).toNat < S100000x128.size gathers_S100000x128_S128x128.axis :=
    fun x => by rw [llst_read_congr d L eixV e25 _ linb_0_384]; exact hE3 x
  have hinP3 : ∀ x, ((lst pixV (k1_off25 k) (k1_off25_inb k hcond5)).view.read (Elt F) p x).toNat < S1000x128.size gathers_S1000x128_S128x128.axis :=
    fun x => by rw [llst_read_congr d L pixV e25 _ linb_0_384]; exact hP3 x
  unfold k1_t1_body
  unfold idsBatch idsRest
  iintro ⟨#Hmw, HE0, HE1, HP0, HP1, Hte1, Hte2, Hsh1, Hsh2, Heix, Hpix, Heb, Hpb, Hbat, ⟨Heidr, Hpidr⟩, Hs8, Hc0, Hc1, Hc2, Hc3, HO0, HO1, Hob, HO⟩
  sl_exec_parts
  -- the first chunk's sums
  ihave Heb2 := (join0_e (F := F) d L _ _) $$ [Heb HE0_dst]
  · isplitl [Heb] <;> iassumption
  ihave Hpb2 := (join0_p (F := F) d L _ _) $$ [Hpb HP0_dst]
  · isplitl [Hpb] <;> iassumption
  ihave Hob2 := (join0_o (F := F) d L _ _) $$ [Hob HO0_src]
  · isplitl [Hob] <;> iassumption
  iapply (Add.addLoop_sub0 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Heix2 := (Entails.of_eq (show (((slot0 eixV).view.loc (thr d L)
        ↦[((slot0 eixV).view.set \ (lst eixV ![0, 0] linb_0_0).view.set) \ (lst eixV ![0, 128] linb_0_128).view.set]{fullShare} e : sProp 𝕄))
      = ((eixV).view.loc (thr d L)
        ↦[((Finset.univ \ (slot1 eixV).view.set) \ (lst eixV ![0, 0] linb_0_0).view.set) \ (lst eixV ![0, 128] linb_0_128).view.set]{fullShare} e) from by
          rw [slot0_eq_compl_e])) $$ Heix
  ihave Hpix2 := (Entails.of_eq (show (((slot0 pixV).view.loc (thr d L)
        ↦[((slot0 pixV).view.set \ (lst pixV ![0, 0] linb_0_0).view.set) \ (lst pixV ![0, 128] linb_0_128).view.set]{fullShare} p : sProp 𝕄))
      = ((pixV).view.loc (thr d L)
        ↦[((Finset.univ \ (slot1 pixV).view.set) \ (lst pixV ![0, 0] linb_0_0).view.set) \ (lst pixV ![0, 128] linb_0_128).view.set]{fullShare} p) from by
          rw [slot0_eq_compl_p])) $$ Hpix
  sl_exec_parts
  -- the second chunk's sums
  ihave Heb2 := (join1_e_of (F := F) d L restA_e _ _) $$ [Heb HE1_dst]
  · isplitl [Heb] <;> iassumption
  ihave Hpb2 := (join1_p_of (F := F) d L restA_p _ _) $$ [Hpb HP1_dst]
  · isplitl [Hpb] <;> iassumption
  ihave Hob2 := (join1_o_of (F := F) d L restA_o _ _) $$ [Hob HO1_src]
  · isplitl [Hob] <;> iassumption
  iapply (Add.addLoop_sub1 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Heix3 := (Entails.of_eq (lrespell_e_0_128 (F := F) d L e)) $$ Heix2
  ihave Hpix3 := (Entails.of_eq (lrespell_p_0_128 (F := F) d L p)) $$ Hpix2
  sl_exec_parts
  -- the third chunk's sums
  ihave Heb2 := (join0_e_of (F := F) d L restB_e _ _) $$ [Heb Heb_2]
  · isplitl [Heb] <;> iassumption
  ihave Hpb2 := (join0_p_of (F := F) d L restB_p _ _) $$ [Hpb Hpb_2]
  · isplitl [Hpb] <;> iassumption
  ihave Hob2 := (join0_o_of (F := F) d L restB_o _ _) $$ [Hob Hob_2]
  · isplitl [Hob] <;> iassumption
  iapply (Add.addLoop_sub2 (F := F) d L v2 k _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  -- slot 0's leftovers put aside; the id batch's cell in the program's spelling
  ihave HeixA := (asideL_intro (F := F) _) $$ Heix3
  ihave HpixA := (asideL_intro (F := F) _) $$ Hpix3
  have hs38 : lisemAt (k1_off38 k) (k1_off38_inb k hcond7) = (9 : DmaSem sig) := (lisemAt_congr e38 _ inb_S2_S1_1).trans lisemAt_one
  have hSV1 : SlotVals1 A d L
      ((slot1 eixV).view.writes (Elt F) e' [⟨Rect.whole S512, idsPayAt d L eidV (A.eid d) (idsOff L (k.val + 1)) (idsInb L (k.val + 1) hk1')⟩])
      ((slot1 pixV).view.writes (Elt F) p' [⟨Rect.whole S512, idsPayAt d L pidV (A.pid d) (idsOff L (k.val + 1)) (idsInb L (k.val + 1) hk1')⟩])
      (k.val + 1) hk1' := slotVals1_after A d L e' p' k.val hk1' _ _ ⟨rfl, rfl⟩
  have hinE10 : ∀ x, ((lst eixV (k1_off39 k) (k1_off39_inb k hcond7)).view.read (Elt F)
      ((slot1 eixV).view.writes (Elt F) e' [⟨Rect.whole S512, idsPayAt d L eidV (A.eid d) (idsOff L (k.val + 1)) (idsInb L (k.val + 1) hk1')⟩]) x).toNat
        < S100000x128.size gathers_S100000x128_S128x128.axis :=
    fun x => by rw [llst_read_congr d L eixV e39 _ linb_1_0]; exact hin_e_1_0 A d L hE _ _ (k.val + 1) hk1' hSV1 x
  have hinP10 : ∀ x, ((lst pixV (k1_off39 k) (k1_off39_inb k hcond7)).view.read (Elt F)
      ((slot1 pixV).view.writes (Elt F) p' [⟨Rect.whole S512, idsPayAt d L pidV (A.pid d) (idsOff L (k.val + 1)) (idsInb L (k.val + 1) hk1')⟩]) x).toNat
        < S1000x128.size gathers_S1000x128_S128x128.axis :=
    fun x => by rw [llst_read_congr d L pixV e39 _ linb_1_0]; exact hin_p_1_0 A d L hP _ _ (k.val + 1) hk1' hSV1 x
  have hinE11 : ∀ x, ((lst eixV (k1_off53 k) (k1_off53_inb k hcond10)).view.read (Elt F)
      ((slot1 eixV).view.writes (Elt F) e' [⟨Rect.whole S512, idsPayAt d L eidV (A.eid d) (idsOff L (k.val + 1)) (idsInb L (k.val + 1) hk1')⟩]) x).toNat
        < S100000x128.size gathers_S100000x128_S128x128.axis :=
    fun x => by rw [llst_read_congr d L eixV e53 _ linb_1_128]; exact hin_e_1_128 A d L hE _ _ (k.val + 1) hk1' hSV1 x
  have hinP11 : ∀ x, ((lst pixV (k1_off53 k) (k1_off53_inb k hcond10)).view.read (Elt F)
      ((slot1 pixV).view.writes (Elt F) p' [⟨Rect.whole S512, idsPayAt d L pidV (A.pid d) (idsOff L (k.val + 1)) (idsInb L (k.val + 1) hk1')⟩]) x).toNat
        < S1000x128.size gathers_S1000x128_S128x128.axis :=
    fun x => by rw [llst_read_congr d L pixV e53 _ linb_1_128]; exact hin_p_1_128 A d L hP _ _ (k.val + 1) hk1' hSV1 x
  ihave Hbat2 := (Entails.of_eq (show (Transfers.Batched countersEmb (thr d L) (SemLoc.dma (9 : DmaSem sig)) (default : HIx 1) 16384 2 _ 0 : sProp 𝕄)
      = Transfers.Batched countersEmb (thr d L) (SemLoc.dma (lisemAt (k1_off38 k) (k1_off38_inb k hcond7))) (default : HIx 1) 16384 2 _ 0 from by rw [hs38])) $$ Hbat
  sl_exec_parts
  -- slot 1 as delivered, seen as the id scratch less slot 0
  ihave Heix4 := (Entails.of_eq (show (((slot1 eixV).view.loc (thr d L) ↦[(slot1 eixV).view.set]{fullShare} _ : sProp 𝕄))
      = ((eixV).view.loc (thr d L) ↦[Finset.univ \ (slot0 eixV).view.set]{fullShare} _) from by rw [slot1_eq_compl_e])) $$ Hbat2_dst0
  ihave Hpix4 := (Entails.of_eq (show (((slot1 pixV).view.loc (thr d L) ↦[(slot1 pixV).view.set]{fullShare} _ : sProp 𝕄))
      = ((pixV).view.loc (thr d L) ↦[Finset.univ \ (slot0 pixV).view.set]{fullShare} _) from by rw [slot1_eq_compl_p])) $$ Hbat2_dst1
  sl_exec_parts
  -- slot 0 whole again for the next ids; slot 1's holdings put aside meanwhile
  ihave HeixU := (asideL_elim (F := F) _) $$ HeixA
  ihave HeixU2 := (Entails.of_eq (show (((eixV).view.loc (thr d L) ↦[((Finset.univ \ (slot1 eixV).view.set) \ (lst eixV ![0, 0] linb_0_0).view.set) \ (lst eixV (k1_off25 k) (k1_off25_inb k hcond5)).view.set]{fullShare} e : sProp 𝕄))
      = ((eixV).view.loc (thr d L) ↦[((Finset.univ \ (slot1 eixV).view.set) \ (lst eixV ![0, 0] linb_0_0).view.set) \ (lst eixV ![0, 384] linb_0_384).view.set]{fullShare} e) from by
        rw [llst_set_congr eixV e25 _ linb_0_384])) $$ HeixU
  ihave Heix3L := (Entails.of_eq (show (((eixV).view.loc (thr d L) ↦[(lst eixV (k1_off25 k) (k1_off25_inb k hcond5)).view.set]{fullShare} e : sProp 𝕄))
      = ((eixV).view.loc (thr d L) ↦[(lst eixV ![0, 384] linb_0_384).view.set]{fullShare} e) from by
        rw [llst_set_congr eixV e25 _ linb_0_384])) $$ Heix3
  ihave Hslot0e := (slot0_assemble_e (F := F) d L e) $$ [HeixU2 HE0_dst_and Heix3L]
  · isplitl [HeixU2]; · iexact HeixU2
    isplitl [HE0_dst_and]; · iexact HE0_dst_and
    iexact Heix3L
  ihave HpixU := (asideL_elim (F := F) _) $$ HpixA
  ihave HpixU2 := (Entails.of_eq (show (((pixV).view.loc (thr d L) ↦[((Finset.univ \ (slot1 pixV).view.set) \ (lst pixV ![0, 0] linb_0_0).view.set) \ (lst pixV (k1_off25 k) (k1_off25_inb k hcond5)).view.set]{fullShare} p : sProp 𝕄))
      = ((pixV).view.loc (thr d L) ↦[((Finset.univ \ (slot1 pixV).view.set) \ (lst pixV ![0, 0] linb_0_0).view.set) \ (lst pixV ![0, 384] linb_0_384).view.set]{fullShare} p) from by
        rw [llst_set_congr pixV e25 _ linb_0_384])) $$ HpixU
  ihave Hpix3L := (Entails.of_eq (show (((pixV).view.loc (thr d L) ↦[(lst pixV (k1_off25 k) (k1_off25_inb k hcond5)).view.set]{fullShare} p : sProp 𝕄))
      = ((pixV).view.loc (thr d L) ↦[(lst pixV ![0, 384] linb_0_384).view.set]{fullShare} p) from by
        rw [llst_set_congr pixV e25 _ linb_0_384])) $$ Hpix3
  ihave Hslot0p := (slot0_assemble_p (F := F) d L p) $$ [HpixU2 HP0_dst_and Hpix3L]
  · isplitl [HpixU2]; · iexact HpixU2
    isplitl [HP0_dst_and]; · iexact HP0_dst_and
    iexact Hpix3L
  ihave Heix4A := (asideL_intro (F := F) _) $$ Heix4
  ihave Hpix4A := (asideL_intro (F := F) _) $$ Hpix4
  -- the fourth chunk's sums
  ihave Heix4 := (asideL_elim (F := F) _) $$ Heix4A
  ihave Hpix4 := (asideL_elim (F := F) _) $$ Hpix4A
  ihave Heb2 := (join1_e_of (F := F) d L restA_e _ _) $$ [Heb Heb_2]
  · isplitl [Heb] <;> iassumption
  ihave Hpb2 := (join1_p_of (F := F) d L restA_p _ _) $$ [Hpb Hpb_2]
  · isplitl [Hpb] <;> iassumption
  ihave Hob2 := (join1_o_of (F := F) d L restA_o _ _) $$ [Hob Hob_2]
  · isplitl [Hob] <;> iassumption
  iapply (Add.addLoop_sub3 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  sl_exec_parts
  -- the trip's end: the pieces are the next trip's
  sl_step
  iintro Hrest
  have hL1 := listsOK1_of_slotVals A d L hE hP _ _ (k.val + 1) hk1' hSV1
  iapply (close_lastEven A d L q1 q2 r1 r2 qi O W k.val hk0 hk1 hk1' hlast hc0 hc1 hc2 hc3 hcm2 hcm1 _ _ e p _ _ _ _ _ _ _ _ _ hL1 hSV1 _ ?hW)
  swap
  unfold lastEvenPost
  isplitr; · iexact Hmw
  isplitl [HE0]
  · iapply (evl_flightE_off A d L 10 (hlf0 ebV) e39 (k1_off39_inb k hcond7) linb_1_0 q1 _ _ hinE10 hL1.1); iexact HE0
  isplitl [HE1]
  · iapply (evl_flightE_off A d L 11 (hlf1 ebV) e53 (k1_off53_inb k hcond10) linb_1_128 q2 _ _ hinE11 hL1.2.1); iexact HE1
  isplitl [HP0]
  · iapply (evl_flightP_off A d L 12 (hlf0 pbV) e39 (k1_off39_inb k hcond7) linb_1_0 r1 _ _ hinP10 hL1.2.2.1); iexact HP0
  isplitl [HP1]
  · iapply (evl_flightP_off A d L 13 (hlf1 pbV) e53 (k1_off53_inb k hcond10) linb_1_128 r2 _ _ hinP11 hL1.2.2.2); iexact HP1
  isplitl [Hte1]; · iexact Hte1
  isplitl [Hte2]; · iexact Hte2
  isplitl [Hsh1]; · iexact Hsh1
  isplitl [Hsh2]; · iexact Hsh2
  isplitl [Heix4]
  · rw [slot1_eq_compl_e, ← llst_set_congr eixV e39 (k1_off39_inb k hcond7) linb_1_0, ← llst_set_congr eixV e53 (k1_off53_inb k hcond10) linb_1_128]
    iexact Heix4
  isplitl [Hpix4]
  · rw [slot1_eq_compl_p, ← llst_set_congr pixV e39 (k1_off39_inb k hcond7) linb_1_0, ← llst_set_congr pixV e53 (k1_off53_inb k hcond10) linb_1_128]
    iexact Hpix4
  isplitl [Heb]; · rw [← restB_e]; iexact Heb
  isplitl [Hpb]; · rw [← restB_p]; iexact Hpb
  isplitl [Heidr]; · iexact Heidr
  isplitl [Hpidr]; · iexact Hpidr
  isplitl [Hslot0e]; · iexact Hslot0e
  isplitl [Hslot0p]; · iexact Hslot0p
  isplitl [Hs8]; · iexact Hs8
  isplitl [Hbat2]
  · iapply (Entails.of_eq (show (semVal (thr d L, SemLoc.dma (lisemAt (k1_off38 k) (k1_off38_inb k hcond7))) 0 : sProp 𝕄) = semVal (cellOf d L 9) 0 from by rw [hs38]))
    iexact Hbat2
  isplitl [HO0_dst]; · rw [chunkPt_eq]; iexact HO0_dst
  isplitl [HO1_dst]; · rw [chunkPt_eq]; iexact HO1_dst
  isplitl [Hc0]
  · iapply (Entails.of_eq (chunk_delivered0 A d L (4 * k.val) hc0 (k1_off13 L k 0#32) (k1_off13_inb L k 0) (evl_off13 L k 0) _ _ _ _ _
        ((lst eixV ![0, 0] linb_0_0).view.read (Elt F) e) ((lst pixV ![0, 0] linb_0_0).view.read (Elt F) p) hL.1 hL.2.2.1 rfl
        ((read_piecewise_hlf0 d L ebV _ _).trans (read_write_hlf0 d L ebV _ _)) ((read_piecewise_hlf0 d L pbV _ _).trans (read_write_hlf0 d L pbV _ _))
        (ids_e_0_0 A d L e p k.val k.isLt hSV0) (ids_p_0_0 A d L e p k.val k.isLt hSV0)))
    iexact Hc0
  isplitl [Hc1]
  · iapply (Entails.of_eq (chunk_delivered1 A d L (4 * k.val + 1) hc1 (k1_off13 L k 1#32) (k1_off13_inb L k 1) (evl_off13 L k 1) _ _ _ _ _
        ((lst eixV ![0, 128] linb_0_128).view.read (Elt F) e) ((lst pixV ![0, 128] linb_0_128).view.read (Elt F) p) hL.2.1 hL.2.2.2 rfl
        ((read_piecewise_hlf1 d L ebV _ _).trans (read_write_hlf1 d L ebV _ _)) ((read_piecewise_hlf1 d L pbV _ _).trans (read_write_hlf1 d L pbV _ _))
        (ids_e_0_128 A d L e p k.val k.isLt hSV0) (ids_p_0_128 A d L e p k.val k.isLt hSV0)))
    iexact Hc1
  isplitl [HO0]
  · iapply (Entails.of_eq (flight_delivered0 A d L 14 (4 * k.val + 2) hc2 (k1_off13 L k 2#32) (k1_off13_inb L k 2) (evl_off13 L k 2) _ _ _ _ _
        ((lst eixV (k1_off14 k) (k1_off14_inb k hcond3)).view.read (Elt F) e) ((lst pixV (k1_off14 k) (k1_off14_inb k hcond3)).view.read (Elt F) p) hinE2 hinP2 rfl
        ((read_piecewise_hlf0 d L ebV _ _).trans (read_write_hlf0 d L ebV _ _)) ((read_piecewise_hlf0 d L pbV _ _).trans (read_write_hlf0 d L pbV _ _))
        (fun x => by rw [llst_read_congr d L eixV e14 _ linb_0_256]; exact ids_e_0_256 A d L e p k.val k.isLt hSV0 x)
        (fun x => by rw [llst_read_congr d L pixV e14 _ linb_0_256]; exact ids_p_0_256 A d L e p k.val k.isLt hSV0 x)))
    iexact HO0
  isplitl [HO1]
  · iapply (Entails.of_eq (flight_delivered1 A d L 15 (4 * k.val + 3) hc3 (k1_off13 L k 3#32) (k1_off13_inb L k 3) (evl_off13 L k 3) _ _ _ _ _
        ((lst eixV (k1_off25 k) (k1_off25_inb k hcond5)).view.read (Elt F) e) ((lst pixV (k1_off25 k) (k1_off25_inb k hcond5)).view.read (Elt F) p) hinE3 hinP3 rfl
        ((read_piecewise_hlf1 d L ebV _ _).trans (read_write_hlf1 d L ebV _ _)) ((read_piecewise_hlf1 d L pbV _ _).trans (read_write_hlf1 d L pbV _ _))
        (fun x => by rw [llst_read_congr d L eixV e25 _ linb_0_384]; exact ids_e_0_384 A d L e p k.val k.isLt hSV0 x)
        (fun x => by rw [llst_read_congr d L pixV e25 _ linb_0_384]; exact ids_p_0_384 A d L e p k.val k.isLt hSV0 x)))
    iexact HO1
  isplitl [Hob]; · rw [← restB_o]; iexact Hob
  isplitl [Hrest]; · iexact Hrest
  iexact HO
  case hW => repeat (first | exact hW0 | refine evl_W_ins _ rfl ?_)

omit [FloatOps F] in
/-- A chunk window of the result held whole: through the program's offset or as chunk `n`. -/
theorem evl_chunk_congr (n : ℕ) (hn : n < 200) (off : Fin 2 → ℕ) (hoff : ∀ a, off a + S128x128.size a ≤ S819200x128.size a)
    (eoff : off = chunkOff L n) (f : Buf (Elt F) ((outV).view.loc (thr d L))) :
    chunkPt d L n hn f = lchunkWin d L off hoff f := by
  subst eoff; rfl

set_option maxHeartbeats 4000000 in
/-- The even trip k = 48 of the tile's loop: no ids are fetched for a trip 50. -/
theorem trip_even_last (hE : ∀ j, (A.eid d j).toNat < 100000) (hP : ∀ j, (A.pid d j).toNat < 1000) (v2 : BitVec 32)
    (O : CellTallies nD τ sig (HIx 1)) (W : Waits sig (HIx 1))
    (k : ℕ) (hk : k < 50) (hk0 : k % 2 = 0) (hk48 : k = 48) :
    inv A d L q1 q2 r1 r2 qi O W k PUnit.unit
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 ⟨k, hk⟩ ())
          (fun _ => inv A d L q1 q2 r1 r2 qi O W (k + 1) PUnit.unit) := by
  have hk1 : 1 ≤ k := by omega
  have hk1' : k + 1 < 50 := by omega
  have hlast : ¬ k + 1 + 1 < 50 := by omega
  have hc0 : 4 * k < 200 := by omega
  have hc1 : 4 * k + 1 < 200 := by omega
  have hc2 : 4 * k + 2 < 200 := by omega
  have hc3 : 4 * k + 3 < 200 := by omega
  have hcm2 : 4 * k - 2 < 200 := by omega
  have hcm1 : 4 * k - 1 < 200 := by omega
  refine (open_even A d L q1 q2 r1 r2 qi O W k hk0 hk1 hk hk1' hc0 hc1 hc2 hc3 hcm2 hcm1).trans ?_
  iintro ⟨%e, %p, %e', %p', %fe0, %fe1, %fp0, %fp1, %fo0, %fo1, %feR, %fpR, %foR, %hL, %W', %hpure, Hpre⟩
  unfold evenPre
  icases Hpre with ⟨Hmw, HE0, HE1, HP0, HP1, Hte1, Hte2, Hsh1, Hsh2, Heix, Hpix, Heb, Hpb, Hbat, Hidr, Hs8, Hc0, Hc1, Hc2, Hc3, HO0, HO1, Hob, Hrest, HO⟩
  iapply (wp_wand_r frame (wpE (defs₀ (F := F)) 𝒱₀ (thr d L) none) Set.univ)
  isplitr [Hrest]
  · iapply (trip_even_last_core A d L q1 q2 r1 r2 qi v2 ⟨k, hk⟩ hk0 hk1 hk48 hk1' hcm2 hcm1 O W W' hpure.2 e p e' p' fe0 fe1 fp0 fp1 fo0 fo1 feR fpR foR hL.down hpure.1 hE hP hlast hc0 hc1 hc2 hc3)
    isplitl [Hmw]; · iexact Hmw
    isplitl [HE0]; · iexact HE0
    isplitl [HE1]; · iexact HE1
    isplitl [HP0]; · iexact HP0
    isplitl [HP1]; · iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexact Heb
    isplitl [Hpb]; · iexact Hpb
    isplitl [Hbat]; · iexact Hbat
    isplitl [Hidr]; · iexact Hidr
    isplitl [Hs8]; · iexact Hs8
    isplitl [Hc0]
    · iapply (Entails.of_eq (evl_chunk_congr d L (4 * k) hc0 (k1_off13 L ⟨k, hk⟩ 0#32) (k1_off13_inb L ⟨k, hk⟩ 0) (evl_off13 L ⟨k, hk⟩ 0) _)); iexact Hc0
    isplitl [Hc1]
    · iapply (Entails.of_eq (evl_chunk_congr d L (4 * k + 1) hc1 (k1_off13 L ⟨k, hk⟩ 1#32) (k1_off13_inb L ⟨k, hk⟩ 1) (evl_off13 L ⟨k, hk⟩ 1) _)); iexact Hc1
    isplitl [Hc2]
    · iapply (Entails.of_eq (evl_chunk_congr d L (4 * k + 2) hc2 (k1_off13 L ⟨k, hk⟩ 2#32) (k1_off13_inb L ⟨k, hk⟩ 2) (evl_off13 L ⟨k, hk⟩ 2) _)); iexact Hc2
    isplitl [Hc3]
    · iapply (Entails.of_eq (evl_chunk_congr d L (4 * k + 3) hc3 (k1_off13 L ⟨k, hk⟩ 3#32) (k1_off13_inb L ⟨k, hk⟩ 3) (evl_off13 L ⟨k, hk⟩ 3) _)); iexact Hc3
    isplitl [HO0]; · iexact HO0
    isplitl [HO1]; · iexact HO1
    isplitl [Hob]; · iexact Hob
    iexact HO
  · iintro %_ Hw
    iapply Hw
    iexact Hrest

end Cert.KernelIdeal.Run.Sc

end
-- ==== Proof.ScTripFoldOdd.lean ====
/-
  The two ends of an odd trip (1 ≤ k < 48): the even trip's with the slots of the id scratches and the id cells exchanged.
-/
import proofs.«204385_g66649302499670_cont_9to1c4b_43_34_alg».proof.Proof.ScTripFold

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F] (A : Vals F) (d : Dev nD) (L : grid1.Coords)

variable (q1 q2 r1 r2 qi : PosShare TreeShare)

/-! ## An odd trip, 1 ≤ k < 48: the slots and the id cells exchanged -/

/-- What an odd trip's run starts from: the gathers of chunks 4k, 4k+1 in flight by slot 1; the next ids in flight into
    slot 0 on cell 8; the copy-outs of chunks 4k-2, 4k-1 in flight; chunks 4k … 4k+3 at the launch contents; the rest. -/
def oddPre (O : CellTallies nD τ sig (HIx 1)) (k : ℕ) (hk1' : k + 1 < 50)
    (hc0 : 4 * k < 200) (hc1 : 4 * k + 1 < 200) (hc2 : 4 * k + 2 < 200) (hc3 : 4 * k + 3 < 200) (hcm2 : 4 * k - 2 < 200) (hcm1 : 4 * k - 1 < 200)
    (e : Buf (Elt F) ((eixV).view.loc (thr d L))) (p : Buf (Elt F) ((pixV).view.loc (thr d L)))
    (e' : Buf (Elt F) ((eixV).view.loc (thr d L))) (p' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK1 d L e p) (W' : Waits sig (HIx 1)) : sProp 𝕄 :=
  iprop(Transfers.MayWaits (thr d L) (default : HIx 1) O
    ∗ flightE A d L 10 (hlf0 ebV) (lst eixV ![1, 0] linb_1_0) q1 fe0 e hL.1
    ∗ flightE A d L 11 (hlf1 ebV) (lst eixV ![1, 128] linb_1_128) q2 fe1 e hL.2.1
    ∗ flightP A d L 12 (hlf0 pbV) (lst pixV ![1, 0] linb_1_0) r1 fp0 p hL.2.2.1
    ∗ flightP A d L 13 (hlf1 pbV) (lst pixV ![1, 128] linb_1_128) r2 fp1 p hL.2.2.2
    ∗ teRest A d L q1 ∗ teRest A d L q2 ∗ shRest A d L r1 ∗ shRest A d L r2
    ∗ ((slot1 eixV).view.loc (thr d L)
          ↦[((slot1 eixV).view.set \ (lst eixV ![1, 0] linb_1_0).view.set) \ (lst eixV ![1, 128] linb_1_128).view.set]{fullShare} e)
    ∗ ((slot1 pixV).view.loc (thr d L)
          ↦[((slot1 pixV).view.set \ (lst pixV ![1, 0] linb_1_0).view.set) \ (lst pixV ![1, 128] linb_1_128).view.set]{fullShare} p)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ idsBatch A d L (8 : DmaSem sig) (slot0 eixV) (slot0 pixV) qi (idsOff L (k + 1)) (idsInb L (k + 1) hk1') e' p'
        (idsPayAt d L eidV (A.eid d) (idsOff L (k + 1)) (idsInb L (k + 1) hk1')) (idsPayAt d L pidV (A.pid d) (idsOff L (k + 1)) (idsInb L (k + 1) hk1'))
    ∗ idsRest A d L qi (idsOff L (k + 1)) (idsInb L (k + 1) hk1')
    ∗ semVal (cellOf d L 9) 0
    ∗ chunkPt d L (4 * k) hc0 (A.out0 d) ∗ chunkPt d L (4 * k + 1) hc1 (A.out0 d)
    ∗ chunkPt d L (4 * k + 2) hc2 (A.out0 d) ∗ chunkPt d L (4 * k + 3) hc3 (A.out0 d)
    ∗ flightO A d L 14 (hlf0 obV) (4 * k - 2) hcm2 fo0
    ∗ flightO A d L 15 (hlf1 obV) (4 * k - 1) hcm1 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- OPENING an odd trip. -/
theorem open_odd (O : CellTallies nD τ sig (HIx 1)) (W : Waits sig (HIx 1)) (k : ℕ) (hk0 : k % 2 = 1) (hk1 : 1 ≤ k) (hk50 : k < 50) (hk1' : k + 1 < 50)
    (hc0 : 4 * k < 200) (hc1 : 4 * k + 1 < 200) (hc2 : 4 * k + 2 < 200) (hc3 : 4 * k + 3 < 200) (hcm2 : 4 * k - 2 < 200) (hcm1 : 4 * k - 1 < 200) :
    inv A d L q1 q2 r1 r2 qi O W k PUnit.unit
      ⊢ iprop(∃ (e : Buf (Elt F) ((eixV).view.loc (thr d L))) (p : Buf (Elt F) ((pixV).view.loc (thr d L)))
          (e' : Buf (Elt F) ((eixV).view.loc (thr d L))) (p' : Buf (Elt F) ((pixV).view.loc (thr d L)))
          (fe0 : Buf (Elt F) ((hlf0 ebV).view.loc (thr d L))) (fe1 : Buf (Elt F) ((hlf1 ebV).view.loc (thr d L)))
          (fp0 : Buf (Elt F) ((hlf0 pbV).view.loc (thr d L))) (fp1 : Buf (Elt F) ((hlf1 pbV).view.loc (thr d L)))
          (fo0 : Buf (Elt F) ((hlf0 obV).view.loc (thr d L))) (fo1 : Buf (Elt F) ((hlf1 obV).view.loc (thr d L)))
          (feR : Buf (Elt F) ((ebV).view.loc (thr d L))) (fpR : Buf (Elt F) ((pbV).view.loc (thr d L))) (foR : Buf (Elt F) ((obV).view.loc (thr d L)))
          (hL : PLift (ListsOK1 d L e p)) (W' : Waits sig (HIx 1)),
          ⌜SlotVals1 A d L e p k hk50 ∧ ∀ x ∈ W', x ∈ W ∨ x.2 = none⌝
          ∗ oddPre A d L q1 q2 r1 r2 qi O k hk1' hc0 hc1 hc2 hc3 hcm2 hcm1 e p e' p' fe0 fe1 fp0 fp1 fo0 fo1 feR fpR foR hL.down W') := by
  unfold inv gatherPart idsPart
  rw [if_neg (show ¬ k % 2 = 0 by omega), if_neg (show ¬ k % 2 = 0 by omega)]
  unfold gatherPart1 idsPart0
  rw [dif_pos hk50, dif_pos hk1', outPart_chunks, dif_pos ⟨hk1, by omega⟩, chunks_open A d L k hk1 hc0 hc1 hc2 hc3]
  unfold oddPre
  iintro ⟨#Hmw, ⟨%e, %p, %hL, %hSV, ⟨%fe0, HE0⟩, ⟨%fe1, HE1⟩, ⟨%fp0, HP0⟩, ⟨%fp1, HP1⟩, Hte1, Hte2, Hsh1, Hsh2, Heix, Hpix, ⟨%feR, Heb⟩, ⟨%fpR, Hpb⟩⟩,
    ⟨%e', %p', Hbat, Hrest, Hs8⟩, ⟨⟨Hr200, Hc0, Hc1, Hc2, Hc3⟩, ⟨%fo0, HO0⟩, ⟨%fo1, HO1⟩, ⟨%foR, Hob⟩⟩, ⟨%W', %hW', HO⟩⟩
  iexists e, p, e', p', fe0, fe1, fp0, fp1, fo0, fo1, feR, fpR, foR, hL, W'
  isplitr; · ipureintro; exact ⟨hSV, hW'⟩
  isplitr; · iexact Hmw
  isplitl [HE0]; · iexact HE0
  isplitl [HE1]; · iexact HE1
  isplitl [HP0]; · iexact HP0
  isplitl [HP1]; · iexact HP1
  isplitl [Hte1]; · iexact Hte1
  isplitl [Hte2]; · iexact Hte2
  isplitl [Hsh1]; · iexact Hsh1
  isplitl [Hsh2]; · iexact Hsh2
  isplitl [Heix]; · iexact Heix
  isplitl [Hpix]; · iexact Hpix
  isplitl [Heb]; · iexact Heb
  isplitl [Hpb]; · iexact Hpb
  isplitl [Hbat]; · iexact Hbat
  isplitl [Hrest]; · iexact Hrest
  isplitl [Hs8]; · iexact Hs8
  isplitl [Hc0]; · iexact Hc0
  isplitl [Hc1]; · iexact Hc1
  isplitl [Hc2]; · iexact Hc2
  isplitl [Hc3]; · iexact Hc3
  isplitl [HO0]; · iexact HO0
  isplitl [HO1]; · iexact HO1
  isplitl [Hob]; · iexact Hob
  isplitl [Hr200]; · iexact Hr200
  iexact HO

/-- What an odd trip's run ends with: the gathers of chunks 4k+4, 4k+5 in flight by slot 0; the ids after next in flight
    into slot 1 on cell 9; chunks 4k-2 … 4k+1 holding the looked-up sums; the copy-outs of chunks 4k+2, 4k+3 in flight. -/
def oddPost (O : CellTallies nD τ sig (HIx 1)) (k : ℕ) (hk2' : k + 1 + 1 < 50)
    (hc0 : 4 * k < 200) (hc1 : 4 * k + 1 < 200) (hc2 : 4 * k + 2 < 200) (hc3 : 4 * k + 3 < 200) (hcm2 : 4 * k - 2 < 200) (hcm1 : 4 * k - 1 < 200)
    (e1 : Buf (Elt F) ((eixV).view.loc (thr d L))) (p1 : Buf (Elt F) ((pixV).view.loc (thr d L)))
    (e'' : Buf (Elt F) ((eixV).view.loc (thr d L))) (p'' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK0 d L e1 p1) (W' : Waits sig (HIx 1)) : sProp 𝕄 :=
  iprop(Transfers.MayWaits (thr d L) (default : HIx 1) O
    ∗ flightE A d L 10 (hlf0 ebV) (lst eixV ![0, 0] linb_0_0) q1 fe0 e1 hL.1
    ∗ flightE A d L 11 (hlf1 ebV) (lst eixV ![0, 128] linb_0_128) q2 fe1 e1 hL.2.1
    ∗ flightP A d L 12 (hlf0 pbV) (lst pixV ![0, 0] linb_0_0) r1 fp0 p1 hL.2.2.1
    ∗ flightP A d L 13 (hlf1 pbV) (lst pixV ![0, 128] linb_0_128) r2 fp1 p1 hL.2.2.2
    ∗ teRest A d L q1 ∗ teRest A d L q2 ∗ shRest A d L r1 ∗ shRest A d L r2
    ∗ ((slot0 eixV).view.loc (thr d L)
          ↦[((slot0 eixV).view.set \ (lst eixV ![0, 0] linb_0_0).view.set) \ (lst eixV ![0, 128] linb_0_128).view.set]{fullShare} e1)
    ∗ ((slot0 pixV).view.loc (thr d L)
          ↦[((slot0 pixV).view.set \ (lst pixV ![0, 0] linb_0_0).view.set) \ (lst pixV ![0, 128] linb_0_128).view.set]{fullShare} p1)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ idsBatch A d L (9 : DmaSem sig) (slot1 eixV) (slot1 pixV) qi (idsOff L (k + 1 + 1)) (idsInb L (k + 1 + 1) hk2') e'' p''
        (idsPayAt d L eidV (A.eid d) (idsOff L (k + 1 + 1)) (idsInb L (k + 1 + 1) hk2')) (idsPayAt d L pidV (A.pid d) (idsOff L (k + 1 + 1)) (idsInb L (k + 1 + 1) hk2'))
    ∗ idsRest A d L qi (idsOff L (k + 1 + 1)) (idsInb L (k + 1 + 1) hk2')
    ∗ semVal (cellOf d L 8) 0
    ∗ chunkPt d L (4 * k - 2) hcm2 (outFin A d) ∗ chunkPt d L (4 * k - 1) hcm1 (outFin A d)
    ∗ chunkPt d L (4 * k) hc0 (outFin A d) ∗ chunkPt d L (4 * k + 1) hc1 (outFin A d)
    ∗ flightO A d L 14 (hlf0 obV) (4 * k + 2) hc2 fo0
    ∗ flightO A d L 15 (hlf1 obV) (4 * k + 3) hc3 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- CLOSING an odd trip. -/
theorem close_odd (O : CellTallies nD τ sig (HIx 1)) (W : Waits sig (HIx 1)) (k : ℕ) (hk0 : k % 2 = 1) (hk1 : 1 ≤ k) (hk50 : k + 1 < 50) (hk2' : k + 1 + 1 < 50)
    (hc0 : 4 * k < 200) (hc1 : 4 * k + 1 < 200) (hc2 : 4 * k + 2 < 200) (hc3 : 4 * k + 3 < 200) (hcm2 : 4 * k - 2 < 200) (hcm1 : 4 * k - 1 < 200)
    (e1 : Buf (Elt F) ((eixV).view.loc (thr d L))) (p1 : Buf (Elt F) ((pixV).view.loc (thr d L)))
    (e'' : Buf (Elt F) ((eixV).view.loc (thr d L))) (p'' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK0 d L e1 p1) (hSV : SlotVals0 A d L e1 p1 (k + 1) hk50) (W' : Waits sig (HIx 1)) (hW' : ∀ x ∈ W', x ∈ W ∨ x.2 = none) :
    oddPost A d L q1 q2 r1 r2 qi O k hk2' hc0 hc1 hc2 hc3 hcm2 hcm1 e1 p1 e'' p'' fe0 fe1 fp0 fp1 fo0 fo1 feR fpR foR hL W'
      ⊢ inv A d L q1 q2 r1 r2 qi O W (k + 1) PUnit.unit := by
  unfold inv gatherPart idsPart
  rw [if_pos (show (k + 1) % 2 = 0 by omega), if_pos (show (k + 1) % 2 = 0 by omega)]
  unfold gatherPart0 idsPart1
  rw [dif_pos hk50, dif_pos hk2', outPart_chunks, dif_pos (⟨by omega, by omega⟩ : 1 ≤ k + 1 ∧ k + 1 ≤ 50),
    chunks_close A d L k hk1 hcm2 hcm1 hc0 hc1 hc3,
    exFlightO_congr A d L 14 (hlf0 obV) (show 4 * (k + 1) - 2 = 4 * k + 2 by omega) _ hc2,
    exFlightO_congr A d L 15 (hlf1 obV) (show 4 * (k + 1) - 1 = 4 * k + 3 by omega) _ hc3]
  unfold oddPost
  iintro ⟨#Hmw, HE0, HE1, HP0, HP1, Hte1, Hte2, Hsh1, Hsh2, Heix, Hpix, Heb, Hpb, Hbat, Hrest, Hs9, Hm2, Hm1, Hc0, Hc1, HO0, HO1, Hob, Hr200, HO⟩
  isplitr; · iexact Hmw
  isplitl [HE0 HE1 HP0 HP1 Hte1 Hte2 Hsh1 Hsh2 Heix Hpix Heb Hpb]
  · iexists e1, p1, ⟨hL⟩
    isplitr; · ipureintro; exact hSV
    isplitl [HE0]; · iexists fe0; iexact HE0
    isplitl [HE1]; · iexists fe1; iexact HE1
    isplitl [HP0]; · iexists fp0; iexact HP0
    isplitl [HP1]; · iexists fp1; iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexists feR; iexact Heb
    iexists fpR; iexact Hpb
  isplitl [Hbat Hrest Hs9]
  · iexists e'', p''
    isplitl [Hbat]; · iexact Hbat
    isplitl [Hrest]; · iexact Hrest
    iexact Hs9
  isplitl [Hm2 Hm1 Hc0 Hc1 HO0 HO1 Hob Hr200]
  · isplitl [Hm2 Hm1 Hc0 Hc1 Hr200]
    · isplitl [Hr200]; · iexact Hr200
      isplitl [Hm2]; · iexact Hm2
      isplitl [Hm1]; · iexact Hm1
      isplitl [Hc0]; · iexact Hc0
      iexact Hc1
    isplitl [HO0]; · iexists fo0; iexact HO0
    isplitl [HO1]; · iexists fo1; iexact HO1
    iexists foR; iexact Hob
  iexists W'
  isplitr; · ipureintro; exact hW'
  iexact HO

end Cert.KernelIdeal.Run.Sc

end
-- ==== Proof.ScTripOdd.lean ====
/-
  An odd trip 1 ≤ k ≤ 47 of the tile's 50-trip loop.

  Trip k gathers by the lists of id slot 1 while the ids of trip k + 1 land in slot 0. The four sub-steps in turn: the
  gathered halves of chunk 4k + j arrive, the copy-out that last used the sum buffer's half is drained, the add loop
  leaves the lanewise sums in that half, the half is copied out to chunk 4k + j, and the halves are lent to the gathers
  of chunk 4k + j + 2 (by quarters 2, 3 of slot 1, then by quarters 0, 1 of slot 0 once its ids have landed); in the
  last sub-step the ids of trip k + 2 are fetched into slot 1 as one batch of two copies. The trip takes the tile's
  invariant at k to the invariant at k + 1.
-/
import proofs.«204385_g66649302499670_cont_9to1c4b_43_34_alg».proof.Proof.ScTrip
import proofs.«204385_g66649302499670_cont_9to1c4b_43_34_alg».proof.Proof.AddLoop
import proofs.«204385_g66649302499670_cont_9to1c4b_43_34_alg».proof.Proof.ScHalves
import proofs.«204385_g66649302499670_cont_9to1c4b_43_34_alg».proof.Proof.ScSlots
import proofs.«204385_g66649302499670_cont_9to1c4b_43_34_alg».proof.Proof.ScBook
import proofs.«204385_g66649302499670_cont_9to1c4b_43_34_alg».proof.Proof.ScTripFoldOdd
import proofs.«204385_g66649302499670_cont_9to1c4b_43_34_alg».proof.Proof.ScClose

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F] (A : Vals F) (d : Dev nD) (L : grid1.Coords)

/-- A 128-row window of the result at offset `off`, held whole. -/
abbrev od_chunkAt (off : Fin 2 → ℕ) (h : ∀ a, off a + S128x128.size a ≤ S819200x128.size a) (f : Buf (Elt F) ((outV).view.loc (thr d L))) : sProp 𝕄 :=
  ((outV).slice (Rect.unit (s := S819200x128) off S128x128.size h) (fun _ => rfl)).view.loc (thr d L)
    ↦[((outV).slice (Rect.unit (s := S819200x128) off S128x128.size h) (fun _ => rfl)).view.set]{fullShare} f

omit [FloatOps F] in
/-- A list's contents do not depend on how its offset is spelt. -/
theorem od_lst_read_congr (M : Memref sig .scVector .vmem S2x512 .i32) {off off' : Fin 2 → ℕ} (h : off = off')
    (hi : ∀ a, off a + S1x128.size a ≤ S2x512.size a) (hi' : ∀ a, off' a + S1x128.size a ≤ S2x512.size a)
    (e : Buf (Elt F) (M.view.loc (thr d L))) (x : S128.Idx) :
    (lst M off hi).view.read (Elt F) e x = (lst M off' hi').view.read (Elt F) e x := by subst h; rfl

/-- A resource set aside. -/
def od_Hide (P : sProp 𝕄) : sProp 𝕄 := P
omit [FloatOps F] in
theorem od_hide_eq (P : sProp 𝕄) : od_Hide P = P := rfl

omit [FloatOps F] in
/-- A slot's elements do not depend on how its offset is spelt. -/
theorem od_slot_set_congr (M : Memref sig .scVector .vmem S2x512 .i32) {off off' : Fin 2 → ℕ} (h : off = off')
    (hi : ∀ a, off a + S1x512.size a ≤ S2x512.size a) (hi' : ∀ a, off' a + S1x512.size a ≤ S2x512.size a) :
    ((M.slice (Rect.unit (s := S2x512) off S1x512.size hi) (fun _ => rfl)).squeeze S512 squeezes_S1x512_S512).view.set
      = ((M.slice (Rect.unit (s := S2x512) off' S1x512.size hi') (fun _ => rfl)).squeeze S512 squeezes_S1x512_S512).view.set := by subst h; rfl

omit [FloatOps F] in
theorem od_waits_insert {W S : Waits sig (HIx 1)} {a : SemLoc sig × HIx 1} (h : ∀ x ∈ S, x ∈ W ∨ x.2 = none) (ha : a.2 = none) :
    ∀ x ∈ insert a S, x ∈ W ∨ x.2 = none := by
  intro x hx
  rcases Finset.mem_insert.mp hx with rfl | hx
  · exact Or.inr ha
  · exact h x hx

omit [FloatOps F] in
theorem od_off43 (k : Fin k1_t1_loop.trips) : k1_off43 L k = idsOff L (k.val + 1 + 1) := by
  rw [k1_off43_eq]
  unfold idsOff
  exact congrArg (fun x : ℕ => (![x] : Fin 1 → ℕ)) (by omega)

omit [FloatOps F] in
theorem od_off13 (k : Fin k1_t1_loop.trips) (r : Fin 4) : k1_off13 L k (BitVec.ofNat 32 r.val) = chunkOff L (4 * k.val + r.val) := by
  rw [k1_off13_eq]; unfold chunkOff
  refine funext fun a => ?_
  match a with
  | 0 => show 51200 * (L 1).val + 25600 * (L 0).val + 512 * k.val + 128 * r.val = 51200 * (L 1).val + 25600 * (L 0).val + 128 * (4 * k.val + r.val); omega
  | 1 => rfl

omit [FloatOps F] in
/-- A cell of the id semaphores does not depend on how its index is spelt. -/
theorem od_sem6_congr {off off' : Fin 1 → ℕ} (h : off = off') (hi : ∀ a, off a + S1.size a ≤ S2.size a) (hi' : ∀ a, off' a + S1.size a ≤ S2.size a) :
    ((SemArray.slice cc1_scratch6 (Rect.unit (s := S2) off S1.size hi)).squeeze S_ squeezes_S1_S_).sem
      = ((SemArray.slice cc1_scratch6 (Rect.unit (s := S2) off' S1.size hi')).squeeze S_ squeezes_S1_S_).sem := by subst h; rfl

variable (q1 q2 r1 r2 qi : PosShare TreeShare)

set_option maxHeartbeats 4000000 in
/-- The run of an odd trip from what `open_odd` hands over (the four chunks spelt at the program's offsets) to what
    `close_odd` takes. -/
theorem od_run (v2 : BitVec 32) (k : Fin k1_t1_loop.trips) (hk0 : k.val % 2 = 1) (hk1 : 1 ≤ k.val) (hk48 : k.val < 48)
    (hk1' : k.val + 1 < 50)
    (hcm2 : 4 * k.val - 2 < 200) (hcm1 : 4 * k.val - 1 < 200)
    (O : CellTallies nD τ sig (HIx 1)) (W : Waits sig (HIx 1))
    (e : Buf (Elt F) ((eixV).view.loc (thr d L))) (p : Buf (Elt F) ((pixV).view.loc (thr d L)))
    (e' : Buf (Elt F) ((eixV).view.loc (thr d L))) (p' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK1 d L e p) (hSV : SlotVals1 A d L e p k.val k.isLt)
    (hE2 : ∀ x, ((lst eixV ![1, 256] linb_1_256).view.read (Elt F) e x).toNat < S100000x128.size gathers_S100000x128_S128x128.axis)
    (hE3 : ∀ x, ((lst eixV ![1, 384] linb_1_384).view.read (Elt F) e x).toNat < S100000x128.size gathers_S100000x128_S128x128.axis)
    (hP2 : ∀ x, ((lst pixV ![1, 256] linb_1_256).view.read (Elt F) p x).toNat < S1000x128.size gathers_S1000x128_S128x128.axis)
    (hP3 : ∀ x, ((lst pixV ![1, 384] linb_1_384).view.read (Elt F) p x).toNat < S1000x128.size gathers_S1000x128_S128x128.axis)
    (hE : ∀ j : S819200.Idx, (A.eid d j).toNat < 100000) (hP : ∀ j : S819200.Idx, (A.pid d j).toNat < 1000)
    (hk2' : k.val + 1 + 1 < 50) (hc0 : 4 * k.val < 200) (hc1 : 4 * k.val + 1 < 200) (hc2 : 4 * k.val + 2 < 200) (hc3 : 4 * k.val + 3 < 200) :
    iprop(Transfers.MayWaits (thr d L) (default : HIx 1) O
        ∗ flightE A d L 10 (hlf0 ebV) (lst eixV ![1, 0] linb_1_0) q1 fe0 e hL.1
        ∗ flightE A d L 11 (hlf1 ebV) (lst eixV ![1, 128] linb_1_128) q2 fe1 e hL.2.1
        ∗ flightP A d L 12 (hlf0 pbV) (lst pixV ![1, 0] linb_1_0) r1 fp0 p hL.2.2.1
        ∗ flightP A d L 13 (hlf1 pbV) (lst pixV ![1, 128] linb_1_128) r2 fp1 p hL.2.2.2
        ∗ teRest A d L q1 ∗ teRest A d L q2 ∗ shRest A d L r1 ∗ shRest A d L r2
        ∗ ((slot1 eixV).view.loc (thr d L)
              ↦[((slot1 eixV).view.set \ (lst eixV ![1, 0] linb_1_0).view.set) \ (lst eixV ![1, 128] linb_1_128).view.set]{fullShare} e)
        ∗ ((slot1 pixV).view.loc (thr d L)
              ↦[((slot1 pixV).view.set \ (lst pixV ![1, 0] linb_1_0).view.set) \ (lst pixV ![1, 128] linb_1_128).view.set]{fullShare} p)
        ∗ ((ebV).view.loc (thr d L) ↦[(Finset.univ \ (hlf0 ebV).view.set) \ (hlf1 ebV).view.set]{fullShare} feR)
        ∗ ((pbV).view.loc (thr d L) ↦[(Finset.univ \ (hlf0 pbV).view.set) \ (hlf1 pbV).view.set]{fullShare} fpR)
        ∗ idsBatch A d L (8 : DmaSem sig) (slot0 eixV) (slot0 pixV) qi (idsOff L (k.val + 1)) (idsInb L (k.val + 1) hk1') e' p'
            (idsPayAt d L eidV (A.eid d) (idsOff L (k.val + 1)) (idsInb L (k.val + 1) hk1')) (idsPayAt d L pidV (A.pid d) (idsOff L (k.val + 1)) (idsInb L (k.val + 1) hk1'))
        ∗ idsRest A d L qi (idsOff L (k.val + 1)) (idsInb L (k.val + 1) hk1')
        ∗ semVal (cellOf d L 9) 0
        ∗ od_chunkAt d L (k1_off13 L k 0#32) (k1_off13_inb L k 0) (A.out0 d)
        ∗ od_chunkAt d L (k1_off13 L k 1#32) (k1_off13_inb L k 1) (A.out0 d)
        ∗ od_chunkAt d L (k1_off13 L k 2#32) (k1_off13_inb L k 2) (A.out0 d)
        ∗ od_chunkAt d L (k1_off13 L k 3#32) (k1_off13_inb L k 3) (A.out0 d)
        ∗ flightO A d L 14 (hlf0 obV) (4 * k.val - 2) hcm2 fo0
        ∗ flightO A d L 15 (hlf1 obV) (4 * k.val - 1) hcm1 fo1
        ∗ ((obV).view.loc (thr d L) ↦[(Finset.univ \ (hlf0 obV).view.set) \ (hlf1 obV).view.set]{fullShare} foR)
        ∗ rest200 A d L k.val
        ∗ owes (thr d L) O W)
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 k ())
          (fun _ => iprop(∃ (fe0' : Buf (Elt F) ((hlf0 ebV).view.loc (thr d L))) (fe1' : Buf (Elt F) ((hlf1 ebV).view.loc (thr d L)))
              (fp0' : Buf (Elt F) ((hlf0 pbV).view.loc (thr d L))) (fp1' : Buf (Elt F) ((hlf1 pbV).view.loc (thr d L)))
              (fo0' : Buf (Elt F) ((hlf0 obV).view.loc (thr d L))) (fo1' : Buf (Elt F) ((hlf1 obV).view.loc (thr d L)))
              (feR' : Buf (Elt F) ((ebV).view.loc (thr d L))) (fpR' : Buf (Elt F) ((pbV).view.loc (thr d L))) (foR' : Buf (Elt F) ((obV).view.loc (thr d L)))
              (W'' : Waits sig (HIx 1)),
              oddPost A d L q1 q2 r1 r2 qi O k.val hk2' hc0 hc1 hc2 hc3 hcm2 hcm1 ((slot0 eixV).view.writes (Elt F) e' [⟨Rect.whole S512, idsPayAt d L eidV (A.eid d) (idsOff L (k.val + 1)) (idsInb L (k.val + 1) hk1')⟩]) ((slot0 pixV).view.writes (Elt F) p' [⟨Rect.whole S512, idsPayAt d L pidV (A.pid d) (idsOff L (k.val + 1)) (idsInb L (k.val + 1) hk1')⟩]) e p
                fe0' fe1' fp0' fp1' fo0' fo1' feR' fpR' foR'
                (listsOK0_of_slotVals A d L hE hP _ _ (k.val + 1) hk1' (slotVals0_after A d L e' p' k.val hk1' _ _ ⟨rfl, rfl⟩)) W''
              ∗ ⌜∀ x ∈ W'', x ∈ W ∨ x.2 = none⌝)) := by
  have hcond2 : k1_cond2 k = 1#1 := (cond2_iff k).mpr hk1
  have hcond3 := cond3_true k
  have hcond4 : k1_cond4 k = 1#1 := (cond4_iff k).mpr hk1
  have hcond5 := cond5_true k
  have hcond6 := cond6_true k
  have hcond7 : k1_cond7 k = 1#1 := (cond7_iff k).mpr (by omega)
  have hcond8 := cond8_true k
  have hcond9 : k1_cond9 k = 1#1 := (cond9_iff k).mpr hk48
  have hcond10 : k1_cond10 k = 1#1 := (cond10_iff k).mpr (by omega)
  have e14 : k1_off14 k = ![1, 256] := by rw [off14_eq, hk0]
  have e25 : k1_off25 k = ![1, 384] := by rw [off25_eq, hk0]
  have hk0' : (k.val + 1) % 2 = 0 := by omega
  have e36 : k1_off36 k = ![0, 0] := by rw [off36_eq, hk0']
  have e38 : k1_off38 k = ![0] := by rw [off38_eq, hk0']
  have e39 : k1_off39 k = ![0, 0] := by rw [off39_eq, hk0']
  have e42 : k1_off42 k = ![1, 0] := by rw [off42_eq, hk0]
  have e44 : k1_off44 k = ![1] := by rw [off44_eq, hk0]
  have e53 : k1_off53 k = ![0, 128] := by rw [off53_eq, hk0']
  letI : ClosedOff (k1_off14 k) := ⟨![1, 256], e14⟩
  letI : ClosedOff (k1_off25 k) := ⟨![1, 384], e25⟩
  letI : ClosedOff (k1_off36 k) := ⟨![0, 0], e36⟩
  letI : ClosedOff (k1_off38 k) := ⟨![0], e38⟩
  letI : ClosedOff (k1_off39 k) := ⟨![0, 0], e39⟩
  letI : ClosedOff (k1_off42 k) := ⟨![1, 0], e42⟩
  letI : ClosedOff (k1_off44 k) := ⟨![1], e44⟩
  letI : ClosedOff (k1_off53 k) := ⟨![0, 128], e53⟩
  have hinE2 : ∀ x, ((lst eixV (k1_off14 k) (k1_off14_inb k hcond3)).view.read (Elt F) e x).toNat < S100000x128.size gathers_S100000x128_S128x128.axis :=
    fun x => by rw [od_lst_read_congr d L eixV e14 _ linb_1_256]; exact hE2 x
  have hinP2 : ∀ x, ((lst pixV (k1_off14 k) (k1_off14_inb k hcond3)).view.read (Elt F) p x).toNat < S1000x128.size gathers_S1000x128_S128x128.axis :=
    fun x => by rw [od_lst_read_congr d L pixV e14 _ linb_1_256]; exact hP2 x
  have hinE3 : ∀ x, ((lst eixV (k1_off25 k) (k1_off25_inb k hcond5)).view.read (Elt F) e x).toNat < S100000x128.size gathers_S100000x128_S128x128.axis :=
    fun x => by rw [od_lst_read_congr d L eixV e25 _ linb_1_384]; exact hE3 x
  have hinP3 : ∀ x, ((lst pixV (k1_off25 k) (k1_off25_inb k hcond5)).view.read (Elt F) p x).toNat < S1000x128.size gathers_S1000x128_S128x128.axis :=
    fun x => by rw [od_lst_read_congr d L pixV e25 _ linb_1_384]; exact hP3 x
  unfold k1_t1_body
  iintro ⟨#Hmw, HE0, HE1, HP0, HP1, Hte1, Hte2, Hsh1, Hsh2, Heix, Hpix, Heb, Hpb, Hbat, Hidr, Hs8, Hc0, Hc1, Hc2, Hc3, HO0, HO1, Hob, Hr200, HO⟩
  ihave Hxe := (Entails.of_eq (show (((slot1 eixV).view.loc (thr d L)
        ↦[((slot1 eixV).view.set \ (lst eixV ![1, 0] linb_1_0).view.set) \ (lst eixV ![1, 128] linb_1_128).view.set]{fullShare} e : sProp 𝕄))
      = ((eixV).view.loc (thr d L)
        ↦[((Finset.univ \ (slot0 eixV).view.set) \ (lst eixV ![1, 0] linb_1_0).view.set) \ (lst eixV ![1, 128] linb_1_128).view.set]{fullShare} e) from by
          rw [slot1_eq_compl_e])) $$ Heix
  ihave Hxp := (Entails.of_eq (show (((slot1 pixV).view.loc (thr d L)
        ↦[((slot1 pixV).view.set \ (lst pixV ![1, 0] linb_1_0).view.set) \ (lst pixV ![1, 128] linb_1_128).view.set]{fullShare} p : sProp 𝕄))
      = ((pixV).view.loc (thr d L)
        ↦[((Finset.univ \ (slot0 pixV).view.set) \ (lst pixV ![1, 0] linb_1_0).view.set) \ (lst pixV ![1, 128] linb_1_128).view.set]{fullShare} p) from by
          rw [slot1_eq_compl_p])) $$ Hpix
  sl_exec_parts
  -- the first chunk's sums
  ihave Heb2 := (join0_e (F := F) d L _ _) $$ [Heb HE0_dst]
  · isplitl [Heb] <;> iassumption
  ihave Hpb2 := (join0_p (F := F) d L _ _) $$ [Hpb HP0_dst]
  · isplitl [Hpb] <;> iassumption
  ihave Hob2 := (join0_o (F := F) d L _ _) $$ [Hob HO0_src]
  · isplitl [Hob] <;> iassumption
  iapply (Add.addLoop_sub0 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Hxe1 := (Entails.of_eq (show (((lst eixV ![1, 0] linb_1_0).view.loc (thr d L) ↦[(Finset.univ \ (slot0 eixV).view.set) \ (lst eixV ![1, 128] linb_1_128).view.set]{fullShare} e : sProp 𝕄))
      = ((eixV).view.loc (thr d L) ↦[(Finset.univ \ (slot0 eixV).view.set) \ (lst eixV ![1, 128] linb_1_128).view.set]{fullShare} e) from rfl)) $$ Hxe
  ihave Hxp1 := (Entails.of_eq (show (((lst pixV ![1, 0] linb_1_0).view.loc (thr d L) ↦[(Finset.univ \ (slot0 pixV).view.set) \ (lst pixV ![1, 128] linb_1_128).view.set]{fullShare} p : sProp 𝕄))
      = ((pixV).view.loc (thr d L) ↦[(Finset.univ \ (slot0 pixV).view.set) \ (lst pixV ![1, 128] linb_1_128).view.set]{fullShare} p) from rfl)) $$ Hxp
  sl_exec_parts
  -- the second chunk's sums
  ihave Heb2 := (join1_e_of (F := F) d L restA_e _ _) $$ [Heb HE1_dst]
  · isplitl [Heb] <;> iassumption
  ihave Hpb2 := (join1_p_of (F := F) d L restA_p _ _) $$ [Hpb HP1_dst]
  · isplitl [Hpb] <;> iassumption
  ihave Hob2 := (join1_o_of (F := F) d L restA_o _ _) $$ [Hob HO1_src]
  · isplitl [Hob] <;> iassumption
  iapply (Add.addLoop_sub1 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Hxe2 := (Entails.of_eq (show (((lst eixV ![1, 128] linb_1_128).view.loc (thr d L) ↦[(Finset.univ \ (slot0 eixV).view.set) \ (lst eixV (k1_off14 k) (k1_off14_inb k hcond3)).view.set]{fullShare} e : sProp 𝕄))
      = ((eixV).view.loc (thr d L) ↦[(Finset.univ \ (slot0 eixV).view.set) \ (lst eixV (k1_off14 k) (k1_off14_inb k hcond3)).view.set]{fullShare} e) from rfl)) $$ Hxe1
  ihave Hxp2 := (Entails.of_eq (show (((lst pixV ![1, 128] linb_1_128).view.loc (thr d L) ↦[(Finset.univ \ (slot0 pixV).view.set) \ (lst pixV (k1_off14 k) (k1_off14_inb k hcond3)).view.set]{fullShare} p : sProp 𝕄))
      = ((pixV).view.loc (thr d L) ↦[(Finset.univ \ (slot0 pixV).view.set) \ (lst pixV (k1_off14 k) (k1_off14_inb k hcond3)).view.set]{fullShare} p) from rfl)) $$ Hxp1
  sl_exec_parts
  -- the third chunk's sums
  ihave Heb2 := (join0_e_of (F := F) d L restB_e _ _) $$ [Heb Heb_2]
  · isplitl [Heb] <;> iassumption
  ihave Hpb2 := (join0_p_of (F := F) d L restB_p _ _) $$ [Hpb Hpb_2]
  · isplitl [Hpb] <;> iassumption
  ihave Hob2 := (join0_o_of (F := F) d L restB_o _ _) $$ [Hob Hob_2]
  · isplitl [Hob] <;> iassumption
  iapply (Add.addLoop_sub2 (F := F) d L v2 k _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  sl_exec_parts
  have hsem8 : ((SemArray.slice cc1_scratch6 (Rect.unit (s := S2) (k1_off38 k) S1.size (k1_off38_inb k hcond7))).squeeze S_ squeezes_S1_S_).sem = (8 : DmaSem sig) :=
    (od_sem6_congr e38 (k1_off38_inb k hcond7) inb_S2_S1_0).trans rfl
  ihave Hbat2 := (Entails.of_eq (show (idsBatch A d L (8 : DmaSem sig) (slot0 eixV) (slot0 pixV) qi (idsOff L (k.val + 1)) (idsInb L (k.val + 1) hk1') e' p'
            (idsPayAt d L eidV (A.eid d) (idsOff L (k.val + 1)) (idsInb L (k.val + 1) hk1')) (idsPayAt d L pidV (A.pid d) (idsOff L (k.val + 1)) (idsInb L (k.val + 1) hk1')) : sProp 𝕄)
      = idsBatch A d L ((SemArray.slice cc1_scratch6 (Rect.unit (s := S2) (k1_off38 k) S1.size (k1_off38_inb k hcond7))).squeeze S_ squeezes_S1_S_).sem (slot0 eixV) (slot0 pixV) qi (idsOff L (k.val + 1)) (idsInb L (k.val + 1) hk1') e' p'
            (idsPayAt d L eidV (A.eid d) (idsOff L (k.val + 1)) (idsInb L (k.val + 1) hk1')) (idsPayAt d L pidV (A.pid d) (idsOff L (k.val + 1)) (idsInb L (k.val + 1) hk1')) from by rw [hsem8])) $$ Hbat
  sl_exec_parts
  -- slot 0 now holds trip k+1's ids: the next gathers read their lists off it
  have hSV1 : SlotVals0 A d L ((slot0 eixV).view.writes (Elt F) e' [⟨Rect.whole S512, idsPayAt d L eidV (A.eid d) (idsOff L (k.val + 1)) (idsInb L (k.val + 1) hk1')⟩]) ((slot0 pixV).view.writes (Elt F) p' [⟨Rect.whole S512, idsPayAt d L pidV (A.pid d) (idsOff L (k.val + 1)) (idsInb L (k.val + 1) hk1')⟩]) (k.val + 1) hk1' :=
    slotVals0_after A d L e' p' k.val hk1' _ _ ⟨rfl, rfl⟩
  have hinE4 : ∀ x, ((lst eixV (k1_off39 k) (k1_off39_inb k hcond7)).view.read (Elt F) ((slot0 eixV).view.writes (Elt F) e' [⟨Rect.whole S512, idsPayAt d L eidV (A.eid d) (idsOff L (k.val + 1)) (idsInb L (k.val + 1) hk1')⟩]) x).toNat < S100000x128.size gathers_S100000x128_S128x128.axis :=
    fun x => by rw [od_lst_read_congr d L eixV e39 _ linb_0_0]; exact hin_e_0_0 A d L hE _ _ (k.val + 1) hk1' hSV1 x
  have hinP4 : ∀ x, ((lst pixV (k1_off39 k) (k1_off39_inb k hcond7)).view.read (Elt F) ((slot0 pixV).view.writes (Elt F) p' [⟨Rect.whole S512, idsPayAt d L pidV (A.pid d) (idsOff L (k.val + 1)) (idsInb L (k.val + 1) hk1')⟩]) x).toNat < S1000x128.size gathers_S1000x128_S128x128.axis :=
    fun x => by rw [od_lst_read_congr d L pixV e39 _ linb_0_0]; exact hin_p_0_0 A d L hP _ _ (k.val + 1) hk1' hSV1 x
  have hinE5 : ∀ x, ((lst eixV (k1_off53 k) (k1_off53_inb k hcond10)).view.read (Elt F) ((slot0 eixV).view.writes (Elt F) e' [⟨Rect.whole S512, idsPayAt d L eidV (A.eid d) (idsOff L (k.val + 1)) (idsInb L (k.val + 1) hk1')⟩]) x).toNat < S100000x128.size gathers_S100000x128_S128x128.axis :=
    fun x => by rw [od_lst_read_congr d L eixV e53 _ linb_0_128]; exact hin_e_0_128 A d L hE _ _ (k.val + 1) hk1' hSV1 x
  have hinP5 : ∀ x, ((lst pixV (k1_off53 k) (k1_off53_inb k hcond10)).view.read (Elt F) ((slot0 pixV).view.writes (Elt F) p' [⟨Rect.whole S512, idsPayAt d L pidV (A.pid d) (idsOff L (k.val + 1)) (idsInb L (k.val + 1) hk1')⟩]) x).toNat < S1000x128.size gathers_S1000x128_S128x128.axis :=
    fun x => by rw [od_lst_read_congr d L pixV e53 _ linb_0_128]; exact hin_p_0_128 A d L hP _ _ (k.val + 1) hk1' hSV1 x
  ihave Hh1 := (Entails.of_eq (od_hide_eq _).symm) $$ Hxe2
  ihave Hh2 := (Entails.of_eq (od_hide_eq _).symm) $$ Hxp2
  ihave Hh3 := (Entails.of_eq (od_hide_eq _).symm) $$ HE1
  ihave Hh4 := (Entails.of_eq (od_hide_eq _).symm) $$ HP1
  ihave Hs0e := (Entails.of_eq (show (((slot0 eixV).view.loc (thr d L) ↦[(slot0 eixV).view.set]{fullShare} ((slot0 eixV).view.writes (Elt F) e' [⟨Rect.whole S512, idsPayAt d L eidV (A.eid d) (idsOff L (k.val + 1)) (idsInb L (k.val + 1) hk1')⟩]) : sProp 𝕄))
      = ((eixV).view.loc (thr d L) ↦[Finset.univ \ (slot1 eixV).view.set]{fullShare} ((slot0 eixV).view.writes (Elt F) e' [⟨Rect.whole S512, idsPayAt d L eidV (A.eid d) (idsOff L (k.val + 1)) (idsInb L (k.val + 1) hk1')⟩])) from by rw [slot0_eq_compl_e])) $$ Hbat2_dst0
  ihave Hs0p := (Entails.of_eq (show (((slot0 pixV).view.loc (thr d L) ↦[(slot0 pixV).view.set]{fullShare} ((slot0 pixV).view.writes (Elt F) p' [⟨Rect.whole S512, idsPayAt d L pidV (A.pid d) (idsOff L (k.val + 1)) (idsInb L (k.val + 1) hk1')⟩]) : sProp 𝕄))
      = ((pixV).view.loc (thr d L) ↦[Finset.univ \ (slot1 pixV).view.set]{fullShare} ((slot0 pixV).view.writes (Elt F) p' [⟨Rect.whole S512, idsPayAt d L pidV (A.pid d) (idsOff L (k.val + 1)) (idsInb L (k.val + 1) hk1')⟩])) from by rw [slot0_eq_compl_p])) $$ Hbat2_dst1
  sl_exec_parts
  -- the last sub-step: the second half's gathers land, the ids after next are fetched into slot 1
  ihave HE1 := (Entails.of_eq (od_hide_eq _)) $$ Hh3
  ihave HP1 := (Entails.of_eq (od_hide_eq _)) $$ Hh4
  ihave Hxe3 := (Entails.of_eq (od_hide_eq _)) $$ Hh1
  ihave Hxp3 := (Entails.of_eq (od_hide_eq _)) $$ Hh2
  ihave Hh5 := (Entails.of_eq (od_hide_eq _).symm) $$ Hs0e
  ihave Hh6 := (Entails.of_eq (od_hide_eq _).symm) $$ Hs0p
  sl_exec_parts
  icases Hidr with ⟨Hre, Hrp⟩
  ihave Heid := (pointsTo_split_subset (Finset.subset_univ _)).2 $$ [Hbat2_src0 Hre]
  · isplitl [Hbat2_src0] <;> iassumption
  ihave Hpid := (pointsTo_split_subset (Finset.subset_univ _)).2 $$ [Hbat2_src1 Hrp]
  · isplitl [Hbat2_src1] <;> iassumption
  have hset42e : (((eixV).slice (Rect.unit (s := S2x512) (k1_off42 k) S1x512.size (k1_off42_inb k hcond9)) (fun _ => rfl)).squeeze S512 squeezes_S1x512_S512).view.set = Finset.univ \ (slot0 eixV).view.set :=
    (od_slot_set_congr eixV e42 (k1_off42_inb k hcond9) inb_S2x512_S1x512_1_0).trans slot1_eq_compl_e
  have hset42p : (((pixV).slice (Rect.unit (s := S2x512) (k1_off42 k) S1x512.size (k1_off42_inb k hcond9)) (fun _ => rfl)).squeeze S512 squeezes_S1x512_S512).view.set = Finset.univ \ (slot0 pixV).view.set :=
    (od_slot_set_congr pixV e42 (k1_off42_inb k hcond9) inb_S2x512_S1x512_1_0).trans slot1_eq_compl_p
  ihave Hd1 := (Entails.of_eq (show ((eixV).view.loc (thr d L) ↦[Finset.univ \ (slot0 eixV).view.set]{fullShare} e : sProp 𝕄)
      = ((((eixV).slice (Rect.unit (s := S2x512) (k1_off42 k) S1x512.size (k1_off42_inb k hcond9)) (fun _ => rfl)).squeeze S512 squeezes_S1x512_S512).view.loc (thr d L) ↦[(((eixV).slice (Rect.unit (s := S2x512) (k1_off42 k) S1x512.size (k1_off42_inb k hcond9)) (fun _ => rfl)).squeeze S512 squeezes_S1x512_S512).view.set]{fullShare} e) from by rw [hset42e])) $$ Hxe3
  ihave Hd2 := (Entails.of_eq (show ((pixV).view.loc (thr d L) ↦[Finset.univ \ (slot0 pixV).view.set]{fullShare} p : sProp 𝕄)
      = ((((pixV).slice (Rect.unit (s := S2x512) (k1_off42 k) S1x512.size (k1_off42_inb k hcond9)) (fun _ => rfl)).squeeze S512 squeezes_S1x512_S512).view.loc (thr d L) ↦[(((pixV).slice (Rect.unit (s := S2x512) (k1_off42 k) S1x512.size (k1_off42_inb k hcond9)) (fun _ => rfl)).squeeze S512 squeezes_S1x512_S512).view.set]{fullShare} p) from by rw [hset42p])) $$ Hxp3
  have hsem9 : ((SemArray.slice cc1_scratch6 (Rect.unit (s := S2) (k1_off44 k) S1.size (k1_off44_inb k hcond9))).squeeze S_ squeezes_S1_S_).sem = (9 : DmaSem sig) :=
    (od_sem6_congr e44 (k1_off44_inb k hcond9) inb_S2_S1_1).trans rfl
  have hplan : Transfers.BatchOf (thr d L) (SemLoc.dma ((SemArray.slice cc1_scratch6 (Rect.unit (s := S2) (k1_off44 k) S1.size (k1_off44_inb k hcond9))).squeeze S_ squeezes_S1_S_).sem) 2 := trivial
  ihave Hs9 := (Entails.of_eq (show (semVal (cellOf d L 9) 0 : sProp 𝕄) = semVal (thr d L, SemLoc.dma ((SemArray.slice cc1_scratch6 (Rect.unit (s := S2) (k1_off44 k) S1.size (k1_off44_inb k hcond9))).squeeze S_ squeezes_S1_S_).sem) 0 from by rw [hsem9])) $$ Hs8
  sl_exec_parts
  -- the fourth chunk's sums
  ihave Hs0e := (Entails.of_eq (od_hide_eq _)) $$ Hh5
  ihave Hs0p := (Entails.of_eq (od_hide_eq _)) $$ Hh6
  ihave Heb2 := (join1_e_of (F := F) d L restA_e _ _) $$ [Heb Heb_2]
  · isplitl [Heb] <;> iassumption
  ihave Hpb2 := (join1_p_of (F := F) d L restA_p _ _) $$ [Hpb Hpb_2]
  · isplitl [Hpb] <;> iassumption
  ihave Hob2 := (join1_o_of (F := F) d L restA_o _ _) $$ [Hob Hob_2]
  · isplitl [Hob] <;> iassumption
  iapply (Add.addLoop_sub3 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  sl_exec_parts
  sl_step
  sl_unfold_run_names
  have cs8 : ∀ s s' : DmaSem sig, s = s' → (semVal (thr d L, SemLoc.dma s) 0 : sProp 𝕄) ⊢ semVal (thr d L, SemLoc.dma s') 0 :=
    fun s s' h => by subst h; exact .rfl
  have cs9 : ∀ s s' : DmaSem sig, s = s' →
      (idsBatch A d L s (slot1 eixV) (slot1 pixV) qi (idsOff L (k.val + 1 + 1)) (idsInb L (k.val + 1 + 1) hk2') e p
          (idsPayAt d L eidV (A.eid d) (idsOff L (k.val + 1 + 1)) (idsInb L (k.val + 1 + 1) hk2')) (idsPayAt d L pidV (A.pid d) (idsOff L (k.val + 1 + 1)) (idsInb L (k.val + 1 + 1) hk2')) : sProp 𝕄)
      ⊢ idsBatch A d L s' (slot1 eixV) (slot1 pixV) qi (idsOff L (k.val + 1 + 1)) (idsInb L (k.val + 1 + 1) hk2') e p
          (idsPayAt d L eidV (A.eid d) (idsOff L (k.val + 1 + 1)) (idsInb L (k.val + 1 + 1) hk2')) (idsPayAt d L pidV (A.pid d) (idsOff L (k.val + 1 + 1)) (idsInb L (k.val + 1 + 1) hk2')) :=
    fun s s' h => by subst h; exact .rfl
  have e43 := od_off43 L k
  generalize_proofs at *
  generalize h39 : k1_off39 k = o39, h53 : k1_off53 k = o53, h38 : k1_off38 k = o38, h44 : k1_off44 k = o44, h42 : k1_off42 k = o42, h43 : k1_off43 L k = o43 at *
  subst e39 e53 e38 e44 e42 e43
  have hsem8' : ((SemArray.slice cc1_scratch6 (Rect.unit (s := S2) ![0] S1.size inb_S2_S1_0)).squeeze S_ squeezes_S1_S_).sem = (8 : DmaSem sig) := rfl
  have hsem9' : ((SemArray.slice cc1_scratch6 (Rect.unit (s := S2) ![1] S1.size inb_S2_S1_1)).squeeze S_ squeezes_S1_S_).sem = (9 : DmaSem sig) := rfl
  iexists _, _, _, _, _, _, _, _, _, _
  isplitl [HE0 HE1 HP0 HP1 Hte1 Hte2 Hsh1 Hsh2 Hs0e Hs0p Heb Hpb Hs9 Heid Hpid Hbat2 HO0_dst HO1_dst Hc0 Hc1 HO0 HO1 Hob Hr200 HO]
  · unfold oddPost
    isplitr; · iexact Hmw
    isplitl [HE0]; · iexact HE0
    isplitl [HE1]; · iexact HE1
    isplitl [HP0]; · iexact HP0
    isplitl [HP1]; · iexact HP1
    isplitl [Hte1]; · iexact Hte1
    isplitl [Hte2]; · iexact Hte2
    isplitl [Hsh1]; · iexact Hsh1
    isplitl [Hsh2]; · iexact Hsh2
    isplitl [Hs0e]; · irw [slot0_eq_compl_e]; iexact Hs0e
    isplitl [Hs0p]; · irw [slot0_eq_compl_p]; iexact Hs0p
    isplitl [Heb]; · irw [← restB_e]; iexact Heb
    isplitl [Hpb]; · irw [← restB_p]; iexact Hpb
    isplitl [Hs9]
    · iapply (cs9 _ _ hsem9')
      iexact Hs9
    isplitl [Heid Hpid]
    · isplitl [Heid]
      · iexact Heid
      · iexact Hpid
    isplitl [Hbat2]
    · iapply (cs8 _ _ hsem8')
      iexact Hbat2
    isplitl [HO0_dst]; · rw [chunkPt_eq]; iexact HO0_dst
    isplitl [HO1_dst]; · rw [chunkPt_eq]; iexact HO1_dst
    isplitl [Hc0]
    · iapply (Entails.of_eq (chunk_delivered0 A d L (4 * k.val) hc0 (k1_off13 L k 0#32) (k1_off13_inb L k 0) (od_off13 L k 0) _ _ _ _ _
        ((lst eixV ![1, 0] linb_1_0).view.read (Elt F) e) ((lst pixV ![1, 0] linb_1_0).view.read (Elt F) p) hL.1 hL.2.2.1 rfl
        ((read_piecewise_hlf0 d L ebV _ _).trans (read_write_hlf0 d L ebV _ _)) ((read_piecewise_hlf0 d L pbV _ _).trans (read_write_hlf0 d L pbV _ _))
        (ids_e_1_0 A d L e p k.val k.isLt hSV) (ids_p_1_0 A d L e p k.val k.isLt hSV)))
      iexact Hc0
    isplitl [Hc1]
    · iapply (Entails.of_eq (chunk_delivered1 A d L (4 * k.val + 1) hc1 (k1_off13 L k 1#32) (k1_off13_inb L k 1) (od_off13 L k 1) _ _ _ _ _
        ((lst eixV ![1, 128] linb_1_128).view.read (Elt F) e) ((lst pixV ![1, 128] linb_1_128).view.read (Elt F) p) hL.2.1 hL.2.2.2 rfl
        ((read_piecewise_hlf1 d L ebV _ _).trans (read_write_hlf1 d L ebV _ _)) ((read_piecewise_hlf1 d L pbV _ _).trans (read_write_hlf1 d L pbV _ _))
        (ids_e_1_128 A d L e p k.val k.isLt hSV) (ids_p_1_128 A d L e p k.val k.isLt hSV)))
      iexact Hc1
    isplitl [HO0]
    · iapply (Entails.of_eq (flight_delivered0 A d L 14 (4 * k.val + 2) hc2 (k1_off13 L k 2#32) (k1_off13_inb L k 2) (od_off13 L k 2) _ _ _ _ _
        ((lst eixV (k1_off14 k) (k1_off14_inb k hcond3)).view.read (Elt F) e) ((lst pixV (k1_off14 k) (k1_off14_inb k hcond3)).view.read (Elt F) p) hinE2 hinP2 rfl
        ((read_piecewise_hlf0 d L ebV _ _).trans (read_write_hlf0 d L ebV _ _)) ((read_piecewise_hlf0 d L pbV _ _).trans (read_write_hlf0 d L pbV _ _))
        (fun x => by rw [od_lst_read_congr d L eixV e14 _ linb_1_256]; exact ids_e_1_256 A d L e p k.val k.isLt hSV x) (fun x => by rw [od_lst_read_congr d L pixV e14 _ linb_1_256]; exact ids_p_1_256 A d L e p k.val k.isLt hSV x)))
      iexact HO0
    isplitl [HO1]
    · iapply (Entails.of_eq (flight_delivered1 A d L 15 (4 * k.val + 3) hc3 (k1_off13 L k 3#32) (k1_off13_inb L k 3) (od_off13 L k 3) _ _ _ _ _
        ((lst eixV (k1_off25 k) (k1_off25_inb k hcond5)).view.read (Elt F) e) ((lst pixV (k1_off25 k) (k1_off25_inb k hcond5)).view.read (Elt F) p) hinE3 hinP3 rfl
        ((read_piecewise_hlf1 d L ebV _ _).trans (read_write_hlf1 d L ebV _ _)) ((read_piecewise_hlf1 d L pbV _ _).trans (read_write_hlf1 d L pbV _ _))
        (fun x => by rw [od_lst_read_congr d L eixV e25 _ linb_1_384]; exact ids_e_1_384 A d L e p k.val k.isLt hSV x) (fun x => by rw [od_lst_read_congr d L pixV e25 _ linb_1_384]; exact ids_p_1_384 A d L e p k.val k.isLt hSV x)))
      iexact HO1
    isplitl [Hob]; · irw [← restB_o]; iexact Hob
    isplitl [Hr200]; · iexact Hr200
    iexact HO
  · ipureintro
    repeat (first | exact fun x hx => Or.inl hx | refine od_waits_insert ?_ rfl)

omit [FloatOps F] in
theorem od_chunk_congr (n : ℕ) (hn : n < 200) (off : Fin 2 → ℕ) (hoff : ∀ a, off a + S128x128.size a ≤ S819200x128.size a)
    (eoff : off = chunkOff L n) (f : Buf (Elt F) ((outV).view.loc (thr d L))) :
    chunkPt d L n hn f = od_chunkAt d L off hoff f := by
  subst eoff; rfl

set_option maxHeartbeats 4000000 in
/-- An odd trip 1 ≤ k ≤ 47 of the tile's loop. -/
theorem trip_odd (hE : ∀ j, (A.eid d j).toNat < 100000) (hP : ∀ j, (A.pid d j).toNat < 1000) (v2 : BitVec 32)
    (O : CellTallies nD τ sig (HIx 1)) (W : Waits sig (HIx 1))
    (k : ℕ) (hk : k < 50) (hk0 : k % 2 = 1) (hk49 : k < 49) :
    inv A d L q1 q2 r1 r2 qi O W k PUnit.unit
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 ⟨k, hk⟩ ())
          (fun _ => inv A d L q1 q2 r1 r2 qi O W (k + 1) PUnit.unit) := by
  have hk1 : 1 ≤ k := by omega
  have hk48 : k < 48 := by omega
  have hk1' : k + 1 < 50 := by omega
  have hk2' : k + 1 + 1 < 50 := by omega
  have hc0 : 4 * k < 200 := by omega
  have hc1 : 4 * k + 1 < 200 := by omega
  have hc2 : 4 * k + 2 < 200 := by omega
  have hc3 : 4 * k + 3 < 200 := by omega
  have hcm2 : 4 * k - 2 < 200 := by omega
  have hcm1 : 4 * k - 1 < 200 := by omega
  refine (open_odd A d L q1 q2 r1 r2 qi O W k hk0 hk1 hk hk1' hc0 hc1 hc2 hc3 hcm2 hcm1).trans ?_
  iintro ⟨%e, %p, %e', %p', %fe0, %fe1, %fp0, %fp1, %fo0, %fo1, %feR, %fpR, %foR, %hL, %W', %hpure, Hpre⟩
  unfold oddPre
  icases Hpre with ⟨Hmw, HE0, HE1, HP0, HP1, Hte1, Hte2, Hsh1, Hsh2, Heix, Hpix, Heb, Hpb, Hbat, Hidr, Hs8, Hc0, Hc1, Hc2, Hc3, HO0, HO1, Hob, Hrest, HO⟩
  iapply (wp_wand_r frame (wpE (defs₀ (F := F)) 𝒱₀ (thr d L) none) Set.univ)
  isplitl [Hmw HE0 HE1 HP0 HP1 Hte1 Hte2 Hsh1 Hsh2 Heix Hpix Heb Hpb Hbat Hidr Hs8 Hc0 Hc1 Hc2 Hc3 HO0 HO1 Hob Hrest HO]
  · iapply (od_run A d L q1 q2 r1 r2 qi v2 ⟨k, hk⟩ hk0 hk1 hk48 hk1' hcm2 hcm1 O W' e p e' p' fe0 fe1 fp0 fp1 fo0 fo1 feR fpR foR hL.down hpure.1
        (hin_e_1_256 A d L hE e p k hk hpure.1) (hin_e_1_384 A d L hE e p k hk hpure.1) (hin_p_1_256 A d L hP e p k hk hpure.1) (hin_p_1_384 A d L hP e p k hk hpure.1)
        hE hP hk2' hc0 hc1 hc2 hc3)
    isplitl [Hmw]; · iexact Hmw
    isplitl [HE0]; · iexact HE0
    isplitl [HE1]; · iexact HE1
    isplitl [HP0]; · iexact HP0
    isplitl [HP1]; · iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexact Heb
    isplitl [Hpb]; · iexact Hpb
    isplitl [Hbat]; · iexact Hbat
    isplitl [Hidr]; · iexact Hidr
    isplitl [Hs8]; · iexact Hs8
    isplitl [Hc0]
    · iapply (Entails.of_eq (od_chunk_congr d L (4 * k) hc0 (k1_off13 L ⟨k, hk⟩ 0#32) (k1_off13_inb L ⟨k, hk⟩ 0) (od_off13 L ⟨k, hk⟩ 0) _)); iexact Hc0
    isplitl [Hc1]
    · iapply (Entails.of_eq (od_chunk_congr d L (4 * k + 1) hc1 (k1_off13 L ⟨k, hk⟩ 1#32) (k1_off13_inb L ⟨k, hk⟩ 1) (od_off13 L ⟨k, hk⟩ 1) _)); iexact Hc1
    isplitl [Hc2]
    · iapply (Entails.of_eq (od_chunk_congr d L (4 * k + 2) hc2 (k1_off13 L ⟨k, hk⟩ 2#32) (k1_off13_inb L ⟨k, hk⟩ 2) (od_off13 L ⟨k, hk⟩ 2) _)); iexact Hc2
    isplitl [Hc3]
    · iapply (Entails.of_eq (od_chunk_congr d L (4 * k + 3) hc3 (k1_off13 L ⟨k, hk⟩ 3#32) (k1_off13_inb L ⟨k, hk⟩ 3) (od_off13 L ⟨k, hk⟩ 3) _)); iexact Hc3
    isplitl [HO0]; · iexact HO0
    isplitl [HO1]; · iexact HO1
    isplitl [Hob]; · iexact Hob
    isplitl [Hrest]; · iexact Hrest
    iexact HO
  · iintro %_ ⟨%fe0', %fe1', %fp0', %fp1', %fo0', %fo1', %feR', %fpR', %foR', %W'', Hpost, %hW''⟩
    iapply (close_odd A d L q1 q2 r1 r2 qi O W k hk0 hk1 hk1' hk2' hc0 hc1 hc2 hc3 hcm2 hcm1 _ _ e p fe0' fe1' fp0' fp1' fo0' fo1' feR' fpR' foR'
      (listsOK0_of_slotVals A d L hE hP _ _ (k + 1) hk1' (slotVals0_after A d L e' p' k hk1' _ _ ⟨rfl, rfl⟩))
      (slotVals0_after A d L e' p' k hk1' _ _ ⟨rfl, rfl⟩) W''
      (fun x hx => (hW'' x hx).elim (fun h => hpure.2 x h) Or.inr))
    iexact Hpost

end Cert.KernelIdeal.Run.Sc

end
-- ==== Proof.ScTripLast.lean ====
/-
  The last trip of the tile's loop: an odd trip in which no further ids are waited for or fetched and no further gathers
  are started, so that at its end the gathered buffers, both id slots and every share of the tables and the id arrays are
  back in hand; only the last two copy-outs are still in flight.
-/
import proofs.«204385_g66649302499670_cont_9to1c4b_43_34_alg».proof.Proof.ScTrip
import proofs.«204385_g66649302499670_cont_9to1c4b_43_34_alg».proof.Proof.AddLoop
import proofs.«204385_g66649302499670_cont_9to1c4b_43_34_alg».proof.Proof.ScHalves
import proofs.«204385_g66649302499670_cont_9to1c4b_43_34_alg».proof.Proof.ScSlots
import proofs.«204385_g66649302499670_cont_9to1c4b_43_34_alg».proof.Proof.ScBook
import proofs.«204385_g66649302499670_cont_9to1c4b_43_34_alg».proof.Proof.ScTripFoldOdd
import proofs.«204385_g66649302499670_cont_9to1c4b_43_34_alg».proof.Proof.ScTripFoldEdge
import proofs.«204385_g66649302499670_cont_9to1c4b_43_34_alg».proof.Proof.ScClose

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F] (A : Vals F) (d : Dev nD) (L : grid1.Coords)

variable [FloatOps F] (A : Vals F) (d : Dev nD) (L : grid1.Coords)

/-- A 128-row window of the result at offset `off`, held whole. -/
abbrev l_chunkAt (off : Fin 2 → ℕ) (h : ∀ a, off a + S128x128.size a ≤ S819200x128.size a) (f : Buf (Elt F) ((outV).view.loc (thr d L))) : sProp 𝕄 :=
  ((outV).slice (Rect.unit (s := S819200x128) off S128x128.size h) (fun _ => rfl)).view.loc (thr d L)
    ↦[((outV).slice (Rect.unit (s := S819200x128) off S128x128.size h) (fun _ => rfl)).view.set]{fullShare} f

omit [FloatOps F] in
/-- A list's contents do not depend on how its offset is spelt. -/
theorem l_lst_read_congr (M : Memref sig .scVector .vmem S2x512 .i32) {off off' : Fin 2 → ℕ} (h : off = off')
    (hi : ∀ a, off a + S1x128.size a ≤ S2x512.size a) (hi' : ∀ a, off' a + S1x128.size a ≤ S2x512.size a)
    (e : Buf (Elt F) (M.view.loc (thr d L))) (x : S128.Idx) :
    (lst M off hi).view.read (Elt F) e x = (lst M off' hi').view.read (Elt F) e x := by subst h; rfl

/-- A resource set aside: the executor does not read it as a held buffer. -/
def l_Hide (P : sProp 𝕄) : sProp 𝕄 := P
omit [FloatOps F] in
theorem l_hide_eq (P : sProp 𝕄) : l_Hide P = P := rfl

omit [FloatOps F] in
/-- A slot's elements do not depend on how its offset is spelt. -/
theorem l_slot_set_congr (M : Memref sig .scVector .vmem S2x512 .i32) {off off' : Fin 2 → ℕ} (h : off = off')
    (hi : ∀ a, off a + S1x512.size a ≤ S2x512.size a) (hi' : ∀ a, off' a + S1x512.size a ≤ S2x512.size a) :
    ((M.slice (Rect.unit (s := S2x512) off S1x512.size hi) (fun _ => rfl)).squeeze S512 squeezes_S1x512_S512).view.set
      = ((M.slice (Rect.unit (s := S2x512) off' S1x512.size hi') (fun _ => rfl)).squeeze S512 squeezes_S1x512_S512).view.set := by subst h; rfl

omit [FloatOps F] in
theorem l_waits_insert {W S : Waits sig (HIx 1)} {a : SemLoc sig × HIx 1} (h : ∀ x ∈ S, x ∈ W ∨ x.2 = none) (ha : a.2 = none) :
    ∀ x ∈ insert a S, x ∈ W ∨ x.2 = none := by
  intro x hx
  rcases Finset.mem_insert.mp hx with rfl | hx
  · exact Or.inr ha
  · exact h x hx

omit [FloatOps F] in
theorem l_off43 (k : Fin k1_t1_loop.trips) : k1_off43 L k = idsOff L (k.val + 1 + 1) := by
  rw [k1_off43_eq]
  unfold idsOff
  exact congrArg (fun x : ℕ => (![x] : Fin 1 → ℕ)) (by omega)

omit [FloatOps F] in
theorem l_off13 (k : Fin k1_t1_loop.trips) (r : Fin 4) : k1_off13 L k (BitVec.ofNat 32 r.val) = chunkOff L (4 * k.val + r.val) := by
  rw [k1_off13_eq]; unfold chunkOff
  refine funext fun a => ?_
  match a with
  | 0 => show 51200 * (L 1).val + 25600 * (L 0).val + 512 * k.val + 128 * r.val = 51200 * (L 1).val + 25600 * (L 0).val + 128 * (4 * k.val + r.val); omega
  | 1 => rfl

omit [FloatOps F] in
/-- A cell of the id semaphores does not depend on how its index is spelt. -/
theorem l_sem6_congr {off off' : Fin 1 → ℕ} (h : off = off') (hi : ∀ a, off a + S1.size a ≤ S2.size a) (hi' : ∀ a, off' a + S1.size a ≤ S2.size a) :
    ((SemArray.slice cc1_scratch6 (Rect.unit (s := S2) off S1.size hi)).squeeze S_ squeezes_S1_S_).sem
      = ((SemArray.slice cc1_scratch6 (Rect.unit (s := S2) off' S1.size hi')).squeeze S_ squeezes_S1_S_).sem := by subst h; rfl

variable (q1 q2 r1 r2 qi : PosShare TreeShare)

omit [FloatOps F] in
/-- A row buffer's second half and the buffer off that half, joined: the buffer whole. -/
theorem l_join_whole (M : Memref sig .scVector .vmem S2x128x128 .f32) (hM : M.IsWhole) (f g : Buf (Elt F) (M.view.loc (thr d L))) :
    iprop((M.view.loc (thr d L) ↦[(hlf1 M).view.set]{fullShare} g) ∗ (M.view.loc (thr d L) ↦[M.view.set \ (half1 M).view.set]{fullShare} f))
      ⊢ (M.view.loc (thr d L) ↦[Finset.univ]{fullShare} ((hlf1 M).view.set.piecewise g f) : sProp 𝕄) := by
  have hs : (hlf1 M).view.set ⊆ M.view.set := by rw [hM.set_eq_univ]; exact Finset.subset_univ _
  have h : iprop((M.view.loc (thr d L) ↦[(hlf1 M).view.set]{fullShare} g) ∗ (M.view.loc (thr d L) ↦[M.view.set \ (hlf1 M).view.set]{fullShare} f))
      ⊢ (M.view.loc (thr d L) ↦[M.view.set]{fullShare} ((hlf1 M).view.set.piecewise g f) : sProp 𝕄) := pointsTo_join_subset hs
  rw [hM.set_eq_univ] at h ⊢
  exact h

set_option maxHeartbeats 4000000 in
theorem l_run (v2 : BitVec 32) (k : Fin k1_t1_loop.trips) (hk0 : k.val % 2 = 1) (hk1 : 1 ≤ k.val) (hlast : ¬ k.val + 1 < 50)
    (hcm2 : 4 * k.val - 2 < 200) (hcm1 : 4 * k.val - 1 < 200)
    (O : CellTallies nD τ sig (HIx 1)) (W : Waits sig (HIx 1))
    (e : Buf (Elt F) ((eixV).view.loc (thr d L))) (p : Buf (Elt F) ((pixV).view.loc (thr d L)))
    (e' : Buf (Elt F) ((eixV).view.loc (thr d L))) (p' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK1 d L e p) (hSV : SlotVals1 A d L e p k.val k.isLt)
    (hE2 : ∀ x, ((lst eixV ![1, 256] linb_1_256).view.read (Elt F) e x).toNat < S100000x128.size gathers_S100000x128_S128x128.axis)
    (hE3 : ∀ x, ((lst eixV ![1, 384] linb_1_384).view.read (Elt F) e x).toNat < S100000x128.size gathers_S100000x128_S128x128.axis)
    (hP2 : ∀ x, ((lst pixV ![1, 256] linb_1_256).view.read (Elt F) p x).toNat < S1000x128.size gathers_S1000x128_S128x128.axis)
    (hP3 : ∀ x, ((lst pixV ![1, 384] linb_1_384).view.read (Elt F) p x).toNat < S1000x128.size gathers_S1000x128_S128x128.axis)
    (hE : ∀ j : S819200.Idx, (A.eid d j).toNat < 100000) (hP : ∀ j : S819200.Idx, (A.pid d j).toNat < 1000)
    (hc0 : 4 * k.val < 200) (hc1 : 4 * k.val + 1 < 200) (hc2 : 4 * k.val + 2 < 200) (hc3 : 4 * k.val + 3 < 200) :
    iprop(Transfers.MayWaits (thr d L) (default : HIx 1) O
        ∗ flightE A d L 10 (hlf0 ebV) (lst eixV ![1, 0] linb_1_0) q1 fe0 e hL.1
        ∗ flightE A d L 11 (hlf1 ebV) (lst eixV ![1, 128] linb_1_128) q2 fe1 e hL.2.1
        ∗ flightP A d L 12 (hlf0 pbV) (lst pixV ![1, 0] linb_1_0) r1 fp0 p hL.2.2.1
        ∗ flightP A d L 13 (hlf1 pbV) (lst pixV ![1, 128] linb_1_128) r2 fp1 p hL.2.2.2
        ∗ teRest A d L q1 ∗ teRest A d L q2 ∗ shRest A d L r1 ∗ shRest A d L r2
        ∗ ((slot1 eixV).view.loc (thr d L)
              ↦[((slot1 eixV).view.set \ (lst eixV ![1, 0] linb_1_0).view.set) \ (lst eixV ![1, 128] linb_1_128).view.set]{fullShare} e)
        ∗ ((slot1 pixV).view.loc (thr d L)
              ↦[((slot1 pixV).view.set \ (lst pixV ![1, 0] linb_1_0).view.set) \ (lst pixV ![1, 128] linb_1_128).view.set]{fullShare} p)
        ∗ ((ebV).view.loc (thr d L) ↦[(Finset.univ \ (hlf0 ebV).view.set) \ (hlf1 ebV).view.set]{fullShare} feR)
        ∗ ((pbV).view.loc (thr d L) ↦[(Finset.univ \ (hlf0 pbV).view.set) \ (hlf1 pbV).view.set]{fullShare} fpR)
        ∗ ((eidV).view.loc (thr d L) ↦{qi} A.eid d) ∗ ((pidV).view.loc (thr d L) ↦{qi} A.pid d)
        ∗ ((slot0 eixV).view.loc (thr d L) ↦[(slot0 eixV).view.set]{fullShare} e') ∗ ((slot0 pixV).view.loc (thr d L) ↦[(slot0 pixV).view.set]{fullShare} p')
        ∗ semVal (cellOf d L 8) 0 ∗ semVal (cellOf d L 9) 0
        ∗ l_chunkAt d L (k1_off13 L k 0#32) (k1_off13_inb L k 0) (A.out0 d)
        ∗ l_chunkAt d L (k1_off13 L k 1#32) (k1_off13_inb L k 1) (A.out0 d)
        ∗ l_chunkAt d L (k1_off13 L k 2#32) (k1_off13_inb L k 2) (A.out0 d)
        ∗ l_chunkAt d L (k1_off13 L k 3#32) (k1_off13_inb L k 3) (A.out0 d)
        ∗ flightO A d L 14 (hlf0 obV) (4 * k.val - 2) hcm2 fo0
        ∗ flightO A d L 15 (hlf1 obV) (4 * k.val - 1) hcm1 fo1
        ∗ ((obV).view.loc (thr d L) ↦[(Finset.univ \ (hlf0 obV).view.set) \ (hlf1 obV).view.set]{fullShare} foR)
        ∗ rest200 A d L k.val
        ∗ owes (thr d L) O W)
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 k ())
          (fun _ => iprop(∃ (feW : Buf (Elt F) ((ebV).view.loc (thr d L))) (fpW : Buf (Elt F) ((pbV).view.loc (thr d L)))
              (fo0' : Buf (Elt F) ((hlf0 obV).view.loc (thr d L))) (fo1' : Buf (Elt F) ((hlf1 obV).view.loc (thr d L)))
              (foR' : Buf (Elt F) ((obV).view.loc (thr d L))) (W'' : Waits sig (HIx 1)),
              lastOddPost A d L q1 q2 r1 r2 qi O k.val hc0 hc1 hc2 hc3 hcm2 hcm1 e' p' e p feW fpW fo0' fo1' foR' W''
              ∗ ⌜∀ x ∈ W'', x ∈ W ∨ x.2 = none⌝)) := by
  have hcond2 : k1_cond2 k = 1#1 := (cond2_iff k).mpr hk1
  have hcond3 := cond3_true k
  have hcond4 : k1_cond4 k = 1#1 := (cond4_iff k).mpr hk1
  have hcond5 := cond5_true k
  have hcond6 := cond6_true k
  have hkl := k.isLt
  have hcond7 : ¬ k1_cond7 k = 1#1 := fun h => by have := (cond7_iff k).mp h; omega
  have hcond8 := cond8_true k
  have hcond9 : ¬ k1_cond9 k = 1#1 := fun h => by have := (cond9_iff k).mp h; omega
  have hcond10 : ¬ k1_cond10 k = 1#1 := fun h => by have := (cond10_iff k).mp h; omega
  have e14 : k1_off14 k = ![1, 256] := by rw [off14_eq, hk0]
  have e25 : k1_off25 k = ![1, 384] := by rw [off25_eq, hk0]
  have hk0' : (k.val + 1) % 2 = 0 := by omega
  have e36 : k1_off36 k = ![0, 0] := by rw [off36_eq, hk0']
  have e38 : k1_off38 k = ![0] := by rw [off38_eq, hk0']
  have e39 : k1_off39 k = ![0, 0] := by rw [off39_eq, hk0']
  have e42 : k1_off42 k = ![1, 0] := by rw [off42_eq, hk0]
  have e44 : k1_off44 k = ![1] := by rw [off44_eq, hk0]
  have e53 : k1_off53 k = ![0, 128] := by rw [off53_eq, hk0']
  letI : ClosedOff (k1_off14 k) := ⟨![1, 256], e14⟩
  letI : ClosedOff (k1_off25 k) := ⟨![1, 384], e25⟩
  letI : ClosedOff (k1_off36 k) := ⟨![0, 0], e36⟩
  letI : ClosedOff (k1_off38 k) := ⟨![0], e38⟩
  letI : ClosedOff (k1_off39 k) := ⟨![0, 0], e39⟩
  letI : ClosedOff (k1_off42 k) := ⟨![1, 0], e42⟩
  letI : ClosedOff (k1_off44 k) := ⟨![1], e44⟩
  letI : ClosedOff (k1_off53 k) := ⟨![0, 128], e53⟩
  have hinE2 : ∀ x, ((lst eixV (k1_off14 k) (k1_off14_inb k hcond3)).view.read (Elt F) e x).toNat < S100000x128.size gathers_S100000x128_S128x128.axis :=
    fun x => by rw [l_lst_read_congr d L eixV e14 _ linb_1_256]; exact hE2 x
  have hinP2 : ∀ x, ((lst pixV (k1_off14 k) (k1_off14_inb k hcond3)).view.read (Elt F) p x).toNat < S1000x128.size gathers_S1000x128_S128x128.axis :=
    fun x => by rw [l_lst_read_congr d L pixV e14 _ linb_1_256]; exact hP2 x
  have hinE3 : ∀ x, ((lst eixV (k1_off25 k) (k1_off25_inb k hcond5)).view.read (Elt F) e x).toNat < S100000x128.size gathers_S100000x128_S128x128.axis :=
    fun x => by rw [l_lst_read_congr d L eixV e25 _ linb_1_384]; exact hE3 x
  have hinP3 : ∀ x, ((lst pixV (k1_off25 k) (k1_off25_inb k hcond5)).view.read (Elt F) p x).toNat < S1000x128.size gathers_S1000x128_S128x128.axis :=
    fun x => by rw [l_lst_read_congr d L pixV e25 _ linb_1_384]; exact hP3 x
  unfold k1_t1_body
  iintro ⟨#Hmw, HE0, HE1, HP0, HP1, Hte1, Hte2, Hsh1, Hsh2, Heix, Hpix, Heb, Hpb, Heid, Hpid, Hs0e, Hs0p, Hs8, Hs9, Hc0, Hc1, Hc2, Hc3, HO0, HO1, Hob, Hr200, HO⟩
  ihave Hxe := (Entails.of_eq (show (((slot1 eixV).view.loc (thr d L)
        ↦[((slot1 eixV).view.set \ (lst eixV ![1, 0] linb_1_0).view.set) \ (lst eixV ![1, 128] linb_1_128).view.set]{fullShare} e : sProp 𝕄))
      = ((eixV).view.loc (thr d L)
        ↦[((Finset.univ \ (slot0 eixV).view.set) \ (lst eixV ![1, 0] linb_1_0).view.set) \ (lst eixV ![1, 128] linb_1_128).view.set]{fullShare} e) from by
          rw [slot1_eq_compl_e])) $$ Heix
  ihave Hxp := (Entails.of_eq (show (((slot1 pixV).view.loc (thr d L)
        ↦[((slot1 pixV).view.set \ (lst pixV ![1, 0] linb_1_0).view.set) \ (lst pixV ![1, 128] linb_1_128).view.set]{fullShare} p : sProp 𝕄))
      = ((pixV).view.loc (thr d L)
        ↦[((Finset.univ \ (slot0 pixV).view.set) \ (lst pixV ![1, 0] linb_1_0).view.set) \ (lst pixV ![1, 128] linb_1_128).view.set]{fullShare} p) from by
          rw [slot1_eq_compl_p])) $$ Hpix
  sl_exec_parts
  -- the first chunk's sums
  ihave Heb2 := (join0_e (F := F) d L _ _) $$ [Heb HE0_dst]
  · isplitl [Heb] <;> iassumption
  ihave Hpb2 := (join0_p (F := F) d L _ _) $$ [Hpb HP0_dst]
  · isplitl [Hpb] <;> iassumption
  ihave Hob2 := (join0_o (F := F) d L _ _) $$ [Hob HO0_src]
  · isplitl [Hob] <;> iassumption
  iapply (Add.addLoop_sub0 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Hxe1 := (Entails.of_eq (show (((lst eixV ![1, 0] linb_1_0).view.loc (thr d L) ↦[(Finset.univ \ (slot0 eixV).view.set) \ (lst eixV ![1, 128] linb_1_128).view.set]{fullShare} e : sProp 𝕄))
      = ((eixV).view.loc (thr d L) ↦[(Finset.univ \ (slot0 eixV).view.set) \ (lst eixV ![1, 128] linb_1_128).view.set]{fullShare} e) from rfl)) $$ Hxe
  ihave Hxp1 := (Entails.of_eq (show (((lst pixV ![1, 0] linb_1_0).view.loc (thr d L) ↦[(Finset.univ \ (slot0 pixV).view.set) \ (lst pixV ![1, 128] linb_1_128).view.set]{fullShare} p : sProp 𝕄))
      = ((pixV).view.loc (thr d L) ↦[(Finset.univ \ (slot0 pixV).view.set) \ (lst pixV ![1, 128] linb_1_128).view.set]{fullShare} p) from rfl)) $$ Hxp
  sl_exec_parts
  -- the second chunk's sums
  ihave Heb2 := (join1_e_of (F := F) d L restA_e _ _) $$ [Heb HE1_dst]
  · isplitl [Heb] <;> iassumption
  ihave Hpb2 := (join1_p_of (F := F) d L restA_p _ _) $$ [Hpb HP1_dst]
  · isplitl [Hpb] <;> iassumption
  ihave Hob2 := (join1_o_of (F := F) d L restA_o _ _) $$ [Hob HO1_src]
  · isplitl [Hob] <;> iassumption
  iapply (Add.addLoop_sub1 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Hxe2 := (Entails.of_eq (show (((lst eixV ![1, 128] linb_1_128).view.loc (thr d L) ↦[(Finset.univ \ (slot0 eixV).view.set) \ (lst eixV (k1_off14 k) (k1_off14_inb k hcond3)).view.set]{fullShare} e : sProp 𝕄))
      = ((eixV).view.loc (thr d L) ↦[(Finset.univ \ (slot0 eixV).view.set) \ (lst eixV (k1_off14 k) (k1_off14_inb k hcond3)).view.set]{fullShare} e) from rfl)) $$ Hxe1
  ihave Hxp2 := (Entails.of_eq (show (((lst pixV ![1, 128] linb_1_128).view.loc (thr d L) ↦[(Finset.univ \ (slot0 pixV).view.set) \ (lst pixV (k1_off14 k) (k1_off14_inb k hcond3)).view.set]{fullShare} p : sProp 𝕄))
      = ((pixV).view.loc (thr d L) ↦[(Finset.univ \ (slot0 pixV).view.set) \ (lst pixV (k1_off14 k) (k1_off14_inb k hcond3)).view.set]{fullShare} p) from rfl)) $$ Hxp1
  sl_exec_parts
  -- the third chunk's sums
  ihave Heb2 := (join0_e_of (F := F) d L restB_e _ _) $$ [Heb Heb_2]
  · isplitl [Heb] <;> iassumption
  ihave Hpb2 := (join0_p_of (F := F) d L restB_p _ _) $$ [Hpb Hpb_2]
  · isplitl [Hpb] <;> iassumption
  ihave Hob2 := (join0_o_of (F := F) d L restB_o _ _) $$ [Hob Hob_2]
  · isplitl [Hob] <;> iassumption
  iapply (Add.addLoop_sub2 (F := F) d L v2 k _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  sl_exec_parts
  -- the fourth chunk's sums
  ihave Heb2 := (l_join_whole (F := F) d L ebV (Memref.isWhole_whole _) _ _) $$ [Heb_2 Heb]
  · isplitl [Heb_2] <;> iassumption
  ihave Hpb2 := (l_join_whole (F := F) d L pbV (Memref.isWhole_whole _) _ _) $$ [Hpb_2 Hpb]
  · isplitl [Hpb_2] <;> iassumption
  ihave Hob2 := (join1_o_of (F := F) d L restA_o _ _) $$ [Hob Hob_2]
  · isplitl [Hob] <;> iassumption
  iapply (Add.addLoop_sub3 (F := F) d L v2 k _ _ _ _ _ (Or.inl rfl) (Or.inl rfl) (Or.inr rfl) _ _ _ _ _)
  isplitl [Heb2]; · iexact Heb2
  isplitl [Hpb2]; · iexact Hpb2
  isplitl [Hob2]; · iexact Hob2
  iintro ⟨Heb, Hpb, Hob⟩
  sl_exec_parts
  sl_step
  sl_unfold_run_names
  iexists _, _, _, _, _, _
  isplitl [HE0 HE1 HP0 HP1 Hte1 Hte2 Hsh1 Hsh2 Hs0e Hs0p Heb Hpb Heid Hpid Hxe2 Hxp2 Hs8 Hs9 HO0_dst HO1_dst Hc0 Hc1 HO0 HO1 Hob Hr200 HO]
  · unfold lastOddPost
    isplitr; · iexact Hmw
    isplitl [Hte1]; · iexact Hte1
    isplitl [Hte2]; · iexact Hte2
    isplitl [Hsh1]; · iexact Hsh1
    isplitl [Hsh2]; · iexact Hsh2
    isplitl [Hs0e]; · iexact Hs0e
    isplitl [Hs0p]; · iexact Hs0p
    isplitl [Heb]; · iexact Heb
    isplitl [Hpb]; · iexact Hpb
    isplitl [HE0]; · iexact HE0
    isplitl [HE1]; · iexact HE1
    isplitl [HP0]; · iexact HP0
    isplitl [HP1]; · iexact HP1
    isplitl [Heid]; · iexact Heid
    isplitl [Hpid]; · iexact Hpid
    isplitl [Hxe2]; · irw [slot1_eq_compl_e]; iexact Hxe2
    isplitl [Hxp2]; · irw [slot1_eq_compl_p]; iexact Hxp2
    isplitl [Hs8]; · iexact Hs8
    isplitl [Hs9]; · iexact Hs9
    isplitl [HO0_dst]; · rw [chunkPt_eq]; iexact HO0_dst
    isplitl [HO1_dst]; · rw [chunkPt_eq]; iexact HO1_dst
    isplitl [Hc0]
    · iapply (Entails.of_eq (chunk_delivered0 A d L (4 * k.val) hc0 (k1_off13 L k 0#32) (k1_off13_inb L k 0) (l_off13 L k 0) _ _ _ _ _
        ((lst eixV ![1, 0] linb_1_0).view.read (Elt F) e) ((lst pixV ![1, 0] linb_1_0).view.read (Elt F) p) hL.1 hL.2.2.1 rfl
        ((read_piecewise_hlf0 d L ebV _ _).trans (read_write_hlf0 d L ebV _ _)) ((read_piecewise_hlf0 d L pbV _ _).trans (read_write_hlf0 d L pbV _ _))
        (ids_e_1_0 A d L e p k.val k.isLt hSV) (ids_p_1_0 A d L e p k.val k.isLt hSV)))
      iexact Hc0
    isplitl [Hc1]
    · iapply (Entails.of_eq (chunk_delivered1 A d L (4 * k.val + 1) hc1 (k1_off13 L k 1#32) (k1_off13_inb L k 1) (l_off13 L k 1) _ _ _ _ _
        ((lst eixV ![1, 128] linb_1_128).view.read (Elt F) e) ((lst pixV ![1, 128] linb_1_128).view.read (Elt F) p) hL.2.1 hL.2.2.2 rfl
        ((read_piecewise_hlf1 d L ebV _ _).trans (read_write_hlf1 d L ebV _ _)) ((read_piecewise_hlf1 d L pbV _ _).trans (read_write_hlf1 d L pbV _ _))
        (ids_e_1_128 A d L e p k.val k.isLt hSV) (ids_p_1_128 A d L e p k.val k.isLt hSV)))
      iexact Hc1
    isplitl [HO0]
    · iapply (Entails.of_eq (flight_delivered0 A d L 14 (4 * k.val + 2) hc2 (k1_off13 L k 2#32) (k1_off13_inb L k 2) (l_off13 L k 2) _ _ _ _ _
        ((lst eixV (k1_off14 k) (k1_off14_inb k hcond3)).view.read (Elt F) e) ((lst pixV (k1_off14 k) (k1_off14_inb k hcond3)).view.read (Elt F) p) hinE2 hinP2 rfl
        ((read_piecewise_hlf0 d L ebV _ _).trans (read_write_hlf0 d L ebV _ _)) ((read_piecewise_hlf0 d L pbV _ _).trans (read_write_hlf0 d L pbV _ _))
        (fun x => by rw [l_lst_read_congr d L eixV e14 _ linb_1_256]; exact ids_e_1_256 A d L e p k.val k.isLt hSV x) (fun x => by rw [l_lst_read_congr d L pixV e14 _ linb_1_256]; exact ids_p_1_256 A d L e p k.val k.isLt hSV x)))
      iexact HO0
    isplitl [HO1]
    · iapply (Entails.of_eq (flight_delivered1 A d L 15 (4 * k.val + 3) hc3 (k1_off13 L k 3#32) (k1_off13_inb L k 3) (l_off13 L k 3) _ _ _ _ _
        ((lst eixV (k1_off25 k) (k1_off25_inb k hcond5)).view.read (Elt F) e) ((lst pixV (k1_off25 k) (k1_off25_inb k hcond5)).view.read (Elt F) p) hinE3 hinP3 rfl
        ((read_piecewise_hlf1 d L ebV _ _).trans (read_write_hlf1 d L ebV _ _)) ((read_piecewise_hlf1 d L pbV _ _).trans (read_write_hlf1 d L pbV _ _))
        (fun x => by rw [l_lst_read_congr d L eixV e25 _ linb_1_384]; exact ids_e_1_384 A d L e p k.val k.isLt hSV x) (fun x => by rw [l_lst_read_congr d L pixV e25 _ linb_1_384]; exact ids_p_1_384 A d L e p k.val k.isLt hSV x)))
      iexact HO1
    isplitl [Hob]; · irw [← restB_o]; iexact Hob
    isplitl [Hr200]; · iexact Hr200
    iexact HO
  · ipureintro
    repeat (first | exact fun x hx => Or.inl hx | refine l_waits_insert ?_ rfl)

omit [FloatOps F] in
theorem l_chunk_congr (n : ℕ) (hn : n < 200) (off : Fin 2 → ℕ) (hoff : ∀ a, off a + S128x128.size a ≤ S819200x128.size a)
    (eoff : off = chunkOff L n) (f : Buf (Elt F) ((outV).view.loc (thr d L))) :
    chunkPt d L n hn f = l_chunkAt d L off hoff f := by
  subst eoff; rfl

set_option maxHeartbeats 4000000 in
/-- THE LAST TRIP of the tile's loop (k = 49): no further ids are waited for or fetched, no further gathers are started. -/
theorem trip_last (hE : ∀ j, (A.eid d j).toNat < 100000) (hP : ∀ j, (A.pid d j).toNat < 1000) (v2 : BitVec 32)
    (O : CellTallies nD τ sig (HIx 1)) (W : Waits sig (HIx 1))
    (k : ℕ) (hk : k < 50) (hk0 : k % 2 = 1) (hk49 : 49 ≤ k) :
    inv A d L q1 q2 r1 r2 qi O W k PUnit.unit
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 ⟨k, hk⟩ ())
          (fun _ => inv A d L q1 q2 r1 r2 qi O W (k + 1) PUnit.unit) := by
  have hk1 : 1 ≤ k := by omega
  have hlast : ¬ k + 1 < 50 := by omega
  have hc0 : 4 * k < 200 := by omega
  have hc1 : 4 * k + 1 < 200 := by omega
  have hc2 : 4 * k + 2 < 200 := by omega
  have hc3 : 4 * k + 3 < 200 := by omega
  have hcm2 : 4 * k - 2 < 200 := by omega
  have hcm1 : 4 * k - 1 < 200 := by omega
  refine (open_lastOdd A d L q1 q2 r1 r2 qi O W k hk0 hk1 hk hlast hc0 hc1 hc2 hc3 hcm2 hcm1).trans ?_
  iintro ⟨%e, %p, %e', %p', %fe0, %fe1, %fp0, %fp1, %fo0, %fo1, %feR, %fpR, %foR, %hL, %W', %hpure, Hpre⟩
  unfold lastOddPre
  icases Hpre with ⟨Hmw, HE0, HE1, HP0, HP1, Hte1, Hte2, Hsh1, Hsh2, Heix, Hpix, Heb, Hpb, Heid, Hpid, Hs0e, Hs0p, Hs8, Hs9, Hc0, Hc1, Hc2, Hc3, HO0, HO1, Hob, Hrest, HO⟩
  iapply (wp_wand_r frame (wpE (defs₀ (F := F)) 𝒱₀ (thr d L) none) Set.univ)
  isplitl [Hmw HE0 HE1 HP0 HP1 Hte1 Hte2 Hsh1 Hsh2 Heix Hpix Heb Hpb Heid Hpid Hs0e Hs0p Hs8 Hs9 Hc0 Hc1 Hc2 Hc3 HO0 HO1 Hob Hrest HO]
  · iapply (l_run A d L q1 q2 r1 r2 qi v2 ⟨k, hk⟩ hk0 hk1 hlast hcm2 hcm1 O W' e p e' p' fe0 fe1 fp0 fp1 fo0 fo1 feR fpR foR hL.down hpure.1
        (hin_e_1_256 A d L hE e p k hk hpure.1) (hin_e_1_384 A d L hE e p k hk hpure.1) (hin_p_1_256 A d L hP e p k hk hpure.1) (hin_p_1_384 A d L hP e p k hk hpure.1)
        hE hP hc0 hc1 hc2 hc3)
    isplitl [Hmw]; · iexact Hmw
    isplitl [HE0]; · iexact HE0
    isplitl [HE1]; · iexact HE1
    isplitl [HP0]; · iexact HP0
    isplitl [HP1]; · iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexact Heb
    isplitl [Hpb]; · iexact Hpb
    isplitl [Heid]; · iexact Heid
    isplitl [Hpid]; · iexact Hpid
    isplitl [Hs0e]; · iexact Hs0e
    isplitl [Hs0p]; · iexact Hs0p
    isplitl [Hs8]; · iexact Hs8
    isplitl [Hs9]; · iexact Hs9
    isplitl [Hc0]
    · iapply (Entails.of_eq (l_chunk_congr d L (4 * k) hc0 (k1_off13 L ⟨k, hk⟩ 0#32) (k1_off13_inb L ⟨k, hk⟩ 0) (l_off13 L ⟨k, hk⟩ 0) _)); iexact Hc0
    isplitl [Hc1]
    · iapply (Entails.of_eq (l_chunk_congr d L (4 * k + 1) hc1 (k1_off13 L ⟨k, hk⟩ 1#32) (k1_off13_inb L ⟨k, hk⟩ 1) (l_off13 L ⟨k, hk⟩ 1) _)); iexact Hc1
    isplitl [Hc2]
    · iapply (Entails.of_eq (l_chunk_congr d L (4 * k + 2) hc2 (k1_off13 L ⟨k, hk⟩ 2#32) (k1_off13_inb L ⟨k, hk⟩ 2) (l_off13 L ⟨k, hk⟩ 2) _)); iexact Hc2
    isplitl [Hc3]
    · iapply (Entails.of_eq (l_chunk_congr d L (4 * k + 3) hc3 (k1_off13 L ⟨k, hk⟩ 3#32) (k1_off13_inb L ⟨k, hk⟩ 3) (l_off13 L ⟨k, hk⟩ 3) _)); iexact Hc3
    isplitl [HO0]; · iexact HO0
    isplitl [HO1]; · iexact HO1
    isplitl [Hob]; · iexact Hob
    isplitl [Hrest]; · iexact Hrest
    iexact HO
  · iintro %_ ⟨%feW, %fpW, %fo0', %fo1', %foR', %W'', Hpost, %hW''⟩
    iapply (close_lastOdd A d L q1 q2 r1 r2 qi O W k hk0 hk1 hk hlast hc0 hc1 hc2 hc3 hcm2 hcm1 e' p' e p feW fpW fo0' fo1' foR' W''
      (fun x hx => (hW'' x hx).elim (fun h => hpure.2 x h) Or.inr))
    iexact Hpost

end Cert.KernelIdeal.Run.Sc

end
-- ==== Proof.ScTripFoldZero.lean ====
/-
  The first trip's closing with the trip number kept as a variable known to be 0, for a run that is stated over a variable
  trip.
-/
import proofs.«204385_g66649302499670_cont_9to1c4b_43_34_alg».proof.Proof.ScTripFoldEdge

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F] (A : Vals F) (d : Dev nD) (L : grid1.Coords)

variable (q1 q2 r1 r2 qi : PosShare TreeShare)

/-- What the first trip's run ends with, the trip number `k` a variable: an even trip's, without the two chunks a later
    trip's drains hand back. -/
def zeroPostK (O : CellTallies nD τ sig (HIx 1)) (k : ℕ) (hk2' : k + 1 + 1 < 50) (hc0 : 4 * k < 200) (hc1 : 4 * k + 1 < 200) (hc2 : 4 * k + 2 < 200) (hc3 : 4 * k + 3 < 200)
    (e1 : Buf (Elt F) ((eixV).view.loc (thr d L))) (p1 : Buf (Elt F) ((pixV).view.loc (thr d L))) (e'' : Buf (Elt F) ((eixV).view.loc (thr d L))) (p'' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L))) (hL : ListsOK1 d L e1 p1) (W' : Waits sig (HIx 1)) : sProp 𝕄 :=
  iprop(Transfers.MayWaits (thr d L) (default : HIx 1) O
    ∗ flightE A d L 10 (hlf0 ebV) (lst eixV ![1, 0] linb_1_0) q1 fe0 e1 hL.1
    ∗ flightE A d L 11 (hlf1 ebV) (lst eixV ![1, 128] linb_1_128) q2 fe1 e1 hL.2.1
    ∗ flightP A d L 12 (hlf0 pbV) (lst pixV ![1, 0] linb_1_0) r1 fp0 p1 hL.2.2.1
    ∗ flightP A d L 13 (hlf1 pbV) (lst pixV ![1, 128] linb_1_128) r2 fp1 p1 hL.2.2.2
    ∗ teRest A d L q1
    ∗ teRest A d L q2
    ∗ shRest A d L r1
    ∗ shRest A d L r2
    ∗ ((slot1 eixV).view.loc (thr d L) ↦[((slot1 eixV).view.set \ (lst eixV ![1, 0] linb_1_0).view.set) \ (lst eixV ![1, 128] linb_1_128).view.set]{fullShare} e1)
    ∗ ((slot1 pixV).view.loc (thr d L) ↦[((slot1 pixV).view.set \ (lst pixV ![1, 0] linb_1_0).view.set) \ (lst pixV ![1, 128] linb_1_128).view.set]{fullShare} p1)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ idsBatch A d L (8 : DmaSem sig) (slot0 eixV) (slot0 pixV) qi (idsOff L (k + 1 + 1)) (idsInb L (k + 1 + 1) hk2') e'' p''
        (idsPayAt d L eidV (A.eid d) (idsOff L (k + 1 + 1)) (idsInb L (k + 1 + 1) hk2')) (idsPayAt d L pidV (A.pid d) (idsOff L (k + 1 + 1)) (idsInb L (k + 1 + 1) hk2'))
    ∗ idsRest A d L qi (idsOff L (k + 1 + 1)) (idsInb L (k + 1 + 1) hk2')
    ∗ semVal (cellOf d L 9) 0
    ∗ chunkPt d L (4 * k) hc0 (outFin A d)
    ∗ chunkPt d L (4 * k + 1) hc1 (outFin A d)
    ∗ flightO A d L 14 (hlf0 obV) (4 * k + 2) hc2 fo0
    ∗ flightO A d L 15 (hlf1 obV) (4 * k + 3) hc3 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- CLOSING the first trip, the trip number a variable. -/
theorem close_zeroK (O : CellTallies nD τ sig (HIx 1)) (W : Waits sig (HIx 1)) (k : ℕ) (hkz : k = 0) (hk50 : k + 1 < 50) (hk2' : k + 1 + 1 < 50)
    (hc0 : 4 * k < 200) (hc1 : 4 * k + 1 < 200) (hc2 : 4 * k + 2 < 200) (hc3 : 4 * k + 3 < 200)
    (e1 : Buf (Elt F) ((eixV).view.loc (thr d L))) (p1 : Buf (Elt F) ((pixV).view.loc (thr d L))) (e'' : Buf (Elt F) ((eixV).view.loc (thr d L))) (p'' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L))) (hL : ListsOK1 d L e1 p1) (hSV : SlotVals1 A d L e1 p1 (k + 1) hk50) (W' : Waits sig (HIx 1)) (hW' : ∀ x ∈ W', x ∈ W ∨ x.2 = none) :
    zeroPostK A d L q1 q2 r1 r2 qi O k hk2' hc0 hc1 hc2 hc3 e1 p1 e'' p'' fe0 fe1 fp0 fp1 fo0 fo1 feR fpR foR hL W'
      ⊢ inv A d L q1 q2 r1 r2 qi O W (k + 1) PUnit.unit := by
  subst hkz
  exact close_zero A d L q1 q2 r1 r2 qi O W hk50 hk2' hc0 hc1 hc2 hc3 e1 p1 e'' p'' fe0 fe1 fp0 fp1 fo0 fo1 feR fpR foR hL hSV W' hW'

end Cert.KernelIdeal.Run.Sc

end
-- ==== Proof.ScTripZero.lean ====
/-
  The first trip of the tile's loop: nothing is in flight out of the sum buffer yet, so no copy-out is drained before the
  first two add loops and the sum buffer is held whole at the first; everything else is an even trip's.
-/
import proofs.«204385_g66649302499670_cont_9to1c4b_43_34_alg».proof.Proof.ScTrip
import proofs.«204385_g66649302499670_cont_9to1c4b_43_34_alg».proof.Proof.AddLoop
import proofs.«204385_g66649302499670_cont_9to1c4b_43_34_alg».proof.Proof.ScHalves
import proofs.«204385_g66649302499670_cont_9to1c4b_43_34_alg».proof.Proof.ScSlots
import proofs.«204385_g66649302499670_cont_9to1c4b_43_34_alg».proof.Proof.ScBook
import proofs.«204385_g66649302499670_cont_9to1c4b_43_34_alg».proof.Proof.ScTripFold
import proofs.«204385_g66649302499670_cont_9to1c4b_43_34_alg».proof.Proof.ScTripFoldZero
import proofs.«204385_g66649302499670_cont_9to1c4b_43_34_alg».proof.Proof.ScClose

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F] (A : Vals F) (d : Dev nD) (L : grid1.Coords)

variable [FloatOps F] (A : Vals F) (d : Dev nD) (L : grid1.Coords)

/-- A 128-row window of the result at offset `off`, held whole. -/
abbrev z_chunkWin (off : Fin 2 → ℕ) (h : ∀ a, off a + S128x128.size a ≤ S819200x128.size a) (f : Buf (Elt F) ((outV).view.loc (thr d L))) : sProp 𝕄 :=
  ((outV).slice (Rect.unit (s := S819200x128) off S128x128.size h) (fun _ => rfl)).view.loc (thr d L)
    ↦[((outV).slice (Rect.unit (s := S819200x128) off S128x128.size h) (fun _ => rfl)).view.set]{fullShare} f

omit [FloatOps F] in
/-- A slot of an id scratch at offset `off`, as the program names it. -/
abbrev z_slotAt (M : Memref sig .scVector .vmem S2x512 .i32) (off : Fin 2 → ℕ) (h : ∀ a, off a + S1x512.size a ≤ S2x512.size a) : Memref sig .scVector .vmem S512 .i32 :=
  (M.slice (Rect.unit (s := S2x512) off S1x512.size h) (fun _ => rfl)).squeeze S512 squeezes_S1x512_S512
omit [FloatOps F] in
theorem z_slotPts_congr (M : Memref sig .scVector .vmem S2x512 .i32) {off off' : Fin 2 → ℕ} (e : off = off')
    (h : ∀ a, off a + S1x512.size a ≤ S2x512.size a) (h' : ∀ a, off' a + S1x512.size a ≤ S2x512.size a) (f : Buf (Elt F) (M.view.loc (thr d L))) :
    (((z_slotAt M off h).view.loc (thr d L) ↦[(z_slotAt M off h).view.set]{fullShare} f : sProp 𝕄))
      = ((z_slotAt M off' h').view.loc (thr d L) ↦[(z_slotAt M off' h').view.set]{fullShare} f) := by subst e; rfl

omit [FloatOps F] in
/-- A list's elements do not depend on how its offset is spelt. -/
theorem z_lst_set_congr (M : Memref sig .scVector .vmem S2x512 .i32) {off off' : Fin 2 → ℕ} (h : off = off')
    (hi : ∀ a, off a + S1x128.size a ≤ S2x512.size a) (hi' : ∀ a, off' a + S1x128.size a ≤ S2x512.size a) :
    (lst M off hi).view.set = (lst M off' hi').view.set := by subst h; rfl

omit [FloatOps F] in
/-- A list's contents do not depend on how its offset is spelt. -/
theorem z_lst_read_congr (M : Memref sig .scVector .vmem S2x512 .i32) {off off' : Fin 2 → ℕ} (h : off = off')
    (hi : ∀ a, off a + S1x128.size a ≤ S2x512.size a) (hi' : ∀ a, off' a + S1x128.size a ≤ S2x512.size a)
    (e : Buf (Elt F) (M.view.loc (thr d L))) (x : S128.Idx) :
    (lst M off hi).view.read (Elt F) e x = (lst M off' hi').view.read (Elt F) e x := by subst h; rfl

omit [FloatOps F] in
theorem z_respell_e_0_0 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 0] linb_0_0).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_e_0_128 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 128] linb_0_128).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_e_0_256 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 256] linb_0_256).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_e_0_384 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 384] linb_0_384).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_e_1_0 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 0] linb_1_0).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_e_1_128 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 128] linb_1_128).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_e_1_256 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 256] linb_1_256).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_e_1_384 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 384] linb_1_384).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_p_0_0 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 0] linb_0_0).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem z_respell_p_0_128 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 128] linb_0_128).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem z_respell_p_0_256 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 256] linb_0_256).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem z_respell_p_0_384 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 384] linb_0_384).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem z_respell_p_1_0 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 0] linb_1_0).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem z_respell_p_1_128 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 128] linb_1_128).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem z_respell_p_1_256 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 256] linb_1_256).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem z_respell_p_1_384 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 384] linb_1_384).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
/-- A resource put aside: held, but not looked at. -/
def z_Aside (P : sProp 𝕄) : sProp 𝕄 := P
omit [FloatOps F] in
theorem z_aside_intro (P : sProp 𝕄) : P ⊢ z_Aside P := BI.Entails.refl _
omit [FloatOps F] in
theorem z_aside_elim (P : sProp 𝕄) : z_Aside P ⊢ P := BI.Entails.refl _

/-- The cell of the id semaphores at offset `off`, as the program names it. -/
abbrev z_isemAt (off : Fin 1 → ℕ) (h : ∀ a, off a + S1.size a ≤ S2.size a) : DmaSem sig :=
  ((SemArray.slice cc1_scratch6 (Rect.unit (s := S2) off S1.size h)).squeeze S_ squeezes_S1_S_).sem
theorem z_isemAt_congr {off off' : Fin 1 → ℕ} (e : off = off') (h : ∀ a, off a + S1.size a ≤ S2.size a) (h' : ∀ a, off' a + S1.size a ≤ S2.size a) :
    z_isemAt off h = z_isemAt off' h' := by subst e; rfl
theorem z_isemAt_one : z_isemAt ![1] inb_S2_S1_1 = (9 : DmaSem sig) := by decide
theorem z_isemAt_zero : z_isemAt ![0] inb_S2_S1_0 = (8 : DmaSem sig) := by decide

/-- A gather's flight does not depend on how its list's offset is spelt. -/
theorem z_ev_flightE_off (sm : DmaSem sig) (H : Memref sig .scVector .vmem S128x128 .f32) {off off' : Fin 2 → ℕ} (h : off = off')
    (hi : ∀ a, off a + S1x128.size a ≤ S2x512.size a) (hi' : ∀ a, off' a + S1x128.size a ≤ S2x512.size a) (q : PosShare TreeShare)
    (fe : Buf (Elt F) (H.view.loc (thr d L))) (e : Buf (Elt F) ((eixV).view.loc (thr d L)))
    (hin : ∀ x, ((lst eixV off hi).view.read (Elt F) e x).toNat < S100000x128.size gathers_S100000x128_S128x128.axis)
    (hin' : ∀ x, ((lst eixV off' hi').view.read (Elt F) e x).toNat < S100000x128.size gathers_S100000x128_S128x128.axis) :
    flightE A d L sm H (lst eixV off hi) q fe e hin ⊢ flightE A d L sm H (lst eixV off' hi') q fe e hin' := by
  subst h; exact BI.Entails.refl _
theorem z_ev_flightP_off (sm : DmaSem sig) (H : Memref sig .scVector .vmem S128x128 .f32) {off off' : Fin 2 → ℕ} (h : off = off')
    (hi : ∀ a, off a + S1x128.size a ≤ S2x512.size a) (hi' : ∀ a, off' a + S1x128.size a ≤ S2x512.size a) (q : PosShare TreeShare)
    (fp : Buf (Elt F) (H.view.loc (thr d L))) (p : Buf (Elt F) ((pixV).view.loc (thr d L)))
    (hin : ∀ x, ((lst pixV off hi).view.read (Elt F) p x).toNat < S1000x128.size gathers_S1000x128_S128x128.axis)
    (hin' : ∀ x, ((lst pixV off' hi').view.read (Elt F) p x).toNat < S1000x128.size gathers_S1000x128_S128x128.axis) :
    flightP A d L sm H (lst pixV off hi) q fp p hin ⊢ flightP A d L sm H (lst pixV off' hi') q fp p hin' := by
  subst h; exact BI.Entails.refl _

/-- The id batch does not depend on how its cell, its slot and its window are spelt. -/
theorem z_ev_batch_congr (qi : PosShare TreeShare) {sm sm' : DmaSem sig} (hsm : sm = sm') {offS offS' : Fin 2 → ℕ} (hS : offS = offS')
    (hiS : ∀ a, offS a + S1x512.size a ≤ S2x512.size a) (hiS' : ∀ a, offS' a + S1x512.size a ≤ S2x512.size a)
    {off off' : Fin 1 → ℕ} (ho : off = off') (hi : ∀ a, off a + S512.size a ≤ S819200.size a) (hi' : ∀ a, off' a + S512.size a ≤ S819200.size a)
    (e : Buf (Elt F) ((eixV).view.loc (thr d L))) (p : Buf (Elt F) ((pixV).view.loc (thr d L))) (pe pp : S512.Idx → Elt F .i32) :
    idsBatch A d L sm (z_slotAt eixV offS hiS) (z_slotAt pixV offS hiS) qi off hi e p pe pp
      = idsBatch A d L sm' (z_slotAt eixV offS' hiS') (z_slotAt pixV offS' hiS') qi off' hi' e p pe pp := by
  subst hsm hS ho; rfl

omit [FloatOps F] in
theorem z_ev_W_ins {W S : Waits sig (HIx 1)} (x0 : SemLoc sig × HIx 1) (h0 : x0.2 = none) (h : ∀ x ∈ S, x ∈ W ∨ x.2 = none) :
    ∀ x ∈ insert x0 S, x ∈ W ∨ x.2 = none := by
  intro x hx
  rcases Finset.mem_insert.mp hx with rfl | hx
  · exact Or.inr h0
  · exact h x hx

omit [FloatOps F] in
theorem z_ev_off43 (k : Fin k1_t1_loop.trips) : k1_off43 L k = idsOff L (k.val + 1 + 1) := by
  rw [k1_off43_eq]; unfold idsOff
  refine funext fun a => ?_
  match a with
  | 0 => show 51200 * (L 1).val + 25600 * (L 0).val + 512 * k.val + 1024 = 51200 * (L 1).val + 25600 * (L 0).val + 512 * (k.val + 1 + 1); omega

omit [FloatOps F] in
theorem z_ev_off13 (k : Fin k1_t1_loop.trips) (r : Fin 4) : k1_off13 L k (BitVec.ofNat 32 r.val) = chunkOff L (4 * k.val + r.val) := by
  rw [k1_off13_eq]; unfold chunkOff
  refine funext fun a => ?_
  match a with
  | 0 => show 51200 * (L 1).val + 25600 * (L 0).val + 512 * k.val + 128 * r.val = 51200 * (L 1).val + 25600 * (L 0).val + 128 * (4 * k.val + r.val); omega
  | 1 => rfl

omit [FloatOps F] in
/-- The sum buffer off its first half, on the set an add loop names it by. -/
theorem z_univ_sdiff_h0_o (X : Buf (Elt F) ((obV).view.loc (thr d L))) :
    (((obV).view.loc (thr d L) ↦[Finset.univ \ (hlf0 obV).view.set]{fullShare} X) : sProp 𝕄)
      = ((obV).view.loc (thr d L) ↦[(obV).view.set \ (half0 obV).view.set]{fullShare} X) := by
  rw [Memref.IsWhole.set_eq_univ (Memref.isWhole_whole cc1_scratch4)]

variable (q1 q2 r1 r2 qi : PosShare TreeShare)

set_option maxHeartbeats 4000000 in
set_option pp.maxSteps 40000 in
set_option pp.deepTerms false in
theorem z_core (v2 : BitVec 32) (k : Fin k1_t1_loop.trips) (hkz : k.val = 0)
    (hk1' : k.val + 1 < 50)
    (O : CellTallies nD τ sig (HIx 1)) (W : Waits sig (HIx 1))
    (e : Buf (Elt F) ((eixV).view.loc (thr d L))) (p : Buf (Elt F) ((pixV).view.loc (thr d L)))
    (e' : Buf (Elt F) ((eixV).view.loc (thr d L))) (p' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (feR : Buf (Elt F) ((ebV).view.loc (thr d L))) (fpR : Buf (Elt F) ((pbV).view.loc (thr d L))) (foW : Buf (Elt F) ((obV).view.loc (thr d L)))
    (hL : ListsOK0 d L e p) (hSV0 : SlotVals0 A d L e p k.val k.isLt)
    (hE : ∀ j, (A.eid d j).toNat < 100000) (hP : ∀ j, (A.pid d j).toNat < 1000)
    (hE2 : ∀ x, ((lst eixV ![0, 256] linb_0_256).view.read (Elt F) e x).toNat < S100000x128.size gathers_S100000x128_S128x128.axis)
    (hE3 : ∀ x, ((lst eixV ![0, 384] linb_0_384).view.read (Elt F) e x).toNat < S100000x128.size gathers_S100000x128_S128x128.axis)
    (hP2 : ∀ x, ((lst pixV ![0, 256] linb_0_256).view.read (Elt F) p x).toNat < S1000x128.size gathers_S1000x128_S128x128.axis)
    (hP3 : ∀ x, ((lst pixV ![0, 384] linb_0_384).view.read (Elt F) p x).toNat < S1000x128.size gathers_S1000x128_S128x128.axis)
    (hk2' : k.val + 1 + 1 < 50) (hc0 : 4 * k.val < 200) (hc1 : 4 * k.val + 1 < 200) (hc2 : 4 * k.val + 2 < 200) (hc3 : 4 * k.val + 3 < 200) :
    iprop(Transfers.MayWaits (thr d L) (default : HIx 1) O
        ∗ flightE A d L 10 (hlf0 ebV) (lst eixV ![0, 0] linb_0_0) q1 fe0 e hL.1
        ∗ flightE A d L 11 (hlf1 ebV) (lst eixV ![0, 128] linb_0_128) q2 fe1 e hL.2.1
        ∗ flightP A d L 12 (hlf0 pbV) (lst pixV ![0, 0] linb_0_0) r1 fp0 p hL.2.2.1
        ∗ flightP A d L 13 (hlf1 pbV) (lst pixV ![0, 128] linb_0_128) r2 fp1 p hL.2.2.2
        ∗ teRest A d L q1 ∗ teRest A d L q2 ∗ shRest A d L r1 ∗ shRest A d L r2
        ∗ ((slot0 eixV).view.loc (thr d L)
              ↦[((slot0 eixV).view.set \ (lst eixV ![0, 0] linb_0_0).view.set) \ (lst eixV ![0, 128] linb_0_128).view.set]{fullShare} e)
        ∗ ((slot0 pixV).view.loc (thr d L)
              ↦[((slot0 pixV).view.set \ (lst pixV ![0, 0] linb_0_0).view.set) \ (lst pixV ![0, 128] linb_0_128).view.set]{fullShare} p)
        ∗ ((ebV).view.loc (thr d L) ↦[(Finset.univ \ (hlf0 ebV).view.set) \ (hlf1 ebV).view.set]{fullShare} feR)
        ∗ ((pbV).view.loc (thr d L) ↦[(Finset.univ \ (hlf0 pbV).view.set) \ (hlf1 pbV).view.set]{fullShare} fpR)
        ∗ idsBatch A d L (9 : DmaSem sig) (slot1 eixV) (slot1 pixV) qi (idsOff L (k.val + 1)) (idsInb L (k.val + 1) hk1') e' p'
            (idsPayAt d L eidV (A.eid d) (idsOff L (k.val + 1)) (idsInb L (k.val + 1) hk1')) (idsPayAt d L pidV (A.pid d) (idsOff L (k.val + 1)) (idsInb L (k.val + 1) hk1'))
        ∗ idsRest A d L qi (idsOff L (k.val + 1)) (idsInb L (k.val + 1) hk1')
        ∗ semVal (cellOf d L 8) 0
        ∗ z_chunkWin d L (k1_off13 L k 0#32) (k1_off13_inb L k 0) (A.out0 d)
        ∗ z_chunkWin d L (k1_off13 L k 1#32) (k1_off13_inb L k 1) (A.out0 d)
        ∗ z_chunkWin d L (k1_off13 L k 2#32) (k1_off13_inb L k 2) (A.out0 d)
        ∗ z_chunkWin d L (k1_off13 L k 3#32) (k1_off13_inb L k 3) (A.out0 d)
        ∗ ((obV).view.loc (thr d L) ↦{fullShare} foW)
        ∗ semVal (cellOf d L 14) 0 ∗ semVal (cellOf d L 15) 0
        ∗ owes (thr d L) O W)
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 k ())
            (fun _ => iprop(rest200 A d L k.val -∗ inv A d L q1 q2 r1 r2 qi O W (k.val + 1) PUnit.unit)) := by
  have hk0 : k.val % 2 = 0 := by omega
  have hk48 : k.val < 48 := by omega
  have hcond2 : ¬ k1_cond2 k = 1#1 := fun h => by have := (cond2_iff k).mp h; omega
  have hcond9 : k1_cond9 k = 1#1 := (cond9_iff k).mpr hk48
  have hcond3 := cond3_true k
  have hcond4 : ¬ k1_cond4 k = 1#1 := fun h => by have := (cond4_iff k).mp h; omega
  have hcond5 := cond5_true k
  have hcond6 := cond6_true k
  have hcond7 : k1_cond7 k = 1#1 := (cond7_iff k).mpr (by omega)
  have hcond8 := cond8_true k
  have hcond10 : k1_cond10 k = 1#1 := (cond10_iff k).mpr (by omega)
  have e14 : k1_off14 k = ![0, 256] := by rw [off14_eq, hk0]
  have e25 : k1_off25 k = ![0, 384] := by rw [off25_eq, hk0]
  have hk0' : (k.val + 1) % 2 = 1 := by omega
  have e36 : k1_off36 k = ![1, 0] := by rw [off36_eq, hk0']
  have e38 : k1_off38 k = ![1] := by rw [off38_eq, hk0']
  have e39 : k1_off39 k = ![1, 0] := by rw [off39_eq, hk0']
  have e42 : k1_off42 k = ![0, 0] := by rw [off42_eq, hk0]
  have e44 : k1_off44 k = ![0] := by rw [off44_eq, hk0]
  have e53 : k1_off53 k = ![1, 128] := by rw [off53_eq, hk0']
  letI : ClosedOff (k1_off14 k) := ⟨![0, 256], e14⟩
  letI : ClosedOff (k1_off25 k) := ⟨![0, 384], e25⟩
  letI : ClosedOff (k1_off36 k) := ⟨![1, 0], e36⟩
  letI : ClosedOff (k1_off38 k) := ⟨![1], e38⟩
  letI : ClosedOff (k1_off39 k) := ⟨![1, 0], e39⟩
  letI : ClosedOff (k1_off42 k) := ⟨![0, 0], e42⟩
  letI : ClosedOff (k1_off44 k) := ⟨![0], e44⟩
  letI : ClosedOff (k1_off53 k) := ⟨![1, 128], e53⟩
  have hinE2 : ∀ x, ((lst eixV (k1_off14 k) (k1_off14_inb k hcond3)).view.read (Elt F) e x).toNat < S100000x128.size gathers_S100000x128_S128x128.axis :=
    fun x => by rw [z_lst_read_congr d L eixV e14 _ linb_0_256]; exact hE2 x
  have hinP2 : ∀ x, ((lst pixV (k1_off14 k) (k1_off14_inb k hcond3)).view.read (Elt F) p x).toNat < S1000x128.size gathers_S1000x128_S128x128.axis :=
    fun x => by rw [z_lst_read_congr d L pixV e14 _ linb_0_256]; exact hP2 x
  have hinE3 : ∀ x, ((lst eixV (k1_off25 k) (k1_off25_inb k hcond5)).view.read (Elt F) e x).toNat < S100000x128.size gathers_S100000x128_S128x128.axis :=
    fun x => by rw [z_lst_read_congr d L eixV e25 _ linb_0_384]; exact hE3 x
  have hinP3 : ∀ x, ((lst pixV (k1_off25 k) (k1_off25_inb k hcond5)).view.read (Elt F) p x).toNat < S1000x128.size gathers_S1000x128_S128x128.axis :=
    fun x => by rw [z_lst_read_congr d L pixV e25 _ linb_0_384]; exact hP3 x
  have hs44 : z_isemAt (k1_off44 k) (k1_off44_inb k hcond9) = (8 : DmaSem sig) := (z_isemAt_congr e44 _ inb_S2_S1_0).trans z_isemAt_zero
  have hbo : Transfers.BatchOf (thr d L) (SemLoc.dma (z_isemAt (k1_off44 k) (k1_off44_inb k hcond9))) 2 := trivial
  unfold k1_t1_body
  unfold idsBatch idsRest
  iintro ⟨#Hmw, HE0, HE1, HP0, HP1, Hte1, Hte2, Hsh1, Hsh2, Heix, Hpix, Heb, Hpb, Hbat, ⟨Heidr, Hpidr⟩, Hs8, Hc0, Hc1, Hc2, Hc3, Hob, Hs14, Hs15, HO⟩
  sl_exec_parts
  -- the first chunk's sums
  ihave Heb2 := (join0_e (F := F) d L _ _) $$ [Heb HE0_dst]
  · isplitl [Heb] <;> iassumption
  ihave Hpb2 := (join0_p (F := F) d L _ _) $$ [Hpb HP0_dst]
  · isplitl [Hpb] <;> iassumption
  iapply (Add.addLoop_sub0 (F := F) d L v2 k _ _ _ _ _ (Or.inr rfl) (Or.inr rfl) (Or.inl rfl) _ _ _ _ _)
  isplitl [Heb2]; · iexact Heb2
  isplitl [Hpb2]; · iexact Hpb2
  isplitl [Hob]; · iexact Hob
  iintro ⟨Heb, Hpb, Hob⟩
  ihave Heix2 := (Entails.of_eq (show (((slot0 eixV).view.loc (thr d L)
        ↦[((slot0 eixV).view.set \ (lst eixV ![0, 0] linb_0_0).view.set) \ (lst eixV ![0, 128] linb_0_128).view.set]{fullShare} e : sProp 𝕄))
      = ((eixV).view.loc (thr d L)
        ↦[((Finset.univ \ (slot1 eixV).view.set) \ (lst eixV ![0, 0] linb_0_0).view.set) \ (lst eixV ![0, 128] linb_0_128).view.set]{fullShare} e) from by
          rw [slot0_eq_compl_e])) $$ Heix
  ihave Hpix2 := (Entails.of_eq (show (((slot0 pixV).view.loc (thr d L)
        ↦[((slot0 pixV).view.set \ (lst pixV ![0, 0] linb_0_0).view.set) \ (lst pixV ![0, 128] linb_0_128).view.set]{fullShare} p : sProp 𝕄))
      = ((pixV).view.loc (thr d L)
        ↦[((Finset.univ \ (slot1 pixV).view.set) \ (lst pixV ![0, 0] linb_0_0).view.set) \ (lst pixV ![0, 128] linb_0_128).view.set]{fullShare} p) from by
          rw [slot0_eq_compl_p])) $$ Hpix
  sl_exec_parts
  -- the second chunk's sums
  ihave Heb2 := (join1_e_of (F := F) d L restA_e _ _) $$ [Heb HE1_dst]
  · isplitl [Heb] <;> iassumption
  ihave Hpb2 := (join1_p_of (F := F) d L restA_p _ _) $$ [Hpb HP1_dst]
  · isplitl [Hpb] <;> iassumption
  ihave Hob2 := (Entails.of_eq (z_univ_sdiff_h0_o (F := F) d L _)) $$ Hob
  iapply (Add.addLoop_sub1 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Heix3 := (Entails.of_eq (z_respell_e_0_128 (F := F) d L e)) $$ Heix2
  ihave Hpix3 := (Entails.of_eq (z_respell_p_0_128 (F := F) d L p)) $$ Hpix2
  sl_exec_parts
  -- the third chunk's sums
  ihave Heb2 := (join0_e_of (F := F) d L restB_e _ _) $$ [Heb Heb_2]
  · isplitl [Heb] <;> iassumption
  ihave Hpb2 := (join0_p_of (F := F) d L restB_p _ _) $$ [Hpb Hpb_2]
  · isplitl [Hpb] <;> iassumption
  ihave Hob2 := (join0_o_of (F := F) d L restB_o _ _) $$ [Hob Hob_2]
  · isplitl [Hob] <;> iassumption
  iapply (Add.addLoop_sub2 (F := F) d L v2 k _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  -- slot 0's leftovers put aside; the id batch's cell in the program's spelling
  ihave HeixA := (z_aside_intro (F := F) _) $$ Heix3
  ihave HpixA := (z_aside_intro (F := F) _) $$ Hpix3
  have hs38 : z_isemAt (k1_off38 k) (k1_off38_inb k hcond7) = (9 : DmaSem sig) := (z_isemAt_congr e38 _ inb_S2_S1_1).trans z_isemAt_one
  have hSV1 : SlotVals1 A d L
      ((slot1 eixV).view.writes (Elt F) e' [⟨Rect.whole S512, idsPayAt d L eidV (A.eid d) (idsOff L (k.val + 1)) (idsInb L (k.val + 1) hk1')⟩])
      ((slot1 pixV).view.writes (Elt F) p' [⟨Rect.whole S512, idsPayAt d L pidV (A.pid d) (idsOff L (k.val + 1)) (idsInb L (k.val + 1) hk1')⟩])
      (k.val + 1) hk1' := slotVals1_after A d L e' p' k.val hk1' _ _ ⟨rfl, rfl⟩
  have hinE10 : ∀ x, ((lst eixV (k1_off39 k) (k1_off39_inb k hcond7)).view.read (Elt F)
      ((slot1 eixV).view.writes (Elt F) e' [⟨Rect.whole S512, idsPayAt d L eidV (A.eid d) (idsOff L (k.val + 1)) (idsInb L (k.val + 1) hk1')⟩]) x).toNat
        < S100000x128.size gathers_S100000x128_S128x128.axis :=
    fun x => by rw [z_lst_read_congr d L eixV e39 _ linb_1_0]; exact hin_e_1_0 A d L hE _ _ (k.val + 1) hk1' hSV1 x
  have hinP10 : ∀ x, ((lst pixV (k1_off39 k) (k1_off39_inb k hcond7)).view.read (Elt F)
      ((slot1 pixV).view.writes (Elt F) p' [⟨Rect.whole S512, idsPayAt d L pidV (A.pid d) (idsOff L (k.val + 1)) (idsInb L (k.val + 1) hk1')⟩]) x).toNat
        < S1000x128.size gathers_S1000x128_S128x128.axis :=
    fun x => by rw [z_lst_read_congr d L pixV e39 _ linb_1_0]; exact hin_p_1_0 A d L hP _ _ (k.val + 1) hk1' hSV1 x
  have hinE11 : ∀ x, ((lst eixV (k1_off53 k) (k1_off53_inb k hcond10)).view.read (Elt F)
      ((slot1 eixV).view.writes (Elt F) e' [⟨Rect.whole S512, idsPayAt d L eidV (A.eid d) (idsOff L (k.val + 1)) (idsInb L (k.val + 1) hk1')⟩]) x).toNat
        < S100000x128.size gathers_S100000x128_S128x128.axis :=
    fun x => by rw [z_lst_read_congr d L eixV e53 _ linb_1_128]; exact hin_e_1_128 A d L hE _ _ (k.val + 1) hk1' hSV1 x
  have hinP11 : ∀ x, ((lst pixV (k1_off53 k) (k1_off53_inb k hcond10)).view.read (Elt F)
      ((slot1 pixV).view.writes (Elt F) p' [⟨Rect.whole S512, idsPayAt d L pidV (A.pid d) (idsOff L (k.val + 1)) (idsInb L (k.val + 1) hk1')⟩]) x).toNat
        < S1000x128.size gathers_S1000x128_S128x128.axis :=
    fun x => by rw [z_lst_read_congr d L pixV e53 _ linb_1_128]; exact hin_p_1_128 A d L hP _ _ (k.val + 1) hk1' hSV1 x
  ihave Hbat2 := (Entails.of_eq (show (Transfers.Batched countersEmb (thr d L) (SemLoc.dma (9 : DmaSem sig)) (default : HIx 1) 16384 2 _ 0 : sProp 𝕄)
      = Transfers.Batched countersEmb (thr d L) (SemLoc.dma (z_isemAt (k1_off38 k) (k1_off38_inb k hcond7))) (default : HIx 1) 16384 2 _ 0 from by rw [hs38])) $$ Hbat
  sl_exec_parts
  -- slot 1 as delivered, seen as the id scratch less slot 0
  ihave Heix4 := (Entails.of_eq (show (((slot1 eixV).view.loc (thr d L) ↦[(slot1 eixV).view.set]{fullShare} _ : sProp 𝕄))
      = ((eixV).view.loc (thr d L) ↦[Finset.univ \ (slot0 eixV).view.set]{fullShare} _) from by rw [slot1_eq_compl_e])) $$ Hbat2_dst0
  ihave Hpix4 := (Entails.of_eq (show (((slot1 pixV).view.loc (thr d L) ↦[(slot1 pixV).view.set]{fullShare} _ : sProp 𝕄))
      = ((pixV).view.loc (thr d L) ↦[Finset.univ \ (slot0 pixV).view.set]{fullShare} _) from by rw [slot1_eq_compl_p])) $$ Hbat2_dst1
  sl_exec_parts
  -- slot 0 whole again for the next ids; slot 1's holdings put aside meanwhile
  ihave HeixU := (z_aside_elim (F := F) _) $$ HeixA
  ihave HeixU2 := (Entails.of_eq (show (((eixV).view.loc (thr d L) ↦[((Finset.univ \ (slot1 eixV).view.set) \ (lst eixV ![0, 0] linb_0_0).view.set) \ (lst eixV (k1_off25 k) (k1_off25_inb k hcond5)).view.set]{fullShare} e : sProp 𝕄))
      = ((eixV).view.loc (thr d L) ↦[((Finset.univ \ (slot1 eixV).view.set) \ (lst eixV ![0, 0] linb_0_0).view.set) \ (lst eixV ![0, 384] linb_0_384).view.set]{fullShare} e) from by
        rw [z_lst_set_congr eixV e25 _ linb_0_384])) $$ HeixU
  ihave Heix3L := (Entails.of_eq (show (((eixV).view.loc (thr d L) ↦[(lst eixV (k1_off25 k) (k1_off25_inb k hcond5)).view.set]{fullShare} e : sProp 𝕄))
      = ((eixV).view.loc (thr d L) ↦[(lst eixV ![0, 384] linb_0_384).view.set]{fullShare} e) from by
        rw [z_lst_set_congr eixV e25 _ linb_0_384])) $$ Heix3
  ihave Hslot0e := (slot0_assemble_e (F := F) d L e) $$ [HeixU2 HE0_dst_and Heix3L]
  · isplitl [HeixU2]; · iexact HeixU2
    isplitl [HE0_dst_and]; · iexact HE0_dst_and
    iexact Heix3L
  ihave HpixU := (z_aside_elim (F := F) _) $$ HpixA
  ihave HpixU2 := (Entails.of_eq (show (((pixV).view.loc (thr d L) ↦[((Finset.univ \ (slot1 pixV).view.set) \ (lst pixV ![0, 0] linb_0_0).view.set) \ (lst pixV (k1_off25 k) (k1_off25_inb k hcond5)).view.set]{fullShare} p : sProp 𝕄))
      = ((pixV).view.loc (thr d L) ↦[((Finset.univ \ (slot1 pixV).view.set) \ (lst pixV ![0, 0] linb_0_0).view.set) \ (lst pixV ![0, 384] linb_0_384).view.set]{fullShare} p) from by
        rw [z_lst_set_congr pixV e25 _ linb_0_384])) $$ HpixU
  ihave Hpix3L := (Entails.of_eq (show (((pixV).view.loc (thr d L) ↦[(lst pixV (k1_off25 k) (k1_off25_inb k hcond5)).view.set]{fullShare} p : sProp 𝕄))
      = ((pixV).view.loc (thr d L) ↦[(lst pixV ![0, 384] linb_0_384).view.set]{fullShare} p) from by
        rw [z_lst_set_congr pixV e25 _ linb_0_384])) $$ Hpix3
  ihave Hslot0p := (slot0_assemble_p (F := F) d L p) $$ [HpixU2 HP0_dst_and Hpix3L]
  · isplitl [HpixU2]; · iexact HpixU2
    isplitl [HP0_dst_and]; · iexact HP0_dst_and
    iexact Hpix3L
  ihave Hslot0e' := (Entails.of_eq (z_slotPts_congr (F := F) d L eixV e42.symm inb_S2x512_S1x512_0_0 (k1_off42_inb k hcond9) e)) $$ Hslot0e
  ihave Hslot0p' := (Entails.of_eq (z_slotPts_congr (F := F) d L pixV e42.symm inb_S2x512_S1x512_0_0 (k1_off42_inb k hcond9) p)) $$ Hslot0p
  ihave Heix4A := (z_aside_intro (F := F) _) $$ Heix4
  ihave Hpix4A := (z_aside_intro (F := F) _) $$ Hpix4
  ihave Hs8' := (Entails.of_eq (show ((semVal (cellOf d L 8) 0 : sProp 𝕄)) = semVal (thr d L, SemLoc.dma (z_isemAt (k1_off44 k) (k1_off44_inb k hcond9))) 0 from by rw [hs44])) $$ Hs8
  sl_exec_parts
  -- the fourth chunk's sums
  ihave Heix4 := (z_aside_elim (F := F) _) $$ Heix4A
  ihave Hpix4 := (z_aside_elim (F := F) _) $$ Hpix4A
  ihave Heb2 := (join1_e_of (F := F) d L restA_e _ _) $$ [Heb Heb_2]
  · isplitl [Heb] <;> iassumption
  ihave Hpb2 := (join1_p_of (F := F) d L restA_p _ _) $$ [Hpb Hpb_2]
  · isplitl [Hpb] <;> iassumption
  ihave Hob2 := (join1_o_of (F := F) d L restA_o _ _) $$ [Hob Hob_2]
  · isplitl [Hob] <;> iassumption
  iapply (Add.addLoop_sub3 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  sl_exec_parts
  -- the trip's end: the pieces are the next trip's
  sl_step
  iintro Hrest
  have hL1 := listsOK1_of_slotVals A d L hE hP _ _ (k.val + 1) hk1' hSV1
  iapply (close_zeroK A d L q1 q2 r1 r2 qi O W k.val hkz hk1' hk2' hc0 hc1 hc2 hc3 _ _ e p _ _ _ _ _ _ _ _ _ hL1 hSV1 _ ?hW)
  swap
  unfold zeroPostK
  isplitr; · iexact Hmw
  isplitl [HE0]
  · iapply (z_ev_flightE_off A d L 10 (hlf0 ebV) e39 (k1_off39_inb k hcond7) linb_1_0 q1 _ _ hinE10 hL1.1); iexact HE0
  isplitl [HE1]
  · iapply (z_ev_flightE_off A d L 11 (hlf1 ebV) e53 (k1_off53_inb k hcond10) linb_1_128 q2 _ _ hinE11 hL1.2.1); iexact HE1
  isplitl [HP0]
  · iapply (z_ev_flightP_off A d L 12 (hlf0 pbV) e39 (k1_off39_inb k hcond7) linb_1_0 r1 _ _ hinP10 hL1.2.2.1); iexact HP0
  isplitl [HP1]
  · iapply (z_ev_flightP_off A d L 13 (hlf1 pbV) e53 (k1_off53_inb k hcond10) linb_1_128 r2 _ _ hinP11 hL1.2.2.2); iexact HP1
  isplitl [Hte1]; · iexact Hte1
  isplitl [Hte2]; · iexact Hte2
  isplitl [Hsh1]; · iexact Hsh1
  isplitl [Hsh2]; · iexact Hsh2
  isplitl [Heix4]
  · rw [slot1_eq_compl_e, ← z_lst_set_congr eixV e39 (k1_off39_inb k hcond7) linb_1_0, ← z_lst_set_congr eixV e53 (k1_off53_inb k hcond10) linb_1_128]
    iexact Heix4
  isplitl [Hpix4]
  · rw [slot1_eq_compl_p, ← z_lst_set_congr pixV e39 (k1_off39_inb k hcond7) linb_1_0, ← z_lst_set_congr pixV e53 (k1_off53_inb k hcond10) linb_1_128]
    iexact Hpix4
  isplitl [Heb]; · rw [← restB_e]; iexact Heb
  isplitl [Hpb]; · rw [← restB_p]; iexact Hpb
  isplitl [Hs8']
  · rw [← idsPayAt_congr d L eidV (A.eid d) (z_ev_off43 L k) (k1_off43_inb L k hcond9) (idsInb L (k.val + 1 + 1) hk2'),
      ← idsPayAt_congr d L pidV (A.pid d) (z_ev_off43 L k) (k1_off43_inb L k hcond9) (idsInb L (k.val + 1 + 1) hk2'),
      ← z_ev_batch_congr A d L qi hs44 e42 (k1_off42_inb k hcond9) inb_S2x512_S1x512_0_0 (z_ev_off43 L k) (k1_off43_inb L k hcond9) (idsInb L (k.val + 1 + 1) hk2')]
    iexact Hs8'
  isplitl [Heidr Hpidr]
  · rw [← idsRest_congr A d L qi (z_ev_off43 L k) (k1_off43_inb L k hcond9) (idsInb L (k.val + 1 + 1) hk2')]
    unfold idsRest
    isplitl [Heidr]; · iexact Heidr
    iexact Hpidr
  isplitl [Hbat2]
  · iapply (Entails.of_eq (show (semVal (thr d L, SemLoc.dma (z_isemAt (k1_off38 k) (k1_off38_inb k hcond7))) 0 : sProp 𝕄) = semVal (cellOf d L 9) 0 from by rw [hs38]))
    iexact Hbat2
  isplitl [Hc0]
  · iapply (Entails.of_eq (chunk_delivered0 A d L (4 * k.val) hc0 (k1_off13 L k 0#32) (k1_off13_inb L k 0) (z_ev_off13 L k 0) _ _ _ _ _
        ((lst eixV ![0, 0] linb_0_0).view.read (Elt F) e) ((lst pixV ![0, 0] linb_0_0).view.read (Elt F) p) hL.1 hL.2.2.1 rfl
        ((read_piecewise_hlf0 d L ebV _ _).trans (read_write_hlf0 d L ebV _ _)) ((read_piecewise_hlf0 d L pbV _ _).trans (read_write_hlf0 d L pbV _ _))
        (ids_e_0_0 A d L e p k.val k.isLt hSV0) (ids_p_0_0 A d L e p k.val k.isLt hSV0)))
    iexact Hc0
  isplitl [Hc1]
  · iapply (Entails.of_eq (chunk_delivered1 A d L (4 * k.val + 1) hc1 (k1_off13 L k 1#32) (k1_off13_inb L k 1) (z_ev_off13 L k 1) _ _ _ _ _
        ((lst eixV ![0, 128] linb_0_128).view.read (Elt F) e) ((lst pixV ![0, 128] linb_0_128).view.read (Elt F) p) hL.2.1 hL.2.2.2 rfl
        ((read_piecewise_hlf1 d L ebV _ _).trans (read_write_hlf1 d L ebV _ _)) ((read_piecewise_hlf1 d L pbV _ _).trans (read_write_hlf1 d L pbV _ _))
        (ids_e_0_128 A d L e p k.val k.isLt hSV0) (ids_p_0_128 A d L e p k.val k.isLt hSV0)))
    iexact Hc1
  isplitl [Hs14]
  · iapply (Entails.of_eq (flight_delivered0 A d L 14 (4 * k.val + 2) hc2 (k1_off13 L k 2#32) (k1_off13_inb L k 2) (z_ev_off13 L k 2) _ _ _ _ _
        ((lst eixV (k1_off14 k) (k1_off14_inb k hcond3)).view.read (Elt F) e) ((lst pixV (k1_off14 k) (k1_off14_inb k hcond3)).view.read (Elt F) p) hinE2 hinP2 rfl
        ((read_piecewise_hlf0 d L ebV _ _).trans (read_write_hlf0 d L ebV _ _)) ((read_piecewise_hlf0 d L pbV _ _).trans (read_write_hlf0 d L pbV _ _))
        (fun x => by rw [z_lst_read_congr d L eixV e14 _ linb_0_256]; exact ids_e_0_256 A d L e p k.val k.isLt hSV0 x)
        (fun x => by rw [z_lst_read_congr d L pixV e14 _ linb_0_256]; exact ids_p_0_256 A d L e p k.val k.isLt hSV0 x)))
    iexact Hs14
  isplitl [Hs15]
  · iapply (Entails.of_eq (flight_delivered1 A d L 15 (4 * k.val + 3) hc3 (k1_off13 L k 3#32) (k1_off13_inb L k 3) (z_ev_off13 L k 3) _ _ _ _ _
        ((lst eixV (k1_off25 k) (k1_off25_inb k hcond5)).view.read (Elt F) e) ((lst pixV (k1_off25 k) (k1_off25_inb k hcond5)).view.read (Elt F) p) hinE3 hinP3 rfl
        ((read_piecewise_hlf1 d L ebV _ _).trans (read_write_hlf1 d L ebV _ _)) ((read_piecewise_hlf1 d L pbV _ _).trans (read_write_hlf1 d L pbV _ _))
        (fun x => by rw [z_lst_read_congr d L eixV e25 _ linb_0_384]; exact ids_e_0_384 A d L e p k.val k.isLt hSV0 x)
        (fun x => by rw [z_lst_read_congr d L pixV e25 _ linb_0_384]; exact ids_p_0_384 A d L e p k.val k.isLt hSV0 x)))
    iexact Hs15
  isplitl [Hob]; · rw [← restB_o]; iexact Hob
  isplitl [Hrest]; · iexact Hrest
  iexact HO
  case hW => repeat (first | exact (fun x hx => Or.inl hx) | refine z_ev_W_ins _ rfl ?_)

omit [FloatOps F] in
/-- A chunk window at an equal offset is the chunk. -/
theorem z_chunk_congr (n : ℕ) (hn : n < 200) (off : Fin 2 → ℕ) (hoff : ∀ a, off a + S128x128.size a ≤ S819200x128.size a)
    (eoff : off = chunkOff L n) (f : Buf (Elt F) ((outV).view.loc (thr d L))) :
    chunkPt d L n hn f = z_chunkWin d L off hoff f := by
  subst eoff; rfl

/-- The invariant's recorded waits may be counted against a larger set. -/
theorem z_inv_mono (O : CellTallies nD τ sig (HIx 1)) (W W' : Waits sig (HIx 1)) (hW : ∀ x ∈ W', x ∈ W ∨ x.2 = none) (k : ℕ) :
    inv A d L q1 q2 r1 r2 qi O W' k (PUnit.unit : PUnit.{1}) ⊢ inv A d L q1 q2 r1 r2 qi O W k (PUnit.unit : PUnit.{1}) := by
  unfold inv
  iintro ⟨H1, H2, H3, H4, ⟨%W'', %h, HO⟩⟩
  isplitl [H1]; · iexact H1
  isplitl [H2]; · iexact H2
  isplitl [H3]; · iexact H3
  isplitl [H4]; · iexact H4
  iexists W''
  isplitr
  · ipureintro
    intro x hx
    rcases h x hx with h1 | h1
    · exact hW x h1
    · exact Or.inr h1
  iexact HO

set_option maxHeartbeats 4000000 in
/-- THE FIRST TRIP of the tile's loop. -/
theorem trip_zero (hE : ∀ j, (A.eid d j).toNat < 100000) (hP : ∀ j, (A.pid d j).toNat < 1000) (v2 : BitVec 32)
    (O : CellTallies nD τ sig (HIx 1)) (W : Waits sig (HIx 1)) (hk : 0 < 50) :
    inv A d L q1 q2 r1 r2 qi O W 0 PUnit.unit
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 ⟨0, hk⟩ ())
          (fun _ => inv A d L q1 q2 r1 r2 qi O W (0 + 1) PUnit.unit) := by
  have h01 : 0 + 1 < 50 := by decide
  have h0 : 0 < 200 := by decide
  have h1 : 1 < 200 := by decide
  have h2 : 2 < 200 := by decide
  have h3 : 3 < 200 := by decide
  refine (open_zero A d L q1 q2 r1 r2 qi O W hk h01 h0 h1 h2 h3).trans ?_
  iintro ⟨%e, %p, %e', %p', %fe0, %fe1, %fp0, %fp1, %feR, %fpR, %foW, %hL, %W', %hpure, Hpre⟩
  unfold zeroPre
  icases Hpre with ⟨Hmw, HE0, HE1, HP0, HP1, Hte1, Hte2, Hsh1, Hsh2, Heix, Hpix, Heb, Hpb, Hbat, Hidr, Hs8, Hc0, Hc1, Hc2, Hc3, Hob, Hs14, Hs15, Hrest, HO⟩
  iapply (wp_wand_r frame (wpE (defs₀ (F := F)) 𝒱₀ (thr d L) none) Set.univ)
  isplitr [Hrest]
  · iapply (z_core A d L q1 q2 r1 r2 qi v2 ⟨0, hk⟩ rfl h01 O W' e p e' p' fe0 fe1 fp0 fp1 feR fpR foW hL.down hpure.1 hE hP
      (hin_e_0_256 A d L hE e p 0 hk hpure.1) (hin_e_0_384 A d L hE e p 0 hk hpure.1) (hin_p_0_256 A d L hP e p 0 hk hpure.1) (hin_p_0_384 A d L hP e p 0 hk hpure.1)
      (by show 0 + 1 + 1 < 50; omega) (by show 4 * 0 < 200; omega) (by show 4 * 0 + 1 < 200; omega) (by show 4 * 0 + 2 < 200; omega) (by show 4 * 0 + 3 < 200; omega))
    isplitl [Hmw]; · iexact Hmw
    isplitl [HE0]; · iexact HE0
    isplitl [HE1]; · iexact HE1
    isplitl [HP0]; · iexact HP0
    isplitl [HP1]; · iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexact Heb
    isplitl [Hpb]; · iexact Hpb
    isplitl [Hbat]; · iexact Hbat
    isplitl [Hidr]; · iexact Hidr
    isplitl [Hs8]; · iexact Hs8
    isplitl [Hc0]; · iapply (Entails.of_eq (z_chunk_congr (F := F) d L 0 h0 _ _ (z_ev_off13 L ⟨0, hk⟩ 0) (A.out0 d))); iexact Hc0
    isplitl [Hc1]; · iapply (Entails.of_eq (z_chunk_congr (F := F) d L 1 h1 _ _ (z_ev_off13 L ⟨0, hk⟩ 1) (A.out0 d))); iexact Hc1
    isplitl [Hc2]; · iapply (Entails.of_eq (z_chunk_congr (F := F) d L 2 h2 _ _ (z_ev_off13 L ⟨0, hk⟩ 2) (A.out0 d))); iexact Hc2
    isplitl [Hc3]; · iapply (Entails.of_eq (z_chunk_congr (F := F) d L 3 h3 _ _ (z_ev_off13 L ⟨0, hk⟩ 3) (A.out0 d))); iexact Hc3
    isplitl [Hob]; · iexact Hob
    isplitl [Hs14]; · iexact Hs14
    isplitl [Hs15]; · iexact Hs15
    iexact HO
  · iintro %_ Hw
    iapply (z_inv_mono A d L q1 q2 r1 r2 qi O W W' hpure.2 (0 + 1))
    iapply Hw
    iexact Hrest

end Cert.KernelIdeal.Run.Sc

end
-- ==== Proof.ScTripRun.lean ====
/-
  One trip of the tile's loop, whatever the trip: the first, an even or an odd one in the middle, the last even one
  (which fetches no ids), the last.
-/
import proofs.«204385_g66649302499670_cont_9to1c4b_43_34_alg».proof.Proof.ScTripEven
import proofs.«204385_g66649302499670_cont_9to1c4b_43_34_alg».proof.Proof.ScTripEvenLast
import proofs.«204385_g66649302499670_cont_9to1c4b_43_34_alg».proof.Proof.ScTripOdd
import proofs.«204385_g66649302499670_cont_9to1c4b_43_34_alg».proof.Proof.ScTripLast
import proofs.«204385_g66649302499670_cont_9to1c4b_43_34_alg».proof.Proof.ScTripZero

noncomputable section

namespace Cert.KernelIdeal.Run.Sc

open Cert.KernelIdeal Cert.KernelIdeal.Gen Cert.KernelIdeal.Run

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

local notation "teV" => (Memref.whole Cert.KernelIdeal.main_v3_0_scv : Memref Cert.KernelIdeal.sig Kind.scVector Space.hbm Cert.KernelIdeal.S100000x128 EltTy.f32)
local notation "tpV" => (Memref.whole Cert.KernelIdeal.main_v3_1_scv : Memref Cert.KernelIdeal.sig Kind.scVector Space.hbm Cert.KernelIdeal.S1000x128 EltTy.f32)
local notation "eidV" => (Memref.whole Cert.KernelIdeal.main_v0_scv : Memref Cert.KernelIdeal.sig Kind.scVector Space.hbm Cert.KernelIdeal.S819200 EltTy.i32)
local notation "pidV" => (Memref.whole Cert.KernelIdeal.main_v1_scv : Memref Cert.KernelIdeal.sig Kind.scVector Space.hbm Cert.KernelIdeal.S819200 EltTy.i32)
local notation "outV" => (Memref.whole Cert.KernelIdeal.main_v4_scv : Memref Cert.KernelIdeal.sig Kind.scVector Space.hbm Cert.KernelIdeal.S819200x128 EltTy.f32)
local notation "eixV" => (Memref.whole Cert.KernelIdeal.cc1_scratch0 : Memref Cert.KernelIdeal.sig Kind.scVector Space.vmem Cert.KernelIdeal.S2x512 EltTy.i32)
local notation "pixV" => (Memref.whole Cert.KernelIdeal.cc1_scratch1 : Memref Cert.KernelIdeal.sig Kind.scVector Space.vmem Cert.KernelIdeal.S2x512 EltTy.i32)
local notation "ebV" => (Memref.whole Cert.KernelIdeal.cc1_scratch2 : Memref Cert.KernelIdeal.sig Kind.scVector Space.vmem Cert.KernelIdeal.S2x128x128 EltTy.f32)
local notation "pbV" => (Memref.whole Cert.KernelIdeal.cc1_scratch3 : Memref Cert.KernelIdeal.sig Kind.scVector Space.vmem Cert.KernelIdeal.S2x128x128 EltTy.f32)
local notation "obV" => (Memref.whole Cert.KernelIdeal.cc1_scratch4 : Memref Cert.KernelIdeal.sig Kind.scVector Space.vmem Cert.KernelIdeal.S2x128x128 EltTy.f32)
local notation "shV" => (Memref.whole Cert.KernelIdeal.cc1_scratch5 : Memref Cert.KernelIdeal.sig Kind.scVector Space.shared Cert.KernelIdeal.S1000x128 EltTy.f32)

variable [FloatOps F] (A : Vals F) (d : Dev nD) (L : grid1.Coords) (q1 q2 r1 r2 qi : PosShare TreeShare)

theorem trip_run (hE : ∀ j, (A.eid d j).toNat < 100000) (hP : ∀ j, (A.pid d j).toNat < 1000) (v2 : BitVec 32)
    (O : CellTallies nD τ sig (HIx 1)) (W : Waits sig (HIx 1)) (k : ℕ) (hk : k < 50) :
    inv A d L q1 q2 r1 r2 qi O W k PUnit.unit
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 ⟨k, hk⟩ ())
          (fun _ => inv A d L q1 q2 r1 r2 qi O W (k + 1) PUnit.unit) := by
  rcases Nat.mod_two_eq_zero_or_one k with h0 | h1
  · by_cases hz : k = 0
    · subst hz; exact trip_zero A d L q1 q2 r1 r2 qi hE hP v2 O W hk
    · by_cases h48 : k < 48
      · exact trip_even A d L q1 q2 r1 r2 qi hE hP v2 O W k hk h0 (by omega) h48
      · exact trip_even_last A d L q1 q2 r1 r2 qi hE hP v2 O W k hk h0 (by omega)
  · by_cases h49 : k < 49
    · exact trip_odd A d L q1 q2 r1 r2 qi hE hP v2 O W k hk h1 h49
    · exact trip_last A d L q1 q2 r1 r2 qi hE hP v2 O W k hk h1 (by omega)

end Cert.KernelIdeal.Run.Sc

end
-- ==== Proof.AddSpecBits.lean ====
/-
  The inner add loops of the tile kernel: vocabulary and the arithmetic of one trip.

  A trip of an add loop stores, for four rows `4k … 4k+3` of one half `bb` of the output chunk buffer and the eight
  16-lane slices of each, the lane sum of the same slice of the two input chunk buffers. This module names the element
  sum, the contents "rows below `n` of half `bb` hold the sum, everything else is as before", and proves that thirty-two
  unmasked writes whose rectangles are the trip's slots and whose payloads are the slot's sums take the contents at
  `4k` rows to the contents at `4(k+1)` rows.
-/
import proofs.«204385_g66649302499670_cont_9to1c4b_43_34_alg».proof.Proof.SetupBits
import Idealize.ShloMosaic.Lib.Writes
import Idealize.ShloMosaic.Lib.Pipeline.Value

noncomputable section

namespace Cert.Kernel.Run.Add

open Cert.Kernel Cert.Kernel.Gen
open Idealize.ShloMosaic
open Idealize.ShloMosaic.SparseCore (S V T)
open Idealize.SL Idealize.SL.RA Idealize.SL.BI
open scoped Idealize.SL.BI

variable {F : FTy → Type} [FloatOps F]

/-! ## The buffers and the thread -/

/-- The tile at grid coordinates `i` of device `d`. -/
abbrev thr (d : Dev nD) (i : grid1.Coords) : Thread nD τ := V d ((i 0).castLE hcore1) ((i 1).castLE hsub1)

/-- The three chunk buffers of a tile: the gathered element rows, the gathered property rows, the sums. -/
abbrev A9 : Memref sig .scVector .vmem S2x128x128 .f32 := Memref.whole cc1_scratch2
abbrev A10 : Memref sig .scVector .vmem S2x128x128 .f32 := Memref.whole cc1_scratch3
abbrev A11 : Memref sig .scVector .vmem S2x128x128 .f32 := Memref.whole cc1_scratch4

/-- Half 0 and half 1 of a chunk buffer, as the program slices them for a transfer. -/
abbrev win0 (A : Memref sig .scVector .vmem S2x128x128 .f32) : Memref sig .scVector .vmem S128x128 .f32 :=
  (A.slice (Rect.unit (s := S2x128x128) ![0, 0, 0] S1x128x128.size inb_S2x128x128_S1x128x128_0_0_0) (fun _ => rfl)).squeeze S128x128 squeezes_S1x128x128_S128x128
abbrev win1 (A : Memref sig .scVector .vmem S2x128x128 .f32) : Memref sig .scVector .vmem S128x128 .f32 :=
  (A.slice (Rect.unit (s := S2x128x128) ![1, 0, 0] S1x128x128.size inb_S2x128x128_S1x128x128_1_0_0) (fun _ => rfl)).squeeze S128x128 squeezes_S1x128x128_S128x128

/-! ## The sums -/

/-- The sum of two elements as the lane add computes it. -/
def addE (a b : Elt F .f32) : Elt F .f32 := FloatOps.addf (F := F) (φ := .f32) a b

theorem addf_apply {s : Shape} (x y : FVec F s .f32) (j : s.Idx) : addf x y j = addE (x j) (y j) := rfl

/-- Rows below `n` of half `bb` hold the sum; every other element is `fo`'s. -/
def sumRows (fe fp fo : Vec F S2x128x128 .f32) (bb n : ℕ) : Vec F S2x128x128 .f32 :=
  fun y => if (y 0).val = bb ∧ (y 1).val < n then addE (fe y) (fp y) else fo y

/-- Half `bb` holds the sum; the other half is `fo`'s. -/
def sumHalf (fe fp fo : Vec F S2x128x128 .f32) (bb : ℕ) : Vec F S2x128x128 .f32 :=
  fun y => if (y 0).val = bb then addE (fe y) (fp y) else fo y

theorem sumRows_zero (fe fp fo : Vec F S2x128x128 .f32) (bb : ℕ) : sumRows fe fp fo bb 0 = fo := by
  funext y; simp [sumRows]

theorem sumRows_full (fe fp fo : Vec F S2x128x128 .f32) (bb : ℕ) : sumRows fe fp fo bb 128 = sumHalf fe fp fo bb := by
  funext y
  have h1 : (y 1).val < 128 := (y 1).isLt
  simp [sumRows, sumHalf, h1]

/-! ## One slot's payload -/

open Lean Elab Tactic Meta in
/-- Unfold, in the goal, the printed payload functions (`k1_payN`) to their bodies. -/
elab "unfold_pays_b" : tactic => do
  let g ← getMainGoal
  let isPay (n : Name) : Bool := match n with | .str _ last => last.startsWith "k1_pay" | _ => false
  let mut t ← instantiateMVars (← g.getType)
  for _ in [0:4] do
    let t' ← Meta.deltaExpand t isPay
    if t' == t then break
    t := t'
  replaceMainGoal [← g.replaceTargetDefEq t]

/-- The lane add between the two shape casts reads, lane by lane, the element sum. -/
theorem cast_add_cast (ve vp : Vec F S1x1x16 .f32) (h1 : S1x1x16.ShapeCasts S16) (h2 : S16.ShapeCasts S1x1x16) (x : S1x1x16.Idx) :
    shapeCast S1x1x16 (addf (φ := .f32) (shapeCast S16 ve h1) (shapeCast S16 vp h1)) h2 x = addE (ve x) (vp x) := by
  have e : ∀ v : Vec F S1x1x16 .f32, shapeCast S1x1x16 (shapeCast S16 v h1) h2 = v := fun v => shapeCast_shapeCast v h1 h2
  show addE (shapeCast S1x1x16 (shapeCast S16 ve h1) h2 x) (shapeCast S1x1x16 (shapeCast S16 vp h1) h2 x) = _
  rw [e ve, e vp]

/-! ## One trip's thirty-two writes -/

/-- Slot `m` of trip `k` on half `bb`: row `4k + m / 8`, lanes `16 (m % 8) … 16 (m % 8) + 15`, unit strides. -/
structure IsSlot (bb k m : ℕ) (R : Rect S2x128x128) : Prop where
  off : R.off = ![bb, 4 * k + m / 8, 16 * (m % 8)]
  size : R.size = S1x1x16.size
  stride : ∀ a, R.stride a = 1

theorem mem_slot {bb k m : ℕ} {R : Rect S2x128x128} (h : IsSlot bb k m R) (y : S2x128x128.Idx) :
    y ∈ R.set ↔ (y 0).val = bb ∧ (y 1).val = 4 * k + m / 8 ∧ 16 * (m % 8) ≤ (y 2).val ∧ (y 2).val < 16 * (m % 8) + 16 := by
  obtain ⟨ho, hs, ht⟩ := h
  rw [LoadRect.mem_set]
  constructor
  · intro hh
    obtain ⟨j0, hj0, e0⟩ := hh 0
    obtain ⟨j1, hj1, e1⟩ := hh 1
    obtain ⟨j2, hj2, e2⟩ := hh 2
    rw [hs] at hj0 hj1 hj2
    rw [ho, ht] at e0 e1 e2
    have hj0' : j0 < 1 := hj0
    have hj1' : j1 < 1 := hj1
    have hj2' : j2 < 16 := hj2
    have e0' : (y 0).val = bb + 1 * j0 := e0
    have e1' : (y 1).val = 4 * k + m / 8 + 1 * j1 := e1
    have e2' : (y 2).val = 16 * (m % 8) + 1 * j2 := e2
    omega
  · rintro ⟨h0, h1, h2, h3⟩ a
    rw [hs, ho, ht]
    fin_cases a
    · exact ⟨0, (by decide : 0 < 1), (by omega : (y 0).val = bb + 1 * 0)⟩
    · exact ⟨0, (by decide : 0 < 1), (by omega : (y 1).val = 4 * k + m / 8 + 1 * 0)⟩
    · exact ⟨(y 2).val - 16 * (m % 8), (by omega : (y 2).val - 16 * (m % 8) < 16),
        (by omega : (y 2).val = 16 * (m % 8) + 1 * ((y 2).val - 16 * (m % 8)))⟩

/-- Thirty-two unmasked writes through the output chunk buffer, the `n`-th (the last write first) through slot `31 - n`
    of trip `k` with that slot's sums as payload, take "rows below `4k` of half `bb` hold the sum" to "rows below
    `4 (k + 1)`". -/
theorem writes_trip (bb k : ℕ) (fe fp fo : Vec F S2x128x128 .f32)
    (L : List (View.Piece (Elt F) S2x128x128 .f32))
    (hlen : L.length = 32)
    (hpos : ∀ n, n < 32 → ∃ p, L[n]? = some p ∧ IsSlot bb k (31 - n) p.1 ∧
        ∀ x, p.2 x = addE (fe (p.1.emb x)) (fp (p.1.emb x))) :
    A11.view.writes (Elt F) (sumRows fe fp fo bb (4 * k)) L = sumRows fe fp fo bb (4 * (k + 1)) := by
  have hmem : ∀ p ∈ L, ∃ n, n < 32 ∧ L[n]? = some p := by
    intro p hp
    obtain ⟨n, hn, rfl⟩ := List.mem_iff_getElem.mp hp
    exact ⟨n, hlen ▸ hn, List.getElem?_eq_getElem hn⟩
  have hG : ∀ p ∈ L, ∀ x : p.1.shape.Idx, p.2 x = (fun y => addE (fe y) (fp y)) (p.1.emb x) := by
    intro p hp x
    obtain ⟨n, hn, hp'⟩ := hmem p hp
    obtain ⟨q, hq, -, hgood⟩ := hpos n hn
    rw [hp'] at hq; cases hq
    exact hgood x
  have hcov : ∀ y : S2x128x128.Idx,
      (∃ p ∈ L, y ∈ p.1.set) ↔ ((y 0).val = bb ∧ 4 * k ≤ (y 1).val ∧ (y 1).val < 4 * k + 4) := by
    intro y; constructor
    · rintro ⟨p, hp, hy⟩
      obtain ⟨n, hn, hp'⟩ := hmem p hp
      obtain ⟨q, hq, hslot, -⟩ := hpos n hn
      rw [hp'] at hq; cases hq
      have := (mem_slot hslot y).mp hy
      omega
    · rintro ⟨h0, h1, h2⟩
      have h3 : (y 2).val < 128 := (y 2).isLt
      obtain ⟨p, hp, hslot, -⟩ := hpos (31 - (8 * ((y 1).val - 4 * k) + (y 2).val / 16)) (by omega)
      refine ⟨p, List.mem_of_getElem? hp, (mem_slot hslot y).mpr ?_⟩
      have e : 31 - (31 - (8 * ((y 1).val - 4 * k) + (y 2).val / 16)) = 8 * ((y 1).val - 4 * k) + (y 2).val / 16 := by omega
      rw [e]; omega
  funext y
  show A11.view.read (Elt F) (A11.view.writes (Elt F) (sumRows fe fp fo bb (4 * k)) L) y = _
  by_cases hy : (y 0).val = bb ∧ 4 * k ≤ (y 1).val ∧ (y 1).val < 4 * k + 4
  · rw [View.read_writes_apply_of_pieces A11.view _ (fun y => addE (fe y) (fp y)) L hG y ((hcov y).mpr hy)]
    have : (y 0).val = bb ∧ (y 1).val < 4 * (k + 1) := by omega
    simp only [sumRows, this, and_self, if_true]
  · rw [View.read_writes_apply_of_forall_not_mem A11.view _ y L (fun p hp hm => hy ((hcov y).mp ⟨p, hp, hm⟩))]
    show sumRows fe fp fo bb (4 * k) y = _
    have : ((y 0).val = bb ∧ (y 1).val < 4 * (k + 1)) ↔ ((y 0).val = bb ∧ (y 1).val < 4 * k) := by omega
    simp only [sumRows, this]

end Cert.Kernel.Run.Add

end
-- ==== Proof.AddTrip0Bits.lean ====
/-
  The add loop of chunk 0 of a trip of the tile kernel (`k1_t2`, working on half 0 of the chunk buffers).

  One trip `k` of the loop loads, for rows `4k … 4k+3` and each of the eight 16-lane slices of a row, the slice of the
  element-row buffer and of the property-row buffer, adds them lane by lane and stores the sum into the same slice of the
  output buffer: thirty-two writes, slot `8 r + j` (row `4k + r`, lanes `16 j …`) the `(8 r + j)`-th. Held: the three
  buffers less the other half's window. The trip takes "rows below `4k` of the half hold the sum" to "rows below
  `4 (k + 1)`"; thirty-two trips take the output buffer's half to the sum of the two input halves.
-/
import proofs.«204385_g66649302499670_cont_9to1c4b_43_34_alg».proof.Proof.AddSpecBits
import proofs.«204385_g66649302499670_cont_9to1c4b_43_34_alg».proof.Proof.Gen.Kernel.Skeleton
import Mathlib.Tactic.IntervalCases

noncomputable section

namespace Cert.Kernel.Run.Add

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (i : grid1.Coords)

set_option maxRecDepth 4096 in
/-- One trip of the loop `k1_t2`, as the run leaves it: the two input buffers untouched, the output buffer after
    thirty-two writes whose rectangles are the trip's slots and whose payloads are the slots' sums. -/
theorem trip_t2_raw (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (arg17 : BitVec 32) (v81 : BitVec 32)
    (k : Fin k1_t2_loop.trips)
    (fe : Buf (Elt F) (A9.view.loc (thr d i))) (fp : Buf (Elt F) (A10.view.loc (thr d i))) (g : Buf (Elt F) (A11.view.loc (thr d i))) :
    (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} g)) : sProp 𝕄)
      ⊢ wp frame (wpE (defs₀ (F := F)) 𝒱₀ (thr d i) none) Set.univ
          (k1_t2_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v81 k ⟨⟩)
          (fun _ => iprop((A9.view.loc (thr d i) ↦[A9.view.set \ (win1 A9).view.set]{fullShare} fe)
            ∗ (A10.view.loc (thr d i) ↦[A10.view.set \ (win1 A10).view.set]{fullShare} fp)
            ∗ ∃ L : List (View.Piece (Elt F) S2x128x128 .f32),
                (A11.view.loc (thr d i) ↦[A11.view.set \ (win1 A11).view.set]{fullShare} A11.view.writes (Elt F) g L)
                ∗ ⌜L.length = 32 ∧ ∀ n, n < 32 → ∃ p, L[n]? = some p ∧ IsSlot 0 k.val (31 - n) p.1 ∧
                    ∀ x, p.2 x = addE (F := F) (fe (p.1.emb x)) (fp (p.1.emb x))⌝)) := by
  unfold k1_t2_body
  iintro ⟨He, Hp, Ho⟩
  sl_exec
  sl_step
  isplitl [He]; · iexact He
  isplitl [Hp]; · iexact Hp
  iexists _
  isplitl [Ho]; · iexact Ho
  ipureintro
  refine ⟨rfl, ?_⟩
  sl_unfold_run_names
  unfold_pays_b
  intro n hn
  interval_cases n <;>
    (refine ⟨_, rfl, ⟨?_, rfl, fun _ => rfl⟩,
        fun x => (cast_add_cast _ _ shapeCasts_S1x1x16_S16 shapeCasts_S16_S1x1x16 x).trans rfl⟩
     dsimp only [Rect.off_unit]
     exact ClosedOff.eq.trans rfl)

/-- The loop `k1_t2` on half 0: holding the three chunk buffers less the other half's window, it leaves the output
    buffer's half at the lanewise sum of the two input buffers' halves and everything else as it was. -/
theorem loop_t2 (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (arg17 : BitVec 32) (v81 : BitVec 32)
    (fe : Buf (Elt F) (A9.view.loc (thr d i))) (fp : Buf (Elt F) (A10.view.loc (thr d i))) (fo : Buf (Elt F) (A11.view.loc (thr d i))) :
    (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} fo)) : sProp 𝕄)
      ⊢ wp frame (wpE (defs₀ (F := F)) 𝒱₀ (thr d i) none) Set.univ
          (Scf.Loop.for k1_t2_loop k1_t2_ok ⟨⟩ (k1_t2_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v81))
          (fun _ => iprop((A9.view.loc (thr d i) ↦[A9.view.set \ (win1 A9).view.set]{fullShare} fe)
            ∗ (A10.view.loc (thr d i) ↦[A10.view.set \ (win1 A10).view.set]{fullShare} fp)
            ∗ (A11.view.loc (thr d i) ↦[A11.view.set \ (win1 A11).view.set]{fullShare} sumHalf fe fp fo 0))) := by
  have htr : k1_t2_loop.trips = 32 := by decide
  have e0 : sumRows fe fp fo 0 (4 * 0) = fo := sumRows_zero fe fp fo 0
  have e1 : sumRows fe fp fo 0 (4 * k1_t2_loop.trips) = sumHalf fe fp fo 0 := by
    rw [htr]; exact sumRows_full fe fp fo 0
  have hbody : ∀ (k : Fin k1_t2_loop.trips) (acc : Unit),
      (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} sumRows fe fp fo 0 (4 * k.val))) : sProp 𝕄)
      ⊢ wp frame (wpE (defs₀ (F := F)) 𝒱₀ (thr d i) none) Set.univ
          (k1_t2_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v81 k acc)
          (fun _ => iprop((A9.view.loc (thr d i) ↦[A9.view.set \ (win1 A9).view.set]{fullShare} fe)
            ∗ (A10.view.loc (thr d i) ↦[A10.view.set \ (win1 A10).view.set]{fullShare} fp)
            ∗ (A11.view.loc (thr d i) ↦[A11.view.set \ (win1 A11).view.set]{fullShare} sumRows fe fp fo 0 (4 * (k.val + 1))))) := by
    intro k acc
    refine (trip_t2_raw d i arg2 harg2 arg3 harg3 arg4 harg4 arg5 harg5 arg6 harg6 arg7 harg7 arg8 harg8 arg12 harg12 arg13 arg14 arg15 arg16 v69_r0 v69_r1 v69_r2 v2 k1_t1 arg17 v81 k fe fp (sumRows fe fp fo 0 (4 * k.val))).trans
      (wp_mono _ _ _ fun _ => ?_)
    iintro ⟨He, Hp, %L, Ho, %hL⟩
    isplitl [He]; · iexact He
    isplitl [Hp]; · iexact Hp
    irw [← writes_trip (F := F) 0 k.val fe fp fo L hL.1 hL.2]
    iexact Ho
  refine BIBase.Entails.trans ?_ (Scf.wp_for frame (wpE (defs₀ (F := F)) 𝒱₀ (thr d i) none) Set.univ
    k1_t2_loop.lb k1_t2_loop.ub k1_t2_loop.st k1_t2_ok ⟨⟩ (k1_t2_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v81)
    (fun n (_ : Unit) => (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} sumRows fe fp fo 0 (4 * n))) : sProp 𝕄))
    hbody)
  iintro ⟨He, Hp, Ho⟩
  isplitl [He Hp Ho]
  · isplitl [He]; · iexact He
    isplitl [Hp]; · iexact Hp
    irw [e0]; iexact Ho
  · iintro %acc ⟨He, Hp, Ho⟩
    isplitl [He]; · iexact He
    isplitl [Hp]; · iexact Hp
    irw [← e1]; iexact Ho

end Cert.Kernel.Run.Add
end
-- ==== Proof.AddTrip1Bits.lean ====
/-
  The add loop of chunk 1 of a trip of the tile kernel (`k1_t3`, working on half 1 of the chunk buffers).

  One trip `k` of the loop loads, for rows `4k … 4k+3` and each of the eight 16-lane slices of a row, the slice of the
  element-row buffer and of the property-row buffer, adds them lane by lane and stores the sum into the same slice of the
  output buffer: thirty-two writes, slot `8 r + j` (row `4k + r`, lanes `16 j …`) the `(8 r + j)`-th. Held: the three
  buffers less the other half's window. The trip takes "rows below `4k` of the half hold the sum" to "rows below
  `4 (k + 1)`"; thirty-two trips take the output buffer's half to the sum of the two input halves.
-/
import proofs.«204385_g66649302499670_cont_9to1c4b_43_34_alg».proof.Proof.AddSpecBits
import proofs.«204385_g66649302499670_cont_9to1c4b_43_34_alg».proof.Proof.Gen.Kernel.Skeleton
import Mathlib.Tactic.IntervalCases

noncomputable section

namespace Cert.Kernel.Run.Add

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (i : grid1.Coords)

set_option maxRecDepth 4096 in
/-- One trip of the loop `k1_t3`, as the run leaves it: the two input buffers untouched, the output buffer after
    thirty-two writes whose rectangles are the trip's slots and whose payloads are the slots' sums. -/
theorem trip_t3_raw (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (arg17 : BitVec 32) (v115 : BitVec 32)
    (k : Fin k1_t3_loop.trips)
    (fe : Buf (Elt F) (A9.view.loc (thr d i))) (fp : Buf (Elt F) (A10.view.loc (thr d i))) (g : Buf (Elt F) (A11.view.loc (thr d i))) :
    (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} g)) : sProp 𝕄)
      ⊢ wp frame (wpE (defs₀ (F := F)) 𝒱₀ (thr d i) none) Set.univ
          (k1_t3_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v115 k ⟨⟩)
          (fun _ => iprop((A9.view.loc (thr d i) ↦[A9.view.set \ (win0 A9).view.set]{fullShare} fe)
            ∗ (A10.view.loc (thr d i) ↦[A10.view.set \ (win0 A10).view.set]{fullShare} fp)
            ∗ ∃ L : List (View.Piece (Elt F) S2x128x128 .f32),
                (A11.view.loc (thr d i) ↦[A11.view.set \ (win0 A11).view.set]{fullShare} A11.view.writes (Elt F) g L)
                ∗ ⌜L.length = 32 ∧ ∀ n, n < 32 → ∃ p, L[n]? = some p ∧ IsSlot 1 k.val (31 - n) p.1 ∧
                    ∀ x, p.2 x = addE (F := F) (fe (p.1.emb x)) (fp (p.1.emb x))⌝)) := by
  unfold k1_t3_body
  iintro ⟨He, Hp, Ho⟩
  sl_exec
  sl_step
  isplitl [He]; · iexact He
  isplitl [Hp]; · iexact Hp
  iexists _
  isplitl [Ho]; · iexact Ho
  ipureintro
  refine ⟨rfl, ?_⟩
  sl_unfold_run_names
  unfold_pays_b
  intro n hn
  interval_cases n <;>
    (refine ⟨_, rfl, ⟨?_, rfl, fun _ => rfl⟩,
        fun x => (cast_add_cast _ _ shapeCasts_S1x1x16_S16 shapeCasts_S16_S1x1x16 x).trans rfl⟩
     dsimp only [Rect.off_unit]
     exact ClosedOff.eq.trans rfl)

/-- The loop `k1_t3` on half 1: holding the three chunk buffers less the other half's window, it leaves the output
    buffer's half at the lanewise sum of the two input buffers' halves and everything else as it was. -/
theorem loop_t3 (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (arg17 : BitVec 32) (v115 : BitVec 32)
    (fe : Buf (Elt F) (A9.view.loc (thr d i))) (fp : Buf (Elt F) (A10.view.loc (thr d i))) (fo : Buf (Elt F) (A11.view.loc (thr d i))) :
    (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} fo)) : sProp 𝕄)
      ⊢ wp frame (wpE (defs₀ (F := F)) 𝒱₀ (thr d i) none) Set.univ
          (Scf.Loop.for k1_t3_loop k1_t3_ok ⟨⟩ (k1_t3_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v115))
          (fun _ => iprop((A9.view.loc (thr d i) ↦[A9.view.set \ (win0 A9).view.set]{fullShare} fe)
            ∗ (A10.view.loc (thr d i) ↦[A10.view.set \ (win0 A10).view.set]{fullShare} fp)
            ∗ (A11.view.loc (thr d i) ↦[A11.view.set \ (win0 A11).view.set]{fullShare} sumHalf fe fp fo 1))) := by
  have htr : k1_t3_loop.trips = 32 := by decide
  have e0 : sumRows fe fp fo 1 (4 * 0) = fo := sumRows_zero fe fp fo 1
  have e1 : sumRows fe fp fo 1 (4 * k1_t3_loop.trips) = sumHalf fe fp fo 1 := by
    rw [htr]; exact sumRows_full fe fp fo 1
  have hbody : ∀ (k : Fin k1_t3_loop.trips) (acc : Unit),
      (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} sumRows fe fp fo 1 (4 * k.val))) : sProp 𝕄)
      ⊢ wp frame (wpE (defs₀ (F := F)) 𝒱₀ (thr d i) none) Set.univ
          (k1_t3_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v115 k acc)
          (fun _ => iprop((A9.view.loc (thr d i) ↦[A9.view.set \ (win0 A9).view.set]{fullShare} fe)
            ∗ (A10.view.loc (thr d i) ↦[A10.view.set \ (win0 A10).view.set]{fullShare} fp)
            ∗ (A11.view.loc (thr d i) ↦[A11.view.set \ (win0 A11).view.set]{fullShare} sumRows fe fp fo 1 (4 * (k.val + 1))))) := by
    intro k acc
    refine (trip_t3_raw d i arg2 harg2 arg3 harg3 arg4 harg4 arg5 harg5 arg6 harg6 arg7 harg7 arg8 harg8 arg12 harg12 arg13 arg14 arg15 arg16 v69_r0 v69_r1 v69_r2 v2 k1_t1 arg17 v115 k fe fp (sumRows fe fp fo 1 (4 * k.val))).trans
      (wp_mono _ _ _ fun _ => ?_)
    iintro ⟨He, Hp, %L, Ho, %hL⟩
    isplitl [He]; · iexact He
    isplitl [Hp]; · iexact Hp
    irw [← writes_trip (F := F) 1 k.val fe fp fo L hL.1 hL.2]
    iexact Ho
  refine BIBase.Entails.trans ?_ (Scf.wp_for frame (wpE (defs₀ (F := F)) 𝒱₀ (thr d i) none) Set.univ
    k1_t3_loop.lb k1_t3_loop.ub k1_t3_loop.st k1_t3_ok ⟨⟩ (k1_t3_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v115)
    (fun n (_ : Unit) => (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} sumRows fe fp fo 1 (4 * n))) : sProp 𝕄))
    hbody)
  iintro ⟨He, Hp, Ho⟩
  isplitl [He Hp Ho]
  · isplitl [He]; · iexact He
    isplitl [Hp]; · iexact Hp
    irw [e0]; iexact Ho
  · iintro %acc ⟨He, Hp, Ho⟩
    isplitl [He]; · iexact He
    isplitl [Hp]; · iexact Hp
    irw [← e1]; iexact Ho

end Cert.Kernel.Run.Add
end
-- ==== Proof.AddTrip2Bits.lean ====
/-
  The add loop of chunk 2 of a trip of the tile kernel (`k1_t4`, working on half 0 of the chunk buffers).

  One trip `k` of the loop loads, for rows `4k … 4k+3` and each of the eight 16-lane slices of a row, the slice of the
  element-row buffer and of the property-row buffer, adds them lane by lane and stores the sum into the same slice of the
  output buffer: thirty-two writes, slot `8 r + j` (row `4k + r`, lanes `16 j …`) the `(8 r + j)`-th. Held: the three
  buffers less the other half's window. The trip takes "rows below `4k` of the half hold the sum" to "rows below
  `4 (k + 1)`"; thirty-two trips take the output buffer's half to the sum of the two input halves.
-/
import proofs.«204385_g66649302499670_cont_9to1c4b_43_34_alg».proof.Proof.AddSpecBits
import proofs.«204385_g66649302499670_cont_9to1c4b_43_34_alg».proof.Proof.Gen.Kernel.Skeleton
import Mathlib.Tactic.IntervalCases

noncomputable section

namespace Cert.Kernel.Run.Add

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (i : grid1.Coords)

set_option maxRecDepth 4096 in
/-- One trip of the loop `k1_t4`, as the run leaves it: the two input buffers untouched, the output buffer after
    thirty-two writes whose rectangles are the trip's slots and whose payloads are the slots' sums. -/
theorem trip_t4_raw (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (v149 : BitVec 32)
    (k : Fin k1_t4_loop.trips)
    (fe : Buf (Elt F) (A9.view.loc (thr d i))) (fp : Buf (Elt F) (A10.view.loc (thr d i))) (g : Buf (Elt F) (A11.view.loc (thr d i))) :
    (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} g)) : sProp 𝕄)
      ⊢ wp frame (wpE (defs₀ (F := F)) 𝒱₀ (thr d i) none) Set.univ
          (k1_t4_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 v149 k ⟨⟩)
          (fun _ => iprop((A9.view.loc (thr d i) ↦[A9.view.set \ (win1 A9).view.set]{fullShare} fe)
            ∗ (A10.view.loc (thr d i) ↦[A10.view.set \ (win1 A10).view.set]{fullShare} fp)
            ∗ ∃ L : List (View.Piece (Elt F) S2x128x128 .f32),
                (A11.view.loc (thr d i) ↦[A11.view.set \ (win1 A11).view.set]{fullShare} A11.view.writes (Elt F) g L)
                ∗ ⌜L.length = 32 ∧ ∀ n, n < 32 → ∃ p, L[n]? = some p ∧ IsSlot 0 k.val (31 - n) p.1 ∧
                    ∀ x, p.2 x = addE (F := F) (fe (p.1.emb x)) (fp (p.1.emb x))⌝)) := by
  unfold k1_t4_body
  iintro ⟨He, Hp, Ho⟩
  sl_exec
  sl_step
  isplitl [He]; · iexact He
  isplitl [Hp]; · iexact Hp
  iexists _
  isplitl [Ho]; · iexact Ho
  ipureintro
  refine ⟨rfl, ?_⟩
  sl_unfold_run_names
  unfold_pays_b
  intro n hn
  interval_cases n <;>
    (refine ⟨_, rfl, ⟨?_, rfl, fun _ => rfl⟩,
        fun x => (cast_add_cast _ _ shapeCasts_S1x1x16_S16 shapeCasts_S16_S1x1x16 x).trans rfl⟩
     dsimp only [Rect.off_unit]
     exact ClosedOff.eq.trans rfl)

/-- The loop `k1_t4` on half 0: holding the three chunk buffers less the other half's window, it leaves the output
    buffer's half at the lanewise sum of the two input buffers' halves and everything else as it was. -/
theorem loop_t4 (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (v149 : BitVec 32)
    (fe : Buf (Elt F) (A9.view.loc (thr d i))) (fp : Buf (Elt F) (A10.view.loc (thr d i))) (fo : Buf (Elt F) (A11.view.loc (thr d i))) :
    (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} fo)) : sProp 𝕄)
      ⊢ wp frame (wpE (defs₀ (F := F)) 𝒱₀ (thr d i) none) Set.univ
          (Scf.Loop.for k1_t4_loop k1_t4_ok ⟨⟩ (k1_t4_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 v149))
          (fun _ => iprop((A9.view.loc (thr d i) ↦[A9.view.set \ (win1 A9).view.set]{fullShare} fe)
            ∗ (A10.view.loc (thr d i) ↦[A10.view.set \ (win1 A10).view.set]{fullShare} fp)
            ∗ (A11.view.loc (thr d i) ↦[A11.view.set \ (win1 A11).view.set]{fullShare} sumHalf fe fp fo 0))) := by
  have htr : k1_t4_loop.trips = 32 := by decide
  have e0 : sumRows fe fp fo 0 (4 * 0) = fo := sumRows_zero fe fp fo 0
  have e1 : sumRows fe fp fo 0 (4 * k1_t4_loop.trips) = sumHalf fe fp fo 0 := by
    rw [htr]; exact sumRows_full fe fp fo 0
  have hbody : ∀ (k : Fin k1_t4_loop.trips) (acc : Unit),
      (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} sumRows fe fp fo 0 (4 * k.val))) : sProp 𝕄)
      ⊢ wp frame (wpE (defs₀ (F := F)) 𝒱₀ (thr d i) none) Set.univ
          (k1_t4_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 v149 k acc)
          (fun _ => iprop((A9.view.loc (thr d i) ↦[A9.view.set \ (win1 A9).view.set]{fullShare} fe)
            ∗ (A10.view.loc (thr d i) ↦[A10.view.set \ (win1 A10).view.set]{fullShare} fp)
            ∗ (A11.view.loc (thr d i) ↦[A11.view.set \ (win1 A11).view.set]{fullShare} sumRows fe fp fo 0 (4 * (k.val + 1))))) := by
    intro k acc
    refine (trip_t4_raw d i arg2 harg2 arg3 harg3 arg4 harg4 arg5 harg5 arg6 harg6 arg7 harg7 arg8 harg8 arg12 harg12 arg13 arg14 arg15 arg16 v69_r0 v69_r1 v69_r2 v2 k1_t1 v149 k fe fp (sumRows fe fp fo 0 (4 * k.val))).trans
      (wp_mono _ _ _ fun _ => ?_)
    iintro ⟨He, Hp, %L, Ho, %hL⟩
    isplitl [He]; · iexact He
    isplitl [Hp]; · iexact Hp
    irw [← writes_trip (F := F) 0 k.val fe fp fo L hL.1 hL.2]
    iexact Ho
  refine BIBase.Entails.trans ?_ (Scf.wp_for frame (wpE (defs₀ (F := F)) 𝒱₀ (thr d i) none) Set.univ
    k1_t4_loop.lb k1_t4_loop.ub k1_t4_loop.st k1_t4_ok ⟨⟩ (k1_t4_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 v149)
    (fun n (_ : Unit) => (iprop((A9.view.loc (thr d i) ↦[A9.view.set \ (win1 A9).view.set]{fullShare} fe)
        ∗ (A10.view.loc (thr d i) ↦[A10.view.set \ (win1 A10).view.set]{fullShare} fp)
        ∗ (A11.view.loc (thr d i) ↦[A11.view.set \ (win1 A11).view.set]{fullShare} sumRows fe fp fo 0 (4 * n))) : sProp 𝕄))
    hbody)
  iintro ⟨He, Hp, Ho⟩
  isplitl [He Hp Ho]
  · isplitl [He]; · iexact He
    isplitl [Hp]; · iexact Hp
    irw [e0]; iexact Ho
  · iintro %acc ⟨He, Hp, Ho⟩
    isplitl [He]; · iexact He
    isplitl [Hp]; · iexact Hp
    irw [← e1]; iexact Ho

end Cert.Kernel.Run.Add
end
-- ==== Proof.AddTrip3Bits.lean ====
/-
  The add loop of chunk 3 of a trip of the tile kernel (`k1_t5`, working on half 1 of the chunk buffers).

  One trip `k` of the loop loads, for rows `4k … 4k+3` and each of the eight 16-lane slices of a row, the slice of the
  element-row buffer and of the property-row buffer, adds them lane by lane and stores the sum into the same slice of the
  output buffer: thirty-two writes, slot `8 r + j` (row `4k + r`, lanes `16 j …`) the `(8 r + j)`-th. Held: the three
  buffers less the other half's window. The trip takes "rows below `4k` of the half hold the sum" to "rows below
  `4 (k + 1)`"; thirty-two trips take the output buffer's half to the sum of the two input halves.
-/
import proofs.«204385_g66649302499670_cont_9to1c4b_43_34_alg».proof.Proof.AddSpecBits
import proofs.«204385_g66649302499670_cont_9to1c4b_43_34_alg».proof.Proof.Gen.Kernel.Skeleton
import Mathlib.Tactic.IntervalCases

noncomputable section

namespace Cert.Kernel.Run.Add

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (i : grid1.Coords)

set_option maxRecDepth 4096 in
/-- One trip of the loop `k1_t5`, as the run leaves it: the two input buffers untouched, the output buffer after
    thirty-two writes whose rectangles are the trip's slots and whose payloads are the slots' sums. -/
theorem trip_t5_raw (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (arg17 : BitVec 32) (v179 : BitVec 1)
    (k : Fin k1_t5_loop.trips)
    (fe : Buf (Elt F) (A9.view.loc (thr d i))) (fp : Buf (Elt F) (A10.view.loc (thr d i))) (g : Buf (Elt F) (A11.view.loc (thr d i))) :
    (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} g)) : sProp 𝕄)
      ⊢ wp frame (wpE (defs₀ (F := F)) 𝒱₀ (thr d i) none) Set.univ
          (k1_t5_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v179 k ⟨⟩)
          (fun _ => iprop((A9.view.loc (thr d i) ↦[A9.view.set \ (win0 A9).view.set]{fullShare} fe)
            ∗ (A10.view.loc (thr d i) ↦[A10.view.set \ (win0 A10).view.set]{fullShare} fp)
            ∗ ∃ L : List (View.Piece (Elt F) S2x128x128 .f32),
                (A11.view.loc (thr d i) ↦[A11.view.set \ (win0 A11).view.set]{fullShare} A11.view.writes (Elt F) g L)
                ∗ ⌜L.length = 32 ∧ ∀ n, n < 32 → ∃ p, L[n]? = some p ∧ IsSlot 1 k.val (31 - n) p.1 ∧
                    ∀ x, p.2 x = addE (F := F) (fe (p.1.emb x)) (fp (p.1.emb x))⌝)) := by
  unfold k1_t5_body
  iintro ⟨He, Hp, Ho⟩
  sl_exec
  sl_step
  isplitl [He]; · iexact He
  isplitl [Hp]; · iexact Hp
  iexists _
  isplitl [Ho]; · iexact Ho
  ipureintro
  refine ⟨rfl, ?_⟩
  sl_unfold_run_names
  unfold_pays_b
  intro n hn
  interval_cases n <;>
    (refine ⟨_, rfl, ⟨?_, rfl, fun _ => rfl⟩,
        fun x => (cast_add_cast _ _ shapeCasts_S1x1x16_S16 shapeCasts_S16_S1x1x16 x).trans rfl⟩
     dsimp only [Rect.off_unit]
     exact ClosedOff.eq.trans rfl)

/-- The loop `k1_t5` on half 1: holding the three chunk buffers less the other half's window, it leaves the output
    buffer's half at the lanewise sum of the two input buffers' halves and everything else as it was. -/
theorem loop_t5 (arg2 : Memref sig .scVector .hbm S100000x128 .f32) (harg2 : arg2.IsWhole) (arg3 : Memref sig .scVector .hbm S1000x128 .f32) (harg3 : arg3.IsWhole) (arg4 : Memref sig .scVector .hbm S819200 .i32) (harg4 : arg4.IsWhole) (arg5 : Memref sig .scVector .hbm S819200 .i32) (harg5 : arg5.IsWhole) (arg6 : Memref sig .scVector .hbm S819200x128 .f32) (harg6 : arg6.IsWhole) (arg7 : Memref sig .scVector .vmem S2x512 .i32) (harg7 : arg7.IsWhole) (arg8 : Memref sig .scVector .vmem S2x512 .i32) (harg8 : arg8.IsWhole)
    (arg12 : Memref sig .scVector .shared S1000x128 .f32) (harg12 : arg12.IsWhole) (arg13 : DmaSems sig S2) (arg14 : DmaSems sig S2) (arg15 : DmaSems sig S2) (arg16 : DmaSems sig S2) (v69_r0 : DmaSems sig S_) (v69_r1 : DmaSems sig S_) (v69_r2 : DmaSems sig S_) (v2 : BitVec 32) (k1_t1 : Fin k1_t1_loop.trips) (arg17 : BitVec 32) (v179 : BitVec 1)
    (fe : Buf (Elt F) (A9.view.loc (thr d i))) (fp : Buf (Elt F) (A10.view.loc (thr d i))) (fo : Buf (Elt F) (A11.view.loc (thr d i))) :
    (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} fo)) : sProp 𝕄)
      ⊢ wp frame (wpE (defs₀ (F := F)) 𝒱₀ (thr d i) none) Set.univ
          (Scf.Loop.for k1_t5_loop k1_t5_ok ⟨⟩ (k1_t5_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v179))
          (fun _ => iprop((A9.view.loc (thr d i) ↦[A9.view.set \ (win0 A9).view.set]{fullShare} fe)
            ∗ (A10.view.loc (thr d i) ↦[A10.view.set \ (win0 A10).view.set]{fullShare} fp)
            ∗ (A11.view.loc (thr d i) ↦[A11.view.set \ (win0 A11).view.set]{fullShare} sumHalf fe fp fo 1))) := by
  have htr : k1_t5_loop.trips = 32 := by decide
  have e0 : sumRows fe fp fo 1 (4 * 0) = fo := sumRows_zero fe fp fo 1
  have e1 : sumRows fe fp fo 1 (4 * k1_t5_loop.trips) = sumHalf fe fp fo 1 := by
    rw [htr]; exact sumRows_full fe fp fo 1
  have hbody : ∀ (k : Fin k1_t5_loop.trips) (acc : Unit),
      (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} sumRows fe fp fo 1 (4 * k.val))) : sProp 𝕄)
      ⊢ wp frame (wpE (defs₀ (F := F)) 𝒱₀ (thr d i) none) Set.univ
          (k1_t5_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v179 k acc)
          (fun _ => iprop((A9.view.loc (thr d i) ↦[A9.view.set \ (win0 A9).view.set]{fullShare} fe)
            ∗ (A10.view.loc (thr d i) ↦[A10.view.set \ (win0 A10).view.set]{fullShare} fp)
            ∗ (A11.view.loc (thr d i) ↦[A11.view.set \ (win0 A11).view.set]{fullShare} sumRows fe fp fo 1 (4 * (k.val + 1))))) := by
    intro k acc
    refine (trip_t5_raw d i arg2 harg2 arg3 harg3 arg4 harg4 arg5 harg5 arg6 harg6 arg7 harg7 arg8 harg8 arg12 harg12 arg13 arg14 arg15 arg16 v69_r0 v69_r1 v69_r2 v2 k1_t1 arg17 v179 k fe fp (sumRows fe fp fo 1 (4 * k.val))).trans
      (wp_mono _ _ _ fun _ => ?_)
    iintro ⟨He, Hp, %L, Ho, %hL⟩
    isplitl [He]; · iexact He
    isplitl [Hp]; · iexact Hp
    irw [← writes_trip (F := F) 1 k.val fe fp fo L hL.1 hL.2]
    iexact Ho
  refine BIBase.Entails.trans ?_ (Scf.wp_for frame (wpE (defs₀ (F := F)) 𝒱₀ (thr d i) none) Set.univ
    k1_t5_loop.lb k1_t5_loop.ub k1_t5_loop.st k1_t5_ok ⟨⟩ (k1_t5_body i arg2 harg2 arg3 harg3 arg4 harg4 arg5 harg5 arg6 harg6 arg7 harg7 arg8 harg8 A9 (Memref.isWhole_whole _) A10 (Memref.isWhole_whole _) A11 (Memref.isWhole_whole _) arg12 harg12 arg13 arg14 arg15 arg16 v69_r0 v69_r1 v69_r2 v2 k1_t1 arg17 v179)
    (fun n (_ : Unit) => (iprop((A9.view.loc (thr d i) ↦[A9.view.set \ (win0 A9).view.set]{fullShare} fe)
        ∗ (A10.view.loc (thr d i) ↦[A10.view.set \ (win0 A10).view.set]{fullShare} fp)
        ∗ (A11.view.loc (thr d i) ↦[A11.view.set \ (win0 A11).view.set]{fullShare} sumRows fe fp fo 1 (4 * n))) : sProp 𝕄))
    hbody)
  iintro ⟨He, Hp, Ho⟩
  isplitl [He Hp Ho]
  · isplitl [He]; · iexact He
    isplitl [Hp]; · iexact Hp
    irw [e0]; iexact Ho
  · iintro %acc ⟨He, Hp, Ho⟩
    isplitl [He]; · iexact He
    isplitl [Hp]; · iexact Hp
    irw [← e1]; iexact Ho

end Cert.Kernel.Run.Add
end
-- ==== Proof.AddLoopBits.lean ====
/-
  The four inner add loops of the tile kernel's trip, in the form the trip's proof cites them: holding the three chunk
  buffers — each whole, or less the other half's window (lent to a transfer in flight) —, the loop on half `bb` leaves
  the output buffer's half at the lanewise sum of the two gathered halves and everything else as it was, and the
  program goes on from there.

  Each rule is the loop's rule on the buffers less the other half's window: a buffer held whole is split into that part
  and the window's elements, which the loop does not touch and which hold, after the loop, what they held before (the
  sum differs from the old contents only on half `bb`).
-/
import proofs.«204385_g66649302499670_cont_9to1c4b_43_34_alg».proof.Proof.ScIfaceBits
import proofs.«204385_g66649302499670_cont_9to1c4b_43_34_alg».proof.Proof.AddTrip0Bits
import proofs.«204385_g66649302499670_cont_9to1c4b_43_34_alg».proof.Proof.AddTrip1Bits
import proofs.«204385_g66649302499670_cont_9to1c4b_43_34_alg».proof.Proof.AddTrip2Bits
import proofs.«204385_g66649302499670_cont_9to1c4b_43_34_alg».proof.Proof.AddTrip3Bits

noncomputable section

namespace Cert.Kernel.Run.Add

open Cert.Kernel Cert.Kernel.Gen Cert.Kernel.Run
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "shV" => (Memref.whole Cert.Kernel.cc1_scratch5 : Memref Cert.Kernel.sig Kind.scVector Space.shared Cert.Kernel.S1000x128 EltTy.f32)

/-! ## Holding more than the loop needs -/

/-- Either admitted holding contains the buffer less the other half's window. -/
theorem heldOn_sub {M : Memref sig .scVector .vmem S2x128x128 .f32} {d : Dev nD} {L : grid1.Coords}
    {other S : Finset (Idx (M.view.loc (Sc.thr d L)))} (h : Sc.HeldOn M d L other S) : M.view.set \ other ⊆ S := by
  rcases h with rfl | rfl
  · exact Finset.subset_univ _
  · exact Finset.Subset.refl _

theorem split_held {ℓ : Loc nD τ sig} {R S : Finset (Idx ℓ)} (h : R ⊆ S) (f : Buf (Elt F) ℓ) :
    (ℓ ↦[S]{fullShare} f : sProp 𝕄) ⊢ iprop((ℓ ↦[R]{fullShare} f) ∗ (ℓ ↦[S \ R]{fullShare} f)) :=
  (pointsTo_split_subset h).1

/-- The part the loop worked on at its new contents and the rest at the old ones are the whole holding at the new
    contents, when the new contents differ from the old only on the part. -/
theorem join_held {ℓ : Loc nD τ sig} {R S : Finset (Idx ℓ)} (h : R ⊆ S) (f g : Buf (Elt F) ℓ) (hfg : ∀ j ∈ S \ R, f j = g j) :
    (iprop((ℓ ↦[R]{fullShare} g) ∗ (ℓ ↦[S \ R]{fullShare} f)) : sProp 𝕄) ⊢ (ℓ ↦[S]{fullShare} g) := by
  rw [pointsTo_congr hfg]
  exact (pointsTo_split_subset h).2

/-- An element of half 0's window is in half 0; of half 1's window, in half 1. -/
theorem zero_of_mem_win0 (y : S2x128x128.Idx) (h : y ∈ (win0 A11).view.set) : (y 0).val = 0 := by
  rw [Memref.set_view_squeeze] at h
  have h' : y ∈ ((View.whole cc1_scratch4).slice (Rect.unit (s := S2x128x128) ![0, 0, 0] S1x128x128.size inb_S2x128x128_S1x128x128_0_0_0)).set := h
  rw [View.set_slice_whole, Rect.mem_set_unit] at h'
  have h0 : 0 ≤ (y 0).val ∧ (y 0).val < 0 + 1 := h' 0
  omega
theorem one_of_mem_win1 (y : S2x128x128.Idx) (h : y ∈ (win1 A11).view.set) : (y 0).val = 1 := by
  rw [Memref.set_view_squeeze] at h
  have h' : y ∈ ((View.whole cc1_scratch4).slice (Rect.unit (s := S2x128x128) ![1, 0, 0] S1x128x128.size inb_S2x128x128_S1x128x128_1_0_0)).set := h
  rw [View.set_slice_whole, Rect.mem_set_unit] at h'
  have h0 : 1 ≤ (y 0).val ∧ (y 0).val < 1 + 1 := h' 0
  omega

/-- Off the buffer less half 1's window, the sum on half 0 is the old contents; and likewise with the halves exchanged. -/
theorem sum0_off (d : Dev nD) (L : grid1.Coords) (fe fp fo : Vec F S2x128x128 .f32) (So : Finset (Idx (A11.view.loc (thr d L))))
    (j : S2x128x128.Idx) (hj : j ∈ So \ (A11.view.set \ (win1 A11).view.set)) : fo j = Sc.addHalf 0 fe fp fo j := by
  have hj2 := (Finset.mem_sdiff.mp hj).2
  have hw : j ∈ (win1 A11).view.set := by
    by_contra hn
    exact hj2 (Finset.mem_sdiff.mpr ⟨by rw [Memref.IsWhole.set_eq_univ (Memref.isWhole_whole cc1_scratch4)]; exact Finset.mem_univ _, hn⟩)
  have h1 := one_of_mem_win1 j hw
  show fo j = if (j 0).val = 0 then _ else fo j
  rw [if_neg (by omega)]
theorem sum1_off (d : Dev nD) (L : grid1.Coords) (fe fp fo : Vec F S2x128x128 .f32) (So : Finset (Idx (A11.view.loc (thr d L))))
    (j : S2x128x128.Idx) (hj : j ∈ So \ (A11.view.set \ (win0 A11).view.set)) : fo j = Sc.addHalf 1 fe fp fo j := by
  have hj2 := (Finset.mem_sdiff.mp hj).2
  have hw : j ∈ (win0 A11).view.set := by
    by_contra hn
    exact hj2 (Finset.mem_sdiff.mpr ⟨by rw [Memref.IsWhole.set_eq_univ (Memref.isWhole_whole cc1_scratch4)]; exact Finset.mem_univ _, hn⟩)
  have h1 := zero_of_mem_win0 j hw
  show fo j = if (j 0).val = 1 then _ else fo j
  rw [if_neg (by omega)]

theorem sumHalf_eq (fe fp fo : Vec F S2x128x128 .f32) (bb : ℕ) : sumHalf fe fp fo bb = Sc.addHalf bb fe fp fo := rfl

/-! ## The four rules -/

theorem addLoop_sub0 (d : Dev nD) (L : grid1.Coords) (v2 : BitVec 32) (k1_t1 : Fin k1_t1_loop.trips) :
    Sc.AddLoop_sub0 (F := F) d L v2 k1_t1 := by
  intro arg17 v81 Se Sp So hSe hSp hSo fe fp fo α k Q
  have hse := heldOn_sub hSe
  have hsp := heldOn_sub hSp
  have hso := heldOn_sub hSo
  rw [wp_bind]
  iintro ⟨He, Hp, Ho, Hk⟩
  ihave He' := (split_held (F := F) hse fe) $$ He
  icases He' with ⟨He1, He2⟩
  ihave Hp' := (split_held (F := F) hsp fp) $$ Hp
  icases Hp' with ⟨Hp1, Hp2⟩
  ihave Ho' := (split_held (F := F) hso fo) $$ Ho
  icases Ho' with ⟨Ho1, Ho2⟩
  iapply (wp_wand_r frame (wpE (defs₀ (F := F)) 𝒱₀ (thr d L) none) Set.univ
    (Q := fun _ => iprop((A9.view.loc (thr d L) ↦[A9.view.set \ (win1 A9).view.set]{fullShare} fe)
            ∗ (A10.view.loc (thr d L) ↦[A10.view.set \ (win1 A10).view.set]{fullShare} fp)
            ∗ (A11.view.loc (thr d L) ↦[A11.view.set \ (win1 A11).view.set]{fullShare} sumHalf fe fp fo 0))))
  isplitl [He1 Hp1 Ho1]
  · iapply (loop_t2 d L teV (Memref.isWhole_whole _) tpV (Memref.isWhole_whole _) eidV (Memref.isWhole_whole _) pidV (Memref.isWhole_whole _) outV (Memref.isWhole_whole _) eixV (Memref.isWhole_whole _) pixV (Memref.isWhole_whole _) shV (Memref.isWhole_whole _) cc1_scratch6 cc1_scratch7 cc1_scratch8 cc1_scratch9 cc1_scoped0 cc1_scoped1 cc1_scoped2 v2 k1_t1 arg17 v81 fe fp fo)
    isplitl [He1]; · iexact He1
    isplitl [Hp1]; · iexact Hp1
    iexact Ho1
  · iintro %a ⟨He1, Hp1, Ho1⟩
    iapply Hk
    isplitl [He1 He2]
    · iapply (join_held (F := F) hse fe fe (fun _ _ => rfl))
      isplitl [He1]; · iexact He1
      iexact He2
    isplitl [Hp1 Hp2]
    · iapply (join_held (F := F) hsp fp fp (fun _ _ => rfl))
      isplitl [Hp1]; · iexact Hp1
      iexact Hp2
    · iapply (join_held (F := F) hso fo (Sc.addHalf 0 fe fp fo) (sum0_off d L fe fp fo So))
      isplitl [Ho1]
      · rw [← sumHalf_eq]; iexact Ho1
      iexact Ho2

theorem addLoop_sub1 (d : Dev nD) (L : grid1.Coords) (v2 : BitVec 32) (k1_t1 : Fin k1_t1_loop.trips) :
    Sc.AddLoop_sub1 (F := F) d L v2 k1_t1 := by
  intro arg17 v115 Se Sp So hSe hSp hSo fe fp fo α k Q
  have hse := heldOn_sub hSe
  have hsp := heldOn_sub hSp
  have hso := heldOn_sub hSo
  rw [wp_bind]
  iintro ⟨He, Hp, Ho, Hk⟩
  ihave He' := (split_held (F := F) hse fe) $$ He
  icases He' with ⟨He1, He2⟩
  ihave Hp' := (split_held (F := F) hsp fp) $$ Hp
  icases Hp' with ⟨Hp1, Hp2⟩
  ihave Ho' := (split_held (F := F) hso fo) $$ Ho
  icases Ho' with ⟨Ho1, Ho2⟩
  iapply (wp_wand_r frame (wpE (defs₀ (F := F)) 𝒱₀ (thr d L) none) Set.univ
    (Q := fun _ => iprop((A9.view.loc (thr d L) ↦[A9.view.set \ (win0 A9).view.set]{fullShare} fe)
            ∗ (A10.view.loc (thr d L) ↦[A10.view.set \ (win0 A10).view.set]{fullShare} fp)
            ∗ (A11.view.loc (thr d L) ↦[A11.view.set \ (win0 A11).view.set]{fullShare} sumHalf fe fp fo 1))))
  isplitl [He1 Hp1 Ho1]
  · iapply (loop_t3 d L teV (Memref.isWhole_whole _) tpV (Memref.isWhole_whole _) eidV (Memref.isWhole_whole _) pidV (Memref.isWhole_whole _) outV (Memref.isWhole_whole _) eixV (Memref.isWhole_whole _) pixV (Memref.isWhole_whole _) shV (Memref.isWhole_whole _) cc1_scratch6 cc1_scratch7 cc1_scratch8 cc1_scratch9 cc1_scoped0 cc1_scoped1 cc1_scoped2 v2 k1_t1 arg17 v115 fe fp fo)
    isplitl [He1]; · iexact He1
    isplitl [Hp1]; · iexact Hp1
    iexact Ho1
  · iintro %a ⟨He1, Hp1, Ho1⟩
    iapply Hk
    isplitl [He1 He2]
    · iapply (join_held (F := F) hse fe fe (fun _ _ => rfl))
      isplitl [He1]; · iexact He1
      iexact He2
    isplitl [Hp1 Hp2]
    · iapply (join_held (F := F) hsp fp fp (fun _ _ => rfl))
      isplitl [Hp1]; · iexact Hp1
      iexact Hp2
    · iapply (join_held (F := F) hso fo (Sc.addHalf 1 fe fp fo) (sum1_off d L fe fp fo So))
      isplitl [Ho1]
      · rw [← sumHalf_eq]; iexact Ho1
      iexact Ho2

theorem addLoop_sub2 (d : Dev nD) (L : grid1.Coords) (v2 : BitVec 32) (k1_t1 : Fin k1_t1_loop.trips) :
    Sc.AddLoop_sub2 (F := F) d L v2 k1_t1 := by
  intro v149 Se Sp So hSe hSp hSo fe fp fo α k Q
  have hse := heldOn_sub hSe
  have hsp := heldOn_sub hSp
  have hso := heldOn_sub hSo
  rw [wp_bind]
  iintro ⟨He, Hp, Ho, Hk⟩
  ihave He' := (split_held (F := F) hse fe) $$ He
  icases He' with ⟨He1, He2⟩
  ihave Hp' := (split_held (F := F) hsp fp) $$ Hp
  icases Hp' with ⟨Hp1, Hp2⟩
  ihave Ho' := (split_held (F := F) hso fo) $$ Ho
  icases Ho' with ⟨Ho1, Ho2⟩
  iapply (wp_wand_r frame (wpE (defs₀ (F := F)) 𝒱₀ (thr d L) none) Set.univ
    (Q := fun _ => iprop((A9.view.loc (thr d L) ↦[A9.view.set \ (win1 A9).view.set]{fullShare} fe)
            ∗ (A10.view.loc (thr d L) ↦[A10.view.set \ (win1 A10).view.set]{fullShare} fp)
            ∗ (A11.view.loc (thr d L) ↦[A11.view.set \ (win1 A11).view.set]{fullShare} sumHalf fe fp fo 0))))
  isplitl [He1 Hp1 Ho1]
  · iapply (loop_t4 d L teV (Memref.isWhole_whole _) tpV (Memref.isWhole_whole _) eidV (Memref.isWhole_whole _) pidV (Memref.isWhole_whole _) outV (Memref.isWhole_whole _) eixV (Memref.isWhole_whole _) pixV (Memref.isWhole_whole _) shV (Memref.isWhole_whole _) cc1_scratch6 cc1_scratch7 cc1_scratch8 cc1_scratch9 cc1_scoped0 cc1_scoped1 cc1_scoped2 v2 k1_t1 v149 fe fp fo)
    isplitl [He1]; · iexact He1
    isplitl [Hp1]; · iexact Hp1
    iexact Ho1
  · iintro %a ⟨He1, Hp1, Ho1⟩
    iapply Hk
    isplitl [He1 He2]
    · iapply (join_held (F := F) hse fe fe (fun _ _ => rfl))
      isplitl [He1]; · iexact He1
      iexact He2
    isplitl [Hp1 Hp2]
    · iapply (join_held (F := F) hsp fp fp (fun _ _ => rfl))
      isplitl [Hp1]; · iexact Hp1
      iexact Hp2
    · iapply (join_held (F := F) hso fo (Sc.addHalf 0 fe fp fo) (sum0_off d L fe fp fo So))
      isplitl [Ho1]
      · rw [← sumHalf_eq]; iexact Ho1
      iexact Ho2

theorem addLoop_sub3 (d : Dev nD) (L : grid1.Coords) (v2 : BitVec 32) (k1_t1 : Fin k1_t1_loop.trips) :
    Sc.AddLoop_sub3 (F := F) d L v2 k1_t1 := by
  intro arg17 v179 Se Sp So hSe hSp hSo fe fp fo α k Q
  have hse := heldOn_sub hSe
  have hsp := heldOn_sub hSp
  have hso := heldOn_sub hSo
  rw [wp_bind]
  iintro ⟨He, Hp, Ho, Hk⟩
  ihave He' := (split_held (F := F) hse fe) $$ He
  icases He' with ⟨He1, He2⟩
  ihave Hp' := (split_held (F := F) hsp fp) $$ Hp
  icases Hp' with ⟨Hp1, Hp2⟩
  ihave Ho' := (split_held (F := F) hso fo) $$ Ho
  icases Ho' with ⟨Ho1, Ho2⟩
  iapply (wp_wand_r frame (wpE (defs₀ (F := F)) 𝒱₀ (thr d L) none) Set.univ
    (Q := fun _ => iprop((A9.view.loc (thr d L) ↦[A9.view.set \ (win0 A9).view.set]{fullShare} fe)
            ∗ (A10.view.loc (thr d L) ↦[A10.view.set \ (win0 A10).view.set]{fullShare} fp)
            ∗ (A11.view.loc (thr d L) ↦[A11.view.set \ (win0 A11).view.set]{fullShare} sumHalf fe fp fo 1))))
  isplitl [He1 Hp1 Ho1]
  · iapply (loop_t5 d L teV (Memref.isWhole_whole _) tpV (Memref.isWhole_whole _) eidV (Memref.isWhole_whole _) pidV (Memref.isWhole_whole _) outV (Memref.isWhole_whole _) eixV (Memref.isWhole_whole _) pixV (Memref.isWhole_whole _) shV (Memref.isWhole_whole _) cc1_scratch6 cc1_scratch7 cc1_scratch8 cc1_scratch9 cc1_scoped0 cc1_scoped1 cc1_scoped2 v2 k1_t1 arg17 v179 fe fp fo)
    isplitl [He1]; · iexact He1
    isplitl [Hp1]; · iexact Hp1
    iexact Ho1
  · iintro %a ⟨He1, Hp1, Ho1⟩
    iapply Hk
    isplitl [He1 He2]
    · iapply (join_held (F := F) hse fe fe (fun _ _ => rfl))
      isplitl [He1]; · iexact He1
      iexact He2
    isplitl [Hp1 Hp2]
    · iapply (join_held (F := F) hsp fp fp (fun _ _ => rfl))
      isplitl [Hp1]; · iexact Hp1
      iexact Hp2
    · iapply (join_held (F := F) hso fo (Sc.addHalf 1 fe fp fo) (sum1_off d L fe fp fo So))
      isplitl [Ho1]
      · rw [← sumHalf_eq]; iexact Ho1
      iexact Ho2

end Cert.Kernel.Run.Add

end
-- ==== Proof.ScHalvesBits.lean ====
/-
  Joining the halves of a row buffer: a half handed back by a flight and what was left in hand of the buffer are the
  buffer held on all but the other half's window, at the piecewise contents.
-/
import proofs.«204385_g66649302499670_cont_9to1c4b_43_34_alg».proof.Proof.ScTripBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable (d : Dev nD) (L : grid1.Coords)

theorem mem_h0_e (y : S2x128x128.Idx) : y ∈ (hlf0 (Memref.whole cc1_scratch2 : Memref sig Kind.scVector Space.vmem S2x128x128 EltTy.f32)).view.set ↔ (y 0).val = 0 := by
  rw [Memref.set_view_squeeze]
  rw [show (((Memref.whole cc1_scratch2 : Memref sig Kind.scVector Space.vmem S2x128x128 EltTy.f32).slice (Rect.unit (s := S2x128x128) ![0, 0, 0] S1x128x128.size inb_S2x128x128_S1x128x128_0_0_0) (fun _ => rfl)).view.set)
    = ((View.whole cc1_scratch2).slice (Rect.unit (s := S2x128x128) ![0, 0, 0] S1x128x128.size inb_S2x128x128_S1x128x128_0_0_0)).set from rfl, View.set_slice_whole, Rect.mem_set_unit]
  constructor
  · intro h
    have h0 : 0 ≤ (y 0).val ∧ (y 0).val < 0 + 1 := h 0
    omega
  · intro h a
    match a with
    | 0 => show 0 ≤ (y 0).val ∧ (y 0).val < 0 + 1; omega
    | 1 => show 0 ≤ (y 1).val ∧ (y 1).val < 0 + 128; have := (y 1).isLt; exact ⟨Nat.zero_le _, by simpa using this⟩
    | 2 => show 0 ≤ (y 2).val ∧ (y 2).val < 0 + 128; have := (y 2).isLt; exact ⟨Nat.zero_le _, by simpa using this⟩

theorem mem_h1_e (y : S2x128x128.Idx) : y ∈ (hlf1 (Memref.whole cc1_scratch2 : Memref sig Kind.scVector Space.vmem S2x128x128 EltTy.f32)).view.set ↔ (y 0).val = 1 := by
  rw [Memref.set_view_squeeze]
  rw [show (((Memref.whole cc1_scratch2 : Memref sig Kind.scVector Space.vmem S2x128x128 EltTy.f32).slice (Rect.unit (s := S2x128x128) ![1, 0, 0] S1x128x128.size inb_S2x128x128_S1x128x128_1_0_0) (fun _ => rfl)).view.set)
    = ((View.whole cc1_scratch2).slice (Rect.unit (s := S2x128x128) ![1, 0, 0] S1x128x128.size inb_S2x128x128_S1x128x128_1_0_0)).set from rfl, View.set_slice_whole, Rect.mem_set_unit]
  constructor
  · intro h
    have h0 : 1 ≤ (y 0).val ∧ (y 0).val < 1 + 1 := h 0
    omega
  · intro h a
    match a with
    | 0 => show 1 ≤ (y 0).val ∧ (y 0).val < 1 + 1; omega
    | 1 => show 0 ≤ (y 1).val ∧ (y 1).val < 0 + 128; have := (y 1).isLt; exact ⟨Nat.zero_le _, by simpa using this⟩
    | 2 => show 0 ≤ (y 2).val ∧ (y 2).val < 0 + 128; have := (y 2).isLt; exact ⟨Nat.zero_le _, by simpa using this⟩

theorem union0_e : ((Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set) ∪ ((hlf0 (Memref.whole cc1_scratch2 : Memref sig Kind.scVector Space.vmem S2x128x128 EltTy.f32)).view.set) = (Memref.whole cc1_scratch2 : Memref sig Kind.scVector Space.vmem S2x128x128 EltTy.f32).view.set \ (hlf1 (Memref.whole cc1_scratch2 : Memref sig Kind.scVector Space.vmem S2x128x128 EltTy.f32)).view.set := by
  ext y
  constructor
  · intro hy
    rcases Finset.mem_union.mp hy with h | h
    · exact Finset.mem_sdiff.mpr ⟨by rw [Memref.IsWhole.set_eq_univ (Memref.isWhole_whole cc1_scratch2)]; exact Finset.mem_univ _,
        (Finset.mem_sdiff.mp h).2⟩
    · refine Finset.mem_sdiff.mpr ⟨by rw [Memref.IsWhole.set_eq_univ (Memref.isWhole_whole cc1_scratch2)]; exact Finset.mem_univ _, fun ho => ?_⟩
      have h1 := (mem_h0_e y).mp h
      have h2 := (mem_h1_e y).mp ho
      omega
  · intro hy
    have hno := (Finset.mem_sdiff.mp hy).2
    by_cases hh : y ∈ (hlf0 (Memref.whole cc1_scratch2 : Memref sig Kind.scVector Space.vmem S2x128x128 EltTy.f32)).view.set
    · exact Finset.mem_union_right _ hh
    · exact Finset.mem_union_left _ (Finset.mem_sdiff.mpr ⟨Finset.mem_sdiff.mpr ⟨Finset.mem_univ _, hh⟩, hno⟩)

/-- Half 0 handed back and what was left in hand: the buffer on all but half 1's window. -/
theorem join0_e (fR : Buf (Elt F) ((Memref.whole cc1_scratch2 : Memref sig Kind.scVector Space.vmem S2x128x128 EltTy.f32).view.loc (thr d L))) (f : Buf (Elt F) ((hlf0 (Memref.whole cc1_scratch2 : Memref sig Kind.scVector Space.vmem S2x128x128 EltTy.f32)).view.loc (thr d L))) :
    iprop(((Memref.whole cc1_scratch2 : Memref sig Kind.scVector Space.vmem S2x128x128 EltTy.f32).view.loc (thr d L) ↦[(Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set]{fullShare} fR)
        ∗ ((hlf0 (Memref.whole cc1_scratch2 : Memref sig Kind.scVector Space.vmem S2x128x128 EltTy.f32)).view.loc (thr d L) ↦[(hlf0 (Memref.whole cc1_scratch2 : Memref sig Kind.scVector Space.vmem S2x128x128 EltTy.f32)).view.set]{fullShare} f))
      ⊢ ((Memref.whole cc1_scratch2 : Memref sig Kind.scVector Space.vmem S2x128x128 EltTy.f32).view.loc (thr d L) ↦[(Memref.whole cc1_scratch2 : Memref sig Kind.scVector Space.vmem S2x128x128 EltTy.f32).view.set \ (hlf1 (Memref.whole cc1_scratch2 : Memref sig Kind.scVector Space.vmem S2x128x128 EltTy.f32)).view.set]{fullShare} ((hlf0 (Memref.whole cc1_scratch2 : Memref sig Kind.scVector Space.vmem S2x128x128 EltTy.f32)).view.set.piecewise f fR) : sProp 𝕄) := by
  have hd : Disjoint ((Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set) ((hlf0 (Memref.whole cc1_scratch2 : Memref sig Kind.scVector Space.vmem S2x128x128 EltTy.f32)).view.set) := by
    rw [Finset.disjoint_left]; intro y hy hy2
    exact (Finset.mem_sdiff.mp (Finset.mem_sdiff.mp hy).1).2 hy2
  rw [← union0_e]
  exact pointsTo_join hd

theorem union1_e : ((Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set) ∪ ((hlf1 (Memref.whole cc1_scratch2 : Memref sig Kind.scVector Space.vmem S2x128x128 EltTy.f32)).view.set) = (Memref.whole cc1_scratch2 : Memref sig Kind.scVector Space.vmem S2x128x128 EltTy.f32).view.set \ (hlf0 (Memref.whole cc1_scratch2 : Memref sig Kind.scVector Space.vmem S2x128x128 EltTy.f32)).view.set := by
  ext y
  constructor
  · intro hy
    rcases Finset.mem_union.mp hy with h | h
    · exact Finset.mem_sdiff.mpr ⟨by rw [Memref.IsWhole.set_eq_univ (Memref.isWhole_whole cc1_scratch2)]; exact Finset.mem_univ _,
        (Finset.mem_sdiff.mp (Finset.mem_sdiff.mp h).1).2⟩
    · refine Finset.mem_sdiff.mpr ⟨by rw [Memref.IsWhole.set_eq_univ (Memref.isWhole_whole cc1_scratch2)]; exact Finset.mem_univ _, fun ho => ?_⟩
      have h1 := (mem_h1_e y).mp h
      have h2 := (mem_h0_e y).mp ho
      omega
  · intro hy
    have hno := (Finset.mem_sdiff.mp hy).2
    by_cases hh : y ∈ (hlf1 (Memref.whole cc1_scratch2 : Memref sig Kind.scVector Space.vmem S2x128x128 EltTy.f32)).view.set
    · exact Finset.mem_union_right _ hh
    · exact Finset.mem_union_left _ (Finset.mem_sdiff.mpr ⟨Finset.mem_sdiff.mpr ⟨Finset.mem_univ _, hno⟩, hh⟩)

/-- Half 1 handed back and what was left in hand: the buffer on all but half 0's window. -/
theorem join1_e (fR : Buf (Elt F) ((Memref.whole cc1_scratch2 : Memref sig Kind.scVector Space.vmem S2x128x128 EltTy.f32).view.loc (thr d L))) (f : Buf (Elt F) ((hlf1 (Memref.whole cc1_scratch2 : Memref sig Kind.scVector Space.vmem S2x128x128 EltTy.f32)).view.loc (thr d L))) :
    iprop(((Memref.whole cc1_scratch2 : Memref sig Kind.scVector Space.vmem S2x128x128 EltTy.f32).view.loc (thr d L) ↦[(Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set]{fullShare} fR)
        ∗ ((hlf1 (Memref.whole cc1_scratch2 : Memref sig Kind.scVector Space.vmem S2x128x128 EltTy.f32)).view.loc (thr d L) ↦[(hlf1 (Memref.whole cc1_scratch2 : Memref sig Kind.scVector Space.vmem S2x128x128 EltTy.f32)).view.set]{fullShare} f))
      ⊢ ((Memref.whole cc1_scratch2 : Memref sig Kind.scVector Space.vmem S2x128x128 EltTy.f32).view.loc (thr d L) ↦[(Memref.whole cc1_scratch2 : Memref sig Kind.scVector Space.vmem S2x128x128 EltTy.f32).view.set \ (hlf0 (Memref.whole cc1_scratch2 : Memref sig Kind.scVector Space.vmem S2x128x128 EltTy.f32)).view.set]{fullShare} ((hlf1 (Memref.whole cc1_scratch2 : Memref sig Kind.scVector Space.vmem S2x128x128 EltTy.f32)).view.set.piecewise f fR) : sProp 𝕄) := by
  have hd : Disjoint ((Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set) ((hlf1 (Memref.whole cc1_scratch2 : Memref sig Kind.scVector Space.vmem S2x128x128 EltTy.f32)).view.set) := by
    rw [Finset.disjoint_left]; intro y hy hy2
    exact (Finset.mem_sdiff.mp hy).2 hy2
  rw [← union1_e]
  exact pointsTo_join hd

theorem mem_h0_p (y : S2x128x128.Idx) : y ∈ (hlf0 (Memref.whole cc1_scratch3 : Memref sig Kind.scVector Space.vmem S2x128x128 EltTy.f32)).view.set ↔ (y 0).val = 0 := by
  rw [Memref.set_view_squeeze]
  rw [show (((Memref.whole cc1_scratch3 : Memref sig Kind.scVector Space.vmem S2x128x128 EltTy.f32).slice (Rect.unit (s := S2x128x128) ![0, 0, 0] S1x128x128.size inb_S2x128x128_S1x128x128_0_0_0) (fun _ => rfl)).view.set)
    = ((View.whole cc1_scratch3).slice (Rect.unit (s := S2x128x128) ![0, 0, 0] S1x128x128.size inb_S2x128x128_S1x128x128_0_0_0)).set from rfl, View.set_slice_whole, Rect.mem_set_unit]
  constructor
  · intro h
    have h0 : 0 ≤ (y 0).val ∧ (y 0).val < 0 + 1 := h 0
    omega
  · intro h a
    match a with
    | 0 => show 0 ≤ (y 0).val ∧ (y 0).val < 0 + 1; omega
    | 1 => show 0 ≤ (y 1).val ∧ (y 1).val < 0 + 128; have := (y 1).isLt; exact ⟨Nat.zero_le _, by simpa using this⟩
    | 2 => show 0 ≤ (y 2).val ∧ (y 2).val < 0 + 128; have := (y 2).isLt; exact ⟨Nat.zero_le _, by simpa using this⟩

theorem mem_h1_p (y : S2x128x128.Idx) : y ∈ (hlf1 (Memref.whole cc1_scratch3 : Memref sig Kind.scVector Space.vmem S2x128x128 EltTy.f32)).view.set ↔ (y 0).val = 1 := by
  rw [Memref.set_view_squeeze]
  rw [show (((Memref.whole cc1_scratch3 : Memref sig Kind.scVector Space.vmem S2x128x128 EltTy.f32).slice (Rect.unit (s := S2x128x128) ![1, 0, 0] S1x128x128.size inb_S2x128x128_S1x128x128_1_0_0) (fun _ => rfl)).view.set)
    = ((View.whole cc1_scratch3).slice (Rect.unit (s := S2x128x128) ![1, 0, 0] S1x128x128.size inb_S2x128x128_S1x128x128_1_0_0)).set from rfl, View.set_slice_whole, Rect.mem_set_unit]
  constructor
  · intro h
    have h0 : 1 ≤ (y 0).val ∧ (y 0).val < 1 + 1 := h 0
    omega
  · intro h a
    match a with
    | 0 => show 1 ≤ (y 0).val ∧ (y 0).val < 1 + 1; omega
    | 1 => show 0 ≤ (y 1).val ∧ (y 1).val < 0 + 128; have := (y 1).isLt; exact ⟨Nat.zero_le _, by simpa using this⟩
    | 2 => show 0 ≤ (y 2).val ∧ (y 2).val < 0 + 128; have := (y 2).isLt; exact ⟨Nat.zero_le _, by simpa using this⟩

theorem union0_p : ((Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set) ∪ ((hlf0 (Memref.whole cc1_scratch3 : Memref sig Kind.scVector Space.vmem S2x128x128 EltTy.f32)).view.set) = (Memref.whole cc1_scratch3 : Memref sig Kind.scVector Space.vmem S2x128x128 EltTy.f32).view.set \ (hlf1 (Memref.whole cc1_scratch3 : Memref sig Kind.scVector Space.vmem S2x128x128 EltTy.f32)).view.set := by
  ext y
  constructor
  · intro hy
    rcases Finset.mem_union.mp hy with h | h
    · exact Finset.mem_sdiff.mpr ⟨by rw [Memref.IsWhole.set_eq_univ (Memref.isWhole_whole cc1_scratch3)]; exact Finset.mem_univ _,
        (Finset.mem_sdiff.mp h).2⟩
    · refine Finset.mem_sdiff.mpr ⟨by rw [Memref.IsWhole.set_eq_univ (Memref.isWhole_whole cc1_scratch3)]; exact Finset.mem_univ _, fun ho => ?_⟩
      have h1 := (mem_h0_p y).mp h
      have h2 := (mem_h1_p y).mp ho
      omega
  · intro hy
    have hno := (Finset.mem_sdiff.mp hy).2
    by_cases hh : y ∈ (hlf0 (Memref.whole cc1_scratch3 : Memref sig Kind.scVector Space.vmem S2x128x128 EltTy.f32)).view.set
    · exact Finset.mem_union_right _ hh
    · exact Finset.mem_union_left _ (Finset.mem_sdiff.mpr ⟨Finset.mem_sdiff.mpr ⟨Finset.mem_univ _, hh⟩, hno⟩)

/-- Half 0 handed back and what was left in hand: the buffer on all but half 1's window. -/
theorem join0_p (fR : Buf (Elt F) ((Memref.whole cc1_scratch3 : Memref sig Kind.scVector Space.vmem S2x128x128 EltTy.f32).view.loc (thr d L))) (f : Buf (Elt F) ((hlf0 (Memref.whole cc1_scratch3 : Memref sig Kind.scVector Space.vmem S2x128x128 EltTy.f32)).view.loc (thr d L))) :
    iprop(((Memref.whole cc1_scratch3 : Memref sig Kind.scVector Space.vmem S2x128x128 EltTy.f32).view.loc (thr d L) ↦[(Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set]{fullShare} fR)
        ∗ ((hlf0 (Memref.whole cc1_scratch3 : Memref sig Kind.scVector Space.vmem S2x128x128 EltTy.f32)).view.loc (thr d L) ↦[(hlf0 (Memref.whole cc1_scratch3 : Memref sig Kind.scVector Space.vmem S2x128x128 EltTy.f32)).view.set]{fullShare} f))
      ⊢ ((Memref.whole cc1_scratch3 : Memref sig Kind.scVector Space.vmem S2x128x128 EltTy.f32).view.loc (thr d L) ↦[(Memref.whole cc1_scratch3 : Memref sig Kind.scVector Space.vmem S2x128x128 EltTy.f32).view.set \ (hlf1 (Memref.whole cc1_scratch3 : Memref sig Kind.scVector Space.vmem S2x128x128 EltTy.f32)).view.set]{fullShare} ((hlf0 (Memref.whole cc1_scratch3 : Memref sig Kind.scVector Space.vmem S2x128x128 EltTy.f32)).view.set.piecewise f fR) : sProp 𝕄) := by
  have hd : Disjoint ((Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set) ((hlf0 (Memref.whole cc1_scratch3 : Memref sig Kind.scVector Space.vmem S2x128x128 EltTy.f32)).view.set) := by
    rw [Finset.disjoint_left]; intro y hy hy2
    exact (Finset.mem_sdiff.mp (Finset.mem_sdiff.mp hy).1).2 hy2
  rw [← union0_p]
  exact pointsTo_join hd

theorem union1_p : ((Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set) ∪ ((hlf1 (Memref.whole cc1_scratch3 : Memref sig Kind.scVector Space.vmem S2x128x128 EltTy.f32)).view.set) = (Memref.whole cc1_scratch3 : Memref sig Kind.scVector Space.vmem S2x128x128 EltTy.f32).view.set \ (hlf0 (Memref.whole cc1_scratch3 : Memref sig Kind.scVector Space.vmem S2x128x128 EltTy.f32)).view.set := by
  ext y
  constructor
  · intro hy
    rcases Finset.mem_union.mp hy with h | h
    · exact Finset.mem_sdiff.mpr ⟨by rw [Memref.IsWhole.set_eq_univ (Memref.isWhole_whole cc1_scratch3)]; exact Finset.mem_univ _,
        (Finset.mem_sdiff.mp (Finset.mem_sdiff.mp h).1).2⟩
    · refine Finset.mem_sdiff.mpr ⟨by rw [Memref.IsWhole.set_eq_univ (Memref.isWhole_whole cc1_scratch3)]; exact Finset.mem_univ _, fun ho => ?_⟩
      have h1 := (mem_h1_p y).mp h
      have h2 := (mem_h0_p y).mp ho
      omega
  · intro hy
    have hno := (Finset.mem_sdiff.mp hy).2
    by_cases hh : y ∈ (hlf1 (Memref.whole cc1_scratch3 : Memref sig Kind.scVector Space.vmem S2x128x128 EltTy.f32)).view.set
    · exact Finset.mem_union_right _ hh
    · exact Finset.mem_union_left _ (Finset.mem_sdiff.mpr ⟨Finset.mem_sdiff.mpr ⟨Finset.mem_univ _, hno⟩, hh⟩)

/-- Half 1 handed back and what was left in hand: the buffer on all but half 0's window. -/
theorem join1_p (fR : Buf (Elt F) ((Memref.whole cc1_scratch3 : Memref sig Kind.scVector Space.vmem S2x128x128 EltTy.f32).view.loc (thr d L))) (f : Buf (Elt F) ((hlf1 (Memref.whole cc1_scratch3 : Memref sig Kind.scVector Space.vmem S2x128x128 EltTy.f32)).view.loc (thr d L))) :
    iprop(((Memref.whole cc1_scratch3 : Memref sig Kind.scVector Space.vmem S2x128x128 EltTy.f32).view.loc (thr d L) ↦[(Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set]{fullShare} fR)
        ∗ ((hlf1 (Memref.whole cc1_scratch3 : Memref sig Kind.scVector Space.vmem S2x128x128 EltTy.f32)).view.loc (thr d L) ↦[(hlf1 (Memref.whole cc1_scratch3 : Memref sig Kind.scVector Space.vmem S2x128x128 EltTy.f32)).view.set]{fullShare} f))
      ⊢ ((Memref.whole cc1_scratch3 : Memref sig Kind.scVector Space.vmem S2x128x128 EltTy.f32).view.loc (thr d L) ↦[(Memref.whole cc1_scratch3 : Memref sig Kind.scVector Space.vmem S2x128x128 EltTy.f32).view.set \ (hlf0 (Memref.whole cc1_scratch3 : Memref sig Kind.scVector Space.vmem S2x128x128 EltTy.f32)).view.set]{fullShare} ((hlf1 (Memref.whole cc1_scratch3 : Memref sig Kind.scVector Space.vmem S2x128x128 EltTy.f32)).view.set.piecewise f fR) : sProp 𝕄) := by
  have hd : Disjoint ((Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set) ((hlf1 (Memref.whole cc1_scratch3 : Memref sig Kind.scVector Space.vmem S2x128x128 EltTy.f32)).view.set) := by
    rw [Finset.disjoint_left]; intro y hy hy2
    exact (Finset.mem_sdiff.mp hy).2 hy2
  rw [← union1_p]
  exact pointsTo_join hd

theorem mem_h0_o (y : S2x128x128.Idx) : y ∈ (hlf0 (Memref.whole cc1_scratch4 : Memref sig Kind.scVector Space.vmem S2x128x128 EltTy.f32)).view.set ↔ (y 0).val = 0 := by
  rw [Memref.set_view_squeeze]
  rw [show (((Memref.whole cc1_scratch4 : Memref sig Kind.scVector Space.vmem S2x128x128 EltTy.f32).slice (Rect.unit (s := S2x128x128) ![0, 0, 0] S1x128x128.size inb_S2x128x128_S1x128x128_0_0_0) (fun _ => rfl)).view.set)
    = ((View.whole cc1_scratch4).slice (Rect.unit (s := S2x128x128) ![0, 0, 0] S1x128x128.size inb_S2x128x128_S1x128x128_0_0_0)).set from rfl, View.set_slice_whole, Rect.mem_set_unit]
  constructor
  · intro h
    have h0 : 0 ≤ (y 0).val ∧ (y 0).val < 0 + 1 := h 0
    omega
  · intro h a
    match a with
    | 0 => show 0 ≤ (y 0).val ∧ (y 0).val < 0 + 1; omega
    | 1 => show 0 ≤ (y 1).val ∧ (y 1).val < 0 + 128; have := (y 1).isLt; exact ⟨Nat.zero_le _, by simpa using this⟩
    | 2 => show 0 ≤ (y 2).val ∧ (y 2).val < 0 + 128; have := (y 2).isLt; exact ⟨Nat.zero_le _, by simpa using this⟩

theorem mem_h1_o (y : S2x128x128.Idx) : y ∈ (hlf1 (Memref.whole cc1_scratch4 : Memref sig Kind.scVector Space.vmem S2x128x128 EltTy.f32)).view.set ↔ (y 0).val = 1 := by
  rw [Memref.set_view_squeeze]
  rw [show (((Memref.whole cc1_scratch4 : Memref sig Kind.scVector Space.vmem S2x128x128 EltTy.f32).slice (Rect.unit (s := S2x128x128) ![1, 0, 0] S1x128x128.size inb_S2x128x128_S1x128x128_1_0_0) (fun _ => rfl)).view.set)
    = ((View.whole cc1_scratch4).slice (Rect.unit (s := S2x128x128) ![1, 0, 0] S1x128x128.size inb_S2x128x128_S1x128x128_1_0_0)).set from rfl, View.set_slice_whole, Rect.mem_set_unit]
  constructor
  · intro h
    have h0 : 1 ≤ (y 0).val ∧ (y 0).val < 1 + 1 := h 0
    omega
  · intro h a
    match a with
    | 0 => show 1 ≤ (y 0).val ∧ (y 0).val < 1 + 1; omega
    | 1 => show 0 ≤ (y 1).val ∧ (y 1).val < 0 + 128; have := (y 1).isLt; exact ⟨Nat.zero_le _, by simpa using this⟩
    | 2 => show 0 ≤ (y 2).val ∧ (y 2).val < 0 + 128; have := (y 2).isLt; exact ⟨Nat.zero_le _, by simpa using this⟩

theorem union0_o : ((Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set) ∪ ((hlf0 (Memref.whole cc1_scratch4 : Memref sig Kind.scVector Space.vmem S2x128x128 EltTy.f32)).view.set) = (Memref.whole cc1_scratch4 : Memref sig Kind.scVector Space.vmem S2x128x128 EltTy.f32).view.set \ (hlf1 (Memref.whole cc1_scratch4 : Memref sig Kind.scVector Space.vmem S2x128x128 EltTy.f32)).view.set := by
  ext y
  constructor
  · intro hy
    rcases Finset.mem_union.mp hy with h | h
    · exact Finset.mem_sdiff.mpr ⟨by rw [Memref.IsWhole.set_eq_univ (Memref.isWhole_whole cc1_scratch4)]; exact Finset.mem_univ _,
        (Finset.mem_sdiff.mp h).2⟩
    · refine Finset.mem_sdiff.mpr ⟨by rw [Memref.IsWhole.set_eq_univ (Memref.isWhole_whole cc1_scratch4)]; exact Finset.mem_univ _, fun ho => ?_⟩
      have h1 := (mem_h0_o y).mp h
      have h2 := (mem_h1_o y).mp ho
      omega
  · intro hy
    have hno := (Finset.mem_sdiff.mp hy).2
    by_cases hh : y ∈ (hlf0 (Memref.whole cc1_scratch4 : Memref sig Kind.scVector Space.vmem S2x128x128 EltTy.f32)).view.set
    · exact Finset.mem_union_right _ hh
    · exact Finset.mem_union_left _ (Finset.mem_sdiff.mpr ⟨Finset.mem_sdiff.mpr ⟨Finset.mem_univ _, hh⟩, hno⟩)

/-- Half 0 handed back and what was left in hand: the buffer on all but half 1's window. -/
theorem join0_o (fR : Buf (Elt F) ((Memref.whole cc1_scratch4 : Memref sig Kind.scVector Space.vmem S2x128x128 EltTy.f32).view.loc (thr d L))) (f : Buf (Elt F) ((hlf0 (Memref.whole cc1_scratch4 : Memref sig Kind.scVector Space.vmem S2x128x128 EltTy.f32)).view.loc (thr d L))) :
    iprop(((Memref.whole cc1_scratch4 : Memref sig Kind.scVector Space.vmem S2x128x128 EltTy.f32).view.loc (thr d L) ↦[(Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set]{fullShare} fR)
        ∗ ((hlf0 (Memref.whole cc1_scratch4 : Memref sig Kind.scVector Space.vmem S2x128x128 EltTy.f32)).view.loc (thr d L) ↦[(hlf0 (Memref.whole cc1_scratch4 : Memref sig Kind.scVector Space.vmem S2x128x128 EltTy.f32)).view.set]{fullShare} f))
      ⊢ ((Memref.whole cc1_scratch4 : Memref sig Kind.scVector Space.vmem S2x128x128 EltTy.f32).view.loc (thr d L) ↦[(Memref.whole cc1_scratch4 : Memref sig Kind.scVector Space.vmem S2x128x128 EltTy.f32).view.set \ (hlf1 (Memref.whole cc1_scratch4 : Memref sig Kind.scVector Space.vmem S2x128x128 EltTy.f32)).view.set]{fullShare} ((hlf0 (Memref.whole cc1_scratch4 : Memref sig Kind.scVector Space.vmem S2x128x128 EltTy.f32)).view.set.piecewise f fR) : sProp 𝕄) := by
  have hd : Disjoint ((Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set) ((hlf0 (Memref.whole cc1_scratch4 : Memref sig Kind.scVector Space.vmem S2x128x128 EltTy.f32)).view.set) := by
    rw [Finset.disjoint_left]; intro y hy hy2
    exact (Finset.mem_sdiff.mp (Finset.mem_sdiff.mp hy).1).2 hy2
  rw [← union0_o]
  exact pointsTo_join hd

theorem union1_o : ((Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set) ∪ ((hlf1 (Memref.whole cc1_scratch4 : Memref sig Kind.scVector Space.vmem S2x128x128 EltTy.f32)).view.set) = (Memref.whole cc1_scratch4 : Memref sig Kind.scVector Space.vmem S2x128x128 EltTy.f32).view.set \ (hlf0 (Memref.whole cc1_scratch4 : Memref sig Kind.scVector Space.vmem S2x128x128 EltTy.f32)).view.set := by
  ext y
  constructor
  · intro hy
    rcases Finset.mem_union.mp hy with h | h
    · exact Finset.mem_sdiff.mpr ⟨by rw [Memref.IsWhole.set_eq_univ (Memref.isWhole_whole cc1_scratch4)]; exact Finset.mem_univ _,
        (Finset.mem_sdiff.mp (Finset.mem_sdiff.mp h).1).2⟩
    · refine Finset.mem_sdiff.mpr ⟨by rw [Memref.IsWhole.set_eq_univ (Memref.isWhole_whole cc1_scratch4)]; exact Finset.mem_univ _, fun ho => ?_⟩
      have h1 := (mem_h1_o y).mp h
      have h2 := (mem_h0_o y).mp ho
      omega
  · intro hy
    have hno := (Finset.mem_sdiff.mp hy).2
    by_cases hh : y ∈ (hlf1 (Memref.whole cc1_scratch4 : Memref sig Kind.scVector Space.vmem S2x128x128 EltTy.f32)).view.set
    · exact Finset.mem_union_right _ hh
    · exact Finset.mem_union_left _ (Finset.mem_sdiff.mpr ⟨Finset.mem_sdiff.mpr ⟨Finset.mem_univ _, hno⟩, hh⟩)

/-- Half 1 handed back and what was left in hand: the buffer on all but half 0's window. -/
theorem join1_o (fR : Buf (Elt F) ((Memref.whole cc1_scratch4 : Memref sig Kind.scVector Space.vmem S2x128x128 EltTy.f32).view.loc (thr d L))) (f : Buf (Elt F) ((hlf1 (Memref.whole cc1_scratch4 : Memref sig Kind.scVector Space.vmem S2x128x128 EltTy.f32)).view.loc (thr d L))) :
    iprop(((Memref.whole cc1_scratch4 : Memref sig Kind.scVector Space.vmem S2x128x128 EltTy.f32).view.loc (thr d L) ↦[(Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set]{fullShare} fR)
        ∗ ((hlf1 (Memref.whole cc1_scratch4 : Memref sig Kind.scVector Space.vmem S2x128x128 EltTy.f32)).view.loc (thr d L) ↦[(hlf1 (Memref.whole cc1_scratch4 : Memref sig Kind.scVector Space.vmem S2x128x128 EltTy.f32)).view.set]{fullShare} f))
      ⊢ ((Memref.whole cc1_scratch4 : Memref sig Kind.scVector Space.vmem S2x128x128 EltTy.f32).view.loc (thr d L) ↦[(Memref.whole cc1_scratch4 : Memref sig Kind.scVector Space.vmem S2x128x128 EltTy.f32).view.set \ (hlf0 (Memref.whole cc1_scratch4 : Memref sig Kind.scVector Space.vmem S2x128x128 EltTy.f32)).view.set]{fullShare} ((hlf1 (Memref.whole cc1_scratch4 : Memref sig Kind.scVector Space.vmem S2x128x128 EltTy.f32)).view.set.piecewise f fR) : sProp 𝕄) := by
  have hd : Disjoint ((Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set) ((hlf1 (Memref.whole cc1_scratch4 : Memref sig Kind.scVector Space.vmem S2x128x128 EltTy.f32)).view.set) := by
    rw [Finset.disjoint_left]; intro y hy hy2
    exact (Finset.mem_sdiff.mp hy).2 hy2
  rw [← union1_o]
  exact pointsTo_join hd

theorem restA_e : ((Memref.whole cc1_scratch2 : Memref sig Kind.scVector Space.vmem S2x128x128 EltTy.f32).view.set \ (hlf1 (Memref.whole cc1_scratch2 : Memref sig Kind.scVector Space.vmem S2x128x128 EltTy.f32)).view.set) \ (hlf0 (Memref.whole cc1_scratch2 : Memref sig Kind.scVector Space.vmem S2x128x128 EltTy.f32)).view.set = (Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set := by
  rw [Memref.IsWhole.set_eq_univ (Memref.isWhole_whole cc1_scratch2)]
  exact sdiff_right_comm _ _ _
theorem restB_e : ((Memref.whole cc1_scratch2 : Memref sig Kind.scVector Space.vmem S2x128x128 EltTy.f32).view.set \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set = (Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set := by
  rw [Memref.IsWhole.set_eq_univ (Memref.isWhole_whole cc1_scratch2)]

/-- The same with what was left in hand spelt on any set equal to the rest. -/
theorem join0_e_of {S : Finset (Idx ((Memref.whole cc1_scratch2 : Memref sig Kind.scVector Space.vmem S2x128x128 EltTy.f32).view.loc (thr d L)))} (hS : S = (Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set)
    (fR : Buf (Elt F) ((Memref.whole cc1_scratch2 : Memref sig Kind.scVector Space.vmem S2x128x128 EltTy.f32).view.loc (thr d L))) (f : Buf (Elt F) ((hlf0 (Memref.whole cc1_scratch2 : Memref sig Kind.scVector Space.vmem S2x128x128 EltTy.f32)).view.loc (thr d L))) :
    iprop(((Memref.whole cc1_scratch2 : Memref sig Kind.scVector Space.vmem S2x128x128 EltTy.f32).view.loc (thr d L) ↦[S]{fullShare} fR) ∗ ((hlf0 (Memref.whole cc1_scratch2 : Memref sig Kind.scVector Space.vmem S2x128x128 EltTy.f32)).view.loc (thr d L) ↦[(hlf0 (Memref.whole cc1_scratch2 : Memref sig Kind.scVector Space.vmem S2x128x128 EltTy.f32)).view.set]{fullShare} f))
      ⊢ ((Memref.whole cc1_scratch2 : Memref sig Kind.scVector Space.vmem S2x128x128 EltTy.f32).view.loc (thr d L) ↦[(Memref.whole cc1_scratch2 : Memref sig Kind.scVector Space.vmem S2x128x128 EltTy.f32).view.set \ (hlf1 (Memref.whole cc1_scratch2 : Memref sig Kind.scVector Space.vmem S2x128x128 EltTy.f32)).view.set]{fullShare} ((hlf0 (Memref.whole cc1_scratch2 : Memref sig Kind.scVector Space.vmem S2x128x128 EltTy.f32)).view.set.piecewise f fR) : sProp 𝕄) := by
  subst hS; exact join0_e d L fR f
theorem join1_e_of {S : Finset (Idx ((Memref.whole cc1_scratch2 : Memref sig Kind.scVector Space.vmem S2x128x128 EltTy.f32).view.loc (thr d L)))} (hS : S = (Finset.univ \ (hlf0 (Memref.whole cc1_scratch2 : Memref sig Kind.scVector Space.vmem S2x128x128 EltTy.f32)).view.set) \ (hlf1 (Memref.whole cc1_scratch2 : Memref sig Kind.scVector Space.vmem S2x128x128 EltTy.f32)).view.set)
    (fR : Buf (Elt F) ((Memref.whole cc1_scratch2 : Memref sig Kind.scVector Space.vmem S2x128x128 EltTy.f32).view.loc (thr d L))) (f : Buf (Elt F) ((hlf1 (Memref.whole cc1_scratch2 : Memref sig Kind.scVector Space.vmem S2x128x128 EltTy.f32)).view.loc (thr d L))) :
    iprop(((Memref.whole cc1_scratch2 : Memref sig Kind.scVector Space.vmem S2x128x128 EltTy.f32).view.loc (thr d L) ↦[S]{fullShare} fR) ∗ ((hlf1 (Memref.whole cc1_scratch2 : Memref sig Kind.scVector Space.vmem S2x128x128 EltTy.f32)).view.loc (thr d L) ↦[(hlf1 (Memref.whole cc1_scratch2 : Memref sig Kind.scVector Space.vmem S2x128x128 EltTy.f32)).view.set]{fullShare} f))
      ⊢ ((Memref.whole cc1_scratch2 : Memref sig Kind.scVector Space.vmem S2x128x128 EltTy.f32).view.loc (thr d L) ↦[(Memref.whole cc1_scratch2 : Memref sig Kind.scVector Space.vmem S2x128x128 EltTy.f32).view.set \ (hlf0 (Memref.whole cc1_scratch2 : Memref sig Kind.scVector Space.vmem S2x128x128 EltTy.f32)).view.set]{fullShare} ((hlf1 (Memref.whole cc1_scratch2 : Memref sig Kind.scVector Space.vmem S2x128x128 EltTy.f32)).view.set.piecewise f fR) : sProp 𝕄) := by
  subst hS; exact join1_e d L fR f

theorem restA_p : ((Memref.whole cc1_scratch3 : Memref sig Kind.scVector Space.vmem S2x128x128 EltTy.f32).view.set \ (hlf1 (Memref.whole cc1_scratch3 : Memref sig Kind.scVector Space.vmem S2x128x128 EltTy.f32)).view.set) \ (hlf0 (Memref.whole cc1_scratch3 : Memref sig Kind.scVector Space.vmem S2x128x128 EltTy.f32)).view.set = (Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set := by
  rw [Memref.IsWhole.set_eq_univ (Memref.isWhole_whole cc1_scratch3)]
  exact sdiff_right_comm _ _ _
theorem restB_p : ((Memref.whole cc1_scratch3 : Memref sig Kind.scVector Space.vmem S2x128x128 EltTy.f32).view.set \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set = (Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set := by
  rw [Memref.IsWhole.set_eq_univ (Memref.isWhole_whole cc1_scratch3)]

/-- The same with what was left in hand spelt on any set equal to the rest. -/
theorem join0_p_of {S : Finset (Idx ((Memref.whole cc1_scratch3 : Memref sig Kind.scVector Space.vmem S2x128x128 EltTy.f32).view.loc (thr d L)))} (hS : S = (Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set)
    (fR : Buf (Elt F) ((Memref.whole cc1_scratch3 : Memref sig Kind.scVector Space.vmem S2x128x128 EltTy.f32).view.loc (thr d L))) (f : Buf (Elt F) ((hlf0 (Memref.whole cc1_scratch3 : Memref sig Kind.scVector Space.vmem S2x128x128 EltTy.f32)).view.loc (thr d L))) :
    iprop(((Memref.whole cc1_scratch3 : Memref sig Kind.scVector Space.vmem S2x128x128 EltTy.f32).view.loc (thr d L) ↦[S]{fullShare} fR) ∗ ((hlf0 (Memref.whole cc1_scratch3 : Memref sig Kind.scVector Space.vmem S2x128x128 EltTy.f32)).view.loc (thr d L) ↦[(hlf0 (Memref.whole cc1_scratch3 : Memref sig Kind.scVector Space.vmem S2x128x128 EltTy.f32)).view.set]{fullShare} f))
      ⊢ ((Memref.whole cc1_scratch3 : Memref sig Kind.scVector Space.vmem S2x128x128 EltTy.f32).view.loc (thr d L) ↦[(Memref.whole cc1_scratch3 : Memref sig Kind.scVector Space.vmem S2x128x128 EltTy.f32).view.set \ (hlf1 (Memref.whole cc1_scratch3 : Memref sig Kind.scVector Space.vmem S2x128x128 EltTy.f32)).view.set]{fullShare} ((hlf0 (Memref.whole cc1_scratch3 : Memref sig Kind.scVector Space.vmem S2x128x128 EltTy.f32)).view.set.piecewise f fR) : sProp 𝕄) := by
  subst hS; exact join0_p d L fR f
theorem join1_p_of {S : Finset (Idx ((Memref.whole cc1_scratch3 : Memref sig Kind.scVector Space.vmem S2x128x128 EltTy.f32).view.loc (thr d L)))} (hS : S = (Finset.univ \ (hlf0 (Memref.whole cc1_scratch3 : Memref sig Kind.scVector Space.vmem S2x128x128 EltTy.f32)).view.set) \ (hlf1 (Memref.whole cc1_scratch3 : Memref sig Kind.scVector Space.vmem S2x128x128 EltTy.f32)).view.set)
    (fR : Buf (Elt F) ((Memref.whole cc1_scratch3 : Memref sig Kind.scVector Space.vmem S2x128x128 EltTy.f32).view.loc (thr d L))) (f : Buf (Elt F) ((hlf1 (Memref.whole cc1_scratch3 : Memref sig Kind.scVector Space.vmem S2x128x128 EltTy.f32)).view.loc (thr d L))) :
    iprop(((Memref.whole cc1_scratch3 : Memref sig Kind.scVector Space.vmem S2x128x128 EltTy.f32).view.loc (thr d L) ↦[S]{fullShare} fR) ∗ ((hlf1 (Memref.whole cc1_scratch3 : Memref sig Kind.scVector Space.vmem S2x128x128 EltTy.f32)).view.loc (thr d L) ↦[(hlf1 (Memref.whole cc1_scratch3 : Memref sig Kind.scVector Space.vmem S2x128x128 EltTy.f32)).view.set]{fullShare} f))
      ⊢ ((Memref.whole cc1_scratch3 : Memref sig Kind.scVector Space.vmem S2x128x128 EltTy.f32).view.loc (thr d L) ↦[(Memref.whole cc1_scratch3 : Memref sig Kind.scVector Space.vmem S2x128x128 EltTy.f32).view.set \ (hlf0 (Memref.whole cc1_scratch3 : Memref sig Kind.scVector Space.vmem S2x128x128 EltTy.f32)).view.set]{fullShare} ((hlf1 (Memref.whole cc1_scratch3 : Memref sig Kind.scVector Space.vmem S2x128x128 EltTy.f32)).view.set.piecewise f fR) : sProp 𝕄) := by
  subst hS; exact join1_p d L fR f

theorem restA_o : ((Memref.whole cc1_scratch4 : Memref sig Kind.scVector Space.vmem S2x128x128 EltTy.f32).view.set \ (hlf1 (Memref.whole cc1_scratch4 : Memref sig Kind.scVector Space.vmem S2x128x128 EltTy.f32)).view.set) \ (hlf0 (Memref.whole cc1_scratch4 : Memref sig Kind.scVector Space.vmem S2x128x128 EltTy.f32)).view.set = (Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set := by
  rw [Memref.IsWhole.set_eq_univ (Memref.isWhole_whole cc1_scratch4)]
  exact sdiff_right_comm _ _ _
theorem restB_o : ((Memref.whole cc1_scratch4 : Memref sig Kind.scVector Space.vmem S2x128x128 EltTy.f32).view.set \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set = (Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set := by
  rw [Memref.IsWhole.set_eq_univ (Memref.isWhole_whole cc1_scratch4)]

/-- The same with what was left in hand spelt on any set equal to the rest. -/
theorem join0_o_of {S : Finset (Idx ((Memref.whole cc1_scratch4 : Memref sig Kind.scVector Space.vmem S2x128x128 EltTy.f32).view.loc (thr d L)))} (hS : S = (Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set)
    (fR : Buf (Elt F) ((Memref.whole cc1_scratch4 : Memref sig Kind.scVector Space.vmem S2x128x128 EltTy.f32).view.loc (thr d L))) (f : Buf (Elt F) ((hlf0 (Memref.whole cc1_scratch4 : Memref sig Kind.scVector Space.vmem S2x128x128 EltTy.f32)).view.loc (thr d L))) :
    iprop(((Memref.whole cc1_scratch4 : Memref sig Kind.scVector Space.vmem S2x128x128 EltTy.f32).view.loc (thr d L) ↦[S]{fullShare} fR) ∗ ((hlf0 (Memref.whole cc1_scratch4 : Memref sig Kind.scVector Space.vmem S2x128x128 EltTy.f32)).view.loc (thr d L) ↦[(hlf0 (Memref.whole cc1_scratch4 : Memref sig Kind.scVector Space.vmem S2x128x128 EltTy.f32)).view.set]{fullShare} f))
      ⊢ ((Memref.whole cc1_scratch4 : Memref sig Kind.scVector Space.vmem S2x128x128 EltTy.f32).view.loc (thr d L) ↦[(Memref.whole cc1_scratch4 : Memref sig Kind.scVector Space.vmem S2x128x128 EltTy.f32).view.set \ (hlf1 (Memref.whole cc1_scratch4 : Memref sig Kind.scVector Space.vmem S2x128x128 EltTy.f32)).view.set]{fullShare} ((hlf0 (Memref.whole cc1_scratch4 : Memref sig Kind.scVector Space.vmem S2x128x128 EltTy.f32)).view.set.piecewise f fR) : sProp 𝕄) := by
  subst hS; exact join0_o d L fR f
theorem join1_o_of {S : Finset (Idx ((Memref.whole cc1_scratch4 : Memref sig Kind.scVector Space.vmem S2x128x128 EltTy.f32).view.loc (thr d L)))} (hS : S = (Finset.univ \ (hlf0 (Memref.whole cc1_scratch4 : Memref sig Kind.scVector Space.vmem S2x128x128 EltTy.f32)).view.set) \ (hlf1 (Memref.whole cc1_scratch4 : Memref sig Kind.scVector Space.vmem S2x128x128 EltTy.f32)).view.set)
    (fR : Buf (Elt F) ((Memref.whole cc1_scratch4 : Memref sig Kind.scVector Space.vmem S2x128x128 EltTy.f32).view.loc (thr d L))) (f : Buf (Elt F) ((hlf1 (Memref.whole cc1_scratch4 : Memref sig Kind.scVector Space.vmem S2x128x128 EltTy.f32)).view.loc (thr d L))) :
    iprop(((Memref.whole cc1_scratch4 : Memref sig Kind.scVector Space.vmem S2x128x128 EltTy.f32).view.loc (thr d L) ↦[S]{fullShare} fR) ∗ ((hlf1 (Memref.whole cc1_scratch4 : Memref sig Kind.scVector Space.vmem S2x128x128 EltTy.f32)).view.loc (thr d L) ↦[(hlf1 (Memref.whole cc1_scratch4 : Memref sig Kind.scVector Space.vmem S2x128x128 EltTy.f32)).view.set]{fullShare} f))
      ⊢ ((Memref.whole cc1_scratch4 : Memref sig Kind.scVector Space.vmem S2x128x128 EltTy.f32).view.loc (thr d L) ↦[(Memref.whole cc1_scratch4 : Memref sig Kind.scVector Space.vmem S2x128x128 EltTy.f32).view.set \ (hlf0 (Memref.whole cc1_scratch4 : Memref sig Kind.scVector Space.vmem S2x128x128 EltTy.f32)).view.set]{fullShare} ((hlf1 (Memref.whole cc1_scratch4 : Memref sig Kind.scVector Space.vmem S2x128x128 EltTy.f32)).view.set.piecewise f fR) : sProp 𝕄) := by
  subst hS; exact join1_o d L fR f

end Cert.Kernel.Run.Sc

end
-- ==== Proof.ScBookBits.lean ====
/-
  The tile's bookkeeping of ids: which words of the id scratches a gather's list reads, that they are the flat ids of the
  chunk the gather serves (so they name rows of the tables when all flat ids do), and that a slot written whole with the
  next trip's ids holds the next trip's ids.

  An id scratch is 2 × 512 words: slot `s` is row `s`; quarter `q` of a slot is its columns `128 q … 128 q + 127`, the
  list of the gather of chunk `4k + q` when the slot holds trip `k`'s 512 ids, which are the flat ids at positions
  `base + 512 k …` of the worker's rows (`base = 51200 · tile + 25600 · core`).
-/
import proofs.«204385_g66649302499670_cont_9to1c4b_43_34_alg».proof.Proof.ScTripBits
import proofs.«204385_g66649302499670_cont_9to1c4b_43_34_alg».proof.Proof.ScFactsBits
import Idealize.ShloMosaic.Lib.ValueLayout

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)

variable [FloatOps F] (A : Vals F) (d : Dev nD) (L : grid1.Coords)

/-! ## Reading a list, a slot, a window of ids: which word of the buffer -/

theorem sc_1x128 : S1x128.ShapeCasts S128 := by decide
theorem sc_1x512 : S1x512.ShapeCasts S512 := by decide

omit [FloatOps F] in
theorem lst_row_lt (off : Fin 2 → ℕ) (h : ∀ a, off a + S1x128.size a ≤ S2x512.size a) : off 0 < 2 := by
  have h0 : off 0 + 1 ≤ 2 := h 0
  omega
omit [FloatOps F] in
theorem lst_col_lt (off : Fin 2 → ℕ) (h : ∀ a, off a + S1x128.size a ≤ S2x512.size a) (i : Fin 128) : off 1 + i.val < 512 := by
  have h1 : off 1 + 128 ≤ 512 := h 1
  omega
omit [FloatOps F] in
theorem slot_row_lt (off : Fin 2 → ℕ) (h : ∀ a, off a + S1x512.size a ≤ S2x512.size a) : off 0 < 2 := by
  have h0 : off 0 + 1 ≤ 2 := h 0
  omega
omit [FloatOps F] in
theorem slot_col_lt (off : Fin 2 → ℕ) (h : ∀ a, off a + S1x512.size a ≤ S2x512.size a) (j : Fin 512) : off 1 + j.val < 512 := by
  have h1 : off 1 + 512 ≤ 512 := h 1
  omega
omit [FloatOps F] in
theorem win_lt (off : Fin 1 → ℕ) (h : ∀ a, off a + S512.size a ≤ S819200.size a) (j : Fin 512) : off 0 + j.val < 819200 := by
  have h0 : off 0 + 512 ≤ 819200 := h 0
  omega

/-- A 128-list at offsets `off` of the element-id scratch reads, at `i`, the scratch's word at row `off 0`, column
    `off 1 + i`. -/
theorem rd_lst_e (off : Fin 2 → ℕ) (h : ∀ a, off a + S1x128.size a ≤ S2x512.size a)
    (e : Buf (Elt F) ((eixV).view.loc (thr d L))) (i : Fin 128) :
    (lst eixV off h).view.read (Elt F) e (ix1 i)
      = e (ix2 (⟨off 0, lst_row_lt off h⟩ : Fin 2) (⟨off 1 + i.val, lst_col_lt off h i⟩ : Fin 512)) := by
  show shapeCast S128 ((eixV).view.readAt (Elt F) (Rect.unit (s := S2x512) off S1x128.size h).toLoadRect e) sc_1x128 (ix1 i) = _
  rw [shapeCast_1a_a_apply]
  show e ((Rect.unit (s := S2x512) off S1x128.size h).emb (ix2 (0 : Fin 1) i)) = _
  congr 1
  funext a
  match a with
  | ⟨0, _⟩ => exact Fin.ext (show off 0 + 1 * 0 = off 0 by omega)
  | ⟨1, _⟩ => exact Fin.ext (show off 1 + 1 * i.val = off 1 + i.val by omega)

/-- The same for the property-id scratch. -/
theorem rd_lst_p (off : Fin 2 → ℕ) (h : ∀ a, off a + S1x128.size a ≤ S2x512.size a)
    (p : Buf (Elt F) ((pixV).view.loc (thr d L))) (i : Fin 128) :
    (lst pixV off h).view.read (Elt F) p (ix1 i)
      = p (ix2 (⟨off 0, lst_row_lt off h⟩ : Fin 2) (⟨off 1 + i.val, lst_col_lt off h i⟩ : Fin 512)) := by
  show shapeCast S128 ((pixV).view.readAt (Elt F) (Rect.unit (s := S2x512) off S1x128.size h).toLoadRect p) sc_1x128 (ix1 i) = _
  rw [shapeCast_1a_a_apply]
  show p ((Rect.unit (s := S2x512) off S1x128.size h).emb (ix2 (0 : Fin 1) i)) = _
  congr 1
  funext a
  match a with
  | ⟨0, _⟩ => exact Fin.ext (show off 0 + 1 * 0 = off 0 by omega)
  | ⟨1, _⟩ => exact Fin.ext (show off 1 + 1 * i.val = off 1 + i.val by omega)

/-- A 512-slot at offsets `off` of the element-id scratch reads, at `j`, the word at row `off 0`, column `off 1 + j`. -/
theorem rd_slot_e (off : Fin 2 → ℕ) (h : ∀ a, off a + S1x512.size a ≤ S2x512.size a)
    (e : Buf (Elt F) ((eixV).view.loc (thr d L))) (j : Fin 512) :
    (((eixV).slice (Rect.unit (s := S2x512) off S1x512.size h) (fun _ => rfl)).squeeze S512 squeezes_S1x512_S512).view.read (Elt F) e (ix1 j)
      = e (ix2 (⟨off 0, slot_row_lt off h⟩ : Fin 2) (⟨off 1 + j.val, slot_col_lt off h j⟩ : Fin 512)) := by
  show shapeCast S512 ((eixV).view.readAt (Elt F) (Rect.unit (s := S2x512) off S1x512.size h).toLoadRect e) sc_1x512 (ix1 j) = _
  rw [shapeCast_1a_a_apply]
  show e ((Rect.unit (s := S2x512) off S1x512.size h).emb (ix2 (0 : Fin 1) j)) = _
  congr 1
  funext a
  match a with
  | ⟨0, _⟩ => exact Fin.ext (show off 0 + 1 * 0 = off 0 by omega)
  | ⟨1, _⟩ => exact Fin.ext (show off 1 + 1 * j.val = off 1 + j.val by omega)

theorem rd_slot_p (off : Fin 2 → ℕ) (h : ∀ a, off a + S1x512.size a ≤ S2x512.size a)
    (p : Buf (Elt F) ((pixV).view.loc (thr d L))) (j : Fin 512) :
    (((pixV).slice (Rect.unit (s := S2x512) off S1x512.size h) (fun _ => rfl)).squeeze S512 squeezes_S1x512_S512).view.read (Elt F) p (ix1 j)
      = p (ix2 (⟨off 0, slot_row_lt off h⟩ : Fin 2) (⟨off 1 + j.val, slot_col_lt off h j⟩ : Fin 512)) := by
  show shapeCast S512 ((pixV).view.readAt (Elt F) (Rect.unit (s := S2x512) off S1x512.size h).toLoadRect p) sc_1x512 (ix1 j) = _
  rw [shapeCast_1a_a_apply]
  show p ((Rect.unit (s := S2x512) off S1x512.size h).emb (ix2 (0 : Fin 1) j)) = _
  congr 1
  funext a
  match a with
  | ⟨0, _⟩ => exact Fin.ext (show off 0 + 1 * 0 = off 0 by omega)
  | ⟨1, _⟩ => exact Fin.ext (show off 1 + 1 * j.val = off 1 + j.val by omega)

/-- A 512-window at `off` of a flat id array reads, at `j`, the array's word at `off 0 + j`. -/
theorem rd_win_e (off : Fin 1 → ℕ) (h : ∀ a, off a + S512.size a ≤ S819200.size a)
    (f : Buf (Elt F) ((eidV).view.loc (thr d L))) (j : Fin 512) :
    ((eidV).slice (Rect.unit (s := S819200) off S512.size h) (fun _ => rfl)).view.read (Elt F) f (ix1 j)
      = f (ix1 (⟨off 0 + j.val, win_lt off h j⟩ : Fin 819200)) := by
  show f ((Rect.unit (s := S819200) off S512.size h).emb (ix1 j)) = _
  congr 1
  funext a
  match a with
  | ⟨0, _⟩ => exact Fin.ext (show off 0 + 1 * j.val = off 0 + j.val by omega)

theorem rd_win_p (off : Fin 1 → ℕ) (h : ∀ a, off a + S512.size a ≤ S819200.size a)
    (f : Buf (Elt F) ((pidV).view.loc (thr d L))) (j : Fin 512) :
    ((pidV).slice (Rect.unit (s := S819200) off S512.size h) (fun _ => rfl)).view.read (Elt F) f (ix1 j)
      = f (ix1 (⟨off 0 + j.val, win_lt off h j⟩ : Fin 819200)) := by
  show f ((Rect.unit (s := S819200) off S512.size h).emb (ix1 j)) = _
  congr 1
  funext a
  match a with
  | ⟨0, _⟩ => exact Fin.ext (show off 0 + 1 * j.val = off 0 + j.val by omega)

/-! ## What a quarter of an id slot holds -/

omit [FloatOps F] in
theorem flat_lt (k q : ℕ) (hk : k < 50) (hq : q < 4) (x : Fin 128) : base0 L + 128 * (4 * k + q) + x.val < 819200 := by
  have := base0_le L
  omega

/-- If a 512-slot of the element-id scratch holds trip `k`'s ids, its quarter `q` (a 128-list at column `128 q` of the
    same row) holds the flat element ids of chunk `4k + q` of the worker's rows. -/
theorem lst_ids_e (off : Fin 2 → ℕ) (h : ∀ a, off a + S1x128.size a ≤ S2x512.size a)
    (offs : Fin 2 → ℕ) (hs : ∀ a, offs a + S1x512.size a ≤ S2x512.size a)
    (e : Buf (Elt F) ((eixV).view.loc (thr d L))) (k : ℕ) (hk : k < 50)
    (hslot : ∀ x, (((eixV).slice (Rect.unit (s := S2x512) offs S1x512.size hs) (fun _ => rfl)).squeeze S512 squeezes_S1x512_S512).view.read (Elt F) e x
      = (idsV L eidV k hk).view.read (Elt F) (A.eid d) x)
    (hrow : off 0 = offs 0) (hcol : offs 1 = 0) (q : ℕ) (hq : q < 4) (hoff : off 1 = 128 * q) (x : Fin 128) :
    (lst eixV off h).view.read (Elt F) e (ix1 x)
      = A.eid d (ix1 (⟨base0 L + 128 * (4 * k + q) + x.val, flat_lt L k q hk hq x⟩ : Fin 819200)) := by
  have hj : 128 * q + x.val < 512 := by omega
  rw [rd_lst_e]
  have e1 := rd_slot_e d L offs hs e ⟨128 * q + x.val, hj⟩
  rw [hslot, rd_win_e d L] at e1
  refine Eq.trans ?_ (e1.symm.trans ?_)
  · congr 1
    funext a
    match a with
    | ⟨0, _⟩ => exact Fin.ext (show off 0 = offs 0 from hrow)
    | ⟨1, _⟩ => exact Fin.ext (show off 1 + x.val = offs 1 + (128 * q + x.val) by omega)
  · congr 1
    funext a
    match a with
    | ⟨0, _⟩ =>
      refine Fin.ext ?_
      show idsOff L k 0 + (128 * q + x.val) = base0 L + 128 * (4 * k + q) + x.val
      have : idsOff L k 0 = 51200 * (L 1).val + 25600 * (L 0).val + 512 * k := rfl
      rw [this]; unfold base0; omega

theorem lst_ids_p (off : Fin 2 → ℕ) (h : ∀ a, off a + S1x128.size a ≤ S2x512.size a)
    (offs : Fin 2 → ℕ) (hs : ∀ a, offs a + S1x512.size a ≤ S2x512.size a)
    (p : Buf (Elt F) ((pixV).view.loc (thr d L))) (k : ℕ) (hk : k < 50)
    (hslot : ∀ x, (((pixV).slice (Rect.unit (s := S2x512) offs S1x512.size hs) (fun _ => rfl)).squeeze S512 squeezes_S1x512_S512).view.read (Elt F) p x
      = (idsV L pidV k hk).view.read (Elt F) (A.pid d) x)
    (hrow : off 0 = offs 0) (hcol : offs 1 = 0) (q : ℕ) (hq : q < 4) (hoff : off 1 = 128 * q) (x : Fin 128) :
    (lst pixV off h).view.read (Elt F) p (ix1 x)
      = A.pid d (ix1 (⟨base0 L + 128 * (4 * k + q) + x.val, flat_lt L k q hk hq x⟩ : Fin 819200)) := by
  have hj : 128 * q + x.val < 512 := by omega
  rw [rd_lst_p]
  have e1 := rd_slot_p d L offs hs p ⟨128 * q + x.val, hj⟩
  rw [hslot, rd_win_p d L] at e1
  refine Eq.trans ?_ (e1.symm.trans ?_)
  · congr 1
    funext a
    match a with
    | ⟨0, _⟩ => exact Fin.ext (show off 0 = offs 0 from hrow)
    | ⟨1, _⟩ => exact Fin.ext (show off 1 + x.val = offs 1 + (128 * q + x.val) by omega)
  · congr 1
    funext a
    match a with
    | ⟨0, _⟩ =>
      refine Fin.ext ?_
      show idsOff L k 0 + (128 * q + x.val) = base0 L + 128 * (4 * k + q) + x.val
      have : idsOff L k 0 = 51200 * (L 1).val + 25600 * (L 0).val + 512 * k := rfl
      rw [this]; unfold base0; omega

/-- Hence its words name rows of the element table (a gather's in-range fact) when all flat ids do. -/
theorem lst_in_e (hIds : ∀ j : S819200.Idx, (A.eid d j).toNat < 100000) (off : Fin 2 → ℕ) (h : ∀ a, off a + S1x128.size a ≤ S2x512.size a)
    (offs : Fin 2 → ℕ) (hs : ∀ a, offs a + S1x512.size a ≤ S2x512.size a)
    (e : Buf (Elt F) ((eixV).view.loc (thr d L))) (k : ℕ) (hk : k < 50)
    (hslot : ∀ x, (((eixV).slice (Rect.unit (s := S2x512) offs S1x512.size hs) (fun _ => rfl)).squeeze S512 squeezes_S1x512_S512).view.read (Elt F) e x
      = (idsV L eidV k hk).view.read (Elt F) (A.eid d) x)
    (hrow : off 0 = offs 0) (hcol : offs 1 = 0) (q : ℕ) (hq : q < 4) (hoff : off 1 = 128 * q) :
    ∀ x, ((lst eixV off h).view.read (Elt F) e x).toNat < S100000x128.size gathers_S100000x128_S128x128.axis := by
  intro x
  obtain ⟨i, rfl⟩ : ∃ i : Fin 128, x = ix1 i := ⟨x 0, eq_ix1 x⟩
  rw [lst_ids_e A d L off h offs hs e k hk hslot hrow hcol q hq hoff i]
  exact hIds _

theorem lst_in_p (hIds : ∀ j : S819200.Idx, (A.pid d j).toNat < 1000) (off : Fin 2 → ℕ) (h : ∀ a, off a + S1x128.size a ≤ S2x512.size a)
    (offs : Fin 2 → ℕ) (hs : ∀ a, offs a + S1x512.size a ≤ S2x512.size a)
    (p : Buf (Elt F) ((pixV).view.loc (thr d L))) (k : ℕ) (hk : k < 50)
    (hslot : ∀ x, (((pixV).slice (Rect.unit (s := S2x512) offs S1x512.size hs) (fun _ => rfl)).squeeze S512 squeezes_S1x512_S512).view.read (Elt F) p x
      = (idsV L pidV k hk).view.read (Elt F) (A.pid d) x)
    (hrow : off 0 = offs 0) (hcol : offs 1 = 0) (q : ℕ) (hq : q < 4) (hoff : off 1 = 128 * q) :
    ∀ x, ((lst pixV off h).view.read (Elt F) p x).toNat < S1000x128.size gathers_S1000x128_S128x128.axis := by
  intro x
  obtain ⟨i, rfl⟩ : ∃ i : Fin 128, x = ix1 i := ⟨x 0, eq_ix1 x⟩
  rw [lst_ids_p A d L off h offs hs p k hk hslot hrow hcol q hq hoff i]
  exact hIds _

/-! ## A slot after the id batch has landed -/

/-- After an unmasked write of `w` through the whole of a 512-view, the view reads `w`. -/
theorem read_after_whole {sig' : RefSig} {κ : Kind} {sp : Space} (v : View sig' κ sp S512 .i32) (f : v.ty.Contents (Elt F))
    (w : S512.Idx → Elt F .i32) (x : S512.Idx) :
    v.read (Elt F) (v.writes (Elt F) f [⟨Rect.whole S512, w⟩]) x = w x := by
  have h := View.read_writes_cons_emb v f (Rect.whole S512) w [] x
  rwa [Rect.emb_whole_apply] at h

/-- Slot 0 of both id scratches, written whole with the next trip's ids, holds the next trip's ids; and slot 1. -/
theorem slotVals0_after (e : Buf (Elt F) ((eixV).view.loc (thr d L))) (p : Buf (Elt F) ((pixV).view.loc (thr d L)))
    (k : ℕ) (hk : k + 1 < 50) (pe pp : S512.Idx → Elt F .i32)
    (hp : pe = ReadAs.same.apply ((idsV L eidV (k + 1) hk).view.read (Elt F) (A.eid d)) ∧ pp = ReadAs.same.apply ((idsV L pidV (k + 1) hk).view.read (Elt F) (A.pid d))) :
    SlotVals0 A d L ((slot0 eixV).view.writes (Elt F) e [⟨Rect.whole S512, pe⟩]) ((slot0 pixV).view.writes (Elt F) p [⟨Rect.whole S512, pp⟩]) (k + 1) hk := by
  refine ⟨fun x => ?_, fun x => ?_⟩
  · exact (read_after_whole (slot0 eixV).view e pe x).trans (congrFun hp.1 x)
  · exact (read_after_whole (slot0 pixV).view p pp x).trans (congrFun hp.2 x)
theorem slotVals1_after (e : Buf (Elt F) ((eixV).view.loc (thr d L))) (p : Buf (Elt F) ((pixV).view.loc (thr d L)))
    (k : ℕ) (hk : k + 1 < 50) (pe pp : S512.Idx → Elt F .i32)
    (hp : pe = ReadAs.same.apply ((idsV L eidV (k + 1) hk).view.read (Elt F) (A.eid d)) ∧ pp = ReadAs.same.apply ((idsV L pidV (k + 1) hk).view.read (Elt F) (A.pid d))) :
    SlotVals1 A d L ((slot1 eixV).view.writes (Elt F) e [⟨Rect.whole S512, pe⟩]) ((slot1 pixV).view.writes (Elt F) p [⟨Rect.whole S512, pp⟩]) (k + 1) hk := by
  refine ⟨fun x => ?_, fun x => ?_⟩
  · exact (read_after_whole (slot1 eixV).view e pe x).trans (congrFun hp.1 x)
  · exact (read_after_whole (slot1 pixV).view p pp x).trans (congrFun hp.2 x)

/-- A slot that holds trip `k`'s ids gives the in-range facts of its first two quarters' lists. -/
theorem listsOK0_of_slotVals (hE : ∀ j : S819200.Idx, (A.eid d j).toNat < 100000) (hP : ∀ j : S819200.Idx, (A.pid d j).toNat < 1000)
    (e : Buf (Elt F) ((eixV).view.loc (thr d L))) (p : Buf (Elt F) ((pixV).view.loc (thr d L))) (k : ℕ) (hk : k < 50)
    (hv : SlotVals0 A d L e p k hk) : ListsOK0 d L e p :=
  ⟨lst_in_e A d L hE ![0, 0] linb_0_0 ![0, 0] inb_S2x512_S1x512_0_0 e k hk hv.1 rfl rfl 0 (by omega) rfl,
   lst_in_e A d L hE ![0, 128] linb_0_128 ![0, 0] inb_S2x512_S1x512_0_0 e k hk hv.1 rfl rfl 1 (by omega) rfl,
   lst_in_p A d L hP ![0, 0] linb_0_0 ![0, 0] inb_S2x512_S1x512_0_0 p k hk hv.2 rfl rfl 0 (by omega) rfl,
   lst_in_p A d L hP ![0, 128] linb_0_128 ![0, 0] inb_S2x512_S1x512_0_0 p k hk hv.2 rfl rfl 1 (by omega) rfl⟩
theorem listsOK1_of_slotVals (hE : ∀ j : S819200.Idx, (A.eid d j).toNat < 100000) (hP : ∀ j : S819200.Idx, (A.pid d j).toNat < 1000)
    (e : Buf (Elt F) ((eixV).view.loc (thr d L))) (p : Buf (Elt F) ((pixV).view.loc (thr d L))) (k : ℕ) (hk : k < 50)
    (hv : SlotVals1 A d L e p k hk) : ListsOK1 d L e p :=
  ⟨lst_in_e A d L hE ![1, 0] linb_1_0 ![1, 0] inb_S2x512_S1x512_1_0 e k hk hv.1 rfl rfl 0 (by omega) rfl,
   lst_in_e A d L hE ![1, 128] linb_1_128 ![1, 0] inb_S2x512_S1x512_1_0 e k hk hv.1 rfl rfl 1 (by omega) rfl,
   lst_in_p A d L hP ![1, 0] linb_1_0 ![1, 0] inb_S2x512_S1x512_1_0 p k hk hv.2 rfl rfl 0 (by omega) rfl,
   lst_in_p A d L hP ![1, 128] linb_1_128 ![1, 0] inb_S2x512_S1x512_1_0 p k hk hv.2 rfl rfl 1 (by omega) rfl⟩

/-! ## The eight quarters, by name

For slot `s` and quarter `q` (column `128 q`): the quarter's words are the flat ids of chunk `4k + q`, and they name rows
of the tables. Instances of the four lemmas above. -/

theorem ids_e_0_0 (e : Buf (Elt F) ((eixV).view.loc (thr d L))) (p : Buf (Elt F) ((pixV).view.loc (thr d L))) (k : ℕ) (hk : k < 50)
    (hv : SlotVals0 A d L e p k hk) (x : Fin 128) :
    (lst eixV ![0, 0] linb_0_0).view.read (Elt F) e (ix1 x)
      = A.eid d (ix1 (⟨base0 L + 128 * (4 * k + 0) + x.val, flat_lt L k 0 hk (by omega) x⟩ : Fin 819200)) :=
  lst_ids_e A d L ![0, 0] linb_0_0 ![0, 0] inb_S2x512_S1x512_0_0 e k hk hv.1 rfl rfl 0 (by omega) rfl x
theorem ids_p_0_0 (e : Buf (Elt F) ((eixV).view.loc (thr d L))) (p : Buf (Elt F) ((pixV).view.loc (thr d L))) (k : ℕ) (hk : k < 50)
    (hv : SlotVals0 A d L e p k hk) (x : Fin 128) :
    (lst pixV ![0, 0] linb_0_0).view.read (Elt F) p (ix1 x)
      = A.pid d (ix1 (⟨base0 L + 128 * (4 * k + 0) + x.val, flat_lt L k 0 hk (by omega) x⟩ : Fin 819200)) :=
  lst_ids_p A d L ![0, 0] linb_0_0 ![0, 0] inb_S2x512_S1x512_0_0 p k hk hv.2 rfl rfl 0 (by omega) rfl x
theorem hin_e_0_0 (hE : ∀ j : S819200.Idx, (A.eid d j).toNat < 100000)
    (e : Buf (Elt F) ((eixV).view.loc (thr d L))) (p : Buf (Elt F) ((pixV).view.loc (thr d L))) (k : ℕ) (hk : k < 50)
    (hv : SlotVals0 A d L e p k hk) :
    ∀ x, ((lst eixV ![0, 0] linb_0_0).view.read (Elt F) e x).toNat < S100000x128.size gathers_S100000x128_S128x128.axis :=
  lst_in_e A d L hE ![0, 0] linb_0_0 ![0, 0] inb_S2x512_S1x512_0_0 e k hk hv.1 rfl rfl 0 (by omega) rfl
theorem hin_p_0_0 (hP : ∀ j : S819200.Idx, (A.pid d j).toNat < 1000)
    (e : Buf (Elt F) ((eixV).view.loc (thr d L))) (p : Buf (Elt F) ((pixV).view.loc (thr d L))) (k : ℕ) (hk : k < 50)
    (hv : SlotVals0 A d L e p k hk) :
    ∀ x, ((lst pixV ![0, 0] linb_0_0).view.read (Elt F) p x).toNat < S1000x128.size gathers_S1000x128_S128x128.axis :=
  lst_in_p A d L hP ![0, 0] linb_0_0 ![0, 0] inb_S2x512_S1x512_0_0 p k hk hv.2 rfl rfl 0 (by omega) rfl

theorem ids_e_0_128 (e : Buf (Elt F) ((eixV).view.loc (thr d L))) (p : Buf (Elt F) ((pixV).view.loc (thr d L))) (k : ℕ) (hk : k < 50)
    (hv : SlotVals0 A d L e p k hk) (x : Fin 128) :
    (lst eixV ![0, 128] linb_0_128).view.read (Elt F) e (ix1 x)
      = A.eid d (ix1 (⟨base0 L + 128 * (4 * k + 1) + x.val, flat_lt L k 1 hk (by omega) x⟩ : Fin 819200)) :=
  lst_ids_e A d L ![0, 128] linb_0_128 ![0, 0] inb_S2x512_S1x512_0_0 e k hk hv.1 rfl rfl 1 (by omega) rfl x
theorem ids_p_0_128 (e : Buf (Elt F) ((eixV).view.loc (thr d L))) (p : Buf (Elt F) ((pixV).view.loc (thr d L))) (k : ℕ) (hk : k < 50)
    (hv : SlotVals0 A d L e p k hk) (x : Fin 128) :
    (lst pixV ![0, 128] linb_0_128).view.read (Elt F) p (ix1 x)
      = A.pid d (ix1 (⟨base0 L + 128 * (4 * k + 1) + x.val, flat_lt L k 1 hk (by omega) x⟩ : Fin 819200)) :=
  lst_ids_p A d L ![0, 128] linb_0_128 ![0, 0] inb_S2x512_S1x512_0_0 p k hk hv.2 rfl rfl 1 (by omega) rfl x
theorem hin_e_0_128 (hE : ∀ j : S819200.Idx, (A.eid d j).toNat < 100000)
    (e : Buf (Elt F) ((eixV).view.loc (thr d L))) (p : Buf (Elt F) ((pixV).view.loc (thr d L))) (k : ℕ) (hk : k < 50)
    (hv : SlotVals0 A d L e p k hk) :
    ∀ x, ((lst eixV ![0, 128] linb_0_128).view.read (Elt F) e x).toNat < S100000x128.size gathers_S100000x128_S128x128.axis :=
  lst_in_e A d L hE ![0, 128] linb_0_128 ![0, 0] inb_S2x512_S1x512_0_0 e k hk hv.1 rfl rfl 1 (by omega) rfl
theorem hin_p_0_128 (hP : ∀ j : S819200.Idx, (A.pid d j).toNat < 1000)
    (e : Buf (Elt F) ((eixV).view.loc (thr d L))) (p : Buf (Elt F) ((pixV).view.loc (thr d L))) (k : ℕ) (hk : k < 50)
    (hv : SlotVals0 A d L e p k hk) :
    ∀ x, ((lst pixV ![0, 128] linb_0_128).view.read (Elt F) p x).toNat < S1000x128.size gathers_S1000x128_S128x128.axis :=
  lst_in_p A d L hP ![0, 128] linb_0_128 ![0, 0] inb_S2x512_S1x512_0_0 p k hk hv.2 rfl rfl 1 (by omega) rfl

theorem ids_e_0_256 (e : Buf (Elt F) ((eixV).view.loc (thr d L))) (p : Buf (Elt F) ((pixV).view.loc (thr d L))) (k : ℕ) (hk : k < 50)
    (hv : SlotVals0 A d L e p k hk) (x : Fin 128) :
    (lst eixV ![0, 256] linb_0_256).view.read (Elt F) e (ix1 x)
      = A.eid d (ix1 (⟨base0 L + 128 * (4 * k + 2) + x.val, flat_lt L k 2 hk (by omega) x⟩ : Fin 819200)) :=
  lst_ids_e A d L ![0, 256] linb_0_256 ![0, 0] inb_S2x512_S1x512_0_0 e k hk hv.1 rfl rfl 2 (by omega) rfl x
theorem ids_p_0_256 (e : Buf (Elt F) ((eixV).view.loc (thr d L))) (p : Buf (Elt F) ((pixV).view.loc (thr d L))) (k : ℕ) (hk : k < 50)
    (hv : SlotVals0 A d L e p k hk) (x : Fin 128) :
    (lst pixV ![0, 256] linb_0_256).view.read (Elt F) p (ix1 x)
      = A.pid d (ix1 (⟨base0 L + 128 * (4 * k + 2) + x.val, flat_lt L k 2 hk (by omega) x⟩ : Fin 819200)) :=
  lst_ids_p A d L ![0, 256] linb_0_256 ![0, 0] inb_S2x512_S1x512_0_0 p k hk hv.2 rfl rfl 2 (by omega) rfl x
theorem hin_e_0_256 (hE : ∀ j : S819200.Idx, (A.eid d j).toNat < 100000)
    (e : Buf (Elt F) ((eixV).view.loc (thr d L))) (p : Buf (Elt F) ((pixV).view.loc (thr d L))) (k : ℕ) (hk : k < 50)
    (hv : SlotVals0 A d L e p k hk) :
    ∀ x, ((lst eixV ![0, 256] linb_0_256).view.read (Elt F) e x).toNat < S100000x128.size gathers_S100000x128_S128x128.axis :=
  lst_in_e A d L hE ![0, 256] linb_0_256 ![0, 0] inb_S2x512_S1x512_0_0 e k hk hv.1 rfl rfl 2 (by omega) rfl
theorem hin_p_0_256 (hP : ∀ j : S819200.Idx, (A.pid d j).toNat < 1000)
    (e : Buf (Elt F) ((eixV).view.loc (thr d L))) (p : Buf (Elt F) ((pixV).view.loc (thr d L))) (k : ℕ) (hk : k < 50)
    (hv : SlotVals0 A d L e p k hk) :
    ∀ x, ((lst pixV ![0, 256] linb_0_256).view.read (Elt F) p x).toNat < S1000x128.size gathers_S1000x128_S128x128.axis :=
  lst_in_p A d L hP ![0, 256] linb_0_256 ![0, 0] inb_S2x512_S1x512_0_0 p k hk hv.2 rfl rfl 2 (by omega) rfl

theorem ids_e_0_384 (e : Buf (Elt F) ((eixV).view.loc (thr d L))) (p : Buf (Elt F) ((pixV).view.loc (thr d L))) (k : ℕ) (hk : k < 50)
    (hv : SlotVals0 A d L e p k hk) (x : Fin 128) :
    (lst eixV ![0, 384] linb_0_384).view.read (Elt F) e (ix1 x)
      = A.eid d (ix1 (⟨base0 L + 128 * (4 * k + 3) + x.val, flat_lt L k 3 hk (by omega) x⟩ : Fin 819200)) :=
  lst_ids_e A d L ![0, 384] linb_0_384 ![0, 0] inb_S2x512_S1x512_0_0 e k hk hv.1 rfl rfl 3 (by omega) rfl x
theorem ids_p_0_384 (e : Buf (Elt F) ((eixV).view.loc (thr d L))) (p : Buf (Elt F) ((pixV).view.loc (thr d L))) (k : ℕ) (hk : k < 50)
    (hv : SlotVals0 A d L e p k hk) (x : Fin 128) :
    (lst pixV ![0, 384] linb_0_384).view.read (Elt F) p (ix1 x)
      = A.pid d (ix1 (⟨base0 L + 128 * (4 * k + 3) + x.val, flat_lt L k 3 hk (by omega) x⟩ : Fin 819200)) :=
  lst_ids_p A d L ![0, 384] linb_0_384 ![0, 0] inb_S2x512_S1x512_0_0 p k hk hv.2 rfl rfl 3 (by omega) rfl x
theorem hin_e_0_384 (hE : ∀ j : S819200.Idx, (A.eid d j).toNat < 100000)
    (e : Buf (Elt F) ((eixV).view.loc (thr d L))) (p : Buf (Elt F) ((pixV).view.loc (thr d L))) (k : ℕ) (hk : k < 50)
    (hv : SlotVals0 A d L e p k hk) :
    ∀ x, ((lst eixV ![0, 384] linb_0_384).view.read (Elt F) e x).toNat < S100000x128.size gathers_S100000x128_S128x128.axis :=
  lst_in_e A d L hE ![0, 384] linb_0_384 ![0, 0] inb_S2x512_S1x512_0_0 e k hk hv.1 rfl rfl 3 (by omega) rfl
theorem hin_p_0_384 (hP : ∀ j : S819200.Idx, (A.pid d j).toNat < 1000)
    (e : Buf (Elt F) ((eixV).view.loc (thr d L))) (p : Buf (Elt F) ((pixV).view.loc (thr d L))) (k : ℕ) (hk : k < 50)
    (hv : SlotVals0 A d L e p k hk) :
    ∀ x, ((lst pixV ![0, 384] linb_0_384).view.read (Elt F) p x).toNat < S1000x128.size gathers_S1000x128_S128x128.axis :=
  lst_in_p A d L hP ![0, 384] linb_0_384 ![0, 0] inb_S2x512_S1x512_0_0 p k hk hv.2 rfl rfl 3 (by omega) rfl

theorem ids_e_1_0 (e : Buf (Elt F) ((eixV).view.loc (thr d L))) (p : Buf (Elt F) ((pixV).view.loc (thr d L))) (k : ℕ) (hk : k < 50)
    (hv : SlotVals1 A d L e p k hk) (x : Fin 128) :
    (lst eixV ![1, 0] linb_1_0).view.read (Elt F) e (ix1 x)
      = A.eid d (ix1 (⟨base0 L + 128 * (4 * k + 0) + x.val, flat_lt L k 0 hk (by omega) x⟩ : Fin 819200)) :=
  lst_ids_e A d L ![1, 0] linb_1_0 ![1, 0] inb_S2x512_S1x512_1_0 e k hk hv.1 rfl rfl 0 (by omega) rfl x
theorem ids_p_1_0 (e : Buf (Elt F) ((eixV).view.loc (thr d L))) (p : Buf (Elt F) ((pixV).view.loc (thr d L))) (k : ℕ) (hk : k < 50)
    (hv : SlotVals1 A d L e p k hk) (x : Fin 128) :
    (lst pixV ![1, 0] linb_1_0).view.read (Elt F) p (ix1 x)
      = A.pid d (ix1 (⟨base0 L + 128 * (4 * k + 0) + x.val, flat_lt L k 0 hk (by omega) x⟩ : Fin 819200)) :=
  lst_ids_p A d L ![1, 0] linb_1_0 ![1, 0] inb_S2x512_S1x512_1_0 p k hk hv.2 rfl rfl 0 (by omega) rfl x
theorem hin_e_1_0 (hE : ∀ j : S819200.Idx, (A.eid d j).toNat < 100000)
    (e : Buf (Elt F) ((eixV).view.loc (thr d L))) (p : Buf (Elt F) ((pixV).view.loc (thr d L))) (k : ℕ) (hk : k < 50)
    (hv : SlotVals1 A d L e p k hk) :
    ∀ x, ((lst eixV ![1, 0] linb_1_0).view.read (Elt F) e x).toNat < S100000x128.size gathers_S100000x128_S128x128.axis :=
  lst_in_e A d L hE ![1, 0] linb_1_0 ![1, 0] inb_S2x512_S1x512_1_0 e k hk hv.1 rfl rfl 0 (by omega) rfl
theorem hin_p_1_0 (hP : ∀ j : S819200.Idx, (A.pid d j).toNat < 1000)
    (e : Buf (Elt F) ((eixV).view.loc (thr d L))) (p : Buf (Elt F) ((pixV).view.loc (thr d L))) (k : ℕ) (hk : k < 50)
    (hv : SlotVals1 A d L e p k hk) :
    ∀ x, ((lst pixV ![1, 0] linb_1_0).view.read (Elt F) p x).toNat < S1000x128.size gathers_S1000x128_S128x128.axis :=
  lst_in_p A d L hP ![1, 0] linb_1_0 ![1, 0] inb_S2x512_S1x512_1_0 p k hk hv.2 rfl rfl 0 (by omega) rfl

theorem ids_e_1_128 (e : Buf (Elt F) ((eixV).view.loc (thr d L))) (p : Buf (Elt F) ((pixV).view.loc (thr d L))) (k : ℕ) (hk : k < 50)
    (hv : SlotVals1 A d L e p k hk) (x : Fin 128) :
    (lst eixV ![1, 128] linb_1_128).view.read (Elt F) e (ix1 x)
      = A.eid d (ix1 (⟨base0 L + 128 * (4 * k + 1) + x.val, flat_lt L k 1 hk (by omega) x⟩ : Fin 819200)) :=
  lst_ids_e A d L ![1, 128] linb_1_128 ![1, 0] inb_S2x512_S1x512_1_0 e k hk hv.1 rfl rfl 1 (by omega) rfl x
theorem ids_p_1_128 (e : Buf (Elt F) ((eixV).view.loc (thr d L))) (p : Buf (Elt F) ((pixV).view.loc (thr d L))) (k : ℕ) (hk : k < 50)
    (hv : SlotVals1 A d L e p k hk) (x : Fin 128) :
    (lst pixV ![1, 128] linb_1_128).view.read (Elt F) p (ix1 x)
      = A.pid d (ix1 (⟨base0 L + 128 * (4 * k + 1) + x.val, flat_lt L k 1 hk (by omega) x⟩ : Fin 819200)) :=
  lst_ids_p A d L ![1, 128] linb_1_128 ![1, 0] inb_S2x512_S1x512_1_0 p k hk hv.2 rfl rfl 1 (by omega) rfl x
theorem hin_e_1_128 (hE : ∀ j : S819200.Idx, (A.eid d j).toNat < 100000)
    (e : Buf (Elt F) ((eixV).view.loc (thr d L))) (p : Buf (Elt F) ((pixV).view.loc (thr d L))) (k : ℕ) (hk : k < 50)
    (hv : SlotVals1 A d L e p k hk) :
    ∀ x, ((lst eixV ![1, 128] linb_1_128).view.read (Elt F) e x).toNat < S100000x128.size gathers_S100000x128_S128x128.axis :=
  lst_in_e A d L hE ![1, 128] linb_1_128 ![1, 0] inb_S2x512_S1x512_1_0 e k hk hv.1 rfl rfl 1 (by omega) rfl
theorem hin_p_1_128 (hP : ∀ j : S819200.Idx, (A.pid d j).toNat < 1000)
    (e : Buf (Elt F) ((eixV).view.loc (thr d L))) (p : Buf (Elt F) ((pixV).view.loc (thr d L))) (k : ℕ) (hk : k < 50)
    (hv : SlotVals1 A d L e p k hk) :
    ∀ x, ((lst pixV ![1, 128] linb_1_128).view.read (Elt F) p x).toNat < S1000x128.size gathers_S1000x128_S128x128.axis :=
  lst_in_p A d L hP ![1, 128] linb_1_128 ![1, 0] inb_S2x512_S1x512_1_0 p k hk hv.2 rfl rfl 1 (by omega) rfl

theorem ids_e_1_256 (e : Buf (Elt F) ((eixV).view.loc (thr d L))) (p : Buf (Elt F) ((pixV).view.loc (thr d L))) (k : ℕ) (hk : k < 50)
    (hv : SlotVals1 A d L e p k hk) (x : Fin 128) :
    (lst eixV ![1, 256] linb_1_256).view.read (Elt F) e (ix1 x)
      = A.eid d (ix1 (⟨base0 L + 128 * (4 * k + 2) + x.val, flat_lt L k 2 hk (by omega) x⟩ : Fin 819200)) :=
  lst_ids_e A d L ![1, 256] linb_1_256 ![1, 0] inb_S2x512_S1x512_1_0 e k hk hv.1 rfl rfl 2 (by omega) rfl x
theorem ids_p_1_256 (e : Buf (Elt F) ((eixV).view.loc (thr d L))) (p : Buf (Elt F) ((pixV).view.loc (thr d L))) (k : ℕ) (hk : k < 50)
    (hv : SlotVals1 A d L e p k hk) (x : Fin 128) :
    (lst pixV ![1, 256] linb_1_256).view.read (Elt F) p (ix1 x)
      = A.pid d (ix1 (⟨base0 L + 128 * (4 * k + 2) + x.val, flat_lt L k 2 hk (by omega) x⟩ : Fin 819200)) :=
  lst_ids_p A d L ![1, 256] linb_1_256 ![1, 0] inb_S2x512_S1x512_1_0 p k hk hv.2 rfl rfl 2 (by omega) rfl x
theorem hin_e_1_256 (hE : ∀ j : S819200.Idx, (A.eid d j).toNat < 100000)
    (e : Buf (Elt F) ((eixV).view.loc (thr d L))) (p : Buf (Elt F) ((pixV).view.loc (thr d L))) (k : ℕ) (hk : k < 50)
    (hv : SlotVals1 A d L e p k hk) :
    ∀ x, ((lst eixV ![1, 256] linb_1_256).view.read (Elt F) e x).toNat < S100000x128.size gathers_S100000x128_S128x128.axis :=
  lst_in_e A d L hE ![1, 256] linb_1_256 ![1, 0] inb_S2x512_S1x512_1_0 e k hk hv.1 rfl rfl 2 (by omega) rfl
theorem hin_p_1_256 (hP : ∀ j : S819200.Idx, (A.pid d j).toNat < 1000)
    (e : Buf (Elt F) ((eixV).view.loc (thr d L))) (p : Buf (Elt F) ((pixV).view.loc (thr d L))) (k : ℕ) (hk : k < 50)
    (hv : SlotVals1 A d L e p k hk) :
    ∀ x, ((lst pixV ![1, 256] linb_1_256).view.read (Elt F) p x).toNat < S1000x128.size gathers_S1000x128_S128x128.axis :=
  lst_in_p A d L hP ![1, 256] linb_1_256 ![1, 0] inb_S2x512_S1x512_1_0 p k hk hv.2 rfl rfl 2 (by omega) rfl

theorem ids_e_1_384 (e : Buf (Elt F) ((eixV).view.loc (thr d L))) (p : Buf (Elt F) ((pixV).view.loc (thr d L))) (k : ℕ) (hk : k < 50)
    (hv : SlotVals1 A d L e p k hk) (x : Fin 128) :
    (lst eixV ![1, 384] linb_1_384).view.read (Elt F) e (ix1 x)
      = A.eid d (ix1 (⟨base0 L + 128 * (4 * k + 3) + x.val, flat_lt L k 3 hk (by omega) x⟩ : Fin 819200)) :=
  lst_ids_e A d L ![1, 384] linb_1_384 ![1, 0] inb_S2x512_S1x512_1_0 e k hk hv.1 rfl rfl 3 (by omega) rfl x
theorem ids_p_1_384 (e : Buf (Elt F) ((eixV).view.loc (thr d L))) (p : Buf (Elt F) ((pixV).view.loc (thr d L))) (k : ℕ) (hk : k < 50)
    (hv : SlotVals1 A d L e p k hk) (x : Fin 128) :
    (lst pixV ![1, 384] linb_1_384).view.read (Elt F) p (ix1 x)
      = A.pid d (ix1 (⟨base0 L + 128 * (4 * k + 3) + x.val, flat_lt L k 3 hk (by omega) x⟩ : Fin 819200)) :=
  lst_ids_p A d L ![1, 384] linb_1_384 ![1, 0] inb_S2x512_S1x512_1_0 p k hk hv.2 rfl rfl 3 (by omega) rfl x
theorem hin_e_1_384 (hE : ∀ j : S819200.Idx, (A.eid d j).toNat < 100000)
    (e : Buf (Elt F) ((eixV).view.loc (thr d L))) (p : Buf (Elt F) ((pixV).view.loc (thr d L))) (k : ℕ) (hk : k < 50)
    (hv : SlotVals1 A d L e p k hk) :
    ∀ x, ((lst eixV ![1, 384] linb_1_384).view.read (Elt F) e x).toNat < S100000x128.size gathers_S100000x128_S128x128.axis :=
  lst_in_e A d L hE ![1, 384] linb_1_384 ![1, 0] inb_S2x512_S1x512_1_0 e k hk hv.1 rfl rfl 3 (by omega) rfl
theorem hin_p_1_384 (hP : ∀ j : S819200.Idx, (A.pid d j).toNat < 1000)
    (e : Buf (Elt F) ((eixV).view.loc (thr d L))) (p : Buf (Elt F) ((pixV).view.loc (thr d L))) (k : ℕ) (hk : k < 50)
    (hv : SlotVals1 A d L e p k hk) :
    ∀ x, ((lst pixV ![1, 384] linb_1_384).view.read (Elt F) p x).toNat < S1000x128.size gathers_S1000x128_S128x128.axis :=
  lst_in_p A d L hP ![1, 384] linb_1_384 ![1, 0] inb_S2x512_S1x512_1_0 p k hk hv.2 rfl rfl 3 (by omega) rfl

end Cert.Kernel.Run.Sc
end
-- ==== Proof.ScTripFoldBits.lean ====
/-
  A trip's two ends: the invariant before a trip opened into the flat list of pieces the trip's run starts from, and the
  pieces it ends with closed into the invariant before the next trip. An even trip k (1 ≤ k < 48) gathers by slot 0 of the
  id scratches while slot 1 is being filled on cell 9; the next trip gathers by slot 1 while slot 0 is being filled on cell 8.
-/
import proofs.«204385_g66649302499670_cont_9to1c4b_43_34_alg».proof.Proof.ScTripBits
import proofs.«204385_g66649302499670_cont_9to1c4b_43_34_alg».proof.Proof.ScOutBookBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F] (A : Vals F) (d : Dev nD) (L : grid1.Coords)

variable (q1 q2 r1 r2 qi : PosShare TreeShare)

/-! ## An even trip, 1 ≤ k < 48 -/

/-- What an even trip's run starts from: the gathers of chunks 4k, 4k+1 in flight by slot 0; the next ids in flight into
    slot 1 on cell 9; the copy-outs of chunks 4k-2, 4k-1 in flight; chunks 4k … 4k+3 at the launch contents; the rest. -/
def evenPre (O : CellTallies nD τ sig (HIx 1)) (k : ℕ) (hk1' : k + 1 < 50)
    (hc0 : 4 * k < 200) (hc1 : 4 * k + 1 < 200) (hc2 : 4 * k + 2 < 200) (hc3 : 4 * k + 3 < 200) (hcm2 : 4 * k - 2 < 200) (hcm1 : 4 * k - 1 < 200)
    (e : Buf (Elt F) ((eixV).view.loc (thr d L))) (p : Buf (Elt F) ((pixV).view.loc (thr d L)))
    (e' : Buf (Elt F) ((eixV).view.loc (thr d L))) (p' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK0 d L e p) (W' : Waits sig (HIx 1)) : sProp 𝕄 :=
  iprop(Transfers.MayWaits (thr d L) (default : HIx 1) O
    ∗ flightE A d L 10 (hlf0 ebV) (lst eixV ![0, 0] linb_0_0) q1 fe0 e hL.1
    ∗ flightE A d L 11 (hlf1 ebV) (lst eixV ![0, 128] linb_0_128) q2 fe1 e hL.2.1
    ∗ flightP A d L 12 (hlf0 pbV) (lst pixV ![0, 0] linb_0_0) r1 fp0 p hL.2.2.1
    ∗ flightP A d L 13 (hlf1 pbV) (lst pixV ![0, 128] linb_0_128) r2 fp1 p hL.2.2.2
    ∗ teRest A d L q1 ∗ teRest A d L q2 ∗ shRest A d L r1 ∗ shRest A d L r2
    ∗ ((slot0 eixV).view.loc (thr d L)
          ↦[((slot0 eixV).view.set \ (lst eixV ![0, 0] linb_0_0).view.set) \ (lst eixV ![0, 128] linb_0_128).view.set]{fullShare} e)
    ∗ ((slot0 pixV).view.loc (thr d L)
          ↦[((slot0 pixV).view.set \ (lst pixV ![0, 0] linb_0_0).view.set) \ (lst pixV ![0, 128] linb_0_128).view.set]{fullShare} p)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ idsBatch A d L (9 : DmaSem sig) (slot1 eixV) (slot1 pixV) qi (idsOff L (k + 1)) (idsInb L (k + 1) hk1') e' p'
        (idsPayAt d L eidV (A.eid d) (idsOff L (k + 1)) (idsInb L (k + 1) hk1')) (idsPayAt d L pidV (A.pid d) (idsOff L (k + 1)) (idsInb L (k + 1) hk1'))
    ∗ idsRest A d L qi (idsOff L (k + 1)) (idsInb L (k + 1) hk1')
    ∗ semVal (cellOf d L 8) 0
    ∗ chunkPt d L (4 * k) hc0 (A.out0 d) ∗ chunkPt d L (4 * k + 1) hc1 (A.out0 d)
    ∗ chunkPt d L (4 * k + 2) hc2 (A.out0 d) ∗ chunkPt d L (4 * k + 3) hc3 (A.out0 d)
    ∗ flightO A d L 14 (hlf0 obV) (4 * k - 2) hcm2 fo0
    ∗ flightO A d L 15 (hlf1 obV) (4 * k - 1) hcm1 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- OPENING an even trip. -/
theorem open_even (O : CellTallies nD τ sig (HIx 1)) (W : Waits sig (HIx 1)) (k : ℕ) (hk0 : k % 2 = 0) (hk1 : 1 ≤ k) (hk50 : k < 50) (hk1' : k + 1 < 50)
    (hc0 : 4 * k < 200) (hc1 : 4 * k + 1 < 200) (hc2 : 4 * k + 2 < 200) (hc3 : 4 * k + 3 < 200) (hcm2 : 4 * k - 2 < 200) (hcm1 : 4 * k - 1 < 200) :
    inv A d L q1 q2 r1 r2 qi O W k PUnit.unit
      ⊢ iprop(∃ (e : Buf (Elt F) ((eixV).view.loc (thr d L))) (p : Buf (Elt F) ((pixV).view.loc (thr d L)))
          (e' : Buf (Elt F) ((eixV).view.loc (thr d L))) (p' : Buf (Elt F) ((pixV).view.loc (thr d L)))
          (fe0 : Buf (Elt F) ((hlf0 ebV).view.loc (thr d L))) (fe1 : Buf (Elt F) ((hlf1 ebV).view.loc (thr d L)))
          (fp0 : Buf (Elt F) ((hlf0 pbV).view.loc (thr d L))) (fp1 : Buf (Elt F) ((hlf1 pbV).view.loc (thr d L)))
          (fo0 : Buf (Elt F) ((hlf0 obV).view.loc (thr d L))) (fo1 : Buf (Elt F) ((hlf1 obV).view.loc (thr d L)))
          (feR : Buf (Elt F) ((ebV).view.loc (thr d L))) (fpR : Buf (Elt F) ((pbV).view.loc (thr d L))) (foR : Buf (Elt F) ((obV).view.loc (thr d L)))
          (hL : PLift (ListsOK0 d L e p)) (W' : Waits sig (HIx 1)),
          ⌜SlotVals0 A d L e p k hk50 ∧ ∀ x ∈ W', x ∈ W ∨ x.2 = none⌝
          ∗ evenPre A d L q1 q2 r1 r2 qi O k hk1' hc0 hc1 hc2 hc3 hcm2 hcm1 e p e' p' fe0 fe1 fp0 fp1 fo0 fo1 feR fpR foR hL.down W') := by
  unfold inv gatherPart idsPart
  rw [if_pos hk0, if_pos hk0]
  unfold gatherPart0 idsPart1
  rw [dif_pos hk50, dif_pos hk1', outPart_chunks, dif_pos ⟨hk1, by omega⟩, chunks_open A d L k hk1 hc0 hc1 hc2 hc3]
  unfold evenPre
  iintro ⟨#Hmw, ⟨%e, %p, %hL, %hSV, ⟨%fe0, HE0⟩, ⟨%fe1, HE1⟩, ⟨%fp0, HP0⟩, ⟨%fp1, HP1⟩, Hte1, Hte2, Hsh1, Hsh2, Heix, Hpix, ⟨%feR, Heb⟩, ⟨%fpR, Hpb⟩⟩,
    ⟨%e', %p', Hbat, Hrest, Hs8⟩, ⟨⟨Hr200, Hc0, Hc1, Hc2, Hc3⟩, ⟨%fo0, HO0⟩, ⟨%fo1, HO1⟩, ⟨%foR, Hob⟩⟩, ⟨%W', %hW', HO⟩⟩
  iexists e, p, e', p', fe0, fe1, fp0, fp1, fo0, fo1, feR, fpR, foR, hL, W'
  isplitr; · ipureintro; exact ⟨hSV, hW'⟩
  isplitr; · iexact Hmw
  isplitl [HE0]; · iexact HE0
  isplitl [HE1]; · iexact HE1
  isplitl [HP0]; · iexact HP0
  isplitl [HP1]; · iexact HP1
  isplitl [Hte1]; · iexact Hte1
  isplitl [Hte2]; · iexact Hte2
  isplitl [Hsh1]; · iexact Hsh1
  isplitl [Hsh2]; · iexact Hsh2
  isplitl [Heix]; · iexact Heix
  isplitl [Hpix]; · iexact Hpix
  isplitl [Heb]; · iexact Heb
  isplitl [Hpb]; · iexact Hpb
  isplitl [Hbat]; · iexact Hbat
  isplitl [Hrest]; · iexact Hrest
  isplitl [Hs8]; · iexact Hs8
  isplitl [Hc0]; · iexact Hc0
  isplitl [Hc1]; · iexact Hc1
  isplitl [Hc2]; · iexact Hc2
  isplitl [Hc3]; · iexact Hc3
  isplitl [HO0]; · iexact HO0
  isplitl [HO1]; · iexact HO1
  isplitl [Hob]; · iexact Hob
  isplitl [Hr200]; · iexact Hr200
  iexact HO

/-- A copy-out in flight named by an equal chunk number. -/
theorem exFlightO_congr (sm : DmaSem sig) (H : Memref sig .scVector .vmem S128x128 .f32) {n n' : ℕ} (e : n = n') (hn : n < 200) (hn' : n' < 200) :
    (iprop(∃ fo, flightO A d L sm H n hn fo) : sProp 𝕄) = iprop(∃ fo, flightO A d L sm H n' hn' fo) := by subst e; rfl

/-- What an even trip's run ends with: the gathers of chunks 4k+4, 4k+5 in flight by slot 1; the ids after next in flight
    into slot 0 on cell 8; chunks 4k-2 … 4k+1 holding the looked-up sums; the copy-outs of chunks 4k+2, 4k+3 in flight. -/
def evenPost (O : CellTallies nD τ sig (HIx 1)) (k : ℕ) (hk2' : k + 1 + 1 < 50)
    (hc0 : 4 * k < 200) (hc1 : 4 * k + 1 < 200) (hc2 : 4 * k + 2 < 200) (hc3 : 4 * k + 3 < 200) (hcm2 : 4 * k - 2 < 200) (hcm1 : 4 * k - 1 < 200)
    (e1 : Buf (Elt F) ((eixV).view.loc (thr d L))) (p1 : Buf (Elt F) ((pixV).view.loc (thr d L)))
    (e'' : Buf (Elt F) ((eixV).view.loc (thr d L))) (p'' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK1 d L e1 p1) (W' : Waits sig (HIx 1)) : sProp 𝕄 :=
  iprop(Transfers.MayWaits (thr d L) (default : HIx 1) O
    ∗ flightE A d L 10 (hlf0 ebV) (lst eixV ![1, 0] linb_1_0) q1 fe0 e1 hL.1
    ∗ flightE A d L 11 (hlf1 ebV) (lst eixV ![1, 128] linb_1_128) q2 fe1 e1 hL.2.1
    ∗ flightP A d L 12 (hlf0 pbV) (lst pixV ![1, 0] linb_1_0) r1 fp0 p1 hL.2.2.1
    ∗ flightP A d L 13 (hlf1 pbV) (lst pixV ![1, 128] linb_1_128) r2 fp1 p1 hL.2.2.2
    ∗ teRest A d L q1 ∗ teRest A d L q2 ∗ shRest A d L r1 ∗ shRest A d L r2
    ∗ ((slot1 eixV).view.loc (thr d L)
          ↦[((slot1 eixV).view.set \ (lst eixV ![1, 0] linb_1_0).view.set) \ (lst eixV ![1, 128] linb_1_128).view.set]{fullShare} e1)
    ∗ ((slot1 pixV).view.loc (thr d L)
          ↦[((slot1 pixV).view.set \ (lst pixV ![1, 0] linb_1_0).view.set) \ (lst pixV ![1, 128] linb_1_128).view.set]{fullShare} p1)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ idsBatch A d L (8 : DmaSem sig) (slot0 eixV) (slot0 pixV) qi (idsOff L (k + 1 + 1)) (idsInb L (k + 1 + 1) hk2') e'' p''
        (idsPayAt d L eidV (A.eid d) (idsOff L (k + 1 + 1)) (idsInb L (k + 1 + 1) hk2')) (idsPayAt d L pidV (A.pid d) (idsOff L (k + 1 + 1)) (idsInb L (k + 1 + 1) hk2'))
    ∗ idsRest A d L qi (idsOff L (k + 1 + 1)) (idsInb L (k + 1 + 1) hk2')
    ∗ semVal (cellOf d L 9) 0
    ∗ chunkPt d L (4 * k - 2) hcm2 (outFin A d) ∗ chunkPt d L (4 * k - 1) hcm1 (outFin A d)
    ∗ chunkPt d L (4 * k) hc0 (outFin A d) ∗ chunkPt d L (4 * k + 1) hc1 (outFin A d)
    ∗ flightO A d L 14 (hlf0 obV) (4 * k + 2) hc2 fo0
    ∗ flightO A d L 15 (hlf1 obV) (4 * k + 3) hc3 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- CLOSING an even trip. -/
theorem close_even (O : CellTallies nD τ sig (HIx 1)) (W : Waits sig (HIx 1)) (k : ℕ) (hk0 : k % 2 = 0) (hk1 : 1 ≤ k) (hk50 : k + 1 < 50) (hk2' : k + 1 + 1 < 50)
    (hc0 : 4 * k < 200) (hc1 : 4 * k + 1 < 200) (hc2 : 4 * k + 2 < 200) (hc3 : 4 * k + 3 < 200) (hcm2 : 4 * k - 2 < 200) (hcm1 : 4 * k - 1 < 200)
    (e1 : Buf (Elt F) ((eixV).view.loc (thr d L))) (p1 : Buf (Elt F) ((pixV).view.loc (thr d L)))
    (e'' : Buf (Elt F) ((eixV).view.loc (thr d L))) (p'' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK1 d L e1 p1) (hSV : SlotVals1 A d L e1 p1 (k + 1) hk50) (W' : Waits sig (HIx 1)) (hW' : ∀ x ∈ W', x ∈ W ∨ x.2 = none) :
    evenPost A d L q1 q2 r1 r2 qi O k hk2' hc0 hc1 hc2 hc3 hcm2 hcm1 e1 p1 e'' p'' fe0 fe1 fp0 fp1 fo0 fo1 feR fpR foR hL W'
      ⊢ inv A d L q1 q2 r1 r2 qi O W (k + 1) PUnit.unit := by
  unfold inv gatherPart idsPart
  rw [if_neg (show ¬ (k + 1) % 2 = 0 by omega), if_neg (show ¬ (k + 1) % 2 = 0 by omega)]
  unfold gatherPart1 idsPart0
  rw [dif_pos hk50, dif_pos hk2', outPart_chunks, dif_pos (⟨by omega, by omega⟩ : 1 ≤ k + 1 ∧ k + 1 ≤ 50),
    chunks_close A d L k hk1 hcm2 hcm1 hc0 hc1 hc3,
    exFlightO_congr A d L 14 (hlf0 obV) (show 4 * (k + 1) - 2 = 4 * k + 2 by omega) _ hc2,
    exFlightO_congr A d L 15 (hlf1 obV) (show 4 * (k + 1) - 1 = 4 * k + 3 by omega) _ hc3]
  unfold evenPost
  iintro ⟨#Hmw, HE0, HE1, HP0, HP1, Hte1, Hte2, Hsh1, Hsh2, Heix, Hpix, Heb, Hpb, Hbat, Hrest, Hs9, Hm2, Hm1, Hc0, Hc1, HO0, HO1, Hob, Hr200, HO⟩
  isplitr; · iexact Hmw
  isplitl [HE0 HE1 HP0 HP1 Hte1 Hte2 Hsh1 Hsh2 Heix Hpix Heb Hpb]
  · iexists e1, p1, ⟨hL⟩
    isplitr; · ipureintro; exact hSV
    isplitl [HE0]; · iexists fe0; iexact HE0
    isplitl [HE1]; · iexists fe1; iexact HE1
    isplitl [HP0]; · iexists fp0; iexact HP0
    isplitl [HP1]; · iexists fp1; iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexists feR; iexact Heb
    iexists fpR; iexact Hpb
  isplitl [Hbat Hrest Hs9]
  · iexists e'', p''
    isplitl [Hbat]; · iexact Hbat
    isplitl [Hrest]; · iexact Hrest
    iexact Hs9
  isplitl [Hm2 Hm1 Hc0 Hc1 HO0 HO1 Hob Hr200]
  · isplitl [Hm2 Hm1 Hc0 Hc1 Hr200]
    · isplitl [Hr200]; · iexact Hr200
      isplitl [Hm2]; · iexact Hm2
      isplitl [Hm1]; · iexact Hm1
      isplitl [Hc0]; · iexact Hc0
      iexact Hc1
    isplitl [HO0]; · iexists fo0; iexact HO0
    isplitl [HO1]; · iexists fo1; iexact HO1
    iexists foR; iexact Hob
  iexists W'
  isplitr; · ipureintro; exact hW'
  iexact HO

end Cert.Kernel.Run.Sc

end
-- ==== Proof.ScCloseBits.lean ====
/-
  Closing a trip, the value side: what a run leaves of a copy-out — the chunk window written whole with the lanewise sums
  of a half of the sum buffer — is the chunk holding the looked-up sums, when the two gathered halves hold the rows
  gathered by lists of the chunk's flat ids.
-/
import proofs.«204385_g66649302499670_cont_9to1c4b_43_34_alg».proof.Proof.ScFactsBits
import proofs.«204385_g66649302499670_cont_9to1c4b_43_34_alg».proof.Proof.ScOutBookBits
import Idealize.ShloMosaic.Lib.Pipeline.Value
import Idealize.ShloMosaic.Lib.Exec.Geometry

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F] (A : Vals F) (d : Dev nD) (L : grid1.Coords)

/-- `chunk_written` at the loop's own spelling of a chunk. -/
theorem chunk_written' (n : ℕ) (hn : n < 200) (He Hp : S128x128.Idx → Elt F .f32) (le lp : S128.Idx → Elt F .i32)
    (hinE : ∀ x, (le x).toNat < S100000x128.size gathers_S100000x128_S128x128.axis)
    (hinP : ∀ x, (lp x).toNat < S1000x128.size gathers_S1000x128_S128x128.axis)
    (hHe : He = SparseCore.gatherPayload gathers_S100000x128_S128x128 ((teSrc).view.read (Elt F) (A.te d)) (SparseCore.rows le rfl hinE))
    (hHp : Hp = SparseCore.gatherPayload gathers_S1000x128_S128x128 ((shSrc).view.read (Elt F) (shVal A d (cV L))) (SparseCore.rows lp rfl hinP))
    (hle : ∀ x : Fin 128, le (ix1 x) = A.eid d (ix1 (⟨base0 L + 128 * n + x.val, by have := base0_le L; omega⟩ : Fin 819200)))
    (hlp : ∀ x : Fin 128, lp (ix1 x) = A.pid d (ix1 (⟨base0 L + 128 * n + x.val, by have := base0_le L; omega⟩ : Fin 819200)))
    (f : Buf (Elt F) ((chunkV L n hn).view.loc (thr d L))) :
    ∀ i ∈ (chunkV L n hn).view.set,
      View.write (Elt F) (chunkV L n hn).view f (ReadAs.same.apply fun y => FloatOps.addf (φ := .f32) (He y) (Hp y)) Finset.univ i = outFin A d i := by
  intro i hi
  obtain ⟨y, rfl⟩ := View.exists_emb_of_mem_set _ hi
  have hb := base0_le L
  have hy : (y 0).val < 128 := idx2_lt0 y
  rw [View.write_emb_of_mem _ _ (Finset.mem_univ y)]
  subst hHe hHp
  rw [teSrc_read, shSrc_read]
  refine (gather_sum_eq_outVal (A.te d) (A.tp d) (A.eid d) (A.pid d) gathers_S100000x128_S128x128 gathers_S1000x128_S128x128
    (base0 L + 128 * n) (by omega) le lp hle hlp hinE hinP y).trans ?_
  show outFin A d _ = outFin A d _
  refine congrArg (outFin A d) ?_
  funext a; apply Fin.ext
  match a with
  | ⟨0, _⟩ => show base0 L + 128 * n + (y 0).val = 51200 * (L 1).val + 25600 * (L 0).val + 128 * n + 1 * (y 0).val; unfold base0; omega
  | ⟨1, _⟩ => show (y 1).val = 0 + 1 * (y 1).val; omega

/-! ### A chunk out of half 0 of the sum buffer -/

/-- THE DELIVERED CHUNK, half 0: a chunk window written whole (over any base contents) with the lanewise sums of half 0,
    when that half of the two gathered buffers holds the rows gathered by lists of the chunk's flat ids, is the chunk
    holding the looked-up sums. -/
theorem chunk_delivered0 (n : ℕ) (hn : n < 200) (off : Fin 2 → ℕ) (hoff : ∀ a, off a + S128x128.size a ≤ S819200x128.size a) (eoff : off = chunkOff L n)
    (BASE : Buf (Elt F) (((outV).slice (Rect.unit (s := S819200x128) off S128x128.size hoff) (fun _ => rfl)).view.loc (thr d L)))
    (PAY : S128x128.Idx → Elt F .f32) (FE FP FO : S2x128x128.Idx → Elt F .f32) (le lp : S128.Idx → Elt F .i32)
    (hinE : ∀ x, (le x).toNat < S100000x128.size gathers_S100000x128_S128x128.axis)
    (hinP : ∀ x, (lp x).toNat < S1000x128.size gathers_S1000x128_S128x128.axis)
    (hPAY : PAY = ReadAs.same.apply ((hlf0 obV).view.read (Elt F) (addHalf 0 FE FP FO)))
    (hFE : (hlf0 ebV).view.read (Elt F) FE
      = SparseCore.gatherPayload gathers_S100000x128_S128x128 ((teSrc).view.read (Elt F) (A.te d)) (SparseCore.rows le rfl hinE))
    (hFP : (hlf0 pbV).view.read (Elt F) FP
      = SparseCore.gatherPayload gathers_S1000x128_S128x128 ((shSrc).view.read (Elt F) (shVal A d (cV L))) (SparseCore.rows lp rfl hinP))
    (hle : ∀ x : Fin 128, le (ix1 x) = A.eid d (ix1 (⟨base0 L + 128 * n + x.val, by have := base0_le L; omega⟩ : Fin 819200)))
    (hlp : ∀ x : Fin 128, lp (ix1 x) = A.pid d (ix1 (⟨base0 L + 128 * n + x.val, by have := base0_le L; omega⟩ : Fin 819200))) :
    ((((outV).slice (Rect.unit (s := S819200x128) off S128x128.size hoff) (fun _ => rfl)).view.loc (thr d L)
        ↦[((outV).slice (Rect.unit (s := S819200x128) off S128x128.size hoff) (fun _ => rfl)).view.set]{fullShare}
          ((outV).slice (Rect.unit (s := S819200x128) off S128x128.size hoff) (fun _ => rfl)).view.writes (Elt F) BASE
            [⟨Rect.whole (Rect.unit (s := S819200x128) off S128x128.size hoff).shape, PAY⟩]) : sProp 𝕄)
      = chunkPt d L n hn (outFin A d) := by
  subst eoff
  have eh : hoff = chunkInb L n hn := rfl
  subst eh
  subst hPAY
  unfold chunkPt
  refine pointsTo_congr fun i hi => ?_
  refine (congrFun (View.write_univ_eq_writes_whole (chunkV L n hn).view BASE [] _).symm i).trans ?_
  rw [View.writes_nil, read_addHalf0]
  exact chunk_written' A d L n hn ((hlf0 ebV).view.read (Elt F) FE) ((hlf0 pbV).view.read (Elt F) FP) le lp hinE hinP hFE hFP hle hlp BASE i hi

/-- THE COPY-OUT IN FLIGHT, half 0: as a run leaves it — the chunk window written whole with the sums, half 0 of the
    sum buffer lent — it is the flight that hands back the chunk holding the looked-up sums and the half. -/
theorem flight_delivered0 (sm : DmaSem sig) (n : ℕ) (hn : n < 200) (off : Fin 2 → ℕ) (hoff : ∀ a, off a + S128x128.size a ≤ S819200x128.size a) (eoff : off = chunkOff L n)
    (BASE : Buf (Elt F) (((outV).slice (Rect.unit (s := S819200x128) off S128x128.size hoff) (fun _ => rfl)).view.loc (thr d L)))
    (PAY : S128x128.Idx → Elt F .f32) (FE FP FO : S2x128x128.Idx → Elt F .f32) (le lp : S128.Idx → Elt F .i32)
    (hinE : ∀ x, (le x).toNat < S100000x128.size gathers_S100000x128_S128x128.axis)
    (hinP : ∀ x, (lp x).toNat < S1000x128.size gathers_S1000x128_S128x128.axis)
    (hPAY : PAY = ReadAs.same.apply ((hlf0 obV).view.read (Elt F) (addHalf 0 FE FP FO)))
    (hFE : (hlf0 ebV).view.read (Elt F) FE
      = SparseCore.gatherPayload gathers_S100000x128_S128x128 ((teSrc).view.read (Elt F) (A.te d)) (SparseCore.rows le rfl hinE))
    (hFP : (hlf0 pbV).view.read (Elt F) FP
      = SparseCore.gatherPayload gathers_S1000x128_S128x128 ((shSrc).view.read (Elt F) (shVal A d (cV L))) (SparseCore.rows lp rfl hinP))
    (hle : ∀ x : Fin 128, le (ix1 x) = A.eid d (ix1 (⟨base0 L + 128 * n + x.val, by have := base0_le L; omega⟩ : Fin 819200)))
    (hlp : ∀ x : Fin 128, lp (ix1 x) = A.pid d (ix1 (⟨base0 L + 128 * n + x.val, by have := base0_le L; omega⟩ : Fin 819200))) :
    (Transfers.Flight countersEmb (thr d L) (SemLoc.dma sm) (default : HIx 1) 524288
        iprop(((((outV).slice (Rect.unit (s := S819200x128) off S128x128.size hoff) (fun _ => rfl)).view.loc (thr d L)
            ↦[((outV).slice (Rect.unit (s := S819200x128) off S128x128.size hoff) (fun _ => rfl)).view.set]{fullShare}
              ((outV).slice (Rect.unit (s := S819200x128) off S128x128.size hoff) (fun _ => rfl)).view.writes (Elt F) BASE
                [⟨Rect.whole (Rect.unit (s := S819200x128) off S128x128.size hoff).shape, PAY⟩]))
          ∗ ((obV).view.loc (thr d L) ↦[(hlf0 obV).view.set]{fullShare} addHalf 0 FE FP FO)) : sProp 𝕄)
      = flightO A d L sm (hlf0 obV) n hn (addHalf 0 FE FP FO) := by
  rw [chunk_delivered0 A d L n hn off hoff eoff BASE PAY FE FP FO le lp hinE hinP hPAY hFE hFP hle hlp]
  rfl

/-- Half 0 of a buffer that holds `W` on that half reads as `W` does. -/
theorem read_piecewise_hlf0 (M : Memref sig .scVector .vmem S2x128x128 .f32) (W R : Buf (Elt F) (M.view.loc (thr d L))) :
    (hlf0 M).view.read (Elt F) ((hlf0 M).view.set.piecewise W R) = (hlf0 M).view.read (Elt F) W := by
  funext y
  rw [View.read_apply, View.read_apply, Finset.piecewise_eq_of_mem _ _ _ ((hlf0 M).view.emb_mem_set y)]

/-- Half 0 written whole reads the payload. -/
theorem read_write_hlf0 (M : Memref sig .scVector .vmem S2x128x128 .f32) (X : Buf (Elt F) (M.view.loc (thr d L))) (pay : S128x128.Idx → Elt F .f32) :
    (hlf0 M).view.read (Elt F) (View.write (Elt F) (hlf0 M).view X pay Finset.univ) = pay :=
  View.read_write_univ _ _

/-! ### A chunk out of half 1 of the sum buffer -/

/-- THE DELIVERED CHUNK, half 1: a chunk window written whole (over any base contents) with the lanewise sums of half 1,
    when that half of the two gathered buffers holds the rows gathered by lists of the chunk's flat ids, is the chunk
    holding the looked-up sums. -/
theorem chunk_delivered1 (n : ℕ) (hn : n < 200) (off : Fin 2 → ℕ) (hoff : ∀ a, off a + S128x128.size a ≤ S819200x128.size a) (eoff : off = chunkOff L n)
    (BASE : Buf (Elt F) (((outV).slice (Rect.unit (s := S819200x128) off S128x128.size hoff) (fun _ => rfl)).view.loc (thr d L)))
    (PAY : S128x128.Idx → Elt F .f32) (FE FP FO : S2x128x128.Idx → Elt F .f32) (le lp : S128.Idx → Elt F .i32)
    (hinE : ∀ x, (le x).toNat < S100000x128.size gathers_S100000x128_S128x128.axis)
    (hinP : ∀ x, (lp x).toNat < S1000x128.size gathers_S1000x128_S128x128.axis)
    (hPAY : PAY = ReadAs.same.apply ((hlf1 obV).view.read (Elt F) (addHalf 1 FE FP FO)))
    (hFE : (hlf1 ebV).view.read (Elt F) FE
      = SparseCore.gatherPayload gathers_S100000x128_S128x128 ((teSrc).view.read (Elt F) (A.te d)) (SparseCore.rows le rfl hinE))
    (hFP : (hlf1 pbV).view.read (Elt F) FP
      = SparseCore.gatherPayload gathers_S1000x128_S128x128 ((shSrc).view.read (Elt F) (shVal A d (cV L))) (SparseCore.rows lp rfl hinP))
    (hle : ∀ x : Fin 128, le (ix1 x) = A.eid d (ix1 (⟨base0 L + 128 * n + x.val, by have := base0_le L; omega⟩ : Fin 819200)))
    (hlp : ∀ x : Fin 128, lp (ix1 x) = A.pid d (ix1 (⟨base0 L + 128 * n + x.val, by have := base0_le L; omega⟩ : Fin 819200))) :
    ((((outV).slice (Rect.unit (s := S819200x128) off S128x128.size hoff) (fun _ => rfl)).view.loc (thr d L)
        ↦[((outV).slice (Rect.unit (s := S819200x128) off S128x128.size hoff) (fun _ => rfl)).view.set]{fullShare}
          ((outV).slice (Rect.unit (s := S819200x128) off S128x128.size hoff) (fun _ => rfl)).view.writes (Elt F) BASE
            [⟨Rect.whole (Rect.unit (s := S819200x128) off S128x128.size hoff).shape, PAY⟩]) : sProp 𝕄)
      = chunkPt d L n hn (outFin A d) := by
  subst eoff
  have eh : hoff = chunkInb L n hn := rfl
  subst eh
  subst hPAY
  unfold chunkPt
  refine pointsTo_congr fun i hi => ?_
  refine (congrFun (View.write_univ_eq_writes_whole (chunkV L n hn).view BASE [] _).symm i).trans ?_
  rw [View.writes_nil, read_addHalf1]
  exact chunk_written' A d L n hn ((hlf1 ebV).view.read (Elt F) FE) ((hlf1 pbV).view.read (Elt F) FP) le lp hinE hinP hFE hFP hle hlp BASE i hi

/-- THE COPY-OUT IN FLIGHT, half 1: as a run leaves it — the chunk window written whole with the sums, half 1 of the
    sum buffer lent — it is the flight that hands back the chunk holding the looked-up sums and the half. -/
theorem flight_delivered1 (sm : DmaSem sig) (n : ℕ) (hn : n < 200) (off : Fin 2 → ℕ) (hoff : ∀ a, off a + S128x128.size a ≤ S819200x128.size a) (eoff : off = chunkOff L n)
    (BASE : Buf (Elt F) (((outV).slice (Rect.unit (s := S819200x128) off S128x128.size hoff) (fun _ => rfl)).view.loc (thr d L)))
    (PAY : S128x128.Idx → Elt F .f32) (FE FP FO : S2x128x128.Idx → Elt F .f32) (le lp : S128.Idx → Elt F .i32)
    (hinE : ∀ x, (le x).toNat < S100000x128.size gathers_S100000x128_S128x128.axis)
    (hinP : ∀ x, (lp x).toNat < S1000x128.size gathers_S1000x128_S128x128.axis)
    (hPAY : PAY = ReadAs.same.apply ((hlf1 obV).view.read (Elt F) (addHalf 1 FE FP FO)))
    (hFE : (hlf1 ebV).view.read (Elt F) FE
      = SparseCore.gatherPayload gathers_S100000x128_S128x128 ((teSrc).view.read (Elt F) (A.te d)) (SparseCore.rows le rfl hinE))
    (hFP : (hlf1 pbV).view.read (Elt F) FP
      = SparseCore.gatherPayload gathers_S1000x128_S128x128 ((shSrc).view.read (Elt F) (shVal A d (cV L))) (SparseCore.rows lp rfl hinP))
    (hle : ∀ x : Fin 128, le (ix1 x) = A.eid d (ix1 (⟨base0 L + 128 * n + x.val, by have := base0_le L; omega⟩ : Fin 819200)))
    (hlp : ∀ x : Fin 128, lp (ix1 x) = A.pid d (ix1 (⟨base0 L + 128 * n + x.val, by have := base0_le L; omega⟩ : Fin 819200))) :
    (Transfers.Flight countersEmb (thr d L) (SemLoc.dma sm) (default : HIx 1) 524288
        iprop(((((outV).slice (Rect.unit (s := S819200x128) off S128x128.size hoff) (fun _ => rfl)).view.loc (thr d L)
            ↦[((outV).slice (Rect.unit (s := S819200x128) off S128x128.size hoff) (fun _ => rfl)).view.set]{fullShare}
              ((outV).slice (Rect.unit (s := S819200x128) off S128x128.size hoff) (fun _ => rfl)).view.writes (Elt F) BASE
                [⟨Rect.whole (Rect.unit (s := S819200x128) off S128x128.size hoff).shape, PAY⟩]))
          ∗ ((obV).view.loc (thr d L) ↦[(hlf1 obV).view.set]{fullShare} addHalf 1 FE FP FO)) : sProp 𝕄)
      = flightO A d L sm (hlf1 obV) n hn (addHalf 1 FE FP FO) := by
  rw [chunk_delivered1 A d L n hn off hoff eoff BASE PAY FE FP FO le lp hinE hinP hPAY hFE hFP hle hlp]
  rfl

/-- Half 1 of a buffer that holds `W` on that half reads as `W` does. -/
theorem read_piecewise_hlf1 (M : Memref sig .scVector .vmem S2x128x128 .f32) (W R : Buf (Elt F) (M.view.loc (thr d L))) :
    (hlf1 M).view.read (Elt F) ((hlf1 M).view.set.piecewise W R) = (hlf1 M).view.read (Elt F) W := by
  funext y
  rw [View.read_apply, View.read_apply, Finset.piecewise_eq_of_mem _ _ _ ((hlf1 M).view.emb_mem_set y)]

/-- Half 1 written whole reads the payload. -/
theorem read_write_hlf1 (M : Memref sig .scVector .vmem S2x128x128 .f32) (X : Buf (Elt F) (M.view.loc (thr d L))) (pay : S128x128.Idx → Elt F .f32) :
    (hlf1 M).view.read (Elt F) (View.write (Elt F) (hlf1 M).view X pay Finset.univ) = pay :=
  View.read_write_univ _ _

end Cert.Kernel.Run.Sc

end
-- ==== Proof.ScTripEvenBits.lean ====
/-
  The tile's loop: what the tile holds between two trips of its 50-trip loop (the invariant), and one trip.

  At the start of trip k the gathers of chunks 4k and 4k+1 are in flight (one per cell of esem / psem) into the halves
  of ebufs / pbufs, by the first two quarters of id slot k % 2; the next trip's 512 ids of both kinds are in flight
  into slot (k+1) % 2 as ONE batch of two copies on isem[(k+1) % 2] (trips 0–48); the copy-outs of chunks 4k-2 and
  4k-1 are in flight out of the halves of obufs on wsem[0] / wsem[1] (trips ≥ 1), their chunks of the result already
  counted as holding the looked-up sums; the chunks below 4k-2 hold them; those from 4k on are untouched.
-/
import proofs.«204385_g66649302499670_cont_9to1c4b_43_34_alg».proof.Proof.ScTripBits
import proofs.«204385_g66649302499670_cont_9to1c4b_43_34_alg».proof.Proof.AddLoopBits
import proofs.«204385_g66649302499670_cont_9to1c4b_43_34_alg».proof.Proof.ScHalvesBits
import proofs.«204385_g66649302499670_cont_9to1c4b_43_34_alg».proof.Proof.ScSlotsBits
import proofs.«204385_g66649302499670_cont_9to1c4b_43_34_alg».proof.Proof.ScBookBits
import proofs.«204385_g66649302499670_cont_9to1c4b_43_34_alg».proof.Proof.ScTripFoldBits
import proofs.«204385_g66649302499670_cont_9to1c4b_43_34_alg».proof.Proof.ScCloseBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F] (A : Vals F) (d : Dev nD) (L : grid1.Coords)

variable [FloatOps F] (A : Vals F) (d : Dev nD) (L : grid1.Coords)

/-- A 128-row window of the result at offset `off`, held whole. -/
abbrev chunkWin (off : Fin 2 → ℕ) (h : ∀ a, off a + S128x128.size a ≤ S819200x128.size a) (f : Buf (Elt F) ((outV).view.loc (thr d L))) : sProp 𝕄 :=
  ((outV).slice (Rect.unit (s := S819200x128) off S128x128.size h) (fun _ => rfl)).view.loc (thr d L)
    ↦[((outV).slice (Rect.unit (s := S819200x128) off S128x128.size h) (fun _ => rfl)).view.set]{fullShare} f

omit [FloatOps F] in
/-- A slot of an id scratch at offset `off`, as the program names it. -/
abbrev slotAt (M : Memref sig .scVector .vmem S2x512 .i32) (off : Fin 2 → ℕ) (h : ∀ a, off a + S1x512.size a ≤ S2x512.size a) : Memref sig .scVector .vmem S512 .i32 :=
  (M.slice (Rect.unit (s := S2x512) off S1x512.size h) (fun _ => rfl)).squeeze S512 squeezes_S1x512_S512
omit [FloatOps F] in
theorem slotPts_congr (M : Memref sig .scVector .vmem S2x512 .i32) {off off' : Fin 2 → ℕ} (e : off = off')
    (h : ∀ a, off a + S1x512.size a ≤ S2x512.size a) (h' : ∀ a, off' a + S1x512.size a ≤ S2x512.size a) (f : Buf (Elt F) (M.view.loc (thr d L))) :
    (((slotAt M off h).view.loc (thr d L) ↦[(slotAt M off h).view.set]{fullShare} f : sProp 𝕄))
      = ((slotAt M off' h').view.loc (thr d L) ↦[(slotAt M off' h').view.set]{fullShare} f) := by subst e; rfl

omit [FloatOps F] in
/-- A list's elements do not depend on how its offset is spelt. -/
theorem lst_set_congr (M : Memref sig .scVector .vmem S2x512 .i32) {off off' : Fin 2 → ℕ} (h : off = off')
    (hi : ∀ a, off a + S1x128.size a ≤ S2x512.size a) (hi' : ∀ a, off' a + S1x128.size a ≤ S2x512.size a) :
    (lst M off hi).view.set = (lst M off' hi').view.set := by subst h; rfl

omit [FloatOps F] in
/-- A list's contents do not depend on how its offset is spelt. -/
theorem lst_read_congr (M : Memref sig .scVector .vmem S2x512 .i32) {off off' : Fin 2 → ℕ} (h : off = off')
    (hi : ∀ a, off a + S1x128.size a ≤ S2x512.size a) (hi' : ∀ a, off' a + S1x128.size a ≤ S2x512.size a)
    (e : Buf (Elt F) (M.view.loc (thr d L))) (x : S128.Idx) :
    (lst M off hi).view.read (Elt F) e x = (lst M off' hi').view.read (Elt F) e x := by subst h; rfl

omit [FloatOps F] in
theorem respell_e_0_0 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 0] linb_0_0).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_e_0_128 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 128] linb_0_128).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_e_0_256 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 256] linb_0_256).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_e_0_384 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 384] linb_0_384).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_e_1_0 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 0] linb_1_0).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_e_1_128 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 128] linb_1_128).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_e_1_256 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 256] linb_1_256).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_e_1_384 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 384] linb_1_384).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem respell_p_0_0 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 0] linb_0_0).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem respell_p_0_128 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 128] linb_0_128).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem respell_p_0_256 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 256] linb_0_256).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem respell_p_0_384 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 384] linb_0_384).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem respell_p_1_0 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 0] linb_1_0).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem respell_p_1_128 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 128] linb_1_128).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem respell_p_1_256 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 256] linb_1_256).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem respell_p_1_384 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 384] linb_1_384).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
/-- A resource put aside: held, but not looked at. -/
def Aside (P : sProp 𝕄) : sProp 𝕄 := P
omit [FloatOps F] in
theorem aside_intro (P : sProp 𝕄) : P ⊢ Aside P := BI.Entails.refl _
omit [FloatOps F] in
theorem aside_elim (P : sProp 𝕄) : Aside P ⊢ P := BI.Entails.refl _

/-- The cell of the id semaphores at offset `off`, as the program names it. -/
abbrev isemAt (off : Fin 1 → ℕ) (h : ∀ a, off a + S1.size a ≤ S2.size a) : DmaSem sig :=
  ((SemArray.slice cc1_scratch6 (Rect.unit (s := S2) off S1.size h)).squeeze S_ squeezes_S1_S_).sem
theorem isemAt_congr {off off' : Fin 1 → ℕ} (e : off = off') (h : ∀ a, off a + S1.size a ≤ S2.size a) (h' : ∀ a, off' a + S1.size a ≤ S2.size a) :
    isemAt off h = isemAt off' h' := by subst e; rfl
theorem isemAt_one : isemAt ![1] inb_S2_S1_1 = (9 : DmaSem sig) := by decide
theorem isemAt_zero : isemAt ![0] inb_S2_S1_0 = (8 : DmaSem sig) := by decide

/-- A gather's flight does not depend on how its list's offset is spelt. -/
theorem ev_flightE_off (sm : DmaSem sig) (H : Memref sig .scVector .vmem S128x128 .f32) {off off' : Fin 2 → ℕ} (h : off = off')
    (hi : ∀ a, off a + S1x128.size a ≤ S2x512.size a) (hi' : ∀ a, off' a + S1x128.size a ≤ S2x512.size a) (q : PosShare TreeShare)
    (fe : Buf (Elt F) (H.view.loc (thr d L))) (e : Buf (Elt F) ((eixV).view.loc (thr d L)))
    (hin : ∀ x, ((lst eixV off hi).view.read (Elt F) e x).toNat < S100000x128.size gathers_S100000x128_S128x128.axis)
    (hin' : ∀ x, ((lst eixV off' hi').view.read (Elt F) e x).toNat < S100000x128.size gathers_S100000x128_S128x128.axis) :
    flightE A d L sm H (lst eixV off hi) q fe e hin ⊢ flightE A d L sm H (lst eixV off' hi') q fe e hin' := by
  subst h; exact BI.Entails.refl _
theorem ev_flightP_off (sm : DmaSem sig) (H : Memref sig .scVector .vmem S128x128 .f32) {off off' : Fin 2 → ℕ} (h : off = off')
    (hi : ∀ a, off a + S1x128.size a ≤ S2x512.size a) (hi' : ∀ a, off' a + S1x128.size a ≤ S2x512.size a) (q : PosShare TreeShare)
    (fp : Buf (Elt F) (H.view.loc (thr d L))) (p : Buf (Elt F) ((pixV).view.loc (thr d L)))
    (hin : ∀ x, ((lst pixV off hi).view.read (Elt F) p x).toNat < S1000x128.size gathers_S1000x128_S128x128.axis)
    (hin' : ∀ x, ((lst pixV off' hi').view.read (Elt F) p x).toNat < S1000x128.size gathers_S1000x128_S128x128.axis) :
    flightP A d L sm H (lst pixV off hi) q fp p hin ⊢ flightP A d L sm H (lst pixV off' hi') q fp p hin' := by
  subst h; exact BI.Entails.refl _

/-- The id batch does not depend on how its cell, its slot and its window are spelt. -/
theorem ev_batch_congr (qi : PosShare TreeShare) {sm sm' : DmaSem sig} (hsm : sm = sm') {offS offS' : Fin 2 → ℕ} (hS : offS = offS')
    (hiS : ∀ a, offS a + S1x512.size a ≤ S2x512.size a) (hiS' : ∀ a, offS' a + S1x512.size a ≤ S2x512.size a)
    {off off' : Fin 1 → ℕ} (ho : off = off') (hi : ∀ a, off a + S512.size a ≤ S819200.size a) (hi' : ∀ a, off' a + S512.size a ≤ S819200.size a)
    (e : Buf (Elt F) ((eixV).view.loc (thr d L))) (p : Buf (Elt F) ((pixV).view.loc (thr d L))) (pe pp : S512.Idx → Elt F .i32) :
    idsBatch A d L sm (slotAt eixV offS hiS) (slotAt pixV offS hiS) qi off hi e p pe pp
      = idsBatch A d L sm' (slotAt eixV offS' hiS') (slotAt pixV offS' hiS') qi off' hi' e p pe pp := by
  subst hsm hS ho; rfl

omit [FloatOps F] in
theorem ev_W_ins {W S : Waits sig (HIx 1)} (x0 : SemLoc sig × HIx 1) (h0 : x0.2 = none) (h : ∀ x ∈ S, x ∈ W ∨ x.2 = none) :
    ∀ x ∈ insert x0 S, x ∈ W ∨ x.2 = none := by
  intro x hx
  rcases Finset.mem_insert.mp hx with rfl | hx
  · exact Or.inr h0
  · exact h x hx

omit [FloatOps F] in
theorem ev_off43 (k : Fin k1_t1_loop.trips) : k1_off43 L k = idsOff L (k.val + 1 + 1) := by
  rw [k1_off43_eq]; unfold idsOff
  refine funext fun a => ?_
  match a with
  | 0 => show 51200 * (L 1).val + 25600 * (L 0).val + 512 * k.val + 1024 = 51200 * (L 1).val + 25600 * (L 0).val + 512 * (k.val + 1 + 1); omega

omit [FloatOps F] in
theorem ev_off13 (k : Fin k1_t1_loop.trips) (r : Fin 4) : k1_off13 L k (BitVec.ofNat 32 r.val) = chunkOff L (4 * k.val + r.val) := by
  rw [k1_off13_eq]; unfold chunkOff
  refine funext fun a => ?_
  match a with
  | 0 => show 51200 * (L 1).val + 25600 * (L 0).val + 512 * k.val + 128 * r.val = 51200 * (L 1).val + 25600 * (L 0).val + 128 * (4 * k.val + r.val); omega
  | 1 => rfl

variable (q1 q2 r1 r2 qi : PosShare TreeShare)

set_option maxHeartbeats 4000000 in
theorem trip_even_core (v2 : BitVec 32) (k : Fin k1_t1_loop.trips) (hk0 : k.val % 2 = 0) (hk1 : 1 ≤ k.val) (hk48 : k.val < 48)
    (hk1' : k.val + 1 < 50)
    (hcm2 : 4 * k.val - 2 < 200) (hcm1 : 4 * k.val - 1 < 200)
    (O : CellTallies nD τ sig (HIx 1)) (W W0 : Waits sig (HIx 1)) (hW0 : ∀ x ∈ W0, x ∈ W ∨ x.2 = none)
    (e : Buf (Elt F) ((eixV).view.loc (thr d L))) (p : Buf (Elt F) ((pixV).view.loc (thr d L)))
    (e' : Buf (Elt F) ((eixV).view.loc (thr d L))) (p' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK0 d L e p) (hSV0 : SlotVals0 A d L e p k.val k.isLt)
    (hE : ∀ j, (A.eid d j).toNat < 100000) (hP : ∀ j, (A.pid d j).toNat < 1000)
    (hk2' : k.val + 1 + 1 < 50) (hc0 : 4 * k.val < 200) (hc1 : 4 * k.val + 1 < 200) (hc2 : 4 * k.val + 2 < 200) (hc3 : 4 * k.val + 3 < 200) :
    iprop(Transfers.MayWaits (thr d L) (default : HIx 1) O
        ∗ flightE A d L 10 (hlf0 ebV) (lst eixV ![0, 0] linb_0_0) q1 fe0 e hL.1
        ∗ flightE A d L 11 (hlf1 ebV) (lst eixV ![0, 128] linb_0_128) q2 fe1 e hL.2.1
        ∗ flightP A d L 12 (hlf0 pbV) (lst pixV ![0, 0] linb_0_0) r1 fp0 p hL.2.2.1
        ∗ flightP A d L 13 (hlf1 pbV) (lst pixV ![0, 128] linb_0_128) r2 fp1 p hL.2.2.2
        ∗ teRest A d L q1 ∗ teRest A d L q2 ∗ shRest A d L r1 ∗ shRest A d L r2
        ∗ ((slot0 eixV).view.loc (thr d L)
              ↦[((slot0 eixV).view.set \ (lst eixV ![0, 0] linb_0_0).view.set) \ (lst eixV ![0, 128] linb_0_128).view.set]{fullShare} e)
        ∗ ((slot0 pixV).view.loc (thr d L)
              ↦[((slot0 pixV).view.set \ (lst pixV ![0, 0] linb_0_0).view.set) \ (lst pixV ![0, 128] linb_0_128).view.set]{fullShare} p)
        ∗ ((ebV).view.loc (thr d L) ↦[(Finset.univ \ (hlf0 ebV).view.set) \ (hlf1 ebV).view.set]{fullShare} feR)
        ∗ ((pbV).view.loc (thr d L) ↦[(Finset.univ \ (hlf0 pbV).view.set) \ (hlf1 pbV).view.set]{fullShare} fpR)
        ∗ idsBatch A d L (9 : DmaSem sig) (slot1 eixV) (slot1 pixV) qi (idsOff L (k.val + 1)) (idsInb L (k.val + 1) hk1') e' p'
            (idsPayAt d L eidV (A.eid d) (idsOff L (k.val + 1)) (idsInb L (k.val + 1) hk1')) (idsPayAt d L pidV (A.pid d) (idsOff L (k.val + 1)) (idsInb L (k.val + 1) hk1'))
        ∗ idsRest A d L qi (idsOff L (k.val + 1)) (idsInb L (k.val + 1) hk1')
        ∗ semVal (cellOf d L 8) 0
        ∗ chunkWin d L (k1_off13 L k 0#32) (k1_off13_inb L k 0) (A.out0 d)
        ∗ chunkWin d L (k1_off13 L k 1#32) (k1_off13_inb L k 1) (A.out0 d)
        ∗ chunkWin d L (k1_off13 L k 2#32) (k1_off13_inb L k 2) (A.out0 d)
        ∗ chunkWin d L (k1_off13 L k 3#32) (k1_off13_inb L k 3) (A.out0 d)
        ∗ flightO A d L 14 (hlf0 obV) (4 * k.val - 2) hcm2 fo0
        ∗ flightO A d L 15 (hlf1 obV) (4 * k.val - 1) hcm1 fo1
        ∗ ((obV).view.loc (thr d L) ↦[(Finset.univ \ (hlf0 obV).view.set) \ (hlf1 obV).view.set]{fullShare} foR)
        ∗ owes (thr d L) O W0)
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 k ())
            (fun _ => iprop(rest200 A d L k.val -∗ inv A d L q1 q2 r1 r2 qi O W (k.val + 1) PUnit.unit)) := by
  have hE2 := hin_e_0_256 A d L hE e p k.val k.isLt hSV0
  have hE3 := hin_e_0_384 A d L hE e p k.val k.isLt hSV0
  have hP2 := hin_p_0_256 A d L hP e p k.val k.isLt hSV0
  have hP3 := hin_p_0_384 A d L hP e p k.val k.isLt hSV0
  have hcond2 : k1_cond2 k = 1#1 := (cond2_iff k).mpr hk1
  have hcond9 : k1_cond9 k = 1#1 := (cond9_iff k).mpr hk48
  have hcond3 := cond3_true k
  have hcond4 : k1_cond4 k = 1#1 := (cond4_iff k).mpr hk1
  have hcond5 := cond5_true k
  have hcond6 := cond6_true k
  have hcond7 : k1_cond7 k = 1#1 := (cond7_iff k).mpr (by omega)
  have hcond8 := cond8_true k
  have hcond10 : k1_cond10 k = 1#1 := (cond10_iff k).mpr (by omega)
  have e14 : k1_off14 k = ![0, 256] := by rw [off14_eq, hk0]
  have e25 : k1_off25 k = ![0, 384] := by rw [off25_eq, hk0]
  have hk0' : (k.val + 1) % 2 = 1 := by omega
  have e36 : k1_off36 k = ![1, 0] := by rw [off36_eq, hk0']
  have e38 : k1_off38 k = ![1] := by rw [off38_eq, hk0']
  have e39 : k1_off39 k = ![1, 0] := by rw [off39_eq, hk0']
  have e42 : k1_off42 k = ![0, 0] := by rw [off42_eq, hk0]
  have e44 : k1_off44 k = ![0] := by rw [off44_eq, hk0]
  have e53 : k1_off53 k = ![1, 128] := by rw [off53_eq, hk0']
  letI : ClosedOff (k1_off14 k) := ⟨![0, 256], e14⟩
  letI : ClosedOff (k1_off25 k) := ⟨![0, 384], e25⟩
  letI : ClosedOff (k1_off36 k) := ⟨![1, 0], e36⟩
  letI : ClosedOff (k1_off38 k) := ⟨![1], e38⟩
  letI : ClosedOff (k1_off39 k) := ⟨![1, 0], e39⟩
  letI : ClosedOff (k1_off42 k) := ⟨![0, 0], e42⟩
  letI : ClosedOff (k1_off44 k) := ⟨![0], e44⟩
  letI : ClosedOff (k1_off53 k) := ⟨![1, 128], e53⟩
  have hinE2 : ∀ x, ((lst eixV (k1_off14 k) (k1_off14_inb k hcond3)).view.read (Elt F) e x).toNat < S100000x128.size gathers_S100000x128_S128x128.axis :=
    fun x => by rw [lst_read_congr d L eixV e14 _ linb_0_256]; exact hE2 x
  have hinP2 : ∀ x, ((lst pixV (k1_off14 k) (k1_off14_inb k hcond3)).view.read (Elt F) p x).toNat < S1000x128.size gathers_S1000x128_S128x128.axis :=
    fun x => by rw [lst_read_congr d L pixV e14 _ linb_0_256]; exact hP2 x
  have hinE3 : ∀ x, ((lst eixV (k1_off25 k) (k1_off25_inb k hcond5)).view.read (Elt F) e x).toNat < S100000x128.size gathers_S100000x128_S128x128.axis :=
    fun x => by rw [lst_read_congr d L eixV e25 _ linb_0_384]; exact hE3 x
  have hinP3 : ∀ x, ((lst pixV (k1_off25 k) (k1_off25_inb k hcond5)).view.read (Elt F) p x).toNat < S1000x128.size gathers_S1000x128_S128x128.axis :=
    fun x => by rw [lst_read_congr d L pixV e25 _ linb_0_384]; exact hP3 x
  have hs44 : isemAt (k1_off44 k) (k1_off44_inb k hcond9) = (8 : DmaSem sig) := (isemAt_congr e44 _ inb_S2_S1_0).trans isemAt_zero
  have hbo : Transfers.BatchOf (thr d L) (SemLoc.dma (isemAt (k1_off44 k) (k1_off44_inb k hcond9))) 2 := trivial
  unfold k1_t1_body
  unfold idsBatch idsRest
  iintro ⟨#Hmw, HE0, HE1, HP0, HP1, Hte1, Hte2, Hsh1, Hsh2, Heix, Hpix, Heb, Hpb, Hbat, ⟨Heidr, Hpidr⟩, Hs8, Hc0, Hc1, Hc2, Hc3, HO0, HO1, Hob, HO⟩
  sl_exec_parts
  -- the first chunk's sums
  ihave Heb2 := (join0_e (F := F) d L _ _) $$ [Heb HE0_dst]
  · isplitl [Heb] <;> iassumption
  ihave Hpb2 := (join0_p (F := F) d L _ _) $$ [Hpb HP0_dst]
  · isplitl [Hpb] <;> iassumption
  ihave Hob2 := (join0_o (F := F) d L _ _) $$ [Hob HO0_src]
  · isplitl [Hob] <;> iassumption
  iapply (Add.addLoop_sub0 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Heix2 := (Entails.of_eq (show (((slot0 eixV).view.loc (thr d L)
        ↦[((slot0 eixV).view.set \ (lst eixV ![0, 0] linb_0_0).view.set) \ (lst eixV ![0, 128] linb_0_128).view.set]{fullShare} e : sProp 𝕄))
      = ((eixV).view.loc (thr d L)
        ↦[((Finset.univ \ (slot1 eixV).view.set) \ (lst eixV ![0, 0] linb_0_0).view.set) \ (lst eixV ![0, 128] linb_0_128).view.set]{fullShare} e) from by
          rw [slot0_eq_compl_e])) $$ Heix
  ihave Hpix2 := (Entails.of_eq (show (((slot0 pixV).view.loc (thr d L)
        ↦[((slot0 pixV).view.set \ (lst pixV ![0, 0] linb_0_0).view.set) \ (lst pixV ![0, 128] linb_0_128).view.set]{fullShare} p : sProp 𝕄))
      = ((pixV).view.loc (thr d L)
        ↦[((Finset.univ \ (slot1 pixV).view.set) \ (lst pixV ![0, 0] linb_0_0).view.set) \ (lst pixV ![0, 128] linb_0_128).view.set]{fullShare} p) from by
          rw [slot0_eq_compl_p])) $$ Hpix
  sl_exec_parts
  -- the second chunk's sums
  ihave Heb2 := (join1_e_of (F := F) d L restA_e _ _) $$ [Heb HE1_dst]
  · isplitl [Heb] <;> iassumption
  ihave Hpb2 := (join1_p_of (F := F) d L restA_p _ _) $$ [Hpb HP1_dst]
  · isplitl [Hpb] <;> iassumption
  ihave Hob2 := (join1_o_of (F := F) d L restA_o _ _) $$ [Hob HO1_src]
  · isplitl [Hob] <;> iassumption
  iapply (Add.addLoop_sub1 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Heix3 := (Entails.of_eq (respell_e_0_128 (F := F) d L e)) $$ Heix2
  ihave Hpix3 := (Entails.of_eq (respell_p_0_128 (F := F) d L p)) $$ Hpix2
  sl_exec_parts
  -- the third chunk's sums
  ihave Heb2 := (join0_e_of (F := F) d L restB_e _ _) $$ [Heb Heb_2]
  · isplitl [Heb] <;> iassumption
  ihave Hpb2 := (join0_p_of (F := F) d L restB_p _ _) $$ [Hpb Hpb_2]
  · isplitl [Hpb] <;> iassumption
  ihave Hob2 := (join0_o_of (F := F) d L restB_o _ _) $$ [Hob Hob_2]
  · isplitl [Hob] <;> iassumption
  iapply (Add.addLoop_sub2 (F := F) d L v2 k _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  -- slot 0's leftovers put aside; the id batch's cell in the program's spelling
  ihave HeixA := (aside_intro (F := F) _) $$ Heix3
  ihave HpixA := (aside_intro (F := F) _) $$ Hpix3
  have hs38 : isemAt (k1_off38 k) (k1_off38_inb k hcond7) = (9 : DmaSem sig) := (isemAt_congr e38 _ inb_S2_S1_1).trans isemAt_one
  have hSV1 : SlotVals1 A d L
      ((slot1 eixV).view.writes (Elt F) e' [⟨Rect.whole S512, idsPayAt d L eidV (A.eid d) (idsOff L (k.val + 1)) (idsInb L (k.val + 1) hk1')⟩])
      ((slot1 pixV).view.writes (Elt F) p' [⟨Rect.whole S512, idsPayAt d L pidV (A.pid d) (idsOff L (k.val + 1)) (idsInb L (k.val + 1) hk1')⟩])
      (k.val + 1) hk1' := slotVals1_after A d L e' p' k.val hk1' _ _ ⟨rfl, rfl⟩
  have hinE10 : ∀ x, ((lst eixV (k1_off39 k) (k1_off39_inb k hcond7)).view.read (Elt F)
      ((slot1 eixV).view.writes (Elt F) e' [⟨Rect.whole S512, idsPayAt d L eidV (A.eid d) (idsOff L (k.val + 1)) (idsInb L (k.val + 1) hk1')⟩]) x).toNat
        < S100000x128.size gathers_S100000x128_S128x128.axis :=
    fun x => by rw [lst_read_congr d L eixV e39 _ linb_1_0]; exact hin_e_1_0 A d L hE _ _ (k.val + 1) hk1' hSV1 x
  have hinP10 : ∀ x, ((lst pixV (k1_off39 k) (k1_off39_inb k hcond7)).view.read (Elt F)
      ((slot1 pixV).view.writes (Elt F) p' [⟨Rect.whole S512, idsPayAt d L pidV (A.pid d) (idsOff L (k.val + 1)) (idsInb L (k.val + 1) hk1')⟩]) x).toNat
        < S1000x128.size gathers_S1000x128_S128x128.axis :=
    fun x => by rw [lst_read_congr d L pixV e39 _ linb_1_0]; exact hin_p_1_0 A d L hP _ _ (k.val + 1) hk1' hSV1 x
  have hinE11 : ∀ x, ((lst eixV (k1_off53 k) (k1_off53_inb k hcond10)).view.read (Elt F)
      ((slot1 eixV).view.writes (Elt F) e' [⟨Rect.whole S512, idsPayAt d L eidV (A.eid d) (idsOff L (k.val + 1)) (idsInb L (k.val + 1) hk1')⟩]) x).toNat
        < S100000x128.size gathers_S100000x128_S128x128.axis :=
    fun x => by rw [lst_read_congr d L eixV e53 _ linb_1_128]; exact hin_e_1_128 A d L hE _ _ (k.val + 1) hk1' hSV1 x
  have hinP11 : ∀ x, ((lst pixV (k1_off53 k) (k1_off53_inb k hcond10)).view.read (Elt F)
      ((slot1 pixV).view.writes (Elt F) p' [⟨Rect.whole S512, idsPayAt d L pidV (A.pid d) (idsOff L (k.val + 1)) (idsInb L (k.val + 1) hk1')⟩]) x).toNat
        < S1000x128.size gathers_S1000x128_S128x128.axis :=
    fun x => by rw [lst_read_congr d L pixV e53 _ linb_1_128]; exact hin_p_1_128 A d L hP _ _ (k.val + 1) hk1' hSV1 x
  ihave Hbat2 := (Entails.of_eq (show (Transfers.Batched countersEmb (thr d L) (SemLoc.dma (9 : DmaSem sig)) (default : HIx 1) 16384 2 _ 0 : sProp 𝕄)
      = Transfers.Batched countersEmb (thr d L) (SemLoc.dma (isemAt (k1_off38 k) (k1_off38_inb k hcond7))) (default : HIx 1) 16384 2 _ 0 from by rw [hs38])) $$ Hbat
  sl_exec_parts
  -- slot 1 as delivered, seen as the id scratch less slot 0
  ihave Heix4 := (Entails.of_eq (show (((slot1 eixV).view.loc (thr d L) ↦[(slot1 eixV).view.set]{fullShare} _ : sProp 𝕄))
      = ((eixV).view.loc (thr d L) ↦[Finset.univ \ (slot0 eixV).view.set]{fullShare} _) from by rw [slot1_eq_compl_e])) $$ Hbat2_dst0
  ihave Hpix4 := (Entails.of_eq (show (((slot1 pixV).view.loc (thr d L) ↦[(slot1 pixV).view.set]{fullShare} _ : sProp 𝕄))
      = ((pixV).view.loc (thr d L) ↦[Finset.univ \ (slot0 pixV).view.set]{fullShare} _) from by rw [slot1_eq_compl_p])) $$ Hbat2_dst1
  sl_exec_parts
  -- slot 0 whole again for the next ids; slot 1's holdings put aside meanwhile
  ihave HeixU := (aside_elim (F := F) _) $$ HeixA
  ihave HeixU2 := (Entails.of_eq (show (((eixV).view.loc (thr d L) ↦[((Finset.univ \ (slot1 eixV).view.set) \ (lst eixV ![0, 0] linb_0_0).view.set) \ (lst eixV (k1_off25 k) (k1_off25_inb k hcond5)).view.set]{fullShare} e : sProp 𝕄))
      = ((eixV).view.loc (thr d L) ↦[((Finset.univ \ (slot1 eixV).view.set) \ (lst eixV ![0, 0] linb_0_0).view.set) \ (lst eixV ![0, 384] linb_0_384).view.set]{fullShare} e) from by
        rw [lst_set_congr eixV e25 _ linb_0_384])) $$ HeixU
  ihave Heix3L := (Entails.of_eq (show (((eixV).view.loc (thr d L) ↦[(lst eixV (k1_off25 k) (k1_off25_inb k hcond5)).view.set]{fullShare} e : sProp 𝕄))
      = ((eixV).view.loc (thr d L) ↦[(lst eixV ![0, 384] linb_0_384).view.set]{fullShare} e) from by
        rw [lst_set_congr eixV e25 _ linb_0_384])) $$ Heix3
  ihave Hslot0e := (slot0_assemble_e (F := F) d L e) $$ [HeixU2 HE0_dst_and Heix3L]
  · isplitl [HeixU2]; · iexact HeixU2
    isplitl [HE0_dst_and]; · iexact HE0_dst_and
    iexact Heix3L
  ihave HpixU := (aside_elim (F := F) _) $$ HpixA
  ihave HpixU2 := (Entails.of_eq (show (((pixV).view.loc (thr d L) ↦[((Finset.univ \ (slot1 pixV).view.set) \ (lst pixV ![0, 0] linb_0_0).view.set) \ (lst pixV (k1_off25 k) (k1_off25_inb k hcond5)).view.set]{fullShare} p : sProp 𝕄))
      = ((pixV).view.loc (thr d L) ↦[((Finset.univ \ (slot1 pixV).view.set) \ (lst pixV ![0, 0] linb_0_0).view.set) \ (lst pixV ![0, 384] linb_0_384).view.set]{fullShare} p) from by
        rw [lst_set_congr pixV e25 _ linb_0_384])) $$ HpixU
  ihave Hpix3L := (Entails.of_eq (show (((pixV).view.loc (thr d L) ↦[(lst pixV (k1_off25 k) (k1_off25_inb k hcond5)).view.set]{fullShare} p : sProp 𝕄))
      = ((pixV).view.loc (thr d L) ↦[(lst pixV ![0, 384] linb_0_384).view.set]{fullShare} p) from by
        rw [lst_set_congr pixV e25 _ linb_0_384])) $$ Hpix3
  ihave Hslot0p := (slot0_assemble_p (F := F) d L p) $$ [HpixU2 HP0_dst_and Hpix3L]
  · isplitl [HpixU2]; · iexact HpixU2
    isplitl [HP0_dst_and]; · iexact HP0_dst_and
    iexact Hpix3L
  ihave Hslot0e' := (Entails.of_eq (slotPts_congr (F := F) d L eixV e42.symm inb_S2x512_S1x512_0_0 (k1_off42_inb k hcond9) e)) $$ Hslot0e
  ihave Hslot0p' := (Entails.of_eq (slotPts_congr (F := F) d L pixV e42.symm inb_S2x512_S1x512_0_0 (k1_off42_inb k hcond9) p)) $$ Hslot0p
  ihave Heix4A := (aside_intro (F := F) _) $$ Heix4
  ihave Hpix4A := (aside_intro (F := F) _) $$ Hpix4
  ihave Hs8' := (Entails.of_eq (show ((semVal (cellOf d L 8) 0 : sProp 𝕄)) = semVal (thr d L, SemLoc.dma (isemAt (k1_off44 k) (k1_off44_inb k hcond9))) 0 from by rw [hs44])) $$ Hs8
  sl_exec_parts
  -- the fourth chunk's sums
  ihave Heix4 := (aside_elim (F := F) _) $$ Heix4A
  ihave Hpix4 := (aside_elim (F := F) _) $$ Hpix4A
  ihave Heb2 := (join1_e_of (F := F) d L restA_e _ _) $$ [Heb Heb_2]
  · isplitl [Heb] <;> iassumption
  ihave Hpb2 := (join1_p_of (F := F) d L restA_p _ _) $$ [Hpb Hpb_2]
  · isplitl [Hpb] <;> iassumption
  ihave Hob2 := (join1_o_of (F := F) d L restA_o _ _) $$ [Hob Hob_2]
  · isplitl [Hob] <;> iassumption
  iapply (Add.addLoop_sub3 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  sl_exec_parts
  -- the trip's end: the pieces are the next trip's
  sl_step
  iintro Hrest
  have hL1 := listsOK1_of_slotVals A d L hE hP _ _ (k.val + 1) hk1' hSV1
  iapply (close_even A d L q1 q2 r1 r2 qi O W k.val hk0 hk1 hk1' hk2' hc0 hc1 hc2 hc3 hcm2 hcm1 _ _ e p _ _ _ _ _ _ _ _ _ hL1 hSV1 _ ?hW)
  swap
  unfold evenPost
  isplitr; · iexact Hmw
  isplitl [HE0]
  · iapply (ev_flightE_off A d L 10 (hlf0 ebV) e39 (k1_off39_inb k hcond7) linb_1_0 q1 _ _ hinE10 hL1.1); iexact HE0
  isplitl [HE1]
  · iapply (ev_flightE_off A d L 11 (hlf1 ebV) e53 (k1_off53_inb k hcond10) linb_1_128 q2 _ _ hinE11 hL1.2.1); iexact HE1
  isplitl [HP0]
  · iapply (ev_flightP_off A d L 12 (hlf0 pbV) e39 (k1_off39_inb k hcond7) linb_1_0 r1 _ _ hinP10 hL1.2.2.1); iexact HP0
  isplitl [HP1]
  · iapply (ev_flightP_off A d L 13 (hlf1 pbV) e53 (k1_off53_inb k hcond10) linb_1_128 r2 _ _ hinP11 hL1.2.2.2); iexact HP1
  isplitl [Hte1]; · iexact Hte1
  isplitl [Hte2]; · iexact Hte2
  isplitl [Hsh1]; · iexact Hsh1
  isplitl [Hsh2]; · iexact Hsh2
  isplitl [Heix4]
  · rw [slot1_eq_compl_e, ← lst_set_congr eixV e39 (k1_off39_inb k hcond7) linb_1_0, ← lst_set_congr eixV e53 (k1_off53_inb k hcond10) linb_1_128]
    iexact Heix4
  isplitl [Hpix4]
  · rw [slot1_eq_compl_p, ← lst_set_congr pixV e39 (k1_off39_inb k hcond7) linb_1_0, ← lst_set_congr pixV e53 (k1_off53_inb k hcond10) linb_1_128]
    iexact Hpix4
  isplitl [Heb]; · rw [← restB_e]; iexact Heb
  isplitl [Hpb]; · rw [← restB_p]; iexact Hpb
  isplitl [Hs8']
  · rw [← idsPayAt_congr d L eidV (A.eid d) (ev_off43 L k) (k1_off43_inb L k hcond9) (idsInb L (k.val + 1 + 1) hk2'),
      ← idsPayAt_congr d L pidV (A.pid d) (ev_off43 L k) (k1_off43_inb L k hcond9) (idsInb L (k.val + 1 + 1) hk2'),
      ← ev_batch_congr A d L qi hs44 e42 (k1_off42_inb k hcond9) inb_S2x512_S1x512_0_0 (ev_off43 L k) (k1_off43_inb L k hcond9) (idsInb L (k.val + 1 + 1) hk2')]
    iexact Hs8'
  isplitl [Heidr Hpidr]
  · rw [← idsRest_congr A d L qi (ev_off43 L k) (k1_off43_inb L k hcond9) (idsInb L (k.val + 1 + 1) hk2')]
    unfold idsRest
    isplitl [Heidr]; · iexact Heidr
    iexact Hpidr
  isplitl [Hbat2]
  · iapply (Entails.of_eq (show (semVal (thr d L, SemLoc.dma (isemAt (k1_off38 k) (k1_off38_inb k hcond7))) 0 : sProp 𝕄) = semVal (cellOf d L 9) 0 from by rw [hs38]))
    iexact Hbat2
  isplitl [HO0_dst]; · rw [chunkPt_eq]; iexact HO0_dst
  isplitl [HO1_dst]; · rw [chunkPt_eq]; iexact HO1_dst
  isplitl [Hc0]
  · iapply (Entails.of_eq (chunk_delivered0 A d L (4 * k.val) hc0 (k1_off13 L k 0#32) (k1_off13_inb L k 0) (ev_off13 L k 0) _ _ _ _ _
        ((lst eixV ![0, 0] linb_0_0).view.read (Elt F) e) ((lst pixV ![0, 0] linb_0_0).view.read (Elt F) p) hL.1 hL.2.2.1 rfl
        ((read_piecewise_hlf0 d L ebV _ _).trans (read_write_hlf0 d L ebV _ _)) ((read_piecewise_hlf0 d L pbV _ _).trans (read_write_hlf0 d L pbV _ _))
        (ids_e_0_0 A d L e p k.val k.isLt hSV0) (ids_p_0_0 A d L e p k.val k.isLt hSV0)))
    iexact Hc0
  isplitl [Hc1]
  · iapply (Entails.of_eq (chunk_delivered1 A d L (4 * k.val + 1) hc1 (k1_off13 L k 1#32) (k1_off13_inb L k 1) (ev_off13 L k 1) _ _ _ _ _
        ((lst eixV ![0, 128] linb_0_128).view.read (Elt F) e) ((lst pixV ![0, 128] linb_0_128).view.read (Elt F) p) hL.2.1 hL.2.2.2 rfl
        ((read_piecewise_hlf1 d L ebV _ _).trans (read_write_hlf1 d L ebV _ _)) ((read_piecewise_hlf1 d L pbV _ _).trans (read_write_hlf1 d L pbV _ _))
        (ids_e_0_128 A d L e p k.val k.isLt hSV0) (ids_p_0_128 A d L e p k.val k.isLt hSV0)))
    iexact Hc1
  isplitl [HO0]
  · iapply (Entails.of_eq (flight_delivered0 A d L 14 (4 * k.val + 2) hc2 (k1_off13 L k 2#32) (k1_off13_inb L k 2) (ev_off13 L k 2) _ _ _ _ _
        ((lst eixV (k1_off14 k) (k1_off14_inb k hcond3)).view.read (Elt F) e) ((lst pixV (k1_off14 k) (k1_off14_inb k hcond3)).view.read (Elt F) p) hinE2 hinP2 rfl
        ((read_piecewise_hlf0 d L ebV _ _).trans (read_write_hlf0 d L ebV _ _)) ((read_piecewise_hlf0 d L pbV _ _).trans (read_write_hlf0 d L pbV _ _))
        (fun x => by rw [lst_read_congr d L eixV e14 _ linb_0_256]; exact ids_e_0_256 A d L e p k.val k.isLt hSV0 x)
        (fun x => by rw [lst_read_congr d L pixV e14 _ linb_0_256]; exact ids_p_0_256 A d L e p k.val k.isLt hSV0 x)))
    iexact HO0
  isplitl [HO1]
  · iapply (Entails.of_eq (flight_delivered1 A d L 15 (4 * k.val + 3) hc3 (k1_off13 L k 3#32) (k1_off13_inb L k 3) (ev_off13 L k 3) _ _ _ _ _
        ((lst eixV (k1_off25 k) (k1_off25_inb k hcond5)).view.read (Elt F) e) ((lst pixV (k1_off25 k) (k1_off25_inb k hcond5)).view.read (Elt F) p) hinE3 hinP3 rfl
        ((read_piecewise_hlf1 d L ebV _ _).trans (read_write_hlf1 d L ebV _ _)) ((read_piecewise_hlf1 d L pbV _ _).trans (read_write_hlf1 d L pbV _ _))
        (fun x => by rw [lst_read_congr d L eixV e25 _ linb_0_384]; exact ids_e_0_384 A d L e p k.val k.isLt hSV0 x)
        (fun x => by rw [lst_read_congr d L pixV e25 _ linb_0_384]; exact ids_p_0_384 A d L e p k.val k.isLt hSV0 x)))
    iexact HO1
  isplitl [Hob]; · rw [← restB_o]; iexact Hob
  isplitl [Hrest]; · iexact Hrest
  iexact HO
  case hW => repeat (first | exact hW0 | refine ev_W_ins _ rfl ?_)

omit [FloatOps F] in
/-- A chunk window of the result held whole: through the program's offset or as chunk `n`. -/
theorem ev_chunk_congr (n : ℕ) (hn : n < 200) (off : Fin 2 → ℕ) (hoff : ∀ a, off a + S128x128.size a ≤ S819200x128.size a)
    (eoff : off = chunkOff L n) (f : Buf (Elt F) ((outV).view.loc (thr d L))) :
    chunkPt d L n hn f = chunkWin d L off hoff f := by
  subst eoff; rfl

set_option maxHeartbeats 4000000 in
/-- An even trip 2 ≤ k ≤ 46 of the tile's loop. -/
theorem trip_even (hE : ∀ j, (A.eid d j).toNat < 100000) (hP : ∀ j, (A.pid d j).toNat < 1000) (v2 : BitVec 32)
    (O : CellTallies nD τ sig (HIx 1)) (W : Waits sig (HIx 1))
    (k : ℕ) (hk : k < 50) (hk0 : k % 2 = 0) (hk1 : 1 ≤ k) (hk48 : k < 48) :
    inv A d L q1 q2 r1 r2 qi O W k PUnit.unit
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 ⟨k, hk⟩ ())
          (fun _ => inv A d L q1 q2 r1 r2 qi O W (k + 1) PUnit.unit) := by
  have hk1' : k + 1 < 50 := by omega
  have hk2' : k + 1 + 1 < 50 := by omega
  have hc0 : 4 * k < 200 := by omega
  have hc1 : 4 * k + 1 < 200 := by omega
  have hc2 : 4 * k + 2 < 200 := by omega
  have hc3 : 4 * k + 3 < 200 := by omega
  have hcm2 : 4 * k - 2 < 200 := by omega
  have hcm1 : 4 * k - 1 < 200 := by omega
  refine (open_even A d L q1 q2 r1 r2 qi O W k hk0 hk1 hk hk1' hc0 hc1 hc2 hc3 hcm2 hcm1).trans ?_
  iintro ⟨%e, %p, %e', %p', %fe0, %fe1, %fp0, %fp1, %fo0, %fo1, %feR, %fpR, %foR, %hL, %W', %hpure, Hpre⟩
  unfold evenPre
  icases Hpre with ⟨Hmw, HE0, HE1, HP0, HP1, Hte1, Hte2, Hsh1, Hsh2, Heix, Hpix, Heb, Hpb, Hbat, Hidr, Hs8, Hc0, Hc1, Hc2, Hc3, HO0, HO1, Hob, Hrest, HO⟩
  iapply (wp_wand_r frame (wpE (defs₀ (F := F)) 𝒱₀ (thr d L) none) Set.univ)
  isplitr [Hrest]
  · iapply (trip_even_core A d L q1 q2 r1 r2 qi v2 ⟨k, hk⟩ hk0 hk1 hk48 hk1' hcm2 hcm1 O W W' hpure.2 e p e' p' fe0 fe1 fp0 fp1 fo0 fo1 feR fpR foR hL.down hpure.1 hE hP hk2' hc0 hc1 hc2 hc3)
    isplitl [Hmw]; · iexact Hmw
    isplitl [HE0]; · iexact HE0
    isplitl [HE1]; · iexact HE1
    isplitl [HP0]; · iexact HP0
    isplitl [HP1]; · iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexact Heb
    isplitl [Hpb]; · iexact Hpb
    isplitl [Hbat]; · iexact Hbat
    isplitl [Hidr]; · iexact Hidr
    isplitl [Hs8]; · iexact Hs8
    isplitl [Hc0]
    · iapply (Entails.of_eq (ev_chunk_congr d L (4 * k) hc0 (k1_off13 L ⟨k, hk⟩ 0#32) (k1_off13_inb L ⟨k, hk⟩ 0) (ev_off13 L ⟨k, hk⟩ 0) _)); iexact Hc0
    isplitl [Hc1]
    · iapply (Entails.of_eq (ev_chunk_congr d L (4 * k + 1) hc1 (k1_off13 L ⟨k, hk⟩ 1#32) (k1_off13_inb L ⟨k, hk⟩ 1) (ev_off13 L ⟨k, hk⟩ 1) _)); iexact Hc1
    isplitl [Hc2]
    · iapply (Entails.of_eq (ev_chunk_congr d L (4 * k + 2) hc2 (k1_off13 L ⟨k, hk⟩ 2#32) (k1_off13_inb L ⟨k, hk⟩ 2) (ev_off13 L ⟨k, hk⟩ 2) _)); iexact Hc2
    isplitl [Hc3]
    · iapply (Entails.of_eq (ev_chunk_congr d L (4 * k + 3) hc3 (k1_off13 L ⟨k, hk⟩ 3#32) (k1_off13_inb L ⟨k, hk⟩ 3) (ev_off13 L ⟨k, hk⟩ 3) _)); iexact Hc3
    isplitl [HO0]; · iexact HO0
    isplitl [HO1]; · iexact HO1
    isplitl [Hob]; · iexact Hob
    iexact HO
  · iintro %_ Hw
    iapply Hw
    iexact Hrest

end Cert.Kernel.Run.Sc

end
-- ==== Proof.ScTripFoldEdgeBits.lean ====
/-
  The two ends of the loop's edge trips: the first (nothing in flight out of the sum buffer yet), the last even one (it
  fetches no further ids) and the last (it starts no further gathers).
-/
import proofs.«204385_g66649302499670_cont_9to1c4b_43_34_alg».proof.Proof.ScTripFoldBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F] (A : Vals F) (d : Dev nD) (L : grid1.Coords)

variable (q1 q2 r1 r2 qi : PosShare TreeShare)

/-! ## The first trip -/

/-- What the first trip's run starts from: as an even trip's, with nothing in flight out of the sum buffer yet. -/
def zeroPre (O : CellTallies nD τ sig (HIx 1)) (h01 : 0 + 1 < 50) (h0 : 0 < 200) (h1 : 1 < 200) (h2 : 2 < 200) (h3 : 3 < 200) (e : Buf (Elt F) ((eixV).view.loc (thr d L))) (p : Buf (Elt F) ((pixV).view.loc (thr d L))) (e' : Buf (Elt F) ((eixV).view.loc (thr d L))) (p' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (feR : Buf (Elt F) ((ebV).view.loc (thr d L))) (fpR : Buf (Elt F) ((pbV).view.loc (thr d L))) (foW : Buf (Elt F) ((obV).view.loc (thr d L))) (hL : ListsOK0 d L e p) (W' : Waits sig (HIx 1)) : sProp 𝕄 :=
  iprop(Transfers.MayWaits (thr d L) (default : HIx 1) O
    ∗ flightE A d L 10 (hlf0 ebV) (lst eixV ![0, 0] linb_0_0) q1 fe0 e hL.1
    ∗ flightE A d L 11 (hlf1 ebV) (lst eixV ![0, 128] linb_0_128) q2 fe1 e hL.2.1
    ∗ flightP A d L 12 (hlf0 pbV) (lst pixV ![0, 0] linb_0_0) r1 fp0 p hL.2.2.1
    ∗ flightP A d L 13 (hlf1 pbV) (lst pixV ![0, 128] linb_0_128) r2 fp1 p hL.2.2.2
    ∗ teRest A d L q1
    ∗ teRest A d L q2
    ∗ shRest A d L r1
    ∗ shRest A d L r2
    ∗ ((slot0 eixV).view.loc (thr d L) ↦[((slot0 eixV).view.set \ (lst eixV ![0, 0] linb_0_0).view.set) \ (lst eixV ![0, 128] linb_0_128).view.set]{fullShare} e)
    ∗ ((slot0 pixV).view.loc (thr d L) ↦[((slot0 pixV).view.set \ (lst pixV ![0, 0] linb_0_0).view.set) \ (lst pixV ![0, 128] linb_0_128).view.set]{fullShare} p)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ idsBatch A d L (9 : DmaSem sig) (slot1 eixV) (slot1 pixV) qi (idsOff L (0 + 1)) (idsInb L (0 + 1) h01) e' p'
        (idsPayAt d L eidV (A.eid d) (idsOff L (0 + 1)) (idsInb L (0 + 1) h01)) (idsPayAt d L pidV (A.pid d) (idsOff L (0 + 1)) (idsInb L (0 + 1) h01))
    ∗ idsRest A d L qi (idsOff L (0 + 1)) (idsInb L (0 + 1) h01)
    ∗ semVal (cellOf d L 8) 0
    ∗ chunkPt d L 0 h0 (A.out0 d)
    ∗ chunkPt d L 1 h1 (A.out0 d)
    ∗ chunkPt d L 2 h2 (A.out0 d)
    ∗ chunkPt d L 3 h3 (A.out0 d)
    ∗ ((obV).view.loc (thr d L) ↦{fullShare} foW)
    ∗ semVal (cellOf d L 14) 0
    ∗ semVal (cellOf d L 15) 0
    ∗ rest200 A d L 0
    ∗ owes (thr d L) O W')

set_option maxHeartbeats 1000000 in
/-- OPENING the first trip. -/
theorem open_zero (O : CellTallies nD τ sig (HIx 1)) (W : Waits sig (HIx 1)) (h050 : 0 < 50) (h01 : 0 + 1 < 50) (h0 : 0 < 200) (h1 : 1 < 200) (h2 : 2 < 200) (h3 : 3 < 200) :
    inv A d L q1 q2 r1 r2 qi O W 0 PUnit.unit
      ⊢ iprop(∃ (e : Buf (Elt F) ((eixV).view.loc (thr d L))) (p : Buf (Elt F) ((pixV).view.loc (thr d L))) (e' : Buf (Elt F) ((eixV).view.loc (thr d L))) (p' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (feR : Buf (Elt F) ((ebV).view.loc (thr d L))) (fpR : Buf (Elt F) ((pbV).view.loc (thr d L))) (foW : Buf (Elt F) ((obV).view.loc (thr d L)))
          (hL : PLift (ListsOK0 d L e p)) (W' : Waits sig (HIx 1)),
          ⌜SlotVals0 A d L e p 0 h050 ∧ ∀ x ∈ W', x ∈ W ∨ x.2 = none⌝
          ∗ zeroPre A d L q1 q2 r1 r2 qi O h01 h0 h1 h2 h3 e p e' p' fe0 fe1 fp0 fp1 feR fpR foW hL.down W') := by
  unfold inv gatherPart idsPart
  rw [if_pos (show (0 : ℕ) % 2 = 0 from rfl), if_pos (show (0 : ℕ) % 2 = 0 from rfl)]
  unfold gatherPart0 idsPart1
  rw [dif_pos h050, dif_pos h01, outPart_chunks, dif_neg (show ¬ (1 ≤ 0 ∧ 0 ≤ 50) by decide), chunks_open0]
  unfold zeroPre
  iintro ⟨#Hmw, ⟨%e, %p, %hL, %hSV, ⟨%fe0, HE0⟩, ⟨%fe1, HE1⟩, ⟨%fp0, HP0⟩, ⟨%fp1, HP1⟩, Hte1, Hte2, Hsh1, Hsh2, Heix, Hpix, ⟨%feR, Heb⟩, ⟨%fpR, Hpb⟩⟩,
    ⟨%e', %p', Hbat, Hrest, Hsid⟩, ⟨⟨Hr200, Hc0, Hc1, Hc2, Hc3⟩, ⟨%foW, Hob⟩, Hs14, Hs15⟩, ⟨%W', %hW', HO⟩⟩
  iexists e, p, e', p', fe0, fe1, fp0, fp1, feR, fpR, foW, hL, W'
  isplitr; · ipureintro; exact ⟨hSV, hW'⟩
  isplitr; · iexact Hmw
  isplitl [HE0]; · iexact HE0
  isplitl [HE1]; · iexact HE1
  isplitl [HP0]; · iexact HP0
  isplitl [HP1]; · iexact HP1
  isplitl [Hte1]; · iexact Hte1
  isplitl [Hte2]; · iexact Hte2
  isplitl [Hsh1]; · iexact Hsh1
  isplitl [Hsh2]; · iexact Hsh2
  isplitl [Heix]; · iexact Heix
  isplitl [Hpix]; · iexact Hpix
  isplitl [Heb]; · iexact Heb
  isplitl [Hpb]; · iexact Hpb
  isplitl [Hbat]; · iexact Hbat
  isplitl [Hrest]; · iexact Hrest
  isplitl [Hsid]; · iexact Hsid
  isplitl [Hc0]; · iexact Hc0
  isplitl [Hc1]; · iexact Hc1
  isplitl [Hc2]; · iexact Hc2
  isplitl [Hc3]; · iexact Hc3
  isplitl [Hob]; · iexact Hob
  isplitl [Hs14]; · iexact Hs14
  isplitl [Hs15]; · iexact Hs15
  isplitl [Hr200]; · iexact Hr200
  iexact HO

/-- What the first trip's run ends with: as an even trip's, without the two chunks a later trip's drains hand back. -/
def zeroPost (O : CellTallies nD τ sig (HIx 1)) (h02 : 0 + 1 + 1 < 50) (h0 : 0 < 200) (h1 : 1 < 200) (h2 : 2 < 200) (h3 : 3 < 200) (e1 : Buf (Elt F) ((eixV).view.loc (thr d L))) (p1 : Buf (Elt F) ((pixV).view.loc (thr d L))) (e'' : Buf (Elt F) ((eixV).view.loc (thr d L))) (p'' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L))) (hL : ListsOK1 d L e1 p1) (W' : Waits sig (HIx 1)) : sProp 𝕄 :=
  iprop(Transfers.MayWaits (thr d L) (default : HIx 1) O
    ∗ flightE A d L 10 (hlf0 ebV) (lst eixV ![1, 0] linb_1_0) q1 fe0 e1 hL.1
    ∗ flightE A d L 11 (hlf1 ebV) (lst eixV ![1, 128] linb_1_128) q2 fe1 e1 hL.2.1
    ∗ flightP A d L 12 (hlf0 pbV) (lst pixV ![1, 0] linb_1_0) r1 fp0 p1 hL.2.2.1
    ∗ flightP A d L 13 (hlf1 pbV) (lst pixV ![1, 128] linb_1_128) r2 fp1 p1 hL.2.2.2
    ∗ teRest A d L q1
    ∗ teRest A d L q2
    ∗ shRest A d L r1
    ∗ shRest A d L r2
    ∗ ((slot1 eixV).view.loc (thr d L) ↦[((slot1 eixV).view.set \ (lst eixV ![1, 0] linb_1_0).view.set) \ (lst eixV ![1, 128] linb_1_128).view.set]{fullShare} e1)
    ∗ ((slot1 pixV).view.loc (thr d L) ↦[((slot1 pixV).view.set \ (lst pixV ![1, 0] linb_1_0).view.set) \ (lst pixV ![1, 128] linb_1_128).view.set]{fullShare} p1)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ idsBatch A d L (8 : DmaSem sig) (slot0 eixV) (slot0 pixV) qi (idsOff L (0 + 1 + 1)) (idsInb L (0 + 1 + 1) h02) e'' p''
        (idsPayAt d L eidV (A.eid d) (idsOff L (0 + 1 + 1)) (idsInb L (0 + 1 + 1) h02)) (idsPayAt d L pidV (A.pid d) (idsOff L (0 + 1 + 1)) (idsInb L (0 + 1 + 1) h02))
    ∗ idsRest A d L qi (idsOff L (0 + 1 + 1)) (idsInb L (0 + 1 + 1) h02)
    ∗ semVal (cellOf d L 9) 0
    ∗ chunkPt d L 0 h0 (outFin A d)
    ∗ chunkPt d L 1 h1 (outFin A d)
    ∗ flightO A d L 14 (hlf0 obV) 2 h2 fo0
    ∗ flightO A d L 15 (hlf1 obV) 3 h3 fo1
    ∗ ((obV).view.loc (thr d L) ↦[(Finset.univ \ (hlf0 obV).view.set) \ (hlf1 obV).view.set]{fullShare} foR)
    ∗ rest200 A d L 0
    ∗ owes (thr d L) O W')

set_option maxHeartbeats 1000000 in
/-- CLOSING the first trip. -/
theorem close_zero (O : CellTallies nD τ sig (HIx 1)) (W : Waits sig (HIx 1)) (h150 : 1 < 50) (h02 : 0 + 1 + 1 < 50) (h0 : 0 < 200) (h1 : 1 < 200) (h2 : 2 < 200) (h3 : 3 < 200)
    (e1 : Buf (Elt F) ((eixV).view.loc (thr d L))) (p1 : Buf (Elt F) ((pixV).view.loc (thr d L))) (e'' : Buf (Elt F) ((eixV).view.loc (thr d L))) (p'' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L)))
    (hL : ListsOK1 d L e1 p1) (hSV : SlotVals1 A d L e1 p1 1 h150) (W' : Waits sig (HIx 1)) (hW' : ∀ x ∈ W', x ∈ W ∨ x.2 = none) :
    zeroPost A d L q1 q2 r1 r2 qi O h02 h0 h1 h2 h3 e1 p1 e'' p'' fe0 fe1 fp0 fp1 fo0 fo1 feR fpR foR hL W'
      ⊢ inv A d L q1 q2 r1 r2 qi O W 1 PUnit.unit := by
  unfold inv gatherPart idsPart
  rw [if_neg (show ¬ (1 : ℕ) % 2 = 0 by decide), if_neg (show ¬ (1 : ℕ) % 2 = 0 by decide)]
  unfold gatherPart1 idsPart0
  rw [dif_pos h150, dif_pos (show 1 + 1 < 50 from h02), outPart_chunks, dif_pos (show 1 ≤ 1 ∧ 1 ≤ 50 by decide), chunks_close0]
  unfold zeroPost
  iintro ⟨#Hmw, HE0, HE1, HP0, HP1, Hte1, Hte2, Hsh1, Hsh2, Heix, Hpix, Heb, Hpb, Hbat, Hrest, Hsid, Hc0, Hc1, HO0, HO1, Hob, Hr200, HO⟩
  isplitr; · iexact Hmw
  isplitl [HE0 HE1 HP0 HP1 Hte1 Hte2 Hsh1 Hsh2 Heix Hpix Heb Hpb]
  · iexists e1, p1, ⟨hL⟩
    isplitr; · ipureintro; exact hSV
    isplitl [HE0]; · iexists fe0; iexact HE0
    isplitl [HE1]; · iexists fe1; iexact HE1
    isplitl [HP0]; · iexists fp0; iexact HP0
    isplitl [HP1]; · iexists fp1; iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexists feR; iexact Heb
    iexists fpR; iexact Hpb
  isplitl [Hbat Hrest Hsid]
  · iexists e'', p''
    isplitl [Hbat]; · iexact Hbat
    isplitl [Hrest]; · iexact Hrest
    iexact Hsid
  isplitl [Hc0 Hc1 HO0 HO1 Hob Hr200]
  · isplitl [Hc0 Hc1 Hr200]
    · isplitl [Hr200]; · iexact Hr200
      isplitl [Hc0]; · iexact Hc0
      iexact Hc1
    isplitl [HO0]; · iexists fo0; iexact HO0
    isplitl [HO1]; · iexists fo1; iexact HO1
    iexists foR; iexact Hob
  iexists W'
  isplitr; · ipureintro; exact hW'
  iexact HO

/-! ## The last even trip: no further ids are fetched -/

/-- What the last even trip's run ends with: as an even trip's, with both id arrays' shares whole, slot 0 of the id
    scratches whole and both id cells at rest. -/
def lastEvenPost (O : CellTallies nD τ sig (HIx 1)) (k : ℕ) (hc0 : 4 * k < 200) (hc1 : 4 * k + 1 < 200) (hc2 : 4 * k + 2 < 200) (hc3 : 4 * k + 3 < 200) (hcm2 : 4 * k - 2 < 200) (hcm1 : 4 * k - 1 < 200)
    (e1 : Buf (Elt F) ((eixV).view.loc (thr d L))) (p1 : Buf (Elt F) ((pixV).view.loc (thr d L))) (e'' : Buf (Elt F) ((eixV).view.loc (thr d L))) (p'' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L))) (hL : ListsOK1 d L e1 p1) (W' : Waits sig (HIx 1)) : sProp 𝕄 :=
  iprop(Transfers.MayWaits (thr d L) (default : HIx 1) O
    ∗ flightE A d L 10 (hlf0 ebV) (lst eixV ![1, 0] linb_1_0) q1 fe0 e1 hL.1
    ∗ flightE A d L 11 (hlf1 ebV) (lst eixV ![1, 128] linb_1_128) q2 fe1 e1 hL.2.1
    ∗ flightP A d L 12 (hlf0 pbV) (lst pixV ![1, 0] linb_1_0) r1 fp0 p1 hL.2.2.1
    ∗ flightP A d L 13 (hlf1 pbV) (lst pixV ![1, 128] linb_1_128) r2 fp1 p1 hL.2.2.2
    ∗ teRest A d L q1
    ∗ teRest A d L q2
    ∗ shRest A d L r1
    ∗ shRest A d L r2
    ∗ ((slot1 eixV).view.loc (thr d L) ↦[((slot1 eixV).view.set \ (lst eixV ![1, 0] linb_1_0).view.set) \ (lst eixV ![1, 128] linb_1_128).view.set]{fullShare} e1)
    ∗ ((slot1 pixV).view.loc (thr d L) ↦[((slot1 pixV).view.set \ (lst pixV ![1, 0] linb_1_0).view.set) \ (lst pixV ![1, 128] linb_1_128).view.set]{fullShare} p1)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ ((eidV).view.loc (thr d L) ↦{qi} A.eid d)
    ∗ ((pidV).view.loc (thr d L) ↦{qi} A.pid d)
    ∗ ((slot0 eixV).view.loc (thr d L) ↦[(slot0 eixV).view.set]{fullShare} e'')
    ∗ ((slot0 pixV).view.loc (thr d L) ↦[(slot0 pixV).view.set]{fullShare} p'')
    ∗ semVal (cellOf d L 8) 0
    ∗ semVal (cellOf d L 9) 0
    ∗ chunkPt d L (4 * k - 2) hcm2 (outFin A d)
    ∗ chunkPt d L (4 * k - 1) hcm1 (outFin A d)
    ∗ chunkPt d L (4 * k) hc0 (outFin A d)
    ∗ chunkPt d L (4 * k + 1) hc1 (outFin A d)
    ∗ flightO A d L 14 (hlf0 obV) (4 * k + 2) hc2 fo0
    ∗ flightO A d L 15 (hlf1 obV) (4 * k + 3) hc3 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- CLOSING the last even trip. -/
theorem close_lastEven (O : CellTallies nD τ sig (HIx 1)) (W : Waits sig (HIx 1)) (k : ℕ) (hk0 : k % 2 = 0) (hk1 : 1 ≤ k) (hk50 : k + 1 < 50) (hlast : ¬ k + 1 + 1 < 50) (hc0 : 4 * k < 200) (hc1 : 4 * k + 1 < 200) (hc2 : 4 * k + 2 < 200) (hc3 : 4 * k + 3 < 200) (hcm2 : 4 * k - 2 < 200) (hcm1 : 4 * k - 1 < 200)
    (e1 : Buf (Elt F) ((eixV).view.loc (thr d L))) (p1 : Buf (Elt F) ((pixV).view.loc (thr d L))) (e'' : Buf (Elt F) ((eixV).view.loc (thr d L))) (p'' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L))) (hL : ListsOK1 d L e1 p1) (hSV : SlotVals1 A d L e1 p1 (k + 1) hk50) (W' : Waits sig (HIx 1)) (hW' : ∀ x ∈ W', x ∈ W ∨ x.2 = none) :
    lastEvenPost A d L q1 q2 r1 r2 qi O k hc0 hc1 hc2 hc3 hcm2 hcm1 e1 p1 e'' p'' fe0 fe1 fp0 fp1 fo0 fo1 feR fpR foR hL W'
      ⊢ inv A d L q1 q2 r1 r2 qi O W (k + 1) PUnit.unit := by
  unfold inv gatherPart idsPart
  rw [if_neg (show ¬ (k + 1) % 2 = 0 by omega), if_neg (show ¬ (k + 1) % 2 = 0 by omega)]
  unfold gatherPart1 idsPart0
  rw [dif_pos hk50, dif_neg hlast, outPart_chunks, dif_pos (⟨by omega, by omega⟩ : 1 ≤ k + 1 ∧ k + 1 ≤ 50),
    chunks_close A d L k hk1 hcm2 hcm1 hc0 hc1 hc3,
    exFlightO_congr A d L 14 (hlf0 obV) (show 4 * (k + 1) - 2 = 4 * k + 2 by omega) _ hc2,
    exFlightO_congr A d L 15 (hlf1 obV) (show 4 * (k + 1) - 1 = 4 * k + 3 by omega) _ hc3]
  unfold lastEvenPost
  iintro ⟨#Hmw, HE0, HE1, HP0, HP1, Hte1, Hte2, Hsh1, Hsh2, Heix, Hpix, Heb, Hpb, Heid, Hpid, Hs2x, Hs2p, Hs8, Hs9, Hm2, Hm1, Hc0, Hc1, HO0, HO1, Hob, Hr200, HO⟩
  isplitr; · iexact Hmw
  isplitl [HE0 HE1 HP0 HP1 Hte1 Hte2 Hsh1 Hsh2 Heix Hpix Heb Hpb]
  · iexists e1, p1, ⟨hL⟩
    isplitr; · ipureintro; exact hSV
    isplitl [HE0]; · iexists fe0; iexact HE0
    isplitl [HE1]; · iexists fe1; iexact HE1
    isplitl [HP0]; · iexists fp0; iexact HP0
    isplitl [HP1]; · iexists fp1; iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexists feR; iexact Heb
    iexists fpR; iexact Hpb
  isplitl [Heid Hpid Hs2x Hs2p Hs8 Hs9]
  · isplitl [Heid]; · iexact Heid
    isplitl [Hpid]; · iexact Hpid
    isplitl [Hs2x]; · iexists e''; iexact Hs2x
    isplitl [Hs2p]; · iexists p''; iexact Hs2p
    isplitl [Hs8]; · iexact Hs8
    iexact Hs9
  isplitl [Hm2 Hm1 Hc0 Hc1 HO0 HO1 Hob Hr200]
  · isplitl [Hm2 Hm1 Hc0 Hc1 Hr200]
    · isplitl [Hr200]; · iexact Hr200
      isplitl [Hm2]; · iexact Hm2
      isplitl [Hm1]; · iexact Hm1
      isplitl [Hc0]; · iexact Hc0
      iexact Hc1
    isplitl [HO0]; · iexists fo0; iexact HO0
    isplitl [HO1]; · iexists fo1; iexact HO1
    iexists foR; iexact Hob
  iexists W'
  isplitr; · ipureintro; exact hW'
  iexact HO

/-! ## The last trip: no further ids to wait for, no further gathers -/

/-- What the last trip's run starts from: as an odd trip's, with both id arrays' shares whole, slot 0 of the id scratches
    whole and both id cells at rest. -/
def lastOddPre (O : CellTallies nD τ sig (HIx 1)) (k : ℕ) (hc0 : 4 * k < 200) (hc1 : 4 * k + 1 < 200) (hc2 : 4 * k + 2 < 200) (hc3 : 4 * k + 3 < 200) (hcm2 : 4 * k - 2 < 200) (hcm1 : 4 * k - 1 < 200)
    (e : Buf (Elt F) ((eixV).view.loc (thr d L))) (p : Buf (Elt F) ((pixV).view.loc (thr d L))) (e' : Buf (Elt F) ((eixV).view.loc (thr d L))) (p' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L))) (hL : ListsOK1 d L e p) (W' : Waits sig (HIx 1)) : sProp 𝕄 :=
  iprop(Transfers.MayWaits (thr d L) (default : HIx 1) O
    ∗ flightE A d L 10 (hlf0 ebV) (lst eixV ![1, 0] linb_1_0) q1 fe0 e hL.1
    ∗ flightE A d L 11 (hlf1 ebV) (lst eixV ![1, 128] linb_1_128) q2 fe1 e hL.2.1
    ∗ flightP A d L 12 (hlf0 pbV) (lst pixV ![1, 0] linb_1_0) r1 fp0 p hL.2.2.1
    ∗ flightP A d L 13 (hlf1 pbV) (lst pixV ![1, 128] linb_1_128) r2 fp1 p hL.2.2.2
    ∗ teRest A d L q1
    ∗ teRest A d L q2
    ∗ shRest A d L r1
    ∗ shRest A d L r2
    ∗ ((slot1 eixV).view.loc (thr d L) ↦[((slot1 eixV).view.set \ (lst eixV ![1, 0] linb_1_0).view.set) \ (lst eixV ![1, 128] linb_1_128).view.set]{fullShare} e)
    ∗ ((slot1 pixV).view.loc (thr d L) ↦[((slot1 pixV).view.set \ (lst pixV ![1, 0] linb_1_0).view.set) \ (lst pixV ![1, 128] linb_1_128).view.set]{fullShare} p)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ ((eidV).view.loc (thr d L) ↦{qi} A.eid d)
    ∗ ((pidV).view.loc (thr d L) ↦{qi} A.pid d)
    ∗ ((slot0 eixV).view.loc (thr d L) ↦[(slot0 eixV).view.set]{fullShare} e')
    ∗ ((slot0 pixV).view.loc (thr d L) ↦[(slot0 pixV).view.set]{fullShare} p')
    ∗ semVal (cellOf d L 8) 0
    ∗ semVal (cellOf d L 9) 0
    ∗ chunkPt d L (4 * k) hc0 (A.out0 d)
    ∗ chunkPt d L (4 * k + 1) hc1 (A.out0 d)
    ∗ chunkPt d L (4 * k + 2) hc2 (A.out0 d)
    ∗ chunkPt d L (4 * k + 3) hc3 (A.out0 d)
    ∗ flightO A d L 14 (hlf0 obV) (4 * k - 2) hcm2 fo0
    ∗ flightO A d L 15 (hlf1 obV) (4 * k - 1) hcm1 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- OPENING the last trip. -/
theorem open_lastOdd (O : CellTallies nD τ sig (HIx 1)) (W : Waits sig (HIx 1)) (k : ℕ) (hk0 : k % 2 = 1) (hk1 : 1 ≤ k) (hk50 : k < 50) (hlast : ¬ k + 1 < 50) (hc0 : 4 * k < 200) (hc1 : 4 * k + 1 < 200) (hc2 : 4 * k + 2 < 200) (hc3 : 4 * k + 3 < 200) (hcm2 : 4 * k - 2 < 200) (hcm1 : 4 * k - 1 < 200) :
    inv A d L q1 q2 r1 r2 qi O W k PUnit.unit
      ⊢ iprop(∃ (e : Buf (Elt F) ((eixV).view.loc (thr d L))) (p : Buf (Elt F) ((pixV).view.loc (thr d L))) (e' : Buf (Elt F) ((eixV).view.loc (thr d L))) (p' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L)))
          (hL : PLift (ListsOK1 d L e p)) (W' : Waits sig (HIx 1)),
          ⌜SlotVals1 A d L e p k hk50 ∧ ∀ x ∈ W', x ∈ W ∨ x.2 = none⌝
          ∗ lastOddPre A d L q1 q2 r1 r2 qi O k hc0 hc1 hc2 hc3 hcm2 hcm1 e p e' p' fe0 fe1 fp0 fp1 fo0 fo1 feR fpR foR hL.down W') := by
  unfold inv gatherPart idsPart
  rw [if_neg (show ¬ k % 2 = 0 by omega), if_neg (show ¬ k % 2 = 0 by omega)]
  unfold gatherPart1 idsPart0
  rw [dif_pos hk50, dif_neg hlast, outPart_chunks, dif_pos (⟨hk1, by omega⟩ : 1 ≤ k ∧ k ≤ 50), chunks_open A d L k hk1 hc0 hc1 hc2 hc3]
  unfold lastOddPre
  iintro ⟨#Hmw, ⟨%e, %p, %hL, %hSV, ⟨%fe0, HE0⟩, ⟨%fe1, HE1⟩, ⟨%fp0, HP0⟩, ⟨%fp1, HP1⟩, Hte1, Hte2, Hsh1, Hsh2, Heix, Hpix, ⟨%feR, Heb⟩, ⟨%fpR, Hpb⟩⟩,
    ⟨Heid, Hpid, ⟨%e', Hs2x⟩, ⟨%p', Hs2p⟩, Hs8, Hs9⟩, ⟨⟨Hr200, Hc0, Hc1, Hc2, Hc3⟩, ⟨%fo0, HO0⟩, ⟨%fo1, HO1⟩, ⟨%foR, Hob⟩⟩, ⟨%W', %hW', HO⟩⟩
  iexists e, p, e', p', fe0, fe1, fp0, fp1, fo0, fo1, feR, fpR, foR, hL, W'
  isplitr; · ipureintro; exact ⟨hSV, hW'⟩
  isplitr; · iexact Hmw
  isplitl [HE0]; · iexact HE0
  isplitl [HE1]; · iexact HE1
  isplitl [HP0]; · iexact HP0
  isplitl [HP1]; · iexact HP1
  isplitl [Hte1]; · iexact Hte1
  isplitl [Hte2]; · iexact Hte2
  isplitl [Hsh1]; · iexact Hsh1
  isplitl [Hsh2]; · iexact Hsh2
  isplitl [Heix]; · iexact Heix
  isplitl [Hpix]; · iexact Hpix
  isplitl [Heb]; · iexact Heb
  isplitl [Hpb]; · iexact Hpb
  isplitl [Heid]; · iexact Heid
  isplitl [Hpid]; · iexact Hpid
  isplitl [Hs2x]; · iexact Hs2x
  isplitl [Hs2p]; · iexact Hs2p
  isplitl [Hs8]; · iexact Hs8
  isplitl [Hs9]; · iexact Hs9
  isplitl [Hc0]; · iexact Hc0
  isplitl [Hc1]; · iexact Hc1
  isplitl [Hc2]; · iexact Hc2
  isplitl [Hc3]; · iexact Hc3
  isplitl [HO0]; · iexact HO0
  isplitl [HO1]; · iexact HO1
  isplitl [Hob]; · iexact Hob
  isplitl [Hr200]; · iexact Hr200
  iexact HO

/-- What the last trip's run ends with: nothing in flight but the last two copy-outs; the tables' shares, the id arrays'
    shares, the id scratches' slots and the two gathered buffers whole; every gather and id cell at rest. -/
def lastOddPost (O : CellTallies nD τ sig (HIx 1)) (k : ℕ) (hc0 : 4 * k < 200) (hc1 : 4 * k + 1 < 200) (hc2 : 4 * k + 2 < 200) (hc3 : 4 * k + 3 < 200) (hcm2 : 4 * k - 2 < 200) (hcm1 : 4 * k - 1 < 200)
    (e0 : Buf (Elt F) ((eixV).view.loc (thr d L))) (p0 : Buf (Elt F) ((pixV).view.loc (thr d L))) (e1 : Buf (Elt F) ((eixV).view.loc (thr d L))) (p1 : Buf (Elt F) ((pixV).view.loc (thr d L))) (feW : Buf (Elt F) ((ebV).view.loc (thr d L))) (fpW : Buf (Elt F) ((pbV).view.loc (thr d L))) (fo0 : Buf (Elt F) ((hlf0 obV).view.loc (thr d L))) (fo1 : Buf (Elt F) ((hlf1 obV).view.loc (thr d L))) (foR : Buf (Elt F) ((obV).view.loc (thr d L))) (W' : Waits sig (HIx 1)) : sProp 𝕄 :=
  iprop(Transfers.MayWaits (thr d L) (default : HIx 1) O
    ∗ ((teV).view.loc (thr d L) ↦{q1} A.te d)
    ∗ ((teV).view.loc (thr d L) ↦{q2} A.te d)
    ∗ ((shV).view.loc (thr d L) ↦{r1} shVal A d (cV L))
    ∗ ((shV).view.loc (thr d L) ↦{r2} shVal A d (cV L))
    ∗ ((slot0 eixV).view.loc (thr d L) ↦[(slot0 eixV).view.set]{fullShare} e0)
    ∗ ((slot0 pixV).view.loc (thr d L) ↦[(slot0 pixV).view.set]{fullShare} p0)
    ∗ ((ebV).view.loc (thr d L) ↦{fullShare} feW)
    ∗ ((pbV).view.loc (thr d L) ↦{fullShare} fpW)
    ∗ semVal (cellOf d L 10) 0
    ∗ semVal (cellOf d L 11) 0
    ∗ semVal (cellOf d L 12) 0
    ∗ semVal (cellOf d L 13) 0
    ∗ ((eidV).view.loc (thr d L) ↦{qi} A.eid d)
    ∗ ((pidV).view.loc (thr d L) ↦{qi} A.pid d)
    ∗ ((slot1 eixV).view.loc (thr d L) ↦[(slot1 eixV).view.set]{fullShare} e1)
    ∗ ((slot1 pixV).view.loc (thr d L) ↦[(slot1 pixV).view.set]{fullShare} p1)
    ∗ semVal (cellOf d L 8) 0
    ∗ semVal (cellOf d L 9) 0
    ∗ chunkPt d L (4 * k - 2) hcm2 (outFin A d)
    ∗ chunkPt d L (4 * k - 1) hcm1 (outFin A d)
    ∗ chunkPt d L (4 * k) hc0 (outFin A d)
    ∗ chunkPt d L (4 * k + 1) hc1 (outFin A d)
    ∗ flightO A d L 14 (hlf0 obV) (4 * k + 2) hc2 fo0
    ∗ flightO A d L 15 (hlf1 obV) (4 * k + 3) hc3 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- CLOSING the last trip. -/
theorem close_lastOdd (O : CellTallies nD τ sig (HIx 1)) (W : Waits sig (HIx 1)) (k : ℕ) (hk0 : k % 2 = 1) (hk1 : 1 ≤ k) (hk50 : k < 50) (hlast : ¬ k + 1 < 50) (hc0 : 4 * k < 200) (hc1 : 4 * k + 1 < 200) (hc2 : 4 * k + 2 < 200) (hc3 : 4 * k + 3 < 200) (hcm2 : 4 * k - 2 < 200) (hcm1 : 4 * k - 1 < 200)
    (e0 : Buf (Elt F) ((eixV).view.loc (thr d L))) (p0 : Buf (Elt F) ((pixV).view.loc (thr d L))) (e1 : Buf (Elt F) ((eixV).view.loc (thr d L))) (p1 : Buf (Elt F) ((pixV).view.loc (thr d L))) (feW : Buf (Elt F) ((ebV).view.loc (thr d L))) (fpW : Buf (Elt F) ((pbV).view.loc (thr d L))) (fo0 : Buf (Elt F) ((hlf0 obV).view.loc (thr d L))) (fo1 : Buf (Elt F) ((hlf1 obV).view.loc (thr d L))) (foR : Buf (Elt F) ((obV).view.loc (thr d L))) (W' : Waits sig (HIx 1)) (hW' : ∀ x ∈ W', x ∈ W ∨ x.2 = none) :
    lastOddPost A d L q1 q2 r1 r2 qi O k hc0 hc1 hc2 hc3 hcm2 hcm1 e0 p0 e1 p1 feW fpW fo0 fo1 foR W'
      ⊢ inv A d L q1 q2 r1 r2 qi O W (k + 1) PUnit.unit := by
  unfold inv gatherPart idsPart
  rw [if_pos (show (k + 1) % 2 = 0 by omega), if_pos (show (k + 1) % 2 = 0 by omega)]
  unfold gatherPart0 idsPart1
  rw [dif_neg hlast, dif_neg (show ¬ k + 1 + 1 < 50 by omega), outPart_chunks, dif_pos (⟨by omega, by omega⟩ : 1 ≤ k + 1 ∧ k + 1 ≤ 50),
    chunks_close A d L k hk1 hcm2 hcm1 hc0 hc1 hc3,
    exFlightO_congr A d L 14 (hlf0 obV) (show 4 * (k + 1) - 2 = 4 * k + 2 by omega) _ hc2,
    exFlightO_congr A d L 15 (hlf1 obV) (show 4 * (k + 1) - 1 = 4 * k + 3 by omega) _ hc3]
  unfold lastOddPost
  iintro ⟨#Hmw, Hte1, Hte2, Hsh1, Hsh2, Hsx, Hsp, Hebw, Hpbw, Hs10, Hs11, Hs12, Hs13, Heid, Hpid, Hs2x, Hs2p, Hs8, Hs9, Hm2, Hm1, Hc0, Hc1, HO0, HO1, Hob, Hr200, HO⟩
  isplitr; · iexact Hmw
  isplitl [Hte1 Hte2 Hsh1 Hsh2 Hsx Hsp Hebw Hpbw Hs10 Hs11 Hs12 Hs13]
  · isplitl [Hte1]; · iexact Hte1
    isplitl [Hte2]; · iexact Hte2
    isplitl [Hsh1]; · iexact Hsh1
    isplitl [Hsh2]; · iexact Hsh2
    isplitl [Hsx]; · iexists e0; iexact Hsx
    isplitl [Hsp]; · iexists p0; iexact Hsp
    isplitl [Hebw]; · iexists feW; iexact Hebw
    isplitl [Hpbw]; · iexists fpW; iexact Hpbw
    isplitl [Hs10]; · iexact Hs10
    isplitl [Hs11]; · iexact Hs11
    isplitl [Hs12]; · iexact Hs12
    iexact Hs13
  isplitl [Heid Hpid Hs2x Hs2p Hs8 Hs9]
  · isplitl [Heid]; · iexact Heid
    isplitl [Hpid]; · iexact Hpid
    isplitl [Hs2x]; · iexists e1; iexact Hs2x
    isplitl [Hs2p]; · iexists p1; iexact Hs2p
    isplitl [Hs8]; · iexact Hs8
    iexact Hs9
  isplitl [Hm2 Hm1 Hc0 Hc1 HO0 HO1 Hob Hr200]
  · isplitl [Hm2 Hm1 Hc0 Hc1 Hr200]
    · isplitl [Hr200]; · iexact Hr200
      isplitl [Hm2]; · iexact Hm2
      isplitl [Hm1]; · iexact Hm1
      isplitl [Hc0]; · iexact Hc0
      iexact Hc1
    isplitl [HO0]; · iexists fo0; iexact HO0
    isplitl [HO1]; · iexists fo1; iexact HO1
    iexists foR; iexact Hob
  iexists W'
  isplitr; · ipureintro; exact hW'
  iexact HO

end Cert.Kernel.Run.Sc

end
-- ==== Proof.ScTripEvenLastBits.lean ====
/-
  The tile's loop: what the tile holds between two trips of its 50-trip loop (the invariant), and one trip.

  At the start of trip k the gathers of chunks 4k and 4k+1 are in flight (one per cell of esem / psem) into the halves
  of ebufs / pbufs, by the first two quarters of id slot k % 2; the next trip's 512 ids of both kinds are in flight
  into slot (k+1) % 2 as ONE batch of two copies on isem[(k+1) % 2] (trips 0–48); the copy-outs of chunks 4k-2 and
  4k-1 are in flight out of the halves of obufs on wsem[0] / wsem[1] (trips ≥ 1), their chunks of the result already
  counted as holding the looked-up sums; the chunks below 4k-2 hold them; those from 4k on are untouched.
-/
import proofs.«204385_g66649302499670_cont_9to1c4b_43_34_alg».proof.Proof.ScTripBits
import proofs.«204385_g66649302499670_cont_9to1c4b_43_34_alg».proof.Proof.AddLoopBits
import proofs.«204385_g66649302499670_cont_9to1c4b_43_34_alg».proof.Proof.ScHalvesBits
import proofs.«204385_g66649302499670_cont_9to1c4b_43_34_alg».proof.Proof.ScSlotsBits
import proofs.«204385_g66649302499670_cont_9to1c4b_43_34_alg».proof.Proof.ScBookBits
import proofs.«204385_g66649302499670_cont_9to1c4b_43_34_alg».proof.Proof.ScTripFoldBits
import proofs.«204385_g66649302499670_cont_9to1c4b_43_34_alg».proof.Proof.ScCloseBits
import proofs.«204385_g66649302499670_cont_9to1c4b_43_34_alg».proof.Proof.ScTripFoldEdgeBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F] (A : Vals F) (d : Dev nD) (L : grid1.Coords)

variable [FloatOps F] (A : Vals F) (d : Dev nD) (L : grid1.Coords)

/-- A 128-row window of the result at offset `off`, held whole. -/
abbrev lchunkWin (off : Fin 2 → ℕ) (h : ∀ a, off a + S128x128.size a ≤ S819200x128.size a) (f : Buf (Elt F) ((outV).view.loc (thr d L))) : sProp 𝕄 :=
  ((outV).slice (Rect.unit (s := S819200x128) off S128x128.size h) (fun _ => rfl)).view.loc (thr d L)
    ↦[((outV).slice (Rect.unit (s := S819200x128) off S128x128.size h) (fun _ => rfl)).view.set]{fullShare} f

omit [FloatOps F] in
/-- A slot of an id scratch at offset `off`, as the program names it. -/
abbrev lslotAt (M : Memref sig .scVector .vmem S2x512 .i32) (off : Fin 2 → ℕ) (h : ∀ a, off a + S1x512.size a ≤ S2x512.size a) : Memref sig .scVector .vmem S512 .i32 :=
  (M.slice (Rect.unit (s := S2x512) off S1x512.size h) (fun _ => rfl)).squeeze S512 squeezes_S1x512_S512
omit [FloatOps F] in
theorem lslotPts_congr (M : Memref sig .scVector .vmem S2x512 .i32) {off off' : Fin 2 → ℕ} (e : off = off')
    (h : ∀ a, off a + S1x512.size a ≤ S2x512.size a) (h' : ∀ a, off' a + S1x512.size a ≤ S2x512.size a) (f : Buf (Elt F) (M.view.loc (thr d L))) :
    (((lslotAt M off h).view.loc (thr d L) ↦[(lslotAt M off h).view.set]{fullShare} f : sProp 𝕄))
      = ((lslotAt M off' h').view.loc (thr d L) ↦[(lslotAt M off' h').view.set]{fullShare} f) := by subst e; rfl

omit [FloatOps F] in
/-- A list's elements do not depend on how its offset is spelt. -/
theorem llst_set_congr (M : Memref sig .scVector .vmem S2x512 .i32) {off off' : Fin 2 → ℕ} (h : off = off')
    (hi : ∀ a, off a + S1x128.size a ≤ S2x512.size a) (hi' : ∀ a, off' a + S1x128.size a ≤ S2x512.size a) :
    (lst M off hi).view.set = (lst M off' hi').view.set := by subst h; rfl

omit [FloatOps F] in
/-- A list's contents do not depend on how its offset is spelt. -/
theorem llst_read_congr (M : Memref sig .scVector .vmem S2x512 .i32) {off off' : Fin 2 → ℕ} (h : off = off')
    (hi : ∀ a, off a + S1x128.size a ≤ S2x512.size a) (hi' : ∀ a, off' a + S1x128.size a ≤ S2x512.size a)
    (e : Buf (Elt F) (M.view.loc (thr d L))) (x : S128.Idx) :
    (lst M off hi).view.read (Elt F) e x = (lst M off' hi').view.read (Elt F) e x := by subst h; rfl

omit [FloatOps F] in
theorem lrespell_e_0_0 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 0] linb_0_0).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_e_0_128 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 128] linb_0_128).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_e_0_256 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 256] linb_0_256).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_e_0_384 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 384] linb_0_384).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_e_1_0 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 0] linb_1_0).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_e_1_128 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 128] linb_1_128).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_e_1_256 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 256] linb_1_256).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_e_1_384 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 384] linb_1_384).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem lrespell_p_0_0 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 0] linb_0_0).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem lrespell_p_0_128 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 128] linb_0_128).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem lrespell_p_0_256 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 256] linb_0_256).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem lrespell_p_0_384 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 384] linb_0_384).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem lrespell_p_1_0 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 0] linb_1_0).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem lrespell_p_1_128 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 128] linb_1_128).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem lrespell_p_1_256 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 256] linb_1_256).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem lrespell_p_1_384 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 384] linb_1_384).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
/-- A resource put aside: held, but not looked at. -/
def AsideL (P : sProp 𝕄) : sProp 𝕄 := P
omit [FloatOps F] in
theorem asideL_intro (P : sProp 𝕄) : P ⊢ AsideL P := BI.Entails.refl _
omit [FloatOps F] in
theorem asideL_elim (P : sProp 𝕄) : AsideL P ⊢ P := BI.Entails.refl _

/-- The cell of the id semaphores at offset `off`, as the program names it. -/
abbrev lisemAt (off : Fin 1 → ℕ) (h : ∀ a, off a + S1.size a ≤ S2.size a) : DmaSem sig :=
  ((SemArray.slice cc1_scratch6 (Rect.unit (s := S2) off S1.size h)).squeeze S_ squeezes_S1_S_).sem
theorem lisemAt_congr {off off' : Fin 1 → ℕ} (e : off = off') (h : ∀ a, off a + S1.size a ≤ S2.size a) (h' : ∀ a, off' a + S1.size a ≤ S2.size a) :
    lisemAt off h = lisemAt off' h' := by subst e; rfl
theorem lisemAt_one : lisemAt ![1] inb_S2_S1_1 = (9 : DmaSem sig) := by decide
theorem lisemAt_zero : lisemAt ![0] inb_S2_S1_0 = (8 : DmaSem sig) := by decide

/-- A gather's flight does not depend on how its list's offset is spelt. -/
theorem evl_flightE_off (sm : DmaSem sig) (H : Memref sig .scVector .vmem S128x128 .f32) {off off' : Fin 2 → ℕ} (h : off = off')
    (hi : ∀ a, off a + S1x128.size a ≤ S2x512.size a) (hi' : ∀ a, off' a + S1x128.size a ≤ S2x512.size a) (q : PosShare TreeShare)
    (fe : Buf (Elt F) (H.view.loc (thr d L))) (e : Buf (Elt F) ((eixV).view.loc (thr d L)))
    (hin : ∀ x, ((lst eixV off hi).view.read (Elt F) e x).toNat < S100000x128.size gathers_S100000x128_S128x128.axis)
    (hin' : ∀ x, ((lst eixV off' hi').view.read (Elt F) e x).toNat < S100000x128.size gathers_S100000x128_S128x128.axis) :
    flightE A d L sm H (lst eixV off hi) q fe e hin ⊢ flightE A d L sm H (lst eixV off' hi') q fe e hin' := by
  subst h; exact BI.Entails.refl _
theorem evl_flightP_off (sm : DmaSem sig) (H : Memref sig .scVector .vmem S128x128 .f32) {off off' : Fin 2 → ℕ} (h : off = off')
    (hi : ∀ a, off a + S1x128.size a ≤ S2x512.size a) (hi' : ∀ a, off' a + S1x128.size a ≤ S2x512.size a) (q : PosShare TreeShare)
    (fp : Buf (Elt F) (H.view.loc (thr d L))) (p : Buf (Elt F) ((pixV).view.loc (thr d L)))
    (hin : ∀ x, ((lst pixV off hi).view.read (Elt F) p x).toNat < S1000x128.size gathers_S1000x128_S128x128.axis)
    (hin' : ∀ x, ((lst pixV off' hi').view.read (Elt F) p x).toNat < S1000x128.size gathers_S1000x128_S128x128.axis) :
    flightP A d L sm H (lst pixV off hi) q fp p hin ⊢ flightP A d L sm H (lst pixV off' hi') q fp p hin' := by
  subst h; exact BI.Entails.refl _

/-- The id batch does not depend on how its cell, its slot and its window are spelt. -/
theorem evl_batch_congr (qi : PosShare TreeShare) {sm sm' : DmaSem sig} (hsm : sm = sm') {offS offS' : Fin 2 → ℕ} (hS : offS = offS')
    (hiS : ∀ a, offS a + S1x512.size a ≤ S2x512.size a) (hiS' : ∀ a, offS' a + S1x512.size a ≤ S2x512.size a)
    {off off' : Fin 1 → ℕ} (ho : off = off') (hi : ∀ a, off a + S512.size a ≤ S819200.size a) (hi' : ∀ a, off' a + S512.size a ≤ S819200.size a)
    (e : Buf (Elt F) ((eixV).view.loc (thr d L))) (p : Buf (Elt F) ((pixV).view.loc (thr d L))) (pe pp : S512.Idx → Elt F .i32) :
    idsBatch A d L sm (lslotAt eixV offS hiS) (lslotAt pixV offS hiS) qi off hi e p pe pp
      = idsBatch A d L sm' (lslotAt eixV offS' hiS') (lslotAt pixV offS' hiS') qi off' hi' e p pe pp := by
  subst hsm hS ho; rfl

omit [FloatOps F] in
theorem evl_W_ins {W S : Waits sig (HIx 1)} (x0 : SemLoc sig × HIx 1) (h0 : x0.2 = none) (h : ∀ x ∈ S, x ∈ W ∨ x.2 = none) :
    ∀ x ∈ insert x0 S, x ∈ W ∨ x.2 = none := by
  intro x hx
  rcases Finset.mem_insert.mp hx with rfl | hx
  · exact Or.inr h0
  · exact h x hx

omit [FloatOps F] in
theorem evl_off43 (k : Fin k1_t1_loop.trips) : k1_off43 L k = idsOff L (k.val + 1 + 1) := by
  rw [k1_off43_eq]; unfold idsOff
  refine funext fun a => ?_
  match a with
  | 0 => show 51200 * (L 1).val + 25600 * (L 0).val + 512 * k.val + 1024 = 51200 * (L 1).val + 25600 * (L 0).val + 512 * (k.val + 1 + 1); omega

omit [FloatOps F] in
theorem evl_off13 (k : Fin k1_t1_loop.trips) (r : Fin 4) : k1_off13 L k (BitVec.ofNat 32 r.val) = chunkOff L (4 * k.val + r.val) := by
  rw [k1_off13_eq]; unfold chunkOff
  refine funext fun a => ?_
  match a with
  | 0 => show 51200 * (L 1).val + 25600 * (L 0).val + 512 * k.val + 128 * r.val = 51200 * (L 1).val + 25600 * (L 0).val + 128 * (4 * k.val + r.val); omega
  | 1 => rfl

variable (q1 q2 r1 r2 qi : PosShare TreeShare)

set_option maxHeartbeats 4000000 in
theorem trip_even_last_core (v2 : BitVec 32) (k : Fin k1_t1_loop.trips) (hk0 : k.val % 2 = 0) (hk1 : 1 ≤ k.val) (hk48 : k.val = 48)
    (hk1' : k.val + 1 < 50)
    (hcm2 : 4 * k.val - 2 < 200) (hcm1 : 4 * k.val - 1 < 200)
    (O : CellTallies nD τ sig (HIx 1)) (W W0 : Waits sig (HIx 1)) (hW0 : ∀ x ∈ W0, x ∈ W ∨ x.2 = none)
    (e : Buf (Elt F) ((eixV).view.loc (thr d L))) (p : Buf (Elt F) ((pixV).view.loc (thr d L)))
    (e' : Buf (Elt F) ((eixV).view.loc (thr d L))) (p' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK0 d L e p) (hSV0 : SlotVals0 A d L e p k.val k.isLt)
    (hE : ∀ j, (A.eid d j).toNat < 100000) (hP : ∀ j, (A.pid d j).toNat < 1000)
    (hlast : ¬ k.val + 1 + 1 < 50) (hc0 : 4 * k.val < 200) (hc1 : 4 * k.val + 1 < 200) (hc2 : 4 * k.val + 2 < 200) (hc3 : 4 * k.val + 3 < 200) :
    iprop(Transfers.MayWaits (thr d L) (default : HIx 1) O
        ∗ flightE A d L 10 (hlf0 ebV) (lst eixV ![0, 0] linb_0_0) q1 fe0 e hL.1
        ∗ flightE A d L 11 (hlf1 ebV) (lst eixV ![0, 128] linb_0_128) q2 fe1 e hL.2.1
        ∗ flightP A d L 12 (hlf0 pbV) (lst pixV ![0, 0] linb_0_0) r1 fp0 p hL.2.2.1
        ∗ flightP A d L 13 (hlf1 pbV) (lst pixV ![0, 128] linb_0_128) r2 fp1 p hL.2.2.2
        ∗ teRest A d L q1 ∗ teRest A d L q2 ∗ shRest A d L r1 ∗ shRest A d L r2
        ∗ ((slot0 eixV).view.loc (thr d L)
              ↦[((slot0 eixV).view.set \ (lst eixV ![0, 0] linb_0_0).view.set) \ (lst eixV ![0, 128] linb_0_128).view.set]{fullShare} e)
        ∗ ((slot0 pixV).view.loc (thr d L)
              ↦[((slot0 pixV).view.set \ (lst pixV ![0, 0] linb_0_0).view.set) \ (lst pixV ![0, 128] linb_0_128).view.set]{fullShare} p)
        ∗ ((ebV).view.loc (thr d L) ↦[(Finset.univ \ (hlf0 ebV).view.set) \ (hlf1 ebV).view.set]{fullShare} feR)
        ∗ ((pbV).view.loc (thr d L) ↦[(Finset.univ \ (hlf0 pbV).view.set) \ (hlf1 pbV).view.set]{fullShare} fpR)
        ∗ idsBatch A d L (9 : DmaSem sig) (slot1 eixV) (slot1 pixV) qi (idsOff L (k.val + 1)) (idsInb L (k.val + 1) hk1') e' p'
            (idsPayAt d L eidV (A.eid d) (idsOff L (k.val + 1)) (idsInb L (k.val + 1) hk1')) (idsPayAt d L pidV (A.pid d) (idsOff L (k.val + 1)) (idsInb L (k.val + 1) hk1'))
        ∗ idsRest A d L qi (idsOff L (k.val + 1)) (idsInb L (k.val + 1) hk1')
        ∗ semVal (cellOf d L 8) 0
        ∗ lchunkWin d L (k1_off13 L k 0#32) (k1_off13_inb L k 0) (A.out0 d)
        ∗ lchunkWin d L (k1_off13 L k 1#32) (k1_off13_inb L k 1) (A.out0 d)
        ∗ lchunkWin d L (k1_off13 L k 2#32) (k1_off13_inb L k 2) (A.out0 d)
        ∗ lchunkWin d L (k1_off13 L k 3#32) (k1_off13_inb L k 3) (A.out0 d)
        ∗ flightO A d L 14 (hlf0 obV) (4 * k.val - 2) hcm2 fo0
        ∗ flightO A d L 15 (hlf1 obV) (4 * k.val - 1) hcm1 fo1
        ∗ ((obV).view.loc (thr d L) ↦[(Finset.univ \ (hlf0 obV).view.set) \ (hlf1 obV).view.set]{fullShare} foR)
        ∗ owes (thr d L) O W0)
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 k ())
            (fun _ => iprop(rest200 A d L k.val -∗ inv A d L q1 q2 r1 r2 qi O W (k.val + 1) PUnit.unit)) := by
  have hE2 := hin_e_0_256 A d L hE e p k.val k.isLt hSV0
  have hE3 := hin_e_0_384 A d L hE e p k.val k.isLt hSV0
  have hP2 := hin_p_0_256 A d L hP e p k.val k.isLt hSV0
  have hP3 := hin_p_0_384 A d L hP e p k.val k.isLt hSV0
  have hcond2 : k1_cond2 k = 1#1 := (cond2_iff k).mpr hk1
  have hcond9 : ¬ k1_cond9 k = 1#1 := fun h => by have := (cond9_iff k).mp h; omega
  have hcond3 := cond3_true k
  have hcond4 : k1_cond4 k = 1#1 := (cond4_iff k).mpr hk1
  have hcond5 := cond5_true k
  have hcond6 := cond6_true k
  have hcond7 : k1_cond7 k = 1#1 := (cond7_iff k).mpr (by omega)
  have hcond8 := cond8_true k
  have hcond10 : k1_cond10 k = 1#1 := (cond10_iff k).mpr (by omega)
  have e14 : k1_off14 k = ![0, 256] := by rw [off14_eq, hk0]
  have e25 : k1_off25 k = ![0, 384] := by rw [off25_eq, hk0]
  have hk0' : (k.val + 1) % 2 = 1 := by omega
  have e36 : k1_off36 k = ![1, 0] := by rw [off36_eq, hk0']
  have e38 : k1_off38 k = ![1] := by rw [off38_eq, hk0']
  have e39 : k1_off39 k = ![1, 0] := by rw [off39_eq, hk0']
  have e42 : k1_off42 k = ![0, 0] := by rw [off42_eq, hk0]
  have e44 : k1_off44 k = ![0] := by rw [off44_eq, hk0]
  have e53 : k1_off53 k = ![1, 128] := by rw [off53_eq, hk0']
  letI : ClosedOff (k1_off14 k) := ⟨![0, 256], e14⟩
  letI : ClosedOff (k1_off25 k) := ⟨![0, 384], e25⟩
  letI : ClosedOff (k1_off36 k) := ⟨![1, 0], e36⟩
  letI : ClosedOff (k1_off38 k) := ⟨![1], e38⟩
  letI : ClosedOff (k1_off39 k) := ⟨![1, 0], e39⟩
  letI : ClosedOff (k1_off42 k) := ⟨![0, 0], e42⟩
  letI : ClosedOff (k1_off44 k) := ⟨![0], e44⟩
  letI : ClosedOff (k1_off53 k) := ⟨![1, 128], e53⟩
  have hinE2 : ∀ x, ((lst eixV (k1_off14 k) (k1_off14_inb k hcond3)).view.read (Elt F) e x).toNat < S100000x128.size gathers_S100000x128_S128x128.axis :=
    fun x => by rw [llst_read_congr d L eixV e14 _ linb_0_256]; exact hE2 x
  have hinP2 : ∀ x, ((lst pixV (k1_off14 k) (k1_off14_inb k hcond3)).view.read (Elt F) p x).toNat < S1000x128.size gathers_S1000x128_S128x128.axis :=
    fun x => by rw [llst_read_congr d L pixV e14 _ linb_0_256]; exact hP2 x
  have hinE3 : ∀ x, ((lst eixV (k1_off25 k) (k1_off25_inb k hcond5)).view.read (Elt F) e x).toNat < S100000x128.size gathers_S100000x128_S128x128.axis :=
    fun x => by rw [llst_read_congr d L eixV e25 _ linb_0_384]; exact hE3 x
  have hinP3 : ∀ x, ((lst pixV (k1_off25 k) (k1_off25_inb k hcond5)).view.read (Elt F) p x).toNat < S1000x128.size gathers_S1000x128_S128x128.axis :=
    fun x => by rw [llst_read_congr d L pixV e25 _ linb_0_384]; exact hP3 x
  unfold k1_t1_body
  unfold idsBatch idsRest
  iintro ⟨#Hmw, HE0, HE1, HP0, HP1, Hte1, Hte2, Hsh1, Hsh2, Heix, Hpix, Heb, Hpb, Hbat, ⟨Heidr, Hpidr⟩, Hs8, Hc0, Hc1, Hc2, Hc3, HO0, HO1, Hob, HO⟩
  sl_exec_parts
  -- the first chunk's sums
  ihave Heb2 := (join0_e (F := F) d L _ _) $$ [Heb HE0_dst]
  · isplitl [Heb] <;> iassumption
  ihave Hpb2 := (join0_p (F := F) d L _ _) $$ [Hpb HP0_dst]
  · isplitl [Hpb] <;> iassumption
  ihave Hob2 := (join0_o (F := F) d L _ _) $$ [Hob HO0_src]
  · isplitl [Hob] <;> iassumption
  iapply (Add.addLoop_sub0 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Heix2 := (Entails.of_eq (show (((slot0 eixV).view.loc (thr d L)
        ↦[((slot0 eixV).view.set \ (lst eixV ![0, 0] linb_0_0).view.set) \ (lst eixV ![0, 128] linb_0_128).view.set]{fullShare} e : sProp 𝕄))
      = ((eixV).view.loc (thr d L)
        ↦[((Finset.univ \ (slot1 eixV).view.set) \ (lst eixV ![0, 0] linb_0_0).view.set) \ (lst eixV ![0, 128] linb_0_128).view.set]{fullShare} e) from by
          rw [slot0_eq_compl_e])) $$ Heix
  ihave Hpix2 := (Entails.of_eq (show (((slot0 pixV).view.loc (thr d L)
        ↦[((slot0 pixV).view.set \ (lst pixV ![0, 0] linb_0_0).view.set) \ (lst pixV ![0, 128] linb_0_128).view.set]{fullShare} p : sProp 𝕄))
      = ((pixV).view.loc (thr d L)
        ↦[((Finset.univ \ (slot1 pixV).view.set) \ (lst pixV ![0, 0] linb_0_0).view.set) \ (lst pixV ![0, 128] linb_0_128).view.set]{fullShare} p) from by
          rw [slot0_eq_compl_p])) $$ Hpix
  sl_exec_parts
  -- the second chunk's sums
  ihave Heb2 := (join1_e_of (F := F) d L restA_e _ _) $$ [Heb HE1_dst]
  · isplitl [Heb] <;> iassumption
  ihave Hpb2 := (join1_p_of (F := F) d L restA_p _ _) $$ [Hpb HP1_dst]
  · isplitl [Hpb] <;> iassumption
  ihave Hob2 := (join1_o_of (F := F) d L restA_o _ _) $$ [Hob HO1_src]
  · isplitl [Hob] <;> iassumption
  iapply (Add.addLoop_sub1 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Heix3 := (Entails.of_eq (lrespell_e_0_128 (F := F) d L e)) $$ Heix2
  ihave Hpix3 := (Entails.of_eq (lrespell_p_0_128 (F := F) d L p)) $$ Hpix2
  sl_exec_parts
  -- the third chunk's sums
  ihave Heb2 := (join0_e_of (F := F) d L restB_e _ _) $$ [Heb Heb_2]
  · isplitl [Heb] <;> iassumption
  ihave Hpb2 := (join0_p_of (F := F) d L restB_p _ _) $$ [Hpb Hpb_2]
  · isplitl [Hpb] <;> iassumption
  ihave Hob2 := (join0_o_of (F := F) d L restB_o _ _) $$ [Hob Hob_2]
  · isplitl [Hob] <;> iassumption
  iapply (Add.addLoop_sub2 (F := F) d L v2 k _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  -- slot 0's leftovers put aside; the id batch's cell in the program's spelling
  ihave HeixA := (asideL_intro (F := F) _) $$ Heix3
  ihave HpixA := (asideL_intro (F := F) _) $$ Hpix3
  have hs38 : lisemAt (k1_off38 k) (k1_off38_inb k hcond7) = (9 : DmaSem sig) := (lisemAt_congr e38 _ inb_S2_S1_1).trans lisemAt_one
  have hSV1 : SlotVals1 A d L
      ((slot1 eixV).view.writes (Elt F) e' [⟨Rect.whole S512, idsPayAt d L eidV (A.eid d) (idsOff L (k.val + 1)) (idsInb L (k.val + 1) hk1')⟩])
      ((slot1 pixV).view.writes (Elt F) p' [⟨Rect.whole S512, idsPayAt d L pidV (A.pid d) (idsOff L (k.val + 1)) (idsInb L (k.val + 1) hk1')⟩])
      (k.val + 1) hk1' := slotVals1_after A d L e' p' k.val hk1' _ _ ⟨rfl, rfl⟩
  have hinE10 : ∀ x, ((lst eixV (k1_off39 k) (k1_off39_inb k hcond7)).view.read (Elt F)
      ((slot1 eixV).view.writes (Elt F) e' [⟨Rect.whole S512, idsPayAt d L eidV (A.eid d) (idsOff L (k.val + 1)) (idsInb L (k.val + 1) hk1')⟩]) x).toNat
        < S100000x128.size gathers_S100000x128_S128x128.axis :=
    fun x => by rw [llst_read_congr d L eixV e39 _ linb_1_0]; exact hin_e_1_0 A d L hE _ _ (k.val + 1) hk1' hSV1 x
  have hinP10 : ∀ x, ((lst pixV (k1_off39 k) (k1_off39_inb k hcond7)).view.read (Elt F)
      ((slot1 pixV).view.writes (Elt F) p' [⟨Rect.whole S512, idsPayAt d L pidV (A.pid d) (idsOff L (k.val + 1)) (idsInb L (k.val + 1) hk1')⟩]) x).toNat
        < S1000x128.size gathers_S1000x128_S128x128.axis :=
    fun x => by rw [llst_read_congr d L pixV e39 _ linb_1_0]; exact hin_p_1_0 A d L hP _ _ (k.val + 1) hk1' hSV1 x
  have hinE11 : ∀ x, ((lst eixV (k1_off53 k) (k1_off53_inb k hcond10)).view.read (Elt F)
      ((slot1 eixV).view.writes (Elt F) e' [⟨Rect.whole S512, idsPayAt d L eidV (A.eid d) (idsOff L (k.val + 1)) (idsInb L (k.val + 1) hk1')⟩]) x).toNat
        < S100000x128.size gathers_S100000x128_S128x128.axis :=
    fun x => by rw [llst_read_congr d L eixV e53 _ linb_1_128]; exact hin_e_1_128 A d L hE _ _ (k.val + 1) hk1' hSV1 x
  have hinP11 : ∀ x, ((lst pixV (k1_off53 k) (k1_off53_inb k hcond10)).view.read (Elt F)
      ((slot1 pixV).view.writes (Elt F) p' [⟨Rect.whole S512, idsPayAt d L pidV (A.pid d) (idsOff L (k.val + 1)) (idsInb L (k.val + 1) hk1')⟩]) x).toNat
        < S1000x128.size gathers_S1000x128_S128x128.axis :=
    fun x => by rw [llst_read_congr d L pixV e53 _ linb_1_128]; exact hin_p_1_128 A d L hP _ _ (k.val + 1) hk1' hSV1 x
  ihave Hbat2 := (Entails.of_eq (show (Transfers.Batched countersEmb (thr d L) (SemLoc.dma (9 : DmaSem sig)) (default : HIx 1) 16384 2 _ 0 : sProp 𝕄)
      = Transfers.Batched countersEmb (thr d L) (SemLoc.dma (lisemAt (k1_off38 k) (k1_off38_inb k hcond7))) (default : HIx 1) 16384 2 _ 0 from by rw [hs38])) $$ Hbat
  sl_exec_parts
  -- slot 1 as delivered, seen as the id scratch less slot 0
  ihave Heix4 := (Entails.of_eq (show (((slot1 eixV).view.loc (thr d L) ↦[(slot1 eixV).view.set]{fullShare} _ : sProp 𝕄))
      = ((eixV).view.loc (thr d L) ↦[Finset.univ \ (slot0 eixV).view.set]{fullShare} _) from by rw [slot1_eq_compl_e])) $$ Hbat2_dst0
  ihave Hpix4 := (Entails.of_eq (show (((slot1 pixV).view.loc (thr d L) ↦[(slot1 pixV).view.set]{fullShare} _ : sProp 𝕄))
      = ((pixV).view.loc (thr d L) ↦[Finset.univ \ (slot0 pixV).view.set]{fullShare} _) from by rw [slot1_eq_compl_p])) $$ Hbat2_dst1
  sl_exec_parts
  -- slot 0 whole again for the next ids; slot 1's holdings put aside meanwhile
  ihave HeixU := (asideL_elim (F := F) _) $$ HeixA
  ihave HeixU2 := (Entails.of_eq (show (((eixV).view.loc (thr d L) ↦[((Finset.univ \ (slot1 eixV).view.set) \ (lst eixV ![0, 0] linb_0_0).view.set) \ (lst eixV (k1_off25 k) (k1_off25_inb k hcond5)).view.set]{fullShare} e : sProp 𝕄))
      = ((eixV).view.loc (thr d L) ↦[((Finset.univ \ (slot1 eixV).view.set) \ (lst eixV ![0, 0] linb_0_0).view.set) \ (lst eixV ![0, 384] linb_0_384).view.set]{fullShare} e) from by
        rw [llst_set_congr eixV e25 _ linb_0_384])) $$ HeixU
  ihave Heix3L := (Entails.of_eq (show (((eixV).view.loc (thr d L) ↦[(lst eixV (k1_off25 k) (k1_off25_inb k hcond5)).view.set]{fullShare} e : sProp 𝕄))
      = ((eixV).view.loc (thr d L) ↦[(lst eixV ![0, 384] linb_0_384).view.set]{fullShare} e) from by
        rw [llst_set_congr eixV e25 _ linb_0_384])) $$ Heix3
  ihave Hslot0e := (slot0_assemble_e (F := F) d L e) $$ [HeixU2 HE0_dst_and Heix3L]
  · isplitl [HeixU2]; · iexact HeixU2
    isplitl [HE0_dst_and]; · iexact HE0_dst_and
    iexact Heix3L
  ihave HpixU := (asideL_elim (F := F) _) $$ HpixA
  ihave HpixU2 := (Entails.of_eq (show (((pixV).view.loc (thr d L) ↦[((Finset.univ \ (slot1 pixV).view.set) \ (lst pixV ![0, 0] linb_0_0).view.set) \ (lst pixV (k1_off25 k) (k1_off25_inb k hcond5)).view.set]{fullShare} p : sProp 𝕄))
      = ((pixV).view.loc (thr d L) ↦[((Finset.univ \ (slot1 pixV).view.set) \ (lst pixV ![0, 0] linb_0_0).view.set) \ (lst pixV ![0, 384] linb_0_384).view.set]{fullShare} p) from by
        rw [llst_set_congr pixV e25 _ linb_0_384])) $$ HpixU
  ihave Hpix3L := (Entails.of_eq (show (((pixV).view.loc (thr d L) ↦[(lst pixV (k1_off25 k) (k1_off25_inb k hcond5)).view.set]{fullShare} p : sProp 𝕄))
      = ((pixV).view.loc (thr d L) ↦[(lst pixV ![0, 384] linb_0_384).view.set]{fullShare} p) from by
        rw [llst_set_congr pixV e25 _ linb_0_384])) $$ Hpix3
  ihave Hslot0p := (slot0_assemble_p (F := F) d L p) $$ [HpixU2 HP0_dst_and Hpix3L]
  · isplitl [HpixU2]; · iexact HpixU2
    isplitl [HP0_dst_and]; · iexact HP0_dst_and
    iexact Hpix3L
  ihave Heix4A := (asideL_intro (F := F) _) $$ Heix4
  ihave Hpix4A := (asideL_intro (F := F) _) $$ Hpix4
  -- the fourth chunk's sums
  ihave Heix4 := (asideL_elim (F := F) _) $$ Heix4A
  ihave Hpix4 := (asideL_elim (F := F) _) $$ Hpix4A
  ihave Heb2 := (join1_e_of (F := F) d L restA_e _ _) $$ [Heb Heb_2]
  · isplitl [Heb] <;> iassumption
  ihave Hpb2 := (join1_p_of (F := F) d L restA_p _ _) $$ [Hpb Hpb_2]
  · isplitl [Hpb] <;> iassumption
  ihave Hob2 := (join1_o_of (F := F) d L restA_o _ _) $$ [Hob Hob_2]
  · isplitl [Hob] <;> iassumption
  iapply (Add.addLoop_sub3 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  sl_exec_parts
  -- the trip's end: the pieces are the next trip's
  sl_step
  iintro Hrest
  have hL1 := listsOK1_of_slotVals A d L hE hP _ _ (k.val + 1) hk1' hSV1
  iapply (close_lastEven A d L q1 q2 r1 r2 qi O W k.val hk0 hk1 hk1' hlast hc0 hc1 hc2 hc3 hcm2 hcm1 _ _ e p _ _ _ _ _ _ _ _ _ hL1 hSV1 _ ?hW)
  swap
  unfold lastEvenPost
  isplitr; · iexact Hmw
  isplitl [HE0]
  · iapply (evl_flightE_off A d L 10 (hlf0 ebV) e39 (k1_off39_inb k hcond7) linb_1_0 q1 _ _ hinE10 hL1.1); iexact HE0
  isplitl [HE1]
  · iapply (evl_flightE_off A d L 11 (hlf1 ebV) e53 (k1_off53_inb k hcond10) linb_1_128 q2 _ _ hinE11 hL1.2.1); iexact HE1
  isplitl [HP0]
  · iapply (evl_flightP_off A d L 12 (hlf0 pbV) e39 (k1_off39_inb k hcond7) linb_1_0 r1 _ _ hinP10 hL1.2.2.1); iexact HP0
  isplitl [HP1]
  · iapply (evl_flightP_off A d L 13 (hlf1 pbV) e53 (k1_off53_inb k hcond10) linb_1_128 r2 _ _ hinP11 hL1.2.2.2); iexact HP1
  isplitl [Hte1]; · iexact Hte1
  isplitl [Hte2]; · iexact Hte2
  isplitl [Hsh1]; · iexact Hsh1
  isplitl [Hsh2]; · iexact Hsh2
  isplitl [Heix4]
  · rw [slot1_eq_compl_e, ← llst_set_congr eixV e39 (k1_off39_inb k hcond7) linb_1_0, ← llst_set_congr eixV e53 (k1_off53_inb k hcond10) linb_1_128]
    iexact Heix4
  isplitl [Hpix4]
  · rw [slot1_eq_compl_p, ← llst_set_congr pixV e39 (k1_off39_inb k hcond7) linb_1_0, ← llst_set_congr pixV e53 (k1_off53_inb k hcond10) linb_1_128]
    iexact Hpix4
  isplitl [Heb]; · rw [← restB_e]; iexact Heb
  isplitl [Hpb]; · rw [← restB_p]; iexact Hpb
  isplitl [Heidr]; · iexact Heidr
  isplitl [Hpidr]; · iexact Hpidr
  isplitl [Hslot0e]; · iexact Hslot0e
  isplitl [Hslot0p]; · iexact Hslot0p
  isplitl [Hs8]; · iexact Hs8
  isplitl [Hbat2]
  · iapply (Entails.of_eq (show (semVal (thr d L, SemLoc.dma (lisemAt (k1_off38 k) (k1_off38_inb k hcond7))) 0 : sProp 𝕄) = semVal (cellOf d L 9) 0 from by rw [hs38]))
    iexact Hbat2
  isplitl [HO0_dst]; · rw [chunkPt_eq]; iexact HO0_dst
  isplitl [HO1_dst]; · rw [chunkPt_eq]; iexact HO1_dst
  isplitl [Hc0]
  · iapply (Entails.of_eq (chunk_delivered0 A d L (4 * k.val) hc0 (k1_off13 L k 0#32) (k1_off13_inb L k 0) (evl_off13 L k 0) _ _ _ _ _
        ((lst eixV ![0, 0] linb_0_0).view.read (Elt F) e) ((lst pixV ![0, 0] linb_0_0).view.read (Elt F) p) hL.1 hL.2.2.1 rfl
        ((read_piecewise_hlf0 d L ebV _ _).trans (read_write_hlf0 d L ebV _ _)) ((read_piecewise_hlf0 d L pbV _ _).trans (read_write_hlf0 d L pbV _ _))
        (ids_e_0_0 A d L e p k.val k.isLt hSV0) (ids_p_0_0 A d L e p k.val k.isLt hSV0)))
    iexact Hc0
  isplitl [Hc1]
  · iapply (Entails.of_eq (chunk_delivered1 A d L (4 * k.val + 1) hc1 (k1_off13 L k 1#32) (k1_off13_inb L k 1) (evl_off13 L k 1) _ _ _ _ _
        ((lst eixV ![0, 128] linb_0_128).view.read (Elt F) e) ((lst pixV ![0, 128] linb_0_128).view.read (Elt F) p) hL.2.1 hL.2.2.2 rfl
        ((read_piecewise_hlf1 d L ebV _ _).trans (read_write_hlf1 d L ebV _ _)) ((read_piecewise_hlf1 d L pbV _ _).trans (read_write_hlf1 d L pbV _ _))
        (ids_e_0_128 A d L e p k.val k.isLt hSV0) (ids_p_0_128 A d L e p k.val k.isLt hSV0)))
    iexact Hc1
  isplitl [HO0]
  · iapply (Entails.of_eq (flight_delivered0 A d L 14 (4 * k.val + 2) hc2 (k1_off13 L k 2#32) (k1_off13_inb L k 2) (evl_off13 L k 2) _ _ _ _ _
        ((lst eixV (k1_off14 k) (k1_off14_inb k hcond3)).view.read (Elt F) e) ((lst pixV (k1_off14 k) (k1_off14_inb k hcond3)).view.read (Elt F) p) hinE2 hinP2 rfl
        ((read_piecewise_hlf0 d L ebV _ _).trans (read_write_hlf0 d L ebV _ _)) ((read_piecewise_hlf0 d L pbV _ _).trans (read_write_hlf0 d L pbV _ _))
        (fun x => by rw [llst_read_congr d L eixV e14 _ linb_0_256]; exact ids_e_0_256 A d L e p k.val k.isLt hSV0 x)
        (fun x => by rw [llst_read_congr d L pixV e14 _ linb_0_256]; exact ids_p_0_256 A d L e p k.val k.isLt hSV0 x)))
    iexact HO0
  isplitl [HO1]
  · iapply (Entails.of_eq (flight_delivered1 A d L 15 (4 * k.val + 3) hc3 (k1_off13 L k 3#32) (k1_off13_inb L k 3) (evl_off13 L k 3) _ _ _ _ _
        ((lst eixV (k1_off25 k) (k1_off25_inb k hcond5)).view.read (Elt F) e) ((lst pixV (k1_off25 k) (k1_off25_inb k hcond5)).view.read (Elt F) p) hinE3 hinP3 rfl
        ((read_piecewise_hlf1 d L ebV _ _).trans (read_write_hlf1 d L ebV _ _)) ((read_piecewise_hlf1 d L pbV _ _).trans (read_write_hlf1 d L pbV _ _))
        (fun x => by rw [llst_read_congr d L eixV e25 _ linb_0_384]; exact ids_e_0_384 A d L e p k.val k.isLt hSV0 x)
        (fun x => by rw [llst_read_congr d L pixV e25 _ linb_0_384]; exact ids_p_0_384 A d L e p k.val k.isLt hSV0 x)))
    iexact HO1
  isplitl [Hob]; · rw [← restB_o]; iexact Hob
  isplitl [Hrest]; · iexact Hrest
  iexact HO
  case hW => repeat (first | exact hW0 | refine evl_W_ins _ rfl ?_)

omit [FloatOps F] in
/-- A chunk window of the result held whole: through the program's offset or as chunk `n`. -/
theorem evl_chunk_congr (n : ℕ) (hn : n < 200) (off : Fin 2 → ℕ) (hoff : ∀ a, off a + S128x128.size a ≤ S819200x128.size a)
    (eoff : off = chunkOff L n) (f : Buf (Elt F) ((outV).view.loc (thr d L))) :
    chunkPt d L n hn f = lchunkWin d L off hoff f := by
  subst eoff; rfl

set_option maxHeartbeats 4000000 in
/-- The even trip k = 48 of the tile's loop: no ids are fetched for a trip 50. -/
theorem trip_even_last (hE : ∀ j, (A.eid d j).toNat < 100000) (hP : ∀ j, (A.pid d j).toNat < 1000) (v2 : BitVec 32)
    (O : CellTallies nD τ sig (HIx 1)) (W : Waits sig (HIx 1))
    (k : ℕ) (hk : k < 50) (hk0 : k % 2 = 0) (hk48 : k = 48) :
    inv A d L q1 q2 r1 r2 qi O W k PUnit.unit
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 ⟨k, hk⟩ ())
          (fun _ => inv A d L q1 q2 r1 r2 qi O W (k + 1) PUnit.unit) := by
  have hk1 : 1 ≤ k := by omega
  have hk1' : k + 1 < 50 := by omega
  have hlast : ¬ k + 1 + 1 < 50 := by omega
  have hc0 : 4 * k < 200 := by omega
  have hc1 : 4 * k + 1 < 200 := by omega
  have hc2 : 4 * k + 2 < 200 := by omega
  have hc3 : 4 * k + 3 < 200 := by omega
  have hcm2 : 4 * k - 2 < 200 := by omega
  have hcm1 : 4 * k - 1 < 200 := by omega
  refine (open_even A d L q1 q2 r1 r2 qi O W k hk0 hk1 hk hk1' hc0 hc1 hc2 hc3 hcm2 hcm1).trans ?_
  iintro ⟨%e, %p, %e', %p', %fe0, %fe1, %fp0, %fp1, %fo0, %fo1, %feR, %fpR, %foR, %hL, %W', %hpure, Hpre⟩
  unfold evenPre
  icases Hpre with ⟨Hmw, HE0, HE1, HP0, HP1, Hte1, Hte2, Hsh1, Hsh2, Heix, Hpix, Heb, Hpb, Hbat, Hidr, Hs8, Hc0, Hc1, Hc2, Hc3, HO0, HO1, Hob, Hrest, HO⟩
  iapply (wp_wand_r frame (wpE (defs₀ (F := F)) 𝒱₀ (thr d L) none) Set.univ)
  isplitr [Hrest]
  · iapply (trip_even_last_core A d L q1 q2 r1 r2 qi v2 ⟨k, hk⟩ hk0 hk1 hk48 hk1' hcm2 hcm1 O W W' hpure.2 e p e' p' fe0 fe1 fp0 fp1 fo0 fo1 feR fpR foR hL.down hpure.1 hE hP hlast hc0 hc1 hc2 hc3)
    isplitl [Hmw]; · iexact Hmw
    isplitl [HE0]; · iexact HE0
    isplitl [HE1]; · iexact HE1
    isplitl [HP0]; · iexact HP0
    isplitl [HP1]; · iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexact Heb
    isplitl [Hpb]; · iexact Hpb
    isplitl [Hbat]; · iexact Hbat
    isplitl [Hidr]; · iexact Hidr
    isplitl [Hs8]; · iexact Hs8
    isplitl [Hc0]
    · iapply (Entails.of_eq (evl_chunk_congr d L (4 * k) hc0 (k1_off13 L ⟨k, hk⟩ 0#32) (k1_off13_inb L ⟨k, hk⟩ 0) (evl_off13 L ⟨k, hk⟩ 0) _)); iexact Hc0
    isplitl [Hc1]
    · iapply (Entails.of_eq (evl_chunk_congr d L (4 * k + 1) hc1 (k1_off13 L ⟨k, hk⟩ 1#32) (k1_off13_inb L ⟨k, hk⟩ 1) (evl_off13 L ⟨k, hk⟩ 1) _)); iexact Hc1
    isplitl [Hc2]
    · iapply (Entails.of_eq (evl_chunk_congr d L (4 * k + 2) hc2 (k1_off13 L ⟨k, hk⟩ 2#32) (k1_off13_inb L ⟨k, hk⟩ 2) (evl_off13 L ⟨k, hk⟩ 2) _)); iexact Hc2
    isplitl [Hc3]
    · iapply (Entails.of_eq (evl_chunk_congr d L (4 * k + 3) hc3 (k1_off13 L ⟨k, hk⟩ 3#32) (k1_off13_inb L ⟨k, hk⟩ 3) (evl_off13 L ⟨k, hk⟩ 3) _)); iexact Hc3
    isplitl [HO0]; · iexact HO0
    isplitl [HO1]; · iexact HO1
    isplitl [Hob]; · iexact Hob
    iexact HO
  · iintro %_ Hw
    iapply Hw
    iexact Hrest

end Cert.Kernel.Run.Sc

end
-- ==== Proof.ScTripFoldOddBits.lean ====
/-
  The two ends of an odd trip (1 ≤ k < 48): the even trip's with the slots of the id scratches and the id cells exchanged.
-/
import proofs.«204385_g66649302499670_cont_9to1c4b_43_34_alg».proof.Proof.ScTripFoldBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F] (A : Vals F) (d : Dev nD) (L : grid1.Coords)

variable (q1 q2 r1 r2 qi : PosShare TreeShare)

/-! ## An odd trip, 1 ≤ k < 48: the slots and the id cells exchanged -/

/-- What an odd trip's run starts from: the gathers of chunks 4k, 4k+1 in flight by slot 1; the next ids in flight into
    slot 0 on cell 8; the copy-outs of chunks 4k-2, 4k-1 in flight; chunks 4k … 4k+3 at the launch contents; the rest. -/
def oddPre (O : CellTallies nD τ sig (HIx 1)) (k : ℕ) (hk1' : k + 1 < 50)
    (hc0 : 4 * k < 200) (hc1 : 4 * k + 1 < 200) (hc2 : 4 * k + 2 < 200) (hc3 : 4 * k + 3 < 200) (hcm2 : 4 * k - 2 < 200) (hcm1 : 4 * k - 1 < 200)
    (e : Buf (Elt F) ((eixV).view.loc (thr d L))) (p : Buf (Elt F) ((pixV).view.loc (thr d L)))
    (e' : Buf (Elt F) ((eixV).view.loc (thr d L))) (p' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK1 d L e p) (W' : Waits sig (HIx 1)) : sProp 𝕄 :=
  iprop(Transfers.MayWaits (thr d L) (default : HIx 1) O
    ∗ flightE A d L 10 (hlf0 ebV) (lst eixV ![1, 0] linb_1_0) q1 fe0 e hL.1
    ∗ flightE A d L 11 (hlf1 ebV) (lst eixV ![1, 128] linb_1_128) q2 fe1 e hL.2.1
    ∗ flightP A d L 12 (hlf0 pbV) (lst pixV ![1, 0] linb_1_0) r1 fp0 p hL.2.2.1
    ∗ flightP A d L 13 (hlf1 pbV) (lst pixV ![1, 128] linb_1_128) r2 fp1 p hL.2.2.2
    ∗ teRest A d L q1 ∗ teRest A d L q2 ∗ shRest A d L r1 ∗ shRest A d L r2
    ∗ ((slot1 eixV).view.loc (thr d L)
          ↦[((slot1 eixV).view.set \ (lst eixV ![1, 0] linb_1_0).view.set) \ (lst eixV ![1, 128] linb_1_128).view.set]{fullShare} e)
    ∗ ((slot1 pixV).view.loc (thr d L)
          ↦[((slot1 pixV).view.set \ (lst pixV ![1, 0] linb_1_0).view.set) \ (lst pixV ![1, 128] linb_1_128).view.set]{fullShare} p)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ idsBatch A d L (8 : DmaSem sig) (slot0 eixV) (slot0 pixV) qi (idsOff L (k + 1)) (idsInb L (k + 1) hk1') e' p'
        (idsPayAt d L eidV (A.eid d) (idsOff L (k + 1)) (idsInb L (k + 1) hk1')) (idsPayAt d L pidV (A.pid d) (idsOff L (k + 1)) (idsInb L (k + 1) hk1'))
    ∗ idsRest A d L qi (idsOff L (k + 1)) (idsInb L (k + 1) hk1')
    ∗ semVal (cellOf d L 9) 0
    ∗ chunkPt d L (4 * k) hc0 (A.out0 d) ∗ chunkPt d L (4 * k + 1) hc1 (A.out0 d)
    ∗ chunkPt d L (4 * k + 2) hc2 (A.out0 d) ∗ chunkPt d L (4 * k + 3) hc3 (A.out0 d)
    ∗ flightO A d L 14 (hlf0 obV) (4 * k - 2) hcm2 fo0
    ∗ flightO A d L 15 (hlf1 obV) (4 * k - 1) hcm1 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- OPENING an odd trip. -/
theorem open_odd (O : CellTallies nD τ sig (HIx 1)) (W : Waits sig (HIx 1)) (k : ℕ) (hk0 : k % 2 = 1) (hk1 : 1 ≤ k) (hk50 : k < 50) (hk1' : k + 1 < 50)
    (hc0 : 4 * k < 200) (hc1 : 4 * k + 1 < 200) (hc2 : 4 * k + 2 < 200) (hc3 : 4 * k + 3 < 200) (hcm2 : 4 * k - 2 < 200) (hcm1 : 4 * k - 1 < 200) :
    inv A d L q1 q2 r1 r2 qi O W k PUnit.unit
      ⊢ iprop(∃ (e : Buf (Elt F) ((eixV).view.loc (thr d L))) (p : Buf (Elt F) ((pixV).view.loc (thr d L)))
          (e' : Buf (Elt F) ((eixV).view.loc (thr d L))) (p' : Buf (Elt F) ((pixV).view.loc (thr d L)))
          (fe0 : Buf (Elt F) ((hlf0 ebV).view.loc (thr d L))) (fe1 : Buf (Elt F) ((hlf1 ebV).view.loc (thr d L)))
          (fp0 : Buf (Elt F) ((hlf0 pbV).view.loc (thr d L))) (fp1 : Buf (Elt F) ((hlf1 pbV).view.loc (thr d L)))
          (fo0 : Buf (Elt F) ((hlf0 obV).view.loc (thr d L))) (fo1 : Buf (Elt F) ((hlf1 obV).view.loc (thr d L)))
          (feR : Buf (Elt F) ((ebV).view.loc (thr d L))) (fpR : Buf (Elt F) ((pbV).view.loc (thr d L))) (foR : Buf (Elt F) ((obV).view.loc (thr d L)))
          (hL : PLift (ListsOK1 d L e p)) (W' : Waits sig (HIx 1)),
          ⌜SlotVals1 A d L e p k hk50 ∧ ∀ x ∈ W', x ∈ W ∨ x.2 = none⌝
          ∗ oddPre A d L q1 q2 r1 r2 qi O k hk1' hc0 hc1 hc2 hc3 hcm2 hcm1 e p e' p' fe0 fe1 fp0 fp1 fo0 fo1 feR fpR foR hL.down W') := by
  unfold inv gatherPart idsPart
  rw [if_neg (show ¬ k % 2 = 0 by omega), if_neg (show ¬ k % 2 = 0 by omega)]
  unfold gatherPart1 idsPart0
  rw [dif_pos hk50, dif_pos hk1', outPart_chunks, dif_pos ⟨hk1, by omega⟩, chunks_open A d L k hk1 hc0 hc1 hc2 hc3]
  unfold oddPre
  iintro ⟨#Hmw, ⟨%e, %p, %hL, %hSV, ⟨%fe0, HE0⟩, ⟨%fe1, HE1⟩, ⟨%fp0, HP0⟩, ⟨%fp1, HP1⟩, Hte1, Hte2, Hsh1, Hsh2, Heix, Hpix, ⟨%feR, Heb⟩, ⟨%fpR, Hpb⟩⟩,
    ⟨%e', %p', Hbat, Hrest, Hs8⟩, ⟨⟨Hr200, Hc0, Hc1, Hc2, Hc3⟩, ⟨%fo0, HO0⟩, ⟨%fo1, HO1⟩, ⟨%foR, Hob⟩⟩, ⟨%W', %hW', HO⟩⟩
  iexists e, p, e', p', fe0, fe1, fp0, fp1, fo0, fo1, feR, fpR, foR, hL, W'
  isplitr; · ipureintro; exact ⟨hSV, hW'⟩
  isplitr; · iexact Hmw
  isplitl [HE0]; · iexact HE0
  isplitl [HE1]; · iexact HE1
  isplitl [HP0]; · iexact HP0
  isplitl [HP1]; · iexact HP1
  isplitl [Hte1]; · iexact Hte1
  isplitl [Hte2]; · iexact Hte2
  isplitl [Hsh1]; · iexact Hsh1
  isplitl [Hsh2]; · iexact Hsh2
  isplitl [Heix]; · iexact Heix
  isplitl [Hpix]; · iexact Hpix
  isplitl [Heb]; · iexact Heb
  isplitl [Hpb]; · iexact Hpb
  isplitl [Hbat]; · iexact Hbat
  isplitl [Hrest]; · iexact Hrest
  isplitl [Hs8]; · iexact Hs8
  isplitl [Hc0]; · iexact Hc0
  isplitl [Hc1]; · iexact Hc1
  isplitl [Hc2]; · iexact Hc2
  isplitl [Hc3]; · iexact Hc3
  isplitl [HO0]; · iexact HO0
  isplitl [HO1]; · iexact HO1
  isplitl [Hob]; · iexact Hob
  isplitl [Hr200]; · iexact Hr200
  iexact HO

/-- What an odd trip's run ends with: the gathers of chunks 4k+4, 4k+5 in flight by slot 0; the ids after next in flight
    into slot 1 on cell 9; chunks 4k-2 … 4k+1 holding the looked-up sums; the copy-outs of chunks 4k+2, 4k+3 in flight. -/
def oddPost (O : CellTallies nD τ sig (HIx 1)) (k : ℕ) (hk2' : k + 1 + 1 < 50)
    (hc0 : 4 * k < 200) (hc1 : 4 * k + 1 < 200) (hc2 : 4 * k + 2 < 200) (hc3 : 4 * k + 3 < 200) (hcm2 : 4 * k - 2 < 200) (hcm1 : 4 * k - 1 < 200)
    (e1 : Buf (Elt F) ((eixV).view.loc (thr d L))) (p1 : Buf (Elt F) ((pixV).view.loc (thr d L)))
    (e'' : Buf (Elt F) ((eixV).view.loc (thr d L))) (p'' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK0 d L e1 p1) (W' : Waits sig (HIx 1)) : sProp 𝕄 :=
  iprop(Transfers.MayWaits (thr d L) (default : HIx 1) O
    ∗ flightE A d L 10 (hlf0 ebV) (lst eixV ![0, 0] linb_0_0) q1 fe0 e1 hL.1
    ∗ flightE A d L 11 (hlf1 ebV) (lst eixV ![0, 128] linb_0_128) q2 fe1 e1 hL.2.1
    ∗ flightP A d L 12 (hlf0 pbV) (lst pixV ![0, 0] linb_0_0) r1 fp0 p1 hL.2.2.1
    ∗ flightP A d L 13 (hlf1 pbV) (lst pixV ![0, 128] linb_0_128) r2 fp1 p1 hL.2.2.2
    ∗ teRest A d L q1 ∗ teRest A d L q2 ∗ shRest A d L r1 ∗ shRest A d L r2
    ∗ ((slot0 eixV).view.loc (thr d L)
          ↦[((slot0 eixV).view.set \ (lst eixV ![0, 0] linb_0_0).view.set) \ (lst eixV ![0, 128] linb_0_128).view.set]{fullShare} e1)
    ∗ ((slot0 pixV).view.loc (thr d L)
          ↦[((slot0 pixV).view.set \ (lst pixV ![0, 0] linb_0_0).view.set) \ (lst pixV ![0, 128] linb_0_128).view.set]{fullShare} p1)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ idsBatch A d L (9 : DmaSem sig) (slot1 eixV) (slot1 pixV) qi (idsOff L (k + 1 + 1)) (idsInb L (k + 1 + 1) hk2') e'' p''
        (idsPayAt d L eidV (A.eid d) (idsOff L (k + 1 + 1)) (idsInb L (k + 1 + 1) hk2')) (idsPayAt d L pidV (A.pid d) (idsOff L (k + 1 + 1)) (idsInb L (k + 1 + 1) hk2'))
    ∗ idsRest A d L qi (idsOff L (k + 1 + 1)) (idsInb L (k + 1 + 1) hk2')
    ∗ semVal (cellOf d L 8) 0
    ∗ chunkPt d L (4 * k - 2) hcm2 (outFin A d) ∗ chunkPt d L (4 * k - 1) hcm1 (outFin A d)
    ∗ chunkPt d L (4 * k) hc0 (outFin A d) ∗ chunkPt d L (4 * k + 1) hc1 (outFin A d)
    ∗ flightO A d L 14 (hlf0 obV) (4 * k + 2) hc2 fo0
    ∗ flightO A d L 15 (hlf1 obV) (4 * k + 3) hc3 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- CLOSING an odd trip. -/
theorem close_odd (O : CellTallies nD τ sig (HIx 1)) (W : Waits sig (HIx 1)) (k : ℕ) (hk0 : k % 2 = 1) (hk1 : 1 ≤ k) (hk50 : k + 1 < 50) (hk2' : k + 1 + 1 < 50)
    (hc0 : 4 * k < 200) (hc1 : 4 * k + 1 < 200) (hc2 : 4 * k + 2 < 200) (hc3 : 4 * k + 3 < 200) (hcm2 : 4 * k - 2 < 200) (hcm1 : 4 * k - 1 < 200)
    (e1 : Buf (Elt F) ((eixV).view.loc (thr d L))) (p1 : Buf (Elt F) ((pixV).view.loc (thr d L)))
    (e'' : Buf (Elt F) ((eixV).view.loc (thr d L))) (p'' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK0 d L e1 p1) (hSV : SlotVals0 A d L e1 p1 (k + 1) hk50) (W' : Waits sig (HIx 1)) (hW' : ∀ x ∈ W', x ∈ W ∨ x.2 = none) :
    oddPost A d L q1 q2 r1 r2 qi O k hk2' hc0 hc1 hc2 hc3 hcm2 hcm1 e1 p1 e'' p'' fe0 fe1 fp0 fp1 fo0 fo1 feR fpR foR hL W'
      ⊢ inv A d L q1 q2 r1 r2 qi O W (k + 1) PUnit.unit := by
  unfold inv gatherPart idsPart
  rw [if_pos (show (k + 1) % 2 = 0 by omega), if_pos (show (k + 1) % 2 = 0 by omega)]
  unfold gatherPart0 idsPart1
  rw [dif_pos hk50, dif_pos hk2', outPart_chunks, dif_pos (⟨by omega, by omega⟩ : 1 ≤ k + 1 ∧ k + 1 ≤ 50),
    chunks_close A d L k hk1 hcm2 hcm1 hc0 hc1 hc3,
    exFlightO_congr A d L 14 (hlf0 obV) (show 4 * (k + 1) - 2 = 4 * k + 2 by omega) _ hc2,
    exFlightO_congr A d L 15 (hlf1 obV) (show 4 * (k + 1) - 1 = 4 * k + 3 by omega) _ hc3]
  unfold oddPost
  iintro ⟨#Hmw, HE0, HE1, HP0, HP1, Hte1, Hte2, Hsh1, Hsh2, Heix, Hpix, Heb, Hpb, Hbat, Hrest, Hs9, Hm2, Hm1, Hc0, Hc1, HO0, HO1, Hob, Hr200, HO⟩
  isplitr; · iexact Hmw
  isplitl [HE0 HE1 HP0 HP1 Hte1 Hte2 Hsh1 Hsh2 Heix Hpix Heb Hpb]
  · iexists e1, p1, ⟨hL⟩
    isplitr; · ipureintro; exact hSV
    isplitl [HE0]; · iexists fe0; iexact HE0
    isplitl [HE1]; · iexists fe1; iexact HE1
    isplitl [HP0]; · iexists fp0; iexact HP0
    isplitl [HP1]; · iexists fp1; iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexists feR; iexact Heb
    iexists fpR; iexact Hpb
  isplitl [Hbat Hrest Hs9]
  · iexists e'', p''
    isplitl [Hbat]; · iexact Hbat
    isplitl [Hrest]; · iexact Hrest
    iexact Hs9
  isplitl [Hm2 Hm1 Hc0 Hc1 HO0 HO1 Hob Hr200]
  · isplitl [Hm2 Hm1 Hc0 Hc1 Hr200]
    · isplitl [Hr200]; · iexact Hr200
      isplitl [Hm2]; · iexact Hm2
      isplitl [Hm1]; · iexact Hm1
      isplitl [Hc0]; · iexact Hc0
      iexact Hc1
    isplitl [HO0]; · iexists fo0; iexact HO0
    isplitl [HO1]; · iexists fo1; iexact HO1
    iexists foR; iexact Hob
  iexists W'
  isplitr; · ipureintro; exact hW'
  iexact HO

end Cert.Kernel.Run.Sc

end
-- ==== Proof.ScTripOddBits.lean ====
/-
  An odd trip 1 ≤ k ≤ 47 of the tile's 50-trip loop.

  Trip k gathers by the lists of id slot 1 while the ids of trip k + 1 land in slot 0. The four sub-steps in turn: the
  gathered halves of chunk 4k + j arrive, the copy-out that last used the sum buffer's half is drained, the add loop
  leaves the lanewise sums in that half, the half is copied out to chunk 4k + j, and the halves are lent to the gathers
  of chunk 4k + j + 2 (by quarters 2, 3 of slot 1, then by quarters 0, 1 of slot 0 once its ids have landed); in the
  last sub-step the ids of trip k + 2 are fetched into slot 1 as one batch of two copies. The trip takes the tile's
  invariant at k to the invariant at k + 1.
-/
import proofs.«204385_g66649302499670_cont_9to1c4b_43_34_alg».proof.Proof.ScTripBits
import proofs.«204385_g66649302499670_cont_9to1c4b_43_34_alg».proof.Proof.AddLoopBits
import proofs.«204385_g66649302499670_cont_9to1c4b_43_34_alg».proof.Proof.ScHalvesBits
import proofs.«204385_g66649302499670_cont_9to1c4b_43_34_alg».proof.Proof.ScSlotsBits
import proofs.«204385_g66649302499670_cont_9to1c4b_43_34_alg».proof.Proof.ScBookBits
import proofs.«204385_g66649302499670_cont_9to1c4b_43_34_alg».proof.Proof.ScTripFoldOddBits
import proofs.«204385_g66649302499670_cont_9to1c4b_43_34_alg».proof.Proof.ScCloseBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F] (A : Vals F) (d : Dev nD) (L : grid1.Coords)

/-- A 128-row window of the result at offset `off`, held whole. -/
abbrev od_chunkAt (off : Fin 2 → ℕ) (h : ∀ a, off a + S128x128.size a ≤ S819200x128.size a) (f : Buf (Elt F) ((outV).view.loc (thr d L))) : sProp 𝕄 :=
  ((outV).slice (Rect.unit (s := S819200x128) off S128x128.size h) (fun _ => rfl)).view.loc (thr d L)
    ↦[((outV).slice (Rect.unit (s := S819200x128) off S128x128.size h) (fun _ => rfl)).view.set]{fullShare} f

omit [FloatOps F] in
/-- A list's contents do not depend on how its offset is spelt. -/
theorem od_lst_read_congr (M : Memref sig .scVector .vmem S2x512 .i32) {off off' : Fin 2 → ℕ} (h : off = off')
    (hi : ∀ a, off a + S1x128.size a ≤ S2x512.size a) (hi' : ∀ a, off' a + S1x128.size a ≤ S2x512.size a)
    (e : Buf (Elt F) (M.view.loc (thr d L))) (x : S128.Idx) :
    (lst M off hi).view.read (Elt F) e x = (lst M off' hi').view.read (Elt F) e x := by subst h; rfl

/-- A resource set aside. -/
def od_Hide (P : sProp 𝕄) : sProp 𝕄 := P
omit [FloatOps F] in
theorem od_hide_eq (P : sProp 𝕄) : od_Hide P = P := rfl

omit [FloatOps F] in
/-- A slot's elements do not depend on how its offset is spelt. -/
theorem od_slot_set_congr (M : Memref sig .scVector .vmem S2x512 .i32) {off off' : Fin 2 → ℕ} (h : off = off')
    (hi : ∀ a, off a + S1x512.size a ≤ S2x512.size a) (hi' : ∀ a, off' a + S1x512.size a ≤ S2x512.size a) :
    ((M.slice (Rect.unit (s := S2x512) off S1x512.size hi) (fun _ => rfl)).squeeze S512 squeezes_S1x512_S512).view.set
      = ((M.slice (Rect.unit (s := S2x512) off' S1x512.size hi') (fun _ => rfl)).squeeze S512 squeezes_S1x512_S512).view.set := by subst h; rfl

omit [FloatOps F] in
theorem od_waits_insert {W S : Waits sig (HIx 1)} {a : SemLoc sig × HIx 1} (h : ∀ x ∈ S, x ∈ W ∨ x.2 = none) (ha : a.2 = none) :
    ∀ x ∈ insert a S, x ∈ W ∨ x.2 = none := by
  intro x hx
  rcases Finset.mem_insert.mp hx with rfl | hx
  · exact Or.inr ha
  · exact h x hx

omit [FloatOps F] in
theorem od_off43 (k : Fin k1_t1_loop.trips) : k1_off43 L k = idsOff L (k.val + 1 + 1) := by
  rw [k1_off43_eq]
  unfold idsOff
  exact congrArg (fun x : ℕ => (![x] : Fin 1 → ℕ)) (by omega)

omit [FloatOps F] in
theorem od_off13 (k : Fin k1_t1_loop.trips) (r : Fin 4) : k1_off13 L k (BitVec.ofNat 32 r.val) = chunkOff L (4 * k.val + r.val) := by
  rw [k1_off13_eq]; unfold chunkOff
  refine funext fun a => ?_
  match a with
  | 0 => show 51200 * (L 1).val + 25600 * (L 0).val + 512 * k.val + 128 * r.val = 51200 * (L 1).val + 25600 * (L 0).val + 128 * (4 * k.val + r.val); omega
  | 1 => rfl

omit [FloatOps F] in
/-- A cell of the id semaphores does not depend on how its index is spelt. -/
theorem od_sem6_congr {off off' : Fin 1 → ℕ} (h : off = off') (hi : ∀ a, off a + S1.size a ≤ S2.size a) (hi' : ∀ a, off' a + S1.size a ≤ S2.size a) :
    ((SemArray.slice cc1_scratch6 (Rect.unit (s := S2) off S1.size hi)).squeeze S_ squeezes_S1_S_).sem
      = ((SemArray.slice cc1_scratch6 (Rect.unit (s := S2) off' S1.size hi')).squeeze S_ squeezes_S1_S_).sem := by subst h; rfl

variable (q1 q2 r1 r2 qi : PosShare TreeShare)

set_option maxHeartbeats 4000000 in
/-- The run of an odd trip from what `open_odd` hands over (the four chunks spelt at the program's offsets) to what
    `close_odd` takes. -/
theorem od_run (v2 : BitVec 32) (k : Fin k1_t1_loop.trips) (hk0 : k.val % 2 = 1) (hk1 : 1 ≤ k.val) (hk48 : k.val < 48)
    (hk1' : k.val + 1 < 50)
    (hcm2 : 4 * k.val - 2 < 200) (hcm1 : 4 * k.val - 1 < 200)
    (O : CellTallies nD τ sig (HIx 1)) (W : Waits sig (HIx 1))
    (e : Buf (Elt F) ((eixV).view.loc (thr d L))) (p : Buf (Elt F) ((pixV).view.loc (thr d L)))
    (e' : Buf (Elt F) ((eixV).view.loc (thr d L))) (p' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK1 d L e p) (hSV : SlotVals1 A d L e p k.val k.isLt)
    (hE2 : ∀ x, ((lst eixV ![1, 256] linb_1_256).view.read (Elt F) e x).toNat < S100000x128.size gathers_S100000x128_S128x128.axis)
    (hE3 : ∀ x, ((lst eixV ![1, 384] linb_1_384).view.read (Elt F) e x).toNat < S100000x128.size gathers_S100000x128_S128x128.axis)
    (hP2 : ∀ x, ((lst pixV ![1, 256] linb_1_256).view.read (Elt F) p x).toNat < S1000x128.size gathers_S1000x128_S128x128.axis)
    (hP3 : ∀ x, ((lst pixV ![1, 384] linb_1_384).view.read (Elt F) p x).toNat < S1000x128.size gathers_S1000x128_S128x128.axis)
    (hE : ∀ j : S819200.Idx, (A.eid d j).toNat < 100000) (hP : ∀ j : S819200.Idx, (A.pid d j).toNat < 1000)
    (hk2' : k.val + 1 + 1 < 50) (hc0 : 4 * k.val < 200) (hc1 : 4 * k.val + 1 < 200) (hc2 : 4 * k.val + 2 < 200) (hc3 : 4 * k.val + 3 < 200) :
    iprop(Transfers.MayWaits (thr d L) (default : HIx 1) O
        ∗ flightE A d L 10 (hlf0 ebV) (lst eixV ![1, 0] linb_1_0) q1 fe0 e hL.1
        ∗ flightE A d L 11 (hlf1 ebV) (lst eixV ![1, 128] linb_1_128) q2 fe1 e hL.2.1
        ∗ flightP A d L 12 (hlf0 pbV) (lst pixV ![1, 0] linb_1_0) r1 fp0 p hL.2.2.1
        ∗ flightP A d L 13 (hlf1 pbV) (lst pixV ![1, 128] linb_1_128) r2 fp1 p hL.2.2.2
        ∗ teRest A d L q1 ∗ teRest A d L q2 ∗ shRest A d L r1 ∗ shRest A d L r2
        ∗ ((slot1 eixV).view.loc (thr d L)
              ↦[((slot1 eixV).view.set \ (lst eixV ![1, 0] linb_1_0).view.set) \ (lst eixV ![1, 128] linb_1_128).view.set]{fullShare} e)
        ∗ ((slot1 pixV).view.loc (thr d L)
              ↦[((slot1 pixV).view.set \ (lst pixV ![1, 0] linb_1_0).view.set) \ (lst pixV ![1, 128] linb_1_128).view.set]{fullShare} p)
        ∗ ((ebV).view.loc (thr d L) ↦[(Finset.univ \ (hlf0 ebV).view.set) \ (hlf1 ebV).view.set]{fullShare} feR)
        ∗ ((pbV).view.loc (thr d L) ↦[(Finset.univ \ (hlf0 pbV).view.set) \ (hlf1 pbV).view.set]{fullShare} fpR)
        ∗ idsBatch A d L (8 : DmaSem sig) (slot0 eixV) (slot0 pixV) qi (idsOff L (k.val + 1)) (idsInb L (k.val + 1) hk1') e' p'
            (idsPayAt d L eidV (A.eid d) (idsOff L (k.val + 1)) (idsInb L (k.val + 1) hk1')) (idsPayAt d L pidV (A.pid d) (idsOff L (k.val + 1)) (idsInb L (k.val + 1) hk1'))
        ∗ idsRest A d L qi (idsOff L (k.val + 1)) (idsInb L (k.val + 1) hk1')
        ∗ semVal (cellOf d L 9) 0
        ∗ od_chunkAt d L (k1_off13 L k 0#32) (k1_off13_inb L k 0) (A.out0 d)
        ∗ od_chunkAt d L (k1_off13 L k 1#32) (k1_off13_inb L k 1) (A.out0 d)
        ∗ od_chunkAt d L (k1_off13 L k 2#32) (k1_off13_inb L k 2) (A.out0 d)
        ∗ od_chunkAt d L (k1_off13 L k 3#32) (k1_off13_inb L k 3) (A.out0 d)
        ∗ flightO A d L 14 (hlf0 obV) (4 * k.val - 2) hcm2 fo0
        ∗ flightO A d L 15 (hlf1 obV) (4 * k.val - 1) hcm1 fo1
        ∗ ((obV).view.loc (thr d L) ↦[(Finset.univ \ (hlf0 obV).view.set) \ (hlf1 obV).view.set]{fullShare} foR)
        ∗ rest200 A d L k.val
        ∗ owes (thr d L) O W)
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 k ())
          (fun _ => iprop(∃ (fe0' : Buf (Elt F) ((hlf0 ebV).view.loc (thr d L))) (fe1' : Buf (Elt F) ((hlf1 ebV).view.loc (thr d L)))
              (fp0' : Buf (Elt F) ((hlf0 pbV).view.loc (thr d L))) (fp1' : Buf (Elt F) ((hlf1 pbV).view.loc (thr d L)))
              (fo0' : Buf (Elt F) ((hlf0 obV).view.loc (thr d L))) (fo1' : Buf (Elt F) ((hlf1 obV).view.loc (thr d L)))
              (feR' : Buf (Elt F) ((ebV).view.loc (thr d L))) (fpR' : Buf (Elt F) ((pbV).view.loc (thr d L))) (foR' : Buf (Elt F) ((obV).view.loc (thr d L)))
              (W'' : Waits sig (HIx 1)),
              oddPost A d L q1 q2 r1 r2 qi O k.val hk2' hc0 hc1 hc2 hc3 hcm2 hcm1 ((slot0 eixV).view.writes (Elt F) e' [⟨Rect.whole S512, idsPayAt d L eidV (A.eid d) (idsOff L (k.val + 1)) (idsInb L (k.val + 1) hk1')⟩]) ((slot0 pixV).view.writes (Elt F) p' [⟨Rect.whole S512, idsPayAt d L pidV (A.pid d) (idsOff L (k.val + 1)) (idsInb L (k.val + 1) hk1')⟩]) e p
                fe0' fe1' fp0' fp1' fo0' fo1' feR' fpR' foR'
                (listsOK0_of_slotVals A d L hE hP _ _ (k.val + 1) hk1' (slotVals0_after A d L e' p' k.val hk1' _ _ ⟨rfl, rfl⟩)) W''
              ∗ ⌜∀ x ∈ W'', x ∈ W ∨ x.2 = none⌝)) := by
  have hcond2 : k1_cond2 k = 1#1 := (cond2_iff k).mpr hk1
  have hcond3 := cond3_true k
  have hcond4 : k1_cond4 k = 1#1 := (cond4_iff k).mpr hk1
  have hcond5 := cond5_true k
  have hcond6 := cond6_true k
  have hcond7 : k1_cond7 k = 1#1 := (cond7_iff k).mpr (by omega)
  have hcond8 := cond8_true k
  have hcond9 : k1_cond9 k = 1#1 := (cond9_iff k).mpr hk48
  have hcond10 : k1_cond10 k = 1#1 := (cond10_iff k).mpr (by omega)
  have e14 : k1_off14 k = ![1, 256] := by rw [off14_eq, hk0]
  have e25 : k1_off25 k = ![1, 384] := by rw [off25_eq, hk0]
  have hk0' : (k.val + 1) % 2 = 0 := by omega
  have e36 : k1_off36 k = ![0, 0] := by rw [off36_eq, hk0']
  have e38 : k1_off38 k = ![0] := by rw [off38_eq, hk0']
  have e39 : k1_off39 k = ![0, 0] := by rw [off39_eq, hk0']
  have e42 : k1_off42 k = ![1, 0] := by rw [off42_eq, hk0]
  have e44 : k1_off44 k = ![1] := by rw [off44_eq, hk0]
  have e53 : k1_off53 k = ![0, 128] := by rw [off53_eq, hk0']
  letI : ClosedOff (k1_off14 k) := ⟨![1, 256], e14⟩
  letI : ClosedOff (k1_off25 k) := ⟨![1, 384], e25⟩
  letI : ClosedOff (k1_off36 k) := ⟨![0, 0], e36⟩
  letI : ClosedOff (k1_off38 k) := ⟨![0], e38⟩
  letI : ClosedOff (k1_off39 k) := ⟨![0, 0], e39⟩
  letI : ClosedOff (k1_off42 k) := ⟨![1, 0], e42⟩
  letI : ClosedOff (k1_off44 k) := ⟨![1], e44⟩
  letI : ClosedOff (k1_off53 k) := ⟨![0, 128], e53⟩
  have hinE2 : ∀ x, ((lst eixV (k1_off14 k) (k1_off14_inb k hcond3)).view.read (Elt F) e x).toNat < S100000x128.size gathers_S100000x128_S128x128.axis :=
    fun x => by rw [od_lst_read_congr d L eixV e14 _ linb_1_256]; exact hE2 x
  have hinP2 : ∀ x, ((lst pixV (k1_off14 k) (k1_off14_inb k hcond3)).view.read (Elt F) p x).toNat < S1000x128.size gathers_S1000x128_S128x128.axis :=
    fun x => by rw [od_lst_read_congr d L pixV e14 _ linb_1_256]; exact hP2 x
  have hinE3 : ∀ x, ((lst eixV (k1_off25 k) (k1_off25_inb k hcond5)).view.read (Elt F) e x).toNat < S100000x128.size gathers_S100000x128_S128x128.axis :=
    fun x => by rw [od_lst_read_congr d L eixV e25 _ linb_1_384]; exact hE3 x
  have hinP3 : ∀ x, ((lst pixV (k1_off25 k) (k1_off25_inb k hcond5)).view.read (Elt F) p x).toNat < S1000x128.size gathers_S1000x128_S128x128.axis :=
    fun x => by rw [od_lst_read_congr d L pixV e25 _ linb_1_384]; exact hP3 x
  unfold k1_t1_body
  iintro ⟨#Hmw, HE0, HE1, HP0, HP1, Hte1, Hte2, Hsh1, Hsh2, Heix, Hpix, Heb, Hpb, Hbat, Hidr, Hs8, Hc0, Hc1, Hc2, Hc3, HO0, HO1, Hob, Hr200, HO⟩
  ihave Hxe := (Entails.of_eq (show (((slot1 eixV).view.loc (thr d L)
        ↦[((slot1 eixV).view.set \ (lst eixV ![1, 0] linb_1_0).view.set) \ (lst eixV ![1, 128] linb_1_128).view.set]{fullShare} e : sProp 𝕄))
      = ((eixV).view.loc (thr d L)
        ↦[((Finset.univ \ (slot0 eixV).view.set) \ (lst eixV ![1, 0] linb_1_0).view.set) \ (lst eixV ![1, 128] linb_1_128).view.set]{fullShare} e) from by
          rw [slot1_eq_compl_e])) $$ Heix
  ihave Hxp := (Entails.of_eq (show (((slot1 pixV).view.loc (thr d L)
        ↦[((slot1 pixV).view.set \ (lst pixV ![1, 0] linb_1_0).view.set) \ (lst pixV ![1, 128] linb_1_128).view.set]{fullShare} p : sProp 𝕄))
      = ((pixV).view.loc (thr d L)
        ↦[((Finset.univ \ (slot0 pixV).view.set) \ (lst pixV ![1, 0] linb_1_0).view.set) \ (lst pixV ![1, 128] linb_1_128).view.set]{fullShare} p) from by
          rw [slot1_eq_compl_p])) $$ Hpix
  sl_exec_parts
  -- the first chunk's sums
  ihave Heb2 := (join0_e (F := F) d L _ _) $$ [Heb HE0_dst]
  · isplitl [Heb] <;> iassumption
  ihave Hpb2 := (join0_p (F := F) d L _ _) $$ [Hpb HP0_dst]
  · isplitl [Hpb] <;> iassumption
  ihave Hob2 := (join0_o (F := F) d L _ _) $$ [Hob HO0_src]
  · isplitl [Hob] <;> iassumption
  iapply (Add.addLoop_sub0 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Hxe1 := (Entails.of_eq (show (((lst eixV ![1, 0] linb_1_0).view.loc (thr d L) ↦[(Finset.univ \ (slot0 eixV).view.set) \ (lst eixV ![1, 128] linb_1_128).view.set]{fullShare} e : sProp 𝕄))
      = ((eixV).view.loc (thr d L) ↦[(Finset.univ \ (slot0 eixV).view.set) \ (lst eixV ![1, 128] linb_1_128).view.set]{fullShare} e) from rfl)) $$ Hxe
  ihave Hxp1 := (Entails.of_eq (show (((lst pixV ![1, 0] linb_1_0).view.loc (thr d L) ↦[(Finset.univ \ (slot0 pixV).view.set) \ (lst pixV ![1, 128] linb_1_128).view.set]{fullShare} p : sProp 𝕄))
      = ((pixV).view.loc (thr d L) ↦[(Finset.univ \ (slot0 pixV).view.set) \ (lst pixV ![1, 128] linb_1_128).view.set]{fullShare} p) from rfl)) $$ Hxp
  sl_exec_parts
  -- the second chunk's sums
  ihave Heb2 := (join1_e_of (F := F) d L restA_e _ _) $$ [Heb HE1_dst]
  · isplitl [Heb] <;> iassumption
  ihave Hpb2 := (join1_p_of (F := F) d L restA_p _ _) $$ [Hpb HP1_dst]
  · isplitl [Hpb] <;> iassumption
  ihave Hob2 := (join1_o_of (F := F) d L restA_o _ _) $$ [Hob HO1_src]
  · isplitl [Hob] <;> iassumption
  iapply (Add.addLoop_sub1 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Hxe2 := (Entails.of_eq (show (((lst eixV ![1, 128] linb_1_128).view.loc (thr d L) ↦[(Finset.univ \ (slot0 eixV).view.set) \ (lst eixV (k1_off14 k) (k1_off14_inb k hcond3)).view.set]{fullShare} e : sProp 𝕄))
      = ((eixV).view.loc (thr d L) ↦[(Finset.univ \ (slot0 eixV).view.set) \ (lst eixV (k1_off14 k) (k1_off14_inb k hcond3)).view.set]{fullShare} e) from rfl)) $$ Hxe1
  ihave Hxp2 := (Entails.of_eq (show (((lst pixV ![1, 128] linb_1_128).view.loc (thr d L) ↦[(Finset.univ \ (slot0 pixV).view.set) \ (lst pixV (k1_off14 k) (k1_off14_inb k hcond3)).view.set]{fullShare} p : sProp 𝕄))
      = ((pixV).view.loc (thr d L) ↦[(Finset.univ \ (slot0 pixV).view.set) \ (lst pixV (k1_off14 k) (k1_off14_inb k hcond3)).view.set]{fullShare} p) from rfl)) $$ Hxp1
  sl_exec_parts
  -- the third chunk's sums
  ihave Heb2 := (join0_e_of (F := F) d L restB_e _ _) $$ [Heb Heb_2]
  · isplitl [Heb] <;> iassumption
  ihave Hpb2 := (join0_p_of (F := F) d L restB_p _ _) $$ [Hpb Hpb_2]
  · isplitl [Hpb] <;> iassumption
  ihave Hob2 := (join0_o_of (F := F) d L restB_o _ _) $$ [Hob Hob_2]
  · isplitl [Hob] <;> iassumption
  iapply (Add.addLoop_sub2 (F := F) d L v2 k _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  sl_exec_parts
  have hsem8 : ((SemArray.slice cc1_scratch6 (Rect.unit (s := S2) (k1_off38 k) S1.size (k1_off38_inb k hcond7))).squeeze S_ squeezes_S1_S_).sem = (8 : DmaSem sig) :=
    (od_sem6_congr e38 (k1_off38_inb k hcond7) inb_S2_S1_0).trans rfl
  ihave Hbat2 := (Entails.of_eq (show (idsBatch A d L (8 : DmaSem sig) (slot0 eixV) (slot0 pixV) qi (idsOff L (k.val + 1)) (idsInb L (k.val + 1) hk1') e' p'
            (idsPayAt d L eidV (A.eid d) (idsOff L (k.val + 1)) (idsInb L (k.val + 1) hk1')) (idsPayAt d L pidV (A.pid d) (idsOff L (k.val + 1)) (idsInb L (k.val + 1) hk1')) : sProp 𝕄)
      = idsBatch A d L ((SemArray.slice cc1_scratch6 (Rect.unit (s := S2) (k1_off38 k) S1.size (k1_off38_inb k hcond7))).squeeze S_ squeezes_S1_S_).sem (slot0 eixV) (slot0 pixV) qi (idsOff L (k.val + 1)) (idsInb L (k.val + 1) hk1') e' p'
            (idsPayAt d L eidV (A.eid d) (idsOff L (k.val + 1)) (idsInb L (k.val + 1) hk1')) (idsPayAt d L pidV (A.pid d) (idsOff L (k.val + 1)) (idsInb L (k.val + 1) hk1')) from by rw [hsem8])) $$ Hbat
  sl_exec_parts
  -- slot 0 now holds trip k+1's ids: the next gathers read their lists off it
  have hSV1 : SlotVals0 A d L ((slot0 eixV).view.writes (Elt F) e' [⟨Rect.whole S512, idsPayAt d L eidV (A.eid d) (idsOff L (k.val + 1)) (idsInb L (k.val + 1) hk1')⟩]) ((slot0 pixV).view.writes (Elt F) p' [⟨Rect.whole S512, idsPayAt d L pidV (A.pid d) (idsOff L (k.val + 1)) (idsInb L (k.val + 1) hk1')⟩]) (k.val + 1) hk1' :=
    slotVals0_after A d L e' p' k.val hk1' _ _ ⟨rfl, rfl⟩
  have hinE4 : ∀ x, ((lst eixV (k1_off39 k) (k1_off39_inb k hcond7)).view.read (Elt F) ((slot0 eixV).view.writes (Elt F) e' [⟨Rect.whole S512, idsPayAt d L eidV (A.eid d) (idsOff L (k.val + 1)) (idsInb L (k.val + 1) hk1')⟩]) x).toNat < S100000x128.size gathers_S100000x128_S128x128.axis :=
    fun x => by rw [od_lst_read_congr d L eixV e39 _ linb_0_0]; exact hin_e_0_0 A d L hE _ _ (k.val + 1) hk1' hSV1 x
  have hinP4 : ∀ x, ((lst pixV (k1_off39 k) (k1_off39_inb k hcond7)).view.read (Elt F) ((slot0 pixV).view.writes (Elt F) p' [⟨Rect.whole S512, idsPayAt d L pidV (A.pid d) (idsOff L (k.val + 1)) (idsInb L (k.val + 1) hk1')⟩]) x).toNat < S1000x128.size gathers_S1000x128_S128x128.axis :=
    fun x => by rw [od_lst_read_congr d L pixV e39 _ linb_0_0]; exact hin_p_0_0 A d L hP _ _ (k.val + 1) hk1' hSV1 x
  have hinE5 : ∀ x, ((lst eixV (k1_off53 k) (k1_off53_inb k hcond10)).view.read (Elt F) ((slot0 eixV).view.writes (Elt F) e' [⟨Rect.whole S512, idsPayAt d L eidV (A.eid d) (idsOff L (k.val + 1)) (idsInb L (k.val + 1) hk1')⟩]) x).toNat < S100000x128.size gathers_S100000x128_S128x128.axis :=
    fun x => by rw [od_lst_read_congr d L eixV e53 _ linb_0_128]; exact hin_e_0_128 A d L hE _ _ (k.val + 1) hk1' hSV1 x
  have hinP5 : ∀ x, ((lst pixV (k1_off53 k) (k1_off53_inb k hcond10)).view.read (Elt F) ((slot0 pixV).view.writes (Elt F) p' [⟨Rect.whole S512, idsPayAt d L pidV (A.pid d) (idsOff L (k.val + 1)) (idsInb L (k.val + 1) hk1')⟩]) x).toNat < S1000x128.size gathers_S1000x128_S128x128.axis :=
    fun x => by rw [od_lst_read_congr d L pixV e53 _ linb_0_128]; exact hin_p_0_128 A d L hP _ _ (k.val + 1) hk1' hSV1 x
  ihave Hh1 := (Entails.of_eq (od_hide_eq _).symm) $$ Hxe2
  ihave Hh2 := (Entails.of_eq (od_hide_eq _).symm) $$ Hxp2
  ihave Hh3 := (Entails.of_eq (od_hide_eq _).symm) $$ HE1
  ihave Hh4 := (Entails.of_eq (od_hide_eq _).symm) $$ HP1
  ihave Hs0e := (Entails.of_eq (show (((slot0 eixV).view.loc (thr d L) ↦[(slot0 eixV).view.set]{fullShare} ((slot0 eixV).view.writes (Elt F) e' [⟨Rect.whole S512, idsPayAt d L eidV (A.eid d) (idsOff L (k.val + 1)) (idsInb L (k.val + 1) hk1')⟩]) : sProp 𝕄))
      = ((eixV).view.loc (thr d L) ↦[Finset.univ \ (slot1 eixV).view.set]{fullShare} ((slot0 eixV).view.writes (Elt F) e' [⟨Rect.whole S512, idsPayAt d L eidV (A.eid d) (idsOff L (k.val + 1)) (idsInb L (k.val + 1) hk1')⟩])) from by rw [slot0_eq_compl_e])) $$ Hbat2_dst0
  ihave Hs0p := (Entails.of_eq (show (((slot0 pixV).view.loc (thr d L) ↦[(slot0 pixV).view.set]{fullShare} ((slot0 pixV).view.writes (Elt F) p' [⟨Rect.whole S512, idsPayAt d L pidV (A.pid d) (idsOff L (k.val + 1)) (idsInb L (k.val + 1) hk1')⟩]) : sProp 𝕄))
      = ((pixV).view.loc (thr d L) ↦[Finset.univ \ (slot1 pixV).view.set]{fullShare} ((slot0 pixV).view.writes (Elt F) p' [⟨Rect.whole S512, idsPayAt d L pidV (A.pid d) (idsOff L (k.val + 1)) (idsInb L (k.val + 1) hk1')⟩])) from by rw [slot0_eq_compl_p])) $$ Hbat2_dst1
  sl_exec_parts
  -- the last sub-step: the second half's gathers land, the ids after next are fetched into slot 1
  ihave HE1 := (Entails.of_eq (od_hide_eq _)) $$ Hh3
  ihave HP1 := (Entails.of_eq (od_hide_eq _)) $$ Hh4
  ihave Hxe3 := (Entails.of_eq (od_hide_eq _)) $$ Hh1
  ihave Hxp3 := (Entails.of_eq (od_hide_eq _)) $$ Hh2
  ihave Hh5 := (Entails.of_eq (od_hide_eq _).symm) $$ Hs0e
  ihave Hh6 := (Entails.of_eq (od_hide_eq _).symm) $$ Hs0p
  sl_exec_parts
  icases Hidr with ⟨Hre, Hrp⟩
  ihave Heid := (pointsTo_split_subset (Finset.subset_univ _)).2 $$ [Hbat2_src0 Hre]
  · isplitl [Hbat2_src0] <;> iassumption
  ihave Hpid := (pointsTo_split_subset (Finset.subset_univ _)).2 $$ [Hbat2_src1 Hrp]
  · isplitl [Hbat2_src1] <;> iassumption
  have hset42e : (((eixV).slice (Rect.unit (s := S2x512) (k1_off42 k) S1x512.size (k1_off42_inb k hcond9)) (fun _ => rfl)).squeeze S512 squeezes_S1x512_S512).view.set = Finset.univ \ (slot0 eixV).view.set :=
    (od_slot_set_congr eixV e42 (k1_off42_inb k hcond9) inb_S2x512_S1x512_1_0).trans slot1_eq_compl_e
  have hset42p : (((pixV).slice (Rect.unit (s := S2x512) (k1_off42 k) S1x512.size (k1_off42_inb k hcond9)) (fun _ => rfl)).squeeze S512 squeezes_S1x512_S512).view.set = Finset.univ \ (slot0 pixV).view.set :=
    (od_slot_set_congr pixV e42 (k1_off42_inb k hcond9) inb_S2x512_S1x512_1_0).trans slot1_eq_compl_p
  ihave Hd1 := (Entails.of_eq (show ((eixV).view.loc (thr d L) ↦[Finset.univ \ (slot0 eixV).view.set]{fullShare} e : sProp 𝕄)
      = ((((eixV).slice (Rect.unit (s := S2x512) (k1_off42 k) S1x512.size (k1_off42_inb k hcond9)) (fun _ => rfl)).squeeze S512 squeezes_S1x512_S512).view.loc (thr d L) ↦[(((eixV).slice (Rect.unit (s := S2x512) (k1_off42 k) S1x512.size (k1_off42_inb k hcond9)) (fun _ => rfl)).squeeze S512 squeezes_S1x512_S512).view.set]{fullShare} e) from by rw [hset42e])) $$ Hxe3
  ihave Hd2 := (Entails.of_eq (show ((pixV).view.loc (thr d L) ↦[Finset.univ \ (slot0 pixV).view.set]{fullShare} p : sProp 𝕄)
      = ((((pixV).slice (Rect.unit (s := S2x512) (k1_off42 k) S1x512.size (k1_off42_inb k hcond9)) (fun _ => rfl)).squeeze S512 squeezes_S1x512_S512).view.loc (thr d L) ↦[(((pixV).slice (Rect.unit (s := S2x512) (k1_off42 k) S1x512.size (k1_off42_inb k hcond9)) (fun _ => rfl)).squeeze S512 squeezes_S1x512_S512).view.set]{fullShare} p) from by rw [hset42p])) $$ Hxp3
  have hsem9 : ((SemArray.slice cc1_scratch6 (Rect.unit (s := S2) (k1_off44 k) S1.size (k1_off44_inb k hcond9))).squeeze S_ squeezes_S1_S_).sem = (9 : DmaSem sig) :=
    (od_sem6_congr e44 (k1_off44_inb k hcond9) inb_S2_S1_1).trans rfl
  have hplan : Transfers.BatchOf (thr d L) (SemLoc.dma ((SemArray.slice cc1_scratch6 (Rect.unit (s := S2) (k1_off44 k) S1.size (k1_off44_inb k hcond9))).squeeze S_ squeezes_S1_S_).sem) 2 := trivial
  ihave Hs9 := (Entails.of_eq (show (semVal (cellOf d L 9) 0 : sProp 𝕄) = semVal (thr d L, SemLoc.dma ((SemArray.slice cc1_scratch6 (Rect.unit (s := S2) (k1_off44 k) S1.size (k1_off44_inb k hcond9))).squeeze S_ squeezes_S1_S_).sem) 0 from by rw [hsem9])) $$ Hs8
  sl_exec_parts
  -- the fourth chunk's sums
  ihave Hs0e := (Entails.of_eq (od_hide_eq _)) $$ Hh5
  ihave Hs0p := (Entails.of_eq (od_hide_eq _)) $$ Hh6
  ihave Heb2 := (join1_e_of (F := F) d L restA_e _ _) $$ [Heb Heb_2]
  · isplitl [Heb] <;> iassumption
  ihave Hpb2 := (join1_p_of (F := F) d L restA_p _ _) $$ [Hpb Hpb_2]
  · isplitl [Hpb] <;> iassumption
  ihave Hob2 := (join1_o_of (F := F) d L restA_o _ _) $$ [Hob Hob_2]
  · isplitl [Hob] <;> iassumption
  iapply (Add.addLoop_sub3 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  sl_exec_parts
  sl_step
  sl_unfold_run_names
  have cs8 : ∀ s s' : DmaSem sig, s = s' → (semVal (thr d L, SemLoc.dma s) 0 : sProp 𝕄) ⊢ semVal (thr d L, SemLoc.dma s') 0 :=
    fun s s' h => by subst h; exact .rfl
  have cs9 : ∀ s s' : DmaSem sig, s = s' →
      (idsBatch A d L s (slot1 eixV) (slot1 pixV) qi (idsOff L (k.val + 1 + 1)) (idsInb L (k.val + 1 + 1) hk2') e p
          (idsPayAt d L eidV (A.eid d) (idsOff L (k.val + 1 + 1)) (idsInb L (k.val + 1 + 1) hk2')) (idsPayAt d L pidV (A.pid d) (idsOff L (k.val + 1 + 1)) (idsInb L (k.val + 1 + 1) hk2')) : sProp 𝕄)
      ⊢ idsBatch A d L s' (slot1 eixV) (slot1 pixV) qi (idsOff L (k.val + 1 + 1)) (idsInb L (k.val + 1 + 1) hk2') e p
          (idsPayAt d L eidV (A.eid d) (idsOff L (k.val + 1 + 1)) (idsInb L (k.val + 1 + 1) hk2')) (idsPayAt d L pidV (A.pid d) (idsOff L (k.val + 1 + 1)) (idsInb L (k.val + 1 + 1) hk2')) :=
    fun s s' h => by subst h; exact .rfl
  have e43 := od_off43 L k
  generalize_proofs at *
  generalize h39 : k1_off39 k = o39, h53 : k1_off53 k = o53, h38 : k1_off38 k = o38, h44 : k1_off44 k = o44, h42 : k1_off42 k = o42, h43 : k1_off43 L k = o43 at *
  subst e39 e53 e38 e44 e42 e43
  have hsem8' : ((SemArray.slice cc1_scratch6 (Rect.unit (s := S2) ![0] S1.size inb_S2_S1_0)).squeeze S_ squeezes_S1_S_).sem = (8 : DmaSem sig) := rfl
  have hsem9' : ((SemArray.slice cc1_scratch6 (Rect.unit (s := S2) ![1] S1.size inb_S2_S1_1)).squeeze S_ squeezes_S1_S_).sem = (9 : DmaSem sig) := rfl
  iexists _, _, _, _, _, _, _, _, _, _
  isplitl [HE0 HE1 HP0 HP1 Hte1 Hte2 Hsh1 Hsh2 Hs0e Hs0p Heb Hpb Hs9 Heid Hpid Hbat2 HO0_dst HO1_dst Hc0 Hc1 HO0 HO1 Hob Hr200 HO]
  · unfold oddPost
    isplitr; · iexact Hmw
    isplitl [HE0]; · iexact HE0
    isplitl [HE1]; · iexact HE1
    isplitl [HP0]; · iexact HP0
    isplitl [HP1]; · iexact HP1
    isplitl [Hte1]; · iexact Hte1
    isplitl [Hte2]; · iexact Hte2
    isplitl [Hsh1]; · iexact Hsh1
    isplitl [Hsh2]; · iexact Hsh2
    isplitl [Hs0e]; · irw [slot0_eq_compl_e]; iexact Hs0e
    isplitl [Hs0p]; · irw [slot0_eq_compl_p]; iexact Hs0p
    isplitl [Heb]; · irw [← restB_e]; iexact Heb
    isplitl [Hpb]; · irw [← restB_p]; iexact Hpb
    isplitl [Hs9]
    · iapply (cs9 _ _ hsem9')
      iexact Hs9
    isplitl [Heid Hpid]
    · isplitl [Heid]
      · iexact Heid
      · iexact Hpid
    isplitl [Hbat2]
    · iapply (cs8 _ _ hsem8')
      iexact Hbat2
    isplitl [HO0_dst]; · rw [chunkPt_eq]; iexact HO0_dst
    isplitl [HO1_dst]; · rw [chunkPt_eq]; iexact HO1_dst
    isplitl [Hc0]
    · iapply (Entails.of_eq (chunk_delivered0 A d L (4 * k.val) hc0 (k1_off13 L k 0#32) (k1_off13_inb L k 0) (od_off13 L k 0) _ _ _ _ _
        ((lst eixV ![1, 0] linb_1_0).view.read (Elt F) e) ((lst pixV ![1, 0] linb_1_0).view.read (Elt F) p) hL.1 hL.2.2.1 rfl
        ((read_piecewise_hlf0 d L ebV _ _).trans (read_write_hlf0 d L ebV _ _)) ((read_piecewise_hlf0 d L pbV _ _).trans (read_write_hlf0 d L pbV _ _))
        (ids_e_1_0 A d L e p k.val k.isLt hSV) (ids_p_1_0 A d L e p k.val k.isLt hSV)))
      iexact Hc0
    isplitl [Hc1]
    · iapply (Entails.of_eq (chunk_delivered1 A d L (4 * k.val + 1) hc1 (k1_off13 L k 1#32) (k1_off13_inb L k 1) (od_off13 L k 1) _ _ _ _ _
        ((lst eixV ![1, 128] linb_1_128).view.read (Elt F) e) ((lst pixV ![1, 128] linb_1_128).view.read (Elt F) p) hL.2.1 hL.2.2.2 rfl
        ((read_piecewise_hlf1 d L ebV _ _).trans (read_write_hlf1 d L ebV _ _)) ((read_piecewise_hlf1 d L pbV _ _).trans (read_write_hlf1 d L pbV _ _))
        (ids_e_1_128 A d L e p k.val k.isLt hSV) (ids_p_1_128 A d L e p k.val k.isLt hSV)))
      iexact Hc1
    isplitl [HO0]
    · iapply (Entails.of_eq (flight_delivered0 A d L 14 (4 * k.val + 2) hc2 (k1_off13 L k 2#32) (k1_off13_inb L k 2) (od_off13 L k 2) _ _ _ _ _
        ((lst eixV (k1_off14 k) (k1_off14_inb k hcond3)).view.read (Elt F) e) ((lst pixV (k1_off14 k) (k1_off14_inb k hcond3)).view.read (Elt F) p) hinE2 hinP2 rfl
        ((read_piecewise_hlf0 d L ebV _ _).trans (read_write_hlf0 d L ebV _ _)) ((read_piecewise_hlf0 d L pbV _ _).trans (read_write_hlf0 d L pbV _ _))
        (fun x => by rw [od_lst_read_congr d L eixV e14 _ linb_1_256]; exact ids_e_1_256 A d L e p k.val k.isLt hSV x) (fun x => by rw [od_lst_read_congr d L pixV e14 _ linb_1_256]; exact ids_p_1_256 A d L e p k.val k.isLt hSV x)))
      iexact HO0
    isplitl [HO1]
    · iapply (Entails.of_eq (flight_delivered1 A d L 15 (4 * k.val + 3) hc3 (k1_off13 L k 3#32) (k1_off13_inb L k 3) (od_off13 L k 3) _ _ _ _ _
        ((lst eixV (k1_off25 k) (k1_off25_inb k hcond5)).view.read (Elt F) e) ((lst pixV (k1_off25 k) (k1_off25_inb k hcond5)).view.read (Elt F) p) hinE3 hinP3 rfl
        ((read_piecewise_hlf1 d L ebV _ _).trans (read_write_hlf1 d L ebV _ _)) ((read_piecewise_hlf1 d L pbV _ _).trans (read_write_hlf1 d L pbV _ _))
        (fun x => by rw [od_lst_read_congr d L eixV e25 _ linb_1_384]; exact ids_e_1_384 A d L e p k.val k.isLt hSV x) (fun x => by rw [od_lst_read_congr d L pixV e25 _ linb_1_384]; exact ids_p_1_384 A d L e p k.val k.isLt hSV x)))
      iexact HO1
    isplitl [Hob]; · irw [← restB_o]; iexact Hob
    isplitl [Hr200]; · iexact Hr200
    iexact HO
  · ipureintro
    repeat (first | exact fun x hx => Or.inl hx | refine od_waits_insert ?_ rfl)

omit [FloatOps F] in
theorem od_chunk_congr (n : ℕ) (hn : n < 200) (off : Fin 2 → ℕ) (hoff : ∀ a, off a + S128x128.size a ≤ S819200x128.size a)
    (eoff : off = chunkOff L n) (f : Buf (Elt F) ((outV).view.loc (thr d L))) :
    chunkPt d L n hn f = od_chunkAt d L off hoff f := by
  subst eoff; rfl

set_option maxHeartbeats 4000000 in
/-- An odd trip 1 ≤ k ≤ 47 of the tile's loop. -/
theorem trip_odd (hE : ∀ j, (A.eid d j).toNat < 100000) (hP : ∀ j, (A.pid d j).toNat < 1000) (v2 : BitVec 32)
    (O : CellTallies nD τ sig (HIx 1)) (W : Waits sig (HIx 1))
    (k : ℕ) (hk : k < 50) (hk0 : k % 2 = 1) (hk49 : k < 49) :
    inv A d L q1 q2 r1 r2 qi O W k PUnit.unit
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 ⟨k, hk⟩ ())
          (fun _ => inv A d L q1 q2 r1 r2 qi O W (k + 1) PUnit.unit) := by
  have hk1 : 1 ≤ k := by omega
  have hk48 : k < 48 := by omega
  have hk1' : k + 1 < 50 := by omega
  have hk2' : k + 1 + 1 < 50 := by omega
  have hc0 : 4 * k < 200 := by omega
  have hc1 : 4 * k + 1 < 200 := by omega
  have hc2 : 4 * k + 2 < 200 := by omega
  have hc3 : 4 * k + 3 < 200 := by omega
  have hcm2 : 4 * k - 2 < 200 := by omega
  have hcm1 : 4 * k - 1 < 200 := by omega
  refine (open_odd A d L q1 q2 r1 r2 qi O W k hk0 hk1 hk hk1' hc0 hc1 hc2 hc3 hcm2 hcm1).trans ?_
  iintro ⟨%e, %p, %e', %p', %fe0, %fe1, %fp0, %fp1, %fo0, %fo1, %feR, %fpR, %foR, %hL, %W', %hpure, Hpre⟩
  unfold oddPre
  icases Hpre with ⟨Hmw, HE0, HE1, HP0, HP1, Hte1, Hte2, Hsh1, Hsh2, Heix, Hpix, Heb, Hpb, Hbat, Hidr, Hs8, Hc0, Hc1, Hc2, Hc3, HO0, HO1, Hob, Hrest, HO⟩
  iapply (wp_wand_r frame (wpE (defs₀ (F := F)) 𝒱₀ (thr d L) none) Set.univ)
  isplitl [Hmw HE0 HE1 HP0 HP1 Hte1 Hte2 Hsh1 Hsh2 Heix Hpix Heb Hpb Hbat Hidr Hs8 Hc0 Hc1 Hc2 Hc3 HO0 HO1 Hob Hrest HO]
  · iapply (od_run A d L q1 q2 r1 r2 qi v2 ⟨k, hk⟩ hk0 hk1 hk48 hk1' hcm2 hcm1 O W' e p e' p' fe0 fe1 fp0 fp1 fo0 fo1 feR fpR foR hL.down hpure.1
        (hin_e_1_256 A d L hE e p k hk hpure.1) (hin_e_1_384 A d L hE e p k hk hpure.1) (hin_p_1_256 A d L hP e p k hk hpure.1) (hin_p_1_384 A d L hP e p k hk hpure.1)
        hE hP hk2' hc0 hc1 hc2 hc3)
    isplitl [Hmw]; · iexact Hmw
    isplitl [HE0]; · iexact HE0
    isplitl [HE1]; · iexact HE1
    isplitl [HP0]; · iexact HP0
    isplitl [HP1]; · iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexact Heb
    isplitl [Hpb]; · iexact Hpb
    isplitl [Hbat]; · iexact Hbat
    isplitl [Hidr]; · iexact Hidr
    isplitl [Hs8]; · iexact Hs8
    isplitl [Hc0]
    · iapply (Entails.of_eq (od_chunk_congr d L (4 * k) hc0 (k1_off13 L ⟨k, hk⟩ 0#32) (k1_off13_inb L ⟨k, hk⟩ 0) (od_off13 L ⟨k, hk⟩ 0) _)); iexact Hc0
    isplitl [Hc1]
    · iapply (Entails.of_eq (od_chunk_congr d L (4 * k + 1) hc1 (k1_off13 L ⟨k, hk⟩ 1#32) (k1_off13_inb L ⟨k, hk⟩ 1) (od_off13 L ⟨k, hk⟩ 1) _)); iexact Hc1
    isplitl [Hc2]
    · iapply (Entails.of_eq (od_chunk_congr d L (4 * k + 2) hc2 (k1_off13 L ⟨k, hk⟩ 2#32) (k1_off13_inb L ⟨k, hk⟩ 2) (od_off13 L ⟨k, hk⟩ 2) _)); iexact Hc2
    isplitl [Hc3]
    · iapply (Entails.of_eq (od_chunk_congr d L (4 * k + 3) hc3 (k1_off13 L ⟨k, hk⟩ 3#32) (k1_off13_inb L ⟨k, hk⟩ 3) (od_off13 L ⟨k, hk⟩ 3) _)); iexact Hc3
    isplitl [HO0]; · iexact HO0
    isplitl [HO1]; · iexact HO1
    isplitl [Hob]; · iexact Hob
    isplitl [Hrest]; · iexact Hrest
    iexact HO
  · iintro %_ ⟨%fe0', %fe1', %fp0', %fp1', %fo0', %fo1', %feR', %fpR', %foR', %W'', Hpost, %hW''⟩
    iapply (close_odd A d L q1 q2 r1 r2 qi O W k hk0 hk1 hk1' hk2' hc0 hc1 hc2 hc3 hcm2 hcm1 _ _ e p fe0' fe1' fp0' fp1' fo0' fo1' feR' fpR' foR'
      (listsOK0_of_slotVals A d L hE hP _ _ (k + 1) hk1' (slotVals0_after A d L e' p' k hk1' _ _ ⟨rfl, rfl⟩))
      (slotVals0_after A d L e' p' k hk1' _ _ ⟨rfl, rfl⟩) W''
      (fun x hx => (hW'' x hx).elim (fun h => hpure.2 x h) Or.inr))
    iexact Hpost

end Cert.Kernel.Run.Sc

end
-- ==== Proof.ScTripLastBits.lean ====
/-
  The last trip of the tile's loop: an odd trip in which no further ids are waited for or fetched and no further gathers
  are started, so that at its end the gathered buffers, both id slots and every share of the tables and the id arrays are
  back in hand; only the last two copy-outs are still in flight.
-/
import proofs.«204385_g66649302499670_cont_9to1c4b_43_34_alg».proof.Proof.ScTripBits
import proofs.«204385_g66649302499670_cont_9to1c4b_43_34_alg».proof.Proof.AddLoopBits
import proofs.«204385_g66649302499670_cont_9to1c4b_43_34_alg».proof.Proof.ScHalvesBits
import proofs.«204385_g66649302499670_cont_9to1c4b_43_34_alg».proof.Proof.ScSlotsBits
import proofs.«204385_g66649302499670_cont_9to1c4b_43_34_alg».proof.Proof.ScBookBits
import proofs.«204385_g66649302499670_cont_9to1c4b_43_34_alg».proof.Proof.ScTripFoldOddBits
import proofs.«204385_g66649302499670_cont_9to1c4b_43_34_alg».proof.Proof.ScTripFoldEdgeBits
import proofs.«204385_g66649302499670_cont_9to1c4b_43_34_alg».proof.Proof.ScCloseBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F] (A : Vals F) (d : Dev nD) (L : grid1.Coords)

variable [FloatOps F] (A : Vals F) (d : Dev nD) (L : grid1.Coords)

/-- A 128-row window of the result at offset `off`, held whole. -/
abbrev l_chunkAt (off : Fin 2 → ℕ) (h : ∀ a, off a + S128x128.size a ≤ S819200x128.size a) (f : Buf (Elt F) ((outV).view.loc (thr d L))) : sProp 𝕄 :=
  ((outV).slice (Rect.unit (s := S819200x128) off S128x128.size h) (fun _ => rfl)).view.loc (thr d L)
    ↦[((outV).slice (Rect.unit (s := S819200x128) off S128x128.size h) (fun _ => rfl)).view.set]{fullShare} f

omit [FloatOps F] in
/-- A list's contents do not depend on how its offset is spelt. -/
theorem l_lst_read_congr (M : Memref sig .scVector .vmem S2x512 .i32) {off off' : Fin 2 → ℕ} (h : off = off')
    (hi : ∀ a, off a + S1x128.size a ≤ S2x512.size a) (hi' : ∀ a, off' a + S1x128.size a ≤ S2x512.size a)
    (e : Buf (Elt F) (M.view.loc (thr d L))) (x : S128.Idx) :
    (lst M off hi).view.read (Elt F) e x = (lst M off' hi').view.read (Elt F) e x := by subst h; rfl

/-- A resource set aside: the executor does not read it as a held buffer. -/
def l_Hide (P : sProp 𝕄) : sProp 𝕄 := P
omit [FloatOps F] in
theorem l_hide_eq (P : sProp 𝕄) : l_Hide P = P := rfl

omit [FloatOps F] in
/-- A slot's elements do not depend on how its offset is spelt. -/
theorem l_slot_set_congr (M : Memref sig .scVector .vmem S2x512 .i32) {off off' : Fin 2 → ℕ} (h : off = off')
    (hi : ∀ a, off a + S1x512.size a ≤ S2x512.size a) (hi' : ∀ a, off' a + S1x512.size a ≤ S2x512.size a) :
    ((M.slice (Rect.unit (s := S2x512) off S1x512.size hi) (fun _ => rfl)).squeeze S512 squeezes_S1x512_S512).view.set
      = ((M.slice (Rect.unit (s := S2x512) off' S1x512.size hi') (fun _ => rfl)).squeeze S512 squeezes_S1x512_S512).view.set := by subst h; rfl

omit [FloatOps F] in
theorem l_waits_insert {W S : Waits sig (HIx 1)} {a : SemLoc sig × HIx 1} (h : ∀ x ∈ S, x ∈ W ∨ x.2 = none) (ha : a.2 = none) :
    ∀ x ∈ insert a S, x ∈ W ∨ x.2 = none := by
  intro x hx
  rcases Finset.mem_insert.mp hx with rfl | hx
  · exact Or.inr ha
  · exact h x hx

omit [FloatOps F] in
theorem l_off43 (k : Fin k1_t1_loop.trips) : k1_off43 L k = idsOff L (k.val + 1 + 1) := by
  rw [k1_off43_eq]
  unfold idsOff
  exact congrArg (fun x : ℕ => (![x] : Fin 1 → ℕ)) (by omega)

omit [FloatOps F] in
theorem l_off13 (k : Fin k1_t1_loop.trips) (r : Fin 4) : k1_off13 L k (BitVec.ofNat 32 r.val) = chunkOff L (4 * k.val + r.val) := by
  rw [k1_off13_eq]; unfold chunkOff
  refine funext fun a => ?_
  match a with
  | 0 => show 51200 * (L 1).val + 25600 * (L 0).val + 512 * k.val + 128 * r.val = 51200 * (L 1).val + 25600 * (L 0).val + 128 * (4 * k.val + r.val); omega
  | 1 => rfl

omit [FloatOps F] in
/-- A cell of the id semaphores does not depend on how its index is spelt. -/
theorem l_sem6_congr {off off' : Fin 1 → ℕ} (h : off = off') (hi : ∀ a, off a + S1.size a ≤ S2.size a) (hi' : ∀ a, off' a + S1.size a ≤ S2.size a) :
    ((SemArray.slice cc1_scratch6 (Rect.unit (s := S2) off S1.size hi)).squeeze S_ squeezes_S1_S_).sem
      = ((SemArray.slice cc1_scratch6 (Rect.unit (s := S2) off' S1.size hi')).squeeze S_ squeezes_S1_S_).sem := by subst h; rfl

variable (q1 q2 r1 r2 qi : PosShare TreeShare)

omit [FloatOps F] in
/-- A row buffer's second half and the buffer off that half, joined: the buffer whole. -/
theorem l_join_whole (M : Memref sig .scVector .vmem S2x128x128 .f32) (hM : M.IsWhole) (f g : Buf (Elt F) (M.view.loc (thr d L))) :
    iprop((M.view.loc (thr d L) ↦[(hlf1 M).view.set]{fullShare} g) ∗ (M.view.loc (thr d L) ↦[M.view.set \ (half1 M).view.set]{fullShare} f))
      ⊢ (M.view.loc (thr d L) ↦[Finset.univ]{fullShare} ((hlf1 M).view.set.piecewise g f) : sProp 𝕄) := by
  have hs : (hlf1 M).view.set ⊆ M.view.set := by rw [hM.set_eq_univ]; exact Finset.subset_univ _
  have h : iprop((M.view.loc (thr d L) ↦[(hlf1 M).view.set]{fullShare} g) ∗ (M.view.loc (thr d L) ↦[M.view.set \ (hlf1 M).view.set]{fullShare} f))
      ⊢ (M.view.loc (thr d L) ↦[M.view.set]{fullShare} ((hlf1 M).view.set.piecewise g f) : sProp 𝕄) := pointsTo_join_subset hs
  rw [hM.set_eq_univ] at h ⊢
  exact h

set_option maxHeartbeats 4000000 in
theorem l_run (v2 : BitVec 32) (k : Fin k1_t1_loop.trips) (hk0 : k.val % 2 = 1) (hk1 : 1 ≤ k.val) (hlast : ¬ k.val + 1 < 50)
    (hcm2 : 4 * k.val - 2 < 200) (hcm1 : 4 * k.val - 1 < 200)
    (O : CellTallies nD τ sig (HIx 1)) (W : Waits sig (HIx 1))
    (e : Buf (Elt F) ((eixV).view.loc (thr d L))) (p : Buf (Elt F) ((pixV).view.loc (thr d L)))
    (e' : Buf (Elt F) ((eixV).view.loc (thr d L))) (p' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (fo0 : Buf (Elt F) ((hlf0 obV).view.loc (thr d L))) (fo1 : Buf (Elt F) ((hlf1 obV).view.loc (thr d L)))
    (feR : Buf (Elt F) ((ebV).view.loc (thr d L))) (fpR : Buf (Elt F) ((pbV).view.loc (thr d L))) (foR : Buf (Elt F) ((obV).view.loc (thr d L)))
    (hL : ListsOK1 d L e p) (hSV : SlotVals1 A d L e p k.val k.isLt)
    (hE2 : ∀ x, ((lst eixV ![1, 256] linb_1_256).view.read (Elt F) e x).toNat < S100000x128.size gathers_S100000x128_S128x128.axis)
    (hE3 : ∀ x, ((lst eixV ![1, 384] linb_1_384).view.read (Elt F) e x).toNat < S100000x128.size gathers_S100000x128_S128x128.axis)
    (hP2 : ∀ x, ((lst pixV ![1, 256] linb_1_256).view.read (Elt F) p x).toNat < S1000x128.size gathers_S1000x128_S128x128.axis)
    (hP3 : ∀ x, ((lst pixV ![1, 384] linb_1_384).view.read (Elt F) p x).toNat < S1000x128.size gathers_S1000x128_S128x128.axis)
    (hE : ∀ j : S819200.Idx, (A.eid d j).toNat < 100000) (hP : ∀ j : S819200.Idx, (A.pid d j).toNat < 1000)
    (hc0 : 4 * k.val < 200) (hc1 : 4 * k.val + 1 < 200) (hc2 : 4 * k.val + 2 < 200) (hc3 : 4 * k.val + 3 < 200) :
    iprop(Transfers.MayWaits (thr d L) (default : HIx 1) O
        ∗ flightE A d L 10 (hlf0 ebV) (lst eixV ![1, 0] linb_1_0) q1 fe0 e hL.1
        ∗ flightE A d L 11 (hlf1 ebV) (lst eixV ![1, 128] linb_1_128) q2 fe1 e hL.2.1
        ∗ flightP A d L 12 (hlf0 pbV) (lst pixV ![1, 0] linb_1_0) r1 fp0 p hL.2.2.1
        ∗ flightP A d L 13 (hlf1 pbV) (lst pixV ![1, 128] linb_1_128) r2 fp1 p hL.2.2.2
        ∗ teRest A d L q1 ∗ teRest A d L q2 ∗ shRest A d L r1 ∗ shRest A d L r2
        ∗ ((slot1 eixV).view.loc (thr d L)
              ↦[((slot1 eixV).view.set \ (lst eixV ![1, 0] linb_1_0).view.set) \ (lst eixV ![1, 128] linb_1_128).view.set]{fullShare} e)
        ∗ ((slot1 pixV).view.loc (thr d L)
              ↦[((slot1 pixV).view.set \ (lst pixV ![1, 0] linb_1_0).view.set) \ (lst pixV ![1, 128] linb_1_128).view.set]{fullShare} p)
        ∗ ((ebV).view.loc (thr d L) ↦[(Finset.univ \ (hlf0 ebV).view.set) \ (hlf1 ebV).view.set]{fullShare} feR)
        ∗ ((pbV).view.loc (thr d L) ↦[(Finset.univ \ (hlf0 pbV).view.set) \ (hlf1 pbV).view.set]{fullShare} fpR)
        ∗ ((eidV).view.loc (thr d L) ↦{qi} A.eid d) ∗ ((pidV).view.loc (thr d L) ↦{qi} A.pid d)
        ∗ ((slot0 eixV).view.loc (thr d L) ↦[(slot0 eixV).view.set]{fullShare} e') ∗ ((slot0 pixV).view.loc (thr d L) ↦[(slot0 pixV).view.set]{fullShare} p')
        ∗ semVal (cellOf d L 8) 0 ∗ semVal (cellOf d L 9) 0
        ∗ l_chunkAt d L (k1_off13 L k 0#32) (k1_off13_inb L k 0) (A.out0 d)
        ∗ l_chunkAt d L (k1_off13 L k 1#32) (k1_off13_inb L k 1) (A.out0 d)
        ∗ l_chunkAt d L (k1_off13 L k 2#32) (k1_off13_inb L k 2) (A.out0 d)
        ∗ l_chunkAt d L (k1_off13 L k 3#32) (k1_off13_inb L k 3) (A.out0 d)
        ∗ flightO A d L 14 (hlf0 obV) (4 * k.val - 2) hcm2 fo0
        ∗ flightO A d L 15 (hlf1 obV) (4 * k.val - 1) hcm1 fo1
        ∗ ((obV).view.loc (thr d L) ↦[(Finset.univ \ (hlf0 obV).view.set) \ (hlf1 obV).view.set]{fullShare} foR)
        ∗ rest200 A d L k.val
        ∗ owes (thr d L) O W)
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 k ())
          (fun _ => iprop(∃ (feW : Buf (Elt F) ((ebV).view.loc (thr d L))) (fpW : Buf (Elt F) ((pbV).view.loc (thr d L)))
              (fo0' : Buf (Elt F) ((hlf0 obV).view.loc (thr d L))) (fo1' : Buf (Elt F) ((hlf1 obV).view.loc (thr d L)))
              (foR' : Buf (Elt F) ((obV).view.loc (thr d L))) (W'' : Waits sig (HIx 1)),
              lastOddPost A d L q1 q2 r1 r2 qi O k.val hc0 hc1 hc2 hc3 hcm2 hcm1 e' p' e p feW fpW fo0' fo1' foR' W''
              ∗ ⌜∀ x ∈ W'', x ∈ W ∨ x.2 = none⌝)) := by
  have hcond2 : k1_cond2 k = 1#1 := (cond2_iff k).mpr hk1
  have hcond3 := cond3_true k
  have hcond4 : k1_cond4 k = 1#1 := (cond4_iff k).mpr hk1
  have hcond5 := cond5_true k
  have hcond6 := cond6_true k
  have hkl := k.isLt
  have hcond7 : ¬ k1_cond7 k = 1#1 := fun h => by have := (cond7_iff k).mp h; omega
  have hcond8 := cond8_true k
  have hcond9 : ¬ k1_cond9 k = 1#1 := fun h => by have := (cond9_iff k).mp h; omega
  have hcond10 : ¬ k1_cond10 k = 1#1 := fun h => by have := (cond10_iff k).mp h; omega
  have e14 : k1_off14 k = ![1, 256] := by rw [off14_eq, hk0]
  have e25 : k1_off25 k = ![1, 384] := by rw [off25_eq, hk0]
  have hk0' : (k.val + 1) % 2 = 0 := by omega
  have e36 : k1_off36 k = ![0, 0] := by rw [off36_eq, hk0']
  have e38 : k1_off38 k = ![0] := by rw [off38_eq, hk0']
  have e39 : k1_off39 k = ![0, 0] := by rw [off39_eq, hk0']
  have e42 : k1_off42 k = ![1, 0] := by rw [off42_eq, hk0]
  have e44 : k1_off44 k = ![1] := by rw [off44_eq, hk0]
  have e53 : k1_off53 k = ![0, 128] := by rw [off53_eq, hk0']
  letI : ClosedOff (k1_off14 k) := ⟨![1, 256], e14⟩
  letI : ClosedOff (k1_off25 k) := ⟨![1, 384], e25⟩
  letI : ClosedOff (k1_off36 k) := ⟨![0, 0], e36⟩
  letI : ClosedOff (k1_off38 k) := ⟨![0], e38⟩
  letI : ClosedOff (k1_off39 k) := ⟨![0, 0], e39⟩
  letI : ClosedOff (k1_off42 k) := ⟨![1, 0], e42⟩
  letI : ClosedOff (k1_off44 k) := ⟨![1], e44⟩
  letI : ClosedOff (k1_off53 k) := ⟨![0, 128], e53⟩
  have hinE2 : ∀ x, ((lst eixV (k1_off14 k) (k1_off14_inb k hcond3)).view.read (Elt F) e x).toNat < S100000x128.size gathers_S100000x128_S128x128.axis :=
    fun x => by rw [l_lst_read_congr d L eixV e14 _ linb_1_256]; exact hE2 x
  have hinP2 : ∀ x, ((lst pixV (k1_off14 k) (k1_off14_inb k hcond3)).view.read (Elt F) p x).toNat < S1000x128.size gathers_S1000x128_S128x128.axis :=
    fun x => by rw [l_lst_read_congr d L pixV e14 _ linb_1_256]; exact hP2 x
  have hinE3 : ∀ x, ((lst eixV (k1_off25 k) (k1_off25_inb k hcond5)).view.read (Elt F) e x).toNat < S100000x128.size gathers_S100000x128_S128x128.axis :=
    fun x => by rw [l_lst_read_congr d L eixV e25 _ linb_1_384]; exact hE3 x
  have hinP3 : ∀ x, ((lst pixV (k1_off25 k) (k1_off25_inb k hcond5)).view.read (Elt F) p x).toNat < S1000x128.size gathers_S1000x128_S128x128.axis :=
    fun x => by rw [l_lst_read_congr d L pixV e25 _ linb_1_384]; exact hP3 x
  unfold k1_t1_body
  iintro ⟨#Hmw, HE0, HE1, HP0, HP1, Hte1, Hte2, Hsh1, Hsh2, Heix, Hpix, Heb, Hpb, Heid, Hpid, Hs0e, Hs0p, Hs8, Hs9, Hc0, Hc1, Hc2, Hc3, HO0, HO1, Hob, Hr200, HO⟩
  ihave Hxe := (Entails.of_eq (show (((slot1 eixV).view.loc (thr d L)
        ↦[((slot1 eixV).view.set \ (lst eixV ![1, 0] linb_1_0).view.set) \ (lst eixV ![1, 128] linb_1_128).view.set]{fullShare} e : sProp 𝕄))
      = ((eixV).view.loc (thr d L)
        ↦[((Finset.univ \ (slot0 eixV).view.set) \ (lst eixV ![1, 0] linb_1_0).view.set) \ (lst eixV ![1, 128] linb_1_128).view.set]{fullShare} e) from by
          rw [slot1_eq_compl_e])) $$ Heix
  ihave Hxp := (Entails.of_eq (show (((slot1 pixV).view.loc (thr d L)
        ↦[((slot1 pixV).view.set \ (lst pixV ![1, 0] linb_1_0).view.set) \ (lst pixV ![1, 128] linb_1_128).view.set]{fullShare} p : sProp 𝕄))
      = ((pixV).view.loc (thr d L)
        ↦[((Finset.univ \ (slot0 pixV).view.set) \ (lst pixV ![1, 0] linb_1_0).view.set) \ (lst pixV ![1, 128] linb_1_128).view.set]{fullShare} p) from by
          rw [slot1_eq_compl_p])) $$ Hpix
  sl_exec_parts
  -- the first chunk's sums
  ihave Heb2 := (join0_e (F := F) d L _ _) $$ [Heb HE0_dst]
  · isplitl [Heb] <;> iassumption
  ihave Hpb2 := (join0_p (F := F) d L _ _) $$ [Hpb HP0_dst]
  · isplitl [Hpb] <;> iassumption
  ihave Hob2 := (join0_o (F := F) d L _ _) $$ [Hob HO0_src]
  · isplitl [Hob] <;> iassumption
  iapply (Add.addLoop_sub0 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Hxe1 := (Entails.of_eq (show (((lst eixV ![1, 0] linb_1_0).view.loc (thr d L) ↦[(Finset.univ \ (slot0 eixV).view.set) \ (lst eixV ![1, 128] linb_1_128).view.set]{fullShare} e : sProp 𝕄))
      = ((eixV).view.loc (thr d L) ↦[(Finset.univ \ (slot0 eixV).view.set) \ (lst eixV ![1, 128] linb_1_128).view.set]{fullShare} e) from rfl)) $$ Hxe
  ihave Hxp1 := (Entails.of_eq (show (((lst pixV ![1, 0] linb_1_0).view.loc (thr d L) ↦[(Finset.univ \ (slot0 pixV).view.set) \ (lst pixV ![1, 128] linb_1_128).view.set]{fullShare} p : sProp 𝕄))
      = ((pixV).view.loc (thr d L) ↦[(Finset.univ \ (slot0 pixV).view.set) \ (lst pixV ![1, 128] linb_1_128).view.set]{fullShare} p) from rfl)) $$ Hxp
  sl_exec_parts
  -- the second chunk's sums
  ihave Heb2 := (join1_e_of (F := F) d L restA_e _ _) $$ [Heb HE1_dst]
  · isplitl [Heb] <;> iassumption
  ihave Hpb2 := (join1_p_of (F := F) d L restA_p _ _) $$ [Hpb HP1_dst]
  · isplitl [Hpb] <;> iassumption
  ihave Hob2 := (join1_o_of (F := F) d L restA_o _ _) $$ [Hob HO1_src]
  · isplitl [Hob] <;> iassumption
  iapply (Add.addLoop_sub1 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Hxe2 := (Entails.of_eq (show (((lst eixV ![1, 128] linb_1_128).view.loc (thr d L) ↦[(Finset.univ \ (slot0 eixV).view.set) \ (lst eixV (k1_off14 k) (k1_off14_inb k hcond3)).view.set]{fullShare} e : sProp 𝕄))
      = ((eixV).view.loc (thr d L) ↦[(Finset.univ \ (slot0 eixV).view.set) \ (lst eixV (k1_off14 k) (k1_off14_inb k hcond3)).view.set]{fullShare} e) from rfl)) $$ Hxe1
  ihave Hxp2 := (Entails.of_eq (show (((lst pixV ![1, 128] linb_1_128).view.loc (thr d L) ↦[(Finset.univ \ (slot0 pixV).view.set) \ (lst pixV (k1_off14 k) (k1_off14_inb k hcond3)).view.set]{fullShare} p : sProp 𝕄))
      = ((pixV).view.loc (thr d L) ↦[(Finset.univ \ (slot0 pixV).view.set) \ (lst pixV (k1_off14 k) (k1_off14_inb k hcond3)).view.set]{fullShare} p) from rfl)) $$ Hxp1
  sl_exec_parts
  -- the third chunk's sums
  ihave Heb2 := (join0_e_of (F := F) d L restB_e _ _) $$ [Heb Heb_2]
  · isplitl [Heb] <;> iassumption
  ihave Hpb2 := (join0_p_of (F := F) d L restB_p _ _) $$ [Hpb Hpb_2]
  · isplitl [Hpb] <;> iassumption
  ihave Hob2 := (join0_o_of (F := F) d L restB_o _ _) $$ [Hob Hob_2]
  · isplitl [Hob] <;> iassumption
  iapply (Add.addLoop_sub2 (F := F) d L v2 k _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  sl_exec_parts
  -- the fourth chunk's sums
  ihave Heb2 := (l_join_whole (F := F) d L ebV (Memref.isWhole_whole _) _ _) $$ [Heb_2 Heb]
  · isplitl [Heb_2] <;> iassumption
  ihave Hpb2 := (l_join_whole (F := F) d L pbV (Memref.isWhole_whole _) _ _) $$ [Hpb_2 Hpb]
  · isplitl [Hpb_2] <;> iassumption
  ihave Hob2 := (join1_o_of (F := F) d L restA_o _ _) $$ [Hob Hob_2]
  · isplitl [Hob] <;> iassumption
  iapply (Add.addLoop_sub3 (F := F) d L v2 k _ _ _ _ _ (Or.inl rfl) (Or.inl rfl) (Or.inr rfl) _ _ _ _ _)
  isplitl [Heb2]; · iexact Heb2
  isplitl [Hpb2]; · iexact Hpb2
  isplitl [Hob2]; · iexact Hob2
  iintro ⟨Heb, Hpb, Hob⟩
  sl_exec_parts
  sl_step
  sl_unfold_run_names
  iexists _, _, _, _, _, _
  isplitl [HE0 HE1 HP0 HP1 Hte1 Hte2 Hsh1 Hsh2 Hs0e Hs0p Heb Hpb Heid Hpid Hxe2 Hxp2 Hs8 Hs9 HO0_dst HO1_dst Hc0 Hc1 HO0 HO1 Hob Hr200 HO]
  · unfold lastOddPost
    isplitr; · iexact Hmw
    isplitl [Hte1]; · iexact Hte1
    isplitl [Hte2]; · iexact Hte2
    isplitl [Hsh1]; · iexact Hsh1
    isplitl [Hsh2]; · iexact Hsh2
    isplitl [Hs0e]; · iexact Hs0e
    isplitl [Hs0p]; · iexact Hs0p
    isplitl [Heb]; · iexact Heb
    isplitl [Hpb]; · iexact Hpb
    isplitl [HE0]; · iexact HE0
    isplitl [HE1]; · iexact HE1
    isplitl [HP0]; · iexact HP0
    isplitl [HP1]; · iexact HP1
    isplitl [Heid]; · iexact Heid
    isplitl [Hpid]; · iexact Hpid
    isplitl [Hxe2]; · irw [slot1_eq_compl_e]; iexact Hxe2
    isplitl [Hxp2]; · irw [slot1_eq_compl_p]; iexact Hxp2
    isplitl [Hs8]; · iexact Hs8
    isplitl [Hs9]; · iexact Hs9
    isplitl [HO0_dst]; · rw [chunkPt_eq]; iexact HO0_dst
    isplitl [HO1_dst]; · rw [chunkPt_eq]; iexact HO1_dst
    isplitl [Hc0]
    · iapply (Entails.of_eq (chunk_delivered0 A d L (4 * k.val) hc0 (k1_off13 L k 0#32) (k1_off13_inb L k 0) (l_off13 L k 0) _ _ _ _ _
        ((lst eixV ![1, 0] linb_1_0).view.read (Elt F) e) ((lst pixV ![1, 0] linb_1_0).view.read (Elt F) p) hL.1 hL.2.2.1 rfl
        ((read_piecewise_hlf0 d L ebV _ _).trans (read_write_hlf0 d L ebV _ _)) ((read_piecewise_hlf0 d L pbV _ _).trans (read_write_hlf0 d L pbV _ _))
        (ids_e_1_0 A d L e p k.val k.isLt hSV) (ids_p_1_0 A d L e p k.val k.isLt hSV)))
      iexact Hc0
    isplitl [Hc1]
    · iapply (Entails.of_eq (chunk_delivered1 A d L (4 * k.val + 1) hc1 (k1_off13 L k 1#32) (k1_off13_inb L k 1) (l_off13 L k 1) _ _ _ _ _
        ((lst eixV ![1, 128] linb_1_128).view.read (Elt F) e) ((lst pixV ![1, 128] linb_1_128).view.read (Elt F) p) hL.2.1 hL.2.2.2 rfl
        ((read_piecewise_hlf1 d L ebV _ _).trans (read_write_hlf1 d L ebV _ _)) ((read_piecewise_hlf1 d L pbV _ _).trans (read_write_hlf1 d L pbV _ _))
        (ids_e_1_128 A d L e p k.val k.isLt hSV) (ids_p_1_128 A d L e p k.val k.isLt hSV)))
      iexact Hc1
    isplitl [HO0]
    · iapply (Entails.of_eq (flight_delivered0 A d L 14 (4 * k.val + 2) hc2 (k1_off13 L k 2#32) (k1_off13_inb L k 2) (l_off13 L k 2) _ _ _ _ _
        ((lst eixV (k1_off14 k) (k1_off14_inb k hcond3)).view.read (Elt F) e) ((lst pixV (k1_off14 k) (k1_off14_inb k hcond3)).view.read (Elt F) p) hinE2 hinP2 rfl
        ((read_piecewise_hlf0 d L ebV _ _).trans (read_write_hlf0 d L ebV _ _)) ((read_piecewise_hlf0 d L pbV _ _).trans (read_write_hlf0 d L pbV _ _))
        (fun x => by rw [l_lst_read_congr d L eixV e14 _ linb_1_256]; exact ids_e_1_256 A d L e p k.val k.isLt hSV x) (fun x => by rw [l_lst_read_congr d L pixV e14 _ linb_1_256]; exact ids_p_1_256 A d L e p k.val k.isLt hSV x)))
      iexact HO0
    isplitl [HO1]
    · iapply (Entails.of_eq (flight_delivered1 A d L 15 (4 * k.val + 3) hc3 (k1_off13 L k 3#32) (k1_off13_inb L k 3) (l_off13 L k 3) _ _ _ _ _
        ((lst eixV (k1_off25 k) (k1_off25_inb k hcond5)).view.read (Elt F) e) ((lst pixV (k1_off25 k) (k1_off25_inb k hcond5)).view.read (Elt F) p) hinE3 hinP3 rfl
        ((read_piecewise_hlf1 d L ebV _ _).trans (read_write_hlf1 d L ebV _ _)) ((read_piecewise_hlf1 d L pbV _ _).trans (read_write_hlf1 d L pbV _ _))
        (fun x => by rw [l_lst_read_congr d L eixV e25 _ linb_1_384]; exact ids_e_1_384 A d L e p k.val k.isLt hSV x) (fun x => by rw [l_lst_read_congr d L pixV e25 _ linb_1_384]; exact ids_p_1_384 A d L e p k.val k.isLt hSV x)))
      iexact HO1
    isplitl [Hob]; · irw [← restB_o]; iexact Hob
    isplitl [Hr200]; · iexact Hr200
    iexact HO
  · ipureintro
    repeat (first | exact fun x hx => Or.inl hx | refine l_waits_insert ?_ rfl)

omit [FloatOps F] in
theorem l_chunk_congr (n : ℕ) (hn : n < 200) (off : Fin 2 → ℕ) (hoff : ∀ a, off a + S128x128.size a ≤ S819200x128.size a)
    (eoff : off = chunkOff L n) (f : Buf (Elt F) ((outV).view.loc (thr d L))) :
    chunkPt d L n hn f = l_chunkAt d L off hoff f := by
  subst eoff; rfl

set_option maxHeartbeats 4000000 in
/-- THE LAST TRIP of the tile's loop (k = 49): no further ids are waited for or fetched, no further gathers are started. -/
theorem trip_last (hE : ∀ j, (A.eid d j).toNat < 100000) (hP : ∀ j, (A.pid d j).toNat < 1000) (v2 : BitVec 32)
    (O : CellTallies nD τ sig (HIx 1)) (W : Waits sig (HIx 1))
    (k : ℕ) (hk : k < 50) (hk0 : k % 2 = 1) (hk49 : 49 ≤ k) :
    inv A d L q1 q2 r1 r2 qi O W k PUnit.unit
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 ⟨k, hk⟩ ())
          (fun _ => inv A d L q1 q2 r1 r2 qi O W (k + 1) PUnit.unit) := by
  have hk1 : 1 ≤ k := by omega
  have hlast : ¬ k + 1 < 50 := by omega
  have hc0 : 4 * k < 200 := by omega
  have hc1 : 4 * k + 1 < 200 := by omega
  have hc2 : 4 * k + 2 < 200 := by omega
  have hc3 : 4 * k + 3 < 200 := by omega
  have hcm2 : 4 * k - 2 < 200 := by omega
  have hcm1 : 4 * k - 1 < 200 := by omega
  refine (open_lastOdd A d L q1 q2 r1 r2 qi O W k hk0 hk1 hk hlast hc0 hc1 hc2 hc3 hcm2 hcm1).trans ?_
  iintro ⟨%e, %p, %e', %p', %fe0, %fe1, %fp0, %fp1, %fo0, %fo1, %feR, %fpR, %foR, %hL, %W', %hpure, Hpre⟩
  unfold lastOddPre
  icases Hpre with ⟨Hmw, HE0, HE1, HP0, HP1, Hte1, Hte2, Hsh1, Hsh2, Heix, Hpix, Heb, Hpb, Heid, Hpid, Hs0e, Hs0p, Hs8, Hs9, Hc0, Hc1, Hc2, Hc3, HO0, HO1, Hob, Hrest, HO⟩
  iapply (wp_wand_r frame (wpE (defs₀ (F := F)) 𝒱₀ (thr d L) none) Set.univ)
  isplitl [Hmw HE0 HE1 HP0 HP1 Hte1 Hte2 Hsh1 Hsh2 Heix Hpix Heb Hpb Heid Hpid Hs0e Hs0p Hs8 Hs9 Hc0 Hc1 Hc2 Hc3 HO0 HO1 Hob Hrest HO]
  · iapply (l_run A d L q1 q2 r1 r2 qi v2 ⟨k, hk⟩ hk0 hk1 hlast hcm2 hcm1 O W' e p e' p' fe0 fe1 fp0 fp1 fo0 fo1 feR fpR foR hL.down hpure.1
        (hin_e_1_256 A d L hE e p k hk hpure.1) (hin_e_1_384 A d L hE e p k hk hpure.1) (hin_p_1_256 A d L hP e p k hk hpure.1) (hin_p_1_384 A d L hP e p k hk hpure.1)
        hE hP hc0 hc1 hc2 hc3)
    isplitl [Hmw]; · iexact Hmw
    isplitl [HE0]; · iexact HE0
    isplitl [HE1]; · iexact HE1
    isplitl [HP0]; · iexact HP0
    isplitl [HP1]; · iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexact Heb
    isplitl [Hpb]; · iexact Hpb
    isplitl [Heid]; · iexact Heid
    isplitl [Hpid]; · iexact Hpid
    isplitl [Hs0e]; · iexact Hs0e
    isplitl [Hs0p]; · iexact Hs0p
    isplitl [Hs8]; · iexact Hs8
    isplitl [Hs9]; · iexact Hs9
    isplitl [Hc0]
    · iapply (Entails.of_eq (l_chunk_congr d L (4 * k) hc0 (k1_off13 L ⟨k, hk⟩ 0#32) (k1_off13_inb L ⟨k, hk⟩ 0) (l_off13 L ⟨k, hk⟩ 0) _)); iexact Hc0
    isplitl [Hc1]
    · iapply (Entails.of_eq (l_chunk_congr d L (4 * k + 1) hc1 (k1_off13 L ⟨k, hk⟩ 1#32) (k1_off13_inb L ⟨k, hk⟩ 1) (l_off13 L ⟨k, hk⟩ 1) _)); iexact Hc1
    isplitl [Hc2]
    · iapply (Entails.of_eq (l_chunk_congr d L (4 * k + 2) hc2 (k1_off13 L ⟨k, hk⟩ 2#32) (k1_off13_inb L ⟨k, hk⟩ 2) (l_off13 L ⟨k, hk⟩ 2) _)); iexact Hc2
    isplitl [Hc3]
    · iapply (Entails.of_eq (l_chunk_congr d L (4 * k + 3) hc3 (k1_off13 L ⟨k, hk⟩ 3#32) (k1_off13_inb L ⟨k, hk⟩ 3) (l_off13 L ⟨k, hk⟩ 3) _)); iexact Hc3
    isplitl [HO0]; · iexact HO0
    isplitl [HO1]; · iexact HO1
    isplitl [Hob]; · iexact Hob
    isplitl [Hrest]; · iexact Hrest
    iexact HO
  · iintro %_ ⟨%feW, %fpW, %fo0', %fo1', %foR', %W'', Hpost, %hW''⟩
    iapply (close_lastOdd A d L q1 q2 r1 r2 qi O W k hk0 hk1 hk hlast hc0 hc1 hc2 hc3 hcm2 hcm1 e' p' e p feW fpW fo0' fo1' foR' W''
      (fun x hx => (hW'' x hx).elim (fun h => hpure.2 x h) Or.inr))
    iexact Hpost

end Cert.Kernel.Run.Sc

end
-- ==== Proof.ScTripFoldZeroBits.lean ====
/-
  The first trip's closing with the trip number kept as a variable known to be 0, for a run that is stated over a variable
  trip.
-/
import proofs.«204385_g66649302499670_cont_9to1c4b_43_34_alg».proof.Proof.ScTripFoldEdgeBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F] (A : Vals F) (d : Dev nD) (L : grid1.Coords)

variable (q1 q2 r1 r2 qi : PosShare TreeShare)

/-- What the first trip's run ends with, the trip number `k` a variable: an even trip's, without the two chunks a later
    trip's drains hand back. -/
def zeroPostK (O : CellTallies nD τ sig (HIx 1)) (k : ℕ) (hk2' : k + 1 + 1 < 50) (hc0 : 4 * k < 200) (hc1 : 4 * k + 1 < 200) (hc2 : 4 * k + 2 < 200) (hc3 : 4 * k + 3 < 200)
    (e1 : Buf (Elt F) ((eixV).view.loc (thr d L))) (p1 : Buf (Elt F) ((pixV).view.loc (thr d L))) (e'' : Buf (Elt F) ((eixV).view.loc (thr d L))) (p'' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L))) (hL : ListsOK1 d L e1 p1) (W' : Waits sig (HIx 1)) : sProp 𝕄 :=
  iprop(Transfers.MayWaits (thr d L) (default : HIx 1) O
    ∗ flightE A d L 10 (hlf0 ebV) (lst eixV ![1, 0] linb_1_0) q1 fe0 e1 hL.1
    ∗ flightE A d L 11 (hlf1 ebV) (lst eixV ![1, 128] linb_1_128) q2 fe1 e1 hL.2.1
    ∗ flightP A d L 12 (hlf0 pbV) (lst pixV ![1, 0] linb_1_0) r1 fp0 p1 hL.2.2.1
    ∗ flightP A d L 13 (hlf1 pbV) (lst pixV ![1, 128] linb_1_128) r2 fp1 p1 hL.2.2.2
    ∗ teRest A d L q1
    ∗ teRest A d L q2
    ∗ shRest A d L r1
    ∗ shRest A d L r2
    ∗ ((slot1 eixV).view.loc (thr d L) ↦[((slot1 eixV).view.set \ (lst eixV ![1, 0] linb_1_0).view.set) \ (lst eixV ![1, 128] linb_1_128).view.set]{fullShare} e1)
    ∗ ((slot1 pixV).view.loc (thr d L) ↦[((slot1 pixV).view.set \ (lst pixV ![1, 0] linb_1_0).view.set) \ (lst pixV ![1, 128] linb_1_128).view.set]{fullShare} p1)
    ∗ ((ebV).view.loc (thr d L) ↦[(Finset.univ \ (hlf0 ebV).view.set) \ (hlf1 ebV).view.set]{fullShare} feR)
    ∗ ((pbV).view.loc (thr d L) ↦[(Finset.univ \ (hlf0 pbV).view.set) \ (hlf1 pbV).view.set]{fullShare} fpR)
    ∗ idsBatch A d L (8 : DmaSem sig) (slot0 eixV) (slot0 pixV) qi (idsOff L (k + 1 + 1)) (idsInb L (k + 1 + 1) hk2') e'' p''
        (idsPayAt d L eidV (A.eid d) (idsOff L (k + 1 + 1)) (idsInb L (k + 1 + 1) hk2')) (idsPayAt d L pidV (A.pid d) (idsOff L (k + 1 + 1)) (idsInb L (k + 1 + 1) hk2'))
    ∗ idsRest A d L qi (idsOff L (k + 1 + 1)) (idsInb L (k + 1 + 1) hk2')
    ∗ semVal (cellOf d L 9) 0
    ∗ chunkPt d L (4 * k) hc0 (outFin A d)
    ∗ chunkPt d L (4 * k + 1) hc1 (outFin A d)
    ∗ flightO A d L 14 (hlf0 obV) (4 * k + 2) hc2 fo0
    ∗ flightO A d L 15 (hlf1 obV) (4 * k + 3) hc3 fo1
    ∗ ((obV).view.loc (thr d L) ↦[(Finset.univ \ (hlf0 obV).view.set) \ (hlf1 obV).view.set]{fullShare} foR)
    ∗ rest200 A d L k
    ∗ owes (thr d L) O W')

set_option maxHeartbeats 1000000 in
/-- CLOSING the first trip, the trip number a variable. -/
theorem close_zeroK (O : CellTallies nD τ sig (HIx 1)) (W : Waits sig (HIx 1)) (k : ℕ) (hkz : k = 0) (hk50 : k + 1 < 50) (hk2' : k + 1 + 1 < 50)
    (hc0 : 4 * k < 200) (hc1 : 4 * k + 1 < 200) (hc2 : 4 * k + 2 < 200) (hc3 : 4 * k + 3 < 200)
    (e1 : Buf (Elt F) ((eixV).view.loc (thr d L))) (p1 : Buf (Elt F) ((pixV).view.loc (thr d L))) (e'' : Buf (Elt F) ((eixV).view.loc (thr d L))) (p'' : Buf (Elt F) ((pixV).view.loc (thr d L))) (fe0 : Buf (Elt F) ((hlf0 ebV).view.loc (thr d L))) (fe1 : Buf (Elt F) ((hlf1 ebV).view.loc (thr d L))) (fp0 : Buf (Elt F) ((hlf0 pbV).view.loc (thr d L))) (fp1 : Buf (Elt F) ((hlf1 pbV).view.loc (thr d L))) (fo0 : Buf (Elt F) ((hlf0 obV).view.loc (thr d L))) (fo1 : Buf (Elt F) ((hlf1 obV).view.loc (thr d L))) (feR : Buf (Elt F) ((ebV).view.loc (thr d L))) (fpR : Buf (Elt F) ((pbV).view.loc (thr d L))) (foR : Buf (Elt F) ((obV).view.loc (thr d L))) (hL : ListsOK1 d L e1 p1) (hSV : SlotVals1 A d L e1 p1 (k + 1) hk50) (W' : Waits sig (HIx 1)) (hW' : ∀ x ∈ W', x ∈ W ∨ x.2 = none) :
    zeroPostK A d L q1 q2 r1 r2 qi O k hk2' hc0 hc1 hc2 hc3 e1 p1 e'' p'' fe0 fe1 fp0 fp1 fo0 fo1 feR fpR foR hL W'
      ⊢ inv A d L q1 q2 r1 r2 qi O W (k + 1) PUnit.unit := by
  subst hkz
  exact close_zero A d L q1 q2 r1 r2 qi O W hk50 hk2' hc0 hc1 hc2 hc3 e1 p1 e'' p'' fe0 fe1 fp0 fp1 fo0 fo1 feR fpR foR hL hSV W' hW'

end Cert.Kernel.Run.Sc

end
-- ==== Proof.ScTripZeroBits.lean ====
/-
  The first trip of the tile's loop: nothing is in flight out of the sum buffer yet, so no copy-out is drained before the
  first two add loops and the sum buffer is held whole at the first; everything else is an even trip's.
-/
import proofs.«204385_g66649302499670_cont_9to1c4b_43_34_alg».proof.Proof.ScTripBits
import proofs.«204385_g66649302499670_cont_9to1c4b_43_34_alg».proof.Proof.AddLoopBits
import proofs.«204385_g66649302499670_cont_9to1c4b_43_34_alg».proof.Proof.ScHalvesBits
import proofs.«204385_g66649302499670_cont_9to1c4b_43_34_alg».proof.Proof.ScSlotsBits
import proofs.«204385_g66649302499670_cont_9to1c4b_43_34_alg».proof.Proof.ScBookBits
import proofs.«204385_g66649302499670_cont_9to1c4b_43_34_alg».proof.Proof.ScTripFoldBits
import proofs.«204385_g66649302499670_cont_9to1c4b_43_34_alg».proof.Proof.ScTripFoldZeroBits
import proofs.«204385_g66649302499670_cont_9to1c4b_43_34_alg».proof.Proof.ScCloseBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F] (A : Vals F) (d : Dev nD) (L : grid1.Coords)

variable [FloatOps F] (A : Vals F) (d : Dev nD) (L : grid1.Coords)

/-- A 128-row window of the result at offset `off`, held whole. -/
abbrev z_chunkWin (off : Fin 2 → ℕ) (h : ∀ a, off a + S128x128.size a ≤ S819200x128.size a) (f : Buf (Elt F) ((outV).view.loc (thr d L))) : sProp 𝕄 :=
  ((outV).slice (Rect.unit (s := S819200x128) off S128x128.size h) (fun _ => rfl)).view.loc (thr d L)
    ↦[((outV).slice (Rect.unit (s := S819200x128) off S128x128.size h) (fun _ => rfl)).view.set]{fullShare} f

omit [FloatOps F] in
/-- A slot of an id scratch at offset `off`, as the program names it. -/
abbrev z_slotAt (M : Memref sig .scVector .vmem S2x512 .i32) (off : Fin 2 → ℕ) (h : ∀ a, off a + S1x512.size a ≤ S2x512.size a) : Memref sig .scVector .vmem S512 .i32 :=
  (M.slice (Rect.unit (s := S2x512) off S1x512.size h) (fun _ => rfl)).squeeze S512 squeezes_S1x512_S512
omit [FloatOps F] in
theorem z_slotPts_congr (M : Memref sig .scVector .vmem S2x512 .i32) {off off' : Fin 2 → ℕ} (e : off = off')
    (h : ∀ a, off a + S1x512.size a ≤ S2x512.size a) (h' : ∀ a, off' a + S1x512.size a ≤ S2x512.size a) (f : Buf (Elt F) (M.view.loc (thr d L))) :
    (((z_slotAt M off h).view.loc (thr d L) ↦[(z_slotAt M off h).view.set]{fullShare} f : sProp 𝕄))
      = ((z_slotAt M off' h').view.loc (thr d L) ↦[(z_slotAt M off' h').view.set]{fullShare} f) := by subst e; rfl

omit [FloatOps F] in
/-- A list's elements do not depend on how its offset is spelt. -/
theorem z_lst_set_congr (M : Memref sig .scVector .vmem S2x512 .i32) {off off' : Fin 2 → ℕ} (h : off = off')
    (hi : ∀ a, off a + S1x128.size a ≤ S2x512.size a) (hi' : ∀ a, off' a + S1x128.size a ≤ S2x512.size a) :
    (lst M off hi).view.set = (lst M off' hi').view.set := by subst h; rfl

omit [FloatOps F] in
/-- A list's contents do not depend on how its offset is spelt. -/
theorem z_lst_read_congr (M : Memref sig .scVector .vmem S2x512 .i32) {off off' : Fin 2 → ℕ} (h : off = off')
    (hi : ∀ a, off a + S1x128.size a ≤ S2x512.size a) (hi' : ∀ a, off' a + S1x128.size a ≤ S2x512.size a)
    (e : Buf (Elt F) (M.view.loc (thr d L))) (x : S128.Idx) :
    (lst M off hi).view.read (Elt F) e x = (lst M off' hi').view.read (Elt F) e x := by subst h; rfl

omit [FloatOps F] in
theorem z_respell_e_0_0 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 0] linb_0_0).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_e_0_128 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 128] linb_0_128).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_e_0_256 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 256] linb_0_256).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_e_0_384 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![0, 384] linb_0_384).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_e_1_0 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 0] linb_1_0).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_e_1_128 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 128] linb_1_128).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_e_1_256 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 256] linb_1_256).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_e_1_384 {S : Finset (Idx ((Memref.whole cc1_scratch0 : Memref sig Kind.scVector Space.vmem S2x512 EltTy.i32).view.loc (thr d L)))} (f : Buf (Elt F) ((Memref.whole cc1_scratch0 : Memref sig Kind.scVector Space.vmem S2x512 EltTy.i32).view.loc (thr d L))) :
    (((lst (Memref.whole cc1_scratch0 : Memref sig Kind.scVector Space.vmem S2x512 EltTy.i32) ![1, 384] linb_1_384).view.loc (thr d L) ↦[S]{fullShare} f : sProp 𝕄)) = ((Memref.whole cc1_scratch0 : Memref sig Kind.scVector Space.vmem S2x512 EltTy.i32).view.loc (thr d L) ↦[S]{fullShare} f) := rfl

omit [FloatOps F] in
theorem z_respell_p_0_0 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 0] linb_0_0).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem z_respell_p_0_128 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 128] linb_0_128).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem z_respell_p_0_256 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 256] linb_0_256).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem z_respell_p_0_384 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![0, 384] linb_0_384).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem z_respell_p_1_0 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 0] linb_1_0).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem z_respell_p_1_128 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 128] linb_1_128).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem z_respell_p_1_256 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 256] linb_1_256).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
theorem z_respell_p_1_384 {S : Finset (Idx ((Memref.whole cc1_scratch1 : Memref sig Kind.scVector Space.vmem S2x512 EltTy.i32).view.loc (thr d L)))} (f : Buf (Elt F) ((Memref.whole cc1_scratch1 : Memref sig Kind.scVector Space.vmem S2x512 EltTy.i32).view.loc (thr d L))) :
    (((lst (Memref.whole cc1_scratch1 : Memref sig Kind.scVector Space.vmem S2x512 EltTy.i32) ![1, 384] linb_1_384).view.loc (thr d L) ↦[S]{fullShare} f : sProp 𝕄)) = ((Memref.whole cc1_scratch1 : Memref sig Kind.scVector Space.vmem S2x512 EltTy.i32).view.loc (thr d L) ↦[S]{fullShare} f) := rfl

omit [FloatOps F] in
/-- A resource put aside: held, but not looked at. -/
def z_Aside (P : sProp 𝕄) : sProp 𝕄 := P
omit [FloatOps F] in
theorem z_aside_intro (P : sProp 𝕄) : P ⊢ z_Aside P := BI.Entails.refl _
omit [FloatOps F] in
theorem z_aside_elim (P : sProp 𝕄) : z_Aside P ⊢ P := BI.Entails.refl _

/-- The cell of the id semaphores at offset `off`, as the program names it. -/
abbrev z_isemAt (off : Fin 1 → ℕ) (h : ∀ a, off a + S1.size a ≤ S2.size a) : DmaSem sig :=
  ((SemArray.slice cc1_scratch6 (Rect.unit (s := S2) off S1.size h)).squeeze S_ squeezes_S1_S_).sem
theorem z_isemAt_congr {off off' : Fin 1 → ℕ} (e : off = off') (h : ∀ a, off a + S1.size a ≤ S2.size a) (h' : ∀ a, off' a + S1.size a ≤ S2.size a) :
    z_isemAt off h = z_isemAt off' h' := by subst e; rfl
theorem z_isemAt_one : z_isemAt ![1] inb_S2_S1_1 = (9 : DmaSem sig) := by decide
theorem z_isemAt_zero : z_isemAt ![0] inb_S2_S1_0 = (8 : DmaSem sig) := by decide

/-- A gather's flight does not depend on how its list's offset is spelt. -/
theorem z_ev_flightE_off (sm : DmaSem sig) (H : Memref sig .scVector .vmem S128x128 .f32) {off off' : Fin 2 → ℕ} (h : off = off')
    (hi : ∀ a, off a + S1x128.size a ≤ S2x512.size a) (hi' : ∀ a, off' a + S1x128.size a ≤ S2x512.size a) (q : PosShare TreeShare)
    (fe : Buf (Elt F) (H.view.loc (thr d L))) (e : Buf (Elt F) ((eixV).view.loc (thr d L)))
    (hin : ∀ x, ((lst eixV off hi).view.read (Elt F) e x).toNat < S100000x128.size gathers_S100000x128_S128x128.axis)
    (hin' : ∀ x, ((lst eixV off' hi').view.read (Elt F) e x).toNat < S100000x128.size gathers_S100000x128_S128x128.axis) :
    flightE A d L sm H (lst eixV off hi) q fe e hin ⊢ flightE A d L sm H (lst eixV off' hi') q fe e hin' := by
  subst h; exact BI.Entails.refl _
theorem z_ev_flightP_off (sm : DmaSem sig) (H : Memref sig .scVector .vmem S128x128 .f32) {off off' : Fin 2 → ℕ} (h : off = off')
    (hi : ∀ a, off a + S1x128.size a ≤ S2x512.size a) (hi' : ∀ a, off' a + S1x128.size a ≤ S2x512.size a) (q : PosShare TreeShare)
    (fp : Buf (Elt F) (H.view.loc (thr d L))) (p : Buf (Elt F) ((pixV).view.loc (thr d L)))
    (hin : ∀ x, ((lst pixV off hi).view.read (Elt F) p x).toNat < S1000x128.size gathers_S1000x128_S128x128.axis)
    (hin' : ∀ x, ((lst pixV off' hi').view.read (Elt F) p x).toNat < S1000x128.size gathers_S1000x128_S128x128.axis) :
    flightP A d L sm H (lst pixV off hi) q fp p hin ⊢ flightP A d L sm H (lst pixV off' hi') q fp p hin' := by
  subst h; exact BI.Entails.refl _

/-- The id batch does not depend on how its cell, its slot and its window are spelt. -/
theorem z_ev_batch_congr (qi : PosShare TreeShare) {sm sm' : DmaSem sig} (hsm : sm = sm') {offS offS' : Fin 2 → ℕ} (hS : offS = offS')
    (hiS : ∀ a, offS a + S1x512.size a ≤ S2x512.size a) (hiS' : ∀ a, offS' a + S1x512.size a ≤ S2x512.size a)
    {off off' : Fin 1 → ℕ} (ho : off = off') (hi : ∀ a, off a + S512.size a ≤ S819200.size a) (hi' : ∀ a, off' a + S512.size a ≤ S819200.size a)
    (e : Buf (Elt F) ((eixV).view.loc (thr d L))) (p : Buf (Elt F) ((pixV).view.loc (thr d L))) (pe pp : S512.Idx → Elt F .i32) :
    idsBatch A d L sm (z_slotAt eixV offS hiS) (z_slotAt pixV offS hiS) qi off hi e p pe pp
      = idsBatch A d L sm' (z_slotAt eixV offS' hiS') (z_slotAt pixV offS' hiS') qi off' hi' e p pe pp := by
  subst hsm hS ho; rfl

omit [FloatOps F] in
theorem z_ev_W_ins {W S : Waits sig (HIx 1)} (x0 : SemLoc sig × HIx 1) (h0 : x0.2 = none) (h : ∀ x ∈ S, x ∈ W ∨ x.2 = none) :
    ∀ x ∈ insert x0 S, x ∈ W ∨ x.2 = none := by
  intro x hx
  rcases Finset.mem_insert.mp hx with rfl | hx
  · exact Or.inr h0
  · exact h x hx

omit [FloatOps F] in
theorem z_ev_off43 (k : Fin k1_t1_loop.trips) : k1_off43 L k = idsOff L (k.val + 1 + 1) := by
  rw [k1_off43_eq]; unfold idsOff
  refine funext fun a => ?_
  match a with
  | 0 => show 51200 * (L 1).val + 25600 * (L 0).val + 512 * k.val + 1024 = 51200 * (L 1).val + 25600 * (L 0).val + 512 * (k.val + 1 + 1); omega

omit [FloatOps F] in
theorem z_ev_off13 (k : Fin k1_t1_loop.trips) (r : Fin 4) : k1_off13 L k (BitVec.ofNat 32 r.val) = chunkOff L (4 * k.val + r.val) := by
  rw [k1_off13_eq]; unfold chunkOff
  refine funext fun a => ?_
  match a with
  | 0 => show 51200 * (L 1).val + 25600 * (L 0).val + 512 * k.val + 128 * r.val = 51200 * (L 1).val + 25600 * (L 0).val + 128 * (4 * k.val + r.val); omega
  | 1 => rfl

omit [FloatOps F] in
/-- The sum buffer off its first half, on the set an add loop names it by. -/
theorem z_univ_sdiff_h0_o (X : Buf (Elt F) ((obV).view.loc (thr d L))) :
    (((obV).view.loc (thr d L) ↦[Finset.univ \ (hlf0 obV).view.set]{fullShare} X) : sProp 𝕄)
      = ((obV).view.loc (thr d L) ↦[(obV).view.set \ (half0 obV).view.set]{fullShare} X) := by
  rw [Memref.IsWhole.set_eq_univ (Memref.isWhole_whole cc1_scratch4)]

variable (q1 q2 r1 r2 qi : PosShare TreeShare)

set_option maxHeartbeats 4000000 in
set_option pp.maxSteps 40000 in
set_option pp.deepTerms false in
theorem z_core (v2 : BitVec 32) (k : Fin k1_t1_loop.trips) (hkz : k.val = 0)
    (hk1' : k.val + 1 < 50)
    (O : CellTallies nD τ sig (HIx 1)) (W : Waits sig (HIx 1))
    (e : Buf (Elt F) ((eixV).view.loc (thr d L))) (p : Buf (Elt F) ((pixV).view.loc (thr d L)))
    (e' : Buf (Elt F) ((eixV).view.loc (thr d L))) (p' : Buf (Elt F) ((pixV).view.loc (thr d L)))
    (fe0 : Buf (Elt F) ((hlf0 ebV).view.loc (thr d L))) (fe1 : Buf (Elt F) ((hlf1 ebV).view.loc (thr d L)))
    (fp0 : Buf (Elt F) ((hlf0 pbV).view.loc (thr d L))) (fp1 : Buf (Elt F) ((hlf1 pbV).view.loc (thr d L)))
    (feR : Buf (Elt F) ((ebV).view.loc (thr d L))) (fpR : Buf (Elt F) ((pbV).view.loc (thr d L))) (foW : Buf (Elt F) ((obV).view.loc (thr d L)))
    (hL : ListsOK0 d L e p) (hSV0 : SlotVals0 A d L e p k.val k.isLt)
    (hE : ∀ j, (A.eid d j).toNat < 100000) (hP : ∀ j, (A.pid d j).toNat < 1000)
    (hE2 : ∀ x, ((lst eixV ![0, 256] linb_0_256).view.read (Elt F) e x).toNat < S100000x128.size gathers_S100000x128_S128x128.axis)
    (hE3 : ∀ x, ((lst eixV ![0, 384] linb_0_384).view.read (Elt F) e x).toNat < S100000x128.size gathers_S100000x128_S128x128.axis)
    (hP2 : ∀ x, ((lst pixV ![0, 256] linb_0_256).view.read (Elt F) p x).toNat < S1000x128.size gathers_S1000x128_S128x128.axis)
    (hP3 : ∀ x, ((lst pixV ![0, 384] linb_0_384).view.read (Elt F) p x).toNat < S1000x128.size gathers_S1000x128_S128x128.axis)
    (hk2' : k.val + 1 + 1 < 50) (hc0 : 4 * k.val < 200) (hc1 : 4 * k.val + 1 < 200) (hc2 : 4 * k.val + 2 < 200) (hc3 : 4 * k.val + 3 < 200) :
    iprop(Transfers.MayWaits (thr d L) (default : HIx 1) O
        ∗ flightE A d L 10 (hlf0 ebV) (lst eixV ![0, 0] linb_0_0) q1 fe0 e hL.1
        ∗ flightE A d L 11 (hlf1 ebV) (lst eixV ![0, 128] linb_0_128) q2 fe1 e hL.2.1
        ∗ flightP A d L 12 (hlf0 pbV) (lst pixV ![0, 0] linb_0_0) r1 fp0 p hL.2.2.1
        ∗ flightP A d L 13 (hlf1 pbV) (lst pixV ![0, 128] linb_0_128) r2 fp1 p hL.2.2.2
        ∗ teRest A d L q1 ∗ teRest A d L q2 ∗ shRest A d L r1 ∗ shRest A d L r2
        ∗ ((slot0 eixV).view.loc (thr d L)
              ↦[((slot0 eixV).view.set \ (lst eixV ![0, 0] linb_0_0).view.set) \ (lst eixV ![0, 128] linb_0_128).view.set]{fullShare} e)
        ∗ ((slot0 pixV).view.loc (thr d L)
              ↦[((slot0 pixV).view.set \ (lst pixV ![0, 0] linb_0_0).view.set) \ (lst pixV ![0, 128] linb_0_128).view.set]{fullShare} p)
        ∗ ((ebV).view.loc (thr d L) ↦[(Finset.univ \ (hlf0 ebV).view.set) \ (hlf1 ebV).view.set]{fullShare} feR)
        ∗ ((pbV).view.loc (thr d L) ↦[(Finset.univ \ (hlf0 pbV).view.set) \ (hlf1 pbV).view.set]{fullShare} fpR)
        ∗ idsBatch A d L (9 : DmaSem sig) (slot1 eixV) (slot1 pixV) qi (idsOff L (k.val + 1)) (idsInb L (k.val + 1) hk1') e' p'
            (idsPayAt d L eidV (A.eid d) (idsOff L (k.val + 1)) (idsInb L (k.val + 1) hk1')) (idsPayAt d L pidV (A.pid d) (idsOff L (k.val + 1)) (idsInb L (k.val + 1) hk1'))
        ∗ idsRest A d L qi (idsOff L (k.val + 1)) (idsInb L (k.val + 1) hk1')
        ∗ semVal (cellOf d L 8) 0
        ∗ z_chunkWin d L (k1_off13 L k 0#32) (k1_off13_inb L k 0) (A.out0 d)
        ∗ z_chunkWin d L (k1_off13 L k 1#32) (k1_off13_inb L k 1) (A.out0 d)
        ∗ z_chunkWin d L (k1_off13 L k 2#32) (k1_off13_inb L k 2) (A.out0 d)
        ∗ z_chunkWin d L (k1_off13 L k 3#32) (k1_off13_inb L k 3) (A.out0 d)
        ∗ ((obV).view.loc (thr d L) ↦{fullShare} foW)
        ∗ semVal (cellOf d L 14) 0 ∗ semVal (cellOf d L 15) 0
        ∗ owes (thr d L) O W)
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 k ())
            (fun _ => iprop(rest200 A d L k.val -∗ inv A d L q1 q2 r1 r2 qi O W (k.val + 1) PUnit.unit)) := by
  have hk0 : k.val % 2 = 0 := by omega
  have hk48 : k.val < 48 := by omega
  have hcond2 : ¬ k1_cond2 k = 1#1 := fun h => by have := (cond2_iff k).mp h; omega
  have hcond9 : k1_cond9 k = 1#1 := (cond9_iff k).mpr hk48
  have hcond3 := cond3_true k
  have hcond4 : ¬ k1_cond4 k = 1#1 := fun h => by have := (cond4_iff k).mp h; omega
  have hcond5 := cond5_true k
  have hcond6 := cond6_true k
  have hcond7 : k1_cond7 k = 1#1 := (cond7_iff k).mpr (by omega)
  have hcond8 := cond8_true k
  have hcond10 : k1_cond10 k = 1#1 := (cond10_iff k).mpr (by omega)
  have e14 : k1_off14 k = ![0, 256] := by rw [off14_eq, hk0]
  have e25 : k1_off25 k = ![0, 384] := by rw [off25_eq, hk0]
  have hk0' : (k.val + 1) % 2 = 1 := by omega
  have e36 : k1_off36 k = ![1, 0] := by rw [off36_eq, hk0']
  have e38 : k1_off38 k = ![1] := by rw [off38_eq, hk0']
  have e39 : k1_off39 k = ![1, 0] := by rw [off39_eq, hk0']
  have e42 : k1_off42 k = ![0, 0] := by rw [off42_eq, hk0]
  have e44 : k1_off44 k = ![0] := by rw [off44_eq, hk0]
  have e53 : k1_off53 k = ![1, 128] := by rw [off53_eq, hk0']
  letI : ClosedOff (k1_off14 k) := ⟨![0, 256], e14⟩
  letI : ClosedOff (k1_off25 k) := ⟨![0, 384], e25⟩
  letI : ClosedOff (k1_off36 k) := ⟨![1, 0], e36⟩
  letI : ClosedOff (k1_off38 k) := ⟨![1], e38⟩
  letI : ClosedOff (k1_off39 k) := ⟨![1, 0], e39⟩
  letI : ClosedOff (k1_off42 k) := ⟨![0, 0], e42⟩
  letI : ClosedOff (k1_off44 k) := ⟨![0], e44⟩
  letI : ClosedOff (k1_off53 k) := ⟨![1, 128], e53⟩
  have hinE2 : ∀ x, ((lst eixV (k1_off14 k) (k1_off14_inb k hcond3)).view.read (Elt F) e x).toNat < S100000x128.size gathers_S100000x128_S128x128.axis :=
    fun x => by rw [z_lst_read_congr d L eixV e14 _ linb_0_256]; exact hE2 x
  have hinP2 : ∀ x, ((lst pixV (k1_off14 k) (k1_off14_inb k hcond3)).view.read (Elt F) p x).toNat < S1000x128.size gathers_S1000x128_S128x128.axis :=
    fun x => by rw [z_lst_read_congr d L pixV e14 _ linb_0_256]; exact hP2 x
  have hinE3 : ∀ x, ((lst eixV (k1_off25 k) (k1_off25_inb k hcond5)).view.read (Elt F) e x).toNat < S100000x128.size gathers_S100000x128_S128x128.axis :=
    fun x => by rw [z_lst_read_congr d L eixV e25 _ linb_0_384]; exact hE3 x
  have hinP3 : ∀ x, ((lst pixV (k1_off25 k) (k1_off25_inb k hcond5)).view.read (Elt F) p x).toNat < S1000x128.size gathers_S1000x128_S128x128.axis :=
    fun x => by rw [z_lst_read_congr d L pixV e25 _ linb_0_384]; exact hP3 x
  have hs44 : z_isemAt (k1_off44 k) (k1_off44_inb k hcond9) = (8 : DmaSem sig) := (z_isemAt_congr e44 _ inb_S2_S1_0).trans z_isemAt_zero
  have hbo : Transfers.BatchOf (thr d L) (SemLoc.dma (z_isemAt (k1_off44 k) (k1_off44_inb k hcond9))) 2 := trivial
  unfold k1_t1_body
  unfold idsBatch idsRest
  iintro ⟨#Hmw, HE0, HE1, HP0, HP1, Hte1, Hte2, Hsh1, Hsh2, Heix, Hpix, Heb, Hpb, Hbat, ⟨Heidr, Hpidr⟩, Hs8, Hc0, Hc1, Hc2, Hc3, Hob, Hs14, Hs15, HO⟩
  sl_exec_parts
  -- the first chunk's sums
  ihave Heb2 := (join0_e (F := F) d L _ _) $$ [Heb HE0_dst]
  · isplitl [Heb] <;> iassumption
  ihave Hpb2 := (join0_p (F := F) d L _ _) $$ [Hpb HP0_dst]
  · isplitl [Hpb] <;> iassumption
  iapply (Add.addLoop_sub0 (F := F) d L v2 k _ _ _ _ _ (Or.inr rfl) (Or.inr rfl) (Or.inl rfl) _ _ _ _ _)
  isplitl [Heb2]; · iexact Heb2
  isplitl [Hpb2]; · iexact Hpb2
  isplitl [Hob]; · iexact Hob
  iintro ⟨Heb, Hpb, Hob⟩
  ihave Heix2 := (Entails.of_eq (show (((slot0 eixV).view.loc (thr d L)
        ↦[((slot0 eixV).view.set \ (lst eixV ![0, 0] linb_0_0).view.set) \ (lst eixV ![0, 128] linb_0_128).view.set]{fullShare} e : sProp 𝕄))
      = ((eixV).view.loc (thr d L)
        ↦[((Finset.univ \ (slot1 eixV).view.set) \ (lst eixV ![0, 0] linb_0_0).view.set) \ (lst eixV ![0, 128] linb_0_128).view.set]{fullShare} e) from by
          rw [slot0_eq_compl_e])) $$ Heix
  ihave Hpix2 := (Entails.of_eq (show (((slot0 pixV).view.loc (thr d L)
        ↦[((slot0 pixV).view.set \ (lst pixV ![0, 0] linb_0_0).view.set) \ (lst pixV ![0, 128] linb_0_128).view.set]{fullShare} p : sProp 𝕄))
      = ((pixV).view.loc (thr d L)
        ↦[((Finset.univ \ (slot1 pixV).view.set) \ (lst pixV ![0, 0] linb_0_0).view.set) \ (lst pixV ![0, 128] linb_0_128).view.set]{fullShare} p) from by
          rw [slot0_eq_compl_p])) $$ Hpix
  sl_exec_parts
  -- the second chunk's sums
  ihave Heb2 := (join1_e_of (F := F) d L restA_e _ _) $$ [Heb HE1_dst]
  · isplitl [Heb] <;> iassumption
  ihave Hpb2 := (join1_p_of (F := F) d L restA_p _ _) $$ [Hpb HP1_dst]
  · isplitl [Hpb] <;> iassumption
  ihave Hob2 := (Entails.of_eq (z_univ_sdiff_h0_o (F := F) d L _)) $$ Hob
  iapply (Add.addLoop_sub1 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  ihave Heix3 := (Entails.of_eq (z_respell_e_0_128 (F := F) d L e)) $$ Heix2
  ihave Hpix3 := (Entails.of_eq (z_respell_p_0_128 (F := F) d L p)) $$ Hpix2
  sl_exec_parts
  -- the third chunk's sums
  ihave Heb2 := (join0_e_of (F := F) d L restB_e _ _) $$ [Heb Heb_2]
  · isplitl [Heb] <;> iassumption
  ihave Hpb2 := (join0_p_of (F := F) d L restB_p _ _) $$ [Hpb Hpb_2]
  · isplitl [Hpb] <;> iassumption
  ihave Hob2 := (join0_o_of (F := F) d L restB_o _ _) $$ [Hob Hob_2]
  · isplitl [Hob] <;> iassumption
  iapply (Add.addLoop_sub2 (F := F) d L v2 k _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  -- slot 0's leftovers put aside; the id batch's cell in the program's spelling
  ihave HeixA := (z_aside_intro (F := F) _) $$ Heix3
  ihave HpixA := (z_aside_intro (F := F) _) $$ Hpix3
  have hs38 : z_isemAt (k1_off38 k) (k1_off38_inb k hcond7) = (9 : DmaSem sig) := (z_isemAt_congr e38 _ inb_S2_S1_1).trans z_isemAt_one
  have hSV1 : SlotVals1 A d L
      ((slot1 eixV).view.writes (Elt F) e' [⟨Rect.whole S512, idsPayAt d L eidV (A.eid d) (idsOff L (k.val + 1)) (idsInb L (k.val + 1) hk1')⟩])
      ((slot1 pixV).view.writes (Elt F) p' [⟨Rect.whole S512, idsPayAt d L pidV (A.pid d) (idsOff L (k.val + 1)) (idsInb L (k.val + 1) hk1')⟩])
      (k.val + 1) hk1' := slotVals1_after A d L e' p' k.val hk1' _ _ ⟨rfl, rfl⟩
  have hinE10 : ∀ x, ((lst eixV (k1_off39 k) (k1_off39_inb k hcond7)).view.read (Elt F)
      ((slot1 eixV).view.writes (Elt F) e' [⟨Rect.whole S512, idsPayAt d L eidV (A.eid d) (idsOff L (k.val + 1)) (idsInb L (k.val + 1) hk1')⟩]) x).toNat
        < S100000x128.size gathers_S100000x128_S128x128.axis :=
    fun x => by rw [z_lst_read_congr d L eixV e39 _ linb_1_0]; exact hin_e_1_0 A d L hE _ _ (k.val + 1) hk1' hSV1 x
  have hinP10 : ∀ x, ((lst pixV (k1_off39 k) (k1_off39_inb k hcond7)).view.read (Elt F)
      ((slot1 pixV).view.writes (Elt F) p' [⟨Rect.whole S512, idsPayAt d L pidV (A.pid d) (idsOff L (k.val + 1)) (idsInb L (k.val + 1) hk1')⟩]) x).toNat
        < S1000x128.size gathers_S1000x128_S128x128.axis :=
    fun x => by rw [z_lst_read_congr d L pixV e39 _ linb_1_0]; exact hin_p_1_0 A d L hP _ _ (k.val + 1) hk1' hSV1 x
  have hinE11 : ∀ x, ((lst eixV (k1_off53 k) (k1_off53_inb k hcond10)).view.read (Elt F)
      ((slot1 eixV).view.writes (Elt F) e' [⟨Rect.whole S512, idsPayAt d L eidV (A.eid d) (idsOff L (k.val + 1)) (idsInb L (k.val + 1) hk1')⟩]) x).toNat
        < S100000x128.size gathers_S100000x128_S128x128.axis :=
    fun x => by rw [z_lst_read_congr d L eixV e53 _ linb_1_128]; exact hin_e_1_128 A d L hE _ _ (k.val + 1) hk1' hSV1 x
  have hinP11 : ∀ x, ((lst pixV (k1_off53 k) (k1_off53_inb k hcond10)).view.read (Elt F)
      ((slot1 pixV).view.writes (Elt F) p' [⟨Rect.whole S512, idsPayAt d L pidV (A.pid d) (idsOff L (k.val + 1)) (idsInb L (k.val + 1) hk1')⟩]) x).toNat
        < S1000x128.size gathers_S1000x128_S128x128.axis :=
    fun x => by rw [z_lst_read_congr d L pixV e53 _ linb_1_128]; exact hin_p_1_128 A d L hP _ _ (k.val + 1) hk1' hSV1 x
  ihave Hbat2 := (Entails.of_eq (show (Transfers.Batched countersEmb (thr d L) (SemLoc.dma (9 : DmaSem sig)) (default : HIx 1) 16384 2 _ 0 : sProp 𝕄)
      = Transfers.Batched countersEmb (thr d L) (SemLoc.dma (z_isemAt (k1_off38 k) (k1_off38_inb k hcond7))) (default : HIx 1) 16384 2 _ 0 from by rw [hs38])) $$ Hbat
  sl_exec_parts
  -- slot 1 as delivered, seen as the id scratch less slot 0
  ihave Heix4 := (Entails.of_eq (show (((slot1 eixV).view.loc (thr d L) ↦[(slot1 eixV).view.set]{fullShare} _ : sProp 𝕄))
      = ((eixV).view.loc (thr d L) ↦[Finset.univ \ (slot0 eixV).view.set]{fullShare} _) from by rw [slot1_eq_compl_e])) $$ Hbat2_dst0
  ihave Hpix4 := (Entails.of_eq (show (((slot1 pixV).view.loc (thr d L) ↦[(slot1 pixV).view.set]{fullShare} _ : sProp 𝕄))
      = ((pixV).view.loc (thr d L) ↦[Finset.univ \ (slot0 pixV).view.set]{fullShare} _) from by rw [slot1_eq_compl_p])) $$ Hbat2_dst1
  sl_exec_parts
  -- slot 0 whole again for the next ids; slot 1's holdings put aside meanwhile
  ihave HeixU := (z_aside_elim (F := F) _) $$ HeixA
  ihave HeixU2 := (Entails.of_eq (show (((eixV).view.loc (thr d L) ↦[((Finset.univ \ (slot1 eixV).view.set) \ (lst eixV ![0, 0] linb_0_0).view.set) \ (lst eixV (k1_off25 k) (k1_off25_inb k hcond5)).view.set]{fullShare} e : sProp 𝕄))
      = ((eixV).view.loc (thr d L) ↦[((Finset.univ \ (slot1 eixV).view.set) \ (lst eixV ![0, 0] linb_0_0).view.set) \ (lst eixV ![0, 384] linb_0_384).view.set]{fullShare} e) from by
        rw [z_lst_set_congr eixV e25 _ linb_0_384])) $$ HeixU
  ihave Heix3L := (Entails.of_eq (show (((eixV).view.loc (thr d L) ↦[(lst eixV (k1_off25 k) (k1_off25_inb k hcond5)).view.set]{fullShare} e : sProp 𝕄))
      = ((eixV).view.loc (thr d L) ↦[(lst eixV ![0, 384] linb_0_384).view.set]{fullShare} e) from by
        rw [z_lst_set_congr eixV e25 _ linb_0_384])) $$ Heix3
  ihave Hslot0e := (slot0_assemble_e (F := F) d L e) $$ [HeixU2 HE0_dst_and Heix3L]
  · isplitl [HeixU2]; · iexact HeixU2
    isplitl [HE0_dst_and]; · iexact HE0_dst_and
    iexact Heix3L
  ihave HpixU := (z_aside_elim (F := F) _) $$ HpixA
  ihave HpixU2 := (Entails.of_eq (show (((pixV).view.loc (thr d L) ↦[((Finset.univ \ (slot1 pixV).view.set) \ (lst pixV ![0, 0] linb_0_0).view.set) \ (lst pixV (k1_off25 k) (k1_off25_inb k hcond5)).view.set]{fullShare} p : sProp 𝕄))
      = ((pixV).view.loc (thr d L) ↦[((Finset.univ \ (slot1 pixV).view.set) \ (lst pixV ![0, 0] linb_0_0).view.set) \ (lst pixV ![0, 384] linb_0_384).view.set]{fullShare} p) from by
        rw [z_lst_set_congr pixV e25 _ linb_0_384])) $$ HpixU
  ihave Hpix3L := (Entails.of_eq (show (((pixV).view.loc (thr d L) ↦[(lst pixV (k1_off25 k) (k1_off25_inb k hcond5)).view.set]{fullShare} p : sProp 𝕄))
      = ((pixV).view.loc (thr d L) ↦[(lst pixV ![0, 384] linb_0_384).view.set]{fullShare} p) from by
        rw [z_lst_set_congr pixV e25 _ linb_0_384])) $$ Hpix3
  ihave Hslot0p := (slot0_assemble_p (F := F) d L p) $$ [HpixU2 HP0_dst_and Hpix3L]
  · isplitl [HpixU2]; · iexact HpixU2
    isplitl [HP0_dst_and]; · iexact HP0_dst_and
    iexact Hpix3L
  ihave Hslot0e' := (Entails.of_eq (z_slotPts_congr (F := F) d L eixV e42.symm inb_S2x512_S1x512_0_0 (k1_off42_inb k hcond9) e)) $$ Hslot0e
  ihave Hslot0p' := (Entails.of_eq (z_slotPts_congr (F := F) d L pixV e42.symm inb_S2x512_S1x512_0_0 (k1_off42_inb k hcond9) p)) $$ Hslot0p
  ihave Heix4A := (z_aside_intro (F := F) _) $$ Heix4
  ihave Hpix4A := (z_aside_intro (F := F) _) $$ Hpix4
  ihave Hs8' := (Entails.of_eq (show ((semVal (cellOf d L 8) 0 : sProp 𝕄)) = semVal (thr d L, SemLoc.dma (z_isemAt (k1_off44 k) (k1_off44_inb k hcond9))) 0 from by rw [hs44])) $$ Hs8
  sl_exec_parts
  -- the fourth chunk's sums
  ihave Heix4 := (z_aside_elim (F := F) _) $$ Heix4A
  ihave Hpix4 := (z_aside_elim (F := F) _) $$ Hpix4A
  ihave Heb2 := (join1_e_of (F := F) d L restA_e _ _) $$ [Heb Heb_2]
  · isplitl [Heb] <;> iassumption
  ihave Hpb2 := (join1_p_of (F := F) d L restA_p _ _) $$ [Hpb Hpb_2]
  · isplitl [Hpb] <;> iassumption
  ihave Hob2 := (join1_o_of (F := F) d L restA_o _ _) $$ [Hob Hob_2]
  · isplitl [Hob] <;> iassumption
  iapply (Add.addLoop_sub3 (F := F) d L v2 k _ _ _ _ _ (Or.inr rfl) (Or.inr rfl) (Or.inr rfl) _ _ _ _ _)
  isplitl [Heb2]; · iexact Heb2
  isplitl [Hpb2]; · iexact Hpb2
  isplitl [Hob2]; · iexact Hob2
  iintro ⟨Heb, Hpb, Hob⟩
  sl_exec_parts
  -- the trip's end: the pieces are the next trip's
  sl_step
  iintro Hrest
  have hL1 := listsOK1_of_slotVals A d L hE hP _ _ (k.val + 1) hk1' hSV1
  iapply (close_zeroK A d L q1 q2 r1 r2 qi O W k.val hkz hk1' hk2' hc0 hc1 hc2 hc3 _ _ e p _ _ _ _ _ _ _ _ _ hL1 hSV1 _ ?hW)
  swap
  unfold zeroPostK
  isplitr; · iexact Hmw
  isplitl [HE0]
  · iapply (z_ev_flightE_off A d L 10 (hlf0 ebV) e39 (k1_off39_inb k hcond7) linb_1_0 q1 _ _ hinE10 hL1.1); iexact HE0
  isplitl [HE1]
  · iapply (z_ev_flightE_off A d L 11 (hlf1 ebV) e53 (k1_off53_inb k hcond10) linb_1_128 q2 _ _ hinE11 hL1.2.1); iexact HE1
  isplitl [HP0]
  · iapply (z_ev_flightP_off A d L 12 (hlf0 pbV) e39 (k1_off39_inb k hcond7) linb_1_0 r1 _ _ hinP10 hL1.2.2.1); iexact HP0
  isplitl [HP1]
  · iapply (z_ev_flightP_off A d L 13 (hlf1 pbV) e53 (k1_off53_inb k hcond10) linb_1_128 r2 _ _ hinP11 hL1.2.2.2); iexact HP1
  isplitl [Hte1]; · iexact Hte1
  isplitl [Hte2]; · iexact Hte2
  isplitl [Hsh1]; · iexact Hsh1
  isplitl [Hsh2]; · iexact Hsh2
  isplitl [Heix4]
  · rw [slot1_eq_compl_e, ← z_lst_set_congr eixV e39 (k1_off39_inb k hcond7) linb_1_0, ← z_lst_set_congr eixV e53 (k1_off53_inb k hcond10) linb_1_128]
    iexact Heix4
  isplitl [Hpix4]
  · rw [slot1_eq_compl_p, ← z_lst_set_congr pixV e39 (k1_off39_inb k hcond7) linb_1_0, ← z_lst_set_congr pixV e53 (k1_off53_inb k hcond10) linb_1_128]
    iexact Hpix4
  isplitl [Heb]; · rw [← restB_e]; iexact Heb
  isplitl [Hpb]; · rw [← restB_p]; iexact Hpb
  isplitl [Hs8']
  · rw [← idsPayAt_congr d L eidV (A.eid d) (z_ev_off43 L k) (k1_off43_inb L k hcond9) (idsInb L (k.val + 1 + 1) hk2'),
      ← idsPayAt_congr d L pidV (A.pid d) (z_ev_off43 L k) (k1_off43_inb L k hcond9) (idsInb L (k.val + 1 + 1) hk2'),
      ← z_ev_batch_congr A d L qi hs44 e42 (k1_off42_inb k hcond9) inb_S2x512_S1x512_0_0 (z_ev_off43 L k) (k1_off43_inb L k hcond9) (idsInb L (k.val + 1 + 1) hk2')]
    iexact Hs8'
  isplitl [Heidr Hpidr]
  · rw [← idsRest_congr A d L qi (z_ev_off43 L k) (k1_off43_inb L k hcond9) (idsInb L (k.val + 1 + 1) hk2')]
    unfold idsRest
    isplitl [Heidr]; · iexact Heidr
    iexact Hpidr
  isplitl [Hbat2]
  · iapply (Entails.of_eq (show (semVal (thr d L, SemLoc.dma (z_isemAt (k1_off38 k) (k1_off38_inb k hcond7))) 0 : sProp 𝕄) = semVal (cellOf d L 9) 0 from by rw [hs38]))
    iexact Hbat2
  isplitl [Hc0]
  · iapply (Entails.of_eq (chunk_delivered0 A d L (4 * k.val) hc0 (k1_off13 L k 0#32) (k1_off13_inb L k 0) (z_ev_off13 L k 0) _ _ _ _ _
        ((lst eixV ![0, 0] linb_0_0).view.read (Elt F) e) ((lst pixV ![0, 0] linb_0_0).view.read (Elt F) p) hL.1 hL.2.2.1 rfl
        ((read_piecewise_hlf0 d L ebV _ _).trans (read_write_hlf0 d L ebV _ _)) ((read_piecewise_hlf0 d L pbV _ _).trans (read_write_hlf0 d L pbV _ _))
        (ids_e_0_0 A d L e p k.val k.isLt hSV0) (ids_p_0_0 A d L e p k.val k.isLt hSV0)))
    iexact Hc0
  isplitl [Hc1]
  · iapply (Entails.of_eq (chunk_delivered1 A d L (4 * k.val + 1) hc1 (k1_off13 L k 1#32) (k1_off13_inb L k 1) (z_ev_off13 L k 1) _ _ _ _ _
        ((lst eixV ![0, 128] linb_0_128).view.read (Elt F) e) ((lst pixV ![0, 128] linb_0_128).view.read (Elt F) p) hL.2.1 hL.2.2.2 rfl
        ((read_piecewise_hlf1 d L ebV _ _).trans (read_write_hlf1 d L ebV _ _)) ((read_piecewise_hlf1 d L pbV _ _).trans (read_write_hlf1 d L pbV _ _))
        (ids_e_0_128 A d L e p k.val k.isLt hSV0) (ids_p_0_128 A d L e p k.val k.isLt hSV0)))
    iexact Hc1
  isplitl [Hs14]
  · iapply (Entails.of_eq (flight_delivered0 A d L 14 (4 * k.val + 2) hc2 (k1_off13 L k 2#32) (k1_off13_inb L k 2) (z_ev_off13 L k 2) _ _ _ _ _
        ((lst eixV (k1_off14 k) (k1_off14_inb k hcond3)).view.read (Elt F) e) ((lst pixV (k1_off14 k) (k1_off14_inb k hcond3)).view.read (Elt F) p) hinE2 hinP2 rfl
        ((read_piecewise_hlf0 d L ebV _ _).trans (read_write_hlf0 d L ebV _ _)) ((read_piecewise_hlf0 d L pbV _ _).trans (read_write_hlf0 d L pbV _ _))
        (fun x => by rw [z_lst_read_congr d L eixV e14 _ linb_0_256]; exact ids_e_0_256 A d L e p k.val k.isLt hSV0 x)
        (fun x => by rw [z_lst_read_congr d L pixV e14 _ linb_0_256]; exact ids_p_0_256 A d L e p k.val k.isLt hSV0 x)))
    iexact Hs14
  isplitl [Hs15]
  · iapply (Entails.of_eq (flight_delivered1 A d L 15 (4 * k.val + 3) hc3 (k1_off13 L k 3#32) (k1_off13_inb L k 3) (z_ev_off13 L k 3) _ _ _ _ _
        ((lst eixV (k1_off25 k) (k1_off25_inb k hcond5)).view.read (Elt F) e) ((lst pixV (k1_off25 k) (k1_off25_inb k hcond5)).view.read (Elt F) p) hinE3 hinP3 rfl
        ((read_piecewise_hlf1 d L ebV _ _).trans (read_write_hlf1 d L ebV _ _)) ((read_piecewise_hlf1 d L pbV _ _).trans (read_write_hlf1 d L pbV _ _))
        (fun x => by rw [z_lst_read_congr d L eixV e25 _ linb_0_384]; exact ids_e_0_384 A d L e p k.val k.isLt hSV0 x)
        (fun x => by rw [z_lst_read_congr d L pixV e25 _ linb_0_384]; exact ids_p_0_384 A d L e p k.val k.isLt hSV0 x)))
    iexact Hs15
  isplitl [Hob]; · rw [← restB_o]; iexact Hob
  isplitl [Hrest]; · iexact Hrest
  iexact HO
  case hW => repeat (first | exact (fun x hx => Or.inl hx) | refine z_ev_W_ins _ rfl ?_)

omit [FloatOps F] in
/-- A chunk window at an equal offset is the chunk. -/
theorem z_chunk_congr (n : ℕ) (hn : n < 200) (off : Fin 2 → ℕ) (hoff : ∀ a, off a + S128x128.size a ≤ S819200x128.size a)
    (eoff : off = chunkOff L n) (f : Buf (Elt F) ((outV).view.loc (thr d L))) :
    chunkPt d L n hn f = z_chunkWin d L off hoff f := by
  subst eoff; rfl

/-- The invariant's recorded waits may be counted against a larger set. -/
theorem z_inv_mono (O : CellTallies nD τ sig (HIx 1)) (W W' : Waits sig (HIx 1)) (hW : ∀ x ∈ W', x ∈ W ∨ x.2 = none) (k : ℕ) :
    inv A d L q1 q2 r1 r2 qi O W' k (PUnit.unit : PUnit.{1}) ⊢ inv A d L q1 q2 r1 r2 qi O W k (PUnit.unit : PUnit.{1}) := by
  unfold inv
  iintro ⟨H1, H2, H3, H4, ⟨%W'', %h, HO⟩⟩
  isplitl [H1]; · iexact H1
  isplitl [H2]; · iexact H2
  isplitl [H3]; · iexact H3
  isplitl [H4]; · iexact H4
  iexists W''
  isplitr
  · ipureintro
    intro x hx
    rcases h x hx with h1 | h1
    · exact hW x h1
    · exact Or.inr h1
  iexact HO

set_option maxHeartbeats 4000000 in
/-- THE FIRST TRIP of the tile's loop. -/
theorem trip_zero (hE : ∀ j, (A.eid d j).toNat < 100000) (hP : ∀ j, (A.pid d j).toNat < 1000) (v2 : BitVec 32)
    (O : CellTallies nD τ sig (HIx 1)) (W : Waits sig (HIx 1)) (hk : 0 < 50) :
    inv A d L q1 q2 r1 r2 qi O W 0 PUnit.unit
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 ⟨0, hk⟩ ())
          (fun _ => inv A d L q1 q2 r1 r2 qi O W (0 + 1) PUnit.unit) := by
  have h01 : 0 + 1 < 50 := by decide
  have h0 : 0 < 200 := by decide
  have h1 : 1 < 200 := by decide
  have h2 : 2 < 200 := by decide
  have h3 : 3 < 200 := by decide
  refine (open_zero A d L q1 q2 r1 r2 qi O W hk h01 h0 h1 h2 h3).trans ?_
  iintro ⟨%e, %p, %e', %p', %fe0, %fe1, %fp0, %fp1, %feR, %fpR, %foW, %hL, %W', %hpure, Hpre⟩
  unfold zeroPre
  icases Hpre with ⟨Hmw, HE0, HE1, HP0, HP1, Hte1, Hte2, Hsh1, Hsh2, Heix, Hpix, Heb, Hpb, Hbat, Hidr, Hs8, Hc0, Hc1, Hc2, Hc3, Hob, Hs14, Hs15, Hrest, HO⟩
  iapply (wp_wand_r frame (wpE (defs₀ (F := F)) 𝒱₀ (thr d L) none) Set.univ)
  isplitr [Hrest]
  · iapply (z_core A d L q1 q2 r1 r2 qi v2 ⟨0, hk⟩ rfl h01 O W' e p e' p' fe0 fe1 fp0 fp1 feR fpR foW hL.down hpure.1 hE hP
      (hin_e_0_256 A d L hE e p 0 hk hpure.1) (hin_e_0_384 A d L hE e p 0 hk hpure.1) (hin_p_0_256 A d L hP e p 0 hk hpure.1) (hin_p_0_384 A d L hP e p 0 hk hpure.1)
      (by show 0 + 1 + 1 < 50; omega) (by show 4 * 0 < 200; omega) (by show 4 * 0 + 1 < 200; omega) (by show 4 * 0 + 2 < 200; omega) (by show 4 * 0 + 3 < 200; omega))
    isplitl [Hmw]; · iexact Hmw
    isplitl [HE0]; · iexact HE0
    isplitl [HE1]; · iexact HE1
    isplitl [HP0]; · iexact HP0
    isplitl [HP1]; · iexact HP1
    isplitl [Hte1]; · iexact Hte1
    isplitl [Hte2]; · iexact Hte2
    isplitl [Hsh1]; · iexact Hsh1
    isplitl [Hsh2]; · iexact Hsh2
    isplitl [Heix]; · iexact Heix
    isplitl [Hpix]; · iexact Hpix
    isplitl [Heb]; · iexact Heb
    isplitl [Hpb]; · iexact Hpb
    isplitl [Hbat]; · iexact Hbat
    isplitl [Hidr]; · iexact Hidr
    isplitl [Hs8]; · iexact Hs8
    isplitl [Hc0]; · iapply (Entails.of_eq (z_chunk_congr (F := F) d L 0 h0 _ _ (z_ev_off13 L ⟨0, hk⟩ 0) (A.out0 d))); iexact Hc0
    isplitl [Hc1]; · iapply (Entails.of_eq (z_chunk_congr (F := F) d L 1 h1 _ _ (z_ev_off13 L ⟨0, hk⟩ 1) (A.out0 d))); iexact Hc1
    isplitl [Hc2]; · iapply (Entails.of_eq (z_chunk_congr (F := F) d L 2 h2 _ _ (z_ev_off13 L ⟨0, hk⟩ 2) (A.out0 d))); iexact Hc2
    isplitl [Hc3]; · iapply (Entails.of_eq (z_chunk_congr (F := F) d L 3 h3 _ _ (z_ev_off13 L ⟨0, hk⟩ 3) (A.out0 d))); iexact Hc3
    isplitl [Hob]; · iexact Hob
    isplitl [Hs14]; · iexact Hs14
    isplitl [Hs15]; · iexact Hs15
    iexact HO
  · iintro %_ Hw
    iapply (z_inv_mono A d L q1 q2 r1 r2 qi O W W' hpure.2 (0 + 1))
    iapply Hw
    iexact Hrest

end Cert.Kernel.Run.Sc

end
-- ==== Proof.ScTripRunBits.lean ====
/-
  One trip of the tile's loop, whatever the trip: the first, an even or an odd one in the middle, the last even one
  (which fetches no ids), the last.
-/
import proofs.«204385_g66649302499670_cont_9to1c4b_43_34_alg».proof.Proof.ScTripEvenBits
import proofs.«204385_g66649302499670_cont_9to1c4b_43_34_alg».proof.Proof.ScTripEvenLastBits
import proofs.«204385_g66649302499670_cont_9to1c4b_43_34_alg».proof.Proof.ScTripOddBits
import proofs.«204385_g66649302499670_cont_9to1c4b_43_34_alg».proof.Proof.ScTripLastBits
import proofs.«204385_g66649302499670_cont_9to1c4b_43_34_alg».proof.Proof.ScTripZeroBits

noncomputable section

namespace Cert.Kernel.Run.Sc

open Cert.Kernel Cert.Kernel.Gen Cert.Kernel.Run

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

local notation "teV" => (Memref.whole Cert.Kernel.main_v3_0_scv : Memref Cert.Kernel.sig Kind.scVector Space.hbm Cert.Kernel.S100000x128 EltTy.f32)
local notation "tpV" => (Memref.whole Cert.Kernel.main_v3_1_scv : Memref Cert.Kernel.sig Kind.scVector Space.hbm Cert.Kernel.S1000x128 EltTy.f32)
local notation "eidV" => (Memref.whole Cert.Kernel.main_v0_scv : Memref Cert.Kernel.sig Kind.scVector Space.hbm Cert.Kernel.S819200 EltTy.i32)
local notation "pidV" => (Memref.whole Cert.Kernel.main_v1_scv : Memref Cert.Kernel.sig Kind.scVector Space.hbm Cert.Kernel.S819200 EltTy.i32)
local notation "outV" => (Memref.whole Cert.Kernel.main_v4_scv : Memref Cert.Kernel.sig Kind.scVector Space.hbm Cert.Kernel.S819200x128 EltTy.f32)
local notation "eixV" => (Memref.whole Cert.Kernel.cc1_scratch0 : Memref Cert.Kernel.sig Kind.scVector Space.vmem Cert.Kernel.S2x512 EltTy.i32)
local notation "pixV" => (Memref.whole Cert.Kernel.cc1_scratch1 : Memref Cert.Kernel.sig Kind.scVector Space.vmem Cert.Kernel.S2x512 EltTy.i32)
local notation "ebV" => (Memref.whole Cert.Kernel.cc1_scratch2 : Memref Cert.Kernel.sig Kind.scVector Space.vmem Cert.Kernel.S2x128x128 EltTy.f32)
local notation "pbV" => (Memref.whole Cert.Kernel.cc1_scratch3 : Memref Cert.Kernel.sig Kind.scVector Space.vmem Cert.Kernel.S2x128x128 EltTy.f32)
local notation "obV" => (Memref.whole Cert.Kernel.cc1_scratch4 : Memref Cert.Kernel.sig Kind.scVector Space.vmem Cert.Kernel.S2x128x128 EltTy.f32)
local notation "shV" => (Memref.whole Cert.Kernel.cc1_scratch5 : Memref Cert.Kernel.sig Kind.scVector Space.shared Cert.Kernel.S1000x128 EltTy.f32)

variable [FloatOps F] (A : Vals F) (d : Dev nD) (L : grid1.Coords) (q1 q2 r1 r2 qi : PosShare TreeShare)

theorem trip_run (hE : ∀ j, (A.eid d j).toNat < 100000) (hP : ∀ j, (A.pid d j).toNat < 1000) (v2 : BitVec 32)
    (O : CellTallies nD τ sig (HIx 1)) (W : Waits sig (HIx 1)) (k : ℕ) (hk : k < 50) :
    inv A d L q1 q2 r1 r2 qi O W k PUnit.unit
      ⊢ wp frame (wpE (defs₀ (F := F)) 𝒱₀ (thr d L) none) Set.univ
          (k1_t1_body (F := F) L teV (Memref.isWhole_whole _) tpV (Memref.isWhole_whole _) eidV (Memref.isWhole_whole _) pidV (Memref.isWhole_whole _)
            outV (Memref.isWhole_whole _) eixV (Memref.isWhole_whole _) pixV (Memref.isWhole_whole _) ebV (Memref.isWhole_whole _)
            pbV (Memref.isWhole_whole _) obV (Memref.isWhole_whole _) shV (Memref.isWhole_whole _)
            cc1_scratch6 cc1_scratch7 cc1_scratch8 cc1_scratch9 cc1_scoped0 cc1_scoped1 cc1_scoped2 v2 ⟨k, hk⟩ ())
          (fun _ => inv A d L q1 q2 r1 r2 qi O W (k + 1) PUnit.unit) := by
  rcases Nat.mod_two_eq_zero_or_one k with h0 | h1
  · by_cases hz : k = 0
    · subst hz; exact trip_zero A d L q1 q2 r1 r2 qi hE hP v2 O W hk
    · by_cases h48 : k < 48
      · exact trip_even A d L q1 q2 r1 r2 qi hE hP v2 O W k hk h0 (by omega) h48
      · exact trip_even_last A d L q1 q2 r1 r2 qi hE hP v2 O W k hk h0 (by omega)
  · by_cases h49 : k < 49
    · exact trip_odd A d L q1 q2 r1 r2 qi hE hP v2 O W k hk h1 h49
    · exact trip_last A d L q1 q2 r1 r2 qi hE hP v2 O W k hk h1 (by omega)

end Cert.Kernel.Run.Sc

end
-- ==== Proof.LibNtMatmul.lean ====
/-
  A matrix product with the right operand contracted on its LAST axis, read at an index, at the ideal values.

  For the dimension numbers of the product of an `M × K` matrix by the transpose of an `N × K` matrix (contract axis 1
  of both operands, no batch axis), the product accumulated into the zero matrix is, at row `r` and column `e`, the sum
  over `k < K` of `lhs (r, k) * rhs (e, k)` on the extended reals, whatever float formats label the two operands (every
  format is the extended reals there). Stated over literal-size coordinates (`ix2 r e`) so that it applies to a printed
  product by unification; a printed record of dimension numbers with the lists [1], [1], [0], [0], [], [] is
  `DotDims.transposedRhs M K N` up to the proof of its well-formedness, which is irrelevant.
-/
import Idealize.ShloMosaic.Lib.ValueIdx
import Idealize.ShloMosaic.PureOps.Ideal.Laws

noncomputable section

namespace Idealize.ShloMosaic.NtMatmul

open Idealize.ShloMosaic Idealize.ShloMosaic.ValueIdx

/-- The contraction shape has one axis, of extent `K`. -/
theorem contr_rank (M K N : ℕ) : (DotDims.transposedRhs M K N).contr.rank = 1 := rfl

theorem contr_size (M K N : ℕ) : (DotDims.transposedRhs M K N).contr.size ⟨0, by rw [contr_rank]; exact Nat.one_pos⟩ = K := rfl

theorem lhs_val0 (M K N : ℕ) (j : (⟨2, ![M, N]⟩ : Shape).Idx) (q : (DotDims.transposedRhs M K N).contr.Idx) :
    ((DotDims.transposedRhs M K N).lhsIdx j q 0).val = (j 0).val := rfl
theorem lhs_val1 (M K N : ℕ) (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q
theorem rhs_val0 (M K N : ℕ) (j : (⟨2, ![M, N]⟩ : Shape).Idx) (q : (DotDims.transposedRhs M K N).contr.Idx) :
    ((DotDims.transposedRhs M K N).rhsIdx j q 0).val = (j 1).val := rfl
theorem rhs_val1 (M K N : ℕ) (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- At output `(r, e)` and contraction coordinate `k` the left operand is read at `(r, k)` and the right at `(e, k)`. -/
theorem lhsIdx_eq (M K N : ℕ) (r : Fin M) (e : Fin N) (k : Fin K) :
    (DotDims.transposedRhs M K N).lhsIdx (ix2 r e) ((contrEquiv1 (DotDims.transposedRhs M K N) K (contr_rank M K N) (contr_size M K N)).symm k) = ix2 r k := by
  have hk := contrEquiv1_symm_val (DotDims.transposedRhs M K N) K (contr_rank M K N) (contr_size M K N) k
  funext a
  refine Fin.ext ?_
  match a with
  | ⟨0, _⟩ => exact lhs_val0 M K N _ _
  | ⟨1, _⟩ => exact (lhs_val1 M K N _ _).trans hk

theorem rhsIdx_eq (M K N : ℕ) (r : Fin M) (e : Fin N) (k : Fin K) :
    (DotDims.transposedRhs M K N).rhsIdx (ix2 r e) ((contrEquiv1 (DotDims.transposedRhs M K N) K (contr_rank M K N) (contr_size M K N)).symm k) = ix2 e k := by
  have hk := contrEquiv1_symm_val (DotDims.transposedRhs M K N) K (contr_rank M K N) (contr_size M K N) k
  funext a
  refine Fin.ext ?_
  match a with
  | ⟨0, _⟩ => exact rhs_val0 M K N _ _
  | ⟨1, _⟩ => exact (rhs_val1 M K N _ _).trans hk

/-- The product into the zero matrix, at `(r, e)`: the sum over the shared last axis of the operands' products. -/
theorem matmul_zero_apply_fmt {φ₁ φ₂ : FTy} (M K N : ℕ) (prec : Option ContractPrecision)
    (lhs : FVec Ideal ⟨2, ![M, K]⟩ φ₁) (rhs : FVec Ideal ⟨2, ![N, K]⟩ φ₂) (r : Fin M) (e : Fin N) :
    matmul (DotDims.transposedRhs M K N) prec lhs rhs (constant (F := Ideal) ⟨2, ![M, N]⟩ .f32 0x00000000#32) (ix2 r e)
      = ∑ k : Fin K, lhs (ix2 r k) * rhs (ix2 e k) := by
  show FloatOps.matmul (DotDims.transposedRhs M K N) prec lhs rhs (constant (F := Ideal) ⟨2, ![M, N]⟩ .f32 0x00000000#32) (ix2 r e) = _
  rw [Ideal.matmul_constant_zero_apply, ← Equiv.sum_comp (contrEquiv1 (DotDims.transposedRhs M K N) K (contr_rank M K N) (contr_size M K N)).symm]
  refine Finset.sum_congr rfl fun k _ => ?_
  rw [lhsIdx_eq, rhsIdx_eq]

end Idealize.ShloMosaic.NtMatmul

end
-- ==== Proof.TcIdeal.lean ====
/-
  The two transformed tables at the exact instance, entry by entry.

  At the extended reals a matrix product into the zero matrix is a plain sum of products; the left half of the weight
  matrix is its columns [0, 64) and the right half its columns [64, 128); rows-block `v / 2000`, row `v % 2000` of the
  element table is its row `v`. So the transformed element table at (v, j) is Σ_k element_table[v, k] · W[j, k], and the
  transformed property table at (v, j) is Σ_k property_table[v, k] · W[j, 64 + k] plus the bias at j.
-/
import proofs.«204385_g66649302499670_cont_9to1c4b_43_34_alg».proof.Proof.TcDat
import proofs.«204385_g66649302499670_cont_9to1c4b_43_34_alg».proof.Proof.LibNtMatmul
import proofs.«204385_g66649302499670_cont_9to1c4b_43_34_alg».proof.Proof.Spec
import Idealize.ShloMosaic.Lib.ValueLayout
import Idealize.ShloMosaic.Lib.Pipeline.Value
import Idealize.ShloMosaic.PureOps.Ideal.Laws

set_option maxRecDepth 16384

noncomputable section

namespace Cert.KernelIdeal.Run.Tc

open Cert.KernelIdeal Cert.KernelIdeal.Gen
open Idealize.ShloMosaic Idealize.ShloMosaic.ValueIdx
open scoped BigOperators

/-! ## The two halves of the weight matrix and the rows of the element table, at an index -/

theorem wLeft_apply (w : Vec Ideal S128x128 .f32) (e : Fin 128) (k : Fin 64) :
    wLeft (F := Ideal) w (ix2 e k) = w (ix2 e (k.castLE (by decide))) := by
  show w _ = w _
  refine congrArg w ?_
  funext a; apply Fin.ext
  match a with
  | ⟨0, _⟩ => show 0 + 1 * e.val = e.val; omega
  | ⟨1, _⟩ => show 0 + 1 * k.val = k.val; omega

theorem wRight_apply (w : Vec Ideal S128x128 .f32) (e : Fin 128) (k : Fin 64) :
    wRight (F := Ideal) w (ix2 e k) = w (ix2 e (⟨64 + k.val, by omega⟩ : Fin 128)) := by
  show w _ = w _
  refine congrArg w ?_
  funext a; apply Fin.ext
  match a with
  | ⟨0, _⟩ => show 0 + 1 * e.val = e.val; omega
  | ⟨1, _⟩ => show 64 + 1 * k.val = 64 + k.val; omega

theorem eRows_apply (etab : Vec Ideal S100000x64 .f32) (t : Fin 50) (r : Fin 2000) (k : Fin 64) :
    eRows (F := Ideal) etab t (ix2 r k) = etab (ix2 (⟨2000 * t.val + r.val, by omega⟩ : Fin 100000) k) := rfl

/-! ## The body's two payloads, at an index -/

/-- The first payload: a product into the zero matrix, contracted on the last axis of both operands. -/
theorem pay1_apply (v0 : Vec Ideal S128x64 .f32) (v1 : Vec Ideal S2000x64 .f32) (r : Fin 2000) (e : Fin 128) :
    k0_pay1 (F := Ideal) v0 v1 (ix2 r e) = ∑ k : Fin 64, v1 (ix2 r k) * v0 (ix2 e k) := by
  unfold k0_pay1
  exact NtMatmul.matmul_zero_apply_fmt 2000 64 128 none v1 v0 r e

/-- The second: such a product plus the one bias row, broadcast over the rows. -/
theorem pay2_apply (v7 : Vec Ideal S128x64 .f32) (v8 : Vec Ideal S1000x64 .f32) (v10 : Vec Ideal S1x128 .f32) (r : Fin 1000) (e : Fin 128) :
    k0_pay2 (F := Ideal) v7 v8 v10 (ix2 r e) = (∑ k : Fin 64, v8 (ix2 r k) * v7 (ix2 e k)) + v10 (ix2 (0 : Fin 1) e) := by
  unfold k0_pay2
  refine (addf_apply _ _ _).trans ?_
  refine congr (congrArg _ (NtMatmul.matmul_zero_apply_fmt 1000 64 128 none v8 v7 r e)) ?_
  refine (broadcastTo_1b_ab_apply _ _ r e).trans ?_
  rw [shapeCast_self]

/-! ## The transformed tables are the specification's -/

/-- The transformed element table, entry by entry. -/
theorem teVal_ideal (etab : Vec Ideal S100000x64 .f32) (w : Vec Ideal S128x128 .f32) (v : Fin 100000) (j : Fin 128) :
    teVal (F := Ideal) etab w (ix2 v j) = Cert.Spec.te etab w v j := by
  have hv : v.val < 100000 := v.isLt
  show k0_pay1 (F := Ideal) (wLeft w) (eRows etab ⟨v.val / 2000, by omega⟩) (ix2 (⟨v.val % 2000, Nat.mod_lt _ (by decide)⟩ : Fin 2000) j) = _
  rw [pay1_apply]
  unfold Cert.Spec.te
  refine Finset.sum_congr rfl fun k _ => ?_
  rw [wLeft_apply, eRows_apply]
  have e : (⟨2000 * (v.val / 2000) + v.val % 2000, by omega⟩ : Fin 100000) = v := Fin.ext (Nat.div_add_mod v.val 2000)
  rw [e]

/-- The transformed property table, entry by entry; `b2` is the bias as one row. -/
theorem tpVal_spec (ptab : Vec Ideal S1000x64 .f32) (w : Vec Ideal S128x128 .f32) (b2 : Vec Ideal S1x128 .f32) (bias : Vec Ideal ⟨1, ![128]⟩ .f32)
    (hb : ∀ j : Fin 128, b2 (ix2 (0 : Fin 1) j) = bias (ix1 j)) (v : Fin 1000) (j : Fin 128) :
    tpVal (F := Ideal) ptab w b2 (ix2 v j) = Cert.Spec.tp ptab w bias v j := by
  unfold tpVal
  rw [pay2_apply, hb]
  unfold Cert.Spec.tp
  refine congrArg (· + bias (ix1 j)) (Finset.sum_congr rfl fun k _ => ?_)
  rw [wRight_apply]

/-- The same with the bias row spelt as the program makes it: the bias vector given a leading unit axis. -/
theorem tpVal_ideal (ptab : Vec Ideal S1000x64 .f32) (w : Vec Ideal S128x128 .f32) (b : Vec Ideal S128 .f32) (v : Fin 1000) (j : Fin 128) :
    tpVal ptab w (shapeCast S1x128 b shapeCasts_S128_S1x128) (ix2 v j) = Cert.Spec.tp ptab w b v j :=
  tpVal_spec ptab w (shapeCast S1x128 b shapeCasts_S128_S1x128) b (fun j => shapeCast_a_1a_apply b shapeCasts_S128_S1x128 0 j) v j

end Cert.KernelIdeal.Run.Tc

end
-- ==== Proof.lean ====
/-
  The five claims, assembled.

  The kernel computes, for each of the 819200 positions, the sum of two looked-up rows: row e of the element table
  transformed by the left half of the weight matrix, and row p of the property table transformed by the right half
  with the bias added. The reference looks the two 64-vectors up, lays them side by side and applies the whole
  weight matrix and the bias. On the extended reals the two agree: the 128-term sum splits into its two halves and the
  three summands re-associate.

  The kernel program's run is the launch theorem of SparseCore programs applied to: the tile's task (one proof for
  all 32 tiles: the staging of the property table and the barrier, then a 50-trip loop whose invariant counts which
  gathers, id copies and copy-outs are in flight, each trip run once at a symbolic trip number for its parity and its
  place among the first, the middle and the last trips), the split of a SparseCore's operands among its tiles, the
  launch element of the ghost state, and @main on the TensorCore (reshapes, the TensorCore pipeline that transforms
  the tables, the SparseCore call). Its frame at the word-level instance and at the exact instance are that run with
  the value dropped; the equality with the reference is the run at the exact instance beside the reference's run, both
  results being the specification.
-/
import proofs.«204385_g66649302499670_cont_9to1c4b_43_34_alg».proof.Defs
import proofs.«204385_g66649302499670_cont_9to1c4b_43_34_alg».proof.Proof.Gen.Kernel
import proofs.«204385_g66649302499670_cont_9to1c4b_43_34_alg».proof.Proof.Gen.KernelIdeal
import proofs.«204385_g66649302499670_cont_9to1c4b_43_34_alg».proof.Proof.Gen.ReferenceIdeal
import proofs.«204385_g66649302499670_cont_9to1c4b_43_34_alg».proof.Proof.Gen.Pre_input_domain
import proofs.«204385_g66649302499670_cont_9to1c4b_43_34_alg».proof.Proof.AlgebraicIdeal
import proofs.«204385_g66649302499670_cont_9to1c4b_43_34_alg».proof.Proof.FrameBits
import proofs.«204385_g66649302499670_cont_9to1c4b_43_34_alg».proof.Proof.ScTile
import proofs.«204385_g66649302499670_cont_9to1c4b_43_34_alg».proof.Proof.ScTileBits
import proofs.«204385_g66649302499670_cont_9to1c4b_43_34_alg».proof.Proof.ScTripRun
import proofs.«204385_g66649302499670_cont_9to1c4b_43_34_alg».proof.Proof.ScTripRunBits
import proofs.«204385_g66649302499670_cont_9to1c4b_43_34_alg».proof.Proof.TcIdeal
import Idealize.ShloMosaic.Adequacy
import Idealize.ShloMosaic.Init

noncomputable section

namespace Cert.Proof

open Idealize.ShloMosaic Idealize.SL.Sem

/-- The tile's task of the idealized kernel program, from the trips. -/
theorem tileIdeal (m : (ℓ : Loc Cert.KernelIdeal.nD Cert.KernelIdeal.τ Cert.KernelIdeal.sig) → Buf (Elt Ideal) ℓ)
    (h : Cert.Proof.KI.IdsIn (Cert.KernelIdeal.Run.vals m)) :
    (Cert.KernelIdeal.Run.K (F := Ideal)).TileObl (Cert.KernelIdeal.Run.D (F := Ideal)) Cert.KernelIdeal.Run.𝒱
      (Cert.KernelIdeal.Run.P (Cert.KernelIdeal.Run.vals m)) Cert.KernelIdeal.Run.v₀ 0 :=
  Cert.KernelIdeal.Run.Sc.tileObl (Cert.KernelIdeal.Run.vals m) Cert.KernelIdeal.Run.facts h
    (fun d L q1 q2 r1 r2 qi O' W' v2 => Cert.KernelIdeal.Run.Sc.TripOK.of_nat (Cert.KernelIdeal.Run.vals m) d L q1 q2 r1 r2 qi O' W' v2
      (fun k hk => Cert.KernelIdeal.Run.Sc.trip_run (Cert.KernelIdeal.Run.vals m) d L q1 q2 r1 r2 qi (h.1 d) (h.2 d) v2 O' W' k hk))

/-- The same of the kernel program at the word-level instance. -/
theorem tileBits (m : (ℓ : Loc Cert.Kernel.nD Cert.Kernel.τ Cert.Kernel.sig) → Buf (Elt Bits) ℓ)
    (h : Cert.Proof.KB.IdsIn (Cert.Kernel.Run.vals m)) :
    (Cert.Kernel.Run.K (F := Bits)).TileObl (Cert.Kernel.Run.D (F := Bits)) Cert.Kernel.Run.𝒱
      (Cert.Kernel.Run.P (Cert.Kernel.Run.vals m)) Cert.Kernel.Run.v₀ 0 :=
  Cert.Kernel.Run.Sc.tileObl (Cert.Kernel.Run.vals m) Cert.Kernel.Run.facts h
    (fun d L q1 q2 r1 r2 qi O' W' v2 => Cert.Kernel.Run.Sc.TripOK.of_nat (Cert.Kernel.Run.vals m) d L q1 q2 r1 r2 qi O' W' v2
      (fun k hk => Cert.Kernel.Run.Sc.trip_run (Cert.Kernel.Run.vals m) d L q1 q2 r1 r2 qi (h.1 d) (h.2 d) v2 O' W' k hk))

theorem claim : Cert.Claim := ⟨Cert.Kernel.Gen.facts, Cert.KernelIdeal.Gen.facts, Cert.ReferenceIdeal.Gen.facts, Cert.Pre_input_domain.Gen.facts,
  Cert.Proof.KB.frame_of_tile tileBits,
  Cert.Proof.KI.frame_of_tile tileIdeal,
  Cert.Proof.Ref.frame,
  trivial,
  Cert.Proof.KI.algebraic_of_tile tileIdeal Cert.KernelIdeal.Run.Tc.teVal_ideal Cert.KernelIdeal.Run.Tc.tpVal_ideal⟩

end Cert.Proof

end
